-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16
  ∧ IdealRules.truncf_extf.Statement Cert.KernelIdeal.S400x128 .f32 .bf16

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S10000x3 : Shape := ⟨2, ![10000, 3]⟩
abbrev S10000x32 : Shape := ⟨2, ![10000, 32]⟩
abbrev S3x64 : Shape := ⟨2, ![3, 64]⟩
abbrev S64 : Shape := ⟨1, ![64]⟩
abbrev S64x1 : Shape := ⟨2, ![64, 1]⟩
abbrev S1 : Shape := ⟨1, ![1]⟩
abbrev S5x256x128 : Shape := ⟨3, ![5, 256, 128]⟩
abbrev S5x128 : Shape := ⟨2, ![5, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S10000x32 : S_.BroadcastsInDim S10000x32 (![] : Fin 0 → Fin S10000x32.rank)
  reducesTo_S10000x32_S_d0_1 : S10000x32.ReducesTo [0, 1] S_

variable [Facts]

def fn_part3 {F : FTy → Type} [FloatOps F] (main_arg2 : IVec S10000x32 32) (main_v48 : IVec S_ 1) (main_v50 : IVec S10000x32 1) : IVec S_ 1 :=
  let main_c_19 : IVec S_ 32 := constantI S_ 32 9999#32
  let main_v51 : IVec S10000x32 32 := broadcastInDim S10000x32 ![] bcast_S_S10000x32 main_c_19
  let main_v52 : IVec S10000x32 1 := cmpi .sle main_arg2 main_v51
  let main_v53 : IVec S10000x32 1 := andi main_v50 main_v52
  let main_c_20 : IVec S_ 1 := constantI S_ 1 1#1
  let main_v54 : IVec S_ 1 := (fun x v => Host.reduce IntOp.andi x v reducesTo_S10000x32_S_d0_1 h_S_) main_v53 main_c_20
  let main_v55 : IVec S_ 1 := andi main_v48 main_v54
  main_v55

def fn_part2 {F : FTy → Type} [FloatOps F] (main_arg2 : IVec S10000x32 32) (main_arg8 : FVec F S5x128 .f32) (main_arg9 : FVec F S5x128 .f32) (main_arg10 : FVec F S5x128 .f32) (main_v33 : IVec S_ 1) : IVec S_ 1 :=
  let main_v34 : FVec F S5x128 .f32 := Host.absf main_arg8
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg9
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg10
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_c_18 : IVec S_ 32 := constantI S_ 32 0#32
  let main_v49 : IVec S10000x32 32 := broadcastInDim S10000x32 ![] bcast_S_S10000x32 main_c_18
  let main_v50 : IVec S10000x32 1 := cmpi .sge main_arg2 main_v49
  fn_part3 (F := F) main_arg2 main_v48 main_v50

def fn_part1 {F : FTy → Type} [FloatOps F] (main_arg2 : IVec S10000x32 32) (main_arg5 : FVec F S64x1 .f32) (main_arg6 : FVec F S1 .f32) (main_arg7 : FVec F S5x256x128 .f32) (main_arg8 : FVec F S5x128 .f32) (main_arg9 : FVec F S5x128 .f32) (main_arg10 : FVec F S5x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S5x256x128 .f32 := Host.absf main_arg7
  let main_cst_10 : FVec F S_ .f32 := constant S_ .f32 0x7F800000#32
  let main_v30 : FVec F S5x256x128 .f32 := broadcastInDim S5x256x128 ![] bcast_S_S5x256x128 main_cst_10
  let main_v31 : IVec S5x256x128 1 := cmpf .olt main_v29 main_v30
  let main_c_11 : IVec S_ 1 := constantI S_ 1 1#1
  let main_v32 : IVec S_ 1 := (fun x v => Host.reduce IntOp.andi x v reducesTo_S5x256x128_S_d0_1_2 h_S_) main_v31 main_c_11
  let main_v33 : IVec S_ 1 := andi main_v28 main_v32
  fn_part2 (F := F) main_arg2 main_arg8 main_arg9 main_arg10 main_v33

def fn {F : FTy → Type} [FloatOps F] (main_arg0 : FVec F S10000x128 .f32) (main_arg1 : FVec F S10000x3 .f32) (main_arg2 : IVec S10000x32 32) (main_arg3 : FVec F S3x64 .f32) (main_arg4 : FVec F S64 .f32) (main_arg5 : FVec F S64x1 .f32) (main_arg6 : FVec F S1 .f32) (main_arg7 : FVec F S5x256x128 .f32) (main_arg8 : FVec F S5x128 .f32) (main_arg9 : FVec F S5x128 .f32) (main_arg10 : FVec F S5x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_v13 main_v16
-- ==== Kernel.lean ====
abbrev S10000x128 : Shape := ⟨2, ![10000, 128]⟩
abbrev S10000x3 : Shape := ⟨2, ![10000, 3]⟩
abbrev S10000x32 : Shape := ⟨2, ![10000, 32]⟩
abbrev S3x64 : Shape := ⟨2, ![3, 64]⟩
abbrev S64 : Shape := ⟨1, ![64]⟩
abbrev S64x1 : Shape := ⟨2, ![64, 1]⟩
abbrev S1 : Shape := ⟨1, ![1]⟩
abbrev S5x256x128 : Shape := ⟨3, ![5, 256, 128]⟩
abbrev S5x128 : Shape := ⟨2, ![5, 128]⟩
abbrev S_ : Shape := ⟨0, ![]⟩
abbrev S32x10000 : Shape := ⟨2, ![32, 10000]⟩
abbrev S320000 : Shape := ⟨1, ![320000]⟩
abbrev S8x64 : Shape := ⟨2, ![8, 64]⟩
abbrev S1x64 : Shape := ⟨2, ![1, 64]⟩
abbrev S64x8 : Shape := ⟨2, ![64, 8]⟩
abbrev S5x128x128 : Shape := ⟨3, ![5, 128, 128]⟩
abbrev S5x1x128 : Shape := ⟨3, ![5, 1, 128]⟩
abbrev S320000x128 : Shape := ⟨2, ![320000, 128]⟩
abbrev S10000 : Shape := ⟨1, ![10000]⟩
abbrev S400x128 : Shape := ⟨2, ![400, 128]⟩
abbrev S400 : Shape := ⟨1, ![400]⟩
abbrev S32x10000x128 : Shape := ⟨3, ![32, 10000, 128]⟩
abbrev S32x400x128 : Shape := ⟨3, ![32, 400, 128]⟩
abbrev S400x32 : Shape := ⟨2, ![400, 32]⟩
abbrev S1x400x128 : Shape := ⟨3, ![1, 400, 128]⟩
abbrev S400x1 : Shape := ⟨2, ![400, 1]⟩
abbrev S400x64 : Shape := ⟨2, ![400, 64]⟩
abbrev S400x8 : Shape := ⟨2, ![400, 8]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩

abbrev nBuf : Table → Nat
  | .hbm => 105
  | .local .tc .vmem => 74
  | .local .scVector .vmem => 18
  | _ => 0

abbrev bufTy : (tb : Table) → Fin (nBuf tb) → BufTy
  | .hbm, ⟨0, _⟩ => ⟨S10000x128, .f32⟩
  | .hbm, ⟨1, _⟩ => ⟨S10000x3, .f32⟩
  | .hbm, ⟨2, _⟩ => ⟨S10000x32, .i32⟩
  | .hbm, ⟨3, _⟩ => ⟨S3x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S5x256x128, .f32⟩
  | .hbm, ⟨8, _⟩ => ⟨S5x128, .f32⟩
  | .hbm, ⟨9, _⟩ => ⟨S5x128, .f32⟩
  | .hbm, ⟨10, _⟩ => ⟨S5x128, .f32⟩
  | .hbm, ⟨11, _⟩ => ⟨S_, .f32⟩
  | .hbm, ⟨12, _⟩ => ⟨S10000x128, .f32⟩
  | .hbm, ⟨13, _⟩ => ⟨S_, .i32⟩
  | .hbm, ⟨14, _⟩ => ⟨S1, .i32⟩
  | .hbm, ⟨15, _⟩ => ⟨S10000x128, .f32⟩
  | .hbm, ⟨16, _⟩ => ⟨S32x10000, .i32⟩
  | .hbm, ⟨17, _⟩ => ⟨S320000, .i32⟩
  | .hbm, ⟨18, _⟩ => ⟨S_, .f32⟩
  | .hbm, ⟨19, _⟩ => ⟨S8x64, .f32⟩
  | .hbm, ⟨20, _⟩ => ⟨S_, .i32⟩
  | .hbm, ⟨21, _⟩ => ⟨S1, .i32⟩
  | .hbm, ⟨22, _⟩ => ⟨S8x64, .f32⟩
  | .hbm, ⟨23, _⟩ => ⟨S1x64, .f32⟩
  | .hbm, ⟨24, _⟩ => ⟨S_, .f32⟩
  | .hbm, ⟨25, _⟩ => ⟨S64x8, .f32⟩
  | .hbm, ⟨26, _⟩ => ⟨S_, .i32⟩
  | .hbm, ⟨27, _⟩ => ⟨S1, .i32⟩
  | .hbm, ⟨28, _⟩ => ⟨S64x8, .f32⟩
  | .hbm, ⟨29, _⟩ => ⟨S64x8, .bf16⟩
  | .hbm, ⟨30, _⟩ => ⟨S5x128x128, .f32⟩
  | .hbm, ⟨31, _⟩ => ⟨S5x128x128, .bf16⟩
  | .hbm, ⟨32, _⟩ => ⟨S5x128x128, .f32⟩
  | .hbm, ⟨33, _⟩ => ⟨S5x128x128, .bf16⟩
  | .hbm, ⟨34, _⟩ => ⟨S5x1x128, .f32⟩
  | .hbm, ⟨35, _⟩ => ⟨S5x1x128, .f32⟩
  | .hbm, ⟨36, _⟩ => ⟨S5x1x128, .f32⟩
  | .hbm, ⟨37, _⟩ => ⟨S320000x128, .f32⟩
  | .hbm, ⟨38, _⟩ => ⟨S32x10000x128, .f32⟩
  | .hbm, ⟨39, _⟩ => ⟨S10000x32, .f32⟩
  | .hbm, ⟨40, _⟩ => ⟨S320000x128, .f32⟩
  | .hbm, ⟨41, _⟩ => ⟨S32x10000x128, .f32⟩
  | .hbm, ⟨42, _⟩ => ⟨S1x128x128, .bf16⟩
  | .hbm, ⟨43, _⟩ => ⟨S128x128, .bf16⟩
  | .hbm, ⟨44, _⟩ => ⟨S1x128x128, .bf16⟩
  | .hbm, ⟨45, _⟩ => ⟨S128x128, .bf16⟩
  | .hbm, ⟨46, _⟩ => ⟨S1x1x128, .f32⟩
  | .hbm, ⟨47, _⟩ => ⟨S1x128, .f32⟩
  | .hbm, ⟨48, _⟩ => ⟨S1x1x128, .f32⟩
  | .hbm, ⟨49, _⟩ => ⟨S1x128, .f32⟩
  | .hbm, ⟨50, _⟩ => ⟨S1x1x128, .f32⟩
  | .hbm, ⟨51, _⟩ => ⟨S1x128, .f32⟩
  | .hbm, ⟨52, _⟩ => ⟨S10000x128, .f32⟩
  | .hbm, ⟨53, _⟩ => ⟨S320000x128, .f32⟩
  | .hbm, ⟨54, _⟩ => ⟨S32x10000x128, .f32⟩
  | .hbm, ⟨55, _⟩ => ⟨S1x128x128, .bf16⟩
  | .hbm, ⟨56, _⟩ => ⟨S128x128, .bf16⟩
  | .hbm, ⟨57, _⟩ => ⟨S1x128x128, .bf16⟩
  | .hbm, ⟨58, _⟩ => ⟨S128x128, .bf16⟩
  | .hbm, ⟨59, _⟩ => ⟨S1x1x128, .f32⟩
  | .hbm, ⟨60, _⟩ => ⟨S1x128, .f32⟩
  | .hbm, ⟨61, _⟩ => ⟨S1x1x128, .f32⟩
  | .hbm, ⟨62, _⟩ => ⟨S1x128, .f32⟩
  | .hbm, ⟨63, _⟩ => ⟨S1x1x128, .f32⟩
  | .hbm, ⟨64, _⟩ => ⟨S1x128, .f32⟩
  | .hbm, ⟨65, _⟩ => ⟨S10000x128, .f32⟩
  | .hbm, ⟨66, _⟩ => ⟨S320000x128, .f32⟩
  | .hbm, ⟨67, _⟩ => ⟨S32x10000x128, .f32⟩
  | .hbm, ⟨68, _⟩ => ⟨S1x128x128, .bf16⟩
  | .hbm, ⟨69, _⟩ => ⟨S128x128, .bf16⟩
  | .hbm, ⟨70, _⟩ => ⟨S1x128x128, .bf16⟩
  | .hbm, ⟨71, _⟩ => ⟨S128x128, .bf16⟩
  | .hbm, ⟨72, _⟩ => ⟨S1x1x128, .f32⟩
  | .hbm, ⟨73, _⟩ => ⟨S1x128, .f32⟩
  | .hbm, ⟨74, _⟩ => ⟨S1x1x128, .f32⟩
  | .hbm, ⟨75, _⟩ => ⟨S1x128, .f32⟩
  | .hbm, ⟨76, _⟩ => ⟨S1x1x128, .f32⟩
  | .hbm, ⟨77, _⟩ => ⟨S1x128, .f32⟩
  | .hbm, ⟨78, _⟩ => ⟨S10000x128, .f32⟩
  | .hbm, ⟨79, _⟩ => ⟨S320000x128, .f32⟩
  | .hbm, ⟨80, _⟩ => ⟨S32x10000x128, .f32⟩
  | .hbm, ⟨81, _⟩ => ⟨S1x128x128, .bf16⟩
  | .hbm, ⟨82, _⟩ => ⟨S128x128, .bf16⟩
  | .hbm, ⟨83, _⟩ => ⟨S1x128x128, .bf16⟩
  | .hbm, ⟨84, _⟩ => ⟨S128x128, .bf16⟩
  | .hbm, ⟨85, _⟩ => ⟨S1x1x128, .f32⟩
  | .hbm, ⟨86, _⟩ => ⟨S1x128, .f32⟩
  | .hbm, ⟨87, _⟩ => ⟨S1x1x128, .f32⟩
  | .hbm, ⟨88, _⟩ => ⟨S1x128, .f32⟩
  | .hbm, ⟨89, _⟩ => ⟨S1x1x128, .f32⟩
  | .hbm, ⟨90, _⟩ => ⟨S1x128, .f32⟩
  | .hbm, ⟨91, _⟩ => ⟨S10000x128, .f32⟩
  | .hbm, ⟨92, _⟩ => ⟨S320000x128, .f32⟩
  | .hbm, ⟨93, _⟩ => ⟨S32x10000x128, .f32⟩
  | .hbm, ⟨94, _⟩ => ⟨S1x128x128, .bf16⟩
  | .hbm, ⟨95, _⟩ => ⟨S128x128, .bf16⟩
  | .hbm, ⟨96, _⟩ => ⟨S1x128x128, .bf16⟩
  | .hbm, ⟨97, _⟩ => ⟨S128x128, .bf16⟩
  | .hbm, ⟨98, _⟩ => ⟨S1x1x128, .f32⟩
  | .hbm, ⟨99, _⟩ => ⟨S1x128, .f32⟩
  | .hbm, ⟨100, _⟩ => ⟨S1x1x128, .f32⟩
  | .hbm, ⟨101, _⟩ => ⟨S1x128, .f32⟩
  | .hbm, ⟨102, _⟩ => ⟨S1x1x128, .f32⟩
  | .hbm, ⟨103, _⟩ => ⟨S1x128, .f32⟩
  | .hbm, ⟨104, _⟩ => ⟨S10000x128, .f32⟩
  | .local .tc .vmem, ⟨0, _⟩ => ⟨S32x400x128, .f32⟩
  | .local .tc .vmem, ⟨1, _⟩ => ⟨S32x400x128, .f32⟩
  | .local .tc .vmem, ⟨2, _⟩ => ⟨S400x128, .f32⟩
  | .local .tc .vmem, ⟨3, _⟩ => ⟨S400x128, .f32⟩
  | .local .tc .vmem, ⟨4, _⟩ => ⟨S8x64, .f32⟩
  | .local .tc .vmem, ⟨5, _⟩ => ⟨S1x64, .f32⟩
  | .local .tc .vmem, ⟨6, _⟩ => ⟨S64x8, .bf16⟩
  | .local .tc .vmem, ⟨7, _⟩ => ⟨S400x32, .f32⟩
  | .local .tc .vmem, ⟨8, _⟩ => ⟨S400x32, .f32⟩
  | .local .tc .vmem, ⟨9, _⟩ => ⟨S32x400x128, .f32⟩
  | .local .tc .vmem, ⟨10, _⟩ => ⟨S32x400x128, .f32⟩
  | .local .tc .vmem, ⟨11, _⟩ => ⟨S400x32, .f32⟩
  | .local .tc .vmem, ⟨12, _⟩ => ⟨S400x32, .f32⟩
  | .local .tc .vmem, ⟨13, _⟩ => ⟨S400x128, .f32⟩
  | .local .tc .vmem, ⟨14, _⟩ => ⟨S400x128, .f32⟩
  | .local .tc .vmem, ⟨15, _⟩ => ⟨S128x128, .bf16⟩
  | .local .tc .vmem, ⟨16, _⟩ => ⟨S128x128, .bf16⟩
  | .local .tc .vmem, ⟨17, _⟩ => ⟨S1x128, .f32⟩
  | .local .tc .vmem, ⟨18, _⟩ => ⟨S1x128, .f32⟩
  | .local .tc .vmem, ⟨19, _⟩ => ⟨S1x128, .f32⟩
  | .local .tc .vmem, ⟨20, _⟩ => ⟨S400x128, .f32⟩
  | .local .tc .vmem, ⟨21, _⟩ => ⟨S400x128, .f32⟩
  | .local .tc .vmem, ⟨22, _⟩ => ⟨S32x400x128, .f32⟩
  | .local .tc .vmem, ⟨23, _⟩ => ⟨S32x400x128, .f32⟩
  | .local .tc .vmem, ⟨24, _⟩ => ⟨S400x32, .f32⟩
  | .local .tc .vmem, ⟨25, _⟩ => ⟨S400x32, .f32⟩
  | .local .tc .vmem, ⟨26, _⟩ => ⟨S400x128, .f32⟩
  | .local .tc .vmem, ⟨27, _⟩ => ⟨S400x128, .f32⟩
  | .local .tc .vmem, ⟨28, _⟩ => ⟨S128x128, .bf16⟩
  | .local .tc .vmem, ⟨29, _⟩ => ⟨S128x128, .bf16⟩
  | .local .tc .vmem, ⟨30, _⟩ => ⟨S1x128, .f32⟩
  | .local .tc .vmem, ⟨31, _⟩ => ⟨S1x128, .f32⟩
  | .local .tc .vmem, ⟨32, _⟩ => ⟨S1x128, .f32⟩
  | .local .tc .vmem, ⟨33, _⟩ => ⟨S400x128, .f32⟩
  | .local .tc .vmem, ⟨34, _⟩ => ⟨S400x128, .f32⟩
  | .local .tc .vmem, ⟨35, _⟩ => ⟨S32x400x128, .f32⟩
  | .local .tc .vmem, ⟨36, _⟩ => ⟨S32x400x128, .f32⟩
  | .local .tc .vmem, ⟨37, _⟩ => ⟨S400x32, .f32⟩
  | .local .tc .vmem, ⟨38, _⟩ => ⟨S400x32, .f32⟩
  | .local .tc .vmem, ⟨39, _⟩ => ⟨S400x128, .f32⟩
  | .local .tc .vmem, ⟨40, _⟩ => ⟨S400x128, .f32⟩
  | .local .tc .vmem, ⟨41, _⟩ => ⟨S128x128, .bf16⟩
  | .local .tc .vmem, ⟨42, _⟩ => ⟨S128x128, .bf16⟩
  | .local .tc .vmem, ⟨43, _⟩ => ⟨S1x128, .f32⟩
  | .local .tc .vmem, ⟨44, _⟩ => ⟨S1x128, .f32⟩
  | .local .tc .vmem, ⟨45, _⟩ => ⟨S1x128, .f32⟩
  | .local .tc .vmem, ⟨46, _⟩ => ⟨S400x128, .f32⟩
  | .local .tc .vmem, ⟨47, _⟩ => ⟨S400x128, .f32⟩
  | .local .tc .vmem, ⟨48, _⟩ => ⟨S32x400x128, .f32⟩
  | .local .tc .vmem, ⟨49, _⟩ => ⟨S32x400x128, .f32⟩
  | .local .tc .vmem, ⟨50, _⟩ => ⟨S400x32, .f32⟩
  | .local .tc .vmem, ⟨51, _⟩ => ⟨S400x32, .f32⟩
  | .local .tc .vmem, ⟨52, _⟩ => ⟨S400x128, .f32⟩
  | .local .tc .vmem, ⟨53, _⟩ => ⟨S400x128, .f32⟩
  | .local .tc .vmem, ⟨54, _⟩ => ⟨S128x128, .bf16⟩
  | .local .tc .vmem, ⟨55, _⟩ => ⟨S128x128, .bf16⟩
  | .local .tc .vmem, ⟨56, _⟩ => ⟨S1x128, .f32⟩
  | .local .tc .vmem, ⟨57, _⟩ => ⟨S1x128, .f32⟩
  | .local .tc .vmem, ⟨58, _⟩ => ⟨S1x128, .f32⟩
  | .local .tc .vmem, ⟨59, _⟩ => ⟨S400x128, .f32⟩
  | .local .tc .vmem, ⟨60, _⟩ => ⟨S400x128, .f32⟩
  | .local .tc .vmem, ⟨61, _⟩ => ⟨S32x400x128, .f32⟩
  | .local .tc .vmem, ⟨62, _⟩ => ⟨S32x400x128, .f32⟩
  | .local .tc .vmem, ⟨63, _⟩ => ⟨S400x32, .f32⟩
  | .local .tc .vmem, ⟨64, _⟩ => ⟨S400x32, .f32⟩
  | .local .tc .vmem, ⟨65, _⟩ => ⟨S400x128, .f32⟩
  | .local .tc .vmem, ⟨66, _⟩ => ⟨S400x128, .f32⟩
  | .local .tc .vmem, ⟨67, _⟩ => ⟨S128x128, .bf16⟩
  | .local .tc .vmem, ⟨68, _⟩ => ⟨S128x128, .bf16⟩
  | .local .tc .vmem, ⟨69, _⟩ => ⟨S1x128, .f32⟩
  | .local .tc .vmem, ⟨70, _⟩ => ⟨S1x128, .f32⟩
  | .local .tc .vmem, ⟨71, _⟩ => ⟨S1x128, .f32⟩
  | .local .tc .vmem, ⟨72, _⟩ => ⟨S400x128, .f32⟩
  | .local .tc .vmem, ⟨73, _⟩ => ⟨S400x128, .f32⟩
  | .local .scVector .vmem, ⟨0, _⟩ => ⟨S10000, .i32⟩
  | .local .scVector .vmem, ⟨1, _⟩ => ⟨S400x128, .f32⟩
  | .local .scVector .vmem, ⟨2, _⟩ => ⟨S400x128, .f32⟩
  | .local .scVector .vmem, ⟨3, _⟩ => ⟨S10000, .i32⟩
  | .local .scVector .vmem, ⟨4, _⟩ => ⟨S400x128, .f32⟩
  | .local .scVector .vmem, ⟨5, _⟩ => ⟨S400x128, .f32⟩
  | .local .scVector .vmem, ⟨6, _⟩ => ⟨S10000, .i32⟩
  | .local .scVector .vmem, ⟨7, _⟩ => ⟨S400x128, .f32⟩
  | .local .scVector .vmem, ⟨8, _⟩ => ⟨S400x128, .f32⟩
  | .local .scVector .vmem, ⟨9, _⟩ => ⟨S10000, .i32⟩
  | .local .scVector .vmem, ⟨10, _⟩ => ⟨S400x128, .f32⟩
  | .local .scVector .vmem, ⟨11, _⟩ => ⟨S400x128, .f32⟩
  | .local .scVector .vmem, ⟨12, _⟩ => ⟨S10000, .i32⟩
  | .local .scVector .vmem, ⟨13, _⟩ => ⟨S400x128, .f32⟩
  | .local .scVector .vmem, ⟨14, _⟩ => ⟨S400x128, .f32⟩
  | .local .scVector .vmem, ⟨15, _⟩ => ⟨S10000, .i32⟩
  | .local .scVector .vmem, ⟨16, _⟩ => ⟨S400x128, .f32⟩
  | .local .scVector .vmem, ⟨17, _⟩ => ⟨S400x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 104 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | ⟨36, _⟩ => false
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => false
  | ⟨51, _⟩ => false
  | ⟨52, _⟩ => false
  | ⟨53, _⟩ => false
  | ⟨54, _⟩ => false
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => false
  | ⟨69, _⟩ => false
  | ⟨70, _⟩ => false
  | ⟨71, _⟩ => false
  | ⟨72, _⟩ => false
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => false
  | ⟨87, _⟩ => false
  | ⟨88, _⟩ => false
  | ⟨89, _⟩ => false
  | ⟨90, _⟩ => false
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTables nBuf rfl bufTy 4 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v2_scv : Ref sig .scVector := ⟨.hbm, 15, rfl⟩
abbrev main_v4_scv : Ref sig .scVector := ⟨.hbm, 17, rfl⟩
abbrev main_v20_scv : Ref sig .scVector := ⟨.hbm, 37, rfl⟩
abbrev main_arg0_scv : Ref sig .scVector := ⟨.hbm, 0, rfl⟩
abbrev main_v23_scv : Ref sig .scVector := ⟨.hbm, 40, rfl⟩
abbrev main_v35_scv : Ref sig .scVector := ⟨.hbm, 52, rfl⟩
abbrev main_v36_scv : Ref sig .scVector := ⟨.hbm, 53, rfl⟩
abbrev main_v48_scv : Ref sig .scVector := ⟨.hbm, 65, rfl⟩
abbrev main_v49_scv : Ref sig .scVector := ⟨.hbm, 66, rfl⟩
abbrev main_v61_scv : Ref sig .scVector := ⟨.hbm, 78, rfl⟩
abbrev main_v62_scv : Ref sig .scVector := ⟨.hbm, 79, rfl⟩
abbrev main_v74_scv : Ref sig .scVector := ⟨.hbm, 91, rfl⟩
abbrev main_v75_scv : Ref sig .scVector := ⟨.hbm, 92, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg2_1 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg7_0 : Ref sig .tc := ⟨.vmem, 19, rfl⟩
abbrev cc3_stg8_0 : Ref sig .tc := ⟨.vmem, 20, rfl⟩
abbrev cc3_stg8_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg1_1 : Ref sig .tc := ⟨.vmem, 25, rfl⟩
abbrev cc5_stg2_0 : Ref sig .tc := ⟨.vmem, 26, rfl⟩
abbrev cc5_stg2_1 : Ref sig .tc := ⟨.vmem, 27, rfl⟩
abbrev cc5_stg3_0 : Ref sig .tc := ⟨.vmem, 28, rfl⟩
abbrev cc5_stg4_0 : Ref sig .tc := ⟨.vmem, 29, rfl⟩
abbrev cc5_stg5_0 : Ref sig .tc := ⟨.vmem, 30, rfl⟩
abbrev cc5_stg6_0 : Ref sig .tc := ⟨.vmem, 31, rfl⟩
abbrev cc5_stg7_0 : Ref sig .tc := ⟨.vmem, 32, rfl⟩
abbrev cc5_stg8_0 : Ref sig .tc := ⟨.vmem, 33, rfl⟩
abbrev cc5_stg8_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc7_stg2_1 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg5_0 : Ref sig .tc := ⟨.vmem, 43, rfl⟩
abbrev cc7_stg6_0 : Ref sig .tc := ⟨.vmem, 44, rfl⟩
abbrev cc7_stg7_0 : Ref sig .tc := ⟨.vmem, 45, rfl⟩
abbrev cc7_stg8_0 : Ref sig .tc := ⟨.vmem, 46, rfl⟩
abbrev cc7_stg8_1 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg1_1 : Ref sig .tc := ⟨.vmem, 51, rfl⟩
abbrev cc9_stg2_0 : Ref sig .tc := ⟨.vmem, 52, rfl⟩
abbrev cc9_stg2_1 : Ref sig .tc := ⟨.vmem, 53, rfl⟩
abbrev cc9_stg3_0 : Ref sig .tc := ⟨.vmem, 54, rfl⟩
abbrev cc9_stg4_0 : Ref sig .tc := ⟨.vmem, 55, rfl⟩
abbrev cc9_stg5_0 : Ref sig .tc := ⟨.vmem, 56, rfl⟩
abbrev cc9_stg6_0 : Ref sig .tc := ⟨.vmem, 57, rfl⟩
abbrev cc9_stg7_0 : Ref sig .tc := ⟨.vmem, 58, rfl⟩
abbrev cc9_stg8_0 : Ref sig .tc := ⟨.vmem, 59, rfl⟩
abbrev cc9_stg8_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg1_1 : Ref sig .tc := ⟨.vmem, 64, rfl⟩
abbrev cc11_stg2_0 : Ref sig .tc := ⟨.vmem, 65, rfl⟩
abbrev cc11_stg2_1 : Ref sig .tc := ⟨.vmem, 66, rfl⟩
abbrev cc11_stg3_0 : Ref sig .tc := ⟨.vmem, 67, rfl⟩
abbrev cc11_stg4_0 : Ref sig .tc := ⟨.vmem, 68, rfl⟩
abbrev cc11_stg5_0 : Ref sig .tc := ⟨.vmem, 69, rfl⟩
abbrev cc11_stg6_0 : Ref sig .tc := ⟨.vmem, 70, rfl⟩
abbrev cc11_stg7_0 : Ref sig .tc := ⟨.vmem, 71, rfl⟩
abbrev cc11_stg8_0 : Ref sig .tc := ⟨.vmem, 72, rfl⟩
abbrev cc11_stg8_1 : Ref sig .tc := ⟨.vmem, 73, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc8_scratch0 : Ref sig .scVector := ⟨.vmem, 12, rfl⟩
abbrev cc8_scratch1 : Ref sig .scVector := ⟨.vmem, 13, rfl⟩
abbrev cc8_scratch2 : Ref sig .scVector := ⟨.vmem, 14, rfl⟩
abbrev cc10_scratch0 : Ref sig .scVector := ⟨.vmem, 15, rfl⟩
abbrev cc10_scratch1 : Ref sig .scVector := ⟨.vmem, 16, rfl⟩
abbrev cc10_scratch2 : Ref sig .scVector := ⟨.vmem, 17, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem8_1 : DmaSem sig := 31
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc5_sem8_0 : DmaSem sig := 48
abbrev cc5_sem8_1 : DmaSem sig := 49
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem7_0 : DmaSem sig := 65
abbrev cc7_sem8_0 : DmaSem sig := 66
abbrev cc7_sem8_1 : DmaSem sig := 67
abbrev cc9_sem0_0 : DmaSem sig := 73
abbrev cc9_sem0_1 : DmaSem sig := 74
abbrev cc9_sem1_0 : DmaSem sig := 75
abbrev cc9_sem1_1 : DmaSem sig := 76
abbrev cc9_sem2_0 : DmaSem sig := 77
abbrev cc9_sem2_1 : DmaSem sig := 78
abbrev cc9_sem3_0 : DmaSem sig := 79
abbrev cc9_sem4_0 : DmaSem sig := 80
abbrev cc9_sem5_0 : DmaSem sig := 81
abbrev cc9_sem6_0 : DmaSem sig := 82
abbrev cc9_sem7_0 : DmaSem sig := 83
abbrev cc9_sem8_0 : DmaSem sig := 84
abbrev cc9_sem8_1 : DmaSem sig := 85
abbrev cc11_sem0_0 : DmaSem sig := 91
abbrev cc11_sem0_1 : DmaSem sig := 92
abbrev cc11_sem1_0 : DmaSem sig := 93
abbrev cc11_sem1_1 : DmaSem sig := 94
abbrev cc11_sem2_0 : DmaSem sig := 95
abbrev cc11_sem2_1 : DmaSem sig := 96
abbrev cc11_sem3_0 : DmaSem sig := 97
abbrev cc11_sem4_0 : DmaSem sig := 98
abbrev cc11_sem5_0 : DmaSem sig := 99
abbrev cc11_sem6_0 : DmaSem sig := 100
abbrev cc11_sem7_0 : DmaSem sig := 101
abbrev cc11_sem8_0 : DmaSem sig := 102
abbrev cc11_sem8_1 : DmaSem sig := 103
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k0_off2 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v7 : BitVec 32 := Scalar.addi v2 c0_i32_5
  let c0_i32_6 : BitVec 32 := 0#32
  ![v7.toNat, 0]
abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x8 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k2_off2 (i : grid2.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v7 : BitVec 32 := Scalar.addi v2 c0_i32_5
  let c0_i32_6 : BitVec 32 := 0#32
  ![v7.toNat, 0]
abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S32x400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S400x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k4_off2 (i : grid4.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v7 : BitVec 32 := Scalar.addi v2 c0_i32_5
  let c0_i32_6 : BitVec 32 := 0#32
  ![v7.toNat, 0]
abbrev grid5 : Pipeline.Grid := ⟨1, ![25], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_2 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S32x400x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S400x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S400x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k6_off2 (i : grid6.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v7 : BitVec 32 := Scalar.addi v2 c0_i32_5
  let c0_i32_6 : BitVec 32 := 0#32
  ![v7.toNat, 0]
abbrev grid7 : Pipeline.Grid := ⟨1, ![25], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc7_transform_2 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S32x400x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S400x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S400x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S400x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨2, ![2, 16], ![false, false]⟩

def k8_off1 (i : grid8.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k8_off2 (i : grid8.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v7 : BitVec 32 := Scalar.addi v2 c0_i32_5
  let c0_i32_6 : BitVec 32 := 0#32
  ![v7.toNat, 0]
abbrev grid9 : Pipeline.Grid := ⟨1, ![25], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc9_transform_2 (i : grid9.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S32x400x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S400x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S400x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S400x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev grid10 : Pipeline.Grid := ⟨2, ![2, 16], ![false, false]⟩

def k10_off1 (i : grid10.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k10_off2 (i : grid10.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v7 : BitVec 32 := Scalar.addi v2 c0_i32_5
  let c0_i32_6 : BitVec 32 := 0#32
  ![v7.toNat, 0]
abbrev grid11 : Pipeline.Grid := ⟨1, ![25], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc11_transform_1 (i : grid11.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc11_transform_2 (i : grid11.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S32x400x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S400x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S400x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S128x128 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128x128 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 2 → Memref sig .tc .vmem S400x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev scKind : Fin 6 → Kind := fun | 0 => .scVector | 1 => .scVector | 2 => .scVector | 3 => .scVector | 4 => .scVector | 5 => .scVector | ⟨_ + 6, h⟩ => absurd h (Nat.not_lt.2 (Nat.le_add_left _ _))
abbrev scNCore : Fin 6 → Nat := fun | 0 => 2 | 1 => 2 | 2 => 2 | 3 => 2 | 4 => 2 | 5 => 2 | ⟨_ + 6, h⟩ => absurd h (Nat.not_lt.2 (Nat.le_add_left _ _))
abbrev scNSub : Fin 6 → Nat := fun | 0 => 16 | 1 => 16 | 2 => 16 | 3 => 16 | 4 => 16 | 5 => 16 | ⟨_ + 6, h⟩ => absurd h (Nat.not_lt.2 (Nat.le_add_left _ _))

class Facts₀ : Prop where
  bcast_S_S10000x128 : S_.BroadcastsInDim S10000x128 (![] : Fin 0 → Fin S10000x128.rank)
  bcast_S_S1 : S_.BroadcastsInDim S1 (![] : Fin 0 → Fin S1.rank)
  transposes_S10000x32_S32x10000_1_0 : S10000x32.Transposes [1, 0] S32x10000
  shapeCasts_S32x10000_S320000 : S32x10000.ShapeCasts S320000
  bcast_S_S8x64 : S_.BroadcastsInDim S8x64 (![] : Fin 0 → Fin S8x64.rank)
  shapeCasts_S64_S1x64 : S64.ShapeCasts S1x64
  bcast_S_S64x8 : S_.BroadcastsInDim S64x8 (![] : Fin 0 → Fin S64x8.rank)
  bitsLt_bf16_f32 : FTy.bits .bf16 < FTy.bits .f32
  slices_S5x256x128_S5x128x128_0_0_0 : S5x256x128.Slices ![0, 0, 0] S5x128x128
  slices_S5x256x128_S5x128x128_0_128_0 : S5x256x128.Slices ![0, 128, 0] S5x128x128
  shapeCasts_S5x128_S5x1x128 : S5x128.ShapeCasts S5x1x128
  inb_S10000_S400_0 : ∀ a, (![0] : Fin 1 → Nat) a + S400.size a ≤ S10000.size a
  inb_S10000x128_S10000x128_0_0 : ∀ a, (![0, 0] : Fin 2 → Nat) a + S10000x128.size a ≤ S10000x128.size a
  gathers_S10000x128_S400x128 : S10000x128.Gathers 0 S400x128
  inb_S10000_S400_400 : ∀ a, (![400] : Fin 1 → Nat) a + S400.size a ≤ S10000.size a
  inb_S10000_S400_800 : ∀ a, (![800] : Fin 1 → Nat) a + S400.size a ≤ S10000.size a
  inb_S10000_S400_1200 : ∀ a, (![1200] : Fin 1 → Nat) a + S400.size a ≤ S10000.size a
  inb_S10000_S400_1600 : ∀ a, (![1600] : Fin 1 → Nat) a + S400.size a ≤ S10000.size a
  inb_S10000_S400_2000 : ∀ a, (![2000] : Fin 1 → Nat) a + S400.size a ≤ S10000.size a
  inb_S10000_S400_2400 : ∀ a, (![2400] : Fin 1 → Nat) a + S400.size a ≤ S10000.size a
  inb_S10000_S400_2800 : ∀ a, (![2800] : Fin 1 → Nat) a + S400.size a ≤ S10000.size a
  inb_S10000_S400_3200 : ∀ a, (![3200] : Fin 1 → Nat) a + S400.size a ≤ S10000.size a
  inb_S10000_S400_3600 : ∀ a, (![3600] : Fin 1 → Nat) a + S400.size a ≤ S10000.size a
  inb_S10000_S400_4000 : ∀ a, (![4000] : Fin 1 → Nat) a + S400.size a ≤ S10000.size a
  inb_S10000_S400_4400 : ∀ a, (![4400] : Fin 1 → Nat) a + S400.size a ≤ S10000.size a
  inb_S10000_S400_4800 : ∀ a, (![4800] : Fin 1 → Nat) a + S400.size a ≤ S10000.size a
  inb_S10000_S400_5200 : ∀ a, (![5200] : Fin 1 → Nat) a + S400.size a ≤ S10000.size a
  inb_S10000_S400_5600 : ∀ a, (![5600] : Fin 1 → Nat) a + S400.size a ≤ S10000.size a
  inb_S10000_S400_6000 : ∀ a, (![6000] : Fin 1 → Nat) a + S400.size a ≤ S10000.size a
  inb_S10000_S400_6400 : ∀ a, (![6400] : Fin 1 → Nat) a + S400.size a ≤ S10000.size a
  inb_S10000_S400_6800 : ∀ a, (![6800] : Fin 1 → Nat) a + S400.size a ≤ S10000.size a
  inb_S10000_S400_7200 : ∀ a, (![7200] : Fin 1 → Nat) a + S400.size a ≤ S10000.size a
  inb_S10000_S400_7600 : ∀ a, (![7600] : Fin 1 → Nat) a + S400.size a ≤ S10000.size a
  inb_S10000_S400_8000 : ∀ a, (![8000] : Fin 1 → Nat) a + S400.size a ≤ S10000.size a
  inb_S10000_S400_8400 : ∀ a, (![8400] : Fin 1 → Nat) a + S400.size a ≤ S10000.size a
  inb_S10000_S400_8800 : ∀ a, (![8800] : Fin 1 → Nat) a + S400.size a ≤ S10000.size a
  inb_S10000_S400_9200 : ∀ a, (![9200] : Fin 1 → Nat) a + S400.size a ≤ S10000.size a
  inb_S10000_S400_9600 : ∀ a, (![9600] : Fin 1 → Nat) a + S400.size a ≤ S10000.size a
  shapeCasts_S320000x128_S32x10000x128 : S320000x128.ShapeCasts S32x10000x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S32x400x128_S1x400x128_0_0_0 : ∀ a, (![0, 0, 0] : Fin 3 → Nat) a + S1x400x128.size a ≤ S32x400x128.size a
  h_S1x400x128 : 0 < S1x400x128.numel
  shapeCasts_S1x400x128_S400x128 : S1x400x128.ShapeCasts S400x128
  slices_S400x128_o0_0_S400x1 : S400x128.Slices ![0, 0] S400x1
  inb_S8x64_S1x64_0_0 : ∀ a, (![0, 0] : Fin 2 → Nat) a + S1x64.size a ≤ S8x64.size a
  h_S1x64 : 0 < S1x64.numel
  shapeCasts_S1x64_S1x64 : S1x64.ShapeCasts S1x64
  broadcasts_S400x1_S400x64 : S400x1.Broadcasts S400x64
  broadcasts_S1x64_S400x64 : S1x64.Broadcasts S400x64
  slices_S400x128_o0_1_S400x1 : S400x128.Slices ![0, 1] S400x1
  inb_S8x64_S1x64_1_0 : ∀ a, (![1, 0] : Fin 2 → Nat) a + S1x64.size a ≤ S8x64.size a
  slices_S400x128_o0_2_S400x1 : S400x128.Slices ![0, 2] S400x1
  inb_S8x64_S1x64_2_0 : ∀ a, (![2, 0] : Fin 2 → Nat) a + S1x64.size a ≤ S8x64.size a
  inb_S1x64_S1x64_0_0 : ∀ a, (![0, 0] : Fin 2 → Nat) a + S1x64.size a ≤ S1x64.size a
  inb_S64x8_S64x8_0_0 : ∀ a, (![0, 0] : Fin 2 → Nat) a + S64x8.size a ≤ S64x8.size a
  h_S64x8 : 0 < S64x8.numel
  shapeCasts_S64x8_S64x8 : S64x8.ShapeCasts S64x8
  slices_S400x8_o0_0_S400x1 : S400x8.Slices ![0, 0] S400x1
  inb_S32x400x128_S1x400x128_1_0_0 : ∀ a, (![1, 0, 0] : Fin 3 → Nat) a + S1x400x128.size a ≤ S32x400x128.size a
  inb_S32x400x128_S1x400x128_2_0_0 : ∀ a, (![2, 0, 0] : Fin 3 → Nat) a + S1x400x128.size a ≤ S32x400x128.size a
  inb_S32x400x128_S1x400x128_3_0_0 : ∀ a, (![3, 0, 0] : Fin 3 → Nat) a + S1x400x128.size a ≤ S32x400x128.size a
  inb_S32x400x128_S1x400x128_4_0_0 : ∀ a, (![4, 0, 0] : Fin 3 → Nat) a + S1x400x128.size a ≤ S32x400x128.size a
  inb_S32x400x128_S1x400x128_5_0_0 : ∀ a, (![5, 0, 0] : Fin 3 → Nat) a + S1x400x128.size a ≤ S32x400x128.size a
  inb_S32x400x128_S1x400x128_6_0_0 : ∀ a, (![6, 0, 0] : Fin 3 → Nat) a + S1x400x128.size a ≤ S32x400x128.size a
  inb_S32x400x128_S1x400x128_7_0_0 : ∀ a, (![7, 0, 0] : Fin 3 → Nat) a + S1x400x128.size a ≤ S32x400x128.size a
  inb_S32x400x128_S1x400x128_8_0_0 : ∀ a, (![8, 0, 0] : Fin 3 → Nat) a + S1x400x128.size a ≤ S32x400x128.size a
  inb_S32x400x128_S1x400x128_9_0_0 : ∀ a, (![9, 0, 0] : Fin 3 → Nat) a + S1x400x128.size a ≤ S32x400x128.size a
  inb_S32x400x128_S1x400x128_10_0_0 : ∀ a, (![10, 0, 0] : Fin 3 → Nat) a + S1x400x128.size a ≤ S32x400x128.size a
  inb_S32x400x128_S1x400x128_11_0_0 : ∀ a, (![11, 0, 0] : Fin 3 → Nat) a + S1x400x128.size a ≤ S32x400x128.size a
  inb_S32x400x128_S1x400x128_12_0_0 : ∀ a, (![12, 0, 0] : Fin 3 → Nat) a + S1x400x128.size a ≤ S32x400x128.size a
  inb_S32x400x128_S1x400x128_13_0_0 : ∀ a, (![13, 0, 0] : Fin 3 → Nat) a + S1x400x128.size a ≤ S32x400x128.size a
  inb_S32x400x128_S1x400x128_14_0_0 : ∀ a, (![14, 0, 0] : Fin 3 → Nat) a + S1x400x128.size a ≤ S32x400x128.size a
  inb_S32x400x128_S1x400x128_15_0_0 : ∀ a, (![15, 0, 0] : Fin 3 → Nat) a + S1x400x128.size a ≤ S32x400x128.size a
  inb_S32x400x128_S1x400x128_16_0_0 : ∀ a, (![16, 0, 0] : Fin 3 → Nat) a + S1x400x128.size a ≤ S32x400x128.size a
  inb_S32x400x128_S1x400x128_17_0_0 : ∀ a, (![17, 0, 0] : Fin 3 → Nat) a + S1x400x128.size a ≤ S32x400x128.size a
  inb_S32x400x128_S1x400x128_18_0_0 : ∀ a, (![18, 0, 0] : Fin 3 → Nat) a + S1x400x128.size a ≤ S32x400x128.size a
  inb_S32x400x128_S1x400x128_19_0_0 : ∀ a, (![19, 0, 0] : Fin 3 → Nat) a + S1x400x128.size a ≤ S32x400x128.size a
  inb_S32x400x128_S1x400x128_20_0_0 : ∀ a, (![20, 0, 0] : Fin 3 → Nat) a + S1x400x128.size a ≤ S32x400x128.size a
  inb_S32x400x128_S1x400x128_21_0_0 : ∀ a, (![21, 0, 0] : Fin 3 → Nat) a + S1x400x128.size a ≤ S32x400x128.size a
  inb_S32x400x128_S1x400x128_22_0_0 : ∀ a, (![22, 0, 0] : Fin 3 → Nat) a + S1x400x128.size a ≤ S32x400x128.size a
  inb_S32x400x128_S1x400x128_23_0_0 : ∀ a, (![23, 0, 0] : Fin 3 → Nat) a + S1x400x128.size a ≤ S32x400x128.size a
  inb_S32x400x128_S1x400x128_24_0_0 : ∀ a, (![24, 0, 0] : Fin 3 → Nat) a + S1x400x128.size a ≤ S32x400x128.size a
  inb_S32x400x128_S1x400x128_25_0_0 : ∀ a, (![25, 0, 0] : Fin 3 → Nat) a + S1x400x128.size a ≤ S32x400x128.size a
  inb_S32x400x128_S1x400x128_26_0_0 : ∀ a, (![26, 0, 0] : Fin 3 → Nat) a + S1x400x128.size a ≤ S32x400x128.size a
  inb_S32x400x128_S1x400x128_27_0_0 : ∀ a, (![27, 0, 0] : Fin 3 → Nat) a + S1x400x128.size a ≤ S32x400x128.size a
  inb_S32x400x128_S1x400x128_28_0_0 : ∀ a, (![28, 0, 0] : Fin 3 → Nat) a + S1x400x128.size a ≤ S32x400x128.size a
  inb_S32x400x128_S1x400x128_29_0_0 : ∀ a, (![29, 0, 0] : Fin 3 → Nat) a + S1x400x128.size a ≤ S32x400x128.size a
  inb_S32x400x128_S1x400x128_30_0_0 : ∀ a, (![30, 0, 0] : Fin 3 → Nat) a + S1x400x128.size a ≤ S32x400x128.size a
  inb_S32x400x128_S1x400x128_31_0_0 : ∀ a, (![31, 0, 0] : Fin 3 → Nat) a + S1x400x128.size a ≤ S32x400x128.size a
  concatenates_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x32_d1 : Shape.Concatenates [S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1, S400x1] S400x32 1
  reduces_S400x32_S400 : S400x32.Reduces [1] S400
  shapeCasts_S400_S400x1 : S400.ShapeCasts S400x1
  broadcasts_S400x1_S400x32 : S400x1.Broadcasts S400x32
  inb_S400x32_S400x32_0_0 : ∀ a, (![0, 0] : Fin 2 → Nat) a + S400x32.size a ≤ S400x32.size a
  h_S400x32 : 0 < S400x32.numel
  slices_S5x128x128_S1x128x128_0_0_0 : S5x128x128.Slices ![0, 0, 0] S1x128x128
  shapeCasts_S1x128x128_S128x128 : S1x128x128.ShapeCasts S128x128
  slices_S5x1x128_S1x1x128_0_0_0 : S5x1x128.Slices ![0, 0, 0] S1x1x128
  shapeCasts_S1x1x128_S1x128 : S1x1x128.ShapeCasts S1x128
  shapeCasts_S400x32_S400x32 : S400x32.ShapeCasts S400x32
  slices_S400x32_o0_0_S400x1 : S400x32.Slices ![0, 0] S400x1
  broadcasts_S400x1_S400x128 : S400x1.Broadcasts S400x128
  slices_S400x32_o0_1_S400x1 : S400x32.Slices ![0, 1] S400x1
  slices_S400x32_o0_2_S400x1 : S400x32.Slices ![0, 2] S400x1
  slices_S400x32_o0_3_S400x1 : S400x32.Slices ![0, 3] S400x1
  slices_S400x32_o0_4_S400x1 : S400x32.Slices ![0, 4] S400x1
  slices_S400x32_o0_5_S400x1 : S400x32.Slices ![0, 5] S400x1
  slices_S400x32_o0_6_S400x1 : S400x32.Slices ![0, 6] S400x1
  slices_S400x32_o0_7_S400x1 : S400x32.Slices ![0, 7] S400x1
  slices_S400x32_o0_8_S400x1 : S400x32.Slices ![0, 8] S400x1
  slices_S400x32_o0_9_S400x1 : S400x32.Slices ![0, 9] S400x1
  slices_S400x32_o0_10_S400x1 : S400x32.Slices ![0, 10] S400x1
  slices_S400x32_o0_11_S400x1 : S400x32.Slices ![0, 11] S400x1
  slices_S400x32_o0_12_S400x1 : S400x32.Slices ![0, 12] S400x1
  slices_S400x32_o0_13_S400x1 : S400x32.Slices ![0, 13] S400x1
  slices_S400x32_o0_14_S400x1 : S400x32.Slices ![0, 14] S400x1
  slices_S400x32_o0_15_S400x1 : S400x32.Slices ![0, 15] S400x1
  slices_S400x32_o0_16_S400x1 : S400x32.Slices ![0, 16] S400x1
  slices_S400x32_o0_17_S400x1 : S400x32.Slices ![0, 17] S400x1
  slices_S400x32_o0_18_S400x1 : S400x32.Slices ![0, 18] S400x1
  slices_S400x32_o0_19_S400x1 : S400x32.Slices ![0, 19] S400x1
  slices_S400x32_o0_20_S400x1 : S400x32.Slices ![0, 20] S400x1
  slices_S400x32_o0_21_S400x1 : S400x32.Slices ![0, 21] S400x1
  slices_S400x32_o0_22_S400x1 : S400x32.Slices ![0, 22] S400x1
  slices_S400x32_o0_23_S400x1 : S400x32.Slices ![0, 23] S400x1
  slices_S400x32_o0_24_S400x1 : S400x32.Slices ![0, 24] S400x1
  slices_S400x32_o0_25_S400x1 : S400x32.Slices ![0, 25] S400x1
  slices_S400x32_o0_26_S400x1 : S400x32.Slices ![0, 26] S400x1
  slices_S400x32_o0_27_S400x1 : S400x32.Slices ![0, 27] S400x1
  slices_S400x32_o0_28_S400x1 : S400x32.Slices ![0, 28] S400x1
  slices_S400x32_o0_29_S400x1 : S400x32.Slices ![0, 29] S400x1
  slices_S400x32_o0_30_S400x1 : S400x32.Slices ![0, 30] S400x1
  slices_S400x32_o0_31_S400x1 : S400x32.Slices ![0, 31] S400x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  slices_S5x128x128_S1x128x128_1_0_0 : S5x128x128.Slices ![1, 0, 0] S1x128x128
  slices_S5x1x128_S1x1x128_1_0_0 : S5x1x128.Slices ![1, 0, 0] S1x1x128
  slices_S5x128x128_S1x128x128_2_0_0 : S5x128x128.Slices ![2, 0, 0] S1x128x128
  slices_S5x1x128_S1x1x128_2_0_0 : S5x1x128.Slices ![2, 0, 0] S1x1x128
  slices_S5x128x128_S1x128x128_3_0_0 : S5x128x128.Slices ![3, 0, 0] S1x128x128
  slices_S5x1x128_S1x1x128_3_0_0 : S5x1x128.Slices ![3, 0, 0] S1x1x128
  slices_S5x128x128_S1x128x128_4_0_0 : S5x128x128.Slices ![4, 0, 0] S1x128x128
  slices_S5x1x128_S1x1x128_4_0_0 : S5x1x128.Slices ![4, 0, 0] S1x1x128
  scatter_S10000x128_S1_S10000x3_01_n_1_0_wf : ScatterDims.WF S10000x128 S1 S10000x3 [0, 1] [] [1] 0
  scatter_S8x64_S1_S3x64_01_n_0_0_wf : ScatterDims.WF S8x64 S1 S3x64 [0, 1] [] [0] 0
  scatter_S64x8_S1_S64x1_01_n_1_0_wf : ScatterDims.WF S64x8 S1 S64x1 [0, 1] [] [1] 0
  dot_S400x64_S64x8_S400x8_1_0_0_1_n_n_wf : DotDims.WF S400x64 S64x8 S400x8 [1] [0] [0] [1] [] []
  dot_S400x128_S128x128_S400x128_1_0_0_1_n_n_wf : DotDims.WF S400x128 S128x128 S400x128 [1] [0] [0] [1] [] []
  hcc0_scratch3 : 0 + S_.numel ≤ 104
  hcc0_scratch4 : 1 + S_.numel ≤ 104
  hcc0_scratch5 : 2 + S_.numel ≤ 104
  hcc0_scratch6 : 3 + S_.numel ≤ 104
  hcc0_scoped0 : 4 + S_.numel ≤ 104
  hcc2_scratch3 : 14 + S_.numel ≤ 104
  hcc2_scratch4 : 15 + S_.numel ≤ 104
  hcc2_scratch5 : 16 + S_.numel ≤ 104
  hcc2_scratch6 : 17 + S_.numel ≤ 104
  hcc2_scoped0 : 18 + S_.numel ≤ 104
  hcc4_scratch3 : 32 + S_.numel ≤ 104
  hcc4_scratch4 : 33 + S_.numel ≤ 104
  hcc4_scratch5 : 34 + S_.numel ≤ 104
  hcc4_scratch6 : 35 + S_.numel ≤ 104
  hcc4_scoped0 : 36 + S_.numel ≤ 104
  hcc6_scratch3 : 50 + S_.numel ≤ 104
  hcc6_scratch4 : 51 + S_.numel ≤ 104
  hcc6_scratch5 : 52 + S_.numel ≤ 104
  hcc6_scratch6 : 53 + S_.numel ≤ 104
  hcc6_scoped0 : 54 + S_.numel ≤ 104
  hcc8_scratch3 : 68 + S_.numel ≤ 104
  hcc8_scratch4 : 69 + S_.numel ≤ 104
  hcc8_scratch5 : 70 + S_.numel ≤ 104
  hcc8_scratch6 : 71 + S_.numel ≤ 104
  hcc8_scoped0 : 72 + S_.numel ≤ 104
  hcc10_scratch3 : 86 + S_.numel ≤ 104
  hcc10_scratch4 : 87 + S_.numel ≤ 104
  hcc10_scratch5 : 88 + S_.numel ≤ 104
  hcc10_scratch6 : 89 + S_.numel ≤ 104
  hcc10_scoped0 : 90 + S_.numel ≤ 104
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S320000.size a
  k0_off2_inb : ∀ i : grid0.Coords, ∀ (r : Fin 25), ∀ a, (k0_off2 i (BitVec.ofNat 32 (400 * r.val))) a + S400x128.size a ≤ S320000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x400x128.size a ≤ S32x10000x128.size a
  hwx1_0 : ∀ i : grid1.Coords, EltTy.bits .f32 = 32 ∨ (Rect.block (s := S32x10000x128) S32x400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S10000x128.size a
  hwx1_1 : ∀ i : grid1.Coords, EltTy.bits .f32 = 32 ∨ (Rect.block (s := S10000x128) S400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x8.size a ≤ S64x8.size a
  hwx1_4 : ∀ i : grid1.Coords, EltTy.bits .bf16 = 32 ∨ (Rect.block (s := S64x8) S64x8.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x32.size a ≤ S10000x32.size a
  hwx1_5 : ∀ i : grid1.Coords, EltTy.bits .f32 = 32 ∨ (Rect.block (s := S10000x32) S400x32.size (cc1_transform_5 i) (hinb1_5 i)).WholeWords (EltTy.packing .f32)
  hcore2 : grid2.bound 0 ≤ τ.nSC
  hsub2 : grid2.bound 1 ≤ τ.nSub
  k2_off1_inb : ∀ i : grid2.Coords, ∀ a, (k2_off1 i) a + S10000.size a ≤ S320000.size a
  k2_off2_inb : ∀ i : grid2.Coords, ∀ (r : Fin 25), ∀ a, (k2_off2 i (BitVec.ofNat 32 (400 * r.val))) a + S400x128.size a ≤ S320000x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x400x128.size a ≤ S32x10000x128.size a
  hwx3_0 : ∀ i : grid3.Coords, EltTy.bits .f32 = 32 ∨ (Rect.block (s := S32x10000x128) S32x400x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x32.size a ≤ S10000x32.size a
  hwx3_1 : ∀ i : grid3.Coords, EltTy.bits .f32 = 32 ∨ (Rect.block (s := S10000x32) S400x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S400x128.size a ≤ S10000x128.size a
  hwx3_8 : ∀ i : grid3.Coords, EltTy.bits .f32 = 32 ∨ (Rect.block (s := S10000x128) S400x128.size (cc3_transform_8 i) (hinb3_8 i)).WholeWords (EltTy.packing .f32)
  hcore4 : grid4.bound 0 ≤ τ.nSC
  hsub4 : grid4.bound 1 ≤ τ.nSub
  k4_off1_inb : ∀ i : grid4.Coords, ∀ a, (k4_off1 i) a + S10000.size a ≤ S320000.size a
  k4_off2_inb : ∀ i : grid4.Coords, ∀ (r : Fin 25), ∀ a, (k4_off2 i (BitVec.ofNat 32 (400 * r.val))) a + S400x128.size a ≤ S320000x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S32x400x128.size a ≤ S32x10000x128.size a
  hwx5_0 : ∀ i : grid5.Coords, EltTy.bits .f32 = 32 ∨ (Rect.block (s := S32x10000x128) S32x400x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x32.size a ≤ S10000x32.size a
  hwx5_1 : ∀ i : grid5.Coords, EltTy.bits .f32 = 32 ∨ (Rect.block (s := S10000x32) S400x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x128.size a ≤ S10000x128.size a
  hwx5_2 : ∀ i : grid5.Coords, EltTy.bits .f32 = 32 ∨ (Rect.block (s := S10000x128) S400x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S400x128.size a ≤ S10000x128.size a
  hwx5_8 : ∀ i : grid5.Coords, EltTy.bits .f32 = 32 ∨ (Rect.block (s := S10000x128) S400x128.size (cc5_transform_8 i) (hinb5_8 i)).WholeWords (EltTy.packing .f32)
  hcore6 : grid6.bound 0 ≤ τ.nSC
  hsub6 : grid6.bound 1 ≤ τ.nSub
  k6_off1_inb : ∀ i : grid6.Coords, ∀ a, (k6_off1 i) a + S10000.size a ≤ S320000.size a
  k6_off2_inb : ∀ i : grid6.Coords, ∀ (r : Fin 25), ∀ a, (k6_off2 i (BitVec.ofNat 32 (400 * r.val))) a + S400x128.size a ≤ S320000x128.size a
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S32x400x128.size a ≤ S32x10000x128.size a
  hwx7_0 : ∀ i : grid7.Coords, EltTy.bits .f32 = 32 ∨ (Rect.block (s := S32x10000x128) S32x400x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S400x32.size a ≤ S10000x32.size a
  hwx7_1 : ∀ i : grid7.Coords, EltTy.bits .f32 = 32 ∨ (Rect.block (s := S10000x32) S400x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x128.size a ≤ S10000x128.size a
  hwx7_2 : ∀ i : grid7.Coords, EltTy.bits .f32 = 32 ∨ (Rect.block (s := S10000x128) S400x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .bf16 = 32 ∨ (Rect.block (s := S128x128) S128x128.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .bf16 = 32 ∨ (Rect.block (s := S128x128) S128x128.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S400x128.size a ≤ S10000x128.size a
  hwx7_8 : ∀ i : grid7.Coords, EltTy.bits .f32 = 32 ∨ (Rect.block (s := S10000x128) S400x128.size (cc7_transform_8 i) (hinb7_8 i)).WholeWords (EltTy.packing .f32)
  hcore8 : grid8.bound 0 ≤ τ.nSC
  hsub8 : grid8.bound 1 ≤ τ.nSub
  k8_off1_inb : ∀ i : grid8.Coords, ∀ a, (k8_off1 i) a + S10000.size a ≤ S320000.size a
  k8_off2_inb : ∀ i : grid8.Coords, ∀ (r : Fin 25), ∀ a, (k8_off2 i (BitVec.ofNat 32 (400 * r.val))) a + S400x128.size a ≤ S320000x128.size a
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S32x400x128.size a ≤ S32x10000x128.size a
  hwx9_0 : ∀ i : grid9.Coords, EltTy.bits .f32 = 32 ∨ (Rect.block (s := S32x10000x128) S32x400x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S400x32.size a ≤ S10000x32.size a
  hwx9_1 : ∀ i : grid9.Coords, EltTy.bits .f32 = 32 ∨ (Rect.block (s := S10000x32) S400x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S400x128.size a ≤ S10000x128.size a
  hwx9_2 : ∀ i : grid9.Coords, EltTy.bits .f32 = 32 ∨ (Rect.block (s := S10000x128) S400x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .bf16 = 32 ∨ (Rect.block (s := S128x128) S128x128.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .bf16 = 32 ∨ (Rect.block (s := S128x128) S128x128.size (cc9_transform_4 i) (hinb9_4 i)).WholeWords (EltTy.packing .bf16)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S400x128.size a ≤ S10000x128.size a
  hwx9_8 : ∀ i : grid9.Coords, EltTy.bits .f32 = 32 ∨ (Rect.block (s := S10000x128) S400x128.size (cc9_transform_8 i) (hinb9_8 i)).WholeWords (EltTy.packing .f32)
  hcore10 : grid10.bound 0 ≤ τ.nSC
  hsub10 : grid10.bound 1 ≤ τ.nSub
  k10_off1_inb : ∀ i : grid10.Coords, ∀ a, (k10_off1 i) a + S10000.size a ≤ S320000.size a
  k10_off2_inb : ∀ i : grid10.Coords, ∀ (r : Fin 25), ∀ a, (k10_off2 i (BitVec.ofNat 32 (400 * r.val))) a + S400x128.size a ≤ S320000x128.size a
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S32x400x128.size a ≤ S32x10000x128.size a
  hwx11_0 : ∀ i : grid11.Coords, EltTy.bits .f32 = 32 ∨ (Rect.block (s := S32x10000x128) S32x400x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S400x32.size a ≤ S10000x32.size a
  hwx11_1 : ∀ i : grid11.Coords, EltTy.bits .f32 = 32 ∨ (Rect.block (s := S10000x32) S400x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S400x128.size a ≤ S10000x128.size a
  hwx11_2 : ∀ i : grid11.Coords, EltTy.bits .f32 = 32 ∨ (Rect.block (s := S10000x128) S400x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .bf16 = 32 ∨ (Rect.block (s := S128x128) S128x128.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128x128.size a ≤ S128x128.size a
  hwx11_4 : ∀ i : grid11.Coords, EltTy.bits .bf16 = 32 ∨ (Rect.block (s := S128x128) S128x128.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S400x128.size a ≤ S10000x128.size a
  hwx11_8 : ∀ i : grid11.Coords, EltTy.bits .f32 = 32 ∨ (Rect.block (s := S10000x128) S400x128.size (cc11_transform_8 i) (hinb11_8 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0
abbrev cc2_scratch3 : DmaSems sig S_ := SemArray.consecutive 14 S_ hcc2_scratch3
abbrev cc2_scratch4 : DmaSems sig S_ := SemArray.consecutive 15 S_ hcc2_scratch4
abbrev cc2_scratch5 : DmaSems sig S_ := SemArray.consecutive 16 S_ hcc2_scratch5
abbrev cc2_scratch6 : DmaSems sig S_ := SemArray.consecutive 17 S_ hcc2_scratch6
abbrev cc2_scoped0 : DmaSems sig S_ := SemArray.consecutive 18 S_ hcc2_scoped0
abbrev cc4_scratch3 : DmaSems sig S_ := SemArray.consecutive 32 S_ hcc4_scratch3
abbrev cc4_scratch4 : DmaSems sig S_ := SemArray.consecutive 33 S_ hcc4_scratch4
abbrev cc4_scratch5 : DmaSems sig S_ := SemArray.consecutive 34 S_ hcc4_scratch5
abbrev cc4_scratch6 : DmaSems sig S_ := SemArray.consecutive 35 S_ hcc4_scratch6
abbrev cc4_scoped0 : DmaSems sig S_ := SemArray.consecutive 36 S_ hcc4_scoped0
abbrev cc6_scratch3 : DmaSems sig S_ := SemArray.consecutive 50 S_ hcc6_scratch3
abbrev cc6_scratch4 : DmaSems sig S_ := SemArray.consecutive 51 S_ hcc6_scratch4
abbrev cc6_scratch5 : DmaSems sig S_ := SemArray.consecutive 52 S_ hcc6_scratch5
abbrev cc6_scratch6 : DmaSems sig S_ := SemArray.consecutive 53 S_ hcc6_scratch6
abbrev cc6_scoped0 : DmaSems sig S_ := SemArray.consecutive 54 S_ hcc6_scoped0
abbrev cc8_scratch3 : DmaSems sig S_ := SemArray.consecutive 68 S_ hcc8_scratch3
abbrev cc8_scratch4 : DmaSems sig S_ := SemArray.consecutive 69 S_ hcc8_scratch4
abbrev cc8_scratch5 : DmaSems sig S_ := SemArray.consecutive 70 S_ hcc8_scratch5
abbrev cc8_scratch6 : DmaSems sig S_ := SemArray.consecutive 71 S_ hcc8_scratch6
abbrev cc8_scoped0 : DmaSems sig S_ := SemArray.consecutive 72 S_ hcc8_scoped0
abbrev cc10_scratch3 : DmaSems sig S_ := SemArray.consecutive 86 S_ hcc10_scratch3
abbrev cc10_scratch4 : DmaSems sig S_ := SemArray.consecutive 87 S_ hcc10_scratch4
abbrev cc10_scratch5 : DmaSems sig S_ := SemArray.consecutive 88 S_ hcc10_scratch5
abbrev cc10_scratch6 : DmaSems sig S_ := SemArray.consecutive 89 S_ hcc10_scratch6
abbrev cc10_scoped0 : DmaSems sig S_ := SemArray.consecutive 90 S_ hcc10_scoped0
def scatter_S10000x128_S1_S10000x3_01_n_1_0 : ScatterDims S10000x128 S1 S10000x3 where
  updateWindowDims := [0, 1]
  insertedWindowDims := []
  scatterDimsToOperandDims := [1]
  indexVectorDim := 0
  wf := scatter_S10000x128_S1_S10000x3_01_n_1_0_wf
def scatter_S8x64_S1_S3x64_01_n_0_0 : ScatterDims S8x64 S1 S3x64 where
  updateWindowDims := [0, 1]
  insertedWindowDims := []
  scatterDimsToOperandDims := [0]
  indexVectorDim := 0
  wf := scatter_S8x64_S1_S3x64_01_n_0_0_wf
def scatter_S64x8_S1_S64x1_01_n_1_0 : ScatterDims S64x8 S1 S64x1 where
  updateWindowDims := [0, 1]
  insertedWindowDims := []
  scatterDimsToOperandDims := [1]
  indexVectorDim := 0
  wf := scatter_S64x8_S1_S64x1_01_n_1_0_wf
def dot_S400x64_S64x8_S400x8_1_0_0_1_n_n : DotDims S400x64 S64x8 S400x8 where
  lhsContracting := [1]
  rhsContracting := [0]
  lhsNonContracting := [0]
  rhsNonContracting := [1]
  lhsBatch := []
  rhsBatch := []
  wf := dot_S400x64_S64x8_S400x8_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win1_0 : Pipeline.Window sig grid1 :=
  Pipeline.Window.ofSpec (Memref.whole main_v21) S32x400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S64x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S400x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win3_0 : Pipeline.Window sig grid3 :=
  Pipeline.Window.ofSpec (Memref.whole main_v24) S32x400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S400x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v35) S400x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win5_0 : Pipeline.Window sig grid5 :=
  Pipeline.Window.ofSpec (Memref.whole main_v37) S32x400x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S400x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S400x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v41) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v45) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v47) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v48) S400x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win7_0 : Pipeline.Window sig grid7 :=
  Pipeline.Window.ofSpec (Memref.whole main_v50) S32x400x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v22) S400x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v48) S400x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v52) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v54) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v56) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v58) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v60) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v61) S400x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win9_0 : Pipeline.Window sig grid9 :=
  Pipeline.Window.ofSpec (Memref.whole main_v63) S32x400x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v22) S400x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v61) S400x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v65) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v67) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v69) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v71) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v73) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v74) S400x128.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win11_0 : Pipeline.Window sig grid11 :=
  Pipeline.Window.ofSpec (Memref.whole main_v76) S32x400x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v22) S400x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v74) S400x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v78) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v80) S128x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v82) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v84) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v86) S1x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v87) S400x128.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

class Facts : Prop extends Facts₀ where

variable [Facts]
-- ==== ReferenceIdeal.lean ====
abbrev S10000x128 : Shape := ⟨2, ![10000, 128]⟩
abbrev S10000x3 : Shape := ⟨2, ![10000, 3]⟩
abbrev S10000x32 : Shape := ⟨2, ![10000, 32]⟩
abbrev S3x64 : Shape := ⟨2, ![3, 64]⟩
abbrev S64 : Shape := ⟨1, ![64]⟩
abbrev S64x1 : Shape := ⟨2, ![64, 1]⟩
abbrev S1 : Shape := ⟨1, ![1]⟩
abbrev S5x256x128 : Shape := ⟨3, ![5, 256, 128]⟩
abbrev S5x128 : Shape := ⟨2, ![5, 128]⟩
abbrev S_ : Shape := ⟨0, ![]⟩
abbrev S10000x32x1 : Shape := ⟨3, ![10000, 32, 1]⟩
abbrev S10000x32x3 : Shape := ⟨3, ![10000, 32, 3]⟩
abbrev S10000x1x3 : Shape := ⟨3, ![10000, 1, 3]⟩
abbrev S10000x32x64 : Shape := ⟨3, ![10000, 32, 64]⟩
abbrev S1x1x64 : Shape := ⟨3, ![1, 1, 64]⟩
abbrev S1x1x1 : Shape := ⟨3, ![1, 1, 1]⟩
abbrev S10000 : Shape := ⟨1, ![10000]⟩
abbrev S10000x1 : Shape := ⟨2, ![10000, 1]⟩
abbrev S10000x32x128 : Shape := ⟨3, ![10000, 32, 128]⟩
abbrev S10000x256 : Shape := ⟨2, ![10000, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 390
  | .vmem => 0
  | .smem => 0
  | _ => 0

abbrev hbmTy0_0 (i : Nat) : BufTy := match i % 128 with
  | 0 => ⟨S10000x128, .f32⟩
  | 1 => ⟨S10000x3, .f32⟩
  | 2 => ⟨S10000x32, .i32⟩
  | 3 => ⟨S3x64, .f32⟩
  | 4 => ⟨S64, .f32⟩
  | 5 => ⟨S64x1, .f32⟩
  | 6 => ⟨S1, .f32⟩
  | 7 => ⟨S5x256x128, .f32⟩
  | 8 => ⟨S5x128, .f32⟩
  | 9 => ⟨S5x128, .f32⟩
  | 10 => ⟨S5x128, .f32⟩
  | 11 => ⟨S_, .i32⟩
  | 12 => ⟨S10000x32, .i32⟩
  | 13 => ⟨S10000x32, .i1⟩
  | 14 => ⟨S_, .i32⟩
  | 15 => ⟨S10000x32, .i32⟩
  | 16 => ⟨S10000x32, .i32⟩
  | 17 => ⟨S10000x32, .i32⟩
  | 18 => ⟨S10000x32x1, .i32⟩
  | 19 => ⟨S10000x32x3, .f32⟩
  | 20 => ⟨S10000x1x3, .f32⟩
  | 21 => ⟨S10000x32x3, .f32⟩
  | 22 => ⟨S10000x32x3, .f32⟩
  | 23 => ⟨S10000x32x64, .f32⟩
  | 24 => ⟨S1x1x64, .f32⟩
  | 25 => ⟨S10000x32x64, .f32⟩
  | 26 => ⟨S10000x32x64, .f32⟩
  | 27 => ⟨S_, .f32⟩
  | 28 => ⟨S10000x32x64, .f32⟩
  | 29 => ⟨S10000x32x64, .f32⟩
  | 30 => ⟨S10000x32x64, .f32⟩
  | 31 => ⟨S_, .f32⟩
  | 32 => ⟨S10000x32x64, .f32⟩
  | 33 => ⟨S10000x32x64, .f32⟩
  | 34 => ⟨S10000x32x64, .f32⟩
  | 35 => ⟨S10000x32x64, .f32⟩
  | 36 => ⟨S10000x32x1, .f32⟩
  | 37 => ⟨S1x1x1, .f32⟩
  | 38 => ⟨S10000x32x1, .f32⟩
  | 39 => ⟨S10000x32x1, .f32⟩
  | 40 => ⟨S10000x32, .f32⟩
  | 41 => ⟨S_, .f32⟩
  | 42 => ⟨S10000, .f32⟩
  | 43 => ⟨S_, .f32⟩
  | 44 => ⟨S10000, .f32⟩
  | 45 => ⟨S10000, .f32⟩
  | 46 => ⟨S10000x1, .f32⟩
  | 47 => ⟨S10000x32, .f32⟩
  | 48 => ⟨S10000x32, .f32⟩
  | 49 => ⟨S10000x32, .f32⟩
  | 50 => ⟨S_, .f32⟩
  | 51 => ⟨S10000, .f32⟩
  | 52 => ⟨S10000x1, .f32⟩
  | 53 => ⟨S10000x32, .f32⟩
  | 54 => ⟨S10000x32, .f32⟩
  | 55 => ⟨S_, .i32⟩
  | 56 => ⟨S10000x32, .i32⟩
  | 57 => ⟨S10000x32, .i1⟩
  | 58 => ⟨S_, .i32⟩
  | 59 => ⟨S10000x32, .i32⟩
  | 60 => ⟨S10000x32, .i32⟩
  | 61 => ⟨S10000x32, .i32⟩
  | 62 => ⟨S10000x32x1, .i32⟩
  | 63 => ⟨S10000x32x128, .f32⟩
  | 64 => ⟨S10000x32x1, .f32⟩
  | 65 => ⟨S10000x32x128, .f32⟩
  | 66 => ⟨S10000x32x128, .f32⟩
  | 67 => ⟨S_, .f32⟩
  | 68 => ⟨S10000x128, .f32⟩
  | 69 => ⟨S10000x256, .f32⟩
  | 70 => ⟨S1x256x128, .f32⟩
  | 71 => ⟨S256x128, .f32⟩
  | 72 => ⟨S10000x128, .f32⟩
  | 73 => ⟨S1x128, .f32⟩
  | 74 => ⟨S128, .f32⟩
  | 75 => ⟨S1x128, .f32⟩
  | 76 => ⟨S10000x128, .f32⟩
  | 77 => ⟨S10000x128, .f32⟩
  | 78 => ⟨S10000x128, .f32⟩
  | 79 => ⟨S10000x128, .f32⟩
  | 80 => ⟨S_, .f32⟩
  | 81 => ⟨S10000x128, .f32⟩
  | 82 => ⟨S10000x128, .f32⟩
  | 83 => ⟨S_, .f32⟩
  | 84 => ⟨S10000x128, .f32⟩
  | 85 => ⟨S10000x128, .f32⟩
  | 86 => ⟨S10000x128, .f32⟩
  | 87 => ⟨S10000x128, .f32⟩
  | 88 => ⟨S10000x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S10000, .f32⟩
  | 95 => ⟨S10000x1, .f32⟩
  | 96 => ⟨S_, .f32⟩
  | 97 => ⟨S10000x1, .f32⟩
  | 98 => ⟨S10000x1, .f32⟩
  | 99 => ⟨S10000x128, .f32⟩
  | 100 => ⟨S10000x128, .f32⟩
  | 101 => ⟨S10000x128, .f32⟩
  | 102 => ⟨S_, .f32⟩
  | 103 => ⟨S10000, .f32⟩
  | 104 => ⟨S10000x1, .f32⟩
  | 105 => ⟨S_, .f32⟩
  | 106 => ⟨S10000x1, .f32⟩
  | 107 => ⟨S10000x1, .f32⟩
  | 108 => ⟨S10000x128, .f32⟩
  | 109 => ⟨S10000x128, .f32⟩
  | 110 => ⟨S_, .f32⟩
  | 111 => ⟨S10000x1, .f32⟩
  | 112 => ⟨S10000x1, .f32⟩
  | 113 => ⟨S10000x1, .f32⟩
  | 114 => ⟨S10000x128, .f32⟩
  | 115 => ⟨S10000x128, .f32⟩
  | 116 => ⟨S1x128, .f32⟩
  | 117 => ⟨S10000x128, .f32⟩
  | 118 => ⟨S10000x128, .f32⟩
  | 119 => ⟨S1x128, .f32⟩
  | 120 => ⟨S10000x128, .f32⟩
  | 121 => ⟨S10000x128, .f32⟩
  | 122 => ⟨S_, .i32⟩
  | 123 => ⟨S10000x32, .i32⟩
  | 124 => ⟨S10000x32, .i1⟩
  | 125 => ⟨S_, .i32⟩
  | 126 => ⟨S10000x32, .i32⟩
  | 127 => ⟨S10000x32, .i32⟩
  | _ => ⟨S10000x128, .f32⟩

abbrev hbmTy0_1 (i : Nat) : BufTy := match i % 128 with
  | 0 => ⟨S10000x32, .i32⟩
  | 1 => ⟨S10000x32x1, .i32⟩
  | 2 => ⟨S10000x32x128, .f32⟩
  | 3 => ⟨S10000x32x1, .f32⟩
  | 4 => ⟨S10000x32x128, .f32⟩
  | 5 => ⟨S10000x32x128, .f32⟩
  | 6 => ⟨S_, .f32⟩
  | 7 => ⟨S10000x128, .f32⟩
  | 8 => ⟨S10000x256, .f32⟩
  | 9 => ⟨S1x256x128, .f32⟩
  | 10 => ⟨S256x128, .f32⟩
  | 11 => ⟨S10000x128, .f32⟩
  | 12 => ⟨S1x128, .f32⟩
  | 13 => ⟨S128, .f32⟩
  | 14 => ⟨S1x128, .f32⟩
  | 15 => ⟨S10000x128, .f32⟩
  | 16 => ⟨S10000x128, .f32⟩
  | 17 => ⟨S10000x128, .f32⟩
  | 18 => ⟨S10000x128, .f32⟩
  | 19 => ⟨S_, .f32⟩
  | 20 => ⟨S10000x128, .f32⟩
  | 21 => ⟨S10000x128, .f32⟩
  | 22 => ⟨S_, .f32⟩
  | 23 => ⟨S10000x128, .f32⟩
  | 24 => ⟨S10000x128, .f32⟩
  | 25 => ⟨S10000x128, .f32⟩
  | 26 => ⟨S10000x128, .f32⟩
  | 27 => ⟨S10000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S10000, .f32⟩
  | 34 => ⟨S10000x1, .f32⟩
  | 35 => ⟨S_, .f32⟩
  | 36 => ⟨S10000x1, .f32⟩
  | 37 => ⟨S10000x1, .f32⟩
  | 38 => ⟨S10000x128, .f32⟩
  | 39 => ⟨S10000x128, .f32⟩
  | 40 => ⟨S10000x128, .f32⟩
  | 41 => ⟨S_, .f32⟩
  | 42 => ⟨S10000, .f32⟩
  | 43 => ⟨S10000x1, .f32⟩
  | 44 => ⟨S_, .f32⟩
  | 45 => ⟨S10000x1, .f32⟩
  | 46 => ⟨S10000x1, .f32⟩
  | 47 => ⟨S10000x128, .f32⟩
  | 48 => ⟨S10000x128, .f32⟩
  | 49 => ⟨S_, .f32⟩
  | 50 => ⟨S10000x1, .f32⟩
  | 51 => ⟨S10000x1, .f32⟩
  | 52 => ⟨S10000x1, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S_, .i32⟩
  | 62 => ⟨S10000x32, .i32⟩
  | 63 => ⟨S10000x32, .i1⟩
  | 64 => ⟨S_, .i32⟩
  | 65 => ⟨S10000x32, .i32⟩
  | 66 => ⟨S10000x32, .i32⟩
  | 67 => ⟨S10000x32, .i32⟩
  | 68 => ⟨S10000x32x1, .i32⟩
  | 69 => ⟨S10000x32x128, .f32⟩
  | 70 => ⟨S10000x32x1, .f32⟩
  | 71 => ⟨S10000x32x128, .f32⟩
  | 72 => ⟨S10000x32x128, .f32⟩
  | 73 => ⟨S_, .f32⟩
  | 74 => ⟨S10000x128, .f32⟩
  | 75 => ⟨S10000x256, .f32⟩
  | 76 => ⟨S1x256x128, .f32⟩
  | 77 => ⟨S256x128, .f32⟩
  | 78 => ⟨S10000x128, .f32⟩
  | 79 => ⟨S1x128, .f32⟩
  | 80 => ⟨S128, .f32⟩
  | 81 => ⟨S1x128, .f32⟩
  | 82 => ⟨S10000x128, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S_, .f32⟩
  | 90 => ⟨S10000x128, .f32⟩
  | 91 => ⟨S10000x128, .f32⟩
  | 92 => ⟨S10000x128, .f32⟩
  | 93 => ⟨S10000x128, .f32⟩
  | 94 => ⟨S10000x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S10000, .f32⟩
  | 101 => ⟨S10000x1, .f32⟩
  | 102 => ⟨S_, .f32⟩
  | 103 => ⟨S10000x1, .f32⟩
  | 104 => ⟨S10000x1, .f32⟩
  | 105 => ⟨S10000x128, .f32⟩
  | 106 => ⟨S10000x128, .f32⟩
  | 107 => ⟨S10000x128, .f32⟩
  | 108 => ⟨S_, .f32⟩
  | 109 => ⟨S10000, .f32⟩
  | 110 => ⟨S10000x1, .f32⟩
  | 111 => ⟨S_, .f32⟩
  | 112 => ⟨S10000x1, .f32⟩
  | 113 => ⟨S10000x1, .f32⟩
  | 114 => ⟨S10000x128, .f32⟩
  | 115 => ⟨S10000x128, .f32⟩
  | 116 => ⟨S_, .f32⟩
  | 117 => ⟨S10000x1, .f32⟩
  | 118 => ⟨S10000x1, .f32⟩
  | 119 => ⟨S10000x1, .f32⟩
  | 120 => ⟨S10000x128, .f32⟩
  | 121 => ⟨S10000x128, .f32⟩
  | 122 => ⟨S1x128, .f32⟩
  | 123 => ⟨S10000x128, .f32⟩
  | 124 => ⟨S10000x128, .f32⟩
  | 125 => ⟨S1x128, .f32⟩
  | 126 => ⟨S10000x128, .f32⟩
  | 127 => ⟨S10000x128, .f32⟩
  | _ => ⟨S10000x128, .f32⟩

abbrev hbmTy0_2 (i : Nat) : BufTy := match i % 128 with
  | 0 => ⟨S_, .i32⟩
  | 1 => ⟨S10000x32, .i32⟩
  | 2 => ⟨S10000x32, .i1⟩
  | 3 => ⟨S_, .i32⟩
  | 4 => ⟨S10000x32, .i32⟩
  | 5 => ⟨S10000x32, .i32⟩
  | 6 => ⟨S10000x32, .i32⟩
  | 7 => ⟨S10000x32x1, .i32⟩
  | 8 => ⟨S10000x32x128, .f32⟩
  | 9 => ⟨S10000x32x1, .f32⟩
  | 10 => ⟨S10000x32x128, .f32⟩
  | 11 => ⟨S10000x32x128, .f32⟩
  | 12 => ⟨S_, .f32⟩
  | 13 => ⟨S10000x128, .f32⟩
  | 14 => ⟨S10000x256, .f32⟩
  | 15 => ⟨S1x256x128, .f32⟩
  | 16 => ⟨S256x128, .f32⟩
  | 17 => ⟨S10000x128, .f32⟩
  | 18 => ⟨S1x128, .f32⟩
  | 19 => ⟨S128, .f32⟩
  | 20 => ⟨S1x128, .f32⟩
  | 21 => ⟨S10000x128, .f32⟩
  | 22 => ⟨S10000x128, .f32⟩
  | 23 => ⟨S10000x128, .f32⟩
  | 24 => ⟨S10000x128, .f32⟩
  | 25 => ⟨S_, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S10000x128, .f32⟩
  | 32 => ⟨S10000x128, .f32⟩
  | 33 => ⟨S10000x128, .f32⟩
  | 34 => ⟨S1x128, .f32⟩
  | 35 => ⟨S128, .f32⟩
  | 36 => ⟨S1x128, .f32⟩
  | 37 => ⟨S128, .f32⟩
  | 38 => ⟨S_, .f32⟩
  | 39 => ⟨S10000, .f32⟩
  | 40 => ⟨S10000x1, .f32⟩
  | 41 => ⟨S_, .f32⟩
  | 42 => ⟨S10000x1, .f32⟩
  | 43 => ⟨S10000x1, .f32⟩
  | 44 => ⟨S10000x128, .f32⟩
  | 45 => ⟨S10000x128, .f32⟩
  | 46 => ⟨S10000x128, .f32⟩
  | 47 => ⟨S_, .f32⟩
  | 48 => ⟨S10000, .f32⟩
  | 49 => ⟨S10000x1, .f32⟩
  | 50 => ⟨S_, .f32⟩
  | 51 => ⟨S10000x1, .f32⟩
  | 52 => ⟨S10000x1, .f32⟩
  | 53 => ⟨S10000x128, .f32⟩
  | 54 => ⟨S10000x128, .f32⟩
  | 55 => ⟨S_, .f32⟩
  | 56 => ⟨S10000x1, .f32⟩
  | 57 => ⟨S10000x1, .f32⟩
  | 58 => ⟨S10000x1, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S1x128, .f32⟩
  | 65 => ⟨S10000x128, .f32⟩
  | 66 => ⟨S10000x128, .f32⟩
  | 67 => ⟨S_, .i32⟩
  | 68 => ⟨S10000x32, .i32⟩
  | 69 => ⟨S10000x32, .i1⟩
  | 70 => ⟨S_, .i32⟩
  | 71 => ⟨S10000x32, .i32⟩
  | 72 => ⟨S10000x32, .i32⟩
  | 73 => ⟨S10000x32, .i32⟩
  | 74 => ⟨S10000x32x1, .i32⟩
  | 75 => ⟨S10000x32x128, .f32⟩
  | 76 => ⟨S10000x32x1, .f32⟩
  | 77 => ⟨S10000x32x128, .f32⟩
  | 78 => ⟨S10000x32x128, .f32⟩
  | 79 => ⟨S_, .f32⟩
  | 80 => ⟨S10000x128, .f32⟩
  | 81 => ⟨S10000x256, .f32⟩
  | 82 => ⟨S1x256x128, .f32⟩
  | 83 => ⟨S256x128, .f32⟩
  | 84 => ⟨S10000x128, .f32⟩
  | 85 => ⟨S1x128, .f32⟩
  | 86 => ⟨S128, .f32⟩
  | 87 => ⟨S1x128, .f32⟩
  | 88 => ⟨S10000x128, .f32⟩
  | 89 => ⟨S10000x128, .f32⟩
  | 90 => ⟨S10000x128, .f32⟩
  | 91 => ⟨S10000x128, .f32⟩
  | 92 => ⟨S_, .f32⟩
  | 93 => ⟨S10000x128, .f32⟩
  | 94 => ⟨S10000x128, .f32⟩
  | 95 => ⟨S_, .f32⟩
  | 96 => ⟨S10000x128, .f32⟩
  | 97 => ⟨S10000x128, .f32⟩
  | 98 => ⟨S10000x128, .f32⟩
  | 99 => ⟨S10000x128, .f32⟩
  | 100 => ⟨S10000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S10000, .f32⟩
  | 107 => ⟨S10000x1, .f32⟩
  | 108 => ⟨S_, .f32⟩
  | 109 => ⟨S10000x1, .f32⟩
  | 110 => ⟨S10000x1, .f32⟩
  | 111 => ⟨S10000x128, .f32⟩
  | 112 => ⟨S10000x128, .f32⟩
  | 113 => ⟨S10000x128, .f32⟩
  | 114 => ⟨S_, .f32⟩
  | 115 => ⟨S10000, .f32⟩
  | 116 => ⟨S10000x1, .f32⟩
  | 117 => ⟨S_, .f32⟩
  | 118 => ⟨S10000x1, .f32⟩
  | 119 => ⟨S10000x1, .f32⟩
  | 120 => ⟨S10000x128, .f32⟩
  | 121 => ⟨S10000x128, .f32⟩
  | 122 => ⟨S_, .f32⟩
  | 123 => ⟨S10000x1, .f32⟩
  | 124 => ⟨S10000x1, .f32⟩
  | 125 => ⟨S10000x1, .f32⟩
  | 126 => ⟨S10000x128, .f32⟩
  | 127 => ⟨S10000x128, .f32⟩
  | _ => ⟨S10000x128, .f32⟩

abbrev hbmTy0_3 (i : Nat) : BufTy := match i % 128 with
  | 0 => ⟨S1x128, .f32⟩
  | 1 => ⟨S10000x128, .f32⟩
  | 2 => ⟨S10000x128, .f32⟩
  | 3 => ⟨S1x128, .f32⟩
  | 4 => ⟨S10000x128, .f32⟩
  | 5 => ⟨S10000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_15 : Ref sig .tc := ⟨.hbm, 122, rfl⟩
abbrev main_v94 : Ref sig .tc := ⟨.hbm, 123, rfl⟩
abbrev main_v95 : Ref sig .tc := ⟨.hbm, 124, rfl⟩
abbrev main_c_16 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_17 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_18 : Ref sig .tc := ⟨.hbm, 147, rfl⟩
abbrev main_v116 : Ref sig .tc := ⟨.hbm, 148, rfl⟩
abbrev main_v117 : Ref sig .tc := ⟨.hbm, 149, rfl⟩
abbrev main_cst_19 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_20 : Ref sig .tc := ⟨.hbm, 160, rfl⟩
abbrev main_v127 : Ref sig .tc := ⟨.hbm, 161, rfl⟩
abbrev main_v128 : Ref sig .tc := ⟨.hbm, 162, rfl⟩
abbrev main_cst_21 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_22 : Ref sig .tc := ⟨.hbm, 169, rfl⟩
abbrev main_v134 : Ref sig .tc := ⟨.hbm, 170, rfl⟩
abbrev main_v135 : Ref sig .tc := ⟨.hbm, 171, rfl⟩
abbrev main_cst_23 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_24 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_c_25 : Ref sig .tc := ⟨.hbm, 189, rfl⟩
abbrev main_v151 : Ref sig .tc := ⟨.hbm, 190, rfl⟩
abbrev main_v152 : Ref sig .tc := ⟨.hbm, 191, rfl⟩
abbrev main_c_26 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_27 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_28 : Ref sig .tc := ⟨.hbm, 214, rfl⟩
abbrev main_v173 : Ref sig .tc := ⟨.hbm, 215, rfl⟩
abbrev main_v174 : Ref sig .tc := ⟨.hbm, 216, rfl⟩
abbrev main_cst_29 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_cst_30 : Ref sig .tc := ⟨.hbm, 227, rfl⟩
abbrev main_v184 : Ref sig .tc := ⟨.hbm, 228, rfl⟩
abbrev main_v185 : Ref sig .tc := ⟨.hbm, 229, rfl⟩
abbrev main_cst_31 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_cst_32 : Ref sig .tc := ⟨.hbm, 236, rfl⟩
abbrev main_v191 : Ref sig .tc := ⟨.hbm, 237, rfl⟩
abbrev main_v192 : Ref sig .tc := ⟨.hbm, 238, rfl⟩
abbrev main_cst_33 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_cst_34 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_c_35 : Ref sig .tc := ⟨.hbm, 256, rfl⟩
abbrev main_v208 : Ref sig .tc := ⟨.hbm, 257, rfl⟩
abbrev main_v209 : Ref sig .tc := ⟨.hbm, 258, rfl⟩
abbrev main_c_36 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_37 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_cst_38 : Ref sig .tc := ⟨.hbm, 281, rfl⟩
abbrev main_v230 : Ref sig .tc := ⟨.hbm, 282, rfl⟩
abbrev main_v231 : Ref sig .tc := ⟨.hbm, 283, rfl⟩
abbrev main_cst_39 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_40 : Ref sig .tc := ⟨.hbm, 294, rfl⟩
abbrev main_v241 : Ref sig .tc := ⟨.hbm, 295, rfl⟩
abbrev main_v242 : Ref sig .tc := ⟨.hbm, 296, rfl⟩
abbrev main_cst_41 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_cst_42 : Ref sig .tc := ⟨.hbm, 303, rfl⟩
abbrev main_v248 : Ref sig .tc := ⟨.hbm, 304, rfl⟩
abbrev main_v249 : Ref sig .tc := ⟨.hbm, 305, rfl⟩
abbrev main_cst_43 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_cst_44 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_c_45 : Ref sig .tc := ⟨.hbm, 323, rfl⟩
abbrev main_v265 : Ref sig .tc := ⟨.hbm, 324, rfl⟩
abbrev main_v266 : Ref sig .tc := ⟨.hbm, 325, rfl⟩
abbrev main_c_46 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_cst_47 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_cst_48 : Ref sig .tc := ⟨.hbm, 348, rfl⟩
abbrev main_v287 : Ref sig .tc := ⟨.hbm, 349, rfl⟩
abbrev main_v288 : Ref sig .tc := ⟨.hbm, 350, rfl⟩
abbrev main_cst_49 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_cst_50 : Ref sig .tc := ⟨.hbm, 361, rfl⟩
abbrev main_v298 : Ref sig .tc := ⟨.hbm, 362, rfl⟩
abbrev main_v299 : Ref sig .tc := ⟨.hbm, 363, rfl⟩
abbrev main_cst_51 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_cst_52 : Ref sig .tc := ⟨.hbm, 370, rfl⟩
abbrev main_v305 : Ref sig .tc := ⟨.hbm, 371, rfl⟩
abbrev main_v306 : Ref sig .tc := ⟨.hbm, 372, rfl⟩
abbrev main_cst_53 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_cst_54 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S10000x3_S10000x1x3_0_2 : S10000x3.BroadcastsInDim S10000x1x3 (![0, 2] : Fin 2 → Fin S10000x1x3.rank)
  bcast_S10000x1x3_S10000x32x3_0_1_2 : S10000x1x3.BroadcastsInDim S10000x32x3 (![0, 1, 2] : Fin 3 → Fin S10000x32x3.rank)
  bcast_S64_S1x1x64_2 : S64.BroadcastsInDim S1x1x64 (![2] : Fin 1 → Fin S1x1x64.rank)
  bcast_S1x1x64_S10000x32x64_0_1_2 : S1x1x64.BroadcastsInDim S10000x32x64 (![0, 1, 2] : Fin 3 → Fin S10000x32x64.rank)
  bcast_S_S10000x32x64 : S_.BroadcastsInDim S10000x32x64 (![] : Fin 0 → Fin S10000x32x64.rank)
  bcast_S1_S1x1x1_2 : S1.BroadcastsInDim S1x1x1 (![2] : Fin 1 → Fin S1x1x1.rank)
  bcast_S1x1x1_S10000x32x1_0_1_2 : S1x1x1.BroadcastsInDim S10000x32x1 (![0, 1, 2] : Fin 3 → Fin S10000x32x1.rank)
  shapeCasts_S10000x32x1_S10000x32 : S10000x32x1.ShapeCasts S10000x32
  reducesTo_S10000x32_S10000_d1 : S10000x32.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  bcast_S10000x32x1_S10000x32x128_0_1_2 : S10000x32x1.BroadcastsInDim S10000x32x128 (![0, 1, 2] : Fin 3 → Fin S10000x32x128.rank)
  reducesTo_S10000x32x128_S10000x128_d1 : S10000x32x128.ReducesTo [1] S10000x128
  concatenates_S10000x128_S10000x128_S10000x256_d1 : Shape.Concatenates [S10000x128, S10000x128] S10000x256 1
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  slices_S5x256x128_S1x256x128_1_0_0 : S5x256x128.Slices ![1, 0, 0] S1x256x128
  slices_S5x128_S1x128_1_0 : S5x128.Slices ![1, 0] S1x128
  slices_S5x256x128_S1x256x128_2_0_0 : S5x256x128.Slices ![2, 0, 0] S1x256x128
  slices_S5x128_S1x128_2_0 : S5x128.Slices ![2, 0] S1x128
  slices_S5x256x128_S1x256x128_3_0_0 : S5x256x128.Slices ![3, 0, 0] S1x256x128
  slices_S5x128_S1x128_3_0 : S5x128.Slices ![3, 0] S1x128
  slices_S5x256x128_S1x256x128_4_0_0 : S5x256x128.Slices ![4, 0, 0] S1x256x128
  slices_S5x128_S1x128_4_0 : S5x128.Slices ![4, 0] S1x128
  gather_S10000x3_S10000x32x1_S10000x32x3_2_0_n_n_0_2_13_wf : GatherDims.WF S10000x3 S10000x32x1 S10000x32x3 [2] [0] [] [0] [] 2 ![1, 3]
  dot_S10000x32x3_S3x64_S10000x32x64_2_0_01_1_n_n_wf : DotDims.WF S10000x32x3 S3x64 S10000x32x64 [2] [0] [0, 1] [1] [] []
  dot_S10000x32x64_S64x1_S10000x32x1_2_0_01_1_n_n_wf : DotDims.WF S10000x32x64 S64x1 S10000x32x1 [2] [0] [0, 1] [1] [] []
  gather_S10000x128_S10000x32x1_S10000x32x128_2_0_n_n_0_2_1128_wf : GatherDims.WF S10000x128 S10000x32x1 S10000x32x128 [2] [0] [] [0] [] 2 ![1, 128]
  dot_S10000x256_S256x128_S10000x128_1_0_0_1_n_n_wf : DotDims.WF S10000x256 S256x128 S10000x128 [1] [0] [0] [1] [] []

variable [Facts₀]

def gather_S10000x3_S10000x32x1_S10000x32x3_2_0_n_n_0_2_13 : GatherDims S10000x3 S10000x32x1 S10000x32x3 where
  offsetDims := [2]
  collapsedSliceDims := [0]
  operandBatchingDims := []
  startIndicesBatchingDims := []
  startIndexMap := [0]
  indexVectorDim := 2
  sliceSizes := ![1, 3]
  wf := gather_S10000x3_S10000x32x1_S10000x32x3_2_0_n_n_0_2_13_wf
def dot_S10000x32x3_S3x64_S10000x32x64_2_0_01_1_n_n : DotDims S10000x32x3 S3x64 S10000x32x64 where
  lhsContracting := [2]
  rhsContracting := [0]
  lhsNonContracting := [0, 1]
  rhsNonContracting := [1]
  lhsBatch := []
  rhsBatch := []
  wf := dot_S10000x32x3_S3x64_S10000x32x64_2_0_01_1_n_n_wf
def dot_S10000x32x64_S64x1_S10000x32x1_2_0_01_1_n_n : DotDims S10000x32x64 S64x1 S10000x32x1 where
  lhsContracting := [2]
  rhsContracting := [0]
  lhsNonContracting := [0, 1]
  rhsNonContracting := [1]
  lhsBatch := []
  rhsBatch := []
  wf := dot_S10000x32x64_S64x1_S10000x32x1_2_0_01_1_n_n_wf
def gather_S10000x128_S10000x32x1_S10000x32x128_2_0_n_n_0_2_1128 : GatherDims S10000x128 S10000x32x1 S10000x32x128 where
  offsetDims := [2]
  collapsedSliceDims := [0]
  operandBatchingDims := []
  startIndicesBatchingDims := []
  startIndexMap := [0]
  indexVectorDim := 2
  sliceSizes := ![1, 128]
  wf := gather_S10000x128_S10000x32x1_S10000x32x128_2_0_n_n_0_2_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.PreFacts.lean ====
/-
  What the certificate's precondition gives. The precondition is the printed predicate
  `Cert.Pre_input_domain.fn` of the eleven argument arrays being all ones: per float array
  `all (|x| < +inf)`, and for the integer array `all (0 ≤ idx ∧ idx ≤ 9999)`, all conjoined.
  Here each conjunct is read back: every index word lies in [0, 9999] (at any float instance),
  and at the extended-real instance every float entry is a real.
-/
import proofs.«205547_g25623774888366_cont_9to1_713_27_alg».proof.Defs
import proofs.«205547_g25623774888366_cont_9to1_713_27_alg».proof.Proof.Gen.Pre_input_domain
import Idealize.ShloMosaic.Lib.ReduceAll

noncomputable section

namespace Cert.Proof.PreFacts

open Idealize.ShloMosaic Idealize.SL.Sem
open Cert.Pre_input_domain

/-- The rank-0 shape has one index. -/
instance subsingleton_S_ : Subsingleton S_.Idx := ⟨fun a b => funext fun d => d.elim0⟩

/-- What the precondition says of one index word `v`: as a signed integer it lies in [0, 9999]. -/
structure IdxOK (v : BitVec 32) : Prop where
  nonneg : 0 ≤ v.toInt
  le : v.toInt ≤ 9999
  lt : v.toNat < 10000
  toInt_eq : v.toInt = (v.toNat : Int)
  cmpi_slt : IntOp.cmpi .slt v 0#32 = 0#1
  slt : v.slt 0#32 = false

/-- One word passing both printed comparisons lies in [0, 9999]. -/
theorem idxOK_of_word (v : BitVec 32)
    (e : IntOp.andi (IntOp.cmpi .sge v 0#32) (IntOp.cmpi .sle v 9999#32) = 1#1) : IdxOK v := by
  obtain ⟨h1, h2⟩ := IntOp.andi_eq_one.1 e
  have h1' : (0#32 : BitVec 32).toInt ≤ v.toInt := IntOp.cmpi_sge.1 h1
  have h2' : v.toInt ≤ (9999#32 : BitVec 32).toInt := IntOp.cmpi_sle.1 h2
  have c0 : (0#32 : BitVec 32).toInt = 0 := by decide
  have c1 : (9999#32 : BitVec 32).toInt = 9999 := by decide
  rw [c0] at h1'
  rw [c1] at h2'
  have hlt := v.isLt
  have hcond := BitVec.toInt_eq_toNat_cond v
  have heq : v.toInt = (v.toNat : Int) := by
    split at hcond <;> omega
  have hs : v.slt 0#32 = false := by
    rw [BitVec.slt_eq_decide, c0]
    exact decide_eq_false (by omega)
  refine ⟨h1', h2', by omega, heq, ?_, hs⟩
  simp only [IntOp.cmpi, hs]
  rfl

/-- An extended real whose absolute value is below the pattern of +inf is a real. -/
theorem real_of_word (x : Ideal .f32)
    (e : FloatOps.cmpf (F := Ideal) .olt (FloatOps.hostAbsf x) (FloatOps.ofBits (F := Ideal) .f32 0x7F800000#32) = 1#1) :
    ∃ r : ℝ, x = (r : EReal) := by
  have hb : Ideal.ofBits .f32 0x7F800000#32 = (⊤ : EReal) := by simp [Ideal.ofBits, Ideal.ieee]
  change BitVec.ofBool (decide (max x (-x) < Ideal.ofBits .f32 0x7F800000#32)) = 1#1 at e
  rw [hb] at e
  have hlt : max x (-x) < (⊤ : EReal) := by
    by_contra hn
    rw [decide_eq_false hn] at e
    exact absurd e (by decide)
  induction x using EReal.rec with
  | bot => simp at hlt
  | coe r => exact ⟨r, rfl⟩
  | top => simp at hlt

section generic
variable {F : FTy → Type} [FloatOps F] [hP : Cert.Pre_input_domain.Facts]

/-- The printed predicate, conjunct by conjunct: each float array's entries pass `|x| < +inf`,
    each index word passes `0 ≤ v` and `v ≤ 9999`. -/
structure Conj (a0 : FVec F S10000x128 .f32) (a1 : FVec F S10000x3 .f32) (a2 : IVec S10000x32 32) (a3 : FVec F S3x64 .f32) (a4 : FVec F S64 .f32) (a5 : FVec F S64x1 .f32) (a6 : FVec F S1 .f32) (a7 : FVec F S5x256x128 .f32) (a8 : FVec F S5x128 .f32) (a9 : FVec F S5x128 .f32) (a10 : FVec F S5x128 .f32) : Prop where
  f0 : ∀ i : S10000x128.Idx, FloatOps.cmpf (F := F) .olt (FloatOps.hostAbsf (a0 i)) (FloatOps.ofBits (F := F) .f32 0x7F800000#32) = 1#1
  f1 : ∀ i : S10000x3.Idx, FloatOps.cmpf (F := F) .olt (FloatOps.hostAbsf (a1 i)) (FloatOps.ofBits (F := F) .f32 0x7F800000#32) = 1#1
  f3 : ∀ i : S3x64.Idx, FloatOps.cmpf (F := F) .olt (FloatOps.hostAbsf (a3 i)) (FloatOps.ofBits (F := F) .f32 0x7F800000#32) = 1#1
  f4 : ∀ i : S64.Idx, FloatOps.cmpf (F := F) .olt (FloatOps.hostAbsf (a4 i)) (FloatOps.ofBits (F := F) .f32 0x7F800000#32) = 1#1
  f5 : ∀ i : S64x1.Idx, FloatOps.cmpf (F := F) .olt (FloatOps.hostAbsf (a5 i)) (FloatOps.ofBits (F := F) .f32 0x7F800000#32) = 1#1
  f6 : ∀ i : S1.Idx, FloatOps.cmpf (F := F) .olt (FloatOps.hostAbsf (a6 i)) (FloatOps.ofBits (F := F) .f32 0x7F800000#32) = 1#1
  f7 : ∀ i : S5x256x128.Idx, FloatOps.cmpf (F := F) .olt (FloatOps.hostAbsf (a7 i)) (FloatOps.ofBits (F := F) .f32 0x7F800000#32) = 1#1
  f8 : ∀ i : S5x128.Idx, FloatOps.cmpf (F := F) .olt (FloatOps.hostAbsf (a8 i)) (FloatOps.ofBits (F := F) .f32 0x7F800000#32) = 1#1
  f9 : ∀ i : S5x128.Idx, FloatOps.cmpf (F := F) .olt (FloatOps.hostAbsf (a9 i)) (FloatOps.ofBits (F := F) .f32 0x7F800000#32) = 1#1
  f10 : ∀ i : S5x128.Idx, FloatOps.cmpf (F := F) .olt (FloatOps.hostAbsf (a10 i)) (FloatOps.ofBits (F := F) .f32 0x7F800000#32) = 1#1
  i2 : ∀ j : S10000x32.Idx, IntOp.andi (IntOp.cmpi .sge (a2 j) 0#32) (IntOp.cmpi .sle (a2 j) 9999#32) = 1#1

/-- The predicate being all ones is the conjunction of its eleven `all`s. -/
theorem conj_of_pre (a0 : FVec F S10000x128 .f32) (a1 : FVec F S10000x3 .f32) (a2 : IVec S10000x32 32) (a3 : FVec F S3x64 .f32) (a4 : FVec F S64 .f32) (a5 : FVec F S64x1 .f32) (a6 : FVec F S1 .f32) (a7 : FVec F S5x256x128 .f32) (a8 : FVec F S5x128 .f32) (a9 : FVec F S5x128 .f32) (a10 : FVec F S5x128 .f32)
    (h : Cert.Pre_input_domain.fn (F := F) a0 a1 a2 a3 a4 a5 a6 a7 a8 a9 a10 = (fun _ => 1#1)) :
    Conj (F := F) a0 a1 a2 a3 a4 a5 a6 a7 a8 a9 a10 := by
  -- the predicate's one result word, at the one index of the rank-0 shape
  have e := congrFun h (fun d => d.elim0)
  dsimp only [fn, fn_part1, fn_part2, fn_part3] at e
  -- a pointwise `and` of two words is 1 exactly when both are
  have split : ∀ (x y : IVec S_ 1) (j : S_.Idx), andi x y j = 1#1 → x j = 1#1 ∧ y j = 1#1 :=
    fun x y j hh => IntOp.andi_eq_one.1 hh
  obtain ⟨e, e2⟩ := split _ _ _ e
  obtain ⟨e, e10⟩ := split _ _ _ e
  obtain ⟨e, e9⟩ := split _ _ _ e
  obtain ⟨e, e8⟩ := split _ _ _ e
  obtain ⟨e, e7⟩ := split _ _ _ e
  obtain ⟨e, e6⟩ := split _ _ _ e
  obtain ⟨e, e5⟩ := split _ _ _ e
  obtain ⟨e, e4⟩ := split _ _ _ e
  obtain ⟨e, e3⟩ := split _ _ _ e
  obtain ⟨e0, e1⟩ := split _ _ _ e
  -- each `all` is a reduction by `and` over every axis: all ones gives each element one
  exact ⟨fun i => Host.reduce_andi_all _ _ _ _ _ e0 i,
    fun i => Host.reduce_andi_all _ _ _ _ _ e1 i,
    fun i => Host.reduce_andi_all _ _ _ _ _ e3 i,
    fun i => Host.reduce_andi_all _ _ _ _ _ e4 i,
    fun i => Host.reduce_andi_all _ _ _ _ _ e5 i,
    fun i => Host.reduce_andi_all _ _ _ _ _ e6 i,
    fun i => Host.reduce_andi_all _ _ _ _ _ e7 i,
    fun i => Host.reduce_andi_all _ _ _ _ _ e8 i,
    fun i => Host.reduce_andi_all _ _ _ _ _ e9 i,
    fun i => Host.reduce_andi_all _ _ _ _ _ e10 i,
    fun j => Host.reduce_andi_all _ _ _ _ _ e2 j⟩

/-- At any float instance: every index word of the integer input lies in [0, 9999]. -/
theorem idx_of_pre (a0 : FVec F S10000x128 .f32) (a1 : FVec F S10000x3 .f32) (a2 : IVec S10000x32 32) (a3 : FVec F S3x64 .f32) (a4 : FVec F S64 .f32) (a5 : FVec F S64x1 .f32) (a6 : FVec F S1 .f32) (a7 : FVec F S5x256x128 .f32) (a8 : FVec F S5x128 .f32) (a9 : FVec F S5x128 .f32) (a10 : FVec F S5x128 .f32)
    (h : Cert.Pre_input_domain.fn (F := F) a0 a1 a2 a3 a4 a5 a6 a7 a8 a9 a10 = (fun _ => 1#1)) :
    ∀ j : S10000x32.Idx, IdxOK (a2 j) :=
  fun j => idxOK_of_word _ ((conj_of_pre a0 a1 a2 a3 a4 a5 a6 a7 a8 a9 a10 h).i2 j)

end generic

section ideal
variable [hP : Cert.Pre_input_domain.Facts]

/-- At the extended-real instance: every index word in [0, 9999] and every float entry a real. -/
structure IdealOK (a0 : FVec Ideal S10000x128 .f32) (a1 : FVec Ideal S10000x3 .f32) (a2 : IVec S10000x32 32) (a3 : FVec Ideal S3x64 .f32) (a4 : FVec Ideal S64 .f32) (a5 : FVec Ideal S64x1 .f32) (a6 : FVec Ideal S1 .f32) (a7 : FVec Ideal S5x256x128 .f32) (a8 : FVec Ideal S5x128 .f32) (a9 : FVec Ideal S5x128 .f32) (a10 : FVec Ideal S5x128 .f32) : Prop where
  idx : ∀ j : S10000x32.Idx, IdxOK (a2 j)
  r0 : ∀ i : S10000x128.Idx, ∃ r : ℝ, a0 i = (r : EReal)
  r1 : ∀ i : S10000x3.Idx, ∃ r : ℝ, a1 i = (r : EReal)
  r3 : ∀ i : S3x64.Idx, ∃ r : ℝ, a3 i = (r : EReal)
  r4 : ∀ i : S64.Idx, ∃ r : ℝ, a4 i = (r : EReal)
  r5 : ∀ i : S64x1.Idx, ∃ r : ℝ, a5 i = (r : EReal)
  r6 : ∀ i : S1.Idx, ∃ r : ℝ, a6 i = (r : EReal)
  r7 : ∀ i : S5x256x128.Idx, ∃ r : ℝ, a7 i = (r : EReal)
  r8 : ∀ i : S5x128.Idx, ∃ r : ℝ, a8 i = (r : EReal)
  r9 : ∀ i : S5x128.Idx, ∃ r : ℝ, a9 i = (r : EReal)
  r10 : ∀ i : S5x128.Idx, ∃ r : ℝ, a10 i = (r : EReal)

/-- At the extended-real instance the predicate gives both: index words in range, float entries real. -/
theorem idealOK_of_pre (a0 : FVec Ideal S10000x128 .f32) (a1 : FVec Ideal S10000x3 .f32) (a2 : IVec S10000x32 32) (a3 : FVec Ideal S3x64 .f32) (a4 : FVec Ideal S64 .f32) (a5 : FVec Ideal S64x1 .f32) (a6 : FVec Ideal S1 .f32) (a7 : FVec Ideal S5x256x128 .f32) (a8 : FVec Ideal S5x128 .f32) (a9 : FVec Ideal S5x128 .f32) (a10 : FVec Ideal S5x128 .f32)
    (h : Cert.Pre_input_domain.fn (F := Ideal) a0 a1 a2 a3 a4 a5 a6 a7 a8 a9 a10 = (fun _ => 1#1)) :
    IdealOK a0 a1 a2 a3 a4 a5 a6 a7 a8 a9 a10 := by
  have hc := conj_of_pre (F := Ideal) a0 a1 a2 a3 a4 a5 a6 a7 a8 a9 a10 h
  exact ⟨fun j => idxOK_of_word _ (hc.i2 j),
    fun i => real_of_word _ (hc.f0 i),
    fun i => real_of_word _ (hc.f1 i),
    fun i => real_of_word _ (hc.f3 i),
    fun i => real_of_word _ (hc.f4 i),
    fun i => real_of_word _ (hc.f5 i),
    fun i => real_of_word _ (hc.f6 i),
    fun i => real_of_word _ (hc.f7 i),
    fun i => real_of_word _ (hc.f8 i),
    fun i => real_of_word _ (hc.f9 i),
    fun i => real_of_word _ (hc.f10 i)⟩

/-- From the idealized kernel's precondition, on every device, of its argument arrays. -/
theorem of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    IdealOK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) :=
  idealOK_of_pre _ _ _ _ _ _ _ _ _ _ _ (h c)

/-- The same from the idealized reference's precondition. -/
theorem of_Pre_ReferenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    IdealOK
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10)) :=
  idealOK_of_pre _ _ _ _ _ _ _ _ _ _ _ (h c)

/-- From the word-level kernel's precondition: the index range (the float conjuncts say nothing real-valued there). -/
theorem of_Pre_Kernel
    (m : (ℓ : Loc Cert.Kernel.nD Cert.Kernel.τ Cert.Kernel.sig) → Buf (Elt Bits) ℓ)
    (h : Cert.Pre_Kernel m) (c : Dev Cert.Kernel.nD) :
    ∀ j : S10000x32.Idx, IdxOK ((m ((c.tc : Thread Cert.Kernel.nD Cert.Kernel.τ).loc Cert.Kernel.main_arg2)) j) :=
  idx_of_pre (F := Bits) _ _ _ _ _ _ _ _ _ _ _ (h c)

end ideal

end Cert.Proof.PreFacts

end
-- ==== Proof.Assembly.lean ====
/-
  The claim's conjuncts from the runs. Each program's frame is its run to the valuation after @main, read at the eleven
  argument arrays, which that valuation keeps; the index words are in range under the precondition, which is what the
  run asks. The algebraic conjunct pairs the idealized kernel's run, read at its result, with the reference's run: on
  inputs satisfying the precondition both results are one function of the arguments.
-/
import proofs.«205547_g25623774888366_cont_9to1_713_27_alg».proof.Defs
import proofs.«205547_g25623774888366_cont_9to1_713_27_alg».proof.Proof.Gen.Kernel
import proofs.«205547_g25623774888366_cont_9to1_713_27_alg».proof.Proof.Gen.KernelIdeal
import proofs.«205547_g25623774888366_cont_9to1_713_27_alg».proof.Proof.Gen.ReferenceIdeal
import proofs.«205547_g25623774888366_cont_9to1_713_27_alg».proof.Proof.Gen.Pre_input_domain
import proofs.«205547_g25623774888366_cont_9to1_713_27_alg».proof.Proof.PreFacts
import Idealize.ShloMosaic.Lib.SparseCore.Cells

noncomputable section

namespace Cert.Proof.Assembly

open Idealize.ShloMosaic Idealize.SL.Sem
open Idealize.ShloMosaic.SparseCore (T)

/-- The frame of `Cert.KernelIdeal` from its run to the valuation `W` after @main and the fact that `W` keeps the eleven argument
    arrays: the index words are in range under the precondition, so the run applies; its post read at the arguments. -/
theorem frame_ki_of
    (W : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
    (hrun : ∀ (m : (ℓ : Loc Cert.KernelIdeal.nD Cert.KernelIdeal.τ Cert.KernelIdeal.sig) → Buf (Elt Ideal) ℓ) (ρ : Dev Cert.KernelIdeal.nD → PrngReg),
      (∀ (d : Dev Cert.KernelIdeal.nD) (j : Cert.KernelIdeal.S10000x32.Idx), (m ((T d : Thread Cert.KernelIdeal.nD Cert.KernelIdeal.τ).loc Cert.KernelIdeal.main_arg2) j).toNat < 10000) →
      θ_run (Cert.KernelIdeal.defs (F := Ideal)) (Cert.KernelIdeal.threads (F := Ideal)) ⟨m, fun _ => 0, ρ⟩
        (fun r => ∀ (c : Dev Cert.KernelIdeal.nD) (b : Ref Cert.KernelIdeal.sig .tc), b.isScoped = false →
          r.2.mem ((T c : Thread Cert.KernelIdeal.nD Cert.KernelIdeal.τ).loc b) = W m c (Proc.devRef .tc b)))
    (hkeep : ∀ (m : (ℓ : Loc Cert.KernelIdeal.nD Cert.KernelIdeal.τ Cert.KernelIdeal.sig) → Buf (Elt Ideal) ℓ) (d : Dev Cert.KernelIdeal.nD),
      W m d (Proc.devRef .tc Cert.KernelIdeal.main_arg0) = m ((T d : Thread Cert.KernelIdeal.nD Cert.KernelIdeal.τ).loc Cert.KernelIdeal.main_arg0)
      ∧ W m d (Proc.devRef .tc Cert.KernelIdeal.main_arg1) = m ((T d : Thread Cert.KernelIdeal.nD Cert.KernelIdeal.τ).loc Cert.KernelIdeal.main_arg1)
      ∧ W m d (Proc.devRef .tc Cert.KernelIdeal.main_arg2) = m ((T d : Thread Cert.KernelIdeal.nD Cert.KernelIdeal.τ).loc Cert.KernelIdeal.main_arg2)
      ∧ W m d (Proc.devRef .tc Cert.KernelIdeal.main_arg3) = m ((T d : Thread Cert.KernelIdeal.nD Cert.KernelIdeal.τ).loc Cert.KernelIdeal.main_arg3)
      ∧ W m d (Proc.devRef .tc Cert.KernelIdeal.main_arg4) = m ((T d : Thread Cert.KernelIdeal.nD Cert.KernelIdeal.τ).loc Cert.KernelIdeal.main_arg4)
      ∧ W m d (Proc.devRef .tc Cert.KernelIdeal.main_arg5) = m ((T d : Thread Cert.KernelIdeal.nD Cert.KernelIdeal.τ).loc Cert.KernelIdeal.main_arg5)
      ∧ W m d (Proc.devRef .tc Cert.KernelIdeal.main_arg6) = m ((T d : Thread Cert.KernelIdeal.nD Cert.KernelIdeal.τ).loc Cert.KernelIdeal.main_arg6)
      ∧ W m d (Proc.devRef .tc Cert.KernelIdeal.main_arg7) = m ((T d : Thread Cert.KernelIdeal.nD Cert.KernelIdeal.τ).loc Cert.KernelIdeal.main_arg7)
      ∧ W m d (Proc.devRef .tc Cert.KernelIdeal.main_arg8) = m ((T d : Thread Cert.KernelIdeal.nD Cert.KernelIdeal.τ).loc Cert.KernelIdeal.main_arg8)
      ∧ W m d (Proc.devRef .tc Cert.KernelIdeal.main_arg9) = m ((T d : Thread Cert.KernelIdeal.nD Cert.KernelIdeal.τ).loc Cert.KernelIdeal.main_arg9)
      ∧ W m d (Proc.devRef .tc Cert.KernelIdeal.main_arg10) = m ((T d : Thread Cert.KernelIdeal.nD Cert.KernelIdeal.τ).loc Cert.KernelIdeal.main_arg10)) :
    Cert.frame_KernelIdeal := fun m g hpre =>
  (θ_run _ _ _).mono (fun r h c =>
    ⟨(h c Cert.KernelIdeal.main_arg0 rfl).trans (hkeep m c).1,
      (h c Cert.KernelIdeal.main_arg1 rfl).trans (hkeep m c).2.1,
      (h c Cert.KernelIdeal.main_arg2 rfl).trans (hkeep m c).2.2.1,
      (h c Cert.KernelIdeal.main_arg3 rfl).trans (hkeep m c).2.2.2.1,
      (h c Cert.KernelIdeal.main_arg4 rfl).trans (hkeep m c).2.2.2.2.1,
      (h c Cert.KernelIdeal.main_arg5 rfl).trans (hkeep m c).2.2.2.2.2.1,
      (h c Cert.KernelIdeal.main_arg6 rfl).trans (hkeep m c).2.2.2.2.2.2.1,
      (h c Cert.KernelIdeal.main_arg7 rfl).trans (hkeep m c).2.2.2.2.2.2.2.1,
      (h c Cert.KernelIdeal.main_arg8 rfl).trans (hkeep m c).2.2.2.2.2.2.2.2.1,
      (h c Cert.KernelIdeal.main_arg9 rfl).trans (hkeep m c).2.2.2.2.2.2.2.2.2.1,
      (h c Cert.KernelIdeal.main_arg10 rfl).trans (hkeep m c).2.2.2.2.2.2.2.2.2.2⟩)
    (hrun m g fun d j => ((Cert.Proof.PreFacts.of_Pre_KernelIdeal m hpre d).idx j).lt)

/-- The frame of `Cert.Kernel` from its run to the valuation `W` after @main and the fact that `W` keeps the eleven argument
    arrays: the index words are in range under the precondition, so the run applies; its post read at the arguments. -/
theorem frame_k_of
    (W : ((ℓ : Loc Cert.Kernel.nD Cert.Kernel.τ Cert.Kernel.sig) → Buf (Elt Bits) ℓ) → Dev Cert.Kernel.nD → Valuation Cert.Kernel.τ Cert.Kernel.sig (Elt Bits))
    (hrun : ∀ (m : (ℓ : Loc Cert.Kernel.nD Cert.Kernel.τ Cert.Kernel.sig) → Buf (Elt Bits) ℓ) (ρ : Dev Cert.Kernel.nD → PrngReg),
      (∀ (d : Dev Cert.Kernel.nD) (j : Cert.Kernel.S10000x32.Idx), (m ((T d : Thread Cert.Kernel.nD Cert.Kernel.τ).loc Cert.Kernel.main_arg2) j).toNat < 10000) →
      θ_run (Cert.Kernel.defs (F := Bits)) (Cert.Kernel.threads (F := Bits)) ⟨m, fun _ => 0, ρ⟩
        (fun r => ∀ (c : Dev Cert.Kernel.nD) (b : Ref Cert.Kernel.sig .tc), b.isScoped = false →
          r.2.mem ((T c : Thread Cert.Kernel.nD Cert.Kernel.τ).loc b) = W m c (Proc.devRef .tc b)))
    (hkeep : ∀ (m : (ℓ : Loc Cert.Kernel.nD Cert.Kernel.τ Cert.Kernel.sig) → Buf (Elt Bits) ℓ) (d : Dev Cert.Kernel.nD),
      W m d (Proc.devRef .tc Cert.Kernel.main_arg0) = m ((T d : Thread Cert.Kernel.nD Cert.Kernel.τ).loc Cert.Kernel.main_arg0)
      ∧ W m d (Proc.devRef .tc Cert.Kernel.main_arg1) = m ((T d : Thread Cert.Kernel.nD Cert.Kernel.τ).loc Cert.Kernel.main_arg1)
      ∧ W m d (Proc.devRef .tc Cert.Kernel.main_arg2) = m ((T d : Thread Cert.Kernel.nD Cert.Kernel.τ).loc Cert.Kernel.main_arg2)
      ∧ W m d (Proc.devRef .tc Cert.Kernel.main_arg3) = m ((T d : Thread Cert.Kernel.nD Cert.Kernel.τ).loc Cert.Kernel.main_arg3)
      ∧ W m d (Proc.devRef .tc Cert.Kernel.main_arg4) = m ((T d : Thread Cert.Kernel.nD Cert.Kernel.τ).loc Cert.Kernel.main_arg4)
      ∧ W m d (Proc.devRef .tc Cert.Kernel.main_arg5) = m ((T d : Thread Cert.Kernel.nD Cert.Kernel.τ).loc Cert.Kernel.main_arg5)
      ∧ W m d (Proc.devRef .tc Cert.Kernel.main_arg6) = m ((T d : Thread Cert.Kernel.nD Cert.Kernel.τ).loc Cert.Kernel.main_arg6)
      ∧ W m d (Proc.devRef .tc Cert.Kernel.main_arg7) = m ((T d : Thread Cert.Kernel.nD Cert.Kernel.τ).loc Cert.Kernel.main_arg7)
      ∧ W m d (Proc.devRef .tc Cert.Kernel.main_arg8) = m ((T d : Thread Cert.Kernel.nD Cert.Kernel.τ).loc Cert.Kernel.main_arg8)
      ∧ W m d (Proc.devRef .tc Cert.Kernel.main_arg9) = m ((T d : Thread Cert.Kernel.nD Cert.Kernel.τ).loc Cert.Kernel.main_arg9)
      ∧ W m d (Proc.devRef .tc Cert.Kernel.main_arg10) = m ((T d : Thread Cert.Kernel.nD Cert.Kernel.τ).loc Cert.Kernel.main_arg10)) :
    Cert.frame_Kernel := fun m g hpre =>
  (θ_run _ _ _).mono (fun r h c =>
    ⟨(h c Cert.Kernel.main_arg0 rfl).trans (hkeep m c).1,
      (h c Cert.Kernel.main_arg1 rfl).trans (hkeep m c).2.1,
      (h c Cert.Kernel.main_arg2 rfl).trans (hkeep m c).2.2.1,
      (h c Cert.Kernel.main_arg3 rfl).trans (hkeep m c).2.2.2.1,
      (h c Cert.Kernel.main_arg4 rfl).trans (hkeep m c).2.2.2.2.1,
      (h c Cert.Kernel.main_arg5 rfl).trans (hkeep m c).2.2.2.2.2.1,
      (h c Cert.Kernel.main_arg6 rfl).trans (hkeep m c).2.2.2.2.2.2.1,
      (h c Cert.Kernel.main_arg7 rfl).trans (hkeep m c).2.2.2.2.2.2.2.1,
      (h c Cert.Kernel.main_arg8 rfl).trans (hkeep m c).2.2.2.2.2.2.2.2.1,
      (h c Cert.Kernel.main_arg9 rfl).trans (hkeep m c).2.2.2.2.2.2.2.2.2.1,
      (h c Cert.Kernel.main_arg10 rfl).trans (hkeep m c).2.2.2.2.2.2.2.2.2.2⟩)
    (hrun m g fun d j => (Cert.Proof.PreFacts.of_Pre_Kernel m hpre d j).lt)

/-- The two programs' argument arrays agree, device by device. -/
abbrev Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- The algebraic conjunct from the idealized kernel's run to the valuation `W` after @main (which keeps the arguments),
    the reference's run to any stated result `KOUT` that equals its result term `RES`, and the value equation: under the
    precondition and on agreeing arguments the kernel's result array in `W` is the reference's result term. The common
    value is the kernel's result array. -/
theorem algebraic_of
    (W : ((ℓ : Loc Cert.KernelIdeal.nD Cert.KernelIdeal.τ Cert.KernelIdeal.sig) → Buf (Elt Ideal) ℓ) → Dev Cert.KernelIdeal.nD → Valuation Cert.KernelIdeal.τ Cert.KernelIdeal.sig (Elt Ideal))
    (RES : ((ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v321))
    (hrun : ∀ (m : (ℓ : Loc Cert.KernelIdeal.nD Cert.KernelIdeal.τ Cert.KernelIdeal.sig) → Buf (Elt Ideal) ℓ) (ρ : Dev Cert.KernelIdeal.nD → PrngReg),
      (∀ (d : Dev Cert.KernelIdeal.nD) (j : Cert.KernelIdeal.S10000x32.Idx), (m ((T d : Thread Cert.KernelIdeal.nD Cert.KernelIdeal.τ).loc Cert.KernelIdeal.main_arg2) j).toNat < 10000) →
      θ_run (Cert.KernelIdeal.defs (F := Ideal)) (Cert.KernelIdeal.threads (F := Ideal)) ⟨m, fun _ => 0, ρ⟩
        (fun r => ∀ (c : Dev Cert.KernelIdeal.nD) (b : Ref Cert.KernelIdeal.sig .tc), b.isScoped = false →
          r.2.mem ((T c : Thread Cert.KernelIdeal.nD Cert.KernelIdeal.τ).loc b) = W m c (Proc.devRef .tc b)))
    (hkeep : ∀ (m : (ℓ : Loc Cert.KernelIdeal.nD Cert.KernelIdeal.τ Cert.KernelIdeal.sig) → Buf (Elt Ideal) ℓ) (d : Dev Cert.KernelIdeal.nD),
      W m d (Proc.devRef .tc Cert.KernelIdeal.main_arg0) = m ((T d : Thread Cert.KernelIdeal.nD Cert.KernelIdeal.τ).loc Cert.KernelIdeal.main_arg0)
      ∧ W m d (Proc.devRef .tc Cert.KernelIdeal.main_arg1) = m ((T d : Thread Cert.KernelIdeal.nD Cert.KernelIdeal.τ).loc Cert.KernelIdeal.main_arg1)
      ∧ W m d (Proc.devRef .tc Cert.KernelIdeal.main_arg2) = m ((T d : Thread Cert.KernelIdeal.nD Cert.KernelIdeal.τ).loc Cert.KernelIdeal.main_arg2)
      ∧ W m d (Proc.devRef .tc Cert.KernelIdeal.main_arg3) = m ((T d : Thread Cert.KernelIdeal.nD Cert.KernelIdeal.τ).loc Cert.KernelIdeal.main_arg3)
      ∧ W m d (Proc.devRef .tc Cert.KernelIdeal.main_arg4) = m ((T d : Thread Cert.KernelIdeal.nD Cert.KernelIdeal.τ).loc Cert.KernelIdeal.main_arg4)
      ∧ W m d (Proc.devRef .tc Cert.KernelIdeal.main_arg5) = m ((T d : Thread Cert.KernelIdeal.nD Cert.KernelIdeal.τ).loc Cert.KernelIdeal.main_arg5)
      ∧ W m d (Proc.devRef .tc Cert.KernelIdeal.main_arg6) = m ((T d : Thread Cert.KernelIdeal.nD Cert.KernelIdeal.τ).loc Cert.KernelIdeal.main_arg6)
      ∧ W m d (Proc.devRef .tc Cert.KernelIdeal.main_arg7) = m ((T d : Thread Cert.KernelIdeal.nD Cert.KernelIdeal.τ).loc Cert.KernelIdeal.main_arg7)
      ∧ W m d (Proc.devRef .tc Cert.KernelIdeal.main_arg8) = m ((T d : Thread Cert.KernelIdeal.nD Cert.KernelIdeal.τ).loc Cert.KernelIdeal.main_arg8)
      ∧ W m d (Proc.devRef .tc Cert.KernelIdeal.main_arg9) = m ((T d : Thread Cert.KernelIdeal.nD Cert.KernelIdeal.τ).loc Cert.KernelIdeal.main_arg9)
      ∧ W m d (Proc.devRef .tc Cert.KernelIdeal.main_arg10) = m ((T d : Thread Cert.KernelIdeal.nD Cert.KernelIdeal.τ).loc Cert.KernelIdeal.main_arg10))
    (href : ∀ (m' : (ℓ : Loc Cert.ReferenceIdeal.nD Cert.ReferenceIdeal.τ Cert.ReferenceIdeal.sig) → Buf (Elt Ideal) ℓ) (g' : Dev Cert.ReferenceIdeal.nD → PrngReg)
      (KOUT : (c : Dev Cert.ReferenceIdeal.nD) → Buf (Elt Ideal) ((c.tc : Thread Cert.ReferenceIdeal.nD Cert.ReferenceIdeal.τ).loc Cert.ReferenceIdeal.main_v321)), (∀ c, KOUT c = RES m' c) →
      θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = KOUT c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)))
    (hval : ∀ (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ), Cert.Pre_KernelIdeal m → Agree m m' →
      ∀ c : Dev Cert.KernelIdeal.nD, (W m c (Proc.devRef .tc Cert.KernelIdeal.main_v87) : Buf (Elt Ideal) ((c.tc : Thread Cert.KernelIdeal.nD Cert.KernelIdeal.τ).loc Cert.KernelIdeal.main_v87)) = RES m' c) :
    Cert.algebraic_KernelIdeal_ReferenceIdeal := fun m g m' g' hpre hag =>
  ⟨fun c => W m c (Proc.devRef .tc Cert.KernelIdeal.main_v87),
    (θ_run _ _ _).mono (fun r h c =>
      ⟨h c Cert.KernelIdeal.main_v87 rfl,
      (h c Cert.KernelIdeal.main_arg0 rfl).trans (hkeep m c).1,
      (h c Cert.KernelIdeal.main_arg1 rfl).trans (hkeep m c).2.1,
      (h c Cert.KernelIdeal.main_arg2 rfl).trans (hkeep m c).2.2.1,
      (h c Cert.KernelIdeal.main_arg3 rfl).trans (hkeep m c).2.2.2.1,
      (h c Cert.KernelIdeal.main_arg4 rfl).trans (hkeep m c).2.2.2.2.1,
      (h c Cert.KernelIdeal.main_arg5 rfl).trans (hkeep m c).2.2.2.2.2.1,
      (h c Cert.KernelIdeal.main_arg6 rfl).trans (hkeep m c).2.2.2.2.2.2.1,
      (h c Cert.KernelIdeal.main_arg7 rfl).trans (hkeep m c).2.2.2.2.2.2.2.1,
      (h c Cert.KernelIdeal.main_arg8 rfl).trans (hkeep m c).2.2.2.2.2.2.2.2.1,
      (h c Cert.KernelIdeal.main_arg9 rfl).trans (hkeep m c).2.2.2.2.2.2.2.2.2.1,
      (h c Cert.KernelIdeal.main_arg10 rfl).trans (hkeep m c).2.2.2.2.2.2.2.2.2.2⟩)
      (hrun m g fun d j => ((Cert.Proof.PreFacts.of_Pre_KernelIdeal m hpre d).idx j).lt),
    href m' g' (fun c => W m c (Proc.devRef .tc Cert.KernelIdeal.main_v87)) (fun c => hval m m' hpre hag c)⟩

end Cert.Proof.Assembly

end
-- ==== Proof.RefFrame.lean ====
/-
  The reference's frame and the ledger's ten entries.

  The reference is a straight-line host program: its generated run states that every weakly fair execution
  terminates with each result at the composed pure term of the arguments and the arguments unchanged; the
  frame keeps only the second half. Each ledger entry rewrites `extf (truncf x)` of a 400 x 128 block to `x`:
  at the extended reals a change of float format is the identity, and at the word level the pair is the
  rounding to the narrower format and back — the rule's statement at that shape and pair of formats.
-/
import proofs.«205547_g25623774888366_cont_9to1_713_27_alg».proof.Defs
import proofs.«205547_g25623774888366_cont_9to1_713_27_alg».proof.Proof.Gen.ReferenceIdeal
import proofs.«205547_g25623774888366_cont_9to1_713_27_alg».proof.Proof.Gen.ReferenceIdeal.Run
import proofs.«205547_g25623774888366_cont_9to1_713_27_alg».proof.Proof.Gen.Pre_input_domain

noncomputable section

namespace Cert.Proof.RefFrame

open Idealize.ShloMosaic Idealize.SL.Sem

/-- The reference runs to the end, faults nowhere and leaves its arguments as they were: its generated run
    with the result's value dropped. -/
theorem frame_ri [hR : Cert.ReferenceIdeal.Facts] [hP : Cert.Pre_input_domain.Facts] : Cert.frame_ReferenceIdeal := fun m ρ _ =>
  (θ_run Cert.ReferenceIdeal.defs _ _).mono (fun _ h c => (h c).2) (Cert.ReferenceIdeal.Value.run (F := Ideal) m ρ)

/-- One ledger entry: narrowing a 400 x 128 block of f32 to bf16 and widening it back. -/
theorem entry : IdealRules.truncf_extf.Statement Cert.KernelIdeal.S400x128 .f32 .bf16 :=
  IdealRules.truncf_extf.statement Cert.KernelIdeal.S400x128 .f32 .bf16

/-- The ten entries of the ledger, two per step call, all the same rewrite at the same shape. -/
theorem preserves : Cert.preserves_Kernel_KernelIdeal :=
  ⟨entry, entry, entry, entry, entry, entry, entry, entry, entry, entry⟩

end Cert.Proof.RefFrame

end
-- ==== Proof.LaunchBase.lean ====
/-
  Shared vocabulary of the kernel's launch: the resource algebra, the six gather calls' arrays, the rows each of
  the thirty-two workers owns, the shares of a table read by all of them, and what a gather leaves in its output.

  Worker `w = 2 i + c` (vector subcore `i` of SparseCore `c`) owns entries `[10000 w, 10000 (w + 1))` of the
  index array and the same rows of the output; the table is read whole by every worker, each through one of the
  thirty-two leaves of the full share halved five times. After the call, row `r` of the output is the table's row
  named by entry `r` of the index array.
-/
import proofs.«205547_g25623774888366_cont_9to1_713_27_alg».proof.KernelIdeal
import proofs.«205547_g25623774888366_cont_9to1_713_27_alg».proof.Proof.Gen.KernelIdeal
import Idealize.ShloMosaic.Lib.SparseCore.Launch
import Idealize.ShloMosaic.Lib.Pipeline.Kit
import Idealize.ShloMosaic.Lib.Transfers
import Idealize.ShloMosaic.Lib.ValueIdx

noncomputable section

namespace Cert.Proof.LaunchBase

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Rounds

variable {F : FTy → Type}

/-! ## The resource algebra: the handshakes' rounds, the pipelines' staging cells, the transfers' counters -/

abbrev UH : Type := URounds (GSem nD τ sig) ℕ
abbrev UP : Type := URounds (GSem nD τ sig) Unit
abbrev UU : Type := UH × (UP × Counters)

/-! ## The arrays of the six gather calls -/

/-- The index array, the same for every call. -/
abbrev iLoc (d : Dev nD) : Loc nD τ sig := (SparseCore.T d).loc main_v4
/-- Call `q`'s table … -/
abbrev xLoc0 (d : Dev nD) : Loc nD τ sig := (SparseCore.T d).loc main_v2
abbrev xLoc1 (d : Dev nD) : Loc nD τ sig := (SparseCore.T d).loc main_arg0
abbrev xLoc2 (d : Dev nD) : Loc nD τ sig := (SparseCore.T d).loc main_v35
abbrev xLoc3 (d : Dev nD) : Loc nD τ sig := (SparseCore.T d).loc main_v48
abbrev xLoc4 (d : Dev nD) : Loc nD τ sig := (SparseCore.T d).loc main_v61
abbrev xLoc5 (d : Dev nD) : Loc nD τ sig := (SparseCore.T d).loc main_v74
/-- … and its output. -/
abbrev oLoc0 (d : Dev nD) : Loc nD τ sig := (SparseCore.T d).loc main_v20
abbrev oLoc1 (d : Dev nD) : Loc nD τ sig := (SparseCore.T d).loc main_v23
abbrev oLoc2 (d : Dev nD) : Loc nD τ sig := (SparseCore.T d).loc main_v36
abbrev oLoc3 (d : Dev nD) : Loc nD τ sig := (SparseCore.T d).loc main_v49
abbrev oLoc4 (d : Dev nD) : Loc nD τ sig := (SparseCore.T d).loc main_v62
abbrev oLoc5 (d : Dev nD) : Loc nD τ sig := (SparseCore.T d).loc main_v75

/-! ## Thirty-two workers and their rows -/

theorem idiv : 32 ∣ S320000.size 0 := ⟨10000, rfl⟩
theorem odiv : 32 ∣ S320000x128.size 0 := ⟨10000, rfl⟩
abbrev irow (w : Fin 32) : Rect S320000 := Rect.part (s := S320000) (a₀ := 0) idiv w
abbrev orow (w : Fin 32) : Rect S320000x128 := Rect.part (s := S320000x128) (a₀ := 0) odiv w
/-- Worker `w`'s entries of the index array, and its rows of an output (the sets do not depend on which array). -/
abbrev iRowSet (w : Fin 32) : Finset S320000.Idx := (irow w).set
abbrev oRowSet (w : Fin 32) : Finset S320000x128.Idx := (orow w).set

/-- The worker on vector subcore `i` of SparseCore `c`. -/
def wOf (c : Fin 2) (i : Fin 16) : Fin 32 := ⟨i.val * 2 + c.val, by omega⟩

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker `w`'s share of a table. -/
abbrev sh (w : Fin 32) : PosShare TreeShare := leaf 5 fullShare w

/-! ## What a gather leaves -/

/-- Row `r` of the worker's block of the output holds the table's row that entry `r` of the index array names. -/
def GatherSpec (w : Fin 32) (IDX : S320000.Idx → Elt F .i32) (TAB : S10000x128.Idx → Elt F .f32) (OUT : S320000x128.Idx → Elt F .f32) : Prop :=
  ∀ (x : S320000x128.Idx) (j : S320000.Idx) (y : S10000x128.Idx), x ∈ oRowSet w →
    (j 0).val = (x 0).val → (y 0).val = (IDX j).toNat → (y 1).val = (x 1).val → OUT x = TAB y

/-- The gathered array as one function of the index array and the table (an index out of range reads row 0; none is,
    under the precondition). -/
def gatherFn (IDX : S320000.Idx → Elt F .i32) (TAB : S10000x128.Idx → Elt F .f32) : S320000x128.Idx → Elt F .f32 :=
  fun x =>
    let n : ℕ := (IDX (ValueIdx.ix1 (n := 320000) ⟨(x 0).val, (x 0).isLt⟩)).toNat
    TAB (ValueIdx.ix2 (n0 := 10000) (n1 := 128) (if h : n < 10000 then ⟨n, h⟩ else ⟨0, by omega⟩) ⟨(x 1).val, (x 1).isLt⟩)

end Cert.Proof.LaunchBase

end
-- ==== Proof.PayI.lean ====
/-
  What the handshakes of the six gather calls carry, and the launch element of the ghost state.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase

noncomputable section

namespace Cert.Proof.PayI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)

variable {F : FTy → Type}

/-! ## The program as the launch theorem sees it -/

abbrev ΛP : Labels := Pipeline.Sig Λ₀ (Fin 6) fun p => (pcfgs (F := F) p).Adm
abbrev K : SparseCore.Cfg τ sig (ΛP (F := F)) 6 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev adm : (p : Fin 6) → (pcfgs (F := F) p).Adm := fun p => (cfgs p).toPCfg_adm

theorem nCore_eq (q : Fin 6) : (K (F := F)).nCore q = 2 := by
  match q with
  | 0 => rfl | 1 => rfl | 2 => rfl | 3 => rfl | 4 => rfl | 5 => rfl
theorem nSub_eq (q : Fin 6) : (K (F := F)).nSub q = 16 := by
  match q with
  | 0 => rfl | 1 => rfl | 2 => rfl | 3 => rfl | 4 => rfl | 5 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 6) (Elt F) ℕ UU ℕ

abbrev EH : Emb UH (MT nD τ sig (HIx 6) (Elt F) ℕ UU ℕ) := embL
def EP : Emb UP (MT nD τ sig (HIx 6) (Elt F) ℕ UU ℕ) := (Emb.inl : Emb UP (UP × Counters)).trans embR
instance EP_landsIn : (EP : Emb UP 𝕄).LandsIn (upEmb : UEmb _ 𝕄) := by unfold EP; infer_instance

/-! ## What the handshakes carry

`Vc q d` is the contents of @main's arrays on device `d` when call `q` starts. The TensorCore hands each SparseCore
its sixteen workers' parts, the sequencer deals them, and they come back with the output rows gathered. -/

variable (Vc : Fin 6 → Dev nD → Valuation τ sig (Elt F))

/-- Call 0: what worker `w` is handed, and what it hands back. -/
def go0 (d : Dev nD) (w : Fin 32) : sProp 𝕄 :=
  iprop((iLoc d ↦[iRowSet w]{fullShare} Vc 0 d (Proc.devRef .tc main_v4)) ∗ (xLoc0 d ↦{sh w} Vc 0 d (Proc.devRef .tc main_v2))
    ∗ (oLoc0 d ↦[oRowSet w]{fullShare} Vc 0 d (Proc.devRef .tc main_v20)))
def td0 (d : Dev nD) (w : Fin 32) : sProp 𝕄 :=
  iprop((iLoc d ↦[iRowSet w]{fullShare} Vc 0 d (Proc.devRef .tc main_v4)) ∗ (xLoc0 d ↦{sh w} Vc 0 d (Proc.devRef .tc main_v2))
    ∗ ∃ OUT : Buf (Elt F) (oLoc0 d), ⌜GatherSpec w (Vc 0 d (Proc.devRef .tc main_v4)) (Vc 0 d (Proc.devRef .tc main_v2)) OUT⌝ ∗ (oLoc0 d ↦[oRowSet w]{fullShare} OUT))

/-- Call 1: what worker `w` is handed, and what it hands back. -/
def go1 (d : Dev nD) (w : Fin 32) : sProp 𝕄 :=
  iprop((iLoc d ↦[iRowSet w]{fullShare} Vc 1 d (Proc.devRef .tc main_v4)) ∗ (xLoc1 d ↦{sh w} Vc 1 d (Proc.devRef .tc main_arg0))
    ∗ (oLoc1 d ↦[oRowSet w]{fullShare} Vc 1 d (Proc.devRef .tc main_v23)))
def td1 (d : Dev nD) (w : Fin 32) : sProp 𝕄 :=
  iprop((iLoc d ↦[iRowSet w]{fullShare} Vc 1 d (Proc.devRef .tc main_v4)) ∗ (xLoc1 d ↦{sh w} Vc 1 d (Proc.devRef .tc main_arg0))
    ∗ ∃ OUT : Buf (Elt F) (oLoc1 d), ⌜GatherSpec w (Vc 1 d (Proc.devRef .tc main_v4)) (Vc 1 d (Proc.devRef .tc main_arg0)) OUT⌝ ∗ (oLoc1 d ↦[oRowSet w]{fullShare} OUT))

/-- Call 2: what worker `w` is handed, and what it hands back. -/
def go2 (d : Dev nD) (w : Fin 32) : sProp 𝕄 :=
  iprop((iLoc d ↦[iRowSet w]{fullShare} Vc 2 d (Proc.devRef .tc main_v4)) ∗ (xLoc2 d ↦{sh w} Vc 2 d (Proc.devRef .tc main_v35))
    ∗ (oLoc2 d ↦[oRowSet w]{fullShare} Vc 2 d (Proc.devRef .tc main_v36)))
def td2 (d : Dev nD) (w : Fin 32) : sProp 𝕄 :=
  iprop((iLoc d ↦[iRowSet w]{fullShare} Vc 2 d (Proc.devRef .tc main_v4)) ∗ (xLoc2 d ↦{sh w} Vc 2 d (Proc.devRef .tc main_v35))
    ∗ ∃ OUT : Buf (Elt F) (oLoc2 d), ⌜GatherSpec w (Vc 2 d (Proc.devRef .tc main_v4)) (Vc 2 d (Proc.devRef .tc main_v35)) OUT⌝ ∗ (oLoc2 d ↦[oRowSet w]{fullShare} OUT))

/-- Call 3: what worker `w` is handed, and what it hands back. -/
def go3 (d : Dev nD) (w : Fin 32) : sProp 𝕄 :=
  iprop((iLoc d ↦[iRowSet w]{fullShare} Vc 3 d (Proc.devRef .tc main_v4)) ∗ (xLoc3 d ↦{sh w} Vc 3 d (Proc.devRef .tc main_v48))
    ∗ (oLoc3 d ↦[oRowSet w]{fullShare} Vc 3 d (Proc.devRef .tc main_v49)))
def td3 (d : Dev nD) (w : Fin 32) : sProp 𝕄 :=
  iprop((iLoc d ↦[iRowSet w]{fullShare} Vc 3 d (Proc.devRef .tc main_v4)) ∗ (xLoc3 d ↦{sh w} Vc 3 d (Proc.devRef .tc main_v48))
    ∗ ∃ OUT : Buf (Elt F) (oLoc3 d), ⌜GatherSpec w (Vc 3 d (Proc.devRef .tc main_v4)) (Vc 3 d (Proc.devRef .tc main_v48)) OUT⌝ ∗ (oLoc3 d ↦[oRowSet w]{fullShare} OUT))

/-- Call 4: what worker `w` is handed, and what it hands back. -/
def go4 (d : Dev nD) (w : Fin 32) : sProp 𝕄 :=
  iprop((iLoc d ↦[iRowSet w]{fullShare} Vc 4 d (Proc.devRef .tc main_v4)) ∗ (xLoc4 d ↦{sh w} Vc 4 d (Proc.devRef .tc main_v61))
    ∗ (oLoc4 d ↦[oRowSet w]{fullShare} Vc 4 d (Proc.devRef .tc main_v62)))
def td4 (d : Dev nD) (w : Fin 32) : sProp 𝕄 :=
  iprop((iLoc d ↦[iRowSet w]{fullShare} Vc 4 d (Proc.devRef .tc main_v4)) ∗ (xLoc4 d ↦{sh w} Vc 4 d (Proc.devRef .tc main_v61))
    ∗ ∃ OUT : Buf (Elt F) (oLoc4 d), ⌜GatherSpec w (Vc 4 d (Proc.devRef .tc main_v4)) (Vc 4 d (Proc.devRef .tc main_v61)) OUT⌝ ∗ (oLoc4 d ↦[oRowSet w]{fullShare} OUT))

/-- Call 5: what worker `w` is handed, and what it hands back. -/
def go5 (d : Dev nD) (w : Fin 32) : sProp 𝕄 :=
  iprop((iLoc d ↦[iRowSet w]{fullShare} Vc 5 d (Proc.devRef .tc main_v4)) ∗ (xLoc5 d ↦{sh w} Vc 5 d (Proc.devRef .tc main_v74))
    ∗ (oLoc5 d ↦[oRowSet w]{fullShare} Vc 5 d (Proc.devRef .tc main_v75)))
def td5 (d : Dev nD) (w : Fin 32) : sProp 𝕄 :=
  iprop((iLoc d ↦[iRowSet w]{fullShare} Vc 5 d (Proc.devRef .tc main_v4)) ∗ (xLoc5 d ↦{sh w} Vc 5 d (Proc.devRef .tc main_v74))
    ∗ ∃ OUT : Buf (Elt F) (oLoc5 d), ⌜GatherSpec w (Vc 5 d (Proc.devRef .tc main_v4)) (Vc 5 d (Proc.devRef .tc main_v74)) OUT⌝ ∗ (oLoc5 d ↦[oRowSet w]{fullShare} OUT))

def goOf (q : Fin 6) (d : Dev nD) (w : Fin 32) : sProp 𝕄 :=
  match q with
  | 0 => go0 Vc d w | 1 => go1 Vc d w | 2 => go2 Vc d w | 3 => go3 Vc d w | 4 => go4 Vc d w | 5 => go5 Vc d w
def tdOf (q : Fin 6) (d : Dev nD) (w : Fin 32) : sProp 𝕄 :=
  match q with
  | 0 => td0 Vc d w | 1 => td1 Vc d w | 2 => td2 Vc d w | 3 => td3 Vc d w | 4 => td4 Vc d w | 5 => td5 Vc d w

def P : (K (F := F)).Pay (nD := nD) (Val := Elt F) (Name := ℕ) (U := UU) where
  st := fun q d c => bigSep Finset.univ fun i : Fin ((K (F := F)).nSub q) => goOf Vc q d (wOf (Fin.cast (nCore_eq q) c) (Fin.cast (nSub_eq q) i))
  dn := fun q d c => bigSep Finset.univ fun i : Fin ((K (F := F)).nSub q) => tdOf Vc q d (wOf (Fin.cast (nCore_eq q) c) (Fin.cast (nSub_eq q) i))
  go := fun q d c i => goOf Vc q d (wOf (Fin.cast (nCore_eq q) c) (Fin.cast (nSub_eq q) i))
  td := fun q d c i => tdOf Vc q d (wOf (Fin.cast (nCore_eq q) c) (Fin.cast (nSub_eq q) i))
  x := fun _ _ => iprop(emp)

instance goOf_storable (q : Fin 6) (d : Dev nD) (w : Fin 32) : BI.Storable (upEmb : UEmb _ 𝕄) (goOf Vc q d w) := by
  match q with
  | 0 => unfold goOf go0; infer_instance
  | 1 => unfold goOf go1; infer_instance
  | 2 => unfold goOf go2; infer_instance
  | 3 => unfold goOf go3; infer_instance
  | 4 => unfold goOf go4; infer_instance
  | 5 => unfold goOf go5; infer_instance
instance tdOf_storable (q : Fin 6) (d : Dev nD) (w : Fin 32) : BI.Storable (upEmb : UEmb _ 𝕄) (tdOf Vc q d w) := by
  match q with
  | 0 => unfold tdOf td0; infer_instance
  | 1 => unfold tdOf td1; infer_instance
  | 2 => unfold tdOf td2; infer_instance
  | 3 => unfold tdOf td3; infer_instance
  | 4 => unfold tdOf td4; infer_instance
  | 5 => unfold tdOf td5; infer_instance

instance P_storable : (P (F := F) Vc).IsStorable where
  st q d c := by unfold P; infer_instance
  dn q d c := by unfold P; infer_instance
  go q d c i := by unfold P; infer_instance
  td q d c i := by unfold P; infer_instance

/-- The sequencer deals its workers' parts and collects them: the call's operands for one SparseCore ARE its sixteen
    workers' parts. -/
theorem vecSplit (q : Fin 6) : (K (F := F)).VecSplit' (P Vc) q := by
  intro d c
  have e1 : (P (F := F) Vc).st q d c = bigSep Finset.univ fun i => (P (F := F) Vc).go q d c i := rfl
  have e2 : (P (F := F) Vc).dn q d c = bigSep Finset.univ fun i => (P (F := F) Vc).td q d c i := rfl
  rw [e1, e2]
  iintro H; imodintro
  isplitl [H]; · iexact H
  iintro H; iexact H

end Cert.Proof.PayI

end
-- ==== Proof.MainChainI.lean ====
/-
  @main of the kernel's program as a chain of its items: seven stretches of host operations, the six
  SparseCore calls and the six TensorCore regions between them. The stretches' operation lists are the
  printed program's own statements, in order.
-/
import proofs.«205547_g25623774888366_cont_9to1_713_27_alg».proof.KernelIdeal
import proofs.«205547_g25623774888366_cont_9to1_713_27_alg».proof.Proof.Gen.KernelIdeal
import Idealize.ShloMosaic.Lib.StableHlo.Run
import Idealize.ShloMosaic.Lib.Pipeline.Regions

set_option synthInstance.maxSize 4096

noncomputable section

namespace Cert.KernelIdeal.MainChain

open Idealize.ShloMosaic Idealize.SL.Sem Cert.KernelIdeal Cert.KernelIdeal.Gen

variable {F : FTy → Type} [FloatOps F]

/-- Host operations, stretch 0 of @main. -/
def ops0 : List (HloOp τ sig (Elt F)) :=
  [(StableHlo.nullary main_cst (constant S_ .f32 0x00000000#32)),
   (StableHlo.unary main_cst main_v0 (broadcastInDim S10000x128 ![] bcast_S_S10000x128 : (⟨S_, .f32⟩ : BufTy).Contents (Elt F) → (⟨S10000x128, .f32⟩ : BufTy).Contents (Elt F))),
   (StableHlo.nullary main_c (constantI S_ 32 0#32)),
   (StableHlo.unary main_c main_v1 (broadcastInDim S1 ![] bcast_S_S1 : (⟨S_, .i32⟩ : BufTy).Contents (Elt F) → (⟨S1, .i32⟩ : BufTy).Contents (Elt F))),
   (StableHlo.ternary main_v0 main_v1 main_arg1 main_v2 ((fun x i u => Host.scatter scatter_S10000x128_S1_S10000x3_01_n_1_0 (fun _ b => b) x i u) : (⟨S10000x128, .f32⟩ : BufTy).Contents (Elt F) → (⟨S1, .i32⟩ : BufTy).Contents (Elt F) → (⟨S10000x3, .f32⟩ : BufTy).Contents (Elt F) → (⟨S10000x128, .f32⟩ : BufTy).Contents (Elt F))),
   (StableHlo.unary main_arg2 main_v3 ((transpose S32x10000 [1, 0] · transposes_S10000x32_S32x10000_1_0) : (⟨S10000x32, .i32⟩ : BufTy).Contents (Elt F) → (⟨S32x10000, .i32⟩ : BufTy).Contents (Elt F))),
   (StableHlo.reshape main_v3 main_v4 rfl shapeCasts_S32x10000_S320000),
   (StableHlo.nullary main_cst_0 (constant S_ .f32 0x00000000#32)),
   (StableHlo.unary main_cst_0 main_v5 (broadcastInDim S8x64 ![] bcast_S_S8x64 : (⟨S_, .f32⟩ : BufTy).Contents (Elt F) → (⟨S8x64, .f32⟩ : BufTy).Contents (Elt F))),
   (StableHlo.nullary main_c_1 (constantI S_ 32 0#32)),
   (StableHlo.unary main_c_1 main_v6 (broadcastInDim S1 ![] bcast_S_S1 : (⟨S_, .i32⟩ : BufTy).Contents (Elt F) → (⟨S1, .i32⟩ : BufTy).Contents (Elt F))),
   (StableHlo.ternary main_v5 main_v6 main_arg3 main_v7 ((fun x i u => Host.scatter scatter_S8x64_S1_S3x64_01_n_0_0 (fun _ b => b) x i u) : (⟨S8x64, .f32⟩ : BufTy).Contents (Elt F) → (⟨S1, .i32⟩ : BufTy).Contents (Elt F) → (⟨S3x64, .f32⟩ : BufTy).Contents (Elt F) → (⟨S8x64, .f32⟩ : BufTy).Contents (Elt F))),
   (StableHlo.reshape main_arg4 main_v8 rfl shapeCasts_S64_S1x64),
   (StableHlo.nullary main_cst_2 (constant S_ .f32 0x00000000#32)),
   (StableHlo.unary main_cst_2 main_v9 (broadcastInDim S64x8 ![] bcast_S_S64x8 : (⟨S_, .f32⟩ : BufTy).Contents (Elt F) → (⟨S64x8, .f32⟩ : BufTy).Contents (Elt F))),
   (StableHlo.nullary main_c_3 (constantI S_ 32 0#32)),
   (StableHlo.unary main_c_3 main_v10 (broadcastInDim S1 ![] bcast_S_S1 : (⟨S_, .i32⟩ : BufTy).Contents (Elt F) → (⟨S1, .i32⟩ : BufTy).Contents (Elt F))),
   (StableHlo.ternary main_v9 main_v10 main_arg5 main_v11 ((fun x i u => Host.scatter scatter_S64x8_S1_S64x1_01_n_1_0 (fun _ b => b) x i u) : (⟨S64x8, .f32⟩ : BufTy).Contents (Elt F) → (⟨S1, .i32⟩ : BufTy).Contents (Elt F) → (⟨S64x1, .f32⟩ : BufTy).Contents (Elt F) → (⟨S64x8, .f32⟩ : BufTy).Contents (Elt F))),
   (StableHlo.unary main_v11 main_v12 ((truncf .bf16 · bitsLt_bf16_f32) : (⟨S64x8, .f32⟩ : BufTy).Contents (Elt F) → (⟨S64x8, .bf16⟩ : BufTy).Contents (Elt F))),
   (StableHlo.unary main_arg7 main_v13 ((extractStridedSlice S5x128x128 ![0, 0, 0] · slices_S5x256x128_S5x128x128_0_0_0) : (⟨S5x256x128, .f32⟩ : BufTy).Contents (Elt F) → (⟨S5x128x128, .f32⟩ : BufTy).Contents (Elt F))),
   (StableHlo.unary main_v13 main_v14 ((truncf .bf16 · bitsLt_bf16_f32) : (⟨S5x128x128, .f32⟩ : BufTy).Contents (Elt F) → (⟨S5x128x128, .bf16⟩ : BufTy).Contents (Elt F))),
   (StableHlo.unary main_arg7 main_v15 ((extractStridedSlice S5x128x128 ![0, 128, 0] · slices_S5x256x128_S5x128x128_0_128_0) : (⟨S5x256x128, .f32⟩ : BufTy).Contents (Elt F) → (⟨S5x128x128, .f32⟩ : BufTy).Contents (Elt F))),
   (StableHlo.unary main_v15 main_v16 ((truncf .bf16 · bitsLt_bf16_f32) : (⟨S5x128x128, .f32⟩ : BufTy).Contents (Elt F) → (⟨S5x128x128, .bf16⟩ : BufTy).Contents (Elt F))),
   (StableHlo.reshape main_arg8 main_v17 rfl shapeCasts_S5x128_S5x1x128),
   (StableHlo.reshape main_arg9 main_v18 rfl shapeCasts_S5x128_S5x1x128),
   (StableHlo.reshape main_arg10 main_v19 rfl shapeCasts_S5x128_S5x1x128)]

/-- Host operations, stretch 1 of @main. -/
def ops1 : List (HloOp τ sig (Elt F)) :=
  [(StableHlo.reshape main_v20 main_v21 rfl shapeCasts_S320000x128_S32x10000x128)]

/-- Host operations, stretch 2 of @main. -/
def ops2 : List (HloOp τ sig (Elt F)) :=
  [(StableHlo.reshape main_v23 main_v24 rfl shapeCasts_S320000x128_S32x10000x128),
   (StableHlo.unary main_v14 main_v25 ((extractStridedSlice S1x128x128 ![0, 0, 0] · slices_S5x128x128_S1x128x128_0_0_0) : (⟨S5x128x128, .bf16⟩ : BufTy).Contents (Elt F) → (⟨S1x128x128, .bf16⟩ : BufTy).Contents (Elt F))),
   (StableHlo.reshape main_v25 main_v26 rfl shapeCasts_S1x128x128_S128x128),
   (StableHlo.unary main_v16 main_v27 ((extractStridedSlice S1x128x128 ![0, 0, 0] · slices_S5x128x128_S1x128x128_0_0_0) : (⟨S5x128x128, .bf16⟩ : BufTy).Contents (Elt F) → (⟨S1x128x128, .bf16⟩ : BufTy).Contents (Elt F))),
   (StableHlo.reshape main_v27 main_v28 rfl shapeCasts_S1x128x128_S128x128),
   (StableHlo.unary main_v17 main_v29 ((extractStridedSlice S1x1x128 ![0, 0, 0] · slices_S5x1x128_S1x1x128_0_0_0) : (⟨S5x1x128, .f32⟩ : BufTy).Contents (Elt F) → (⟨S1x1x128, .f32⟩ : BufTy).Contents (Elt F))),
   (StableHlo.reshape main_v29 main_v30 rfl shapeCasts_S1x1x128_S1x128),
   (StableHlo.unary main_v18 main_v31 ((extractStridedSlice S1x1x128 ![0, 0, 0] · slices_S5x1x128_S1x1x128_0_0_0) : (⟨S5x1x128, .f32⟩ : BufTy).Contents (Elt F) → (⟨S1x1x128, .f32⟩ : BufTy).Contents (Elt F))),
   (StableHlo.reshape main_v31 main_v32 rfl shapeCasts_S1x1x128_S1x128),
   (StableHlo.unary main_v19 main_v33 ((extractStridedSlice S1x1x128 ![0, 0, 0] · slices_S5x1x128_S1x1x128_0_0_0) : (⟨S5x1x128, .f32⟩ : BufTy).Contents (Elt F) → (⟨S1x1x128, .f32⟩ : BufTy).Contents (Elt F))),
   (StableHlo.reshape main_v33 main_v34 rfl shapeCasts_S1x1x128_S1x128)]

/-- Host operations, stretch 3 of @main. -/
def ops3 : List (HloOp τ sig (Elt F)) :=
  [(StableHlo.reshape main_v36 main_v37 rfl shapeCasts_S320000x128_S32x10000x128),
   (StableHlo.unary main_v14 main_v38 ((extractStridedSlice S1x128x128 ![1, 0, 0] · slices_S5x128x128_S1x128x128_1_0_0) : (⟨S5x128x128, .bf16⟩ : BufTy).Contents (Elt F) → (⟨S1x128x128, .bf16⟩ : BufTy).Contents (Elt F))),
   (StableHlo.reshape main_v38 main_v39 rfl shapeCasts_S1x128x128_S128x128),
   (StableHlo.unary main_v16 main_v40 ((extractStridedSlice S1x128x128 ![1, 0, 0] · slices_S5x128x128_S1x128x128_1_0_0) : (⟨S5x128x128, .bf16⟩ : BufTy).Contents (Elt F) → (⟨S1x128x128, .bf16⟩ : BufTy).Contents (Elt F))),
   (StableHlo.reshape main_v40 main_v41 rfl shapeCasts_S1x128x128_S128x128),
   (StableHlo.unary main_v17 main_v42 ((extractStridedSlice S1x1x128 ![1, 0, 0] · slices_S5x1x128_S1x1x128_1_0_0) : (⟨S5x1x128, .f32⟩ : BufTy).Contents (Elt F) → (⟨S1x1x128, .f32⟩ : BufTy).Contents (Elt F))),
   (StableHlo.reshape main_v42 main_v43 rfl shapeCasts_S1x1x128_S1x128),
   (StableHlo.unary main_v18 main_v44 ((extractStridedSlice S1x1x128 ![1, 0, 0] · slices_S5x1x128_S1x1x128_1_0_0) : (⟨S5x1x128, .f32⟩ : BufTy).Contents (Elt F) → (⟨S1x1x128, .f32⟩ : BufTy).Contents (Elt F))),
   (StableHlo.reshape main_v44 main_v45 rfl shapeCasts_S1x1x128_S1x128),
   (StableHlo.unary main_v19 main_v46 ((extractStridedSlice S1x1x128 ![1, 0, 0] · slices_S5x1x128_S1x1x128_1_0_0) : (⟨S5x1x128, .f32⟩ : BufTy).Contents (Elt F) → (⟨S1x1x128, .f32⟩ : BufTy).Contents (Elt F))),
   (StableHlo.reshape main_v46 main_v47 rfl shapeCasts_S1x1x128_S1x128)]

/-- Host operations, stretch 4 of @main. -/
def ops4 : List (HloOp τ sig (Elt F)) :=
  [(StableHlo.reshape main_v49 main_v50 rfl shapeCasts_S320000x128_S32x10000x128),
   (StableHlo.unary main_v14 main_v51 ((extractStridedSlice S1x128x128 ![2, 0, 0] · slices_S5x128x128_S1x128x128_2_0_0) : (⟨S5x128x128, .bf16⟩ : BufTy).Contents (Elt F) → (⟨S1x128x128, .bf16⟩ : BufTy).Contents (Elt F))),
   (StableHlo.reshape main_v51 main_v52 rfl shapeCasts_S1x128x128_S128x128),
   (StableHlo.unary main_v16 main_v53 ((extractStridedSlice S1x128x128 ![2, 0, 0] · slices_S5x128x128_S1x128x128_2_0_0) : (⟨S5x128x128, .bf16⟩ : BufTy).Contents (Elt F) → (⟨S1x128x128, .bf16⟩ : BufTy).Contents (Elt F))),
   (StableHlo.reshape main_v53 main_v54 rfl shapeCasts_S1x128x128_S128x128),
   (StableHlo.unary main_v17 main_v55 ((extractStridedSlice S1x1x128 ![2, 0, 0] · slices_S5x1x128_S1x1x128_2_0_0) : (⟨S5x1x128, .f32⟩ : BufTy).Contents (Elt F) → (⟨S1x1x128, .f32⟩ : BufTy).Contents (Elt F))),
   (StableHlo.reshape main_v55 main_v56 rfl shapeCasts_S1x1x128_S1x128),
   (StableHlo.unary main_v18 main_v57 ((extractStridedSlice S1x1x128 ![2, 0, 0] · slices_S5x1x128_S1x1x128_2_0_0) : (⟨S5x1x128, .f32⟩ : BufTy).Contents (Elt F) → (⟨S1x1x128, .f32⟩ : BufTy).Contents (Elt F))),
   (StableHlo.reshape main_v57 main_v58 rfl shapeCasts_S1x1x128_S1x128),
   (StableHlo.unary main_v19 main_v59 ((extractStridedSlice S1x1x128 ![2, 0, 0] · slices_S5x1x128_S1x1x128_2_0_0) : (⟨S5x1x128, .f32⟩ : BufTy).Contents (Elt F) → (⟨S1x1x128, .f32⟩ : BufTy).Contents (Elt F))),
   (StableHlo.reshape main_v59 main_v60 rfl shapeCasts_S1x1x128_S1x128)]

/-- Host operations, stretch 5 of @main. -/
def ops5 : List (HloOp τ sig (Elt F)) :=
  [(StableHlo.reshape main_v62 main_v63 rfl shapeCasts_S320000x128_S32x10000x128),
   (StableHlo.unary main_v14 main_v64 ((extractStridedSlice S1x128x128 ![3, 0, 0] · slices_S5x128x128_S1x128x128_3_0_0) : (⟨S5x128x128, .bf16⟩ : BufTy).Contents (Elt F) → (⟨S1x128x128, .bf16⟩ : BufTy).Contents (Elt F))),
   (StableHlo.reshape main_v64 main_v65 rfl shapeCasts_S1x128x128_S128x128),
   (StableHlo.unary main_v16 main_v66 ((extractStridedSlice S1x128x128 ![3, 0, 0] · slices_S5x128x128_S1x128x128_3_0_0) : (⟨S5x128x128, .bf16⟩ : BufTy).Contents (Elt F) → (⟨S1x128x128, .bf16⟩ : BufTy).Contents (Elt F))),
   (StableHlo.reshape main_v66 main_v67 rfl shapeCasts_S1x128x128_S128x128),
   (StableHlo.unary main_v17 main_v68 ((extractStridedSlice S1x1x128 ![3, 0, 0] · slices_S5x1x128_S1x1x128_3_0_0) : (⟨S5x1x128, .f32⟩ : BufTy).Contents (Elt F) → (⟨S1x1x128, .f32⟩ : BufTy).Contents (Elt F))),
   (StableHlo.reshape main_v68 main_v69 rfl shapeCasts_S1x1x128_S1x128),
   (StableHlo.unary main_v18 main_v70 ((extractStridedSlice S1x1x128 ![3, 0, 0] · slices_S5x1x128_S1x1x128_3_0_0) : (⟨S5x1x128, .f32⟩ : BufTy).Contents (Elt F) → (⟨S1x1x128, .f32⟩ : BufTy).Contents (Elt F))),
   (StableHlo.reshape main_v70 main_v71 rfl shapeCasts_S1x1x128_S1x128),
   (StableHlo.unary main_v19 main_v72 ((extractStridedSlice S1x1x128 ![3, 0, 0] · slices_S5x1x128_S1x1x128_3_0_0) : (⟨S5x1x128, .f32⟩ : BufTy).Contents (Elt F) → (⟨S1x1x128, .f32⟩ : BufTy).Contents (Elt F))),
   (StableHlo.reshape main_v72 main_v73 rfl shapeCasts_S1x1x128_S1x128)]

/-- Host operations, stretch 6 of @main. -/
def ops6 : List (HloOp τ sig (Elt F)) :=
  [(StableHlo.reshape main_v75 main_v76 rfl shapeCasts_S320000x128_S32x10000x128),
   (StableHlo.unary main_v14 main_v77 ((extractStridedSlice S1x128x128 ![4, 0, 0] · slices_S5x128x128_S1x128x128_4_0_0) : (⟨S5x128x128, .bf16⟩ : BufTy).Contents (Elt F) → (⟨S1x128x128, .bf16⟩ : BufTy).Contents (Elt F))),
   (StableHlo.reshape main_v77 main_v78 rfl shapeCasts_S1x128x128_S128x128),
   (StableHlo.unary main_v16 main_v79 ((extractStridedSlice S1x128x128 ![4, 0, 0] · slices_S5x128x128_S1x128x128_4_0_0) : (⟨S5x128x128, .bf16⟩ : BufTy).Contents (Elt F) → (⟨S1x128x128, .bf16⟩ : BufTy).Contents (Elt F))),
   (StableHlo.reshape main_v79 main_v80 rfl shapeCasts_S1x128x128_S128x128),
   (StableHlo.unary main_v17 main_v81 ((extractStridedSlice S1x1x128 ![4, 0, 0] · slices_S5x1x128_S1x1x128_4_0_0) : (⟨S5x1x128, .f32⟩ : BufTy).Contents (Elt F) → (⟨S1x1x128, .f32⟩ : BufTy).Contents (Elt F))),
   (StableHlo.reshape main_v81 main_v82 rfl shapeCasts_S1x1x128_S1x128),
   (StableHlo.unary main_v18 main_v83 ((extractStridedSlice S1x1x128 ![4, 0, 0] · slices_S5x1x128_S1x1x128_4_0_0) : (⟨S5x1x128, .f32⟩ : BufTy).Contents (Elt F) → (⟨S1x1x128, .f32⟩ : BufTy).Contents (Elt F))),
   (StableHlo.reshape main_v83 main_v84 rfl shapeCasts_S1x1x128_S1x128),
   (StableHlo.unary main_v19 main_v85 ((extractStridedSlice S1x1x128 ![4, 0, 0] · slices_S5x1x128_S1x1x128_4_0_0) : (⟨S5x1x128, .f32⟩ : BufTy).Contents (Elt F) → (⟨S1x1x128, .f32⟩ : BufTy).Contents (Elt F))),
   (StableHlo.reshape main_v85 main_v86 rfl shapeCasts_S1x1x128_S1x128)]

/-- @main's items, in order. -/
def mainItems (d : Dev nD) : List (Prog (TpuEff nD τ sig (Elt F) (SparseCore.Sig (Pipeline.Sig Λ₀ (Fin 6) fun p => (pcfgs (F := F) p).Adm) 6) .tc) PUnit) :=
  [StableHlo.seq (ops0 (F := F)),
   (sc (F := F)).run d 0,
   StableHlo.seq (ops1 (F := F)),
   Prog.lift (.customCall (SparseCore.inner (Pipeline.entry 0)) ()),
   (sc (F := F)).run d 1,
   StableHlo.seq (ops2 (F := F)),
   Prog.lift (.customCall (SparseCore.inner (Pipeline.entry 1)) ()),
   (sc (F := F)).run d 2,
   StableHlo.seq (ops3 (F := F)),
   Prog.lift (.customCall (SparseCore.inner (Pipeline.entry 2)) ()),
   (sc (F := F)).run d 3,
   StableHlo.seq (ops4 (F := F)),
   Prog.lift (.customCall (SparseCore.inner (Pipeline.entry 3)) ()),
   (sc (F := F)).run d 4,
   StableHlo.seq (ops5 (F := F)),
   Prog.lift (.customCall (SparseCore.inner (Pipeline.entry 4)) ()),
   (sc (F := F)).run d 5,
   StableHlo.seq (ops6 (F := F)),
   Prog.lift (.customCall (SparseCore.inner (Pipeline.entry 5)) ())]

set_option maxHeartbeats 40000000 in
set_option maxRecDepth 65536 in
/-- @main is the chain of its items. -/
theorem main_chain (d : Dev nD) : main (F := F) d = Pipeline.chain (mainItems (F := F) d) := by
  chain_rfl

end Cert.KernelIdeal.MainChain

end
-- ==== Proof.StepsI.lean ====
/-
  The TensorCore between two items of @main: its arrays held whole at a valuation, its handshake state, the ghost state of the pipelines still to run; and the step through a stretch of host operations.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.MainChainI

noncomputable section

namespace Cert.Proof.StepsI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.KernelIdeal.MainChain
open Idealize.ShloMosaic.StableHlo (nullary unary binary ternary reshape nullary_bufs unary_bufs binary_bufs ternary_bufs reshape_bufs)

variable {F : FTy → Type}

local notation "𝕄" => MT nD τ sig (HIx 6) (Elt F) ℕ UU ℕ

/-! ## The TensorCore's arrays, held whole -/

/-- Every array of @main that no region reassigns, as a device reference. -/
def SS : Finset (DevRef τ sig) := (Finset.univ.filter fun b : Ref sig .tc => ¬ b.isScoped).image (Proc.devRef (τ := τ) .tc)

theorem mem_SS {b : Ref sig .tc} (h : b.isScoped = false) : Proc.devRef (τ := τ) .tc b ∈ SS :=
  Finset.mem_image.mpr ⟨b, Finset.mem_filter.mpr ⟨Finset.mem_univ _, by rw [h]; exact Bool.false_ne_true⟩, rfl⟩

section Subs
variable {Val : EltTy → Type}
variable {x y a b c : Ref sig .tc}

theorem nullary_sub (hy' : y.isScoped = false) {v : y.ty.Contents Val} {hy} :
    (nullary (τ := τ) y v hy).bufs ⊆ SS := by
  rw [nullary_bufs]; exact Finset.singleton_subset_iff.mpr (mem_SS hy')
theorem unary_sub (hx' : x.isScoped = false) (hy' : y.isScoped = false) {f : x.ty.Contents Val → y.ty.Contents Val} {hx hy} :
    (unary (τ := τ) x y f hx hy).bufs ⊆ SS := by
  rw [unary_bufs]; exact Finset.insert_subset (mem_SS hx') (Finset.singleton_subset_iff.mpr (mem_SS hy'))
theorem reshape_sub (hx' : x.isScoped = false) (hy' : y.isScoped = false) {he hn hx hy} :
    (reshape (τ := τ) (Val := Val) x y he hn hx hy).bufs ⊆ SS := by
  rw [reshape_bufs]; exact Finset.insert_subset (mem_SS hx') (Finset.singleton_subset_iff.mpr (mem_SS hy'))
theorem binary_sub (ha' : a.isScoped = false) (hb' : b.isScoped = false) (hy' : y.isScoped = false)
    {f : a.ty.Contents Val → b.ty.Contents Val → y.ty.Contents Val} {ha hb hy} :
    (binary (τ := τ) a b y f ha hb hy).bufs ⊆ SS := by
  rw [binary_bufs]; exact Finset.insert_subset (mem_SS ha') (Finset.insert_subset (mem_SS hb') (Finset.singleton_subset_iff.mpr (mem_SS hy')))
theorem ternary_sub (hc' : c.isScoped = false) (ha' : a.isScoped = false) (hb' : b.isScoped = false) (hy' : y.isScoped = false)
    {f : c.ty.Contents Val → a.ty.Contents Val → b.ty.Contents Val → y.ty.Contents Val} {hc ha hb hy} :
    (ternary (τ := τ) c a b y f hc ha hb hy).bufs ⊆ SS := by
  rw [ternary_bufs]
  exact Finset.insert_subset (mem_SS hc') (Finset.insert_subset (mem_SS ha') (Finset.insert_subset (mem_SS hb') (Finset.singleton_subset_iff.mpr (mem_SS hy'))))
end Subs

variable [FloatOps F]

/-! ## The stretches of host operations touch only those arrays, and allocate nothing -/

set_option maxRecDepth 8192 in
theorem ops0_sub : (ops0 (F := F)).Forall fun op => op.bufs ⊆ SS :=
  ⟨nullary_sub (by decide),
   unary_sub (by decide) (by decide),
   nullary_sub (by decide),
   unary_sub (by decide) (by decide),
   ternary_sub (by decide) (by decide) (by decide) (by decide),
   unary_sub (by decide) (by decide),
   reshape_sub (by decide) (by decide),
   nullary_sub (by decide),
   unary_sub (by decide) (by decide),
   nullary_sub (by decide),
   unary_sub (by decide) (by decide),
   ternary_sub (by decide) (by decide) (by decide) (by decide),
   reshape_sub (by decide) (by decide),
   nullary_sub (by decide),
   unary_sub (by decide) (by decide),
   nullary_sub (by decide),
   unary_sub (by decide) (by decide),
   ternary_sub (by decide) (by decide) (by decide) (by decide),
   unary_sub (by decide) (by decide),
   unary_sub (by decide) (by decide),
   unary_sub (by decide) (by decide),
   unary_sub (by decide) (by decide),
   unary_sub (by decide) (by decide),
   reshape_sub (by decide) (by decide),
   reshape_sub (by decide) (by decide),
   reshape_sub (by decide) (by decide)⟩
theorem ops0_fresh : ∀ op ∈ ops0 (F := F), op.fresh = ∅ := by
  intro _ h; (repeat (cases h with | head => rfl | tail _ h => ?_)); exact nomatch h

set_option maxRecDepth 8192 in
theorem ops1_sub : (ops1 (F := F)).Forall fun op => op.bufs ⊆ SS :=
  reshape_sub (by decide) (by decide)
theorem ops1_fresh : ∀ op ∈ ops1 (F := F), op.fresh = ∅ := by
  intro _ h; (repeat (cases h with | head => rfl | tail _ h => ?_)); exact nomatch h

set_option maxRecDepth 8192 in
theorem ops2_sub : (ops2 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops2_fresh : ∀ op ∈ ops2 (F := F), op.fresh = ∅ := by
  intro _ h; (repeat (cases h with | head => rfl | tail _ h => ?_)); exact nomatch h

set_option maxRecDepth 8192 in
theorem ops3_sub : (ops3 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops3_fresh : ∀ op ∈ ops3 (F := F), op.fresh = ∅ := by
  intro _ h; (repeat (cases h with | head => rfl | tail _ h => ?_)); exact nomatch h

set_option maxRecDepth 8192 in
theorem ops4_sub : (ops4 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops4_fresh : ∀ op ∈ ops4 (F := F), op.fresh = ∅ := by
  intro _ h; (repeat (cases h with | head => rfl | tail _ h => ?_)); exact nomatch h

set_option maxRecDepth 8192 in
theorem ops5_sub : (ops5 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops5_fresh : ∀ op ∈ ops5 (F := F), op.fresh = ∅ := by
  intro _ h; (repeat (cases h with | head => rfl | tail _ h => ?_)); exact nomatch h

set_option maxRecDepth 8192 in
theorem ops6_sub : (ops6 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops6_fresh : ∀ op ∈ ops6 (F := F), op.fresh = ∅ := by
  intro _ h; (repeat (cases h with | head => rfl | tail _ h => ?_)); exact nomatch h

end Cert.Proof.StepsI

end
-- ==== Proof.Steps2I.lean ====
/-
  Steps of @main on the TensorCore: a stretch of host operations, a TensorCore region entered through the lifted body table.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.MainChainI
import proofs.«205547_g25623774888366_cont_9to1_713_27_alg».proof.Proof.StepsI

noncomputable section

namespace Cert.Proof.Steps2I

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.Proof.StepsI Cert.KernelIdeal.MainChain

variable {F : FTy → Type} [FloatOps F]

local notation "𝕄" => MT nD τ sig (HIx 6) (Elt F) ℕ UU ℕ
/-- The body table the threads run under: the kernels', the pipelines' and the calls' dispatch. -/
abbrev DD : Defs nD τ sig (Elt F) (SparseCore.Sig (ΛP (F := F)) 6) := (K (F := F)).defs (D (F := F))

variable (Vc : Fin 6 → Dev nD → Valuation τ sig (Elt F))

/-- The staging cells' ghost state of the pipelines still to run on device `d`. -/
def Ghost (Ps : Finset (Fin 6)) (d : Dev nD) : sProp 𝕄 :=
  bigSep Ps fun p => iprop(Pipeline.cellsGhost (Pipeline.pin (pcfgs (F := F)) adm) EP p d ∗ Pipeline.toksInit (Pipeline.pin (pcfgs (F := F)) adm) EP p d)

/-- The TensorCore of `d` between two items of @main: the region boundary, its arrays whole at the valuation `V`, its
    handshake state before call `n`, the ghost state of the pipelines `Ps`. -/
def St (d : Dev nD) (n : ℕ) (V : Valuation τ sig (Elt F)) (Ps : Finset (Fin 6)) : sProp 𝕄 :=
  iprop(boundary (T d) ∗ (held (T d) SS V : sProp 𝕄) ∗ (K (F := F)).tcSt EH d n ∗ Ghost (F := F) Ps d)

/-- A stretch of host operations moves the valuation to the fold of the operations' results. -/
theorem host_step (d : Dev nD) (n : ℕ) (V : Valuation τ sig (Elt F)) (Ps : Finset (Fin 6)) (ops : List (HloOp τ sig (Elt F)))
    (hS : ops.Forall fun op => op.bufs ⊆ SS) (hf : ∀ op ∈ ops, op.fresh = ∅)
    {β : Type} (k : PUnit → Prog (TpuEff nD τ sig (Elt F) (SparseCore.Sig (ΛP (F := F)) 6) .tc) β) (Q : β → sProp 𝕄) :
    iprop(St (F := F) d n V Ps ∗ (St (F := F) d n (after ops V) Ps -∗ wp frame (wpE (DD (F := F)) 𝒱 (T d) none) Set.univ (k ⟨⟩) Q))
      ⊢ wp frame (wpE (DD (F := F)) 𝒱 (T d) none) Set.univ (seq ops >>= k) Q := by
  unfold St
  iintro ⟨⟨Hb, Hh, Hst, Hg⟩, Hk⟩
  iapply (wp_seq 𝒱 none Set.univ d SS k ops (List.forall_iff_forall_mem.mp hS) hf V) $$ [Hb Hh]
  · isplitl [Hb] <;> iassumption
  iintro ⟨Hb, Hh⟩
  iapply Hk
  isplitl [Hb]; · iexact Hb
  isplitl [Hh]; · iexact Hh
  isplitl [Hst] <;> iassumption

end Cert.Proof.Steps2I

end
-- ==== Proof.RegionI.lean ====
/-
  A TensorCore region of @main, entered in the middle of the SparseCore program: the region's record from a pipeline's proof data, and the step through it.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.StepsI
import proofs.«205547_g25623774888366_cont_9to1_713_27_alg».proof.Proof.Steps2I

noncomputable section

namespace Cert.Proof.RegionI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.Proof.StepsI Cert.Proof.Steps2I

variable {F : FTy → Type} [FloatOps F]

local notation "𝕄" => MT nD τ sig (HIx 6) (Elt F) ℕ UU ℕ

/-- A valuation read at the TensorCore's references of device `c`. -/
abbrev VW (V : Valuation τ sig (Elt F)) (c : Dev nD) (b : Ref sig .tc) : Buf (Elt F) ((c.tc : Thread nD τ).loc b) := V (Proc.devRef .tc b)

/-- The arrays held whole at a valuation are the TensorCore's unscoped buffers at it. -/
theorem held_unscoped (d : Dev nD) (V : Valuation τ sig (Elt F)) :
    (held (T d) SS V : sProp 𝕄) = unscopedBufs d (VW V d) := by
  unfold unscopedBufs held SS
  rw [SparseCore.bigSep_image_of_injOn (fun a _ b _ e => Proc.devRef_injective _ e)]

/-- The wait pairs the TensorCore may have recorded before call `n`: those at or below level `8 n`. -/
def Rn (c : Dev nD) (n : ℕ) : Set (SemLoc sig × HIx 6) := {x | (K (F := F)).lev ((T c : Thread nD τ), x.1) x.2 ≤ 8 * n}

/-- The TensorCore's handshake state before call `n` but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

variable (pdats : (p : Fin 6) → (c : Dev nD) → Pipeline.Dat τ (Elt F) (HIx 6) ℕ UU ℕ (Pipeline.pin (pcfgs (F := F)) adm p) c)

/-- What the launch asks of pipeline `p`'s proof data, entered before call `n` with the arrays at `V`, left with them at `V'`. -/
structure RegHyps (p : Fin 6) (n : ℕ) (V V' : Dev nD → Valuation τ sig (Elt F)) : Prop where
  lf : Pipeline.LaunchFacts (nD := nD) (τ := τ) cfgs p
  hA : ∀ c w, (pdats p c).A w = VW (V c) c (Pipeline.arrRef (pcfgs (F := F) p).spec w)
  hF : ∀ c w, (pdats p c).arrAt w (Pipeline.pin (pcfgs (F := F)) adm p).N = VW (V' c) c (Pipeline.arrRef (pcfgs (F := F) p).spec w)
  hrest : ∀ c (b : Ref sig .tc), b ∉ Finset.univ.image (Pipeline.arrRef (pcfgs (F := F) p).spec) → V' c (Proc.devRef .tc b) = V c (Proc.devRef .tc b)
  hΦ : ∀ c t, (pdats p c).Φ t = Pipeline.scopedRest (pcfgs (F := F) p).spec c
  hq : ∀ c w, (pdats p c).q w = fullShare
  howed : ∀ c t, (pdats p c).owed t = (K (F := F)).Otc c n
  hrec : ∀ c t, (pdats p c).recorded t = Rn (F := F) c n
  hbody : ∀ c, Pipeline.BodyObligationLoose (pdats p c) (defs₀ (F := F)) 𝒱₀ (none : HIx 6) Set.univ

variable {pdats}

/-- The region's record: the arrays into the pipeline and back, every other unscoped buffer and the handshake state
    bypassing, the TensorCore owing its later start signals throughout. -/
def mkReg {p : Fin 6} {n : ℕ} {V V' : Dev nD → Valuation τ sig (Elt F)} (h : RegHyps pdats p n V V') :
    Pipeline.RegionSeg (pcfgs (F := F)) adm pdats (none : HIx 6) (defs₀ (F := F)) 𝒱₀ (K (F := F)).L (K (F := F)).lev p where
  win := h.lf.win.to₀
  block_pos := h.lf.block_pos
  stage_whole := h.lf.stage_whole
  K := PEmpty
  osem k := k.elim
  ho := Pipeline.OwnSemFacts.none _
  hbody := h.hbody
  hwaits c := Pipeline.cellsWaits_of_cut _ pdats (none : HIx 6) p c (lev := (K (F := F)).lev) 0 ((K (F := F)).Otc c n) (h.howed c)
    (fun _ _ => Finset.mem_univ _) (fun _ _ => le_of_eq ((K (F := F)).lev_none _))
    (fun g i hg => ⟨Finset.mem_univ _, by have := (K (F := F)).lev_of_Otc_pos hg; omega⟩)
  pre c := iprop(unscopedBufs c (VW (V c) c) ∗ (K (F := F)).tcSt EH c n)
  post c := iprop(unscopedBufs c (VW (V' c) c) ∗ (K (F := F)).tcSt EH c n)
  X _ := iprop(emp)
  Y _ := iprop(emp)
  Z c := iprop(Pipeline.unscopedRest (Ix := HIx 6) (Name := ℕ) (U := UU) (Lvl := ℕ) (pcfgs (F := F) p).spec c (VW (V c) c) ∗ tcRest (F := F) c n)
  hentry c := by
    rw [Pipeline.ownSems0_none, tcSt_eq]
    have hsplit := Pipeline.arrays_of_unscopedBufs (pcfgs (F := F)) adm pdats h.lf.win h.lf.arr_whole c
      ((pdats p c).share_full (h.hq c)) (VW (V c) c) (h.hA c)
    iintro ⟨⟨Hub, ⟨%W, %hW, HO⟩, Hrest⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; intro x hx; exact Or.inl (by rw [h.hrec c]; exact hW x hx)
      rw [h.howed c]; iexact HO
    isplitr; · iempintro
    isplitl [Hr] <;> iassumption
  hin c := by rw [h.hΦ c]; iintro ⟨-, -, H⟩; iexact H
  hout c := by
    rw [h.hΦ c, Pipeline.ownSems0_none]
    iintro H; isplitr; · iempintro
    isplitr; · iempintro
    iexact H
  hexit c := by
    rw [tcSt_eq, Pipeline.unscopedBufs_split (Pipeline.pin (pcfgs (F := F)) adm) p h.lf.win.arr_unscoped h.lf.win.arr_inj c (VW (V' c) c),
      Pipeline.arrays_eq (Pipeline.pin (pcfgs (F := F)) adm) pdats p c h.lf.arr_whole ((pdats p c).share_full (h.hq c))]
    iintro ⟨Ha, HO, -, Hr, Hrest⟩
    imodintro
    isplitl [Ha Hr]
    · isplitl [Ha]
      · iapply (Entails.of_eq (show (bigSep Finset.univ fun w => (((c.tc : Thread nD τ).loc (Pipeline.arrRef (Pipeline.pin (pcfgs (F := F)) adm p).spec w)) ↦{fullShare} (pdats p c).arrAt w (Pipeline.pin (pcfgs (F := F)) adm p).N : sProp 𝕄))
            = bigSep Finset.univ fun w => (((c.tc : Thread nD τ).loc (Pipeline.arrRef (Pipeline.pin (pcfgs (F := F)) adm p).spec w)) ↦{fullShare} VW (V' c) c (Pipeline.arrRef (Pipeline.pin (pcfgs (F := F)) adm p).spec w) : sProp 𝕄)
          from bigSep_congr fun w _ => by rw [h.hF c w]))
        iexact Ha
      · iapply (Entails.of_eq (show (Pipeline.unscopedRest (Ix := HIx 6) (Name := ℕ) (U := UU) (Lvl := ℕ) (pcfgs (F := F) p).spec c (VW (V c) c) : sProp 𝕄)
            = Pipeline.unscopedRest (pcfgs (F := F) p).spec c (VW (V' c) c) from by
          unfold Pipeline.unscopedRest
          exact bigSep_congr fun b hb => by rw [VW, VW, h.hrest c b (Finset.mem_sdiff.mp hb).2]))
        iexact Hr
    isplitl [HO]
    · unfold Pipeline.Dat.owesAt Pipeline.owesWithin
      icases HO with ⟨%W, %hW, HO⟩
      iexists W; isplitr
      · ipureintro; intro x hx
        rcases hW hx with h1 | h2
        · rw [h.hrec c] at h1; exact h1
        · obtain ⟨w, s, rfl⟩ := h2
          show (K (F := F)).lev _ none ≤ _
          rw [(K (F := F)).lev_none]; exact Nat.zero_le _
      rw [h.howed c]; iexact HO
    iexact Hrest

set_option backward.isDefEq.respectTransparency.types false in
set_option maxHeartbeats 1600000 in
/-- The region entered from the lifted body table: the pipeline's region rule, the call's continuation run after it. -/
theorem region_enter {p : Fin 6} (R : Pipeline.RegionSeg (pcfgs (F := F)) adm pdats (none : HIx 6) (defs₀ (F := F)) 𝒱₀ (K (F := F)).L (K (F := F)).lev p)
    (d : Dev nD) {β : Type} (k : PUnit → Prog (TpuEff nD τ sig (Elt F) (SparseCore.Sig (ΛP (F := F)) 6) .tc) β) (Q : β → sProp 𝕄) :
    iprop((levAts (K (F := F)).L (K (F := F)).lev : sProp 𝕄) ∗ boundary (T d) ∗ R.pre d
        ∗ Pipeline.cellsGhost (Pipeline.pin (pcfgs (F := F)) adm) EP p d ∗ Pipeline.toksInit (Pipeline.pin (pcfgs (F := F)) adm) EP p d
        ∗ (iprop(boundary (T d) ∗ R.post d) -∗ wp frame (wpE (DD (F := F)) 𝒱 (T d) none) Set.univ (k ⟨⟩) Q))
      ⊢ wp frame (wpE (DD (F := F)) 𝒱 (T d) none) Set.univ
          (Prog.lift (.customCall (SparseCore.inner (Pipeline.entry p)) ()) >>= k) Q := by
  rw [wp_bind]
  refine BIBase.Entails.trans ?_ ((K (F := F)).wp_liftProg (D (F := F)) 𝒱 (T d) Set.univ none (Prog.lift (.customCall (Pipeline.entry p) ())) _)
  have hR := Pipeline.RegionSeg.wp (pcfgs (F := F)) adm pdats (none : HIx 6) cellOf_inj EP (defs₀ (F := F)) 𝒱₀ (K (F := F)).L (K (F := F)).lev R d none
    (fun u hu => nomatch hu) (fun _ => (.ret PUnit.unit : Prog (TpuEff nD τ sig (Elt F) (ΛP (F := F)) .tc) PUnit)) (fun _ => wp frame (wpE (DD (F := F)) 𝒱 (T d) none) Set.univ (k ⟨⟩) Q)
  refine BIBase.Entails.trans ?_ hR
  iintro ⟨#Hlev, Hb, Hpre, Hg, Ht, Hk⟩
  isplitl [Hk]
  · iintro H
    rw [wp_ret]; imodintro
    iapply Hk; iexact H
  isplitl [Hb]; · iexact Hb
  isplitl [Hpre]; · iexact Hpre
  isplitr; · iexact Hlev
  isplitl [Hg] <;> iassumption

theorem mkReg_pre {p : Fin 6} {n : ℕ} {V V' : Dev nD → Valuation τ sig (Elt F)} (h : RegHyps pdats p n V V') (d : Dev nD) :
    (mkReg h).pre d = iprop(unscopedBufs d (VW (V d) d) ∗ (K (F := F)).tcSt EH d n) := rfl
theorem mkReg_post {p : Fin 6} {n : ℕ} {V V' : Dev nD → Valuation τ sig (Elt F)} (h : RegHyps pdats p n V V') (d : Dev nD) :
    (mkReg h).post d = iprop(unscopedBufs d (VW (V' d) d) ∗ (K (F := F)).tcSt EH d n) := rfl

theorem Ghost_erase {Ps : Finset (Fin 6)} {p : Fin 6} (hp : p ∈ Ps) (d : Dev nD) :
    (Ghost (F := F) Ps d : sProp 𝕄)
      = iprop((Pipeline.cellsGhost (Pipeline.pin (pcfgs (F := F)) adm) EP p d ∗ Pipeline.toksInit (Pipeline.pin (pcfgs (F := F)) adm) EP p d) ∗ Ghost (F := F) (Ps.erase p) d) := by
  unfold Ghost; exact bigSep_erase hp

/-- A region as a step of @main: the arrays move from `V` to `V'`, the handshake state stays, the pipeline's ghost
    state is spent. -/
theorem region_step {p : Fin 6} {n : ℕ} {V V' : Dev nD → Valuation τ sig (Elt F)} (h : RegHyps pdats p n V V')
    (d : Dev nD) (Ps : Finset (Fin 6)) (hp : p ∈ Ps)
    {β : Type} (k : PUnit → Prog (TpuEff nD τ sig (Elt F) (SparseCore.Sig (ΛP (F := F)) 6) .tc) β) (Q : β → sProp 𝕄) :
    iprop((levAts (K (F := F)).L (K (F := F)).lev : sProp 𝕄) ∗ St (F := F) d n (V d) Ps
        ∗ (St (F := F) d n (V' d) (Ps.erase p) -∗ wp frame (wpE (DD (F := F)) 𝒱 (T d) none) Set.univ (k ⟨⟩) Q))
      ⊢ wp frame (wpE (DD (F := F)) 𝒱 (T d) none) Set.univ
          (Prog.lift (.customCall (SparseCore.inner (Pipeline.entry p)) ()) >>= k) Q := by
  unfold St
  rw [held_unscoped, held_unscoped]
  refine BIBase.Entails.trans ?_ (region_enter (mkReg h) d k Q)
  iintro ⟨#Hlev, ⟨Hb, Hub, Hst, HG⟩, Hk⟩
  ihave HG' := (Entails.of_eq (Ghost_erase (F := F) hp d)) $$ HG
  icases HG' with ⟨⟨Hg, Ht⟩, Hrest⟩
  isplitr; · iexact Hlev
  isplitl [Hb]; · iexact Hb
  isplitl [Hub Hst]
  · iapply (Entails.of_eq (mkReg_pre h d).symm)
    isplitl [Hub] <;> iassumption
  isplitl [Hg]; · iexact Hg
  isplitl [Ht]; · iexact Ht
  iintro ⟨Hb, Hpost⟩
  ihave Hpost' := (Entails.of_eq (mkReg_post h d)) $$ Hpost
  icases Hpost' with ⟨Hub, Hst⟩
  iapply Hk
  isplitl [Hb]; · iexact Hb
  isplitl [Hub]; · iexact Hub
  isplitl [Hst] <;> iassumption

end Cert.Proof.RegionI

end
-- ==== Proof.SoftmaxBody.lean ====
import proofs.«205547_g25623774888366_cont_9to1_713_27_alg».proof.Proof.Gen.KernelIdeal.Launch
import proofs.«205547_g25623774888366_cont_9to1_713_27_alg».proof.Proof.Gen.KernelIdeal.Skeleton
import proofs.«205547_g25623774888366_cont_9to1_713_27_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.SoftmaxBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the body computes

The edge-softmax body reads, for each of the 32 neighbours `k`, block `k` of the gathered neighbour coordinates
(`x0`), the centre coordinates (`x1`), three rows of the first layer's weights (`x2`), its bias (`x3`) and the second
layer's weights (`x4`); column `k` of the logits is the second layer applied to the exact GELU of the first layer at
the coordinate differences. The 32 columns are concatenated and each row is normalised by a softmax. Each value below
is the payload the skeleton names, applied to what the loads read (`View.ld`) of the five input blocks. -/

/-- The rectangle of the one store: the whole output block. -/
abbrev rOut1 : Rect S400x32 := Rect.unit (s := S400x32) ![0, 0] S400x32.size inb_S400x32_S400x32_0_0

/-- The 400 x 32 logits: column `k` is the two-layer perceptron at neighbour `k`'s coordinate differences. -/
def logits1 (x0 : Vec F S32x400x128 .f32) (x1 : Vec F S400x128 .f32) (x2 : Vec F S8x64 .f32) (x3 : Vec F S1x64 .f32) (x4 : Vec F S64x8 .bf16) : FVec F S400x32 .f32 :=
  -- neighbour block group 1
  have v0 : Vec F S400x128 .f32 := View.ld x1 (Rect.unit (s := S400x128) ![0, 0] S400x128.size inb_S400x128_S400x128_0_0)
  have v2 : Vec F S1x400x128 .f32 := View.ld x0 (Rect.unit (s := S32x400x128) ![0, 0, 0] S1x400x128.size inb_S32x400x128_S1x400x128_0_0_0)
  have v7 : Vec F S1x64 .f32 := View.ld x2 (Rect.unit (s := S8x64) ![0, 0] S1x64.size inb_S8x64_S1x64_0_0)
  have v15 : Vec F S1x64 .f32 := View.ld x2 (Rect.unit (s := S8x64) ![1, 0] S1x64.size inb_S8x64_S1x64_1_0)
  have v24 : Vec F S1x64 .f32 := View.ld x2 (Rect.unit (s := S8x64) ![2, 0] S1x64.size inb_S8x64_S1x64_2_0)
  have v30 : Vec F S1x64 .f32 := View.ld x3 (Rect.unit (s := S1x64) ![0, 0] S1x64.size inb_S1x64_S1x64_0_0)
  have v1 : FVec F S400x128 .f32 := k1_pay4 v0
  have v42 : FVec F S400x64 .bf16 := k1_pay5 v0 v2 v7 v15 v24 v30
  -- neighbour block group 2
  have v43 : Vec F S64x8 .bf16 := View.ld x4 (Rect.unit (s := S64x8) ![0, 0] S64x8.size inb_S64x8_S64x8_0_0)
  have v47 : Vec F S1x400x128 .f32 := View.ld x0 (Rect.unit (s := S32x400x128) ![1, 0, 0] S1x400x128.size inb_S32x400x128_S1x400x128_1_0_0)
  have v52 : Vec F S1x64 .f32 := View.ld x2 (Rect.unit (s := S8x64) ![0, 0] S1x64.size inb_S8x64_S1x64_0_0)
  have v60 : Vec F S1x64 .f32 := View.ld x2 (Rect.unit (s := S8x64) ![1, 0] S1x64.size inb_S8x64_S1x64_1_0)
  have v69 : Vec F S1x64 .f32 := View.ld x2 (Rect.unit (s := S8x64) ![2, 0] S1x64.size inb_S8x64_S1x64_2_0)
  have v75 : Vec F S1x64 .f32 := View.ld x3 (Rect.unit (s := S1x64) ![0, 0] S1x64.size inb_S1x64_S1x64_0_0)
  have v46 : FVec F S400x1 .f32 := k1_pay6 v42 v43
  have v80 : FVec F S400x64 .f32 := k1_pay8 v1 v47 v52 v60 v69 v75
  have v85 : FVec F S400x64 .f32 := k1_pay9 v1 v47 v52 v60 v69 v75
  -- neighbour block group 3
  have v88 : Vec F S64x8 .bf16 := View.ld x4 (Rect.unit (s := S64x8) ![0, 0] S64x8.size inb_S64x8_S64x8_0_0)
  have v92 : Vec F S1x400x128 .f32 := View.ld x0 (Rect.unit (s := S32x400x128) ![2, 0, 0] S1x400x128.size inb_S32x400x128_S1x400x128_2_0_0)
  have v97 : Vec F S1x64 .f32 := View.ld x2 (Rect.unit (s := S8x64) ![0, 0] S1x64.size inb_S8x64_S1x64_0_0)
  have v105 : Vec F S1x64 .f32 := View.ld x2 (Rect.unit (s := S8x64) ![1, 0] S1x64.size inb_S8x64_S1x64_1_0)
  have v114 : Vec F S1x64 .f32 := View.ld x2 (Rect.unit (s := S8x64) ![2, 0] S1x64.size inb_S8x64_S1x64_2_0)
  have v120 : Vec F S1x64 .f32 := View.ld x3 (Rect.unit (s := S1x64) ![0, 0] S1x64.size inb_S1x64_S1x64_0_0)
  have cst_45 : F .f32 := Scalar.ofBits .f32 0x3F800000#32
  have v91 : FVec F S400x1 .f32 := k1_pay10 v80 v85 v88
  have v125 : FVec F S400x64 .f32 := k1_pay12 v1 v92 v97 v105 v114 v120
  have v128 : FVec F S400x64 .f32 := k1_pay13 v1 v92 v97 v105 v114 v120
  -- neighbour block group 4
  have v133 : Vec F S64x8 .bf16 := View.ld x4 (Rect.unit (s := S64x8) ![0, 0] S64x8.size inb_S64x8_S64x8_0_0)
  have v137 : Vec F S1x400x128 .f32 := View.ld x0 (Rect.unit (s := S32x400x128) ![3, 0, 0] S1x400x128.size inb_S32x400x128_S1x400x128_3_0_0)
  have v142 : Vec F S1x64 .f32 := View.ld x2 (Rect.unit (s := S8x64) ![0, 0] S1x64.size inb_S8x64_S1x64_0_0)
  have v150 : Vec F S1x64 .f32 := View.ld x2 (Rect.unit (s := S8x64) ![1, 0] S1x64.size inb_S8x64_S1x64_1_0)
  have v159 : Vec F S1x64 .f32 := View.ld x2 (Rect.unit (s := S8x64) ![2, 0] S1x64.size inb_S8x64_S1x64_2_0)
  have v165 : Vec F S1x64 .f32 := View.ld x3 (Rect.unit (s := S1x64) ![0, 0] S1x64.size inb_S1x64_S1x64_0_0)
  have v136 : FVec F S400x1 .f32 := k1_pay14 v125 v128 cst_45 v133
  have v170 : FVec F S400x64 .f32 := k1_pay16 v1 v137 v142 v150 v159 v165
  have v172 : FVec F S400x64 .f32 := k1_pay17 v1 v137 v142 v150 v159 v165
  -- neighbour block group 5
  have v178 : Vec F S64x8 .bf16 := View.ld x4 (Rect.unit (s := S64x8) ![0, 0] S64x8.size inb_S64x8_S64x8_0_0)
  have v182 : Vec F S1x400x128 .f32 := View.ld x0 (Rect.unit (s := S32x400x128) ![4, 0, 0] S1x400x128.size inb_S32x400x128_S1x400x128_4_0_0)
  have v187 : Vec F S1x64 .f32 := View.ld x2 (Rect.unit (s := S8x64) ![0, 0] S1x64.size inb_S8x64_S1x64_0_0)
  have v195 : Vec F S1x64 .f32 := View.ld x2 (Rect.unit (s := S8x64) ![1, 0] S1x64.size inb_S8x64_S1x64_1_0)
  have v204 : Vec F S1x64 .f32 := View.ld x2 (Rect.unit (s := S8x64) ![2, 0] S1x64.size inb_S8x64_S1x64_2_0)
  have v210 : Vec F S1x64 .f32 := View.ld x3 (Rect.unit (s := S1x64) ![0, 0] S1x64.size inb_S1x64_S1x64_0_0)
  have cst_76 : F .f32 := Scalar.ofBits .f32 0x3F3504F3#32
  have v181 : FVec F S400x1 .f32 := k1_pay18 v170 v172 v178
  have v213 : FVec F S400x64 .f32 := k1_pay19 v1 v182 v187 v195 v204 v210
  have v215 : FVec F S400x64 .f32 := k1_pay20 v1 v182 v187 v195 v204 v210
  -- neighbour block group 6
  have v223 : Vec F S64x8 .bf16 := View.ld x4 (Rect.unit (s := S64x8) ![0, 0] S64x8.size inb_S64x8_S64x8_0_0)
  have v227 : Vec F S1x400x128 .f32 := View.ld x0 (Rect.unit (s := S32x400x128) ![5, 0, 0] S1x400x128.size inb_S32x400x128_S1x400x128_5_0_0)
  have v232 : Vec F S1x64 .f32 := View.ld x2 (Rect.unit (s := S8x64) ![0, 0] S1x64.size inb_S8x64_S1x64_0_0)
  have v240 : Vec F S1x64 .f32 := View.ld x2 (Rect.unit (s := S8x64) ![1, 0] S1x64.size inb_S8x64_S1x64_1_0)
  have v249 : Vec F S1x64 .f32 := View.ld x2 (Rect.unit (s := S8x64) ![2, 0] S1x64.size inb_S8x64_S1x64_2_0)
  have v255 : Vec F S1x64 .f32 := View.ld x3 (Rect.unit (s := S1x64) ![0, 0] S1x64.size inb_S1x64_S1x64_0_0)
  have v226 : FVec F S400x1 .f32 := k1_pay21 v213 v215 cst_76 v223
  have v258 : FVec F S400x64 .f32 := k1_pay22 v1 v227 v232 v240 v249 v255
  have v259 : FVec F S400x64 .f32 := k1_pay23 (F := F)
  -- neighbour block group 7
  have v268 : Vec F S64x8 .bf16 := View.ld x4 (Rect.unit (s := S64x8) ![0, 0] S64x8.size inb_S64x8_S64x8_0_0)
  have v272 : Vec F S1x400x128 .f32 := View.ld x0 (Rect.unit (s := S32x400x128) ![6, 0, 0] S1x400x128.size inb_S32x400x128_S1x400x128_6_0_0)
  have v277 : Vec F S1x64 .f32 := View.ld x2 (Rect.unit (s := S8x64) ![0, 0] S1x64.size inb_S8x64_S1x64_0_0)
  have v285 : Vec F S1x64 .f32 := View.ld x2 (Rect.unit (s := S8x64) ![1, 0] S1x64.size inb_S8x64_S1x64_1_0)
  have v294 : Vec F S1x64 .f32 := View.ld x2 (Rect.unit (s := S8x64) ![2, 0] S1x64.size inb_S8x64_S1x64_2_0)
  have v300 : Vec F S1x64 .f32 := View.ld x3 (Rect.unit (s := S1x64) ![0, 0] S1x64.size inb_S1x64_S1x64_0_0)
  have v271 : FVec F S400x1 .f32 := k1_pay24 v258 v259 v268
  have v303 : FVec F S400x64 .f32 := k1_pay25 v1 v272 v277 v285 v294 v300
  -- neighbour block group 8
  have v313 : Vec F S64x8 .bf16 := View.ld x4 (Rect.unit (s := S64x8) ![0, 0] S64x8.size inb_S64x8_S64x8_0_0)
  have v317 : Vec F S1x400x128 .f32 := View.ld x0 (Rect.unit (s := S32x400x128) ![7, 0, 0] S1x400x128.size inb_S32x400x128_S1x400x128_7_0_0)
  have v322 : Vec F S1x64 .f32 := View.ld x2 (Rect.unit (s := S8x64) ![0, 0] S1x64.size inb_S8x64_S1x64_0_0)
  have v330 : Vec F S1x64 .f32 := View.ld x2 (Rect.unit (s := S8x64) ![1, 0] S1x64.size inb_S8x64_S1x64_1_0)
  have v339 : Vec F S1x64 .f32 := View.ld x2 (Rect.unit (s := S8x64) ![2, 0] S1x64.size inb_S8x64_S1x64_2_0)
  have v345 : Vec F S1x64 .f32 := View.ld x3 (Rect.unit (s := S1x64) ![0, 0] S1x64.size inb_S1x64_S1x64_0_0)
  have v316 : FVec F S400x1 .f32 := k1_pay26 v303 v313
  have v344 : FVec F S400x64 .f32 := k1_pay27 v1 v317 v322 v330 v339
  have v346 : FVec F S1x64 .f32 := k1_pay28 v345
  -- neighbour block group 9
  have v358 : Vec F S64x8 .bf16 := View.ld x4 (Rect.unit (s := S64x8) ![0, 0] S64x8.size inb_S64x8_S64x8_0_0)
  have v362 : Vec F S1x400x128 .f32 := View.ld x0 (Rect.unit (s := S32x400x128) ![8, 0, 0] S1x400x128.size inb_S32x400x128_S1x400x128_8_0_0)
  have v367 : Vec F S1x64 .f32 := View.ld x2 (Rect.unit (s := S8x64) ![0, 0] S1x64.size inb_S8x64_S1x64_0_0)
  have v375 : Vec F S1x64 .f32 := View.ld x2 (Rect.unit (s := S8x64) ![1, 0] S1x64.size inb_S8x64_S1x64_1_0)
  have v384 : Vec F S1x64 .f32 := View.ld x2 (Rect.unit (s := S8x64) ![2, 0] S1x64.size inb_S8x64_S1x64_2_0)
  have v361 : FVec F S400x1 .f32 := k1_pay29 v344 v346 v358
  have v389 : FVec F S400x64 .f32 := k1_pay30 v1 v362 v367 v375 v384
  -- neighbour block group 10
  have v390 : Vec F S1x64 .f32 := View.ld x3 (Rect.unit (s := S1x64) ![0, 0] S1x64.size inb_S1x64_S1x64_0_0)
  have v403 : Vec F S64x8 .bf16 := View.ld x4 (Rect.unit (s := S64x8) ![0, 0] S64x8.size inb_S64x8_S64x8_0_0)
  have v407 : Vec F S1x400x128 .f32 := View.ld x0 (Rect.unit (s := S32x400x128) ![9, 0, 0] S1x400x128.size inb_S32x400x128_S1x400x128_9_0_0)
  have v412 : Vec F S1x64 .f32 := View.ld x2 (Rect.unit (s := S8x64) ![0, 0] S1x64.size inb_S8x64_S1x64_0_0)
  have v420 : Vec F S1x64 .f32 := View.ld x2 (Rect.unit (s := S8x64) ![1, 0] S1x64.size inb_S8x64_S1x64_1_0)
  have v429 : Vec F S1x64 .f32 := View.ld x2 (Rect.unit (s := S8x64) ![2, 0] S1x64.size inb_S8x64_S1x64_2_0)
  have v406 : FVec F S400x1 .f32 := k1_pay31 v389 v390 v403
  have v434 : FVec F S400x64 .f32 := k1_pay32 v1 v407 v412 v420 v429
  -- neighbour block group 11
  have v435 : Vec F S1x64 .f32 := View.ld x3 (Rect.unit (s := S1x64) ![0, 0] S1x64.size inb_S1x64_S1x64_0_0)
  have v448 : Vec F S64x8 .bf16 := View.ld x4 (Rect.unit (s := S64x8) ![0, 0] S64x8.size inb_S64x8_S64x8_0_0)
  have v452 : Vec F S1x400x128 .f32 := View.ld x0 (Rect.unit (s := S32x400x128) ![10, 0, 0] S1x400x128.size inb_S32x400x128_S1x400x128_10_0_0)
  have v457 : Vec F S1x64 .f32 := View.ld x2 (Rect.unit (s := S8x64) ![0, 0] S1x64.size inb_S8x64_S1x64_0_0)
  have v465 : Vec F S1x64 .f32 := View.ld x2 (Rect.unit (s := S8x64) ![1, 0] S1x64.size inb_S8x64_S1x64_1_0)
  have v474 : Vec F S1x64 .f32 := View.ld x2 (Rect.unit (s := S8x64) ![2, 0] S1x64.size inb_S8x64_S1x64_2_0)
  have v451 : FVec F S400x1 .f32 := k1_pay33 v434 v435 v448
  have v470 : FVec F S400x64 .f32 := k1_pay35 v1 v452 v457 v465
  have v476 : FVec F S400x64 .f32 := k1_pay36 v1 v452
  have v477 : FVec F S400x64 .f32 := k1_pay37 v474
  -- neighbour block group 12
  have v480 : Vec F S1x64 .f32 := View.ld x3 (Rect.unit (s := S1x64) ![0, 0] S1x64.size inb_S1x64_S1x64_0_0)
  have v493 : Vec F S64x8 .bf16 := View.ld x4 (Rect.unit (s := S64x8) ![0, 0] S64x8.size inb_S64x8_S64x8_0_0)
  have v497 : Vec F S1x400x128 .f32 := View.ld x0 (Rect.unit (s := S32x400x128) ![11, 0, 0] S1x400x128.size inb_S32x400x128_S1x400x128_11_0_0)
  have v502 : Vec F S1x64 .f32 := View.ld x2 (Rect.unit (s := S8x64) ![0, 0] S1x64.size inb_S8x64_S1x64_0_0)
  have v510 : Vec F S1x64 .f32 := View.ld x2 (Rect.unit (s := S8x64) ![1, 0] S1x64.size inb_S8x64_S1x64_1_0)
  have v519 : Vec F S1x64 .f32 := View.ld x2 (Rect.unit (s := S8x64) ![2, 0] S1x64.size inb_S8x64_S1x64_2_0)
  have v496 : FVec F S400x1 .f32 := k1_pay38 v470 v476 v477 v480 v493
  have v515 : FVec F S400x64 .f32 := k1_pay40 v1 v497 v502 v510
  have v518 : FVec F S400x1 .f32 := k1_pay41 v1 v497
  have v520 : FVec F S1x64 .f32 := k1_pay42 v519
  -- neighbour block group 13
  have v525 : Vec F S1x64 .f32 := View.ld x3 (Rect.unit (s := S1x64) ![0, 0] S1x64.size inb_S1x64_S1x64_0_0)
  have v538 : Vec F S64x8 .bf16 := View.ld x4 (Rect.unit (s := S64x8) ![0, 0] S64x8.size inb_S64x8_S64x8_0_0)
  have v542 : Vec F S1x400x128 .f32 := View.ld x0 (Rect.unit (s := S32x400x128) ![12, 0, 0] S1x400x128.size inb_S32x400x128_S1x400x128_12_0_0)
  have v547 : Vec F S1x64 .f32 := View.ld x2 (Rect.unit (s := S8x64) ![0, 0] S1x64.size inb_S8x64_S1x64_0_0)
  have v555 : Vec F S1x64 .f32 := View.ld x2 (Rect.unit (s := S8x64) ![1, 0] S1x64.size inb_S8x64_S1x64_1_0)
  have v541 : FVec F S400x1 .f32 := k1_pay43 v515 v518 v520 v525 v538
  have v560 : FVec F S400x64 .f32 := k1_pay45 v1 v542 v547 v555
  have v563 : FVec F S400x1 .f32 := k1_pay46 v1 v542
  -- neighbour block group 14
  have v564 : Vec F S1x64 .f32 := View.ld x2 (Rect.unit (s := S8x64) ![2, 0] S1x64.size inb_S8x64_S1x64_2_0)
  have v570 : Vec F S1x64 .f32 := View.ld x3 (Rect.unit (s := S1x64) ![0, 0] S1x64.size inb_S1x64_S1x64_0_0)
  have v583 : Vec F S64x8 .bf16 := View.ld x4 (Rect.unit (s := S64x8) ![0, 0] S64x8.size inb_S64x8_S64x8_0_0)
  have v587 : Vec F S1x400x128 .f32 := View.ld x0 (Rect.unit (s := S32x400x128) ![13, 0, 0] S1x400x128.size inb_S32x400x128_S1x400x128_13_0_0)
  have v592 : Vec F S1x64 .f32 := View.ld x2 (Rect.unit (s := S8x64) ![0, 0] S1x64.size inb_S8x64_S1x64_0_0)
  have v600 : Vec F S1x64 .f32 := View.ld x2 (Rect.unit (s := S8x64) ![1, 0] S1x64.size inb_S8x64_S1x64_1_0)
  have v586 : FVec F S400x1 .f32 := k1_pay47 v560 v563 v564 v570 v583
  have v605 : FVec F S400x64 .f32 := k1_pay49 v1 v587 v592 v600
  have v608 : FVec F S400x1 .f32 := k1_pay50 v1 v587
  -- neighbour block group 15
  have v609 : Vec F S1x64 .f32 := View.ld x2 (Rect.unit (s := S8x64) ![2, 0] S1x64.size inb_S8x64_S1x64_2_0)
  have v615 : Vec F S1x64 .f32 := View.ld x3 (Rect.unit (s := S1x64) ![0, 0] S1x64.size inb_S1x64_S1x64_0_0)
  have v628 : Vec F S64x8 .bf16 := View.ld x4 (Rect.unit (s := S64x8) ![0, 0] S64x8.size inb_S64x8_S64x8_0_0)
  have v632 : Vec F S1x400x128 .f32 := View.ld x0 (Rect.unit (s := S32x400x128) ![14, 0, 0] S1x400x128.size inb_S32x400x128_S1x400x128_14_0_0)
  have v637 : Vec F S1x64 .f32 := View.ld x2 (Rect.unit (s := S8x64) ![0, 0] S1x64.size inb_S8x64_S1x64_0_0)
  have v645 : Vec F S1x64 .f32 := View.ld x2 (Rect.unit (s := S8x64) ![1, 0] S1x64.size inb_S8x64_S1x64_1_0)
  have v631 : FVec F S400x1 .f32 := k1_pay51 v605 v608 v609 v615 v628
  have v650 : FVec F S400x64 .f32 := k1_pay53 v1 v632 v637 v645
  have v651 : FVec F S400x1 .f32 := k1_pay54 v632
  -- neighbour block group 16
  have v654 : Vec F S1x64 .f32 := View.ld x2 (Rect.unit (s := S8x64) ![2, 0] S1x64.size inb_S8x64_S1x64_2_0)
  have v660 : Vec F S1x64 .f32 := View.ld x3 (Rect.unit (s := S1x64) ![0, 0] S1x64.size inb_S1x64_S1x64_0_0)
  have v673 : Vec F S64x8 .bf16 := View.ld x4 (Rect.unit (s := S64x8) ![0, 0] S64x8.size inb_S64x8_S64x8_0_0)
  have v677 : Vec F S1x400x128 .f32 := View.ld x0 (Rect.unit (s := S32x400x128) ![15, 0, 0] S1x400x128.size inb_S32x400x128_S1x400x128_15_0_0)
  have v682 : Vec F S1x64 .f32 := View.ld x2 (Rect.unit (s := S8x64) ![0, 0] S1x64.size inb_S8x64_S1x64_0_0)
  have v690 : Vec F S1x64 .f32 := View.ld x2 (Rect.unit (s := S8x64) ![1, 0] S1x64.size inb_S8x64_S1x64_1_0)
  have v676 : FVec F S400x1 .f32 := k1_pay55 v1 v650 v651 v654 v660 v673
  have v678 : FVec F S400x128 .f32 := k1_pay56 v677
  have v686 : FVec F S400x64 .f32 := k1_pay57 v1 v677 v682
  have v694 : FVec F S400x64 .f32 := k1_pay58 v1 v677 v690
  -- neighbour block group 17
  have v699 : Vec F S1x64 .f32 := View.ld x2 (Rect.unit (s := S8x64) ![2, 0] S1x64.size inb_S8x64_S1x64_2_0)
  have v705 : Vec F S1x64 .f32 := View.ld x3 (Rect.unit (s := S1x64) ![0, 0] S1x64.size inb_S1x64_S1x64_0_0)
  have v718 : Vec F S64x8 .bf16 := View.ld x4 (Rect.unit (s := S64x8) ![0, 0] S64x8.size inb_S64x8_S64x8_0_0)
  have v722 : Vec F S1x400x128 .f32 := View.ld x0 (Rect.unit (s := S32x400x128) ![16, 0, 0] S1x400x128.size inb_S32x400x128_S1x400x128_16_0_0)
  have v727 : Vec F S1x64 .f32 := View.ld x2 (Rect.unit (s := S8x64) ![0, 0] S1x64.size inb_S8x64_S1x64_0_0)
  have v735 : Vec F S1x64 .f32 := View.ld x2 (Rect.unit (s := S8x64) ![1, 0] S1x64.size inb_S8x64_S1x64_1_0)
  have v721 : FVec F S400x1 .f32 := k1_pay59 v1 v678 v686 v694 v699 v705 v718
  have v723 : FVec F S400x128 .f32 := k1_pay60 v722
  have v731 : FVec F S400x64 .f32 := k1_pay61 v1 v722 v727
  have v736 : FVec F S1x64 .f32 := k1_pay62 v735
  have v737 : FVec F S400x64 .f32 := k1_pay63 v1 v722
  -- neighbour block group 18
  have v744 : Vec F S1x64 .f32 := View.ld x2 (Rect.unit (s := S8x64) ![2, 0] S1x64.size inb_S8x64_S1x64_2_0)
  have v750 : Vec F S1x64 .f32 := View.ld x3 (Rect.unit (s := S1x64) ![0, 0] S1x64.size inb_S1x64_S1x64_0_0)
  have v763 : Vec F S64x8 .bf16 := View.ld x4 (Rect.unit (s := S64x8) ![0, 0] S64x8.size inb_S64x8_S64x8_0_0)
  have v767 : Vec F S1x400x128 .f32 := View.ld x0 (Rect.unit (s := S32x400x128) ![17, 0, 0] S1x400x128.size inb_S32x400x128_S1x400x128_17_0_0)
  have v772 : Vec F S1x64 .f32 := View.ld x2 (Rect.unit (s := S8x64) ![0, 0] S1x64.size inb_S8x64_S1x64_0_0)
  have v780 : Vec F S1x64 .f32 := View.ld x2 (Rect.unit (s := S8x64) ![1, 0] S1x64.size inb_S8x64_S1x64_1_0)
  have v766 : FVec F S400x1 .f32 := k1_pay64 v1 v723 v731 v736 v737 v744 v750 v763
  have v768 : FVec F S400x128 .f32 := k1_pay65 v767
  have v776 : FVec F S400x64 .f32 := k1_pay66 v1 v767 v772
  have v779 : FVec F S400x1 .f32 := k1_pay67 v1 v767
  -- neighbour block group 19
  have v789 : Vec F S1x64 .f32 := View.ld x2 (Rect.unit (s := S8x64) ![2, 0] S1x64.size inb_S8x64_S1x64_2_0)
  have v795 : Vec F S1x64 .f32 := View.ld x3 (Rect.unit (s := S1x64) ![0, 0] S1x64.size inb_S1x64_S1x64_0_0)
  have v808 : Vec F S64x8 .bf16 := View.ld x4 (Rect.unit (s := S64x8) ![0, 0] S64x8.size inb_S64x8_S64x8_0_0)
  have v812 : Vec F S1x400x128 .f32 := View.ld x0 (Rect.unit (s := S32x400x128) ![18, 0, 0] S1x400x128.size inb_S32x400x128_S1x400x128_18_0_0)
  have v817 : Vec F S1x64 .f32 := View.ld x2 (Rect.unit (s := S8x64) ![0, 0] S1x64.size inb_S8x64_S1x64_0_0)
  have v811 : FVec F S400x1 .f32 := k1_pay68 v1 v768 v776 v779 v780 v789 v795 v808
  have v813 : FVec F S400x128 .f32 := k1_pay69 v812
  have v821 : FVec F S400x64 .f32 := k1_pay70 v1 v812 v817
  have v824 : FVec F S400x1 .f32 := k1_pay71 v1 v812
  -- neighbour block group 20
  have v825 : Vec F S1x64 .f32 := View.ld x2 (Rect.unit (s := S8x64) ![1, 0] S1x64.size inb_S8x64_S1x64_1_0)
  have v834 : Vec F S1x64 .f32 := View.ld x2 (Rect.unit (s := S8x64) ![2, 0] S1x64.size inb_S8x64_S1x64_2_0)
  have v840 : Vec F S1x64 .f32 := View.ld x3 (Rect.unit (s := S1x64) ![0, 0] S1x64.size inb_S1x64_S1x64_0_0)
  have v853 : Vec F S64x8 .bf16 := View.ld x4 (Rect.unit (s := S64x8) ![0, 0] S64x8.size inb_S64x8_S64x8_0_0)
  have v857 : Vec F S1x400x128 .f32 := View.ld x0 (Rect.unit (s := S32x400x128) ![19, 0, 0] S1x400x128.size inb_S32x400x128_S1x400x128_19_0_0)
  have v862 : Vec F S1x64 .f32 := View.ld x2 (Rect.unit (s := S8x64) ![0, 0] S1x64.size inb_S8x64_S1x64_0_0)
  have v856 : FVec F S400x1 .f32 := k1_pay72 v1 v813 v821 v824 v825 v834 v840 v853
  have v858 : FVec F S400x128 .f32 := k1_pay73 v857
  have v866 : FVec F S400x64 .f32 := k1_pay74 v1 v857 v862
  have v867 : FVec F S400x1 .f32 := k1_pay75 v857
  have v868 : FVec F S400x1 .f32 := k1_pay76 v1
  -- neighbour block group 21
  have v870 : Vec F S1x64 .f32 := View.ld x2 (Rect.unit (s := S8x64) ![1, 0] S1x64.size inb_S8x64_S1x64_1_0)
  have v879 : Vec F S1x64 .f32 := View.ld x2 (Rect.unit (s := S8x64) ![2, 0] S1x64.size inb_S8x64_S1x64_2_0)
  have v885 : Vec F S1x64 .f32 := View.ld x3 (Rect.unit (s := S1x64) ![0, 0] S1x64.size inb_S1x64_S1x64_0_0)
  have v898 : Vec F S64x8 .bf16 := View.ld x4 (Rect.unit (s := S64x8) ![0, 0] S64x8.size inb_S64x8_S64x8_0_0)
  have v902 : Vec F S1x400x128 .f32 := View.ld x0 (Rect.unit (s := S32x400x128) ![20, 0, 0] S1x400x128.size inb_S32x400x128_S1x400x128_20_0_0)
  have v907 : Vec F S1x64 .f32 := View.ld x2 (Rect.unit (s := S8x64) ![0, 0] S1x64.size inb_S8x64_S1x64_0_0)
  have v901 : FVec F S400x1 .f32 := k1_pay77 v1 v858 v866 v867 v868 v870 v879 v885 v898
  have v903 : FVec F S400x128 .f32 := k1_pay78 v902
  have v911 : FVec F S400x64 .f32 := k1_pay79 v1 v902 v907
  -- neighbour block group 22
  have v915 : Vec F S1x64 .f32 := View.ld x2 (Rect.unit (s := S8x64) ![1, 0] S1x64.size inb_S8x64_S1x64_1_0)
  have v924 : Vec F S1x64 .f32 := View.ld x2 (Rect.unit (s := S8x64) ![2, 0] S1x64.size inb_S8x64_S1x64_2_0)
  have v930 : Vec F S1x64 .f32 := View.ld x3 (Rect.unit (s := S1x64) ![0, 0] S1x64.size inb_S1x64_S1x64_0_0)
  have v943 : Vec F S64x8 .bf16 := View.ld x4 (Rect.unit (s := S64x8) ![0, 0] S64x8.size inb_S64x8_S64x8_0_0)
  have v947 : Vec F S1x400x128 .f32 := View.ld x0 (Rect.unit (s := S32x400x128) ![21, 0, 0] S1x400x128.size inb_S32x400x128_S1x400x128_21_0_0)
  have v952 : Vec F S1x64 .f32 := View.ld x2 (Rect.unit (s := S8x64) ![0, 0] S1x64.size inb_S8x64_S1x64_0_0)
  have v946 : FVec F S400x1 .f32 := k1_pay80 v1 v903 v911 v915 v924 v930 v943
  have v948 : FVec F S400x128 .f32 := k1_pay81 v947
  have v953 : FVec F S1x64 .f32 := k1_pay82 v952
  have v954 : FVec F S400x64 .f32 := k1_pay83 v1 v947
  -- neighbour block group 23
  have v960 : Vec F S1x64 .f32 := View.ld x2 (Rect.unit (s := S8x64) ![1, 0] S1x64.size inb_S8x64_S1x64_1_0)
  have v969 : Vec F S1x64 .f32 := View.ld x2 (Rect.unit (s := S8x64) ![2, 0] S1x64.size inb_S8x64_S1x64_2_0)
  have v975 : Vec F S1x64 .f32 := View.ld x3 (Rect.unit (s := S1x64) ![0, 0] S1x64.size inb_S1x64_S1x64_0_0)
  have v988 : Vec F S64x8 .bf16 := View.ld x4 (Rect.unit (s := S64x8) ![0, 0] S64x8.size inb_S64x8_S64x8_0_0)
  have v992 : Vec F S1x400x128 .f32 := View.ld x0 (Rect.unit (s := S32x400x128) ![22, 0, 0] S1x400x128.size inb_S32x400x128_S1x400x128_22_0_0)
  have v997 : Vec F S1x64 .f32 := View.ld x2 (Rect.unit (s := S8x64) ![0, 0] S1x64.size inb_S8x64_S1x64_0_0)
  have v991 : FVec F S400x1 .f32 := k1_pay84 v1 v948 v953 v954 v960 v969 v975 v988
  have v993 : FVec F S400x128 .f32 := k1_pay85 v992
  have v996 : FVec F S400x1 .f32 := k1_pay86 v1 v992
  -- neighbour block group 24
  have v1005 : Vec F S1x64 .f32 := View.ld x2 (Rect.unit (s := S8x64) ![1, 0] S1x64.size inb_S8x64_S1x64_1_0)
  have v1014 : Vec F S1x64 .f32 := View.ld x2 (Rect.unit (s := S8x64) ![2, 0] S1x64.size inb_S8x64_S1x64_2_0)
  have v1020 : Vec F S1x64 .f32 := View.ld x3 (Rect.unit (s := S1x64) ![0, 0] S1x64.size inb_S1x64_S1x64_0_0)
  have v1033 : Vec F S64x8 .bf16 := View.ld x4 (Rect.unit (s := S64x8) ![0, 0] S64x8.size inb_S64x8_S64x8_0_0)
  have v1037 : Vec F S1x400x128 .f32 := View.ld x0 (Rect.unit (s := S32x400x128) ![23, 0, 0] S1x400x128.size inb_S32x400x128_S1x400x128_23_0_0)
  have v1036 : FVec F S400x1 .f32 := k1_pay87 v1 v993 v996 v997 v1005 v1014 v1020 v1033
  have v1038 : FVec F S400x128 .f32 := k1_pay88 v1037
  have v1041 : FVec F S400x1 .f32 := k1_pay89 v1 v1037
  -- neighbour block group 25
  have v1042 : Vec F S1x64 .f32 := View.ld x2 (Rect.unit (s := S8x64) ![0, 0] S1x64.size inb_S8x64_S1x64_0_0)
  have v1050 : Vec F S1x64 .f32 := View.ld x2 (Rect.unit (s := S8x64) ![1, 0] S1x64.size inb_S8x64_S1x64_1_0)
  have v1059 : Vec F S1x64 .f32 := View.ld x2 (Rect.unit (s := S8x64) ![2, 0] S1x64.size inb_S8x64_S1x64_2_0)
  have v1065 : Vec F S1x64 .f32 := View.ld x3 (Rect.unit (s := S1x64) ![0, 0] S1x64.size inb_S1x64_S1x64_0_0)
  have v1078 : Vec F S64x8 .bf16 := View.ld x4 (Rect.unit (s := S64x8) ![0, 0] S64x8.size inb_S64x8_S64x8_0_0)
  have v1082 : Vec F S1x400x128 .f32 := View.ld x0 (Rect.unit (s := S32x400x128) ![24, 0, 0] S1x400x128.size inb_S32x400x128_S1x400x128_24_0_0)
  have v1081 : FVec F S400x1 .f32 := k1_pay90 v1 v1038 v1041 v1042 v1050 v1059 v1065 v1078
  have v1083 : FVec F S400x128 .f32 := k1_pay91 v1082
  have v1084 : FVec F S400x1 .f32 := k1_pay92 v1082
  have v1085 : FVec F S400x1 .f32 := k1_pay93 v1
  -- neighbour block group 26
  have v1087 : Vec F S1x64 .f32 := View.ld x2 (Rect.unit (s := S8x64) ![0, 0] S1x64.size inb_S8x64_S1x64_0_0)
  have v1095 : Vec F S1x64 .f32 := View.ld x2 (Rect.unit (s := S8x64) ![1, 0] S1x64.size inb_S8x64_S1x64_1_0)
  have v1104 : Vec F S1x64 .f32 := View.ld x2 (Rect.unit (s := S8x64) ![2, 0] S1x64.size inb_S8x64_S1x64_2_0)
  have v1110 : Vec F S1x64 .f32 := View.ld x3 (Rect.unit (s := S1x64) ![0, 0] S1x64.size inb_S1x64_S1x64_0_0)
  have v1123 : Vec F S64x8 .bf16 := View.ld x4 (Rect.unit (s := S64x8) ![0, 0] S64x8.size inb_S64x8_S64x8_0_0)
  have v1127 : Vec F S1x400x128 .f32 := View.ld x0 (Rect.unit (s := S32x400x128) ![25, 0, 0] S1x400x128.size inb_S32x400x128_S1x400x128_25_0_0)
  have v1126 : FVec F S400x1 .f32 := k1_pay94 v1 v1083 v1084 v1085 v1087 v1095 v1104 v1110 v1123
  have v1128 : FVec F S400x128 .f32 := k1_pay95 v1127
  -- neighbour block group 27
  have v1132 : Vec F S1x64 .f32 := View.ld x2 (Rect.unit (s := S8x64) ![0, 0] S1x64.size inb_S8x64_S1x64_0_0)
  have v1140 : Vec F S1x64 .f32 := View.ld x2 (Rect.unit (s := S8x64) ![1, 0] S1x64.size inb_S8x64_S1x64_1_0)
  have v1149 : Vec F S1x64 .f32 := View.ld x2 (Rect.unit (s := S8x64) ![2, 0] S1x64.size inb_S8x64_S1x64_2_0)
  have v1155 : Vec F S1x64 .f32 := View.ld x3 (Rect.unit (s := S1x64) ![0, 0] S1x64.size inb_S1x64_S1x64_0_0)
  have v1168 : Vec F S64x8 .bf16 := View.ld x4 (Rect.unit (s := S64x8) ![0, 0] S64x8.size inb_S64x8_S64x8_0_0)
  have v1171 : FVec F S400x1 .f32 := k1_pay96 v1 v1128 v1132 v1140 v1149 v1155 v1168
  -- neighbour block group 28
  have v1172 : Vec F S1x400x128 .f32 := View.ld x0 (Rect.unit (s := S32x400x128) ![26, 0, 0] S1x400x128.size inb_S32x400x128_S1x400x128_26_0_0)
  have v1177 : Vec F S1x64 .f32 := View.ld x2 (Rect.unit (s := S8x64) ![0, 0] S1x64.size inb_S8x64_S1x64_0_0)
  have v1185 : Vec F S1x64 .f32 := View.ld x2 (Rect.unit (s := S8x64) ![1, 0] S1x64.size inb_S8x64_S1x64_1_0)
  have v1194 : Vec F S1x64 .f32 := View.ld x2 (Rect.unit (s := S8x64) ![2, 0] S1x64.size inb_S8x64_S1x64_2_0)
  have v1200 : Vec F S1x64 .f32 := View.ld x3 (Rect.unit (s := S1x64) ![0, 0] S1x64.size inb_S1x64_S1x64_0_0)
  have v1213 : Vec F S64x8 .bf16 := View.ld x4 (Rect.unit (s := S64x8) ![0, 0] S64x8.size inb_S64x8_S64x8_0_0)
  have v1216 : FVec F S400x1 .f32 := k1_pay97 v1 v1172 v1177 v1185 v1194 v1200 v1213
  -- neighbour block group 29
  have v1217 : Vec F S1x400x128 .f32 := View.ld x0 (Rect.unit (s := S32x400x128) ![27, 0, 0] S1x400x128.size inb_S32x400x128_S1x400x128_27_0_0)
  have v1222 : Vec F S1x64 .f32 := View.ld x2 (Rect.unit (s := S8x64) ![0, 0] S1x64.size inb_S8x64_S1x64_0_0)
  have v1230 : Vec F S1x64 .f32 := View.ld x2 (Rect.unit (s := S8x64) ![1, 0] S1x64.size inb_S8x64_S1x64_1_0)
  have v1239 : Vec F S1x64 .f32 := View.ld x2 (Rect.unit (s := S8x64) ![2, 0] S1x64.size inb_S8x64_S1x64_2_0)
  have v1245 : Vec F S1x64 .f32 := View.ld x3 (Rect.unit (s := S1x64) ![0, 0] S1x64.size inb_S1x64_S1x64_0_0)
  have v1258 : Vec F S64x8 .bf16 := View.ld x4 (Rect.unit (s := S64x8) ![0, 0] S64x8.size inb_S64x8_S64x8_0_0)
  have v1260 : FVec F S400x8 .f32 := k1_pay98 v1 v1217 v1222 v1230 v1239 v1245 v1258
  -- neighbour block group 30
  have v1262 : Vec F S1x400x128 .f32 := View.ld x0 (Rect.unit (s := S32x400x128) ![28, 0, 0] S1x400x128.size inb_S32x400x128_S1x400x128_28_0_0)
  have v1267 : Vec F S1x64 .f32 := View.ld x2 (Rect.unit (s := S8x64) ![0, 0] S1x64.size inb_S8x64_S1x64_0_0)
  have v1275 : Vec F S1x64 .f32 := View.ld x2 (Rect.unit (s := S8x64) ![1, 0] S1x64.size inb_S8x64_S1x64_1_0)
  have v1284 : Vec F S1x64 .f32 := View.ld x2 (Rect.unit (s := S8x64) ![2, 0] S1x64.size inb_S8x64_S1x64_2_0)
  have v1290 : Vec F S1x64 .f32 := View.ld x3 (Rect.unit (s := S1x64) ![0, 0] S1x64.size inb_S1x64_S1x64_0_0)
  have v1303 : Vec F S64x8 .bf16 := View.ld x4 (Rect.unit (s := S64x8) ![0, 0] S64x8.size inb_S64x8_S64x8_0_0)
  have v1261 : FVec F S400x1 .f32 := k1_pay99 v1260
  have v1302 : FVec F S400x64 .bf16 := k1_pay100 v1 v1262 v1267 v1275 v1284 v1290
  have v1304 : FVec F S64x8 .bf16 := k1_pay101 v1303
  -- neighbour block group 31
  have v1307 : Vec F S1x400x128 .f32 := View.ld x0 (Rect.unit (s := S32x400x128) ![29, 0, 0] S1x400x128.size inb_S32x400x128_S1x400x128_29_0_0)
  have v1312 : Vec F S1x64 .f32 := View.ld x2 (Rect.unit (s := S8x64) ![0, 0] S1x64.size inb_S8x64_S1x64_0_0)
  have v1320 : Vec F S1x64 .f32 := View.ld x2 (Rect.unit (s := S8x64) ![1, 0] S1x64.size inb_S8x64_S1x64_1_0)
  have v1329 : Vec F S1x64 .f32 := View.ld x2 (Rect.unit (s := S8x64) ![2, 0] S1x64.size inb_S8x64_S1x64_2_0)
  have v1335 : Vec F S1x64 .f32 := View.ld x3 (Rect.unit (s := S1x64) ![0, 0] S1x64.size inb_S1x64_S1x64_0_0)
  have v1306 : FVec F S400x1 .f32 := k1_pay102 v1302 v1304
  have v1347 : FVec F S400x64 .bf16 := k1_pay103 v1 v1307 v1312 v1320 v1329 v1335
  -- neighbour block group 32
  have v1348 : Vec F S64x8 .bf16 := View.ld x4 (Rect.unit (s := S64x8) ![0, 0] S64x8.size inb_S64x8_S64x8_0_0)
  have v1352 : Vec F S1x400x128 .f32 := View.ld x0 (Rect.unit (s := S32x400x128) ![30, 0, 0] S1x400x128.size inb_S32x400x128_S1x400x128_30_0_0)
  have v1357 : Vec F S1x64 .f32 := View.ld x2 (Rect.unit (s := S8x64) ![0, 0] S1x64.size inb_S8x64_S1x64_0_0)
  have v1365 : Vec F S1x64 .f32 := View.ld x2 (Rect.unit (s := S8x64) ![1, 0] S1x64.size inb_S8x64_S1x64_1_0)
  have v1374 : Vec F S1x64 .f32 := View.ld x2 (Rect.unit (s := S8x64) ![2, 0] S1x64.size inb_S8x64_S1x64_2_0)
  have v1380 : Vec F S1x64 .f32 := View.ld x3 (Rect.unit (s := S1x64) ![0, 0] S1x64.size inb_S1x64_S1x64_0_0)
  have v1351 : FVec F S400x1 .f32 := k1_pay104 v1347 v1348
  have v1392 : FVec F S400x64 .bf16 := k1_pay105 v1 v1352 v1357 v1365 v1374 v1380
  -- neighbour block group 33
  have v1393 : Vec F S64x8 .bf16 := View.ld x4 (Rect.unit (s := S64x8) ![0, 0] S64x8.size inb_S64x8_S64x8_0_0)
  have v1397 : Vec F S1x400x128 .f32 := View.ld x0 (Rect.unit (s := S32x400x128) ![31, 0, 0] S1x400x128.size inb_S32x400x128_S1x400x128_31_0_0)
  have v1402 : Vec F S1x64 .f32 := View.ld x2 (Rect.unit (s := S8x64) ![0, 0] S1x64.size inb_S8x64_S1x64_0_0)
  have v1410 : Vec F S1x64 .f32 := View.ld x2 (Rect.unit (s := S8x64) ![1, 0] S1x64.size inb_S8x64_S1x64_1_0)
  have v1419 : Vec F S1x64 .f32 := View.ld x2 (Rect.unit (s := S8x64) ![2, 0] S1x64.size inb_S8x64_S1x64_2_0)
  have v1425 : Vec F S1x64 .f32 := View.ld x3 (Rect.unit (s := S1x64) ![0, 0] S1x64.size inb_S1x64_S1x64_0_0)
  have v1396 : FVec F S400x1 .f32 := k1_pay106 v1392 v1393
  have v1430 : FVec F S400x64 .f32 := k1_pay108 v1 v1397 v1402 v1410 v1419 v1425
  have v1435 : FVec F S400x64 .f32 := k1_pay109 v1 v1397 v1402 v1410 v1419 v1425
  -- the last column, the concatenation, and the row softmax
  have v1438 : Vec F S64x8 .bf16 := View.ld x4 (Rect.unit (s := S64x8) ![0, 0] S64x8.size inb_S64x8_S64x8_0_0)
  have v1440 : FVec F S400x8 .f32 := k1_pay1 v1430 v1435 v1438
  have v1442 : FVec F S400x32 .f32 := k1_pay2 v46 v91 v136 v181 v226 v271 v316 v361 v406 v451 v496 v541 v586 v631 v676 v721 v766 v811 v856 v901 v946 v991 v1036 v1081 v1126 v1171 v1216 v1261 v1306 v1351 v1396 v1440
  v1442

/-- The output block after the body: the row softmax of the logits, stored over the whole block. -/
def out1 (x0 : Vec F S32x400x128 .f32) (x1 : Vec F S400x128 .f32) (x2 : Vec F S8x64 .f32) (x3 : Vec F S1x64 .f32) (x4 : Vec F S64x8 .bf16) : Vec F S400x32 .f32 :=
  View.canon [⟨rOut1, k1_pay3 (logits1 x0 x1 x2 x3 x4)⟩]

/-- The one store tiles the block, so it covers it. -/
theorem cover1 (p0 : Vec F S400x32 .f32) (y : S400x32.Idx) :
    ∃ pc ∈ ([⟨rOut1, p0⟩] : List (View.Piece (Elt F) S400x32 .f32)), y ∈ pc.1.set :=
  View.cover_of_tiled [⟨rOut1, p0⟩] S400x32.size (by rfl) y

/-! ## The body's triple -/

set_option maxHeartbeats 4000000 in
/-- The body on whole staging memrefs, the five inputs' at read contents `x0 … x4` and the output's at anything, runs to
    the continuation holding the inputs' as they were and the output's at `out1` of the inputs'. The body is run part by
    part through the parts' skeletons. -/
theorem kernelRun1 (𝒱₀ : Variants) (c : Dev nD) (E : Set Name) (i : grid1.Coords) (arg1 : Memref sig .tc .vmem S32x400x128 .f32) (harg1 : arg1.IsWhole) (arg2 : Memref sig .tc .vmem S400x128 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x8 .bf16) (harg5 : arg5.IsWhole) (arg6 : Memref sig .tc .vmem S400x32 .f32) (harg6 : arg6.IsWhole)
    (x0 : Vec F S32x400x128 .f32) (x1 : Vec F S400x128 .f32) (x2 : Vec F S8x64 .f32) (x3 : Vec F S1x64 .f32) (x4 : Vec F S64x8 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 x0 x1 x2 x3 x4)) -∗ K ⟨⟩))
      ⊢ wp frame (wpE (defs₀ (F := F)) 𝒱₀ c none) E (cc1_body i arg1 harg1 arg2 harg2 arg3 harg3 arg4 harg4 arg5 harg5 arg6 harg6) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The windows' blocks at the region's entry contents -/

/-- The TensorCore's buffer `b` on core `c` as the valuation `V` has it. -/
abbrev VW (V : Valuation τ sig (Elt F)) (c : Dev nD) (b : Ref sig .tc) : Buf (Elt F) ((c : Thread nD τ).loc b) := V b

/-- Window `w`'s block at point `t`, read off its array as the region finds it (`V`). -/
def iblk1 (V : Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (VW V c (Pipeline.arrRef spec1 w))

/-- Input window 0's current staging buffer holds its block at every point, fetched there or not, for any proof data
    whose array is the entry contents and whose body leaves the block in place: unfetched, the block index has not moved. -/
theorem before1_0_of {c : Dev nD} (V : Valuation τ sig (Elt F)) (dat : Dat τ (Elt F) Ix Name U Lvl cfg1 c) (hA : dat.A 0 = VW V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is the entry contents and whose body leaves the block in place: unfetched, the block index has not moved. -/
theorem before1_1_of {c : Dev nD} (V : Valuation τ sig (Elt F)) (dat : Dat τ (Elt F) Ix Name U Lvl cfg1 c) (hA : dat.A 1 = VW V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is the entry contents and whose body leaves the block in place: unfetched, the block index has not moved. -/
theorem before1_2_of {c : Dev nD} (V : Valuation τ sig (Elt F)) (dat : Dat τ (Elt F) Ix Name U Lvl cfg1 c) (hA : dat.A 2 = VW V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is the entry contents and whose body leaves the block in place: unfetched, the block index has not moved. -/
theorem before1_3_of {c : Dev nD} (V : Valuation τ sig (Elt F)) (dat : Dat τ (Elt F) Ix Name U Lvl cfg1 c) (hA : dat.A 3 = VW V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is the entry contents and whose body leaves the block in place: unfetched, the block index has not moved. -/
theorem before1_4_of {c : Dev nD} (V : Valuation τ sig (Elt F)) (dat : Dat τ (Elt F) Ix Name U Lvl cfg1 c) (hA : dat.A 4 = VW V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the edge-softmax pipeline on core `c`, at the region's entry contents `V`: after the body at point
    `t` each input's buffer holds its block and the output's holds `out1` of the input blocks; the invariant is the
    core's scoped buffers that are no staging buffer of this pipeline, which the body never touches; the tallies `O` the core owes and the bound `R` on its recorded wait pairs are the same at every point (the body pays
    nothing and waits for nothing); full shares. -/
def dat1 (O : CellTallies nD τ sig Ix) (R : Set (SemLoc sig × Ix)) (V : Valuation τ sig (Elt F)) (c : Dev nD) : Dat τ (Elt F) Ix Name U Lvl cfg1 c where
  A w := VW V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.scopedRest spec1 c
  q _ := fullShare
  owed _ := O
  recorded _ := R

/-- The proof data's arrays are the region-entry contents. -/
theorem A_eq1 (O : CellTallies nD τ sig Ix) (R : Set (SemLoc sig × Ix)) (V : Valuation τ sig (Elt F)) (c : Dev nD) (w : Fin cfg1.W) : (dat1 (F := F) (Ix := Ix) (Name := Name) (U := U) (Lvl := Lvl) O R V c).A w = VW V c (Pipeline.arrRef spec1 w) := by
  dsimp only [dat1]

/-- What the body leaves, window by window. -/
theorem after1_0 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 0 t = iblk1 V c 0 t := by dsimp only [dat1]
theorem after1_1 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 1 t = iblk1 V c 1 t := by dsimp only [dat1]
theorem after1_2 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 2 t = iblk1 V c 2 t := by dsimp only [dat1]
theorem after1_3 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 3 t = iblk1 V c 3 t := by dsimp only [dat1]
theorem after1_4 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 4 t = iblk1 V c 4 t := by dsimp only [dat1]
theorem after1_5 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 5 t = out1 (iblk1 V c 0 t) (iblk1 V c 1 t) (iblk1 V c 2 t) (iblk1 V c 3 t) (iblk1 V c 4 t) := by dsimp only [dat1]

/-- Each input's current staging buffer holds its block at every point, fetched there or not. -/
theorem before1_0 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 0 t d = iblk1 V c 0 t :=
  before1_0_of V (dat1 (F := F) (Ix := Ix) (Name := Name) (U := U) (Lvl := Lvl) O R V c) (A_eq1 (F := F) (Ix := Ix) (Name := Name) (U := U) (Lvl := Lvl) O R V c 0) (after1_0 (F := F) (Ix := Ix) (Name := Name) (U := U) (Lvl := Lvl) O R V c) t d
theorem before1_1 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 1 t d = iblk1 V c 1 t :=
  before1_1_of V (dat1 (F := F) (Ix := Ix) (Name := Name) (U := U) (Lvl := Lvl) O R V c) (A_eq1 (F := F) (Ix := Ix) (Name := Name) (U := U) (Lvl := Lvl) O R V c 1) (after1_1 (F := F) (Ix := Ix) (Name := Name) (U := U) (Lvl := Lvl) O R V c) t d
theorem before1_2 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 2 t d = iblk1 V c 2 t :=
  before1_2_of V (dat1 (F := F) (Ix := Ix) (Name := Name) (U := U) (Lvl := Lvl) O R V c) (A_eq1 (F := F) (Ix := Ix) (Name := Name) (U := U) (Lvl := Lvl) O R V c 2) (after1_2 (F := F) (Ix := Ix) (Name := Name) (U := U) (Lvl := Lvl) O R V c) t d
theorem before1_3 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 3 t d = iblk1 V c 3 t :=
  before1_3_of V (dat1 (F := F) (Ix := Ix) (Name := Name) (U := U) (Lvl := Lvl) O R V c) (A_eq1 (F := F) (Ix := Ix) (Name := Name) (U := U) (Lvl := Lvl) O R V c 3) (after1_3 (F := F) (Ix := Ix) (Name := Name) (U := U) (Lvl := Lvl) O R V c) t d
theorem before1_4 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 4 t d = iblk1 V c 4 t :=
  before1_4_of V (dat1 (F := F) (Ix := Ix) (Name := Name) (U := U) (Lvl := Lvl) O R V c) (A_eq1 (F := F) (Ix := Ix) (Name := Name) (U := U) (Lvl := Lvl) O R V c 4) (after1_4 (F := F) (Ix := Ix) (Name := Name) (U := U) (Lvl := Lvl) O R V c) t d

/-! ## The body obligation, at a generic point -/

/-- What the body is called with at point `t`, the windows one by one, -/
def bodyPre1 (ι : Ix) (O : CellTallies nD τ sig Ix) (R : Set (SemLoc sig × Ix)) (V : Valuation τ sig (Elt F)) (c : Dev nD) (t : Fin cfg1.N) : sProp 𝕄 :=
  iprop((dat1 (F := F) (Ix := Ix) (Name := Name) (U := U) (Lvl := Lvl) O R V c).Φ t.castSucc ∗ (dat1 (F := F) (Ix := Ix) (Name := Name) (U := U) (Lvl := Lvl) O R V c).owesAt ι t.castSucc
    ∗ (∃ d, owns (c : Thread nD τ) (st1_0 t) fullShare ((dat1 (F := F) (Ix := Ix) (Name := Name) (U := U) (Lvl := Lvl) O R V c).before 0 t d))
    ∗ (∃ d, owns (c : Thread nD τ) (st1_1 t) fullShare ((dat1 (F := F) (Ix := Ix) (Name := Name) (U := U) (Lvl := Lvl) O R V c).before 1 t d))
    ∗ (∃ d, owns (c : Thread nD τ) (st1_2 t) fullShare ((dat1 (F := F) (Ix := Ix) (Name := Name) (U := U) (Lvl := Lvl) O R V c).before 2 t d))
    ∗ (∃ d, owns (c : Thread nD τ) (st1_3 t) fullShare ((dat1 (F := F) (Ix := Ix) (Name := Name) (U := U) (Lvl := Lvl) O R V c).before 3 t d))
    ∗ (∃ d, owns (c : Thread nD τ) (st1_4 t) fullShare ((dat1 (F := F) (Ix := Ix) (Name := Name) (U := U) (Lvl := Lvl) O R V c).before 4 t d))
    ∗ (∃ d, owns (c : Thread nD τ) (st1_5 t) fullShare ((dat1 (F := F) (Ix := Ix) (Name := Name) (U := U) (Lvl := Lvl) O R V c).before 5 t d)))

/-- and what it returns. -/
def bodyPost1 (ι : Ix) (O : CellTallies nD τ sig Ix) (R : Set (SemLoc sig × Ix)) (V : Valuation τ sig (Elt F)) (c : Dev nD) (t : Fin cfg1.N) : sProp 𝕄 :=
  iprop((dat1 (F := F) (Ix := Ix) (Name := Name) (U := U) (Lvl := Lvl) O R V c).Φ t.succ ∗ (dat1 (F := F) (Ix := Ix) (Name := Name) (U := U) (Lvl := Lvl) O R V c).owesAt ι t.succ
    ∗ owns (c : Thread nD τ) (st1_0 t) fullShare ((dat1 (F := F) (Ix := Ix) (Name := Name) (U := U) (Lvl := Lvl) O R V c).after 0 t)
    ∗ owns (c : Thread nD τ) (st1_1 t) fullShare ((dat1 (F := F) (Ix := Ix) (Name := Name) (U := U) (Lvl := Lvl) O R V c).after 1 t)
    ∗ owns (c : Thread nD τ) (st1_2 t) fullShare ((dat1 (F := F) (Ix := Ix) (Name := Name) (U := U) (Lvl := Lvl) O R V c).after 2 t)
    ∗ owns (c : Thread nD τ) (st1_3 t) fullShare ((dat1 (F := F) (Ix := Ix) (Name := Name) (U := U) (Lvl := Lvl) O R V c).after 3 t)
    ∗ owns (c : Thread nD τ) (st1_4 t) fullShare ((dat1 (F := F) (Ix := Ix) (Name := Name) (U := U) (Lvl := Lvl) O R V c).after 4 t)
    ∗ owns (c : Thread nD τ) (st1_5 t) fullShare ((dat1 (F := F) (Ix := Ix) (Name := Name) (U := U) (Lvl := Lvl) O R V c).after 5 t))

/-- The body at any point: the inputs' memrefs hold their blocks, so `kernelRun1` applies; the invariant and the core's
    `owes` pass through unread. -/
theorem sound_body1 (𝒱₀ : Variants) (ι : Ix) (O : CellTallies nD τ sig Ix) (R : Set (SemLoc sig × Ix)) (V : Valuation τ sig (Elt F)) (c : Dev nD) (t : Fin cfg1.N) :
    bodyPre1 (F := F) (Ix := Ix) (Name := Name) (U := U) (Lvl := Lvl) ι O R V c t ⊢ wp frame (wpE (defs₀ (F := F)) 𝒱₀ c none) Set.univ (bodyAt1 t) (fun _ => bodyPost1 (F := F) (Ix := Ix) (Name := Name) (U := U) (Lvl := Lvl) ι O R V c t) := by
  unfold bodyPre1 bodyPost1 bodyAt1
  simp only [before1_0, before1_1, before1_2, before1_3, before1_4]
  rw [show (dat1 (F := F) (Ix := Ix) (Name := Name) (U := U) (Lvl := Lvl) O R V c).Φ t.succ = (dat1 (F := F) (Ix := Ix) (Name := Name) (U := U) (Lvl := Lvl) O R V c).Φ t.castSucc from rfl,
    show (dat1 (F := F) (Ix := Ix) (Name := Name) (U := U) (Lvl := Lvl) O R V c).owesAt ι t.succ = (dat1 (F := F) (Ix := Ix) (Name := Name) (U := U) (Lvl := Lvl) O R V c).owesAt ι t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (kernelRun1 𝒱₀ c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (𝒱₀ : Variants) (ι : Ix) (O : CellTallies nD τ sig Ix) (R : Set (SemLoc sig × Ix)) (V : Valuation τ sig (Elt F)) (c : Dev nD) : BodyObligation (dat1 (F := F) (Ix := Ix) (Name := Name) (U := U) (Lvl := Lvl) O R V c) (defs₀ (F := F)) 𝒱₀ ι Set.univ := fun t => by
  rw [bigSep_W1, bigSep_W1]
  exact sound_body1 𝒱₀ ι O R V c t

/-- The same as the loop uses it. -/
theorem body_obligation_loose1 (𝒱₀ : Variants) (ι : Ix) (O : CellTallies nD τ sig Ix) (R : Set (SemLoc sig × Ix)) (V : Valuation τ sig (Elt F)) (c : Dev nD) : BodyObligationLoose (dat1 (F := F) (Ix := Ix) (Name := Name) (U := U) (Lvl := Lvl) O R V c) (defs₀ (F := F)) 𝒱₀ ι Set.univ :=
  (body_obligation1 𝒱₀ ι O R V c).loose

/-! ## The output array after the run -/

/-- The output window's index map sends distinct grid points to distinct block indices (decided over the 25 points). -/
theorem idx_inj1_5 : ∀ t t' : Fin cfg1.N, win1_5.index t = win1_5.index t' → t = t' :=
  (by decide +kernel : ∀ t t' : Fin grid1.N, win1_5.index t = win1_5.index t' → t = t')

/-- So two points' output blocks share no array index. -/
theorem disjoint1_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idx_inj1_5 t t' h)

/-- BLOCK `t` OF THE FINAL OUTPUT ARRAY, read back through the window, is `out1` of the five input blocks at `t`: every point
    writes its block back and no other point's block meets it. -/
theorem blocks1 (O : CellTallies nD τ sig Ix) (R : Set (SemLoc sig × Ix)) (V : Valuation τ sig (Elt F)) (c : Dev nD) (t : Fin cfg1.N) :
    ((cfg1.win 5).blk t).view.read (Elt F) ((dat1 (F := F) (Ix := Ix) (Name := Name) (U := U) (Lvl := Lvl) O R V c).arrAt 5 cfg1.N)
      = out1 (iblk1 V c 0 t) (iblk1 V c 1 t) (iblk1 V c 2 t) (iblk1 V c 3 t) (iblk1 V c 4 t) := by
  rw [(dat1 (F := F) (Ix := Ix) (Name := Name) (U := U) (Lvl := Lvl) O R V c).read_blk_arrAt_eq_flushed 5 disjoint1_5 cfg1.N t t.isLt (flush1_5 t)]
  show (cfg1.win 5).cut (grid1.coords t) ((dat1 (F := F) (Ix := Ix) (Name := Name) (U := U) (Lvl := Lvl) O R V c).after 5 t) = _
  rw [after1_5]
  rfl

/-- The input arrays are never written: each holds its entry contents after the run. -/
theorem arrAt_in1 (O : CellTallies nD τ sig Ix) (R : Set (SemLoc sig × Ix)) (V : Valuation τ sig (Elt F)) (c : Dev nD) (w : Fin cfg1.W) (hw : (cfg1.win w).isOut = false) (n : Nat) :
    (dat1 (F := F) (Ix := Ix) (Name := Name) (U := U) (Lvl := Lvl) O R V c).arrAt w n = VW V c (Pipeline.arrRef spec1 w) :=
  ((dat1 (F := F) (Ix := Ix) (Name := Name) (U := U) (Lvl := Lvl) O R V c).arrAt_in w hw n).trans (A_eq1 (F := F) (Ix := Ix) (Name := Name) (U := U) (Lvl := Lvl) O R V c w)

/-! ## The whole output array as one function of the input arrays -/

/-- The grid point whose output block holds row `i 0`, -/
def tOf1 (i : S10000x32.Idx) : Fin cfg1.N :=
  ⟨(i 0).val / 400, by rw [show cfg1.N = 25 from N_1]; have h : (i 0).val < 10000 := (i 0).isLt; omega⟩

/-- and the index of `i` within that block. -/
def jOf1 (i : S10000x32.Idx) : S400x32.Idx := fun a =>
  match a with
  | ⟨0, _⟩ => ⟨(i 0).val % 400, Nat.mod_lt _ (by decide)⟩
  | ⟨1, _⟩ => ⟨(i 1).val, (i 1).isLt⟩
  | ⟨_ + 2, h⟩ => absurd h (Nat.not_lt.2 (Nat.le_add_left _ _))

/-- The output array as a function of the five input arrays: at row `r`, `out1` of the input blocks of the grid point
    `r / 400`, at row `r % 400`. -/
def outArr1 (X0 : Vec F S32x10000x128 .f32) (X1 : Vec F S10000x128 .f32) (X2 : Vec F S8x64 .f32) (X3 : Vec F S1x64 .f32) (X4 : Vec F S64x8 .bf16) : Vec F S10000x32 .f32 := fun i =>
  out1 (((cfg1.win 0).blk (tOf1 i)).view.read (Elt F) X0) (((cfg1.win 1).blk (tOf1 i)).view.read (Elt F) X1)
    (((cfg1.win 2).blk (tOf1 i)).view.read (Elt F) X2) (((cfg1.win 3).blk (tOf1 i)).view.read (Elt F) X3)
    (((cfg1.win 4).blk (tOf1 i)).view.read (Elt F) X4) (jOf1 i)

/-- The output window's block index at point `t` is `(t, 0)` (decided over the grid). -/
theorem idx_facts1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- An index of the array is in point `t`'s block iff each coordinate is in the block's range on its axis. -/
theorem mem_blk1_5 (t : Fin cfg1.N) (i : S10000x32.Idx) :
    i ∈ ((cfg1.win 5).blk t).view.set ↔ ∀ a : Fin 2, win1_5.index t a * S400x32.size a ≤ (i a).val ∧ (i a).val < win1_5.index t a * S400x32.size a + S400x32.size a := by
  show i ∈ ((View.whole main_v22).slice (win1_5.rect t)).set ↔ _
  rw [View.set_slice_whole, Rect.mem_set_unit]
  exact Iff.rfl

/-- Every index of the output array is in the block of the point `tOf1` names. -/
theorem covered1_5 (i : S10000x32.Idx) : ∃ t : Fin cfg1.N, (cfg1.win 5).flush t = true ∧ i ∈ ((cfg1.win 5).blk t).view.set := by
  refine ⟨tOf1 i, flush1_5 _, ?_⟩
  rw [mem_blk1_5]
  obtain ⟨e0, e1⟩ := idx_facts1_5 (tOf1 i)
  have ht : (tOf1 i).val = (i 0).val / 400 := rfl
  have h0 : (i 0).val < 10000 := (i 0).isLt
  have h1 : (i 1).val < 32 := (i 1).isLt
  intro a
  match a with
  | ⟨0, _⟩ => show win1_5.index (tOf1 i) (0 : Fin 2) * 400 ≤ (i 0).val ∧ (i 0).val < win1_5.index (tOf1 i) (0 : Fin 2) * 400 + 400; omega
  | ⟨1, _⟩ => show win1_5.index (tOf1 i) (1 : Fin 2) * 32 ≤ (i 1).val ∧ (i 1).val < win1_5.index (tOf1 i) (1 : Fin 2) * 32 + 32; omega

/-- An element of point `t`'s output block sits in the array at row `400 t + j 0`, column `j 1`: so `tOf1` and `jOf1` recover
    the point and the element. -/
theorem tOf1_emb (t : Fin cfg1.N) (j : S400x32.Idx) : tOf1 (((cfg1.win 5).blk t).view.emb j) = t := by
  obtain ⟨e0, e1⟩ := idx_facts1_5 t
  apply Fin.ext
  show (win1_5.index t (0 : Fin 2) * 400 + 1 * (j 0).val) / 400 = t.val
  have hj : (j 0).val < 400 := (j 0).isLt
  omega

theorem jOf1_emb (t : Fin cfg1.N) (j : S400x32.Idx) : jOf1 (((cfg1.win 5).blk t).view.emb j) = j := by
  obtain ⟨e0, e1⟩ := idx_facts1_5 t
  funext a; apply Fin.ext
  match a with
  | ⟨0, _⟩ => show (win1_5.index t (0 : Fin 2) * 400 + 1 * (j 0).val) % 400 = (j 0).val; have hj : (j 0).val < 400 := (j 0).isLt; omega
  | ⟨1, _⟩ => show win1_5.index t (1 : Fin 2) * 32 + 1 * (j 1).val = (j 1).val; omega

/-- WHAT POINT `t` WRITES BACK is block `t` of `outArr1` of the input arrays as the region finds them. -/
theorem flushed1_eq (O : CellTallies nD τ sig Ix) (R : Set (SemLoc sig × Ix)) (V : Valuation τ sig (Elt F)) (c : Dev nD) (t : Fin cfg1.N) :
    (dat1 (F := F) (Ix := Ix) (Name := Name) (U := U) (Lvl := Lvl) O R V c).flushed 5 t = ((cfg1.win 5).blk t).view.read (Elt F)
      (outArr1 (VW V c main_v21) (VW V c main_v2) (VW V c main_v7) (VW V c main_v8) (VW V c main_v12)) := by
  show (cfg1.win 5).cut (grid1.coords t) ((dat1 (F := F) (Ix := Ix) (Name := Name) (U := U) (Lvl := Lvl) O R V c).after 5 t) = _
  rw [after1_5]
  funext j
  show out1 (iblk1 V c 0 t) (iblk1 V c 1 t) (iblk1 V c 2 t) (iblk1 V c 3 t) (iblk1 V c 4 t) j
    = outArr1 (VW V c main_v21) (VW V c main_v2) (VW V c main_v7) (VW V c main_v8) (VW V c main_v12) (((cfg1.win 5).blk t).view.emb j)
  unfold outArr1
  rw [tOf1_emb, jOf1_emb]
  rfl

/-- THE OUTPUT ARRAY after the run: `outArr1` of the input arrays' entry contents (the 25 blocks tile it). -/
theorem final1 (O : CellTallies nD τ sig Ix) (R : Set (SemLoc sig × Ix)) (V : Valuation τ sig (Elt F)) (c : Dev nD) :
    (dat1 (F := F) (Ix := Ix) (Name := Name) (U := U) (Lvl := Lvl) O R V c).arrAt 5 cfg1.N = outArr1 (VW V c main_v21) (VW V c main_v2) (VW V c main_v7) (VW V c main_v8) (VW V c main_v12) :=
  (dat1 (F := F) (Ix := Ix) (Name := Name) (U := U) (Lvl := Lvl) O R V c).arrAt_eq_of_cover 5 _ (fun t _ => flushed1_eq (F := F) (Ix := Ix) (Name := Name) (U := U) (Lvl := Lvl) O R V c t) covered1_5

end Cert.Proof.SoftmaxBody

end
-- ==== Proof.StepBody.lean ====
/-
  The step bodies of the TensorCore calls (the gated neighbour update followed by a normalisation over the lanes), each
  run once at a symbolic grid point: from the nine staged blocks — the 32 gathered neighbour slabs, the edge weights, the
  features, the two weight matrices, the bias and the two normalisation rows at given contents, the output slot at
  anything — the body hands the inputs back unchanged and the output slot at `outK_8` of the inputs: the one store's
  payload over the loads' values, a pure term composed along the body's parts. Then the pipeline's proof data at any
  region-entry valuation and any owed tallies, the body obligation at every point, and what the output array holds after
  the last point: block `t` of it is `outK_8` of the inputs' blocks at `t`.
-/
import proofs.«205547_g25623774888366_cont_9to1_713_27_alg».proof.Proof.Gen.KernelIdeal.Launch
import proofs.«205547_g25623774888366_cont_9to1_713_27_alg».proof.Proof.Gen.KernelIdeal.Skeleton
import proofs.«205547_g25623774888366_cont_9to1_713_27_alg».proof.Proof.Gen.KernelIdeal.Points
import Idealize.ShloMosaic.Lib.Pipeline.FrameBody
import Idealize.ShloMosaic.Lib.Pipeline.Value
import Idealize.ShloMosaic.Lib.SparseCore.Cells
import Idealize.ShloMosaic.Lib.Ring
import Idealize.ShloMosaic.Lib.Tactic

set_option maxRecDepth 16384

noncomputable section

namespace Cert.Proof.StepBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

/-- The user algebra of the run these regions sit in: the handshakes' rounds, the pipelines' rounds, the counters. -/
local notation "𝕌" => (URounds (GSem nD τ sig) ℕ × (URounds (GSem nD τ sig) Unit × Counters))
local notation "𝕄" => MT nD τ sig (HIx 6) (Elt F) ℕ 𝕌 ℕ

/-! # custom_call 3 -/

/-! ## The body's accesses -/

abbrev r3_0 : Rect S400x32 := Rect.unit (s := S400x32) ![0, 0] S400x32.size inb_S400x32_S400x32_0_0
abbrev r3_1 : Rect S32x400x128 := Rect.unit (s := S32x400x128) ![0, 0, 0] S1x400x128.size inb_S32x400x128_S1x400x128_0_0_0
abbrev r3_2 : Rect S32x400x128 := Rect.unit (s := S32x400x128) ![1, 0, 0] S1x400x128.size inb_S32x400x128_S1x400x128_1_0_0
abbrev r3_3 : Rect S32x400x128 := Rect.unit (s := S32x400x128) ![2, 0, 0] S1x400x128.size inb_S32x400x128_S1x400x128_2_0_0
abbrev r3_4 : Rect S32x400x128 := Rect.unit (s := S32x400x128) ![3, 0, 0] S1x400x128.size inb_S32x400x128_S1x400x128_3_0_0
abbrev r3_5 : Rect S32x400x128 := Rect.unit (s := S32x400x128) ![4, 0, 0] S1x400x128.size inb_S32x400x128_S1x400x128_4_0_0
abbrev r3_6 : Rect S32x400x128 := Rect.unit (s := S32x400x128) ![5, 0, 0] S1x400x128.size inb_S32x400x128_S1x400x128_5_0_0
abbrev r3_7 : Rect S32x400x128 := Rect.unit (s := S32x400x128) ![6, 0, 0] S1x400x128.size inb_S32x400x128_S1x400x128_6_0_0
abbrev r3_8 : Rect S32x400x128 := Rect.unit (s := S32x400x128) ![7, 0, 0] S1x400x128.size inb_S32x400x128_S1x400x128_7_0_0
abbrev r3_9 : Rect S32x400x128 := Rect.unit (s := S32x400x128) ![8, 0, 0] S1x400x128.size inb_S32x400x128_S1x400x128_8_0_0
abbrev r3_10 : Rect S32x400x128 := Rect.unit (s := S32x400x128) ![9, 0, 0] S1x400x128.size inb_S32x400x128_S1x400x128_9_0_0
abbrev r3_11 : Rect S32x400x128 := Rect.unit (s := S32x400x128) ![10, 0, 0] S1x400x128.size inb_S32x400x128_S1x400x128_10_0_0
abbrev r3_12 : Rect S32x400x128 := Rect.unit (s := S32x400x128) ![11, 0, 0] S1x400x128.size inb_S32x400x128_S1x400x128_11_0_0
abbrev r3_13 : Rect S32x400x128 := Rect.unit (s := S32x400x128) ![12, 0, 0] S1x400x128.size inb_S32x400x128_S1x400x128_12_0_0
abbrev r3_14 : Rect S32x400x128 := Rect.unit (s := S32x400x128) ![13, 0, 0] S1x400x128.size inb_S32x400x128_S1x400x128_13_0_0
abbrev r3_15 : Rect S32x400x128 := Rect.unit (s := S32x400x128) ![14, 0, 0] S1x400x128.size inb_S32x400x128_S1x400x128_14_0_0
abbrev r3_16 : Rect S32x400x128 := Rect.unit (s := S32x400x128) ![15, 0, 0] S1x400x128.size inb_S32x400x128_S1x400x128_15_0_0
abbrev r3_17 : Rect S32x400x128 := Rect.unit (s := S32x400x128) ![16, 0, 0] S1x400x128.size inb_S32x400x128_S1x400x128_16_0_0
abbrev r3_18 : Rect S32x400x128 := Rect.unit (s := S32x400x128) ![17, 0, 0] S1x400x128.size inb_S32x400x128_S1x400x128_17_0_0
abbrev r3_19 : Rect S32x400x128 := Rect.unit (s := S32x400x128) ![18, 0, 0] S1x400x128.size inb_S32x400x128_S1x400x128_18_0_0
abbrev r3_20 : Rect S32x400x128 := Rect.unit (s := S32x400x128) ![19, 0, 0] S1x400x128.size inb_S32x400x128_S1x400x128_19_0_0
abbrev r3_21 : Rect S32x400x128 := Rect.unit (s := S32x400x128) ![20, 0, 0] S1x400x128.size inb_S32x400x128_S1x400x128_20_0_0
abbrev r3_22 : Rect S32x400x128 := Rect.unit (s := S32x400x128) ![21, 0, 0] S1x400x128.size inb_S32x400x128_S1x400x128_21_0_0
abbrev r3_23 : Rect S32x400x128 := Rect.unit (s := S32x400x128) ![22, 0, 0] S1x400x128.size inb_S32x400x128_S1x400x128_22_0_0
abbrev r3_24 : Rect S32x400x128 := Rect.unit (s := S32x400x128) ![23, 0, 0] S1x400x128.size inb_S32x400x128_S1x400x128_23_0_0
abbrev r3_25 : Rect S32x400x128 := Rect.unit (s := S32x400x128) ![24, 0, 0] S1x400x128.size inb_S32x400x128_S1x400x128_24_0_0
abbrev r3_26 : Rect S32x400x128 := Rect.unit (s := S32x400x128) ![25, 0, 0] S1x400x128.size inb_S32x400x128_S1x400x128_25_0_0
abbrev r3_27 : Rect S32x400x128 := Rect.unit (s := S32x400x128) ![26, 0, 0] S1x400x128.size inb_S32x400x128_S1x400x128_26_0_0
abbrev r3_28 : Rect S32x400x128 := Rect.unit (s := S32x400x128) ![27, 0, 0] S1x400x128.size inb_S32x400x128_S1x400x128_27_0_0
abbrev r3_29 : Rect S32x400x128 := Rect.unit (s := S32x400x128) ![28, 0, 0] S1x400x128.size inb_S32x400x128_S1x400x128_28_0_0
abbrev r3_30 : Rect S32x400x128 := Rect.unit (s := S32x400x128) ![29, 0, 0] S1x400x128.size inb_S32x400x128_S1x400x128_29_0_0
abbrev r3_31 : Rect S32x400x128 := Rect.unit (s := S32x400x128) ![30, 0, 0] S1x400x128.size inb_S32x400x128_S1x400x128_30_0_0
abbrev r3_32 : Rect S32x400x128 := Rect.unit (s := S32x400x128) ![31, 0, 0] S1x400x128.size inb_S32x400x128_S1x400x128_31_0_0
abbrev r3_33 : Rect S400x128 := Rect.unit (s := S400x128) ![0, 0] S400x128.size inb_S400x128_S400x128_0_0
abbrev r3_34 : Rect S128x128 := Rect.unit (s := S128x128) ![0, 0] S128x128.size inb_S128x128_S128x128_0_0
abbrev r3_35 : Rect S1x128 := Rect.unit (s := S1x128) ![0, 0] S1x128.size inb_S1x128_S1x128_0_0

/-! ## What the body computes, part by part (the payloads composed along the root sequence) -/

/-- Part 1's result 0 (`v1` of the printed body), over the staged blocks. -/
def s3_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay2 (View.ld x1 r3_0)
/-- Part 1's result 1 (`v36` of the printed body), over the staged blocks. -/
def s3_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay3 (View.ld x1 r3_0) (View.ld x0 r3_1) (View.ld x0 r3_2) (View.ld x0 r3_3) (View.ld x0 r3_4) (View.ld x0 r3_5) (View.ld x0 r3_6)
/-- Part 2's result 0 (`v72` of the printed body), over the staged blocks. -/
def s3_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay4 (s3_1_0 x0 x1 x2 x3 x4 x5 x6 x7) (s3_1_1 x0 x1 x2 x3 x4 x5 x6 x7) (View.ld x0 r3_7) (View.ld x0 r3_8) (View.ld x0 r3_9) (View.ld x0 r3_10) (View.ld x0 r3_11) (View.ld x0 r3_12)
/-- Part 2's result 1 (`v77` of the printed body), over the staged blocks. -/
def s3_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay5 (s3_1_0 x0 x1 x2 x3 x4 x5 x6 x7) (View.ld x0 r3_13)
/-- Part 3's result 0 (`v114` of the printed body), over the staged blocks. -/
def s3_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay6 (s3_1_0 x0 x1 x2 x3 x4 x5 x6 x7) (s3_2_0 x0 x1 x2 x3 x4 x5 x6 x7) (s3_2_1 x0 x1 x2 x3 x4 x5 x6 x7) (View.ld x0 r3_14) (View.ld x0 r3_15) (View.ld x0 r3_16) (View.ld x0 r3_17) (View.ld x0 r3_18) (View.ld x0 r3_19)
/-- Part 3's result 1 (`v116` of the printed body), over the staged blocks. -/
def s3_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay7 (View.ld x0 r3_20)
/-- Part 4's result 0 (`v156` of the printed body), over the staged blocks. -/
def s3_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay8 (s3_1_0 x0 x1 x2 x3 x4 x5 x6 x7) (s3_3_0 x0 x1 x2 x3 x4 x5 x6 x7) (s3_3_1 x0 x1 x2 x3 x4 x5 x6 x7) (View.ld x0 r3_21) (View.ld x0 r3_22) (View.ld x0 r3_23) (View.ld x0 r3_24) (View.ld x0 r3_25) (View.ld x0 r3_26)
/-- Part 5's result 0 (`v192` of the printed body), over the staged blocks. -/
def s3_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay9 (s3_1_0 x0 x1 x2 x3 x4 x5 x6 x7) (s3_4_0 x0 x1 x2 x3 x4 x5 x6 x7) (View.ld x0 r3_27) (View.ld x0 r3_28) (View.ld x0 r3_29) (View.ld x0 r3_30) (View.ld x0 r3_31) (View.ld x0 r3_32)
/-- Part 5's result 1 (`v193` of the printed body), over the staged blocks. -/
def s3_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  (View.ld x2 r3_33)
/-- Part 5's result 2 (`v194` of the printed body), over the staged blocks. -/
def s3_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay10 (View.ld x2 r3_33)
/-- Part 5's result 3 (`v197` of the printed body), over the staged blocks. -/
def s3_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay11 (View.ld x2 r3_33)
/-- Part 5's result 4 (`v198` of the printed body), over the staged blocks. -/
def s3_5_4 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay12 (s3_1_0 x0 x1 x2 x3 x4 x5 x6 x7) (s3_4_0 x0 x1 x2 x3 x4 x5 x6 x7) (View.ld x0 r3_27) (View.ld x0 r3_28) (View.ld x0 r3_29) (View.ld x0 r3_30) (View.ld x0 r3_31) (View.ld x0 r3_32)
/-- Part 6's result 0 (`v240` of the printed body), over the staged blocks. -/
def s3_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay13 (s3_5_0 x0 x1 x2 x3 x4 x5 x6 x7) (s3_5_1 x0 x1 x2 x3 x4 x5 x6 x7) (s3_5_2 x0 x1 x2 x3 x4 x5 x6 x7) (s3_5_3 x0 x1 x2 x3 x4 x5 x6 x7) (s3_5_4 x0 x1 x2 x3 x4 x5 x6 x7) (View.ld x3 r3_34) (View.ld x4 r3_34) (View.ld x5 r3_35) (View.ld x6 r3_35)

/-- Window 8's staging buffer after the body, from the input windows' blocks: its one store as a piece. -/
def out3_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r3_33, k3_pay1 (s3_6_0 x0 x1 x2 x3 x4 x5 x6 x7) (View.ld x7 r3_35)⟩]

/-- The store tiles the buffer, so it covers it. -/
theorem cover3_8 (p0 : Vec F S400x128 .f32) (y : S400x128.Idx) :
    ∃ pc ∈ ([⟨r3_33, p0⟩] : List (View.Piece (Elt F) S400x128 .f32)), y ∈ pc.1.set :=
  View.cover_of_tiled [⟨r3_33, p0⟩] S400x128.size (by rfl) y

/-! ## The body's triple -/

set_option maxHeartbeats 4000000 in
/-- The body on whole staging memrefs, the inputs' at read contents `x0 … x7` and the output's at anything, runs to the
    continuation holding the inputs' as they were and the output's at `out3_8` of the inputs'. -/
theorem kernelRun3 (𝒱₀ : Variants) (c : Dev nD) (E : Set ℕ) (i : grid3.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ Q ⟨⟩))
      ⊢ wp frame (wpE (defs₀ (F := F)) 𝒱₀ c none) E (cc3_body i arg1 harg1 arg2 harg2 arg3 harg3 arg4 harg4 arg5 harg5 arg6 harg6 arg7 harg7 arg8 harg8 arg9 harg9) Q := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

section Region3
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

/-- Input window 0's current staging buffer holds its block at every point, fetched there or not, for any proof data
    whose array is `V`'s and whose body leaves the block in place. -/
theorem before3_0_of {c : Dev nD} (dat : Dat τ (Elt F) (HIx 6) ℕ 𝕌 ℕ cfg3 c) (hA : dat.A 0 = V (Proc.devRef .tc (Pipeline.arrRef spec3 0)))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof data
    whose array is `V`'s and whose body leaves the block in place. -/
theorem before3_1_of {c : Dev nD} (dat : Dat τ (Elt F) (HIx 6) ℕ 𝕌 ℕ cfg3 c) (hA : dat.A 1 = V (Proc.devRef .tc (Pipeline.arrRef spec3 1)))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof data
    whose array is `V`'s and whose body leaves the block in place. -/
theorem before3_2_of {c : Dev nD} (dat : Dat τ (Elt F) (HIx 6) ℕ 𝕌 ℕ cfg3 c) (hA : dat.A 2 = V (Proc.devRef .tc (Pipeline.arrRef spec3 2)))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof data
    whose array is `V`'s and whose body leaves the block in place. -/
theorem before3_3_of {c : Dev nD} (dat : Dat τ (Elt F) (HIx 6) ℕ 𝕌 ℕ cfg3 c) (hA : dat.A 3 = V (Proc.devRef .tc (Pipeline.arrRef spec3 3)))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof data
    whose array is `V`'s and whose body leaves the block in place. -/
theorem before3_4_of {c : Dev nD} (dat : Dat τ (Elt F) (HIx 6) ℕ 𝕌 ℕ cfg3 c) (hA : dat.A 4 = V (Proc.devRef .tc (Pipeline.arrRef spec3 4)))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof data
    whose array is `V`'s and whose body leaves the block in place. -/
theorem before3_5_of {c : Dev nD} (dat : Dat τ (Elt F) (HIx 6) ℕ 𝕌 ℕ cfg3 c) (hA : dat.A 5 = V (Proc.devRef .tc (Pipeline.arrRef spec3 5)))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof data
    whose array is `V`'s and whose body leaves the block in place. -/
theorem before3_6_of {c : Dev nD} (dat : Dat τ (Elt F) (HIx 6) ℕ 𝕌 ℕ cfg3 c) (hA : dat.A 6 = V (Proc.devRef .tc (Pipeline.arrRef spec3 6)))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof data
    whose array is `V`'s and whose body leaves the block in place. -/
theorem before3_7_of {c : Dev nD} (dat : Dat τ (Elt F) (HIx 6) ℕ 𝕌 ℕ cfg3 c) (hA : dat.A 7 = V (Proc.devRef .tc (Pipeline.arrRef spec3 7)))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of pipeline 1 on core `c`: the arrays as the region finds them (`V`); after the body at point `t` each
    input's buffer at its block and the output's at `out3_8` of the input blocks; the invariant the core's scoped buffers that
    are no staging buffer of this pipeline, each at some contents, which the body never touches; the tallies
    `O` owed and the recorded pairs within `R` throughout; full shares. -/
def dat3 (c : Dev nD) : Dat τ (Elt F) (HIx 6) ℕ 𝕌 ℕ cfg3 c where
  A w := V (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.scopedRest (Ix := HIx 6) (Name := ℕ) (U := 𝕌) (Lvl := ℕ) (Val := Elt F) spec3 c
  q _ := fullShare
  owed _ := O
  recorded _ := R

/-- The proof data's arrays are the region-entry contents. -/
theorem A_eq3 (c : Dev nD) (w : Fin cfg3.W) : (dat3 (F := F) O R V c).A w = V (Proc.devRef .tc (Pipeline.arrRef spec3 w)) := by
  dsimp only [dat3]

/-- What the body leaves, window by window. -/
theorem after3_0 (c : Dev nD) (t : Fin cfg3.N) : (dat3 (F := F) O R V c).after 0 t = iblk3 V c 0 t := by dsimp only [dat3]
theorem after3_1 (c : Dev nD) (t : Fin cfg3.N) : (dat3 (F := F) O R V c).after 1 t = iblk3 V c 1 t := by dsimp only [dat3]
theorem after3_2 (c : Dev nD) (t : Fin cfg3.N) : (dat3 (F := F) O R V c).after 2 t = iblk3 V c 2 t := by dsimp only [dat3]
theorem after3_3 (c : Dev nD) (t : Fin cfg3.N) : (dat3 (F := F) O R V c).after 3 t = iblk3 V c 3 t := by dsimp only [dat3]
theorem after3_4 (c : Dev nD) (t : Fin cfg3.N) : (dat3 (F := F) O R V c).after 4 t = iblk3 V c 4 t := by dsimp only [dat3]
theorem after3_5 (c : Dev nD) (t : Fin cfg3.N) : (dat3 (F := F) O R V c).after 5 t = iblk3 V c 5 t := by dsimp only [dat3]
theorem after3_6 (c : Dev nD) (t : Fin cfg3.N) : (dat3 (F := F) O R V c).after 6 t = iblk3 V c 6 t := by dsimp only [dat3]
theorem after3_7 (c : Dev nD) (t : Fin cfg3.N) : (dat3 (F := F) O R V c).after 7 t = iblk3 V c 7 t := by dsimp only [dat3]
theorem after3_8 (c : Dev nD) (t : Fin cfg3.N) : (dat3 (F := F) O R V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 (F := F) O R V c).before 0 t d = iblk3 V c 0 t :=
  before3_0_of V (dat3 (F := F) O R V c) (A_eq3 O R V c 0) (after3_0 O R V c) t d
theorem before3_1 (c : Dev nD) (t : Fin cfg3.N) (d) : (dat3 (F := F) O R V c).before 1 t d = iblk3 V c 1 t :=
  before3_1_of V (dat3 (F := F) O R V c) (A_eq3 O R V c 1) (after3_1 O R V c) t d
theorem before3_2 (c : Dev nD) (t : Fin cfg3.N) (d) : (dat3 (F := F) O R V c).before 2 t d = iblk3 V c 2 t :=
  before3_2_of V (dat3 (F := F) O R V c) (A_eq3 O R V c 2) (after3_2 O R V c) t d
theorem before3_3 (c : Dev nD) (t : Fin cfg3.N) (d) : (dat3 (F := F) O R V c).before 3 t d = iblk3 V c 3 t :=
  before3_3_of V (dat3 (F := F) O R V c) (A_eq3 O R V c 3) (after3_3 O R V c) t d
theorem before3_4 (c : Dev nD) (t : Fin cfg3.N) (d) : (dat3 (F := F) O R V c).before 4 t d = iblk3 V c 4 t :=
  before3_4_of V (dat3 (F := F) O R V c) (A_eq3 O R V c 4) (after3_4 O R V c) t d
theorem before3_5 (c : Dev nD) (t : Fin cfg3.N) (d) : (dat3 (F := F) O R V c).before 5 t d = iblk3 V c 5 t :=
  before3_5_of V (dat3 (F := F) O R V c) (A_eq3 O R V c 5) (after3_5 O R V c) t d
theorem before3_6 (c : Dev nD) (t : Fin cfg3.N) (d) : (dat3 (F := F) O R V c).before 6 t d = iblk3 V c 6 t :=
  before3_6_of V (dat3 (F := F) O R V c) (A_eq3 O R V c 6) (after3_6 O R V c) t d
theorem before3_7 (c : Dev nD) (t : Fin cfg3.N) (d) : (dat3 (F := F) O R V c).before 7 t d = iblk3 V c 7 t :=
  before3_7_of V (dat3 (F := F) O R V c) (A_eq3 O R V c 7) (after3_7 O R V c) t d

/-! ## The body obligation, at a generic point -/

variable (𝒱₀ : Variants) (ι : HIx 6)

/-- What the body is called with at point `t` (the windows one by one), -/
def bodyPre3 (c : Dev nD) (t : Fin cfg3.N) : sProp 𝕄 :=
  iprop((dat3 (F := F) O R V c).Φ t.castSucc ∗ (dat3 (F := F) O R V c).owesAt ι t.castSucc
    ∗ (∃ d, owns (c : Thread nD τ) (st3_0 t) fullShare ((dat3 (F := F) O R V c).before 0 t d))
    ∗ (∃ d, owns (c : Thread nD τ) (st3_1 t) fullShare ((dat3 (F := F) O R V c).before 1 t d))
    ∗ (∃ d, owns (c : Thread nD τ) (st3_2 t) fullShare ((dat3 (F := F) O R V c).before 2 t d))
    ∗ (∃ d, owns (c : Thread nD τ) (st3_3 t) fullShare ((dat3 (F := F) O R V c).before 3 t d))
    ∗ (∃ d, owns (c : Thread nD τ) (st3_4 t) fullShare ((dat3 (F := F) O R V c).before 4 t d))
    ∗ (∃ d, owns (c : Thread nD τ) (st3_5 t) fullShare ((dat3 (F := F) O R V c).before 5 t d))
    ∗ (∃ d, owns (c : Thread nD τ) (st3_6 t) fullShare ((dat3 (F := F) O R V c).before 6 t d))
    ∗ (∃ d, owns (c : Thread nD τ) (st3_7 t) fullShare ((dat3 (F := F) O R V c).before 7 t d))
    ∗ (∃ d, owns (c : Thread nD τ) (st3_8 t) fullShare ((dat3 (F := F) O R V c).before 8 t d)))

/-- and what it returns. -/
def bodyPost3 (c : Dev nD) (t : Fin cfg3.N) : sProp 𝕄 :=
  iprop((dat3 (F := F) O R V c).Φ t.succ ∗ (dat3 (F := F) O R V c).owesAt ι t.succ
    ∗ owns (c : Thread nD τ) (st3_0 t) fullShare ((dat3 (F := F) O R V c).after 0 t)
    ∗ owns (c : Thread nD τ) (st3_1 t) fullShare ((dat3 (F := F) O R V c).after 1 t)
    ∗ owns (c : Thread nD τ) (st3_2 t) fullShare ((dat3 (F := F) O R V c).after 2 t)
    ∗ owns (c : Thread nD τ) (st3_3 t) fullShare ((dat3 (F := F) O R V c).after 3 t)
    ∗ owns (c : Thread nD τ) (st3_4 t) fullShare ((dat3 (F := F) O R V c).after 4 t)
    ∗ owns (c : Thread nD τ) (st3_5 t) fullShare ((dat3 (F := F) O R V c).after 5 t)
    ∗ owns (c : Thread nD τ) (st3_6 t) fullShare ((dat3 (F := F) O R V c).after 6 t)
    ∗ owns (c : Thread nD τ) (st3_7 t) fullShare ((dat3 (F := F) O R V c).after 7 t)
    ∗ owns (c : Thread nD τ) (st3_8 t) fullShare ((dat3 (F := F) O R V c).after 8 t))

/-- The body at any point: the inputs' memrefs hold their blocks, so `kernelRun3` applies; the invariant and the core's
    `owes` pass through unread. -/
theorem sound_body3 (c : Dev nD) (t : Fin cfg3.N) :
    bodyPre3 O R V ι c t ⊢ wp frame (wpE (defs₀ (F := F)) 𝒱₀ c none) Set.univ (bodyAt3 t) (fun _ => bodyPost3 O R V ι c t) := by
  unfold bodyPre3 bodyPost3 bodyAt3
  simp only [before3_0, before3_1, before3_2, before3_3, before3_4, before3_5, before3_6, before3_7]
  rw [show (dat3 (F := F) O R V c).Φ t.succ = (dat3 (F := F) O R V c).Φ t.castSucc from rfl,
    show (dat3 (F := F) O R V c).owesAt ι t.succ = (dat3 (F := F) O R V c).owesAt ι t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun3 𝒱₀ c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) O R V c) (defs₀ (F := F)) 𝒱₀ ι Set.univ := fun t => by
  rw [bigSep_W3, bigSep_W3]
  exact sound_body3 O R V 𝒱₀ ι c t

/-! ## What the arrays hold after the last point -/

/-- The output's blocks at different points sit at different block indices, -/
theorem index3_8_ne : ∀ t t' : Fin cfg3.N, t ≠ t' → (cfg3.win 8).index t ≠ (cfg3.win 8).index t' := by decide +kernel

/-- so block `t` of the output array after the last point is what point `t` wrote back: `out3_8` of the input blocks at `t`. -/
theorem out_blk3 (c : Dev nD) (t : Fin cfg3.N) :
    ((cfg3.win 8).blk t).view.read (Elt F) ((dat3 (F := F) O R V c).arrAt 8 cfg3.N) = out3_8 (iblk3 V c 0 t) (iblk3 V c 1 t) (iblk3 V c 2 t) (iblk3 V c 3 t) (iblk3 V c 4 t) (iblk3 V c 5 t) (iblk3 V c 6 t) (iblk3 V c 7 t) :=
  ((dat3 (F := F) O R V c).read_blk_arrAt_eq_flushed 8 (fun t t' _ _ h => (cfg3.win 8).disjoint_blk (index3_8_ne t t' h)) cfg3.N t t.isLt (flush3_8 t)).trans
    (after3_8 O R V c t)

/-- An input array is as the region found it, at every point. -/
theorem arrAt_in3 (c : Dev nD) (w : Fin cfg3.W) (hw : (cfg3.win w).isOut = false) (n : Nat) :
    (dat3 (F := F) O R V c).arrAt w n = V (Proc.devRef .tc (Pipeline.arrRef spec3 w)) :=
  ((dat3 (F := F) O R V c).arrAt_in w hw n).trans (A_eq3 O R V c w)

end Region3

/-! # custom_call 5 -/

/-! ## The body's accesses -/

abbrev r5_0 : Rect S400x32 := Rect.unit (s := S400x32) ![0, 0] S400x32.size inb_S400x32_S400x32_0_0
abbrev r5_1 : Rect S32x400x128 := Rect.unit (s := S32x400x128) ![0, 0, 0] S1x400x128.size inb_S32x400x128_S1x400x128_0_0_0
abbrev r5_2 : Rect S32x400x128 := Rect.unit (s := S32x400x128) ![1, 0, 0] S1x400x128.size inb_S32x400x128_S1x400x128_1_0_0
abbrev r5_3 : Rect S32x400x128 := Rect.unit (s := S32x400x128) ![2, 0, 0] S1x400x128.size inb_S32x400x128_S1x400x128_2_0_0
abbrev r5_4 : Rect S32x400x128 := Rect.unit (s := S32x400x128) ![3, 0, 0] S1x400x128.size inb_S32x400x128_S1x400x128_3_0_0
abbrev r5_5 : Rect S32x400x128 := Rect.unit (s := S32x400x128) ![4, 0, 0] S1x400x128.size inb_S32x400x128_S1x400x128_4_0_0
abbrev r5_6 : Rect S32x400x128 := Rect.unit (s := S32x400x128) ![5, 0, 0] S1x400x128.size inb_S32x400x128_S1x400x128_5_0_0
abbrev r5_7 : Rect S32x400x128 := Rect.unit (s := S32x400x128) ![6, 0, 0] S1x400x128.size inb_S32x400x128_S1x400x128_6_0_0
abbrev r5_8 : Rect S32x400x128 := Rect.unit (s := S32x400x128) ![7, 0, 0] S1x400x128.size inb_S32x400x128_S1x400x128_7_0_0
abbrev r5_9 : Rect S32x400x128 := Rect.unit (s := S32x400x128) ![8, 0, 0] S1x400x128.size inb_S32x400x128_S1x400x128_8_0_0
abbrev r5_10 : Rect S32x400x128 := Rect.unit (s := S32x400x128) ![9, 0, 0] S1x400x128.size inb_S32x400x128_S1x400x128_9_0_0
abbrev r5_11 : Rect S32x400x128 := Rect.unit (s := S32x400x128) ![10, 0, 0] S1x400x128.size inb_S32x400x128_S1x400x128_10_0_0
abbrev r5_12 : Rect S32x400x128 := Rect.unit (s := S32x400x128) ![11, 0, 0] S1x400x128.size inb_S32x400x128_S1x400x128_11_0_0
abbrev r5_13 : Rect S32x400x128 := Rect.unit (s := S32x400x128) ![12, 0, 0] S1x400x128.size inb_S32x400x128_S1x400x128_12_0_0
abbrev r5_14 : Rect S32x400x128 := Rect.unit (s := S32x400x128) ![13, 0, 0] S1x400x128.size inb_S32x400x128_S1x400x128_13_0_0
abbrev r5_15 : Rect S32x400x128 := Rect.unit (s := S32x400x128) ![14, 0, 0] S1x400x128.size inb_S32x400x128_S1x400x128_14_0_0
abbrev r5_16 : Rect S32x400x128 := Rect.unit (s := S32x400x128) ![15, 0, 0] S1x400x128.size inb_S32x400x128_S1x400x128_15_0_0
abbrev r5_17 : Rect S32x400x128 := Rect.unit (s := S32x400x128) ![16, 0, 0] S1x400x128.size inb_S32x400x128_S1x400x128_16_0_0
abbrev r5_18 : Rect S32x400x128 := Rect.unit (s := S32x400x128) ![17, 0, 0] S1x400x128.size inb_S32x400x128_S1x400x128_17_0_0
abbrev r5_19 : Rect S32x400x128 := Rect.unit (s := S32x400x128) ![18, 0, 0] S1x400x128.size inb_S32x400x128_S1x400x128_18_0_0
abbrev r5_20 : Rect S32x400x128 := Rect.unit (s := S32x400x128) ![19, 0, 0] S1x400x128.size inb_S32x400x128_S1x400x128_19_0_0
abbrev r5_21 : Rect S32x400x128 := Rect.unit (s := S32x400x128) ![20, 0, 0] S1x400x128.size inb_S32x400x128_S1x400x128_20_0_0
abbrev r5_22 : Rect S32x400x128 := Rect.unit (s := S32x400x128) ![21, 0, 0] S1x400x128.size inb_S32x400x128_S1x400x128_21_0_0
abbrev r5_23 : Rect S32x400x128 := Rect.unit (s := S32x400x128) ![22, 0, 0] S1x400x128.size inb_S32x400x128_S1x400x128_22_0_0
abbrev r5_24 : Rect S32x400x128 := Rect.unit (s := S32x400x128) ![23, 0, 0] S1x400x128.size inb_S32x400x128_S1x400x128_23_0_0
abbrev r5_25 : Rect S32x400x128 := Rect.unit (s := S32x400x128) ![24, 0, 0] S1x400x128.size inb_S32x400x128_S1x400x128_24_0_0
abbrev r5_26 : Rect S32x400x128 := Rect.unit (s := S32x400x128) ![25, 0, 0] S1x400x128.size inb_S32x400x128_S1x400x128_25_0_0
abbrev r5_27 : Rect S32x400x128 := Rect.unit (s := S32x400x128) ![26, 0, 0] S1x400x128.size inb_S32x400x128_S1x400x128_26_0_0
abbrev r5_28 : Rect S32x400x128 := Rect.unit (s := S32x400x128) ![27, 0, 0] S1x400x128.size inb_S32x400x128_S1x400x128_27_0_0
abbrev r5_29 : Rect S32x400x128 := Rect.unit (s := S32x400x128) ![28, 0, 0] S1x400x128.size inb_S32x400x128_S1x400x128_28_0_0
abbrev r5_30 : Rect S32x400x128 := Rect.unit (s := S32x400x128) ![29, 0, 0] S1x400x128.size inb_S32x400x128_S1x400x128_29_0_0
abbrev r5_31 : Rect S32x400x128 := Rect.unit (s := S32x400x128) ![30, 0, 0] S1x400x128.size inb_S32x400x128_S1x400x128_30_0_0
abbrev r5_32 : Rect S32x400x128 := Rect.unit (s := S32x400x128) ![31, 0, 0] S1x400x128.size inb_S32x400x128_S1x400x128_31_0_0
abbrev r5_33 : Rect S400x128 := Rect.unit (s := S400x128) ![0, 0] S400x128.size inb_S400x128_S400x128_0_0
abbrev r5_34 : Rect S128x128 := Rect.unit (s := S128x128) ![0, 0] S128x128.size inb_S128x128_S128x128_0_0
abbrev r5_35 : Rect S1x128 := Rect.unit (s := S1x128) ![0, 0] S1x128.size inb_S1x128_S1x128_0_0

/-! ## What the body computes, part by part (the payloads composed along the root sequence) -/

/-- Part 1's result 0 (`v1` of the printed body), over the staged blocks. -/
def s5_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay2 (View.ld x1 r5_0)
/-- Part 1's result 1 (`v36` of the printed body), over the staged blocks. -/
def s5_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay3 (View.ld x1 r5_0) (View.ld x0 r5_1) (View.ld x0 r5_2) (View.ld x0 r5_3) (View.ld x0 r5_4) (View.ld x0 r5_5) (View.ld x0 r5_6)
/-- Part 2's result 0 (`v72` of the printed body), over the staged blocks. -/
def s5_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay4 (s5_1_0 x0 x1 x2 x3 x4 x5 x6 x7) (s5_1_1 x0 x1 x2 x3 x4 x5 x6 x7) (View.ld x0 r5_7) (View.ld x0 r5_8) (View.ld x0 r5_9) (View.ld x0 r5_10) (View.ld x0 r5_11) (View.ld x0 r5_12)
/-- Part 2's result 1 (`v77` of the printed body), over the staged blocks. -/
def s5_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay5 (s5_1_0 x0 x1 x2 x3 x4 x5 x6 x7) (View.ld x0 r5_13)
/-- Part 3's result 0 (`v114` of the printed body), over the staged blocks. -/
def s5_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay6 (s5_1_0 x0 x1 x2 x3 x4 x5 x6 x7) (s5_2_0 x0 x1 x2 x3 x4 x5 x6 x7) (s5_2_1 x0 x1 x2 x3 x4 x5 x6 x7) (View.ld x0 r5_14) (View.ld x0 r5_15) (View.ld x0 r5_16) (View.ld x0 r5_17) (View.ld x0 r5_18) (View.ld x0 r5_19)
/-- Part 3's result 1 (`v116` of the printed body), over the staged blocks. -/
def s5_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay7 (View.ld x0 r5_20)
/-- Part 4's result 0 (`v156` of the printed body), over the staged blocks. -/
def s5_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay8 (s5_1_0 x0 x1 x2 x3 x4 x5 x6 x7) (s5_3_0 x0 x1 x2 x3 x4 x5 x6 x7) (s5_3_1 x0 x1 x2 x3 x4 x5 x6 x7) (View.ld x0 r5_21) (View.ld x0 r5_22) (View.ld x0 r5_23) (View.ld x0 r5_24) (View.ld x0 r5_25) (View.ld x0 r5_26)
/-- Part 5's result 0 (`v192` of the printed body), over the staged blocks. -/
def s5_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay9 (s5_1_0 x0 x1 x2 x3 x4 x5 x6 x7) (s5_4_0 x0 x1 x2 x3 x4 x5 x6 x7) (View.ld x0 r5_27) (View.ld x0 r5_28) (View.ld x0 r5_29) (View.ld x0 r5_30) (View.ld x0 r5_31) (View.ld x0 r5_32)
/-- Part 5's result 1 (`v194` of the printed body), over the staged blocks. -/
def s5_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay10 (View.ld x2 r5_33)
/-- Part 5's result 2 (`v195` of the printed body), over the staged blocks. -/
def s5_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay11 (View.ld x2 r5_33)
/-- Part 5's result 3 (`v198` of the printed body), over the staged blocks. -/
def s5_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay12 (View.ld x2 r5_33)
/-- Part 6's result 0 (`v241` of the printed body), over the staged blocks. -/
def s5_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay13 (s5_5_0 x0 x1 x2 x3 x4 x5 x6 x7) (s5_5_1 x0 x1 x2 x3 x4 x5 x6 x7) (s5_5_2 x0 x1 x2 x3 x4 x5 x6 x7) (s5_5_3 x0 x1 x2 x3 x4 x5 x6 x7) (View.ld x3 r5_34) (View.ld x4 r5_34) (View.ld x5 r5_35) (View.ld x6 r5_35)

/-- Window 8's staging buffer after the body, from the input windows' blocks: its one store as a piece. -/
def out5_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r5_33, k5_pay1 (s5_6_0 x0 x1 x2 x3 x4 x5 x6 x7) (View.ld x7 r5_35)⟩]

/-- The store tiles the buffer, so it covers it. -/
theorem cover5_8 (p0 : Vec F S400x128 .f32) (y : S400x128.Idx) :
    ∃ pc ∈ ([⟨r5_33, p0⟩] : List (View.Piece (Elt F) S400x128 .f32)), y ∈ pc.1.set :=
  View.cover_of_tiled [⟨r5_33, p0⟩] S400x128.size (by rfl) y

/-! ## The body's triple -/

set_option maxHeartbeats 4000000 in
/-- The body on whole staging memrefs, the inputs' at read contents `x0 … x7` and the output's at anything, runs to the
    continuation holding the inputs' as they were and the output's at `out5_8` of the inputs'. -/
theorem kernelRun5 (𝒱₀ : Variants) (c : Dev nD) (E : Set ℕ) (i : grid5.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out5_8 x0 x1 x2 x3 x4 x5 x6 x7)) -∗ Q ⟨⟩))
      ⊢ wp frame (wpE (defs₀ (F := F)) 𝒱₀ c none) E (cc5_body i arg1 harg1 arg2 harg2 arg3 harg3 arg4 harg4 arg5 harg5 arg6 harg6 arg7 harg7 arg8 harg8 arg9 harg9) Q := by
  simp only [cc5_body_eq_skeleton]; unfold cc5_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover5_8 _)

section Region5
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V (Proc.devRef .tc (Pipeline.arrRef spec5 w)))

/-- Input window 0's current staging buffer holds its block at every point, fetched there or not, for any proof data
    whose array is `V`'s and whose body leaves the block in place. -/
theorem before5_0_of {c : Dev nD} (dat : Dat τ (Elt F) (HIx 6) ℕ 𝕌 ℕ cfg5 c) (hA : dat.A 0 = V (Proc.devRef .tc (Pipeline.arrRef spec5 0)))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof data
    whose array is `V`'s and whose body leaves the block in place. -/
theorem before5_1_of {c : Dev nD} (dat : Dat τ (Elt F) (HIx 6) ℕ 𝕌 ℕ cfg5 c) (hA : dat.A 1 = V (Proc.devRef .tc (Pipeline.arrRef spec5 1)))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof data
    whose array is `V`'s and whose body leaves the block in place. -/
theorem before5_2_of {c : Dev nD} (dat : Dat τ (Elt F) (HIx 6) ℕ 𝕌 ℕ cfg5 c) (hA : dat.A 2 = V (Proc.devRef .tc (Pipeline.arrRef spec5 2)))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof data
    whose array is `V`'s and whose body leaves the block in place. -/
theorem before5_3_of {c : Dev nD} (dat : Dat τ (Elt F) (HIx 6) ℕ 𝕌 ℕ cfg5 c) (hA : dat.A 3 = V (Proc.devRef .tc (Pipeline.arrRef spec5 3)))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof data
    whose array is `V`'s and whose body leaves the block in place. -/
theorem before5_4_of {c : Dev nD} (dat : Dat τ (Elt F) (HIx 6) ℕ 𝕌 ℕ cfg5 c) (hA : dat.A 4 = V (Proc.devRef .tc (Pipeline.arrRef spec5 4)))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof data
    whose array is `V`'s and whose body leaves the block in place. -/
theorem before5_5_of {c : Dev nD} (dat : Dat τ (Elt F) (HIx 6) ℕ 𝕌 ℕ cfg5 c) (hA : dat.A 5 = V (Proc.devRef .tc (Pipeline.arrRef spec5 5)))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for any proof data
    whose array is `V`'s and whose body leaves the block in place. -/
theorem before5_6_of {c : Dev nD} (dat : Dat τ (Elt F) (HIx 6) ℕ 𝕌 ℕ cfg5 c) (hA : dat.A 6 = V (Proc.devRef .tc (Pipeline.arrRef spec5 6)))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for any proof data
    whose array is `V`'s and whose body leaves the block in place. -/
theorem before5_7_of {c : Dev nD} (dat : Dat τ (Elt F) (HIx 6) ℕ 𝕌 ℕ cfg5 c) (hA : dat.A 7 = V (Proc.devRef .tc (Pipeline.arrRef spec5 7)))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The pipeline's proof data -/

/-- The proof data of pipeline 2 on core `c`: the arrays as the region finds them (`V`); after the body at point `t` each
    input's buffer at its block and the output's at `out5_8` of the input blocks; the invariant the core's scoped buffers that
    are no staging buffer of this pipeline, each at some contents, which the body never touches; the tallies
    `O` owed and the recorded pairs within `R` throughout; full shares. -/
def dat5 (c : Dev nD) : Dat τ (Elt F) (HIx 6) ℕ 𝕌 ℕ cfg5 c where
  A w := V (Proc.devRef .tc (Pipeline.arrRef spec5 w))
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.scopedRest (Ix := HIx 6) (Name := ℕ) (U := 𝕌) (Lvl := ℕ) (Val := Elt F) spec5 c
  q _ := fullShare
  owed _ := O
  recorded _ := R

/-- The proof data's arrays are the region-entry contents. -/
theorem A_eq5 (c : Dev nD) (w : Fin cfg5.W) : (dat5 (F := F) O R V c).A w = V (Proc.devRef .tc (Pipeline.arrRef spec5 w)) := by
  dsimp only [dat5]

/-- What the body leaves, window by window. -/
theorem after5_0 (c : Dev nD) (t : Fin cfg5.N) : (dat5 (F := F) O R V c).after 0 t = iblk5 V c 0 t := by dsimp only [dat5]
theorem after5_1 (c : Dev nD) (t : Fin cfg5.N) : (dat5 (F := F) O R V c).after 1 t = iblk5 V c 1 t := by dsimp only [dat5]
theorem after5_2 (c : Dev nD) (t : Fin cfg5.N) : (dat5 (F := F) O R V c).after 2 t = iblk5 V c 2 t := by dsimp only [dat5]
theorem after5_3 (c : Dev nD) (t : Fin cfg5.N) : (dat5 (F := F) O R V c).after 3 t = iblk5 V c 3 t := by dsimp only [dat5]
theorem after5_4 (c : Dev nD) (t : Fin cfg5.N) : (dat5 (F := F) O R V c).after 4 t = iblk5 V c 4 t := by dsimp only [dat5]
theorem after5_5 (c : Dev nD) (t : Fin cfg5.N) : (dat5 (F := F) O R V c).after 5 t = iblk5 V c 5 t := by dsimp only [dat5]
theorem after5_6 (c : Dev nD) (t : Fin cfg5.N) : (dat5 (F := F) O R V c).after 6 t = iblk5 V c 6 t := by dsimp only [dat5]
theorem after5_7 (c : Dev nD) (t : Fin cfg5.N) : (dat5 (F := F) O R V c).after 7 t = iblk5 V c 7 t := by dsimp only [dat5]
theorem after5_8 (c : Dev nD) (t : Fin cfg5.N) : (dat5 (F := F) O R V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]

/-- Each input's current staging buffer holds its block at every point, fetched there or not. -/
theorem before5_0 (c : Dev nD) (t : Fin cfg5.N) (d) : (dat5 (F := F) O R V c).before 0 t d = iblk5 V c 0 t :=
  before5_0_of V (dat5 (F := F) O R V c) (A_eq5 O R V c 0) (after5_0 O R V c) t d
theorem before5_1 (c : Dev nD) (t : Fin cfg5.N) (d) : (dat5 (F := F) O R V c).before 1 t d = iblk5 V c 1 t :=
  before5_1_of V (dat5 (F := F) O R V c) (A_eq5 O R V c 1) (after5_1 O R V c) t d
theorem before5_2 (c : Dev nD) (t : Fin cfg5.N) (d) : (dat5 (F := F) O R V c).before 2 t d = iblk5 V c 2 t :=
  before5_2_of V (dat5 (F := F) O R V c) (A_eq5 O R V c 2) (after5_2 O R V c) t d
theorem before5_3 (c : Dev nD) (t : Fin cfg5.N) (d) : (dat5 (F := F) O R V c).before 3 t d = iblk5 V c 3 t :=
  before5_3_of V (dat5 (F := F) O R V c) (A_eq5 O R V c 3) (after5_3 O R V c) t d
theorem before5_4 (c : Dev nD) (t : Fin cfg5.N) (d) : (dat5 (F := F) O R V c).before 4 t d = iblk5 V c 4 t :=
  before5_4_of V (dat5 (F := F) O R V c) (A_eq5 O R V c 4) (after5_4 O R V c) t d
theorem before5_5 (c : Dev nD) (t : Fin cfg5.N) (d) : (dat5 (F := F) O R V c).before 5 t d = iblk5 V c 5 t :=
  before5_5_of V (dat5 (F := F) O R V c) (A_eq5 O R V c 5) (after5_5 O R V c) t d
theorem before5_6 (c : Dev nD) (t : Fin cfg5.N) (d) : (dat5 (F := F) O R V c).before 6 t d = iblk5 V c 6 t :=
  before5_6_of V (dat5 (F := F) O R V c) (A_eq5 O R V c 6) (after5_6 O R V c) t d
theorem before5_7 (c : Dev nD) (t : Fin cfg5.N) (d) : (dat5 (F := F) O R V c).before 7 t d = iblk5 V c 7 t :=
  before5_7_of V (dat5 (F := F) O R V c) (A_eq5 O R V c 7) (after5_7 O R V c) t d

/-! ## The body obligation, at a generic point -/

variable (𝒱₀ : Variants) (ι : HIx 6)

/-- What the body is called with at point `t` (the windows one by one), -/
def bodyPre5 (c : Dev nD) (t : Fin cfg5.N) : sProp 𝕄 :=
  iprop((dat5 (F := F) O R V c).Φ t.castSucc ∗ (dat5 (F := F) O R V c).owesAt ι t.castSucc
    ∗ (∃ d, owns (c : Thread nD τ) (st5_0 t) fullShare ((dat5 (F := F) O R V c).before 0 t d))
    ∗ (∃ d, owns (c : Thread nD τ) (st5_1 t) fullShare ((dat5 (F := F) O R V c).before 1 t d))
    ∗ (∃ d, owns (c : Thread nD τ) (st5_2 t) fullShare ((dat5 (F := F) O R V c).before 2 t d))
    ∗ (∃ d, owns (c : Thread nD τ) (st5_3 t) fullShare ((dat5 (F := F) O R V c).before 3 t d))
    ∗ (∃ d, owns (c : Thread nD τ) (st5_4 t) fullShare ((dat5 (F := F) O R V c).before 4 t d))
    ∗ (∃ d, owns (c : Thread nD τ) (st5_5 t) fullShare ((dat5 (F := F) O R V c).before 5 t d))
    ∗ (∃ d, owns (c : Thread nD τ) (st5_6 t) fullShare ((dat5 (F := F) O R V c).before 6 t d))
    ∗ (∃ d, owns (c : Thread nD τ) (st5_7 t) fullShare ((dat5 (F := F) O R V c).before 7 t d))
    ∗ (∃ d, owns (c : Thread nD τ) (st5_8 t) fullShare ((dat5 (F := F) O R V c).before 8 t d)))

/-- and what it returns. -/
def bodyPost5 (c : Dev nD) (t : Fin cfg5.N) : sProp 𝕄 :=
  iprop((dat5 (F := F) O R V c).Φ t.succ ∗ (dat5 (F := F) O R V c).owesAt ι t.succ
    ∗ owns (c : Thread nD τ) (st5_0 t) fullShare ((dat5 (F := F) O R V c).after 0 t)
    ∗ owns (c : Thread nD τ) (st5_1 t) fullShare ((dat5 (F := F) O R V c).after 1 t)
    ∗ owns (c : Thread nD τ) (st5_2 t) fullShare ((dat5 (F := F) O R V c).after 2 t)
    ∗ owns (c : Thread nD τ) (st5_3 t) fullShare ((dat5 (F := F) O R V c).after 3 t)
    ∗ owns (c : Thread nD τ) (st5_4 t) fullShare ((dat5 (F := F) O R V c).after 4 t)
    ∗ owns (c : Thread nD τ) (st5_5 t) fullShare ((dat5 (F := F) O R V c).after 5 t)
    ∗ owns (c : Thread nD τ) (st5_6 t) fullShare ((dat5 (F := F) O R V c).after 6 t)
    ∗ owns (c : Thread nD τ) (st5_7 t) fullShare ((dat5 (F := F) O R V c).after 7 t)
    ∗ owns (c : Thread nD τ) (st5_8 t) fullShare ((dat5 (F := F) O R V c).after 8 t))

/-- The body at any point: the inputs' memrefs hold their blocks, so `kernelRun5` applies; the invariant and the core's
    `owes` pass through unread. -/
theorem sound_body5 (c : Dev nD) (t : Fin cfg5.N) :
    bodyPre5 O R V ι c t ⊢ wp frame (wpE (defs₀ (F := F)) 𝒱₀ c none) Set.univ (bodyAt5 t) (fun _ => bodyPost5 O R V ι c t) := by
  unfold bodyPre5 bodyPost5 bodyAt5
  simp only [before5_0, before5_1, before5_2, before5_3, before5_4, before5_5, before5_6, before5_7]
  rw [show (dat5 (F := F) O R V c).Φ t.succ = (dat5 (F := F) O R V c).Φ t.castSucc from rfl,
    show (dat5 (F := F) O R V c).owesAt ι t.succ = (dat5 (F := F) O R V c).owesAt ι t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun5 𝒱₀ c Set.univ (grid5.coords t) _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation5 (c : Dev nD) : BodyObligation (dat5 (F := F) O R V c) (defs₀ (F := F)) 𝒱₀ ι Set.univ := fun t => by
  rw [bigSep_W5, bigSep_W5]
  exact sound_body5 O R V 𝒱₀ ι c t

/-! ## What the arrays hold after the last point -/

/-- The output's blocks at different points sit at different block indices, -/
theorem index5_8_ne : ∀ t t' : Fin cfg5.N, t ≠ t' → (cfg5.win 8).index t ≠ (cfg5.win 8).index t' := by decide +kernel

/-- so block `t` of the output array after the last point is what point `t` wrote back: `out5_8` of the input blocks at `t`. -/
theorem out_blk5 (c : Dev nD) (t : Fin cfg5.N) :
    ((cfg5.win 8).blk t).view.read (Elt F) ((dat5 (F := F) O R V c).arrAt 8 cfg5.N) = out5_8 (iblk5 V c 0 t) (iblk5 V c 1 t) (iblk5 V c 2 t) (iblk5 V c 3 t) (iblk5 V c 4 t) (iblk5 V c 5 t) (iblk5 V c 6 t) (iblk5 V c 7 t) :=
  ((dat5 (F := F) O R V c).read_blk_arrAt_eq_flushed 8 (fun t t' _ _ h => (cfg5.win 8).disjoint_blk (index5_8_ne t t' h)) cfg5.N t t.isLt (flush5_8 t)).trans
    (after5_8 O R V c t)

/-- An input array is as the region found it, at every point. -/
theorem arrAt_in5 (c : Dev nD) (w : Fin cfg5.W) (hw : (cfg5.win w).isOut = false) (n : Nat) :
    (dat5 (F := F) O R V c).arrAt w n = V (Proc.devRef .tc (Pipeline.arrRef spec5 w)) :=
  ((dat5 (F := F) O R V c).arrAt_in w hw n).trans (A_eq5 O R V c w)

end Region5

/-! # custom_call 7 -/

/-! ## The body's accesses -/

abbrev r7_0 : Rect S400x32 := Rect.unit (s := S400x32) ![0, 0] S400x32.size inb_S400x32_S400x32_0_0
abbrev r7_1 : Rect S32x400x128 := Rect.unit (s := S32x400x128) ![0, 0, 0] S1x400x128.size inb_S32x400x128_S1x400x128_0_0_0
abbrev r7_2 : Rect S32x400x128 := Rect.unit (s := S32x400x128) ![1, 0, 0] S1x400x128.size inb_S32x400x128_S1x400x128_1_0_0
abbrev r7_3 : Rect S32x400x128 := Rect.unit (s := S32x400x128) ![2, 0, 0] S1x400x128.size inb_S32x400x128_S1x400x128_2_0_0
abbrev r7_4 : Rect S32x400x128 := Rect.unit (s := S32x400x128) ![3, 0, 0] S1x400x128.size inb_S32x400x128_S1x400x128_3_0_0
abbrev r7_5 : Rect S32x400x128 := Rect.unit (s := S32x400x128) ![4, 0, 0] S1x400x128.size inb_S32x400x128_S1x400x128_4_0_0
abbrev r7_6 : Rect S32x400x128 := Rect.unit (s := S32x400x128) ![5, 0, 0] S1x400x128.size inb_S32x400x128_S1x400x128_5_0_0
abbrev r7_7 : Rect S32x400x128 := Rect.unit (s := S32x400x128) ![6, 0, 0] S1x400x128.size inb_S32x400x128_S1x400x128_6_0_0
abbrev r7_8 : Rect S32x400x128 := Rect.unit (s := S32x400x128) ![7, 0, 0] S1x400x128.size inb_S32x400x128_S1x400x128_7_0_0
abbrev r7_9 : Rect S32x400x128 := Rect.unit (s := S32x400x128) ![8, 0, 0] S1x400x128.size inb_S32x400x128_S1x400x128_8_0_0
abbrev r7_10 : Rect S32x400x128 := Rect.unit (s := S32x400x128) ![9, 0, 0] S1x400x128.size inb_S32x400x128_S1x400x128_9_0_0
abbrev r7_11 : Rect S32x400x128 := Rect.unit (s := S32x400x128) ![10, 0, 0] S1x400x128.size inb_S32x400x128_S1x400x128_10_0_0
abbrev r7_12 : Rect S32x400x128 := Rect.unit (s := S32x400x128) ![11, 0, 0] S1x400x128.size inb_S32x400x128_S1x400x128_11_0_0
abbrev r7_13 : Rect S32x400x128 := Rect.unit (s := S32x400x128) ![12, 0, 0] S1x400x128.size inb_S32x400x128_S1x400x128_12_0_0
abbrev r7_14 : Rect S32x400x128 := Rect.unit (s := S32x400x128) ![13, 0, 0] S1x400x128.size inb_S32x400x128_S1x400x128_13_0_0
abbrev r7_15 : Rect S32x400x128 := Rect.unit (s := S32x400x128) ![14, 0, 0] S1x400x128.size inb_S32x400x128_S1x400x128_14_0_0
abbrev r7_16 : Rect S32x400x128 := Rect.unit (s := S32x400x128) ![15, 0, 0] S1x400x128.size inb_S32x400x128_S1x400x128_15_0_0
abbrev r7_17 : Rect S32x400x128 := Rect.unit (s := S32x400x128) ![16, 0, 0] S1x400x128.size inb_S32x400x128_S1x400x128_16_0_0
abbrev r7_18 : Rect S32x400x128 := Rect.unit (s := S32x400x128) ![17, 0, 0] S1x400x128.size inb_S32x400x128_S1x400x128_17_0_0
abbrev r7_19 : Rect S32x400x128 := Rect.unit (s := S32x400x128) ![18, 0, 0] S1x400x128.size inb_S32x400x128_S1x400x128_18_0_0
abbrev r7_20 : Rect S32x400x128 := Rect.unit (s := S32x400x128) ![19, 0, 0] S1x400x128.size inb_S32x400x128_S1x400x128_19_0_0
abbrev r7_21 : Rect S32x400x128 := Rect.unit (s := S32x400x128) ![20, 0, 0] S1x400x128.size inb_S32x400x128_S1x400x128_20_0_0
abbrev r7_22 : Rect S32x400x128 := Rect.unit (s := S32x400x128) ![21, 0, 0] S1x400x128.size inb_S32x400x128_S1x400x128_21_0_0
abbrev r7_23 : Rect S32x400x128 := Rect.unit (s := S32x400x128) ![22, 0, 0] S1x400x128.size inb_S32x400x128_S1x400x128_22_0_0
abbrev r7_24 : Rect S32x400x128 := Rect.unit (s := S32x400x128) ![23, 0, 0] S1x400x128.size inb_S32x400x128_S1x400x128_23_0_0
abbrev r7_25 : Rect S32x400x128 := Rect.unit (s := S32x400x128) ![24, 0, 0] S1x400x128.size inb_S32x400x128_S1x400x128_24_0_0
abbrev r7_26 : Rect S32x400x128 := Rect.unit (s := S32x400x128) ![25, 0, 0] S1x400x128.size inb_S32x400x128_S1x400x128_25_0_0
abbrev r7_27 : Rect S32x400x128 := Rect.unit (s := S32x400x128) ![26, 0, 0] S1x400x128.size inb_S32x400x128_S1x400x128_26_0_0
abbrev r7_28 : Rect S32x400x128 := Rect.unit (s := S32x400x128) ![27, 0, 0] S1x400x128.size inb_S32x400x128_S1x400x128_27_0_0
abbrev r7_29 : Rect S32x400x128 := Rect.unit (s := S32x400x128) ![28, 0, 0] S1x400x128.size inb_S32x400x128_S1x400x128_28_0_0
abbrev r7_30 : Rect S32x400x128 := Rect.unit (s := S32x400x128) ![29, 0, 0] S1x400x128.size inb_S32x400x128_S1x400x128_29_0_0
abbrev r7_31 : Rect S32x400x128 := Rect.unit (s := S32x400x128) ![30, 0, 0] S1x400x128.size inb_S32x400x128_S1x400x128_30_0_0
abbrev r7_32 : Rect S32x400x128 := Rect.unit (s := S32x400x128) ![31, 0, 0] S1x400x128.size inb_S32x400x128_S1x400x128_31_0_0
abbrev r7_33 : Rect S400x128 := Rect.unit (s := S400x128) ![0, 0] S400x128.size inb_S400x128_S400x128_0_0
abbrev r7_34 : Rect S128x128 := Rect.unit (s := S128x128) ![0, 0] S128x128.size inb_S128x128_S128x128_0_0
abbrev r7_35 : Rect S1x128 := Rect.unit (s := S1x128) ![0, 0] S1x128.size inb_S1x128_S1x128_0_0

/-! ## What the body computes, part by part (the payloads composed along the root sequence) -/

/-- Part 1's result 0 (`v1` of the printed body), over the staged blocks. -/
def s7_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay2 (View.ld x1 r7_0)
/-- Part 1's result 1 (`v36` of the printed body), over the staged blocks. -/
def s7_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay3 (View.ld x1 r7_0) (View.ld x0 r7_1) (View.ld x0 r7_2) (View.ld x0 r7_3) (View.ld x0 r7_4) (View.ld x0 r7_5) (View.ld x0 r7_6)
/-- Part 2's result 0 (`v72` of the printed body), over the staged blocks. -/
def s7_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay4 (s7_1_0 x0 x1 x2 x3 x4 x5 x6 x7) (s7_1_1 x0 x1 x2 x3 x4 x5 x6 x7) (View.ld x0 r7_7) (View.ld x0 r7_8) (View.ld x0 r7_9) (View.ld x0 r7_10) (View.ld x0 r7_11) (View.ld x0 r7_12)
/-- Part 2's result 1 (`v77` of the printed body), over the staged blocks. -/
def s7_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay5 (s7_1_0 x0 x1 x2 x3 x4 x5 x6 x7) (View.ld x0 r7_13)
/-- Part 3's result 0 (`v114` of the printed body), over the staged blocks. -/
def s7_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay6 (s7_1_0 x0 x1 x2 x3 x4 x5 x6 x7) (s7_2_0 x0 x1 x2 x3 x4 x5 x6 x7) (s7_2_1 x0 x1 x2 x3 x4 x5 x6 x7) (View.ld x0 r7_14) (View.ld x0 r7_15) (View.ld x0 r7_16) (View.ld x0 r7_17) (View.ld x0 r7_18) (View.ld x0 r7_19)
/-- Part 3's result 1 (`v116` of the printed body), over the staged blocks. -/
def s7_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay7 (View.ld x0 r7_20)
/-- Part 4's result 0 (`v156` of the printed body), over the staged blocks. -/
def s7_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay8 (s7_1_0 x0 x1 x2 x3 x4 x5 x6 x7) (s7_3_0 x0 x1 x2 x3 x4 x5 x6 x7) (s7_3_1 x0 x1 x2 x3 x4 x5 x6 x7) (View.ld x0 r7_21) (View.ld x0 r7_22) (View.ld x0 r7_23) (View.ld x0 r7_24) (View.ld x0 r7_25) (View.ld x0 r7_26)
/-- Part 5's result 0 (`v192` of the printed body), over the staged blocks. -/
def s7_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay9 (s7_1_0 x0 x1 x2 x3 x4 x5 x6 x7) (s7_4_0 x0 x1 x2 x3 x4 x5 x6 x7) (View.ld x0 r7_27) (View.ld x0 r7_28) (View.ld x0 r7_29) (View.ld x0 r7_30) (View.ld x0 r7_31) (View.ld x0 r7_32)
/-- Part 5's result 1 (`v194` of the printed body), over the staged blocks. -/
def s7_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay10 (View.ld x2 r7_33)
/-- Part 5's result 2 (`v195` of the printed body), over the staged blocks. -/
def s7_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay11 (View.ld x2 r7_33)
/-- Part 5's result 3 (`v198` of the printed body), over the staged blocks. -/
def s7_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay12 (View.ld x2 r7_33)
/-- Part 6's result 0 (`v241` of the printed body), over the staged blocks. -/
def s7_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay13 (s7_5_0 x0 x1 x2 x3 x4 x5 x6 x7) (s7_5_1 x0 x1 x2 x3 x4 x5 x6 x7) (s7_5_2 x0 x1 x2 x3 x4 x5 x6 x7) (s7_5_3 x0 x1 x2 x3 x4 x5 x6 x7) (View.ld x3 r7_34) (View.ld x4 r7_34) (View.ld x5 r7_35) (View.ld x6 r7_35)

/-- Window 8's staging buffer after the body, from the input windows' blocks: its one store as a piece. -/
def out7_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r7_33, k7_pay1 (s7_6_0 x0 x1 x2 x3 x4 x5 x6 x7) (View.ld x7 r7_35)⟩]

/-- The store tiles the buffer, so it covers it. -/
theorem cover7_8 (p0 : Vec F S400x128 .f32) (y : S400x128.Idx) :
    ∃ pc ∈ ([⟨r7_33, p0⟩] : List (View.Piece (Elt F) S400x128 .f32)), y ∈ pc.1.set :=
  View.cover_of_tiled [⟨r7_33, p0⟩] S400x128.size (by rfl) y

/-! ## The body's triple -/

set_option maxHeartbeats 4000000 in
/-- The body on whole staging memrefs, the inputs' at read contents `x0 … x7` and the output's at anything, runs to the
    continuation holding the inputs' as they were and the output's at `out7_8` of the inputs'. -/
theorem kernelRun7 (𝒱₀ : Variants) (c : Dev nD) (E : Set ℕ) (i : grid7.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out7_8 x0 x1 x2 x3 x4 x5 x6 x7)) -∗ Q ⟨⟩))
      ⊢ wp frame (wpE (defs₀ (F := F)) 𝒱₀ c none) E (cc7_body i arg1 harg1 arg2 harg2 arg3 harg3 arg4 harg4 arg5 harg5 arg6 harg6 arg7 harg7 arg8 harg8 arg9 harg9) Q := by
  simp only [cc7_body_eq_skeleton]; unfold cc7_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7_8 _)

section Region7
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V (Proc.devRef .tc (Pipeline.arrRef spec7 w)))

/-- Input window 0's current staging buffer holds its block at every point, fetched there or not, for any proof data
    whose array is `V`'s and whose body leaves the block in place. -/
theorem before7_0_of {c : Dev nD} (dat : Dat τ (Elt F) (HIx 6) ℕ 𝕌 ℕ cfg7 c) (hA : dat.A 0 = V (Proc.devRef .tc (Pipeline.arrRef spec7 0)))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof data
    whose array is `V`'s and whose body leaves the block in place. -/
theorem before7_1_of {c : Dev nD} (dat : Dat τ (Elt F) (HIx 6) ℕ 𝕌 ℕ cfg7 c) (hA : dat.A 1 = V (Proc.devRef .tc (Pipeline.arrRef spec7 1)))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof data
    whose array is `V`'s and whose body leaves the block in place. -/
theorem before7_2_of {c : Dev nD} (dat : Dat τ (Elt F) (HIx 6) ℕ 𝕌 ℕ cfg7 c) (hA : dat.A 2 = V (Proc.devRef .tc (Pipeline.arrRef spec7 2)))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof data
    whose array is `V`'s and whose body leaves the block in place. -/
theorem before7_3_of {c : Dev nD} (dat : Dat τ (Elt F) (HIx 6) ℕ 𝕌 ℕ cfg7 c) (hA : dat.A 3 = V (Proc.devRef .tc (Pipeline.arrRef spec7 3)))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof data
    whose array is `V`'s and whose body leaves the block in place. -/
theorem before7_4_of {c : Dev nD} (dat : Dat τ (Elt F) (HIx 6) ℕ 𝕌 ℕ cfg7 c) (hA : dat.A 4 = V (Proc.devRef .tc (Pipeline.arrRef spec7 4)))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not, for any proof data
    whose array is `V`'s and whose body leaves the block in place. -/
theorem before7_5_of {c : Dev nD} (dat : Dat τ (Elt F) (HIx 6) ℕ 𝕌 ℕ cfg7 c) (hA : dat.A 5 = V (Proc.devRef .tc (Pipeline.arrRef spec7 5)))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not, for any proof data
    whose array is `V`'s and whose body leaves the block in place. -/
theorem before7_6_of {c : Dev nD} (dat : Dat τ (Elt F) (HIx 6) ℕ 𝕌 ℕ cfg7 c) (hA : dat.A 6 = V (Proc.devRef .tc (Pipeline.arrRef spec7 6)))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not, for any proof data
    whose array is `V`'s and whose body leaves the block in place. -/
theorem before7_7_of {c : Dev nD} (dat : Dat τ (Elt F) (HIx 6) ℕ 𝕌 ℕ cfg7 c) (hA : dat.A 7 = V (Proc.devRef .tc (Pipeline.arrRef spec7 7)))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-! ## The pipeline's proof data -/

/-- The proof data of pipeline 3 on core `c`: the arrays as the region finds them (`V`); after the body at point `t` each
    input's buffer at its block and the output's at `out7_8` of the input blocks; the invariant the core's scoped buffers that
    are no staging buffer of this pipeline, each at some contents, which the body never touches; the tallies
    `O` owed and the recorded pairs within `R` throughout; full shares. -/
def dat7 (c : Dev nD) : Dat τ (Elt F) (HIx 6) ℕ 𝕌 ℕ cfg7 c where
  A w := V (Proc.devRef .tc (Pipeline.arrRef spec7 w))
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t) (iblk7 V c 6 t) (iblk7 V c 7 t)
  Φ _ := Pipeline.scopedRest (Ix := HIx 6) (Name := ℕ) (U := 𝕌) (Lvl := ℕ) (Val := Elt F) spec7 c
  q _ := fullShare
  owed _ := O
  recorded _ := R

/-- The proof data's arrays are the region-entry contents. -/
theorem A_eq7 (c : Dev nD) (w : Fin cfg7.W) : (dat7 (F := F) O R V c).A w = V (Proc.devRef .tc (Pipeline.arrRef spec7 w)) := by
  dsimp only [dat7]

/-- What the body leaves, window by window. -/
theorem after7_0 (c : Dev nD) (t : Fin cfg7.N) : (dat7 (F := F) O R V c).after 0 t = iblk7 V c 0 t := by dsimp only [dat7]
theorem after7_1 (c : Dev nD) (t : Fin cfg7.N) : (dat7 (F := F) O R V c).after 1 t = iblk7 V c 1 t := by dsimp only [dat7]
theorem after7_2 (c : Dev nD) (t : Fin cfg7.N) : (dat7 (F := F) O R V c).after 2 t = iblk7 V c 2 t := by dsimp only [dat7]
theorem after7_3 (c : Dev nD) (t : Fin cfg7.N) : (dat7 (F := F) O R V c).after 3 t = iblk7 V c 3 t := by dsimp only [dat7]
theorem after7_4 (c : Dev nD) (t : Fin cfg7.N) : (dat7 (F := F) O R V c).after 4 t = iblk7 V c 4 t := by dsimp only [dat7]
theorem after7_5 (c : Dev nD) (t : Fin cfg7.N) : (dat7 (F := F) O R V c).after 5 t = iblk7 V c 5 t := by dsimp only [dat7]
theorem after7_6 (c : Dev nD) (t : Fin cfg7.N) : (dat7 (F := F) O R V c).after 6 t = iblk7 V c 6 t := by dsimp only [dat7]
theorem after7_7 (c : Dev nD) (t : Fin cfg7.N) : (dat7 (F := F) O R V c).after 7 t = iblk7 V c 7 t := by dsimp only [dat7]
theorem after7_8 (c : Dev nD) (t : Fin cfg7.N) : (dat7 (F := F) O R V c).after 8 t = out7_8 (iblk7 V c 0 t) (iblk7 V c 1 t) (iblk7 V c 2 t) (iblk7 V c 3 t) (iblk7 V c 4 t) (iblk7 V c 5 t) (iblk7 V c 6 t) (iblk7 V c 7 t) := by dsimp only [dat7]

/-- Each input's current staging buffer holds its block at every point, fetched there or not. -/
theorem before7_0 (c : Dev nD) (t : Fin cfg7.N) (d) : (dat7 (F := F) O R V c).before 0 t d = iblk7 V c 0 t :=
  before7_0_of V (dat7 (F := F) O R V c) (A_eq7 O R V c 0) (after7_0 O R V c) t d
theorem before7_1 (c : Dev nD) (t : Fin cfg7.N) (d) : (dat7 (F := F) O R V c).before 1 t d = iblk7 V c 1 t :=
  before7_1_of V (dat7 (F := F) O R V c) (A_eq7 O R V c 1) (after7_1 O R V c) t d
theorem before7_2 (c : Dev nD) (t : Fin cfg7.N) (d) : (dat7 (F := F) O R V c).before 2 t d = iblk7 V c 2 t :=
  before7_2_of V (dat7 (F := F) O R V c) (A_eq7 O R V c 2) (after7_2 O R V c) t d
theorem before7_3 (c : Dev nD) (t : Fin cfg7.N) (d) : (dat7 (F := F) O R V c).before 3 t d = iblk7 V c 3 t :=
  before7_3_of V (dat7 (F := F) O R V c) (A_eq7 O R V c 3) (after7_3 O R V c) t d
theorem before7_4 (c : Dev nD) (t : Fin cfg7.N) (d) : (dat7 (F := F) O R V c).before 4 t d = iblk7 V c 4 t :=
  before7_4_of V (dat7 (F := F) O R V c) (A_eq7 O R V c 4) (after7_4 O R V c) t d
theorem before7_5 (c : Dev nD) (t : Fin cfg7.N) (d) : (dat7 (F := F) O R V c).before 5 t d = iblk7 V c 5 t :=
  before7_5_of V (dat7 (F := F) O R V c) (A_eq7 O R V c 5) (after7_5 O R V c) t d
theorem before7_6 (c : Dev nD) (t : Fin cfg7.N) (d) : (dat7 (F := F) O R V c).before 6 t d = iblk7 V c 6 t :=
  before7_6_of V (dat7 (F := F) O R V c) (A_eq7 O R V c 6) (after7_6 O R V c) t d
theorem before7_7 (c : Dev nD) (t : Fin cfg7.N) (d) : (dat7 (F := F) O R V c).before 7 t d = iblk7 V c 7 t :=
  before7_7_of V (dat7 (F := F) O R V c) (A_eq7 O R V c 7) (after7_7 O R V c) t d

/-! ## The body obligation, at a generic point -/

variable (𝒱₀ : Variants) (ι : HIx 6)

/-- What the body is called with at point `t` (the windows one by one), -/
def bodyPre7 (c : Dev nD) (t : Fin cfg7.N) : sProp 𝕄 :=
  iprop((dat7 (F := F) O R V c).Φ t.castSucc ∗ (dat7 (F := F) O R V c).owesAt ι t.castSucc
    ∗ (∃ d, owns (c : Thread nD τ) (st7_0 t) fullShare ((dat7 (F := F) O R V c).before 0 t d))
    ∗ (∃ d, owns (c : Thread nD τ) (st7_1 t) fullShare ((dat7 (F := F) O R V c).before 1 t d))
    ∗ (∃ d, owns (c : Thread nD τ) (st7_2 t) fullShare ((dat7 (F := F) O R V c).before 2 t d))
    ∗ (∃ d, owns (c : Thread nD τ) (st7_3 t) fullShare ((dat7 (F := F) O R V c).before 3 t d))
    ∗ (∃ d, owns (c : Thread nD τ) (st7_4 t) fullShare ((dat7 (F := F) O R V c).before 4 t d))
    ∗ (∃ d, owns (c : Thread nD τ) (st7_5 t) fullShare ((dat7 (F := F) O R V c).before 5 t d))
    ∗ (∃ d, owns (c : Thread nD τ) (st7_6 t) fullShare ((dat7 (F := F) O R V c).before 6 t d))
    ∗ (∃ d, owns (c : Thread nD τ) (st7_7 t) fullShare ((dat7 (F := F) O R V c).before 7 t d))
    ∗ (∃ d, owns (c : Thread nD τ) (st7_8 t) fullShare ((dat7 (F := F) O R V c).before 8 t d)))

/-- and what it returns. -/
def bodyPost7 (c : Dev nD) (t : Fin cfg7.N) : sProp 𝕄 :=
  iprop((dat7 (F := F) O R V c).Φ t.succ ∗ (dat7 (F := F) O R V c).owesAt ι t.succ
    ∗ owns (c : Thread nD τ) (st7_0 t) fullShare ((dat7 (F := F) O R V c).after 0 t)
    ∗ owns (c : Thread nD τ) (st7_1 t) fullShare ((dat7 (F := F) O R V c).after 1 t)
    ∗ owns (c : Thread nD τ) (st7_2 t) fullShare ((dat7 (F := F) O R V c).after 2 t)
    ∗ owns (c : Thread nD τ) (st7_3 t) fullShare ((dat7 (F := F) O R V c).after 3 t)
    ∗ owns (c : Thread nD τ) (st7_4 t) fullShare ((dat7 (F := F) O R V c).after 4 t)
    ∗ owns (c : Thread nD τ) (st7_5 t) fullShare ((dat7 (F := F) O R V c).after 5 t)
    ∗ owns (c : Thread nD τ) (st7_6 t) fullShare ((dat7 (F := F) O R V c).after 6 t)
    ∗ owns (c : Thread nD τ) (st7_7 t) fullShare ((dat7 (F := F) O R V c).after 7 t)
    ∗ owns (c : Thread nD τ) (st7_8 t) fullShare ((dat7 (F := F) O R V c).after 8 t))

/-- The body at any point: the inputs' memrefs hold their blocks, so `kernelRun7` applies; the invariant and the core's
    `owes` pass through unread. -/
theorem sound_body7 (c : Dev nD) (t : Fin cfg7.N) :
    bodyPre7 O R V ι c t ⊢ wp frame (wpE (defs₀ (F := F)) 𝒱₀ c none) Set.univ (bodyAt7 t) (fun _ => bodyPost7 O R V ι c t) := by
  unfold bodyPre7 bodyPost7 bodyAt7
  simp only [before7_0, before7_1, before7_2, before7_3, before7_4, before7_5, before7_6, before7_7]
  rw [show (dat7 (F := F) O R V c).Φ t.succ = (dat7 (F := F) O R V c).Φ t.castSucc from rfl,
    show (dat7 (F := F) O R V c).owesAt ι t.succ = (dat7 (F := F) O R V c).owesAt ι t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun7 𝒱₀ c Set.univ (grid7.coords t) _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation7 (c : Dev nD) : BodyObligation (dat7 (F := F) O R V c) (defs₀ (F := F)) 𝒱₀ ι Set.univ := fun t => by
  rw [bigSep_W7, bigSep_W7]
  exact sound_body7 O R V 𝒱₀ ι c t

/-! ## What the arrays hold after the last point -/

/-- The output's blocks at different points sit at different block indices, -/
theorem index7_8_ne : ∀ t t' : Fin cfg7.N, t ≠ t' → (cfg7.win 8).index t ≠ (cfg7.win 8).index t' := by decide +kernel

/-- so block `t` of the output array after the last point is what point `t` wrote back: `out7_8` of the input blocks at `t`. -/
theorem out_blk7 (c : Dev nD) (t : Fin cfg7.N) :
    ((cfg7.win 8).blk t).view.read (Elt F) ((dat7 (F := F) O R V c).arrAt 8 cfg7.N) = out7_8 (iblk7 V c 0 t) (iblk7 V c 1 t) (iblk7 V c 2 t) (iblk7 V c 3 t) (iblk7 V c 4 t) (iblk7 V c 5 t) (iblk7 V c 6 t) (iblk7 V c 7 t) :=
  ((dat7 (F := F) O R V c).read_blk_arrAt_eq_flushed 8 (fun t t' _ _ h => (cfg7.win 8).disjoint_blk (index7_8_ne t t' h)) cfg7.N t t.isLt (flush7_8 t)).trans
    (after7_8 O R V c t)

/-- An input array is as the region found it, at every point. -/
theorem arrAt_in7 (c : Dev nD) (w : Fin cfg7.W) (hw : (cfg7.win w).isOut = false) (n : Nat) :
    (dat7 (F := F) O R V c).arrAt w n = V (Proc.devRef .tc (Pipeline.arrRef spec7 w)) :=
  ((dat7 (F := F) O R V c).arrAt_in w hw n).trans (A_eq7 O R V c w)

end Region7

/-! # custom_call 9 -/

/-! ## The body's accesses -/

abbrev r9_0 : Rect S400x32 := Rect.unit (s := S400x32) ![0, 0] S400x32.size inb_S400x32_S400x32_0_0
abbrev r9_1 : Rect S32x400x128 := Rect.unit (s := S32x400x128) ![0, 0, 0] S1x400x128.size inb_S32x400x128_S1x400x128_0_0_0
abbrev r9_2 : Rect S32x400x128 := Rect.unit (s := S32x400x128) ![1, 0, 0] S1x400x128.size inb_S32x400x128_S1x400x128_1_0_0
abbrev r9_3 : Rect S32x400x128 := Rect.unit (s := S32x400x128) ![2, 0, 0] S1x400x128.size inb_S32x400x128_S1x400x128_2_0_0
abbrev r9_4 : Rect S32x400x128 := Rect.unit (s := S32x400x128) ![3, 0, 0] S1x400x128.size inb_S32x400x128_S1x400x128_3_0_0
abbrev r9_5 : Rect S32x400x128 := Rect.unit (s := S32x400x128) ![4, 0, 0] S1x400x128.size inb_S32x400x128_S1x400x128_4_0_0
abbrev r9_6 : Rect S32x400x128 := Rect.unit (s := S32x400x128) ![5, 0, 0] S1x400x128.size inb_S32x400x128_S1x400x128_5_0_0
abbrev r9_7 : Rect S32x400x128 := Rect.unit (s := S32x400x128) ![6, 0, 0] S1x400x128.size inb_S32x400x128_S1x400x128_6_0_0
abbrev r9_8 : Rect S32x400x128 := Rect.unit (s := S32x400x128) ![7, 0, 0] S1x400x128.size inb_S32x400x128_S1x400x128_7_0_0
abbrev r9_9 : Rect S32x400x128 := Rect.unit (s := S32x400x128) ![8, 0, 0] S1x400x128.size inb_S32x400x128_S1x400x128_8_0_0
abbrev r9_10 : Rect S32x400x128 := Rect.unit (s := S32x400x128) ![9, 0, 0] S1x400x128.size inb_S32x400x128_S1x400x128_9_0_0
abbrev r9_11 : Rect S32x400x128 := Rect.unit (s := S32x400x128) ![10, 0, 0] S1x400x128.size inb_S32x400x128_S1x400x128_10_0_0
abbrev r9_12 : Rect S32x400x128 := Rect.unit (s := S32x400x128) ![11, 0, 0] S1x400x128.size inb_S32x400x128_S1x400x128_11_0_0
abbrev r9_13 : Rect S32x400x128 := Rect.unit (s := S32x400x128) ![12, 0, 0] S1x400x128.size inb_S32x400x128_S1x400x128_12_0_0
abbrev r9_14 : Rect S32x400x128 := Rect.unit (s := S32x400x128) ![13, 0, 0] S1x400x128.size inb_S32x400x128_S1x400x128_13_0_0
abbrev r9_15 : Rect S32x400x128 := Rect.unit (s := S32x400x128) ![14, 0, 0] S1x400x128.size inb_S32x400x128_S1x400x128_14_0_0
abbrev r9_16 : Rect S32x400x128 := Rect.unit (s := S32x400x128) ![15, 0, 0] S1x400x128.size inb_S32x400x128_S1x400x128_15_0_0
abbrev r9_17 : Rect S32x400x128 := Rect.unit (s := S32x400x128) ![16, 0, 0] S1x400x128.size inb_S32x400x128_S1x400x128_16_0_0
abbrev r9_18 : Rect S32x400x128 := Rect.unit (s := S32x400x128) ![17, 0, 0] S1x400x128.size inb_S32x400x128_S1x400x128_17_0_0
abbrev r9_19 : Rect S32x400x128 := Rect.unit (s := S32x400x128) ![18, 0, 0] S1x400x128.size inb_S32x400x128_S1x400x128_18_0_0
abbrev r9_20 : Rect S32x400x128 := Rect.unit (s := S32x400x128) ![19, 0, 0] S1x400x128.size inb_S32x400x128_S1x400x128_19_0_0
abbrev r9_21 : Rect S32x400x128 := Rect.unit (s := S32x400x128) ![20, 0, 0] S1x400x128.size inb_S32x400x128_S1x400x128_20_0_0
abbrev r9_22 : Rect S32x400x128 := Rect.unit (s := S32x400x128) ![21, 0, 0] S1x400x128.size inb_S32x400x128_S1x400x128_21_0_0
abbrev r9_23 : Rect S32x400x128 := Rect.unit (s := S32x400x128) ![22, 0, 0] S1x400x128.size inb_S32x400x128_S1x400x128_22_0_0
abbrev r9_24 : Rect S32x400x128 := Rect.unit (s := S32x400x128) ![23, 0, 0] S1x400x128.size inb_S32x400x128_S1x400x128_23_0_0
abbrev r9_25 : Rect S32x400x128 := Rect.unit (s := S32x400x128) ![24, 0, 0] S1x400x128.size inb_S32x400x128_S1x400x128_24_0_0
abbrev r9_26 : Rect S32x400x128 := Rect.unit (s := S32x400x128) ![25, 0, 0] S1x400x128.size inb_S32x400x128_S1x400x128_25_0_0
abbrev r9_27 : Rect S32x400x128 := Rect.unit (s := S32x400x128) ![26, 0, 0] S1x400x128.size inb_S32x400x128_S1x400x128_26_0_0
abbrev r9_28 : Rect S32x400x128 := Rect.unit (s := S32x400x128) ![27, 0, 0] S1x400x128.size inb_S32x400x128_S1x400x128_27_0_0
abbrev r9_29 : Rect S32x400x128 := Rect.unit (s := S32x400x128) ![28, 0, 0] S1x400x128.size inb_S32x400x128_S1x400x128_28_0_0
abbrev r9_30 : Rect S32x400x128 := Rect.unit (s := S32x400x128) ![29, 0, 0] S1x400x128.size inb_S32x400x128_S1x400x128_29_0_0
abbrev r9_31 : Rect S32x400x128 := Rect.unit (s := S32x400x128) ![30, 0, 0] S1x400x128.size inb_S32x400x128_S1x400x128_30_0_0
abbrev r9_32 : Rect S32x400x128 := Rect.unit (s := S32x400x128) ![31, 0, 0] S1x400x128.size inb_S32x400x128_S1x400x128_31_0_0
abbrev r9_33 : Rect S400x128 := Rect.unit (s := S400x128) ![0, 0] S400x128.size inb_S400x128_S400x128_0_0
abbrev r9_34 : Rect S128x128 := Rect.unit (s := S128x128) ![0, 0] S128x128.size inb_S128x128_S128x128_0_0
abbrev r9_35 : Rect S1x128 := Rect.unit (s := S1x128) ![0, 0] S1x128.size inb_S1x128_S1x128_0_0

/-! ## What the body computes, part by part (the payloads composed along the root sequence) -/

/-- Part 1's result 0 (`v1` of the printed body), over the staged blocks. -/
def s9_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay2 (View.ld x1 r9_0)
/-- Part 1's result 1 (`v36` of the printed body), over the staged blocks. -/
def s9_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay3 (View.ld x1 r9_0) (View.ld x0 r9_1) (View.ld x0 r9_2) (View.ld x0 r9_3) (View.ld x0 r9_4) (View.ld x0 r9_5) (View.ld x0 r9_6)
/-- Part 2's result 0 (`v72` of the printed body), over the staged blocks. -/
def s9_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay4 (s9_1_0 x0 x1 x2 x3 x4 x5 x6 x7) (s9_1_1 x0 x1 x2 x3 x4 x5 x6 x7) (View.ld x0 r9_7) (View.ld x0 r9_8) (View.ld x0 r9_9) (View.ld x0 r9_10) (View.ld x0 r9_11) (View.ld x0 r9_12)
/-- Part 2's result 1 (`v77` of the printed body), over the staged blocks. -/
def s9_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay5 (s9_1_0 x0 x1 x2 x3 x4 x5 x6 x7) (View.ld x0 r9_13)
/-- Part 3's result 0 (`v114` of the printed body), over the staged blocks. -/
def s9_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay6 (s9_1_0 x0 x1 x2 x3 x4 x5 x6 x7) (s9_2_0 x0 x1 x2 x3 x4 x5 x6 x7) (s9_2_1 x0 x1 x2 x3 x4 x5 x6 x7) (View.ld x0 r9_14) (View.ld x0 r9_15) (View.ld x0 r9_16) (View.ld x0 r9_17) (View.ld x0 r9_18) (View.ld x0 r9_19)
/-- Part 3's result 1 (`v116` of the printed body), over the staged blocks. -/
def s9_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay7 (View.ld x0 r9_20)
/-- Part 4's result 0 (`v156` of the printed body), over the staged blocks. -/
def s9_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay8 (s9_1_0 x0 x1 x2 x3 x4 x5 x6 x7) (s9_3_0 x0 x1 x2 x3 x4 x5 x6 x7) (s9_3_1 x0 x1 x2 x3 x4 x5 x6 x7) (View.ld x0 r9_21) (View.ld x0 r9_22) (View.ld x0 r9_23) (View.ld x0 r9_24) (View.ld x0 r9_25) (View.ld x0 r9_26)
/-- Part 5's result 0 (`v192` of the printed body), over the staged blocks. -/
def s9_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay9 (s9_1_0 x0 x1 x2 x3 x4 x5 x6 x7) (s9_4_0 x0 x1 x2 x3 x4 x5 x6 x7) (View.ld x0 r9_27) (View.ld x0 r9_28) (View.ld x0 r9_29) (View.ld x0 r9_30) (View.ld x0 r9_31) (View.ld x0 r9_32)
/-- Part 5's result 1 (`v194` of the printed body), over the staged blocks. -/
def s9_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay10 (View.ld x2 r9_33)
/-- Part 5's result 2 (`v195` of the printed body), over the staged blocks. -/
def s9_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay11 (View.ld x2 r9_33)
/-- Part 5's result 3 (`v198` of the printed body), over the staged blocks. -/
def s9_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay12 (View.ld x2 r9_33)
/-- Part 6's result 0 (`v241` of the printed body), over the staged blocks. -/
def s9_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay13 (s9_5_0 x0 x1 x2 x3 x4 x5 x6 x7) (s9_5_1 x0 x1 x2 x3 x4 x5 x6 x7) (s9_5_2 x0 x1 x2 x3 x4 x5 x6 x7) (s9_5_3 x0 x1 x2 x3 x4 x5 x6 x7) (View.ld x3 r9_34) (View.ld x4 r9_34) (View.ld x5 r9_35) (View.ld x6 r9_35)

/-- Window 8's staging buffer after the body, from the input windows' blocks: its one store as a piece. -/
def out9_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r9_33, k9_pay1 (s9_6_0 x0 x1 x2 x3 x4 x5 x6 x7) (View.ld x7 r9_35)⟩]

/-- The store tiles the buffer, so it covers it. -/
theorem cover9_8 (p0 : Vec F S400x128 .f32) (y : S400x128.Idx) :
    ∃ pc ∈ ([⟨r9_33, p0⟩] : List (View.Piece (Elt F) S400x128 .f32)), y ∈ pc.1.set :=
  View.cover_of_tiled [⟨r9_33, p0⟩] S400x128.size (by rfl) y

/-! ## The body's triple -/

set_option maxHeartbeats 4000000 in
/-- The body on whole staging memrefs, the inputs' at read contents `x0 … x7` and the output's at anything, runs to the
    continuation holding the inputs' as they were and the output's at `out9_8` of the inputs'. -/
theorem kernelRun9 (𝒱₀ : Variants) (c : Dev nD) (E : Set ℕ) (i : grid9.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out9_8 x0 x1 x2 x3 x4 x5 x6 x7)) -∗ Q ⟨⟩))
      ⊢ wp frame (wpE (defs₀ (F := F)) 𝒱₀ c none) E (cc9_body i arg1 harg1 arg2 harg2 arg3 harg3 arg4 harg4 arg5 harg5 arg6 harg6 arg7 harg7 arg8 harg8 arg9 harg9) Q := by
  simp only [cc9_body_eq_skeleton]; unfold cc9_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover9_8 _)

section Region9
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V (Proc.devRef .tc (Pipeline.arrRef spec9 w)))

/-- Input window 0's current staging buffer holds its block at every point, fetched there or not, for any proof data
    whose array is `V`'s and whose body leaves the block in place. -/
theorem before9_0_of {c : Dev nD} (dat : Dat τ (Elt F) (HIx 6) ℕ 𝕌 ℕ cfg9 c) (hA : dat.A 0 = V (Proc.devRef .tc (Pipeline.arrRef spec9 0)))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof data
    whose array is `V`'s and whose body leaves the block in place. -/
theorem before9_1_of {c : Dev nD} (dat : Dat τ (Elt F) (HIx 6) ℕ 𝕌 ℕ cfg9 c) (hA : dat.A 1 = V (Proc.devRef .tc (Pipeline.arrRef spec9 1)))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof data
    whose array is `V`'s and whose body leaves the block in place. -/
theorem before9_2_of {c : Dev nD} (dat : Dat τ (Elt F) (HIx 6) ℕ 𝕌 ℕ cfg9 c) (hA : dat.A 2 = V (Proc.devRef .tc (Pipeline.arrRef spec9 2)))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current staging buffer holds its block at every point, fetched there or not, for any proof data
    whose array is `V`'s and whose body leaves the block in place. -/
theorem before9_3_of {c : Dev nD} (dat : Dat τ (Elt F) (HIx 6) ℕ 𝕌 ℕ cfg9 c) (hA : dat.A 3 = V (Proc.devRef .tc (Pipeline.arrRef spec9 3)))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current staging buffer holds its block at every point, fetched there or not, for any proof data
    whose array is `V`'s and whose body leaves the block in place. -/
theorem before9_4_of {c : Dev nD} (dat : Dat τ (Elt F) (HIx 6) ℕ 𝕌 ℕ cfg9 c) (hA : dat.A 4 = V (Proc.devRef .tc (Pipeline.arrRef spec9 4)))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- Input window 5's current staging buffer holds its block at every point, fetched there or not, for any proof data
    whose array is `V`'s and whose body leaves the block in place. -/
theorem before9_5_of {c : Dev nD} (dat : Dat τ (Elt F) (HIx 6) ℕ 𝕌 ℕ cfg9 c) (hA : dat.A 5 = V (Proc.devRef .tc (Pipeline.arrRef spec9 5)))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
/-- Input window 6's current staging buffer holds its block at every point, fetched there or not, for any proof data
    whose array is `V`'s and whose body leaves the block in place. -/
theorem before9_6_of {c : Dev nD} (dat : Dat τ (Elt F) (HIx 6) ℕ 𝕌 ℕ cfg9 c) (hA : dat.A 6 = V (Proc.devRef .tc (Pipeline.arrRef spec9 6)))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
/-- Input window 7's current staging buffer holds its block at every point, fetched there or not, for any proof data
    whose array is `V`'s and whose body leaves the block in place. -/
theorem before9_7_of {c : Dev nD} (dat : Dat τ (Elt F) (HIx 6) ℕ 𝕌 ℕ cfg9 c) (hA : dat.A 7 = V (Proc.devRef .tc (Pipeline.arrRef spec9 7)))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-! ## The pipeline's proof data -/

/-- The proof data of pipeline 4 on core `c`: the arrays as the region finds them (`V`); after the body at point `t` each
    input's buffer at its block and the output's at `out9_8` of the input blocks; the invariant the core's scoped buffers that
    are no staging buffer of this pipeline, each at some contents, which the body never touches; the tallies
    `O` owed and the recorded pairs within `R` throughout; full shares. -/
def dat9 (c : Dev nD) : Dat τ (Elt F) (HIx 6) ℕ 𝕌 ℕ cfg9 c where
  A w := V (Proc.devRef .tc (Pipeline.arrRef spec9 w))
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 3 t) (iblk9 V c 4 t) (iblk9 V c 5 t) (iblk9 V c 6 t) (iblk9 V c 7 t)
  Φ _ := Pipeline.scopedRest (Ix := HIx 6) (Name := ℕ) (U := 𝕌) (Lvl := ℕ) (Val := Elt F) spec9 c
  q _ := fullShare
  owed _ := O
  recorded _ := R

/-- The proof data's arrays are the region-entry contents. -/
theorem A_eq9 (c : Dev nD) (w : Fin cfg9.W) : (dat9 (F := F) O R V c).A w = V (Proc.devRef .tc (Pipeline.arrRef spec9 w)) := by
  dsimp only [dat9]

/-- What the body leaves, window by window. -/
theorem after9_0 (c : Dev nD) (t : Fin cfg9.N) : (dat9 (F := F) O R V c).after 0 t = iblk9 V c 0 t := by dsimp only [dat9]
theorem after9_1 (c : Dev nD) (t : Fin cfg9.N) : (dat9 (F := F) O R V c).after 1 t = iblk9 V c 1 t := by dsimp only [dat9]
theorem after9_2 (c : Dev nD) (t : Fin cfg9.N) : (dat9 (F := F) O R V c).after 2 t = iblk9 V c 2 t := by dsimp only [dat9]
theorem after9_3 (c : Dev nD) (t : Fin cfg9.N) : (dat9 (F := F) O R V c).after 3 t = iblk9 V c 3 t := by dsimp only [dat9]
theorem after9_4 (c : Dev nD) (t : Fin cfg9.N) : (dat9 (F := F) O R V c).after 4 t = iblk9 V c 4 t := by dsimp only [dat9]
theorem after9_5 (c : Dev nD) (t : Fin cfg9.N) : (dat9 (F := F) O R V c).after 5 t = iblk9 V c 5 t := by dsimp only [dat9]
theorem after9_6 (c : Dev nD) (t : Fin cfg9.N) : (dat9 (F := F) O R V c).after 6 t = iblk9 V c 6 t := by dsimp only [dat9]
theorem after9_7 (c : Dev nD) (t : Fin cfg9.N) : (dat9 (F := F) O R V c).after 7 t = iblk9 V c 7 t := by dsimp only [dat9]
theorem after9_8 (c : Dev nD) (t : Fin cfg9.N) : (dat9 (F := F) O R V c).after 8 t = out9_8 (iblk9 V c 0 t) (iblk9 V c 1 t) (iblk9 V c 2 t) (iblk9 V c 3 t) (iblk9 V c 4 t) (iblk9 V c 5 t) (iblk9 V c 6 t) (iblk9 V c 7 t) := by dsimp only [dat9]

/-- Each input's current staging buffer holds its block at every point, fetched there or not. -/
theorem before9_0 (c : Dev nD) (t : Fin cfg9.N) (d) : (dat9 (F := F) O R V c).before 0 t d = iblk9 V c 0 t :=
  before9_0_of V (dat9 (F := F) O R V c) (A_eq9 O R V c 0) (after9_0 O R V c) t d
theorem before9_1 (c : Dev nD) (t : Fin cfg9.N) (d) : (dat9 (F := F) O R V c).before 1 t d = iblk9 V c 1 t :=
  before9_1_of V (dat9 (F := F) O R V c) (A_eq9 O R V c 1) (after9_1 O R V c) t d
theorem before9_2 (c : Dev nD) (t : Fin cfg9.N) (d) : (dat9 (F := F) O R V c).before 2 t d = iblk9 V c 2 t :=
  before9_2_of V (dat9 (F := F) O R V c) (A_eq9 O R V c 2) (after9_2 O R V c) t d
theorem before9_3 (c : Dev nD) (t : Fin cfg9.N) (d) : (dat9 (F := F) O R V c).before 3 t d = iblk9 V c 3 t :=
  before9_3_of V (dat9 (F := F) O R V c) (A_eq9 O R V c 3) (after9_3 O R V c) t d
theorem before9_4 (c : Dev nD) (t : Fin cfg9.N) (d) : (dat9 (F := F) O R V c).before 4 t d = iblk9 V c 4 t :=
  before9_4_of V (dat9 (F := F) O R V c) (A_eq9 O R V c 4) (after9_4 O R V c) t d
theorem before9_5 (c : Dev nD) (t : Fin cfg9.N) (d) : (dat9 (F := F) O R V c).before 5 t d = iblk9 V c 5 t :=
  before9_5_of V (dat9 (F := F) O R V c) (A_eq9 O R V c 5) (after9_5 O R V c) t d
theorem before9_6 (c : Dev nD) (t : Fin cfg9.N) (d) : (dat9 (F := F) O R V c).before 6 t d = iblk9 V c 6 t :=
  before9_6_of V (dat9 (F := F) O R V c) (A_eq9 O R V c 6) (after9_6 O R V c) t d
theorem before9_7 (c : Dev nD) (t : Fin cfg9.N) (d) : (dat9 (F := F) O R V c).before 7 t d = iblk9 V c 7 t :=
  before9_7_of V (dat9 (F := F) O R V c) (A_eq9 O R V c 7) (after9_7 O R V c) t d

/-! ## The body obligation, at a generic point -/

variable (𝒱₀ : Variants) (ι : HIx 6)

/-- What the body is called with at point `t` (the windows one by one), -/
def bodyPre9 (c : Dev nD) (t : Fin cfg9.N) : sProp 𝕄 :=
  iprop((dat9 (F := F) O R V c).Φ t.castSucc ∗ (dat9 (F := F) O R V c).owesAt ι t.castSucc
    ∗ (∃ d, owns (c : Thread nD τ) (st9_0 t) fullShare ((dat9 (F := F) O R V c).before 0 t d))
    ∗ (∃ d, owns (c : Thread nD τ) (st9_1 t) fullShare ((dat9 (F := F) O R V c).before 1 t d))
    ∗ (∃ d, owns (c : Thread nD τ) (st9_2 t) fullShare ((dat9 (F := F) O R V c).before 2 t d))
    ∗ (∃ d, owns (c : Thread nD τ) (st9_3 t) fullShare ((dat9 (F := F) O R V c).before 3 t d))
    ∗ (∃ d, owns (c : Thread nD τ) (st9_4 t) fullShare ((dat9 (F := F) O R V c).before 4 t d))
    ∗ (∃ d, owns (c : Thread nD τ) (st9_5 t) fullShare ((dat9 (F := F) O R V c).before 5 t d))
    ∗ (∃ d, owns (c : Thread nD τ) (st9_6 t) fullShare ((dat9 (F := F) O R V c).before 6 t d))
    ∗ (∃ d, owns (c : Thread nD τ) (st9_7 t) fullShare ((dat9 (F := F) O R V c).before 7 t d))
    ∗ (∃ d, owns (c : Thread nD τ) (st9_8 t) fullShare ((dat9 (F := F) O R V c).before 8 t d)))

/-- and what it returns. -/
def bodyPost9 (c : Dev nD) (t : Fin cfg9.N) : sProp 𝕄 :=
  iprop((dat9 (F := F) O R V c).Φ t.succ ∗ (dat9 (F := F) O R V c).owesAt ι t.succ
    ∗ owns (c : Thread nD τ) (st9_0 t) fullShare ((dat9 (F := F) O R V c).after 0 t)
    ∗ owns (c : Thread nD τ) (st9_1 t) fullShare ((dat9 (F := F) O R V c).after 1 t)
    ∗ owns (c : Thread nD τ) (st9_2 t) fullShare ((dat9 (F := F) O R V c).after 2 t)
    ∗ owns (c : Thread nD τ) (st9_3 t) fullShare ((dat9 (F := F) O R V c).after 3 t)
    ∗ owns (c : Thread nD τ) (st9_4 t) fullShare ((dat9 (F := F) O R V c).after 4 t)
    ∗ owns (c : Thread nD τ) (st9_5 t) fullShare ((dat9 (F := F) O R V c).after 5 t)
    ∗ owns (c : Thread nD τ) (st9_6 t) fullShare ((dat9 (F := F) O R V c).after 6 t)
    ∗ owns (c : Thread nD τ) (st9_7 t) fullShare ((dat9 (F := F) O R V c).after 7 t)
    ∗ owns (c : Thread nD τ) (st9_8 t) fullShare ((dat9 (F := F) O R V c).after 8 t))

/-- The body at any point: the inputs' memrefs hold their blocks, so `kernelRun9` applies; the invariant and the core's
    `owes` pass through unread. -/
theorem sound_body9 (c : Dev nD) (t : Fin cfg9.N) :
    bodyPre9 O R V ι c t ⊢ wp frame (wpE (defs₀ (F := F)) 𝒱₀ c none) Set.univ (bodyAt9 t) (fun _ => bodyPost9 O R V ι c t) := by
  unfold bodyPre9 bodyPost9 bodyAt9
  simp only [before9_0, before9_1, before9_2, before9_3, before9_4, before9_5, before9_6, before9_7]
  rw [show (dat9 (F := F) O R V c).Φ t.succ = (dat9 (F := F) O R V c).Φ t.castSucc from rfl,
    show (dat9 (F := F) O R V c).owesAt ι t.succ = (dat9 (F := F) O R V c).owesAt ι t.castSucc from rfl,
    after9_0, after9_1, after9_2, after9_3, after9_4, after9_5, after9_6, after9_7, after9_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun9 𝒱₀ c Set.univ (grid9.coords t) _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation9 (c : Dev nD) : BodyObligation (dat9 (F := F) O R V c) (defs₀ (F := F)) 𝒱₀ ι Set.univ := fun t => by
  rw [bigSep_W9, bigSep_W9]
  exact sound_body9 O R V 𝒱₀ ι c t

/-! ## What the arrays hold after the last point -/

/-- The output's blocks at different points sit at different block indices, -/
theorem index9_8_ne : ∀ t t' : Fin cfg9.N, t ≠ t' → (cfg9.win 8).index t ≠ (cfg9.win 8).index t' := by decide +kernel

/-- so block `t` of the output array after the last point is what point `t` wrote back: `out9_8` of the input blocks at `t`. -/
theorem out_blk9 (c : Dev nD) (t : Fin cfg9.N) :
    ((cfg9.win 8).blk t).view.read (Elt F) ((dat9 (F := F) O R V c).arrAt 8 cfg9.N) = out9_8 (iblk9 V c 0 t) (iblk9 V c 1 t) (iblk9 V c 2 t) (iblk9 V c 3 t) (iblk9 V c 4 t) (iblk9 V c 5 t) (iblk9 V c 6 t) (iblk9 V c 7 t) :=
  ((dat9 (F := F) O R V c).read_blk_arrAt_eq_flushed 8 (fun t t' _ _ h => (cfg9.win 8).disjoint_blk (index9_8_ne t t' h)) cfg9.N t t.isLt (flush9_8 t)).trans
    (after9_8 O R V c t)

/-- An input array is as the region found it, at every point. -/
theorem arrAt_in9 (c : Dev nD) (w : Fin cfg9.W) (hw : (cfg9.win w).isOut = false) (n : Nat) :
    (dat9 (F := F) O R V c).arrAt w n = V (Proc.devRef .tc (Pipeline.arrRef spec9 w)) :=
  ((dat9 (F := F) O R V c).arrAt_in w hw n).trans (A_eq9 O R V c w)

end Region9

/-! # custom_call 11 -/

/-! ## The body's accesses -/

abbrev r11_0 : Rect S400x32 := Rect.unit (s := S400x32) ![0, 0] S400x32.size inb_S400x32_S400x32_0_0
abbrev r11_1 : Rect S32x400x128 := Rect.unit (s := S32x400x128) ![0, 0, 0] S1x400x128.size inb_S32x400x128_S1x400x128_0_0_0
abbrev r11_2 : Rect S32x400x128 := Rect.unit (s := S32x400x128) ![1, 0, 0] S1x400x128.size inb_S32x400x128_S1x400x128_1_0_0
abbrev r11_3 : Rect S32x400x128 := Rect.unit (s := S32x400x128) ![2, 0, 0] S1x400x128.size inb_S32x400x128_S1x400x128_2_0_0
abbrev r11_4 : Rect S32x400x128 := Rect.unit (s := S32x400x128) ![3, 0, 0] S1x400x128.size inb_S32x400x128_S1x400x128_3_0_0
abbrev r11_5 : Rect S32x400x128 := Rect.unit (s := S32x400x128) ![4, 0, 0] S1x400x128.size inb_S32x400x128_S1x400x128_4_0_0
abbrev r11_6 : Rect S32x400x128 := Rect.unit (s := S32x400x128) ![5, 0, 0] S1x400x128.size inb_S32x400x128_S1x400x128_5_0_0
abbrev r11_7 : Rect S32x400x128 := Rect.unit (s := S32x400x128) ![6, 0, 0] S1x400x128.size inb_S32x400x128_S1x400x128_6_0_0
abbrev r11_8 : Rect S32x400x128 := Rect.unit (s := S32x400x128) ![7, 0, 0] S1x400x128.size inb_S32x400x128_S1x400x128_7_0_0
abbrev r11_9 : Rect S32x400x128 := Rect.unit (s := S32x400x128) ![8, 0, 0] S1x400x128.size inb_S32x400x128_S1x400x128_8_0_0
abbrev r11_10 : Rect S32x400x128 := Rect.unit (s := S32x400x128) ![9, 0, 0] S1x400x128.size inb_S32x400x128_S1x400x128_9_0_0
abbrev r11_11 : Rect S32x400x128 := Rect.unit (s := S32x400x128) ![10, 0, 0] S1x400x128.size inb_S32x400x128_S1x400x128_10_0_0
abbrev r11_12 : Rect S32x400x128 := Rect.unit (s := S32x400x128) ![11, 0, 0] S1x400x128.size inb_S32x400x128_S1x400x128_11_0_0
abbrev r11_13 : Rect S32x400x128 := Rect.unit (s := S32x400x128) ![12, 0, 0] S1x400x128.size inb_S32x400x128_S1x400x128_12_0_0
abbrev r11_14 : Rect S32x400x128 := Rect.unit (s := S32x400x128) ![13, 0, 0] S1x400x128.size inb_S32x400x128_S1x400x128_13_0_0
abbrev r11_15 : Rect S32x400x128 := Rect.unit (s := S32x400x128) ![14, 0, 0] S1x400x128.size inb_S32x400x128_S1x400x128_14_0_0
abbrev r11_16 : Rect S32x400x128 := Rect.unit (s := S32x400x128) ![15, 0, 0] S1x400x128.size inb_S32x400x128_S1x400x128_15_0_0
abbrev r11_17 : Rect S32x400x128 := Rect.unit (s := S32x400x128) ![16, 0, 0] S1x400x128.size inb_S32x400x128_S1x400x128_16_0_0
abbrev r11_18 : Rect S32x400x128 := Rect.unit (s := S32x400x128) ![17, 0, 0] S1x400x128.size inb_S32x400x128_S1x400x128_17_0_0
abbrev r11_19 : Rect S32x400x128 := Rect.unit (s := S32x400x128) ![18, 0, 0] S1x400x128.size inb_S32x400x128_S1x400x128_18_0_0
abbrev r11_20 : Rect S32x400x128 := Rect.unit (s := S32x400x128) ![19, 0, 0] S1x400x128.size inb_S32x400x128_S1x400x128_19_0_0
abbrev r11_21 : Rect S32x400x128 := Rect.unit (s := S32x400x128) ![20, 0, 0] S1x400x128.size inb_S32x400x128_S1x400x128_20_0_0
abbrev r11_22 : Rect S32x400x128 := Rect.unit (s := S32x400x128) ![21, 0, 0] S1x400x128.size inb_S32x400x128_S1x400x128_21_0_0
abbrev r11_23 : Rect S32x400x128 := Rect.unit (s := S32x400x128) ![22, 0, 0] S1x400x128.size inb_S32x400x128_S1x400x128_22_0_0
abbrev r11_24 : Rect S32x400x128 := Rect.unit (s := S32x400x128) ![23, 0, 0] S1x400x128.size inb_S32x400x128_S1x400x128_23_0_0
abbrev r11_25 : Rect S32x400x128 := Rect.unit (s := S32x400x128) ![24, 0, 0] S1x400x128.size inb_S32x400x128_S1x400x128_24_0_0
abbrev r11_26 : Rect S32x400x128 := Rect.unit (s := S32x400x128) ![25, 0, 0] S1x400x128.size inb_S32x400x128_S1x400x128_25_0_0
abbrev r11_27 : Rect S32x400x128 := Rect.unit (s := S32x400x128) ![26, 0, 0] S1x400x128.size inb_S32x400x128_S1x400x128_26_0_0
abbrev r11_28 : Rect S32x400x128 := Rect.unit (s := S32x400x128) ![27, 0, 0] S1x400x128.size inb_S32x400x128_S1x400x128_27_0_0
abbrev r11_29 : Rect S32x400x128 := Rect.unit (s := S32x400x128) ![28, 0, 0] S1x400x128.size inb_S32x400x128_S1x400x128_28_0_0
abbrev r11_30 : Rect S32x400x128 := Rect.unit (s := S32x400x128) ![29, 0, 0] S1x400x128.size inb_S32x400x128_S1x400x128_29_0_0
abbrev r11_31 : Rect S32x400x128 := Rect.unit (s := S32x400x128) ![30, 0, 0] S1x400x128.size inb_S32x400x128_S1x400x128_30_0_0
abbrev r11_32 : Rect S32x400x128 := Rect.unit (s := S32x400x128) ![31, 0, 0] S1x400x128.size inb_S32x400x128_S1x400x128_31_0_0
abbrev r11_33 : Rect S400x128 := Rect.unit (s := S400x128) ![0, 0] S400x128.size inb_S400x128_S400x128_0_0
abbrev r11_34 : Rect S128x128 := Rect.unit (s := S128x128) ![0, 0] S128x128.size inb_S128x128_S128x128_0_0
abbrev r11_35 : Rect S1x128 := Rect.unit (s := S1x128) ![0, 0] S1x128.size inb_S1x128_S1x128_0_0

/-! ## What the body computes, part by part (the payloads composed along the root sequence) -/

/-- Part 1's result 0 (`v1` of the printed body), over the staged blocks. -/
def s11_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay2 (View.ld x1 r11_0)
/-- Part 1's result 1 (`v36` of the printed body), over the staged blocks. -/
def s11_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay3 (View.ld x1 r11_0) (View.ld x0 r11_1) (View.ld x0 r11_2) (View.ld x0 r11_3) (View.ld x0 r11_4) (View.ld x0 r11_5) (View.ld x0 r11_6)
/-- Part 2's result 0 (`v72` of the printed body), over the staged blocks. -/
def s11_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay4 (s11_1_0 x0 x1 x2 x3 x4 x5 x6 x7) (s11_1_1 x0 x1 x2 x3 x4 x5 x6 x7) (View.ld x0 r11_7) (View.ld x0 r11_8) (View.ld x0 r11_9) (View.ld x0 r11_10) (View.ld x0 r11_11) (View.ld x0 r11_12)
/-- Part 2's result 1 (`v77` of the printed body), over the staged blocks. -/
def s11_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay5 (s11_1_0 x0 x1 x2 x3 x4 x5 x6 x7) (View.ld x0 r11_13)
/-- Part 3's result 0 (`v114` of the printed body), over the staged blocks. -/
def s11_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay6 (s11_1_0 x0 x1 x2 x3 x4 x5 x6 x7) (s11_2_0 x0 x1 x2 x3 x4 x5 x6 x7) (s11_2_1 x0 x1 x2 x3 x4 x5 x6 x7) (View.ld x0 r11_14) (View.ld x0 r11_15) (View.ld x0 r11_16) (View.ld x0 r11_17) (View.ld x0 r11_18) (View.ld x0 r11_19)
/-- Part 3's result 1 (`v116` of the printed body), over the staged blocks. -/
def s11_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay7 (View.ld x0 r11_20)
/-- Part 4's result 0 (`v156` of the printed body), over the staged blocks. -/
def s11_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay8 (s11_1_0 x0 x1 x2 x3 x4 x5 x6 x7) (s11_3_0 x0 x1 x2 x3 x4 x5 x6 x7) (s11_3_1 x0 x1 x2 x3 x4 x5 x6 x7) (View.ld x0 r11_21) (View.ld x0 r11_22) (View.ld x0 r11_23) (View.ld x0 r11_24) (View.ld x0 r11_25) (View.ld x0 r11_26)
/-- Part 5's result 0 (`v192` of the printed body), over the staged blocks. -/
def s11_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay9 (s11_1_0 x0 x1 x2 x3 x4 x5 x6 x7) (s11_4_0 x0 x1 x2 x3 x4 x5 x6 x7) (View.ld x0 r11_27) (View.ld x0 r11_28) (View.ld x0 r11_29) (View.ld x0 r11_30) (View.ld x0 r11_31) (View.ld x0 r11_32)
/-- Part 5's result 1 (`v194` of the printed body), over the staged blocks. -/
def s11_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay10 (View.ld x2 r11_33)
/-- Part 5's result 2 (`v195` of the printed body), over the staged blocks. -/
def s11_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay11 (View.ld x2 r11_33)
/-- Part 5's result 3 (`v198` of the printed body), over the staged blocks. -/
def s11_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay12 (View.ld x2 r11_33)
/-- Part 6's result 0 (`v241` of the printed body), over the staged blocks. -/
def s11_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay13 (s11_5_0 x0 x1 x2 x3 x4 x5 x6 x7) (s11_5_1 x0 x1 x2 x3 x4 x5 x6 x7) (s11_5_2 x0 x1 x2 x3 x4 x5 x6 x7) (s11_5_3 x0 x1 x2 x3 x4 x5 x6 x7) (View.ld x3 r11_34) (View.ld x4 r11_34) (View.ld x5 r11_35) (View.ld x6 r11_35)

/-- Window 8's staging buffer after the body, from the input windows' blocks: its one store as a piece. -/
def out11_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r11_33, k11_pay1 (s11_6_0 x0 x1 x2 x3 x4 x5 x6 x7) (View.ld x7 r11_35)⟩]

/-- The store tiles the buffer, so it covers it. -/
theorem cover11_8 (p0 : Vec F S400x128 .f32) (y : S400x128.Idx) :
    ∃ pc ∈ ([⟨r11_33, p0⟩] : List (View.Piece (Elt F) S400x128 .f32)), y ∈ pc.1.set :=
  View.cover_of_tiled [⟨r11_33, p0⟩] S400x128.size (by rfl) y

/-! ## The body's triple -/

set_option maxHeartbeats 4000000 in
/-- The body on whole staging memrefs, the inputs' at read contents `x0 … x7` and the output's at anything, runs to the
    continuation holding the inputs' as they were and the output's at `out11_8` of the inputs'. -/
theorem kernelRun11 (𝒱₀ : Variants) (c : Dev nD) (E : Set ℕ) (i : grid11.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out11_8 x0 x1 x2 x3 x4 x5 x6 x7)) -∗ Q ⟨⟩))
      ⊢ wp frame (wpE (defs₀ (F := F)) 𝒱₀ c none) E (cc11_body i arg1 harg1 arg2 harg2 arg3 harg3 arg4 harg4 arg5 harg5 arg6 harg6 arg7 harg7 arg8 harg8 arg9 harg9) Q := by
  simp only [cc11_body_eq_skeleton]; unfold cc11_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover11_8 _)

section Region11
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V (Proc.devRef .tc (Pipeline.arrRef spec11 w)))

/-- Input window 0's current staging buffer holds its block at every point, fetched there or not, for any proof data
    whose array is `V`'s and whose body leaves the block in place. -/
theorem before11_0_of {c : Dev nD} (dat : Dat τ (Elt F) (HIx 6) ℕ 𝕌 ℕ cfg11 c) (hA : dat.A 0 = V (Proc.devRef .tc (Pipeline.arrRef spec11 0)))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof data
    whose array is `V`'s and whose body leaves the block in place. -/
theorem before11_1_of {c : Dev nD} (dat : Dat τ (Elt F) (HIx 6) ℕ 𝕌 ℕ cfg11 c) (hA : dat.A 1 = V (Proc.devRef .tc (Pipeline.arrRef spec11 1)))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof data
    whose array is `V`'s and whose body leaves the block in place. -/
theorem before11_2_of {c : Dev nD} (dat : Dat τ (Elt F) (HIx 6) ℕ 𝕌 ℕ cfg11 c) (hA : dat.A 2 = V (Proc.devRef .tc (Pipeline.arrRef spec11 2)))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof data
    whose array is `V`'s and whose body leaves the block in place. -/
theorem before11_3_of {c : Dev nD} (dat : Dat τ (Elt F) (HIx 6) ℕ 𝕌 ℕ cfg11 c) (hA : dat.A 3 = V (Proc.devRef .tc (Pipeline.arrRef spec11 3)))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof data
    whose array is `V`'s and whose body leaves the block in place. -/
theorem before11_4_of {c : Dev nD} (dat : Dat τ (Elt F) (HIx 6) ℕ 𝕌 ℕ cfg11 c) (hA : dat.A 4 = V (Proc.devRef .tc (Pipeline.arrRef spec11 4)))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5's current staging buffer holds its block at every point, fetched there or not, for any proof data
    whose array is `V`'s and whose body leaves the block in place. -/
theorem before11_5_of {c : Dev nD} (dat : Dat τ (Elt F) (HIx 6) ℕ 𝕌 ℕ cfg11 c) (hA : dat.A 5 = V (Proc.devRef .tc (Pipeline.arrRef spec11 5)))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
/-- Input window 6's current staging buffer holds its block at every point, fetched there or not, for any proof data
    whose array is `V`'s and whose body leaves the block in place. -/
theorem before11_6_of {c : Dev nD} (dat : Dat τ (Elt F) (HIx 6) ℕ 𝕌 ℕ cfg11 c) (hA : dat.A 6 = V (Proc.devRef .tc (Pipeline.arrRef spec11 6)))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
/-- Input window 7's current staging buffer holds its block at every point, fetched there or not, for any proof data
    whose array is `V`'s and whose body leaves the block in place. -/
theorem before11_7_of {c : Dev nD} (dat : Dat τ (Elt F) (HIx 6) ℕ 𝕌 ℕ cfg11 c) (hA : dat.A 7 = V (Proc.devRef .tc (Pipeline.arrRef spec11 7)))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

/-! ## The pipeline's proof data -/

/-- The proof data of pipeline 5 on core `c`: the arrays as the region finds them (`V`); after the body at point `t` each
    input's buffer at its block and the output's at `out11_8` of the input blocks; the invariant the core's scoped buffers that
    are no staging buffer of this pipeline, each at some contents, which the body never touches; the tallies
    `O` owed and the recorded pairs within `R` throughout; full shares. -/
def dat11 (c : Dev nD) : Dat τ (Elt F) (HIx 6) ℕ 𝕌 ℕ cfg11 c where
  A w := V (Proc.devRef .tc (Pipeline.arrRef spec11 w))
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => out11_8 (iblk11 V c 0 t) (iblk11 V c 1 t) (iblk11 V c 2 t) (iblk11 V c 3 t) (iblk11 V c 4 t) (iblk11 V c 5 t) (iblk11 V c 6 t) (iblk11 V c 7 t)
  Φ _ := Pipeline.scopedRest (Ix := HIx 6) (Name := ℕ) (U := 𝕌) (Lvl := ℕ) (Val := Elt F) spec11 c
  q _ := fullShare
  owed _ := O
  recorded _ := R

/-- The proof data's arrays are the region-entry contents. -/
theorem A_eq11 (c : Dev nD) (w : Fin cfg11.W) : (dat11 (F := F) O R V c).A w = V (Proc.devRef .tc (Pipeline.arrRef spec11 w)) := by
  dsimp only [dat11]

/-- What the body leaves, window by window. -/
theorem after11_0 (c : Dev nD) (t : Fin cfg11.N) : (dat11 (F := F) O R V c).after 0 t = iblk11 V c 0 t := by dsimp only [dat11]
theorem after11_1 (c : Dev nD) (t : Fin cfg11.N) : (dat11 (F := F) O R V c).after 1 t = iblk11 V c 1 t := by dsimp only [dat11]
theorem after11_2 (c : Dev nD) (t : Fin cfg11.N) : (dat11 (F := F) O R V c).after 2 t = iblk11 V c 2 t := by dsimp only [dat11]
theorem after11_3 (c : Dev nD) (t : Fin cfg11.N) : (dat11 (F := F) O R V c).after 3 t = iblk11 V c 3 t := by dsimp only [dat11]
theorem after11_4 (c : Dev nD) (t : Fin cfg11.N) : (dat11 (F := F) O R V c).after 4 t = iblk11 V c 4 t := by dsimp only [dat11]
theorem after11_5 (c : Dev nD) (t : Fin cfg11.N) : (dat11 (F := F) O R V c).after 5 t = iblk11 V c 5 t := by dsimp only [dat11]
theorem after11_6 (c : Dev nD) (t : Fin cfg11.N) : (dat11 (F := F) O R V c).after 6 t = iblk11 V c 6 t := by dsimp only [dat11]
theorem after11_7 (c : Dev nD) (t : Fin cfg11.N) : (dat11 (F := F) O R V c).after 7 t = iblk11 V c 7 t := by dsimp only [dat11]
theorem after11_8 (c : Dev nD) (t : Fin cfg11.N) : (dat11 (F := F) O R V c).after 8 t = out11_8 (iblk11 V c 0 t) (iblk11 V c 1 t) (iblk11 V c 2 t) (iblk11 V c 3 t) (iblk11 V c 4 t) (iblk11 V c 5 t) (iblk11 V c 6 t) (iblk11 V c 7 t) := by dsimp only [dat11]

/-- Each input's current staging buffer holds its block at every point, fetched there or not. -/
theorem before11_0 (c : Dev nD) (t : Fin cfg11.N) (d) : (dat11 (F := F) O R V c).before 0 t d = iblk11 V c 0 t :=
  before11_0_of V (dat11 (F := F) O R V c) (A_eq11 O R V c 0) (after11_0 O R V c) t d
theorem before11_1 (c : Dev nD) (t : Fin cfg11.N) (d) : (dat11 (F := F) O R V c).before 1 t d = iblk11 V c 1 t :=
  before11_1_of V (dat11 (F := F) O R V c) (A_eq11 O R V c 1) (after11_1 O R V c) t d
theorem before11_2 (c : Dev nD) (t : Fin cfg11.N) (d) : (dat11 (F := F) O R V c).before 2 t d = iblk11 V c 2 t :=
  before11_2_of V (dat11 (F := F) O R V c) (A_eq11 O R V c 2) (after11_2 O R V c) t d
theorem before11_3 (c : Dev nD) (t : Fin cfg11.N) (d) : (dat11 (F := F) O R V c).before 3 t d = iblk11 V c 3 t :=
  before11_3_of V (dat11 (F := F) O R V c) (A_eq11 O R V c 3) (after11_3 O R V c) t d
theorem before11_4 (c : Dev nD) (t : Fin cfg11.N) (d) : (dat11 (F := F) O R V c).before 4 t d = iblk11 V c 4 t :=
  before11_4_of V (dat11 (F := F) O R V c) (A_eq11 O R V c 4) (after11_4 O R V c) t d
theorem before11_5 (c : Dev nD) (t : Fin cfg11.N) (d) : (dat11 (F := F) O R V c).before 5 t d = iblk11 V c 5 t :=
  before11_5_of V (dat11 (F := F) O R V c) (A_eq11 O R V c 5) (after11_5 O R V c) t d
theorem before11_6 (c : Dev nD) (t : Fin cfg11.N) (d) : (dat11 (F := F) O R V c).before 6 t d = iblk11 V c 6 t :=
  before11_6_of V (dat11 (F := F) O R V c) (A_eq11 O R V c 6) (after11_6 O R V c) t d
theorem before11_7 (c : Dev nD) (t : Fin cfg11.N) (d) : (dat11 (F := F) O R V c).before 7 t d = iblk11 V c 7 t :=
  before11_7_of V (dat11 (F := F) O R V c) (A_eq11 O R V c 7) (after11_7 O R V c) t d

/-! ## The body obligation, at a generic point -/

variable (𝒱₀ : Variants) (ι : HIx 6)

/-- What the body is called with at point `t` (the windows one by one), -/
def bodyPre11 (c : Dev nD) (t : Fin cfg11.N) : sProp 𝕄 :=
  iprop((dat11 (F := F) O R V c).Φ t.castSucc ∗ (dat11 (F := F) O R V c).owesAt ι t.castSucc
    ∗ (∃ d, owns (c : Thread nD τ) (st11_0 t) fullShare ((dat11 (F := F) O R V c).before 0 t d))
    ∗ (∃ d, owns (c : Thread nD τ) (st11_1 t) fullShare ((dat11 (F := F) O R V c).before 1 t d))
    ∗ (∃ d, owns (c : Thread nD τ) (st11_2 t) fullShare ((dat11 (F := F) O R V c).before 2 t d))
    ∗ (∃ d, owns (c : Thread nD τ) (st11_3 t) fullShare ((dat11 (F := F) O R V c).before 3 t d))
    ∗ (∃ d, owns (c : Thread nD τ) (st11_4 t) fullShare ((dat11 (F := F) O R V c).before 4 t d))
    ∗ (∃ d, owns (c : Thread nD τ) (st11_5 t) fullShare ((dat11 (F := F) O R V c).before 5 t d))
    ∗ (∃ d, owns (c : Thread nD τ) (st11_6 t) fullShare ((dat11 (F := F) O R V c).before 6 t d))
    ∗ (∃ d, owns (c : Thread nD τ) (st11_7 t) fullShare ((dat11 (F := F) O R V c).before 7 t d))
    ∗ (∃ d, owns (c : Thread nD τ) (st11_8 t) fullShare ((dat11 (F := F) O R V c).before 8 t d)))

/-- and what it returns. -/
def bodyPost11 (c : Dev nD) (t : Fin cfg11.N) : sProp 𝕄 :=
  iprop((dat11 (F := F) O R V c).Φ t.succ ∗ (dat11 (F := F) O R V c).owesAt ι t.succ
    ∗ owns (c : Thread nD τ) (st11_0 t) fullShare ((dat11 (F := F) O R V c).after 0 t)
    ∗ owns (c : Thread nD τ) (st11_1 t) fullShare ((dat11 (F := F) O R V c).after 1 t)
    ∗ owns (c : Thread nD τ) (st11_2 t) fullShare ((dat11 (F := F) O R V c).after 2 t)
    ∗ owns (c : Thread nD τ) (st11_3 t) fullShare ((dat11 (F := F) O R V c).after 3 t)
    ∗ owns (c : Thread nD τ) (st11_4 t) fullShare ((dat11 (F := F) O R V c).after 4 t)
    ∗ owns (c : Thread nD τ) (st11_5 t) fullShare ((dat11 (F := F) O R V c).after 5 t)
    ∗ owns (c : Thread nD τ) (st11_6 t) fullShare ((dat11 (F := F) O R V c).after 6 t)
    ∗ owns (c : Thread nD τ) (st11_7 t) fullShare ((dat11 (F := F) O R V c).after 7 t)
    ∗ owns (c : Thread nD τ) (st11_8 t) fullShare ((dat11 (F := F) O R V c).after 8 t))

/-- The body at any point: the inputs' memrefs hold their blocks, so `kernelRun11` applies; the invariant and the core's
    `owes` pass through unread. -/
theorem sound_body11 (c : Dev nD) (t : Fin cfg11.N) :
    bodyPre11 O R V ι c t ⊢ wp frame (wpE (defs₀ (F := F)) 𝒱₀ c none) Set.univ (bodyAt11 t) (fun _ => bodyPost11 O R V ι c t) := by
  unfold bodyPre11 bodyPost11 bodyAt11
  simp only [before11_0, before11_1, before11_2, before11_3, before11_4, before11_5, before11_6, before11_7]
  rw [show (dat11 (F := F) O R V c).Φ t.succ = (dat11 (F := F) O R V c).Φ t.castSucc from rfl,
    show (dat11 (F := F) O R V c).owesAt ι t.succ = (dat11 (F := F) O R V c).owesAt ι t.castSucc from rfl,
    after11_0, after11_1, after11_2, after11_3, after11_4, after11_5, after11_6, after11_7, after11_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun11 𝒱₀ c Set.univ (grid11.coords t) _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation11 (c : Dev nD) : BodyObligation (dat11 (F := F) O R V c) (defs₀ (F := F)) 𝒱₀ ι Set.univ := fun t => by
  rw [bigSep_W11, bigSep_W11]
  exact sound_body11 O R V 𝒱₀ ι c t

/-! ## What the arrays hold after the last point -/

/-- The output's blocks at different points sit at different block indices, -/
theorem index11_8_ne : ∀ t t' : Fin cfg11.N, t ≠ t' → (cfg11.win 8).index t ≠ (cfg11.win 8).index t' := by decide +kernel

/-- so block `t` of the output array after the last point is what point `t` wrote back: `out11_8` of the input blocks at `t`. -/
theorem out_blk11 (c : Dev nD) (t : Fin cfg11.N) :
    ((cfg11.win 8).blk t).view.read (Elt F) ((dat11 (F := F) O R V c).arrAt 8 cfg11.N) = out11_8 (iblk11 V c 0 t) (iblk11 V c 1 t) (iblk11 V c 2 t) (iblk11 V c 3 t) (iblk11 V c 4 t) (iblk11 V c 5 t) (iblk11 V c 6 t) (iblk11 V c 7 t) :=
  ((dat11 (F := F) O R V c).read_blk_arrAt_eq_flushed 8 (fun t t' _ _ h => (cfg11.win 8).disjoint_blk (index11_8_ne t t' h)) cfg11.N t t.isLt (flush11_8 t)).trans
    (after11_8 O R V c t)

/-- An input array is as the region found it, at every point. -/
theorem arrAt_in11 (c : Dev nD) (w : Fin cfg11.W) (hw : (cfg11.win w).isOut = false) (n : Nat) :
    (dat11 (F := F) O R V c).arrAt w n = V (Proc.devRef .tc (Pipeline.arrRef spec11 w)) :=
  ((dat11 (F := F) O R V c).arrAt_in w hw n).trans (A_eq11 O R V c w)

end Region11

end Cert.Proof.StepBody

end
-- ==== Proof.ValsI.lean ====
/-
  The contents of @main's arrays between its items, and the six pipelines' proof data at them.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.MainChainI
import proofs.«205547_g25623774888366_cont_9to1_713_27_alg».proof.Proof.StepsI
import proofs.«205547_g25623774888366_cont_9to1_713_27_alg».proof.Proof.Steps2I
import proofs.«205547_g25623774888366_cont_9to1_713_27_alg».proof.Proof.RegionI
import proofs.«205547_g25623774888366_cont_9to1_713_27_alg».proof.Proof.SoftmaxBody
import proofs.«205547_g25623774888366_cont_9to1_713_27_alg».proof.Proof.StepBody

noncomputable section

namespace Cert.Proof.ValsI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.Proof.StepsI Cert.Proof.Steps2I Cert.Proof.RegionI Cert.KernelIdeal.MainChain Cert.Proof.SoftmaxBody Cert.Proof.StepBody

variable {F : FTy → Type} [FloatOps F]

local notation "𝕄" => MT nD τ sig (HIx 6) (Elt F) ℕ UU ℕ

variable (m : (ℓ : Loc nD τ sig) → Buf (Elt F) ℓ)

/-- The launch contents as a valuation. -/
def V0 (d : Dev nD) : Valuation τ sig (Elt F) := fun b => m (d, b)
/-- Before call 0: the host glue done. -/
def Va0 (d : Dev nD) : Valuation τ sig (Elt F) := after (ops0 (F := F)) (V0 m d)
/-- After call 0: the padded coordinates gathered. -/
def Vb0 (d : Dev nD) : Valuation τ sig (Elt F) := Function.update (Va0 m d) (Proc.devRef .tc main_v20) (gatherFn (Va0 m d (Proc.devRef .tc main_v4)) (Va0 m d (Proc.devRef .tc main_v2)))
/-- Before region 0. -/
def Va1 (d : Dev nD) : Valuation τ sig (Elt F) := after (ops1 (F := F)) (Vb0 m d)
/-- Region 0's proof data: the edge weights. -/
def D0 (d : Dev nD) : Pipeline.Dat τ (Elt F) (HIx 6) ℕ UU ℕ cfg1 d := dat1 ((K (F := F)).Otc d 1) (Rn (F := F) d 1) (Va1 m d) d
/-- After region 0. -/
def Vr0 (d : Dev nD) : Valuation τ sig (Elt F) := Function.update (Va1 m d) (Proc.devRef .tc main_v22) ((D0 m d).arrAt 5 cfg1.N)
/-- After call 1: the features gathered. -/
def Vb1 (d : Dev nD) : Valuation τ sig (Elt F) := Function.update (Vr0 m d) (Proc.devRef .tc main_v23) (gatherFn (Vr0 m d (Proc.devRef .tc main_v4)) (Vr0 m d (Proc.devRef .tc main_arg0)))
/-- Before region 1. -/
def Va2 (d : Dev nD) : Valuation τ sig (Elt F) := after (ops2 (F := F)) (Vb1 m d)
/-- Region 1's proof data: update step 0. -/
def D1 (d : Dev nD) : Pipeline.Dat τ (Elt F) (HIx 6) ℕ UU ℕ cfg3 d := dat3 ((K (F := F)).Otc d 2) (Rn (F := F) d 2) (Va2 m d) d
/-- After region 1. -/
def Vr1 (d : Dev nD) : Valuation τ sig (Elt F) := Function.update (Va2 m d) (Proc.devRef .tc main_v35) ((D1 m d).arrAt 8 cfg3.N)
/-- After call 2: the features gathered. -/
def Vb2 (d : Dev nD) : Valuation τ sig (Elt F) := Function.update (Vr1 m d) (Proc.devRef .tc main_v36) (gatherFn (Vr1 m d (Proc.devRef .tc main_v4)) (Vr1 m d (Proc.devRef .tc main_v35)))
/-- Before region 2. -/
def Va3 (d : Dev nD) : Valuation τ sig (Elt F) := after (ops3 (F := F)) (Vb2 m d)
/-- Region 2's proof data: update step 1. -/
def D2 (d : Dev nD) : Pipeline.Dat τ (Elt F) (HIx 6) ℕ UU ℕ cfg5 d := dat5 ((K (F := F)).Otc d 3) (Rn (F := F) d 3) (Va3 m d) d
/-- After region 2. -/
def Vr2 (d : Dev nD) : Valuation τ sig (Elt F) := Function.update (Va3 m d) (Proc.devRef .tc main_v48) ((D2 m d).arrAt 8 cfg5.N)
/-- After call 3: the features gathered. -/
def Vb3 (d : Dev nD) : Valuation τ sig (Elt F) := Function.update (Vr2 m d) (Proc.devRef .tc main_v49) (gatherFn (Vr2 m d (Proc.devRef .tc main_v4)) (Vr2 m d (Proc.devRef .tc main_v48)))
/-- Before region 3. -/
def Va4 (d : Dev nD) : Valuation τ sig (Elt F) := after (ops4 (F := F)) (Vb3 m d)
/-- Region 3's proof data: update step 2. -/
def D3 (d : Dev nD) : Pipeline.Dat τ (Elt F) (HIx 6) ℕ UU ℕ cfg7 d := dat7 ((K (F := F)).Otc d 4) (Rn (F := F) d 4) (Va4 m d) d
/-- After region 3. -/
def Vr3 (d : Dev nD) : Valuation τ sig (Elt F) := Function.update (Va4 m d) (Proc.devRef .tc main_v61) ((D3 m d).arrAt 8 cfg7.N)
/-- After call 4: the features gathered. -/
def Vb4 (d : Dev nD) : Valuation τ sig (Elt F) := Function.update (Vr3 m d) (Proc.devRef .tc main_v62) (gatherFn (Vr3 m d (Proc.devRef .tc main_v4)) (Vr3 m d (Proc.devRef .tc main_v61)))
/-- Before region 4. -/
def Va5 (d : Dev nD) : Valuation τ sig (Elt F) := after (ops5 (F := F)) (Vb4 m d)
/-- Region 4's proof data: update step 3. -/
def D4 (d : Dev nD) : Pipeline.Dat τ (Elt F) (HIx 6) ℕ UU ℕ cfg9 d := dat9 ((K (F := F)).Otc d 5) (Rn (F := F) d 5) (Va5 m d) d
/-- After region 4. -/
def Vr4 (d : Dev nD) : Valuation τ sig (Elt F) := Function.update (Va5 m d) (Proc.devRef .tc main_v74) ((D4 m d).arrAt 8 cfg9.N)
/-- After call 5: the features gathered. -/
def Vb5 (d : Dev nD) : Valuation τ sig (Elt F) := Function.update (Vr4 m d) (Proc.devRef .tc main_v75) (gatherFn (Vr4 m d (Proc.devRef .tc main_v4)) (Vr4 m d (Proc.devRef .tc main_v74)))
/-- Before region 5. -/
def Va6 (d : Dev nD) : Valuation τ sig (Elt F) := after (ops6 (F := F)) (Vb5 m d)
/-- Region 5's proof data: update step 4. -/
def D5 (d : Dev nD) : Pipeline.Dat τ (Elt F) (HIx 6) ℕ UU ℕ cfg11 d := dat11 ((K (F := F)).Otc d 6) (Rn (F := F) d 6) (Va6 m d) d
/-- After region 5. -/
def Vr5 (d : Dev nD) : Valuation τ sig (Elt F) := Function.update (Va6 m d) (Proc.devRef .tc main_v87) ((D5 m d).arrAt 8 cfg11.N)

/-- The pipelines' proof data, in @main's order. -/
def pdats : (p : Fin 6) → (c : Dev nD) → Pipeline.Dat τ (Elt F) (HIx 6) ℕ UU ℕ (Pipeline.pin (pcfgs (F := F)) adm p) c
  | 0 => D0 m | 1 => D1 m | 2 => D2 m | 3 => D3 m | 4 => D4 m | 5 => D5 m

/-- The arrays when call `q` starts. -/
def Vc : Fin 6 → Dev nD → Valuation τ sig (Elt F)
  | 0 => Va0 m | 1 => Vr0 m | 2 => Vr1 m | 3 => Vr2 m | 4 => Vr3 m | 5 => Vr4 m

end Cert.Proof.ValsI

end
-- ==== Proof.HostGlue.lean ====
/-
  The host operations of the kernel program's @main, read at an index. Each stretch of host
  operations between two calls is a list of layout operations (constants, zero-padding scatters,
  a transpose, slices, reshapes, a format change); here the contents of each buffer a later item
  consumes, after the stretch has run from contents `V`, are given entry by entry in terms of `V`
  at the buffers the stretch reads, and every buffer the stretch does not write keeps its contents.
-/
import proofs.«205547_g25623774888366_cont_9to1_713_27_alg».proof.Proof.MainChainI
import Idealize.ShloMosaic.Lib.ValueLayout
import Idealize.ShloMosaic.Lib.ValueIdx
import Idealize.ShloMosaic.Lib.IdealHost

set_option synthInstance.maxSize 4096

noncomputable section

namespace Cert.Proof.HostGlue

open Idealize.ShloMosaic Idealize.SL.Sem Idealize.ShloMosaic.StableHlo Idealize.ShloMosaic.ValueIdx
open Cert.KernelIdeal Cert.KernelIdeal.Gen Cert.KernelIdeal.MainChain

/-! ## Layout operations read at an index (any element type) -/

section Layout
variable {α : Type}

/-- A `[320000, 128]` array cast to `[32, 10000, 128]`: entry `(k, n, c)` is row `10000 k + n`, column `c`. -/
theorem shapeCast_rows_apply (X : S320000x128.Idx → α) (h : S320000x128.ShapeCasts S32x10000x128)
    (k : Fin 32) (n : Fin 10000) (c : Fin 128) :
    shapeCast S32x10000x128 X h (ix3 k n c)
      = X (ix2 ⟨k.val * 10000 + n.val, by have := k.isLt; have := n.isLt; omega⟩ c) := by
  exact shapeCast_apply X h _ _ (by rw [Shape.rowMajor_val_two, Shape.rowMajor_val_three]; rfl)

/-- A `[32, 10000]` array cast to `[320000]`: entry `10000 k + n` is entry `(k, n)`. -/
theorem shapeCast_flat_apply (X : S32x10000.Idx → α) (h : S32x10000.ShapeCasts S320000)
    (k : Fin 32) (n : Fin 10000) :
    shapeCast S320000 X h (ix1 ⟨k.val * 10000 + n.val, by have := k.isLt; have := n.isLt; omega⟩)
      = X (ix2 k n) := by
  exact shapeCast_apply X h _ _ (by rw [Shape.rowMajor_val_two, Shape.rowMajor_val_one]; rfl)

/-- Matrix `t` of a stack of five `[128, 128]` matrices, cut out and its unit axis dropped. -/
theorem slice_mat_apply (t : Nat) (X : S5x128x128.Idx → α) (hs : S5x128x128.Slices ![t, 0, 0] S1x128x128)
    (hc : S1x128x128.ShapeCasts S128x128) (ht : t < 5) (j d : Fin 128) :
    shapeCast S128x128 (extractStridedSlice S1x128x128 ![t, 0, 0] X hs) hc (ix2 j d) = X (ix3 ⟨t, ht⟩ j d) := by
  rw [shapeCast_1ab_ab_apply]
  exact extractStridedSlice_apply _ X hs _ _ (fun a => match a with
    | ⟨0, _⟩ => rfl
    | ⟨1, _⟩ => (Nat.zero_add _).symm
    | ⟨2, _⟩ => (Nat.zero_add _).symm)

/-- Row `t` of a stack of five `[1, 128]` rows, cut out and its unit axis dropped. -/
theorem slice_row_apply (t : Nat) (X : S5x1x128.Idx → α) (hs : S5x1x128.Slices ![t, 0, 0] S1x1x128)
    (hc : S1x1x128.ShapeCasts S1x128) (ht : t < 5) (u : Fin 1) (d : Fin 128) :
    shapeCast S1x128 (extractStridedSlice S1x1x128 ![t, 0, 0] X hs) hc (ix2 u d) = X (ix3 ⟨t, ht⟩ (0 : Fin 1) d) := by
  have hu : u.val = 0 := by have := u.isLt; omega
  rw [shapeCast_1ab_ab_apply]
  exact extractStridedSlice_apply _ X hs _ _ (fun a => match a with
    | ⟨0, _⟩ => rfl
    | ⟨1, _⟩ => by show (0 : Nat) = 0 + u.val; omega
    | ⟨2, _⟩ => (Nat.zero_add _).symm)

/-- A `[5, 128]` array cast to `[5, 1, 128]`. -/
theorem shapeCast_5x1x128_apply (X : S5x128.Idx → α) (h : S5x128.ShapeCasts S5x1x128) (t : Fin 5) (u : Fin 1) (d : Fin 128) :
    shapeCast S5x1x128 X h (ix3 t u d) = X (ix2 t d) := by
  have hu : u.val = 0 := by have := u.isLt; omega
  exact shapeCast_apply X h _ _ (by
    rw [Shape.rowMajor_val_two, Shape.rowMajor_val_three]
    show t.val * 128 + d.val = (t.val * 1 + u.val) * 128 + d.val
    rw [hu, Nat.mul_one, Nat.add_zero])

/-- The upper or lower half (rows `o` to `o + 127`) of each `[256, 128]` matrix of a stack of five. -/
theorem slice_half_apply (o : Nat) (X : S5x256x128.Idx → α) (hs : S5x256x128.Slices ![0, o, 0] S5x128x128)
    (t : Fin 5) (j d : Fin 128) (k : Fin 256) (hk : k.val = o + j.val) :
    extractStridedSlice S5x128x128 ![0, o, 0] X hs (ix3 t j d) = X (ix3 t k d) := by
  exact extractStridedSlice_apply _ X hs _ _ (fun a => match a with
    | ⟨0, _⟩ => (Nat.zero_add _).symm
    | ⟨1, _⟩ => hk
    | ⟨2, _⟩ => (Nat.zero_add _).symm)

end Layout

/-! ## A zero-padding scatter read at an index -/

section Scatter
variable {α : Type}

/-- The fold a scatter that overwrites is: an index some update lands on ends at that update's value, when every
    update landing there carries the same value `v`; an index that starts at `v` and on which only such updates
    land ends at `v`. -/
theorem scatter_fold_apply {s si u : Shape} {w : Nat} (d : ScatterDims s si u) (idx : IVec si w) (upd : u.Idx → α)
    (i' : s.Idx) (v : α) :
    ∀ (l : List (Fin u.numel)) (r : s.Idx → α),
      (∀ n ∈ l, d.resultIdx? (u.rowMajor.symm n) idx = some i' → upd (u.rowMajor.symm n) = v) →
      ((∃ n ∈ l, d.resultIdx? (u.rowMajor.symm n) idx = some i') ∨ r i' = v) →
      l.foldl (fun r n =>
        match d.resultIdx? (u.rowMajor.symm n) idx with
        | some i => fun i' => if i' = i then (fun _ b => b) (r i) (upd (u.rowMajor.symm n)) else r i'
        | none => r) r i' = v := by
  intro l
  induction l with
  | nil =>
    intro r _ h
    rcases h with ⟨n, hn, _⟩ | h
    · exact absurd hn List.not_mem_nil
    · exact h
  | cons a l ih =>
    intro r h1 h2
    rw [List.foldl_cons]
    refine ih _ (fun n hn => h1 n (List.mem_cons_of_mem _ hn)) ?_
    by_cases ha : d.resultIdx? (u.rowMajor.symm a) idx = some i'
    · right
      simp only [ha, if_true]
      exact h1 a List.mem_cons_self ha
    · rcases h2 with ⟨n, hn, hne⟩ | hr
      · rcases List.mem_cons.1 hn with rfl | hn'
        · exact absurd hne ha
        · exact Or.inl ⟨n, hn', hne⟩
      · right
        cases hq : d.resultIdx? (u.rowMajor.symm a) idx with
        | none => exact hr
        | some i =>
          have hne : i' ≠ i := fun h => ha (by rw [hq, h])
          simp only [if_neg hne]
          exact hr

/-- An overwriting scatter at an index some update lands on, all updates landing there carrying `v`. -/
theorem scatter_apply_hit {s si u : Shape} {w : Nat} (d : ScatterDims s si u) (x : s.Idx → α) (idx : IVec si w)
    (upd : u.Idx → α) (i' : s.Idx) (v : α) (j0 : u.Idx) (h0 : d.resultIdx? j0 idx = some i')
    (hall : ∀ j, d.resultIdx? j idx = some i' → upd j = v) :
    Host.scatter d (fun _ b => b) x idx upd i' = v := by
  unfold Host.scatter
  refine scatter_fold_apply d idx upd i' v _ x (fun n _ hn => hall _ hn) (Or.inl ⟨u.rowMajor j0, List.mem_finRange _, ?_⟩)
  rw [Equiv.symm_apply_apply]; exact h0

/-- An overwriting scatter at an index no update lands on: the operand. -/
theorem scatter_apply_miss {s si u : Shape} {w : Nat} (d : ScatterDims s si u) (x : s.Idx → α) (idx : IVec si w)
    (upd : u.Idx → α) (i' : s.Idx) (hnone : ∀ j, d.resultIdx? j idx ≠ some i') :
    Host.scatter d (fun _ b => b) x idx upd i' = x i' := by
  unfold Host.scatter
  exact scatter_fold_apply d idx upd i' (x i') _ x (fun n _ hn => absurd hn (hnone _)) (Or.inr rfl)

/-- Where an update `[m0, m1]` scattered at start index `0` into `[n0, n1]` lands: entry `(p, q)` at `(p, q)`. -/
theorem resultIdx_pad {n0 n1 m0 m1 : Nat} (d : ScatterDims ⟨2, ![n0, n1]⟩ ⟨1, ![1]⟩ ⟨2, ![m0, m1]⟩)
    (hw : d.updateWindowDims = [0, 1]) (hi : d.insertedWindowDims = []) (hm0 : m0 ≤ n0) (hm1 : m1 ≤ n1)
    (j : (⟨2, ![m0, m1]⟩ : Shape).Idx) :
    d.resultIdx? j (fun _ => 0#32 : IVec ⟨1, ![1]⟩ 32)
      = some (ix2 ⟨(j 0).val, Nat.lt_of_lt_of_le (j 0).isLt hm0⟩ ⟨(j 1).val, Nat.lt_of_lt_of_le (j 1).isLt hm1⟩) := by
  have hs : ∀ a, d.start j (fun _ => 0#32 : IVec ⟨1, ![1]⟩ 32) a = 0 := by
    intro a; unfold ScatterDims.start; split <;> rfl
  have hwin : ∀ a : Fin 2, d.window j a = (j a).val := by
    obtain ⟨uw, iw, sd, iv, wf⟩ := d
    subst hw hi
    intro a
    fin_cases a <;> rfl
  have h0 : (j 0).val < m0 := (j 0).isLt
  have h1 : (j 1).val < m1 := (j 1).isLt
  have hcond : ∀ a : Fin 2, 0 ≤ d.start j (fun _ => 0#32 : IVec ⟨1, ![1]⟩ 32) a + d.window j a
      ∧ d.start j (fun _ => 0#32 : IVec ⟨1, ![1]⟩ 32) a + d.window j a < (⟨2, ![n0, n1]⟩ : Shape).size a := by
    intro a
    rw [hs, hwin]
    fin_cases a
    · show 0 ≤ (0 : Int) + ((j 0).val : Int) ∧ (0 : Int) + ((j 0).val : Int) < (n0 : Int)
      omega
    · show 0 ≤ (0 : Int) + ((j 1).val : Int) ∧ (0 : Int) + ((j 1).val : Int) < (n1 : Int)
      omega
  unfold ScatterDims.resultIdx?
  rw [dif_pos hcond]
  congr 1
  funext a
  apply Fin.ext
  fin_cases a
  · show (d.start j (fun _ => 0#32 : IVec ⟨1, ![1]⟩ 32) 0 + ((d.window j 0 : Nat) : Int)).toNat = (j 0).val
    rw [hs, hwin]; omega
  · show (d.start j (fun _ => 0#32 : IVec ⟨1, ![1]⟩ 32) 1 + ((d.window j 1 : Nat) : Int)).toNat = (j 1).val
    rw [hs, hwin]; omega

/-- A scatter that overwrites (its body returns the update), at the one start index `0` on the one scattered axis,
    of an update `[m0, m1]` into an operand `[n0, n1]` that contains it: inside the update's extent the update,
    outside it the operand. -/
theorem scatter_pad_apply {n0 n1 m0 m1 : Nat} (d : ScatterDims ⟨2, ![n0, n1]⟩ ⟨1, ![1]⟩ ⟨2, ![m0, m1]⟩)
    (hw : d.updateWindowDims = [0, 1]) (hi : d.insertedWindowDims = [])
    (hm0 : m0 ≤ n0) (hm1 : m1 ≤ n1)
    (x : (⟨2, ![n0, n1]⟩ : Shape).Idx → α) (upd : (⟨2, ![m0, m1]⟩ : Shape).Idx → α) (a : Fin n0) (b : Fin n1) :
    Host.scatter d (fun _ u => u) x (fun _ => 0#32 : IVec ⟨1, ![1]⟩ 32) upd (ix2 a b)
      = if h : a.val < m0 ∧ b.val < m1 then upd (ix2 ⟨a.val, h.1⟩ ⟨b.val, h.2⟩) else x (ix2 a b) := by
  by_cases h : a.val < m0 ∧ b.val < m1
  · rw [dif_pos h]
    refine scatter_apply_hit d x _ upd _ _ (ix2 ⟨a.val, h.1⟩ ⟨b.val, h.2⟩) ?_ ?_
    · exact (resultIdx_pad d hw hi hm0 hm1 _).trans rfl
    · intro j hj
      rw [resultIdx_pad d hw hi hm0 hm1] at hj
      have hj' := Option.some.inj hj
      have e0 : (j 0).val = a.val := congrArg (fun i : (⟨2, ![n0, n1]⟩ : Shape).Idx => (i 0).val) hj'
      have e1 : (j 1).val = b.val := congrArg (fun i : (⟨2, ![n0, n1]⟩ : Shape).Idx => (i 1).val) hj'
      congr 1
      rw [eq_ix2 j]
      congr 1 <;> exact Fin.ext (by assumption)
  · rw [dif_neg h]
    refine scatter_apply_miss d x _ upd _ ?_
    intro j hj
    rw [resultIdx_pad d hw hi hm0 hm1] at hj
    have hj' := Option.some.inj hj
    have e0 : (j 0).val = a.val := congrArg (fun i : (⟨2, ![n0, n1]⟩ : Shape).Idx => (i 0).val) hj'
    have e1 : (j 1).val = b.val := congrArg (fun i : (⟨2, ![n0, n1]⟩ : Shape).Idx => (i 1).val) hj'
    have h0 : (j 0).val < m0 := (j 0).isLt
    have h1 : (j 1).val < m1 := (j 1).isLt
    exact h ⟨by omega, by omega⟩

end Scatter

/-! ## Stretch 0 -/

section Generic
variable {F : FTy → Type} [FloatOps F] (V : Valuation τ sig (Elt F))

/-- The buffers stretch 0 writes. -/
def ops0_W : List (Ref sig .tc) :=
  [main_cst, main_v0, main_c, main_v1, main_v2, main_v3, main_v4, main_cst_0, main_v5, main_c_1, main_v6, main_v7, main_v8,
   main_cst_2, main_v9, main_c_3, main_v10, main_v11, main_v12, main_v13, main_v14, main_v15, main_v16, main_v17, main_v18, main_v19]

theorem ops0_writes : (ops0 (F := F)).Forall fun op => op.writes ⊆ (ops0_W.map (Proc.devRef (τ := τ) .tc)).toFinset := by
  simp only [ops0, List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer stretch 0 does not write keeps its contents. -/
theorem ops0_keep (r : Ref sig .tc) (h : r ∉ ops0_W) :
    StableHlo.after (ops0 (F := F)) V (Proc.devRef .tc r) = V (Proc.devRef .tc r) :=
  after_of_writes_sub ops0 V ops0_writes h

/-- The coordinates, padded to 128 columns with zeros. -/
theorem ops0_v2 (n : Fin 10000) (a : Fin 128) :
    StableHlo.after (ops0 (F := F)) V (Proc.devRef .tc main_v2) (ix2 n a)
      = if h : a.val < 3 then V (Proc.devRef .tc main_arg1) (ix2 n ⟨a.val, h⟩) else FloatOps.ofBits (F := F) .f32 0x00000000#32 := by
  have e : StableHlo.after (ops0 (F := F)) V (Proc.devRef .tc main_v2)
      = Host.scatter scatter_S10000x128_S1_S10000x3_01_n_1_0 (fun _ b => b)
          (fun _ => FloatOps.ofBits (F := F) .f32 0x00000000#32) (fun _ => 0#32) (V (Proc.devRef .tc main_arg1)) := by
    unfold ops0; after_results; rfl
  rw [e]
  refine (scatter_pad_apply scatter_S10000x128_S1_S10000x3_01_n_1_0 rfl rfl (by decide) (by decide) _ _ n a).trans ?_
  have hn : n.val < 10000 := n.isLt
  by_cases h : a.val < 3
  · rw [dif_pos h, dif_pos ⟨hn, h⟩]
  · rw [dif_neg h, dif_neg (fun hh => h hh.2)]

/-- The neighbour table, transposed and flattened: entry `10000 k + n` is neighbour `k` of point `n`. -/
theorem ops0_v4 (k : Fin 32) (n : Fin 10000) :
    StableHlo.after (ops0 (F := F)) V (Proc.devRef .tc main_v4) (ix1 ⟨k.val * 10000 + n.val, by have := k.isLt; have := n.isLt; omega⟩)
      = V (Proc.devRef .tc main_arg2) (ix2 n k) := by
  unfold ops0; after_results
  exact (shapeCast_flat_apply _ _ k n).trans (transpose_ix2_apply _ _ k n)

/-- The first weight matrix, padded to 8 rows with zeros. -/
theorem ops0_v7 (a : Fin 8) (j : Fin 64) :
    StableHlo.after (ops0 (F := F)) V (Proc.devRef .tc main_v7) (ix2 a j)
      = if h : a.val < 3 then V (Proc.devRef .tc main_arg3) (ix2 ⟨a.val, h⟩ j) else FloatOps.ofBits (F := F) .f32 0x00000000#32 := by
  have e : StableHlo.after (ops0 (F := F)) V (Proc.devRef .tc main_v7)
      = Host.scatter scatter_S8x64_S1_S3x64_01_n_0_0 (fun _ b => b)
          (fun _ => FloatOps.ofBits (F := F) .f32 0x00000000#32) (fun _ => 0#32) (V (Proc.devRef .tc main_arg3)) := by
    unfold ops0; after_results; rfl
  rw [e]
  refine (scatter_pad_apply scatter_S8x64_S1_S3x64_01_n_0_0 rfl rfl (by decide) (by decide) _ _ a j).trans ?_
  have hj : j.val < 64 := j.isLt
  by_cases h : a.val < 3
  · rw [dif_pos h, dif_pos ⟨h, hj⟩]
  · rw [dif_neg h, dif_neg (fun hh => h hh.1)]

/-- The first bias as one row. -/
theorem ops0_v8 (u : Fin 1) (j : Fin 64) :
    StableHlo.after (ops0 (F := F)) V (Proc.devRef .tc main_v8) (ix2 u j) = V (Proc.devRef .tc main_arg4) (ix1 j) := by
  unfold ops0; after_results
  exact shapeCast_a_1a_apply _ _ u j

/-- The second weight column, padded to 8 columns with zeros (before the format change). -/
theorem ops0_v11 (j : Fin 64) (c : Fin 8) :
    StableHlo.after (ops0 (F := F)) V (Proc.devRef .tc main_v11) (ix2 j c)
      = if h : c.val < 1 then V (Proc.devRef .tc main_arg5) (ix2 j ⟨c.val, h⟩) else FloatOps.ofBits (F := F) .f32 0x00000000#32 := by
  have e : StableHlo.after (ops0 (F := F)) V (Proc.devRef .tc main_v11)
      = Host.scatter scatter_S64x8_S1_S64x1_01_n_1_0 (fun _ b => b)
          (fun _ => FloatOps.ofBits (F := F) .f32 0x00000000#32) (fun _ => 0#32) (V (Proc.devRef .tc main_arg5)) := by
    unfold ops0; after_results; rfl
  rw [e]
  refine (scatter_pad_apply scatter_S64x8_S1_S64x1_01_n_1_0 rfl rfl (by decide) (by decide) _ _ j c).trans ?_
  have hj : j.val < 64 := j.isLt
  by_cases h : c.val < 1
  · rw [dif_pos h, dif_pos ⟨hj, h⟩]
  · rw [dif_neg h, dif_neg (fun hh => h hh.2)]

/-- Argument 8 with a unit axis put in the middle. -/
theorem ops0_v17 (t : Fin 5) (u : Fin 1) (d : Fin 128) :
    StableHlo.after (ops0 (F := F)) V (Proc.devRef .tc main_v17) (ix3 t u d) = V (Proc.devRef .tc main_arg8) (ix2 t d) := by
  unfold ops0; after_results
  exact shapeCast_5x1x128_apply _ _ t u d

/-- Argument 9 with a unit axis put in the middle. -/
theorem ops0_v18 (t : Fin 5) (u : Fin 1) (d : Fin 128) :
    StableHlo.after (ops0 (F := F)) V (Proc.devRef .tc main_v18) (ix3 t u d) = V (Proc.devRef .tc main_arg9) (ix2 t d) := by
  unfold ops0; after_results
  exact shapeCast_5x1x128_apply _ _ t u d

/-- Argument 10 with a unit axis put in the middle. -/
theorem ops0_v19 (t : Fin 5) (u : Fin 1) (d : Fin 128) :
    StableHlo.after (ops0 (F := F)) V (Proc.devRef .tc main_v19) (ix3 t u d) = V (Proc.devRef .tc main_arg10) (ix2 t d) := by
  unfold ops0; after_results
  exact shapeCast_5x1x128_apply _ _ t u d

/-! ## Stretch 1 -/

def ops1_W : List (Ref sig .tc) := [main_v21]

theorem ops1_writes : (ops1 (F := F)).Forall fun op => op.writes ⊆ (ops1_W.map (Proc.devRef (τ := τ) .tc)).toFinset := by
  simp only [ops1, List.Forall]
  repeat' apply And.intro
  all_goals
    simp only [nullary_writes, unary_writes, binary_writes, ternary_writes, quaternary_writes, reshape_writes,
      Finset.singleton_subset_iff, List.mem_toFinset]
    exact List.mem_map_of_mem (by decide)

theorem ops1_keep (r : Ref sig .tc) (h : r ∉ ops1_W) :
    StableHlo.after (ops1 (F := F)) V (Proc.devRef .tc r) = V (Proc.devRef .tc r) :=
  after_of_writes_sub ops1 V ops1_writes h

/-- The gathered rows, regrouped by neighbour slot. -/
theorem ops1_v21 (k : Fin 32) (n : Fin 10000) (c : Fin 128) :
    StableHlo.after (ops1 (F := F)) V (Proc.devRef .tc main_v21) (ix3 k n c)
      = V (Proc.devRef .tc main_v20) (ix2 ⟨k.val * 10000 + n.val, by have := k.isLt; have := n.isLt; omega⟩ c) := by
  unfold ops1; after_results
  exact shapeCast_rows_apply _ _ k n c

/-! ## Stretches 2 to 6: one per step `t = 0 … 4`, alike but for the names -/

def ops2_W : List (Ref sig .tc) :=
  [main_v24, main_v25, main_v26, main_v27, main_v28, main_v29, main_v30, main_v31, main_v32, main_v33, main_v34]

theorem ops2_writes : (ops2 (F := F)).Forall fun op => op.writes ⊆ (ops2_W.map (Proc.devRef (τ := τ) .tc)).toFinset := by
  simp only [ops2, List.Forall]
  repeat' apply And.intro
  all_goals
    simp only [nullary_writes, unary_writes, binary_writes, ternary_writes, quaternary_writes, reshape_writes,
      Finset.singleton_subset_iff, List.mem_toFinset]
    exact List.mem_map_of_mem (by decide)

theorem ops2_keep (r : Ref sig .tc) (h : r ∉ ops2_W) :
    StableHlo.after (ops2 (F := F)) V (Proc.devRef .tc r) = V (Proc.devRef .tc r) :=
  after_of_writes_sub ops2 V ops2_writes h

theorem ops2_v24 (k : Fin 32) (n : Fin 10000) (c : Fin 128) :
    StableHlo.after (ops2 (F := F)) V (Proc.devRef .tc main_v24) (ix3 k n c)
      = V (Proc.devRef .tc main_v23) (ix2 ⟨k.val * 10000 + n.val, by have := k.isLt; have := n.isLt; omega⟩ c) := by
  unfold ops2; after_results
  exact shapeCast_rows_apply _ _ k n c

theorem ops2_v26 (j d : Fin 128) :
    StableHlo.after (ops2 (F := F)) V (Proc.devRef .tc main_v26) (ix2 j d) = V (Proc.devRef .tc main_v14) (ix3 (0 : Fin 5) j d) := by
  unfold ops2; after_results
  exact slice_mat_apply 0 _ _ _ (by decide) j d

theorem ops2_v28 (j d : Fin 128) :
    StableHlo.after (ops2 (F := F)) V (Proc.devRef .tc main_v28) (ix2 j d) = V (Proc.devRef .tc main_v16) (ix3 (0 : Fin 5) j d) := by
  unfold ops2; after_results
  exact slice_mat_apply 0 _ _ _ (by decide) j d

theorem ops2_v30 (u : Fin 1) (d : Fin 128) :
    StableHlo.after (ops2 (F := F)) V (Proc.devRef .tc main_v30) (ix2 u d) = V (Proc.devRef .tc main_v17) (ix3 (0 : Fin 5) (0 : Fin 1) d) := by
  unfold ops2; after_results
  exact slice_row_apply 0 _ _ _ (by decide) u d

theorem ops2_v32 (u : Fin 1) (d : Fin 128) :
    StableHlo.after (ops2 (F := F)) V (Proc.devRef .tc main_v32) (ix2 u d) = V (Proc.devRef .tc main_v18) (ix3 (0 : Fin 5) (0 : Fin 1) d) := by
  unfold ops2; after_results
  exact slice_row_apply 0 _ _ _ (by decide) u d

theorem ops2_v34 (u : Fin 1) (d : Fin 128) :
    StableHlo.after (ops2 (F := F)) V (Proc.devRef .tc main_v34) (ix2 u d) = V (Proc.devRef .tc main_v19) (ix3 (0 : Fin 5) (0 : Fin 1) d) := by
  unfold ops2; after_results
  exact slice_row_apply 0 _ _ _ (by decide) u d

def ops3_W : List (Ref sig .tc) :=
  [main_v37, main_v38, main_v39, main_v40, main_v41, main_v42, main_v43, main_v44, main_v45, main_v46, main_v47]

theorem ops3_writes : (ops3 (F := F)).Forall fun op => op.writes ⊆ (ops3_W.map (Proc.devRef (τ := τ) .tc)).toFinset := by
  simp only [ops3, List.Forall]
  repeat' apply And.intro
  all_goals
    simp only [nullary_writes, unary_writes, binary_writes, ternary_writes, quaternary_writes, reshape_writes,
      Finset.singleton_subset_iff, List.mem_toFinset]
    exact List.mem_map_of_mem (by decide)

theorem ops3_keep (r : Ref sig .tc) (h : r ∉ ops3_W) :
    StableHlo.after (ops3 (F := F)) V (Proc.devRef .tc r) = V (Proc.devRef .tc r) :=
  after_of_writes_sub ops3 V ops3_writes h

theorem ops3_v37 (k : Fin 32) (n : Fin 10000) (c : Fin 128) :
    StableHlo.after (ops3 (F := F)) V (Proc.devRef .tc main_v37) (ix3 k n c)
      = V (Proc.devRef .tc main_v36) (ix2 ⟨k.val * 10000 + n.val, by have := k.isLt; have := n.isLt; omega⟩ c) := by
  unfold ops3; after_results
  exact shapeCast_rows_apply _ _ k n c

theorem ops3_v39 (j d : Fin 128) :
    StableHlo.after (ops3 (F := F)) V (Proc.devRef .tc main_v39) (ix2 j d) = V (Proc.devRef .tc main_v14) (ix3 (1 : Fin 5) j d) := by
  unfold ops3; after_results
  exact slice_mat_apply 1 _ _ _ (by decide) j d

theorem ops3_v41 (j d : Fin 128) :
    StableHlo.after (ops3 (F := F)) V (Proc.devRef .tc main_v41) (ix2 j d) = V (Proc.devRef .tc main_v16) (ix3 (1 : Fin 5) j d) := by
  unfold ops3; after_results
  exact slice_mat_apply 1 _ _ _ (by decide) j d

theorem ops3_v43 (u : Fin 1) (d : Fin 128) :
    StableHlo.after (ops3 (F := F)) V (Proc.devRef .tc main_v43) (ix2 u d) = V (Proc.devRef .tc main_v17) (ix3 (1 : Fin 5) (0 : Fin 1) d) := by
  unfold ops3; after_results
  exact slice_row_apply 1 _ _ _ (by decide) u d

theorem ops3_v45 (u : Fin 1) (d : Fin 128) :
    StableHlo.after (ops3 (F := F)) V (Proc.devRef .tc main_v45) (ix2 u d) = V (Proc.devRef .tc main_v18) (ix3 (1 : Fin 5) (0 : Fin 1) d) := by
  unfold ops3; after_results
  exact slice_row_apply 1 _ _ _ (by decide) u d

theorem ops3_v47 (u : Fin 1) (d : Fin 128) :
    StableHlo.after (ops3 (F := F)) V (Proc.devRef .tc main_v47) (ix2 u d) = V (Proc.devRef .tc main_v19) (ix3 (1 : Fin 5) (0 : Fin 1) d) := by
  unfold ops3; after_results
  exact slice_row_apply 1 _ _ _ (by decide) u d

def ops4_W : List (Ref sig .tc) :=
  [main_v50, main_v51, main_v52, main_v53, main_v54, main_v55, main_v56, main_v57, main_v58, main_v59, main_v60]

theorem ops4_writes : (ops4 (F := F)).Forall fun op => op.writes ⊆ (ops4_W.map (Proc.devRef (τ := τ) .tc)).toFinset := by
  simp only [ops4, List.Forall]
  repeat' apply And.intro
  all_goals
    simp only [nullary_writes, unary_writes, binary_writes, ternary_writes, quaternary_writes, reshape_writes,
      Finset.singleton_subset_iff, List.mem_toFinset]
    exact List.mem_map_of_mem (by decide)

theorem ops4_keep (r : Ref sig .tc) (h : r ∉ ops4_W) :
    StableHlo.after (ops4 (F := F)) V (Proc.devRef .tc r) = V (Proc.devRef .tc r) :=
  after_of_writes_sub ops4 V ops4_writes h

theorem ops4_v50 (k : Fin 32) (n : Fin 10000) (c : Fin 128) :
    StableHlo.after (ops4 (F := F)) V (Proc.devRef .tc main_v50) (ix3 k n c)
      = V (Proc.devRef .tc main_v49) (ix2 ⟨k.val * 10000 + n.val, by have := k.isLt; have := n.isLt; omega⟩ c) := by
  unfold ops4; after_results
  exact shapeCast_rows_apply _ _ k n c

theorem ops4_v52 (j d : Fin 128) :
    StableHlo.after (ops4 (F := F)) V (Proc.devRef .tc main_v52) (ix2 j d) = V (Proc.devRef .tc main_v14) (ix3 (2 : Fin 5) j d) := by
  unfold ops4; after_results
  exact slice_mat_apply 2 _ _ _ (by decide) j d

theorem ops4_v54 (j d : Fin 128) :
    StableHlo.after (ops4 (F := F)) V (Proc.devRef .tc main_v54) (ix2 j d) = V (Proc.devRef .tc main_v16) (ix3 (2 : Fin 5) j d) := by
  unfold ops4; after_results
  exact slice_mat_apply 2 _ _ _ (by decide) j d

theorem ops4_v56 (u : Fin 1) (d : Fin 128) :
    StableHlo.after (ops4 (F := F)) V (Proc.devRef .tc main_v56) (ix2 u d) = V (Proc.devRef .tc main_v17) (ix3 (2 : Fin 5) (0 : Fin 1) d) := by
  unfold ops4; after_results
  exact slice_row_apply 2 _ _ _ (by decide) u d

theorem ops4_v58 (u : Fin 1) (d : Fin 128) :
    StableHlo.after (ops4 (F := F)) V (Proc.devRef .tc main_v58) (ix2 u d) = V (Proc.devRef .tc main_v18) (ix3 (2 : Fin 5) (0 : Fin 1) d) := by
  unfold ops4; after_results
  exact slice_row_apply 2 _ _ _ (by decide) u d

theorem ops4_v60 (u : Fin 1) (d : Fin 128) :
    StableHlo.after (ops4 (F := F)) V (Proc.devRef .tc main_v60) (ix2 u d) = V (Proc.devRef .tc main_v19) (ix3 (2 : Fin 5) (0 : Fin 1) d) := by
  unfold ops4; after_results
  exact slice_row_apply 2 _ _ _ (by decide) u d

def ops5_W : List (Ref sig .tc) :=
  [main_v63, main_v64, main_v65, main_v66, main_v67, main_v68, main_v69, main_v70, main_v71, main_v72, main_v73]

theorem ops5_writes : (ops5 (F := F)).Forall fun op => op.writes ⊆ (ops5_W.map (Proc.devRef (τ := τ) .tc)).toFinset := by
  simp only [ops5, List.Forall]
  repeat' apply And.intro
  all_goals
    simp only [nullary_writes, unary_writes, binary_writes, ternary_writes, quaternary_writes, reshape_writes,
      Finset.singleton_subset_iff, List.mem_toFinset]
    exact List.mem_map_of_mem (by decide)

theorem ops5_keep (r : Ref sig .tc) (h : r ∉ ops5_W) :
    StableHlo.after (ops5 (F := F)) V (Proc.devRef .tc r) = V (Proc.devRef .tc r) :=
  after_of_writes_sub ops5 V ops5_writes h

theorem ops5_v63 (k : Fin 32) (n : Fin 10000) (c : Fin 128) :
    StableHlo.after (ops5 (F := F)) V (Proc.devRef .tc main_v63) (ix3 k n c)
      = V (Proc.devRef .tc main_v62) (ix2 ⟨k.val * 10000 + n.val, by have := k.isLt; have := n.isLt; omega⟩ c) := by
  unfold ops5; after_results
  exact shapeCast_rows_apply _ _ k n c

theorem ops5_v65 (j d : Fin 128) :
    StableHlo.after (ops5 (F := F)) V (Proc.devRef .tc main_v65) (ix2 j d) = V (Proc.devRef .tc main_v14) (ix3 (3 : Fin 5) j d) := by
  unfold ops5; after_results
  exact slice_mat_apply 3 _ _ _ (by decide) j d

theorem ops5_v67 (j d : Fin 128) :
    StableHlo.after (ops5 (F := F)) V (Proc.devRef .tc main_v67) (ix2 j d) = V (Proc.devRef .tc main_v16) (ix3 (3 : Fin 5) j d) := by
  unfold ops5; after_results
  exact slice_mat_apply 3 _ _ _ (by decide) j d

theorem ops5_v69 (u : Fin 1) (d : Fin 128) :
    StableHlo.after (ops5 (F := F)) V (Proc.devRef .tc main_v69) (ix2 u d) = V (Proc.devRef .tc main_v17) (ix3 (3 : Fin 5) (0 : Fin 1) d) := by
  unfold ops5; after_results
  exact slice_row_apply 3 _ _ _ (by decide) u d

theorem ops5_v71 (u : Fin 1) (d : Fin 128) :
    StableHlo.after (ops5 (F := F)) V (Proc.devRef .tc main_v71) (ix2 u d) = V (Proc.devRef .tc main_v18) (ix3 (3 : Fin 5) (0 : Fin 1) d) := by
  unfold ops5; after_results
  exact slice_row_apply 3 _ _ _ (by decide) u d

theorem ops5_v73 (u : Fin 1) (d : Fin 128) :
    StableHlo.after (ops5 (F := F)) V (Proc.devRef .tc main_v73) (ix2 u d) = V (Proc.devRef .tc main_v19) (ix3 (3 : Fin 5) (0 : Fin 1) d) := by
  unfold ops5; after_results
  exact slice_row_apply 3 _ _ _ (by decide) u d

def ops6_W : List (Ref sig .tc) :=
  [main_v76, main_v77, main_v78, main_v79, main_v80, main_v81, main_v82, main_v83, main_v84, main_v85, main_v86]

theorem ops6_writes : (ops6 (F := F)).Forall fun op => op.writes ⊆ (ops6_W.map (Proc.devRef (τ := τ) .tc)).toFinset := by
  simp only [ops6, List.Forall]
  repeat' apply And.intro
  all_goals
    simp only [nullary_writes, unary_writes, binary_writes, ternary_writes, quaternary_writes, reshape_writes,
      Finset.singleton_subset_iff, List.mem_toFinset]
    exact List.mem_map_of_mem (by decide)

theorem ops6_keep (r : Ref sig .tc) (h : r ∉ ops6_W) :
    StableHlo.after (ops6 (F := F)) V (Proc.devRef .tc r) = V (Proc.devRef .tc r) :=
  after_of_writes_sub ops6 V ops6_writes h

theorem ops6_v76 (k : Fin 32) (n : Fin 10000) (c : Fin 128) :
    StableHlo.after (ops6 (F := F)) V (Proc.devRef .tc main_v76) (ix3 k n c)
      = V (Proc.devRef .tc main_v75) (ix2 ⟨k.val * 10000 + n.val, by have := k.isLt; have := n.isLt; omega⟩ c) := by
  unfold ops6; after_results
  exact shapeCast_rows_apply _ _ k n c

theorem ops6_v78 (j d : Fin 128) :
    StableHlo.after (ops6 (F := F)) V (Proc.devRef .tc main_v78) (ix2 j d) = V (Proc.devRef .tc main_v14) (ix3 (4 : Fin 5) j d) := by
  unfold ops6; after_results
  exact slice_mat_apply 4 _ _ _ (by decide) j d

theorem ops6_v80 (j d : Fin 128) :
    StableHlo.after (ops6 (F := F)) V (Proc.devRef .tc main_v80) (ix2 j d) = V (Proc.devRef .tc main_v16) (ix3 (4 : Fin 5) j d) := by
  unfold ops6; after_results
  exact slice_mat_apply 4 _ _ _ (by decide) j d

theorem ops6_v82 (u : Fin 1) (d : Fin 128) :
    StableHlo.after (ops6 (F := F)) V (Proc.devRef .tc main_v82) (ix2 u d) = V (Proc.devRef .tc main_v17) (ix3 (4 : Fin 5) (0 : Fin 1) d) := by
  unfold ops6; after_results
  exact slice_row_apply 4 _ _ _ (by decide) u d

theorem ops6_v84 (u : Fin 1) (d : Fin 128) :
    StableHlo.after (ops6 (F := F)) V (Proc.devRef .tc main_v84) (ix2 u d) = V (Proc.devRef .tc main_v18) (ix3 (4 : Fin 5) (0 : Fin 1) d) := by
  unfold ops6; after_results
  exact slice_row_apply 4 _ _ _ (by decide) u d

theorem ops6_v86 (u : Fin 1) (d : Fin 128) :
    StableHlo.after (ops6 (F := F)) V (Proc.devRef .tc main_v86) (ix2 u d) = V (Proc.devRef .tc main_v19) (ix3 (4 : Fin 5) (0 : Fin 1) d) := by
  unfold ops6; after_results
  exact slice_row_apply 4 _ _ _ (by decide) u d

end Generic

/-! ## Stretch 0 at the extended-real instance: the format change is the identity, the zero pattern is `0` -/

section AtIdeal
variable (V : Valuation τ sig (Elt Ideal))

theorem ops0_v2_ideal (n : Fin 10000) (a : Fin 128) :
    StableHlo.after (ops0 (F := Ideal)) V (Proc.devRef .tc main_v2) (ix2 n a)
      = if h : a.val < 3 then V (Proc.devRef .tc main_arg1) (ix2 n ⟨a.val, h⟩) else (0 : EReal) := by
  rw [ops0_v2]
  split
  · rfl
  · exact Ideal.ofBits_zero_f32

theorem ops0_v7_ideal (a : Fin 8) (j : Fin 64) :
    StableHlo.after (ops0 (F := Ideal)) V (Proc.devRef .tc main_v7) (ix2 a j)
      = if h : a.val < 3 then V (Proc.devRef .tc main_arg3) (ix2 ⟨a.val, h⟩ j) else (0 : EReal) := by
  rw [ops0_v7]
  split
  · rfl
  · exact Ideal.ofBits_zero_f32

/-- The second weight column, padded to 8 columns with zeros, in the narrow format. -/
theorem ops0_v12_ideal (j : Fin 64) (c : Fin 8) :
    StableHlo.after (ops0 (F := Ideal)) V (Proc.devRef .tc main_v12) (ix2 j c)
      = if c.val = 0 then V (Proc.devRef .tc main_arg5) (ix2 j (0 : Fin 1)) else (0 : EReal) := by
  have e : StableHlo.after (ops0 (F := Ideal)) V (Proc.devRef .tc main_v12) (ix2 j c)
      = StableHlo.after (ops0 (F := Ideal)) V (Proc.devRef .tc main_v11) (ix2 j c) := by
    unfold ops0; after_results; rfl
  rw [e, ops0_v11]
  by_cases h : c.val = 0
  · rw [dif_pos (by omega), if_pos h]
    exact congrArg (V (Proc.devRef .tc main_arg5)) (congrArg (ix2 j) (Fin.ext h))
  · rw [dif_neg (by omega), if_neg h]
    exact Ideal.ofBits_zero_f32

/-- The upper halves of the five step matrices, in the narrow format. -/
theorem ops0_v14_ideal (t : Fin 5) (j d : Fin 128) :
    StableHlo.after (ops0 (F := Ideal)) V (Proc.devRef .tc main_v14) (ix3 t j d)
      = V (Proc.devRef .tc main_arg7) (ix3 t ⟨j.val, by have := j.isLt; omega⟩ d) := by
  unfold ops0; after_results
  show extractStridedSlice S5x128x128 ![0, 0, 0] (V (Proc.devRef .tc main_arg7)) slices_S5x256x128_S5x128x128_0_0_0 (ix3 t j d) = _
  exact slice_half_apply 0 _ slices_S5x256x128_S5x128x128_0_0_0 t j d _ (Nat.zero_add _).symm

/-- The lower halves of the five step matrices, in the narrow format. -/
theorem ops0_v16_ideal (t : Fin 5) (j d : Fin 128) :
    StableHlo.after (ops0 (F := Ideal)) V (Proc.devRef .tc main_v16) (ix3 t j d)
      = V (Proc.devRef .tc main_arg7) (ix3 t ⟨128 + j.val, by have := j.isLt; omega⟩ d) := by
  unfold ops0; after_results
  show extractStridedSlice S5x128x128 ![0, 128, 0] (V (Proc.devRef .tc main_arg7)) slices_S5x256x128_S5x128x128_0_128_0 (ix3 t j d) = _
  exact slice_half_apply 128 _ slices_S5x256x128_S5x128x128_0_128_0 t j d _ rfl

end AtIdeal

end Cert.Proof.HostGlue

end
-- ==== Proof.KeepI.lean ====
/-
  What the items of @main leave alone. Between its items the arrays of @main are a chain of valuations: each
  stretch of host operations rewrites the buffers it writes, each call or region one result buffer. A buffer
  an item does not write keeps its contents through it; here that is said item by item, then along the chain
  for the argument arrays, the flattened neighbour table, the per-step weights and the edge weights.
-/
import proofs.«205547_g25623774888366_cont_9to1_713_27_alg».proof.Proof.ValsI
import proofs.«205547_g25623774888366_cont_9to1_713_27_alg».proof.Proof.HostGlue

noncomputable section

namespace Cert.Proof.KeepI

open Idealize.ShloMosaic Idealize.SL.Sem Idealize.ShloMosaic.ValueIdx
open Cert.KernelIdeal Cert.KernelIdeal.Gen Cert.KernelIdeal.MainChain Cert.Proof.ValsI Cert.Proof.HostGlue

variable {F : FTy → Type} [FloatOps F]
variable (m : (ℓ : Loc nD τ sig) → Buf (Elt F) ℓ) (d : Dev nD)

/-! ## One item -/

/-- A buffer stretch 0 does not write is at `Va0` what it was at `V0`. -/
theorem Va0_step (r : Ref sig .tc) (h : r ∉ ops0_W) : Va0 m d (Proc.devRef .tc r) = V0 m d (Proc.devRef .tc r) :=
  ops0_keep (V0 m d) r h

/-- A buffer other than `main_v20` is at `Vb0` what it was at `Va0`. -/
theorem Vb0_step (r : Ref sig .tc) (h : r ≠ main_v20) : Vb0 m d (Proc.devRef .tc r) = Va0 m d (Proc.devRef .tc r) :=
  Function.update_of_ne (StableHlo.devRef_ne_of_ne h) _ _

/-- A buffer stretch 1 does not write is at `Va1` what it was at `Vb0`. -/
theorem Va1_step (r : Ref sig .tc) (h : r ∉ ops1_W) : Va1 m d (Proc.devRef .tc r) = Vb0 m d (Proc.devRef .tc r) :=
  ops1_keep (Vb0 m d) r h

/-- A buffer other than `main_v22` is at `Vr0` what it was at `Va1`. -/
theorem Vr0_step (r : Ref sig .tc) (h : r ≠ main_v22) : Vr0 m d (Proc.devRef .tc r) = Va1 m d (Proc.devRef .tc r) :=
  Function.update_of_ne (StableHlo.devRef_ne_of_ne h) _ _

/-- A buffer other than `main_v23` is at `Vb1` what it was at `Vr0`. -/
theorem Vb1_step (r : Ref sig .tc) (h : r ≠ main_v23) : Vb1 m d (Proc.devRef .tc r) = Vr0 m d (Proc.devRef .tc r) :=
  Function.update_of_ne (StableHlo.devRef_ne_of_ne h) _ _

/-- A buffer stretch 2 does not write is at `Va2` what it was at `Vb1`. -/
theorem Va2_step (r : Ref sig .tc) (h : r ∉ ops2_W) : Va2 m d (Proc.devRef .tc r) = Vb1 m d (Proc.devRef .tc r) :=
  ops2_keep (Vb1 m d) r h

/-- A buffer other than `main_v35` is at `Vr1` what it was at `Va2`. -/
theorem Vr1_step (r : Ref sig .tc) (h : r ≠ main_v35) : Vr1 m d (Proc.devRef .tc r) = Va2 m d (Proc.devRef .tc r) :=
  Function.update_of_ne (StableHlo.devRef_ne_of_ne h) _ _

/-- A buffer other than `main_v36` is at `Vb2` what it was at `Vr1`. -/
theorem Vb2_step (r : Ref sig .tc) (h : r ≠ main_v36) : Vb2 m d (Proc.devRef .tc r) = Vr1 m d (Proc.devRef .tc r) :=
  Function.update_of_ne (StableHlo.devRef_ne_of_ne h) _ _

/-- A buffer stretch 3 does not write is at `Va3` what it was at `Vb2`. -/
theorem Va3_step (r : Ref sig .tc) (h : r ∉ ops3_W) : Va3 m d (Proc.devRef .tc r) = Vb2 m d (Proc.devRef .tc r) :=
  ops3_keep (Vb2 m d) r h

/-- A buffer other than `main_v48` is at `Vr2` what it was at `Va3`. -/
theorem Vr2_step (r : Ref sig .tc) (h : r ≠ main_v48) : Vr2 m d (Proc.devRef .tc r) = Va3 m d (Proc.devRef .tc r) :=
  Function.update_of_ne (StableHlo.devRef_ne_of_ne h) _ _

/-- A buffer other than `main_v49` is at `Vb3` what it was at `Vr2`. -/
theorem Vb3_step (r : Ref sig .tc) (h : r ≠ main_v49) : Vb3 m d (Proc.devRef .tc r) = Vr2 m d (Proc.devRef .tc r) :=
  Function.update_of_ne (StableHlo.devRef_ne_of_ne h) _ _

/-- A buffer stretch 4 does not write is at `Va4` what it was at `Vb3`. -/
theorem Va4_step (r : Ref sig .tc) (h : r ∉ ops4_W) : Va4 m d (Proc.devRef .tc r) = Vb3 m d (Proc.devRef .tc r) :=
  ops4_keep (Vb3 m d) r h

/-- A buffer other than `main_v61` is at `Vr3` what it was at `Va4`. -/
theorem Vr3_step (r : Ref sig .tc) (h : r ≠ main_v61) : Vr3 m d (Proc.devRef .tc r) = Va4 m d (Proc.devRef .tc r) :=
  Function.update_of_ne (StableHlo.devRef_ne_of_ne h) _ _

/-- A buffer other than `main_v62` is at `Vb4` what it was at `Vr3`. -/
theorem Vb4_step (r : Ref sig .tc) (h : r ≠ main_v62) : Vb4 m d (Proc.devRef .tc r) = Vr3 m d (Proc.devRef .tc r) :=
  Function.update_of_ne (StableHlo.devRef_ne_of_ne h) _ _

/-- A buffer stretch 5 does not write is at `Va5` what it was at `Vb4`. -/
theorem Va5_step (r : Ref sig .tc) (h : r ∉ ops5_W) : Va5 m d (Proc.devRef .tc r) = Vb4 m d (Proc.devRef .tc r) :=
  ops5_keep (Vb4 m d) r h

/-- A buffer other than `main_v74` is at `Vr4` what it was at `Va5`. -/
theorem Vr4_step (r : Ref sig .tc) (h : r ≠ main_v74) : Vr4 m d (Proc.devRef .tc r) = Va5 m d (Proc.devRef .tc r) :=
  Function.update_of_ne (StableHlo.devRef_ne_of_ne h) _ _

/-- A buffer other than `main_v75` is at `Vb5` what it was at `Vr4`. -/
theorem Vb5_step (r : Ref sig .tc) (h : r ≠ main_v75) : Vb5 m d (Proc.devRef .tc r) = Vr4 m d (Proc.devRef .tc r) :=
  Function.update_of_ne (StableHlo.devRef_ne_of_ne h) _ _

/-- A buffer stretch 6 does not write is at `Va6` what it was at `Vb5`. -/
theorem Va6_step (r : Ref sig .tc) (h : r ∉ ops6_W) : Va6 m d (Proc.devRef .tc r) = Vb5 m d (Proc.devRef .tc r) :=
  ops6_keep (Vb5 m d) r h

/-- A buffer other than `main_v87` is at `Vr5` what it was at `Va6`. -/
theorem Vr5_step (r : Ref sig .tc) (h : r ≠ main_v87) : Vr5 m d (Proc.devRef .tc r) = Va6 m d (Proc.devRef .tc r) :=
  Function.update_of_ne (StableHlo.devRef_ne_of_ne h) _ _

/-! ## The argument arrays: no item writes one -/

theorem arg0_Va0 : Va0 m d (Proc.devRef .tc main_arg0) = m ((SparseCore.T d : Thread nD τ).loc main_arg0) :=
  (Va0_step m d main_arg0 (by decide)).trans rfl
theorem arg0_Vb0 : Vb0 m d (Proc.devRef .tc main_arg0) = m ((SparseCore.T d : Thread nD τ).loc main_arg0) :=
  (Vb0_step m d main_arg0 (by decide)).trans (arg0_Va0 m d)
theorem arg0_Va1 : Va1 m d (Proc.devRef .tc main_arg0) = m ((SparseCore.T d : Thread nD τ).loc main_arg0) :=
  (Va1_step m d main_arg0 (by decide)).trans (arg0_Vb0 m d)
theorem arg0_Vr0 : Vr0 m d (Proc.devRef .tc main_arg0) = m ((SparseCore.T d : Thread nD τ).loc main_arg0) :=
  (Vr0_step m d main_arg0 (by decide)).trans (arg0_Va1 m d)
theorem arg0_Vb1 : Vb1 m d (Proc.devRef .tc main_arg0) = m ((SparseCore.T d : Thread nD τ).loc main_arg0) :=
  (Vb1_step m d main_arg0 (by decide)).trans (arg0_Vr0 m d)
theorem arg0_Va2 : Va2 m d (Proc.devRef .tc main_arg0) = m ((SparseCore.T d : Thread nD τ).loc main_arg0) :=
  (Va2_step m d main_arg0 (by decide)).trans (arg0_Vb1 m d)
theorem arg0_Vr1 : Vr1 m d (Proc.devRef .tc main_arg0) = m ((SparseCore.T d : Thread nD τ).loc main_arg0) :=
  (Vr1_step m d main_arg0 (by decide)).trans (arg0_Va2 m d)
theorem arg0_Vb2 : Vb2 m d (Proc.devRef .tc main_arg0) = m ((SparseCore.T d : Thread nD τ).loc main_arg0) :=
  (Vb2_step m d main_arg0 (by decide)).trans (arg0_Vr1 m d)
theorem arg0_Va3 : Va3 m d (Proc.devRef .tc main_arg0) = m ((SparseCore.T d : Thread nD τ).loc main_arg0) :=
  (Va3_step m d main_arg0 (by decide)).trans (arg0_Vb2 m d)
theorem arg0_Vr2 : Vr2 m d (Proc.devRef .tc main_arg0) = m ((SparseCore.T d : Thread nD τ).loc main_arg0) :=
  (Vr2_step m d main_arg0 (by decide)).trans (arg0_Va3 m d)
theorem arg0_Vb3 : Vb3 m d (Proc.devRef .tc main_arg0) = m ((SparseCore.T d : Thread nD τ).loc main_arg0) :=
  (Vb3_step m d main_arg0 (by decide)).trans (arg0_Vr2 m d)
theorem arg0_Va4 : Va4 m d (Proc.devRef .tc main_arg0) = m ((SparseCore.T d : Thread nD τ).loc main_arg0) :=
  (Va4_step m d main_arg0 (by decide)).trans (arg0_Vb3 m d)
theorem arg0_Vr3 : Vr3 m d (Proc.devRef .tc main_arg0) = m ((SparseCore.T d : Thread nD τ).loc main_arg0) :=
  (Vr3_step m d main_arg0 (by decide)).trans (arg0_Va4 m d)
theorem arg0_Vb4 : Vb4 m d (Proc.devRef .tc main_arg0) = m ((SparseCore.T d : Thread nD τ).loc main_arg0) :=
  (Vb4_step m d main_arg0 (by decide)).trans (arg0_Vr3 m d)
theorem arg0_Va5 : Va5 m d (Proc.devRef .tc main_arg0) = m ((SparseCore.T d : Thread nD τ).loc main_arg0) :=
  (Va5_step m d main_arg0 (by decide)).trans (arg0_Vb4 m d)
theorem arg0_Vr4 : Vr4 m d (Proc.devRef .tc main_arg0) = m ((SparseCore.T d : Thread nD τ).loc main_arg0) :=
  (Vr4_step m d main_arg0 (by decide)).trans (arg0_Va5 m d)
theorem arg0_Vb5 : Vb5 m d (Proc.devRef .tc main_arg0) = m ((SparseCore.T d : Thread nD τ).loc main_arg0) :=
  (Vb5_step m d main_arg0 (by decide)).trans (arg0_Vr4 m d)
theorem arg0_Va6 : Va6 m d (Proc.devRef .tc main_arg0) = m ((SparseCore.T d : Thread nD τ).loc main_arg0) :=
  (Va6_step m d main_arg0 (by decide)).trans (arg0_Vb5 m d)
theorem arg0_Vr5 : Vr5 m d (Proc.devRef .tc main_arg0) = m ((SparseCore.T d : Thread nD τ).loc main_arg0) :=
  (Vr5_step m d main_arg0 (by decide)).trans (arg0_Va6 m d)

theorem arg1_Va0 : Va0 m d (Proc.devRef .tc main_arg1) = m ((SparseCore.T d : Thread nD τ).loc main_arg1) :=
  (Va0_step m d main_arg1 (by decide)).trans rfl
theorem arg1_Vb0 : Vb0 m d (Proc.devRef .tc main_arg1) = m ((SparseCore.T d : Thread nD τ).loc main_arg1) :=
  (Vb0_step m d main_arg1 (by decide)).trans (arg1_Va0 m d)
theorem arg1_Va1 : Va1 m d (Proc.devRef .tc main_arg1) = m ((SparseCore.T d : Thread nD τ).loc main_arg1) :=
  (Va1_step m d main_arg1 (by decide)).trans (arg1_Vb0 m d)
theorem arg1_Vr0 : Vr0 m d (Proc.devRef .tc main_arg1) = m ((SparseCore.T d : Thread nD τ).loc main_arg1) :=
  (Vr0_step m d main_arg1 (by decide)).trans (arg1_Va1 m d)
theorem arg1_Vb1 : Vb1 m d (Proc.devRef .tc main_arg1) = m ((SparseCore.T d : Thread nD τ).loc main_arg1) :=
  (Vb1_step m d main_arg1 (by decide)).trans (arg1_Vr0 m d)
theorem arg1_Va2 : Va2 m d (Proc.devRef .tc main_arg1) = m ((SparseCore.T d : Thread nD τ).loc main_arg1) :=
  (Va2_step m d main_arg1 (by decide)).trans (arg1_Vb1 m d)
theorem arg1_Vr1 : Vr1 m d (Proc.devRef .tc main_arg1) = m ((SparseCore.T d : Thread nD τ).loc main_arg1) :=
  (Vr1_step m d main_arg1 (by decide)).trans (arg1_Va2 m d)
theorem arg1_Vb2 : Vb2 m d (Proc.devRef .tc main_arg1) = m ((SparseCore.T d : Thread nD τ).loc main_arg1) :=
  (Vb2_step m d main_arg1 (by decide)).trans (arg1_Vr1 m d)
theorem arg1_Va3 : Va3 m d (Proc.devRef .tc main_arg1) = m ((SparseCore.T d : Thread nD τ).loc main_arg1) :=
  (Va3_step m d main_arg1 (by decide)).trans (arg1_Vb2 m d)
theorem arg1_Vr2 : Vr2 m d (Proc.devRef .tc main_arg1) = m ((SparseCore.T d : Thread nD τ).loc main_arg1) :=
  (Vr2_step m d main_arg1 (by decide)).trans (arg1_Va3 m d)
theorem arg1_Vb3 : Vb3 m d (Proc.devRef .tc main_arg1) = m ((SparseCore.T d : Thread nD τ).loc main_arg1) :=
  (Vb3_step m d main_arg1 (by decide)).trans (arg1_Vr2 m d)
theorem arg1_Va4 : Va4 m d (Proc.devRef .tc main_arg1) = m ((SparseCore.T d : Thread nD τ).loc main_arg1) :=
  (Va4_step m d main_arg1 (by decide)).trans (arg1_Vb3 m d)
theorem arg1_Vr3 : Vr3 m d (Proc.devRef .tc main_arg1) = m ((SparseCore.T d : Thread nD τ).loc main_arg1) :=
  (Vr3_step m d main_arg1 (by decide)).trans (arg1_Va4 m d)
theorem arg1_Vb4 : Vb4 m d (Proc.devRef .tc main_arg1) = m ((SparseCore.T d : Thread nD τ).loc main_arg1) :=
  (Vb4_step m d main_arg1 (by decide)).trans (arg1_Vr3 m d)
theorem arg1_Va5 : Va5 m d (Proc.devRef .tc main_arg1) = m ((SparseCore.T d : Thread nD τ).loc main_arg1) :=
  (Va5_step m d main_arg1 (by decide)).trans (arg1_Vb4 m d)
theorem arg1_Vr4 : Vr4 m d (Proc.devRef .tc main_arg1) = m ((SparseCore.T d : Thread nD τ).loc main_arg1) :=
  (Vr4_step m d main_arg1 (by decide)).trans (arg1_Va5 m d)
theorem arg1_Vb5 : Vb5 m d (Proc.devRef .tc main_arg1) = m ((SparseCore.T d : Thread nD τ).loc main_arg1) :=
  (Vb5_step m d main_arg1 (by decide)).trans (arg1_Vr4 m d)
theorem arg1_Va6 : Va6 m d (Proc.devRef .tc main_arg1) = m ((SparseCore.T d : Thread nD τ).loc main_arg1) :=
  (Va6_step m d main_arg1 (by decide)).trans (arg1_Vb5 m d)
theorem arg1_Vr5 : Vr5 m d (Proc.devRef .tc main_arg1) = m ((SparseCore.T d : Thread nD τ).loc main_arg1) :=
  (Vr5_step m d main_arg1 (by decide)).trans (arg1_Va6 m d)

theorem arg2_Va0 : Va0 m d (Proc.devRef .tc main_arg2) = m ((SparseCore.T d : Thread nD τ).loc main_arg2) :=
  (Va0_step m d main_arg2 (by decide)).trans rfl
theorem arg2_Vb0 : Vb0 m d (Proc.devRef .tc main_arg2) = m ((SparseCore.T d : Thread nD τ).loc main_arg2) :=
  (Vb0_step m d main_arg2 (by decide)).trans (arg2_Va0 m d)
theorem arg2_Va1 : Va1 m d (Proc.devRef .tc main_arg2) = m ((SparseCore.T d : Thread nD τ).loc main_arg2) :=
  (Va1_step m d main_arg2 (by decide)).trans (arg2_Vb0 m d)
theorem arg2_Vr0 : Vr0 m d (Proc.devRef .tc main_arg2) = m ((SparseCore.T d : Thread nD τ).loc main_arg2) :=
  (Vr0_step m d main_arg2 (by decide)).trans (arg2_Va1 m d)
theorem arg2_Vb1 : Vb1 m d (Proc.devRef .tc main_arg2) = m ((SparseCore.T d : Thread nD τ).loc main_arg2) :=
  (Vb1_step m d main_arg2 (by decide)).trans (arg2_Vr0 m d)
theorem arg2_Va2 : Va2 m d (Proc.devRef .tc main_arg2) = m ((SparseCore.T d : Thread nD τ).loc main_arg2) :=
  (Va2_step m d main_arg2 (by decide)).trans (arg2_Vb1 m d)
theorem arg2_Vr1 : Vr1 m d (Proc.devRef .tc main_arg2) = m ((SparseCore.T d : Thread nD τ).loc main_arg2) :=
  (Vr1_step m d main_arg2 (by decide)).trans (arg2_Va2 m d)
theorem arg2_Vb2 : Vb2 m d (Proc.devRef .tc main_arg2) = m ((SparseCore.T d : Thread nD τ).loc main_arg2) :=
  (Vb2_step m d main_arg2 (by decide)).trans (arg2_Vr1 m d)
theorem arg2_Va3 : Va3 m d (Proc.devRef .tc main_arg2) = m ((SparseCore.T d : Thread nD τ).loc main_arg2) :=
  (Va3_step m d main_arg2 (by decide)).trans (arg2_Vb2 m d)
theorem arg2_Vr2 : Vr2 m d (Proc.devRef .tc main_arg2) = m ((SparseCore.T d : Thread nD τ).loc main_arg2) :=
  (Vr2_step m d main_arg2 (by decide)).trans (arg2_Va3 m d)
theorem arg2_Vb3 : Vb3 m d (Proc.devRef .tc main_arg2) = m ((SparseCore.T d : Thread nD τ).loc main_arg2) :=
  (Vb3_step m d main_arg2 (by decide)).trans (arg2_Vr2 m d)
theorem arg2_Va4 : Va4 m d (Proc.devRef .tc main_arg2) = m ((SparseCore.T d : Thread nD τ).loc main_arg2) :=
  (Va4_step m d main_arg2 (by decide)).trans (arg2_Vb3 m d)
theorem arg2_Vr3 : Vr3 m d (Proc.devRef .tc main_arg2) = m ((SparseCore.T d : Thread nD τ).loc main_arg2) :=
  (Vr3_step m d main_arg2 (by decide)).trans (arg2_Va4 m d)
theorem arg2_Vb4 : Vb4 m d (Proc.devRef .tc main_arg2) = m ((SparseCore.T d : Thread nD τ).loc main_arg2) :=
  (Vb4_step m d main_arg2 (by decide)).trans (arg2_Vr3 m d)
theorem arg2_Va5 : Va5 m d (Proc.devRef .tc main_arg2) = m ((SparseCore.T d : Thread nD τ).loc main_arg2) :=
  (Va5_step m d main_arg2 (by decide)).trans (arg2_Vb4 m d)
theorem arg2_Vr4 : Vr4 m d (Proc.devRef .tc main_arg2) = m ((SparseCore.T d : Thread nD τ).loc main_arg2) :=
  (Vr4_step m d main_arg2 (by decide)).trans (arg2_Va5 m d)
theorem arg2_Vb5 : Vb5 m d (Proc.devRef .tc main_arg2) = m ((SparseCore.T d : Thread nD τ).loc main_arg2) :=
  (Vb5_step m d main_arg2 (by decide)).trans (arg2_Vr4 m d)
theorem arg2_Va6 : Va6 m d (Proc.devRef .tc main_arg2) = m ((SparseCore.T d : Thread nD τ).loc main_arg2) :=
  (Va6_step m d main_arg2 (by decide)).trans (arg2_Vb5 m d)
theorem arg2_Vr5 : Vr5 m d (Proc.devRef .tc main_arg2) = m ((SparseCore.T d : Thread nD τ).loc main_arg2) :=
  (Vr5_step m d main_arg2 (by decide)).trans (arg2_Va6 m d)

theorem arg3_Va0 : Va0 m d (Proc.devRef .tc main_arg3) = m ((SparseCore.T d : Thread nD τ).loc main_arg3) :=
  (Va0_step m d main_arg3 (by decide)).trans rfl
theorem arg3_Vb0 : Vb0 m d (Proc.devRef .tc main_arg3) = m ((SparseCore.T d : Thread nD τ).loc main_arg3) :=
  (Vb0_step m d main_arg3 (by decide)).trans (arg3_Va0 m d)
theorem arg3_Va1 : Va1 m d (Proc.devRef .tc main_arg3) = m ((SparseCore.T d : Thread nD τ).loc main_arg3) :=
  (Va1_step m d main_arg3 (by decide)).trans (arg3_Vb0 m d)
theorem arg3_Vr0 : Vr0 m d (Proc.devRef .tc main_arg3) = m ((SparseCore.T d : Thread nD τ).loc main_arg3) :=
  (Vr0_step m d main_arg3 (by decide)).trans (arg3_Va1 m d)
theorem arg3_Vb1 : Vb1 m d (Proc.devRef .tc main_arg3) = m ((SparseCore.T d : Thread nD τ).loc main_arg3) :=
  (Vb1_step m d main_arg3 (by decide)).trans (arg3_Vr0 m d)
theorem arg3_Va2 : Va2 m d (Proc.devRef .tc main_arg3) = m ((SparseCore.T d : Thread nD τ).loc main_arg3) :=
  (Va2_step m d main_arg3 (by decide)).trans (arg3_Vb1 m d)
theorem arg3_Vr1 : Vr1 m d (Proc.devRef .tc main_arg3) = m ((SparseCore.T d : Thread nD τ).loc main_arg3) :=
  (Vr1_step m d main_arg3 (by decide)).trans (arg3_Va2 m d)
theorem arg3_Vb2 : Vb2 m d (Proc.devRef .tc main_arg3) = m ((SparseCore.T d : Thread nD τ).loc main_arg3) :=
  (Vb2_step m d main_arg3 (by decide)).trans (arg3_Vr1 m d)
theorem arg3_Va3 : Va3 m d (Proc.devRef .tc main_arg3) = m ((SparseCore.T d : Thread nD τ).loc main_arg3) :=
  (Va3_step m d main_arg3 (by decide)).trans (arg3_Vb2 m d)
theorem arg3_Vr2 : Vr2 m d (Proc.devRef .tc main_arg3) = m ((SparseCore.T d : Thread nD τ).loc main_arg3) :=
  (Vr2_step m d main_arg3 (by decide)).trans (arg3_Va3 m d)
theorem arg3_Vb3 : Vb3 m d (Proc.devRef .tc main_arg3) = m ((SparseCore.T d : Thread nD τ).loc main_arg3) :=
  (Vb3_step m d main_arg3 (by decide)).trans (arg3_Vr2 m d)
theorem arg3_Va4 : Va4 m d (Proc.devRef .tc main_arg3) = m ((SparseCore.T d : Thread nD τ).loc main_arg3) :=
  (Va4_step m d main_arg3 (by decide)).trans (arg3_Vb3 m d)
theorem arg3_Vr3 : Vr3 m d (Proc.devRef .tc main_arg3) = m ((SparseCore.T d : Thread nD τ).loc main_arg3) :=
  (Vr3_step m d main_arg3 (by decide)).trans (arg3_Va4 m d)
theorem arg3_Vb4 : Vb4 m d (Proc.devRef .tc main_arg3) = m ((SparseCore.T d : Thread nD τ).loc main_arg3) :=
  (Vb4_step m d main_arg3 (by decide)).trans (arg3_Vr3 m d)
theorem arg3_Va5 : Va5 m d (Proc.devRef .tc main_arg3) = m ((SparseCore.T d : Thread nD τ).loc main_arg3) :=
  (Va5_step m d main_arg3 (by decide)).trans (arg3_Vb4 m d)
theorem arg3_Vr4 : Vr4 m d (Proc.devRef .tc main_arg3) = m ((SparseCore.T d : Thread nD τ).loc main_arg3) :=
  (Vr4_step m d main_arg3 (by decide)).trans (arg3_Va5 m d)
theorem arg3_Vb5 : Vb5 m d (Proc.devRef .tc main_arg3) = m ((SparseCore.T d : Thread nD τ).loc main_arg3) :=
  (Vb5_step m d main_arg3 (by decide)).trans (arg3_Vr4 m d)
theorem arg3_Va6 : Va6 m d (Proc.devRef .tc main_arg3) = m ((SparseCore.T d : Thread nD τ).loc main_arg3) :=
  (Va6_step m d main_arg3 (by decide)).trans (arg3_Vb5 m d)
theorem arg3_Vr5 : Vr5 m d (Proc.devRef .tc main_arg3) = m ((SparseCore.T d : Thread nD τ).loc main_arg3) :=
  (Vr5_step m d main_arg3 (by decide)).trans (arg3_Va6 m d)

theorem arg4_Va0 : Va0 m d (Proc.devRef .tc main_arg4) = m ((SparseCore.T d : Thread nD τ).loc main_arg4) :=
  (Va0_step m d main_arg4 (by decide)).trans rfl
theorem arg4_Vb0 : Vb0 m d (Proc.devRef .tc main_arg4) = m ((SparseCore.T d : Thread nD τ).loc main_arg4) :=
  (Vb0_step m d main_arg4 (by decide)).trans (arg4_Va0 m d)
theorem arg4_Va1 : Va1 m d (Proc.devRef .tc main_arg4) = m ((SparseCore.T d : Thread nD τ).loc main_arg4) :=
  (Va1_step m d main_arg4 (by decide)).trans (arg4_Vb0 m d)
theorem arg4_Vr0 : Vr0 m d (Proc.devRef .tc main_arg4) = m ((SparseCore.T d : Thread nD τ).loc main_arg4) :=
  (Vr0_step m d main_arg4 (by decide)).trans (arg4_Va1 m d)
theorem arg4_Vb1 : Vb1 m d (Proc.devRef .tc main_arg4) = m ((SparseCore.T d : Thread nD τ).loc main_arg4) :=
  (Vb1_step m d main_arg4 (by decide)).trans (arg4_Vr0 m d)
theorem arg4_Va2 : Va2 m d (Proc.devRef .tc main_arg4) = m ((SparseCore.T d : Thread nD τ).loc main_arg4) :=
  (Va2_step m d main_arg4 (by decide)).trans (arg4_Vb1 m d)
theorem arg4_Vr1 : Vr1 m d (Proc.devRef .tc main_arg4) = m ((SparseCore.T d : Thread nD τ).loc main_arg4) :=
  (Vr1_step m d main_arg4 (by decide)).trans (arg4_Va2 m d)
theorem arg4_Vb2 : Vb2 m d (Proc.devRef .tc main_arg4) = m ((SparseCore.T d : Thread nD τ).loc main_arg4) :=
  (Vb2_step m d main_arg4 (by decide)).trans (arg4_Vr1 m d)
theorem arg4_Va3 : Va3 m d (Proc.devRef .tc main_arg4) = m ((SparseCore.T d : Thread nD τ).loc main_arg4) :=
  (Va3_step m d main_arg4 (by decide)).trans (arg4_Vb2 m d)
theorem arg4_Vr2 : Vr2 m d (Proc.devRef .tc main_arg4) = m ((SparseCore.T d : Thread nD τ).loc main_arg4) :=
  (Vr2_step m d main_arg4 (by decide)).trans (arg4_Va3 m d)
theorem arg4_Vb3 : Vb3 m d (Proc.devRef .tc main_arg4) = m ((SparseCore.T d : Thread nD τ).loc main_arg4) :=
  (Vb3_step m d main_arg4 (by decide)).trans (arg4_Vr2 m d)
theorem arg4_Va4 : Va4 m d (Proc.devRef .tc main_arg4) = m ((SparseCore.T d : Thread nD τ).loc main_arg4) :=
  (Va4_step m d main_arg4 (by decide)).trans (arg4_Vb3 m d)
theorem arg4_Vr3 : Vr3 m d (Proc.devRef .tc main_arg4) = m ((SparseCore.T d : Thread nD τ).loc main_arg4) :=
  (Vr3_step m d main_arg4 (by decide)).trans (arg4_Va4 m d)
theorem arg4_Vb4 : Vb4 m d (Proc.devRef .tc main_arg4) = m ((SparseCore.T d : Thread nD τ).loc main_arg4) :=
  (Vb4_step m d main_arg4 (by decide)).trans (arg4_Vr3 m d)
theorem arg4_Va5 : Va5 m d (Proc.devRef .tc main_arg4) = m ((SparseCore.T d : Thread nD τ).loc main_arg4) :=
  (Va5_step m d main_arg4 (by decide)).trans (arg4_Vb4 m d)
theorem arg4_Vr4 : Vr4 m d (Proc.devRef .tc main_arg4) = m ((SparseCore.T d : Thread nD τ).loc main_arg4) :=
  (Vr4_step m d main_arg4 (by decide)).trans (arg4_Va5 m d)
theorem arg4_Vb5 : Vb5 m d (Proc.devRef .tc main_arg4) = m ((SparseCore.T d : Thread nD τ).loc main_arg4) :=
  (Vb5_step m d main_arg4 (by decide)).trans (arg4_Vr4 m d)
theorem arg4_Va6 : Va6 m d (Proc.devRef .tc main_arg4) = m ((SparseCore.T d : Thread nD τ).loc main_arg4) :=
  (Va6_step m d main_arg4 (by decide)).trans (arg4_Vb5 m d)
theorem arg4_Vr5 : Vr5 m d (Proc.devRef .tc main_arg4) = m ((SparseCore.T d : Thread nD τ).loc main_arg4) :=
  (Vr5_step m d main_arg4 (by decide)).trans (arg4_Va6 m d)

theorem arg5_Va0 : Va0 m d (Proc.devRef .tc main_arg5) = m ((SparseCore.T d : Thread nD τ).loc main_arg5) :=
  (Va0_step m d main_arg5 (by decide)).trans rfl
theorem arg5_Vb0 : Vb0 m d (Proc.devRef .tc main_arg5) = m ((SparseCore.T d : Thread nD τ).loc main_arg5) :=
  (Vb0_step m d main_arg5 (by decide)).trans (arg5_Va0 m d)
theorem arg5_Va1 : Va1 m d (Proc.devRef .tc main_arg5) = m ((SparseCore.T d : Thread nD τ).loc main_arg5) :=
  (Va1_step m d main_arg5 (by decide)).trans (arg5_Vb0 m d)
theorem arg5_Vr0 : Vr0 m d (Proc.devRef .tc main_arg5) = m ((SparseCore.T d : Thread nD τ).loc main_arg5) :=
  (Vr0_step m d main_arg5 (by decide)).trans (arg5_Va1 m d)
theorem arg5_Vb1 : Vb1 m d (Proc.devRef .tc main_arg5) = m ((SparseCore.T d : Thread nD τ).loc main_arg5) :=
  (Vb1_step m d main_arg5 (by decide)).trans (arg5_Vr0 m d)
theorem arg5_Va2 : Va2 m d (Proc.devRef .tc main_arg5) = m ((SparseCore.T d : Thread nD τ).loc main_arg5) :=
  (Va2_step m d main_arg5 (by decide)).trans (arg5_Vb1 m d)
theorem arg5_Vr1 : Vr1 m d (Proc.devRef .tc main_arg5) = m ((SparseCore.T d : Thread nD τ).loc main_arg5) :=
  (Vr1_step m d main_arg5 (by decide)).trans (arg5_Va2 m d)
theorem arg5_Vb2 : Vb2 m d (Proc.devRef .tc main_arg5) = m ((SparseCore.T d : Thread nD τ).loc main_arg5) :=
  (Vb2_step m d main_arg5 (by decide)).trans (arg5_Vr1 m d)
theorem arg5_Va3 : Va3 m d (Proc.devRef .tc main_arg5) = m ((SparseCore.T d : Thread nD τ).loc main_arg5) :=
  (Va3_step m d main_arg5 (by decide)).trans (arg5_Vb2 m d)
theorem arg5_Vr2 : Vr2 m d (Proc.devRef .tc main_arg5) = m ((SparseCore.T d : Thread nD τ).loc main_arg5) :=
  (Vr2_step m d main_arg5 (by decide)).trans (arg5_Va3 m d)
theorem arg5_Vb3 : Vb3 m d (Proc.devRef .tc main_arg5) = m ((SparseCore.T d : Thread nD τ).loc main_arg5) :=
  (Vb3_step m d main_arg5 (by decide)).trans (arg5_Vr2 m d)
theorem arg5_Va4 : Va4 m d (Proc.devRef .tc main_arg5) = m ((SparseCore.T d : Thread nD τ).loc main_arg5) :=
  (Va4_step m d main_arg5 (by decide)).trans (arg5_Vb3 m d)
theorem arg5_Vr3 : Vr3 m d (Proc.devRef .tc main_arg5) = m ((SparseCore.T d : Thread nD τ).loc main_arg5) :=
  (Vr3_step m d main_arg5 (by decide)).trans (arg5_Va4 m d)
theorem arg5_Vb4 : Vb4 m d (Proc.devRef .tc main_arg5) = m ((SparseCore.T d : Thread nD τ).loc main_arg5) :=
  (Vb4_step m d main_arg5 (by decide)).trans (arg5_Vr3 m d)
theorem arg5_Va5 : Va5 m d (Proc.devRef .tc main_arg5) = m ((SparseCore.T d : Thread nD τ).loc main_arg5) :=
  (Va5_step m d main_arg5 (by decide)).trans (arg5_Vb4 m d)
theorem arg5_Vr4 : Vr4 m d (Proc.devRef .tc main_arg5) = m ((SparseCore.T d : Thread nD τ).loc main_arg5) :=
  (Vr4_step m d main_arg5 (by decide)).trans (arg5_Va5 m d)
theorem arg5_Vb5 : Vb5 m d (Proc.devRef .tc main_arg5) = m ((SparseCore.T d : Thread nD τ).loc main_arg5) :=
  (Vb5_step m d main_arg5 (by decide)).trans (arg5_Vr4 m d)
theorem arg5_Va6 : Va6 m d (Proc.devRef .tc main_arg5) = m ((SparseCore.T d : Thread nD τ).loc main_arg5) :=
  (Va6_step m d main_arg5 (by decide)).trans (arg5_Vb5 m d)
theorem arg5_Vr5 : Vr5 m d (Proc.devRef .tc main_arg5) = m ((SparseCore.T d : Thread nD τ).loc main_arg5) :=
  (Vr5_step m d main_arg5 (by decide)).trans (arg5_Va6 m d)

theorem arg6_Va0 : Va0 m d (Proc.devRef .tc main_arg6) = m ((SparseCore.T d : Thread nD τ).loc main_arg6) :=
  (Va0_step m d main_arg6 (by decide)).trans rfl
theorem arg6_Vb0 : Vb0 m d (Proc.devRef .tc main_arg6) = m ((SparseCore.T d : Thread nD τ).loc main_arg6) :=
  (Vb0_step m d main_arg6 (by decide)).trans (arg6_Va0 m d)
theorem arg6_Va1 : Va1 m d (Proc.devRef .tc main_arg6) = m ((SparseCore.T d : Thread nD τ).loc main_arg6) :=
  (Va1_step m d main_arg6 (by decide)).trans (arg6_Vb0 m d)
theorem arg6_Vr0 : Vr0 m d (Proc.devRef .tc main_arg6) = m ((SparseCore.T d : Thread nD τ).loc main_arg6) :=
  (Vr0_step m d main_arg6 (by decide)).trans (arg6_Va1 m d)
theorem arg6_Vb1 : Vb1 m d (Proc.devRef .tc main_arg6) = m ((SparseCore.T d : Thread nD τ).loc main_arg6) :=
  (Vb1_step m d main_arg6 (by decide)).trans (arg6_Vr0 m d)
theorem arg6_Va2 : Va2 m d (Proc.devRef .tc main_arg6) = m ((SparseCore.T d : Thread nD τ).loc main_arg6) :=
  (Va2_step m d main_arg6 (by decide)).trans (arg6_Vb1 m d)
theorem arg6_Vr1 : Vr1 m d (Proc.devRef .tc main_arg6) = m ((SparseCore.T d : Thread nD τ).loc main_arg6) :=
  (Vr1_step m d main_arg6 (by decide)).trans (arg6_Va2 m d)
theorem arg6_Vb2 : Vb2 m d (Proc.devRef .tc main_arg6) = m ((SparseCore.T d : Thread nD τ).loc main_arg6) :=
  (Vb2_step m d main_arg6 (by decide)).trans (arg6_Vr1 m d)
theorem arg6_Va3 : Va3 m d (Proc.devRef .tc main_arg6) = m ((SparseCore.T d : Thread nD τ).loc main_arg6) :=
  (Va3_step m d main_arg6 (by decide)).trans (arg6_Vb2 m d)
theorem arg6_Vr2 : Vr2 m d (Proc.devRef .tc main_arg6) = m ((SparseCore.T d : Thread nD τ).loc main_arg6) :=
  (Vr2_step m d main_arg6 (by decide)).trans (arg6_Va3 m d)
theorem arg6_Vb3 : Vb3 m d (Proc.devRef .tc main_arg6) = m ((SparseCore.T d : Thread nD τ).loc main_arg6) :=
  (Vb3_step m d main_arg6 (by decide)).trans (arg6_Vr2 m d)
theorem arg6_Va4 : Va4 m d (Proc.devRef .tc main_arg6) = m ((SparseCore.T d : Thread nD τ).loc main_arg6) :=
  (Va4_step m d main_arg6 (by decide)).trans (arg6_Vb3 m d)
theorem arg6_Vr3 : Vr3 m d (Proc.devRef .tc main_arg6) = m ((SparseCore.T d : Thread nD τ).loc main_arg6) :=
  (Vr3_step m d main_arg6 (by decide)).trans (arg6_Va4 m d)
theorem arg6_Vb4 : Vb4 m d (Proc.devRef .tc main_arg6) = m ((SparseCore.T d : Thread nD τ).loc main_arg6) :=
  (Vb4_step m d main_arg6 (by decide)).trans (arg6_Vr3 m d)
theorem arg6_Va5 : Va5 m d (Proc.devRef .tc main_arg6) = m ((SparseCore.T d : Thread nD τ).loc main_arg6) :=
  (Va5_step m d main_arg6 (by decide)).trans (arg6_Vb4 m d)
theorem arg6_Vr4 : Vr4 m d (Proc.devRef .tc main_arg6) = m ((SparseCore.T d : Thread nD τ).loc main_arg6) :=
  (Vr4_step m d main_arg6 (by decide)).trans (arg6_Va5 m d)
theorem arg6_Vb5 : Vb5 m d (Proc.devRef .tc main_arg6) = m ((SparseCore.T d : Thread nD τ).loc main_arg6) :=
  (Vb5_step m d main_arg6 (by decide)).trans (arg6_Vr4 m d)
theorem arg6_Va6 : Va6 m d (Proc.devRef .tc main_arg6) = m ((SparseCore.T d : Thread nD τ).loc main_arg6) :=
  (Va6_step m d main_arg6 (by decide)).trans (arg6_Vb5 m d)
theorem arg6_Vr5 : Vr5 m d (Proc.devRef .tc main_arg6) = m ((SparseCore.T d : Thread nD τ).loc main_arg6) :=
  (Vr5_step m d main_arg6 (by decide)).trans (arg6_Va6 m d)

theorem arg7_Va0 : Va0 m d (Proc.devRef .tc main_arg7) = m ((SparseCore.T d : Thread nD τ).loc main_arg7) :=
  (Va0_step m d main_arg7 (by decide)).trans rfl
theorem arg7_Vb0 : Vb0 m d (Proc.devRef .tc main_arg7) = m ((SparseCore.T d : Thread nD τ).loc main_arg7) :=
  (Vb0_step m d main_arg7 (by decide)).trans (arg7_Va0 m d)
theorem arg7_Va1 : Va1 m d (Proc.devRef .tc main_arg7) = m ((SparseCore.T d : Thread nD τ).loc main_arg7) :=
  (Va1_step m d main_arg7 (by decide)).trans (arg7_Vb0 m d)
theorem arg7_Vr0 : Vr0 m d (Proc.devRef .tc main_arg7) = m ((SparseCore.T d : Thread nD τ).loc main_arg7) :=
  (Vr0_step m d main_arg7 (by decide)).trans (arg7_Va1 m d)
theorem arg7_Vb1 : Vb1 m d (Proc.devRef .tc main_arg7) = m ((SparseCore.T d : Thread nD τ).loc main_arg7) :=
  (Vb1_step m d main_arg7 (by decide)).trans (arg7_Vr0 m d)
theorem arg7_Va2 : Va2 m d (Proc.devRef .tc main_arg7) = m ((SparseCore.T d : Thread nD τ).loc main_arg7) :=
  (Va2_step m d main_arg7 (by decide)).trans (arg7_Vb1 m d)
theorem arg7_Vr1 : Vr1 m d (Proc.devRef .tc main_arg7) = m ((SparseCore.T d : Thread nD τ).loc main_arg7) :=
  (Vr1_step m d main_arg7 (by decide)).trans (arg7_Va2 m d)
theorem arg7_Vb2 : Vb2 m d (Proc.devRef .tc main_arg7) = m ((SparseCore.T d : Thread nD τ).loc main_arg7) :=
  (Vb2_step m d main_arg7 (by decide)).trans (arg7_Vr1 m d)
theorem arg7_Va3 : Va3 m d (Proc.devRef .tc main_arg7) = m ((SparseCore.T d : Thread nD τ).loc main_arg7) :=
  (Va3_step m d main_arg7 (by decide)).trans (arg7_Vb2 m d)
theorem arg7_Vr2 : Vr2 m d (Proc.devRef .tc main_arg7) = m ((SparseCore.T d : Thread nD τ).loc main_arg7) :=
  (Vr2_step m d main_arg7 (by decide)).trans (arg7_Va3 m d)
theorem arg7_Vb3 : Vb3 m d (Proc.devRef .tc main_arg7) = m ((SparseCore.T d : Thread nD τ).loc main_arg7) :=
  (Vb3_step m d main_arg7 (by decide)).trans (arg7_Vr2 m d)
theorem arg7_Va4 : Va4 m d (Proc.devRef .tc main_arg7) = m ((SparseCore.T d : Thread nD τ).loc main_arg7) :=
  (Va4_step m d main_arg7 (by decide)).trans (arg7_Vb3 m d)
theorem arg7_Vr3 : Vr3 m d (Proc.devRef .tc main_arg7) = m ((SparseCore.T d : Thread nD τ).loc main_arg7) :=
  (Vr3_step m d main_arg7 (by decide)).trans (arg7_Va4 m d)
theorem arg7_Vb4 : Vb4 m d (Proc.devRef .tc main_arg7) = m ((SparseCore.T d : Thread nD τ).loc main_arg7) :=
  (Vb4_step m d main_arg7 (by decide)).trans (arg7_Vr3 m d)
theorem arg7_Va5 : Va5 m d (Proc.devRef .tc main_arg7) = m ((SparseCore.T d : Thread nD τ).loc main_arg7) :=
  (Va5_step m d main_arg7 (by decide)).trans (arg7_Vb4 m d)
theorem arg7_Vr4 : Vr4 m d (Proc.devRef .tc main_arg7) = m ((SparseCore.T d : Thread nD τ).loc main_arg7) :=
  (Vr4_step m d main_arg7 (by decide)).trans (arg7_Va5 m d)
theorem arg7_Vb5 : Vb5 m d (Proc.devRef .tc main_arg7) = m ((SparseCore.T d : Thread nD τ).loc main_arg7) :=
  (Vb5_step m d main_arg7 (by decide)).trans (arg7_Vr4 m d)
theorem arg7_Va6 : Va6 m d (Proc.devRef .tc main_arg7) = m ((SparseCore.T d : Thread nD τ).loc main_arg7) :=
  (Va6_step m d main_arg7 (by decide)).trans (arg7_Vb5 m d)
theorem arg7_Vr5 : Vr5 m d (Proc.devRef .tc main_arg7) = m ((SparseCore.T d : Thread nD τ).loc main_arg7) :=
  (Vr5_step m d main_arg7 (by decide)).trans (arg7_Va6 m d)

theorem arg8_Va0 : Va0 m d (Proc.devRef .tc main_arg8) = m ((SparseCore.T d : Thread nD τ).loc main_arg8) :=
  (Va0_step m d main_arg8 (by decide)).trans rfl
theorem arg8_Vb0 : Vb0 m d (Proc.devRef .tc main_arg8) = m ((SparseCore.T d : Thread nD τ).loc main_arg8) :=
  (Vb0_step m d main_arg8 (by decide)).trans (arg8_Va0 m d)
theorem arg8_Va1 : Va1 m d (Proc.devRef .tc main_arg8) = m ((SparseCore.T d : Thread nD τ).loc main_arg8) :=
  (Va1_step m d main_arg8 (by decide)).trans (arg8_Vb0 m d)
theorem arg8_Vr0 : Vr0 m d (Proc.devRef .tc main_arg8) = m ((SparseCore.T d : Thread nD τ).loc main_arg8) :=
  (Vr0_step m d main_arg8 (by decide)).trans (arg8_Va1 m d)
theorem arg8_Vb1 : Vb1 m d (Proc.devRef .tc main_arg8) = m ((SparseCore.T d : Thread nD τ).loc main_arg8) :=
  (Vb1_step m d main_arg8 (by decide)).trans (arg8_Vr0 m d)
theorem arg8_Va2 : Va2 m d (Proc.devRef .tc main_arg8) = m ((SparseCore.T d : Thread nD τ).loc main_arg8) :=
  (Va2_step m d main_arg8 (by decide)).trans (arg8_Vb1 m d)
theorem arg8_Vr1 : Vr1 m d (Proc.devRef .tc main_arg8) = m ((SparseCore.T d : Thread nD τ).loc main_arg8) :=
  (Vr1_step m d main_arg8 (by decide)).trans (arg8_Va2 m d)
theorem arg8_Vb2 : Vb2 m d (Proc.devRef .tc main_arg8) = m ((SparseCore.T d : Thread nD τ).loc main_arg8) :=
  (Vb2_step m d main_arg8 (by decide)).trans (arg8_Vr1 m d)
theorem arg8_Va3 : Va3 m d (Proc.devRef .tc main_arg8) = m ((SparseCore.T d : Thread nD τ).loc main_arg8) :=
  (Va3_step m d main_arg8 (by decide)).trans (arg8_Vb2 m d)
theorem arg8_Vr2 : Vr2 m d (Proc.devRef .tc main_arg8) = m ((SparseCore.T d : Thread nD τ).loc main_arg8) :=
  (Vr2_step m d main_arg8 (by decide)).trans (arg8_Va3 m d)
theorem arg8_Vb3 : Vb3 m d (Proc.devRef .tc main_arg8) = m ((SparseCore.T d : Thread nD τ).loc main_arg8) :=
  (Vb3_step m d main_arg8 (by decide)).trans (arg8_Vr2 m d)
theorem arg8_Va4 : Va4 m d (Proc.devRef .tc main_arg8) = m ((SparseCore.T d : Thread nD τ).loc main_arg8) :=
  (Va4_step m d main_arg8 (by decide)).trans (arg8_Vb3 m d)
theorem arg8_Vr3 : Vr3 m d (Proc.devRef .tc main_arg8) = m ((SparseCore.T d : Thread nD τ).loc main_arg8) :=
  (Vr3_step m d main_arg8 (by decide)).trans (arg8_Va4 m d)
theorem arg8_Vb4 : Vb4 m d (Proc.devRef .tc main_arg8) = m ((SparseCore.T d : Thread nD τ).loc main_arg8) :=
  (Vb4_step m d main_arg8 (by decide)).trans (arg8_Vr3 m d)
theorem arg8_Va5 : Va5 m d (Proc.devRef .tc main_arg8) = m ((SparseCore.T d : Thread nD τ).loc main_arg8) :=
  (Va5_step m d main_arg8 (by decide)).trans (arg8_Vb4 m d)
theorem arg8_Vr4 : Vr4 m d (Proc.devRef .tc main_arg8) = m ((SparseCore.T d : Thread nD τ).loc main_arg8) :=
  (Vr4_step m d main_arg8 (by decide)).trans (arg8_Va5 m d)
theorem arg8_Vb5 : Vb5 m d (Proc.devRef .tc main_arg8) = m ((SparseCore.T d : Thread nD τ).loc main_arg8) :=
  (Vb5_step m d main_arg8 (by decide)).trans (arg8_Vr4 m d)
theorem arg8_Va6 : Va6 m d (Proc.devRef .tc main_arg8) = m ((SparseCore.T d : Thread nD τ).loc main_arg8) :=
  (Va6_step m d main_arg8 (by decide)).trans (arg8_Vb5 m d)
theorem arg8_Vr5 : Vr5 m d (Proc.devRef .tc main_arg8) = m ((SparseCore.T d : Thread nD τ).loc main_arg8) :=
  (Vr5_step m d main_arg8 (by decide)).trans (arg8_Va6 m d)

theorem arg9_Va0 : Va0 m d (Proc.devRef .tc main_arg9) = m ((SparseCore.T d : Thread nD τ).loc main_arg9) :=
  (Va0_step m d main_arg9 (by decide)).trans rfl
theorem arg9_Vb0 : Vb0 m d (Proc.devRef .tc main_arg9) = m ((SparseCore.T d : Thread nD τ).loc main_arg9) :=
  (Vb0_step m d main_arg9 (by decide)).trans (arg9_Va0 m d)
theorem arg9_Va1 : Va1 m d (Proc.devRef .tc main_arg9) = m ((SparseCore.T d : Thread nD τ).loc main_arg9) :=
  (Va1_step m d main_arg9 (by decide)).trans (arg9_Vb0 m d)
theorem arg9_Vr0 : Vr0 m d (Proc.devRef .tc main_arg9) = m ((SparseCore.T d : Thread nD τ).loc main_arg9) :=
  (Vr0_step m d main_arg9 (by decide)).trans (arg9_Va1 m d)
theorem arg9_Vb1 : Vb1 m d (Proc.devRef .tc main_arg9) = m ((SparseCore.T d : Thread nD τ).loc main_arg9) :=
  (Vb1_step m d main_arg9 (by decide)).trans (arg9_Vr0 m d)
theorem arg9_Va2 : Va2 m d (Proc.devRef .tc main_arg9) = m ((SparseCore.T d : Thread nD τ).loc main_arg9) :=
  (Va2_step m d main_arg9 (by decide)).trans (arg9_Vb1 m d)
theorem arg9_Vr1 : Vr1 m d (Proc.devRef .tc main_arg9) = m ((SparseCore.T d : Thread nD τ).loc main_arg9) :=
  (Vr1_step m d main_arg9 (by decide)).trans (arg9_Va2 m d)
theorem arg9_Vb2 : Vb2 m d (Proc.devRef .tc main_arg9) = m ((SparseCore.T d : Thread nD τ).loc main_arg9) :=
  (Vb2_step m d main_arg9 (by decide)).trans (arg9_Vr1 m d)
theorem arg9_Va3 : Va3 m d (Proc.devRef .tc main_arg9) = m ((SparseCore.T d : Thread nD τ).loc main_arg9) :=
  (Va3_step m d main_arg9 (by decide)).trans (arg9_Vb2 m d)
theorem arg9_Vr2 : Vr2 m d (Proc.devRef .tc main_arg9) = m ((SparseCore.T d : Thread nD τ).loc main_arg9) :=
  (Vr2_step m d main_arg9 (by decide)).trans (arg9_Va3 m d)
theorem arg9_Vb3 : Vb3 m d (Proc.devRef .tc main_arg9) = m ((SparseCore.T d : Thread nD τ).loc main_arg9) :=
  (Vb3_step m d main_arg9 (by decide)).trans (arg9_Vr2 m d)
theorem arg9_Va4 : Va4 m d (Proc.devRef .tc main_arg9) = m ((SparseCore.T d : Thread nD τ).loc main_arg9) :=
  (Va4_step m d main_arg9 (by decide)).trans (arg9_Vb3 m d)
theorem arg9_Vr3 : Vr3 m d (Proc.devRef .tc main_arg9) = m ((SparseCore.T d : Thread nD τ).loc main_arg9) :=
  (Vr3_step m d main_arg9 (by decide)).trans (arg9_Va4 m d)
theorem arg9_Vb4 : Vb4 m d (Proc.devRef .tc main_arg9) = m ((SparseCore.T d : Thread nD τ).loc main_arg9) :=
  (Vb4_step m d main_arg9 (by decide)).trans (arg9_Vr3 m d)
theorem arg9_Va5 : Va5 m d (Proc.devRef .tc main_arg9) = m ((SparseCore.T d : Thread nD τ).loc main_arg9) :=
  (Va5_step m d main_arg9 (by decide)).trans (arg9_Vb4 m d)
theorem arg9_Vr4 : Vr4 m d (Proc.devRef .tc main_arg9) = m ((SparseCore.T d : Thread nD τ).loc main_arg9) :=
  (Vr4_step m d main_arg9 (by decide)).trans (arg9_Va5 m d)
theorem arg9_Vb5 : Vb5 m d (Proc.devRef .tc main_arg9) = m ((SparseCore.T d : Thread nD τ).loc main_arg9) :=
  (Vb5_step m d main_arg9 (by decide)).trans (arg9_Vr4 m d)
theorem arg9_Va6 : Va6 m d (Proc.devRef .tc main_arg9) = m ((SparseCore.T d : Thread nD τ).loc main_arg9) :=
  (Va6_step m d main_arg9 (by decide)).trans (arg9_Vb5 m d)
theorem arg9_Vr5 : Vr5 m d (Proc.devRef .tc main_arg9) = m ((SparseCore.T d : Thread nD τ).loc main_arg9) :=
  (Vr5_step m d main_arg9 (by decide)).trans (arg9_Va6 m d)

theorem arg10_Va0 : Va0 m d (Proc.devRef .tc main_arg10) = m ((SparseCore.T d : Thread nD τ).loc main_arg10) :=
  (Va0_step m d main_arg10 (by decide)).trans rfl
theorem arg10_Vb0 : Vb0 m d (Proc.devRef .tc main_arg10) = m ((SparseCore.T d : Thread nD τ).loc main_arg10) :=
  (Vb0_step m d main_arg10 (by decide)).trans (arg10_Va0 m d)
theorem arg10_Va1 : Va1 m d (Proc.devRef .tc main_arg10) = m ((SparseCore.T d : Thread nD τ).loc main_arg10) :=
  (Va1_step m d main_arg10 (by decide)).trans (arg10_Vb0 m d)
theorem arg10_Vr0 : Vr0 m d (Proc.devRef .tc main_arg10) = m ((SparseCore.T d : Thread nD τ).loc main_arg10) :=
  (Vr0_step m d main_arg10 (by decide)).trans (arg10_Va1 m d)
theorem arg10_Vb1 : Vb1 m d (Proc.devRef .tc main_arg10) = m ((SparseCore.T d : Thread nD τ).loc main_arg10) :=
  (Vb1_step m d main_arg10 (by decide)).trans (arg10_Vr0 m d)
theorem arg10_Va2 : Va2 m d (Proc.devRef .tc main_arg10) = m ((SparseCore.T d : Thread nD τ).loc main_arg10) :=
  (Va2_step m d main_arg10 (by decide)).trans (arg10_Vb1 m d)
theorem arg10_Vr1 : Vr1 m d (Proc.devRef .tc main_arg10) = m ((SparseCore.T d : Thread nD τ).loc main_arg10) :=
  (Vr1_step m d main_arg10 (by decide)).trans (arg10_Va2 m d)
theorem arg10_Vb2 : Vb2 m d (Proc.devRef .tc main_arg10) = m ((SparseCore.T d : Thread nD τ).loc main_arg10) :=
  (Vb2_step m d main_arg10 (by decide)).trans (arg10_Vr1 m d)
theorem arg10_Va3 : Va3 m d (Proc.devRef .tc main_arg10) = m ((SparseCore.T d : Thread nD τ).loc main_arg10) :=
  (Va3_step m d main_arg10 (by decide)).trans (arg10_Vb2 m d)
theorem arg10_Vr2 : Vr2 m d (Proc.devRef .tc main_arg10) = m ((SparseCore.T d : Thread nD τ).loc main_arg10) :=
  (Vr2_step m d main_arg10 (by decide)).trans (arg10_Va3 m d)
theorem arg10_Vb3 : Vb3 m d (Proc.devRef .tc main_arg10) = m ((SparseCore.T d : Thread nD τ).loc main_arg10) :=
  (Vb3_step m d main_arg10 (by decide)).trans (arg10_Vr2 m d)
theorem arg10_Va4 : Va4 m d (Proc.devRef .tc main_arg10) = m ((SparseCore.T d : Thread nD τ).loc main_arg10) :=
  (Va4_step m d main_arg10 (by decide)).trans (arg10_Vb3 m d)
theorem arg10_Vr3 : Vr3 m d (Proc.devRef .tc main_arg10) = m ((SparseCore.T d : Thread nD τ).loc main_arg10) :=
  (Vr3_step m d main_arg10 (by decide)).trans (arg10_Va4 m d)
theorem arg10_Vb4 : Vb4 m d (Proc.devRef .tc main_arg10) = m ((SparseCore.T d : Thread nD τ).loc main_arg10) :=
  (Vb4_step m d main_arg10 (by decide)).trans (arg10_Vr3 m d)
theorem arg10_Va5 : Va5 m d (Proc.devRef .tc main_arg10) = m ((SparseCore.T d : Thread nD τ).loc main_arg10) :=
  (Va5_step m d main_arg10 (by decide)).trans (arg10_Vb4 m d)
theorem arg10_Vr4 : Vr4 m d (Proc.devRef .tc main_arg10) = m ((SparseCore.T d : Thread nD τ).loc main_arg10) :=
  (Vr4_step m d main_arg10 (by decide)).trans (arg10_Va5 m d)
theorem arg10_Vb5 : Vb5 m d (Proc.devRef .tc main_arg10) = m ((SparseCore.T d : Thread nD τ).loc main_arg10) :=
  (Vb5_step m d main_arg10 (by decide)).trans (arg10_Vr4 m d)
theorem arg10_Va6 : Va6 m d (Proc.devRef .tc main_arg10) = m ((SparseCore.T d : Thread nD τ).loc main_arg10) :=
  (Va6_step m d main_arg10 (by decide)).trans (arg10_Vb5 m d)
theorem arg10_Vr5 : Vr5 m d (Proc.devRef .tc main_arg10) = m ((SparseCore.T d : Thread nD τ).loc main_arg10) :=
  (Vr5_step m d main_arg10 (by decide)).trans (arg10_Va6 m d)

/-! ## The flattened neighbour table: written by stretch 0 only -/

theorem v4_Vb0 : Vb0 m d (Proc.devRef .tc main_v4) = Va0 m d (Proc.devRef .tc main_v4) :=
  Vb0_step m d main_v4 (by decide)
theorem v4_Va1 : Va1 m d (Proc.devRef .tc main_v4) = Va0 m d (Proc.devRef .tc main_v4) :=
  (Va1_step m d main_v4 (by decide)).trans (v4_Vb0 m d)
theorem v4_Vr0 : Vr0 m d (Proc.devRef .tc main_v4) = Va0 m d (Proc.devRef .tc main_v4) :=
  (Vr0_step m d main_v4 (by decide)).trans (v4_Va1 m d)
theorem v4_Vb1 : Vb1 m d (Proc.devRef .tc main_v4) = Va0 m d (Proc.devRef .tc main_v4) :=
  (Vb1_step m d main_v4 (by decide)).trans (v4_Vr0 m d)
theorem v4_Va2 : Va2 m d (Proc.devRef .tc main_v4) = Va0 m d (Proc.devRef .tc main_v4) :=
  (Va2_step m d main_v4 (by decide)).trans (v4_Vb1 m d)
theorem v4_Vr1 : Vr1 m d (Proc.devRef .tc main_v4) = Va0 m d (Proc.devRef .tc main_v4) :=
  (Vr1_step m d main_v4 (by decide)).trans (v4_Va2 m d)
theorem v4_Vb2 : Vb2 m d (Proc.devRef .tc main_v4) = Va0 m d (Proc.devRef .tc main_v4) :=
  (Vb2_step m d main_v4 (by decide)).trans (v4_Vr1 m d)
theorem v4_Va3 : Va3 m d (Proc.devRef .tc main_v4) = Va0 m d (Proc.devRef .tc main_v4) :=
  (Va3_step m d main_v4 (by decide)).trans (v4_Vb2 m d)
theorem v4_Vr2 : Vr2 m d (Proc.devRef .tc main_v4) = Va0 m d (Proc.devRef .tc main_v4) :=
  (Vr2_step m d main_v4 (by decide)).trans (v4_Va3 m d)
theorem v4_Vb3 : Vb3 m d (Proc.devRef .tc main_v4) = Va0 m d (Proc.devRef .tc main_v4) :=
  (Vb3_step m d main_v4 (by decide)).trans (v4_Vr2 m d)
theorem v4_Va4 : Va4 m d (Proc.devRef .tc main_v4) = Va0 m d (Proc.devRef .tc main_v4) :=
  (Va4_step m d main_v4 (by decide)).trans (v4_Vb3 m d)
theorem v4_Vr3 : Vr3 m d (Proc.devRef .tc main_v4) = Va0 m d (Proc.devRef .tc main_v4) :=
  (Vr3_step m d main_v4 (by decide)).trans (v4_Va4 m d)
theorem v4_Vb4 : Vb4 m d (Proc.devRef .tc main_v4) = Va0 m d (Proc.devRef .tc main_v4) :=
  (Vb4_step m d main_v4 (by decide)).trans (v4_Vr3 m d)
theorem v4_Va5 : Va5 m d (Proc.devRef .tc main_v4) = Va0 m d (Proc.devRef .tc main_v4) :=
  (Va5_step m d main_v4 (by decide)).trans (v4_Vb4 m d)
theorem v4_Vr4 : Vr4 m d (Proc.devRef .tc main_v4) = Va0 m d (Proc.devRef .tc main_v4) :=
  (Vr4_step m d main_v4 (by decide)).trans (v4_Va5 m d)
theorem v4_Vb5 : Vb5 m d (Proc.devRef .tc main_v4) = Va0 m d (Proc.devRef .tc main_v4) :=
  (Vb5_step m d main_v4 (by decide)).trans (v4_Vr4 m d)
theorem v4_Va6 : Va6 m d (Proc.devRef .tc main_v4) = Va0 m d (Proc.devRef .tc main_v4) :=
  (Va6_step m d main_v4 (by decide)).trans (v4_Vb5 m d)
theorem v4_Vr5 : Vr5 m d (Proc.devRef .tc main_v4) = Va0 m d (Proc.devRef .tc main_v4) :=
  (Vr5_step m d main_v4 (by decide)).trans (v4_Va6 m d)

/-- When call `q` starts the flattened neighbour table is what stretch 0 made it. -/
theorem idx_keep (q : Fin 6) : Vc m q d (Proc.devRef .tc main_v4) = Va0 m d (Proc.devRef .tc main_v4) := by
  fin_cases q
  · rfl
  · exact v4_Vr0 m d
  · exact v4_Vr1 m d
  · exact v4_Vr2 m d
  · exact v4_Vr3 m d
  · exact v4_Vr4 m d

/-- Every entry of the flattened neighbour table is an entry of the neighbour table: in range if those are. -/
theorem idx_range (h2 : ∀ j, (m ((SparseCore.T d : Thread nD τ).loc main_arg2) j).toNat < 10000) (q : Fin 6) (j : S320000.Idx) :
    (Vc m q d (Proc.devRef .tc main_v4) j).toNat < 10000 := by
  rw [idx_keep m d q]
  have hj : (j 0).val < 320000 := (j 0).isLt
  have ej : j = ix1 ⟨(j 0).val / 10000 * 10000 + (j 0).val % 10000, by omega⟩ := by
    refine (eq_ix1 j).trans ?_
    congr 1
    apply Fin.ext
    show (j 0).val = (j 0).val / 10000 * 10000 + (j 0).val % 10000
    omega
  rw [ej]
  have e := ops0_v4 (V0 m d) (⟨(j 0).val / 10000, by omega⟩ : Fin 32) (⟨(j 0).val % 10000, Nat.mod_lt _ (by decide)⟩ : Fin 10000)
  unfold Va0
  rw [e]
  exact h2 _

/-! ## The padded inputs of region 0: written by stretch 0 only -/

theorem v2_Vb0 : Vb0 m d (Proc.devRef .tc main_v2) = Va0 m d (Proc.devRef .tc main_v2) :=
  Vb0_step m d main_v2 (by decide)
theorem v2_Va1 : Va1 m d (Proc.devRef .tc main_v2) = Va0 m d (Proc.devRef .tc main_v2) :=
  (Va1_step m d main_v2 (by decide)).trans (v2_Vb0 m d)

theorem v7_Vb0 : Vb0 m d (Proc.devRef .tc main_v7) = Va0 m d (Proc.devRef .tc main_v7) :=
  Vb0_step m d main_v7 (by decide)
theorem v7_Va1 : Va1 m d (Proc.devRef .tc main_v7) = Va0 m d (Proc.devRef .tc main_v7) :=
  (Va1_step m d main_v7 (by decide)).trans (v7_Vb0 m d)

theorem v8_Vb0 : Vb0 m d (Proc.devRef .tc main_v8) = Va0 m d (Proc.devRef .tc main_v8) :=
  Vb0_step m d main_v8 (by decide)
theorem v8_Va1 : Va1 m d (Proc.devRef .tc main_v8) = Va0 m d (Proc.devRef .tc main_v8) :=
  (Va1_step m d main_v8 (by decide)).trans (v8_Vb0 m d)

theorem v12_Vb0 : Vb0 m d (Proc.devRef .tc main_v12) = Va0 m d (Proc.devRef .tc main_v12) :=
  Vb0_step m d main_v12 (by decide)
theorem v12_Va1 : Va1 m d (Proc.devRef .tc main_v12) = Va0 m d (Proc.devRef .tc main_v12) :=
  (Va1_step m d main_v12 (by decide)).trans (v12_Vb0 m d)

/-! ## The per-step weights: written by stretch 0 only -/

theorem v14_Vb0 : Vb0 m d (Proc.devRef .tc main_v14) = Va0 m d (Proc.devRef .tc main_v14) :=
  Vb0_step m d main_v14 (by decide)
theorem v14_Va1 : Va1 m d (Proc.devRef .tc main_v14) = Va0 m d (Proc.devRef .tc main_v14) :=
  (Va1_step m d main_v14 (by decide)).trans (v14_Vb0 m d)
theorem v14_Vr0 : Vr0 m d (Proc.devRef .tc main_v14) = Va0 m d (Proc.devRef .tc main_v14) :=
  (Vr0_step m d main_v14 (by decide)).trans (v14_Va1 m d)
theorem v14_Vb1 : Vb1 m d (Proc.devRef .tc main_v14) = Va0 m d (Proc.devRef .tc main_v14) :=
  (Vb1_step m d main_v14 (by decide)).trans (v14_Vr0 m d)
theorem v14_Va2 : Va2 m d (Proc.devRef .tc main_v14) = Va0 m d (Proc.devRef .tc main_v14) :=
  (Va2_step m d main_v14 (by decide)).trans (v14_Vb1 m d)
theorem v14_Vr1 : Vr1 m d (Proc.devRef .tc main_v14) = Va0 m d (Proc.devRef .tc main_v14) :=
  (Vr1_step m d main_v14 (by decide)).trans (v14_Va2 m d)
theorem v14_Vb2 : Vb2 m d (Proc.devRef .tc main_v14) = Va0 m d (Proc.devRef .tc main_v14) :=
  (Vb2_step m d main_v14 (by decide)).trans (v14_Vr1 m d)
theorem v14_Va3 : Va3 m d (Proc.devRef .tc main_v14) = Va0 m d (Proc.devRef .tc main_v14) :=
  (Va3_step m d main_v14 (by decide)).trans (v14_Vb2 m d)
theorem v14_Vr2 : Vr2 m d (Proc.devRef .tc main_v14) = Va0 m d (Proc.devRef .tc main_v14) :=
  (Vr2_step m d main_v14 (by decide)).trans (v14_Va3 m d)
theorem v14_Vb3 : Vb3 m d (Proc.devRef .tc main_v14) = Va0 m d (Proc.devRef .tc main_v14) :=
  (Vb3_step m d main_v14 (by decide)).trans (v14_Vr2 m d)
theorem v14_Va4 : Va4 m d (Proc.devRef .tc main_v14) = Va0 m d (Proc.devRef .tc main_v14) :=
  (Va4_step m d main_v14 (by decide)).trans (v14_Vb3 m d)
theorem v14_Vr3 : Vr3 m d (Proc.devRef .tc main_v14) = Va0 m d (Proc.devRef .tc main_v14) :=
  (Vr3_step m d main_v14 (by decide)).trans (v14_Va4 m d)
theorem v14_Vb4 : Vb4 m d (Proc.devRef .tc main_v14) = Va0 m d (Proc.devRef .tc main_v14) :=
  (Vb4_step m d main_v14 (by decide)).trans (v14_Vr3 m d)
theorem v14_Va5 : Va5 m d (Proc.devRef .tc main_v14) = Va0 m d (Proc.devRef .tc main_v14) :=
  (Va5_step m d main_v14 (by decide)).trans (v14_Vb4 m d)
theorem v14_Vr4 : Vr4 m d (Proc.devRef .tc main_v14) = Va0 m d (Proc.devRef .tc main_v14) :=
  (Vr4_step m d main_v14 (by decide)).trans (v14_Va5 m d)
theorem v14_Vb5 : Vb5 m d (Proc.devRef .tc main_v14) = Va0 m d (Proc.devRef .tc main_v14) :=
  (Vb5_step m d main_v14 (by decide)).trans (v14_Vr4 m d)
theorem v14_Va6 : Va6 m d (Proc.devRef .tc main_v14) = Va0 m d (Proc.devRef .tc main_v14) :=
  (Va6_step m d main_v14 (by decide)).trans (v14_Vb5 m d)

theorem v16_Vb0 : Vb0 m d (Proc.devRef .tc main_v16) = Va0 m d (Proc.devRef .tc main_v16) :=
  Vb0_step m d main_v16 (by decide)
theorem v16_Va1 : Va1 m d (Proc.devRef .tc main_v16) = Va0 m d (Proc.devRef .tc main_v16) :=
  (Va1_step m d main_v16 (by decide)).trans (v16_Vb0 m d)
theorem v16_Vr0 : Vr0 m d (Proc.devRef .tc main_v16) = Va0 m d (Proc.devRef .tc main_v16) :=
  (Vr0_step m d main_v16 (by decide)).trans (v16_Va1 m d)
theorem v16_Vb1 : Vb1 m d (Proc.devRef .tc main_v16) = Va0 m d (Proc.devRef .tc main_v16) :=
  (Vb1_step m d main_v16 (by decide)).trans (v16_Vr0 m d)
theorem v16_Va2 : Va2 m d (Proc.devRef .tc main_v16) = Va0 m d (Proc.devRef .tc main_v16) :=
  (Va2_step m d main_v16 (by decide)).trans (v16_Vb1 m d)
theorem v16_Vr1 : Vr1 m d (Proc.devRef .tc main_v16) = Va0 m d (Proc.devRef .tc main_v16) :=
  (Vr1_step m d main_v16 (by decide)).trans (v16_Va2 m d)
theorem v16_Vb2 : Vb2 m d (Proc.devRef .tc main_v16) = Va0 m d (Proc.devRef .tc main_v16) :=
  (Vb2_step m d main_v16 (by decide)).trans (v16_Vr1 m d)
theorem v16_Va3 : Va3 m d (Proc.devRef .tc main_v16) = Va0 m d (Proc.devRef .tc main_v16) :=
  (Va3_step m d main_v16 (by decide)).trans (v16_Vb2 m d)
theorem v16_Vr2 : Vr2 m d (Proc.devRef .tc main_v16) = Va0 m d (Proc.devRef .tc main_v16) :=
  (Vr2_step m d main_v16 (by decide)).trans (v16_Va3 m d)
theorem v16_Vb3 : Vb3 m d (Proc.devRef .tc main_v16) = Va0 m d (Proc.devRef .tc main_v16) :=
  (Vb3_step m d main_v16 (by decide)).trans (v16_Vr2 m d)
theorem v16_Va4 : Va4 m d (Proc.devRef .tc main_v16) = Va0 m d (Proc.devRef .tc main_v16) :=
  (Va4_step m d main_v16 (by decide)).trans (v16_Vb3 m d)
theorem v16_Vr3 : Vr3 m d (Proc.devRef .tc main_v16) = Va0 m d (Proc.devRef .tc main_v16) :=
  (Vr3_step m d main_v16 (by decide)).trans (v16_Va4 m d)
theorem v16_Vb4 : Vb4 m d (Proc.devRef .tc main_v16) = Va0 m d (Proc.devRef .tc main_v16) :=
  (Vb4_step m d main_v16 (by decide)).trans (v16_Vr3 m d)
theorem v16_Va5 : Va5 m d (Proc.devRef .tc main_v16) = Va0 m d (Proc.devRef .tc main_v16) :=
  (Va5_step m d main_v16 (by decide)).trans (v16_Vb4 m d)
theorem v16_Vr4 : Vr4 m d (Proc.devRef .tc main_v16) = Va0 m d (Proc.devRef .tc main_v16) :=
  (Vr4_step m d main_v16 (by decide)).trans (v16_Va5 m d)
theorem v16_Vb5 : Vb5 m d (Proc.devRef .tc main_v16) = Va0 m d (Proc.devRef .tc main_v16) :=
  (Vb5_step m d main_v16 (by decide)).trans (v16_Vr4 m d)
theorem v16_Va6 : Va6 m d (Proc.devRef .tc main_v16) = Va0 m d (Proc.devRef .tc main_v16) :=
  (Va6_step m d main_v16 (by decide)).trans (v16_Vb5 m d)

theorem v17_Vb0 : Vb0 m d (Proc.devRef .tc main_v17) = Va0 m d (Proc.devRef .tc main_v17) :=
  Vb0_step m d main_v17 (by decide)
theorem v17_Va1 : Va1 m d (Proc.devRef .tc main_v17) = Va0 m d (Proc.devRef .tc main_v17) :=
  (Va1_step m d main_v17 (by decide)).trans (v17_Vb0 m d)
theorem v17_Vr0 : Vr0 m d (Proc.devRef .tc main_v17) = Va0 m d (Proc.devRef .tc main_v17) :=
  (Vr0_step m d main_v17 (by decide)).trans (v17_Va1 m d)
theorem v17_Vb1 : Vb1 m d (Proc.devRef .tc main_v17) = Va0 m d (Proc.devRef .tc main_v17) :=
  (Vb1_step m d main_v17 (by decide)).trans (v17_Vr0 m d)
theorem v17_Va2 : Va2 m d (Proc.devRef .tc main_v17) = Va0 m d (Proc.devRef .tc main_v17) :=
  (Va2_step m d main_v17 (by decide)).trans (v17_Vb1 m d)
theorem v17_Vr1 : Vr1 m d (Proc.devRef .tc main_v17) = Va0 m d (Proc.devRef .tc main_v17) :=
  (Vr1_step m d main_v17 (by decide)).trans (v17_Va2 m d)
theorem v17_Vb2 : Vb2 m d (Proc.devRef .tc main_v17) = Va0 m d (Proc.devRef .tc main_v17) :=
  (Vb2_step m d main_v17 (by decide)).trans (v17_Vr1 m d)
theorem v17_Va3 : Va3 m d (Proc.devRef .tc main_v17) = Va0 m d (Proc.devRef .tc main_v17) :=
  (Va3_step m d main_v17 (by decide)).trans (v17_Vb2 m d)
theorem v17_Vr2 : Vr2 m d (Proc.devRef .tc main_v17) = Va0 m d (Proc.devRef .tc main_v17) :=
  (Vr2_step m d main_v17 (by decide)).trans (v17_Va3 m d)
theorem v17_Vb3 : Vb3 m d (Proc.devRef .tc main_v17) = Va0 m d (Proc.devRef .tc main_v17) :=
  (Vb3_step m d main_v17 (by decide)).trans (v17_Vr2 m d)
theorem v17_Va4 : Va4 m d (Proc.devRef .tc main_v17) = Va0 m d (Proc.devRef .tc main_v17) :=
  (Va4_step m d main_v17 (by decide)).trans (v17_Vb3 m d)
theorem v17_Vr3 : Vr3 m d (Proc.devRef .tc main_v17) = Va0 m d (Proc.devRef .tc main_v17) :=
  (Vr3_step m d main_v17 (by decide)).trans (v17_Va4 m d)
theorem v17_Vb4 : Vb4 m d (Proc.devRef .tc main_v17) = Va0 m d (Proc.devRef .tc main_v17) :=
  (Vb4_step m d main_v17 (by decide)).trans (v17_Vr3 m d)
theorem v17_Va5 : Va5 m d (Proc.devRef .tc main_v17) = Va0 m d (Proc.devRef .tc main_v17) :=
  (Va5_step m d main_v17 (by decide)).trans (v17_Vb4 m d)
theorem v17_Vr4 : Vr4 m d (Proc.devRef .tc main_v17) = Va0 m d (Proc.devRef .tc main_v17) :=
  (Vr4_step m d main_v17 (by decide)).trans (v17_Va5 m d)
theorem v17_Vb5 : Vb5 m d (Proc.devRef .tc main_v17) = Va0 m d (Proc.devRef .tc main_v17) :=
  (Vb5_step m d main_v17 (by decide)).trans (v17_Vr4 m d)
theorem v17_Va6 : Va6 m d (Proc.devRef .tc main_v17) = Va0 m d (Proc.devRef .tc main_v17) :=
  (Va6_step m d main_v17 (by decide)).trans (v17_Vb5 m d)

theorem v18_Vb0 : Vb0 m d (Proc.devRef .tc main_v18) = Va0 m d (Proc.devRef .tc main_v18) :=
  Vb0_step m d main_v18 (by decide)
theorem v18_Va1 : Va1 m d (Proc.devRef .tc main_v18) = Va0 m d (Proc.devRef .tc main_v18) :=
  (Va1_step m d main_v18 (by decide)).trans (v18_Vb0 m d)
theorem v18_Vr0 : Vr0 m d (Proc.devRef .tc main_v18) = Va0 m d (Proc.devRef .tc main_v18) :=
  (Vr0_step m d main_v18 (by decide)).trans (v18_Va1 m d)
theorem v18_Vb1 : Vb1 m d (Proc.devRef .tc main_v18) = Va0 m d (Proc.devRef .tc main_v18) :=
  (Vb1_step m d main_v18 (by decide)).trans (v18_Vr0 m d)
theorem v18_Va2 : Va2 m d (Proc.devRef .tc main_v18) = Va0 m d (Proc.devRef .tc main_v18) :=
  (Va2_step m d main_v18 (by decide)).trans (v18_Vb1 m d)
theorem v18_Vr1 : Vr1 m d (Proc.devRef .tc main_v18) = Va0 m d (Proc.devRef .tc main_v18) :=
  (Vr1_step m d main_v18 (by decide)).trans (v18_Va2 m d)
theorem v18_Vb2 : Vb2 m d (Proc.devRef .tc main_v18) = Va0 m d (Proc.devRef .tc main_v18) :=
  (Vb2_step m d main_v18 (by decide)).trans (v18_Vr1 m d)
theorem v18_Va3 : Va3 m d (Proc.devRef .tc main_v18) = Va0 m d (Proc.devRef .tc main_v18) :=
  (Va3_step m d main_v18 (by decide)).trans (v18_Vb2 m d)
theorem v18_Vr2 : Vr2 m d (Proc.devRef .tc main_v18) = Va0 m d (Proc.devRef .tc main_v18) :=
  (Vr2_step m d main_v18 (by decide)).trans (v18_Va3 m d)
theorem v18_Vb3 : Vb3 m d (Proc.devRef .tc main_v18) = Va0 m d (Proc.devRef .tc main_v18) :=
  (Vb3_step m d main_v18 (by decide)).trans (v18_Vr2 m d)
theorem v18_Va4 : Va4 m d (Proc.devRef .tc main_v18) = Va0 m d (Proc.devRef .tc main_v18) :=
  (Va4_step m d main_v18 (by decide)).trans (v18_Vb3 m d)
theorem v18_Vr3 : Vr3 m d (Proc.devRef .tc main_v18) = Va0 m d (Proc.devRef .tc main_v18) :=
  (Vr3_step m d main_v18 (by decide)).trans (v18_Va4 m d)
theorem v18_Vb4 : Vb4 m d (Proc.devRef .tc main_v18) = Va0 m d (Proc.devRef .tc main_v18) :=
  (Vb4_step m d main_v18 (by decide)).trans (v18_Vr3 m d)
theorem v18_Va5 : Va5 m d (Proc.devRef .tc main_v18) = Va0 m d (Proc.devRef .tc main_v18) :=
  (Va5_step m d main_v18 (by decide)).trans (v18_Vb4 m d)
theorem v18_Vr4 : Vr4 m d (Proc.devRef .tc main_v18) = Va0 m d (Proc.devRef .tc main_v18) :=
  (Vr4_step m d main_v18 (by decide)).trans (v18_Va5 m d)
theorem v18_Vb5 : Vb5 m d (Proc.devRef .tc main_v18) = Va0 m d (Proc.devRef .tc main_v18) :=
  (Vb5_step m d main_v18 (by decide)).trans (v18_Vr4 m d)
theorem v18_Va6 : Va6 m d (Proc.devRef .tc main_v18) = Va0 m d (Proc.devRef .tc main_v18) :=
  (Va6_step m d main_v18 (by decide)).trans (v18_Vb5 m d)

theorem v19_Vb0 : Vb0 m d (Proc.devRef .tc main_v19) = Va0 m d (Proc.devRef .tc main_v19) :=
  Vb0_step m d main_v19 (by decide)
theorem v19_Va1 : Va1 m d (Proc.devRef .tc main_v19) = Va0 m d (Proc.devRef .tc main_v19) :=
  (Va1_step m d main_v19 (by decide)).trans (v19_Vb0 m d)
theorem v19_Vr0 : Vr0 m d (Proc.devRef .tc main_v19) = Va0 m d (Proc.devRef .tc main_v19) :=
  (Vr0_step m d main_v19 (by decide)).trans (v19_Va1 m d)
theorem v19_Vb1 : Vb1 m d (Proc.devRef .tc main_v19) = Va0 m d (Proc.devRef .tc main_v19) :=
  (Vb1_step m d main_v19 (by decide)).trans (v19_Vr0 m d)
theorem v19_Va2 : Va2 m d (Proc.devRef .tc main_v19) = Va0 m d (Proc.devRef .tc main_v19) :=
  (Va2_step m d main_v19 (by decide)).trans (v19_Vb1 m d)
theorem v19_Vr1 : Vr1 m d (Proc.devRef .tc main_v19) = Va0 m d (Proc.devRef .tc main_v19) :=
  (Vr1_step m d main_v19 (by decide)).trans (v19_Va2 m d)
theorem v19_Vb2 : Vb2 m d (Proc.devRef .tc main_v19) = Va0 m d (Proc.devRef .tc main_v19) :=
  (Vb2_step m d main_v19 (by decide)).trans (v19_Vr1 m d)
theorem v19_Va3 : Va3 m d (Proc.devRef .tc main_v19) = Va0 m d (Proc.devRef .tc main_v19) :=
  (Va3_step m d main_v19 (by decide)).trans (v19_Vb2 m d)
theorem v19_Vr2 : Vr2 m d (Proc.devRef .tc main_v19) = Va0 m d (Proc.devRef .tc main_v19) :=
  (Vr2_step m d main_v19 (by decide)).trans (v19_Va3 m d)
theorem v19_Vb3 : Vb3 m d (Proc.devRef .tc main_v19) = Va0 m d (Proc.devRef .tc main_v19) :=
  (Vb3_step m d main_v19 (by decide)).trans (v19_Vr2 m d)
theorem v19_Va4 : Va4 m d (Proc.devRef .tc main_v19) = Va0 m d (Proc.devRef .tc main_v19) :=
  (Va4_step m d main_v19 (by decide)).trans (v19_Vb3 m d)
theorem v19_Vr3 : Vr3 m d (Proc.devRef .tc main_v19) = Va0 m d (Proc.devRef .tc main_v19) :=
  (Vr3_step m d main_v19 (by decide)).trans (v19_Va4 m d)
theorem v19_Vb4 : Vb4 m d (Proc.devRef .tc main_v19) = Va0 m d (Proc.devRef .tc main_v19) :=
  (Vb4_step m d main_v19 (by decide)).trans (v19_Vr3 m d)
theorem v19_Va5 : Va5 m d (Proc.devRef .tc main_v19) = Va0 m d (Proc.devRef .tc main_v19) :=
  (Va5_step m d main_v19 (by decide)).trans (v19_Vb4 m d)
theorem v19_Vr4 : Vr4 m d (Proc.devRef .tc main_v19) = Va0 m d (Proc.devRef .tc main_v19) :=
  (Vr4_step m d main_v19 (by decide)).trans (v19_Va5 m d)
theorem v19_Vb5 : Vb5 m d (Proc.devRef .tc main_v19) = Va0 m d (Proc.devRef .tc main_v19) :=
  (Vb5_step m d main_v19 (by decide)).trans (v19_Vr4 m d)
theorem v19_Va6 : Va6 m d (Proc.devRef .tc main_v19) = Va0 m d (Proc.devRef .tc main_v19) :=
  (Va6_step m d main_v19 (by decide)).trans (v19_Vb5 m d)

/-! ## The edge weights: written by region 0 only -/

theorem v22_Vb1 : Vb1 m d (Proc.devRef .tc main_v22) = Vr0 m d (Proc.devRef .tc main_v22) :=
  Vb1_step m d main_v22 (by decide)
theorem v22_Va2 : Va2 m d (Proc.devRef .tc main_v22) = Vr0 m d (Proc.devRef .tc main_v22) :=
  (Va2_step m d main_v22 (by decide)).trans (v22_Vb1 m d)
theorem v22_Vr1 : Vr1 m d (Proc.devRef .tc main_v22) = Vr0 m d (Proc.devRef .tc main_v22) :=
  (Vr1_step m d main_v22 (by decide)).trans (v22_Va2 m d)
theorem v22_Vb2 : Vb2 m d (Proc.devRef .tc main_v22) = Vr0 m d (Proc.devRef .tc main_v22) :=
  (Vb2_step m d main_v22 (by decide)).trans (v22_Vr1 m d)
theorem v22_Va3 : Va3 m d (Proc.devRef .tc main_v22) = Vr0 m d (Proc.devRef .tc main_v22) :=
  (Va3_step m d main_v22 (by decide)).trans (v22_Vb2 m d)
theorem v22_Vr2 : Vr2 m d (Proc.devRef .tc main_v22) = Vr0 m d (Proc.devRef .tc main_v22) :=
  (Vr2_step m d main_v22 (by decide)).trans (v22_Va3 m d)
theorem v22_Vb3 : Vb3 m d (Proc.devRef .tc main_v22) = Vr0 m d (Proc.devRef .tc main_v22) :=
  (Vb3_step m d main_v22 (by decide)).trans (v22_Vr2 m d)
theorem v22_Va4 : Va4 m d (Proc.devRef .tc main_v22) = Vr0 m d (Proc.devRef .tc main_v22) :=
  (Va4_step m d main_v22 (by decide)).trans (v22_Vb3 m d)
theorem v22_Vr3 : Vr3 m d (Proc.devRef .tc main_v22) = Vr0 m d (Proc.devRef .tc main_v22) :=
  (Vr3_step m d main_v22 (by decide)).trans (v22_Va4 m d)
theorem v22_Vb4 : Vb4 m d (Proc.devRef .tc main_v22) = Vr0 m d (Proc.devRef .tc main_v22) :=
  (Vb4_step m d main_v22 (by decide)).trans (v22_Vr3 m d)
theorem v22_Va5 : Va5 m d (Proc.devRef .tc main_v22) = Vr0 m d (Proc.devRef .tc main_v22) :=
  (Va5_step m d main_v22 (by decide)).trans (v22_Vb4 m d)
theorem v22_Vr4 : Vr4 m d (Proc.devRef .tc main_v22) = Vr0 m d (Proc.devRef .tc main_v22) :=
  (Vr4_step m d main_v22 (by decide)).trans (v22_Va5 m d)
theorem v22_Vb5 : Vb5 m d (Proc.devRef .tc main_v22) = Vr0 m d (Proc.devRef .tc main_v22) :=
  (Vb5_step m d main_v22 (by decide)).trans (v22_Vr4 m d)
theorem v22_Va6 : Va6 m d (Proc.devRef .tc main_v22) = Vr0 m d (Proc.devRef .tc main_v22) :=
  (Va6_step m d main_v22 (by decide)).trans (v22_Vb5 m d)

end Cert.Proof.KeepI

end
-- ==== Proof.EndsI.lean ====
/-
  The launch element of the ghost state, and how the TensorCore's final assertion reads the final memory.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.StepsI
import proofs.«205547_g25623774888366_cont_9to1_713_27_alg».proof.Proof.Steps2I

noncomputable section

namespace Cert.Proof.EndsI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.Proof.StepsI Cert.Proof.Steps2I

variable {F : FTy → Type} [FloatOps F]

local notation "𝕄" => MT nD τ sig (HIx 6) (Elt F) ℕ UU ℕ

variable (Vc : Fin 6 → Dev nD → Valuation τ sig (Elt F))

/-- The launch element: the handshakes' rounds, the pipelines' staging cells' rounds, the transfers' counters at one. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem ghost_eq :
    (bigSep Finset.univ fun d : Dev nD => Ghost (F := F) Finset.univ d)
      = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) := by
  unfold Ghost
  rw [← bigSep_sep']
  exact bigSep_congr fun d _ => bigSep_sep' _ _ _

theorem hu₀ : (ownU (u₀ (F := F)) : sProp 𝕄)
    ⊢ |={Set.univ}=> iprop(BI.own (EH (initOf (K (F := F)).hsCells (K (F := F)).hsToks)) ∗ (bigSep Finset.univ fun d : Dev nD => Ghost (F := F) Finset.univ d)
        ∗ bigSep Finset.univ fun thr : Thread nD τ => bigSep Finset.univ fun q : Fin 6 => (P (F := F) Vc).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (show BI.own (((Emb.inl : Emb UP (UP × Counters)).trans (embR : Emb (UP × Counters) 𝕄)) (initOf (Pipeline.cells (Pipeline.pin (pcfgs (F := F)) adm) cellOf_inj) (Pipeline.launchToks (Pipeline.pin (pcfgs (F := F)) adm) cellOf_inj)))
      ⊢ (BI.own ((EP : Emb UP 𝕄) (initOf (Pipeline.cells (Pipeline.pin (pcfgs (F := F)) adm) cellOf_inj) (Pipeline.launchToks (Pipeline.pin (pcfgs (F := F)) adm) cellOf_inj))) : sProp 𝕄) from by unfold EP; exact .rfl) $$ HP
  imod (Pipeline.fund_ghost (Pipeline.pin (pcfgs (F := F)) adm) EP cellOf_inj) $$ HP' with ⟨Hg, Ht⟩
  imodintro
  isplitl [HH]; · iexact HH
  isplitl [Hg Ht]
  · rw [ghost_eq]
    isplitl [Hg] <;> iassumption
  rw [show (bigSep Finset.univ fun thr : Thread nD τ => bigSep Finset.univ fun q : Fin 6 => (P (F := F) Vc).x q thr) = bigSep Finset.univ fun _ : Thread nD τ => iprop(emp) from
    bigSep_congr fun _ _ => bigSep_emp' _, bigSep_emp']
  iempintro

/-- The TensorCore's arrays at the end, read off the final memory: each holds what the last valuation says. -/
theorem hfin (Vend : Dev nD → Valuation τ sig (Elt F)) (d : Dev nD) (s' : Phys nD τ sig (Elt F)) :
    iprop((held (SparseCore.T d) SS (Vend d) : sProp 𝕄) ∗ SI s')
      ⊢ (⌜∀ b : Ref sig .tc, b.isScoped = false → s'.mem.mem ((SparseCore.T d).loc b) = Vend d (Proc.devRef .tc b)⌝ : sProp 𝕄) := by
  unfold held
  iintro H
  ihave H' := (pointsTo_read_all SS (fun b => (((SparseCore.T d : Thread nD τ).1, b) : Loc nD τ sig)) (Vend d) s') $$ H
  icases H' with ⟨%h, -⟩
  ipureintro; intro b hb; exact h _ (mem_SS hb)

end Cert.Proof.EndsI

end
-- ==== Proof.GatherSplit.lean ====
/-
  Sharing one gather call's arrays among the thirty-two workers, and gathering what they leave.

  The index array and the output are cut into the workers' blocks of rows (pairwise disjoint, covering the
  array); the table is read whole by every worker through one of the thirty-two leaves of the full share halved
  five times. Worker `2 i + c` is vector subcore `i` of SparseCore `c`, so a product over the workers is a
  product over the cores of products over the subcores. After the call every worker's block of the output agrees
  with ONE function of the index array and the table, so the blocks join to the whole output at that function.
-/
import proofs.«205547_g25623774888366_cont_9to1_713_27_alg».proof.Proof.LaunchBase
import Idealize.ShloMosaic.Lib.Tactic

noncomputable section

namespace Cert.Proof.GatherSplit

open Cert.KernelIdeal Cert.KernelIdeal.Gen
open Cert.Proof.LaunchBase
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

/-! ## Workers: thirty-two, two cores of sixteen subcores -/

/-- Worker `2 i + c` is subcore `i` of core `c`. -/
def wEquiv : Fin 2 × Fin 16 ≃ Fin 32 where
  toFun p := wOf p.1 p.2
  invFun w := (⟨w.val % 2, by omega⟩, ⟨w.val / 2, by omega⟩)
  left_inv p := by
    rcases p with ⟨c, i⟩
    refine Prod.ext (Fin.ext ?_) (Fin.ext ?_)
    · show (i.val * 2 + c.val) % 2 = c.val
      omega
    · show (i.val * 2 + c.val) / 2 = i.val
      omega
  right_inv w := by
    refine Fin.ext ?_
    show w.val / 2 * 2 + w.val % 2 = w.val
    omega

/-- A product over the workers, by core and subcore. -/
theorem bigSep_workers (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]
  rfl

/-! ## Shares: a points-to at a share is its leaves' at once -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A share halved `n` times: the points-to at the share is the product of the points-tos at its `2 ^ n` leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- A whole array held in full is the thirty-two workers' shares of it. -/
theorem pointsTo_shares {ℓ : Loc nD τ sig} (f : Buf (Elt F) ℓ) :
    (ℓ ↦{fullShare} f : sProp 𝕄) = bigSep Finset.univ fun w : Fin 32 => ℓ ↦{sh w} f :=
  pointsTo_leaves Finset.univ f 5 fullShare

/-- An array held at a share is its blocks held at that share, the blocks pairwise disjoint and covering it. -/
theorem pointsTo_blocks {ℓ : Loc nD τ sig} (R : Fin 32 → Finset (Idx ℓ))
    (hd : ∀ i ∈ (Finset.univ : Finset (Fin 32)), ∀ j ∈ (Finset.univ : Finset (Fin 32)), i ≠ j → Disjoint (R i) (R j))
    (hc : (Finset.univ : Finset (Fin 32)).biUnion R = Finset.univ) (q : PosShare TreeShare) (f : Buf (Elt F) ℓ) :
    (ℓ ↦{q} f : sProp 𝕄) = bigSep Finset.univ fun w : Fin 32 => ℓ ↦[R w]{q} f := by
  rw [← pointsTo_biUnion Finset.univ (ℓ := ℓ) R hd, hc]

/-! ## The three arrays of a call, at any three locations -/

section Generic

variable {ℓI ℓX ℓO : Loc nD τ sig}

/-- The three arrays of a call, whole, are the workers' triples: each one's block of the index array, its share of
    the table, its block of the output. -/
theorem split_gen (RI : Fin 32 → Finset (Idx ℓI)) (RO : Fin 32 → Finset (Idx ℓO))
    (hId : ∀ i ∈ (Finset.univ : Finset (Fin 32)), ∀ j ∈ (Finset.univ : Finset (Fin 32)), i ≠ j → Disjoint (RI i) (RI j))
    (hIc : (Finset.univ : Finset (Fin 32)).biUnion RI = Finset.univ)
    (hOd : ∀ i ∈ (Finset.univ : Finset (Fin 32)), ∀ j ∈ (Finset.univ : Finset (Fin 32)), i ≠ j → Disjoint (RO i) (RO j))
    (hOc : (Finset.univ : Finset (Fin 32)).biUnion RO = Finset.univ)
    (IDX : Buf (Elt F) ℓI) (TAB : Buf (Elt F) ℓX) (OUT₀ : Buf (Elt F) ℓO) :
    (iprop((ℓI ↦{fullShare} IDX) ∗ (ℓX ↦{fullShare} TAB) ∗ ℓO ↦{fullShare} OUT₀) : sProp 𝕄)
      = bigSep Finset.univ fun c : Fin 2 => bigSep Finset.univ fun i : Fin 16 =>
          iprop((ℓI ↦[RI (wOf c i)]{fullShare} IDX) ∗ (ℓX ↦{sh (wOf c i)} TAB) ∗ ℓO ↦[RO (wOf c i)]{fullShare} OUT₀) := by
  refine Eq.trans ?_ (bigSep_workers (fun w => iprop((ℓI ↦[RI w]{fullShare} IDX) ∗ (ℓX ↦{sh w} TAB) ∗ ℓO ↦[RO w]{fullShare} OUT₀)))
  rw [bigSep_sep', bigSep_sep', ← pointsTo_blocks RI hId hIc, ← pointsTo_blocks RO hOd hOc, ← pointsTo_shares]

/-- The workers' triples after the call — every block of the output at some valuation that agrees on the block
    with the one function `G` — are the three arrays whole, the output at `G`. -/
theorem join_gen (RI : Fin 32 → Finset (Idx ℓI)) (RO : Fin 32 → Finset (Idx ℓO))
    (hId : ∀ i ∈ (Finset.univ : Finset (Fin 32)), ∀ j ∈ (Finset.univ : Finset (Fin 32)), i ≠ j → Disjoint (RI i) (RI j))
    (hIc : (Finset.univ : Finset (Fin 32)).biUnion RI = Finset.univ)
    (hOd : ∀ i ∈ (Finset.univ : Finset (Fin 32)), ∀ j ∈ (Finset.univ : Finset (Fin 32)), i ≠ j → Disjoint (RO i) (RO j))
    (hOc : (Finset.univ : Finset (Fin 32)).biUnion RO = Finset.univ)
    (Spec : Fin 32 → Buf (Elt F) ℓO → Prop) (G : Buf (Elt F) ℓO)
    (hG : ∀ w OUT, Spec w OUT → ∀ x ∈ RO w, OUT x = G x)
    (IDX : Buf (Elt F) ℓI) (TAB : Buf (Elt F) ℓX) :
    (bigSep Finset.univ fun c : Fin 2 => bigSep Finset.univ fun i : Fin 16 =>
        iprop((ℓI ↦[RI (wOf c i)]{fullShare} IDX) ∗ (ℓX ↦{sh (wOf c i)} TAB) ∗ ∃ OUT, ⌜Spec (wOf c i) OUT⌝ ∗ ℓO ↦[RO (wOf c i)]{fullShare} OUT))
      ⊢ (iprop((ℓI ↦{fullShare} IDX) ∗ (ℓX ↦{fullShare} TAB) ∗ ℓO ↦{fullShare} G) : sProp 𝕄) := by
  have step : ∀ w : Fin 32, iprop(∃ OUT, ⌜Spec w OUT⌝ ∗ ℓO ↦[RO w]{fullShare} OUT) ⊢ (ℓO ↦[RO w]{fullShare} G : sProp 𝕄) := by
    intro w
    iintro ⟨%OUT, %h, H⟩
    rw [← pointsTo_congr (hG w OUT h)]
    iexact H
  refine (Entails.of_eq (bigSep_workers (fun w => iprop((ℓI ↦[RI w]{fullShare} IDX) ∗ (ℓX ↦{sh w} TAB) ∗ ∃ OUT, ⌜Spec w OUT⌝ ∗ ℓO ↦[RO w]{fullShare} OUT))).symm).trans ?_
  rw [bigSep_sep', bigSep_sep', ← pointsTo_blocks RI hId hIc, ← pointsTo_shares, pointsTo_blocks RO hOd hOc fullShare G]
  have hO : (bigSep Finset.univ fun w : Fin 32 => iprop(∃ OUT, ⌜Spec w OUT⌝ ∗ ℓO ↦[RO w]{fullShare} OUT))
      ⊢ (bigSep Finset.univ fun w : Fin 32 => ℓO ↦[RO w]{fullShare} G : sProp 𝕄) := bigSep_mono fun w _ => step w
  iintro ⟨Hi, Hx, Ho⟩
  isplitl [Hi]; · iexact Hi
  isplitl [Hx]; · iexact Hx
  iapply hO; iexact Ho

end Generic

/-! ## The rows -/

theorem irows_disjoint : ∀ i ∈ (Finset.univ : Finset (Fin 32)), ∀ j ∈ (Finset.univ : Finset (Fin 32)), i ≠ j → Disjoint (iRowSet i) (iRowSet j) :=
  fun i _ j _ h => Rect.part_disjoint idiv h
theorem orows_disjoint : ∀ i ∈ (Finset.univ : Finset (Fin 32)), ∀ j ∈ (Finset.univ : Finset (Fin 32)), i ≠ j → Disjoint (oRowSet i) (oRowSet j) :=
  fun i _ j _ h => Rect.part_disjoint odiv h
theorem irows_cover : (Finset.univ : Finset (Fin 32)).biUnion iRowSet = Finset.univ := Rect.biUnion_part idiv
theorem orows_cover : (Finset.univ : Finset (Fin 32)).biUnion oRowSet = Finset.univ := Rect.biUnion_part odiv

/-! ## What every worker leaves is one function's values -/

theorem gatherSpec_eq (IDX : S320000.Idx → Elt F .i32) (TAB : S10000x128.Idx → Elt F .f32)
    (hidx : ∀ j, (IDX j).toNat < 10000) (w : Fin 32) (OUT : S320000x128.Idx → Elt F .f32)
    (h : GatherSpec w IDX TAB OUT) : ∀ x ∈ oRowSet w, OUT x = gatherFn IDX TAB x := by
  intro x hx
  have hn := hidx (ValueIdx.ix1 (n := 320000) ⟨(x 0).val, (x 0).isLt⟩)
  unfold gatherFn
  dsimp only
  refine h x (ValueIdx.ix1 (n := 320000) ⟨(x 0).val, (x 0).isLt⟩) _ hx rfl ?_ rfl
  show (dite _ _ _ : Fin 10000).val = _
  rw [dif_pos hn]

/-! ## The six calls: the index array, call `q`'s table and output -/

theorem split0 (d : Dev nD) (IDX : S320000.Idx → Elt F .i32) (TAB : S10000x128.Idx → Elt F .f32) (OUT₀ : S320000x128.Idx → Elt F .f32) :
    (iprop((iLoc d ↦{fullShare} IDX) ∗ (xLoc0 d ↦{fullShare} TAB) ∗ oLoc0 d ↦{fullShare} OUT₀) : sProp 𝕄)
      ⊢ bigSep Finset.univ fun c : Fin 2 => bigSep Finset.univ fun i : Fin 16 =>
          iprop((iLoc d ↦[iRowSet (wOf c i)]{fullShare} IDX) ∗ (xLoc0 d ↦{sh (wOf c i)} TAB) ∗ oLoc0 d ↦[oRowSet (wOf c i)]{fullShare} OUT₀) :=
  Entails.of_eq (split_gen (ℓI := iLoc d) (ℓX := xLoc0 d) (ℓO := oLoc0 d) iRowSet oRowSet irows_disjoint irows_cover orows_disjoint orows_cover IDX TAB OUT₀)

theorem join0 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc0 d ↦{sh (wOf c i)} TAB) ∗ ∃ OUT, ⌜GatherSpec (wOf c i) IDX TAB OUT⌝ ∗ oLoc0 d ↦[oRowSet (wOf c i)]{fullShare} OUT))
      ⊢ (iprop((iLoc d ↦{fullShare} IDX) ∗ (xLoc0 d ↦{fullShare} TAB) ∗ oLoc0 d ↦{fullShare} gatherFn IDX TAB) : sProp 𝕄) :=
  join_gen (ℓI := iLoc d) (ℓX := xLoc0 d) (ℓO := oLoc0 d) iRowSet oRowSet irows_disjoint irows_cover orows_disjoint orows_cover
    (fun w OUT => GatherSpec w IDX TAB OUT) (gatherFn IDX TAB) (gatherSpec_eq IDX TAB hidx) IDX TAB

theorem split1 (d : Dev nD) (IDX : S320000.Idx → Elt F .i32) (TAB : S10000x128.Idx → Elt F .f32) (OUT₀ : S320000x128.Idx → Elt F .f32) :
    (iprop((iLoc d ↦{fullShare} IDX) ∗ (xLoc1 d ↦{fullShare} TAB) ∗ oLoc1 d ↦{fullShare} OUT₀) : sProp 𝕄)
      ⊢ bigSep Finset.univ fun c : Fin 2 => bigSep Finset.univ fun i : Fin 16 =>
          iprop((iLoc d ↦[iRowSet (wOf c i)]{fullShare} IDX) ∗ (xLoc1 d ↦{sh (wOf c i)} TAB) ∗ oLoc1 d ↦[oRowSet (wOf c i)]{fullShare} OUT₀) :=
  Entails.of_eq (split_gen (ℓI := iLoc d) (ℓX := xLoc1 d) (ℓO := oLoc1 d) iRowSet oRowSet irows_disjoint irows_cover orows_disjoint orows_cover IDX TAB OUT₀)

theorem join1 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc1 d ↦{sh (wOf c i)} TAB) ∗ ∃ OUT, ⌜GatherSpec (wOf c i) IDX TAB OUT⌝ ∗ oLoc1 d ↦[oRowSet (wOf c i)]{fullShare} OUT))
      ⊢ (iprop((iLoc d ↦{fullShare} IDX) ∗ (xLoc1 d ↦{fullShare} TAB) ∗ oLoc1 d ↦{fullShare} gatherFn IDX TAB) : sProp 𝕄) :=
  join_gen (ℓI := iLoc d) (ℓX := xLoc1 d) (ℓO := oLoc1 d) iRowSet oRowSet irows_disjoint irows_cover orows_disjoint orows_cover
    (fun w OUT => GatherSpec w IDX TAB OUT) (gatherFn IDX TAB) (gatherSpec_eq IDX TAB hidx) IDX TAB

theorem split2 (d : Dev nD) (IDX : S320000.Idx → Elt F .i32) (TAB : S10000x128.Idx → Elt F .f32) (OUT₀ : S320000x128.Idx → Elt F .f32) :
    (iprop((iLoc d ↦{fullShare} IDX) ∗ (xLoc2 d ↦{fullShare} TAB) ∗ oLoc2 d ↦{fullShare} OUT₀) : sProp 𝕄)
      ⊢ bigSep Finset.univ fun c : Fin 2 => bigSep Finset.univ fun i : Fin 16 =>
          iprop((iLoc d ↦[iRowSet (wOf c i)]{fullShare} IDX) ∗ (xLoc2 d ↦{sh (wOf c i)} TAB) ∗ oLoc2 d ↦[oRowSet (wOf c i)]{fullShare} OUT₀) :=
  Entails.of_eq (split_gen (ℓI := iLoc d) (ℓX := xLoc2 d) (ℓO := oLoc2 d) iRowSet oRowSet irows_disjoint irows_cover orows_disjoint orows_cover IDX TAB OUT₀)

theorem join2 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc2 d ↦{sh (wOf c i)} TAB) ∗ ∃ OUT, ⌜GatherSpec (wOf c i) IDX TAB OUT⌝ ∗ oLoc2 d ↦[oRowSet (wOf c i)]{fullShare} OUT))
      ⊢ (iprop((iLoc d ↦{fullShare} IDX) ∗ (xLoc2 d ↦{fullShare} TAB) ∗ oLoc2 d ↦{fullShare} gatherFn IDX TAB) : sProp 𝕄) :=
  join_gen (ℓI := iLoc d) (ℓX := xLoc2 d) (ℓO := oLoc2 d) iRowSet oRowSet irows_disjoint irows_cover orows_disjoint orows_cover
    (fun w OUT => GatherSpec w IDX TAB OUT) (gatherFn IDX TAB) (gatherSpec_eq IDX TAB hidx) IDX TAB

theorem split3 (d : Dev nD) (IDX : S320000.Idx → Elt F .i32) (TAB : S10000x128.Idx → Elt F .f32) (OUT₀ : S320000x128.Idx → Elt F .f32) :
    (iprop((iLoc d ↦{fullShare} IDX) ∗ (xLoc3 d ↦{fullShare} TAB) ∗ oLoc3 d ↦{fullShare} OUT₀) : sProp 𝕄)
      ⊢ bigSep Finset.univ fun c : Fin 2 => bigSep Finset.univ fun i : Fin 16 =>
          iprop((iLoc d ↦[iRowSet (wOf c i)]{fullShare} IDX) ∗ (xLoc3 d ↦{sh (wOf c i)} TAB) ∗ oLoc3 d ↦[oRowSet (wOf c i)]{fullShare} OUT₀) :=
  Entails.of_eq (split_gen (ℓI := iLoc d) (ℓX := xLoc3 d) (ℓO := oLoc3 d) iRowSet oRowSet irows_disjoint irows_cover orows_disjoint orows_cover IDX TAB OUT₀)

theorem join3 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc3 d ↦{sh (wOf c i)} TAB) ∗ ∃ OUT, ⌜GatherSpec (wOf c i) IDX TAB OUT⌝ ∗ oLoc3 d ↦[oRowSet (wOf c i)]{fullShare} OUT))
      ⊢ (iprop((iLoc d ↦{fullShare} IDX) ∗ (xLoc3 d ↦{fullShare} TAB) ∗ oLoc3 d ↦{fullShare} gatherFn IDX TAB) : sProp 𝕄) :=
  join_gen (ℓI := iLoc d) (ℓX := xLoc3 d) (ℓO := oLoc3 d) iRowSet oRowSet irows_disjoint irows_cover orows_disjoint orows_cover
    (fun w OUT => GatherSpec w IDX TAB OUT) (gatherFn IDX TAB) (gatherSpec_eq IDX TAB hidx) IDX TAB

theorem split4 (d : Dev nD) (IDX : S320000.Idx → Elt F .i32) (TAB : S10000x128.Idx → Elt F .f32) (OUT₀ : S320000x128.Idx → Elt F .f32) :
    (iprop((iLoc d ↦{fullShare} IDX) ∗ (xLoc4 d ↦{fullShare} TAB) ∗ oLoc4 d ↦{fullShare} OUT₀) : sProp 𝕄)
      ⊢ bigSep Finset.univ fun c : Fin 2 => bigSep Finset.univ fun i : Fin 16 =>
          iprop((iLoc d ↦[iRowSet (wOf c i)]{fullShare} IDX) ∗ (xLoc4 d ↦{sh (wOf c i)} TAB) ∗ oLoc4 d ↦[oRowSet (wOf c i)]{fullShare} OUT₀) :=
  Entails.of_eq (split_gen (ℓI := iLoc d) (ℓX := xLoc4 d) (ℓO := oLoc4 d) iRowSet oRowSet irows_disjoint irows_cover orows_disjoint orows_cover IDX TAB OUT₀)

theorem join4 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc4 d ↦{sh (wOf c i)} TAB) ∗ ∃ OUT, ⌜GatherSpec (wOf c i) IDX TAB OUT⌝ ∗ oLoc4 d ↦[oRowSet (wOf c i)]{fullShare} OUT))
      ⊢ (iprop((iLoc d ↦{fullShare} IDX) ∗ (xLoc4 d ↦{fullShare} TAB) ∗ oLoc4 d ↦{fullShare} gatherFn IDX TAB) : sProp 𝕄) :=
  join_gen (ℓI := iLoc d) (ℓX := xLoc4 d) (ℓO := oLoc4 d) iRowSet oRowSet irows_disjoint irows_cover orows_disjoint orows_cover
    (fun w OUT => GatherSpec w IDX TAB OUT) (gatherFn IDX TAB) (gatherSpec_eq IDX TAB hidx) IDX TAB

theorem split5 (d : Dev nD) (IDX : S320000.Idx → Elt F .i32) (TAB : S10000x128.Idx → Elt F .f32) (OUT₀ : S320000x128.Idx → Elt F .f32) :
    (iprop((iLoc d ↦{fullShare} IDX) ∗ (xLoc5 d ↦{fullShare} TAB) ∗ oLoc5 d ↦{fullShare} OUT₀) : sProp 𝕄)
      ⊢ bigSep Finset.univ fun c : Fin 2 => bigSep Finset.univ fun i : Fin 16 =>
          iprop((iLoc d ↦[iRowSet (wOf c i)]{fullShare} IDX) ∗ (xLoc5 d ↦{sh (wOf c i)} TAB) ∗ oLoc5 d ↦[oRowSet (wOf c i)]{fullShare} OUT₀) :=
  Entails.of_eq (split_gen (ℓI := iLoc d) (ℓX := xLoc5 d) (ℓO := oLoc5 d) iRowSet oRowSet irows_disjoint irows_cover orows_disjoint orows_cover IDX TAB OUT₀)

theorem join5 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc5 d ↦{sh (wOf c i)} TAB) ∗ ∃ OUT, ⌜GatherSpec (wOf c i) IDX TAB OUT⌝ ∗ oLoc5 d ↦[oRowSet (wOf c i)]{fullShare} OUT))
      ⊢ (iprop((iLoc d ↦{fullShare} IDX) ∗ (xLoc5 d ↦{fullShare} TAB) ∗ oLoc5 d ↦{fullShare} gatherFn IDX TAB) : sProp 𝕄) :=
  join_gen (ℓI := iLoc d) (ℓX := xLoc5 d) (ℓO := oLoc5 d) iRowSet oRowSet irows_disjoint irows_cover orows_disjoint orows_cover
    (fun w OUT => GatherSpec w IDX TAB OUT) (gatherFn IDX TAB) (gatherSpec_eq IDX TAB hidx) IDX TAB

end Cert.Proof.GatherSplit

end
-- ==== Proof.RunStepI.lean ====
/-
  The TensorCore's side of one gather call: it hands the call's three arrays to the thirty-two workers, waits for
  them, and has the arrays back whole, the output holding the gathered rows.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.SparseCore.Threads
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.StepsI
import proofs.«205547_g25623774888366_cont_9to1_713_27_alg».proof.Proof.Steps2I
import proofs.«205547_g25623774888366_cont_9to1_713_27_alg».proof.Proof.GatherSplit

noncomputable section

namespace Cert.Proof.RunStepI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr)
open Cert.Proof.PayI Cert.Proof.StepsI Cert.Proof.Steps2I Cert.Proof.GatherSplit

variable {F : FTy → Type} [FloatOps F]

local notation "𝕄" => MT nD τ sig (HIx 6) (Elt F) ℕ UU ℕ

variable (Vc : Fin 6 → Dev nD → Valuation τ sig (Elt F))

/-! ## Call 0: the index array, the table `main_v2`, the output `main_v20` -/

/-- The call's three arrays. -/
def T3_0 : Finset (DevRef τ sig) := {Proc.devRef .tc main_v4, Proc.devRef .tc main_v2, Proc.devRef .tc main_v20}

theorem T3_0_sub : T3_0 ⊆ SS := by
  intro b hb
  simp only [T3_0, Finset.mem_insert, Finset.mem_singleton] at hb
  rcases hb with rfl | rfl | rfl
  · exact mem_SS (by decide)
  · exact mem_SS (by decide)
  · exact mem_SS (by decide)

/-- Held whole, the three arrays are three points-tos. -/
theorem held_T3_0 (d : Dev nD) (W : Valuation τ sig (Elt F)) :
    (held (T d) T3_0 W : sProp 𝕄)
      = iprop((iLoc d ↦{fullShare} W (Proc.devRef .tc main_v4)) ∗ (xLoc0 d ↦{fullShare} W (Proc.devRef .tc main_v2))
          ∗ oLoc0 d ↦{fullShare} W (Proc.devRef .tc main_v20)) := by
  unfold held T3_0
  rw [bigSep_insert (by decide), bigSep_insert (by decide), bigSep_singleton]
  rfl

/-- The arrays back, the output at a new valuation, are the TensorCore's arrays at the updated valuation. -/
theorem held_update_0 (d : Dev nD) (W : Valuation τ sig (Elt F)) (G : S320000x128.Idx → Elt F .f32) :
    iprop(((iLoc d ↦{fullShare} W (Proc.devRef .tc main_v4)) ∗ (xLoc0 d ↦{fullShare} W (Proc.devRef .tc main_v2)) ∗ oLoc0 d ↦{fullShare} G)
        ∗ held (T d) (SS \ T3_0) W)
      ⊢ (held (T d) SS (Function.update W (Proc.devRef .tc main_v20) G) : sProp 𝕄) := by
  rw [held_sub_split (T d) T3_0_sub (Function.update W (Proc.devRef .tc main_v20) G), held_T3_0,
    Function.update_self, Function.update_of_ne (by decide), Function.update_of_ne (by decide),
    held_congr (T d) (S := SS \ T3_0) (V := Function.update W (Proc.devRef .tc main_v20) G) (V' := W) fun b hb =>
      Function.update_of_ne (fun e => (Finset.mem_sdiff.mp hb).2 (by rw [e]; simp [T3_0])) _ _]

/-- What the TensorCore hands the two SparseCores is the thirty-two workers' parts, by core and subcore. -/
theorem st_eq_0 (d : Dev nD) :
    (bigSep Finset.univ fun c : Fin ((K (F := F)).nCore 0) => (P (F := F) Vc).st 0 d c)
      = bigSep Finset.univ fun c : Fin 2 => bigSep Finset.univ fun i : Fin 16 =>
          iprop((iLoc d ↦[iRowSet (wOf c i)]{fullShare} Vc 0 d (Proc.devRef .tc main_v4)) ∗ (xLoc0 d ↦{sh (wOf c i)} Vc 0 d (Proc.devRef .tc main_v2))
            ∗ oLoc0 d ↦[oRowSet (wOf c i)]{fullShare} Vc 0 d (Proc.devRef .tc main_v20)) := by
  refine bigSep_congr fun c _ => ?_
  show (bigSep Finset.univ fun i : Fin ((K (F := F)).nSub 0) => goOf Vc 0 d (wOf (Fin.cast (nCore_eq 0) c) (Fin.cast (nSub_eq 0) i))) = _
  exact bigSep_congr fun i _ => congrArg₂ (fun a b => go0 Vc d (wOf a b)) (Fin.ext rfl) (Fin.ext rfl)

/-- What comes back is the workers' parts after the call. -/
theorem dn_eq_0 (d : Dev nD) :
    (bigSep Finset.univ fun c : Fin ((K (F := F)).nCore 0) => (P (F := F) Vc).dn 0 d c)
      = bigSep Finset.univ fun c : Fin 2 => bigSep Finset.univ fun i : Fin 16 =>
          iprop((iLoc d ↦[iRowSet (wOf c i)]{fullShare} Vc 0 d (Proc.devRef .tc main_v4)) ∗ (xLoc0 d ↦{sh (wOf c i)} Vc 0 d (Proc.devRef .tc main_v2))
            ∗ ∃ OUT, ⌜GatherSpec (wOf c i) (Vc 0 d (Proc.devRef .tc main_v4)) (Vc 0 d (Proc.devRef .tc main_v2)) OUT⌝ ∗ oLoc0 d ↦[oRowSet (wOf c i)]{fullShare} OUT) := by
  refine bigSep_congr fun c _ => ?_
  show (bigSep Finset.univ fun i : Fin ((K (F := F)).nSub 0) => tdOf Vc 0 d (wOf (Fin.cast (nCore_eq 0) c) (Fin.cast (nSub_eq 0) i))) = _
  exact bigSep_congr fun i _ => congrArg₂ (fun a b => td0 Vc d (wOf a b)) (Fin.ext rfl) (Fin.ext rfl)

theorem run_step0 (κ : GSem nD τ sig → ℕ) (d : Dev nD) (V : Valuation τ sig (Elt F)) (Ps : Finset (Fin 6)) (hVc : Vc 0 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 0 V Ps
        ∗ (St (F := F) d 1 (Function.update V (Proc.devRef .tc main_v20) (gatherFn (V (Proc.devRef .tc main_v4)) (V (Proc.devRef .tc main_v2)))) Ps
            -∗ wp frame (wpE (DD (F := F)) 𝒱 (T d) none) Set.univ (k ⟨⟩) Q))
      ⊢ wp frame (wpE (DD (F := F)) 𝒱 (T d) none) Set.univ ((K (F := F)).run d 0 >>= k) Q := by
  subst hVc
  rw [wp_bind]
  unfold St
  rw [held_sub_split (T d) T3_0_sub (Vc 0 d), held_T3_0]
  iintro ⟨#Hctx, ⟨Hb, ⟨⟨Hi, Hx, Ho⟩, Hrest⟩, Hst, Hg⟩, Hk⟩
  iapply ((K (F := F)).wp_run (D (F := F)) 𝒱 (EH := EH) (P := P Vc) κ d 0) $$ [Hst Hi Hx Ho Hb Hrest Hg Hk]
  isplitr; · iexact Hctx
  isplitl [Hst]; · iexact Hst
  isplitl [Hi Hx Ho]
  · iapply (Entails.of_eq (st_eq_0 Vc d).symm)
    iapply (split0 d (Vc 0 d (Proc.devRef .tc main_v4)) (Vc 0 d (Proc.devRef .tc main_v2)) (Vc 0 d (Proc.devRef .tc main_v20)))
    isplitl [Hi]; · iexact Hi
    isplitl [Hx]; · iexact Hx
    iexact Ho
  iintro ⟨Hst, Hdn⟩
  ihave Hdn' := (Entails.of_eq (dn_eq_0 Vc d)) $$ Hdn
  ihave H := (join0 d (Vc 0 d (Proc.devRef .tc main_v4)) (Vc 0 d (Proc.devRef .tc main_v2)) hidx) $$ Hdn'
  iapply Hk
  isplitl [Hb]; · iexact Hb
  isplitl [H Hrest]
  · iapply (held_update_0 d (Vc 0 d) _)
    isplitl [H]; · iexact H
    iexact Hrest
  isplitl [Hst]; · iexact Hst
  iexact Hg

/-! ## Call 1: the index array, the table `main_arg0`, the output `main_v23` -/

/-- The call's three arrays. -/
def T3_1 : Finset (DevRef τ sig) := {Proc.devRef .tc main_v4, Proc.devRef .tc main_arg0, Proc.devRef .tc main_v23}

theorem T3_1_sub : T3_1 ⊆ SS := by
  intro b hb
  simp only [T3_1, Finset.mem_insert, Finset.mem_singleton] at hb
  rcases hb with rfl | rfl | rfl
  · exact mem_SS (by decide)
  · exact mem_SS (by decide)
  · exact mem_SS (by decide)

/-- Held whole, the three arrays are three points-tos. -/
theorem held_T3_1 (d : Dev nD) (W : Valuation τ sig (Elt F)) :
    (held (T d) T3_1 W : sProp 𝕄)
      = iprop((iLoc d ↦{fullShare} W (Proc.devRef .tc main_v4)) ∗ (xLoc1 d ↦{fullShare} W (Proc.devRef .tc main_arg0))
          ∗ oLoc1 d ↦{fullShare} W (Proc.devRef .tc main_v23)) := by
  unfold held T3_1
  rw [bigSep_insert (by decide), bigSep_insert (by decide), bigSep_singleton]
  rfl

/-- The arrays back, the output at a new valuation, are the TensorCore's arrays at the updated valuation. -/
theorem held_update_1 (d : Dev nD) (W : Valuation τ sig (Elt F)) (G : S320000x128.Idx → Elt F .f32) :
    iprop(((iLoc d ↦{fullShare} W (Proc.devRef .tc main_v4)) ∗ (xLoc1 d ↦{fullShare} W (Proc.devRef .tc main_arg0)) ∗ oLoc1 d ↦{fullShare} G)
        ∗ held (T d) (SS \ T3_1) W)
      ⊢ (held (T d) SS (Function.update W (Proc.devRef .tc main_v23) G) : sProp 𝕄) := by
  rw [held_sub_split (T d) T3_1_sub (Function.update W (Proc.devRef .tc main_v23) G), held_T3_1,
    Function.update_self, Function.update_of_ne (by decide), Function.update_of_ne (by decide),
    held_congr (T d) (S := SS \ T3_1) (V := Function.update W (Proc.devRef .tc main_v23) G) (V' := W) fun b hb =>
      Function.update_of_ne (fun e => (Finset.mem_sdiff.mp hb).2 (by rw [e]; simp [T3_1])) _ _]

/-- What the TensorCore hands the two SparseCores is the thirty-two workers' parts, by core and subcore. -/
theorem st_eq_1 (d : Dev nD) :
    (bigSep Finset.univ fun c : Fin ((K (F := F)).nCore 1) => (P (F := F) Vc).st 1 d c)
      = bigSep Finset.univ fun c : Fin 2 => bigSep Finset.univ fun i : Fin 16 =>
          iprop((iLoc d ↦[iRowSet (wOf c i)]{fullShare} Vc 1 d (Proc.devRef .tc main_v4)) ∗ (xLoc1 d ↦{sh (wOf c i)} Vc 1 d (Proc.devRef .tc main_arg0))
            ∗ oLoc1 d ↦[oRowSet (wOf c i)]{fullShare} Vc 1 d (Proc.devRef .tc main_v23)) := by
  refine bigSep_congr fun c _ => ?_
  show (bigSep Finset.univ fun i : Fin ((K (F := F)).nSub 1) => goOf Vc 1 d (wOf (Fin.cast (nCore_eq 1) c) (Fin.cast (nSub_eq 1) i))) = _
  exact bigSep_congr fun i _ => congrArg₂ (fun a b => go1 Vc d (wOf a b)) (Fin.ext rfl) (Fin.ext rfl)

/-- What comes back is the workers' parts after the call. -/
theorem dn_eq_1 (d : Dev nD) :
    (bigSep Finset.univ fun c : Fin ((K (F := F)).nCore 1) => (P (F := F) Vc).dn 1 d c)
      = bigSep Finset.univ fun c : Fin 2 => bigSep Finset.univ fun i : Fin 16 =>
          iprop((iLoc d ↦[iRowSet (wOf c i)]{fullShare} Vc 1 d (Proc.devRef .tc main_v4)) ∗ (xLoc1 d ↦{sh (wOf c i)} Vc 1 d (Proc.devRef .tc main_arg0))
            ∗ ∃ OUT, ⌜GatherSpec (wOf c i) (Vc 1 d (Proc.devRef .tc main_v4)) (Vc 1 d (Proc.devRef .tc main_arg0)) OUT⌝ ∗ oLoc1 d ↦[oRowSet (wOf c i)]{fullShare} OUT) := by
  refine bigSep_congr fun c _ => ?_
  show (bigSep Finset.univ fun i : Fin ((K (F := F)).nSub 1) => tdOf Vc 1 d (wOf (Fin.cast (nCore_eq 1) c) (Fin.cast (nSub_eq 1) i))) = _
  exact bigSep_congr fun i _ => congrArg₂ (fun a b => td1 Vc d (wOf a b)) (Fin.ext rfl) (Fin.ext rfl)

theorem run_step1 (κ : GSem nD τ sig → ℕ) (d : Dev nD) (V : Valuation τ sig (Elt F)) (Ps : Finset (Fin 6)) (hVc : Vc 1 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 1 V Ps
        ∗ (St (F := F) d 2 (Function.update V (Proc.devRef .tc main_v23) (gatherFn (V (Proc.devRef .tc main_v4)) (V (Proc.devRef .tc main_arg0)))) Ps
            -∗ wp frame (wpE (DD (F := F)) 𝒱 (T d) none) Set.univ (k ⟨⟩) Q))
      ⊢ wp frame (wpE (DD (F := F)) 𝒱 (T d) none) Set.univ ((K (F := F)).run d 1 >>= k) Q := by
  subst hVc
  rw [wp_bind]
  unfold St
  rw [held_sub_split (T d) T3_1_sub (Vc 1 d), held_T3_1]
  iintro ⟨#Hctx, ⟨Hb, ⟨⟨Hi, Hx, Ho⟩, Hrest⟩, Hst, Hg⟩, Hk⟩
  iapply ((K (F := F)).wp_run (D (F := F)) 𝒱 (EH := EH) (P := P Vc) κ d 1) $$ [Hst Hi Hx Ho Hb Hrest Hg Hk]
  isplitr; · iexact Hctx
  isplitl [Hst]; · iexact Hst
  isplitl [Hi Hx Ho]
  · iapply (Entails.of_eq (st_eq_1 Vc d).symm)
    iapply (split1 d (Vc 1 d (Proc.devRef .tc main_v4)) (Vc 1 d (Proc.devRef .tc main_arg0)) (Vc 1 d (Proc.devRef .tc main_v23)))
    isplitl [Hi]; · iexact Hi
    isplitl [Hx]; · iexact Hx
    iexact Ho
  iintro ⟨Hst, Hdn⟩
  ihave Hdn' := (Entails.of_eq (dn_eq_1 Vc d)) $$ Hdn
  ihave H := (join1 d (Vc 1 d (Proc.devRef .tc main_v4)) (Vc 1 d (Proc.devRef .tc main_arg0)) hidx) $$ Hdn'
  iapply Hk
  isplitl [Hb]; · iexact Hb
  isplitl [H Hrest]
  · iapply (held_update_1 d (Vc 1 d) _)
    isplitl [H]; · iexact H
    iexact Hrest
  isplitl [Hst]; · iexact Hst
  iexact Hg

/-! ## Call 2: the index array, the table `main_v35`, the output `main_v36` -/

/-- The call's three arrays. -/
def T3_2 : Finset (DevRef τ sig) := {Proc.devRef .tc main_v4, Proc.devRef .tc main_v35, Proc.devRef .tc main_v36}

theorem T3_2_sub : T3_2 ⊆ SS := by
  intro b hb
  simp only [T3_2, Finset.mem_insert, Finset.mem_singleton] at hb
  rcases hb with rfl | rfl | rfl
  · exact mem_SS (by decide)
  · exact mem_SS (by decide)
  · exact mem_SS (by decide)

/-- Held whole, the three arrays are three points-tos. -/
theorem held_T3_2 (d : Dev nD) (W : Valuation τ sig (Elt F)) :
    (held (T d) T3_2 W : sProp 𝕄)
      = iprop((iLoc d ↦{fullShare} W (Proc.devRef .tc main_v4)) ∗ (xLoc2 d ↦{fullShare} W (Proc.devRef .tc main_v35))
          ∗ oLoc2 d ↦{fullShare} W (Proc.devRef .tc main_v36)) := by
  unfold held T3_2
  rw [bigSep_insert (by decide), bigSep_insert (by decide), bigSep_singleton]
  rfl

/-- The arrays back, the output at a new valuation, are the TensorCore's arrays at the updated valuation. -/
theorem held_update_2 (d : Dev nD) (W : Valuation τ sig (Elt F)) (G : S320000x128.Idx → Elt F .f32) :
    iprop(((iLoc d ↦{fullShare} W (Proc.devRef .tc main_v4)) ∗ (xLoc2 d ↦{fullShare} W (Proc.devRef .tc main_v35)) ∗ oLoc2 d ↦{fullShare} G)
        ∗ held (T d) (SS \ T3_2) W)
      ⊢ (held (T d) SS (Function.update W (Proc.devRef .tc main_v36) G) : sProp 𝕄) := by
  rw [held_sub_split (T d) T3_2_sub (Function.update W (Proc.devRef .tc main_v36) G), held_T3_2,
    Function.update_self, Function.update_of_ne (by decide), Function.update_of_ne (by decide),
    held_congr (T d) (S := SS \ T3_2) (V := Function.update W (Proc.devRef .tc main_v36) G) (V' := W) fun b hb =>
      Function.update_of_ne (fun e => (Finset.mem_sdiff.mp hb).2 (by rw [e]; simp [T3_2])) _ _]

/-- What the TensorCore hands the two SparseCores is the thirty-two workers' parts, by core and subcore. -/
theorem st_eq_2 (d : Dev nD) :
    (bigSep Finset.univ fun c : Fin ((K (F := F)).nCore 2) => (P (F := F) Vc).st 2 d c)
      = bigSep Finset.univ fun c : Fin 2 => bigSep Finset.univ fun i : Fin 16 =>
          iprop((iLoc d ↦[iRowSet (wOf c i)]{fullShare} Vc 2 d (Proc.devRef .tc main_v4)) ∗ (xLoc2 d ↦{sh (wOf c i)} Vc 2 d (Proc.devRef .tc main_v35))
            ∗ oLoc2 d ↦[oRowSet (wOf c i)]{fullShare} Vc 2 d (Proc.devRef .tc main_v36)) := by
  refine bigSep_congr fun c _ => ?_
  show (bigSep Finset.univ fun i : Fin ((K (F := F)).nSub 2) => goOf Vc 2 d (wOf (Fin.cast (nCore_eq 2) c) (Fin.cast (nSub_eq 2) i))) = _
  exact bigSep_congr fun i _ => congrArg₂ (fun a b => go2 Vc d (wOf a b)) (Fin.ext rfl) (Fin.ext rfl)

/-- What comes back is the workers' parts after the call. -/
theorem dn_eq_2 (d : Dev nD) :
    (bigSep Finset.univ fun c : Fin ((K (F := F)).nCore 2) => (P (F := F) Vc).dn 2 d c)
      = bigSep Finset.univ fun c : Fin 2 => bigSep Finset.univ fun i : Fin 16 =>
          iprop((iLoc d ↦[iRowSet (wOf c i)]{fullShare} Vc 2 d (Proc.devRef .tc main_v4)) ∗ (xLoc2 d ↦{sh (wOf c i)} Vc 2 d (Proc.devRef .tc main_v35))
            ∗ ∃ OUT, ⌜GatherSpec (wOf c i) (Vc 2 d (Proc.devRef .tc main_v4)) (Vc 2 d (Proc.devRef .tc main_v35)) OUT⌝ ∗ oLoc2 d ↦[oRowSet (wOf c i)]{fullShare} OUT) := by
  refine bigSep_congr fun c _ => ?_
  show (bigSep Finset.univ fun i : Fin ((K (F := F)).nSub 2) => tdOf Vc 2 d (wOf (Fin.cast (nCore_eq 2) c) (Fin.cast (nSub_eq 2) i))) = _
  exact bigSep_congr fun i _ => congrArg₂ (fun a b => td2 Vc d (wOf a b)) (Fin.ext rfl) (Fin.ext rfl)

theorem run_step2 (κ : GSem nD τ sig → ℕ) (d : Dev nD) (V : Valuation τ sig (Elt F)) (Ps : Finset (Fin 6)) (hVc : Vc 2 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 2 V Ps
        ∗ (St (F := F) d 3 (Function.update V (Proc.devRef .tc main_v36) (gatherFn (V (Proc.devRef .tc main_v4)) (V (Proc.devRef .tc main_v35)))) Ps
            -∗ wp frame (wpE (DD (F := F)) 𝒱 (T d) none) Set.univ (k ⟨⟩) Q))
      ⊢ wp frame (wpE (DD (F := F)) 𝒱 (T d) none) Set.univ ((K (F := F)).run d 2 >>= k) Q := by
  subst hVc
  rw [wp_bind]
  unfold St
  rw [held_sub_split (T d) T3_2_sub (Vc 2 d), held_T3_2]
  iintro ⟨#Hctx, ⟨Hb, ⟨⟨Hi, Hx, Ho⟩, Hrest⟩, Hst, Hg⟩, Hk⟩
  iapply ((K (F := F)).wp_run (D (F := F)) 𝒱 (EH := EH) (P := P Vc) κ d 2) $$ [Hst Hi Hx Ho Hb Hrest Hg Hk]
  isplitr; · iexact Hctx
  isplitl [Hst]; · iexact Hst
  isplitl [Hi Hx Ho]
  · iapply (Entails.of_eq (st_eq_2 Vc d).symm)
    iapply (split2 d (Vc 2 d (Proc.devRef .tc main_v4)) (Vc 2 d (Proc.devRef .tc main_v35)) (Vc 2 d (Proc.devRef .tc main_v36)))
    isplitl [Hi]; · iexact Hi
    isplitl [Hx]; · iexact Hx
    iexact Ho
  iintro ⟨Hst, Hdn⟩
  ihave Hdn' := (Entails.of_eq (dn_eq_2 Vc d)) $$ Hdn
  ihave H := (join2 d (Vc 2 d (Proc.devRef .tc main_v4)) (Vc 2 d (Proc.devRef .tc main_v35)) hidx) $$ Hdn'
  iapply Hk
  isplitl [Hb]; · iexact Hb
  isplitl [H Hrest]
  · iapply (held_update_2 d (Vc 2 d) _)
    isplitl [H]; · iexact H
    iexact Hrest
  isplitl [Hst]; · iexact Hst
  iexact Hg

/-! ## Call 3: the index array, the table `main_v48`, the output `main_v49` -/

/-- The call's three arrays. -/
def T3_3 : Finset (DevRef τ sig) := {Proc.devRef .tc main_v4, Proc.devRef .tc main_v48, Proc.devRef .tc main_v49}

theorem T3_3_sub : T3_3 ⊆ SS := by
  intro b hb
  simp only [T3_3, Finset.mem_insert, Finset.mem_singleton] at hb
  rcases hb with rfl | rfl | rfl
  · exact mem_SS (by decide)
  · exact mem_SS (by decide)
  · exact mem_SS (by decide)

/-- Held whole, the three arrays are three points-tos. -/
theorem held_T3_3 (d : Dev nD) (W : Valuation τ sig (Elt F)) :
    (held (T d) T3_3 W : sProp 𝕄)
      = iprop((iLoc d ↦{fullShare} W (Proc.devRef .tc main_v4)) ∗ (xLoc3 d ↦{fullShare} W (Proc.devRef .tc main_v48))
          ∗ oLoc3 d ↦{fullShare} W (Proc.devRef .tc main_v49)) := by
  unfold held T3_3
  rw [bigSep_insert (by decide), bigSep_insert (by decide), bigSep_singleton]
  rfl

/-- The arrays back, the output at a new valuation, are the TensorCore's arrays at the updated valuation. -/
theorem held_update_3 (d : Dev nD) (W : Valuation τ sig (Elt F)) (G : S320000x128.Idx → Elt F .f32) :
    iprop(((iLoc d ↦{fullShare} W (Proc.devRef .tc main_v4)) ∗ (xLoc3 d ↦{fullShare} W (Proc.devRef .tc main_v48)) ∗ oLoc3 d ↦{fullShare} G)
        ∗ held (T d) (SS \ T3_3) W)
      ⊢ (held (T d) SS (Function.update W (Proc.devRef .tc main_v49) G) : sProp 𝕄) := by
  rw [held_sub_split (T d) T3_3_sub (Function.update W (Proc.devRef .tc main_v49) G), held_T3_3,
    Function.update_self, Function.update_of_ne (by decide), Function.update_of_ne (by decide),
    held_congr (T d) (S := SS \ T3_3) (V := Function.update W (Proc.devRef .tc main_v49) G) (V' := W) fun b hb =>
      Function.update_of_ne (fun e => (Finset.mem_sdiff.mp hb).2 (by rw [e]; simp [T3_3])) _ _]

/-- What the TensorCore hands the two SparseCores is the thirty-two workers' parts, by core and subcore. -/
theorem st_eq_3 (d : Dev nD) :
    (bigSep Finset.univ fun c : Fin ((K (F := F)).nCore 3) => (P (F := F) Vc).st 3 d c)
      = bigSep Finset.univ fun c : Fin 2 => bigSep Finset.univ fun i : Fin 16 =>
          iprop((iLoc d ↦[iRowSet (wOf c i)]{fullShare} Vc 3 d (Proc.devRef .tc main_v4)) ∗ (xLoc3 d ↦{sh (wOf c i)} Vc 3 d (Proc.devRef .tc main_v48))
            ∗ oLoc3 d ↦[oRowSet (wOf c i)]{fullShare} Vc 3 d (Proc.devRef .tc main_v49)) := by
  refine bigSep_congr fun c _ => ?_
  show (bigSep Finset.univ fun i : Fin ((K (F := F)).nSub 3) => goOf Vc 3 d (wOf (Fin.cast (nCore_eq 3) c) (Fin.cast (nSub_eq 3) i))) = _
  exact bigSep_congr fun i _ => congrArg₂ (fun a b => go3 Vc d (wOf a b)) (Fin.ext rfl) (Fin.ext rfl)

/-- What comes back is the workers' parts after the call. -/
theorem dn_eq_3 (d : Dev nD) :
    (bigSep Finset.univ fun c : Fin ((K (F := F)).nCore 3) => (P (F := F) Vc).dn 3 d c)
      = bigSep Finset.univ fun c : Fin 2 => bigSep Finset.univ fun i : Fin 16 =>
          iprop((iLoc d ↦[iRowSet (wOf c i)]{fullShare} Vc 3 d (Proc.devRef .tc main_v4)) ∗ (xLoc3 d ↦{sh (wOf c i)} Vc 3 d (Proc.devRef .tc main_v48))
            ∗ ∃ OUT, ⌜GatherSpec (wOf c i) (Vc 3 d (Proc.devRef .tc main_v4)) (Vc 3 d (Proc.devRef .tc main_v48)) OUT⌝ ∗ oLoc3 d ↦[oRowSet (wOf c i)]{fullShare} OUT) := by
  refine bigSep_congr fun c _ => ?_
  show (bigSep Finset.univ fun i : Fin ((K (F := F)).nSub 3) => tdOf Vc 3 d (wOf (Fin.cast (nCore_eq 3) c) (Fin.cast (nSub_eq 3) i))) = _
  exact bigSep_congr fun i _ => congrArg₂ (fun a b => td3 Vc d (wOf a b)) (Fin.ext rfl) (Fin.ext rfl)

theorem run_step3 (κ : GSem nD τ sig → ℕ) (d : Dev nD) (V : Valuation τ sig (Elt F)) (Ps : Finset (Fin 6)) (hVc : Vc 3 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 3 V Ps
        ∗ (St (F := F) d 4 (Function.update V (Proc.devRef .tc main_v49) (gatherFn (V (Proc.devRef .tc main_v4)) (V (Proc.devRef .tc main_v48)))) Ps
            -∗ wp frame (wpE (DD (F := F)) 𝒱 (T d) none) Set.univ (k ⟨⟩) Q))
      ⊢ wp frame (wpE (DD (F := F)) 𝒱 (T d) none) Set.univ ((K (F := F)).run d 3 >>= k) Q := by
  subst hVc
  rw [wp_bind]
  unfold St
  rw [held_sub_split (T d) T3_3_sub (Vc 3 d), held_T3_3]
  iintro ⟨#Hctx, ⟨Hb, ⟨⟨Hi, Hx, Ho⟩, Hrest⟩, Hst, Hg⟩, Hk⟩
  iapply ((K (F := F)).wp_run (D (F := F)) 𝒱 (EH := EH) (P := P Vc) κ d 3) $$ [Hst Hi Hx Ho Hb Hrest Hg Hk]
  isplitr; · iexact Hctx
  isplitl [Hst]; · iexact Hst
  isplitl [Hi Hx Ho]
  · iapply (Entails.of_eq (st_eq_3 Vc d).symm)
    iapply (split3 d (Vc 3 d (Proc.devRef .tc main_v4)) (Vc 3 d (Proc.devRef .tc main_v48)) (Vc 3 d (Proc.devRef .tc main_v49)))
    isplitl [Hi]; · iexact Hi
    isplitl [Hx]; · iexact Hx
    iexact Ho
  iintro ⟨Hst, Hdn⟩
  ihave Hdn' := (Entails.of_eq (dn_eq_3 Vc d)) $$ Hdn
  ihave H := (join3 d (Vc 3 d (Proc.devRef .tc main_v4)) (Vc 3 d (Proc.devRef .tc main_v48)) hidx) $$ Hdn'
  iapply Hk
  isplitl [Hb]; · iexact Hb
  isplitl [H Hrest]
  · iapply (held_update_3 d (Vc 3 d) _)
    isplitl [H]; · iexact H
    iexact Hrest
  isplitl [Hst]; · iexact Hst
  iexact Hg

/-! ## Call 4: the index array, the table `main_v61`, the output `main_v62` -/

/-- The call's three arrays. -/
def T3_4 : Finset (DevRef τ sig) := {Proc.devRef .tc main_v4, Proc.devRef .tc main_v61, Proc.devRef .tc main_v62}

theorem T3_4_sub : T3_4 ⊆ SS := by
  intro b hb
  simp only [T3_4, Finset.mem_insert, Finset.mem_singleton] at hb
  rcases hb with rfl | rfl | rfl
  · exact mem_SS (by decide)
  · exact mem_SS (by decide)
  · exact mem_SS (by decide)

/-- Held whole, the three arrays are three points-tos. -/
theorem held_T3_4 (d : Dev nD) (W : Valuation τ sig (Elt F)) :
    (held (T d) T3_4 W : sProp 𝕄)
      = iprop((iLoc d ↦{fullShare} W (Proc.devRef .tc main_v4)) ∗ (xLoc4 d ↦{fullShare} W (Proc.devRef .tc main_v61))
          ∗ oLoc4 d ↦{fullShare} W (Proc.devRef .tc main_v62)) := by
  unfold held T3_4
  rw [bigSep_insert (by decide), bigSep_insert (by decide), bigSep_singleton]
  rfl

/-- The arrays back, the output at a new valuation, are the TensorCore's arrays at the updated valuation. -/
theorem held_update_4 (d : Dev nD) (W : Valuation τ sig (Elt F)) (G : S320000x128.Idx → Elt F .f32) :
    iprop(((iLoc d ↦{fullShare} W (Proc.devRef .tc main_v4)) ∗ (xLoc4 d ↦{fullShare} W (Proc.devRef .tc main_v61)) ∗ oLoc4 d ↦{fullShare} G)
        ∗ held (T d) (SS \ T3_4) W)
      ⊢ (held (T d) SS (Function.update W (Proc.devRef .tc main_v62) G) : sProp 𝕄) := by
  rw [held_sub_split (T d) T3_4_sub (Function.update W (Proc.devRef .tc main_v62) G), held_T3_4,
    Function.update_self, Function.update_of_ne (by decide), Function.update_of_ne (by decide),
    held_congr (T d) (S := SS \ T3_4) (V := Function.update W (Proc.devRef .tc main_v62) G) (V' := W) fun b hb =>
      Function.update_of_ne (fun e => (Finset.mem_sdiff.mp hb).2 (by rw [e]; simp [T3_4])) _ _]

/-- What the TensorCore hands the two SparseCores is the thirty-two workers' parts, by core and subcore. -/
theorem st_eq_4 (d : Dev nD) :
    (bigSep Finset.univ fun c : Fin ((K (F := F)).nCore 4) => (P (F := F) Vc).st 4 d c)
      = bigSep Finset.univ fun c : Fin 2 => bigSep Finset.univ fun i : Fin 16 =>
          iprop((iLoc d ↦[iRowSet (wOf c i)]{fullShare} Vc 4 d (Proc.devRef .tc main_v4)) ∗ (xLoc4 d ↦{sh (wOf c i)} Vc 4 d (Proc.devRef .tc main_v61))
            ∗ oLoc4 d ↦[oRowSet (wOf c i)]{fullShare} Vc 4 d (Proc.devRef .tc main_v62)) := by
  refine bigSep_congr fun c _ => ?_
  show (bigSep Finset.univ fun i : Fin ((K (F := F)).nSub 4) => goOf Vc 4 d (wOf (Fin.cast (nCore_eq 4) c) (Fin.cast (nSub_eq 4) i))) = _
  exact bigSep_congr fun i _ => congrArg₂ (fun a b => go4 Vc d (wOf a b)) (Fin.ext rfl) (Fin.ext rfl)

/-- What comes back is the workers' parts after the call. -/
theorem dn_eq_4 (d : Dev nD) :
    (bigSep Finset.univ fun c : Fin ((K (F := F)).nCore 4) => (P (F := F) Vc).dn 4 d c)
      = bigSep Finset.univ fun c : Fin 2 => bigSep Finset.univ fun i : Fin 16 =>
          iprop((iLoc d ↦[iRowSet (wOf c i)]{fullShare} Vc 4 d (Proc.devRef .tc main_v4)) ∗ (xLoc4 d ↦{sh (wOf c i)} Vc 4 d (Proc.devRef .tc main_v61))
            ∗ ∃ OUT, ⌜GatherSpec (wOf c i) (Vc 4 d (Proc.devRef .tc main_v4)) (Vc 4 d (Proc.devRef .tc main_v61)) OUT⌝ ∗ oLoc4 d ↦[oRowSet (wOf c i)]{fullShare} OUT) := by
  refine bigSep_congr fun c _ => ?_
  show (bigSep Finset.univ fun i : Fin ((K (F := F)).nSub 4) => tdOf Vc 4 d (wOf (Fin.cast (nCore_eq 4) c) (Fin.cast (nSub_eq 4) i))) = _
  exact bigSep_congr fun i _ => congrArg₂ (fun a b => td4 Vc d (wOf a b)) (Fin.ext rfl) (Fin.ext rfl)

theorem run_step4 (κ : GSem nD τ sig → ℕ) (d : Dev nD) (V : Valuation τ sig (Elt F)) (Ps : Finset (Fin 6)) (hVc : Vc 4 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 4 V Ps
        ∗ (St (F := F) d 5 (Function.update V (Proc.devRef .tc main_v62) (gatherFn (V (Proc.devRef .tc main_v4)) (V (Proc.devRef .tc main_v61)))) Ps
            -∗ wp frame (wpE (DD (F := F)) 𝒱 (T d) none) Set.univ (k ⟨⟩) Q))
      ⊢ wp frame (wpE (DD (F := F)) 𝒱 (T d) none) Set.univ ((K (F := F)).run d 4 >>= k) Q := by
  subst hVc
  rw [wp_bind]
  unfold St
  rw [held_sub_split (T d) T3_4_sub (Vc 4 d), held_T3_4]
  iintro ⟨#Hctx, ⟨Hb, ⟨⟨Hi, Hx, Ho⟩, Hrest⟩, Hst, Hg⟩, Hk⟩
  iapply ((K (F := F)).wp_run (D (F := F)) 𝒱 (EH := EH) (P := P Vc) κ d 4) $$ [Hst Hi Hx Ho Hb Hrest Hg Hk]
  isplitr; · iexact Hctx
  isplitl [Hst]; · iexact Hst
  isplitl [Hi Hx Ho]
  · iapply (Entails.of_eq (st_eq_4 Vc d).symm)
    iapply (split4 d (Vc 4 d (Proc.devRef .tc main_v4)) (Vc 4 d (Proc.devRef .tc main_v61)) (Vc 4 d (Proc.devRef .tc main_v62)))
    isplitl [Hi]; · iexact Hi
    isplitl [Hx]; · iexact Hx
    iexact Ho
  iintro ⟨Hst, Hdn⟩
  ihave Hdn' := (Entails.of_eq (dn_eq_4 Vc d)) $$ Hdn
  ihave H := (join4 d (Vc 4 d (Proc.devRef .tc main_v4)) (Vc 4 d (Proc.devRef .tc main_v61)) hidx) $$ Hdn'
  iapply Hk
  isplitl [Hb]; · iexact Hb
  isplitl [H Hrest]
  · iapply (held_update_4 d (Vc 4 d) _)
    isplitl [H]; · iexact H
    iexact Hrest
  isplitl [Hst]; · iexact Hst
  iexact Hg

/-! ## Call 5: the index array, the table `main_v74`, the output `main_v75` -/

/-- The call's three arrays. -/
def T3_5 : Finset (DevRef τ sig) := {Proc.devRef .tc main_v4, Proc.devRef .tc main_v74, Proc.devRef .tc main_v75}

theorem T3_5_sub : T3_5 ⊆ SS := by
  intro b hb
  simp only [T3_5, Finset.mem_insert, Finset.mem_singleton] at hb
  rcases hb with rfl | rfl | rfl
  · exact mem_SS (by decide)
  · exact mem_SS (by decide)
  · exact mem_SS (by decide)

/-- Held whole, the three arrays are three points-tos. -/
theorem held_T3_5 (d : Dev nD) (W : Valuation τ sig (Elt F)) :
    (held (T d) T3_5 W : sProp 𝕄)
      = iprop((iLoc d ↦{fullShare} W (Proc.devRef .tc main_v4)) ∗ (xLoc5 d ↦{fullShare} W (Proc.devRef .tc main_v74))
          ∗ oLoc5 d ↦{fullShare} W (Proc.devRef .tc main_v75)) := by
  unfold held T3_5
  rw [bigSep_insert (by decide), bigSep_insert (by decide), bigSep_singleton]
  rfl

/-- The arrays back, the output at a new valuation, are the TensorCore's arrays at the updated valuation. -/
theorem held_update_5 (d : Dev nD) (W : Valuation τ sig (Elt F)) (G : S320000x128.Idx → Elt F .f32) :
    iprop(((iLoc d ↦{fullShare} W (Proc.devRef .tc main_v4)) ∗ (xLoc5 d ↦{fullShare} W (Proc.devRef .tc main_v74)) ∗ oLoc5 d ↦{fullShare} G)
        ∗ held (T d) (SS \ T3_5) W)
      ⊢ (held (T d) SS (Function.update W (Proc.devRef .tc main_v75) G) : sProp 𝕄) := by
  rw [held_sub_split (T d) T3_5_sub (Function.update W (Proc.devRef .tc main_v75) G), held_T3_5,
    Function.update_self, Function.update_of_ne (by decide), Function.update_of_ne (by decide),
    held_congr (T d) (S := SS \ T3_5) (V := Function.update W (Proc.devRef .tc main_v75) G) (V' := W) fun b hb =>
      Function.update_of_ne (fun e => (Finset.mem_sdiff.mp hb).2 (by rw [e]; simp [T3_5])) _ _]

/-- What the TensorCore hands the two SparseCores is the thirty-two workers' parts, by core and subcore. -/
theorem st_eq_5 (d : Dev nD) :
    (bigSep Finset.univ fun c : Fin ((K (F := F)).nCore 5) => (P (F := F) Vc).st 5 d c)
      = bigSep Finset.univ fun c : Fin 2 => bigSep Finset.univ fun i : Fin 16 =>
          iprop((iLoc d ↦[iRowSet (wOf c i)]{fullShare} Vc 5 d (Proc.devRef .tc main_v4)) ∗ (xLoc5 d ↦{sh (wOf c i)} Vc 5 d (Proc.devRef .tc main_v74))
            ∗ oLoc5 d ↦[oRowSet (wOf c i)]{fullShare} Vc 5 d (Proc.devRef .tc main_v75)) := by
  refine bigSep_congr fun c _ => ?_
  show (bigSep Finset.univ fun i : Fin ((K (F := F)).nSub 5) => goOf Vc 5 d (wOf (Fin.cast (nCore_eq 5) c) (Fin.cast (nSub_eq 5) i))) = _
  exact bigSep_congr fun i _ => congrArg₂ (fun a b => go5 Vc d (wOf a b)) (Fin.ext rfl) (Fin.ext rfl)

/-- What comes back is the workers' parts after the call. -/
theorem dn_eq_5 (d : Dev nD) :
    (bigSep Finset.univ fun c : Fin ((K (F := F)).nCore 5) => (P (F := F) Vc).dn 5 d c)
      = bigSep Finset.univ fun c : Fin 2 => bigSep Finset.univ fun i : Fin 16 =>
          iprop((iLoc d ↦[iRowSet (wOf c i)]{fullShare} Vc 5 d (Proc.devRef .tc main_v4)) ∗ (xLoc5 d ↦{sh (wOf c i)} Vc 5 d (Proc.devRef .tc main_v74))
            ∗ ∃ OUT, ⌜GatherSpec (wOf c i) (Vc 5 d (Proc.devRef .tc main_v4)) (Vc 5 d (Proc.devRef .tc main_v74)) OUT⌝ ∗ oLoc5 d ↦[oRowSet (wOf c i)]{fullShare} OUT) := by
  refine bigSep_congr fun c _ => ?_
  show (bigSep Finset.univ fun i : Fin ((K (F := F)).nSub 5) => tdOf Vc 5 d (wOf (Fin.cast (nCore_eq 5) c) (Fin.cast (nSub_eq 5) i))) = _
  exact bigSep_congr fun i _ => congrArg₂ (fun a b => td5 Vc d (wOf a b)) (Fin.ext rfl) (Fin.ext rfl)

theorem run_step5 (κ : GSem nD τ sig → ℕ) (d : Dev nD) (V : Valuation τ sig (Elt F)) (Ps : Finset (Fin 6)) (hVc : Vc 5 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 5 V Ps
        ∗ (St (F := F) d 6 (Function.update V (Proc.devRef .tc main_v75) (gatherFn (V (Proc.devRef .tc main_v4)) (V (Proc.devRef .tc main_v74)))) Ps
            -∗ wp frame (wpE (DD (F := F)) 𝒱 (T d) none) Set.univ (k ⟨⟩) Q))
      ⊢ wp frame (wpE (DD (F := F)) 𝒱 (T d) none) Set.univ ((K (F := F)).run d 5 >>= k) Q := by
  subst hVc
  rw [wp_bind]
  unfold St
  rw [held_sub_split (T d) T3_5_sub (Vc 5 d), held_T3_5]
  iintro ⟨#Hctx, ⟨Hb, ⟨⟨Hi, Hx, Ho⟩, Hrest⟩, Hst, Hg⟩, Hk⟩
  iapply ((K (F := F)).wp_run (D (F := F)) 𝒱 (EH := EH) (P := P Vc) κ d 5) $$ [Hst Hi Hx Ho Hb Hrest Hg Hk]
  isplitr; · iexact Hctx
  isplitl [Hst]; · iexact Hst
  isplitl [Hi Hx Ho]
  · iapply (Entails.of_eq (st_eq_5 Vc d).symm)
    iapply (split5 d (Vc 5 d (Proc.devRef .tc main_v4)) (Vc 5 d (Proc.devRef .tc main_v74)) (Vc 5 d (Proc.devRef .tc main_v75)))
    isplitl [Hi]; · iexact Hi
    isplitl [Hx]; · iexact Hx
    iexact Ho
  iintro ⟨Hst, Hdn⟩
  ihave Hdn' := (Entails.of_eq (dn_eq_5 Vc d)) $$ Hdn
  ihave H := (join5 d (Vc 5 d (Proc.devRef .tc main_v4)) (Vc 5 d (Proc.devRef .tc main_v74)) hidx) $$ Hdn'
  iapply Hk
  isplitl [Hb]; · iexact Hb
  isplitl [H Hrest]
  · iapply (held_update_5 d (Vc 5 d) _)
    isplitl [H]; · iexact H
    iexact Hrest
  isplitl [Hst]; · iexact Hst
  iexact Hg

end Cert.Proof.RunStepI

end
-- ==== Proof.MainRunI.lean ====
/-
  @main on the TensorCore, item by item, and the program's run.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.MainChainI
import proofs.«205547_g25623774888366_cont_9to1_713_27_alg».proof.Proof.StepsI
import proofs.«205547_g25623774888366_cont_9to1_713_27_alg».proof.Proof.Steps2I
import proofs.«205547_g25623774888366_cont_9to1_713_27_alg».proof.Proof.RegionI
import proofs.«205547_g25623774888366_cont_9to1_713_27_alg».proof.Proof.EndsI
import proofs.«205547_g25623774888366_cont_9to1_713_27_alg».proof.Proof.RunStepI
import proofs.«205547_g25623774888366_cont_9to1_713_27_alg».proof.Proof.SoftmaxBody
import proofs.«205547_g25623774888366_cont_9to1_713_27_alg».proof.Proof.StepBody
import proofs.«205547_g25623774888366_cont_9to1_713_27_alg».proof.Proof.ValsI

noncomputable section

namespace Cert.Proof.MainRunI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.Proof.StepsI Cert.Proof.Steps2I Cert.Proof.RegionI Cert.Proof.EndsI Cert.Proof.RunStepI Cert.KernelIdeal.MainChain Cert.Proof.SoftmaxBody Cert.Proof.StepBody Cert.Proof.ValsI

variable {F : FTy → Type} [FloatOps F]

local notation "𝕄" => MT nD τ sig (HIx 6) (Elt F) ℕ UU ℕ

variable (m : (ℓ : Loc nD τ sig) → Buf (Elt F) ℓ) (ρ : Dev nD → PrngReg)

/-! ## The six regions' records -/

set_option maxRecDepth 16384 in
set_option maxHeartbeats 2000000 in
theorem hyps0 : RegHyps (pdats m) 0 1 (Va1 m) (Vr0 m) where
  lf := launch1
  hA c w := A_eq1 _ _ _ c w
  hF c w := by
    match w with
    | ⟨0, _⟩ => exact (arrAt_in1 _ _ _ c 0 rfl _).trans (Function.update_of_ne (show Proc.devRef (τ := τ) .tc main_v21 ≠ Proc.devRef .tc main_v22 by decide) ((D0 m c).arrAt 5 cfg1.N) (Va1 m c)).symm
    | ⟨1, _⟩ => exact (arrAt_in1 _ _ _ c 1 rfl _).trans (Function.update_of_ne (show Proc.devRef (τ := τ) .tc main_v2 ≠ Proc.devRef .tc main_v22 by decide) ((D0 m c).arrAt 5 cfg1.N) (Va1 m c)).symm
    | ⟨2, _⟩ => exact (arrAt_in1 _ _ _ c 2 rfl _).trans (Function.update_of_ne (show Proc.devRef (τ := τ) .tc main_v7 ≠ Proc.devRef .tc main_v22 by decide) ((D0 m c).arrAt 5 cfg1.N) (Va1 m c)).symm
    | ⟨3, _⟩ => exact (arrAt_in1 _ _ _ c 3 rfl _).trans (Function.update_of_ne (show Proc.devRef (τ := τ) .tc main_v8 ≠ Proc.devRef .tc main_v22 by decide) ((D0 m c).arrAt 5 cfg1.N) (Va1 m c)).symm
    | ⟨4, _⟩ => exact (arrAt_in1 _ _ _ c 4 rfl _).trans (Function.update_of_ne (show Proc.devRef (τ := τ) .tc main_v12 ≠ Proc.devRef .tc main_v22 by decide) ((D0 m c).arrAt 5 cfg1.N) (Va1 m c)).symm
    | ⟨5, _⟩ => exact (Function.update_self (Proc.devRef (τ := τ) .tc main_v22) ((D0 m c).arrAt 5 cfg1.N) (Va1 m c)).symm
  hrest c b hb := Function.update_of_ne (fun e => hb (Finset.mem_image.mpr ⟨5, Finset.mem_univ _, (Proc.devRef_injective _ e).symm⟩)) _ _
  hΦ c t := congrArg (fun s => Pipeline.scopedRest (Ix := HIx 6) (Name := ℕ) (U := UU) (Lvl := ℕ) (Val := Elt F) s c) (rfl : spec1 = (pcfgs (F := F) 0).spec)
  hq c w := rfl
  howed c t := rfl
  hrec c t := rfl
  hbody c := body_obligation_loose1 𝒱₀ none _ _ _ c

set_option maxHeartbeats 1000000 in
theorem hyps1 : RegHyps (pdats m) 1 2 (Va2 m) (Vr1 m) where
  lf := launch3
  hA c w := A_eq3 _ _ _ c w
  hF c w := by
    match w with
    | ⟨0, _⟩ => exact (arrAt_in3 _ _ _ c 0 rfl _).trans (Function.update_of_ne (show Proc.devRef (τ := τ) .tc main_v24 ≠ Proc.devRef .tc main_v35 by decide) ((D1 m c).arrAt 8 cfg3.N) (Va2 m c)).symm
    | ⟨1, _⟩ => exact (arrAt_in3 _ _ _ c 1 rfl _).trans (Function.update_of_ne (show Proc.devRef (τ := τ) .tc main_v22 ≠ Proc.devRef .tc main_v35 by decide) ((D1 m c).arrAt 8 cfg3.N) (Va2 m c)).symm
    | ⟨2, _⟩ => exact (arrAt_in3 _ _ _ c 2 rfl _).trans (Function.update_of_ne (show Proc.devRef (τ := τ) .tc main_arg0 ≠ Proc.devRef .tc main_v35 by decide) ((D1 m c).arrAt 8 cfg3.N) (Va2 m c)).symm
    | ⟨3, _⟩ => exact (arrAt_in3 _ _ _ c 3 rfl _).trans (Function.update_of_ne (show Proc.devRef (τ := τ) .tc main_v26 ≠ Proc.devRef .tc main_v35 by decide) ((D1 m c).arrAt 8 cfg3.N) (Va2 m c)).symm
    | ⟨4, _⟩ => exact (arrAt_in3 _ _ _ c 4 rfl _).trans (Function.update_of_ne (show Proc.devRef (τ := τ) .tc main_v28 ≠ Proc.devRef .tc main_v35 by decide) ((D1 m c).arrAt 8 cfg3.N) (Va2 m c)).symm
    | ⟨5, _⟩ => exact (arrAt_in3 _ _ _ c 5 rfl _).trans (Function.update_of_ne (show Proc.devRef (τ := τ) .tc main_v30 ≠ Proc.devRef .tc main_v35 by decide) ((D1 m c).arrAt 8 cfg3.N) (Va2 m c)).symm
    | ⟨6, _⟩ => exact (arrAt_in3 _ _ _ c 6 rfl _).trans (Function.update_of_ne (show Proc.devRef (τ := τ) .tc main_v32 ≠ Proc.devRef .tc main_v35 by decide) ((D1 m c).arrAt 8 cfg3.N) (Va2 m c)).symm
    | ⟨7, _⟩ => exact (arrAt_in3 _ _ _ c 7 rfl _).trans (Function.update_of_ne (show Proc.devRef (τ := τ) .tc main_v34 ≠ Proc.devRef .tc main_v35 by decide) ((D1 m c).arrAt 8 cfg3.N) (Va2 m c)).symm
    | ⟨8, _⟩ => exact (Function.update_self (Proc.devRef (τ := τ) .tc main_v35) ((D1 m c).arrAt 8 cfg3.N) (Va2 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec3 = (pcfgs (F := F) 1).spec)
  hq c w := rfl
  howed c t := rfl
  hrec c t := rfl
  hbody c := (body_obligation3 _ _ _ 𝒱₀ none c).loose

set_option maxHeartbeats 1000000 in
theorem hyps2 : RegHyps (pdats m) 2 3 (Va3 m) (Vr2 m) where
  lf := launch5
  hA c w := A_eq5 _ _ _ c w
  hF c w := by
    match w with
    | ⟨0, _⟩ => exact (arrAt_in5 _ _ _ c 0 rfl _).trans (Function.update_of_ne (show Proc.devRef (τ := τ) .tc main_v37 ≠ Proc.devRef .tc main_v48 by decide) ((D2 m c).arrAt 8 cfg5.N) (Va3 m c)).symm
    | ⟨1, _⟩ => exact (arrAt_in5 _ _ _ c 1 rfl _).trans (Function.update_of_ne (show Proc.devRef (τ := τ) .tc main_v22 ≠ Proc.devRef .tc main_v48 by decide) ((D2 m c).arrAt 8 cfg5.N) (Va3 m c)).symm
    | ⟨2, _⟩ => exact (arrAt_in5 _ _ _ c 2 rfl _).trans (Function.update_of_ne (show Proc.devRef (τ := τ) .tc main_v35 ≠ Proc.devRef .tc main_v48 by decide) ((D2 m c).arrAt 8 cfg5.N) (Va3 m c)).symm
    | ⟨3, _⟩ => exact (arrAt_in5 _ _ _ c 3 rfl _).trans (Function.update_of_ne (show Proc.devRef (τ := τ) .tc main_v39 ≠ Proc.devRef .tc main_v48 by decide) ((D2 m c).arrAt 8 cfg5.N) (Va3 m c)).symm
    | ⟨4, _⟩ => exact (arrAt_in5 _ _ _ c 4 rfl _).trans (Function.update_of_ne (show Proc.devRef (τ := τ) .tc main_v41 ≠ Proc.devRef .tc main_v48 by decide) ((D2 m c).arrAt 8 cfg5.N) (Va3 m c)).symm
    | ⟨5, _⟩ => exact (arrAt_in5 _ _ _ c 5 rfl _).trans (Function.update_of_ne (show Proc.devRef (τ := τ) .tc main_v43 ≠ Proc.devRef .tc main_v48 by decide) ((D2 m c).arrAt 8 cfg5.N) (Va3 m c)).symm
    | ⟨6, _⟩ => exact (arrAt_in5 _ _ _ c 6 rfl _).trans (Function.update_of_ne (show Proc.devRef (τ := τ) .tc main_v45 ≠ Proc.devRef .tc main_v48 by decide) ((D2 m c).arrAt 8 cfg5.N) (Va3 m c)).symm
    | ⟨7, _⟩ => exact (arrAt_in5 _ _ _ c 7 rfl _).trans (Function.update_of_ne (show Proc.devRef (τ := τ) .tc main_v47 ≠ Proc.devRef .tc main_v48 by decide) ((D2 m c).arrAt 8 cfg5.N) (Va3 m c)).symm
    | ⟨8, _⟩ => exact (Function.update_self (Proc.devRef (τ := τ) .tc main_v48) ((D2 m c).arrAt 8 cfg5.N) (Va3 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec5 = (pcfgs (F := F) 2).spec)
  hq c w := rfl
  howed c t := rfl
  hrec c t := rfl
  hbody c := (body_obligation5 _ _ _ 𝒱₀ none c).loose

set_option maxHeartbeats 1000000 in
theorem hyps3 : RegHyps (pdats m) 3 4 (Va4 m) (Vr3 m) where
  lf := launch7
  hA c w := A_eq7 _ _ _ c w
  hF c w := by
    match w with
    | ⟨0, _⟩ => exact (arrAt_in7 _ _ _ c 0 rfl _).trans (Function.update_of_ne (show Proc.devRef (τ := τ) .tc main_v50 ≠ Proc.devRef .tc main_v61 by decide) ((D3 m c).arrAt 8 cfg7.N) (Va4 m c)).symm
    | ⟨1, _⟩ => exact (arrAt_in7 _ _ _ c 1 rfl _).trans (Function.update_of_ne (show Proc.devRef (τ := τ) .tc main_v22 ≠ Proc.devRef .tc main_v61 by decide) ((D3 m c).arrAt 8 cfg7.N) (Va4 m c)).symm
    | ⟨2, _⟩ => exact (arrAt_in7 _ _ _ c 2 rfl _).trans (Function.update_of_ne (show Proc.devRef (τ := τ) .tc main_v48 ≠ Proc.devRef .tc main_v61 by decide) ((D3 m c).arrAt 8 cfg7.N) (Va4 m c)).symm
    | ⟨3, _⟩ => exact (arrAt_in7 _ _ _ c 3 rfl _).trans (Function.update_of_ne (show Proc.devRef (τ := τ) .tc main_v52 ≠ Proc.devRef .tc main_v61 by decide) ((D3 m c).arrAt 8 cfg7.N) (Va4 m c)).symm
    | ⟨4, _⟩ => exact (arrAt_in7 _ _ _ c 4 rfl _).trans (Function.update_of_ne (show Proc.devRef (τ := τ) .tc main_v54 ≠ Proc.devRef .tc main_v61 by decide) ((D3 m c).arrAt 8 cfg7.N) (Va4 m c)).symm
    | ⟨5, _⟩ => exact (arrAt_in7 _ _ _ c 5 rfl _).trans (Function.update_of_ne (show Proc.devRef (τ := τ) .tc main_v56 ≠ Proc.devRef .tc main_v61 by decide) ((D3 m c).arrAt 8 cfg7.N) (Va4 m c)).symm
    | ⟨6, _⟩ => exact (arrAt_in7 _ _ _ c 6 rfl _).trans (Function.update_of_ne (show Proc.devRef (τ := τ) .tc main_v58 ≠ Proc.devRef .tc main_v61 by decide) ((D3 m c).arrAt 8 cfg7.N) (Va4 m c)).symm
    | ⟨7, _⟩ => exact (arrAt_in7 _ _ _ c 7 rfl _).trans (Function.update_of_ne (show Proc.devRef (τ := τ) .tc main_v60 ≠ Proc.devRef .tc main_v61 by decide) ((D3 m c).arrAt 8 cfg7.N) (Va4 m c)).symm
    | ⟨8, _⟩ => exact (Function.update_self (Proc.devRef (τ := τ) .tc main_v61) ((D3 m c).arrAt 8 cfg7.N) (Va4 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec7 = (pcfgs (F := F) 3).spec)
  hq c w := rfl
  howed c t := rfl
  hrec c t := rfl
  hbody c := (body_obligation7 _ _ _ 𝒱₀ none c).loose

set_option maxHeartbeats 1000000 in
theorem hyps4 : RegHyps (pdats m) 4 5 (Va5 m) (Vr4 m) where
  lf := launch9
  hA c w := A_eq9 _ _ _ c w
  hF c w := by
    match w with
    | ⟨0, _⟩ => exact (arrAt_in9 _ _ _ c 0 rfl _).trans (Function.update_of_ne (show Proc.devRef (τ := τ) .tc main_v63 ≠ Proc.devRef .tc main_v74 by decide) ((D4 m c).arrAt 8 cfg9.N) (Va5 m c)).symm
    | ⟨1, _⟩ => exact (arrAt_in9 _ _ _ c 1 rfl _).trans (Function.update_of_ne (show Proc.devRef (τ := τ) .tc main_v22 ≠ Proc.devRef .tc main_v74 by decide) ((D4 m c).arrAt 8 cfg9.N) (Va5 m c)).symm
    | ⟨2, _⟩ => exact (arrAt_in9 _ _ _ c 2 rfl _).trans (Function.update_of_ne (show Proc.devRef (τ := τ) .tc main_v61 ≠ Proc.devRef .tc main_v74 by decide) ((D4 m c).arrAt 8 cfg9.N) (Va5 m c)).symm
    | ⟨3, _⟩ => exact (arrAt_in9 _ _ _ c 3 rfl _).trans (Function.update_of_ne (show Proc.devRef (τ := τ) .tc main_v65 ≠ Proc.devRef .tc main_v74 by decide) ((D4 m c).arrAt 8 cfg9.N) (Va5 m c)).symm
    | ⟨4, _⟩ => exact (arrAt_in9 _ _ _ c 4 rfl _).trans (Function.update_of_ne (show Proc.devRef (τ := τ) .tc main_v67 ≠ Proc.devRef .tc main_v74 by decide) ((D4 m c).arrAt 8 cfg9.N) (Va5 m c)).symm
    | ⟨5, _⟩ => exact (arrAt_in9 _ _ _ c 5 rfl _).trans (Function.update_of_ne (show Proc.devRef (τ := τ) .tc main_v69 ≠ Proc.devRef .tc main_v74 by decide) ((D4 m c).arrAt 8 cfg9.N) (Va5 m c)).symm
    | ⟨6, _⟩ => exact (arrAt_in9 _ _ _ c 6 rfl _).trans (Function.update_of_ne (show Proc.devRef (τ := τ) .tc main_v71 ≠ Proc.devRef .tc main_v74 by decide) ((D4 m c).arrAt 8 cfg9.N) (Va5 m c)).symm
    | ⟨7, _⟩ => exact (arrAt_in9 _ _ _ c 7 rfl _).trans (Function.update_of_ne (show Proc.devRef (τ := τ) .tc main_v73 ≠ Proc.devRef .tc main_v74 by decide) ((D4 m c).arrAt 8 cfg9.N) (Va5 m c)).symm
    | ⟨8, _⟩ => exact (Function.update_self (Proc.devRef (τ := τ) .tc main_v74) ((D4 m c).arrAt 8 cfg9.N) (Va5 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec9 = (pcfgs (F := F) 4).spec)
  hq c w := rfl
  howed c t := rfl
  hrec c t := rfl
  hbody c := (body_obligation9 _ _ _ 𝒱₀ none c).loose

set_option maxHeartbeats 1000000 in
theorem hyps5 : RegHyps (pdats m) 5 6 (Va6 m) (Vr5 m) where
  lf := launch11
  hA c w := A_eq11 _ _ _ c w
  hF c w := by
    match w with
    | ⟨0, _⟩ => exact (arrAt_in11 _ _ _ c 0 rfl _).trans (Function.update_of_ne (show Proc.devRef (τ := τ) .tc main_v76 ≠ Proc.devRef .tc main_v87 by decide) ((D5 m c).arrAt 8 cfg11.N) (Va6 m c)).symm
    | ⟨1, _⟩ => exact (arrAt_in11 _ _ _ c 1 rfl _).trans (Function.update_of_ne (show Proc.devRef (τ := τ) .tc main_v22 ≠ Proc.devRef .tc main_v87 by decide) ((D5 m c).arrAt 8 cfg11.N) (Va6 m c)).symm
    | ⟨2, _⟩ => exact (arrAt_in11 _ _ _ c 2 rfl _).trans (Function.update_of_ne (show Proc.devRef (τ := τ) .tc main_v74 ≠ Proc.devRef .tc main_v87 by decide) ((D5 m c).arrAt 8 cfg11.N) (Va6 m c)).symm
    | ⟨3, _⟩ => exact (arrAt_in11 _ _ _ c 3 rfl _).trans (Function.update_of_ne (show Proc.devRef (τ := τ) .tc main_v78 ≠ Proc.devRef .tc main_v87 by decide) ((D5 m c).arrAt 8 cfg11.N) (Va6 m c)).symm
    | ⟨4, _⟩ => exact (arrAt_in11 _ _ _ c 4 rfl _).trans (Function.update_of_ne (show Proc.devRef (τ := τ) .tc main_v80 ≠ Proc.devRef .tc main_v87 by decide) ((D5 m c).arrAt 8 cfg11.N) (Va6 m c)).symm
    | ⟨5, _⟩ => exact (arrAt_in11 _ _ _ c 5 rfl _).trans (Function.update_of_ne (show Proc.devRef (τ := τ) .tc main_v82 ≠ Proc.devRef .tc main_v87 by decide) ((D5 m c).arrAt 8 cfg11.N) (Va6 m c)).symm
    | ⟨6, _⟩ => exact (arrAt_in11 _ _ _ c 6 rfl _).trans (Function.update_of_ne (show Proc.devRef (τ := τ) .tc main_v84 ≠ Proc.devRef .tc main_v87 by decide) ((D5 m c).arrAt 8 cfg11.N) (Va6 m c)).symm
    | ⟨7, _⟩ => exact (arrAt_in11 _ _ _ c 7 rfl _).trans (Function.update_of_ne (show Proc.devRef (τ := τ) .tc main_v86 ≠ Proc.devRef .tc main_v87 by decide) ((D5 m c).arrAt 8 cfg11.N) (Va6 m c)).symm
    | ⟨8, _⟩ => exact (Function.update_self (Proc.devRef (τ := τ) .tc main_v87) ((D5 m c).arrAt 8 cfg11.N) (Va6 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec11 = (pcfgs (F := F) 5).spec)
  hq c w := rfl
  howed c t := rfl
  hrec c t := rfl
  hbody c := (body_obligation11 _ _ _ 𝒱₀ none c).loose

/-! ## @main -/

variable (hidx : ∀ (q : Fin 6) (d : Dev nD) (j : S320000.Idx), (Vc m q d (Proc.devRef .tc main_v4) j).toNat < 10000)

include hidx in
set_option maxHeartbeats 4000000 in
/-- @main on device `d`'s TensorCore: seven stretches of host operations, six SparseCore calls, six regions; at the end
    its arrays stand at the last valuation. -/
theorem hmain (κ : GSem nD τ sig → ℕ) (d : Dev nD) :
    iprop((K (F := F)).ctx EH (P (Vc m)) κ ∗ (K (F := F)).tcSt EH d 0 ∗ (K (F := F)).tcRes m ρ d ∗ Ghost (F := F) Finset.univ d)
      ⊢ wp frame (wpE (DD (F := F)) 𝒱 (SparseCore.T d) none) Set.univ (main d)
          fun _ => iprop((K (F := F)).tcSt EH d 6 ∗ (held (SparseCore.T d) SS (Vr5 m d) : sProp 𝕄)) := by
  unfold SparseCore.Cfg.tcRes
  rw [main_chain, show (unscopedBufs d (fun b => m ((SparseCore.T d).loc b)) : sProp 𝕄) = held (SparseCore.T d) SS (V0 m d) from (held_unscoped d (V0 m d)).symm]
  simp only [mainItems, Pipeline.chain_cons, Pipeline.chain_nil]
  iintro ⟨#Hctx, Hst, ⟨Hb, Hh, -, -⟩, Hg⟩
  ihave #Hlev := (SparseCore.Cfg.ctx_levAts (K := K (F := F)) (EH := EH) (P := P (Vc m)) κ) $$ Hctx
  -- the host glue
  iapply (host_step d 0 (V0 m d) Finset.univ (ops0 (F := F)) ops0_sub ops0_fresh _ _)
  isplitl [Hb Hh Hst Hg]
  · unfold St
    isplitl [Hb]; · iexact Hb
    isplitl [Hh]; · iexact Hh
    isplitl [Hst] <;> iassumption
  iintro HS
  -- call 0
  iapply (run_step0 (Vc m) κ d (Va0 m d) (Finset.univ) rfl (hidx 0 d) _ _)
  isplitr; · iexact Hctx
  isplitl [HS]; · iexact HS
  iintro HS
  -- stretch 1
  iapply (host_step d 1 (Vb0 m d) (Finset.univ) (ops1 (F := F)) ops1_sub ops1_fresh _ _)
  isplitl [HS]; · iexact HS
  iintro HS
  -- region 0
  iapply (region_step (hyps0 m) d (Finset.univ) (by decide) _ _)
  isplitr; · iexact Hlev
  isplitl [HS]; · iexact HS
  iintro HS
  -- call 1
  iapply (run_step1 (Vc m) κ d (Vr0 m d) ((Finset.univ).erase 0) rfl (hidx 1 d) _ _)
  isplitr; · iexact Hctx
  isplitl [HS]; · iexact HS
  iintro HS
  -- stretch 2
  iapply (host_step d 2 (Vb1 m d) ((Finset.univ).erase 0) (ops2 (F := F)) ops2_sub ops2_fresh _ _)
  isplitl [HS]; · iexact HS
  iintro HS
  -- region 1
  iapply (region_step (hyps1 m) d ((Finset.univ).erase 0) (by decide) _ _)
  isplitr; · iexact Hlev
  isplitl [HS]; · iexact HS
  iintro HS
  -- call 2
  iapply (run_step2 (Vc m) κ d (Vr1 m d) (((Finset.univ).erase 0).erase 1) rfl (hidx 2 d) _ _)
  isplitr; · iexact Hctx
  isplitl [HS]; · iexact HS
  iintro HS
  -- stretch 3
  iapply (host_step d 3 (Vb2 m d) (((Finset.univ).erase 0).erase 1) (ops3 (F := F)) ops3_sub ops3_fresh _ _)
  isplitl [HS]; · iexact HS
  iintro HS
  -- region 2
  iapply (region_step (hyps2 m) d (((Finset.univ).erase 0).erase 1) (by decide) _ _)
  isplitr; · iexact Hlev
  isplitl [HS]; · iexact HS
  iintro HS
  -- call 3
  iapply (run_step3 (Vc m) κ d (Vr2 m d) ((((Finset.univ).erase 0).erase 1).erase 2) rfl (hidx 3 d) _ _)
  isplitr; · iexact Hctx
  isplitl [HS]; · iexact HS
  iintro HS
  -- stretch 4
  iapply (host_step d 4 (Vb3 m d) ((((Finset.univ).erase 0).erase 1).erase 2) (ops4 (F := F)) ops4_sub ops4_fresh _ _)
  isplitl [HS]; · iexact HS
  iintro HS
  -- region 3
  iapply (region_step (hyps3 m) d ((((Finset.univ).erase 0).erase 1).erase 2) (by decide) _ _)
  isplitr; · iexact Hlev
  isplitl [HS]; · iexact HS
  iintro HS
  -- call 4
  iapply (run_step4 (Vc m) κ d (Vr3 m d) (((((Finset.univ).erase 0).erase 1).erase 2).erase 3) rfl (hidx 4 d) _ _)
  isplitr; · iexact Hctx
  isplitl [HS]; · iexact HS
  iintro HS
  -- stretch 5
  iapply (host_step d 5 (Vb4 m d) (((((Finset.univ).erase 0).erase 1).erase 2).erase 3) (ops5 (F := F)) ops5_sub ops5_fresh _ _)
  isplitl [HS]; · iexact HS
  iintro HS
  -- region 4
  iapply (region_step (hyps4 m) d (((((Finset.univ).erase 0).erase 1).erase 2).erase 3) (by decide) _ _)
  isplitr; · iexact Hlev
  isplitl [HS]; · iexact HS
  iintro HS
  -- call 5
  iapply (run_step5 (Vc m) κ d (Vr4 m d) ((((((Finset.univ).erase 0).erase 1).erase 2).erase 3).erase 4) rfl (hidx 5 d) _ _)
  isplitr; · iexact Hctx
  isplitl [HS]; · iexact HS
  iintro HS
  -- stretch 6
  iapply (host_step d 6 (Vb5 m d) ((((((Finset.univ).erase 0).erase 1).erase 2).erase 3).erase 4) (ops6 (F := F)) ops6_sub ops6_fresh _ _)
  isplitl [HS]; · iexact HS
  iintro HS
  -- region 5
  iapply (region_step (hyps5 m) d ((((((Finset.univ).erase 0).erase 1).erase 2).erase 3).erase 4) (by decide) _ _)
  isplitr; · iexact Hlev
  isplitl [HS]; · iexact HS
  iintro HS
  rw [wp_pure]; imodintro
  unfold St
  icases HS with ⟨-, Hh, Hst, -⟩
  isplitl [Hst]; · iexact Hst
  iexact Hh

end Cert.Proof.MainRunI

end
-- ==== Proof.GatherBody.lean ====
/-
  One vector subcore's task of the first gather call: the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBase
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.KernelIdeal
import proofs.«205547_g25623774888366_cont_9to1_713_27_alg».proof.Proof.Gen.KernelIdeal.Skeleton

noncomputable section

namespace Cert.Proof.GatherBody

open Cert.KernelIdeal Cert.KernelIdeal.Gen
open Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.KernelIdeal.main_v2_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v20_scv : Memref Cert.KernelIdeal.sig Kind.scVector Space.hbm Cert.KernelIdeal.S320000x128 EltTy.f32)
local notation "sV" => (Memref.whole Cert.KernelIdeal.cc0_scratch0 : Memref Cert.KernelIdeal.sig Kind.scVector Space.vmem Cert.KernelIdeal.S10000 EltTy.i32)
local notation "aV" => (Memref.whole Cert.KernelIdeal.cc0_scratch1 : Memref Cert.KernelIdeal.sig Kind.scVector Space.vmem Cert.KernelIdeal.S400x128 EltTy.f32)
local notation "bV" => (Memref.whole Cert.KernelIdeal.cc0_scratch2 : Memref Cert.KernelIdeal.sig Kind.scVector Space.vmem Cert.KernelIdeal.S400x128 EltTy.f32)

section Sets

variable (L : grid0.Coords)

theorem bound_zero : grid0.bound 0 = 2 := rfl
theorem bound_one : grid0.bound 1 = 16 := rfl
/-- The worker's number: twice the vector subcore's plus the SparseCore's. -/
abbrev wid (L : grid0.Coords) : Fin 32 := wOf (Fin.cast bound_zero (L 0)) (Fin.cast bound_one (L 1))
/-- The first row of the worker's block. -/
abbrev base (L : grid0.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid0.Coords) (c : Fin 25) : Rect S320000x128 :=
  Rect.unit (s := S320000x128) (k0_off2 L (BitVec.ofNat 32 (400 * c.val))) S400x128.size (k0_off2_inb L c)
abbrev chunkSet (L : grid0.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k0_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid0.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid0.Coords)

abbrev cV (L : grid0.Coords) : Fin τ.nSC := (L 0).castLE hcore0
abbrev jV (L : grid0.Coords) : Fin τ.nSub := (L 1).castLE hsub0

abbrev irowK (L : grid0.Coords) : Rect S320000 := Rect.unit (s := S320000) (k0_off1 L) S10000.size (k0_off1_inb L)
/-- The worker's block of the index array, as the task addresses it. -/
abbrev iRowK (L : grid0.Coords) : Memref sig .scVector .hbm S10000 .i32 := (iV).slice (irowK L) (fun _ => rfl)
/-- A block of 400 rows of the output at a row offset given by a word, as the task addresses it. -/
abbrev oChunkM (L : grid0.Coords) (n : BitVec 32) (h : ∀ a, (k0_off2 L n) a + S400x128.size a ≤ S320000x128.size a) : Memref sig .scVector .hbm S400x128 .f32 :=
  (oV).slice (Rect.unit (s := S320000x128) (k0_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k0_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k0_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k0_off2 L n) a + S400x128.size a ≤ S320000x128.size a) (f : Buf (Elt F) (oLoc0 d)) :
    ((oChunkM L n h).view.loc (V d (cV L) (jV L)) ↦[(oChunkM L n h).view.set]{fullShare} f : sProp 𝕄)
      = (oLoc0 d ↦[chunkSet L c]{fullShare} f) := by
  rw [set_oChunkM L c n hn h]
theorem pts_xV (q : PosShare TreeShare) (f : Buf (Elt F) (xLoc0 d)) :
    ((xV).view.loc (V d (cV L) (jV L)) ↦{q} f : sProp 𝕄) = xLoc0 d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_aV (f : Buf (Elt F) ((V d (cV L) (jV L)).loc cc0_scratch1)) :
    ((aV).view.loc (V d (cV L) (jV L)) ↦{fullShare} f : sProp 𝕄) = (V d (cV L) (jV L)).loc cc0_scratch1 ↦{fullShare} f := rfl
theorem pts_bV (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

/-- The rows from chunk `k` on are chunk `k` and the rows from chunk `k + 1` on. -/
theorem pts_tl_split (k : ℕ) (hk : k < 25) (f : Buf (Elt F) (oLoc0 d)) :
    (oLoc0 d ↦[tlSet L k (by omega)]{fullShare} f : sProp 𝕄)
      = iprop((oLoc0 d ↦[chunkSet L ⟨k, hk⟩]{fullShare} f) ∗ oLoc0 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc0 d)) :
    (oLoc0 d ↦[oRowSet (wid L)]{fullShare} f : sProp 𝕄) = oLoc0 d ↦[tlSet L 0 (by omega)]{fullShare} f := by
  rw [tl_zero]

theorem pts_tl_24 (f : Buf (Elt F) (oLoc0 d)) :
    (oLoc0 d ↦[tlSet L 24 (by omega)]{fullShare} f : sProp 𝕄) = oLoc0 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k0_off2 L n) a + S400x128.size a ≤ S320000x128.size a)
    (g : Buf (Elt F) (oLoc0 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc0 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k0_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k0_off1 L) 0 + 1 * (off 0 + 1 * ((S400.rowMajor.symm ((j gathers_S10000x128_S400x128.axis').cast hn'.symm)) 0).val)
      = (k0_off2 L (BitVec.ofNat 32 (400 * c.val))) 0 + 1 * (j 0).val
    rw [hz, k0_off1_eq L, k0_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k0_off2 L (BitVec.ofNat 32 (400 * c.val))) 1 + 1 * (j 1).val
    rw [k0_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc0 d)) (g : Buf (Elt F) (oLoc0 d)) (c : Fin 25)
    (n : BitVec 32) (hn : n = BitVec.ofNat 32 (400 * c.val)) (h : ∀ a, (k0_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc0_scratch3.sem)
abbrev cellG1 (d : Dev nD) (c : Fin τ.nSC) (i : Fin τ.nSub) : GSem nD τ sig := (V d c i, .dma cc0_scratch4.sem)
abbrev cellS0 (d : Dev nD) (c : Fin τ.nSC) (i : Fin τ.nSub) : GSem nD τ sig := (V d c i, .dma cc0_scratch5.sem)
abbrev cellS1 (d : Dev nD) (c : Fin τ.nSC) (i : Fin τ.nSub) : GSem nD τ sig := (V d c i, .dma cc0_scratch6.sem)
abbrev cellIX (d : Dev nD) (c : Fin τ.nSC) (i : Fin τ.nSub) : GSem nD τ sig := (V d c i, .dma cc0_scoped0.sem)

theorem cell_ne_G1_G0 : (cellG1 d (cV L) (jV L)) ≠ (cellG0 d (cV L) (jV L)) :=
  fun h => absurd (congrArg Prod.snd h) (show (SemLoc.dma cc0_scratch4.sem : SemLoc sig) ≠ SemLoc.dma cc0_scratch3.sem by decide)
theorem cell_ne_S0_G0 : (cellS0 d (cV L) (jV L)) ≠ (cellG0 d (cV L) (jV L)) :=
  fun h => absurd (congrArg Prod.snd h) (show (SemLoc.dma cc0_scratch5.sem : SemLoc sig) ≠ SemLoc.dma cc0_scratch3.sem by decide)
theorem cell_ne_S0_G1 : (cellS0 d (cV L) (jV L)) ≠ (cellG1 d (cV L) (jV L)) :=
  fun h => absurd (congrArg Prod.snd h) (show (SemLoc.dma cc0_scratch5.sem : SemLoc sig) ≠ SemLoc.dma cc0_scratch4.sem by decide)
theorem cell_ne_S1_G0 : (cellS1 d (cV L) (jV L)) ≠ (cellG0 d (cV L) (jV L)) :=
  fun h => absurd (congrArg Prod.snd h) (show (SemLoc.dma cc0_scratch6.sem : SemLoc sig) ≠ SemLoc.dma cc0_scratch3.sem by decide)
theorem cell_ne_S1_G1 : (cellS1 d (cV L) (jV L)) ≠ (cellG1 d (cV L) (jV L)) :=
  fun h => absurd (congrArg Prod.snd h) (show (SemLoc.dma cc0_scratch6.sem : SemLoc sig) ≠ SemLoc.dma cc0_scratch4.sem by decide)
theorem cell_ne_S1_S0 : (cellS1 d (cV L) (jV L)) ≠ (cellS0 d (cV L) (jV L)) :=
  fun h => absurd (congrArg Prod.snd h) (show (SemLoc.dma cc0_scratch6.sem : SemLoc sig) ≠ SemLoc.dma cc0_scratch5.sem by decide)
theorem cell_ne_IX_G0 : (cellIX d (cV L) (jV L)) ≠ (cellG0 d (cV L) (jV L)) :=
  fun h => absurd (congrArg Prod.snd h) (show (SemLoc.dma cc0_scoped0.sem : SemLoc sig) ≠ SemLoc.dma cc0_scratch3.sem by decide)
theorem cell_ne_IX_G1 : (cellIX d (cV L) (jV L)) ≠ (cellG1 d (cV L) (jV L)) :=
  fun h => absurd (congrArg Prod.snd h) (show (SemLoc.dma cc0_scoped0.sem : SemLoc sig) ≠ SemLoc.dma cc0_scratch4.sem by decide)
theorem cell_ne_IX_S0 : (cellIX d (cV L) (jV L)) ≠ (cellS0 d (cV L) (jV L)) :=
  fun h => absurd (congrArg Prod.snd h) (show (SemLoc.dma cc0_scoped0.sem : SemLoc sig) ≠ SemLoc.dma cc0_scratch5.sem by decide)
theorem cell_ne_IX_S1 : (cellIX d (cV L) (jV L)) ≠ (cellS1 d (cV L) (jV L)) :=
  fun h => absurd (congrArg Prod.snd h) (show (SemLoc.dma cc0_scoped0.sem : SemLoc sig) ≠ SemLoc.dma cc0_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc0_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc0_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc0_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc0_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc0_scoped0.sem : SemLoc sig).isScoped .scVector = true; decide⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc0 d)) (OUT₀ : Buf (Elt F) (oLoc0 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc0 d ↦{q} TAB) ∗ (oLoc0 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) aV (Memref.isWhole_whole _) bV (Memref.isWhole_whole _)
            cc0_scratch3 cc0_scratch4 cc0_scratch5 cc0_scratch6 cc0_scoped0)
          fun _ => iprop(((iLoc d ↦[iRowSet (wid L)]{fullShare} IDX : sProp 𝕄) ∗ (xLoc0 d ↦{q} TAB)
              ∗ ∃ OUT, ⌜GatherSpec (wid L) IDX TAB OUT⌝ ∗ (oLoc0 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k0_off2_inb L 0) _).symm) $$ Ho0
  ihave Ho1' := (Entails.of_eq (pts_oChunk (F := F) d L 1 400#32 rfl (k0_off2_inb L 1) _).symm) $$ Ho1
  ihave Ho2' := (Entails.of_eq (pts_oChunk (F := F) d L 2 800#32 rfl (k0_off2_inb L 2) _).symm) $$ Ho2
  ihave Ho3' := (Entails.of_eq (pts_oChunk (F := F) d L 3 1200#32 rfl (k0_off2_inb L 3) _).symm) $$ Ho3
  ihave Ho4' := (Entails.of_eq (pts_oChunk (F := F) d L 4 1600#32 rfl (k0_off2_inb L 4) _).symm) $$ Ho4
  ihave Ho5' := (Entails.of_eq (pts_oChunk (F := F) d L 5 2000#32 rfl (k0_off2_inb L 5) _).symm) $$ Ho5
  ihave Ho6' := (Entails.of_eq (pts_oChunk (F := F) d L 6 2400#32 rfl (k0_off2_inb L 6) _).symm) $$ Ho6
  ihave Ho7' := (Entails.of_eq (pts_oChunk (F := F) d L 7 2800#32 rfl (k0_off2_inb L 7) _).symm) $$ Ho7
  ihave Ho8' := (Entails.of_eq (pts_oChunk (F := F) d L 8 3200#32 rfl (k0_off2_inb L 8) _).symm) $$ Ho8
  ihave Ho9' := (Entails.of_eq (pts_oChunk (F := F) d L 9 3600#32 rfl (k0_off2_inb L 9) _).symm) $$ Ho9
  ihave Ho10' := (Entails.of_eq (pts_oChunk (F := F) d L 10 4000#32 rfl (k0_off2_inb L 10) _).symm) $$ Ho10
  ihave Ho11' := (Entails.of_eq (pts_oChunk (F := F) d L 11 4400#32 rfl (k0_off2_inb L 11) _).symm) $$ Ho11
  ihave Ho12' := (Entails.of_eq (pts_oChunk (F := F) d L 12 4800#32 rfl (k0_off2_inb L 12) _).symm) $$ Ho12
  ihave Ho13' := (Entails.of_eq (pts_oChunk (F := F) d L 13 5200#32 rfl (k0_off2_inb L 13) _).symm) $$ Ho13
  ihave Ho14' := (Entails.of_eq (pts_oChunk (F := F) d L 14 5600#32 rfl (k0_off2_inb L 14) _).symm) $$ Ho14
  ihave Ho15' := (Entails.of_eq (pts_oChunk (F := F) d L 15 6000#32 rfl (k0_off2_inb L 15) _).symm) $$ Ho15
  ihave Ho16' := (Entails.of_eq (pts_oChunk (F := F) d L 16 6400#32 rfl (k0_off2_inb L 16) _).symm) $$ Ho16
  ihave Ho17' := (Entails.of_eq (pts_oChunk (F := F) d L 17 6800#32 rfl (k0_off2_inb L 17) _).symm) $$ Ho17
  ihave Ho18' := (Entails.of_eq (pts_oChunk (F := F) d L 18 7200#32 rfl (k0_off2_inb L 18) _).symm) $$ Ho18
  ihave Ho19' := (Entails.of_eq (pts_oChunk (F := F) d L 19 7600#32 rfl (k0_off2_inb L 19) _).symm) $$ Ho19
  ihave Ho20' := (Entails.of_eq (pts_oChunk (F := F) d L 20 8000#32 rfl (k0_off2_inb L 20) _).symm) $$ Ho20
  ihave Ho21' := (Entails.of_eq (pts_oChunk (F := F) d L 21 8400#32 rfl (k0_off2_inb L 21) _).symm) $$ Ho21
  ihave Ho22' := (Entails.of_eq (pts_oChunk (F := F) d L 22 8800#32 rfl (k0_off2_inb L 22) _).symm) $$ Ho22
  ihave Ho23' := (Entails.of_eq (pts_oChunk (F := F) d L 23 9200#32 rfl (k0_off2_inb L 23) _).symm) $$ Ho23
  ihave Ho24' := (Entails.of_eq (pts_oChunk (F := F) d L 24 9600#32 rfl (k0_off2_inb L 24) _).symm) $$ Ho24
  have hin := idx_inb (F := F) d L IDX hidx
  sl_exec_parts
  sl_step
  have hv0 := chunk_val (F := F) d L IDX TAB OUT₀ 0 0#32 rfl (k0_off2_inb L 0) (tile_body.sl.dma0_1 d L IDX TAB fs fa hin)
    (fun j => (read_writes_whole _ _ _ _ j).trans (gather_val (F := F) d L IDX TAB hidx fs 0 ![0] rfl _ 0#32 rfl (k0_off2_inb L 0) _ _ j))
  ihave Hg0 := (Entails.of_eq ((pts_oChunk (F := F) d L 0 0#32 rfl (k0_off2_inb L 0) _).trans (pointsTo_congr hv0))) $$ Ho0'
  have hv1 := chunk_val (F := F) d L IDX TAB OUT₀ 1 400#32 rfl (k0_off2_inb L 1) (tile_body.sl.dma0_2 d L IDX TAB fs fb hin)
    (fun j => (read_writes_whole _ _ _ _ j).trans (gather_val (F := F) d L IDX TAB hidx fs 1 ![400] rfl _ 400#32 rfl (k0_off2_inb L 1) _ _ j))
  ihave Hg1 := (Entails.of_eq ((pts_oChunk (F := F) d L 1 400#32 rfl (k0_off2_inb L 1) _).trans (pointsTo_congr hv1))) $$ Ho1'
  have hv2 := chunk_val (F := F) d L IDX TAB OUT₀ 2 800#32 rfl (k0_off2_inb L 2) (tile_body.sl.dma0_3 d L IDX TAB fs fa hin)
    (fun j => (read_writes_whole _ _ _ _ j).trans (gather_val (F := F) d L IDX TAB hidx fs 2 ![800] rfl _ 800#32 rfl (k0_off2_inb L 2) _ _ j))
  ihave Hg2 := (Entails.of_eq ((pts_oChunk (F := F) d L 2 800#32 rfl (k0_off2_inb L 2) _).trans (pointsTo_congr hv2))) $$ Ho2'
  have hv3 := chunk_val (F := F) d L IDX TAB OUT₀ 3 1200#32 rfl (k0_off2_inb L 3) (tile_body.sl.dma0_4 d L IDX TAB fs fb hin)
    (fun j => (read_writes_whole _ _ _ _ j).trans (gather_val (F := F) d L IDX TAB hidx fs 3 ![1200] rfl _ 1200#32 rfl (k0_off2_inb L 3) _ _ j))
  ihave Hg3 := (Entails.of_eq ((pts_oChunk (F := F) d L 3 1200#32 rfl (k0_off2_inb L 3) _).trans (pointsTo_congr hv3))) $$ Ho3'
  have hv4 := chunk_val (F := F) d L IDX TAB OUT₀ 4 1600#32 rfl (k0_off2_inb L 4) (tile_body.sl.dma0_5 d L IDX TAB fs fa hin)
    (fun j => (read_writes_whole _ _ _ _ j).trans (gather_val (F := F) d L IDX TAB hidx fs 4 ![1600] rfl _ 1600#32 rfl (k0_off2_inb L 4) _ _ j))
  ihave Hg4 := (Entails.of_eq ((pts_oChunk (F := F) d L 4 1600#32 rfl (k0_off2_inb L 4) _).trans (pointsTo_congr hv4))) $$ Ho4'
  have hv5 := chunk_val (F := F) d L IDX TAB OUT₀ 5 2000#32 rfl (k0_off2_inb L 5) (tile_body.sl.dma0_6 d L IDX TAB fs fb hin)
    (fun j => (read_writes_whole _ _ _ _ j).trans (gather_val (F := F) d L IDX TAB hidx fs 5 ![2000] rfl _ 2000#32 rfl (k0_off2_inb L 5) _ _ j))
  ihave Hg5 := (Entails.of_eq ((pts_oChunk (F := F) d L 5 2000#32 rfl (k0_off2_inb L 5) _).trans (pointsTo_congr hv5))) $$ Ho5'
  have hv6 := chunk_val (F := F) d L IDX TAB OUT₀ 6 2400#32 rfl (k0_off2_inb L 6) (tile_body.sl.dma0_7 d L IDX TAB fs fa hin)
    (fun j => (read_writes_whole _ _ _ _ j).trans (gather_val (F := F) d L IDX TAB hidx fs 6 ![2400] rfl _ 2400#32 rfl (k0_off2_inb L 6) _ _ j))
  ihave Hg6 := (Entails.of_eq ((pts_oChunk (F := F) d L 6 2400#32 rfl (k0_off2_inb L 6) _).trans (pointsTo_congr hv6))) $$ Ho6'
  have hv7 := chunk_val (F := F) d L IDX TAB OUT₀ 7 2800#32 rfl (k0_off2_inb L 7) (tile_body.sl.dma0_8 d L IDX TAB fs fb hin)
    (fun j => (read_writes_whole _ _ _ _ j).trans (gather_val (F := F) d L IDX TAB hidx fs 7 ![2800] rfl _ 2800#32 rfl (k0_off2_inb L 7) _ _ j))
  ihave Hg7 := (Entails.of_eq ((pts_oChunk (F := F) d L 7 2800#32 rfl (k0_off2_inb L 7) _).trans (pointsTo_congr hv7))) $$ Ho7'
  have hv8 := chunk_val (F := F) d L IDX TAB OUT₀ 8 3200#32 rfl (k0_off2_inb L 8) (tile_body.sl.dma0_9 d L IDX TAB fs fa hin)
    (fun j => (read_writes_whole _ _ _ _ j).trans (gather_val (F := F) d L IDX TAB hidx fs 8 ![3200] rfl _ 3200#32 rfl (k0_off2_inb L 8) _ _ j))
  ihave Hg8 := (Entails.of_eq ((pts_oChunk (F := F) d L 8 3200#32 rfl (k0_off2_inb L 8) _).trans (pointsTo_congr hv8))) $$ Ho8'
  have hv9 := chunk_val (F := F) d L IDX TAB OUT₀ 9 3600#32 rfl (k0_off2_inb L 9) (tile_body.sl.dma0_10 d L IDX TAB fs fb hin)
    (fun j => (read_writes_whole _ _ _ _ j).trans (gather_val (F := F) d L IDX TAB hidx fs 9 ![3600] rfl _ 3600#32 rfl (k0_off2_inb L 9) _ _ j))
  ihave Hg9 := (Entails.of_eq ((pts_oChunk (F := F) d L 9 3600#32 rfl (k0_off2_inb L 9) _).trans (pointsTo_congr hv9))) $$ Ho9'
  have hv10 := chunk_val (F := F) d L IDX TAB OUT₀ 10 4000#32 rfl (k0_off2_inb L 10) (tile_body.sl.dma0_11 d L IDX TAB fs fa hin)
    (fun j => (read_writes_whole _ _ _ _ j).trans (gather_val (F := F) d L IDX TAB hidx fs 10 ![4000] rfl _ 4000#32 rfl (k0_off2_inb L 10) _ _ j))
  ihave Hg10 := (Entails.of_eq ((pts_oChunk (F := F) d L 10 4000#32 rfl (k0_off2_inb L 10) _).trans (pointsTo_congr hv10))) $$ Ho10'
  have hv11 := chunk_val (F := F) d L IDX TAB OUT₀ 11 4400#32 rfl (k0_off2_inb L 11) (tile_body.sl.dma0_12 d L IDX TAB fs fb hin)
    (fun j => (read_writes_whole _ _ _ _ j).trans (gather_val (F := F) d L IDX TAB hidx fs 11 ![4400] rfl _ 4400#32 rfl (k0_off2_inb L 11) _ _ j))
  ihave Hg11 := (Entails.of_eq ((pts_oChunk (F := F) d L 11 4400#32 rfl (k0_off2_inb L 11) _).trans (pointsTo_congr hv11))) $$ Ho11'
  have hv12 := chunk_val (F := F) d L IDX TAB OUT₀ 12 4800#32 rfl (k0_off2_inb L 12) (tile_body.sl.dma0_13 d L IDX TAB fs fa hin)
    (fun j => (read_writes_whole _ _ _ _ j).trans (gather_val (F := F) d L IDX TAB hidx fs 12 ![4800] rfl _ 4800#32 rfl (k0_off2_inb L 12) _ _ j))
  ihave Hg12 := (Entails.of_eq ((pts_oChunk (F := F) d L 12 4800#32 rfl (k0_off2_inb L 12) _).trans (pointsTo_congr hv12))) $$ Ho12'
  have hv13 := chunk_val (F := F) d L IDX TAB OUT₀ 13 5200#32 rfl (k0_off2_inb L 13) (tile_body.sl.dma0_14 d L IDX TAB fs fb hin)
    (fun j => (read_writes_whole _ _ _ _ j).trans (gather_val (F := F) d L IDX TAB hidx fs 13 ![5200] rfl _ 5200#32 rfl (k0_off2_inb L 13) _ _ j))
  ihave Hg13 := (Entails.of_eq ((pts_oChunk (F := F) d L 13 5200#32 rfl (k0_off2_inb L 13) _).trans (pointsTo_congr hv13))) $$ Ho13'
  have hv14 := chunk_val (F := F) d L IDX TAB OUT₀ 14 5600#32 rfl (k0_off2_inb L 14) (tile_body.sl.dma0_15 d L IDX TAB fs fa hin)
    (fun j => (read_writes_whole _ _ _ _ j).trans (gather_val (F := F) d L IDX TAB hidx fs 14 ![5600] rfl _ 5600#32 rfl (k0_off2_inb L 14) _ _ j))
  ihave Hg14 := (Entails.of_eq ((pts_oChunk (F := F) d L 14 5600#32 rfl (k0_off2_inb L 14) _).trans (pointsTo_congr hv14))) $$ Ho14'
  have hv15 := chunk_val (F := F) d L IDX TAB OUT₀ 15 6000#32 rfl (k0_off2_inb L 15) (tile_body.sl.dma0_16 d L IDX TAB fs fb hin)
    (fun j => (read_writes_whole _ _ _ _ j).trans (gather_val (F := F) d L IDX TAB hidx fs 15 ![6000] rfl _ 6000#32 rfl (k0_off2_inb L 15) _ _ j))
  ihave Hg15 := (Entails.of_eq ((pts_oChunk (F := F) d L 15 6000#32 rfl (k0_off2_inb L 15) _).trans (pointsTo_congr hv15))) $$ Ho15'
  have hv16 := chunk_val (F := F) d L IDX TAB OUT₀ 16 6400#32 rfl (k0_off2_inb L 16) (tile_body.sl.dma0_17 d L IDX TAB fs fa hin)
    (fun j => (read_writes_whole _ _ _ _ j).trans (gather_val (F := F) d L IDX TAB hidx fs 16 ![6400] rfl _ 6400#32 rfl (k0_off2_inb L 16) _ _ j))
  ihave Hg16 := (Entails.of_eq ((pts_oChunk (F := F) d L 16 6400#32 rfl (k0_off2_inb L 16) _).trans (pointsTo_congr hv16))) $$ Ho16'
  have hv17 := chunk_val (F := F) d L IDX TAB OUT₀ 17 6800#32 rfl (k0_off2_inb L 17) (tile_body.sl.dma0_18 d L IDX TAB fs fb hin)
    (fun j => (read_writes_whole _ _ _ _ j).trans (gather_val (F := F) d L IDX TAB hidx fs 17 ![6800] rfl _ 6800#32 rfl (k0_off2_inb L 17) _ _ j))
  ihave Hg17 := (Entails.of_eq ((pts_oChunk (F := F) d L 17 6800#32 rfl (k0_off2_inb L 17) _).trans (pointsTo_congr hv17))) $$ Ho17'
  have hv18 := chunk_val (F := F) d L IDX TAB OUT₀ 18 7200#32 rfl (k0_off2_inb L 18) (tile_body.sl.dma0_19 d L IDX TAB fs fa hin)
    (fun j => (read_writes_whole _ _ _ _ j).trans (gather_val (F := F) d L IDX TAB hidx fs 18 ![7200] rfl _ 7200#32 rfl (k0_off2_inb L 18) _ _ j))
  ihave Hg18 := (Entails.of_eq ((pts_oChunk (F := F) d L 18 7200#32 rfl (k0_off2_inb L 18) _).trans (pointsTo_congr hv18))) $$ Ho18'
  have hv19 := chunk_val (F := F) d L IDX TAB OUT₀ 19 7600#32 rfl (k0_off2_inb L 19) (tile_body.sl.dma0_20 d L IDX TAB fs fb hin)
    (fun j => (read_writes_whole _ _ _ _ j).trans (gather_val (F := F) d L IDX TAB hidx fs 19 ![7600] rfl _ 7600#32 rfl (k0_off2_inb L 19) _ _ j))
  ihave Hg19 := (Entails.of_eq ((pts_oChunk (F := F) d L 19 7600#32 rfl (k0_off2_inb L 19) _).trans (pointsTo_congr hv19))) $$ Ho19'
  have hv20 := chunk_val (F := F) d L IDX TAB OUT₀ 20 8000#32 rfl (k0_off2_inb L 20) (tile_body.sl.dma0_21 d L IDX TAB fs fa hin)
    (fun j => (read_writes_whole _ _ _ _ j).trans (gather_val (F := F) d L IDX TAB hidx fs 20 ![8000] rfl _ 8000#32 rfl (k0_off2_inb L 20) _ _ j))
  ihave Hg20 := (Entails.of_eq ((pts_oChunk (F := F) d L 20 8000#32 rfl (k0_off2_inb L 20) _).trans (pointsTo_congr hv20))) $$ Ho20'
  have hv21 := chunk_val (F := F) d L IDX TAB OUT₀ 21 8400#32 rfl (k0_off2_inb L 21) (tile_body.sl.dma0_22 d L IDX TAB fs fb hin)
    (fun j => (read_writes_whole _ _ _ _ j).trans (gather_val (F := F) d L IDX TAB hidx fs 21 ![8400] rfl _ 8400#32 rfl (k0_off2_inb L 21) _ _ j))
  ihave Hg21 := (Entails.of_eq ((pts_oChunk (F := F) d L 21 8400#32 rfl (k0_off2_inb L 21) _).trans (pointsTo_congr hv21))) $$ Ho21'
  have hv22 := chunk_val (F := F) d L IDX TAB OUT₀ 22 8800#32 rfl (k0_off2_inb L 22) (tile_body.sl.dma0_23 d L IDX TAB fs fa hin)
    (fun j => (read_writes_whole _ _ _ _ j).trans (gather_val (F := F) d L IDX TAB hidx fs 22 ![8800] rfl _ 8800#32 rfl (k0_off2_inb L 22) _ _ j))
  ihave Hg22 := (Entails.of_eq ((pts_oChunk (F := F) d L 22 8800#32 rfl (k0_off2_inb L 22) _).trans (pointsTo_congr hv22))) $$ Ho22'
  have hv23 := chunk_val (F := F) d L IDX TAB OUT₀ 23 9200#32 rfl (k0_off2_inb L 23) (tile_body.sl.dma0_24 d L IDX TAB fs fb hin)
    (fun j => (read_writes_whole _ _ _ _ j).trans (gather_val (F := F) d L IDX TAB hidx fs 23 ![9200] rfl _ 9200#32 rfl (k0_off2_inb L 23) _ _ j))
  ihave Hg23 := (Entails.of_eq ((pts_oChunk (F := F) d L 23 9200#32 rfl (k0_off2_inb L 23) _).trans (pointsTo_congr hv23))) $$ Ho23'
  have hv24 := chunk_val (F := F) d L IDX TAB OUT₀ 24 9600#32 rfl (k0_off2_inb L 24) (tile_body.sl.dma0_25 d L IDX TAB fs fa hin)
    (fun j => (read_writes_whole _ _ _ _ j).trans (gather_val (F := F) d L IDX TAB hidx fs 24 ![9600] rfl _ 9600#32 rfl (k0_off2_inb L 24) _ _ j))
  ihave Hg24 := (Entails.of_eq ((pts_oChunk (F := F) d L 24 9600#32 rfl (k0_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody

end
-- ==== Proof.GatherBody2.lean ====
/-
  One vector subcore's task of gather call 1 (the program's custom call 2): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBase
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.KernelIdeal
import proofs.«205547_g25623774888366_cont_9to1_713_27_alg».proof.Proof.Gen.KernelIdeal.Skeleton

noncomputable section

namespace Cert.Proof.GatherBody2

open Cert.KernelIdeal Cert.KernelIdeal.Gen
open Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.KernelIdeal.main_arg0_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v23_scv : Memref Cert.KernelIdeal.sig Kind.scVector Space.hbm Cert.KernelIdeal.S320000x128 EltTy.f32)
local notation "sV" => (Memref.whole Cert.KernelIdeal.cc2_scratch0 : Memref Cert.KernelIdeal.sig Kind.scVector Space.vmem Cert.KernelIdeal.S10000 EltTy.i32)
local notation "aV" => (Memref.whole Cert.KernelIdeal.cc2_scratch1 : Memref Cert.KernelIdeal.sig Kind.scVector Space.vmem Cert.KernelIdeal.S400x128 EltTy.f32)
local notation "bV" => (Memref.whole Cert.KernelIdeal.cc2_scratch2 : Memref Cert.KernelIdeal.sig Kind.scVector Space.vmem Cert.KernelIdeal.S400x128 EltTy.f32)

section Sets

variable (L : grid2.Coords)

theorem bound_zero : grid2.bound 0 = 2 := rfl
theorem bound_one : grid2.bound 1 = 16 := rfl
/-- The worker's number: twice the vector subcore's plus the SparseCore's. -/
abbrev wid (L : grid2.Coords) : Fin 32 := wOf (Fin.cast bound_zero (L 0)) (Fin.cast bound_one (L 1))
/-- The first row of the worker's block. -/
abbrev base (L : grid2.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid2.Coords) (c : Fin 25) : Rect S320000x128 :=
  Rect.unit (s := S320000x128) (k2_off2 L (BitVec.ofNat 32 (400 * c.val))) S400x128.size (k2_off2_inb L c)
abbrev chunkSet (L : grid2.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k2_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid2.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid2.Coords)

abbrev cV (L : grid2.Coords) : Fin τ.nSC := (L 0).castLE hcore2
abbrev jV (L : grid2.Coords) : Fin τ.nSub := (L 1).castLE hsub2

abbrev irowK (L : grid2.Coords) : Rect S320000 := Rect.unit (s := S320000) (k2_off1 L) S10000.size (k2_off1_inb L)
/-- The worker's block of the index array, as the task addresses it. -/
abbrev iRowK (L : grid2.Coords) : Memref sig .scVector .hbm S10000 .i32 := (iV).slice (irowK L) (fun _ => rfl)
/-- A block of 400 rows of the output at a row offset given by a word, as the task addresses it. -/
abbrev oChunkM (L : grid2.Coords) (n : BitVec 32) (h : ∀ a, (k2_off2 L n) a + S400x128.size a ≤ S320000x128.size a) : Memref sig .scVector .hbm S400x128 .f32 :=
  (oV).slice (Rect.unit (s := S320000x128) (k2_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k2_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k2_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k2_off2 L n) a + S400x128.size a ≤ S320000x128.size a) (f : Buf (Elt F) (oLoc1 d)) :
    ((oChunkM L n h).view.loc (V d (cV L) (jV L)) ↦[(oChunkM L n h).view.set]{fullShare} f : sProp 𝕄)
      = (oLoc1 d ↦[chunkSet L c]{fullShare} f) := by
  rw [set_oChunkM L c n hn h]
theorem pts_xV (q : PosShare TreeShare) (f : Buf (Elt F) (xLoc1 d)) :
    ((xV).view.loc (V d (cV L) (jV L)) ↦{q} f : sProp 𝕄) = xLoc1 d ↦{q} f := rfl
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
theorem pts_aV (f : Buf (Elt F) ((V d (cV L) (jV L)).loc cc2_scratch1)) :
    ((aV).view.loc (V d (cV L) (jV L)) ↦{fullShare} f : sProp 𝕄) = (V d (cV L) (jV L)).loc cc2_scratch1 ↦{fullShare} f := rfl
theorem pts_bV (f : Buf (Elt F) ((V d (cV L) (jV L)).loc cc2_scratch2)) :
    ((bV).view.loc (V d (cV L) (jV L)) ↦{fullShare} f : sProp 𝕄) = (V d (cV L) (jV L)).loc cc2_scratch2 ↦{fullShare} f := rfl

/-- The rows from chunk `k` on are chunk `k` and the rows from chunk `k + 1` on. -/
theorem pts_tl_split (k : ℕ) (hk : k < 25) (f : Buf (Elt F) (oLoc1 d)) :
    (oLoc1 d ↦[tlSet L k (by omega)]{fullShare} f : sProp 𝕄)
      = iprop((oLoc1 d ↦[chunkSet L ⟨k, hk⟩]{fullShare} f) ∗ oLoc1 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc1 d)) :
    (oLoc1 d ↦[oRowSet (wid L)]{fullShare} f : sProp 𝕄) = oLoc1 d ↦[tlSet L 0 (by omega)]{fullShare} f := by
  rw [tl_zero]

theorem pts_tl_24 (f : Buf (Elt F) (oLoc1 d)) :
    (oLoc1 d ↦[tlSet L 24 (by omega)]{fullShare} f : sProp 𝕄) = oLoc1 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k2_off2 L n) a + S400x128.size a ≤ S320000x128.size a)
    (g : Buf (Elt F) (oLoc1 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc1 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k2_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k2_off1 L) 0 + 1 * (off 0 + 1 * ((S400.rowMajor.symm ((j gathers_S10000x128_S400x128.axis').cast hn'.symm)) 0).val)
      = (k2_off2 L (BitVec.ofNat 32 (400 * c.val))) 0 + 1 * (j 0).val
    rw [hz, k2_off1_eq L, k2_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k2_off2 L (BitVec.ofNat 32 (400 * c.val))) 1 + 1 * (j 1).val
    rw [k2_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc1 d)) (g : Buf (Elt F) (oLoc1 d)) (c : Fin 25)
    (n : BitVec 32) (hn : n = BitVec.ofNat 32 (400 * c.val)) (h : ∀ a, (k2_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc2_scratch3.sem)
abbrev cellG1 (d : Dev nD) (c : Fin τ.nSC) (i : Fin τ.nSub) : GSem nD τ sig := (V d c i, .dma cc2_scratch4.sem)
abbrev cellS0 (d : Dev nD) (c : Fin τ.nSC) (i : Fin τ.nSub) : GSem nD τ sig := (V d c i, .dma cc2_scratch5.sem)
abbrev cellS1 (d : Dev nD) (c : Fin τ.nSC) (i : Fin τ.nSub) : GSem nD τ sig := (V d c i, .dma cc2_scratch6.sem)
abbrev cellIX (d : Dev nD) (c : Fin τ.nSC) (i : Fin τ.nSub) : GSem nD τ sig := (V d c i, .dma cc2_scoped0.sem)

theorem cell_ne_G1_G0 : (cellG1 d (cV L) (jV L)) ≠ (cellG0 d (cV L) (jV L)) :=
  fun h => absurd (congrArg Prod.snd h) (show (SemLoc.dma cc2_scratch4.sem : SemLoc sig) ≠ SemLoc.dma cc2_scratch3.sem by decide)
theorem cell_ne_S0_G0 : (cellS0 d (cV L) (jV L)) ≠ (cellG0 d (cV L) (jV L)) :=
  fun h => absurd (congrArg Prod.snd h) (show (SemLoc.dma cc2_scratch5.sem : SemLoc sig) ≠ SemLoc.dma cc2_scratch3.sem by decide)
theorem cell_ne_S0_G1 : (cellS0 d (cV L) (jV L)) ≠ (cellG1 d (cV L) (jV L)) :=
  fun h => absurd (congrArg Prod.snd h) (show (SemLoc.dma cc2_scratch5.sem : SemLoc sig) ≠ SemLoc.dma cc2_scratch4.sem by decide)
theorem cell_ne_S1_G0 : (cellS1 d (cV L) (jV L)) ≠ (cellG0 d (cV L) (jV L)) :=
  fun h => absurd (congrArg Prod.snd h) (show (SemLoc.dma cc2_scratch6.sem : SemLoc sig) ≠ SemLoc.dma cc2_scratch3.sem by decide)
theorem cell_ne_S1_G1 : (cellS1 d (cV L) (jV L)) ≠ (cellG1 d (cV L) (jV L)) :=
  fun h => absurd (congrArg Prod.snd h) (show (SemLoc.dma cc2_scratch6.sem : SemLoc sig) ≠ SemLoc.dma cc2_scratch4.sem by decide)
theorem cell_ne_S1_S0 : (cellS1 d (cV L) (jV L)) ≠ (cellS0 d (cV L) (jV L)) :=
  fun h => absurd (congrArg Prod.snd h) (show (SemLoc.dma cc2_scratch6.sem : SemLoc sig) ≠ SemLoc.dma cc2_scratch5.sem by decide)
theorem cell_ne_IX_G0 : (cellIX d (cV L) (jV L)) ≠ (cellG0 d (cV L) (jV L)) :=
  fun h => absurd (congrArg Prod.snd h) (show (SemLoc.dma cc2_scoped0.sem : SemLoc sig) ≠ SemLoc.dma cc2_scratch3.sem by decide)
theorem cell_ne_IX_G1 : (cellIX d (cV L) (jV L)) ≠ (cellG1 d (cV L) (jV L)) :=
  fun h => absurd (congrArg Prod.snd h) (show (SemLoc.dma cc2_scoped0.sem : SemLoc sig) ≠ SemLoc.dma cc2_scratch4.sem by decide)
theorem cell_ne_IX_S0 : (cellIX d (cV L) (jV L)) ≠ (cellS0 d (cV L) (jV L)) :=
  fun h => absurd (congrArg Prod.snd h) (show (SemLoc.dma cc2_scoped0.sem : SemLoc sig) ≠ SemLoc.dma cc2_scratch5.sem by decide)
theorem cell_ne_IX_S1 : (cellIX d (cV L) (jV L)) ≠ (cellS1 d (cV L) (jV L)) :=
  fun h => absurd (congrArg Prod.snd h) (show (SemLoc.dma cc2_scoped0.sem : SemLoc sig) ≠ SemLoc.dma cc2_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc2_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc2_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc2_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc2_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc2_scoped0.sem : SemLoc sig).isScoped .scVector = true; decide⟩⟩⟩⟩⟩)]

theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f)
          ∗ bigSep ((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := (Proc.scVector (cV L) (jV L))) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := (Proc.scVector (cV L) (jV L))) (b := (Proc.scVector (cV L) (jV L)).devRef cc2_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc1 d)) (OUT₀ : Buf (Elt F) (oLoc1 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc1 d ↦{q} TAB) ∗ (oLoc1 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L xV (Memref.isWhole_whole _) iV (Memref.isWhole_whole _) oV (Memref.isWhole_whole _)
            sV (Memref.isWhole_whole _) aV (Memref.isWhole_whole _) bV (Memref.isWhole_whole _)
            cc2_scratch3 cc2_scratch4 cc2_scratch5 cc2_scratch6 cc2_scoped0)
          fun _ => iprop(((iLoc d ↦[iRowSet (wid L)]{fullShare} IDX : sProp 𝕄) ∗ (xLoc1 d ↦{q} TAB)
              ∗ ∃ OUT, ⌜GatherSpec (wid L) IDX TAB OUT⌝ ∗ (oLoc1 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k2_off2_inb L 0) _).symm) $$ Ho0
  ihave Ho1' := (Entails.of_eq (pts_oChunk (F := F) d L 1 400#32 rfl (k2_off2_inb L 1) _).symm) $$ Ho1
  ihave Ho2' := (Entails.of_eq (pts_oChunk (F := F) d L 2 800#32 rfl (k2_off2_inb L 2) _).symm) $$ Ho2
  ihave Ho3' := (Entails.of_eq (pts_oChunk (F := F) d L 3 1200#32 rfl (k2_off2_inb L 3) _).symm) $$ Ho3
  ihave Ho4' := (Entails.of_eq (pts_oChunk (F := F) d L 4 1600#32 rfl (k2_off2_inb L 4) _).symm) $$ Ho4
  ihave Ho5' := (Entails.of_eq (pts_oChunk (F := F) d L 5 2000#32 rfl (k2_off2_inb L 5) _).symm) $$ Ho5
  ihave Ho6' := (Entails.of_eq (pts_oChunk (F := F) d L 6 2400#32 rfl (k2_off2_inb L 6) _).symm) $$ Ho6
  ihave Ho7' := (Entails.of_eq (pts_oChunk (F := F) d L 7 2800#32 rfl (k2_off2_inb L 7) _).symm) $$ Ho7
  ihave Ho8' := (Entails.of_eq (pts_oChunk (F := F) d L 8 3200#32 rfl (k2_off2_inb L 8) _).symm) $$ Ho8
  ihave Ho9' := (Entails.of_eq (pts_oChunk (F := F) d L 9 3600#32 rfl (k2_off2_inb L 9) _).symm) $$ Ho9
  ihave Ho10' := (Entails.of_eq (pts_oChunk (F := F) d L 10 4000#32 rfl (k2_off2_inb L 10) _).symm) $$ Ho10
  ihave Ho11' := (Entails.of_eq (pts_oChunk (F := F) d L 11 4400#32 rfl (k2_off2_inb L 11) _).symm) $$ Ho11
  ihave Ho12' := (Entails.of_eq (pts_oChunk (F := F) d L 12 4800#32 rfl (k2_off2_inb L 12) _).symm) $$ Ho12
  ihave Ho13' := (Entails.of_eq (pts_oChunk (F := F) d L 13 5200#32 rfl (k2_off2_inb L 13) _).symm) $$ Ho13
  ihave Ho14' := (Entails.of_eq (pts_oChunk (F := F) d L 14 5600#32 rfl (k2_off2_inb L 14) _).symm) $$ Ho14
  ihave Ho15' := (Entails.of_eq (pts_oChunk (F := F) d L 15 6000#32 rfl (k2_off2_inb L 15) _).symm) $$ Ho15
  ihave Ho16' := (Entails.of_eq (pts_oChunk (F := F) d L 16 6400#32 rfl (k2_off2_inb L 16) _).symm) $$ Ho16
  ihave Ho17' := (Entails.of_eq (pts_oChunk (F := F) d L 17 6800#32 rfl (k2_off2_inb L 17) _).symm) $$ Ho17
  ihave Ho18' := (Entails.of_eq (pts_oChunk (F := F) d L 18 7200#32 rfl (k2_off2_inb L 18) _).symm) $$ Ho18
  ihave Ho19' := (Entails.of_eq (pts_oChunk (F := F) d L 19 7600#32 rfl (k2_off2_inb L 19) _).symm) $$ Ho19
  ihave Ho20' := (Entails.of_eq (pts_oChunk (F := F) d L 20 8000#32 rfl (k2_off2_inb L 20) _).symm) $$ Ho20
  ihave Ho21' := (Entails.of_eq (pts_oChunk (F := F) d L 21 8400#32 rfl (k2_off2_inb L 21) _).symm) $$ Ho21
  ihave Ho22' := (Entails.of_eq (pts_oChunk (F := F) d L 22 8800#32 rfl (k2_off2_inb L 22) _).symm) $$ Ho22
  ihave Ho23' := (Entails.of_eq (pts_oChunk (F := F) d L 23 9200#32 rfl (k2_off2_inb L 23) _).symm) $$ Ho23
  ihave Ho24' := (Entails.of_eq (pts_oChunk (F := F) d L 24 9600#32 rfl (k2_off2_inb L 24) _).symm) $$ Ho24
  have hin := idx_inb (F := F) d L IDX hidx
  sl_exec_parts
  sl_step
  have hv0 := chunk_val (F := F) d L IDX TAB OUT₀ 0 0#32 rfl (k2_off2_inb L 0) (tile_body.sl.dma0_1 d L IDX TAB fs fa hin)
    (fun j => (read_writes_whole _ _ _ _ j).trans (gather_val (F := F) d L IDX TAB hidx fs 0 ![0] rfl _ 0#32 rfl (k2_off2_inb L 0) _ _ j))
  ihave Hg0 := (Entails.of_eq ((pts_oChunk (F := F) d L 0 0#32 rfl (k2_off2_inb L 0) _).trans (pointsTo_congr hv0))) $$ Ho0'
  have hv1 := chunk_val (F := F) d L IDX TAB OUT₀ 1 400#32 rfl (k2_off2_inb L 1) (tile_body.sl.dma0_2 d L IDX TAB fs fb hin)
    (fun j => (read_writes_whole _ _ _ _ j).trans (gather_val (F := F) d L IDX TAB hidx fs 1 ![400] rfl _ 400#32 rfl (k2_off2_inb L 1) _ _ j))
  ihave Hg1 := (Entails.of_eq ((pts_oChunk (F := F) d L 1 400#32 rfl (k2_off2_inb L 1) _).trans (pointsTo_congr hv1))) $$ Ho1'
  have hv2 := chunk_val (F := F) d L IDX TAB OUT₀ 2 800#32 rfl (k2_off2_inb L 2) (tile_body.sl.dma0_3 d L IDX TAB fs fa hin)
    (fun j => (read_writes_whole _ _ _ _ j).trans (gather_val (F := F) d L IDX TAB hidx fs 2 ![800] rfl _ 800#32 rfl (k2_off2_inb L 2) _ _ j))
  ihave Hg2 := (Entails.of_eq ((pts_oChunk (F := F) d L 2 800#32 rfl (k2_off2_inb L 2) _).trans (pointsTo_congr hv2))) $$ Ho2'
  have hv3 := chunk_val (F := F) d L IDX TAB OUT₀ 3 1200#32 rfl (k2_off2_inb L 3) (tile_body.sl.dma0_4 d L IDX TAB fs fb hin)
    (fun j => (read_writes_whole _ _ _ _ j).trans (gather_val (F := F) d L IDX TAB hidx fs 3 ![1200] rfl _ 1200#32 rfl (k2_off2_inb L 3) _ _ j))
  ihave Hg3 := (Entails.of_eq ((pts_oChunk (F := F) d L 3 1200#32 rfl (k2_off2_inb L 3) _).trans (pointsTo_congr hv3))) $$ Ho3'
  have hv4 := chunk_val (F := F) d L IDX TAB OUT₀ 4 1600#32 rfl (k2_off2_inb L 4) (tile_body.sl.dma0_5 d L IDX TAB fs fa hin)
    (fun j => (read_writes_whole _ _ _ _ j).trans (gather_val (F := F) d L IDX TAB hidx fs 4 ![1600] rfl _ 1600#32 rfl (k2_off2_inb L 4) _ _ j))
  ihave Hg4 := (Entails.of_eq ((pts_oChunk (F := F) d L 4 1600#32 rfl (k2_off2_inb L 4) _).trans (pointsTo_congr hv4))) $$ Ho4'
  have hv5 := chunk_val (F := F) d L IDX TAB OUT₀ 5 2000#32 rfl (k2_off2_inb L 5) (tile_body.sl.dma0_6 d L IDX TAB fs fb hin)
    (fun j => (read_writes_whole _ _ _ _ j).trans (gather_val (F := F) d L IDX TAB hidx fs 5 ![2000] rfl _ 2000#32 rfl (k2_off2_inb L 5) _ _ j))
  ihave Hg5 := (Entails.of_eq ((pts_oChunk (F := F) d L 5 2000#32 rfl (k2_off2_inb L 5) _).trans (pointsTo_congr hv5))) $$ Ho5'
  have hv6 := chunk_val (F := F) d L IDX TAB OUT₀ 6 2400#32 rfl (k2_off2_inb L 6) (tile_body.sl.dma0_7 d L IDX TAB fs fa hin)
    (fun j => (read_writes_whole _ _ _ _ j).trans (gather_val (F := F) d L IDX TAB hidx fs 6 ![2400] rfl _ 2400#32 rfl (k2_off2_inb L 6) _ _ j))
  ihave Hg6 := (Entails.of_eq ((pts_oChunk (F := F) d L 6 2400#32 rfl (k2_off2_inb L 6) _).trans (pointsTo_congr hv6))) $$ Ho6'
  have hv7 := chunk_val (F := F) d L IDX TAB OUT₀ 7 2800#32 rfl (k2_off2_inb L 7) (tile_body.sl.dma0_8 d L IDX TAB fs fb hin)
    (fun j => (read_writes_whole _ _ _ _ j).trans (gather_val (F := F) d L IDX TAB hidx fs 7 ![2800] rfl _ 2800#32 rfl (k2_off2_inb L 7) _ _ j))
  ihave Hg7 := (Entails.of_eq ((pts_oChunk (F := F) d L 7 2800#32 rfl (k2_off2_inb L 7) _).trans (pointsTo_congr hv7))) $$ Ho7'
  have hv8 := chunk_val (F := F) d L IDX TAB OUT₀ 8 3200#32 rfl (k2_off2_inb L 8) (tile_body.sl.dma0_9 d L IDX TAB fs fa hin)
    (fun j => (read_writes_whole _ _ _ _ j).trans (gather_val (F := F) d L IDX TAB hidx fs 8 ![3200] rfl _ 3200#32 rfl (k2_off2_inb L 8) _ _ j))
  ihave Hg8 := (Entails.of_eq ((pts_oChunk (F := F) d L 8 3200#32 rfl (k2_off2_inb L 8) _).trans (pointsTo_congr hv8))) $$ Ho8'
  have hv9 := chunk_val (F := F) d L IDX TAB OUT₀ 9 3600#32 rfl (k2_off2_inb L 9) (tile_body.sl.dma0_10 d L IDX TAB fs fb hin)
    (fun j => (read_writes_whole _ _ _ _ j).trans (gather_val (F := F) d L IDX TAB hidx fs 9 ![3600] rfl _ 3600#32 rfl (k2_off2_inb L 9) _ _ j))
  ihave Hg9 := (Entails.of_eq ((pts_oChunk (F := F) d L 9 3600#32 rfl (k2_off2_inb L 9) _).trans (pointsTo_congr hv9))) $$ Ho9'
  have hv10 := chunk_val (F := F) d L IDX TAB OUT₀ 10 4000#32 rfl (k2_off2_inb L 10) (tile_body.sl.dma0_11 d L IDX TAB fs fa hin)
    (fun j => (read_writes_whole _ _ _ _ j).trans (gather_val (F := F) d L IDX TAB hidx fs 10 ![4000] rfl _ 4000#32 rfl (k2_off2_inb L 10) _ _ j))
  ihave Hg10 := (Entails.of_eq ((pts_oChunk (F := F) d L 10 4000#32 rfl (k2_off2_inb L 10) _).trans (pointsTo_congr hv10))) $$ Ho10'
  have hv11 := chunk_val (F := F) d L IDX TAB OUT₀ 11 4400#32 rfl (k2_off2_inb L 11) (tile_body.sl.dma0_12 d L IDX TAB fs fb hin)
    (fun j => (read_writes_whole _ _ _ _ j).trans (gather_val (F := F) d L IDX TAB hidx fs 11 ![4400] rfl _ 4400#32 rfl (k2_off2_inb L 11) _ _ j))
  ihave Hg11 := (Entails.of_eq ((pts_oChunk (F := F) d L 11 4400#32 rfl (k2_off2_inb L 11) _).trans (pointsTo_congr hv11))) $$ Ho11'
  have hv12 := chunk_val (F := F) d L IDX TAB OUT₀ 12 4800#32 rfl (k2_off2_inb L 12) (tile_body.sl.dma0_13 d L IDX TAB fs fa hin)
    (fun j => (read_writes_whole _ _ _ _ j).trans (gather_val (F := F) d L IDX TAB hidx fs 12 ![4800] rfl _ 4800#32 rfl (k2_off2_inb L 12) _ _ j))
  ihave Hg12 := (Entails.of_eq ((pts_oChunk (F := F) d L 12 4800#32 rfl (k2_off2_inb L 12) _).trans (pointsTo_congr hv12))) $$ Ho12'
  have hv13 := chunk_val (F := F) d L IDX TAB OUT₀ 13 5200#32 rfl (k2_off2_inb L 13) (tile_body.sl.dma0_14 d L IDX TAB fs fb hin)
    (fun j => (read_writes_whole _ _ _ _ j).trans (gather_val (F := F) d L IDX TAB hidx fs 13 ![5200] rfl _ 5200#32 rfl (k2_off2_inb L 13) _ _ j))
  ihave Hg13 := (Entails.of_eq ((pts_oChunk (F := F) d L 13 5200#32 rfl (k2_off2_inb L 13) _).trans (pointsTo_congr hv13))) $$ Ho13'
  have hv14 := chunk_val (F := F) d L IDX TAB OUT₀ 14 5600#32 rfl (k2_off2_inb L 14) (tile_body.sl.dma0_15 d L IDX TAB fs fa hin)
    (fun j => (read_writes_whole _ _ _ _ j).trans (gather_val (F := F) d L IDX TAB hidx fs 14 ![5600] rfl _ 5600#32 rfl (k2_off2_inb L 14) _ _ j))
  ihave Hg14 := (Entails.of_eq ((pts_oChunk (F := F) d L 14 5600#32 rfl (k2_off2_inb L 14) _).trans (pointsTo_congr hv14))) $$ Ho14'
  have hv15 := chunk_val (F := F) d L IDX TAB OUT₀ 15 6000#32 rfl (k2_off2_inb L 15) (tile_body.sl.dma0_16 d L IDX TAB fs fb hin)
    (fun j => (read_writes_whole _ _ _ _ j).trans (gather_val (F := F) d L IDX TAB hidx fs 15 ![6000] rfl _ 6000#32 rfl (k2_off2_inb L 15) _ _ j))
  ihave Hg15 := (Entails.of_eq ((pts_oChunk (F := F) d L 15 6000#32 rfl (k2_off2_inb L 15) _).trans (pointsTo_congr hv15))) $$ Ho15'
  have hv16 := chunk_val (F := F) d L IDX TAB OUT₀ 16 6400#32 rfl (k2_off2_inb L 16) (tile_body.sl.dma0_17 d L IDX TAB fs fa hin)
    (fun j => (read_writes_whole _ _ _ _ j).trans (gather_val (F := F) d L IDX TAB hidx fs 16 ![6400] rfl _ 6400#32 rfl (k2_off2_inb L 16) _ _ j))
  ihave Hg16 := (Entails.of_eq ((pts_oChunk (F := F) d L 16 6400#32 rfl (k2_off2_inb L 16) _).trans (pointsTo_congr hv16))) $$ Ho16'
  have hv17 := chunk_val (F := F) d L IDX TAB OUT₀ 17 6800#32 rfl (k2_off2_inb L 17) (tile_body.sl.dma0_18 d L IDX TAB fs fb hin)
    (fun j => (read_writes_whole _ _ _ _ j).trans (gather_val (F := F) d L IDX TAB hidx fs 17 ![6800] rfl _ 6800#32 rfl (k2_off2_inb L 17) _ _ j))
  ihave Hg17 := (Entails.of_eq ((pts_oChunk (F := F) d L 17 6800#32 rfl (k2_off2_inb L 17) _).trans (pointsTo_congr hv17))) $$ Ho17'
  have hv18 := chunk_val (F := F) d L IDX TAB OUT₀ 18 7200#32 rfl (k2_off2_inb L 18) (tile_body.sl.dma0_19 d L IDX TAB fs fa hin)
    (fun j => (read_writes_whole _ _ _ _ j).trans (gather_val (F := F) d L IDX TAB hidx fs 18 ![7200] rfl _ 7200#32 rfl (k2_off2_inb L 18) _ _ j))
  ihave Hg18 := (Entails.of_eq ((pts_oChunk (F := F) d L 18 7200#32 rfl (k2_off2_inb L 18) _).trans (pointsTo_congr hv18))) $$ Ho18'
  have hv19 := chunk_val (F := F) d L IDX TAB OUT₀ 19 7600#32 rfl (k2_off2_inb L 19) (tile_body.sl.dma0_20 d L IDX TAB fs fb hin)
    (fun j => (read_writes_whole _ _ _ _ j).trans (gather_val (F := F) d L IDX TAB hidx fs 19 ![7600] rfl _ 7600#32 rfl (k2_off2_inb L 19) _ _ j))
  ihave Hg19 := (Entails.of_eq ((pts_oChunk (F := F) d L 19 7600#32 rfl (k2_off2_inb L 19) _).trans (pointsTo_congr hv19))) $$ Ho19'
  have hv20 := chunk_val (F := F) d L IDX TAB OUT₀ 20 8000#32 rfl (k2_off2_inb L 20) (tile_body.sl.dma0_21 d L IDX TAB fs fa hin)
    (fun j => (read_writes_whole _ _ _ _ j).trans (gather_val (F := F) d L IDX TAB hidx fs 20 ![8000] rfl _ 8000#32 rfl (k2_off2_inb L 20) _ _ j))
  ihave Hg20 := (Entails.of_eq ((pts_oChunk (F := F) d L 20 8000#32 rfl (k2_off2_inb L 20) _).trans (pointsTo_congr hv20))) $$ Ho20'
  have hv21 := chunk_val (F := F) d L IDX TAB OUT₀ 21 8400#32 rfl (k2_off2_inb L 21) (tile_body.sl.dma0_22 d L IDX TAB fs fb hin)
    (fun j => (read_writes_whole _ _ _ _ j).trans (gather_val (F := F) d L IDX TAB hidx fs 21 ![8400] rfl _ 8400#32 rfl (k2_off2_inb L 21) _ _ j))
  ihave Hg21 := (Entails.of_eq ((pts_oChunk (F := F) d L 21 8400#32 rfl (k2_off2_inb L 21) _).trans (pointsTo_congr hv21))) $$ Ho21'
  have hv22 := chunk_val (F := F) d L IDX TAB OUT₀ 22 8800#32 rfl (k2_off2_inb L 22) (tile_body.sl.dma0_23 d L IDX TAB fs fa hin)
    (fun j => (read_writes_whole _ _ _ _ j).trans (gather_val (F := F) d L IDX TAB hidx fs 22 ![8800] rfl _ 8800#32 rfl (k2_off2_inb L 22) _ _ j))
  ihave Hg22 := (Entails.of_eq ((pts_oChunk (F := F) d L 22 8800#32 rfl (k2_off2_inb L 22) _).trans (pointsTo_congr hv22))) $$ Ho22'
  have hv23 := chunk_val (F := F) d L IDX TAB OUT₀ 23 9200#32 rfl (k2_off2_inb L 23) (tile_body.sl.dma0_24 d L IDX TAB fs fb hin)
    (fun j => (read_writes_whole _ _ _ _ j).trans (gather_val (F := F) d L IDX TAB hidx fs 23 ![9200] rfl _ 9200#32 rfl (k2_off2_inb L 23) _ _ j))
  ihave Hg23 := (Entails.of_eq ((pts_oChunk (F := F) d L 23 9200#32 rfl (k2_off2_inb L 23) _).trans (pointsTo_congr hv23))) $$ Ho23'
  have hv24 := chunk_val (F := F) d L IDX TAB OUT₀ 24 9600#32 rfl (k2_off2_inb L 24) (tile_body.sl.dma0_25 d L IDX TAB fs fa hin)
    (fun j => (read_writes_whole _ _ _ _ j).trans (gather_val (F := F) d L IDX TAB hidx fs 24 ![9600] rfl _ 9600#32 rfl (k2_off2_inb L 24) _ _ j))
  ihave Hg24 := (Entails.of_eq ((pts_oChunk (F := F) d L 24 9600#32 rfl (k2_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody2

end
-- ==== Proof.GatherBody4.lean ====
/-
  One vector subcore's task of gather call 2 (the program's custom call 4): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBase
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.KernelIdeal
import proofs.«205547_g25623774888366_cont_9to1_713_27_alg».proof.Proof.Gen.KernelIdeal.Skeleton

noncomputable section

namespace Cert.Proof.GatherBody4

open Cert.KernelIdeal Cert.KernelIdeal.Gen
open Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.KernelIdeal.main_v35_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v36_scv : Memref Cert.KernelIdeal.sig Kind.scVector Space.hbm Cert.KernelIdeal.S320000x128 EltTy.f32)
local notation "sV" => (Memref.whole Cert.KernelIdeal.cc4_scratch0 : Memref Cert.KernelIdeal.sig Kind.scVector Space.vmem Cert.KernelIdeal.S10000 EltTy.i32)
local notation "aV" => (Memref.whole Cert.KernelIdeal.cc4_scratch1 : Memref Cert.KernelIdeal.sig Kind.scVector Space.vmem Cert.KernelIdeal.S400x128 EltTy.f32)
local notation "bV" => (Memref.whole Cert.KernelIdeal.cc4_scratch2 : Memref Cert.KernelIdeal.sig Kind.scVector Space.vmem Cert.KernelIdeal.S400x128 EltTy.f32)

section Sets

variable (L : grid4.Coords)

theorem bound_zero : grid4.bound 0 = 2 := rfl
theorem bound_one : grid4.bound 1 = 16 := rfl
/-- The worker's number: twice the vector subcore's plus the SparseCore's. -/
abbrev wid (L : grid4.Coords) : Fin 32 := wOf (Fin.cast bound_zero (L 0)) (Fin.cast bound_one (L 1))
/-- The first row of the worker's block. -/
abbrev base (L : grid4.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid4.Coords) (c : Fin 25) : Rect S320000x128 :=
  Rect.unit (s := S320000x128) (k4_off2 L (BitVec.ofNat 32 (400 * c.val))) S400x128.size (k4_off2_inb L c)
abbrev chunkSet (L : grid4.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k4_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid4.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid4.Coords)

abbrev cV (L : grid4.Coords) : Fin τ.nSC := (L 0).castLE hcore4
abbrev jV (L : grid4.Coords) : Fin τ.nSub := (L 1).castLE hsub4

abbrev irowK (L : grid4.Coords) : Rect S320000 := Rect.unit (s := S320000) (k4_off1 L) S10000.size (k4_off1_inb L)
/-- The worker's block of the index array, as the task addresses it. -/
abbrev iRowK (L : grid4.Coords) : Memref sig .scVector .hbm S10000 .i32 := (iV).slice (irowK L) (fun _ => rfl)
/-- A block of 400 rows of the output at a row offset given by a word, as the task addresses it. -/
abbrev oChunkM (L : grid4.Coords) (n : BitVec 32) (h : ∀ a, (k4_off2 L n) a + S400x128.size a ≤ S320000x128.size a) : Memref sig .scVector .hbm S400x128 .f32 :=
  (oV).slice (Rect.unit (s := S320000x128) (k4_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k4_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k4_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k4_off2 L n) a + S400x128.size a ≤ S320000x128.size a) (f : Buf (Elt F) (oLoc2 d)) :
    ((oChunkM L n h).view.loc (V d (cV L) (jV L)) ↦[(oChunkM L n h).view.set]{fullShare} f : sProp 𝕄)
      = (oLoc2 d ↦[chunkSet L c]{fullShare} f) := by
  rw [set_oChunkM L c n hn h]
theorem pts_xV (q : PosShare TreeShare) (f : Buf (Elt F) (xLoc2 d)) :
    ((xV).view.loc (V d (cV L) (jV L)) ↦{q} f : sProp 𝕄) = xLoc2 d ↦{q} f := rfl
theorem pts_sV (f : Buf (Elt F) ((V d (cV L) (jV L)).loc cc4_scratch0)) :
    ((sV).view.loc (V d (cV L) (jV L)) ↦{fullShare} f : sProp 𝕄) = (V d (cV L) (jV L)).loc cc4_scratch0 ↦{fullShare} f := rfl
theorem pts_aV (f : Buf (Elt F) ((V d (cV L) (jV L)).loc cc4_scratch1)) :
    ((aV).view.loc (V d (cV L) (jV L)) ↦{fullShare} f : sProp 𝕄) = (V d (cV L) (jV L)).loc cc4_scratch1 ↦{fullShare} f := rfl
theorem pts_bV (f : Buf (Elt F) ((V d (cV L) (jV L)).loc cc4_scratch2)) :
    ((bV).view.loc (V d (cV L) (jV L)) ↦{fullShare} f : sProp 𝕄) = (V d (cV L) (jV L)).loc cc4_scratch2 ↦{fullShare} f := rfl

/-- The rows from chunk `k` on are chunk `k` and the rows from chunk `k + 1` on. -/
theorem pts_tl_split (k : ℕ) (hk : k < 25) (f : Buf (Elt F) (oLoc2 d)) :
    (oLoc2 d ↦[tlSet L k (by omega)]{fullShare} f : sProp 𝕄)
      = iprop((oLoc2 d ↦[chunkSet L ⟨k, hk⟩]{fullShare} f) ∗ oLoc2 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc2 d)) :
    (oLoc2 d ↦[oRowSet (wid L)]{fullShare} f : sProp 𝕄) = oLoc2 d ↦[tlSet L 0 (by omega)]{fullShare} f := by
  rw [tl_zero]

theorem pts_tl_24 (f : Buf (Elt F) (oLoc2 d)) :
    (oLoc2 d ↦[tlSet L 24 (by omega)]{fullShare} f : sProp 𝕄) = oLoc2 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k4_off2 L n) a + S400x128.size a ≤ S320000x128.size a)
    (g : Buf (Elt F) (oLoc2 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc2 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k4_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k4_off1 L) 0 + 1 * (off 0 + 1 * ((S400.rowMajor.symm ((j gathers_S10000x128_S400x128.axis').cast hn'.symm)) 0).val)
      = (k4_off2 L (BitVec.ofNat 32 (400 * c.val))) 0 + 1 * (j 0).val
    rw [hz, k4_off1_eq L, k4_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k4_off2 L (BitVec.ofNat 32 (400 * c.val))) 1 + 1 * (j 1).val
    rw [k4_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc2 d)) (g : Buf (Elt F) (oLoc2 d)) (c : Fin 25)
    (n : BitVec 32) (hn : n = BitVec.ofNat 32 (400 * c.val)) (h : ∀ a, (k4_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc4_scratch3.sem)
abbrev cellG1 (d : Dev nD) (c : Fin τ.nSC) (i : Fin τ.nSub) : GSem nD τ sig := (V d c i, .dma cc4_scratch4.sem)
abbrev cellS0 (d : Dev nD) (c : Fin τ.nSC) (i : Fin τ.nSub) : GSem nD τ sig := (V d c i, .dma cc4_scratch5.sem)
abbrev cellS1 (d : Dev nD) (c : Fin τ.nSC) (i : Fin τ.nSub) : GSem nD τ sig := (V d c i, .dma cc4_scratch6.sem)
abbrev cellIX (d : Dev nD) (c : Fin τ.nSC) (i : Fin τ.nSub) : GSem nD τ sig := (V d c i, .dma cc4_scoped0.sem)

theorem cell_ne_G1_G0 : (cellG1 d (cV L) (jV L)) ≠ (cellG0 d (cV L) (jV L)) :=
  fun h => absurd (congrArg Prod.snd h) (show (SemLoc.dma cc4_scratch4.sem : SemLoc sig) ≠ SemLoc.dma cc4_scratch3.sem by decide)
theorem cell_ne_S0_G0 : (cellS0 d (cV L) (jV L)) ≠ (cellG0 d (cV L) (jV L)) :=
  fun h => absurd (congrArg Prod.snd h) (show (SemLoc.dma cc4_scratch5.sem : SemLoc sig) ≠ SemLoc.dma cc4_scratch3.sem by decide)
theorem cell_ne_S0_G1 : (cellS0 d (cV L) (jV L)) ≠ (cellG1 d (cV L) (jV L)) :=
  fun h => absurd (congrArg Prod.snd h) (show (SemLoc.dma cc4_scratch5.sem : SemLoc sig) ≠ SemLoc.dma cc4_scratch4.sem by decide)
theorem cell_ne_S1_G0 : (cellS1 d (cV L) (jV L)) ≠ (cellG0 d (cV L) (jV L)) :=
  fun h => absurd (congrArg Prod.snd h) (show (SemLoc.dma cc4_scratch6.sem : SemLoc sig) ≠ SemLoc.dma cc4_scratch3.sem by decide)
theorem cell_ne_S1_G1 : (cellS1 d (cV L) (jV L)) ≠ (cellG1 d (cV L) (jV L)) :=
  fun h => absurd (congrArg Prod.snd h) (show (SemLoc.dma cc4_scratch6.sem : SemLoc sig) ≠ SemLoc.dma cc4_scratch4.sem by decide)
theorem cell_ne_S1_S0 : (cellS1 d (cV L) (jV L)) ≠ (cellS0 d (cV L) (jV L)) :=
  fun h => absurd (congrArg Prod.snd h) (show (SemLoc.dma cc4_scratch6.sem : SemLoc sig) ≠ SemLoc.dma cc4_scratch5.sem by decide)
theorem cell_ne_IX_G0 : (cellIX d (cV L) (jV L)) ≠ (cellG0 d (cV L) (jV L)) :=
  fun h => absurd (congrArg Prod.snd h) (show (SemLoc.dma cc4_scoped0.sem : SemLoc sig) ≠ SemLoc.dma cc4_scratch3.sem by decide)
theorem cell_ne_IX_G1 : (cellIX d (cV L) (jV L)) ≠ (cellG1 d (cV L) (jV L)) :=
  fun h => absurd (congrArg Prod.snd h) (show (SemLoc.dma cc4_scoped0.sem : SemLoc sig) ≠ SemLoc.dma cc4_scratch4.sem by decide)
theorem cell_ne_IX_S0 : (cellIX d (cV L) (jV L)) ≠ (cellS0 d (cV L) (jV L)) :=
  fun h => absurd (congrArg Prod.snd h) (show (SemLoc.dma cc4_scoped0.sem : SemLoc sig) ≠ SemLoc.dma cc4_scratch5.sem by decide)
theorem cell_ne_IX_S1 : (cellIX d (cV L) (jV L)) ≠ (cellS1 d (cV L) (jV L)) :=
  fun h => absurd (congrArg Prod.snd h) (show (SemLoc.dma cc4_scoped0.sem : SemLoc sig) ≠ SemLoc.dma cc4_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc4_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc4_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc4_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc4_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc4_scoped0.sem : SemLoc sig).isScoped .scVector = true; decide⟩⟩⟩⟩⟩)]

theorem ownBufs_V :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f) ∗ (∃ f, (V d (cV L) (jV L)).loc cc4_scratch2 ↦{fullShare} f)
          ∗ bigSep ((((ownRefs (τ := τ) (.scVector (cV L) (jV L))).erase ((Proc.scVector (cV L) (jV L)).devRef cc4_scratch0)).erase ((Proc.scVector (cV L) (jV L)).devRef cc4_scratch1)).erase ((Proc.scVector (cV L) (jV L)).devRef cc4_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide), SparseCore.Cfg.mem_ownRefs_of_owner (p := (Proc.scVector (cV L) (jV L))) (b := (Proc.scVector (cV L) (jV L)).devRef cc4_scratch1) rfl⟩),
    SparseCore.bigSep_erase' (Finset.mem_erase.mpr ⟨fun e => absurd (Proc.devRef_injective _ e) (show (cc4_scratch2 : Ref sig .scVector) ≠ cc4_scratch1 by decide), Finset.mem_erase.mpr ⟨fun e => absurd (Proc.devRef_injective _ e) (show (cc4_scratch2 : Ref sig .scVector) ≠ cc4_scratch0 by decide), SparseCore.Cfg.mem_ownRefs_of_owner (p := (Proc.scVector (cV L) (jV L))) (b := (Proc.scVector (cV L) (jV L)).devRef cc4_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc2 d)) (OUT₀ : Buf (Elt F) (oLoc2 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc2 d ↦{q} TAB) ∗ (oLoc2 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_gather_kernel L xV (Memref.isWhole_whole _) iV (Memref.isWhole_whole _) oV (Memref.isWhole_whole _)
            sV (Memref.isWhole_whole _) aV (Memref.isWhole_whole _) bV (Memref.isWhole_whole _)
            cc4_scratch3 cc4_scratch4 cc4_scratch5 cc4_scratch6 cc4_scoped0)
          fun _ => iprop(((iLoc d ↦[iRowSet (wid L)]{fullShare} IDX : sProp 𝕄) ∗ (xLoc2 d ↦{q} TAB)
              ∗ ∃ OUT, ⌜GatherSpec (wid L) IDX TAB OUT⌝ ∗ (oLoc2 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_gather_kernel_eq_skeleton]; unfold cc4_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k4_off2_inb L 0) _).symm) $$ Ho0
  ihave Ho1' := (Entails.of_eq (pts_oChunk (F := F) d L 1 400#32 rfl (k4_off2_inb L 1) _).symm) $$ Ho1
  ihave Ho2' := (Entails.of_eq (pts_oChunk (F := F) d L 2 800#32 rfl (k4_off2_inb L 2) _).symm) $$ Ho2
  ihave Ho3' := (Entails.of_eq (pts_oChunk (F := F) d L 3 1200#32 rfl (k4_off2_inb L 3) _).symm) $$ Ho3
  ihave Ho4' := (Entails.of_eq (pts_oChunk (F := F) d L 4 1600#32 rfl (k4_off2_inb L 4) _).symm) $$ Ho4
  ihave Ho5' := (Entails.of_eq (pts_oChunk (F := F) d L 5 2000#32 rfl (k4_off2_inb L 5) _).symm) $$ Ho5
  ihave Ho6' := (Entails.of_eq (pts_oChunk (F := F) d L 6 2400#32 rfl (k4_off2_inb L 6) _).symm) $$ Ho6
  ihave Ho7' := (Entails.of_eq (pts_oChunk (F := F) d L 7 2800#32 rfl (k4_off2_inb L 7) _).symm) $$ Ho7
  ihave Ho8' := (Entails.of_eq (pts_oChunk (F := F) d L 8 3200#32 rfl (k4_off2_inb L 8) _).symm) $$ Ho8
  ihave Ho9' := (Entails.of_eq (pts_oChunk (F := F) d L 9 3600#32 rfl (k4_off2_inb L 9) _).symm) $$ Ho9
  ihave Ho10' := (Entails.of_eq (pts_oChunk (F := F) d L 10 4000#32 rfl (k4_off2_inb L 10) _).symm) $$ Ho10
  ihave Ho11' := (Entails.of_eq (pts_oChunk (F := F) d L 11 4400#32 rfl (k4_off2_inb L 11) _).symm) $$ Ho11
  ihave Ho12' := (Entails.of_eq (pts_oChunk (F := F) d L 12 4800#32 rfl (k4_off2_inb L 12) _).symm) $$ Ho12
  ihave Ho13' := (Entails.of_eq (pts_oChunk (F := F) d L 13 5200#32 rfl (k4_off2_inb L 13) _).symm) $$ Ho13
  ihave Ho14' := (Entails.of_eq (pts_oChunk (F := F) d L 14 5600#32 rfl (k4_off2_inb L 14) _).symm) $$ Ho14
  ihave Ho15' := (Entails.of_eq (pts_oChunk (F := F) d L 15 6000#32 rfl (k4_off2_inb L 15) _).symm) $$ Ho15
  ihave Ho16' := (Entails.of_eq (pts_oChunk (F := F) d L 16 6400#32 rfl (k4_off2_inb L 16) _).symm) $$ Ho16
  ihave Ho17' := (Entails.of_eq (pts_oChunk (F := F) d L 17 6800#32 rfl (k4_off2_inb L 17) _).symm) $$ Ho17
  ihave Ho18' := (Entails.of_eq (pts_oChunk (F := F) d L 18 7200#32 rfl (k4_off2_inb L 18) _).symm) $$ Ho18
  ihave Ho19' := (Entails.of_eq (pts_oChunk (F := F) d L 19 7600#32 rfl (k4_off2_inb L 19) _).symm) $$ Ho19
  ihave Ho20' := (Entails.of_eq (pts_oChunk (F := F) d L 20 8000#32 rfl (k4_off2_inb L 20) _).symm) $$ Ho20
  ihave Ho21' := (Entails.of_eq (pts_oChunk (F := F) d L 21 8400#32 rfl (k4_off2_inb L 21) _).symm) $$ Ho21
  ihave Ho22' := (Entails.of_eq (pts_oChunk (F := F) d L 22 8800#32 rfl (k4_off2_inb L 22) _).symm) $$ Ho22
  ihave Ho23' := (Entails.of_eq (pts_oChunk (F := F) d L 23 9200#32 rfl (k4_off2_inb L 23) _).symm) $$ Ho23
  ihave Ho24' := (Entails.of_eq (pts_oChunk (F := F) d L 24 9600#32 rfl (k4_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k4_off2_inb L 0) (tile_body.sl.dma0_1 d L IDX TAB fs fa hin)
    (fun j => (read_writes_whole _ _ _ _ j).trans (gather_val (F := F) d L IDX TAB hidx fs 0 ![0] rfl _ 0#32 rfl (k4_off2_inb L 0) _ _ j))
  ihave Hg0 := (Entails.of_eq ((pts_oChunk (F := F) d L 0 0#32 rfl (k4_off2_inb L 0) _).trans (pointsTo_congr hv0))) $$ Ho0'
  have hv1 := chunk_val (F := F) d L IDX TAB OUT₀ 1 400#32 rfl (k4_off2_inb L 1) (tile_body.sl.dma0_2 d L IDX TAB fs fb hin)
    (fun j => (read_writes_whole _ _ _ _ j).trans (gather_val (F := F) d L IDX TAB hidx fs 1 ![400] rfl _ 400#32 rfl (k4_off2_inb L 1) _ _ j))
  ihave Hg1 := (Entails.of_eq ((pts_oChunk (F := F) d L 1 400#32 rfl (k4_off2_inb L 1) _).trans (pointsTo_congr hv1))) $$ Ho1'
  have hv2 := chunk_val (F := F) d L IDX TAB OUT₀ 2 800#32 rfl (k4_off2_inb L 2) (tile_body.sl.dma0_3 d L IDX TAB fs fa hin)
    (fun j => (read_writes_whole _ _ _ _ j).trans (gather_val (F := F) d L IDX TAB hidx fs 2 ![800] rfl _ 800#32 rfl (k4_off2_inb L 2) _ _ j))
  ihave Hg2 := (Entails.of_eq ((pts_oChunk (F := F) d L 2 800#32 rfl (k4_off2_inb L 2) _).trans (pointsTo_congr hv2))) $$ Ho2'
  have hv3 := chunk_val (F := F) d L IDX TAB OUT₀ 3 1200#32 rfl (k4_off2_inb L 3) (tile_body.sl.dma0_4 d L IDX TAB fs fb hin)
    (fun j => (read_writes_whole _ _ _ _ j).trans (gather_val (F := F) d L IDX TAB hidx fs 3 ![1200] rfl _ 1200#32 rfl (k4_off2_inb L 3) _ _ j))
  ihave Hg3 := (Entails.of_eq ((pts_oChunk (F := F) d L 3 1200#32 rfl (k4_off2_inb L 3) _).trans (pointsTo_congr hv3))) $$ Ho3'
  have hv4 := chunk_val (F := F) d L IDX TAB OUT₀ 4 1600#32 rfl (k4_off2_inb L 4) (tile_body.sl.dma0_5 d L IDX TAB fs fa hin)
    (fun j => (read_writes_whole _ _ _ _ j).trans (gather_val (F := F) d L IDX TAB hidx fs 4 ![1600] rfl _ 1600#32 rfl (k4_off2_inb L 4) _ _ j))
  ihave Hg4 := (Entails.of_eq ((pts_oChunk (F := F) d L 4 1600#32 rfl (k4_off2_inb L 4) _).trans (pointsTo_congr hv4))) $$ Ho4'
  have hv5 := chunk_val (F := F) d L IDX TAB OUT₀ 5 2000#32 rfl (k4_off2_inb L 5) (tile_body.sl.dma0_6 d L IDX TAB fs fb hin)
    (fun j => (read_writes_whole _ _ _ _ j).trans (gather_val (F := F) d L IDX TAB hidx fs 5 ![2000] rfl _ 2000#32 rfl (k4_off2_inb L 5) _ _ j))
  ihave Hg5 := (Entails.of_eq ((pts_oChunk (F := F) d L 5 2000#32 rfl (k4_off2_inb L 5) _).trans (pointsTo_congr hv5))) $$ Ho5'
  have hv6 := chunk_val (F := F) d L IDX TAB OUT₀ 6 2400#32 rfl (k4_off2_inb L 6) (tile_body.sl.dma0_7 d L IDX TAB fs fa hin)
    (fun j => (read_writes_whole _ _ _ _ j).trans (gather_val (F := F) d L IDX TAB hidx fs 6 ![2400] rfl _ 2400#32 rfl (k4_off2_inb L 6) _ _ j))
  ihave Hg6 := (Entails.of_eq ((pts_oChunk (F := F) d L 6 2400#32 rfl (k4_off2_inb L 6) _).trans (pointsTo_congr hv6))) $$ Ho6'
  have hv7 := chunk_val (F := F) d L IDX TAB OUT₀ 7 2800#32 rfl (k4_off2_inb L 7) (tile_body.sl.dma0_8 d L IDX TAB fs fb hin)
    (fun j => (read_writes_whole _ _ _ _ j).trans (gather_val (F := F) d L IDX TAB hidx fs 7 ![2800] rfl _ 2800#32 rfl (k4_off2_inb L 7) _ _ j))
  ihave Hg7 := (Entails.of_eq ((pts_oChunk (F := F) d L 7 2800#32 rfl (k4_off2_inb L 7) _).trans (pointsTo_congr hv7))) $$ Ho7'
  have hv8 := chunk_val (F := F) d L IDX TAB OUT₀ 8 3200#32 rfl (k4_off2_inb L 8) (tile_body.sl.dma0_9 d L IDX TAB fs fa hin)
    (fun j => (read_writes_whole _ _ _ _ j).trans (gather_val (F := F) d L IDX TAB hidx fs 8 ![3200] rfl _ 3200#32 rfl (k4_off2_inb L 8) _ _ j))
  ihave Hg8 := (Entails.of_eq ((pts_oChunk (F := F) d L 8 3200#32 rfl (k4_off2_inb L 8) _).trans (pointsTo_congr hv8))) $$ Ho8'
  have hv9 := chunk_val (F := F) d L IDX TAB OUT₀ 9 3600#32 rfl (k4_off2_inb L 9) (tile_body.sl.dma0_10 d L IDX TAB fs fb hin)
    (fun j => (read_writes_whole _ _ _ _ j).trans (gather_val (F := F) d L IDX TAB hidx fs 9 ![3600] rfl _ 3600#32 rfl (k4_off2_inb L 9) _ _ j))
  ihave Hg9 := (Entails.of_eq ((pts_oChunk (F := F) d L 9 3600#32 rfl (k4_off2_inb L 9) _).trans (pointsTo_congr hv9))) $$ Ho9'
  have hv10 := chunk_val (F := F) d L IDX TAB OUT₀ 10 4000#32 rfl (k4_off2_inb L 10) (tile_body.sl.dma0_11 d L IDX TAB fs fa hin)
    (fun j => (read_writes_whole _ _ _ _ j).trans (gather_val (F := F) d L IDX TAB hidx fs 10 ![4000] rfl _ 4000#32 rfl (k4_off2_inb L 10) _ _ j))
  ihave Hg10 := (Entails.of_eq ((pts_oChunk (F := F) d L 10 4000#32 rfl (k4_off2_inb L 10) _).trans (pointsTo_congr hv10))) $$ Ho10'
  have hv11 := chunk_val (F := F) d L IDX TAB OUT₀ 11 4400#32 rfl (k4_off2_inb L 11) (tile_body.sl.dma0_12 d L IDX TAB fs fb hin)
    (fun j => (read_writes_whole _ _ _ _ j).trans (gather_val (F := F) d L IDX TAB hidx fs 11 ![4400] rfl _ 4400#32 rfl (k4_off2_inb L 11) _ _ j))
  ihave Hg11 := (Entails.of_eq ((pts_oChunk (F := F) d L 11 4400#32 rfl (k4_off2_inb L 11) _).trans (pointsTo_congr hv11))) $$ Ho11'
  have hv12 := chunk_val (F := F) d L IDX TAB OUT₀ 12 4800#32 rfl (k4_off2_inb L 12) (tile_body.sl.dma0_13 d L IDX TAB fs fa hin)
    (fun j => (read_writes_whole _ _ _ _ j).trans (gather_val (F := F) d L IDX TAB hidx fs 12 ![4800] rfl _ 4800#32 rfl (k4_off2_inb L 12) _ _ j))
  ihave Hg12 := (Entails.of_eq ((pts_oChunk (F := F) d L 12 4800#32 rfl (k4_off2_inb L 12) _).trans (pointsTo_congr hv12))) $$ Ho12'
  have hv13 := chunk_val (F := F) d L IDX TAB OUT₀ 13 5200#32 rfl (k4_off2_inb L 13) (tile_body.sl.dma0_14 d L IDX TAB fs fb hin)
    (fun j => (read_writes_whole _ _ _ _ j).trans (gather_val (F := F) d L IDX TAB hidx fs 13 ![5200] rfl _ 5200#32 rfl (k4_off2_inb L 13) _ _ j))
  ihave Hg13 := (Entails.of_eq ((pts_oChunk (F := F) d L 13 5200#32 rfl (k4_off2_inb L 13) _).trans (pointsTo_congr hv13))) $$ Ho13'
  have hv14 := chunk_val (F := F) d L IDX TAB OUT₀ 14 5600#32 rfl (k4_off2_inb L 14) (tile_body.sl.dma0_15 d L IDX TAB fs fa hin)
    (fun j => (read_writes_whole _ _ _ _ j).trans (gather_val (F := F) d L IDX TAB hidx fs 14 ![5600] rfl _ 5600#32 rfl (k4_off2_inb L 14) _ _ j))
  ihave Hg14 := (Entails.of_eq ((pts_oChunk (F := F) d L 14 5600#32 rfl (k4_off2_inb L 14) _).trans (pointsTo_congr hv14))) $$ Ho14'
  have hv15 := chunk_val (F := F) d L IDX TAB OUT₀ 15 6000#32 rfl (k4_off2_inb L 15) (tile_body.sl.dma0_16 d L IDX TAB fs fb hin)
    (fun j => (read_writes_whole _ _ _ _ j).trans (gather_val (F := F) d L IDX TAB hidx fs 15 ![6000] rfl _ 6000#32 rfl (k4_off2_inb L 15) _ _ j))
  ihave Hg15 := (Entails.of_eq ((pts_oChunk (F := F) d L 15 6000#32 rfl (k4_off2_inb L 15) _).trans (pointsTo_congr hv15))) $$ Ho15'
  have hv16 := chunk_val (F := F) d L IDX TAB OUT₀ 16 6400#32 rfl (k4_off2_inb L 16) (tile_body.sl.dma0_17 d L IDX TAB fs fa hin)
    (fun j => (read_writes_whole _ _ _ _ j).trans (gather_val (F := F) d L IDX TAB hidx fs 16 ![6400] rfl _ 6400#32 rfl (k4_off2_inb L 16) _ _ j))
  ihave Hg16 := (Entails.of_eq ((pts_oChunk (F := F) d L 16 6400#32 rfl (k4_off2_inb L 16) _).trans (pointsTo_congr hv16))) $$ Ho16'
  have hv17 := chunk_val (F := F) d L IDX TAB OUT₀ 17 6800#32 rfl (k4_off2_inb L 17) (tile_body.sl.dma0_18 d L IDX TAB fs fb hin)
    (fun j => (read_writes_whole _ _ _ _ j).trans (gather_val (F := F) d L IDX TAB hidx fs 17 ![6800] rfl _ 6800#32 rfl (k4_off2_inb L 17) _ _ j))
  ihave Hg17 := (Entails.of_eq ((pts_oChunk (F := F) d L 17 6800#32 rfl (k4_off2_inb L 17) _).trans (pointsTo_congr hv17))) $$ Ho17'
  have hv18 := chunk_val (F := F) d L IDX TAB OUT₀ 18 7200#32 rfl (k4_off2_inb L 18) (tile_body.sl.dma0_19 d L IDX TAB fs fa hin)
    (fun j => (read_writes_whole _ _ _ _ j).trans (gather_val (F := F) d L IDX TAB hidx fs 18 ![7200] rfl _ 7200#32 rfl (k4_off2_inb L 18) _ _ j))
  ihave Hg18 := (Entails.of_eq ((pts_oChunk (F := F) d L 18 7200#32 rfl (k4_off2_inb L 18) _).trans (pointsTo_congr hv18))) $$ Ho18'
  have hv19 := chunk_val (F := F) d L IDX TAB OUT₀ 19 7600#32 rfl (k4_off2_inb L 19) (tile_body.sl.dma0_20 d L IDX TAB fs fb hin)
    (fun j => (read_writes_whole _ _ _ _ j).trans (gather_val (F := F) d L IDX TAB hidx fs 19 ![7600] rfl _ 7600#32 rfl (k4_off2_inb L 19) _ _ j))
  ihave Hg19 := (Entails.of_eq ((pts_oChunk (F := F) d L 19 7600#32 rfl (k4_off2_inb L 19) _).trans (pointsTo_congr hv19))) $$ Ho19'
  have hv20 := chunk_val (F := F) d L IDX TAB OUT₀ 20 8000#32 rfl (k4_off2_inb L 20) (tile_body.sl.dma0_21 d L IDX TAB fs fa hin)
    (fun j => (read_writes_whole _ _ _ _ j).trans (gather_val (F := F) d L IDX TAB hidx fs 20 ![8000] rfl _ 8000#32 rfl (k4_off2_inb L 20) _ _ j))
  ihave Hg20 := (Entails.of_eq ((pts_oChunk (F := F) d L 20 8000#32 rfl (k4_off2_inb L 20) _).trans (pointsTo_congr hv20))) $$ Ho20'
  have hv21 := chunk_val (F := F) d L IDX TAB OUT₀ 21 8400#32 rfl (k4_off2_inb L 21) (tile_body.sl.dma0_22 d L IDX TAB fs fb hin)
    (fun j => (read_writes_whole _ _ _ _ j).trans (gather_val (F := F) d L IDX TAB hidx fs 21 ![8400] rfl _ 8400#32 rfl (k4_off2_inb L 21) _ _ j))
  ihave Hg21 := (Entails.of_eq ((pts_oChunk (F := F) d L 21 8400#32 rfl (k4_off2_inb L 21) _).trans (pointsTo_congr hv21))) $$ Ho21'
  have hv22 := chunk_val (F := F) d L IDX TAB OUT₀ 22 8800#32 rfl (k4_off2_inb L 22) (tile_body.sl.dma0_23 d L IDX TAB fs fa hin)
    (fun j => (read_writes_whole _ _ _ _ j).trans (gather_val (F := F) d L IDX TAB hidx fs 22 ![8800] rfl _ 8800#32 rfl (k4_off2_inb L 22) _ _ j))
  ihave Hg22 := (Entails.of_eq ((pts_oChunk (F := F) d L 22 8800#32 rfl (k4_off2_inb L 22) _).trans (pointsTo_congr hv22))) $$ Ho22'
  have hv23 := chunk_val (F := F) d L IDX TAB OUT₀ 23 9200#32 rfl (k4_off2_inb L 23) (tile_body.sl.dma0_24 d L IDX TAB fs fb hin)
    (fun j => (read_writes_whole _ _ _ _ j).trans (gather_val (F := F) d L IDX TAB hidx fs 23 ![9200] rfl _ 9200#32 rfl (k4_off2_inb L 23) _ _ j))
  ihave Hg23 := (Entails.of_eq ((pts_oChunk (F := F) d L 23 9200#32 rfl (k4_off2_inb L 23) _).trans (pointsTo_congr hv23))) $$ Ho23'
  have hv24 := chunk_val (F := F) d L IDX TAB OUT₀ 24 9600#32 rfl (k4_off2_inb L 24) (tile_body.sl.dma0_25 d L IDX TAB fs fa hin)
    (fun j => (read_writes_whole _ _ _ _ j).trans (gather_val (F := F) d L IDX TAB hidx fs 24 ![9600] rfl _ 9600#32 rfl (k4_off2_inb L 24) _ _ j))
  ihave Hg24 := (Entails.of_eq ((pts_oChunk (F := F) d L 24 9600#32 rfl (k4_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody4

end
-- ==== Proof.GatherBody6.lean ====
/-
  One vector subcore's task of gather call 3 (the program's custom call 6): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBase
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.KernelIdeal
import proofs.«205547_g25623774888366_cont_9to1_713_27_alg».proof.Proof.Gen.KernelIdeal.Skeleton

noncomputable section

namespace Cert.Proof.GatherBody6

open Cert.KernelIdeal Cert.KernelIdeal.Gen
open Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.KernelIdeal.main_v48_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v49_scv : Memref Cert.KernelIdeal.sig Kind.scVector Space.hbm Cert.KernelIdeal.S320000x128 EltTy.f32)
local notation "sV" => (Memref.whole Cert.KernelIdeal.cc6_scratch0 : Memref Cert.KernelIdeal.sig Kind.scVector Space.vmem Cert.KernelIdeal.S10000 EltTy.i32)
local notation "aV" => (Memref.whole Cert.KernelIdeal.cc6_scratch1 : Memref Cert.KernelIdeal.sig Kind.scVector Space.vmem Cert.KernelIdeal.S400x128 EltTy.f32)
local notation "bV" => (Memref.whole Cert.KernelIdeal.cc6_scratch2 : Memref Cert.KernelIdeal.sig Kind.scVector Space.vmem Cert.KernelIdeal.S400x128 EltTy.f32)

section Sets

variable (L : grid6.Coords)

theorem bound_zero : grid6.bound 0 = 2 := rfl
theorem bound_one : grid6.bound 1 = 16 := rfl
/-- The worker's number: twice the vector subcore's plus the SparseCore's. -/
abbrev wid (L : grid6.Coords) : Fin 32 := wOf (Fin.cast bound_zero (L 0)) (Fin.cast bound_one (L 1))
/-- The first row of the worker's block. -/
abbrev base (L : grid6.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid6.Coords) (c : Fin 25) : Rect S320000x128 :=
  Rect.unit (s := S320000x128) (k6_off2 L (BitVec.ofNat 32 (400 * c.val))) S400x128.size (k6_off2_inb L c)
abbrev chunkSet (L : grid6.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k6_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid6.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid6.Coords)

abbrev cV (L : grid6.Coords) : Fin τ.nSC := (L 0).castLE hcore6
abbrev jV (L : grid6.Coords) : Fin τ.nSub := (L 1).castLE hsub6

abbrev irowK (L : grid6.Coords) : Rect S320000 := Rect.unit (s := S320000) (k6_off1 L) S10000.size (k6_off1_inb L)
/-- The worker's block of the index array, as the task addresses it. -/
abbrev iRowK (L : grid6.Coords) : Memref sig .scVector .hbm S10000 .i32 := (iV).slice (irowK L) (fun _ => rfl)
/-- A block of 400 rows of the output at a row offset given by a word, as the task addresses it. -/
abbrev oChunkM (L : grid6.Coords) (n : BitVec 32) (h : ∀ a, (k6_off2 L n) a + S400x128.size a ≤ S320000x128.size a) : Memref sig .scVector .hbm S400x128 .f32 :=
  (oV).slice (Rect.unit (s := S320000x128) (k6_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k6_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k6_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k6_off2 L n) a + S400x128.size a ≤ S320000x128.size a) (f : Buf (Elt F) (oLoc3 d)) :
    ((oChunkM L n h).view.loc (V d (cV L) (jV L)) ↦[(oChunkM L n h).view.set]{fullShare} f : sProp 𝕄)
      = (oLoc3 d ↦[chunkSet L c]{fullShare} f) := by
  rw [set_oChunkM L c n hn h]
theorem pts_xV (q : PosShare TreeShare) (f : Buf (Elt F) (xLoc3 d)) :
    ((xV).view.loc (V d (cV L) (jV L)) ↦{q} f : sProp 𝕄) = xLoc3 d ↦{q} f := rfl
theorem pts_sV (f : Buf (Elt F) ((V d (cV L) (jV L)).loc cc6_scratch0)) :
    ((sV).view.loc (V d (cV L) (jV L)) ↦{fullShare} f : sProp 𝕄) = (V d (cV L) (jV L)).loc cc6_scratch0 ↦{fullShare} f := rfl
theorem pts_aV (f : Buf (Elt F) ((V d (cV L) (jV L)).loc cc6_scratch1)) :
    ((aV).view.loc (V d (cV L) (jV L)) ↦{fullShare} f : sProp 𝕄) = (V d (cV L) (jV L)).loc cc6_scratch1 ↦{fullShare} f := rfl
theorem pts_bV (f : Buf (Elt F) ((V d (cV L) (jV L)).loc cc6_scratch2)) :
    ((bV).view.loc (V d (cV L) (jV L)) ↦{fullShare} f : sProp 𝕄) = (V d (cV L) (jV L)).loc cc6_scratch2 ↦{fullShare} f := rfl

/-- The rows from chunk `k` on are chunk `k` and the rows from chunk `k + 1` on. -/
theorem pts_tl_split (k : ℕ) (hk : k < 25) (f : Buf (Elt F) (oLoc3 d)) :
    (oLoc3 d ↦[tlSet L k (by omega)]{fullShare} f : sProp 𝕄)
      = iprop((oLoc3 d ↦[chunkSet L ⟨k, hk⟩]{fullShare} f) ∗ oLoc3 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc3 d)) :
    (oLoc3 d ↦[oRowSet (wid L)]{fullShare} f : sProp 𝕄) = oLoc3 d ↦[tlSet L 0 (by omega)]{fullShare} f := by
  rw [tl_zero]

theorem pts_tl_24 (f : Buf (Elt F) (oLoc3 d)) :
    (oLoc3 d ↦[tlSet L 24 (by omega)]{fullShare} f : sProp 𝕄) = oLoc3 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k6_off2 L n) a + S400x128.size a ≤ S320000x128.size a)
    (g : Buf (Elt F) (oLoc3 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc3 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k6_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k6_off1 L) 0 + 1 * (off 0 + 1 * ((S400.rowMajor.symm ((j gathers_S10000x128_S400x128.axis').cast hn'.symm)) 0).val)
      = (k6_off2 L (BitVec.ofNat 32 (400 * c.val))) 0 + 1 * (j 0).val
    rw [hz, k6_off1_eq L, k6_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k6_off2 L (BitVec.ofNat 32 (400 * c.val))) 1 + 1 * (j 1).val
    rw [k6_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc3 d)) (g : Buf (Elt F) (oLoc3 d)) (c : Fin 25)
    (n : BitVec 32) (hn : n = BitVec.ofNat 32 (400 * c.val)) (h : ∀ a, (k6_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc6_scratch3.sem)
abbrev cellG1 (d : Dev nD) (c : Fin τ.nSC) (i : Fin τ.nSub) : GSem nD τ sig := (V d c i, .dma cc6_scratch4.sem)
abbrev cellS0 (d : Dev nD) (c : Fin τ.nSC) (i : Fin τ.nSub) : GSem nD τ sig := (V d c i, .dma cc6_scratch5.sem)
abbrev cellS1 (d : Dev nD) (c : Fin τ.nSC) (i : Fin τ.nSub) : GSem nD τ sig := (V d c i, .dma cc6_scratch6.sem)
abbrev cellIX (d : Dev nD) (c : Fin τ.nSC) (i : Fin τ.nSub) : GSem nD τ sig := (V d c i, .dma cc6_scoped0.sem)

theorem cell_ne_G1_G0 : (cellG1 d (cV L) (jV L)) ≠ (cellG0 d (cV L) (jV L)) :=
  fun h => absurd (congrArg Prod.snd h) (show (SemLoc.dma cc6_scratch4.sem : SemLoc sig) ≠ SemLoc.dma cc6_scratch3.sem by decide)
theorem cell_ne_S0_G0 : (cellS0 d (cV L) (jV L)) ≠ (cellG0 d (cV L) (jV L)) :=
  fun h => absurd (congrArg Prod.snd h) (show (SemLoc.dma cc6_scratch5.sem : SemLoc sig) ≠ SemLoc.dma cc6_scratch3.sem by decide)
theorem cell_ne_S0_G1 : (cellS0 d (cV L) (jV L)) ≠ (cellG1 d (cV L) (jV L)) :=
  fun h => absurd (congrArg Prod.snd h) (show (SemLoc.dma cc6_scratch5.sem : SemLoc sig) ≠ SemLoc.dma cc6_scratch4.sem by decide)
theorem cell_ne_S1_G0 : (cellS1 d (cV L) (jV L)) ≠ (cellG0 d (cV L) (jV L)) :=
  fun h => absurd (congrArg Prod.snd h) (show (SemLoc.dma cc6_scratch6.sem : SemLoc sig) ≠ SemLoc.dma cc6_scratch3.sem by decide)
theorem cell_ne_S1_G1 : (cellS1 d (cV L) (jV L)) ≠ (cellG1 d (cV L) (jV L)) :=
  fun h => absurd (congrArg Prod.snd h) (show (SemLoc.dma cc6_scratch6.sem : SemLoc sig) ≠ SemLoc.dma cc6_scratch4.sem by decide)
theorem cell_ne_S1_S0 : (cellS1 d (cV L) (jV L)) ≠ (cellS0 d (cV L) (jV L)) :=
  fun h => absurd (congrArg Prod.snd h) (show (SemLoc.dma cc6_scratch6.sem : SemLoc sig) ≠ SemLoc.dma cc6_scratch5.sem by decide)
theorem cell_ne_IX_G0 : (cellIX d (cV L) (jV L)) ≠ (cellG0 d (cV L) (jV L)) :=
  fun h => absurd (congrArg Prod.snd h) (show (SemLoc.dma cc6_scoped0.sem : SemLoc sig) ≠ SemLoc.dma cc6_scratch3.sem by decide)
theorem cell_ne_IX_G1 : (cellIX d (cV L) (jV L)) ≠ (cellG1 d (cV L) (jV L)) :=
  fun h => absurd (congrArg Prod.snd h) (show (SemLoc.dma cc6_scoped0.sem : SemLoc sig) ≠ SemLoc.dma cc6_scratch4.sem by decide)
theorem cell_ne_IX_S0 : (cellIX d (cV L) (jV L)) ≠ (cellS0 d (cV L) (jV L)) :=
  fun h => absurd (congrArg Prod.snd h) (show (SemLoc.dma cc6_scoped0.sem : SemLoc sig) ≠ SemLoc.dma cc6_scratch5.sem by decide)
theorem cell_ne_IX_S1 : (cellIX d (cV L) (jV L)) ≠ (cellS1 d (cV L) (jV L)) :=
  fun h => absurd (congrArg Prod.snd h) (show (SemLoc.dma cc6_scoped0.sem : SemLoc sig) ≠ SemLoc.dma cc6_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc6_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc6_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc6_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc6_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc6_scoped0.sem : SemLoc sig).isScoped .scVector = true; decide⟩⟩⟩⟩⟩)]

theorem ownBufs_V :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f) ∗ (∃ f, (V d (cV L) (jV L)).loc cc6_scratch2 ↦{fullShare} f)
          ∗ bigSep ((((ownRefs (τ := τ) (.scVector (cV L) (jV L))).erase ((Proc.scVector (cV L) (jV L)).devRef cc6_scratch0)).erase ((Proc.scVector (cV L) (jV L)).devRef cc6_scratch1)).erase ((Proc.scVector (cV L) (jV L)).devRef cc6_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc6_scratch0) rfl)).trans ?_
  rw [SparseCore.bigSep_erase' (Finset.mem_erase.mpr ⟨fun e => absurd (Proc.devRef_injective _ e) (show (cc6_scratch1 : Ref sig .scVector) ≠ cc6_scratch0 by decide), SparseCore.Cfg.mem_ownRefs_of_owner (p := (Proc.scVector (cV L) (jV L))) (b := (Proc.scVector (cV L) (jV L)).devRef cc6_scratch1) rfl⟩),
    SparseCore.bigSep_erase' (Finset.mem_erase.mpr ⟨fun e => absurd (Proc.devRef_injective _ e) (show (cc6_scratch2 : Ref sig .scVector) ≠ cc6_scratch1 by decide), Finset.mem_erase.mpr ⟨fun e => absurd (Proc.devRef_injective _ e) (show (cc6_scratch2 : Ref sig .scVector) ≠ cc6_scratch0 by decide), SparseCore.Cfg.mem_ownRefs_of_owner (p := (Proc.scVector (cV L) (jV L))) (b := (Proc.scVector (cV L) (jV L)).devRef cc6_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc3 d)) (OUT₀ : Buf (Elt F) (oLoc3 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc3 d ↦{q} TAB) ∗ (oLoc3 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_gather_kernel L xV (Memref.isWhole_whole _) iV (Memref.isWhole_whole _) oV (Memref.isWhole_whole _)
            sV (Memref.isWhole_whole _) aV (Memref.isWhole_whole _) bV (Memref.isWhole_whole _)
            cc6_scratch3 cc6_scratch4 cc6_scratch5 cc6_scratch6 cc6_scoped0)
          fun _ => iprop(((iLoc d ↦[iRowSet (wid L)]{fullShare} IDX : sProp 𝕄) ∗ (xLoc3 d ↦{q} TAB)
              ∗ ∃ OUT, ⌜GatherSpec (wid L) IDX TAB OUT⌝ ∗ (oLoc3 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc6_gather_kernel_eq_skeleton]; unfold cc6_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k6_off2_inb L 0) _).symm) $$ Ho0
  ihave Ho1' := (Entails.of_eq (pts_oChunk (F := F) d L 1 400#32 rfl (k6_off2_inb L 1) _).symm) $$ Ho1
  ihave Ho2' := (Entails.of_eq (pts_oChunk (F := F) d L 2 800#32 rfl (k6_off2_inb L 2) _).symm) $$ Ho2
  ihave Ho3' := (Entails.of_eq (pts_oChunk (F := F) d L 3 1200#32 rfl (k6_off2_inb L 3) _).symm) $$ Ho3
  ihave Ho4' := (Entails.of_eq (pts_oChunk (F := F) d L 4 1600#32 rfl (k6_off2_inb L 4) _).symm) $$ Ho4
  ihave Ho5' := (Entails.of_eq (pts_oChunk (F := F) d L 5 2000#32 rfl (k6_off2_inb L 5) _).symm) $$ Ho5
  ihave Ho6' := (Entails.of_eq (pts_oChunk (F := F) d L 6 2400#32 rfl (k6_off2_inb L 6) _).symm) $$ Ho6
  ihave Ho7' := (Entails.of_eq (pts_oChunk (F := F) d L 7 2800#32 rfl (k6_off2_inb L 7) _).symm) $$ Ho7
  ihave Ho8' := (Entails.of_eq (pts_oChunk (F := F) d L 8 3200#32 rfl (k6_off2_inb L 8) _).symm) $$ Ho8
  ihave Ho9' := (Entails.of_eq (pts_oChunk (F := F) d L 9 3600#32 rfl (k6_off2_inb L 9) _).symm) $$ Ho9
  ihave Ho10' := (Entails.of_eq (pts_oChunk (F := F) d L 10 4000#32 rfl (k6_off2_inb L 10) _).symm) $$ Ho10
  ihave Ho11' := (Entails.of_eq (pts_oChunk (F := F) d L 11 4400#32 rfl (k6_off2_inb L 11) _).symm) $$ Ho11
  ihave Ho12' := (Entails.of_eq (pts_oChunk (F := F) d L 12 4800#32 rfl (k6_off2_inb L 12) _).symm) $$ Ho12
  ihave Ho13' := (Entails.of_eq (pts_oChunk (F := F) d L 13 5200#32 rfl (k6_off2_inb L 13) _).symm) $$ Ho13
  ihave Ho14' := (Entails.of_eq (pts_oChunk (F := F) d L 14 5600#32 rfl (k6_off2_inb L 14) _).symm) $$ Ho14
  ihave Ho15' := (Entails.of_eq (pts_oChunk (F := F) d L 15 6000#32 rfl (k6_off2_inb L 15) _).symm) $$ Ho15
  ihave Ho16' := (Entails.of_eq (pts_oChunk (F := F) d L 16 6400#32 rfl (k6_off2_inb L 16) _).symm) $$ Ho16
  ihave Ho17' := (Entails.of_eq (pts_oChunk (F := F) d L 17 6800#32 rfl (k6_off2_inb L 17) _).symm) $$ Ho17
  ihave Ho18' := (Entails.of_eq (pts_oChunk (F := F) d L 18 7200#32 rfl (k6_off2_inb L 18) _).symm) $$ Ho18
  ihave Ho19' := (Entails.of_eq (pts_oChunk (F := F) d L 19 7600#32 rfl (k6_off2_inb L 19) _).symm) $$ Ho19
  ihave Ho20' := (Entails.of_eq (pts_oChunk (F := F) d L 20 8000#32 rfl (k6_off2_inb L 20) _).symm) $$ Ho20
  ihave Ho21' := (Entails.of_eq (pts_oChunk (F := F) d L 21 8400#32 rfl (k6_off2_inb L 21) _).symm) $$ Ho21
  ihave Ho22' := (Entails.of_eq (pts_oChunk (F := F) d L 22 8800#32 rfl (k6_off2_inb L 22) _).symm) $$ Ho22
  ihave Ho23' := (Entails.of_eq (pts_oChunk (F := F) d L 23 9200#32 rfl (k6_off2_inb L 23) _).symm) $$ Ho23
  ihave Ho24' := (Entails.of_eq (pts_oChunk (F := F) d L 24 9600#32 rfl (k6_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k6_off2_inb L 0) (tile_body.sl.dma0_1 d L IDX TAB fs fa hin)
    (fun j => (read_writes_whole _ _ _ _ j).trans (gather_val (F := F) d L IDX TAB hidx fs 0 ![0] rfl _ 0#32 rfl (k6_off2_inb L 0) _ _ j))
  ihave Hg0 := (Entails.of_eq ((pts_oChunk (F := F) d L 0 0#32 rfl (k6_off2_inb L 0) _).trans (pointsTo_congr hv0))) $$ Ho0'
  have hv1 := chunk_val (F := F) d L IDX TAB OUT₀ 1 400#32 rfl (k6_off2_inb L 1) (tile_body.sl.dma0_2 d L IDX TAB fs fb hin)
    (fun j => (read_writes_whole _ _ _ _ j).trans (gather_val (F := F) d L IDX TAB hidx fs 1 ![400] rfl _ 400#32 rfl (k6_off2_inb L 1) _ _ j))
  ihave Hg1 := (Entails.of_eq ((pts_oChunk (F := F) d L 1 400#32 rfl (k6_off2_inb L 1) _).trans (pointsTo_congr hv1))) $$ Ho1'
  have hv2 := chunk_val (F := F) d L IDX TAB OUT₀ 2 800#32 rfl (k6_off2_inb L 2) (tile_body.sl.dma0_3 d L IDX TAB fs fa hin)
    (fun j => (read_writes_whole _ _ _ _ j).trans (gather_val (F := F) d L IDX TAB hidx fs 2 ![800] rfl _ 800#32 rfl (k6_off2_inb L 2) _ _ j))
  ihave Hg2 := (Entails.of_eq ((pts_oChunk (F := F) d L 2 800#32 rfl (k6_off2_inb L 2) _).trans (pointsTo_congr hv2))) $$ Ho2'
  have hv3 := chunk_val (F := F) d L IDX TAB OUT₀ 3 1200#32 rfl (k6_off2_inb L 3) (tile_body.sl.dma0_4 d L IDX TAB fs fb hin)
    (fun j => (read_writes_whole _ _ _ _ j).trans (gather_val (F := F) d L IDX TAB hidx fs 3 ![1200] rfl _ 1200#32 rfl (k6_off2_inb L 3) _ _ j))
  ihave Hg3 := (Entails.of_eq ((pts_oChunk (F := F) d L 3 1200#32 rfl (k6_off2_inb L 3) _).trans (pointsTo_congr hv3))) $$ Ho3'
  have hv4 := chunk_val (F := F) d L IDX TAB OUT₀ 4 1600#32 rfl (k6_off2_inb L 4) (tile_body.sl.dma0_5 d L IDX TAB fs fa hin)
    (fun j => (read_writes_whole _ _ _ _ j).trans (gather_val (F := F) d L IDX TAB hidx fs 4 ![1600] rfl _ 1600#32 rfl (k6_off2_inb L 4) _ _ j))
  ihave Hg4 := (Entails.of_eq ((pts_oChunk (F := F) d L 4 1600#32 rfl (k6_off2_inb L 4) _).trans (pointsTo_congr hv4))) $$ Ho4'
  have hv5 := chunk_val (F := F) d L IDX TAB OUT₀ 5 2000#32 rfl (k6_off2_inb L 5) (tile_body.sl.dma0_6 d L IDX TAB fs fb hin)
    (fun j => (read_writes_whole _ _ _ _ j).trans (gather_val (F := F) d L IDX TAB hidx fs 5 ![2000] rfl _ 2000#32 rfl (k6_off2_inb L 5) _ _ j))
  ihave Hg5 := (Entails.of_eq ((pts_oChunk (F := F) d L 5 2000#32 rfl (k6_off2_inb L 5) _).trans (pointsTo_congr hv5))) $$ Ho5'
  have hv6 := chunk_val (F := F) d L IDX TAB OUT₀ 6 2400#32 rfl (k6_off2_inb L 6) (tile_body.sl.dma0_7 d L IDX TAB fs fa hin)
    (fun j => (read_writes_whole _ _ _ _ j).trans (gather_val (F := F) d L IDX TAB hidx fs 6 ![2400] rfl _ 2400#32 rfl (k6_off2_inb L 6) _ _ j))
  ihave Hg6 := (Entails.of_eq ((pts_oChunk (F := F) d L 6 2400#32 rfl (k6_off2_inb L 6) _).trans (pointsTo_congr hv6))) $$ Ho6'
  have hv7 := chunk_val (F := F) d L IDX TAB OUT₀ 7 2800#32 rfl (k6_off2_inb L 7) (tile_body.sl.dma0_8 d L IDX TAB fs fb hin)
    (fun j => (read_writes_whole _ _ _ _ j).trans (gather_val (F := F) d L IDX TAB hidx fs 7 ![2800] rfl _ 2800#32 rfl (k6_off2_inb L 7) _ _ j))
  ihave Hg7 := (Entails.of_eq ((pts_oChunk (F := F) d L 7 2800#32 rfl (k6_off2_inb L 7) _).trans (pointsTo_congr hv7))) $$ Ho7'
  have hv8 := chunk_val (F := F) d L IDX TAB OUT₀ 8 3200#32 rfl (k6_off2_inb L 8) (tile_body.sl.dma0_9 d L IDX TAB fs fa hin)
    (fun j => (read_writes_whole _ _ _ _ j).trans (gather_val (F := F) d L IDX TAB hidx fs 8 ![3200] rfl _ 3200#32 rfl (k6_off2_inb L 8) _ _ j))
  ihave Hg8 := (Entails.of_eq ((pts_oChunk (F := F) d L 8 3200#32 rfl (k6_off2_inb L 8) _).trans (pointsTo_congr hv8))) $$ Ho8'
  have hv9 := chunk_val (F := F) d L IDX TAB OUT₀ 9 3600#32 rfl (k6_off2_inb L 9) (tile_body.sl.dma0_10 d L IDX TAB fs fb hin)
    (fun j => (read_writes_whole _ _ _ _ j).trans (gather_val (F := F) d L IDX TAB hidx fs 9 ![3600] rfl _ 3600#32 rfl (k6_off2_inb L 9) _ _ j))
  ihave Hg9 := (Entails.of_eq ((pts_oChunk (F := F) d L 9 3600#32 rfl (k6_off2_inb L 9) _).trans (pointsTo_congr hv9))) $$ Ho9'
  have hv10 := chunk_val (F := F) d L IDX TAB OUT₀ 10 4000#32 rfl (k6_off2_inb L 10) (tile_body.sl.dma0_11 d L IDX TAB fs fa hin)
    (fun j => (read_writes_whole _ _ _ _ j).trans (gather_val (F := F) d L IDX TAB hidx fs 10 ![4000] rfl _ 4000#32 rfl (k6_off2_inb L 10) _ _ j))
  ihave Hg10 := (Entails.of_eq ((pts_oChunk (F := F) d L 10 4000#32 rfl (k6_off2_inb L 10) _).trans (pointsTo_congr hv10))) $$ Ho10'
  have hv11 := chunk_val (F := F) d L IDX TAB OUT₀ 11 4400#32 rfl (k6_off2_inb L 11) (tile_body.sl.dma0_12 d L IDX TAB fs fb hin)
    (fun j => (read_writes_whole _ _ _ _ j).trans (gather_val (F := F) d L IDX TAB hidx fs 11 ![4400] rfl _ 4400#32 rfl (k6_off2_inb L 11) _ _ j))
  ihave Hg11 := (Entails.of_eq ((pts_oChunk (F := F) d L 11 4400#32 rfl (k6_off2_inb L 11) _).trans (pointsTo_congr hv11))) $$ Ho11'
  have hv12 := chunk_val (F := F) d L IDX TAB OUT₀ 12 4800#32 rfl (k6_off2_inb L 12) (tile_body.sl.dma0_13 d L IDX TAB fs fa hin)
    (fun j => (read_writes_whole _ _ _ _ j).trans (gather_val (F := F) d L IDX TAB hidx fs 12 ![4800] rfl _ 4800#32 rfl (k6_off2_inb L 12) _ _ j))
  ihave Hg12 := (Entails.of_eq ((pts_oChunk (F := F) d L 12 4800#32 rfl (k6_off2_inb L 12) _).trans (pointsTo_congr hv12))) $$ Ho12'
  have hv13 := chunk_val (F := F) d L IDX TAB OUT₀ 13 5200#32 rfl (k6_off2_inb L 13) (tile_body.sl.dma0_14 d L IDX TAB fs fb hin)
    (fun j => (read_writes_whole _ _ _ _ j).trans (gather_val (F := F) d L IDX TAB hidx fs 13 ![5200] rfl _ 5200#32 rfl (k6_off2_inb L 13) _ _ j))
  ihave Hg13 := (Entails.of_eq ((pts_oChunk (F := F) d L 13 5200#32 rfl (k6_off2_inb L 13) _).trans (pointsTo_congr hv13))) $$ Ho13'
  have hv14 := chunk_val (F := F) d L IDX TAB OUT₀ 14 5600#32 rfl (k6_off2_inb L 14) (tile_body.sl.dma0_15 d L IDX TAB fs fa hin)
    (fun j => (read_writes_whole _ _ _ _ j).trans (gather_val (F := F) d L IDX TAB hidx fs 14 ![5600] rfl _ 5600#32 rfl (k6_off2_inb L 14) _ _ j))
  ihave Hg14 := (Entails.of_eq ((pts_oChunk (F := F) d L 14 5600#32 rfl (k6_off2_inb L 14) _).trans (pointsTo_congr hv14))) $$ Ho14'
  have hv15 := chunk_val (F := F) d L IDX TAB OUT₀ 15 6000#32 rfl (k6_off2_inb L 15) (tile_body.sl.dma0_16 d L IDX TAB fs fb hin)
    (fun j => (read_writes_whole _ _ _ _ j).trans (gather_val (F := F) d L IDX TAB hidx fs 15 ![6000] rfl _ 6000#32 rfl (k6_off2_inb L 15) _ _ j))
  ihave Hg15 := (Entails.of_eq ((pts_oChunk (F := F) d L 15 6000#32 rfl (k6_off2_inb L 15) _).trans (pointsTo_congr hv15))) $$ Ho15'
  have hv16 := chunk_val (F := F) d L IDX TAB OUT₀ 16 6400#32 rfl (k6_off2_inb L 16) (tile_body.sl.dma0_17 d L IDX TAB fs fa hin)
    (fun j => (read_writes_whole _ _ _ _ j).trans (gather_val (F := F) d L IDX TAB hidx fs 16 ![6400] rfl _ 6400#32 rfl (k6_off2_inb L 16) _ _ j))
  ihave Hg16 := (Entails.of_eq ((pts_oChunk (F := F) d L 16 6400#32 rfl (k6_off2_inb L 16) _).trans (pointsTo_congr hv16))) $$ Ho16'
  have hv17 := chunk_val (F := F) d L IDX TAB OUT₀ 17 6800#32 rfl (k6_off2_inb L 17) (tile_body.sl.dma0_18 d L IDX TAB fs fb hin)
    (fun j => (read_writes_whole _ _ _ _ j).trans (gather_val (F := F) d L IDX TAB hidx fs 17 ![6800] rfl _ 6800#32 rfl (k6_off2_inb L 17) _ _ j))
  ihave Hg17 := (Entails.of_eq ((pts_oChunk (F := F) d L 17 6800#32 rfl (k6_off2_inb L 17) _).trans (pointsTo_congr hv17))) $$ Ho17'
  have hv18 := chunk_val (F := F) d L IDX TAB OUT₀ 18 7200#32 rfl (k6_off2_inb L 18) (tile_body.sl.dma0_19 d L IDX TAB fs fa hin)
    (fun j => (read_writes_whole _ _ _ _ j).trans (gather_val (F := F) d L IDX TAB hidx fs 18 ![7200] rfl _ 7200#32 rfl (k6_off2_inb L 18) _ _ j))
  ihave Hg18 := (Entails.of_eq ((pts_oChunk (F := F) d L 18 7200#32 rfl (k6_off2_inb L 18) _).trans (pointsTo_congr hv18))) $$ Ho18'
  have hv19 := chunk_val (F := F) d L IDX TAB OUT₀ 19 7600#32 rfl (k6_off2_inb L 19) (tile_body.sl.dma0_20 d L IDX TAB fs fb hin)
    (fun j => (read_writes_whole _ _ _ _ j).trans (gather_val (F := F) d L IDX TAB hidx fs 19 ![7600] rfl _ 7600#32 rfl (k6_off2_inb L 19) _ _ j))
  ihave Hg19 := (Entails.of_eq ((pts_oChunk (F := F) d L 19 7600#32 rfl (k6_off2_inb L 19) _).trans (pointsTo_congr hv19))) $$ Ho19'
  have hv20 := chunk_val (F := F) d L IDX TAB OUT₀ 20 8000#32 rfl (k6_off2_inb L 20) (tile_body.sl.dma0_21 d L IDX TAB fs fa hin)
    (fun j => (read_writes_whole _ _ _ _ j).trans (gather_val (F := F) d L IDX TAB hidx fs 20 ![8000] rfl _ 8000#32 rfl (k6_off2_inb L 20) _ _ j))
  ihave Hg20 := (Entails.of_eq ((pts_oChunk (F := F) d L 20 8000#32 rfl (k6_off2_inb L 20) _).trans (pointsTo_congr hv20))) $$ Ho20'
  have hv21 := chunk_val (F := F) d L IDX TAB OUT₀ 21 8400#32 rfl (k6_off2_inb L 21) (tile_body.sl.dma0_22 d L IDX TAB fs fb hin)
    (fun j => (read_writes_whole _ _ _ _ j).trans (gather_val (F := F) d L IDX TAB hidx fs 21 ![8400] rfl _ 8400#32 rfl (k6_off2_inb L 21) _ _ j))
  ihave Hg21 := (Entails.of_eq ((pts_oChunk (F := F) d L 21 8400#32 rfl (k6_off2_inb L 21) _).trans (pointsTo_congr hv21))) $$ Ho21'
  have hv22 := chunk_val (F := F) d L IDX TAB OUT₀ 22 8800#32 rfl (k6_off2_inb L 22) (tile_body.sl.dma0_23 d L IDX TAB fs fa hin)
    (fun j => (read_writes_whole _ _ _ _ j).trans (gather_val (F := F) d L IDX TAB hidx fs 22 ![8800] rfl _ 8800#32 rfl (k6_off2_inb L 22) _ _ j))
  ihave Hg22 := (Entails.of_eq ((pts_oChunk (F := F) d L 22 8800#32 rfl (k6_off2_inb L 22) _).trans (pointsTo_congr hv22))) $$ Ho22'
  have hv23 := chunk_val (F := F) d L IDX TAB OUT₀ 23 9200#32 rfl (k6_off2_inb L 23) (tile_body.sl.dma0_24 d L IDX TAB fs fb hin)
    (fun j => (read_writes_whole _ _ _ _ j).trans (gather_val (F := F) d L IDX TAB hidx fs 23 ![9200] rfl _ 9200#32 rfl (k6_off2_inb L 23) _ _ j))
  ihave Hg23 := (Entails.of_eq ((pts_oChunk (F := F) d L 23 9200#32 rfl (k6_off2_inb L 23) _).trans (pointsTo_congr hv23))) $$ Ho23'
  have hv24 := chunk_val (F := F) d L IDX TAB OUT₀ 24 9600#32 rfl (k6_off2_inb L 24) (tile_body.sl.dma0_25 d L IDX TAB fs fa hin)
    (fun j => (read_writes_whole _ _ _ _ j).trans (gather_val (F := F) d L IDX TAB hidx fs 24 ![9600] rfl _ 9600#32 rfl (k6_off2_inb L 24) _ _ j))
  ihave Hg24 := (Entails.of_eq ((pts_oChunk (F := F) d L 24 9600#32 rfl (k6_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody6

end
-- ==== Proof.GatherBody8.lean ====
/-
  One vector subcore's task of gather call 4 (the program's custom call 8): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBase
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.KernelIdeal
import proofs.«205547_g25623774888366_cont_9to1_713_27_alg».proof.Proof.Gen.KernelIdeal.Skeleton

noncomputable section

namespace Cert.Proof.GatherBody8

open Cert.KernelIdeal Cert.KernelIdeal.Gen
open Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.KernelIdeal.main_v61_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v62_scv : Memref Cert.KernelIdeal.sig Kind.scVector Space.hbm Cert.KernelIdeal.S320000x128 EltTy.f32)
local notation "sV" => (Memref.whole Cert.KernelIdeal.cc8_scratch0 : Memref Cert.KernelIdeal.sig Kind.scVector Space.vmem Cert.KernelIdeal.S10000 EltTy.i32)
local notation "aV" => (Memref.whole Cert.KernelIdeal.cc8_scratch1 : Memref Cert.KernelIdeal.sig Kind.scVector Space.vmem Cert.KernelIdeal.S400x128 EltTy.f32)
local notation "bV" => (Memref.whole Cert.KernelIdeal.cc8_scratch2 : Memref Cert.KernelIdeal.sig Kind.scVector Space.vmem Cert.KernelIdeal.S400x128 EltTy.f32)

section Sets

variable (L : grid8.Coords)

theorem bound_zero : grid8.bound 0 = 2 := rfl
theorem bound_one : grid8.bound 1 = 16 := rfl
/-- The worker's number: twice the vector subcore's plus the SparseCore's. -/
abbrev wid (L : grid8.Coords) : Fin 32 := wOf (Fin.cast bound_zero (L 0)) (Fin.cast bound_one (L 1))
/-- The first row of the worker's block. -/
abbrev base (L : grid8.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid8.Coords) (c : Fin 25) : Rect S320000x128 :=
  Rect.unit (s := S320000x128) (k8_off2 L (BitVec.ofNat 32 (400 * c.val))) S400x128.size (k8_off2_inb L c)
abbrev chunkSet (L : grid8.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k8_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid8.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid8.Coords)

abbrev cV (L : grid8.Coords) : Fin τ.nSC := (L 0).castLE hcore8
abbrev jV (L : grid8.Coords) : Fin τ.nSub := (L 1).castLE hsub8

abbrev irowK (L : grid8.Coords) : Rect S320000 := Rect.unit (s := S320000) (k8_off1 L) S10000.size (k8_off1_inb L)
/-- The worker's block of the index array, as the task addresses it. -/
abbrev iRowK (L : grid8.Coords) : Memref sig .scVector .hbm S10000 .i32 := (iV).slice (irowK L) (fun _ => rfl)
/-- A block of 400 rows of the output at a row offset given by a word, as the task addresses it. -/
abbrev oChunkM (L : grid8.Coords) (n : BitVec 32) (h : ∀ a, (k8_off2 L n) a + S400x128.size a ≤ S320000x128.size a) : Memref sig .scVector .hbm S400x128 .f32 :=
  (oV).slice (Rect.unit (s := S320000x128) (k8_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k8_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k8_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k8_off2 L n) a + S400x128.size a ≤ S320000x128.size a) (f : Buf (Elt F) (oLoc4 d)) :
    ((oChunkM L n h).view.loc (V d (cV L) (jV L)) ↦[(oChunkM L n h).view.set]{fullShare} f : sProp 𝕄)
      = (oLoc4 d ↦[chunkSet L c]{fullShare} f) := by
  rw [set_oChunkM L c n hn h]
theorem pts_xV (q : PosShare TreeShare) (f : Buf (Elt F) (xLoc4 d)) :
    ((xV).view.loc (V d (cV L) (jV L)) ↦{q} f : sProp 𝕄) = xLoc4 d ↦{q} f := rfl
theorem pts_sV (f : Buf (Elt F) ((V d (cV L) (jV L)).loc cc8_scratch0)) :
    ((sV).view.loc (V d (cV L) (jV L)) ↦{fullShare} f : sProp 𝕄) = (V d (cV L) (jV L)).loc cc8_scratch0 ↦{fullShare} f := rfl
theorem pts_aV (f : Buf (Elt F) ((V d (cV L) (jV L)).loc cc8_scratch1)) :
    ((aV).view.loc (V d (cV L) (jV L)) ↦{fullShare} f : sProp 𝕄) = (V d (cV L) (jV L)).loc cc8_scratch1 ↦{fullShare} f := rfl
theorem pts_bV (f : Buf (Elt F) ((V d (cV L) (jV L)).loc cc8_scratch2)) :
    ((bV).view.loc (V d (cV L) (jV L)) ↦{fullShare} f : sProp 𝕄) = (V d (cV L) (jV L)).loc cc8_scratch2 ↦{fullShare} f := rfl

/-- The rows from chunk `k` on are chunk `k` and the rows from chunk `k + 1` on. -/
theorem pts_tl_split (k : ℕ) (hk : k < 25) (f : Buf (Elt F) (oLoc4 d)) :
    (oLoc4 d ↦[tlSet L k (by omega)]{fullShare} f : sProp 𝕄)
      = iprop((oLoc4 d ↦[chunkSet L ⟨k, hk⟩]{fullShare} f) ∗ oLoc4 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc4 d)) :
    (oLoc4 d ↦[oRowSet (wid L)]{fullShare} f : sProp 𝕄) = oLoc4 d ↦[tlSet L 0 (by omega)]{fullShare} f := by
  rw [tl_zero]

theorem pts_tl_24 (f : Buf (Elt F) (oLoc4 d)) :
    (oLoc4 d ↦[tlSet L 24 (by omega)]{fullShare} f : sProp 𝕄) = oLoc4 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k8_off2 L n) a + S400x128.size a ≤ S320000x128.size a)
    (g : Buf (Elt F) (oLoc4 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc4 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k8_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k8_off1 L) 0 + 1 * (off 0 + 1 * ((S400.rowMajor.symm ((j gathers_S10000x128_S400x128.axis').cast hn'.symm)) 0).val)
      = (k8_off2 L (BitVec.ofNat 32 (400 * c.val))) 0 + 1 * (j 0).val
    rw [hz, k8_off1_eq L, k8_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k8_off2 L (BitVec.ofNat 32 (400 * c.val))) 1 + 1 * (j 1).val
    rw [k8_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc4 d)) (g : Buf (Elt F) (oLoc4 d)) (c : Fin 25)
    (n : BitVec 32) (hn : n = BitVec.ofNat 32 (400 * c.val)) (h : ∀ a, (k8_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc8_scratch3.sem)
abbrev cellG1 (d : Dev nD) (c : Fin τ.nSC) (i : Fin τ.nSub) : GSem nD τ sig := (V d c i, .dma cc8_scratch4.sem)
abbrev cellS0 (d : Dev nD) (c : Fin τ.nSC) (i : Fin τ.nSub) : GSem nD τ sig := (V d c i, .dma cc8_scratch5.sem)
abbrev cellS1 (d : Dev nD) (c : Fin τ.nSC) (i : Fin τ.nSub) : GSem nD τ sig := (V d c i, .dma cc8_scratch6.sem)
abbrev cellIX (d : Dev nD) (c : Fin τ.nSC) (i : Fin τ.nSub) : GSem nD τ sig := (V d c i, .dma cc8_scoped0.sem)

theorem cell_ne_G1_G0 : (cellG1 d (cV L) (jV L)) ≠ (cellG0 d (cV L) (jV L)) :=
  fun h => absurd (congrArg Prod.snd h) (show (SemLoc.dma cc8_scratch4.sem : SemLoc sig) ≠ SemLoc.dma cc8_scratch3.sem by decide)
theorem cell_ne_S0_G0 : (cellS0 d (cV L) (jV L)) ≠ (cellG0 d (cV L) (jV L)) :=
  fun h => absurd (congrArg Prod.snd h) (show (SemLoc.dma cc8_scratch5.sem : SemLoc sig) ≠ SemLoc.dma cc8_scratch3.sem by decide)
theorem cell_ne_S0_G1 : (cellS0 d (cV L) (jV L)) ≠ (cellG1 d (cV L) (jV L)) :=
  fun h => absurd (congrArg Prod.snd h) (show (SemLoc.dma cc8_scratch5.sem : SemLoc sig) ≠ SemLoc.dma cc8_scratch4.sem by decide)
theorem cell_ne_S1_G0 : (cellS1 d (cV L) (jV L)) ≠ (cellG0 d (cV L) (jV L)) :=
  fun h => absurd (congrArg Prod.snd h) (show (SemLoc.dma cc8_scratch6.sem : SemLoc sig) ≠ SemLoc.dma cc8_scratch3.sem by decide)
theorem cell_ne_S1_G1 : (cellS1 d (cV L) (jV L)) ≠ (cellG1 d (cV L) (jV L)) :=
  fun h => absurd (congrArg Prod.snd h) (show (SemLoc.dma cc8_scratch6.sem : SemLoc sig) ≠ SemLoc.dma cc8_scratch4.sem by decide)
theorem cell_ne_S1_S0 : (cellS1 d (cV L) (jV L)) ≠ (cellS0 d (cV L) (jV L)) :=
  fun h => absurd (congrArg Prod.snd h) (show (SemLoc.dma cc8_scratch6.sem : SemLoc sig) ≠ SemLoc.dma cc8_scratch5.sem by decide)
theorem cell_ne_IX_G0 : (cellIX d (cV L) (jV L)) ≠ (cellG0 d (cV L) (jV L)) :=
  fun h => absurd (congrArg Prod.snd h) (show (SemLoc.dma cc8_scoped0.sem : SemLoc sig) ≠ SemLoc.dma cc8_scratch3.sem by decide)
theorem cell_ne_IX_G1 : (cellIX d (cV L) (jV L)) ≠ (cellG1 d (cV L) (jV L)) :=
  fun h => absurd (congrArg Prod.snd h) (show (SemLoc.dma cc8_scoped0.sem : SemLoc sig) ≠ SemLoc.dma cc8_scratch4.sem by decide)
theorem cell_ne_IX_S0 : (cellIX d (cV L) (jV L)) ≠ (cellS0 d (cV L) (jV L)) :=
  fun h => absurd (congrArg Prod.snd h) (show (SemLoc.dma cc8_scoped0.sem : SemLoc sig) ≠ SemLoc.dma cc8_scratch5.sem by decide)
theorem cell_ne_IX_S1 : (cellIX d (cV L) (jV L)) ≠ (cellS1 d (cV L) (jV L)) :=
  fun h => absurd (congrArg Prod.snd h) (show (SemLoc.dma cc8_scoped0.sem : SemLoc sig) ≠ SemLoc.dma cc8_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc8_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc8_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc8_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc8_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc8_scoped0.sem : SemLoc sig).isScoped .scVector = true; decide⟩⟩⟩⟩⟩)]

theorem ownBufs_V :
    (ownBufs (V d (cV L) (jV L)) : sProp 𝕄)
      = iprop((∃ f, (V d (cV L) (jV L)).loc cc8_scratch0 ↦{fullShare} f) ∗ (∃ f, (V d (cV L) (jV L)).loc cc8_scratch1 ↦{fullShare} f) ∗ (∃ f, (V d (cV L) (jV L)).loc cc8_scratch2 ↦{fullShare} f)
          ∗ bigSep ((((ownRefs (τ := τ) (.scVector (cV L) (jV L))).erase ((Proc.scVector (cV L) (jV L)).devRef cc8_scratch0)).erase ((Proc.scVector (cV L) (jV L)).devRef cc8_scratch1)).erase ((Proc.scVector (cV L) (jV L)).devRef cc8_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc8_scratch0) rfl)).trans ?_
  rw [SparseCore.bigSep_erase' (Finset.mem_erase.mpr ⟨fun e => absurd (Proc.devRef_injective _ e) (show (cc8_scratch1 : Ref sig .scVector) ≠ cc8_scratch0 by decide), SparseCore.Cfg.mem_ownRefs_of_owner (p := (Proc.scVector (cV L) (jV L))) (b := (Proc.scVector (cV L) (jV L)).devRef cc8_scratch1) rfl⟩),
    SparseCore.bigSep_erase' (Finset.mem_erase.mpr ⟨fun e => absurd (Proc.devRef_injective _ e) (show (cc8_scratch2 : Ref sig .scVector) ≠ cc8_scratch1 by decide), Finset.mem_erase.mpr ⟨fun e => absurd (Proc.devRef_injective _ e) (show (cc8_scratch2 : Ref sig .scVector) ≠ cc8_scratch0 by decide), SparseCore.Cfg.mem_ownRefs_of_owner (p := (Proc.scVector (cV L) (jV L))) (b := (Proc.scVector (cV L) (jV L)).devRef cc8_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc4 d)) (OUT₀ : Buf (Elt F) (oLoc4 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc4 d ↦{q} TAB) ∗ (oLoc4 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc8_gather_kernel L xV (Memref.isWhole_whole _) iV (Memref.isWhole_whole _) oV (Memref.isWhole_whole _)
            sV (Memref.isWhole_whole _) aV (Memref.isWhole_whole _) bV (Memref.isWhole_whole _)
            cc8_scratch3 cc8_scratch4 cc8_scratch5 cc8_scratch6 cc8_scoped0)
          fun _ => iprop(((iLoc d ↦[iRowSet (wid L)]{fullShare} IDX : sProp 𝕄) ∗ (xLoc4 d ↦{q} TAB)
              ∗ ∃ OUT, ⌜GatherSpec (wid L) IDX TAB OUT⌝ ∗ (oLoc4 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc8_gather_kernel_eq_skeleton]; unfold cc8_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k8_off2_inb L 0) _).symm) $$ Ho0
  ihave Ho1' := (Entails.of_eq (pts_oChunk (F := F) d L 1 400#32 rfl (k8_off2_inb L 1) _).symm) $$ Ho1
  ihave Ho2' := (Entails.of_eq (pts_oChunk (F := F) d L 2 800#32 rfl (k8_off2_inb L 2) _).symm) $$ Ho2
  ihave Ho3' := (Entails.of_eq (pts_oChunk (F := F) d L 3 1200#32 rfl (k8_off2_inb L 3) _).symm) $$ Ho3
  ihave Ho4' := (Entails.of_eq (pts_oChunk (F := F) d L 4 1600#32 rfl (k8_off2_inb L 4) _).symm) $$ Ho4
  ihave Ho5' := (Entails.of_eq (pts_oChunk (F := F) d L 5 2000#32 rfl (k8_off2_inb L 5) _).symm) $$ Ho5
  ihave Ho6' := (Entails.of_eq (pts_oChunk (F := F) d L 6 2400#32 rfl (k8_off2_inb L 6) _).symm) $$ Ho6
  ihave Ho7' := (Entails.of_eq (pts_oChunk (F := F) d L 7 2800#32 rfl (k8_off2_inb L 7) _).symm) $$ Ho7
  ihave Ho8' := (Entails.of_eq (pts_oChunk (F := F) d L 8 3200#32 rfl (k8_off2_inb L 8) _).symm) $$ Ho8
  ihave Ho9' := (Entails.of_eq (pts_oChunk (F := F) d L 9 3600#32 rfl (k8_off2_inb L 9) _).symm) $$ Ho9
  ihave Ho10' := (Entails.of_eq (pts_oChunk (F := F) d L 10 4000#32 rfl (k8_off2_inb L 10) _).symm) $$ Ho10
  ihave Ho11' := (Entails.of_eq (pts_oChunk (F := F) d L 11 4400#32 rfl (k8_off2_inb L 11) _).symm) $$ Ho11
  ihave Ho12' := (Entails.of_eq (pts_oChunk (F := F) d L 12 4800#32 rfl (k8_off2_inb L 12) _).symm) $$ Ho12
  ihave Ho13' := (Entails.of_eq (pts_oChunk (F := F) d L 13 5200#32 rfl (k8_off2_inb L 13) _).symm) $$ Ho13
  ihave Ho14' := (Entails.of_eq (pts_oChunk (F := F) d L 14 5600#32 rfl (k8_off2_inb L 14) _).symm) $$ Ho14
  ihave Ho15' := (Entails.of_eq (pts_oChunk (F := F) d L 15 6000#32 rfl (k8_off2_inb L 15) _).symm) $$ Ho15
  ihave Ho16' := (Entails.of_eq (pts_oChunk (F := F) d L 16 6400#32 rfl (k8_off2_inb L 16) _).symm) $$ Ho16
  ihave Ho17' := (Entails.of_eq (pts_oChunk (F := F) d L 17 6800#32 rfl (k8_off2_inb L 17) _).symm) $$ Ho17
  ihave Ho18' := (Entails.of_eq (pts_oChunk (F := F) d L 18 7200#32 rfl (k8_off2_inb L 18) _).symm) $$ Ho18
  ihave Ho19' := (Entails.of_eq (pts_oChunk (F := F) d L 19 7600#32 rfl (k8_off2_inb L 19) _).symm) $$ Ho19
  ihave Ho20' := (Entails.of_eq (pts_oChunk (F := F) d L 20 8000#32 rfl (k8_off2_inb L 20) _).symm) $$ Ho20
  ihave Ho21' := (Entails.of_eq (pts_oChunk (F := F) d L 21 8400#32 rfl (k8_off2_inb L 21) _).symm) $$ Ho21
  ihave Ho22' := (Entails.of_eq (pts_oChunk (F := F) d L 22 8800#32 rfl (k8_off2_inb L 22) _).symm) $$ Ho22
  ihave Ho23' := (Entails.of_eq (pts_oChunk (F := F) d L 23 9200#32 rfl (k8_off2_inb L 23) _).symm) $$ Ho23
  ihave Ho24' := (Entails.of_eq (pts_oChunk (F := F) d L 24 9600#32 rfl (k8_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k8_off2_inb L 0) (tile_body.sl.dma0_1 d L IDX TAB fs fa hin)
    (fun j => (read_writes_whole _ _ _ _ j).trans (gather_val (F := F) d L IDX TAB hidx fs 0 ![0] rfl _ 0#32 rfl (k8_off2_inb L 0) _ _ j))
  ihave Hg0 := (Entails.of_eq ((pts_oChunk (F := F) d L 0 0#32 rfl (k8_off2_inb L 0) _).trans (pointsTo_congr hv0))) $$ Ho0'
  have hv1 := chunk_val (F := F) d L IDX TAB OUT₀ 1 400#32 rfl (k8_off2_inb L 1) (tile_body.sl.dma0_2 d L IDX TAB fs fb hin)
    (fun j => (read_writes_whole _ _ _ _ j).trans (gather_val (F := F) d L IDX TAB hidx fs 1 ![400] rfl _ 400#32 rfl (k8_off2_inb L 1) _ _ j))
  ihave Hg1 := (Entails.of_eq ((pts_oChunk (F := F) d L 1 400#32 rfl (k8_off2_inb L 1) _).trans (pointsTo_congr hv1))) $$ Ho1'
  have hv2 := chunk_val (F := F) d L IDX TAB OUT₀ 2 800#32 rfl (k8_off2_inb L 2) (tile_body.sl.dma0_3 d L IDX TAB fs fa hin)
    (fun j => (read_writes_whole _ _ _ _ j).trans (gather_val (F := F) d L IDX TAB hidx fs 2 ![800] rfl _ 800#32 rfl (k8_off2_inb L 2) _ _ j))
  ihave Hg2 := (Entails.of_eq ((pts_oChunk (F := F) d L 2 800#32 rfl (k8_off2_inb L 2) _).trans (pointsTo_congr hv2))) $$ Ho2'
  have hv3 := chunk_val (F := F) d L IDX TAB OUT₀ 3 1200#32 rfl (k8_off2_inb L 3) (tile_body.sl.dma0_4 d L IDX TAB fs fb hin)
    (fun j => (read_writes_whole _ _ _ _ j).trans (gather_val (F := F) d L IDX TAB hidx fs 3 ![1200] rfl _ 1200#32 rfl (k8_off2_inb L 3) _ _ j))
  ihave Hg3 := (Entails.of_eq ((pts_oChunk (F := F) d L 3 1200#32 rfl (k8_off2_inb L 3) _).trans (pointsTo_congr hv3))) $$ Ho3'
  have hv4 := chunk_val (F := F) d L IDX TAB OUT₀ 4 1600#32 rfl (k8_off2_inb L 4) (tile_body.sl.dma0_5 d L IDX TAB fs fa hin)
    (fun j => (read_writes_whole _ _ _ _ j).trans (gather_val (F := F) d L IDX TAB hidx fs 4 ![1600] rfl _ 1600#32 rfl (k8_off2_inb L 4) _ _ j))
  ihave Hg4 := (Entails.of_eq ((pts_oChunk (F := F) d L 4 1600#32 rfl (k8_off2_inb L 4) _).trans (pointsTo_congr hv4))) $$ Ho4'
  have hv5 := chunk_val (F := F) d L IDX TAB OUT₀ 5 2000#32 rfl (k8_off2_inb L 5) (tile_body.sl.dma0_6 d L IDX TAB fs fb hin)
    (fun j => (read_writes_whole _ _ _ _ j).trans (gather_val (F := F) d L IDX TAB hidx fs 5 ![2000] rfl _ 2000#32 rfl (k8_off2_inb L 5) _ _ j))
  ihave Hg5 := (Entails.of_eq ((pts_oChunk (F := F) d L 5 2000#32 rfl (k8_off2_inb L 5) _).trans (pointsTo_congr hv5))) $$ Ho5'
  have hv6 := chunk_val (F := F) d L IDX TAB OUT₀ 6 2400#32 rfl (k8_off2_inb L 6) (tile_body.sl.dma0_7 d L IDX TAB fs fa hin)
    (fun j => (read_writes_whole _ _ _ _ j).trans (gather_val (F := F) d L IDX TAB hidx fs 6 ![2400] rfl _ 2400#32 rfl (k8_off2_inb L 6) _ _ j))
  ihave Hg6 := (Entails.of_eq ((pts_oChunk (F := F) d L 6 2400#32 rfl (k8_off2_inb L 6) _).trans (pointsTo_congr hv6))) $$ Ho6'
  have hv7 := chunk_val (F := F) d L IDX TAB OUT₀ 7 2800#32 rfl (k8_off2_inb L 7) (tile_body.sl.dma0_8 d L IDX TAB fs fb hin)
    (fun j => (read_writes_whole _ _ _ _ j).trans (gather_val (F := F) d L IDX TAB hidx fs 7 ![2800] rfl _ 2800#32 rfl (k8_off2_inb L 7) _ _ j))
  ihave Hg7 := (Entails.of_eq ((pts_oChunk (F := F) d L 7 2800#32 rfl (k8_off2_inb L 7) _).trans (pointsTo_congr hv7))) $$ Ho7'
  have hv8 := chunk_val (F := F) d L IDX TAB OUT₀ 8 3200#32 rfl (k8_off2_inb L 8) (tile_body.sl.dma0_9 d L IDX TAB fs fa hin)
    (fun j => (read_writes_whole _ _ _ _ j).trans (gather_val (F := F) d L IDX TAB hidx fs 8 ![3200] rfl _ 3200#32 rfl (k8_off2_inb L 8) _ _ j))
  ihave Hg8 := (Entails.of_eq ((pts_oChunk (F := F) d L 8 3200#32 rfl (k8_off2_inb L 8) _).trans (pointsTo_congr hv8))) $$ Ho8'
  have hv9 := chunk_val (F := F) d L IDX TAB OUT₀ 9 3600#32 rfl (k8_off2_inb L 9) (tile_body.sl.dma0_10 d L IDX TAB fs fb hin)
    (fun j => (read_writes_whole _ _ _ _ j).trans (gather_val (F := F) d L IDX TAB hidx fs 9 ![3600] rfl _ 3600#32 rfl (k8_off2_inb L 9) _ _ j))
  ihave Hg9 := (Entails.of_eq ((pts_oChunk (F := F) d L 9 3600#32 rfl (k8_off2_inb L 9) _).trans (pointsTo_congr hv9))) $$ Ho9'
  have hv10 := chunk_val (F := F) d L IDX TAB OUT₀ 10 4000#32 rfl (k8_off2_inb L 10) (tile_body.sl.dma0_11 d L IDX TAB fs fa hin)
    (fun j => (read_writes_whole _ _ _ _ j).trans (gather_val (F := F) d L IDX TAB hidx fs 10 ![4000] rfl _ 4000#32 rfl (k8_off2_inb L 10) _ _ j))
  ihave Hg10 := (Entails.of_eq ((pts_oChunk (F := F) d L 10 4000#32 rfl (k8_off2_inb L 10) _).trans (pointsTo_congr hv10))) $$ Ho10'
  have hv11 := chunk_val (F := F) d L IDX TAB OUT₀ 11 4400#32 rfl (k8_off2_inb L 11) (tile_body.sl.dma0_12 d L IDX TAB fs fb hin)
    (fun j => (read_writes_whole _ _ _ _ j).trans (gather_val (F := F) d L IDX TAB hidx fs 11 ![4400] rfl _ 4400#32 rfl (k8_off2_inb L 11) _ _ j))
  ihave Hg11 := (Entails.of_eq ((pts_oChunk (F := F) d L 11 4400#32 rfl (k8_off2_inb L 11) _).trans (pointsTo_congr hv11))) $$ Ho11'
  have hv12 := chunk_val (F := F) d L IDX TAB OUT₀ 12 4800#32 rfl (k8_off2_inb L 12) (tile_body.sl.dma0_13 d L IDX TAB fs fa hin)
    (fun j => (read_writes_whole _ _ _ _ j).trans (gather_val (F := F) d L IDX TAB hidx fs 12 ![4800] rfl _ 4800#32 rfl (k8_off2_inb L 12) _ _ j))
  ihave Hg12 := (Entails.of_eq ((pts_oChunk (F := F) d L 12 4800#32 rfl (k8_off2_inb L 12) _).trans (pointsTo_congr hv12))) $$ Ho12'
  have hv13 := chunk_val (F := F) d L IDX TAB OUT₀ 13 5200#32 rfl (k8_off2_inb L 13) (tile_body.sl.dma0_14 d L IDX TAB fs fb hin)
    (fun j => (read_writes_whole _ _ _ _ j).trans (gather_val (F := F) d L IDX TAB hidx fs 13 ![5200] rfl _ 5200#32 rfl (k8_off2_inb L 13) _ _ j))
  ihave Hg13 := (Entails.of_eq ((pts_oChunk (F := F) d L 13 5200#32 rfl (k8_off2_inb L 13) _).trans (pointsTo_congr hv13))) $$ Ho13'
  have hv14 := chunk_val (F := F) d L IDX TAB OUT₀ 14 5600#32 rfl (k8_off2_inb L 14) (tile_body.sl.dma0_15 d L IDX TAB fs fa hin)
    (fun j => (read_writes_whole _ _ _ _ j).trans (gather_val (F := F) d L IDX TAB hidx fs 14 ![5600] rfl _ 5600#32 rfl (k8_off2_inb L 14) _ _ j))
  ihave Hg14 := (Entails.of_eq ((pts_oChunk (F := F) d L 14 5600#32 rfl (k8_off2_inb L 14) _).trans (pointsTo_congr hv14))) $$ Ho14'
  have hv15 := chunk_val (F := F) d L IDX TAB OUT₀ 15 6000#32 rfl (k8_off2_inb L 15) (tile_body.sl.dma0_16 d L IDX TAB fs fb hin)
    (fun j => (read_writes_whole _ _ _ _ j).trans (gather_val (F := F) d L IDX TAB hidx fs 15 ![6000] rfl _ 6000#32 rfl (k8_off2_inb L 15) _ _ j))
  ihave Hg15 := (Entails.of_eq ((pts_oChunk (F := F) d L 15 6000#32 rfl (k8_off2_inb L 15) _).trans (pointsTo_congr hv15))) $$ Ho15'
  have hv16 := chunk_val (F := F) d L IDX TAB OUT₀ 16 6400#32 rfl (k8_off2_inb L 16) (tile_body.sl.dma0_17 d L IDX TAB fs fa hin)
    (fun j => (read_writes_whole _ _ _ _ j).trans (gather_val (F := F) d L IDX TAB hidx fs 16 ![6400] rfl _ 6400#32 rfl (k8_off2_inb L 16) _ _ j))
  ihave Hg16 := (Entails.of_eq ((pts_oChunk (F := F) d L 16 6400#32 rfl (k8_off2_inb L 16) _).trans (pointsTo_congr hv16))) $$ Ho16'
  have hv17 := chunk_val (F := F) d L IDX TAB OUT₀ 17 6800#32 rfl (k8_off2_inb L 17) (tile_body.sl.dma0_18 d L IDX TAB fs fb hin)
    (fun j => (read_writes_whole _ _ _ _ j).trans (gather_val (F := F) d L IDX TAB hidx fs 17 ![6800] rfl _ 6800#32 rfl (k8_off2_inb L 17) _ _ j))
  ihave Hg17 := (Entails.of_eq ((pts_oChunk (F := F) d L 17 6800#32 rfl (k8_off2_inb L 17) _).trans (pointsTo_congr hv17))) $$ Ho17'
  have hv18 := chunk_val (F := F) d L IDX TAB OUT₀ 18 7200#32 rfl (k8_off2_inb L 18) (tile_body.sl.dma0_19 d L IDX TAB fs fa hin)
    (fun j => (read_writes_whole _ _ _ _ j).trans (gather_val (F := F) d L IDX TAB hidx fs 18 ![7200] rfl _ 7200#32 rfl (k8_off2_inb L 18) _ _ j))
  ihave Hg18 := (Entails.of_eq ((pts_oChunk (F := F) d L 18 7200#32 rfl (k8_off2_inb L 18) _).trans (pointsTo_congr hv18))) $$ Ho18'
  have hv19 := chunk_val (F := F) d L IDX TAB OUT₀ 19 7600#32 rfl (k8_off2_inb L 19) (tile_body.sl.dma0_20 d L IDX TAB fs fb hin)
    (fun j => (read_writes_whole _ _ _ _ j).trans (gather_val (F := F) d L IDX TAB hidx fs 19 ![7600] rfl _ 7600#32 rfl (k8_off2_inb L 19) _ _ j))
  ihave Hg19 := (Entails.of_eq ((pts_oChunk (F := F) d L 19 7600#32 rfl (k8_off2_inb L 19) _).trans (pointsTo_congr hv19))) $$ Ho19'
  have hv20 := chunk_val (F := F) d L IDX TAB OUT₀ 20 8000#32 rfl (k8_off2_inb L 20) (tile_body.sl.dma0_21 d L IDX TAB fs fa hin)
    (fun j => (read_writes_whole _ _ _ _ j).trans (gather_val (F := F) d L IDX TAB hidx fs 20 ![8000] rfl _ 8000#32 rfl (k8_off2_inb L 20) _ _ j))
  ihave Hg20 := (Entails.of_eq ((pts_oChunk (F := F) d L 20 8000#32 rfl (k8_off2_inb L 20) _).trans (pointsTo_congr hv20))) $$ Ho20'
  have hv21 := chunk_val (F := F) d L IDX TAB OUT₀ 21 8400#32 rfl (k8_off2_inb L 21) (tile_body.sl.dma0_22 d L IDX TAB fs fb hin)
    (fun j => (read_writes_whole _ _ _ _ j).trans (gather_val (F := F) d L IDX TAB hidx fs 21 ![8400] rfl _ 8400#32 rfl (k8_off2_inb L 21) _ _ j))
  ihave Hg21 := (Entails.of_eq ((pts_oChunk (F := F) d L 21 8400#32 rfl (k8_off2_inb L 21) _).trans (pointsTo_congr hv21))) $$ Ho21'
  have hv22 := chunk_val (F := F) d L IDX TAB OUT₀ 22 8800#32 rfl (k8_off2_inb L 22) (tile_body.sl.dma0_23 d L IDX TAB fs fa hin)
    (fun j => (read_writes_whole _ _ _ _ j).trans (gather_val (F := F) d L IDX TAB hidx fs 22 ![8800] rfl _ 8800#32 rfl (k8_off2_inb L 22) _ _ j))
  ihave Hg22 := (Entails.of_eq ((pts_oChunk (F := F) d L 22 8800#32 rfl (k8_off2_inb L 22) _).trans (pointsTo_congr hv22))) $$ Ho22'
  have hv23 := chunk_val (F := F) d L IDX TAB OUT₀ 23 9200#32 rfl (k8_off2_inb L 23) (tile_body.sl.dma0_24 d L IDX TAB fs fb hin)
    (fun j => (read_writes_whole _ _ _ _ j).trans (gather_val (F := F) d L IDX TAB hidx fs 23 ![9200] rfl _ 9200#32 rfl (k8_off2_inb L 23) _ _ j))
  ihave Hg23 := (Entails.of_eq ((pts_oChunk (F := F) d L 23 9200#32 rfl (k8_off2_inb L 23) _).trans (pointsTo_congr hv23))) $$ Ho23'
  have hv24 := chunk_val (F := F) d L IDX TAB OUT₀ 24 9600#32 rfl (k8_off2_inb L 24) (tile_body.sl.dma0_25 d L IDX TAB fs fa hin)
    (fun j => (read_writes_whole _ _ _ _ j).trans (gather_val (F := F) d L IDX TAB hidx fs 24 ![9600] rfl _ 9600#32 rfl (k8_off2_inb L 24) _ _ j))
  ihave Hg24 := (Entails.of_eq ((pts_oChunk (F := F) d L 24 9600#32 rfl (k8_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody8

end
-- ==== Proof.GatherBody10.lean ====
/-
  One vector subcore's task of gather call 5 (the program's custom call 10): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBase
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.KernelIdeal
import proofs.«205547_g25623774888366_cont_9to1_713_27_alg».proof.Proof.Gen.KernelIdeal.Skeleton

noncomputable section

namespace Cert.Proof.GatherBody10

open Cert.KernelIdeal Cert.KernelIdeal.Gen
open Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.KernelIdeal.main_v74_scv : Memref Cert.KernelIdeal.sig Kind.scVector Space.hbm Cert.KernelIdeal.S10000x128 EltTy.f32)
local notation "iV" => (Memref.whole Cert.KernelIdeal.main_v4_scv : Memref Cert.KernelIdeal.sig Kind.scVector Space.hbm Cert.KernelIdeal.S320000 EltTy.i32)
local notation "oV" => (Memref.whole Cert.KernelIdeal.main_v75_scv : Memref Cert.KernelIdeal.sig Kind.scVector Space.hbm Cert.KernelIdeal.S320000x128 EltTy.f32)
local notation "sV" => (Memref.whole Cert.KernelIdeal.cc10_scratch0 : Memref Cert.KernelIdeal.sig Kind.scVector Space.vmem Cert.KernelIdeal.S10000 EltTy.i32)
local notation "aV" => (Memref.whole Cert.KernelIdeal.cc10_scratch1 : Memref Cert.KernelIdeal.sig Kind.scVector Space.vmem Cert.KernelIdeal.S400x128 EltTy.f32)
local notation "bV" => (Memref.whole Cert.KernelIdeal.cc10_scratch2 : Memref Cert.KernelIdeal.sig Kind.scVector Space.vmem Cert.KernelIdeal.S400x128 EltTy.f32)

section Sets

variable (L : grid10.Coords)

theorem bound_zero : grid10.bound 0 = 2 := rfl
theorem bound_one : grid10.bound 1 = 16 := rfl
/-- The worker's number: twice the vector subcore's plus the SparseCore's. -/
abbrev wid (L : grid10.Coords) : Fin 32 := wOf (Fin.cast bound_zero (L 0)) (Fin.cast bound_one (L 1))
/-- The first row of the worker's block. -/
abbrev base (L : grid10.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid10.Coords) (c : Fin 25) : Rect S320000x128 :=
  Rect.unit (s := S320000x128) (k10_off2 L (BitVec.ofNat 32 (400 * c.val))) S400x128.size (k10_off2_inb L c)
abbrev chunkSet (L : grid10.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k10_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid10.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid10.Coords)

abbrev cV (L : grid10.Coords) : Fin τ.nSC := (L 0).castLE hcore10
abbrev jV (L : grid10.Coords) : Fin τ.nSub := (L 1).castLE hsub10

abbrev irowK (L : grid10.Coords) : Rect S320000 := Rect.unit (s := S320000) (k10_off1 L) S10000.size (k10_off1_inb L)
/-- The worker's block of the index array, as the task addresses it. -/
abbrev iRowK (L : grid10.Coords) : Memref sig .scVector .hbm S10000 .i32 := (iV).slice (irowK L) (fun _ => rfl)
/-- A block of 400 rows of the output at a row offset given by a word, as the task addresses it. -/
abbrev oChunkM (L : grid10.Coords) (n : BitVec 32) (h : ∀ a, (k10_off2 L n) a + S400x128.size a ≤ S320000x128.size a) : Memref sig .scVector .hbm S400x128 .f32 :=
  (oV).slice (Rect.unit (s := S320000x128) (k10_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k10_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k10_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k10_off2 L n) a + S400x128.size a ≤ S320000x128.size a) (f : Buf (Elt F) (oLoc5 d)) :
    ((oChunkM L n h).view.loc (V d (cV L) (jV L)) ↦[(oChunkM L n h).view.set]{fullShare} f : sProp 𝕄)
      = (oLoc5 d ↦[chunkSet L c]{fullShare} f) := by
  rw [set_oChunkM L c n hn h]
theorem pts_xV (q : PosShare TreeShare) (f : Buf (Elt F) (xLoc5 d)) :
    ((xV).view.loc (V d (cV L) (jV L)) ↦{q} f : sProp 𝕄) = xLoc5 d ↦{q} f := rfl
theorem pts_sV (f : Buf (Elt F) ((V d (cV L) (jV L)).loc cc10_scratch0)) :
    ((sV).view.loc (V d (cV L) (jV L)) ↦{fullShare} f : sProp 𝕄) = (V d (cV L) (jV L)).loc cc10_scratch0 ↦{fullShare} f := rfl
theorem pts_aV (f : Buf (Elt F) ((V d (cV L) (jV L)).loc cc10_scratch1)) :
    ((aV).view.loc (V d (cV L) (jV L)) ↦{fullShare} f : sProp 𝕄) = (V d (cV L) (jV L)).loc cc10_scratch1 ↦{fullShare} f := rfl
theorem pts_bV (f : Buf (Elt F) ((V d (cV L) (jV L)).loc cc10_scratch2)) :
    ((bV).view.loc (V d (cV L) (jV L)) ↦{fullShare} f : sProp 𝕄) = (V d (cV L) (jV L)).loc cc10_scratch2 ↦{fullShare} f := rfl

/-- The rows from chunk `k` on are chunk `k` and the rows from chunk `k + 1` on. -/
theorem pts_tl_split (k : ℕ) (hk : k < 25) (f : Buf (Elt F) (oLoc5 d)) :
    (oLoc5 d ↦[tlSet L k (by omega)]{fullShare} f : sProp 𝕄)
      = iprop((oLoc5 d ↦[chunkSet L ⟨k, hk⟩]{fullShare} f) ∗ oLoc5 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc5 d)) :
    (oLoc5 d ↦[oRowSet (wid L)]{fullShare} f : sProp 𝕄) = oLoc5 d ↦[tlSet L 0 (by omega)]{fullShare} f := by
  rw [tl_zero]

theorem pts_tl_24 (f : Buf (Elt F) (oLoc5 d)) :
    (oLoc5 d ↦[tlSet L 24 (by omega)]{fullShare} f : sProp 𝕄) = oLoc5 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k10_off2 L n) a + S400x128.size a ≤ S320000x128.size a)
    (g : Buf (Elt F) (oLoc5 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc5 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k10_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k10_off1 L) 0 + 1 * (off 0 + 1 * ((S400.rowMajor.symm ((j gathers_S10000x128_S400x128.axis').cast hn'.symm)) 0).val)
      = (k10_off2 L (BitVec.ofNat 32 (400 * c.val))) 0 + 1 * (j 0).val
    rw [hz, k10_off1_eq L, k10_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k10_off2 L (BitVec.ofNat 32 (400 * c.val))) 1 + 1 * (j 1).val
    rw [k10_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc5 d)) (g : Buf (Elt F) (oLoc5 d)) (c : Fin 25)
    (n : BitVec 32) (hn : n = BitVec.ofNat 32 (400 * c.val)) (h : ∀ a, (k10_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc10_scratch3.sem)
abbrev cellG1 (d : Dev nD) (c : Fin τ.nSC) (i : Fin τ.nSub) : GSem nD τ sig := (V d c i, .dma cc10_scratch4.sem)
abbrev cellS0 (d : Dev nD) (c : Fin τ.nSC) (i : Fin τ.nSub) : GSem nD τ sig := (V d c i, .dma cc10_scratch5.sem)
abbrev cellS1 (d : Dev nD) (c : Fin τ.nSC) (i : Fin τ.nSub) : GSem nD τ sig := (V d c i, .dma cc10_scratch6.sem)
abbrev cellIX (d : Dev nD) (c : Fin τ.nSC) (i : Fin τ.nSub) : GSem nD τ sig := (V d c i, .dma cc10_scoped0.sem)

theorem cell_ne_G1_G0 : (cellG1 d (cV L) (jV L)) ≠ (cellG0 d (cV L) (jV L)) :=
  fun h => absurd (congrArg Prod.snd h) (show (SemLoc.dma cc10_scratch4.sem : SemLoc sig) ≠ SemLoc.dma cc10_scratch3.sem by decide)
theorem cell_ne_S0_G0 : (cellS0 d (cV L) (jV L)) ≠ (cellG0 d (cV L) (jV L)) :=
  fun h => absurd (congrArg Prod.snd h) (show (SemLoc.dma cc10_scratch5.sem : SemLoc sig) ≠ SemLoc.dma cc10_scratch3.sem by decide)
theorem cell_ne_S0_G1 : (cellS0 d (cV L) (jV L)) ≠ (cellG1 d (cV L) (jV L)) :=
  fun h => absurd (congrArg Prod.snd h) (show (SemLoc.dma cc10_scratch5.sem : SemLoc sig) ≠ SemLoc.dma cc10_scratch4.sem by decide)
theorem cell_ne_S1_G0 : (cellS1 d (cV L) (jV L)) ≠ (cellG0 d (cV L) (jV L)) :=
  fun h => absurd (congrArg Prod.snd h) (show (SemLoc.dma cc10_scratch6.sem : SemLoc sig) ≠ SemLoc.dma cc10_scratch3.sem by decide)
theorem cell_ne_S1_G1 : (cellS1 d (cV L) (jV L)) ≠ (cellG1 d (cV L) (jV L)) :=
  fun h => absurd (congrArg Prod.snd h) (show (SemLoc.dma cc10_scratch6.sem : SemLoc sig) ≠ SemLoc.dma cc10_scratch4.sem by decide)
theorem cell_ne_S1_S0 : (cellS1 d (cV L) (jV L)) ≠ (cellS0 d (cV L) (jV L)) :=
  fun h => absurd (congrArg Prod.snd h) (show (SemLoc.dma cc10_scratch6.sem : SemLoc sig) ≠ SemLoc.dma cc10_scratch5.sem by decide)
theorem cell_ne_IX_G0 : (cellIX d (cV L) (jV L)) ≠ (cellG0 d (cV L) (jV L)) :=
  fun h => absurd (congrArg Prod.snd h) (show (SemLoc.dma cc10_scoped0.sem : SemLoc sig) ≠ SemLoc.dma cc10_scratch3.sem by decide)
theorem cell_ne_IX_G1 : (cellIX d (cV L) (jV L)) ≠ (cellG1 d (cV L) (jV L)) :=
  fun h => absurd (congrArg Prod.snd h) (show (SemLoc.dma cc10_scoped0.sem : SemLoc sig) ≠ SemLoc.dma cc10_scratch4.sem by decide)
theorem cell_ne_IX_S0 : (cellIX d (cV L) (jV L)) ≠ (cellS0 d (cV L) (jV L)) :=
  fun h => absurd (congrArg Prod.snd h) (show (SemLoc.dma cc10_scoped0.sem : SemLoc sig) ≠ SemLoc.dma cc10_scratch5.sem by decide)
theorem cell_ne_IX_S1 : (cellIX d (cV L) (jV L)) ≠ (cellS1 d (cV L) (jV L)) :=
  fun h => absurd (congrArg Prod.snd h) (show (SemLoc.dma cc10_scoped0.sem : SemLoc sig) ≠ SemLoc.dma cc10_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc10_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc10_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc10_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc10_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc10_scoped0.sem : SemLoc sig).isScoped .scVector = true; decide⟩⟩⟩⟩⟩)]

theorem ownBufs_V :
    (ownBufs (V d (cV L) (jV L)) : sProp 𝕄)
      = iprop((∃ f, (V d (cV L) (jV L)).loc cc10_scratch0 ↦{fullShare} f) ∗ (∃ f, (V d (cV L) (jV L)).loc cc10_scratch1 ↦{fullShare} f) ∗ (∃ f, (V d (cV L) (jV L)).loc cc10_scratch2 ↦{fullShare} f)
          ∗ bigSep ((((ownRefs (τ := τ) (.scVector (cV L) (jV L))).erase ((Proc.scVector (cV L) (jV L)).devRef cc10_scratch0)).erase ((Proc.scVector (cV L) (jV L)).devRef cc10_scratch1)).erase ((Proc.scVector (cV L) (jV L)).devRef cc10_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc10_scratch0) rfl)).trans ?_
  rw [SparseCore.bigSep_erase' (Finset.mem_erase.mpr ⟨fun e => absurd (Proc.devRef_injective _ e) (show (cc10_scratch1 : Ref sig .scVector) ≠ cc10_scratch0 by decide), SparseCore.Cfg.mem_ownRefs_of_owner (p := (Proc.scVector (cV L) (jV L))) (b := (Proc.scVector (cV L) (jV L)).devRef cc10_scratch1) rfl⟩),
    SparseCore.bigSep_erase' (Finset.mem_erase.mpr ⟨fun e => absurd (Proc.devRef_injective _ e) (show (cc10_scratch2 : Ref sig .scVector) ≠ cc10_scratch1 by decide), Finset.mem_erase.mpr ⟨fun e => absurd (Proc.devRef_injective _ e) (show (cc10_scratch2 : Ref sig .scVector) ≠ cc10_scratch0 by decide), SparseCore.Cfg.mem_ownRefs_of_owner (p := (Proc.scVector (cV L) (jV L))) (b := (Proc.scVector (cV L) (jV L)).devRef cc10_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc5 d)) (OUT₀ : Buf (Elt F) (oLoc5 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc5 d ↦{q} TAB) ∗ (oLoc5 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc10_gather_kernel L xV (Memref.isWhole_whole _) iV (Memref.isWhole_whole _) oV (Memref.isWhole_whole _)
            sV (Memref.isWhole_whole _) aV (Memref.isWhole_whole _) bV (Memref.isWhole_whole _)
            cc10_scratch3 cc10_scratch4 cc10_scratch5 cc10_scratch6 cc10_scoped0)
          fun _ => iprop(((iLoc d ↦[iRowSet (wid L)]{fullShare} IDX : sProp 𝕄) ∗ (xLoc5 d ↦{q} TAB)
              ∗ ∃ OUT, ⌜GatherSpec (wid L) IDX TAB OUT⌝ ∗ (oLoc5 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc10_gather_kernel_eq_skeleton]; unfold cc10_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k10_off2_inb L 0) _).symm) $$ Ho0
  ihave Ho1' := (Entails.of_eq (pts_oChunk (F := F) d L 1 400#32 rfl (k10_off2_inb L 1) _).symm) $$ Ho1
  ihave Ho2' := (Entails.of_eq (pts_oChunk (F := F) d L 2 800#32 rfl (k10_off2_inb L 2) _).symm) $$ Ho2
  ihave Ho3' := (Entails.of_eq (pts_oChunk (F := F) d L 3 1200#32 rfl (k10_off2_inb L 3) _).symm) $$ Ho3
  ihave Ho4' := (Entails.of_eq (pts_oChunk (F := F) d L 4 1600#32 rfl (k10_off2_inb L 4) _).symm) $$ Ho4
  ihave Ho5' := (Entails.of_eq (pts_oChunk (F := F) d L 5 2000#32 rfl (k10_off2_inb L 5) _).symm) $$ Ho5
  ihave Ho6' := (Entails.of_eq (pts_oChunk (F := F) d L 6 2400#32 rfl (k10_off2_inb L 6) _).symm) $$ Ho6
  ihave Ho7' := (Entails.of_eq (pts_oChunk (F := F) d L 7 2800#32 rfl (k10_off2_inb L 7) _).symm) $$ Ho7
  ihave Ho8' := (Entails.of_eq (pts_oChunk (F := F) d L 8 3200#32 rfl (k10_off2_inb L 8) _).symm) $$ Ho8
  ihave Ho9' := (Entails.of_eq (pts_oChunk (F := F) d L 9 3600#32 rfl (k10_off2_inb L 9) _).symm) $$ Ho9
  ihave Ho10' := (Entails.of_eq (pts_oChunk (F := F) d L 10 4000#32 rfl (k10_off2_inb L 10) _).symm) $$ Ho10
  ihave Ho11' := (Entails.of_eq (pts_oChunk (F := F) d L 11 4400#32 rfl (k10_off2_inb L 11) _).symm) $$ Ho11
  ihave Ho12' := (Entails.of_eq (pts_oChunk (F := F) d L 12 4800#32 rfl (k10_off2_inb L 12) _).symm) $$ Ho12
  ihave Ho13' := (Entails.of_eq (pts_oChunk (F := F) d L 13 5200#32 rfl (k10_off2_inb L 13) _).symm) $$ Ho13
  ihave Ho14' := (Entails.of_eq (pts_oChunk (F := F) d L 14 5600#32 rfl (k10_off2_inb L 14) _).symm) $$ Ho14
  ihave Ho15' := (Entails.of_eq (pts_oChunk (F := F) d L 15 6000#32 rfl (k10_off2_inb L 15) _).symm) $$ Ho15
  ihave Ho16' := (Entails.of_eq (pts_oChunk (F := F) d L 16 6400#32 rfl (k10_off2_inb L 16) _).symm) $$ Ho16
  ihave Ho17' := (Entails.of_eq (pts_oChunk (F := F) d L 17 6800#32 rfl (k10_off2_inb L 17) _).symm) $$ Ho17
  ihave Ho18' := (Entails.of_eq (pts_oChunk (F := F) d L 18 7200#32 rfl (k10_off2_inb L 18) _).symm) $$ Ho18
  ihave Ho19' := (Entails.of_eq (pts_oChunk (F := F) d L 19 7600#32 rfl (k10_off2_inb L 19) _).symm) $$ Ho19
  ihave Ho20' := (Entails.of_eq (pts_oChunk (F := F) d L 20 8000#32 rfl (k10_off2_inb L 20) _).symm) $$ Ho20
  ihave Ho21' := (Entails.of_eq (pts_oChunk (F := F) d L 21 8400#32 rfl (k10_off2_inb L 21) _).symm) $$ Ho21
  ihave Ho22' := (Entails.of_eq (pts_oChunk (F := F) d L 22 8800#32 rfl (k10_off2_inb L 22) _).symm) $$ Ho22
  ihave Ho23' := (Entails.of_eq (pts_oChunk (F := F) d L 23 9200#32 rfl (k10_off2_inb L 23) _).symm) $$ Ho23
  ihave Ho24' := (Entails.of_eq (pts_oChunk (F := F) d L 24 9600#32 rfl (k10_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k10_off2_inb L 0) (tile_body.sl.dma0_1 d L IDX TAB fs fa hin)
    (fun j => (read_writes_whole _ _ _ _ j).trans (gather_val (F := F) d L IDX TAB hidx fs 0 ![0] rfl _ 0#32 rfl (k10_off2_inb L 0) _ _ j))
  ihave Hg0 := (Entails.of_eq ((pts_oChunk (F := F) d L 0 0#32 rfl (k10_off2_inb L 0) _).trans (pointsTo_congr hv0))) $$ Ho0'
  have hv1 := chunk_val (F := F) d L IDX TAB OUT₀ 1 400#32 rfl (k10_off2_inb L 1) (tile_body.sl.dma0_2 d L IDX TAB fs fb hin)
    (fun j => (read_writes_whole _ _ _ _ j).trans (gather_val (F := F) d L IDX TAB hidx fs 1 ![400] rfl _ 400#32 rfl (k10_off2_inb L 1) _ _ j))
  ihave Hg1 := (Entails.of_eq ((pts_oChunk (F := F) d L 1 400#32 rfl (k10_off2_inb L 1) _).trans (pointsTo_congr hv1))) $$ Ho1'
  have hv2 := chunk_val (F := F) d L IDX TAB OUT₀ 2 800#32 rfl (k10_off2_inb L 2) (tile_body.sl.dma0_3 d L IDX TAB fs fa hin)
    (fun j => (read_writes_whole _ _ _ _ j).trans (gather_val (F := F) d L IDX TAB hidx fs 2 ![800] rfl _ 800#32 rfl (k10_off2_inb L 2) _ _ j))
  ihave Hg2 := (Entails.of_eq ((pts_oChunk (F := F) d L 2 800#32 rfl (k10_off2_inb L 2) _).trans (pointsTo_congr hv2))) $$ Ho2'
  have hv3 := chunk_val (F := F) d L IDX TAB OUT₀ 3 1200#32 rfl (k10_off2_inb L 3) (tile_body.sl.dma0_4 d L IDX TAB fs fb hin)
    (fun j => (read_writes_whole _ _ _ _ j).trans (gather_val (F := F) d L IDX TAB hidx fs 3 ![1200] rfl _ 1200#32 rfl (k10_off2_inb L 3) _ _ j))
  ihave Hg3 := (Entails.of_eq ((pts_oChunk (F := F) d L 3 1200#32 rfl (k10_off2_inb L 3) _).trans (pointsTo_congr hv3))) $$ Ho3'
  have hv4 := chunk_val (F := F) d L IDX TAB OUT₀ 4 1600#32 rfl (k10_off2_inb L 4) (tile_body.sl.dma0_5 d L IDX TAB fs fa hin)
    (fun j => (read_writes_whole _ _ _ _ j).trans (gather_val (F := F) d L IDX TAB hidx fs 4 ![1600] rfl _ 1600#32 rfl (k10_off2_inb L 4) _ _ j))
  ihave Hg4 := (Entails.of_eq ((pts_oChunk (F := F) d L 4 1600#32 rfl (k10_off2_inb L 4) _).trans (pointsTo_congr hv4))) $$ Ho4'
  have hv5 := chunk_val (F := F) d L IDX TAB OUT₀ 5 2000#32 rfl (k10_off2_inb L 5) (tile_body.sl.dma0_6 d L IDX TAB fs fb hin)
    (fun j => (read_writes_whole _ _ _ _ j).trans (gather_val (F := F) d L IDX TAB hidx fs 5 ![2000] rfl _ 2000#32 rfl (k10_off2_inb L 5) _ _ j))
  ihave Hg5 := (Entails.of_eq ((pts_oChunk (F := F) d L 5 2000#32 rfl (k10_off2_inb L 5) _).trans (pointsTo_congr hv5))) $$ Ho5'
  have hv6 := chunk_val (F := F) d L IDX TAB OUT₀ 6 2400#32 rfl (k10_off2_inb L 6) (tile_body.sl.dma0_7 d L IDX TAB fs fa hin)
    (fun j => (read_writes_whole _ _ _ _ j).trans (gather_val (F := F) d L IDX TAB hidx fs 6 ![2400] rfl _ 2400#32 rfl (k10_off2_inb L 6) _ _ j))
  ihave Hg6 := (Entails.of_eq ((pts_oChunk (F := F) d L 6 2400#32 rfl (k10_off2_inb L 6) _).trans (pointsTo_congr hv6))) $$ Ho6'
  have hv7 := chunk_val (F := F) d L IDX TAB OUT₀ 7 2800#32 rfl (k10_off2_inb L 7) (tile_body.sl.dma0_8 d L IDX TAB fs fb hin)
    (fun j => (read_writes_whole _ _ _ _ j).trans (gather_val (F := F) d L IDX TAB hidx fs 7 ![2800] rfl _ 2800#32 rfl (k10_off2_inb L 7) _ _ j))
  ihave Hg7 := (Entails.of_eq ((pts_oChunk (F := F) d L 7 2800#32 rfl (k10_off2_inb L 7) _).trans (pointsTo_congr hv7))) $$ Ho7'
  have hv8 := chunk_val (F := F) d L IDX TAB OUT₀ 8 3200#32 rfl (k10_off2_inb L 8) (tile_body.sl.dma0_9 d L IDX TAB fs fa hin)
    (fun j => (read_writes_whole _ _ _ _ j).trans (gather_val (F := F) d L IDX TAB hidx fs 8 ![3200] rfl _ 3200#32 rfl (k10_off2_inb L 8) _ _ j))
  ihave Hg8 := (Entails.of_eq ((pts_oChunk (F := F) d L 8 3200#32 rfl (k10_off2_inb L 8) _).trans (pointsTo_congr hv8))) $$ Ho8'
  have hv9 := chunk_val (F := F) d L IDX TAB OUT₀ 9 3600#32 rfl (k10_off2_inb L 9) (tile_body.sl.dma0_10 d L IDX TAB fs fb hin)
    (fun j => (read_writes_whole _ _ _ _ j).trans (gather_val (F := F) d L IDX TAB hidx fs 9 ![3600] rfl _ 3600#32 rfl (k10_off2_inb L 9) _ _ j))
  ihave Hg9 := (Entails.of_eq ((pts_oChunk (F := F) d L 9 3600#32 rfl (k10_off2_inb L 9) _).trans (pointsTo_congr hv9))) $$ Ho9'
  have hv10 := chunk_val (F := F) d L IDX TAB OUT₀ 10 4000#32 rfl (k10_off2_inb L 10) (tile_body.sl.dma0_11 d L IDX TAB fs fa hin)
    (fun j => (read_writes_whole _ _ _ _ j).trans (gather_val (F := F) d L IDX TAB hidx fs 10 ![4000] rfl _ 4000#32 rfl (k10_off2_inb L 10) _ _ j))
  ihave Hg10 := (Entails.of_eq ((pts_oChunk (F := F) d L 10 4000#32 rfl (k10_off2_inb L 10) _).trans (pointsTo_congr hv10))) $$ Ho10'
  have hv11 := chunk_val (F := F) d L IDX TAB OUT₀ 11 4400#32 rfl (k10_off2_inb L 11) (tile_body.sl.dma0_12 d L IDX TAB fs fb hin)
    (fun j => (read_writes_whole _ _ _ _ j).trans (gather_val (F := F) d L IDX TAB hidx fs 11 ![4400] rfl _ 4400#32 rfl (k10_off2_inb L 11) _ _ j))
  ihave Hg11 := (Entails.of_eq ((pts_oChunk (F := F) d L 11 4400#32 rfl (k10_off2_inb L 11) _).trans (pointsTo_congr hv11))) $$ Ho11'
  have hv12 := chunk_val (F := F) d L IDX TAB OUT₀ 12 4800#32 rfl (k10_off2_inb L 12) (tile_body.sl.dma0_13 d L IDX TAB fs fa hin)
    (fun j => (read_writes_whole _ _ _ _ j).trans (gather_val (F := F) d L IDX TAB hidx fs 12 ![4800] rfl _ 4800#32 rfl (k10_off2_inb L 12) _ _ j))
  ihave Hg12 := (Entails.of_eq ((pts_oChunk (F := F) d L 12 4800#32 rfl (k10_off2_inb L 12) _).trans (pointsTo_congr hv12))) $$ Ho12'
  have hv13 := chunk_val (F := F) d L IDX TAB OUT₀ 13 5200#32 rfl (k10_off2_inb L 13) (tile_body.sl.dma0_14 d L IDX TAB fs fb hin)
    (fun j => (read_writes_whole _ _ _ _ j).trans (gather_val (F := F) d L IDX TAB hidx fs 13 ![5200] rfl _ 5200#32 rfl (k10_off2_inb L 13) _ _ j))
  ihave Hg13 := (Entails.of_eq ((pts_oChunk (F := F) d L 13 5200#32 rfl (k10_off2_inb L 13) _).trans (pointsTo_congr hv13))) $$ Ho13'
  have hv14 := chunk_val (F := F) d L IDX TAB OUT₀ 14 5600#32 rfl (k10_off2_inb L 14) (tile_body.sl.dma0_15 d L IDX TAB fs fa hin)
    (fun j => (read_writes_whole _ _ _ _ j).trans (gather_val (F := F) d L IDX TAB hidx fs 14 ![5600] rfl _ 5600#32 rfl (k10_off2_inb L 14) _ _ j))
  ihave Hg14 := (Entails.of_eq ((pts_oChunk (F := F) d L 14 5600#32 rfl (k10_off2_inb L 14) _).trans (pointsTo_congr hv14))) $$ Ho14'
  have hv15 := chunk_val (F := F) d L IDX TAB OUT₀ 15 6000#32 rfl (k10_off2_inb L 15) (tile_body.sl.dma0_16 d L IDX TAB fs fb hin)
    (fun j => (read_writes_whole _ _ _ _ j).trans (gather_val (F := F) d L IDX TAB hidx fs 15 ![6000] rfl _ 6000#32 rfl (k10_off2_inb L 15) _ _ j))
  ihave Hg15 := (Entails.of_eq ((pts_oChunk (F := F) d L 15 6000#32 rfl (k10_off2_inb L 15) _).trans (pointsTo_congr hv15))) $$ Ho15'
  have hv16 := chunk_val (F := F) d L IDX TAB OUT₀ 16 6400#32 rfl (k10_off2_inb L 16) (tile_body.sl.dma0_17 d L IDX TAB fs fa hin)
    (fun j => (read_writes_whole _ _ _ _ j).trans (gather_val (F := F) d L IDX TAB hidx fs 16 ![6400] rfl _ 6400#32 rfl (k10_off2_inb L 16) _ _ j))
  ihave Hg16 := (Entails.of_eq ((pts_oChunk (F := F) d L 16 6400#32 rfl (k10_off2_inb L 16) _).trans (pointsTo_congr hv16))) $$ Ho16'
  have hv17 := chunk_val (F := F) d L IDX TAB OUT₀ 17 6800#32 rfl (k10_off2_inb L 17) (tile_body.sl.dma0_18 d L IDX TAB fs fb hin)
    (fun j => (read_writes_whole _ _ _ _ j).trans (gather_val (F := F) d L IDX TAB hidx fs 17 ![6800] rfl _ 6800#32 rfl (k10_off2_inb L 17) _ _ j))
  ihave Hg17 := (Entails.of_eq ((pts_oChunk (F := F) d L 17 6800#32 rfl (k10_off2_inb L 17) _).trans (pointsTo_congr hv17))) $$ Ho17'
  have hv18 := chunk_val (F := F) d L IDX TAB OUT₀ 18 7200#32 rfl (k10_off2_inb L 18) (tile_body.sl.dma0_19 d L IDX TAB fs fa hin)
    (fun j => (read_writes_whole _ _ _ _ j).trans (gather_val (F := F) d L IDX TAB hidx fs 18 ![7200] rfl _ 7200#32 rfl (k10_off2_inb L 18) _ _ j))
  ihave Hg18 := (Entails.of_eq ((pts_oChunk (F := F) d L 18 7200#32 rfl (k10_off2_inb L 18) _).trans (pointsTo_congr hv18))) $$ Ho18'
  have hv19 := chunk_val (F := F) d L IDX TAB OUT₀ 19 7600#32 rfl (k10_off2_inb L 19) (tile_body.sl.dma0_20 d L IDX TAB fs fb hin)
    (fun j => (read_writes_whole _ _ _ _ j).trans (gather_val (F := F) d L IDX TAB hidx fs 19 ![7600] rfl _ 7600#32 rfl (k10_off2_inb L 19) _ _ j))
  ihave Hg19 := (Entails.of_eq ((pts_oChunk (F := F) d L 19 7600#32 rfl (k10_off2_inb L 19) _).trans (pointsTo_congr hv19))) $$ Ho19'
  have hv20 := chunk_val (F := F) d L IDX TAB OUT₀ 20 8000#32 rfl (k10_off2_inb L 20) (tile_body.sl.dma0_21 d L IDX TAB fs fa hin)
    (fun j => (read_writes_whole _ _ _ _ j).trans (gather_val (F := F) d L IDX TAB hidx fs 20 ![8000] rfl _ 8000#32 rfl (k10_off2_inb L 20) _ _ j))
  ihave Hg20 := (Entails.of_eq ((pts_oChunk (F := F) d L 20 8000#32 rfl (k10_off2_inb L 20) _).trans (pointsTo_congr hv20))) $$ Ho20'
  have hv21 := chunk_val (F := F) d L IDX TAB OUT₀ 21 8400#32 rfl (k10_off2_inb L 21) (tile_body.sl.dma0_22 d L IDX TAB fs fb hin)
    (fun j => (read_writes_whole _ _ _ _ j).trans (gather_val (F := F) d L IDX TAB hidx fs 21 ![8400] rfl _ 8400#32 rfl (k10_off2_inb L 21) _ _ j))
  ihave Hg21 := (Entails.of_eq ((pts_oChunk (F := F) d L 21 8400#32 rfl (k10_off2_inb L 21) _).trans (pointsTo_congr hv21))) $$ Ho21'
  have hv22 := chunk_val (F := F) d L IDX TAB OUT₀ 22 8800#32 rfl (k10_off2_inb L 22) (tile_body.sl.dma0_23 d L IDX TAB fs fa hin)
    (fun j => (read_writes_whole _ _ _ _ j).trans (gather_val (F := F) d L IDX TAB hidx fs 22 ![8800] rfl _ 8800#32 rfl (k10_off2_inb L 22) _ _ j))
  ihave Hg22 := (Entails.of_eq ((pts_oChunk (F := F) d L 22 8800#32 rfl (k10_off2_inb L 22) _).trans (pointsTo_congr hv22))) $$ Ho22'
  have hv23 := chunk_val (F := F) d L IDX TAB OUT₀ 23 9200#32 rfl (k10_off2_inb L 23) (tile_body.sl.dma0_24 d L IDX TAB fs fb hin)
    (fun j => (read_writes_whole _ _ _ _ j).trans (gather_val (F := F) d L IDX TAB hidx fs 23 ![9200] rfl _ 9200#32 rfl (k10_off2_inb L 23) _ _ j))
  ihave Hg23 := (Entails.of_eq ((pts_oChunk (F := F) d L 23 9200#32 rfl (k10_off2_inb L 23) _).trans (pointsTo_congr hv23))) $$ Ho23'
  have hv24 := chunk_val (F := F) d L IDX TAB OUT₀ 24 9600#32 rfl (k10_off2_inb L 24) (tile_body.sl.dma0_25 d L IDX TAB fs fa hin)
    (fun j => (read_writes_whole _ _ _ _ j).trans (gather_val (F := F) d L IDX TAB hidx fs 24 ![9600] rfl _ 9600#32 rfl (k10_off2_inb L 24) _ _ j))
  ihave Hg24 := (Entails.of_eq ((pts_oChunk (F := F) d L 24 9600#32 rfl (k10_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody10

end
-- ==== Proof.GatherObl.lean ====
/-
  The six gather calls' tile obligations: one vector subcore's task of a call, from what the sequencer hands the worker
  (its block of the index array, a share of the table, its rows of the output) to what the worker hands back (the same,
  the rows gathered).
-/
import proofs.«205547_g25623774888366_cont_9to1_713_27_alg».proof.Proof.PayI
import proofs.«205547_g25623774888366_cont_9to1_713_27_alg».proof.Proof.GatherBody
import proofs.«205547_g25623774888366_cont_9to1_713_27_alg».proof.Proof.GatherBody2
import proofs.«205547_g25623774888366_cont_9to1_713_27_alg».proof.Proof.GatherBody4
import proofs.«205547_g25623774888366_cont_9to1_713_27_alg».proof.Proof.GatherBody6
import proofs.«205547_g25623774888366_cont_9to1_713_27_alg».proof.Proof.GatherBody8
import proofs.«205547_g25623774888366_cont_9to1_713_27_alg».proof.Proof.GatherBody10

noncomputable section

namespace Cert.Proof.GatherObl

open Cert.KernelIdeal Cert.KernelIdeal.Gen
open Cert.Proof.LaunchBase Cert.Proof.PayI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

/-- The grid coordinates of vector subcore `s` of SparseCore `c`, as the body table passes them. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 6)} {W : Waits sig (HIx 6)} {q : Fin 6} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0 -/

theorem defs₀_vector0 (c : Fin τ.nSC) (s : Fin τ.nSub) :
    defs₀ (F := F) (.scVector c s) 0 ()
      = SparseCore.onTile hcore0 hsub0 (fun c s => cc0_gather_kernel (coordsV c s)
          (Memref.whole main_v2_scv) (Memref.isWhole_whole _) (Memref.whole main_v4_scv) (Memref.isWhole_whole _) (Memref.whole main_v20_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scoped0) ⟨⟩ c s := rfl

set_option maxRecDepth 16384 in
theorem tileObl0 (Vc : Fin 6 → Dev nD → Valuation τ sig (Elt F))
    (hidx : ∀ (d : Dev nD) (j : S320000.Idx), (Vc 0 d (Proc.devRef .tc main_v4) j).toNat < 10000) :
    (K (F := F)).TileObl (D (F := F)) 𝒱 (P Vc) v₀ 0 := by
  intro d c i O W hO _ _
  simp only [show (P (F := F) Vc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (Cert.Proof.GatherBody.tile_body (F := F) d (coordsV ⟨_, hci.1⟩ ⟨_, hci.2⟩) facts (sh _) _ _ _ (hidx d) O W hO).trans (wp_mono frame _ _ fun _ => obl_post)

/-! ## Call 1 -/

theorem defs₀_vector1 (c : Fin τ.nSC) (s : Fin τ.nSub) :
    defs₀ (F := F) (.scVector c s) 2 ()
      = SparseCore.onTile hcore2 hsub2 (fun c s => cc2_gather_kernel (coordsV c s)
          (Memref.whole main_arg0_scv) (Memref.isWhole_whole _) (Memref.whole main_v4_scv) (Memref.isWhole_whole _) (Memref.whole main_v23_scv) (Memref.isWhole_whole _)
          (Memref.whole cc2_scratch0) (Memref.isWhole_whole _) (Memref.whole cc2_scratch1) (Memref.isWhole_whole _) (Memref.whole cc2_scratch2) (Memref.isWhole_whole _)
          cc2_scratch3 cc2_scratch4 cc2_scratch5 cc2_scratch6 cc2_scoped0) ⟨⟩ c s := rfl

set_option maxRecDepth 16384 in
theorem tileObl1 (Vc : Fin 6 → Dev nD → Valuation τ sig (Elt F))
    (hidx : ∀ (d : Dev nD) (j : S320000.Idx), (Vc 1 d (Proc.devRef .tc main_v4) j).toNat < 10000) :
    (K (F := F)).TileObl (D (F := F)) 𝒱 (P Vc) v₀ 1 := by
  intro d c i O W hO _ _
  simp only [show (P (F := F) Vc).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (Cert.Proof.GatherBody2.tile_body (F := F) d (coordsV ⟨_, hci.1⟩ ⟨_, hci.2⟩) facts (sh _) _ _ _ (hidx d) O W hO).trans (wp_mono frame _ _ fun _ => obl_post)

/-! ## Call 2 -/

theorem defs₀_vector2 (c : Fin τ.nSC) (s : Fin τ.nSub) :
    defs₀ (F := F) (.scVector c s) 4 ()
      = SparseCore.onTile hcore4 hsub4 (fun c s => cc4_gather_kernel (coordsV c s)
          (Memref.whole main_v35_scv) (Memref.isWhole_whole _) (Memref.whole main_v4_scv) (Memref.isWhole_whole _) (Memref.whole main_v36_scv) (Memref.isWhole_whole _)
          (Memref.whole cc4_scratch0) (Memref.isWhole_whole _) (Memref.whole cc4_scratch1) (Memref.isWhole_whole _) (Memref.whole cc4_scratch2) (Memref.isWhole_whole _)
          cc4_scratch3 cc4_scratch4 cc4_scratch5 cc4_scratch6 cc4_scoped0) ⟨⟩ c s := rfl

set_option maxRecDepth 16384 in
theorem tileObl2 (Vc : Fin 6 → Dev nD → Valuation τ sig (Elt F))
    (hidx : ∀ (d : Dev nD) (j : S320000.Idx), (Vc 2 d (Proc.devRef .tc main_v4) j).toNat < 10000) :
    (K (F := F)).TileObl (D (F := F)) 𝒱 (P Vc) v₀ 2 := by
  intro d c i O W hO _ _
  simp only [show (P (F := F) Vc).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (Cert.Proof.GatherBody4.tile_body (F := F) d (coordsV ⟨_, hci.1⟩ ⟨_, hci.2⟩) facts (sh _) _ _ _ (hidx d) O W hO).trans (wp_mono frame _ _ fun _ => obl_post)

/-! ## Call 3 -/

theorem defs₀_vector3 (c : Fin τ.nSC) (s : Fin τ.nSub) :
    defs₀ (F := F) (.scVector c s) 6 ()
      = SparseCore.onTile hcore6 hsub6 (fun c s => cc6_gather_kernel (coordsV c s)
          (Memref.whole main_v48_scv) (Memref.isWhole_whole _) (Memref.whole main_v4_scv) (Memref.isWhole_whole _) (Memref.whole main_v49_scv) (Memref.isWhole_whole _)
          (Memref.whole cc6_scratch0) (Memref.isWhole_whole _) (Memref.whole cc6_scratch1) (Memref.isWhole_whole _) (Memref.whole cc6_scratch2) (Memref.isWhole_whole _)
          cc6_scratch3 cc6_scratch4 cc6_scratch5 cc6_scratch6 cc6_scoped0) ⟨⟩ c s := rfl

set_option maxRecDepth 16384 in
theorem tileObl3 (Vc : Fin 6 → Dev nD → Valuation τ sig (Elt F))
    (hidx : ∀ (d : Dev nD) (j : S320000.Idx), (Vc 3 d (Proc.devRef .tc main_v4) j).toNat < 10000) :
    (K (F := F)).TileObl (D (F := F)) 𝒱 (P Vc) v₀ 3 := by
  intro d c i O W hO _ _
  simp only [show (P (F := F) Vc).ox = fun _ _ => 0 from rfl, add_zero]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (Cert.Proof.GatherBody6.tile_body (F := F) d (coordsV ⟨_, hci.1⟩ ⟨_, hci.2⟩) facts (sh _) _ _ _ (hidx d) O W hO).trans (wp_mono frame _ _ fun _ => obl_post)

/-! ## Call 4 -/

theorem defs₀_vector4 (c : Fin τ.nSC) (s : Fin τ.nSub) :
    defs₀ (F := F) (.scVector c s) 8 ()
      = SparseCore.onTile hcore8 hsub8 (fun c s => cc8_gather_kernel (coordsV c s)
          (Memref.whole main_v61_scv) (Memref.isWhole_whole _) (Memref.whole main_v4_scv) (Memref.isWhole_whole _) (Memref.whole main_v62_scv) (Memref.isWhole_whole _)
          (Memref.whole cc8_scratch0) (Memref.isWhole_whole _) (Memref.whole cc8_scratch1) (Memref.isWhole_whole _) (Memref.whole cc8_scratch2) (Memref.isWhole_whole _)
          cc8_scratch3 cc8_scratch4 cc8_scratch5 cc8_scratch6 cc8_scoped0) ⟨⟩ c s := rfl

set_option maxRecDepth 16384 in
theorem tileObl4 (Vc : Fin 6 → Dev nD → Valuation τ sig (Elt F))
    (hidx : ∀ (d : Dev nD) (j : S320000.Idx), (Vc 4 d (Proc.devRef .tc main_v4) j).toNat < 10000) :
    (K (F := F)).TileObl (D (F := F)) 𝒱 (P Vc) v₀ 4 := by
  intro d c i O W hO _ _
  simp only [show (P (F := F) Vc).ox = fun _ _ => 0 from rfl, add_zero]
  have hci : ((K (F := F)).core 4 c).val < grid8.bound 0 ∧ ((K (F := F)).sub 4 i).val < grid8.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (Cert.Proof.GatherBody8.tile_body (F := F) d (coordsV ⟨_, hci.1⟩ ⟨_, hci.2⟩) facts (sh _) _ _ _ (hidx d) O W hO).trans (wp_mono frame _ _ fun _ => obl_post)

/-! ## Call 5 -/

theorem defs₀_vector5 (c : Fin τ.nSC) (s : Fin τ.nSub) :
    defs₀ (F := F) (.scVector c s) 10 ()
      = SparseCore.onTile hcore10 hsub10 (fun c s => cc10_gather_kernel (coordsV c s)
          (Memref.whole main_v74_scv) (Memref.isWhole_whole _) (Memref.whole main_v4_scv) (Memref.isWhole_whole _) (Memref.whole main_v75_scv) (Memref.isWhole_whole _)
          (Memref.whole cc10_scratch0) (Memref.isWhole_whole _) (Memref.whole cc10_scratch1) (Memref.isWhole_whole _) (Memref.whole cc10_scratch2) (Memref.isWhole_whole _)
          cc10_scratch3 cc10_scratch4 cc10_scratch5 cc10_scratch6 cc10_scoped0) ⟨⟩ c s := rfl

set_option maxRecDepth 16384 in
theorem tileObl5 (Vc : Fin 6 → Dev nD → Valuation τ sig (Elt F))
    (hidx : ∀ (d : Dev nD) (j : S320000.Idx), (Vc 5 d (Proc.devRef .tc main_v4) j).toNat < 10000) :
    (K (F := F)).TileObl (D (F := F)) 𝒱 (P Vc) v₀ 5 := by
  intro d c i O W hO _ _
  simp only [show (P (F := F) Vc).ox = fun _ _ => 0 from rfl, add_zero]
  have hci : ((K (F := F)).core 5 c).val < grid10.bound 0 ∧ ((K (F := F)).sub 5 i).val < grid10.bound 1 := ⟨c.isLt, i.isLt⟩
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  rw [defs₀_vector5]; simp only [SparseCore.onTile, hci, and_self, ↓reduceDIte]
  exact (Cert.Proof.GatherBody10.tile_body (F := F) d (coordsV ⟨_, hci.1⟩ ⟨_, hci.2⟩) facts (sh _) _ _ _ (hidx d) O W hO).trans (wp_mono frame _ _ fun _ => obl_post)

end Cert.Proof.GatherObl

end
-- ==== Proof.RunI.lean ====
/-
  The kernel program's run: every weakly fair execution of all its threads terminates, and the TensorCore's arrays end at the last valuation.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.KernelIdeal
import proofs.«205547_g25623774888366_cont_9to1_713_27_alg».proof.Proof.Gen.KernelIdeal.Launch
import proofs.«205547_g25623774888366_cont_9to1_713_27_alg».proof.Proof.LaunchBase
import proofs.«205547_g25623774888366_cont_9to1_713_27_alg».proof.Proof.PayI
import proofs.«205547_g25623774888366_cont_9to1_713_27_alg».proof.Proof.MainChainI
import proofs.«205547_g25623774888366_cont_9to1_713_27_alg».proof.Proof.StepsI
import proofs.«205547_g25623774888366_cont_9to1_713_27_alg».proof.Proof.Steps2I
import proofs.«205547_g25623774888366_cont_9to1_713_27_alg».proof.Proof.RegionI
import proofs.«205547_g25623774888366_cont_9to1_713_27_alg».proof.Proof.EndsI
import proofs.«205547_g25623774888366_cont_9to1_713_27_alg».proof.Proof.ValsI
import proofs.«205547_g25623774888366_cont_9to1_713_27_alg».proof.Proof.MainRunI
import proofs.«205547_g25623774888366_cont_9to1_713_27_alg».proof.Proof.KeepI
import proofs.«205547_g25623774888366_cont_9to1_713_27_alg».proof.Proof.GatherObl

noncomputable section

namespace Cert.Proof.RunI

open Cert.KernelIdeal Cert.KernelIdeal.Gen Cert.Proof.LaunchBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayI Cert.Proof.StepsI Cert.Proof.Steps2I Cert.Proof.RegionI Cert.Proof.EndsI Cert.Proof.ValsI Cert.Proof.MainRunI

variable {F : FTy → Type} [FloatOps F]

local notation "𝕄" => MT nD τ sig (HIx 6) (Elt F) ℕ UU ℕ

variable (m : (ℓ : Loc nD τ sig) → Buf (Elt F) ℓ) (ρ : Dev nD → PrngReg)

theorem kind_eq (q : Fin 6) : (K (F := F)).kind q = .scVector := by
  match q with
  | 0 => rfl | 1 => rfl | 2 => rfl | 3 => rfl | 4 => rfl | 5 => rfl

/-- What the run leaves: every unscoped array of the TensorCore at the last valuation. -/
def QC : PUnit × MemSt nD τ sig (Elt F) → Prop :=
  fun r => ∀ (c : Dev nD) (b : Ref sig .tc), b.isScoped = false → r.2.mem ((SparseCore.T c).loc b) = Vr5 m c (Proc.devRef .tc b)

theorem run_main' [∀ e, Nonempty (Elt F e)]
    (hidx : ∀ (q : Fin 6) (d : Dev nD) (j : S320000.Idx), (Vc m q d (Proc.devRef .tc main_v4) j).toNat < 10000)
    (htile : ∀ q, (K (F := F)).TileObl (D (F := F)) 𝒱 (P (Vc m)) v₀ q) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Vc m)) facts v₀
    (fun q hq => absurd ((kind_eq (F := F) q).symm.trans hq) (by decide))
    (fun q _ => htile q)
    (fun q _ => SparseCore.Cfg.VecSplit.of_plain (vecSplit (Vc m) q))
    m ρ main (fun d => Ghost (F := F) Finset.univ d) (fun d => (held (SparseCore.T d) SS (Vr5 m d) : sProp 𝕄)) (u₀ (F := F))
    (sep_elim_left.trans (hu₀ (Vc m))) (hmain m ρ hidx)
    (fun d s' => ∀ b : Ref sig .tc, b.isScoped = false → s'.mem.mem ((SparseCore.T d).loc b) = Vr5 m d (Proc.devRef .tc b))
    (hfin (Vr5 m)) (QC m) (fun _ h => h)

/-- The run from the range fact of the index input alone: the index array is a re-layout of it at every call, and each
    worker's task is the gather body's. -/
theorem run_main [∀ e, Nonempty (Elt F e)]
    (h2 : ∀ (d : Dev nD) (j : S10000x32.Idx), (m ((SparseCore.T d : Thread nD τ).loc main_arg2) j).toNat < 10000) :
    θ_run (Cert.KernelIdeal.defs (F := F)) (Cert.KernelIdeal.threads (F := F)) ⟨m, fun _ => 0, ρ⟩ (QC m) :=
  run_main' m ρ (fun q d j => Cert.Proof.KeepI.idx_range m d (h2 d) q j) (fun q => match q with
    | 0 => Cert.Proof.GatherObl.tileObl0 (Vc m) (fun d j => Cert.Proof.KeepI.idx_range m d (h2 d) 0 j)
    | 1 => Cert.Proof.GatherObl.tileObl1 (Vc m) (fun d j => Cert.Proof.KeepI.idx_range m d (h2 d) 1 j)
    | 2 => Cert.Proof.GatherObl.tileObl2 (Vc m) (fun d j => Cert.Proof.KeepI.idx_range m d (h2 d) 2 j)
    | 3 => Cert.Proof.GatherObl.tileObl3 (Vc m) (fun d j => Cert.Proof.KeepI.idx_range m d (h2 d) 3 j)
    | 4 => Cert.Proof.GatherObl.tileObl4 (Vc m) (fun d j => Cert.Proof.KeepI.idx_range m d (h2 d) 4 j)
    | 5 => Cert.Proof.GatherObl.tileObl5 (Vc m) (fun d j => Cert.Proof.KeepI.idx_range m d (h2 d) 5 j))

end Cert.Proof.RunI

end
-- ==== Proof.LaunchBaseB.lean ====
/-
  Shared vocabulary of the kernel's launch: the resource algebra, the six gather calls' arrays, the rows each of
  the thirty-two workers owns, the shares of a table read by all of them, and what a gather leaves in its output.

  Worker `w = 2 i + c` (vector subcore `i` of SparseCore `c`) owns entries `[10000 w, 10000 (w + 1))` of the
  index array and the same rows of the output; the table is read whole by every worker, each through one of the
  thirty-two leaves of the full share halved five times. After the call, row `r` of the output is the table's row
  named by entry `r` of the index array.
-/
import proofs.«205547_g25623774888366_cont_9to1_713_27_alg».proof.Kernel
import proofs.«205547_g25623774888366_cont_9to1_713_27_alg».proof.Proof.Gen.Kernel
import Idealize.ShloMosaic.Lib.SparseCore.Launch
import Idealize.ShloMosaic.Lib.Pipeline.Kit
import Idealize.ShloMosaic.Lib.Transfers
import Idealize.ShloMosaic.Lib.ValueIdx

noncomputable section

namespace Cert.Proof.LaunchBaseB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Rounds

variable {F : FTy → Type}

/-! ## The resource algebra: the handshakes' rounds, the pipelines' staging cells, the transfers' counters -/

abbrev UH : Type := URounds (GSem nD τ sig) ℕ
abbrev UP : Type := URounds (GSem nD τ sig) Unit
abbrev UU : Type := UH × (UP × Counters)

/-! ## The arrays of the six gather calls -/

/-- The index array, the same for every call. -/
abbrev iLoc (d : Dev nD) : Loc nD τ sig := (SparseCore.T d).loc main_v4
/-- Call `q`'s table … -/
abbrev xLoc0 (d : Dev nD) : Loc nD τ sig := (SparseCore.T d).loc main_v2
abbrev xLoc1 (d : Dev nD) : Loc nD τ sig := (SparseCore.T d).loc main_arg0
abbrev xLoc2 (d : Dev nD) : Loc nD τ sig := (SparseCore.T d).loc main_v35
abbrev xLoc3 (d : Dev nD) : Loc nD τ sig := (SparseCore.T d).loc main_v48
abbrev xLoc4 (d : Dev nD) : Loc nD τ sig := (SparseCore.T d).loc main_v61
abbrev xLoc5 (d : Dev nD) : Loc nD τ sig := (SparseCore.T d).loc main_v74
/-- … and its output. -/
abbrev oLoc0 (d : Dev nD) : Loc nD τ sig := (SparseCore.T d).loc main_v20
abbrev oLoc1 (d : Dev nD) : Loc nD τ sig := (SparseCore.T d).loc main_v23
abbrev oLoc2 (d : Dev nD) : Loc nD τ sig := (SparseCore.T d).loc main_v36
abbrev oLoc3 (d : Dev nD) : Loc nD τ sig := (SparseCore.T d).loc main_v49
abbrev oLoc4 (d : Dev nD) : Loc nD τ sig := (SparseCore.T d).loc main_v62
abbrev oLoc5 (d : Dev nD) : Loc nD τ sig := (SparseCore.T d).loc main_v75

/-! ## Thirty-two workers and their rows -/

theorem idiv : 32 ∣ S320000.size 0 := ⟨10000, rfl⟩
theorem odiv : 32 ∣ S320000x128.size 0 := ⟨10000, rfl⟩
abbrev irow (w : Fin 32) : Rect S320000 := Rect.part (s := S320000) (a₀ := 0) idiv w
abbrev orow (w : Fin 32) : Rect S320000x128 := Rect.part (s := S320000x128) (a₀ := 0) odiv w
/-- Worker `w`'s entries of the index array, and its rows of an output (the sets do not depend on which array). -/
abbrev iRowSet (w : Fin 32) : Finset S320000.Idx := (irow w).set
abbrev oRowSet (w : Fin 32) : Finset S320000x128.Idx := (orow w).set

/-- The worker on vector subcore `i` of SparseCore `c`. -/
def wOf (c : Fin 2) (i : Fin 16) : Fin 32 := ⟨i.val * 2 + c.val, by omega⟩

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker `w`'s share of a table. -/
abbrev sh (w : Fin 32) : PosShare TreeShare := leaf 5 fullShare w

/-! ## What a gather leaves -/

/-- Row `r` of the worker's block of the output holds the table's row that entry `r` of the index array names. -/
def GatherSpec (w : Fin 32) (IDX : S320000.Idx → Elt F .i32) (TAB : S10000x128.Idx → Elt F .f32) (OUT : S320000x128.Idx → Elt F .f32) : Prop :=
  ∀ (x : S320000x128.Idx) (j : S320000.Idx) (y : S10000x128.Idx), x ∈ oRowSet w →
    (j 0).val = (x 0).val → (y 0).val = (IDX j).toNat → (y 1).val = (x 1).val → OUT x = TAB y

/-- The gathered array as one function of the index array and the table (an index out of range reads row 0; none is,
    under the precondition). -/
def gatherFn (IDX : S320000.Idx → Elt F .i32) (TAB : S10000x128.Idx → Elt F .f32) : S320000x128.Idx → Elt F .f32 :=
  fun x =>
    let n : ℕ := (IDX (ValueIdx.ix1 (n := 320000) ⟨(x 0).val, (x 0).isLt⟩)).toNat
    TAB (ValueIdx.ix2 (n0 := 10000) (n1 := 128) (if h : n < 10000 then ⟨n, h⟩ else ⟨0, by omega⟩) ⟨(x 1).val, (x 1).isLt⟩)

end Cert.Proof.LaunchBaseB

end
-- ==== Proof.PayB.lean ====
/-
  What the handshakes of the six gather calls carry, and the launch element of the ghost state.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB

noncomputable section

namespace Cert.Proof.PayB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)

variable {F : FTy → Type}

/-! ## The program as the launch theorem sees it -/

abbrev ΛP : Labels := Pipeline.Sig Λ₀ (Fin 6) fun p => (pcfgs (F := F) p).Adm
abbrev K : SparseCore.Cfg τ sig (ΛP (F := F)) 6 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev adm : (p : Fin 6) → (pcfgs (F := F) p).Adm := fun p => (cfgs p).toPCfg_adm

theorem nCore_eq (q : Fin 6) : (K (F := F)).nCore q = 2 := by
  match q with
  | 0 => rfl | 1 => rfl | 2 => rfl | 3 => rfl | 4 => rfl | 5 => rfl
theorem nSub_eq (q : Fin 6) : (K (F := F)).nSub q = 16 := by
  match q with
  | 0 => rfl | 1 => rfl | 2 => rfl | 3 => rfl | 4 => rfl | 5 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 6) (Elt F) ℕ UU ℕ

abbrev EH : Emb UH (MT nD τ sig (HIx 6) (Elt F) ℕ UU ℕ) := embL
def EP : Emb UP (MT nD τ sig (HIx 6) (Elt F) ℕ UU ℕ) := (Emb.inl : Emb UP (UP × Counters)).trans embR
instance EP_landsIn : (EP : Emb UP 𝕄).LandsIn (upEmb : UEmb _ 𝕄) := by unfold EP; infer_instance

/-! ## What the handshakes carry

`Vc q d` is the contents of @main's arrays on device `d` when call `q` starts. The TensorCore hands each SparseCore
its sixteen workers' parts, the sequencer deals them, and they come back with the output rows gathered. -/

variable (Vc : Fin 6 → Dev nD → Valuation τ sig (Elt F))

/-- Call 0: what worker `w` is handed, and what it hands back. -/
def go0 (d : Dev nD) (w : Fin 32) : sProp 𝕄 :=
  iprop((iLoc d ↦[iRowSet w]{fullShare} Vc 0 d (Proc.devRef .tc main_v4)) ∗ (xLoc0 d ↦{sh w} Vc 0 d (Proc.devRef .tc main_v2))
    ∗ (oLoc0 d ↦[oRowSet w]{fullShare} Vc 0 d (Proc.devRef .tc main_v20)))
def td0 (d : Dev nD) (w : Fin 32) : sProp 𝕄 :=
  iprop((iLoc d ↦[iRowSet w]{fullShare} Vc 0 d (Proc.devRef .tc main_v4)) ∗ (xLoc0 d ↦{sh w} Vc 0 d (Proc.devRef .tc main_v2))
    ∗ ∃ OUT : Buf (Elt F) (oLoc0 d), ⌜GatherSpec w (Vc 0 d (Proc.devRef .tc main_v4)) (Vc 0 d (Proc.devRef .tc main_v2)) OUT⌝ ∗ (oLoc0 d ↦[oRowSet w]{fullShare} OUT))

/-- Call 1: what worker `w` is handed, and what it hands back. -/
def go1 (d : Dev nD) (w : Fin 32) : sProp 𝕄 :=
  iprop((iLoc d ↦[iRowSet w]{fullShare} Vc 1 d (Proc.devRef .tc main_v4)) ∗ (xLoc1 d ↦{sh w} Vc 1 d (Proc.devRef .tc main_arg0))
    ∗ (oLoc1 d ↦[oRowSet w]{fullShare} Vc 1 d (Proc.devRef .tc main_v23)))
def td1 (d : Dev nD) (w : Fin 32) : sProp 𝕄 :=
  iprop((iLoc d ↦[iRowSet w]{fullShare} Vc 1 d (Proc.devRef .tc main_v4)) ∗ (xLoc1 d ↦{sh w} Vc 1 d (Proc.devRef .tc main_arg0))
    ∗ ∃ OUT : Buf (Elt F) (oLoc1 d), ⌜GatherSpec w (Vc 1 d (Proc.devRef .tc main_v4)) (Vc 1 d (Proc.devRef .tc main_arg0)) OUT⌝ ∗ (oLoc1 d ↦[oRowSet w]{fullShare} OUT))

/-- Call 2: what worker `w` is handed, and what it hands back. -/
def go2 (d : Dev nD) (w : Fin 32) : sProp 𝕄 :=
  iprop((iLoc d ↦[iRowSet w]{fullShare} Vc 2 d (Proc.devRef .tc main_v4)) ∗ (xLoc2 d ↦{sh w} Vc 2 d (Proc.devRef .tc main_v35))
    ∗ (oLoc2 d ↦[oRowSet w]{fullShare} Vc 2 d (Proc.devRef .tc main_v36)))
def td2 (d : Dev nD) (w : Fin 32) : sProp 𝕄 :=
  iprop((iLoc d ↦[iRowSet w]{fullShare} Vc 2 d (Proc.devRef .tc main_v4)) ∗ (xLoc2 d ↦{sh w} Vc 2 d (Proc.devRef .tc main_v35))
    ∗ ∃ OUT : Buf (Elt F) (oLoc2 d), ⌜GatherSpec w (Vc 2 d (Proc.devRef .tc main_v4)) (Vc 2 d (Proc.devRef .tc main_v35)) OUT⌝ ∗ (oLoc2 d ↦[oRowSet w]{fullShare} OUT))

/-- Call 3: what worker `w` is handed, and what it hands back. -/
def go3 (d : Dev nD) (w : Fin 32) : sProp 𝕄 :=
  iprop((iLoc d ↦[iRowSet w]{fullShare} Vc 3 d (Proc.devRef .tc main_v4)) ∗ (xLoc3 d ↦{sh w} Vc 3 d (Proc.devRef .tc main_v48))
    ∗ (oLoc3 d ↦[oRowSet w]{fullShare} Vc 3 d (Proc.devRef .tc main_v49)))
def td3 (d : Dev nD) (w : Fin 32) : sProp 𝕄 :=
  iprop((iLoc d ↦[iRowSet w]{fullShare} Vc 3 d (Proc.devRef .tc main_v4)) ∗ (xLoc3 d ↦{sh w} Vc 3 d (Proc.devRef .tc main_v48))
    ∗ ∃ OUT : Buf (Elt F) (oLoc3 d), ⌜GatherSpec w (Vc 3 d (Proc.devRef .tc main_v4)) (Vc 3 d (Proc.devRef .tc main_v48)) OUT⌝ ∗ (oLoc3 d ↦[oRowSet w]{fullShare} OUT))

/-- Call 4: what worker `w` is handed, and what it hands back. -/
def go4 (d : Dev nD) (w : Fin 32) : sProp 𝕄 :=
  iprop((iLoc d ↦[iRowSet w]{fullShare} Vc 4 d (Proc.devRef .tc main_v4)) ∗ (xLoc4 d ↦{sh w} Vc 4 d (Proc.devRef .tc main_v61))
    ∗ (oLoc4 d ↦[oRowSet w]{fullShare} Vc 4 d (Proc.devRef .tc main_v62)))
def td4 (d : Dev nD) (w : Fin 32) : sProp 𝕄 :=
  iprop((iLoc d ↦[iRowSet w]{fullShare} Vc 4 d (Proc.devRef .tc main_v4)) ∗ (xLoc4 d ↦{sh w} Vc 4 d (Proc.devRef .tc main_v61))
    ∗ ∃ OUT : Buf (Elt F) (oLoc4 d), ⌜GatherSpec w (Vc 4 d (Proc.devRef .tc main_v4)) (Vc 4 d (Proc.devRef .tc main_v61)) OUT⌝ ∗ (oLoc4 d ↦[oRowSet w]{fullShare} OUT))

/-- Call 5: what worker `w` is handed, and what it hands back. -/
def go5 (d : Dev nD) (w : Fin 32) : sProp 𝕄 :=
  iprop((iLoc d ↦[iRowSet w]{fullShare} Vc 5 d (Proc.devRef .tc main_v4)) ∗ (xLoc5 d ↦{sh w} Vc 5 d (Proc.devRef .tc main_v74))
    ∗ (oLoc5 d ↦[oRowSet w]{fullShare} Vc 5 d (Proc.devRef .tc main_v75)))
def td5 (d : Dev nD) (w : Fin 32) : sProp 𝕄 :=
  iprop((iLoc d ↦[iRowSet w]{fullShare} Vc 5 d (Proc.devRef .tc main_v4)) ∗ (xLoc5 d ↦{sh w} Vc 5 d (Proc.devRef .tc main_v74))
    ∗ ∃ OUT : Buf (Elt F) (oLoc5 d), ⌜GatherSpec w (Vc 5 d (Proc.devRef .tc main_v4)) (Vc 5 d (Proc.devRef .tc main_v74)) OUT⌝ ∗ (oLoc5 d ↦[oRowSet w]{fullShare} OUT))

def goOf (q : Fin 6) (d : Dev nD) (w : Fin 32) : sProp 𝕄 :=
  match q with
  | 0 => go0 Vc d w | 1 => go1 Vc d w | 2 => go2 Vc d w | 3 => go3 Vc d w | 4 => go4 Vc d w | 5 => go5 Vc d w
def tdOf (q : Fin 6) (d : Dev nD) (w : Fin 32) : sProp 𝕄 :=
  match q with
  | 0 => td0 Vc d w | 1 => td1 Vc d w | 2 => td2 Vc d w | 3 => td3 Vc d w | 4 => td4 Vc d w | 5 => td5 Vc d w

def P : (K (F := F)).Pay (nD := nD) (Val := Elt F) (Name := ℕ) (U := UU) where
  st := fun q d c => bigSep Finset.univ fun i : Fin ((K (F := F)).nSub q) => goOf Vc q d (wOf (Fin.cast (nCore_eq q) c) (Fin.cast (nSub_eq q) i))
  dn := fun q d c => bigSep Finset.univ fun i : Fin ((K (F := F)).nSub q) => tdOf Vc q d (wOf (Fin.cast (nCore_eq q) c) (Fin.cast (nSub_eq q) i))
  go := fun q d c i => goOf Vc q d (wOf (Fin.cast (nCore_eq q) c) (Fin.cast (nSub_eq q) i))
  td := fun q d c i => tdOf Vc q d (wOf (Fin.cast (nCore_eq q) c) (Fin.cast (nSub_eq q) i))
  x := fun _ _ => iprop(emp)

instance goOf_storable (q : Fin 6) (d : Dev nD) (w : Fin 32) : BI.Storable (upEmb : UEmb _ 𝕄) (goOf Vc q d w) := by
  match q with
  | 0 => unfold goOf go0; infer_instance
  | 1 => unfold goOf go1; infer_instance
  | 2 => unfold goOf go2; infer_instance
  | 3 => unfold goOf go3; infer_instance
  | 4 => unfold goOf go4; infer_instance
  | 5 => unfold goOf go5; infer_instance
instance tdOf_storable (q : Fin 6) (d : Dev nD) (w : Fin 32) : BI.Storable (upEmb : UEmb _ 𝕄) (tdOf Vc q d w) := by
  match q with
  | 0 => unfold tdOf td0; infer_instance
  | 1 => unfold tdOf td1; infer_instance
  | 2 => unfold tdOf td2; infer_instance
  | 3 => unfold tdOf td3; infer_instance
  | 4 => unfold tdOf td4; infer_instance
  | 5 => unfold tdOf td5; infer_instance

instance P_storable : (P (F := F) Vc).IsStorable where
  st q d c := by unfold P; infer_instance
  dn q d c := by unfold P; infer_instance
  go q d c i := by unfold P; infer_instance
  td q d c i := by unfold P; infer_instance

/-- The sequencer deals its workers' parts and collects them: the call's operands for one SparseCore ARE its sixteen
    workers' parts. -/
theorem vecSplit (q : Fin 6) : (K (F := F)).VecSplit' (P Vc) q := by
  intro d c
  have e1 : (P (F := F) Vc).st q d c = bigSep Finset.univ fun i => (P (F := F) Vc).go q d c i := rfl
  have e2 : (P (F := F) Vc).dn q d c = bigSep Finset.univ fun i => (P (F := F) Vc).td q d c i := rfl
  rw [e1, e2]
  iintro H; imodintro
  isplitl [H]; · iexact H
  iintro H; iexact H

end Cert.Proof.PayB

end
-- ==== Proof.MainChainB.lean ====
/-
  @main of the kernel's program as a chain of its items: seven stretches of host operations, the six
  SparseCore calls and the six TensorCore regions between them. The stretches' operation lists are the
  printed program's own statements, in order.
-/
import proofs.«205547_g25623774888366_cont_9to1_713_27_alg».proof.Kernel
import proofs.«205547_g25623774888366_cont_9to1_713_27_alg».proof.Proof.Gen.Kernel
import Idealize.ShloMosaic.Lib.StableHlo.Run
import Idealize.ShloMosaic.Lib.Pipeline.Regions

set_option synthInstance.maxSize 4096

noncomputable section

namespace Cert.Kernel.MainChain

open Idealize.ShloMosaic Idealize.SL.Sem Cert.Kernel Cert.Kernel.Gen

variable {F : FTy → Type} [FloatOps F]

/-- Host operations, stretch 0 of @main. -/
def ops0 : List (HloOp τ sig (Elt F)) :=
  [(StableHlo.nullary main_cst (constant S_ .f32 0x00000000#32)),
   (StableHlo.unary main_cst main_v0 (broadcastInDim S10000x128 ![] bcast_S_S10000x128 : (⟨S_, .f32⟩ : BufTy).Contents (Elt F) → (⟨S10000x128, .f32⟩ : BufTy).Contents (Elt F))),
   (StableHlo.nullary main_c (constantI S_ 32 0#32)),
   (StableHlo.unary main_c main_v1 (broadcastInDim S1 ![] bcast_S_S1 : (⟨S_, .i32⟩ : BufTy).Contents (Elt F) → (⟨S1, .i32⟩ : BufTy).Contents (Elt F))),
   (StableHlo.ternary main_v0 main_v1 main_arg1 main_v2 ((fun x i u => Host.scatter scatter_S10000x128_S1_S10000x3_01_n_1_0 (fun _ b => b) x i u) : (⟨S10000x128, .f32⟩ : BufTy).Contents (Elt F) → (⟨S1, .i32⟩ : BufTy).Contents (Elt F) → (⟨S10000x3, .f32⟩ : BufTy).Contents (Elt F) → (⟨S10000x128, .f32⟩ : BufTy).Contents (Elt F))),
   (StableHlo.unary main_arg2 main_v3 ((transpose S32x10000 [1, 0] · transposes_S10000x32_S32x10000_1_0) : (⟨S10000x32, .i32⟩ : BufTy).Contents (Elt F) → (⟨S32x10000, .i32⟩ : BufTy).Contents (Elt F))),
   (StableHlo.reshape main_v3 main_v4 rfl shapeCasts_S32x10000_S320000),
   (StableHlo.nullary main_cst_0 (constant S_ .f32 0x00000000#32)),
   (StableHlo.unary main_cst_0 main_v5 (broadcastInDim S8x64 ![] bcast_S_S8x64 : (⟨S_, .f32⟩ : BufTy).Contents (Elt F) → (⟨S8x64, .f32⟩ : BufTy).Contents (Elt F))),
   (StableHlo.nullary main_c_1 (constantI S_ 32 0#32)),
   (StableHlo.unary main_c_1 main_v6 (broadcastInDim S1 ![] bcast_S_S1 : (⟨S_, .i32⟩ : BufTy).Contents (Elt F) → (⟨S1, .i32⟩ : BufTy).Contents (Elt F))),
   (StableHlo.ternary main_v5 main_v6 main_arg3 main_v7 ((fun x i u => Host.scatter scatter_S8x64_S1_S3x64_01_n_0_0 (fun _ b => b) x i u) : (⟨S8x64, .f32⟩ : BufTy).Contents (Elt F) → (⟨S1, .i32⟩ : BufTy).Contents (Elt F) → (⟨S3x64, .f32⟩ : BufTy).Contents (Elt F) → (⟨S8x64, .f32⟩ : BufTy).Contents (Elt F))),
   (StableHlo.reshape main_arg4 main_v8 rfl shapeCasts_S64_S1x64),
   (StableHlo.nullary main_cst_2 (constant S_ .f32 0x00000000#32)),
   (StableHlo.unary main_cst_2 main_v9 (broadcastInDim S64x8 ![] bcast_S_S64x8 : (⟨S_, .f32⟩ : BufTy).Contents (Elt F) → (⟨S64x8, .f32⟩ : BufTy).Contents (Elt F))),
   (StableHlo.nullary main_c_3 (constantI S_ 32 0#32)),
   (StableHlo.unary main_c_3 main_v10 (broadcastInDim S1 ![] bcast_S_S1 : (⟨S_, .i32⟩ : BufTy).Contents (Elt F) → (⟨S1, .i32⟩ : BufTy).Contents (Elt F))),
   (StableHlo.ternary main_v9 main_v10 main_arg5 main_v11 ((fun x i u => Host.scatter scatter_S64x8_S1_S64x1_01_n_1_0 (fun _ b => b) x i u) : (⟨S64x8, .f32⟩ : BufTy).Contents (Elt F) → (⟨S1, .i32⟩ : BufTy).Contents (Elt F) → (⟨S64x1, .f32⟩ : BufTy).Contents (Elt F) → (⟨S64x8, .f32⟩ : BufTy).Contents (Elt F))),
   (StableHlo.unary main_v11 main_v12 ((truncf .bf16 · bitsLt_bf16_f32) : (⟨S64x8, .f32⟩ : BufTy).Contents (Elt F) → (⟨S64x8, .bf16⟩ : BufTy).Contents (Elt F))),
   (StableHlo.unary main_arg7 main_v13 ((extractStridedSlice S5x128x128 ![0, 0, 0] · slices_S5x256x128_S5x128x128_0_0_0) : (⟨S5x256x128, .f32⟩ : BufTy).Contents (Elt F) → (⟨S5x128x128, .f32⟩ : BufTy).Contents (Elt F))),
   (StableHlo.unary main_v13 main_v14 ((truncf .bf16 · bitsLt_bf16_f32) : (⟨S5x128x128, .f32⟩ : BufTy).Contents (Elt F) → (⟨S5x128x128, .bf16⟩ : BufTy).Contents (Elt F))),
   (StableHlo.unary main_arg7 main_v15 ((extractStridedSlice S5x128x128 ![0, 128, 0] · slices_S5x256x128_S5x128x128_0_128_0) : (⟨S5x256x128, .f32⟩ : BufTy).Contents (Elt F) → (⟨S5x128x128, .f32⟩ : BufTy).Contents (Elt F))),
   (StableHlo.unary main_v15 main_v16 ((truncf .bf16 · bitsLt_bf16_f32) : (⟨S5x128x128, .f32⟩ : BufTy).Contents (Elt F) → (⟨S5x128x128, .bf16⟩ : BufTy).Contents (Elt F))),
   (StableHlo.reshape main_arg8 main_v17 rfl shapeCasts_S5x128_S5x1x128),
   (StableHlo.reshape main_arg9 main_v18 rfl shapeCasts_S5x128_S5x1x128),
   (StableHlo.reshape main_arg10 main_v19 rfl shapeCasts_S5x128_S5x1x128)]

/-- Host operations, stretch 1 of @main. -/
def ops1 : List (HloOp τ sig (Elt F)) :=
  [(StableHlo.reshape main_v20 main_v21 rfl shapeCasts_S320000x128_S32x10000x128)]

/-- Host operations, stretch 2 of @main. -/
def ops2 : List (HloOp τ sig (Elt F)) :=
  [(StableHlo.reshape main_v23 main_v24 rfl shapeCasts_S320000x128_S32x10000x128),
   (StableHlo.unary main_v14 main_v25 ((extractStridedSlice S1x128x128 ![0, 0, 0] · slices_S5x128x128_S1x128x128_0_0_0) : (⟨S5x128x128, .bf16⟩ : BufTy).Contents (Elt F) → (⟨S1x128x128, .bf16⟩ : BufTy).Contents (Elt F))),
   (StableHlo.reshape main_v25 main_v26 rfl shapeCasts_S1x128x128_S128x128),
   (StableHlo.unary main_v16 main_v27 ((extractStridedSlice S1x128x128 ![0, 0, 0] · slices_S5x128x128_S1x128x128_0_0_0) : (⟨S5x128x128, .bf16⟩ : BufTy).Contents (Elt F) → (⟨S1x128x128, .bf16⟩ : BufTy).Contents (Elt F))),
   (StableHlo.reshape main_v27 main_v28 rfl shapeCasts_S1x128x128_S128x128),
   (StableHlo.unary main_v17 main_v29 ((extractStridedSlice S1x1x128 ![0, 0, 0] · slices_S5x1x128_S1x1x128_0_0_0) : (⟨S5x1x128, .f32⟩ : BufTy).Contents (Elt F) → (⟨S1x1x128, .f32⟩ : BufTy).Contents (Elt F))),
   (StableHlo.reshape main_v29 main_v30 rfl shapeCasts_S1x1x128_S1x128),
   (StableHlo.unary main_v18 main_v31 ((extractStridedSlice S1x1x128 ![0, 0, 0] · slices_S5x1x128_S1x1x128_0_0_0) : (⟨S5x1x128, .f32⟩ : BufTy).Contents (Elt F) → (⟨S1x1x128, .f32⟩ : BufTy).Contents (Elt F))),
   (StableHlo.reshape main_v31 main_v32 rfl shapeCasts_S1x1x128_S1x128),
   (StableHlo.unary main_v19 main_v33 ((extractStridedSlice S1x1x128 ![0, 0, 0] · slices_S5x1x128_S1x1x128_0_0_0) : (⟨S5x1x128, .f32⟩ : BufTy).Contents (Elt F) → (⟨S1x1x128, .f32⟩ : BufTy).Contents (Elt F))),
   (StableHlo.reshape main_v33 main_v34 rfl shapeCasts_S1x1x128_S1x128)]

/-- Host operations, stretch 3 of @main. -/
def ops3 : List (HloOp τ sig (Elt F)) :=
  [(StableHlo.reshape main_v36 main_v37 rfl shapeCasts_S320000x128_S32x10000x128),
   (StableHlo.unary main_v14 main_v38 ((extractStridedSlice S1x128x128 ![1, 0, 0] · slices_S5x128x128_S1x128x128_1_0_0) : (⟨S5x128x128, .bf16⟩ : BufTy).Contents (Elt F) → (⟨S1x128x128, .bf16⟩ : BufTy).Contents (Elt F))),
   (StableHlo.reshape main_v38 main_v39 rfl shapeCasts_S1x128x128_S128x128),
   (StableHlo.unary main_v16 main_v40 ((extractStridedSlice S1x128x128 ![1, 0, 0] · slices_S5x128x128_S1x128x128_1_0_0) : (⟨S5x128x128, .bf16⟩ : BufTy).Contents (Elt F) → (⟨S1x128x128, .bf16⟩ : BufTy).Contents (Elt F))),
   (StableHlo.reshape main_v40 main_v41 rfl shapeCasts_S1x128x128_S128x128),
   (StableHlo.unary main_v17 main_v42 ((extractStridedSlice S1x1x128 ![1, 0, 0] · slices_S5x1x128_S1x1x128_1_0_0) : (⟨S5x1x128, .f32⟩ : BufTy).Contents (Elt F) → (⟨S1x1x128, .f32⟩ : BufTy).Contents (Elt F))),
   (StableHlo.reshape main_v42 main_v43 rfl shapeCasts_S1x1x128_S1x128),
   (StableHlo.unary main_v18 main_v44 ((extractStridedSlice S1x1x128 ![1, 0, 0] · slices_S5x1x128_S1x1x128_1_0_0) : (⟨S5x1x128, .f32⟩ : BufTy).Contents (Elt F) → (⟨S1x1x128, .f32⟩ : BufTy).Contents (Elt F))),
   (StableHlo.reshape main_v44 main_v45 rfl shapeCasts_S1x1x128_S1x128),
   (StableHlo.unary main_v19 main_v46 ((extractStridedSlice S1x1x128 ![1, 0, 0] · slices_S5x1x128_S1x1x128_1_0_0) : (⟨S5x1x128, .f32⟩ : BufTy).Contents (Elt F) → (⟨S1x1x128, .f32⟩ : BufTy).Contents (Elt F))),
   (StableHlo.reshape main_v46 main_v47 rfl shapeCasts_S1x1x128_S1x128)]

/-- Host operations, stretch 4 of @main. -/
def ops4 : List (HloOp τ sig (Elt F)) :=
  [(StableHlo.reshape main_v49 main_v50 rfl shapeCasts_S320000x128_S32x10000x128),
   (StableHlo.unary main_v14 main_v51 ((extractStridedSlice S1x128x128 ![2, 0, 0] · slices_S5x128x128_S1x128x128_2_0_0) : (⟨S5x128x128, .bf16⟩ : BufTy).Contents (Elt F) → (⟨S1x128x128, .bf16⟩ : BufTy).Contents (Elt F))),
   (StableHlo.reshape main_v51 main_v52 rfl shapeCasts_S1x128x128_S128x128),
   (StableHlo.unary main_v16 main_v53 ((extractStridedSlice S1x128x128 ![2, 0, 0] · slices_S5x128x128_S1x128x128_2_0_0) : (⟨S5x128x128, .bf16⟩ : BufTy).Contents (Elt F) → (⟨S1x128x128, .bf16⟩ : BufTy).Contents (Elt F))),
   (StableHlo.reshape main_v53 main_v54 rfl shapeCasts_S1x128x128_S128x128),
   (StableHlo.unary main_v17 main_v55 ((extractStridedSlice S1x1x128 ![2, 0, 0] · slices_S5x1x128_S1x1x128_2_0_0) : (⟨S5x1x128, .f32⟩ : BufTy).Contents (Elt F) → (⟨S1x1x128, .f32⟩ : BufTy).Contents (Elt F))),
   (StableHlo.reshape main_v55 main_v56 rfl shapeCasts_S1x1x128_S1x128),
   (StableHlo.unary main_v18 main_v57 ((extractStridedSlice S1x1x128 ![2, 0, 0] · slices_S5x1x128_S1x1x128_2_0_0) : (⟨S5x1x128, .f32⟩ : BufTy).Contents (Elt F) → (⟨S1x1x128, .f32⟩ : BufTy).Contents (Elt F))),
   (StableHlo.reshape main_v57 main_v58 rfl shapeCasts_S1x1x128_S1x128),
   (StableHlo.unary main_v19 main_v59 ((extractStridedSlice S1x1x128 ![2, 0, 0] · slices_S5x1x128_S1x1x128_2_0_0) : (⟨S5x1x128, .f32⟩ : BufTy).Contents (Elt F) → (⟨S1x1x128, .f32⟩ : BufTy).Contents (Elt F))),
   (StableHlo.reshape main_v59 main_v60 rfl shapeCasts_S1x1x128_S1x128)]

/-- Host operations, stretch 5 of @main. -/
def ops5 : List (HloOp τ sig (Elt F)) :=
  [(StableHlo.reshape main_v62 main_v63 rfl shapeCasts_S320000x128_S32x10000x128),
   (StableHlo.unary main_v14 main_v64 ((extractStridedSlice S1x128x128 ![3, 0, 0] · slices_S5x128x128_S1x128x128_3_0_0) : (⟨S5x128x128, .bf16⟩ : BufTy).Contents (Elt F) → (⟨S1x128x128, .bf16⟩ : BufTy).Contents (Elt F))),
   (StableHlo.reshape main_v64 main_v65 rfl shapeCasts_S1x128x128_S128x128),
   (StableHlo.unary main_v16 main_v66 ((extractStridedSlice S1x128x128 ![3, 0, 0] · slices_S5x128x128_S1x128x128_3_0_0) : (⟨S5x128x128, .bf16⟩ : BufTy).Contents (Elt F) → (⟨S1x128x128, .bf16⟩ : BufTy).Contents (Elt F))),
   (StableHlo.reshape main_v66 main_v67 rfl shapeCasts_S1x128x128_S128x128),
   (StableHlo.unary main_v17 main_v68 ((extractStridedSlice S1x1x128 ![3, 0, 0] · slices_S5x1x128_S1x1x128_3_0_0) : (⟨S5x1x128, .f32⟩ : BufTy).Contents (Elt F) → (⟨S1x1x128, .f32⟩ : BufTy).Contents (Elt F))),
   (StableHlo.reshape main_v68 main_v69 rfl shapeCasts_S1x1x128_S1x128),
   (StableHlo.unary main_v18 main_v70 ((extractStridedSlice S1x1x128 ![3, 0, 0] · slices_S5x1x128_S1x1x128_3_0_0) : (⟨S5x1x128, .f32⟩ : BufTy).Contents (Elt F) → (⟨S1x1x128, .f32⟩ : BufTy).Contents (Elt F))),
   (StableHlo.reshape main_v70 main_v71 rfl shapeCasts_S1x1x128_S1x128),
   (StableHlo.unary main_v19 main_v72 ((extractStridedSlice S1x1x128 ![3, 0, 0] · slices_S5x1x128_S1x1x128_3_0_0) : (⟨S5x1x128, .f32⟩ : BufTy).Contents (Elt F) → (⟨S1x1x128, .f32⟩ : BufTy).Contents (Elt F))),
   (StableHlo.reshape main_v72 main_v73 rfl shapeCasts_S1x1x128_S1x128)]

/-- Host operations, stretch 6 of @main. -/
def ops6 : List (HloOp τ sig (Elt F)) :=
  [(StableHlo.reshape main_v75 main_v76 rfl shapeCasts_S320000x128_S32x10000x128),
   (StableHlo.unary main_v14 main_v77 ((extractStridedSlice S1x128x128 ![4, 0, 0] · slices_S5x128x128_S1x128x128_4_0_0) : (⟨S5x128x128, .bf16⟩ : BufTy).Contents (Elt F) → (⟨S1x128x128, .bf16⟩ : BufTy).Contents (Elt F))),
   (StableHlo.reshape main_v77 main_v78 rfl shapeCasts_S1x128x128_S128x128),
   (StableHlo.unary main_v16 main_v79 ((extractStridedSlice S1x128x128 ![4, 0, 0] · slices_S5x128x128_S1x128x128_4_0_0) : (⟨S5x128x128, .bf16⟩ : BufTy).Contents (Elt F) → (⟨S1x128x128, .bf16⟩ : BufTy).Contents (Elt F))),
   (StableHlo.reshape main_v79 main_v80 rfl shapeCasts_S1x128x128_S128x128),
   (StableHlo.unary main_v17 main_v81 ((extractStridedSlice S1x1x128 ![4, 0, 0] · slices_S5x1x128_S1x1x128_4_0_0) : (⟨S5x1x128, .f32⟩ : BufTy).Contents (Elt F) → (⟨S1x1x128, .f32⟩ : BufTy).Contents (Elt F))),
   (StableHlo.reshape main_v81 main_v82 rfl shapeCasts_S1x1x128_S1x128),
   (StableHlo.unary main_v18 main_v83 ((extractStridedSlice S1x1x128 ![4, 0, 0] · slices_S5x1x128_S1x1x128_4_0_0) : (⟨S5x1x128, .f32⟩ : BufTy).Contents (Elt F) → (⟨S1x1x128, .f32⟩ : BufTy).Contents (Elt F))),
   (StableHlo.reshape main_v83 main_v84 rfl shapeCasts_S1x1x128_S1x128),
   (StableHlo.unary main_v19 main_v85 ((extractStridedSlice S1x1x128 ![4, 0, 0] · slices_S5x1x128_S1x1x128_4_0_0) : (⟨S5x1x128, .f32⟩ : BufTy).Contents (Elt F) → (⟨S1x1x128, .f32⟩ : BufTy).Contents (Elt F))),
   (StableHlo.reshape main_v85 main_v86 rfl shapeCasts_S1x1x128_S1x128)]

/-- @main's items, in order. -/
def mainItems (d : Dev nD) : List (Prog (TpuEff nD τ sig (Elt F) (SparseCore.Sig (Pipeline.Sig Λ₀ (Fin 6) fun p => (pcfgs (F := F) p).Adm) 6) .tc) PUnit) :=
  [StableHlo.seq (ops0 (F := F)),
   (sc (F := F)).run d 0,
   StableHlo.seq (ops1 (F := F)),
   Prog.lift (.customCall (SparseCore.inner (Pipeline.entry 0)) ()),
   (sc (F := F)).run d 1,
   StableHlo.seq (ops2 (F := F)),
   Prog.lift (.customCall (SparseCore.inner (Pipeline.entry 1)) ()),
   (sc (F := F)).run d 2,
   StableHlo.seq (ops3 (F := F)),
   Prog.lift (.customCall (SparseCore.inner (Pipeline.entry 2)) ()),
   (sc (F := F)).run d 3,
   StableHlo.seq (ops4 (F := F)),
   Prog.lift (.customCall (SparseCore.inner (Pipeline.entry 3)) ()),
   (sc (F := F)).run d 4,
   StableHlo.seq (ops5 (F := F)),
   Prog.lift (.customCall (SparseCore.inner (Pipeline.entry 4)) ()),
   (sc (F := F)).run d 5,
   StableHlo.seq (ops6 (F := F)),
   Prog.lift (.customCall (SparseCore.inner (Pipeline.entry 5)) ())]

set_option maxHeartbeats 40000000 in
set_option maxRecDepth 65536 in
/-- @main is the chain of its items. -/
theorem main_chain (d : Dev nD) : main (F := F) d = Pipeline.chain (mainItems (F := F) d) := by
  chain_rfl

end Cert.Kernel.MainChain

end
-- ==== Proof.StepsB.lean ====
/-
  The TensorCore between two items of @main: its arrays held whole at a valuation, its handshake state, the ghost state of the pipelines still to run; and the step through a stretch of host operations.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.MainChainB

noncomputable section

namespace Cert.Proof.StepsB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Kernel.MainChain
open Idealize.ShloMosaic.StableHlo (nullary unary binary ternary reshape nullary_bufs unary_bufs binary_bufs ternary_bufs reshape_bufs)

variable {F : FTy → Type}

local notation "𝕄" => MT nD τ sig (HIx 6) (Elt F) ℕ UU ℕ

/-! ## The TensorCore's arrays, held whole -/

/-- Every array of @main that no region reassigns, as a device reference. -/
def SS : Finset (DevRef τ sig) := (Finset.univ.filter fun b : Ref sig .tc => ¬ b.isScoped).image (Proc.devRef (τ := τ) .tc)

theorem mem_SS {b : Ref sig .tc} (h : b.isScoped = false) : Proc.devRef (τ := τ) .tc b ∈ SS :=
  Finset.mem_image.mpr ⟨b, Finset.mem_filter.mpr ⟨Finset.mem_univ _, by rw [h]; exact Bool.false_ne_true⟩, rfl⟩

section Subs
variable {Val : EltTy → Type}
variable {x y a b c : Ref sig .tc}

theorem nullary_sub (hy' : y.isScoped = false) {v : y.ty.Contents Val} {hy} :
    (nullary (τ := τ) y v hy).bufs ⊆ SS := by
  rw [nullary_bufs]; exact Finset.singleton_subset_iff.mpr (mem_SS hy')
theorem unary_sub (hx' : x.isScoped = false) (hy' : y.isScoped = false) {f : x.ty.Contents Val → y.ty.Contents Val} {hx hy} :
    (unary (τ := τ) x y f hx hy).bufs ⊆ SS := by
  rw [unary_bufs]; exact Finset.insert_subset (mem_SS hx') (Finset.singleton_subset_iff.mpr (mem_SS hy'))
theorem reshape_sub (hx' : x.isScoped = false) (hy' : y.isScoped = false) {he hn hx hy} :
    (reshape (τ := τ) (Val := Val) x y he hn hx hy).bufs ⊆ SS := by
  rw [reshape_bufs]; exact Finset.insert_subset (mem_SS hx') (Finset.singleton_subset_iff.mpr (mem_SS hy'))
theorem binary_sub (ha' : a.isScoped = false) (hb' : b.isScoped = false) (hy' : y.isScoped = false)
    {f : a.ty.Contents Val → b.ty.Contents Val → y.ty.Contents Val} {ha hb hy} :
    (binary (τ := τ) a b y f ha hb hy).bufs ⊆ SS := by
  rw [binary_bufs]; exact Finset.insert_subset (mem_SS ha') (Finset.insert_subset (mem_SS hb') (Finset.singleton_subset_iff.mpr (mem_SS hy')))
theorem ternary_sub (hc' : c.isScoped = false) (ha' : a.isScoped = false) (hb' : b.isScoped = false) (hy' : y.isScoped = false)
    {f : c.ty.Contents Val → a.ty.Contents Val → b.ty.Contents Val → y.ty.Contents Val} {hc ha hb hy} :
    (ternary (τ := τ) c a b y f hc ha hb hy).bufs ⊆ SS := by
  rw [ternary_bufs]
  exact Finset.insert_subset (mem_SS hc') (Finset.insert_subset (mem_SS ha') (Finset.insert_subset (mem_SS hb') (Finset.singleton_subset_iff.mpr (mem_SS hy'))))
end Subs

variable [FloatOps F]

/-! ## The stretches of host operations touch only those arrays, and allocate nothing -/

set_option maxRecDepth 8192 in
theorem ops0_sub : (ops0 (F := F)).Forall fun op => op.bufs ⊆ SS :=
  ⟨nullary_sub (by decide),
   unary_sub (by decide) (by decide),
   nullary_sub (by decide),
   unary_sub (by decide) (by decide),
   ternary_sub (by decide) (by decide) (by decide) (by decide),
   unary_sub (by decide) (by decide),
   reshape_sub (by decide) (by decide),
   nullary_sub (by decide),
   unary_sub (by decide) (by decide),
   nullary_sub (by decide),
   unary_sub (by decide) (by decide),
   ternary_sub (by decide) (by decide) (by decide) (by decide),
   reshape_sub (by decide) (by decide),
   nullary_sub (by decide),
   unary_sub (by decide) (by decide),
   nullary_sub (by decide),
   unary_sub (by decide) (by decide),
   ternary_sub (by decide) (by decide) (by decide) (by decide),
   unary_sub (by decide) (by decide),
   unary_sub (by decide) (by decide),
   unary_sub (by decide) (by decide),
   unary_sub (by decide) (by decide),
   unary_sub (by decide) (by decide),
   reshape_sub (by decide) (by decide),
   reshape_sub (by decide) (by decide),
   reshape_sub (by decide) (by decide)⟩
theorem ops0_fresh : ∀ op ∈ ops0 (F := F), op.fresh = ∅ := by
  intro _ h; (repeat (cases h with | head => rfl | tail _ h => ?_)); exact nomatch h

set_option maxRecDepth 8192 in
theorem ops1_sub : (ops1 (F := F)).Forall fun op => op.bufs ⊆ SS :=
  reshape_sub (by decide) (by decide)
theorem ops1_fresh : ∀ op ∈ ops1 (F := F), op.fresh = ∅ := by
  intro _ h; (repeat (cases h with | head => rfl | tail _ h => ?_)); exact nomatch h

set_option maxRecDepth 8192 in
theorem ops2_sub : (ops2 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops2_fresh : ∀ op ∈ ops2 (F := F), op.fresh = ∅ := by
  intro _ h; (repeat (cases h with | head => rfl | tail _ h => ?_)); exact nomatch h

set_option maxRecDepth 8192 in
theorem ops3_sub : (ops3 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops3_fresh : ∀ op ∈ ops3 (F := F), op.fresh = ∅ := by
  intro _ h; (repeat (cases h with | head => rfl | tail _ h => ?_)); exact nomatch h

set_option maxRecDepth 8192 in
theorem ops4_sub : (ops4 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops4_fresh : ∀ op ∈ ops4 (F := F), op.fresh = ∅ := by
  intro _ h; (repeat (cases h with | head => rfl | tail _ h => ?_)); exact nomatch h

set_option maxRecDepth 8192 in
theorem ops5_sub : (ops5 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops5_fresh : ∀ op ∈ ops5 (F := F), op.fresh = ∅ := by
  intro _ h; (repeat (cases h with | head => rfl | tail _ h => ?_)); exact nomatch h

set_option maxRecDepth 8192 in
theorem ops6_sub : (ops6 (F := F)).Forall fun op => op.bufs ⊆ SS :=
  ⟨reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide),
   unary_sub (by decide) (by decide),
   reshape_sub (by decide) (by decide)⟩
theorem ops6_fresh : ∀ op ∈ ops6 (F := F), op.fresh = ∅ := by
  intro _ h; (repeat (cases h with | head => rfl | tail _ h => ?_)); exact nomatch h

end Cert.Proof.StepsB

end
-- ==== Proof.Steps2B.lean ====
/-
  Steps of @main on the TensorCore: a stretch of host operations, a TensorCore region entered through the lifted body table.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.MainChainB
import proofs.«205547_g25623774888366_cont_9to1_713_27_alg».proof.Proof.StepsB

noncomputable section

namespace Cert.Proof.Steps2B

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Proof.StepsB Cert.Kernel.MainChain

variable {F : FTy → Type} [FloatOps F]

local notation "𝕄" => MT nD τ sig (HIx 6) (Elt F) ℕ UU ℕ
/-- The body table the threads run under: the kernels', the pipelines' and the calls' dispatch. -/
abbrev DD : Defs nD τ sig (Elt F) (SparseCore.Sig (ΛP (F := F)) 6) := (K (F := F)).defs (D (F := F))

variable (Vc : Fin 6 → Dev nD → Valuation τ sig (Elt F))

/-- The staging cells' ghost state of the pipelines still to run on device `d`. -/
def Ghost (Ps : Finset (Fin 6)) (d : Dev nD) : sProp 𝕄 :=
  bigSep Ps fun p => iprop(Pipeline.cellsGhost (Pipeline.pin (pcfgs (F := F)) adm) EP p d ∗ Pipeline.toksInit (Pipeline.pin (pcfgs (F := F)) adm) EP p d)

/-- The TensorCore of `d` between two items of @main: the region boundary, its arrays whole at the valuation `V`, its
    handshake state before call `n`, the ghost state of the pipelines `Ps`. -/
def St (d : Dev nD) (n : ℕ) (V : Valuation τ sig (Elt F)) (Ps : Finset (Fin 6)) : sProp 𝕄 :=
  iprop(boundary (T d) ∗ (held (T d) SS V : sProp 𝕄) ∗ (K (F := F)).tcSt EH d n ∗ Ghost (F := F) Ps d)

/-- A stretch of host operations moves the valuation to the fold of the operations' results. -/
theorem host_step (d : Dev nD) (n : ℕ) (V : Valuation τ sig (Elt F)) (Ps : Finset (Fin 6)) (ops : List (HloOp τ sig (Elt F)))
    (hS : ops.Forall fun op => op.bufs ⊆ SS) (hf : ∀ op ∈ ops, op.fresh = ∅)
    {β : Type} (k : PUnit → Prog (TpuEff nD τ sig (Elt F) (SparseCore.Sig (ΛP (F := F)) 6) .tc) β) (Q : β → sProp 𝕄) :
    iprop(St (F := F) d n V Ps ∗ (St (F := F) d n (after ops V) Ps -∗ wp frame (wpE (DD (F := F)) 𝒱 (T d) none) Set.univ (k ⟨⟩) Q))
      ⊢ wp frame (wpE (DD (F := F)) 𝒱 (T d) none) Set.univ (seq ops >>= k) Q := by
  unfold St
  iintro ⟨⟨Hb, Hh, Hst, Hg⟩, Hk⟩
  iapply (wp_seq 𝒱 none Set.univ d SS k ops (List.forall_iff_forall_mem.mp hS) hf V) $$ [Hb Hh]
  · isplitl [Hb] <;> iassumption
  iintro ⟨Hb, Hh⟩
  iapply Hk
  isplitl [Hb]; · iexact Hb
  isplitl [Hh]; · iexact Hh
  isplitl [Hst] <;> iassumption

end Cert.Proof.Steps2B

end
-- ==== Proof.RegionB.lean ====
/-
  A TensorCore region of @main, entered in the middle of the SparseCore program: the region's record from a pipeline's proof data, and the step through it.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.StepsB
import proofs.«205547_g25623774888366_cont_9to1_713_27_alg».proof.Proof.Steps2B

noncomputable section

namespace Cert.Proof.RegionB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Proof.StepsB Cert.Proof.Steps2B

variable {F : FTy → Type} [FloatOps F]

local notation "𝕄" => MT nD τ sig (HIx 6) (Elt F) ℕ UU ℕ

/-- A valuation read at the TensorCore's references of device `c`. -/
abbrev VW (V : Valuation τ sig (Elt F)) (c : Dev nD) (b : Ref sig .tc) : Buf (Elt F) ((c.tc : Thread nD τ).loc b) := V (Proc.devRef .tc b)

/-- The arrays held whole at a valuation are the TensorCore's unscoped buffers at it. -/
theorem held_unscoped (d : Dev nD) (V : Valuation τ sig (Elt F)) :
    (held (T d) SS V : sProp 𝕄) = unscopedBufs d (VW V d) := by
  unfold unscopedBufs held SS
  rw [SparseCore.bigSep_image_of_injOn (fun a _ b _ e => Proc.devRef_injective _ e)]

/-- The wait pairs the TensorCore may have recorded before call `n`: those at or below level `8 n`. -/
def Rn (c : Dev nD) (n : ℕ) : Set (SemLoc sig × HIx 6) := {x | (K (F := F)).lev ((T c : Thread nD τ), x.1) x.2 ≤ 8 * n}

/-- The TensorCore's handshake state before call `n` but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

variable (pdats : (p : Fin 6) → (c : Dev nD) → Pipeline.Dat τ (Elt F) (HIx 6) ℕ UU ℕ (Pipeline.pin (pcfgs (F := F)) adm p) c)

/-- What the launch asks of pipeline `p`'s proof data, entered before call `n` with the arrays at `V`, left with them at `V'`. -/
structure RegHyps (p : Fin 6) (n : ℕ) (V V' : Dev nD → Valuation τ sig (Elt F)) : Prop where
  lf : Pipeline.LaunchFacts (nD := nD) (τ := τ) cfgs p
  hA : ∀ c w, (pdats p c).A w = VW (V c) c (Pipeline.arrRef (pcfgs (F := F) p).spec w)
  hF : ∀ c w, (pdats p c).arrAt w (Pipeline.pin (pcfgs (F := F)) adm p).N = VW (V' c) c (Pipeline.arrRef (pcfgs (F := F) p).spec w)
  hrest : ∀ c (b : Ref sig .tc), b ∉ Finset.univ.image (Pipeline.arrRef (pcfgs (F := F) p).spec) → V' c (Proc.devRef .tc b) = V c (Proc.devRef .tc b)
  hΦ : ∀ c t, (pdats p c).Φ t = Pipeline.scopedRest (pcfgs (F := F) p).spec c
  hq : ∀ c w, (pdats p c).q w = fullShare
  howed : ∀ c t, (pdats p c).owed t = (K (F := F)).Otc c n
  hrec : ∀ c t, (pdats p c).recorded t = Rn (F := F) c n
  hbody : ∀ c, Pipeline.BodyObligationLoose (pdats p c) (defs₀ (F := F)) 𝒱₀ (none : HIx 6) Set.univ

variable {pdats}

/-- The region's record: the arrays into the pipeline and back, every other unscoped buffer and the handshake state
    bypassing, the TensorCore owing its later start signals throughout. -/
def mkReg {p : Fin 6} {n : ℕ} {V V' : Dev nD → Valuation τ sig (Elt F)} (h : RegHyps pdats p n V V') :
    Pipeline.RegionSeg (pcfgs (F := F)) adm pdats (none : HIx 6) (defs₀ (F := F)) 𝒱₀ (K (F := F)).L (K (F := F)).lev p where
  win := h.lf.win.to₀
  block_pos := h.lf.block_pos
  stage_whole := h.lf.stage_whole
  K := PEmpty
  osem k := k.elim
  ho := Pipeline.OwnSemFacts.none _
  hbody := h.hbody
  hwaits c := Pipeline.cellsWaits_of_cut _ pdats (none : HIx 6) p c (lev := (K (F := F)).lev) 0 ((K (F := F)).Otc c n) (h.howed c)
    (fun _ _ => Finset.mem_univ _) (fun _ _ => le_of_eq ((K (F := F)).lev_none _))
    (fun g i hg => ⟨Finset.mem_univ _, by have := (K (F := F)).lev_of_Otc_pos hg; omega⟩)
  pre c := iprop(unscopedBufs c (VW (V c) c) ∗ (K (F := F)).tcSt EH c n)
  post c := iprop(unscopedBufs c (VW (V' c) c) ∗ (K (F := F)).tcSt EH c n)
  X _ := iprop(emp)
  Y _ := iprop(emp)
  Z c := iprop(Pipeline.unscopedRest (Ix := HIx 6) (Name := ℕ) (U := UU) (Lvl := ℕ) (pcfgs (F := F) p).spec c (VW (V c) c) ∗ tcRest (F := F) c n)
  hentry c := by
    rw [Pipeline.ownSems0_none, tcSt_eq]
    have hsplit := Pipeline.arrays_of_unscopedBufs (pcfgs (F := F)) adm pdats h.lf.win h.lf.arr_whole c
      ((pdats p c).share_full (h.hq c)) (VW (V c) c) (h.hA c)
    iintro ⟨⟨Hub, ⟨%W, %hW, HO⟩, Hrest⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; intro x hx; exact Or.inl (by rw [h.hrec c]; exact hW x hx)
      rw [h.howed c]; iexact HO
    isplitr; · iempintro
    isplitl [Hr] <;> iassumption
  hin c := by rw [h.hΦ c]; iintro ⟨-, -, H⟩; iexact H
  hout c := by
    rw [h.hΦ c, Pipeline.ownSems0_none]
    iintro H; isplitr; · iempintro
    isplitr; · iempintro
    iexact H
  hexit c := by
    rw [tcSt_eq, Pipeline.unscopedBufs_split (Pipeline.pin (pcfgs (F := F)) adm) p h.lf.win.arr_unscoped h.lf.win.arr_inj c (VW (V' c) c),
      Pipeline.arrays_eq (Pipeline.pin (pcfgs (F := F)) adm) pdats p c h.lf.arr_whole ((pdats p c).share_full (h.hq c))]
    iintro ⟨Ha, HO, -, Hr, Hrest⟩
    imodintro
    isplitl [Ha Hr]
    · isplitl [Ha]
      · iapply (Entails.of_eq (show (bigSep Finset.univ fun w => (((c.tc : Thread nD τ).loc (Pipeline.arrRef (Pipeline.pin (pcfgs (F := F)) adm p).spec w)) ↦{fullShare} (pdats p c).arrAt w (Pipeline.pin (pcfgs (F := F)) adm p).N : sProp 𝕄))
            = bigSep Finset.univ fun w => (((c.tc : Thread nD τ).loc (Pipeline.arrRef (Pipeline.pin (pcfgs (F := F)) adm p).spec w)) ↦{fullShare} VW (V' c) c (Pipeline.arrRef (Pipeline.pin (pcfgs (F := F)) adm p).spec w) : sProp 𝕄)
          from bigSep_congr fun w _ => by rw [h.hF c w]))
        iexact Ha
      · iapply (Entails.of_eq (show (Pipeline.unscopedRest (Ix := HIx 6) (Name := ℕ) (U := UU) (Lvl := ℕ) (pcfgs (F := F) p).spec c (VW (V c) c) : sProp 𝕄)
            = Pipeline.unscopedRest (pcfgs (F := F) p).spec c (VW (V' c) c) from by
          unfold Pipeline.unscopedRest
          exact bigSep_congr fun b hb => by rw [VW, VW, h.hrest c b (Finset.mem_sdiff.mp hb).2]))
        iexact Hr
    isplitl [HO]
    · unfold Pipeline.Dat.owesAt Pipeline.owesWithin
      icases HO with ⟨%W, %hW, HO⟩
      iexists W; isplitr
      · ipureintro; intro x hx
        rcases hW hx with h1 | h2
        · rw [h.hrec c] at h1; exact h1
        · obtain ⟨w, s, rfl⟩ := h2
          show (K (F := F)).lev _ none ≤ _
          rw [(K (F := F)).lev_none]; exact Nat.zero_le _
      rw [h.howed c]; iexact HO
    iexact Hrest

set_option backward.isDefEq.respectTransparency.types false in
set_option maxHeartbeats 1600000 in
/-- The region entered from the lifted body table: the pipeline's region rule, the call's continuation run after it. -/
theorem region_enter {p : Fin 6} (R : Pipeline.RegionSeg (pcfgs (F := F)) adm pdats (none : HIx 6) (defs₀ (F := F)) 𝒱₀ (K (F := F)).L (K (F := F)).lev p)
    (d : Dev nD) {β : Type} (k : PUnit → Prog (TpuEff nD τ sig (Elt F) (SparseCore.Sig (ΛP (F := F)) 6) .tc) β) (Q : β → sProp 𝕄) :
    iprop((levAts (K (F := F)).L (K (F := F)).lev : sProp 𝕄) ∗ boundary (T d) ∗ R.pre d
        ∗ Pipeline.cellsGhost (Pipeline.pin (pcfgs (F := F)) adm) EP p d ∗ Pipeline.toksInit (Pipeline.pin (pcfgs (F := F)) adm) EP p d
        ∗ (iprop(boundary (T d) ∗ R.post d) -∗ wp frame (wpE (DD (F := F)) 𝒱 (T d) none) Set.univ (k ⟨⟩) Q))
      ⊢ wp frame (wpE (DD (F := F)) 𝒱 (T d) none) Set.univ
          (Prog.lift (.customCall (SparseCore.inner (Pipeline.entry p)) ()) >>= k) Q := by
  rw [wp_bind]
  refine BIBase.Entails.trans ?_ ((K (F := F)).wp_liftProg (D (F := F)) 𝒱 (T d) Set.univ none (Prog.lift (.customCall (Pipeline.entry p) ())) _)
  have hR := Pipeline.RegionSeg.wp (pcfgs (F := F)) adm pdats (none : HIx 6) cellOf_inj EP (defs₀ (F := F)) 𝒱₀ (K (F := F)).L (K (F := F)).lev R d none
    (fun u hu => nomatch hu) (fun _ => (.ret PUnit.unit : Prog (TpuEff nD τ sig (Elt F) (ΛP (F := F)) .tc) PUnit)) (fun _ => wp frame (wpE (DD (F := F)) 𝒱 (T d) none) Set.univ (k ⟨⟩) Q)
  refine BIBase.Entails.trans ?_ hR
  iintro ⟨#Hlev, Hb, Hpre, Hg, Ht, Hk⟩
  isplitl [Hk]
  · iintro H
    rw [wp_ret]; imodintro
    iapply Hk; iexact H
  isplitl [Hb]; · iexact Hb
  isplitl [Hpre]; · iexact Hpre
  isplitr; · iexact Hlev
  isplitl [Hg] <;> iassumption

theorem mkReg_pre {p : Fin 6} {n : ℕ} {V V' : Dev nD → Valuation τ sig (Elt F)} (h : RegHyps pdats p n V V') (d : Dev nD) :
    (mkReg h).pre d = iprop(unscopedBufs d (VW (V d) d) ∗ (K (F := F)).tcSt EH d n) := rfl
theorem mkReg_post {p : Fin 6} {n : ℕ} {V V' : Dev nD → Valuation τ sig (Elt F)} (h : RegHyps pdats p n V V') (d : Dev nD) :
    (mkReg h).post d = iprop(unscopedBufs d (VW (V' d) d) ∗ (K (F := F)).tcSt EH d n) := rfl

theorem Ghost_erase {Ps : Finset (Fin 6)} {p : Fin 6} (hp : p ∈ Ps) (d : Dev nD) :
    (Ghost (F := F) Ps d : sProp 𝕄)
      = iprop((Pipeline.cellsGhost (Pipeline.pin (pcfgs (F := F)) adm) EP p d ∗ Pipeline.toksInit (Pipeline.pin (pcfgs (F := F)) adm) EP p d) ∗ Ghost (F := F) (Ps.erase p) d) := by
  unfold Ghost; exact bigSep_erase hp

/-- A region as a step of @main: the arrays move from `V` to `V'`, the handshake state stays, the pipeline's ghost
    state is spent. -/
theorem region_step {p : Fin 6} {n : ℕ} {V V' : Dev nD → Valuation τ sig (Elt F)} (h : RegHyps pdats p n V V')
    (d : Dev nD) (Ps : Finset (Fin 6)) (hp : p ∈ Ps)
    {β : Type} (k : PUnit → Prog (TpuEff nD τ sig (Elt F) (SparseCore.Sig (ΛP (F := F)) 6) .tc) β) (Q : β → sProp 𝕄) :
    iprop((levAts (K (F := F)).L (K (F := F)).lev : sProp 𝕄) ∗ St (F := F) d n (V d) Ps
        ∗ (St (F := F) d n (V' d) (Ps.erase p) -∗ wp frame (wpE (DD (F := F)) 𝒱 (T d) none) Set.univ (k ⟨⟩) Q))
      ⊢ wp frame (wpE (DD (F := F)) 𝒱 (T d) none) Set.univ
          (Prog.lift (.customCall (SparseCore.inner (Pipeline.entry p)) ()) >>= k) Q := by
  unfold St
  rw [held_unscoped, held_unscoped]
  refine BIBase.Entails.trans ?_ (region_enter (mkReg h) d k Q)
  iintro ⟨#Hlev, ⟨Hb, Hub, Hst, HG⟩, Hk⟩
  ihave HG' := (Entails.of_eq (Ghost_erase (F := F) hp d)) $$ HG
  icases HG' with ⟨⟨Hg, Ht⟩, Hrest⟩
  isplitr; · iexact Hlev
  isplitl [Hb]; · iexact Hb
  isplitl [Hub Hst]
  · iapply (Entails.of_eq (mkReg_pre h d).symm)
    isplitl [Hub] <;> iassumption
  isplitl [Hg]; · iexact Hg
  isplitl [Ht]; · iexact Ht
  iintro ⟨Hb, Hpost⟩
  ihave Hpost' := (Entails.of_eq (mkReg_post h d)) $$ Hpost
  icases Hpost' with ⟨Hub, Hst⟩
  iapply Hk
  isplitl [Hb]; · iexact Hb
  isplitl [Hub]; · iexact Hub
  isplitl [Hst] <;> iassumption

end Cert.Proof.RegionB

end
-- ==== Proof.SoftmaxBodyB.lean ====
import proofs.«205547_g25623774888366_cont_9to1_713_27_alg».proof.Proof.Gen.Kernel.Launch
import proofs.«205547_g25623774888366_cont_9to1_713_27_alg».proof.Proof.Gen.Kernel.Skeleton
import proofs.«205547_g25623774888366_cont_9to1_713_27_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.SoftmaxBodyB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the body computes

The edge-softmax body reads, for each of the 32 neighbours `k`, block `k` of the gathered neighbour coordinates
(`x0`), the centre coordinates (`x1`), three rows of the first layer's weights (`x2`), its bias (`x3`) and the second
layer's weights (`x4`); column `k` of the logits is the second layer applied to the exact GELU of the first layer at
the coordinate differences. The 32 columns are concatenated and each row is normalised by a softmax. Each value below
is the payload the skeleton names, applied to what the loads read (`View.ld`) of the five input blocks. -/

/-- The rectangle of the one store: the whole output block. -/
abbrev rOut1 : Rect S400x32 := Rect.unit (s := S400x32) ![0, 0] S400x32.size inb_S400x32_S400x32_0_0

/-- The 400 x 32 logits: column `k` is the two-layer perceptron at neighbour `k`'s coordinate differences. -/
def logits1 (x0 : Vec F S32x400x128 .f32) (x1 : Vec F S400x128 .f32) (x2 : Vec F S8x64 .f32) (x3 : Vec F S1x64 .f32) (x4 : Vec F S64x8 .bf16) : FVec F S400x32 .f32 :=
  -- neighbour block group 1
  have v0 : Vec F S400x128 .f32 := View.ld x1 (Rect.unit (s := S400x128) ![0, 0] S400x128.size inb_S400x128_S400x128_0_0)
  have v2 : Vec F S1x400x128 .f32 := View.ld x0 (Rect.unit (s := S32x400x128) ![0, 0, 0] S1x400x128.size inb_S32x400x128_S1x400x128_0_0_0)
  have v7 : Vec F S1x64 .f32 := View.ld x2 (Rect.unit (s := S8x64) ![0, 0] S1x64.size inb_S8x64_S1x64_0_0)
  have v15 : Vec F S1x64 .f32 := View.ld x2 (Rect.unit (s := S8x64) ![1, 0] S1x64.size inb_S8x64_S1x64_1_0)
  have v24 : Vec F S1x64 .f32 := View.ld x2 (Rect.unit (s := S8x64) ![2, 0] S1x64.size inb_S8x64_S1x64_2_0)
  have v30 : Vec F S1x64 .f32 := View.ld x3 (Rect.unit (s := S1x64) ![0, 0] S1x64.size inb_S1x64_S1x64_0_0)
  have v1 : FVec F S400x128 .f32 := k1_pay4 v0
  have v42 : FVec F S400x64 .bf16 := k1_pay5 v0 v2 v7 v15 v24 v30
  -- neighbour block group 2
  have v43 : Vec F S64x8 .bf16 := View.ld x4 (Rect.unit (s := S64x8) ![0, 0] S64x8.size inb_S64x8_S64x8_0_0)
  have v47 : Vec F S1x400x128 .f32 := View.ld x0 (Rect.unit (s := S32x400x128) ![1, 0, 0] S1x400x128.size inb_S32x400x128_S1x400x128_1_0_0)
  have v52 : Vec F S1x64 .f32 := View.ld x2 (Rect.unit (s := S8x64) ![0, 0] S1x64.size inb_S8x64_S1x64_0_0)
  have v60 : Vec F S1x64 .f32 := View.ld x2 (Rect.unit (s := S8x64) ![1, 0] S1x64.size inb_S8x64_S1x64_1_0)
  have v69 : Vec F S1x64 .f32 := View.ld x2 (Rect.unit (s := S8x64) ![2, 0] S1x64.size inb_S8x64_S1x64_2_0)
  have v75 : Vec F S1x64 .f32 := View.ld x3 (Rect.unit (s := S1x64) ![0, 0] S1x64.size inb_S1x64_S1x64_0_0)
  have v46 : FVec F S400x1 .f32 := k1_pay6 v42 v43
  have v80 : FVec F S400x64 .f32 := k1_pay8 v1 v47 v52 v60 v69 v75
  have v85 : FVec F S400x64 .f32 := k1_pay9 v1 v47 v52 v60 v69 v75
  -- neighbour block group 3
  have v88 : Vec F S64x8 .bf16 := View.ld x4 (Rect.unit (s := S64x8) ![0, 0] S64x8.size inb_S64x8_S64x8_0_0)
  have v92 : Vec F S1x400x128 .f32 := View.ld x0 (Rect.unit (s := S32x400x128) ![2, 0, 0] S1x400x128.size inb_S32x400x128_S1x400x128_2_0_0)
  have v97 : Vec F S1x64 .f32 := View.ld x2 (Rect.unit (s := S8x64) ![0, 0] S1x64.size inb_S8x64_S1x64_0_0)
  have v105 : Vec F S1x64 .f32 := View.ld x2 (Rect.unit (s := S8x64) ![1, 0] S1x64.size inb_S8x64_S1x64_1_0)
  have v114 : Vec F S1x64 .f32 := View.ld x2 (Rect.unit (s := S8x64) ![2, 0] S1x64.size inb_S8x64_S1x64_2_0)
  have v120 : Vec F S1x64 .f32 := View.ld x3 (Rect.unit (s := S1x64) ![0, 0] S1x64.size inb_S1x64_S1x64_0_0)
  have cst_45 : F .f32 := Scalar.ofBits .f32 0x3F800000#32
  have v91 : FVec F S400x1 .f32 := k1_pay10 v80 v85 v88
  have v125 : FVec F S400x64 .f32 := k1_pay12 v1 v92 v97 v105 v114 v120
  have v128 : FVec F S400x64 .f32 := k1_pay13 v1 v92 v97 v105 v114 v120
  -- neighbour block group 4
  have v133 : Vec F S64x8 .bf16 := View.ld x4 (Rect.unit (s := S64x8) ![0, 0] S64x8.size inb_S64x8_S64x8_0_0)
  have v137 : Vec F S1x400x128 .f32 := View.ld x0 (Rect.unit (s := S32x400x128) ![3, 0, 0] S1x400x128.size inb_S32x400x128_S1x400x128_3_0_0)
  have v142 : Vec F S1x64 .f32 := View.ld x2 (Rect.unit (s := S8x64) ![0, 0] S1x64.size inb_S8x64_S1x64_0_0)
  have v150 : Vec F S1x64 .f32 := View.ld x2 (Rect.unit (s := S8x64) ![1, 0] S1x64.size inb_S8x64_S1x64_1_0)
  have v159 : Vec F S1x64 .f32 := View.ld x2 (Rect.unit (s := S8x64) ![2, 0] S1x64.size inb_S8x64_S1x64_2_0)
  have v165 : Vec F S1x64 .f32 := View.ld x3 (Rect.unit (s := S1x64) ![0, 0] S1x64.size inb_S1x64_S1x64_0_0)
  have v136 : FVec F S400x1 .f32 := k1_pay14 v125 v128 cst_45 v133
  have v170 : FVec F S400x64 .f32 := k1_pay16 v1 v137 v142 v150 v159 v165
  have v172 : FVec F S400x64 .f32 := k1_pay17 v1 v137 v142 v150 v159 v165
  -- neighbour block group 5
  have v178 : Vec F S64x8 .bf16 := View.ld x4 (Rect.unit (s := S64x8) ![0, 0] S64x8.size inb_S64x8_S64x8_0_0)
  have v182 : Vec F S1x400x128 .f32 := View.ld x0 (Rect.unit (s := S32x400x128) ![4, 0, 0] S1x400x128.size inb_S32x400x128_S1x400x128_4_0_0)
  have v187 : Vec F S1x64 .f32 := View.ld x2 (Rect.unit (s := S8x64) ![0, 0] S1x64.size inb_S8x64_S1x64_0_0)
  have v195 : Vec F S1x64 .f32 := View.ld x2 (Rect.unit (s := S8x64) ![1, 0] S1x64.size inb_S8x64_S1x64_1_0)
  have v204 : Vec F S1x64 .f32 := View.ld x2 (Rect.unit (s := S8x64) ![2, 0] S1x64.size inb_S8x64_S1x64_2_0)
  have v210 : Vec F S1x64 .f32 := View.ld x3 (Rect.unit (s := S1x64) ![0, 0] S1x64.size inb_S1x64_S1x64_0_0)
  have cst_76 : F .f32 := Scalar.ofBits .f32 0x3F3504F3#32
  have v181 : FVec F S400x1 .f32 := k1_pay18 v170 v172 v178
  have v213 : FVec F S400x64 .f32 := k1_pay19 v1 v182 v187 v195 v204 v210
  have v215 : FVec F S400x64 .f32 := k1_pay20 v1 v182 v187 v195 v204 v210
  -- neighbour block group 6
  have v223 : Vec F S64x8 .bf16 := View.ld x4 (Rect.unit (s := S64x8) ![0, 0] S64x8.size inb_S64x8_S64x8_0_0)
  have v227 : Vec F S1x400x128 .f32 := View.ld x0 (Rect.unit (s := S32x400x128) ![5, 0, 0] S1x400x128.size inb_S32x400x128_S1x400x128_5_0_0)
  have v232 : Vec F S1x64 .f32 := View.ld x2 (Rect.unit (s := S8x64) ![0, 0] S1x64.size inb_S8x64_S1x64_0_0)
  have v240 : Vec F S1x64 .f32 := View.ld x2 (Rect.unit (s := S8x64) ![1, 0] S1x64.size inb_S8x64_S1x64_1_0)
  have v249 : Vec F S1x64 .f32 := View.ld x2 (Rect.unit (s := S8x64) ![2, 0] S1x64.size inb_S8x64_S1x64_2_0)
  have v255 : Vec F S1x64 .f32 := View.ld x3 (Rect.unit (s := S1x64) ![0, 0] S1x64.size inb_S1x64_S1x64_0_0)
  have v226 : FVec F S400x1 .f32 := k1_pay21 v213 v215 cst_76 v223
  have v258 : FVec F S400x64 .f32 := k1_pay22 v1 v227 v232 v240 v249 v255
  have v259 : FVec F S400x64 .f32 := k1_pay23 (F := F)
  -- neighbour block group 7
  have v268 : Vec F S64x8 .bf16 := View.ld x4 (Rect.unit (s := S64x8) ![0, 0] S64x8.size inb_S64x8_S64x8_0_0)
  have v272 : Vec F S1x400x128 .f32 := View.ld x0 (Rect.unit (s := S32x400x128) ![6, 0, 0] S1x400x128.size inb_S32x400x128_S1x400x128_6_0_0)
  have v277 : Vec F S1x64 .f32 := View.ld x2 (Rect.unit (s := S8x64) ![0, 0] S1x64.size inb_S8x64_S1x64_0_0)
  have v285 : Vec F S1x64 .f32 := View.ld x2 (Rect.unit (s := S8x64) ![1, 0] S1x64.size inb_S8x64_S1x64_1_0)
  have v294 : Vec F S1x64 .f32 := View.ld x2 (Rect.unit (s := S8x64) ![2, 0] S1x64.size inb_S8x64_S1x64_2_0)
  have v300 : Vec F S1x64 .f32 := View.ld x3 (Rect.unit (s := S1x64) ![0, 0] S1x64.size inb_S1x64_S1x64_0_0)
  have v271 : FVec F S400x1 .f32 := k1_pay24 v258 v259 v268
  have v303 : FVec F S400x64 .f32 := k1_pay25 v1 v272 v277 v285 v294 v300
  -- neighbour block group 8
  have v313 : Vec F S64x8 .bf16 := View.ld x4 (Rect.unit (s := S64x8) ![0, 0] S64x8.size inb_S64x8_S64x8_0_0)
  have v317 : Vec F S1x400x128 .f32 := View.ld x0 (Rect.unit (s := S32x400x128) ![7, 0, 0] S1x400x128.size inb_S32x400x128_S1x400x128_7_0_0)
  have v322 : Vec F S1x64 .f32 := View.ld x2 (Rect.unit (s := S8x64) ![0, 0] S1x64.size inb_S8x64_S1x64_0_0)
  have v330 : Vec F S1x64 .f32 := View.ld x2 (Rect.unit (s := S8x64) ![1, 0] S1x64.size inb_S8x64_S1x64_1_0)
  have v339 : Vec F S1x64 .f32 := View.ld x2 (Rect.unit (s := S8x64) ![2, 0] S1x64.size inb_S8x64_S1x64_2_0)
  have v345 : Vec F S1x64 .f32 := View.ld x3 (Rect.unit (s := S1x64) ![0, 0] S1x64.size inb_S1x64_S1x64_0_0)
  have v316 : FVec F S400x1 .f32 := k1_pay26 v303 v313
  have v344 : FVec F S400x64 .f32 := k1_pay27 v1 v317 v322 v330 v339
  have v346 : FVec F S1x64 .f32 := k1_pay28 v345
  -- neighbour block group 9
  have v358 : Vec F S64x8 .bf16 := View.ld x4 (Rect.unit (s := S64x8) ![0, 0] S64x8.size inb_S64x8_S64x8_0_0)
  have v362 : Vec F S1x400x128 .f32 := View.ld x0 (Rect.unit (s := S32x400x128) ![8, 0, 0] S1x400x128.size inb_S32x400x128_S1x400x128_8_0_0)
  have v367 : Vec F S1x64 .f32 := View.ld x2 (Rect.unit (s := S8x64) ![0, 0] S1x64.size inb_S8x64_S1x64_0_0)
  have v375 : Vec F S1x64 .f32 := View.ld x2 (Rect.unit (s := S8x64) ![1, 0] S1x64.size inb_S8x64_S1x64_1_0)
  have v384 : Vec F S1x64 .f32 := View.ld x2 (Rect.unit (s := S8x64) ![2, 0] S1x64.size inb_S8x64_S1x64_2_0)
  have v361 : FVec F S400x1 .f32 := k1_pay29 v344 v346 v358
  have v389 : FVec F S400x64 .f32 := k1_pay30 v1 v362 v367 v375 v384
  -- neighbour block group 10
  have v390 : Vec F S1x64 .f32 := View.ld x3 (Rect.unit (s := S1x64) ![0, 0] S1x64.size inb_S1x64_S1x64_0_0)
  have v403 : Vec F S64x8 .bf16 := View.ld x4 (Rect.unit (s := S64x8) ![0, 0] S64x8.size inb_S64x8_S64x8_0_0)
  have v407 : Vec F S1x400x128 .f32 := View.ld x0 (Rect.unit (s := S32x400x128) ![9, 0, 0] S1x400x128.size inb_S32x400x128_S1x400x128_9_0_0)
  have v412 : Vec F S1x64 .f32 := View.ld x2 (Rect.unit (s := S8x64) ![0, 0] S1x64.size inb_S8x64_S1x64_0_0)
  have v420 : Vec F S1x64 .f32 := View.ld x2 (Rect.unit (s := S8x64) ![1, 0] S1x64.size inb_S8x64_S1x64_1_0)
  have v429 : Vec F S1x64 .f32 := View.ld x2 (Rect.unit (s := S8x64) ![2, 0] S1x64.size inb_S8x64_S1x64_2_0)
  have v406 : FVec F S400x1 .f32 := k1_pay31 v389 v390 v403
  have v434 : FVec F S400x64 .f32 := k1_pay32 v1 v407 v412 v420 v429
  -- neighbour block group 11
  have v435 : Vec F S1x64 .f32 := View.ld x3 (Rect.unit (s := S1x64) ![0, 0] S1x64.size inb_S1x64_S1x64_0_0)
  have v448 : Vec F S64x8 .bf16 := View.ld x4 (Rect.unit (s := S64x8) ![0, 0] S64x8.size inb_S64x8_S64x8_0_0)
  have v452 : Vec F S1x400x128 .f32 := View.ld x0 (Rect.unit (s := S32x400x128) ![10, 0, 0] S1x400x128.size inb_S32x400x128_S1x400x128_10_0_0)
  have v457 : Vec F S1x64 .f32 := View.ld x2 (Rect.unit (s := S8x64) ![0, 0] S1x64.size inb_S8x64_S1x64_0_0)
  have v465 : Vec F S1x64 .f32 := View.ld x2 (Rect.unit (s := S8x64) ![1, 0] S1x64.size inb_S8x64_S1x64_1_0)
  have v474 : Vec F S1x64 .f32 := View.ld x2 (Rect.unit (s := S8x64) ![2, 0] S1x64.size inb_S8x64_S1x64_2_0)
  have v451 : FVec F S400x1 .f32 := k1_pay33 v434 v435 v448
  have v470 : FVec F S400x64 .f32 := k1_pay35 v1 v452 v457 v465
  have v476 : FVec F S400x64 .f32 := k1_pay36 v1 v452
  have v477 : FVec F S400x64 .f32 := k1_pay37 v474
  -- neighbour block group 12
  have v480 : Vec F S1x64 .f32 := View.ld x3 (Rect.unit (s := S1x64) ![0, 0] S1x64.size inb_S1x64_S1x64_0_0)
  have v493 : Vec F S64x8 .bf16 := View.ld x4 (Rect.unit (s := S64x8) ![0, 0] S64x8.size inb_S64x8_S64x8_0_0)
  have v497 : Vec F S1x400x128 .f32 := View.ld x0 (Rect.unit (s := S32x400x128) ![11, 0, 0] S1x400x128.size inb_S32x400x128_S1x400x128_11_0_0)
  have v502 : Vec F S1x64 .f32 := View.ld x2 (Rect.unit (s := S8x64) ![0, 0] S1x64.size inb_S8x64_S1x64_0_0)
  have v510 : Vec F S1x64 .f32 := View.ld x2 (Rect.unit (s := S8x64) ![1, 0] S1x64.size inb_S8x64_S1x64_1_0)
  have v519 : Vec F S1x64 .f32 := View.ld x2 (Rect.unit (s := S8x64) ![2, 0] S1x64.size inb_S8x64_S1x64_2_0)
  have v496 : FVec F S400x1 .f32 := k1_pay38 v470 v476 v477 v480 v493
  have v515 : FVec F S400x64 .f32 := k1_pay40 v1 v497 v502 v510
  have v518 : FVec F S400x1 .f32 := k1_pay41 v1 v497
  have v520 : FVec F S1x64 .f32 := k1_pay42 v519
  -- neighbour block group 13
  have v525 : Vec F S1x64 .f32 := View.ld x3 (Rect.unit (s := S1x64) ![0, 0] S1x64.size inb_S1x64_S1x64_0_0)
  have v538 : Vec F S64x8 .bf16 := View.ld x4 (Rect.unit (s := S64x8) ![0, 0] S64x8.size inb_S64x8_S64x8_0_0)
  have v542 : Vec F S1x400x128 .f32 := View.ld x0 (Rect.unit (s := S32x400x128) ![12, 0, 0] S1x400x128.size inb_S32x400x128_S1x400x128_12_0_0)
  have v547 : Vec F S1x64 .f32 := View.ld x2 (Rect.unit (s := S8x64) ![0, 0] S1x64.size inb_S8x64_S1x64_0_0)
  have v555 : Vec F S1x64 .f32 := View.ld x2 (Rect.unit (s := S8x64) ![1, 0] S1x64.size inb_S8x64_S1x64_1_0)
  have v541 : FVec F S400x1 .f32 := k1_pay43 v515 v518 v520 v525 v538
  have v560 : FVec F S400x64 .f32 := k1_pay45 v1 v542 v547 v555
  have v563 : FVec F S400x1 .f32 := k1_pay46 v1 v542
  -- neighbour block group 14
  have v564 : Vec F S1x64 .f32 := View.ld x2 (Rect.unit (s := S8x64) ![2, 0] S1x64.size inb_S8x64_S1x64_2_0)
  have v570 : Vec F S1x64 .f32 := View.ld x3 (Rect.unit (s := S1x64) ![0, 0] S1x64.size inb_S1x64_S1x64_0_0)
  have v583 : Vec F S64x8 .bf16 := View.ld x4 (Rect.unit (s := S64x8) ![0, 0] S64x8.size inb_S64x8_S64x8_0_0)
  have v587 : Vec F S1x400x128 .f32 := View.ld x0 (Rect.unit (s := S32x400x128) ![13, 0, 0] S1x400x128.size inb_S32x400x128_S1x400x128_13_0_0)
  have v592 : Vec F S1x64 .f32 := View.ld x2 (Rect.unit (s := S8x64) ![0, 0] S1x64.size inb_S8x64_S1x64_0_0)
  have v600 : Vec F S1x64 .f32 := View.ld x2 (Rect.unit (s := S8x64) ![1, 0] S1x64.size inb_S8x64_S1x64_1_0)
  have v586 : FVec F S400x1 .f32 := k1_pay47 v560 v563 v564 v570 v583
  have v605 : FVec F S400x64 .f32 := k1_pay49 v1 v587 v592 v600
  have v608 : FVec F S400x1 .f32 := k1_pay50 v1 v587
  -- neighbour block group 15
  have v609 : Vec F S1x64 .f32 := View.ld x2 (Rect.unit (s := S8x64) ![2, 0] S1x64.size inb_S8x64_S1x64_2_0)
  have v615 : Vec F S1x64 .f32 := View.ld x3 (Rect.unit (s := S1x64) ![0, 0] S1x64.size inb_S1x64_S1x64_0_0)
  have v628 : Vec F S64x8 .bf16 := View.ld x4 (Rect.unit (s := S64x8) ![0, 0] S64x8.size inb_S64x8_S64x8_0_0)
  have v632 : Vec F S1x400x128 .f32 := View.ld x0 (Rect.unit (s := S32x400x128) ![14, 0, 0] S1x400x128.size inb_S32x400x128_S1x400x128_14_0_0)
  have v637 : Vec F S1x64 .f32 := View.ld x2 (Rect.unit (s := S8x64) ![0, 0] S1x64.size inb_S8x64_S1x64_0_0)
  have v645 : Vec F S1x64 .f32 := View.ld x2 (Rect.unit (s := S8x64) ![1, 0] S1x64.size inb_S8x64_S1x64_1_0)
  have v631 : FVec F S400x1 .f32 := k1_pay51 v605 v608 v609 v615 v628
  have v650 : FVec F S400x64 .f32 := k1_pay53 v1 v632 v637 v645
  have v651 : FVec F S400x1 .f32 := k1_pay54 v632
  -- neighbour block group 16
  have v654 : Vec F S1x64 .f32 := View.ld x2 (Rect.unit (s := S8x64) ![2, 0] S1x64.size inb_S8x64_S1x64_2_0)
  have v660 : Vec F S1x64 .f32 := View.ld x3 (Rect.unit (s := S1x64) ![0, 0] S1x64.size inb_S1x64_S1x64_0_0)
  have v673 : Vec F S64x8 .bf16 := View.ld x4 (Rect.unit (s := S64x8) ![0, 0] S64x8.size inb_S64x8_S64x8_0_0)
  have v677 : Vec F S1x400x128 .f32 := View.ld x0 (Rect.unit (s := S32x400x128) ![15, 0, 0] S1x400x128.size inb_S32x400x128_S1x400x128_15_0_0)
  have v682 : Vec F S1x64 .f32 := View.ld x2 (Rect.unit (s := S8x64) ![0, 0] S1x64.size inb_S8x64_S1x64_0_0)
  have v690 : Vec F S1x64 .f32 := View.ld x2 (Rect.unit (s := S8x64) ![1, 0] S1x64.size inb_S8x64_S1x64_1_0)
  have v676 : FVec F S400x1 .f32 := k1_pay55 v1 v650 v651 v654 v660 v673
  have v678 : FVec F S400x128 .f32 := k1_pay56 v677
  have v686 : FVec F S400x64 .f32 := k1_pay57 v1 v677 v682
  have v694 : FVec F S400x64 .f32 := k1_pay58 v1 v677 v690
  -- neighbour block group 17
  have v699 : Vec F S1x64 .f32 := View.ld x2 (Rect.unit (s := S8x64) ![2, 0] S1x64.size inb_S8x64_S1x64_2_0)
  have v705 : Vec F S1x64 .f32 := View.ld x3 (Rect.unit (s := S1x64) ![0, 0] S1x64.size inb_S1x64_S1x64_0_0)
  have v718 : Vec F S64x8 .bf16 := View.ld x4 (Rect.unit (s := S64x8) ![0, 0] S64x8.size inb_S64x8_S64x8_0_0)
  have v722 : Vec F S1x400x128 .f32 := View.ld x0 (Rect.unit (s := S32x400x128) ![16, 0, 0] S1x400x128.size inb_S32x400x128_S1x400x128_16_0_0)
  have v727 : Vec F S1x64 .f32 := View.ld x2 (Rect.unit (s := S8x64) ![0, 0] S1x64.size inb_S8x64_S1x64_0_0)
  have v735 : Vec F S1x64 .f32 := View.ld x2 (Rect.unit (s := S8x64) ![1, 0] S1x64.size inb_S8x64_S1x64_1_0)
  have v721 : FVec F S400x1 .f32 := k1_pay59 v1 v678 v686 v694 v699 v705 v718
  have v723 : FVec F S400x128 .f32 := k1_pay60 v722
  have v731 : FVec F S400x64 .f32 := k1_pay61 v1 v722 v727
  have v736 : FVec F S1x64 .f32 := k1_pay62 v735
  have v737 : FVec F S400x64 .f32 := k1_pay63 v1 v722
  -- neighbour block group 18
  have v744 : Vec F S1x64 .f32 := View.ld x2 (Rect.unit (s := S8x64) ![2, 0] S1x64.size inb_S8x64_S1x64_2_0)
  have v750 : Vec F S1x64 .f32 := View.ld x3 (Rect.unit (s := S1x64) ![0, 0] S1x64.size inb_S1x64_S1x64_0_0)
  have v763 : Vec F S64x8 .bf16 := View.ld x4 (Rect.unit (s := S64x8) ![0, 0] S64x8.size inb_S64x8_S64x8_0_0)
  have v767 : Vec F S1x400x128 .f32 := View.ld x0 (Rect.unit (s := S32x400x128) ![17, 0, 0] S1x400x128.size inb_S32x400x128_S1x400x128_17_0_0)
  have v772 : Vec F S1x64 .f32 := View.ld x2 (Rect.unit (s := S8x64) ![0, 0] S1x64.size inb_S8x64_S1x64_0_0)
  have v780 : Vec F S1x64 .f32 := View.ld x2 (Rect.unit (s := S8x64) ![1, 0] S1x64.size inb_S8x64_S1x64_1_0)
  have v766 : FVec F S400x1 .f32 := k1_pay64 v1 v723 v731 v736 v737 v744 v750 v763
  have v768 : FVec F S400x128 .f32 := k1_pay65 v767
  have v776 : FVec F S400x64 .f32 := k1_pay66 v1 v767 v772
  have v779 : FVec F S400x1 .f32 := k1_pay67 v1 v767
  -- neighbour block group 19
  have v789 : Vec F S1x64 .f32 := View.ld x2 (Rect.unit (s := S8x64) ![2, 0] S1x64.size inb_S8x64_S1x64_2_0)
  have v795 : Vec F S1x64 .f32 := View.ld x3 (Rect.unit (s := S1x64) ![0, 0] S1x64.size inb_S1x64_S1x64_0_0)
  have v808 : Vec F S64x8 .bf16 := View.ld x4 (Rect.unit (s := S64x8) ![0, 0] S64x8.size inb_S64x8_S64x8_0_0)
  have v812 : Vec F S1x400x128 .f32 := View.ld x0 (Rect.unit (s := S32x400x128) ![18, 0, 0] S1x400x128.size inb_S32x400x128_S1x400x128_18_0_0)
  have v817 : Vec F S1x64 .f32 := View.ld x2 (Rect.unit (s := S8x64) ![0, 0] S1x64.size inb_S8x64_S1x64_0_0)
  have v811 : FVec F S400x1 .f32 := k1_pay68 v1 v768 v776 v779 v780 v789 v795 v808
  have v813 : FVec F S400x128 .f32 := k1_pay69 v812
  have v821 : FVec F S400x64 .f32 := k1_pay70 v1 v812 v817
  have v824 : FVec F S400x1 .f32 := k1_pay71 v1 v812
  -- neighbour block group 20
  have v825 : Vec F S1x64 .f32 := View.ld x2 (Rect.unit (s := S8x64) ![1, 0] S1x64.size inb_S8x64_S1x64_1_0)
  have v834 : Vec F S1x64 .f32 := View.ld x2 (Rect.unit (s := S8x64) ![2, 0] S1x64.size inb_S8x64_S1x64_2_0)
  have v840 : Vec F S1x64 .f32 := View.ld x3 (Rect.unit (s := S1x64) ![0, 0] S1x64.size inb_S1x64_S1x64_0_0)
  have v853 : Vec F S64x8 .bf16 := View.ld x4 (Rect.unit (s := S64x8) ![0, 0] S64x8.size inb_S64x8_S64x8_0_0)
  have v857 : Vec F S1x400x128 .f32 := View.ld x0 (Rect.unit (s := S32x400x128) ![19, 0, 0] S1x400x128.size inb_S32x400x128_S1x400x128_19_0_0)
  have v862 : Vec F S1x64 .f32 := View.ld x2 (Rect.unit (s := S8x64) ![0, 0] S1x64.size inb_S8x64_S1x64_0_0)
  have v856 : FVec F S400x1 .f32 := k1_pay72 v1 v813 v821 v824 v825 v834 v840 v853
  have v858 : FVec F S400x128 .f32 := k1_pay73 v857
  have v866 : FVec F S400x64 .f32 := k1_pay74 v1 v857 v862
  have v867 : FVec F S400x1 .f32 := k1_pay75 v857
  have v868 : FVec F S400x1 .f32 := k1_pay76 v1
  -- neighbour block group 21
  have v870 : Vec F S1x64 .f32 := View.ld x2 (Rect.unit (s := S8x64) ![1, 0] S1x64.size inb_S8x64_S1x64_1_0)
  have v879 : Vec F S1x64 .f32 := View.ld x2 (Rect.unit (s := S8x64) ![2, 0] S1x64.size inb_S8x64_S1x64_2_0)
  have v885 : Vec F S1x64 .f32 := View.ld x3 (Rect.unit (s := S1x64) ![0, 0] S1x64.size inb_S1x64_S1x64_0_0)
  have v898 : Vec F S64x8 .bf16 := View.ld x4 (Rect.unit (s := S64x8) ![0, 0] S64x8.size inb_S64x8_S64x8_0_0)
  have v902 : Vec F S1x400x128 .f32 := View.ld x0 (Rect.unit (s := S32x400x128) ![20, 0, 0] S1x400x128.size inb_S32x400x128_S1x400x128_20_0_0)
  have v907 : Vec F S1x64 .f32 := View.ld x2 (Rect.unit (s := S8x64) ![0, 0] S1x64.size inb_S8x64_S1x64_0_0)
  have v901 : FVec F S400x1 .f32 := k1_pay77 v1 v858 v866 v867 v868 v870 v879 v885 v898
  have v903 : FVec F S400x128 .f32 := k1_pay78 v902
  have v911 : FVec F S400x64 .f32 := k1_pay79 v1 v902 v907
  -- neighbour block group 22
  have v915 : Vec F S1x64 .f32 := View.ld x2 (Rect.unit (s := S8x64) ![1, 0] S1x64.size inb_S8x64_S1x64_1_0)
  have v924 : Vec F S1x64 .f32 := View.ld x2 (Rect.unit (s := S8x64) ![2, 0] S1x64.size inb_S8x64_S1x64_2_0)
  have v930 : Vec F S1x64 .f32 := View.ld x3 (Rect.unit (s := S1x64) ![0, 0] S1x64.size inb_S1x64_S1x64_0_0)
  have v943 : Vec F S64x8 .bf16 := View.ld x4 (Rect.unit (s := S64x8) ![0, 0] S64x8.size inb_S64x8_S64x8_0_0)
  have v947 : Vec F S1x400x128 .f32 := View.ld x0 (Rect.unit (s := S32x400x128) ![21, 0, 0] S1x400x128.size inb_S32x400x128_S1x400x128_21_0_0)
  have v952 : Vec F S1x64 .f32 := View.ld x2 (Rect.unit (s := S8x64) ![0, 0] S1x64.size inb_S8x64_S1x64_0_0)
  have v946 : FVec F S400x1 .f32 := k1_pay80 v1 v903 v911 v915 v924 v930 v943
  have v948 : FVec F S400x128 .f32 := k1_pay81 v947
  have v953 : FVec F S1x64 .f32 := k1_pay82 v952
  have v954 : FVec F S400x64 .f32 := k1_pay83 v1 v947
  -- neighbour block group 23
  have v960 : Vec F S1x64 .f32 := View.ld x2 (Rect.unit (s := S8x64) ![1, 0] S1x64.size inb_S8x64_S1x64_1_0)
  have v969 : Vec F S1x64 .f32 := View.ld x2 (Rect.unit (s := S8x64) ![2, 0] S1x64.size inb_S8x64_S1x64_2_0)
  have v975 : Vec F S1x64 .f32 := View.ld x3 (Rect.unit (s := S1x64) ![0, 0] S1x64.size inb_S1x64_S1x64_0_0)
  have v988 : Vec F S64x8 .bf16 := View.ld x4 (Rect.unit (s := S64x8) ![0, 0] S64x8.size inb_S64x8_S64x8_0_0)
  have v992 : Vec F S1x400x128 .f32 := View.ld x0 (Rect.unit (s := S32x400x128) ![22, 0, 0] S1x400x128.size inb_S32x400x128_S1x400x128_22_0_0)
  have v997 : Vec F S1x64 .f32 := View.ld x2 (Rect.unit (s := S8x64) ![0, 0] S1x64.size inb_S8x64_S1x64_0_0)
  have v991 : FVec F S400x1 .f32 := k1_pay84 v1 v948 v953 v954 v960 v969 v975 v988
  have v993 : FVec F S400x128 .f32 := k1_pay85 v992
  have v996 : FVec F S400x1 .f32 := k1_pay86 v1 v992
  -- neighbour block group 24
  have v1005 : Vec F S1x64 .f32 := View.ld x2 (Rect.unit (s := S8x64) ![1, 0] S1x64.size inb_S8x64_S1x64_1_0)
  have v1014 : Vec F S1x64 .f32 := View.ld x2 (Rect.unit (s := S8x64) ![2, 0] S1x64.size inb_S8x64_S1x64_2_0)
  have v1020 : Vec F S1x64 .f32 := View.ld x3 (Rect.unit (s := S1x64) ![0, 0] S1x64.size inb_S1x64_S1x64_0_0)
  have v1033 : Vec F S64x8 .bf16 := View.ld x4 (Rect.unit (s := S64x8) ![0, 0] S64x8.size inb_S64x8_S64x8_0_0)
  have v1037 : Vec F S1x400x128 .f32 := View.ld x0 (Rect.unit (s := S32x400x128) ![23, 0, 0] S1x400x128.size inb_S32x400x128_S1x400x128_23_0_0)
  have v1036 : FVec F S400x1 .f32 := k1_pay87 v1 v993 v996 v997 v1005 v1014 v1020 v1033
  have v1038 : FVec F S400x128 .f32 := k1_pay88 v1037
  have v1041 : FVec F S400x1 .f32 := k1_pay89 v1 v1037
  -- neighbour block group 25
  have v1042 : Vec F S1x64 .f32 := View.ld x2 (Rect.unit (s := S8x64) ![0, 0] S1x64.size inb_S8x64_S1x64_0_0)
  have v1050 : Vec F S1x64 .f32 := View.ld x2 (Rect.unit (s := S8x64) ![1, 0] S1x64.size inb_S8x64_S1x64_1_0)
  have v1059 : Vec F S1x64 .f32 := View.ld x2 (Rect.unit (s := S8x64) ![2, 0] S1x64.size inb_S8x64_S1x64_2_0)
  have v1065 : Vec F S1x64 .f32 := View.ld x3 (Rect.unit (s := S1x64) ![0, 0] S1x64.size inb_S1x64_S1x64_0_0)
  have v1078 : Vec F S64x8 .bf16 := View.ld x4 (Rect.unit (s := S64x8) ![0, 0] S64x8.size inb_S64x8_S64x8_0_0)
  have v1082 : Vec F S1x400x128 .f32 := View.ld x0 (Rect.unit (s := S32x400x128) ![24, 0, 0] S1x400x128.size inb_S32x400x128_S1x400x128_24_0_0)
  have v1081 : FVec F S400x1 .f32 := k1_pay90 v1 v1038 v1041 v1042 v1050 v1059 v1065 v1078
  have v1083 : FVec F S400x128 .f32 := k1_pay91 v1082
  have v1084 : FVec F S400x1 .f32 := k1_pay92 v1082
  have v1085 : FVec F S400x1 .f32 := k1_pay93 v1
  -- neighbour block group 26
  have v1087 : Vec F S1x64 .f32 := View.ld x2 (Rect.unit (s := S8x64) ![0, 0] S1x64.size inb_S8x64_S1x64_0_0)
  have v1095 : Vec F S1x64 .f32 := View.ld x2 (Rect.unit (s := S8x64) ![1, 0] S1x64.size inb_S8x64_S1x64_1_0)
  have v1104 : Vec F S1x64 .f32 := View.ld x2 (Rect.unit (s := S8x64) ![2, 0] S1x64.size inb_S8x64_S1x64_2_0)
  have v1110 : Vec F S1x64 .f32 := View.ld x3 (Rect.unit (s := S1x64) ![0, 0] S1x64.size inb_S1x64_S1x64_0_0)
  have v1123 : Vec F S64x8 .bf16 := View.ld x4 (Rect.unit (s := S64x8) ![0, 0] S64x8.size inb_S64x8_S64x8_0_0)
  have v1127 : Vec F S1x400x128 .f32 := View.ld x0 (Rect.unit (s := S32x400x128) ![25, 0, 0] S1x400x128.size inb_S32x400x128_S1x400x128_25_0_0)
  have v1126 : FVec F S400x1 .f32 := k1_pay94 v1 v1083 v1084 v1085 v1087 v1095 v1104 v1110 v1123
  have v1128 : FVec F S400x128 .f32 := k1_pay95 v1127
  -- neighbour block group 27
  have v1132 : Vec F S1x64 .f32 := View.ld x2 (Rect.unit (s := S8x64) ![0, 0] S1x64.size inb_S8x64_S1x64_0_0)
  have v1140 : Vec F S1x64 .f32 := View.ld x2 (Rect.unit (s := S8x64) ![1, 0] S1x64.size inb_S8x64_S1x64_1_0)
  have v1149 : Vec F S1x64 .f32 := View.ld x2 (Rect.unit (s := S8x64) ![2, 0] S1x64.size inb_S8x64_S1x64_2_0)
  have v1155 : Vec F S1x64 .f32 := View.ld x3 (Rect.unit (s := S1x64) ![0, 0] S1x64.size inb_S1x64_S1x64_0_0)
  have v1168 : Vec F S64x8 .bf16 := View.ld x4 (Rect.unit (s := S64x8) ![0, 0] S64x8.size inb_S64x8_S64x8_0_0)
  have v1171 : FVec F S400x1 .f32 := k1_pay96 v1 v1128 v1132 v1140 v1149 v1155 v1168
  -- neighbour block group 28
  have v1172 : Vec F S1x400x128 .f32 := View.ld x0 (Rect.unit (s := S32x400x128) ![26, 0, 0] S1x400x128.size inb_S32x400x128_S1x400x128_26_0_0)
  have v1177 : Vec F S1x64 .f32 := View.ld x2 (Rect.unit (s := S8x64) ![0, 0] S1x64.size inb_S8x64_S1x64_0_0)
  have v1185 : Vec F S1x64 .f32 := View.ld x2 (Rect.unit (s := S8x64) ![1, 0] S1x64.size inb_S8x64_S1x64_1_0)
  have v1194 : Vec F S1x64 .f32 := View.ld x2 (Rect.unit (s := S8x64) ![2, 0] S1x64.size inb_S8x64_S1x64_2_0)
  have v1200 : Vec F S1x64 .f32 := View.ld x3 (Rect.unit (s := S1x64) ![0, 0] S1x64.size inb_S1x64_S1x64_0_0)
  have v1213 : Vec F S64x8 .bf16 := View.ld x4 (Rect.unit (s := S64x8) ![0, 0] S64x8.size inb_S64x8_S64x8_0_0)
  have v1216 : FVec F S400x1 .f32 := k1_pay97 v1 v1172 v1177 v1185 v1194 v1200 v1213
  -- neighbour block group 29
  have v1217 : Vec F S1x400x128 .f32 := View.ld x0 (Rect.unit (s := S32x400x128) ![27, 0, 0] S1x400x128.size inb_S32x400x128_S1x400x128_27_0_0)
  have v1222 : Vec F S1x64 .f32 := View.ld x2 (Rect.unit (s := S8x64) ![0, 0] S1x64.size inb_S8x64_S1x64_0_0)
  have v1230 : Vec F S1x64 .f32 := View.ld x2 (Rect.unit (s := S8x64) ![1, 0] S1x64.size inb_S8x64_S1x64_1_0)
  have v1239 : Vec F S1x64 .f32 := View.ld x2 (Rect.unit (s := S8x64) ![2, 0] S1x64.size inb_S8x64_S1x64_2_0)
  have v1245 : Vec F S1x64 .f32 := View.ld x3 (Rect.unit (s := S1x64) ![0, 0] S1x64.size inb_S1x64_S1x64_0_0)
  have v1258 : Vec F S64x8 .bf16 := View.ld x4 (Rect.unit (s := S64x8) ![0, 0] S64x8.size inb_S64x8_S64x8_0_0)
  have v1260 : FVec F S400x8 .f32 := k1_pay98 v1 v1217 v1222 v1230 v1239 v1245 v1258
  -- neighbour block group 30
  have v1262 : Vec F S1x400x128 .f32 := View.ld x0 (Rect.unit (s := S32x400x128) ![28, 0, 0] S1x400x128.size inb_S32x400x128_S1x400x128_28_0_0)
  have v1267 : Vec F S1x64 .f32 := View.ld x2 (Rect.unit (s := S8x64) ![0, 0] S1x64.size inb_S8x64_S1x64_0_0)
  have v1275 : Vec F S1x64 .f32 := View.ld x2 (Rect.unit (s := S8x64) ![1, 0] S1x64.size inb_S8x64_S1x64_1_0)
  have v1284 : Vec F S1x64 .f32 := View.ld x2 (Rect.unit (s := S8x64) ![2, 0] S1x64.size inb_S8x64_S1x64_2_0)
  have v1290 : Vec F S1x64 .f32 := View.ld x3 (Rect.unit (s := S1x64) ![0, 0] S1x64.size inb_S1x64_S1x64_0_0)
  have v1303 : Vec F S64x8 .bf16 := View.ld x4 (Rect.unit (s := S64x8) ![0, 0] S64x8.size inb_S64x8_S64x8_0_0)
  have v1261 : FVec F S400x1 .f32 := k1_pay99 v1260
  have v1302 : FVec F S400x64 .bf16 := k1_pay100 v1 v1262 v1267 v1275 v1284 v1290
  have v1304 : FVec F S64x8 .bf16 := k1_pay101 v1303
  -- neighbour block group 31
  have v1307 : Vec F S1x400x128 .f32 := View.ld x0 (Rect.unit (s := S32x400x128) ![29, 0, 0] S1x400x128.size inb_S32x400x128_S1x400x128_29_0_0)
  have v1312 : Vec F S1x64 .f32 := View.ld x2 (Rect.unit (s := S8x64) ![0, 0] S1x64.size inb_S8x64_S1x64_0_0)
  have v1320 : Vec F S1x64 .f32 := View.ld x2 (Rect.unit (s := S8x64) ![1, 0] S1x64.size inb_S8x64_S1x64_1_0)
  have v1329 : Vec F S1x64 .f32 := View.ld x2 (Rect.unit (s := S8x64) ![2, 0] S1x64.size inb_S8x64_S1x64_2_0)
  have v1335 : Vec F S1x64 .f32 := View.ld x3 (Rect.unit (s := S1x64) ![0, 0] S1x64.size inb_S1x64_S1x64_0_0)
  have v1306 : FVec F S400x1 .f32 := k1_pay102 v1302 v1304
  have v1347 : FVec F S400x64 .bf16 := k1_pay103 v1 v1307 v1312 v1320 v1329 v1335
  -- neighbour block group 32
  have v1348 : Vec F S64x8 .bf16 := View.ld x4 (Rect.unit (s := S64x8) ![0, 0] S64x8.size inb_S64x8_S64x8_0_0)
  have v1352 : Vec F S1x400x128 .f32 := View.ld x0 (Rect.unit (s := S32x400x128) ![30, 0, 0] S1x400x128.size inb_S32x400x128_S1x400x128_30_0_0)
  have v1357 : Vec F S1x64 .f32 := View.ld x2 (Rect.unit (s := S8x64) ![0, 0] S1x64.size inb_S8x64_S1x64_0_0)
  have v1365 : Vec F S1x64 .f32 := View.ld x2 (Rect.unit (s := S8x64) ![1, 0] S1x64.size inb_S8x64_S1x64_1_0)
  have v1374 : Vec F S1x64 .f32 := View.ld x2 (Rect.unit (s := S8x64) ![2, 0] S1x64.size inb_S8x64_S1x64_2_0)
  have v1380 : Vec F S1x64 .f32 := View.ld x3 (Rect.unit (s := S1x64) ![0, 0] S1x64.size inb_S1x64_S1x64_0_0)
  have v1351 : FVec F S400x1 .f32 := k1_pay104 v1347 v1348
  have v1392 : FVec F S400x64 .bf16 := k1_pay105 v1 v1352 v1357 v1365 v1374 v1380
  -- neighbour block group 33
  have v1393 : Vec F S64x8 .bf16 := View.ld x4 (Rect.unit (s := S64x8) ![0, 0] S64x8.size inb_S64x8_S64x8_0_0)
  have v1397 : Vec F S1x400x128 .f32 := View.ld x0 (Rect.unit (s := S32x400x128) ![31, 0, 0] S1x400x128.size inb_S32x400x128_S1x400x128_31_0_0)
  have v1402 : Vec F S1x64 .f32 := View.ld x2 (Rect.unit (s := S8x64) ![0, 0] S1x64.size inb_S8x64_S1x64_0_0)
  have v1410 : Vec F S1x64 .f32 := View.ld x2 (Rect.unit (s := S8x64) ![1, 0] S1x64.size inb_S8x64_S1x64_1_0)
  have v1419 : Vec F S1x64 .f32 := View.ld x2 (Rect.unit (s := S8x64) ![2, 0] S1x64.size inb_S8x64_S1x64_2_0)
  have v1425 : Vec F S1x64 .f32 := View.ld x3 (Rect.unit (s := S1x64) ![0, 0] S1x64.size inb_S1x64_S1x64_0_0)
  have v1396 : FVec F S400x1 .f32 := k1_pay106 v1392 v1393
  have v1430 : FVec F S400x64 .f32 := k1_pay108 v1 v1397 v1402 v1410 v1419 v1425
  have v1435 : FVec F S400x64 .f32 := k1_pay109 v1 v1397 v1402 v1410 v1419 v1425
  -- the last column, the concatenation, and the row softmax
  have v1438 : Vec F S64x8 .bf16 := View.ld x4 (Rect.unit (s := S64x8) ![0, 0] S64x8.size inb_S64x8_S64x8_0_0)
  have v1440 : FVec F S400x8 .f32 := k1_pay1 v1430 v1435 v1438
  have v1442 : FVec F S400x32 .f32 := k1_pay2 v46 v91 v136 v181 v226 v271 v316 v361 v406 v451 v496 v541 v586 v631 v676 v721 v766 v811 v856 v901 v946 v991 v1036 v1081 v1126 v1171 v1216 v1261 v1306 v1351 v1396 v1440
  v1442

/-- The output block after the body: the row softmax of the logits, stored over the whole block. -/
def out1 (x0 : Vec F S32x400x128 .f32) (x1 : Vec F S400x128 .f32) (x2 : Vec F S8x64 .f32) (x3 : Vec F S1x64 .f32) (x4 : Vec F S64x8 .bf16) : Vec F S400x32 .f32 :=
  View.canon [⟨rOut1, k1_pay3 (logits1 x0 x1 x2 x3 x4)⟩]

/-- The one store tiles the block, so it covers it. -/
theorem cover1 (p0 : Vec F S400x32 .f32) (y : S400x32.Idx) :
    ∃ pc ∈ ([⟨rOut1, p0⟩] : List (View.Piece (Elt F) S400x32 .f32)), y ∈ pc.1.set :=
  View.cover_of_tiled [⟨rOut1, p0⟩] S400x32.size (by rfl) y

/-! ## The body's triple -/

set_option maxHeartbeats 4000000 in
/-- The body on whole staging memrefs, the five inputs' at read contents `x0 … x4` and the output's at anything, runs to
    the continuation holding the inputs' as they were and the output's at `out1` of the inputs'. The body is run part by
    part through the parts' skeletons. -/
theorem kernelRun1 (𝒱₀ : Variants) (c : Dev nD) (E : Set Name) (i : grid1.Coords) (arg1 : Memref sig .tc .vmem S32x400x128 .f32) (harg1 : arg1.IsWhole) (arg2 : Memref sig .tc .vmem S400x128 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x8 .bf16) (harg5 : arg5.IsWhole) (arg6 : Memref sig .tc .vmem S400x32 .f32) (harg6 : arg6.IsWhole)
    (x0 : Vec F S32x400x128 .f32) (x1 : Vec F S400x128 .f32) (x2 : Vec F S8x64 .f32) (x3 : Vec F S1x64 .f32) (x4 : Vec F S64x8 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 x0 x1 x2 x3 x4)) -∗ K ⟨⟩))
      ⊢ wp frame (wpE (defs₀ (F := F)) 𝒱₀ c none) E (cc1_body i arg1 harg1 arg2 harg2 arg3 harg3 arg4 harg4 arg5 harg5 arg6 harg6) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The windows' blocks at the region's entry contents -/

/-- The TensorCore's buffer `b` on core `c` as the valuation `V` has it. -/
abbrev VW (V : Valuation τ sig (Elt F)) (c : Dev nD) (b : Ref sig .tc) : Buf (Elt F) ((c : Thread nD τ).loc b) := V b

/-- Window `w`'s block at point `t`, read off its array as the region finds it (`V`). -/
def iblk1 (V : Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (VW V c (Pipeline.arrRef spec1 w))

/-- Input window 0's current staging buffer holds its block at every point, fetched there or not, for any proof data
    whose array is the entry contents and whose body leaves the block in place: unfetched, the block index has not moved. -/
theorem before1_0_of {c : Dev nD} (V : Valuation τ sig (Elt F)) (dat : Dat τ (Elt F) Ix Name U Lvl cfg1 c) (hA : dat.A 0 = VW V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is the entry contents and whose body leaves the block in place: unfetched, the block index has not moved. -/
theorem before1_1_of {c : Dev nD} (V : Valuation τ sig (Elt F)) (dat : Dat τ (Elt F) Ix Name U Lvl cfg1 c) (hA : dat.A 1 = VW V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is the entry contents and whose body leaves the block in place: unfetched, the block index has not moved. -/
theorem before1_2_of {c : Dev nD} (V : Valuation τ sig (Elt F)) (dat : Dat τ (Elt F) Ix Name U Lvl cfg1 c) (hA : dat.A 2 = VW V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is the entry contents and whose body leaves the block in place: unfetched, the block index has not moved. -/
theorem before1_3_of {c : Dev nD} (V : Valuation τ sig (Elt F)) (dat : Dat τ (Elt F) Ix Name U Lvl cfg1 c) (hA : dat.A 3 = VW V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is the entry contents and whose body leaves the block in place: unfetched, the block index has not moved. -/
theorem before1_4_of {c : Dev nD} (V : Valuation τ sig (Elt F)) (dat : Dat τ (Elt F) Ix Name U Lvl cfg1 c) (hA : dat.A 4 = VW V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the edge-softmax pipeline on core `c`, at the region's entry contents `V`: after the body at point
    `t` each input's buffer holds its block and the output's holds `out1` of the input blocks; the invariant is the
    core's scoped buffers that are no staging buffer of this pipeline, which the body never touches; the tallies `O` the core owes and the bound `R` on its recorded wait pairs are the same at every point (the body pays
    nothing and waits for nothing); full shares. -/
def dat1 (O : CellTallies nD τ sig Ix) (R : Set (SemLoc sig × Ix)) (V : Valuation τ sig (Elt F)) (c : Dev nD) : Dat τ (Elt F) Ix Name U Lvl cfg1 c where
  A w := VW V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.scopedRest spec1 c
  q _ := fullShare
  owed _ := O
  recorded _ := R

/-- The proof data's arrays are the region-entry contents. -/
theorem A_eq1 (O : CellTallies nD τ sig Ix) (R : Set (SemLoc sig × Ix)) (V : Valuation τ sig (Elt F)) (c : Dev nD) (w : Fin cfg1.W) : (dat1 (F := F) (Ix := Ix) (Name := Name) (U := U) (Lvl := Lvl) O R V c).A w = VW V c (Pipeline.arrRef spec1 w) := by
  dsimp only [dat1]

/-- What the body leaves, window by window. -/
theorem after1_0 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 0 t = iblk1 V c 0 t := by dsimp only [dat1]
theorem after1_1 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 1 t = iblk1 V c 1 t := by dsimp only [dat1]
theorem after1_2 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 2 t = iblk1 V c 2 t := by dsimp only [dat1]
theorem after1_3 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 3 t = iblk1 V c 3 t := by dsimp only [dat1]
theorem after1_4 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 4 t = iblk1 V c 4 t := by dsimp only [dat1]
theorem after1_5 (O : CellTallies nD τ sig Ix) (R : Set (SemLoc sig × Ix)) (V : Valuation τ sig (Elt F)) (c : Dev nD) (t : Fin cfg1.N) : (dat1 (F := F) (Ix := Ix) (Name := Name) (U := U) (Lvl := Lvl) O R V c).after 5 t = out1 (iblk1 V c 0 t) (iblk1 V c 1 t) (iblk1 V c 2 t) (iblk1 V c 3 t) (iblk1 V c 4 t) := by dsimp only [dat1]

/-- Each input's current staging buffer holds its block at every point, fetched there or not. -/
theorem before1_0 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 0 t d = iblk1 V c 0 t :=
  before1_0_of V (dat1 (F := F) (Ix := Ix) (Name := Name) (U := U) (Lvl := Lvl) O R V c) (A_eq1 (F := F) (Ix := Ix) (Name := Name) (U := U) (Lvl := Lvl) O R V c 0) (after1_0 (F := F) (Ix := Ix) (Name := Name) (U := U) (Lvl := Lvl) O R V c) t d
theorem before1_1 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 1 t d = iblk1 V c 1 t :=
  before1_1_of V (dat1 (F := F) (Ix := Ix) (Name := Name) (U := U) (Lvl := Lvl) O R V c) (A_eq1 (F := F) (Ix := Ix) (Name := Name) (U := U) (Lvl := Lvl) O R V c 1) (after1_1 (F := F) (Ix := Ix) (Name := Name) (U := U) (Lvl := Lvl) O R V c) t d
theorem before1_2 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 2 t d = iblk1 V c 2 t :=
  before1_2_of V (dat1 (F := F) (Ix := Ix) (Name := Name) (U := U) (Lvl := Lvl) O R V c) (A_eq1 (F := F) (Ix := Ix) (Name := Name) (U := U) (Lvl := Lvl) O R V c 2) (after1_2 (F := F) (Ix := Ix) (Name := Name) (U := U) (Lvl := Lvl) O R V c) t d
theorem before1_3 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 3 t d = iblk1 V c 3 t :=
  before1_3_of V (dat1 (F := F) (Ix := Ix) (Name := Name) (U := U) (Lvl := Lvl) O R V c) (A_eq1 (F := F) (Ix := Ix) (Name := Name) (U := U) (Lvl := Lvl) O R V c 3) (after1_3 (F := F) (Ix := Ix) (Name := Name) (U := U) (Lvl := Lvl) O R V c) t d
theorem before1_4 (O : CellTallies nD τ sig Ix) (R : Set (SemLoc sig × Ix)) (V : Valuation τ sig (Elt F)) (c : Dev nD) (t : Fin cfg1.N) (d) : (dat1 (F := F) (Ix := Ix) (Name := Name) (U := U) (Lvl := Lvl) O R V c).before 4 t d = iblk1 V c 4 t :=
  before1_4_of V (dat1 (F := F) (Ix := Ix) (Name := Name) (U := U) (Lvl := Lvl) O R V c) (A_eq1 (F := F) (Ix := Ix) (Name := Name) (U := U) (Lvl := Lvl) O R V c 4) (after1_4 (F := F) (Ix := Ix) (Name := Name) (U := U) (Lvl := Lvl) O R V c) t d

/-! ## The body obligation, at a generic point -/

/-- What the body is called with at point `t`, the windows one by one, -/
def bodyPre1 (ι : Ix) (O : CellTallies nD τ sig Ix) (R : Set (SemLoc sig × Ix)) (V : Valuation τ sig (Elt F)) (c : Dev nD) (t : Fin cfg1.N) : sProp 𝕄 :=
  iprop((dat1 (F := F) (Ix := Ix) (Name := Name) (U := U) (Lvl := Lvl) O R V c).Φ t.castSucc ∗ (dat1 (F := F) (Ix := Ix) (Name := Name) (U := U) (Lvl := Lvl) O R V c).owesAt ι t.castSucc
    ∗ (∃ d, owns (c : Thread nD τ) (st1_0 t) fullShare ((dat1 (F := F) (Ix := Ix) (Name := Name) (U := U) (Lvl := Lvl) O R V c).before 0 t d))
    ∗ (∃ d, owns (c : Thread nD τ) (st1_1 t) fullShare ((dat1 (F := F) (Ix := Ix) (Name := Name) (U := U) (Lvl := Lvl) O R V c).before 1 t d))
    ∗ (∃ d, owns (c : Thread nD τ) (st1_2 t) fullShare ((dat1 (F := F) (Ix := Ix) (Name := Name) (U := U) (Lvl := Lvl) O R V c).before 2 t d))
    ∗ (∃ d, owns (c : Thread nD τ) (st1_3 t) fullShare ((dat1 (F := F) (Ix := Ix) (Name := Name) (U := U) (Lvl := Lvl) O R V c).before 3 t d))
    ∗ (∃ d, owns (c : Thread nD τ) (st1_4 t) fullShare ((dat1 (F := F) (Ix := Ix) (Name := Name) (U := U) (Lvl := Lvl) O R V c).before 4 t d))
    ∗ (∃ d, owns (c : Thread nD τ) (st1_5 t) fullShare ((dat1 (F := F) (Ix := Ix) (Name := Name) (U := U) (Lvl := Lvl) O R V c).before 5 t d)))

/-- and what it returns. -/
def bodyPost1 (ι : Ix) (O : CellTallies nD τ sig Ix) (R : Set (SemLoc sig × Ix)) (V : Valuation τ sig (Elt F)) (c : Dev nD) (t : Fin cfg1.N) : sProp 𝕄 :=
  iprop((dat1 (F := F) (Ix := Ix) (Name := Name) (U := U) (Lvl := Lvl) O R V c).Φ t.succ ∗ (dat1 (F := F) (Ix := Ix) (Name := Name) (U := U) (Lvl := Lvl) O R V c).owesAt ι t.succ
    ∗ owns (c : Thread nD τ) (st1_0 t) fullShare ((dat1 (F := F) (Ix := Ix) (Name := Name) (U := U) (Lvl := Lvl) O R V c).after 0 t)
    ∗ owns (c : Thread nD τ) (st1_1 t) fullShare ((dat1 (F := F) (Ix := Ix) (Name := Name) (U := U) (Lvl := Lvl) O R V c).after 1 t)
    ∗ owns (c : Thread nD τ) (st1_2 t) fullShare ((dat1 (F := F) (Ix := Ix) (Name := Name) (U := U) (Lvl := Lvl) O R V c).after 2 t)
    ∗ owns (c : Thread nD τ) (st1_3 t) fullShare ((dat1 (F := F) (Ix := Ix) (Name := Name) (U := U) (Lvl := Lvl) O R V c).after 3 t)
    ∗ owns (c : Thread nD τ) (st1_4 t) fullShare ((dat1 (F := F) (Ix := Ix) (Name := Name) (U := U) (Lvl := Lvl) O R V c).after 4 t)
    ∗ owns (c : Thread nD τ) (st1_5 t) fullShare ((dat1 (F := F) (Ix := Ix) (Name := Name) (U := U) (Lvl := Lvl) O R V c).after 5 t))

/-- The body at any point: the inputs' memrefs hold their blocks, so `kernelRun1` applies; the invariant and the core's
    `owes` pass through unread. -/
theorem sound_body1 (𝒱₀ : Variants) (ι : Ix) (O : CellTallies nD τ sig Ix) (R : Set (SemLoc sig × Ix)) (V : Valuation τ sig (Elt F)) (c : Dev nD) (t : Fin cfg1.N) :
    bodyPre1 (F := F) (Ix := Ix) (Name := Name) (U := U) (Lvl := Lvl) ι O R V c t ⊢ wp frame (wpE (defs₀ (F := F)) 𝒱₀ c none) Set.univ (bodyAt1 t) (fun _ => bodyPost1 (F := F) (Ix := Ix) (Name := Name) (U := U) (Lvl := Lvl) ι O R V c t) := by
  unfold bodyPre1 bodyPost1 bodyAt1
  simp only [before1_0, before1_1, before1_2, before1_3, before1_4]
  rw [show (dat1 (F := F) (Ix := Ix) (Name := Name) (U := U) (Lvl := Lvl) O R V c).Φ t.succ = (dat1 (F := F) (Ix := Ix) (Name := Name) (U := U) (Lvl := Lvl) O R V c).Φ t.castSucc from rfl,
    show (dat1 (F := F) (Ix := Ix) (Name := Name) (U := U) (Lvl := Lvl) O R V c).owesAt ι t.succ = (dat1 (F := F) (Ix := Ix) (Name := Name) (U := U) (Lvl := Lvl) O R V c).owesAt ι t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (kernelRun1 𝒱₀ c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (𝒱₀ : Variants) (ι : Ix) (O : CellTallies nD τ sig Ix) (R : Set (SemLoc sig × Ix)) (V : Valuation τ sig (Elt F)) (c : Dev nD) : BodyObligation (dat1 (F := F) (Ix := Ix) (Name := Name) (U := U) (Lvl := Lvl) O R V c) (defs₀ (F := F)) 𝒱₀ ι Set.univ := fun t => by
  rw [bigSep_W1, bigSep_W1]
  exact sound_body1 𝒱₀ ι O R V c t

/-- The same as the loop uses it. -/
theorem body_obligation_loose1 (𝒱₀ : Variants) (ι : Ix) (O : CellTallies nD τ sig Ix) (R : Set (SemLoc sig × Ix)) (V : Valuation τ sig (Elt F)) (c : Dev nD) : BodyObligationLoose (dat1 (F := F) (Ix := Ix) (Name := Name) (U := U) (Lvl := Lvl) O R V c) (defs₀ (F := F)) 𝒱₀ ι Set.univ :=
  (body_obligation1 𝒱₀ ι O R V c).loose

/-! ## The output array after the run -/

/-- The output window's index map sends distinct grid points to distinct block indices (decided over the 25 points). -/
theorem idx_inj1_5 : ∀ t t' : Fin cfg1.N, win1_5.index t = win1_5.index t' → t = t' :=
  (by decide +kernel : ∀ t t' : Fin grid1.N, win1_5.index t = win1_5.index t' → t = t')

/-- So two points' output blocks share no array index. -/
theorem disjoint1_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idx_inj1_5 t t' h)

/-- BLOCK `t` OF THE FINAL OUTPUT ARRAY, read back through the window, is `out1` of the five input blocks at `t`: every point
    writes its block back and no other point's block meets it. -/
theorem blocks1 (O : CellTallies nD τ sig Ix) (R : Set (SemLoc sig × Ix)) (V : Valuation τ sig (Elt F)) (c : Dev nD) (t : Fin cfg1.N) :
    ((cfg1.win 5).blk t).view.read (Elt F) ((dat1 (F := F) (Ix := Ix) (Name := Name) (U := U) (Lvl := Lvl) O R V c).arrAt 5 cfg1.N)
      = out1 (iblk1 V c 0 t) (iblk1 V c 1 t) (iblk1 V c 2 t) (iblk1 V c 3 t) (iblk1 V c 4 t) := by
  rw [(dat1 (F := F) (Ix := Ix) (Name := Name) (U := U) (Lvl := Lvl) O R V c).read_blk_arrAt_eq_flushed 5 disjoint1_5 cfg1.N t t.isLt (flush1_5 t)]
  show (cfg1.win 5).cut (grid1.coords t) ((dat1 (F := F) (Ix := Ix) (Name := Name) (U := U) (Lvl := Lvl) O R V c).after 5 t) = _
  rw [after1_5]
  rfl

/-- The input arrays are never written: each holds its entry contents after the run. -/
theorem arrAt_in1 (O : CellTallies nD τ sig Ix) (R : Set (SemLoc sig × Ix)) (V : Valuation τ sig (Elt F)) (c : Dev nD) (w : Fin cfg1.W) (hw : (cfg1.win w).isOut = false) (n : Nat) :
    (dat1 (F := F) (Ix := Ix) (Name := Name) (U := U) (Lvl := Lvl) O R V c).arrAt w n = VW V c (Pipeline.arrRef spec1 w) :=
  ((dat1 (F := F) (Ix := Ix) (Name := Name) (U := U) (Lvl := Lvl) O R V c).arrAt_in w hw n).trans (A_eq1 (F := F) (Ix := Ix) (Name := Name) (U := U) (Lvl := Lvl) O R V c w)

/-! ## The whole output array as one function of the input arrays -/

/-- The grid point whose output block holds row `i 0`, -/
def tOf1 (i : S10000x32.Idx) : Fin cfg1.N :=
  ⟨(i 0).val / 400, by rw [show cfg1.N = 25 from N_1]; have h : (i 0).val < 10000 := (i 0).isLt; omega⟩

/-- and the index of `i` within that block. -/
def jOf1 (i : S10000x32.Idx) : S400x32.Idx := fun a =>
  match a with
  | ⟨0, _⟩ => ⟨(i 0).val % 400, Nat.mod_lt _ (by decide)⟩
  | ⟨1, _⟩ => ⟨(i 1).val, (i 1).isLt⟩
  | ⟨_ + 2, h⟩ => absurd h (Nat.not_lt.2 (Nat.le_add_left _ _))

/-- The output array as a function of the five input arrays: at row `r`, `out1` of the input blocks of the grid point
    `r / 400`, at row `r % 400`. -/
def outArr1 (X0 : Vec F S32x10000x128 .f32) (X1 : Vec F S10000x128 .f32) (X2 : Vec F S8x64 .f32) (X3 : Vec F S1x64 .f32) (X4 : Vec F S64x8 .bf16) : Vec F S10000x32 .f32 := fun i =>
  out1 (((cfg1.win 0).blk (tOf1 i)).view.read (Elt F) X0) (((cfg1.win 1).blk (tOf1 i)).view.read (Elt F) X1)
    (((cfg1.win 2).blk (tOf1 i)).view.read (Elt F) X2) (((cfg1.win 3).blk (tOf1 i)).view.read (Elt F) X3)
    (((cfg1.win 4).blk (tOf1 i)).view.read (Elt F) X4) (jOf1 i)

/-- The output window's block index at point `t` is `(t, 0)` (decided over the grid). -/
theorem idx_facts1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- An index of the array is in point `t`'s block iff each coordinate is in the block's range on its axis. -/
theorem mem_blk1_5 (t : Fin cfg1.N) (i : S10000x32.Idx) :
    i ∈ ((cfg1.win 5).blk t).view.set ↔ ∀ a : Fin 2, win1_5.index t a * S400x32.size a ≤ (i a).val ∧ (i a).val < win1_5.index t a * S400x32.size a + S400x32.size a := by
  show i ∈ ((View.whole main_v22).slice (win1_5.rect t)).set ↔ _
  rw [View.set_slice_whole, Rect.mem_set_unit]
  exact Iff.rfl

/-- Every index of the output array is in the block of the point `tOf1` names. -/
theorem covered1_5 (i : S10000x32.Idx) : ∃ t : Fin cfg1.N, (cfg1.win 5).flush t = true ∧ i ∈ ((cfg1.win 5).blk t).view.set := by
  refine ⟨tOf1 i, flush1_5 _, ?_⟩
  rw [mem_blk1_5]
  obtain ⟨e0, e1⟩ := idx_facts1_5 (tOf1 i)
  have ht : (tOf1 i).val = (i 0).val / 400 := rfl
  have h0 : (i 0).val < 10000 := (i 0).isLt
  have h1 : (i 1).val < 32 := (i 1).isLt
  intro a
  match a with
  | ⟨0, _⟩ => show win1_5.index (tOf1 i) (0 : Fin 2) * 400 ≤ (i 0).val ∧ (i 0).val < win1_5.index (tOf1 i) (0 : Fin 2) * 400 + 400; omega
  | ⟨1, _⟩ => show win1_5.index (tOf1 i) (1 : Fin 2) * 32 ≤ (i 1).val ∧ (i 1).val < win1_5.index (tOf1 i) (1 : Fin 2) * 32 + 32; omega

/-- An element of point `t`'s output block sits in the array at row `400 t + j 0`, column `j 1`: so `tOf1` and `jOf1` recover
    the point and the element. -/
theorem tOf1_emb (t : Fin cfg1.N) (j : S400x32.Idx) : tOf1 (((cfg1.win 5).blk t).view.emb j) = t := by
  obtain ⟨e0, e1⟩ := idx_facts1_5 t
  apply Fin.ext
  show (win1_5.index t (0 : Fin 2) * 400 + 1 * (j 0).val) / 400 = t.val
  have hj : (j 0).val < 400 := (j 0).isLt
  omega

theorem jOf1_emb (t : Fin cfg1.N) (j : S400x32.Idx) : jOf1 (((cfg1.win 5).blk t).view.emb j) = j := by
  obtain ⟨e0, e1⟩ := idx_facts1_5 t
  funext a; apply Fin.ext
  match a with
  | ⟨0, _⟩ => show (win1_5.index t (0 : Fin 2) * 400 + 1 * (j 0).val) % 400 = (j 0).val; have hj : (j 0).val < 400 := (j 0).isLt; omega
  | ⟨1, _⟩ => show win1_5.index t (1 : Fin 2) * 32 + 1 * (j 1).val = (j 1).val; omega

/-- WHAT POINT `t` WRITES BACK is block `t` of `outArr1` of the input arrays as the region finds them. -/
theorem flushed1_eq (O : CellTallies nD τ sig Ix) (R : Set (SemLoc sig × Ix)) (V : Valuation τ sig (Elt F)) (c : Dev nD) (t : Fin cfg1.N) :
    (dat1 (F := F) (Ix := Ix) (Name := Name) (U := U) (Lvl := Lvl) O R V c).flushed 5 t = ((cfg1.win 5).blk t).view.read (Elt F)
      (outArr1 (VW V c main_v21) (VW V c main_v2) (VW V c main_v7) (VW V c main_v8) (VW V c main_v12)) := by
  show (cfg1.win 5).cut (grid1.coords t) ((dat1 (F := F) (Ix := Ix) (Name := Name) (U := U) (Lvl := Lvl) O R V c).after 5 t) = _
  rw [after1_5]
  funext j
  show out1 (iblk1 V c 0 t) (iblk1 V c 1 t) (iblk1 V c 2 t) (iblk1 V c 3 t) (iblk1 V c 4 t) j
    = outArr1 (VW V c main_v21) (VW V c main_v2) (VW V c main_v7) (VW V c main_v8) (VW V c main_v12) (((cfg1.win 5).blk t).view.emb j)
  unfold outArr1
  rw [tOf1_emb, jOf1_emb]
  rfl

/-- THE OUTPUT ARRAY after the run: `outArr1` of the input arrays' entry contents (the 25 blocks tile it). -/
theorem final1 (O : CellTallies nD τ sig Ix) (R : Set (SemLoc sig × Ix)) (V : Valuation τ sig (Elt F)) (c : Dev nD) :
    (dat1 (F := F) (Ix := Ix) (Name := Name) (U := U) (Lvl := Lvl) O R V c).arrAt 5 cfg1.N = outArr1 (VW V c main_v21) (VW V c main_v2) (VW V c main_v7) (VW V c main_v8) (VW V c main_v12) :=
  (dat1 (F := F) (Ix := Ix) (Name := Name) (U := U) (Lvl := Lvl) O R V c).arrAt_eq_of_cover 5 _ (fun t _ => flushed1_eq (F := F) (Ix := Ix) (Name := Name) (U := U) (Lvl := Lvl) O R V c t) covered1_5

end Cert.Proof.SoftmaxBodyB

end
-- ==== Proof.StepBodyB.lean ====
/-
  The step bodies of the TensorCore calls (the gated neighbour update followed by a normalisation over the lanes), each
  run once at a symbolic grid point: from the nine staged blocks — the 32 gathered neighbour slabs, the edge weights, the
  features, the two weight matrices, the bias and the two normalisation rows at given contents, the output slot at
  anything — the body hands the inputs back unchanged and the output slot at `outK_8` of the inputs: the one store's
  payload over the loads' values, a pure term composed along the body's parts. Then the pipeline's proof data at any
  region-entry valuation and any owed tallies, the body obligation at every point, and what the output array holds after
  the last point: block `t` of it is `outK_8` of the inputs' blocks at `t`.
-/
import proofs.«205547_g25623774888366_cont_9to1_713_27_alg».proof.Proof.Gen.Kernel.Launch
import proofs.«205547_g25623774888366_cont_9to1_713_27_alg».proof.Proof.Gen.Kernel.Skeleton
import proofs.«205547_g25623774888366_cont_9to1_713_27_alg».proof.Proof.Gen.Kernel.Points
import Idealize.ShloMosaic.Lib.Pipeline.FrameBody
import Idealize.ShloMosaic.Lib.Pipeline.Value
import Idealize.ShloMosaic.Lib.SparseCore.Cells
import Idealize.ShloMosaic.Lib.Ring
import Idealize.ShloMosaic.Lib.Tactic

set_option maxRecDepth 16384

noncomputable section

namespace Cert.Proof.StepBodyB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

/-- The user algebra of the run these regions sit in: the handshakes' rounds, the pipelines' rounds, the counters. -/
local notation "𝕌" => (URounds (GSem nD τ sig) ℕ × (URounds (GSem nD τ sig) Unit × Counters))
local notation "𝕄" => MT nD τ sig (HIx 6) (Elt F) ℕ 𝕌 ℕ

/-! # custom_call 3 -/

/-! ## The body's accesses -/

abbrev r3_0 : Rect S400x32 := Rect.unit (s := S400x32) ![0, 0] S400x32.size inb_S400x32_S400x32_0_0
abbrev r3_1 : Rect S32x400x128 := Rect.unit (s := S32x400x128) ![0, 0, 0] S1x400x128.size inb_S32x400x128_S1x400x128_0_0_0
abbrev r3_2 : Rect S32x400x128 := Rect.unit (s := S32x400x128) ![1, 0, 0] S1x400x128.size inb_S32x400x128_S1x400x128_1_0_0
abbrev r3_3 : Rect S32x400x128 := Rect.unit (s := S32x400x128) ![2, 0, 0] S1x400x128.size inb_S32x400x128_S1x400x128_2_0_0
abbrev r3_4 : Rect S32x400x128 := Rect.unit (s := S32x400x128) ![3, 0, 0] S1x400x128.size inb_S32x400x128_S1x400x128_3_0_0
abbrev r3_5 : Rect S32x400x128 := Rect.unit (s := S32x400x128) ![4, 0, 0] S1x400x128.size inb_S32x400x128_S1x400x128_4_0_0
abbrev r3_6 : Rect S32x400x128 := Rect.unit (s := S32x400x128) ![5, 0, 0] S1x400x128.size inb_S32x400x128_S1x400x128_5_0_0
abbrev r3_7 : Rect S32x400x128 := Rect.unit (s := S32x400x128) ![6, 0, 0] S1x400x128.size inb_S32x400x128_S1x400x128_6_0_0
abbrev r3_8 : Rect S32x400x128 := Rect.unit (s := S32x400x128) ![7, 0, 0] S1x400x128.size inb_S32x400x128_S1x400x128_7_0_0
abbrev r3_9 : Rect S32x400x128 := Rect.unit (s := S32x400x128) ![8, 0, 0] S1x400x128.size inb_S32x400x128_S1x400x128_8_0_0
abbrev r3_10 : Rect S32x400x128 := Rect.unit (s := S32x400x128) ![9, 0, 0] S1x400x128.size inb_S32x400x128_S1x400x128_9_0_0
abbrev r3_11 : Rect S32x400x128 := Rect.unit (s := S32x400x128) ![10, 0, 0] S1x400x128.size inb_S32x400x128_S1x400x128_10_0_0
abbrev r3_12 : Rect S32x400x128 := Rect.unit (s := S32x400x128) ![11, 0, 0] S1x400x128.size inb_S32x400x128_S1x400x128_11_0_0
abbrev r3_13 : Rect S32x400x128 := Rect.unit (s := S32x400x128) ![12, 0, 0] S1x400x128.size inb_S32x400x128_S1x400x128_12_0_0
abbrev r3_14 : Rect S32x400x128 := Rect.unit (s := S32x400x128) ![13, 0, 0] S1x400x128.size inb_S32x400x128_S1x400x128_13_0_0
abbrev r3_15 : Rect S32x400x128 := Rect.unit (s := S32x400x128) ![14, 0, 0] S1x400x128.size inb_S32x400x128_S1x400x128_14_0_0
abbrev r3_16 : Rect S32x400x128 := Rect.unit (s := S32x400x128) ![15, 0, 0] S1x400x128.size inb_S32x400x128_S1x400x128_15_0_0
abbrev r3_17 : Rect S32x400x128 := Rect.unit (s := S32x400x128) ![16, 0, 0] S1x400x128.size inb_S32x400x128_S1x400x128_16_0_0
abbrev r3_18 : Rect S32x400x128 := Rect.unit (s := S32x400x128) ![17, 0, 0] S1x400x128.size inb_S32x400x128_S1x400x128_17_0_0
abbrev r3_19 : Rect S32x400x128 := Rect.unit (s := S32x400x128) ![18, 0, 0] S1x400x128.size inb_S32x400x128_S1x400x128_18_0_0
abbrev r3_20 : Rect S32x400x128 := Rect.unit (s := S32x400x128) ![19, 0, 0] S1x400x128.size inb_S32x400x128_S1x400x128_19_0_0
abbrev r3_21 : Rect S32x400x128 := Rect.unit (s := S32x400x128) ![20, 0, 0] S1x400x128.size inb_S32x400x128_S1x400x128_20_0_0
abbrev r3_22 : Rect S32x400x128 := Rect.unit (s := S32x400x128) ![21, 0, 0] S1x400x128.size inb_S32x400x128_S1x400x128_21_0_0
abbrev r3_23 : Rect S32x400x128 := Rect.unit (s := S32x400x128) ![22, 0, 0] S1x400x128.size inb_S32x400x128_S1x400x128_22_0_0
abbrev r3_24 : Rect S32x400x128 := Rect.unit (s := S32x400x128) ![23, 0, 0] S1x400x128.size inb_S32x400x128_S1x400x128_23_0_0
abbrev r3_25 : Rect S32x400x128 := Rect.unit (s := S32x400x128) ![24, 0, 0] S1x400x128.size inb_S32x400x128_S1x400x128_24_0_0
abbrev r3_26 : Rect S32x400x128 := Rect.unit (s := S32x400x128) ![25, 0, 0] S1x400x128.size inb_S32x400x128_S1x400x128_25_0_0
abbrev r3_27 : Rect S32x400x128 := Rect.unit (s := S32x400x128) ![26, 0, 0] S1x400x128.size inb_S32x400x128_S1x400x128_26_0_0
abbrev r3_28 : Rect S32x400x128 := Rect.unit (s := S32x400x128) ![27, 0, 0] S1x400x128.size inb_S32x400x128_S1x400x128_27_0_0
abbrev r3_29 : Rect S32x400x128 := Rect.unit (s := S32x400x128) ![28, 0, 0] S1x400x128.size inb_S32x400x128_S1x400x128_28_0_0
abbrev r3_30 : Rect S32x400x128 := Rect.unit (s := S32x400x128) ![29, 0, 0] S1x400x128.size inb_S32x400x128_S1x400x128_29_0_0
abbrev r3_31 : Rect S32x400x128 := Rect.unit (s := S32x400x128) ![30, 0, 0] S1x400x128.size inb_S32x400x128_S1x400x128_30_0_0
abbrev r3_32 : Rect S32x400x128 := Rect.unit (s := S32x400x128) ![31, 0, 0] S1x400x128.size inb_S32x400x128_S1x400x128_31_0_0
abbrev r3_33 : Rect S400x128 := Rect.unit (s := S400x128) ![0, 0] S400x128.size inb_S400x128_S400x128_0_0
abbrev r3_34 : Rect S128x128 := Rect.unit (s := S128x128) ![0, 0] S128x128.size inb_S128x128_S128x128_0_0
abbrev r3_35 : Rect S1x128 := Rect.unit (s := S1x128) ![0, 0] S1x128.size inb_S1x128_S1x128_0_0

/-! ## What the body computes, part by part (the payloads composed along the root sequence) -/

/-- Part 1's result 0 (`v1` of the printed body), over the staged blocks. -/
def s3_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay2 (View.ld x1 r3_0)
/-- Part 1's result 1 (`v36` of the printed body), over the staged blocks. -/
def s3_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay3 (View.ld x1 r3_0) (View.ld x0 r3_1) (View.ld x0 r3_2) (View.ld x0 r3_3) (View.ld x0 r3_4) (View.ld x0 r3_5) (View.ld x0 r3_6)
/-- Part 2's result 0 (`v72` of the printed body), over the staged blocks. -/
def s3_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay4 (s3_1_0 x0 x1 x2 x3 x4 x5 x6 x7) (s3_1_1 x0 x1 x2 x3 x4 x5 x6 x7) (View.ld x0 r3_7) (View.ld x0 r3_8) (View.ld x0 r3_9) (View.ld x0 r3_10) (View.ld x0 r3_11) (View.ld x0 r3_12)
/-- Part 2's result 1 (`v77` of the printed body), over the staged blocks. -/
def s3_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay5 (s3_1_0 x0 x1 x2 x3 x4 x5 x6 x7) (View.ld x0 r3_13)
/-- Part 3's result 0 (`v114` of the printed body), over the staged blocks. -/
def s3_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay6 (s3_1_0 x0 x1 x2 x3 x4 x5 x6 x7) (s3_2_0 x0 x1 x2 x3 x4 x5 x6 x7) (s3_2_1 x0 x1 x2 x3 x4 x5 x6 x7) (View.ld x0 r3_14) (View.ld x0 r3_15) (View.ld x0 r3_16) (View.ld x0 r3_17) (View.ld x0 r3_18) (View.ld x0 r3_19)
/-- Part 3's result 1 (`v116` of the printed body), over the staged blocks. -/
def s3_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay7 (View.ld x0 r3_20)
/-- Part 4's result 0 (`v156` of the printed body), over the staged blocks. -/
def s3_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay8 (s3_1_0 x0 x1 x2 x3 x4 x5 x6 x7) (s3_3_0 x0 x1 x2 x3 x4 x5 x6 x7) (s3_3_1 x0 x1 x2 x3 x4 x5 x6 x7) (View.ld x0 r3_21) (View.ld x0 r3_22) (View.ld x0 r3_23) (View.ld x0 r3_24) (View.ld x0 r3_25) (View.ld x0 r3_26)
/-- Part 5's result 0 (`v192` of the printed body), over the staged blocks. -/
def s3_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay9 (s3_1_0 x0 x1 x2 x3 x4 x5 x6 x7) (s3_4_0 x0 x1 x2 x3 x4 x5 x6 x7) (View.ld x0 r3_27) (View.ld x0 r3_28) (View.ld x0 r3_29) (View.ld x0 r3_30) (View.ld x0 r3_31) (View.ld x0 r3_32)
/-- Part 5's result 1 (`v193` of the printed body), over the staged blocks. -/
def s3_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  (View.ld x2 r3_33)
/-- Part 5's result 2 (`v194` of the printed body), over the staged blocks. -/
def s3_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay10 (View.ld x2 r3_33)
/-- Part 5's result 3 (`v197` of the printed body), over the staged blocks. -/
def s3_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay11 (View.ld x2 r3_33)
/-- Part 5's result 4 (`v198` of the printed body), over the staged blocks. -/
def s3_5_4 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay12 (s3_1_0 x0 x1 x2 x3 x4 x5 x6 x7) (s3_4_0 x0 x1 x2 x3 x4 x5 x6 x7) (View.ld x0 r3_27) (View.ld x0 r3_28) (View.ld x0 r3_29) (View.ld x0 r3_30) (View.ld x0 r3_31) (View.ld x0 r3_32)
/-- Part 6's result 0 (`v240` of the printed body), over the staged blocks. -/
def s3_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k3_pay13 (s3_5_0 x0 x1 x2 x3 x4 x5 x6 x7) (s3_5_1 x0 x1 x2 x3 x4 x5 x6 x7) (s3_5_2 x0 x1 x2 x3 x4 x5 x6 x7) (s3_5_3 x0 x1 x2 x3 x4 x5 x6 x7) (s3_5_4 x0 x1 x2 x3 x4 x5 x6 x7) (View.ld x3 r3_34) (View.ld x4 r3_34) (View.ld x5 r3_35) (View.ld x6 r3_35)

/-- Window 8's staging buffer after the body, from the input windows' blocks: its one store as a piece. -/
def out3_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r3_33, k3_pay1 (s3_6_0 x0 x1 x2 x3 x4 x5 x6 x7) (View.ld x7 r3_35)⟩]

/-- The store tiles the buffer, so it covers it. -/
theorem cover3_8 (p0 : Vec F S400x128 .f32) (y : S400x128.Idx) :
    ∃ pc ∈ ([⟨r3_33, p0⟩] : List (View.Piece (Elt F) S400x128 .f32)), y ∈ pc.1.set :=
  View.cover_of_tiled [⟨r3_33, p0⟩] S400x128.size (by rfl) y

/-! ## The body's triple -/

set_option maxHeartbeats 4000000 in
/-- The body on whole staging memrefs, the inputs' at read contents `x0 … x7` and the output's at anything, runs to the
    continuation holding the inputs' as they were and the output's at `out3_8` of the inputs'. -/
theorem kernelRun3 (𝒱₀ : Variants) (c : Dev nD) (E : Set ℕ) (i : grid3.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ Q ⟨⟩))
      ⊢ wp frame (wpE (defs₀ (F := F)) 𝒱₀ c none) E (cc3_body i arg1 harg1 arg2 harg2 arg3 harg3 arg4 harg4 arg5 harg5 arg6 harg6 arg7 harg7 arg8 harg8 arg9 harg9) Q := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

section Region3
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

/-- Input window 0's current staging buffer holds its block at every point, fetched there or not, for any proof data
    whose array is `V`'s and whose body leaves the block in place. -/
theorem before3_0_of {c : Dev nD} (dat : Dat τ (Elt F) (HIx 6) ℕ 𝕌 ℕ cfg3 c) (hA : dat.A 0 = V (Proc.devRef .tc (Pipeline.arrRef spec3 0)))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof data
    whose array is `V`'s and whose body leaves the block in place. -/
theorem before3_1_of {c : Dev nD} (dat : Dat τ (Elt F) (HIx 6) ℕ 𝕌 ℕ cfg3 c) (hA : dat.A 1 = V (Proc.devRef .tc (Pipeline.arrRef spec3 1)))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof data
    whose array is `V`'s and whose body leaves the block in place. -/
theorem before3_2_of {c : Dev nD} (dat : Dat τ (Elt F) (HIx 6) ℕ 𝕌 ℕ cfg3 c) (hA : dat.A 2 = V (Proc.devRef .tc (Pipeline.arrRef spec3 2)))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof data
    whose array is `V`'s and whose body leaves the block in place. -/
theorem before3_3_of {c : Dev nD} (dat : Dat τ (Elt F) (HIx 6) ℕ 𝕌 ℕ cfg3 c) (hA : dat.A 3 = V (Proc.devRef .tc (Pipeline.arrRef spec3 3)))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof data
    whose array is `V`'s and whose body leaves the block in place. -/
theorem before3_4_of {c : Dev nD} (dat : Dat τ (Elt F) (HIx 6) ℕ 𝕌 ℕ cfg3 c) (hA : dat.A 4 = V (Proc.devRef .tc (Pipeline.arrRef spec3 4)))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof data
    whose array is `V`'s and whose body leaves the block in place. -/
theorem before3_5_of {c : Dev nD} (dat : Dat τ (Elt F) (HIx 6) ℕ 𝕌 ℕ cfg3 c) (hA : dat.A 5 = V (Proc.devRef .tc (Pipeline.arrRef spec3 5)))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof data
    whose array is `V`'s and whose body leaves the block in place. -/
theorem before3_6_of {c : Dev nD} (dat : Dat τ (Elt F) (HIx 6) ℕ 𝕌 ℕ cfg3 c) (hA : dat.A 6 = V (Proc.devRef .tc (Pipeline.arrRef spec3 6)))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof data
    whose array is `V`'s and whose body leaves the block in place. -/
theorem before3_7_of {c : Dev nD} (dat : Dat τ (Elt F) (HIx 6) ℕ 𝕌 ℕ cfg3 c) (hA : dat.A 7 = V (Proc.devRef .tc (Pipeline.arrRef spec3 7)))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of pipeline 1 on core `c`: the arrays as the region finds them (`V`); after the body at point `t` each
    input's buffer at its block and the output's at `out3_8` of the input blocks; the invariant the core's scoped buffers that
    are no staging buffer of this pipeline, each at some contents, which the body never touches; the tallies
    `O` owed and the recorded pairs within `R` throughout; full shares. -/
def dat3 (c : Dev nD) : Dat τ (Elt F) (HIx 6) ℕ 𝕌 ℕ cfg3 c where
  A w := V (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.scopedRest (Ix := HIx 6) (Name := ℕ) (U := 𝕌) (Lvl := ℕ) (Val := Elt F) spec3 c
  q _ := fullShare
  owed _ := O
  recorded _ := R

/-- The proof data's arrays are the region-entry contents. -/
theorem A_eq3 (c : Dev nD) (w : Fin cfg3.W) : (dat3 (F := F) O R V c).A w = V (Proc.devRef .tc (Pipeline.arrRef spec3 w)) := by
  dsimp only [dat3]

/-- What the body leaves, window by window. -/
theorem after3_0 (c : Dev nD) (t : Fin cfg3.N) : (dat3 (F := F) O R V c).after 0 t = iblk3 V c 0 t := by dsimp only [dat3]
theorem after3_1 (c : Dev nD) (t : Fin cfg3.N) : (dat3 (F := F) O R V c).after 1 t = iblk3 V c 1 t := by dsimp only [dat3]
theorem after3_2 (c : Dev nD) (t : Fin cfg3.N) : (dat3 (F := F) O R V c).after 2 t = iblk3 V c 2 t := by dsimp only [dat3]
theorem after3_3 (c : Dev nD) (t : Fin cfg3.N) : (dat3 (F := F) O R V c).after 3 t = iblk3 V c 3 t := by dsimp only [dat3]
theorem after3_4 (c : Dev nD) (t : Fin cfg3.N) : (dat3 (F := F) O R V c).after 4 t = iblk3 V c 4 t := by dsimp only [dat3]
theorem after3_5 (c : Dev nD) (t : Fin cfg3.N) : (dat3 (F := F) O R V c).after 5 t = iblk3 V c 5 t := by dsimp only [dat3]
theorem after3_6 (c : Dev nD) (t : Fin cfg3.N) : (dat3 (F := F) O R V c).after 6 t = iblk3 V c 6 t := by dsimp only [dat3]
theorem after3_7 (c : Dev nD) (t : Fin cfg3.N) : (dat3 (F := F) O R V c).after 7 t = iblk3 V c 7 t := by dsimp only [dat3]
theorem after3_8 (c : Dev nD) (t : Fin cfg3.N) : (dat3 (F := F) O R V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 (F := F) O R V c).before 0 t d = iblk3 V c 0 t :=
  before3_0_of V (dat3 (F := F) O R V c) (A_eq3 O R V c 0) (after3_0 O R V c) t d
theorem before3_1 (c : Dev nD) (t : Fin cfg3.N) (d) : (dat3 (F := F) O R V c).before 1 t d = iblk3 V c 1 t :=
  before3_1_of V (dat3 (F := F) O R V c) (A_eq3 O R V c 1) (after3_1 O R V c) t d
theorem before3_2 (c : Dev nD) (t : Fin cfg3.N) (d) : (dat3 (F := F) O R V c).before 2 t d = iblk3 V c 2 t :=
  before3_2_of V (dat3 (F := F) O R V c) (A_eq3 O R V c 2) (after3_2 O R V c) t d
theorem before3_3 (c : Dev nD) (t : Fin cfg3.N) (d) : (dat3 (F := F) O R V c).before 3 t d = iblk3 V c 3 t :=
  before3_3_of V (dat3 (F := F) O R V c) (A_eq3 O R V c 3) (after3_3 O R V c) t d
theorem before3_4 (c : Dev nD) (t : Fin cfg3.N) (d) : (dat3 (F := F) O R V c).before 4 t d = iblk3 V c 4 t :=
  before3_4_of V (dat3 (F := F) O R V c) (A_eq3 O R V c 4) (after3_4 O R V c) t d
theorem before3_5 (c : Dev nD) (t : Fin cfg3.N) (d) : (dat3 (F := F) O R V c).before 5 t d = iblk3 V c 5 t :=
  before3_5_of V (dat3 (F := F) O R V c) (A_eq3 O R V c 5) (after3_5 O R V c) t d
theorem before3_6 (c : Dev nD) (t : Fin cfg3.N) (d) : (dat3 (F := F) O R V c).before 6 t d = iblk3 V c 6 t :=
  before3_6_of V (dat3 (F := F) O R V c) (A_eq3 O R V c 6) (after3_6 O R V c) t d
theorem before3_7 (c : Dev nD) (t : Fin cfg3.N) (d) : (dat3 (F := F) O R V c).before 7 t d = iblk3 V c 7 t :=
  before3_7_of V (dat3 (F := F) O R V c) (A_eq3 O R V c 7) (after3_7 O R V c) t d

/-! ## The body obligation, at a generic point -/

variable (𝒱₀ : Variants) (ι : HIx 6)

/-- What the body is called with at point `t` (the windows one by one), -/
def bodyPre3 (c : Dev nD) (t : Fin cfg3.N) : sProp 𝕄 :=
  iprop((dat3 (F := F) O R V c).Φ t.castSucc ∗ (dat3 (F := F) O R V c).owesAt ι t.castSucc
    ∗ (∃ d, owns (c : Thread nD τ) (st3_0 t) fullShare ((dat3 (F := F) O R V c).before 0 t d))
    ∗ (∃ d, owns (c : Thread nD τ) (st3_1 t) fullShare ((dat3 (F := F) O R V c).before 1 t d))
    ∗ (∃ d, owns (c : Thread nD τ) (st3_2 t) fullShare ((dat3 (F := F) O R V c).before 2 t d))
    ∗ (∃ d, owns (c : Thread nD τ) (st3_3 t) fullShare ((dat3 (F := F) O R V c).before 3 t d))
    ∗ (∃ d, owns (c : Thread nD τ) (st3_4 t) fullShare ((dat3 (F := F) O R V c).before 4 t d))
    ∗ (∃ d, owns (c : Thread nD τ) (st3_5 t) fullShare ((dat3 (F := F) O R V c).before 5 t d))
    ∗ (∃ d, owns (c : Thread nD τ) (st3_6 t) fullShare ((dat3 (F := F) O R V c).before 6 t d))
    ∗ (∃ d, owns (c : Thread nD τ) (st3_7 t) fullShare ((dat3 (F := F) O R V c).before 7 t d))
    ∗ (∃ d, owns (c : Thread nD τ) (st3_8 t) fullShare ((dat3 (F := F) O R V c).before 8 t d)))

/-- and what it returns. -/
def bodyPost3 (c : Dev nD) (t : Fin cfg3.N) : sProp 𝕄 :=
  iprop((dat3 (F := F) O R V c).Φ t.succ ∗ (dat3 (F := F) O R V c).owesAt ι t.succ
    ∗ owns (c : Thread nD τ) (st3_0 t) fullShare ((dat3 (F := F) O R V c).after 0 t)
    ∗ owns (c : Thread nD τ) (st3_1 t) fullShare ((dat3 (F := F) O R V c).after 1 t)
    ∗ owns (c : Thread nD τ) (st3_2 t) fullShare ((dat3 (F := F) O R V c).after 2 t)
    ∗ owns (c : Thread nD τ) (st3_3 t) fullShare ((dat3 (F := F) O R V c).after 3 t)
    ∗ owns (c : Thread nD τ) (st3_4 t) fullShare ((dat3 (F := F) O R V c).after 4 t)
    ∗ owns (c : Thread nD τ) (st3_5 t) fullShare ((dat3 (F := F) O R V c).after 5 t)
    ∗ owns (c : Thread nD τ) (st3_6 t) fullShare ((dat3 (F := F) O R V c).after 6 t)
    ∗ owns (c : Thread nD τ) (st3_7 t) fullShare ((dat3 (F := F) O R V c).after 7 t)
    ∗ owns (c : Thread nD τ) (st3_8 t) fullShare ((dat3 (F := F) O R V c).after 8 t))

/-- The body at any point: the inputs' memrefs hold their blocks, so `kernelRun3` applies; the invariant and the core's
    `owes` pass through unread. -/
theorem sound_body3 (c : Dev nD) (t : Fin cfg3.N) :
    bodyPre3 O R V ι c t ⊢ wp frame (wpE (defs₀ (F := F)) 𝒱₀ c none) Set.univ (bodyAt3 t) (fun _ => bodyPost3 O R V ι c t) := by
  unfold bodyPre3 bodyPost3 bodyAt3
  simp only [before3_0, before3_1, before3_2, before3_3, before3_4, before3_5, before3_6, before3_7]
  rw [show (dat3 (F := F) O R V c).Φ t.succ = (dat3 (F := F) O R V c).Φ t.castSucc from rfl,
    show (dat3 (F := F) O R V c).owesAt ι t.succ = (dat3 (F := F) O R V c).owesAt ι t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun3 𝒱₀ c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) O R V c) (defs₀ (F := F)) 𝒱₀ ι Set.univ := fun t => by
  rw [bigSep_W3, bigSep_W3]
  exact sound_body3 O R V 𝒱₀ ι c t

/-! ## What the arrays hold after the last point -/

/-- The output's blocks at different points sit at different block indices, -/
theorem index3_8_ne : ∀ t t' : Fin cfg3.N, t ≠ t' → (cfg3.win 8).index t ≠ (cfg3.win 8).index t' := by decide +kernel

/-- so block `t` of the output array after the last point is what point `t` wrote back: `out3_8` of the input blocks at `t`. -/
theorem out_blk3 (c : Dev nD) (t : Fin cfg3.N) :
    ((cfg3.win 8).blk t).view.read (Elt F) ((dat3 (F := F) O R V c).arrAt 8 cfg3.N) = out3_8 (iblk3 V c 0 t) (iblk3 V c 1 t) (iblk3 V c 2 t) (iblk3 V c 3 t) (iblk3 V c 4 t) (iblk3 V c 5 t) (iblk3 V c 6 t) (iblk3 V c 7 t) :=
  ((dat3 (F := F) O R V c).read_blk_arrAt_eq_flushed 8 (fun t t' _ _ h => (cfg3.win 8).disjoint_blk (index3_8_ne t t' h)) cfg3.N t t.isLt (flush3_8 t)).trans
    (after3_8 O R V c t)

/-- An input array is as the region found it, at every point. -/
theorem arrAt_in3 (c : Dev nD) (w : Fin cfg3.W) (hw : (cfg3.win w).isOut = false) (n : Nat) :
    (dat3 (F := F) O R V c).arrAt w n = V (Proc.devRef .tc (Pipeline.arrRef spec3 w)) :=
  ((dat3 (F := F) O R V c).arrAt_in w hw n).trans (A_eq3 O R V c w)

end Region3

/-! # custom_call 5 -/

/-! ## The body's accesses -/

abbrev r5_0 : Rect S400x32 := Rect.unit (s := S400x32) ![0, 0] S400x32.size inb_S400x32_S400x32_0_0
abbrev r5_1 : Rect S32x400x128 := Rect.unit (s := S32x400x128) ![0, 0, 0] S1x400x128.size inb_S32x400x128_S1x400x128_0_0_0
abbrev r5_2 : Rect S32x400x128 := Rect.unit (s := S32x400x128) ![1, 0, 0] S1x400x128.size inb_S32x400x128_S1x400x128_1_0_0
abbrev r5_3 : Rect S32x400x128 := Rect.unit (s := S32x400x128) ![2, 0, 0] S1x400x128.size inb_S32x400x128_S1x400x128_2_0_0
abbrev r5_4 : Rect S32x400x128 := Rect.unit (s := S32x400x128) ![3, 0, 0] S1x400x128.size inb_S32x400x128_S1x400x128_3_0_0
abbrev r5_5 : Rect S32x400x128 := Rect.unit (s := S32x400x128) ![4, 0, 0] S1x400x128.size inb_S32x400x128_S1x400x128_4_0_0
abbrev r5_6 : Rect S32x400x128 := Rect.unit (s := S32x400x128) ![5, 0, 0] S1x400x128.size inb_S32x400x128_S1x400x128_5_0_0
abbrev r5_7 : Rect S32x400x128 := Rect.unit (s := S32x400x128) ![6, 0, 0] S1x400x128.size inb_S32x400x128_S1x400x128_6_0_0
abbrev r5_8 : Rect S32x400x128 := Rect.unit (s := S32x400x128) ![7, 0, 0] S1x400x128.size inb_S32x400x128_S1x400x128_7_0_0
abbrev r5_9 : Rect S32x400x128 := Rect.unit (s := S32x400x128) ![8, 0, 0] S1x400x128.size inb_S32x400x128_S1x400x128_8_0_0
abbrev r5_10 : Rect S32x400x128 := Rect.unit (s := S32x400x128) ![9, 0, 0] S1x400x128.size inb_S32x400x128_S1x400x128_9_0_0
abbrev r5_11 : Rect S32x400x128 := Rect.unit (s := S32x400x128) ![10, 0, 0] S1x400x128.size inb_S32x400x128_S1x400x128_10_0_0
abbrev r5_12 : Rect S32x400x128 := Rect.unit (s := S32x400x128) ![11, 0, 0] S1x400x128.size inb_S32x400x128_S1x400x128_11_0_0
abbrev r5_13 : Rect S32x400x128 := Rect.unit (s := S32x400x128) ![12, 0, 0] S1x400x128.size inb_S32x400x128_S1x400x128_12_0_0
abbrev r5_14 : Rect S32x400x128 := Rect.unit (s := S32x400x128) ![13, 0, 0] S1x400x128.size inb_S32x400x128_S1x400x128_13_0_0
abbrev r5_15 : Rect S32x400x128 := Rect.unit (s := S32x400x128) ![14, 0, 0] S1x400x128.size inb_S32x400x128_S1x400x128_14_0_0
abbrev r5_16 : Rect S32x400x128 := Rect.unit (s := S32x400x128) ![15, 0, 0] S1x400x128.size inb_S32x400x128_S1x400x128_15_0_0
abbrev r5_17 : Rect S32x400x128 := Rect.unit (s := S32x400x128) ![16, 0, 0] S1x400x128.size inb_S32x400x128_S1x400x128_16_0_0
abbrev r5_18 : Rect S32x400x128 := Rect.unit (s := S32x400x128) ![17, 0, 0] S1x400x128.size inb_S32x400x128_S1x400x128_17_0_0
abbrev r5_19 : Rect S32x400x128 := Rect.unit (s := S32x400x128) ![18, 0, 0] S1x400x128.size inb_S32x400x128_S1x400x128_18_0_0
abbrev r5_20 : Rect S32x400x128 := Rect.unit (s := S32x400x128) ![19, 0, 0] S1x400x128.size inb_S32x400x128_S1x400x128_19_0_0
abbrev r5_21 : Rect S32x400x128 := Rect.unit (s := S32x400x128) ![20, 0, 0] S1x400x128.size inb_S32x400x128_S1x400x128_20_0_0
abbrev r5_22 : Rect S32x400x128 := Rect.unit (s := S32x400x128) ![21, 0, 0] S1x400x128.size inb_S32x400x128_S1x400x128_21_0_0
abbrev r5_23 : Rect S32x400x128 := Rect.unit (s := S32x400x128) ![22, 0, 0] S1x400x128.size inb_S32x400x128_S1x400x128_22_0_0
abbrev r5_24 : Rect S32x400x128 := Rect.unit (s := S32x400x128) ![23, 0, 0] S1x400x128.size inb_S32x400x128_S1x400x128_23_0_0
abbrev r5_25 : Rect S32x400x128 := Rect.unit (s := S32x400x128) ![24, 0, 0] S1x400x128.size inb_S32x400x128_S1x400x128_24_0_0
abbrev r5_26 : Rect S32x400x128 := Rect.unit (s := S32x400x128) ![25, 0, 0] S1x400x128.size inb_S32x400x128_S1x400x128_25_0_0
abbrev r5_27 : Rect S32x400x128 := Rect.unit (s := S32x400x128) ![26, 0, 0] S1x400x128.size inb_S32x400x128_S1x400x128_26_0_0
abbrev r5_28 : Rect S32x400x128 := Rect.unit (s := S32x400x128) ![27, 0, 0] S1x400x128.size inb_S32x400x128_S1x400x128_27_0_0
abbrev r5_29 : Rect S32x400x128 := Rect.unit (s := S32x400x128) ![28, 0, 0] S1x400x128.size inb_S32x400x128_S1x400x128_28_0_0
abbrev r5_30 : Rect S32x400x128 := Rect.unit (s := S32x400x128) ![29, 0, 0] S1x400x128.size inb_S32x400x128_S1x400x128_29_0_0
abbrev r5_31 : Rect S32x400x128 := Rect.unit (s := S32x400x128) ![30, 0, 0] S1x400x128.size inb_S32x400x128_S1x400x128_30_0_0
abbrev r5_32 : Rect S32x400x128 := Rect.unit (s := S32x400x128) ![31, 0, 0] S1x400x128.size inb_S32x400x128_S1x400x128_31_0_0
abbrev r5_33 : Rect S400x128 := Rect.unit (s := S400x128) ![0, 0] S400x128.size inb_S400x128_S400x128_0_0
abbrev r5_34 : Rect S128x128 := Rect.unit (s := S128x128) ![0, 0] S128x128.size inb_S128x128_S128x128_0_0
abbrev r5_35 : Rect S1x128 := Rect.unit (s := S1x128) ![0, 0] S1x128.size inb_S1x128_S1x128_0_0

/-! ## What the body computes, part by part (the payloads composed along the root sequence) -/

/-- Part 1's result 0 (`v1` of the printed body), over the staged blocks. -/
def s5_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay2 (View.ld x1 r5_0)
/-- Part 1's result 1 (`v36` of the printed body), over the staged blocks. -/
def s5_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay3 (View.ld x1 r5_0) (View.ld x0 r5_1) (View.ld x0 r5_2) (View.ld x0 r5_3) (View.ld x0 r5_4) (View.ld x0 r5_5) (View.ld x0 r5_6)
/-- Part 2's result 0 (`v72` of the printed body), over the staged blocks. -/
def s5_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay4 (s5_1_0 x0 x1 x2 x3 x4 x5 x6 x7) (s5_1_1 x0 x1 x2 x3 x4 x5 x6 x7) (View.ld x0 r5_7) (View.ld x0 r5_8) (View.ld x0 r5_9) (View.ld x0 r5_10) (View.ld x0 r5_11) (View.ld x0 r5_12)
/-- Part 2's result 1 (`v77` of the printed body), over the staged blocks. -/
def s5_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay5 (s5_1_0 x0 x1 x2 x3 x4 x5 x6 x7) (View.ld x0 r5_13)
/-- Part 3's result 0 (`v114` of the printed body), over the staged blocks. -/
def s5_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay6 (s5_1_0 x0 x1 x2 x3 x4 x5 x6 x7) (s5_2_0 x0 x1 x2 x3 x4 x5 x6 x7) (s5_2_1 x0 x1 x2 x3 x4 x5 x6 x7) (View.ld x0 r5_14) (View.ld x0 r5_15) (View.ld x0 r5_16) (View.ld x0 r5_17) (View.ld x0 r5_18) (View.ld x0 r5_19)
/-- Part 3's result 1 (`v116` of the printed body), over the staged blocks. -/
def s5_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay7 (View.ld x0 r5_20)
/-- Part 4's result 0 (`v156` of the printed body), over the staged blocks. -/
def s5_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay8 (s5_1_0 x0 x1 x2 x3 x4 x5 x6 x7) (s5_3_0 x0 x1 x2 x3 x4 x5 x6 x7) (s5_3_1 x0 x1 x2 x3 x4 x5 x6 x7) (View.ld x0 r5_21) (View.ld x0 r5_22) (View.ld x0 r5_23) (View.ld x0 r5_24) (View.ld x0 r5_25) (View.ld x0 r5_26)
/-- Part 5's result 0 (`v192` of the printed body), over the staged blocks. -/
def s5_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay9 (s5_1_0 x0 x1 x2 x3 x4 x5 x6 x7) (s5_4_0 x0 x1 x2 x3 x4 x5 x6 x7) (View.ld x0 r5_27) (View.ld x0 r5_28) (View.ld x0 r5_29) (View.ld x0 r5_30) (View.ld x0 r5_31) (View.ld x0 r5_32)
/-- Part 5's result 1 (`v194` of the printed body), over the staged blocks. -/
def s5_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay10 (View.ld x2 r5_33)
/-- Part 5's result 2 (`v195` of the printed body), over the staged blocks. -/
def s5_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay11 (View.ld x2 r5_33)
/-- Part 5's result 3 (`v198` of the printed body), over the staged blocks. -/
def s5_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay12 (View.ld x2 r5_33)
/-- Part 6's result 0 (`v241` of the printed body), over the staged blocks. -/
def s5_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k5_pay13 (s5_5_0 x0 x1 x2 x3 x4 x5 x6 x7) (s5_5_1 x0 x1 x2 x3 x4 x5 x6 x7) (s5_5_2 x0 x1 x2 x3 x4 x5 x6 x7) (s5_5_3 x0 x1 x2 x3 x4 x5 x6 x7) (View.ld x3 r5_34) (View.ld x4 r5_34) (View.ld x5 r5_35) (View.ld x6 r5_35)

/-- Window 8's staging buffer after the body, from the input windows' blocks: its one store as a piece. -/
def out5_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r5_33, k5_pay1 (s5_6_0 x0 x1 x2 x3 x4 x5 x6 x7) (View.ld x7 r5_35)⟩]

/-- The store tiles the buffer, so it covers it. -/
theorem cover5_8 (p0 : Vec F S400x128 .f32) (y : S400x128.Idx) :
    ∃ pc ∈ ([⟨r5_33, p0⟩] : List (View.Piece (Elt F) S400x128 .f32)), y ∈ pc.1.set :=
  View.cover_of_tiled [⟨r5_33, p0⟩] S400x128.size (by rfl) y

/-! ## The body's triple -/

set_option maxHeartbeats 4000000 in
/-- The body on whole staging memrefs, the inputs' at read contents `x0 … x7` and the output's at anything, runs to the
    continuation holding the inputs' as they were and the output's at `out5_8` of the inputs'. -/
theorem kernelRun5 (𝒱₀ : Variants) (c : Dev nD) (E : Set ℕ) (i : grid5.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out5_8 x0 x1 x2 x3 x4 x5 x6 x7)) -∗ Q ⟨⟩))
      ⊢ wp frame (wpE (defs₀ (F := F)) 𝒱₀ c none) E (cc5_body i arg1 harg1 arg2 harg2 arg3 harg3 arg4 harg4 arg5 harg5 arg6 harg6 arg7 harg7 arg8 harg8 arg9 harg9) Q := by
  simp only [cc5_body_eq_skeleton]; unfold cc5_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover5_8 _)

section Region5
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V (Proc.devRef .tc (Pipeline.arrRef spec5 w)))

/-- Input window 0's current staging buffer holds its block at every point, fetched there or not, for any proof data
    whose array is `V`'s and whose body leaves the block in place. -/
theorem before5_0_of {c : Dev nD} (dat : Dat τ (Elt F) (HIx 6) ℕ 𝕌 ℕ cfg5 c) (hA : dat.A 0 = V (Proc.devRef .tc (Pipeline.arrRef spec5 0)))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof data
    whose array is `V`'s and whose body leaves the block in place. -/
theorem before5_1_of {c : Dev nD} (dat : Dat τ (Elt F) (HIx 6) ℕ 𝕌 ℕ cfg5 c) (hA : dat.A 1 = V (Proc.devRef .tc (Pipeline.arrRef spec5 1)))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof data
    whose array is `V`'s and whose body leaves the block in place. -/
theorem before5_2_of {c : Dev nD} (dat : Dat τ (Elt F) (HIx 6) ℕ 𝕌 ℕ cfg5 c) (hA : dat.A 2 = V (Proc.devRef .tc (Pipeline.arrRef spec5 2)))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof data
    whose array is `V`'s and whose body leaves the block in place. -/
theorem before5_3_of {c : Dev nD} (dat : Dat τ (Elt F) (HIx 6) ℕ 𝕌 ℕ cfg5 c) (hA : dat.A 3 = V (Proc.devRef .tc (Pipeline.arrRef spec5 3)))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof data
    whose array is `V`'s and whose body leaves the block in place. -/
theorem before5_4_of {c : Dev nD} (dat : Dat τ (Elt F) (HIx 6) ℕ 𝕌 ℕ cfg5 c) (hA : dat.A 4 = V (Proc.devRef .tc (Pipeline.arrRef spec5 4)))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof data
    whose array is `V`'s and whose body leaves the block in place. -/
theorem before5_5_of {c : Dev nD} (dat : Dat τ (Elt F) (HIx 6) ℕ 𝕌 ℕ cfg5 c) (hA : dat.A 5 = V (Proc.devRef .tc (Pipeline.arrRef spec5 5)))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for any proof data
    whose array is `V`'s and whose body leaves the block in place. -/
theorem before5_6_of {c : Dev nD} (dat : Dat τ (Elt F) (HIx 6) ℕ 𝕌 ℕ cfg5 c) (hA : dat.A 6 = V (Proc.devRef .tc (Pipeline.arrRef spec5 6)))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for any proof data
    whose array is `V`'s and whose body leaves the block in place. -/
theorem before5_7_of {c : Dev nD} (dat : Dat τ (Elt F) (HIx 6) ℕ 𝕌 ℕ cfg5 c) (hA : dat.A 7 = V (Proc.devRef .tc (Pipeline.arrRef spec5 7)))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The pipeline's proof data -/

/-- The proof data of pipeline 2 on core `c`: the arrays as the region finds them (`V`); after the body at point `t` each
    input's buffer at its block and the output's at `out5_8` of the input blocks; the invariant the core's scoped buffers that
    are no staging buffer of this pipeline, each at some contents, which the body never touches; the tallies
    `O` owed and the recorded pairs within `R` throughout; full shares. -/
def dat5 (c : Dev nD) : Dat τ (Elt F) (HIx 6) ℕ 𝕌 ℕ cfg5 c where
  A w := V (Proc.devRef .tc (Pipeline.arrRef spec5 w))
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.scopedRest (Ix := HIx 6) (Name := ℕ) (U := 𝕌) (Lvl := ℕ) (Val := Elt F) spec5 c
  q _ := fullShare
  owed _ := O
  recorded _ := R

/-- The proof data's arrays are the region-entry contents. -/
theorem A_eq5 (c : Dev nD) (w : Fin cfg5.W) : (dat5 (F := F) O R V c).A w = V (Proc.devRef .tc (Pipeline.arrRef spec5 w)) := by
  dsimp only [dat5]

/-- What the body leaves, window by window. -/
theorem after5_0 (c : Dev nD) (t : Fin cfg5.N) : (dat5 (F := F) O R V c).after 0 t = iblk5 V c 0 t := by dsimp only [dat5]
theorem after5_1 (c : Dev nD) (t : Fin cfg5.N) : (dat5 (F := F) O R V c).after 1 t = iblk5 V c 1 t := by dsimp only [dat5]
theorem after5_2 (c : Dev nD) (t : Fin cfg5.N) : (dat5 (F := F) O R V c).after 2 t = iblk5 V c 2 t := by dsimp only [dat5]
theorem after5_3 (c : Dev nD) (t : Fin cfg5.N) : (dat5 (F := F) O R V c).after 3 t = iblk5 V c 3 t := by dsimp only [dat5]
theorem after5_4 (c : Dev nD) (t : Fin cfg5.N) : (dat5 (F := F) O R V c).after 4 t = iblk5 V c 4 t := by dsimp only [dat5]
theorem after5_5 (c : Dev nD) (t : Fin cfg5.N) : (dat5 (F := F) O R V c).after 5 t = iblk5 V c 5 t := by dsimp only [dat5]
theorem after5_6 (c : Dev nD) (t : Fin cfg5.N) : (dat5 (F := F) O R V c).after 6 t = iblk5 V c 6 t := by dsimp only [dat5]
theorem after5_7 (c : Dev nD) (t : Fin cfg5.N) : (dat5 (F := F) O R V c).after 7 t = iblk5 V c 7 t := by dsimp only [dat5]
theorem after5_8 (c : Dev nD) (t : Fin cfg5.N) : (dat5 (F := F) O R V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]

/-- Each input's current staging buffer holds its block at every point, fetched there or not. -/
theorem before5_0 (c : Dev nD) (t : Fin cfg5.N) (d) : (dat5 (F := F) O R V c).before 0 t d = iblk5 V c 0 t :=
  before5_0_of V (dat5 (F := F) O R V c) (A_eq5 O R V c 0) (after5_0 O R V c) t d
theorem before5_1 (c : Dev nD) (t : Fin cfg5.N) (d) : (dat5 (F := F) O R V c).before 1 t d = iblk5 V c 1 t :=
  before5_1_of V (dat5 (F := F) O R V c) (A_eq5 O R V c 1) (after5_1 O R V c) t d
theorem before5_2 (c : Dev nD) (t : Fin cfg5.N) (d) : (dat5 (F := F) O R V c).before 2 t d = iblk5 V c 2 t :=
  before5_2_of V (dat5 (F := F) O R V c) (A_eq5 O R V c 2) (after5_2 O R V c) t d
theorem before5_3 (c : Dev nD) (t : Fin cfg5.N) (d) : (dat5 (F := F) O R V c).before 3 t d = iblk5 V c 3 t :=
  before5_3_of V (dat5 (F := F) O R V c) (A_eq5 O R V c 3) (after5_3 O R V c) t d
theorem before5_4 (c : Dev nD) (t : Fin cfg5.N) (d) : (dat5 (F := F) O R V c).before 4 t d = iblk5 V c 4 t :=
  before5_4_of V (dat5 (F := F) O R V c) (A_eq5 O R V c 4) (after5_4 O R V c) t d
theorem before5_5 (c : Dev nD) (t : Fin cfg5.N) (d) : (dat5 (F := F) O R V c).before 5 t d = iblk5 V c 5 t :=
  before5_5_of V (dat5 (F := F) O R V c) (A_eq5 O R V c 5) (after5_5 O R V c) t d
theorem before5_6 (c : Dev nD) (t : Fin cfg5.N) (d) : (dat5 (F := F) O R V c).before 6 t d = iblk5 V c 6 t :=
  before5_6_of V (dat5 (F := F) O R V c) (A_eq5 O R V c 6) (after5_6 O R V c) t d
theorem before5_7 (c : Dev nD) (t : Fin cfg5.N) (d) : (dat5 (F := F) O R V c).before 7 t d = iblk5 V c 7 t :=
  before5_7_of V (dat5 (F := F) O R V c) (A_eq5 O R V c 7) (after5_7 O R V c) t d

/-! ## The body obligation, at a generic point -/

variable (𝒱₀ : Variants) (ι : HIx 6)

/-- What the body is called with at point `t` (the windows one by one), -/
def bodyPre5 (c : Dev nD) (t : Fin cfg5.N) : sProp 𝕄 :=
  iprop((dat5 (F := F) O R V c).Φ t.castSucc ∗ (dat5 (F := F) O R V c).owesAt ι t.castSucc
    ∗ (∃ d, owns (c : Thread nD τ) (st5_0 t) fullShare ((dat5 (F := F) O R V c).before 0 t d))
    ∗ (∃ d, owns (c : Thread nD τ) (st5_1 t) fullShare ((dat5 (F := F) O R V c).before 1 t d))
    ∗ (∃ d, owns (c : Thread nD τ) (st5_2 t) fullShare ((dat5 (F := F) O R V c).before 2 t d))
    ∗ (∃ d, owns (c : Thread nD τ) (st5_3 t) fullShare ((dat5 (F := F) O R V c).before 3 t d))
    ∗ (∃ d, owns (c : Thread nD τ) (st5_4 t) fullShare ((dat5 (F := F) O R V c).before 4 t d))
    ∗ (∃ d, owns (c : Thread nD τ) (st5_5 t) fullShare ((dat5 (F := F) O R V c).before 5 t d))
    ∗ (∃ d, owns (c : Thread nD τ) (st5_6 t) fullShare ((dat5 (F := F) O R V c).before 6 t d))
    ∗ (∃ d, owns (c : Thread nD τ) (st5_7 t) fullShare ((dat5 (F := F) O R V c).before 7 t d))
    ∗ (∃ d, owns (c : Thread nD τ) (st5_8 t) fullShare ((dat5 (F := F) O R V c).before 8 t d)))

/-- and what it returns. -/
def bodyPost5 (c : Dev nD) (t : Fin cfg5.N) : sProp 𝕄 :=
  iprop((dat5 (F := F) O R V c).Φ t.succ ∗ (dat5 (F := F) O R V c).owesAt ι t.succ
    ∗ owns (c : Thread nD τ) (st5_0 t) fullShare ((dat5 (F := F) O R V c).after 0 t)
    ∗ owns (c : Thread nD τ) (st5_1 t) fullShare ((dat5 (F := F) O R V c).after 1 t)
    ∗ owns (c : Thread nD τ) (st5_2 t) fullShare ((dat5 (F := F) O R V c).after 2 t)
    ∗ owns (c : Thread nD τ) (st5_3 t) fullShare ((dat5 (F := F) O R V c).after 3 t)
    ∗ owns (c : Thread nD τ) (st5_4 t) fullShare ((dat5 (F := F) O R V c).after 4 t)
    ∗ owns (c : Thread nD τ) (st5_5 t) fullShare ((dat5 (F := F) O R V c).after 5 t)
    ∗ owns (c : Thread nD τ) (st5_6 t) fullShare ((dat5 (F := F) O R V c).after 6 t)
    ∗ owns (c : Thread nD τ) (st5_7 t) fullShare ((dat5 (F := F) O R V c).after 7 t)
    ∗ owns (c : Thread nD τ) (st5_8 t) fullShare ((dat5 (F := F) O R V c).after 8 t))

/-- The body at any point: the inputs' memrefs hold their blocks, so `kernelRun5` applies; the invariant and the core's
    `owes` pass through unread. -/
theorem sound_body5 (c : Dev nD) (t : Fin cfg5.N) :
    bodyPre5 O R V ι c t ⊢ wp frame (wpE (defs₀ (F := F)) 𝒱₀ c none) Set.univ (bodyAt5 t) (fun _ => bodyPost5 O R V ι c t) := by
  unfold bodyPre5 bodyPost5 bodyAt5
  simp only [before5_0, before5_1, before5_2, before5_3, before5_4, before5_5, before5_6, before5_7]
  rw [show (dat5 (F := F) O R V c).Φ t.succ = (dat5 (F := F) O R V c).Φ t.castSucc from rfl,
    show (dat5 (F := F) O R V c).owesAt ι t.succ = (dat5 (F := F) O R V c).owesAt ι t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun5 𝒱₀ c Set.univ (grid5.coords t) _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation5 (c : Dev nD) : BodyObligation (dat5 (F := F) O R V c) (defs₀ (F := F)) 𝒱₀ ι Set.univ := fun t => by
  rw [bigSep_W5, bigSep_W5]
  exact sound_body5 O R V 𝒱₀ ι c t

/-! ## What the arrays hold after the last point -/

/-- The output's blocks at different points sit at different block indices, -/
theorem index5_8_ne : ∀ t t' : Fin cfg5.N, t ≠ t' → (cfg5.win 8).index t ≠ (cfg5.win 8).index t' := by decide +kernel

/-- so block `t` of the output array after the last point is what point `t` wrote back: `out5_8` of the input blocks at `t`. -/
theorem out_blk5 (c : Dev nD) (t : Fin cfg5.N) :
    ((cfg5.win 8).blk t).view.read (Elt F) ((dat5 (F := F) O R V c).arrAt 8 cfg5.N) = out5_8 (iblk5 V c 0 t) (iblk5 V c 1 t) (iblk5 V c 2 t) (iblk5 V c 3 t) (iblk5 V c 4 t) (iblk5 V c 5 t) (iblk5 V c 6 t) (iblk5 V c 7 t) :=
  ((dat5 (F := F) O R V c).read_blk_arrAt_eq_flushed 8 (fun t t' _ _ h => (cfg5.win 8).disjoint_blk (index5_8_ne t t' h)) cfg5.N t t.isLt (flush5_8 t)).trans
    (after5_8 O R V c t)

/-- An input array is as the region found it, at every point. -/
theorem arrAt_in5 (c : Dev nD) (w : Fin cfg5.W) (hw : (cfg5.win w).isOut = false) (n : Nat) :
    (dat5 (F := F) O R V c).arrAt w n = V (Proc.devRef .tc (Pipeline.arrRef spec5 w)) :=
  ((dat5 (F := F) O R V c).arrAt_in w hw n).trans (A_eq5 O R V c w)

end Region5

/-! # custom_call 7 -/

/-! ## The body's accesses -/

abbrev r7_0 : Rect S400x32 := Rect.unit (s := S400x32) ![0, 0] S400x32.size inb_S400x32_S400x32_0_0
abbrev r7_1 : Rect S32x400x128 := Rect.unit (s := S32x400x128) ![0, 0, 0] S1x400x128.size inb_S32x400x128_S1x400x128_0_0_0
abbrev r7_2 : Rect S32x400x128 := Rect.unit (s := S32x400x128) ![1, 0, 0] S1x400x128.size inb_S32x400x128_S1x400x128_1_0_0
abbrev r7_3 : Rect S32x400x128 := Rect.unit (s := S32x400x128) ![2, 0, 0] S1x400x128.size inb_S32x400x128_S1x400x128_2_0_0
abbrev r7_4 : Rect S32x400x128 := Rect.unit (s := S32x400x128) ![3, 0, 0] S1x400x128.size inb_S32x400x128_S1x400x128_3_0_0
abbrev r7_5 : Rect S32x400x128 := Rect.unit (s := S32x400x128) ![4, 0, 0] S1x400x128.size inb_S32x400x128_S1x400x128_4_0_0
abbrev r7_6 : Rect S32x400x128 := Rect.unit (s := S32x400x128) ![5, 0, 0] S1x400x128.size inb_S32x400x128_S1x400x128_5_0_0
abbrev r7_7 : Rect S32x400x128 := Rect.unit (s := S32x400x128) ![6, 0, 0] S1x400x128.size inb_S32x400x128_S1x400x128_6_0_0
abbrev r7_8 : Rect S32x400x128 := Rect.unit (s := S32x400x128) ![7, 0, 0] S1x400x128.size inb_S32x400x128_S1x400x128_7_0_0
abbrev r7_9 : Rect S32x400x128 := Rect.unit (s := S32x400x128) ![8, 0, 0] S1x400x128.size inb_S32x400x128_S1x400x128_8_0_0
abbrev r7_10 : Rect S32x400x128 := Rect.unit (s := S32x400x128) ![9, 0, 0] S1x400x128.size inb_S32x400x128_S1x400x128_9_0_0
abbrev r7_11 : Rect S32x400x128 := Rect.unit (s := S32x400x128) ![10, 0, 0] S1x400x128.size inb_S32x400x128_S1x400x128_10_0_0
abbrev r7_12 : Rect S32x400x128 := Rect.unit (s := S32x400x128) ![11, 0, 0] S1x400x128.size inb_S32x400x128_S1x400x128_11_0_0
abbrev r7_13 : Rect S32x400x128 := Rect.unit (s := S32x400x128) ![12, 0, 0] S1x400x128.size inb_S32x400x128_S1x400x128_12_0_0
abbrev r7_14 : Rect S32x400x128 := Rect.unit (s := S32x400x128) ![13, 0, 0] S1x400x128.size inb_S32x400x128_S1x400x128_13_0_0
abbrev r7_15 : Rect S32x400x128 := Rect.unit (s := S32x400x128) ![14, 0, 0] S1x400x128.size inb_S32x400x128_S1x400x128_14_0_0
abbrev r7_16 : Rect S32x400x128 := Rect.unit (s := S32x400x128) ![15, 0, 0] S1x400x128.size inb_S32x400x128_S1x400x128_15_0_0
abbrev r7_17 : Rect S32x400x128 := Rect.unit (s := S32x400x128) ![16, 0, 0] S1x400x128.size inb_S32x400x128_S1x400x128_16_0_0
abbrev r7_18 : Rect S32x400x128 := Rect.unit (s := S32x400x128) ![17, 0, 0] S1x400x128.size inb_S32x400x128_S1x400x128_17_0_0
abbrev r7_19 : Rect S32x400x128 := Rect.unit (s := S32x400x128) ![18, 0, 0] S1x400x128.size inb_S32x400x128_S1x400x128_18_0_0
abbrev r7_20 : Rect S32x400x128 := Rect.unit (s := S32x400x128) ![19, 0, 0] S1x400x128.size inb_S32x400x128_S1x400x128_19_0_0
abbrev r7_21 : Rect S32x400x128 := Rect.unit (s := S32x400x128) ![20, 0, 0] S1x400x128.size inb_S32x400x128_S1x400x128_20_0_0
abbrev r7_22 : Rect S32x400x128 := Rect.unit (s := S32x400x128) ![21, 0, 0] S1x400x128.size inb_S32x400x128_S1x400x128_21_0_0
abbrev r7_23 : Rect S32x400x128 := Rect.unit (s := S32x400x128) ![22, 0, 0] S1x400x128.size inb_S32x400x128_S1x400x128_22_0_0
abbrev r7_24 : Rect S32x400x128 := Rect.unit (s := S32x400x128) ![23, 0, 0] S1x400x128.size inb_S32x400x128_S1x400x128_23_0_0
abbrev r7_25 : Rect S32x400x128 := Rect.unit (s := S32x400x128) ![24, 0, 0] S1x400x128.size inb_S32x400x128_S1x400x128_24_0_0
abbrev r7_26 : Rect S32x400x128 := Rect.unit (s := S32x400x128) ![25, 0, 0] S1x400x128.size inb_S32x400x128_S1x400x128_25_0_0
abbrev r7_27 : Rect S32x400x128 := Rect.unit (s := S32x400x128) ![26, 0, 0] S1x400x128.size inb_S32x400x128_S1x400x128_26_0_0
abbrev r7_28 : Rect S32x400x128 := Rect.unit (s := S32x400x128) ![27, 0, 0] S1x400x128.size inb_S32x400x128_S1x400x128_27_0_0
abbrev r7_29 : Rect S32x400x128 := Rect.unit (s := S32x400x128) ![28, 0, 0] S1x400x128.size inb_S32x400x128_S1x400x128_28_0_0
abbrev r7_30 : Rect S32x400x128 := Rect.unit (s := S32x400x128) ![29, 0, 0] S1x400x128.size inb_S32x400x128_S1x400x128_29_0_0
abbrev r7_31 : Rect S32x400x128 := Rect.unit (s := S32x400x128) ![30, 0, 0] S1x400x128.size inb_S32x400x128_S1x400x128_30_0_0
abbrev r7_32 : Rect S32x400x128 := Rect.unit (s := S32x400x128) ![31, 0, 0] S1x400x128.size inb_S32x400x128_S1x400x128_31_0_0
abbrev r7_33 : Rect S400x128 := Rect.unit (s := S400x128) ![0, 0] S400x128.size inb_S400x128_S400x128_0_0
abbrev r7_34 : Rect S128x128 := Rect.unit (s := S128x128) ![0, 0] S128x128.size inb_S128x128_S128x128_0_0
abbrev r7_35 : Rect S1x128 := Rect.unit (s := S1x128) ![0, 0] S1x128.size inb_S1x128_S1x128_0_0

/-! ## What the body computes, part by part (the payloads composed along the root sequence) -/

/-- Part 1's result 0 (`v1` of the printed body), over the staged blocks. -/
def s7_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay2 (View.ld x1 r7_0)
/-- Part 1's result 1 (`v36` of the printed body), over the staged blocks. -/
def s7_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay3 (View.ld x1 r7_0) (View.ld x0 r7_1) (View.ld x0 r7_2) (View.ld x0 r7_3) (View.ld x0 r7_4) (View.ld x0 r7_5) (View.ld x0 r7_6)
/-- Part 2's result 0 (`v72` of the printed body), over the staged blocks. -/
def s7_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay4 (s7_1_0 x0 x1 x2 x3 x4 x5 x6 x7) (s7_1_1 x0 x1 x2 x3 x4 x5 x6 x7) (View.ld x0 r7_7) (View.ld x0 r7_8) (View.ld x0 r7_9) (View.ld x0 r7_10) (View.ld x0 r7_11) (View.ld x0 r7_12)
/-- Part 2's result 1 (`v77` of the printed body), over the staged blocks. -/
def s7_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay5 (s7_1_0 x0 x1 x2 x3 x4 x5 x6 x7) (View.ld x0 r7_13)
/-- Part 3's result 0 (`v114` of the printed body), over the staged blocks. -/
def s7_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay6 (s7_1_0 x0 x1 x2 x3 x4 x5 x6 x7) (s7_2_0 x0 x1 x2 x3 x4 x5 x6 x7) (s7_2_1 x0 x1 x2 x3 x4 x5 x6 x7) (View.ld x0 r7_14) (View.ld x0 r7_15) (View.ld x0 r7_16) (View.ld x0 r7_17) (View.ld x0 r7_18) (View.ld x0 r7_19)
/-- Part 3's result 1 (`v116` of the printed body), over the staged blocks. -/
def s7_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay7 (View.ld x0 r7_20)
/-- Part 4's result 0 (`v156` of the printed body), over the staged blocks. -/
def s7_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay8 (s7_1_0 x0 x1 x2 x3 x4 x5 x6 x7) (s7_3_0 x0 x1 x2 x3 x4 x5 x6 x7) (s7_3_1 x0 x1 x2 x3 x4 x5 x6 x7) (View.ld x0 r7_21) (View.ld x0 r7_22) (View.ld x0 r7_23) (View.ld x0 r7_24) (View.ld x0 r7_25) (View.ld x0 r7_26)
/-- Part 5's result 0 (`v192` of the printed body), over the staged blocks. -/
def s7_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay9 (s7_1_0 x0 x1 x2 x3 x4 x5 x6 x7) (s7_4_0 x0 x1 x2 x3 x4 x5 x6 x7) (View.ld x0 r7_27) (View.ld x0 r7_28) (View.ld x0 r7_29) (View.ld x0 r7_30) (View.ld x0 r7_31) (View.ld x0 r7_32)
/-- Part 5's result 1 (`v194` of the printed body), over the staged blocks. -/
def s7_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay10 (View.ld x2 r7_33)
/-- Part 5's result 2 (`v195` of the printed body), over the staged blocks. -/
def s7_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay11 (View.ld x2 r7_33)
/-- Part 5's result 3 (`v198` of the printed body), over the staged blocks. -/
def s7_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay12 (View.ld x2 r7_33)
/-- Part 6's result 0 (`v241` of the printed body), over the staged blocks. -/
def s7_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k7_pay13 (s7_5_0 x0 x1 x2 x3 x4 x5 x6 x7) (s7_5_1 x0 x1 x2 x3 x4 x5 x6 x7) (s7_5_2 x0 x1 x2 x3 x4 x5 x6 x7) (s7_5_3 x0 x1 x2 x3 x4 x5 x6 x7) (View.ld x3 r7_34) (View.ld x4 r7_34) (View.ld x5 r7_35) (View.ld x6 r7_35)

/-- Window 8's staging buffer after the body, from the input windows' blocks: its one store as a piece. -/
def out7_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r7_33, k7_pay1 (s7_6_0 x0 x1 x2 x3 x4 x5 x6 x7) (View.ld x7 r7_35)⟩]

/-- The store tiles the buffer, so it covers it. -/
theorem cover7_8 (p0 : Vec F S400x128 .f32) (y : S400x128.Idx) :
    ∃ pc ∈ ([⟨r7_33, p0⟩] : List (View.Piece (Elt F) S400x128 .f32)), y ∈ pc.1.set :=
  View.cover_of_tiled [⟨r7_33, p0⟩] S400x128.size (by rfl) y

/-! ## The body's triple -/

set_option maxHeartbeats 4000000 in
/-- The body on whole staging memrefs, the inputs' at read contents `x0 … x7` and the output's at anything, runs to the
    continuation holding the inputs' as they were and the output's at `out7_8` of the inputs'. -/
theorem kernelRun7 (𝒱₀ : Variants) (c : Dev nD) (E : Set ℕ) (i : grid7.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out7_8 x0 x1 x2 x3 x4 x5 x6 x7)) -∗ Q ⟨⟩))
      ⊢ wp frame (wpE (defs₀ (F := F)) 𝒱₀ c none) E (cc7_body i arg1 harg1 arg2 harg2 arg3 harg3 arg4 harg4 arg5 harg5 arg6 harg6 arg7 harg7 arg8 harg8 arg9 harg9) Q := by
  simp only [cc7_body_eq_skeleton]; unfold cc7_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7_8 _)

section Region7
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V (Proc.devRef .tc (Pipeline.arrRef spec7 w)))

/-- Input window 0's current staging buffer holds its block at every point, fetched there or not, for any proof data
    whose array is `V`'s and whose body leaves the block in place. -/
theorem before7_0_of {c : Dev nD} (dat : Dat τ (Elt F) (HIx 6) ℕ 𝕌 ℕ cfg7 c) (hA : dat.A 0 = V (Proc.devRef .tc (Pipeline.arrRef spec7 0)))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof data
    whose array is `V`'s and whose body leaves the block in place. -/
theorem before7_1_of {c : Dev nD} (dat : Dat τ (Elt F) (HIx 6) ℕ 𝕌 ℕ cfg7 c) (hA : dat.A 1 = V (Proc.devRef .tc (Pipeline.arrRef spec7 1)))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof data
    whose array is `V`'s and whose body leaves the block in place. -/
theorem before7_2_of {c : Dev nD} (dat : Dat τ (Elt F) (HIx 6) ℕ 𝕌 ℕ cfg7 c) (hA : dat.A 2 = V (Proc.devRef .tc (Pipeline.arrRef spec7 2)))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof data
    whose array is `V`'s and whose body leaves the block in place. -/
theorem before7_3_of {c : Dev nD} (dat : Dat τ (Elt F) (HIx 6) ℕ 𝕌 ℕ cfg7 c) (hA : dat.A 3 = V (Proc.devRef .tc (Pipeline.arrRef spec7 3)))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof data
    whose array is `V`'s and whose body leaves the block in place. -/
theorem before7_4_of {c : Dev nD} (dat : Dat τ (Elt F) (HIx 6) ℕ 𝕌 ℕ cfg7 c) (hA : dat.A 4 = V (Proc.devRef .tc (Pipeline.arrRef spec7 4)))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not, for any proof data
    whose array is `V`'s and whose body leaves the block in place. -/
theorem before7_5_of {c : Dev nD} (dat : Dat τ (Elt F) (HIx 6) ℕ 𝕌 ℕ cfg7 c) (hA : dat.A 5 = V (Proc.devRef .tc (Pipeline.arrRef spec7 5)))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not, for any proof data
    whose array is `V`'s and whose body leaves the block in place. -/
theorem before7_6_of {c : Dev nD} (dat : Dat τ (Elt F) (HIx 6) ℕ 𝕌 ℕ cfg7 c) (hA : dat.A 6 = V (Proc.devRef .tc (Pipeline.arrRef spec7 6)))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not, for any proof data
    whose array is `V`'s and whose body leaves the block in place. -/
theorem before7_7_of {c : Dev nD} (dat : Dat τ (Elt F) (HIx 6) ℕ 𝕌 ℕ cfg7 c) (hA : dat.A 7 = V (Proc.devRef .tc (Pipeline.arrRef spec7 7)))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-! ## The pipeline's proof data -/

/-- The proof data of pipeline 3 on core `c`: the arrays as the region finds them (`V`); after the body at point `t` each
    input's buffer at its block and the output's at `out7_8` of the input blocks; the invariant the core's scoped buffers that
    are no staging buffer of this pipeline, each at some contents, which the body never touches; the tallies
    `O` owed and the recorded pairs within `R` throughout; full shares. -/
def dat7 (c : Dev nD) : Dat τ (Elt F) (HIx 6) ℕ 𝕌 ℕ cfg7 c where
  A w := V (Proc.devRef .tc (Pipeline.arrRef spec7 w))
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t) (iblk7 V c 6 t) (iblk7 V c 7 t)
  Φ _ := Pipeline.scopedRest (Ix := HIx 6) (Name := ℕ) (U := 𝕌) (Lvl := ℕ) (Val := Elt F) spec7 c
  q _ := fullShare
  owed _ := O
  recorded _ := R

/-- The proof data's arrays are the region-entry contents. -/
theorem A_eq7 (c : Dev nD) (w : Fin cfg7.W) : (dat7 (F := F) O R V c).A w = V (Proc.devRef .tc (Pipeline.arrRef spec7 w)) := by
  dsimp only [dat7]

/-- What the body leaves, window by window. -/
theorem after7_0 (c : Dev nD) (t : Fin cfg7.N) : (dat7 (F := F) O R V c).after 0 t = iblk7 V c 0 t := by dsimp only [dat7]
theorem after7_1 (c : Dev nD) (t : Fin cfg7.N) : (dat7 (F := F) O R V c).after 1 t = iblk7 V c 1 t := by dsimp only [dat7]
theorem after7_2 (c : Dev nD) (t : Fin cfg7.N) : (dat7 (F := F) O R V c).after 2 t = iblk7 V c 2 t := by dsimp only [dat7]
theorem after7_3 (c : Dev nD) (t : Fin cfg7.N) : (dat7 (F := F) O R V c).after 3 t = iblk7 V c 3 t := by dsimp only [dat7]
theorem after7_4 (c : Dev nD) (t : Fin cfg7.N) : (dat7 (F := F) O R V c).after 4 t = iblk7 V c 4 t := by dsimp only [dat7]
theorem after7_5 (c : Dev nD) (t : Fin cfg7.N) : (dat7 (F := F) O R V c).after 5 t = iblk7 V c 5 t := by dsimp only [dat7]
theorem after7_6 (c : Dev nD) (t : Fin cfg7.N) : (dat7 (F := F) O R V c).after 6 t = iblk7 V c 6 t := by dsimp only [dat7]
theorem after7_7 (c : Dev nD) (t : Fin cfg7.N) : (dat7 (F := F) O R V c).after 7 t = iblk7 V c 7 t := by dsimp only [dat7]
theorem after7_8 (c : Dev nD) (t : Fin cfg7.N) : (dat7 (F := F) O R V c).after 8 t = out7_8 (iblk7 V c 0 t) (iblk7 V c 1 t) (iblk7 V c 2 t) (iblk7 V c 3 t) (iblk7 V c 4 t) (iblk7 V c 5 t) (iblk7 V c 6 t) (iblk7 V c 7 t) := by dsimp only [dat7]

/-- Each input's current staging buffer holds its block at every point, fetched there or not. -/
theorem before7_0 (c : Dev nD) (t : Fin cfg7.N) (d) : (dat7 (F := F) O R V c).before 0 t d = iblk7 V c 0 t :=
  before7_0_of V (dat7 (F := F) O R V c) (A_eq7 O R V c 0) (after7_0 O R V c) t d
theorem before7_1 (c : Dev nD) (t : Fin cfg7.N) (d) : (dat7 (F := F) O R V c).before 1 t d = iblk7 V c 1 t :=
  before7_1_of V (dat7 (F := F) O R V c) (A_eq7 O R V c 1) (after7_1 O R V c) t d
theorem before7_2 (c : Dev nD) (t : Fin cfg7.N) (d) : (dat7 (F := F) O R V c).before 2 t d = iblk7 V c 2 t :=
  before7_2_of V (dat7 (F := F) O R V c) (A_eq7 O R V c 2) (after7_2 O R V c) t d
theorem before7_3 (c : Dev nD) (t : Fin cfg7.N) (d) : (dat7 (F := F) O R V c).before 3 t d = iblk7 V c 3 t :=
  before7_3_of V (dat7 (F := F) O R V c) (A_eq7 O R V c 3) (after7_3 O R V c) t d
theorem before7_4 (c : Dev nD) (t : Fin cfg7.N) (d) : (dat7 (F := F) O R V c).before 4 t d = iblk7 V c 4 t :=
  before7_4_of V (dat7 (F := F) O R V c) (A_eq7 O R V c 4) (after7_4 O R V c) t d
theorem before7_5 (c : Dev nD) (t : Fin cfg7.N) (d) : (dat7 (F := F) O R V c).before 5 t d = iblk7 V c 5 t :=
  before7_5_of V (dat7 (F := F) O R V c) (A_eq7 O R V c 5) (after7_5 O R V c) t d
theorem before7_6 (c : Dev nD) (t : Fin cfg7.N) (d) : (dat7 (F := F) O R V c).before 6 t d = iblk7 V c 6 t :=
  before7_6_of V (dat7 (F := F) O R V c) (A_eq7 O R V c 6) (after7_6 O R V c) t d
theorem before7_7 (c : Dev nD) (t : Fin cfg7.N) (d) : (dat7 (F := F) O R V c).before 7 t d = iblk7 V c 7 t :=
  before7_7_of V (dat7 (F := F) O R V c) (A_eq7 O R V c 7) (after7_7 O R V c) t d

/-! ## The body obligation, at a generic point -/

variable (𝒱₀ : Variants) (ι : HIx 6)

/-- What the body is called with at point `t` (the windows one by one), -/
def bodyPre7 (c : Dev nD) (t : Fin cfg7.N) : sProp 𝕄 :=
  iprop((dat7 (F := F) O R V c).Φ t.castSucc ∗ (dat7 (F := F) O R V c).owesAt ι t.castSucc
    ∗ (∃ d, owns (c : Thread nD τ) (st7_0 t) fullShare ((dat7 (F := F) O R V c).before 0 t d))
    ∗ (∃ d, owns (c : Thread nD τ) (st7_1 t) fullShare ((dat7 (F := F) O R V c).before 1 t d))
    ∗ (∃ d, owns (c : Thread nD τ) (st7_2 t) fullShare ((dat7 (F := F) O R V c).before 2 t d))
    ∗ (∃ d, owns (c : Thread nD τ) (st7_3 t) fullShare ((dat7 (F := F) O R V c).before 3 t d))
    ∗ (∃ d, owns (c : Thread nD τ) (st7_4 t) fullShare ((dat7 (F := F) O R V c).before 4 t d))
    ∗ (∃ d, owns (c : Thread nD τ) (st7_5 t) fullShare ((dat7 (F := F) O R V c).before 5 t d))
    ∗ (∃ d, owns (c : Thread nD τ) (st7_6 t) fullShare ((dat7 (F := F) O R V c).before 6 t d))
    ∗ (∃ d, owns (c : Thread nD τ) (st7_7 t) fullShare ((dat7 (F := F) O R V c).before 7 t d))
    ∗ (∃ d, owns (c : Thread nD τ) (st7_8 t) fullShare ((dat7 (F := F) O R V c).before 8 t d)))

/-- and what it returns. -/
def bodyPost7 (c : Dev nD) (t : Fin cfg7.N) : sProp 𝕄 :=
  iprop((dat7 (F := F) O R V c).Φ t.succ ∗ (dat7 (F := F) O R V c).owesAt ι t.succ
    ∗ owns (c : Thread nD τ) (st7_0 t) fullShare ((dat7 (F := F) O R V c).after 0 t)
    ∗ owns (c : Thread nD τ) (st7_1 t) fullShare ((dat7 (F := F) O R V c).after 1 t)
    ∗ owns (c : Thread nD τ) (st7_2 t) fullShare ((dat7 (F := F) O R V c).after 2 t)
    ∗ owns (c : Thread nD τ) (st7_3 t) fullShare ((dat7 (F := F) O R V c).after 3 t)
    ∗ owns (c : Thread nD τ) (st7_4 t) fullShare ((dat7 (F := F) O R V c).after 4 t)
    ∗ owns (c : Thread nD τ) (st7_5 t) fullShare ((dat7 (F := F) O R V c).after 5 t)
    ∗ owns (c : Thread nD τ) (st7_6 t) fullShare ((dat7 (F := F) O R V c).after 6 t)
    ∗ owns (c : Thread nD τ) (st7_7 t) fullShare ((dat7 (F := F) O R V c).after 7 t)
    ∗ owns (c : Thread nD τ) (st7_8 t) fullShare ((dat7 (F := F) O R V c).after 8 t))

/-- The body at any point: the inputs' memrefs hold their blocks, so `kernelRun7` applies; the invariant and the core's
    `owes` pass through unread. -/
theorem sound_body7 (c : Dev nD) (t : Fin cfg7.N) :
    bodyPre7 O R V ι c t ⊢ wp frame (wpE (defs₀ (F := F)) 𝒱₀ c none) Set.univ (bodyAt7 t) (fun _ => bodyPost7 O R V ι c t) := by
  unfold bodyPre7 bodyPost7 bodyAt7
  simp only [before7_0, before7_1, before7_2, before7_3, before7_4, before7_5, before7_6, before7_7]
  rw [show (dat7 (F := F) O R V c).Φ t.succ = (dat7 (F := F) O R V c).Φ t.castSucc from rfl,
    show (dat7 (F := F) O R V c).owesAt ι t.succ = (dat7 (F := F) O R V c).owesAt ι t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun7 𝒱₀ c Set.univ (grid7.coords t) _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation7 (c : Dev nD) : BodyObligation (dat7 (F := F) O R V c) (defs₀ (F := F)) 𝒱₀ ι Set.univ := fun t => by
  rw [bigSep_W7, bigSep_W7]
  exact sound_body7 O R V 𝒱₀ ι c t

/-! ## What the arrays hold after the last point -/

/-- The output's blocks at different points sit at different block indices, -/
theorem index7_8_ne : ∀ t t' : Fin cfg7.N, t ≠ t' → (cfg7.win 8).index t ≠ (cfg7.win 8).index t' := by decide +kernel

/-- so block `t` of the output array after the last point is what point `t` wrote back: `out7_8` of the input blocks at `t`. -/
theorem out_blk7 (c : Dev nD) (t : Fin cfg7.N) :
    ((cfg7.win 8).blk t).view.read (Elt F) ((dat7 (F := F) O R V c).arrAt 8 cfg7.N) = out7_8 (iblk7 V c 0 t) (iblk7 V c 1 t) (iblk7 V c 2 t) (iblk7 V c 3 t) (iblk7 V c 4 t) (iblk7 V c 5 t) (iblk7 V c 6 t) (iblk7 V c 7 t) :=
  ((dat7 (F := F) O R V c).read_blk_arrAt_eq_flushed 8 (fun t t' _ _ h => (cfg7.win 8).disjoint_blk (index7_8_ne t t' h)) cfg7.N t t.isLt (flush7_8 t)).trans
    (after7_8 O R V c t)

/-- An input array is as the region found it, at every point. -/
theorem arrAt_in7 (c : Dev nD) (w : Fin cfg7.W) (hw : (cfg7.win w).isOut = false) (n : Nat) :
    (dat7 (F := F) O R V c).arrAt w n = V (Proc.devRef .tc (Pipeline.arrRef spec7 w)) :=
  ((dat7 (F := F) O R V c).arrAt_in w hw n).trans (A_eq7 O R V c w)

end Region7

/-! # custom_call 9 -/

/-! ## The body's accesses -/

abbrev r9_0 : Rect S400x32 := Rect.unit (s := S400x32) ![0, 0] S400x32.size inb_S400x32_S400x32_0_0
abbrev r9_1 : Rect S32x400x128 := Rect.unit (s := S32x400x128) ![0, 0, 0] S1x400x128.size inb_S32x400x128_S1x400x128_0_0_0
abbrev r9_2 : Rect S32x400x128 := Rect.unit (s := S32x400x128) ![1, 0, 0] S1x400x128.size inb_S32x400x128_S1x400x128_1_0_0
abbrev r9_3 : Rect S32x400x128 := Rect.unit (s := S32x400x128) ![2, 0, 0] S1x400x128.size inb_S32x400x128_S1x400x128_2_0_0
abbrev r9_4 : Rect S32x400x128 := Rect.unit (s := S32x400x128) ![3, 0, 0] S1x400x128.size inb_S32x400x128_S1x400x128_3_0_0
abbrev r9_5 : Rect S32x400x128 := Rect.unit (s := S32x400x128) ![4, 0, 0] S1x400x128.size inb_S32x400x128_S1x400x128_4_0_0
abbrev r9_6 : Rect S32x400x128 := Rect.unit (s := S32x400x128) ![5, 0, 0] S1x400x128.size inb_S32x400x128_S1x400x128_5_0_0
abbrev r9_7 : Rect S32x400x128 := Rect.unit (s := S32x400x128) ![6, 0, 0] S1x400x128.size inb_S32x400x128_S1x400x128_6_0_0
abbrev r9_8 : Rect S32x400x128 := Rect.unit (s := S32x400x128) ![7, 0, 0] S1x400x128.size inb_S32x400x128_S1x400x128_7_0_0
abbrev r9_9 : Rect S32x400x128 := Rect.unit (s := S32x400x128) ![8, 0, 0] S1x400x128.size inb_S32x400x128_S1x400x128_8_0_0
abbrev r9_10 : Rect S32x400x128 := Rect.unit (s := S32x400x128) ![9, 0, 0] S1x400x128.size inb_S32x400x128_S1x400x128_9_0_0
abbrev r9_11 : Rect S32x400x128 := Rect.unit (s := S32x400x128) ![10, 0, 0] S1x400x128.size inb_S32x400x128_S1x400x128_10_0_0
abbrev r9_12 : Rect S32x400x128 := Rect.unit (s := S32x400x128) ![11, 0, 0] S1x400x128.size inb_S32x400x128_S1x400x128_11_0_0
abbrev r9_13 : Rect S32x400x128 := Rect.unit (s := S32x400x128) ![12, 0, 0] S1x400x128.size inb_S32x400x128_S1x400x128_12_0_0
abbrev r9_14 : Rect S32x400x128 := Rect.unit (s := S32x400x128) ![13, 0, 0] S1x400x128.size inb_S32x400x128_S1x400x128_13_0_0
abbrev r9_15 : Rect S32x400x128 := Rect.unit (s := S32x400x128) ![14, 0, 0] S1x400x128.size inb_S32x400x128_S1x400x128_14_0_0
abbrev r9_16 : Rect S32x400x128 := Rect.unit (s := S32x400x128) ![15, 0, 0] S1x400x128.size inb_S32x400x128_S1x400x128_15_0_0
abbrev r9_17 : Rect S32x400x128 := Rect.unit (s := S32x400x128) ![16, 0, 0] S1x400x128.size inb_S32x400x128_S1x400x128_16_0_0
abbrev r9_18 : Rect S32x400x128 := Rect.unit (s := S32x400x128) ![17, 0, 0] S1x400x128.size inb_S32x400x128_S1x400x128_17_0_0
abbrev r9_19 : Rect S32x400x128 := Rect.unit (s := S32x400x128) ![18, 0, 0] S1x400x128.size inb_S32x400x128_S1x400x128_18_0_0
abbrev r9_20 : Rect S32x400x128 := Rect.unit (s := S32x400x128) ![19, 0, 0] S1x400x128.size inb_S32x400x128_S1x400x128_19_0_0
abbrev r9_21 : Rect S32x400x128 := Rect.unit (s := S32x400x128) ![20, 0, 0] S1x400x128.size inb_S32x400x128_S1x400x128_20_0_0
abbrev r9_22 : Rect S32x400x128 := Rect.unit (s := S32x400x128) ![21, 0, 0] S1x400x128.size inb_S32x400x128_S1x400x128_21_0_0
abbrev r9_23 : Rect S32x400x128 := Rect.unit (s := S32x400x128) ![22, 0, 0] S1x400x128.size inb_S32x400x128_S1x400x128_22_0_0
abbrev r9_24 : Rect S32x400x128 := Rect.unit (s := S32x400x128) ![23, 0, 0] S1x400x128.size inb_S32x400x128_S1x400x128_23_0_0
abbrev r9_25 : Rect S32x400x128 := Rect.unit (s := S32x400x128) ![24, 0, 0] S1x400x128.size inb_S32x400x128_S1x400x128_24_0_0
abbrev r9_26 : Rect S32x400x128 := Rect.unit (s := S32x400x128) ![25, 0, 0] S1x400x128.size inb_S32x400x128_S1x400x128_25_0_0
abbrev r9_27 : Rect S32x400x128 := Rect.unit (s := S32x400x128) ![26, 0, 0] S1x400x128.size inb_S32x400x128_S1x400x128_26_0_0
abbrev r9_28 : Rect S32x400x128 := Rect.unit (s := S32x400x128) ![27, 0, 0] S1x400x128.size inb_S32x400x128_S1x400x128_27_0_0
abbrev r9_29 : Rect S32x400x128 := Rect.unit (s := S32x400x128) ![28, 0, 0] S1x400x128.size inb_S32x400x128_S1x400x128_28_0_0
abbrev r9_30 : Rect S32x400x128 := Rect.unit (s := S32x400x128) ![29, 0, 0] S1x400x128.size inb_S32x400x128_S1x400x128_29_0_0
abbrev r9_31 : Rect S32x400x128 := Rect.unit (s := S32x400x128) ![30, 0, 0] S1x400x128.size inb_S32x400x128_S1x400x128_30_0_0
abbrev r9_32 : Rect S32x400x128 := Rect.unit (s := S32x400x128) ![31, 0, 0] S1x400x128.size inb_S32x400x128_S1x400x128_31_0_0
abbrev r9_33 : Rect S400x128 := Rect.unit (s := S400x128) ![0, 0] S400x128.size inb_S400x128_S400x128_0_0
abbrev r9_34 : Rect S128x128 := Rect.unit (s := S128x128) ![0, 0] S128x128.size inb_S128x128_S128x128_0_0
abbrev r9_35 : Rect S1x128 := Rect.unit (s := S1x128) ![0, 0] S1x128.size inb_S1x128_S1x128_0_0

/-! ## What the body computes, part by part (the payloads composed along the root sequence) -/

/-- Part 1's result 0 (`v1` of the printed body), over the staged blocks. -/
def s9_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay2 (View.ld x1 r9_0)
/-- Part 1's result 1 (`v36` of the printed body), over the staged blocks. -/
def s9_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay3 (View.ld x1 r9_0) (View.ld x0 r9_1) (View.ld x0 r9_2) (View.ld x0 r9_3) (View.ld x0 r9_4) (View.ld x0 r9_5) (View.ld x0 r9_6)
/-- Part 2's result 0 (`v72` of the printed body), over the staged blocks. -/
def s9_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay4 (s9_1_0 x0 x1 x2 x3 x4 x5 x6 x7) (s9_1_1 x0 x1 x2 x3 x4 x5 x6 x7) (View.ld x0 r9_7) (View.ld x0 r9_8) (View.ld x0 r9_9) (View.ld x0 r9_10) (View.ld x0 r9_11) (View.ld x0 r9_12)
/-- Part 2's result 1 (`v77` of the printed body), over the staged blocks. -/
def s9_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay5 (s9_1_0 x0 x1 x2 x3 x4 x5 x6 x7) (View.ld x0 r9_13)
/-- Part 3's result 0 (`v114` of the printed body), over the staged blocks. -/
def s9_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay6 (s9_1_0 x0 x1 x2 x3 x4 x5 x6 x7) (s9_2_0 x0 x1 x2 x3 x4 x5 x6 x7) (s9_2_1 x0 x1 x2 x3 x4 x5 x6 x7) (View.ld x0 r9_14) (View.ld x0 r9_15) (View.ld x0 r9_16) (View.ld x0 r9_17) (View.ld x0 r9_18) (View.ld x0 r9_19)
/-- Part 3's result 1 (`v116` of the printed body), over the staged blocks. -/
def s9_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay7 (View.ld x0 r9_20)
/-- Part 4's result 0 (`v156` of the printed body), over the staged blocks. -/
def s9_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay8 (s9_1_0 x0 x1 x2 x3 x4 x5 x6 x7) (s9_3_0 x0 x1 x2 x3 x4 x5 x6 x7) (s9_3_1 x0 x1 x2 x3 x4 x5 x6 x7) (View.ld x0 r9_21) (View.ld x0 r9_22) (View.ld x0 r9_23) (View.ld x0 r9_24) (View.ld x0 r9_25) (View.ld x0 r9_26)
/-- Part 5's result 0 (`v192` of the printed body), over the staged blocks. -/
def s9_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay9 (s9_1_0 x0 x1 x2 x3 x4 x5 x6 x7) (s9_4_0 x0 x1 x2 x3 x4 x5 x6 x7) (View.ld x0 r9_27) (View.ld x0 r9_28) (View.ld x0 r9_29) (View.ld x0 r9_30) (View.ld x0 r9_31) (View.ld x0 r9_32)
/-- Part 5's result 1 (`v194` of the printed body), over the staged blocks. -/
def s9_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay10 (View.ld x2 r9_33)
/-- Part 5's result 2 (`v195` of the printed body), over the staged blocks. -/
def s9_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay11 (View.ld x2 r9_33)
/-- Part 5's result 3 (`v198` of the printed body), over the staged blocks. -/
def s9_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay12 (View.ld x2 r9_33)
/-- Part 6's result 0 (`v241` of the printed body), over the staged blocks. -/
def s9_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k9_pay13 (s9_5_0 x0 x1 x2 x3 x4 x5 x6 x7) (s9_5_1 x0 x1 x2 x3 x4 x5 x6 x7) (s9_5_2 x0 x1 x2 x3 x4 x5 x6 x7) (s9_5_3 x0 x1 x2 x3 x4 x5 x6 x7) (View.ld x3 r9_34) (View.ld x4 r9_34) (View.ld x5 r9_35) (View.ld x6 r9_35)

/-- Window 8's staging buffer after the body, from the input windows' blocks: its one store as a piece. -/
def out9_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r9_33, k9_pay1 (s9_6_0 x0 x1 x2 x3 x4 x5 x6 x7) (View.ld x7 r9_35)⟩]

/-- The store tiles the buffer, so it covers it. -/
theorem cover9_8 (p0 : Vec F S400x128 .f32) (y : S400x128.Idx) :
    ∃ pc ∈ ([⟨r9_33, p0⟩] : List (View.Piece (Elt F) S400x128 .f32)), y ∈ pc.1.set :=
  View.cover_of_tiled [⟨r9_33, p0⟩] S400x128.size (by rfl) y

/-! ## The body's triple -/

set_option maxHeartbeats 4000000 in
/-- The body on whole staging memrefs, the inputs' at read contents `x0 … x7` and the output's at anything, runs to the
    continuation holding the inputs' as they were and the output's at `out9_8` of the inputs'. -/
theorem kernelRun9 (𝒱₀ : Variants) (c : Dev nD) (E : Set ℕ) (i : grid9.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out9_8 x0 x1 x2 x3 x4 x5 x6 x7)) -∗ Q ⟨⟩))
      ⊢ wp frame (wpE (defs₀ (F := F)) 𝒱₀ c none) E (cc9_body i arg1 harg1 arg2 harg2 arg3 harg3 arg4 harg4 arg5 harg5 arg6 harg6 arg7 harg7 arg8 harg8 arg9 harg9) Q := by
  simp only [cc9_body_eq_skeleton]; unfold cc9_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover9_8 _)

section Region9
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V (Proc.devRef .tc (Pipeline.arrRef spec9 w)))

/-- Input window 0's current staging buffer holds its block at every point, fetched there or not, for any proof data
    whose array is `V`'s and whose body leaves the block in place. -/
theorem before9_0_of {c : Dev nD} (dat : Dat τ (Elt F) (HIx 6) ℕ 𝕌 ℕ cfg9 c) (hA : dat.A 0 = V (Proc.devRef .tc (Pipeline.arrRef spec9 0)))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof data
    whose array is `V`'s and whose body leaves the block in place. -/
theorem before9_1_of {c : Dev nD} (dat : Dat τ (Elt F) (HIx 6) ℕ 𝕌 ℕ cfg9 c) (hA : dat.A 1 = V (Proc.devRef .tc (Pipeline.arrRef spec9 1)))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof data
    whose array is `V`'s and whose body leaves the block in place. -/
theorem before9_2_of {c : Dev nD} (dat : Dat τ (Elt F) (HIx 6) ℕ 𝕌 ℕ cfg9 c) (hA : dat.A 2 = V (Proc.devRef .tc (Pipeline.arrRef spec9 2)))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current staging buffer holds its block at every point, fetched there or not, for any proof data
    whose array is `V`'s and whose body leaves the block in place. -/
theorem before9_3_of {c : Dev nD} (dat : Dat τ (Elt F) (HIx 6) ℕ 𝕌 ℕ cfg9 c) (hA : dat.A 3 = V (Proc.devRef .tc (Pipeline.arrRef spec9 3)))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current staging buffer holds its block at every point, fetched there or not, for any proof data
    whose array is `V`'s and whose body leaves the block in place. -/
theorem before9_4_of {c : Dev nD} (dat : Dat τ (Elt F) (HIx 6) ℕ 𝕌 ℕ cfg9 c) (hA : dat.A 4 = V (Proc.devRef .tc (Pipeline.arrRef spec9 4)))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- Input window 5's current staging buffer holds its block at every point, fetched there or not, for any proof data
    whose array is `V`'s and whose body leaves the block in place. -/
theorem before9_5_of {c : Dev nD} (dat : Dat τ (Elt F) (HIx 6) ℕ 𝕌 ℕ cfg9 c) (hA : dat.A 5 = V (Proc.devRef .tc (Pipeline.arrRef spec9 5)))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
/-- Input window 6's current staging buffer holds its block at every point, fetched there or not, for any proof data
    whose array is `V`'s and whose body leaves the block in place. -/
theorem before9_6_of {c : Dev nD} (dat : Dat τ (Elt F) (HIx 6) ℕ 𝕌 ℕ cfg9 c) (hA : dat.A 6 = V (Proc.devRef .tc (Pipeline.arrRef spec9 6)))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
/-- Input window 7's current staging buffer holds its block at every point, fetched there or not, for any proof data
    whose array is `V`'s and whose body leaves the block in place. -/
theorem before9_7_of {c : Dev nD} (dat : Dat τ (Elt F) (HIx 6) ℕ 𝕌 ℕ cfg9 c) (hA : dat.A 7 = V (Proc.devRef .tc (Pipeline.arrRef spec9 7)))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-! ## The pipeline's proof data -/

/-- The proof data of pipeline 4 on core `c`: the arrays as the region finds them (`V`); after the body at point `t` each
    input's buffer at its block and the output's at `out9_8` of the input blocks; the invariant the core's scoped buffers that
    are no staging buffer of this pipeline, each at some contents, which the body never touches; the tallies
    `O` owed and the recorded pairs within `R` throughout; full shares. -/
def dat9 (c : Dev nD) : Dat τ (Elt F) (HIx 6) ℕ 𝕌 ℕ cfg9 c where
  A w := V (Proc.devRef .tc (Pipeline.arrRef spec9 w))
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 3 t) (iblk9 V c 4 t) (iblk9 V c 5 t) (iblk9 V c 6 t) (iblk9 V c 7 t)
  Φ _ := Pipeline.scopedRest (Ix := HIx 6) (Name := ℕ) (U := 𝕌) (Lvl := ℕ) (Val := Elt F) spec9 c
  q _ := fullShare
  owed _ := O
  recorded _ := R

/-- The proof data's arrays are the region-entry contents. -/
theorem A_eq9 (c : Dev nD) (w : Fin cfg9.W) : (dat9 (F := F) O R V c).A w = V (Proc.devRef .tc (Pipeline.arrRef spec9 w)) := by
  dsimp only [dat9]

/-- What the body leaves, window by window. -/
theorem after9_0 (c : Dev nD) (t : Fin cfg9.N) : (dat9 (F := F) O R V c).after 0 t = iblk9 V c 0 t := by dsimp only [dat9]
theorem after9_1 (c : Dev nD) (t : Fin cfg9.N) : (dat9 (F := F) O R V c).after 1 t = iblk9 V c 1 t := by dsimp only [dat9]
theorem after9_2 (c : Dev nD) (t : Fin cfg9.N) : (dat9 (F := F) O R V c).after 2 t = iblk9 V c 2 t := by dsimp only [dat9]
theorem after9_3 (c : Dev nD) (t : Fin cfg9.N) : (dat9 (F := F) O R V c).after 3 t = iblk9 V c 3 t := by dsimp only [dat9]
theorem after9_4 (c : Dev nD) (t : Fin cfg9.N) : (dat9 (F := F) O R V c).after 4 t = iblk9 V c 4 t := by dsimp only [dat9]
theorem after9_5 (c : Dev nD) (t : Fin cfg9.N) : (dat9 (F := F) O R V c).after 5 t = iblk9 V c 5 t := by dsimp only [dat9]
theorem after9_6 (c : Dev nD) (t : Fin cfg9.N) : (dat9 (F := F) O R V c).after 6 t = iblk9 V c 6 t := by dsimp only [dat9]
theorem after9_7 (c : Dev nD) (t : Fin cfg9.N) : (dat9 (F := F) O R V c).after 7 t = iblk9 V c 7 t := by dsimp only [dat9]
theorem after9_8 (c : Dev nD) (t : Fin cfg9.N) : (dat9 (F := F) O R V c).after 8 t = out9_8 (iblk9 V c 0 t) (iblk9 V c 1 t) (iblk9 V c 2 t) (iblk9 V c 3 t) (iblk9 V c 4 t) (iblk9 V c 5 t) (iblk9 V c 6 t) (iblk9 V c 7 t) := by dsimp only [dat9]

/-- Each input's current staging buffer holds its block at every point, fetched there or not. -/
theorem before9_0 (c : Dev nD) (t : Fin cfg9.N) (d) : (dat9 (F := F) O R V c).before 0 t d = iblk9 V c 0 t :=
  before9_0_of V (dat9 (F := F) O R V c) (A_eq9 O R V c 0) (after9_0 O R V c) t d
theorem before9_1 (c : Dev nD) (t : Fin cfg9.N) (d) : (dat9 (F := F) O R V c).before 1 t d = iblk9 V c 1 t :=
  before9_1_of V (dat9 (F := F) O R V c) (A_eq9 O R V c 1) (after9_1 O R V c) t d
theorem before9_2 (c : Dev nD) (t : Fin cfg9.N) (d) : (dat9 (F := F) O R V c).before 2 t d = iblk9 V c 2 t :=
  before9_2_of V (dat9 (F := F) O R V c) (A_eq9 O R V c 2) (after9_2 O R V c) t d
theorem before9_3 (c : Dev nD) (t : Fin cfg9.N) (d) : (dat9 (F := F) O R V c).before 3 t d = iblk9 V c 3 t :=
  before9_3_of V (dat9 (F := F) O R V c) (A_eq9 O R V c 3) (after9_3 O R V c) t d
theorem before9_4 (c : Dev nD) (t : Fin cfg9.N) (d) : (dat9 (F := F) O R V c).before 4 t d = iblk9 V c 4 t :=
  before9_4_of V (dat9 (F := F) O R V c) (A_eq9 O R V c 4) (after9_4 O R V c) t d
theorem before9_5 (c : Dev nD) (t : Fin cfg9.N) (d) : (dat9 (F := F) O R V c).before 5 t d = iblk9 V c 5 t :=
  before9_5_of V (dat9 (F := F) O R V c) (A_eq9 O R V c 5) (after9_5 O R V c) t d
theorem before9_6 (c : Dev nD) (t : Fin cfg9.N) (d) : (dat9 (F := F) O R V c).before 6 t d = iblk9 V c 6 t :=
  before9_6_of V (dat9 (F := F) O R V c) (A_eq9 O R V c 6) (after9_6 O R V c) t d
theorem before9_7 (c : Dev nD) (t : Fin cfg9.N) (d) : (dat9 (F := F) O R V c).before 7 t d = iblk9 V c 7 t :=
  before9_7_of V (dat9 (F := F) O R V c) (A_eq9 O R V c 7) (after9_7 O R V c) t d

/-! ## The body obligation, at a generic point -/

variable (𝒱₀ : Variants) (ι : HIx 6)

/-- What the body is called with at point `t` (the windows one by one), -/
def bodyPre9 (c : Dev nD) (t : Fin cfg9.N) : sProp 𝕄 :=
  iprop((dat9 (F := F) O R V c).Φ t.castSucc ∗ (dat9 (F := F) O R V c).owesAt ι t.castSucc
    ∗ (∃ d, owns (c : Thread nD τ) (st9_0 t) fullShare ((dat9 (F := F) O R V c).before 0 t d))
    ∗ (∃ d, owns (c : Thread nD τ) (st9_1 t) fullShare ((dat9 (F := F) O R V c).before 1 t d))
    ∗ (∃ d, owns (c : Thread nD τ) (st9_2 t) fullShare ((dat9 (F := F) O R V c).before 2 t d))
    ∗ (∃ d, owns (c : Thread nD τ) (st9_3 t) fullShare ((dat9 (F := F) O R V c).before 3 t d))
    ∗ (∃ d, owns (c : Thread nD τ) (st9_4 t) fullShare ((dat9 (F := F) O R V c).before 4 t d))
    ∗ (∃ d, owns (c : Thread nD τ) (st9_5 t) fullShare ((dat9 (F := F) O R V c).before 5 t d))
    ∗ (∃ d, owns (c : Thread nD τ) (st9_6 t) fullShare ((dat9 (F := F) O R V c).before 6 t d))
    ∗ (∃ d, owns (c : Thread nD τ) (st9_7 t) fullShare ((dat9 (F := F) O R V c).before 7 t d))
    ∗ (∃ d, owns (c : Thread nD τ) (st9_8 t) fullShare ((dat9 (F := F) O R V c).before 8 t d)))

/-- and what it returns. -/
def bodyPost9 (c : Dev nD) (t : Fin cfg9.N) : sProp 𝕄 :=
  iprop((dat9 (F := F) O R V c).Φ t.succ ∗ (dat9 (F := F) O R V c).owesAt ι t.succ
    ∗ owns (c : Thread nD τ) (st9_0 t) fullShare ((dat9 (F := F) O R V c).after 0 t)
    ∗ owns (c : Thread nD τ) (st9_1 t) fullShare ((dat9 (F := F) O R V c).after 1 t)
    ∗ owns (c : Thread nD τ) (st9_2 t) fullShare ((dat9 (F := F) O R V c).after 2 t)
    ∗ owns (c : Thread nD τ) (st9_3 t) fullShare ((dat9 (F := F) O R V c).after 3 t)
    ∗ owns (c : Thread nD τ) (st9_4 t) fullShare ((dat9 (F := F) O R V c).after 4 t)
    ∗ owns (c : Thread nD τ) (st9_5 t) fullShare ((dat9 (F := F) O R V c).after 5 t)
    ∗ owns (c : Thread nD τ) (st9_6 t) fullShare ((dat9 (F := F) O R V c).after 6 t)
    ∗ owns (c : Thread nD τ) (st9_7 t) fullShare ((dat9 (F := F) O R V c).after 7 t)
    ∗ owns (c : Thread nD τ) (st9_8 t) fullShare ((dat9 (F := F) O R V c).after 8 t))

/-- The body at any point: the inputs' memrefs hold their blocks, so `kernelRun9` applies; the invariant and the core's
    `owes` pass through unread. -/
theorem sound_body9 (c : Dev nD) (t : Fin cfg9.N) :
    bodyPre9 O R V ι c t ⊢ wp frame (wpE (defs₀ (F := F)) 𝒱₀ c none) Set.univ (bodyAt9 t) (fun _ => bodyPost9 O R V ι c t) := by
  unfold bodyPre9 bodyPost9 bodyAt9
  simp only [before9_0, before9_1, before9_2, before9_3, before9_4, before9_5, before9_6, before9_7]
  rw [show (dat9 (F := F) O R V c).Φ t.succ = (dat9 (F := F) O R V c).Φ t.castSucc from rfl,
    show (dat9 (F := F) O R V c).owesAt ι t.succ = (dat9 (F := F) O R V c).owesAt ι t.castSucc from rfl,
    after9_0, after9_1, after9_2, after9_3, after9_4, after9_5, after9_6, after9_7, after9_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun9 𝒱₀ c Set.univ (grid9.coords t) _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation9 (c : Dev nD) : BodyObligation (dat9 (F := F) O R V c) (defs₀ (F := F)) 𝒱₀ ι Set.univ := fun t => by
  rw [bigSep_W9, bigSep_W9]
  exact sound_body9 O R V 𝒱₀ ι c t

/-! ## What the arrays hold after the last point -/

/-- The output's blocks at different points sit at different block indices, -/
theorem index9_8_ne : ∀ t t' : Fin cfg9.N, t ≠ t' → (cfg9.win 8).index t ≠ (cfg9.win 8).index t' := by decide +kernel

/-- so block `t` of the output array after the last point is what point `t` wrote back: `out9_8` of the input blocks at `t`. -/
theorem out_blk9 (c : Dev nD) (t : Fin cfg9.N) :
    ((cfg9.win 8).blk t).view.read (Elt F) ((dat9 (F := F) O R V c).arrAt 8 cfg9.N) = out9_8 (iblk9 V c 0 t) (iblk9 V c 1 t) (iblk9 V c 2 t) (iblk9 V c 3 t) (iblk9 V c 4 t) (iblk9 V c 5 t) (iblk9 V c 6 t) (iblk9 V c 7 t) :=
  ((dat9 (F := F) O R V c).read_blk_arrAt_eq_flushed 8 (fun t t' _ _ h => (cfg9.win 8).disjoint_blk (index9_8_ne t t' h)) cfg9.N t t.isLt (flush9_8 t)).trans
    (after9_8 O R V c t)

/-- An input array is as the region found it, at every point. -/
theorem arrAt_in9 (c : Dev nD) (w : Fin cfg9.W) (hw : (cfg9.win w).isOut = false) (n : Nat) :
    (dat9 (F := F) O R V c).arrAt w n = V (Proc.devRef .tc (Pipeline.arrRef spec9 w)) :=
  ((dat9 (F := F) O R V c).arrAt_in w hw n).trans (A_eq9 O R V c w)

end Region9

/-! # custom_call 11 -/

/-! ## The body's accesses -/

abbrev r11_0 : Rect S400x32 := Rect.unit (s := S400x32) ![0, 0] S400x32.size inb_S400x32_S400x32_0_0
abbrev r11_1 : Rect S32x400x128 := Rect.unit (s := S32x400x128) ![0, 0, 0] S1x400x128.size inb_S32x400x128_S1x400x128_0_0_0
abbrev r11_2 : Rect S32x400x128 := Rect.unit (s := S32x400x128) ![1, 0, 0] S1x400x128.size inb_S32x400x128_S1x400x128_1_0_0
abbrev r11_3 : Rect S32x400x128 := Rect.unit (s := S32x400x128) ![2, 0, 0] S1x400x128.size inb_S32x400x128_S1x400x128_2_0_0
abbrev r11_4 : Rect S32x400x128 := Rect.unit (s := S32x400x128) ![3, 0, 0] S1x400x128.size inb_S32x400x128_S1x400x128_3_0_0
abbrev r11_5 : Rect S32x400x128 := Rect.unit (s := S32x400x128) ![4, 0, 0] S1x400x128.size inb_S32x400x128_S1x400x128_4_0_0
abbrev r11_6 : Rect S32x400x128 := Rect.unit (s := S32x400x128) ![5, 0, 0] S1x400x128.size inb_S32x400x128_S1x400x128_5_0_0
abbrev r11_7 : Rect S32x400x128 := Rect.unit (s := S32x400x128) ![6, 0, 0] S1x400x128.size inb_S32x400x128_S1x400x128_6_0_0
abbrev r11_8 : Rect S32x400x128 := Rect.unit (s := S32x400x128) ![7, 0, 0] S1x400x128.size inb_S32x400x128_S1x400x128_7_0_0
abbrev r11_9 : Rect S32x400x128 := Rect.unit (s := S32x400x128) ![8, 0, 0] S1x400x128.size inb_S32x400x128_S1x400x128_8_0_0
abbrev r11_10 : Rect S32x400x128 := Rect.unit (s := S32x400x128) ![9, 0, 0] S1x400x128.size inb_S32x400x128_S1x400x128_9_0_0
abbrev r11_11 : Rect S32x400x128 := Rect.unit (s := S32x400x128) ![10, 0, 0] S1x400x128.size inb_S32x400x128_S1x400x128_10_0_0
abbrev r11_12 : Rect S32x400x128 := Rect.unit (s := S32x400x128) ![11, 0, 0] S1x400x128.size inb_S32x400x128_S1x400x128_11_0_0
abbrev r11_13 : Rect S32x400x128 := Rect.unit (s := S32x400x128) ![12, 0, 0] S1x400x128.size inb_S32x400x128_S1x400x128_12_0_0
abbrev r11_14 : Rect S32x400x128 := Rect.unit (s := S32x400x128) ![13, 0, 0] S1x400x128.size inb_S32x400x128_S1x400x128_13_0_0
abbrev r11_15 : Rect S32x400x128 := Rect.unit (s := S32x400x128) ![14, 0, 0] S1x400x128.size inb_S32x400x128_S1x400x128_14_0_0
abbrev r11_16 : Rect S32x400x128 := Rect.unit (s := S32x400x128) ![15, 0, 0] S1x400x128.size inb_S32x400x128_S1x400x128_15_0_0
abbrev r11_17 : Rect S32x400x128 := Rect.unit (s := S32x400x128) ![16, 0, 0] S1x400x128.size inb_S32x400x128_S1x400x128_16_0_0
abbrev r11_18 : Rect S32x400x128 := Rect.unit (s := S32x400x128) ![17, 0, 0] S1x400x128.size inb_S32x400x128_S1x400x128_17_0_0
abbrev r11_19 : Rect S32x400x128 := Rect.unit (s := S32x400x128) ![18, 0, 0] S1x400x128.size inb_S32x400x128_S1x400x128_18_0_0
abbrev r11_20 : Rect S32x400x128 := Rect.unit (s := S32x400x128) ![19, 0, 0] S1x400x128.size inb_S32x400x128_S1x400x128_19_0_0
abbrev r11_21 : Rect S32x400x128 := Rect.unit (s := S32x400x128) ![20, 0, 0] S1x400x128.size inb_S32x400x128_S1x400x128_20_0_0
abbrev r11_22 : Rect S32x400x128 := Rect.unit (s := S32x400x128) ![21, 0, 0] S1x400x128.size inb_S32x400x128_S1x400x128_21_0_0
abbrev r11_23 : Rect S32x400x128 := Rect.unit (s := S32x400x128) ![22, 0, 0] S1x400x128.size inb_S32x400x128_S1x400x128_22_0_0
abbrev r11_24 : Rect S32x400x128 := Rect.unit (s := S32x400x128) ![23, 0, 0] S1x400x128.size inb_S32x400x128_S1x400x128_23_0_0
abbrev r11_25 : Rect S32x400x128 := Rect.unit (s := S32x400x128) ![24, 0, 0] S1x400x128.size inb_S32x400x128_S1x400x128_24_0_0
abbrev r11_26 : Rect S32x400x128 := Rect.unit (s := S32x400x128) ![25, 0, 0] S1x400x128.size inb_S32x400x128_S1x400x128_25_0_0
abbrev r11_27 : Rect S32x400x128 := Rect.unit (s := S32x400x128) ![26, 0, 0] S1x400x128.size inb_S32x400x128_S1x400x128_26_0_0
abbrev r11_28 : Rect S32x400x128 := Rect.unit (s := S32x400x128) ![27, 0, 0] S1x400x128.size inb_S32x400x128_S1x400x128_27_0_0
abbrev r11_29 : Rect S32x400x128 := Rect.unit (s := S32x400x128) ![28, 0, 0] S1x400x128.size inb_S32x400x128_S1x400x128_28_0_0
abbrev r11_30 : Rect S32x400x128 := Rect.unit (s := S32x400x128) ![29, 0, 0] S1x400x128.size inb_S32x400x128_S1x400x128_29_0_0
abbrev r11_31 : Rect S32x400x128 := Rect.unit (s := S32x400x128) ![30, 0, 0] S1x400x128.size inb_S32x400x128_S1x400x128_30_0_0
abbrev r11_32 : Rect S32x400x128 := Rect.unit (s := S32x400x128) ![31, 0, 0] S1x400x128.size inb_S32x400x128_S1x400x128_31_0_0
abbrev r11_33 : Rect S400x128 := Rect.unit (s := S400x128) ![0, 0] S400x128.size inb_S400x128_S400x128_0_0
abbrev r11_34 : Rect S128x128 := Rect.unit (s := S128x128) ![0, 0] S128x128.size inb_S128x128_S128x128_0_0
abbrev r11_35 : Rect S1x128 := Rect.unit (s := S1x128) ![0, 0] S1x128.size inb_S1x128_S1x128_0_0

/-! ## What the body computes, part by part (the payloads composed along the root sequence) -/

/-- Part 1's result 0 (`v1` of the printed body), over the staged blocks. -/
def s11_1_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay2 (View.ld x1 r11_0)
/-- Part 1's result 1 (`v36` of the printed body), over the staged blocks. -/
def s11_1_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay3 (View.ld x1 r11_0) (View.ld x0 r11_1) (View.ld x0 r11_2) (View.ld x0 r11_3) (View.ld x0 r11_4) (View.ld x0 r11_5) (View.ld x0 r11_6)
/-- Part 2's result 0 (`v72` of the printed body), over the staged blocks. -/
def s11_2_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay4 (s11_1_0 x0 x1 x2 x3 x4 x5 x6 x7) (s11_1_1 x0 x1 x2 x3 x4 x5 x6 x7) (View.ld x0 r11_7) (View.ld x0 r11_8) (View.ld x0 r11_9) (View.ld x0 r11_10) (View.ld x0 r11_11) (View.ld x0 r11_12)
/-- Part 2's result 1 (`v77` of the printed body), over the staged blocks. -/
def s11_2_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay5 (s11_1_0 x0 x1 x2 x3 x4 x5 x6 x7) (View.ld x0 r11_13)
/-- Part 3's result 0 (`v114` of the printed body), over the staged blocks. -/
def s11_3_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay6 (s11_1_0 x0 x1 x2 x3 x4 x5 x6 x7) (s11_2_0 x0 x1 x2 x3 x4 x5 x6 x7) (s11_2_1 x0 x1 x2 x3 x4 x5 x6 x7) (View.ld x0 r11_14) (View.ld x0 r11_15) (View.ld x0 r11_16) (View.ld x0 r11_17) (View.ld x0 r11_18) (View.ld x0 r11_19)
/-- Part 3's result 1 (`v116` of the printed body), over the staged blocks. -/
def s11_3_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay7 (View.ld x0 r11_20)
/-- Part 4's result 0 (`v156` of the printed body), over the staged blocks. -/
def s11_4_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay8 (s11_1_0 x0 x1 x2 x3 x4 x5 x6 x7) (s11_3_0 x0 x1 x2 x3 x4 x5 x6 x7) (s11_3_1 x0 x1 x2 x3 x4 x5 x6 x7) (View.ld x0 r11_21) (View.ld x0 r11_22) (View.ld x0 r11_23) (View.ld x0 r11_24) (View.ld x0 r11_25) (View.ld x0 r11_26)
/-- Part 5's result 0 (`v192` of the printed body), over the staged blocks. -/
def s11_5_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay9 (s11_1_0 x0 x1 x2 x3 x4 x5 x6 x7) (s11_4_0 x0 x1 x2 x3 x4 x5 x6 x7) (View.ld x0 r11_27) (View.ld x0 r11_28) (View.ld x0 r11_29) (View.ld x0 r11_30) (View.ld x0 r11_31) (View.ld x0 r11_32)
/-- Part 5's result 1 (`v194` of the printed body), over the staged blocks. -/
def s11_5_1 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay10 (View.ld x2 r11_33)
/-- Part 5's result 2 (`v195` of the printed body), over the staged blocks. -/
def s11_5_2 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay11 (View.ld x2 r11_33)
/-- Part 5's result 3 (`v198` of the printed body), over the staged blocks. -/
def s11_5_3 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay12 (View.ld x2 r11_33)
/-- Part 6's result 0 (`v241` of the printed body), over the staged blocks. -/
def s11_6_0 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) :=
  k11_pay13 (s11_5_0 x0 x1 x2 x3 x4 x5 x6 x7) (s11_5_1 x0 x1 x2 x3 x4 x5 x6 x7) (s11_5_2 x0 x1 x2 x3 x4 x5 x6 x7) (s11_5_3 x0 x1 x2 x3 x4 x5 x6 x7) (View.ld x3 r11_34) (View.ld x4 r11_34) (View.ld x5 r11_35) (View.ld x6 r11_35)

/-- Window 8's staging buffer after the body, from the input windows' blocks: its one store as a piece. -/
def out11_8 (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) : Vec F S400x128 .f32 :=
  View.canon [⟨r11_33, k11_pay1 (s11_6_0 x0 x1 x2 x3 x4 x5 x6 x7) (View.ld x7 r11_35)⟩]

/-- The store tiles the buffer, so it covers it. -/
theorem cover11_8 (p0 : Vec F S400x128 .f32) (y : S400x128.Idx) :
    ∃ pc ∈ ([⟨r11_33, p0⟩] : List (View.Piece (Elt F) S400x128 .f32)), y ∈ pc.1.set :=
  View.cover_of_tiled [⟨r11_33, p0⟩] S400x128.size (by rfl) y

/-! ## The body's triple -/

set_option maxHeartbeats 4000000 in
/-- The body on whole staging memrefs, the inputs' at read contents `x0 … x7` and the output's at anything, runs to the
    continuation holding the inputs' as they were and the output's at `out11_8` of the inputs'. -/
theorem kernelRun11 (𝒱₀ : Variants) (c : Dev nD) (E : Set ℕ) (i : grid11.Coords) (arg1 : Memref sig .tc .vmem S32x400x128 .f32) (harg1 : arg1.IsWhole) (arg2 : Memref sig .tc .vmem S400x32 .f32) (harg2 : arg2.IsWhole) (arg3 : Memref sig .tc .vmem S400x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole)
    (x0 : Vec F S32x400x128 .f32) (x1 : Vec F S400x32 .f32) (x2 : Vec F S400x128 .f32) (x3 : Vec F S128x128 .bf16) (x4 : Vec F S128x128 .bf16) (x5 : Vec F S1x128 .f32) (x6 : Vec F S1x128 .f32) (x7 : Vec F S1x128 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out11_8 x0 x1 x2 x3 x4 x5 x6 x7)) -∗ Q ⟨⟩))
      ⊢ wp frame (wpE (defs₀ (F := F)) 𝒱₀ c none) E (cc11_body i arg1 harg1 arg2 harg2 arg3 harg3 arg4 harg4 arg5 harg5 arg6 harg6 arg7 harg7 arg8 harg8 arg9 harg9) Q := by
  simp only [cc11_body_eq_skeleton]; unfold cc11_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover11_8 _)

section Region11
-- what the core owes through the region (the body pays none of it), a bound on the wait pairs it has recorded (the body
-- records none), and the buffers' contents when the region is entered
variable (O : CellTallies nD τ sig (HIx 6)) (R : Set (SemLoc sig × HIx 6)) (V : Valuation τ sig (Elt F))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V (Proc.devRef .tc (Pipeline.arrRef spec11 w)))

/-- Input window 0's current staging buffer holds its block at every point, fetched there or not, for any proof data
    whose array is `V`'s and whose body leaves the block in place. -/
theorem before11_0_of {c : Dev nD} (dat : Dat τ (Elt F) (HIx 6) ℕ 𝕌 ℕ cfg11 c) (hA : dat.A 0 = V (Proc.devRef .tc (Pipeline.arrRef spec11 0)))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof data
    whose array is `V`'s and whose body leaves the block in place. -/
theorem before11_1_of {c : Dev nD} (dat : Dat τ (Elt F) (HIx 6) ℕ 𝕌 ℕ cfg11 c) (hA : dat.A 1 = V (Proc.devRef .tc (Pipeline.arrRef spec11 1)))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof data
    whose array is `V`'s and whose body leaves the block in place. -/
theorem before11_2_of {c : Dev nD} (dat : Dat τ (Elt F) (HIx 6) ℕ 𝕌 ℕ cfg11 c) (hA : dat.A 2 = V (Proc.devRef .tc (Pipeline.arrRef spec11 2)))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof data
    whose array is `V`'s and whose body leaves the block in place. -/
theorem before11_3_of {c : Dev nD} (dat : Dat τ (Elt F) (HIx 6) ℕ 𝕌 ℕ cfg11 c) (hA : dat.A 3 = V (Proc.devRef .tc (Pipeline.arrRef spec11 3)))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof data
    whose array is `V`'s and whose body leaves the block in place. -/
theorem before11_4_of {c : Dev nD} (dat : Dat τ (Elt F) (HIx 6) ℕ 𝕌 ℕ cfg11 c) (hA : dat.A 4 = V (Proc.devRef .tc (Pipeline.arrRef spec11 4)))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5's current staging buffer holds its block at every point, fetched there or not, for any proof data
    whose array is `V`'s and whose body leaves the block in place. -/
theorem before11_5_of {c : Dev nD} (dat : Dat τ (Elt F) (HIx 6) ℕ 𝕌 ℕ cfg11 c) (hA : dat.A 5 = V (Proc.devRef .tc (Pipeline.arrRef spec11 5)))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
/-- Input window 6's current staging buffer holds its block at every point, fetched there or not, for any proof data
    whose array is `V`'s and whose body leaves the block in place. -/
theorem before11_6_of {c : Dev nD} (dat : Dat τ (Elt F) (HIx 6) ℕ 𝕌 ℕ cfg11 c) (hA : dat.A 6 = V (Proc.devRef .tc (Pipeline.arrRef spec11 6)))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
/-- Input window 7's current staging buffer holds its block at every point, fetched there or not, for any proof data
    whose array is `V`'s and whose body leaves the block in place. -/
theorem before11_7_of {c : Dev nD} (dat : Dat τ (Elt F) (HIx 6) ℕ 𝕌 ℕ cfg11 c) (hA : dat.A 7 = V (Proc.devRef .tc (Pipeline.arrRef spec11 7)))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

/-! ## The pipeline's proof data -/

/-- The proof data of pipeline 5 on core `c`: the arrays as the region finds them (`V`); after the body at point `t` each
    input's buffer at its block and the output's at `out11_8` of the input blocks; the invariant the core's scoped buffers that
    are no staging buffer of this pipeline, each at some contents, which the body never touches; the tallies
    `O` owed and the recorded pairs within `R` throughout; full shares. -/
def dat11 (c : Dev nD) : Dat τ (Elt F) (HIx 6) ℕ 𝕌 ℕ cfg11 c where
  A w := V (Proc.devRef .tc (Pipeline.arrRef spec11 w))
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => out11_8 (iblk11 V c 0 t) (iblk11 V c 1 t) (iblk11 V c 2 t) (iblk11 V c 3 t) (iblk11 V c 4 t) (iblk11 V c 5 t) (iblk11 V c 6 t) (iblk11 V c 7 t)
  Φ _ := Pipeline.scopedRest (Ix := HIx 6) (Name := ℕ) (U := 𝕌) (Lvl := ℕ) (Val := Elt F) spec11 c
  q _ := fullShare
  owed _ := O
  recorded _ := R

/-- The proof data's arrays are the region-entry contents. -/
theorem A_eq11 (c : Dev nD) (w : Fin cfg11.W) : (dat11 (F := F) O R V c).A w = V (Proc.devRef .tc (Pipeline.arrRef spec11 w)) := by
  dsimp only [dat11]

/-- What the body leaves, window by window. -/
theorem after11_0 (c : Dev nD) (t : Fin cfg11.N) : (dat11 (F := F) O R V c).after 0 t = iblk11 V c 0 t := by dsimp only [dat11]
theorem after11_1 (c : Dev nD) (t : Fin cfg11.N) : (dat11 (F := F) O R V c).after 1 t = iblk11 V c 1 t := by dsimp only [dat11]
theorem after11_2 (c : Dev nD) (t : Fin cfg11.N) : (dat11 (F := F) O R V c).after 2 t = iblk11 V c 2 t := by dsimp only [dat11]
theorem after11_3 (c : Dev nD) (t : Fin cfg11.N) : (dat11 (F := F) O R V c).after 3 t = iblk11 V c 3 t := by dsimp only [dat11]
theorem after11_4 (c : Dev nD) (t : Fin cfg11.N) : (dat11 (F := F) O R V c).after 4 t = iblk11 V c 4 t := by dsimp only [dat11]
theorem after11_5 (c : Dev nD) (t : Fin cfg11.N) : (dat11 (F := F) O R V c).after 5 t = iblk11 V c 5 t := by dsimp only [dat11]
theorem after11_6 (c : Dev nD) (t : Fin cfg11.N) : (dat11 (F := F) O R V c).after 6 t = iblk11 V c 6 t := by dsimp only [dat11]
theorem after11_7 (c : Dev nD) (t : Fin cfg11.N) : (dat11 (F := F) O R V c).after 7 t = iblk11 V c 7 t := by dsimp only [dat11]
theorem after11_8 (c : Dev nD) (t : Fin cfg11.N) : (dat11 (F := F) O R V c).after 8 t = out11_8 (iblk11 V c 0 t) (iblk11 V c 1 t) (iblk11 V c 2 t) (iblk11 V c 3 t) (iblk11 V c 4 t) (iblk11 V c 5 t) (iblk11 V c 6 t) (iblk11 V c 7 t) := by dsimp only [dat11]

/-- Each input's current staging buffer holds its block at every point, fetched there or not. -/
theorem before11_0 (c : Dev nD) (t : Fin cfg11.N) (d) : (dat11 (F := F) O R V c).before 0 t d = iblk11 V c 0 t :=
  before11_0_of V (dat11 (F := F) O R V c) (A_eq11 O R V c 0) (after11_0 O R V c) t d
theorem before11_1 (c : Dev nD) (t : Fin cfg11.N) (d) : (dat11 (F := F) O R V c).before 1 t d = iblk11 V c 1 t :=
  before11_1_of V (dat11 (F := F) O R V c) (A_eq11 O R V c 1) (after11_1 O R V c) t d
theorem before11_2 (c : Dev nD) (t : Fin cfg11.N) (d) : (dat11 (F := F) O R V c).before 2 t d = iblk11 V c 2 t :=
  before11_2_of V (dat11 (F := F) O R V c) (A_eq11 O R V c 2) (after11_2 O R V c) t d
theorem before11_3 (c : Dev nD) (t : Fin cfg11.N) (d) : (dat11 (F := F) O R V c).before 3 t d = iblk11 V c 3 t :=
  before11_3_of V (dat11 (F := F) O R V c) (A_eq11 O R V c 3) (after11_3 O R V c) t d
theorem before11_4 (c : Dev nD) (t : Fin cfg11.N) (d) : (dat11 (F := F) O R V c).before 4 t d = iblk11 V c 4 t :=
  before11_4_of V (dat11 (F := F) O R V c) (A_eq11 O R V c 4) (after11_4 O R V c) t d
theorem before11_5 (c : Dev nD) (t : Fin cfg11.N) (d) : (dat11 (F := F) O R V c).before 5 t d = iblk11 V c 5 t :=
  before11_5_of V (dat11 (F := F) O R V c) (A_eq11 O R V c 5) (after11_5 O R V c) t d
theorem before11_6 (c : Dev nD) (t : Fin cfg11.N) (d) : (dat11 (F := F) O R V c).before 6 t d = iblk11 V c 6 t :=
  before11_6_of V (dat11 (F := F) O R V c) (A_eq11 O R V c 6) (after11_6 O R V c) t d
theorem before11_7 (c : Dev nD) (t : Fin cfg11.N) (d) : (dat11 (F := F) O R V c).before 7 t d = iblk11 V c 7 t :=
  before11_7_of V (dat11 (F := F) O R V c) (A_eq11 O R V c 7) (after11_7 O R V c) t d

/-! ## The body obligation, at a generic point -/

variable (𝒱₀ : Variants) (ι : HIx 6)

/-- What the body is called with at point `t` (the windows one by one), -/
def bodyPre11 (c : Dev nD) (t : Fin cfg11.N) : sProp 𝕄 :=
  iprop((dat11 (F := F) O R V c).Φ t.castSucc ∗ (dat11 (F := F) O R V c).owesAt ι t.castSucc
    ∗ (∃ d, owns (c : Thread nD τ) (st11_0 t) fullShare ((dat11 (F := F) O R V c).before 0 t d))
    ∗ (∃ d, owns (c : Thread nD τ) (st11_1 t) fullShare ((dat11 (F := F) O R V c).before 1 t d))
    ∗ (∃ d, owns (c : Thread nD τ) (st11_2 t) fullShare ((dat11 (F := F) O R V c).before 2 t d))
    ∗ (∃ d, owns (c : Thread nD τ) (st11_3 t) fullShare ((dat11 (F := F) O R V c).before 3 t d))
    ∗ (∃ d, owns (c : Thread nD τ) (st11_4 t) fullShare ((dat11 (F := F) O R V c).before 4 t d))
    ∗ (∃ d, owns (c : Thread nD τ) (st11_5 t) fullShare ((dat11 (F := F) O R V c).before 5 t d))
    ∗ (∃ d, owns (c : Thread nD τ) (st11_6 t) fullShare ((dat11 (F := F) O R V c).before 6 t d))
    ∗ (∃ d, owns (c : Thread nD τ) (st11_7 t) fullShare ((dat11 (F := F) O R V c).before 7 t d))
    ∗ (∃ d, owns (c : Thread nD τ) (st11_8 t) fullShare ((dat11 (F := F) O R V c).before 8 t d)))

/-- and what it returns. -/
def bodyPost11 (c : Dev nD) (t : Fin cfg11.N) : sProp 𝕄 :=
  iprop((dat11 (F := F) O R V c).Φ t.succ ∗ (dat11 (F := F) O R V c).owesAt ι t.succ
    ∗ owns (c : Thread nD τ) (st11_0 t) fullShare ((dat11 (F := F) O R V c).after 0 t)
    ∗ owns (c : Thread nD τ) (st11_1 t) fullShare ((dat11 (F := F) O R V c).after 1 t)
    ∗ owns (c : Thread nD τ) (st11_2 t) fullShare ((dat11 (F := F) O R V c).after 2 t)
    ∗ owns (c : Thread nD τ) (st11_3 t) fullShare ((dat11 (F := F) O R V c).after 3 t)
    ∗ owns (c : Thread nD τ) (st11_4 t) fullShare ((dat11 (F := F) O R V c).after 4 t)
    ∗ owns (c : Thread nD τ) (st11_5 t) fullShare ((dat11 (F := F) O R V c).after 5 t)
    ∗ owns (c : Thread nD τ) (st11_6 t) fullShare ((dat11 (F := F) O R V c).after 6 t)
    ∗ owns (c : Thread nD τ) (st11_7 t) fullShare ((dat11 (F := F) O R V c).after 7 t)
    ∗ owns (c : Thread nD τ) (st11_8 t) fullShare ((dat11 (F := F) O R V c).after 8 t))

/-- The body at any point: the inputs' memrefs hold their blocks, so `kernelRun11` applies; the invariant and the core's
    `owes` pass through unread. -/
theorem sound_body11 (c : Dev nD) (t : Fin cfg11.N) :
    bodyPre11 O R V ι c t ⊢ wp frame (wpE (defs₀ (F := F)) 𝒱₀ c none) Set.univ (bodyAt11 t) (fun _ => bodyPost11 O R V ι c t) := by
  unfold bodyPre11 bodyPost11 bodyAt11
  simp only [before11_0, before11_1, before11_2, before11_3, before11_4, before11_5, before11_6, before11_7]
  rw [show (dat11 (F := F) O R V c).Φ t.succ = (dat11 (F := F) O R V c).Φ t.castSucc from rfl,
    show (dat11 (F := F) O R V c).owesAt ι t.succ = (dat11 (F := F) O R V c).owesAt ι t.castSucc from rfl,
    after11_0, after11_1, after11_2, after11_3, after11_4, after11_5, after11_6, after11_7, after11_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun11 𝒱₀ c Set.univ (grid11.coords t) _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation11 (c : Dev nD) : BodyObligation (dat11 (F := F) O R V c) (defs₀ (F := F)) 𝒱₀ ι Set.univ := fun t => by
  rw [bigSep_W11, bigSep_W11]
  exact sound_body11 O R V 𝒱₀ ι c t

/-! ## What the arrays hold after the last point -/

/-- The output's blocks at different points sit at different block indices, -/
theorem index11_8_ne : ∀ t t' : Fin cfg11.N, t ≠ t' → (cfg11.win 8).index t ≠ (cfg11.win 8).index t' := by decide +kernel

/-- so block `t` of the output array after the last point is what point `t` wrote back: `out11_8` of the input blocks at `t`. -/
theorem out_blk11 (c : Dev nD) (t : Fin cfg11.N) :
    ((cfg11.win 8).blk t).view.read (Elt F) ((dat11 (F := F) O R V c).arrAt 8 cfg11.N) = out11_8 (iblk11 V c 0 t) (iblk11 V c 1 t) (iblk11 V c 2 t) (iblk11 V c 3 t) (iblk11 V c 4 t) (iblk11 V c 5 t) (iblk11 V c 6 t) (iblk11 V c 7 t) :=
  ((dat11 (F := F) O R V c).read_blk_arrAt_eq_flushed 8 (fun t t' _ _ h => (cfg11.win 8).disjoint_blk (index11_8_ne t t' h)) cfg11.N t t.isLt (flush11_8 t)).trans
    (after11_8 O R V c t)

/-- An input array is as the region found it, at every point. -/
theorem arrAt_in11 (c : Dev nD) (w : Fin cfg11.W) (hw : (cfg11.win w).isOut = false) (n : Nat) :
    (dat11 (F := F) O R V c).arrAt w n = V (Proc.devRef .tc (Pipeline.arrRef spec11 w)) :=
  ((dat11 (F := F) O R V c).arrAt_in w hw n).trans (A_eq11 O R V c w)

end Region11

end Cert.Proof.StepBodyB

end
-- ==== Proof.ValsB.lean ====
/-
  The contents of @main's arrays between its items, and the six pipelines' proof data at them.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.MainChainB
import proofs.«205547_g25623774888366_cont_9to1_713_27_alg».proof.Proof.StepsB
import proofs.«205547_g25623774888366_cont_9to1_713_27_alg».proof.Proof.Steps2B
import proofs.«205547_g25623774888366_cont_9to1_713_27_alg».proof.Proof.RegionB
import proofs.«205547_g25623774888366_cont_9to1_713_27_alg».proof.Proof.SoftmaxBodyB
import proofs.«205547_g25623774888366_cont_9to1_713_27_alg».proof.Proof.StepBodyB

noncomputable section

namespace Cert.Proof.ValsB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Proof.StepsB Cert.Proof.Steps2B Cert.Proof.RegionB Cert.Kernel.MainChain Cert.Proof.SoftmaxBodyB Cert.Proof.StepBodyB

variable {F : FTy → Type} [FloatOps F]

local notation "𝕄" => MT nD τ sig (HIx 6) (Elt F) ℕ UU ℕ

variable (m : (ℓ : Loc nD τ sig) → Buf (Elt F) ℓ)

/-- The launch contents as a valuation. -/
def V0 (d : Dev nD) : Valuation τ sig (Elt F) := fun b => m (d, b)
/-- Before call 0: the host glue done. -/
def Va0 (d : Dev nD) : Valuation τ sig (Elt F) := after (ops0 (F := F)) (V0 m d)
/-- After call 0: the padded coordinates gathered. -/
def Vb0 (d : Dev nD) : Valuation τ sig (Elt F) := Function.update (Va0 m d) (Proc.devRef .tc main_v20) (gatherFn (Va0 m d (Proc.devRef .tc main_v4)) (Va0 m d (Proc.devRef .tc main_v2)))
/-- Before region 0. -/
def Va1 (d : Dev nD) : Valuation τ sig (Elt F) := after (ops1 (F := F)) (Vb0 m d)
/-- Region 0's proof data: the edge weights. -/
def D0 (d : Dev nD) : Pipeline.Dat τ (Elt F) (HIx 6) ℕ UU ℕ cfg1 d := dat1 ((K (F := F)).Otc d 1) (Rn (F := F) d 1) (Va1 m d) d
/-- After region 0. -/
def Vr0 (d : Dev nD) : Valuation τ sig (Elt F) := Function.update (Va1 m d) (Proc.devRef .tc main_v22) ((D0 m d).arrAt 5 cfg1.N)
/-- After call 1: the features gathered. -/
def Vb1 (d : Dev nD) : Valuation τ sig (Elt F) := Function.update (Vr0 m d) (Proc.devRef .tc main_v23) (gatherFn (Vr0 m d (Proc.devRef .tc main_v4)) (Vr0 m d (Proc.devRef .tc main_arg0)))
/-- Before region 1. -/
def Va2 (d : Dev nD) : Valuation τ sig (Elt F) := after (ops2 (F := F)) (Vb1 m d)
/-- Region 1's proof data: update step 0. -/
def D1 (d : Dev nD) : Pipeline.Dat τ (Elt F) (HIx 6) ℕ UU ℕ cfg3 d := dat3 ((K (F := F)).Otc d 2) (Rn (F := F) d 2) (Va2 m d) d
/-- After region 1. -/
def Vr1 (d : Dev nD) : Valuation τ sig (Elt F) := Function.update (Va2 m d) (Proc.devRef .tc main_v35) ((D1 m d).arrAt 8 cfg3.N)
/-- After call 2: the features gathered. -/
def Vb2 (d : Dev nD) : Valuation τ sig (Elt F) := Function.update (Vr1 m d) (Proc.devRef .tc main_v36) (gatherFn (Vr1 m d (Proc.devRef .tc main_v4)) (Vr1 m d (Proc.devRef .tc main_v35)))
/-- Before region 2. -/
def Va3 (d : Dev nD) : Valuation τ sig (Elt F) := after (ops3 (F := F)) (Vb2 m d)
/-- Region 2's proof data: update step 1. -/
def D2 (d : Dev nD) : Pipeline.Dat τ (Elt F) (HIx 6) ℕ UU ℕ cfg5 d := dat5 ((K (F := F)).Otc d 3) (Rn (F := F) d 3) (Va3 m d) d
/-- After region 2. -/
def Vr2 (d : Dev nD) : Valuation τ sig (Elt F) := Function.update (Va3 m d) (Proc.devRef .tc main_v48) ((D2 m d).arrAt 8 cfg5.N)
/-- After call 3: the features gathered. -/
def Vb3 (d : Dev nD) : Valuation τ sig (Elt F) := Function.update (Vr2 m d) (Proc.devRef .tc main_v49) (gatherFn (Vr2 m d (Proc.devRef .tc main_v4)) (Vr2 m d (Proc.devRef .tc main_v48)))
/-- Before region 3. -/
def Va4 (d : Dev nD) : Valuation τ sig (Elt F) := after (ops4 (F := F)) (Vb3 m d)
/-- Region 3's proof data: update step 2. -/
def D3 (d : Dev nD) : Pipeline.Dat τ (Elt F) (HIx 6) ℕ UU ℕ cfg7 d := dat7 ((K (F := F)).Otc d 4) (Rn (F := F) d 4) (Va4 m d) d
/-- After region 3. -/
def Vr3 (d : Dev nD) : Valuation τ sig (Elt F) := Function.update (Va4 m d) (Proc.devRef .tc main_v61) ((D3 m d).arrAt 8 cfg7.N)
/-- After call 4: the features gathered. -/
def Vb4 (d : Dev nD) : Valuation τ sig (Elt F) := Function.update (Vr3 m d) (Proc.devRef .tc main_v62) (gatherFn (Vr3 m d (Proc.devRef .tc main_v4)) (Vr3 m d (Proc.devRef .tc main_v61)))
/-- Before region 4. -/
def Va5 (d : Dev nD) : Valuation τ sig (Elt F) := after (ops5 (F := F)) (Vb4 m d)
/-- Region 4's proof data: update step 3. -/
def D4 (d : Dev nD) : Pipeline.Dat τ (Elt F) (HIx 6) ℕ UU ℕ cfg9 d := dat9 ((K (F := F)).Otc d 5) (Rn (F := F) d 5) (Va5 m d) d
/-- After region 4. -/
def Vr4 (d : Dev nD) : Valuation τ sig (Elt F) := Function.update (Va5 m d) (Proc.devRef .tc main_v74) ((D4 m d).arrAt 8 cfg9.N)
/-- After call 5: the features gathered. -/
def Vb5 (d : Dev nD) : Valuation τ sig (Elt F) := Function.update (Vr4 m d) (Proc.devRef .tc main_v75) (gatherFn (Vr4 m d (Proc.devRef .tc main_v4)) (Vr4 m d (Proc.devRef .tc main_v74)))
/-- Before region 5. -/
def Va6 (d : Dev nD) : Valuation τ sig (Elt F) := after (ops6 (F := F)) (Vb5 m d)
/-- Region 5's proof data: update step 4. -/
def D5 (d : Dev nD) : Pipeline.Dat τ (Elt F) (HIx 6) ℕ UU ℕ cfg11 d := dat11 ((K (F := F)).Otc d 6) (Rn (F := F) d 6) (Va6 m d) d
/-- After region 5. -/
def Vr5 (d : Dev nD) : Valuation τ sig (Elt F) := Function.update (Va6 m d) (Proc.devRef .tc main_v87) ((D5 m d).arrAt 8 cfg11.N)

/-- The pipelines' proof data, in @main's order. -/
def pdats : (p : Fin 6) → (c : Dev nD) → Pipeline.Dat τ (Elt F) (HIx 6) ℕ UU ℕ (Pipeline.pin (pcfgs (F := F)) adm p) c
  | 0 => D0 m | 1 => D1 m | 2 => D2 m | 3 => D3 m | 4 => D4 m | 5 => D5 m

/-- The arrays when call `q` starts. -/
def Vc : Fin 6 → Dev nD → Valuation τ sig (Elt F)
  | 0 => Va0 m | 1 => Vr0 m | 2 => Vr1 m | 3 => Vr2 m | 4 => Vr3 m | 5 => Vr4 m

end Cert.Proof.ValsB

end
-- ==== Proof.HostGlueB.lean ====
/-
  The host operations of the kernel program's @main, read at an index. Each stretch of host
  operations between two calls is a list of layout operations (constants, zero-padding scatters,
  a transpose, slices, reshapes, a format change); here the contents of each buffer a later item
  consumes, after the stretch has run from contents `V`, are given entry by entry in terms of `V`
  at the buffers the stretch reads, and every buffer the stretch does not write keeps its contents.
-/
import proofs.«205547_g25623774888366_cont_9to1_713_27_alg».proof.Proof.MainChainB
import Idealize.ShloMosaic.Lib.ValueLayout
import Idealize.ShloMosaic.Lib.ValueIdx
import Idealize.ShloMosaic.Lib.IdealHost

set_option synthInstance.maxSize 4096

noncomputable section

namespace Cert.Proof.HostGlueB

open Idealize.ShloMosaic Idealize.SL.Sem Idealize.ShloMosaic.StableHlo Idealize.ShloMosaic.ValueIdx
open Cert.Kernel Cert.Kernel.Gen Cert.Kernel.MainChain

/-! ## Layout operations read at an index (any element type) -/

section Layout
variable {α : Type}

/-- A `[320000, 128]` array cast to `[32, 10000, 128]`: entry `(k, n, c)` is row `10000 k + n`, column `c`. -/
theorem shapeCast_rows_apply (X : S320000x128.Idx → α) (h : S320000x128.ShapeCasts S32x10000x128)
    (k : Fin 32) (n : Fin 10000) (c : Fin 128) :
    shapeCast S32x10000x128 X h (ix3 k n c)
      = X (ix2 ⟨k.val * 10000 + n.val, by have := k.isLt; have := n.isLt; omega⟩ c) := by
  exact shapeCast_apply X h _ _ (by rw [Shape.rowMajor_val_two, Shape.rowMajor_val_three]; rfl)

/-- A `[32, 10000]` array cast to `[320000]`: entry `10000 k + n` is entry `(k, n)`. -/
theorem shapeCast_flat_apply (X : S32x10000.Idx → α) (h : S32x10000.ShapeCasts S320000)
    (k : Fin 32) (n : Fin 10000) :
    shapeCast S320000 X h (ix1 ⟨k.val * 10000 + n.val, by have := k.isLt; have := n.isLt; omega⟩)
      = X (ix2 k n) := by
  exact shapeCast_apply X h _ _ (by rw [Shape.rowMajor_val_two, Shape.rowMajor_val_one]; rfl)

/-- Matrix `t` of a stack of five `[128, 128]` matrices, cut out and its unit axis dropped. -/
theorem slice_mat_apply (t : Nat) (X : S5x128x128.Idx → α) (hs : S5x128x128.Slices ![t, 0, 0] S1x128x128)
    (hc : S1x128x128.ShapeCasts S128x128) (ht : t < 5) (j d : Fin 128) :
    shapeCast S128x128 (extractStridedSlice S1x128x128 ![t, 0, 0] X hs) hc (ix2 j d) = X (ix3 ⟨t, ht⟩ j d) := by
  rw [shapeCast_1ab_ab_apply]
  exact extractStridedSlice_apply _ X hs _ _ (fun a => match a with
    | ⟨0, _⟩ => rfl
    | ⟨1, _⟩ => (Nat.zero_add _).symm
    | ⟨2, _⟩ => (Nat.zero_add _).symm)

/-- Row `t` of a stack of five `[1, 128]` rows, cut out and its unit axis dropped. -/
theorem slice_row_apply (t : Nat) (X : S5x1x128.Idx → α) (hs : S5x1x128.Slices ![t, 0, 0] S1x1x128)
    (hc : S1x1x128.ShapeCasts S1x128) (ht : t < 5) (u : Fin 1) (d : Fin 128) :
    shapeCast S1x128 (extractStridedSlice S1x1x128 ![t, 0, 0] X hs) hc (ix2 u d) = X (ix3 ⟨t, ht⟩ (0 : Fin 1) d) := by
  have hu : u.val = 0 := by have := u.isLt; omega
  rw [shapeCast_1ab_ab_apply]
  exact extractStridedSlice_apply _ X hs _ _ (fun a => match a with
    | ⟨0, _⟩ => rfl
    | ⟨1, _⟩ => by show (0 : Nat) = 0 + u.val; omega
    | ⟨2, _⟩ => (Nat.zero_add _).symm)

/-- A `[5, 128]` array cast to `[5, 1, 128]`. -/
theorem shapeCast_5x1x128_apply (X : S5x128.Idx → α) (h : S5x128.ShapeCasts S5x1x128) (t : Fin 5) (u : Fin 1) (d : Fin 128) :
    shapeCast S5x1x128 X h (ix3 t u d) = X (ix2 t d) := by
  have hu : u.val = 0 := by have := u.isLt; omega
  exact shapeCast_apply X h _ _ (by
    rw [Shape.rowMajor_val_two, Shape.rowMajor_val_three]
    show t.val * 128 + d.val = (t.val * 1 + u.val) * 128 + d.val
    rw [hu, Nat.mul_one, Nat.add_zero])

/-- The upper or lower half (rows `o` to `o + 127`) of each `[256, 128]` matrix of a stack of five. -/
theorem slice_half_apply (o : Nat) (X : S5x256x128.Idx → α) (hs : S5x256x128.Slices ![0, o, 0] S5x128x128)
    (t : Fin 5) (j d : Fin 128) (k : Fin 256) (hk : k.val = o + j.val) :
    extractStridedSlice S5x128x128 ![0, o, 0] X hs (ix3 t j d) = X (ix3 t k d) := by
  exact extractStridedSlice_apply _ X hs _ _ (fun a => match a with
    | ⟨0, _⟩ => (Nat.zero_add _).symm
    | ⟨1, _⟩ => hk
    | ⟨2, _⟩ => (Nat.zero_add _).symm)

end Layout

/-! ## A zero-padding scatter read at an index -/

section Scatter
variable {α : Type}

/-- The fold a scatter that overwrites is: an index some update lands on ends at that update's value, when every
    update landing there carries the same value `v`; an index that starts at `v` and on which only such updates
    land ends at `v`. -/
theorem scatter_fold_apply {s si u : Shape} {w : Nat} (d : ScatterDims s si u) (idx : IVec si w) (upd : u.Idx → α)
    (i' : s.Idx) (v : α) :
    ∀ (l : List (Fin u.numel)) (r : s.Idx → α),
      (∀ n ∈ l, d.resultIdx? (u.rowMajor.symm n) idx = some i' → upd (u.rowMajor.symm n) = v) →
      ((∃ n ∈ l, d.resultIdx? (u.rowMajor.symm n) idx = some i') ∨ r i' = v) →
      l.foldl (fun r n =>
        match d.resultIdx? (u.rowMajor.symm n) idx with
        | some i => fun i' => if i' = i then (fun _ b => b) (r i) (upd (u.rowMajor.symm n)) else r i'
        | none => r) r i' = v := by
  intro l
  induction l with
  | nil =>
    intro r _ h
    rcases h with ⟨n, hn, _⟩ | h
    · exact absurd hn List.not_mem_nil
    · exact h
  | cons a l ih =>
    intro r h1 h2
    rw [List.foldl_cons]
    refine ih _ (fun n hn => h1 n (List.mem_cons_of_mem _ hn)) ?_
    by_cases ha : d.resultIdx? (u.rowMajor.symm a) idx = some i'
    · right
      simp only [ha, if_true]
      exact h1 a List.mem_cons_self ha
    · rcases h2 with ⟨n, hn, hne⟩ | hr
      · rcases List.mem_cons.1 hn with rfl | hn'
        · exact absurd hne ha
        · exact Or.inl ⟨n, hn', hne⟩
      · right
        cases hq : d.resultIdx? (u.rowMajor.symm a) idx with
        | none => exact hr
        | some i =>
          have hne : i' ≠ i := fun h => ha (by rw [hq, h])
          simp only [if_neg hne]
          exact hr

/-- An overwriting scatter at an index some update lands on, all updates landing there carrying `v`. -/
theorem scatter_apply_hit {s si u : Shape} {w : Nat} (d : ScatterDims s si u) (x : s.Idx → α) (idx : IVec si w)
    (upd : u.Idx → α) (i' : s.Idx) (v : α) (j0 : u.Idx) (h0 : d.resultIdx? j0 idx = some i')
    (hall : ∀ j, d.resultIdx? j idx = some i' → upd j = v) :
    Host.scatter d (fun _ b => b) x idx upd i' = v := by
  unfold Host.scatter
  refine scatter_fold_apply d idx upd i' v _ x (fun n _ hn => hall _ hn) (Or.inl ⟨u.rowMajor j0, List.mem_finRange _, ?_⟩)
  rw [Equiv.symm_apply_apply]; exact h0

/-- An overwriting scatter at an index no update lands on: the operand. -/
theorem scatter_apply_miss {s si u : Shape} {w : Nat} (d : ScatterDims s si u) (x : s.Idx → α) (idx : IVec si w)
    (upd : u.Idx → α) (i' : s.Idx) (hnone : ∀ j, d.resultIdx? j idx ≠ some i') :
    Host.scatter d (fun _ b => b) x idx upd i' = x i' := by
  unfold Host.scatter
  exact scatter_fold_apply d idx upd i' (x i') _ x (fun n _ hn => absurd hn (hnone _)) (Or.inr rfl)

/-- Where an update `[m0, m1]` scattered at start index `0` into `[n0, n1]` lands: entry `(p, q)` at `(p, q)`. -/
theorem resultIdx_pad {n0 n1 m0 m1 : Nat} (d : ScatterDims ⟨2, ![n0, n1]⟩ ⟨1, ![1]⟩ ⟨2, ![m0, m1]⟩)
    (hw : d.updateWindowDims = [0, 1]) (hi : d.insertedWindowDims = []) (hm0 : m0 ≤ n0) (hm1 : m1 ≤ n1)
    (j : (⟨2, ![m0, m1]⟩ : Shape).Idx) :
    d.resultIdx? j (fun _ => 0#32 : IVec ⟨1, ![1]⟩ 32)
      = some (ix2 ⟨(j 0).val, Nat.lt_of_lt_of_le (j 0).isLt hm0⟩ ⟨(j 1).val, Nat.lt_of_lt_of_le (j 1).isLt hm1⟩) := by
  have hs : ∀ a, d.start j (fun _ => 0#32 : IVec ⟨1, ![1]⟩ 32) a = 0 := by
    intro a; unfold ScatterDims.start; split <;> rfl
  have hwin : ∀ a : Fin 2, d.window j a = (j a).val := by
    obtain ⟨uw, iw, sd, iv, wf⟩ := d
    subst hw hi
    intro a
    fin_cases a <;> rfl
  have h0 : (j 0).val < m0 := (j 0).isLt
  have h1 : (j 1).val < m1 := (j 1).isLt
  have hcond : ∀ a : Fin 2, 0 ≤ d.start j (fun _ => 0#32 : IVec ⟨1, ![1]⟩ 32) a + d.window j a
      ∧ d.start j (fun _ => 0#32 : IVec ⟨1, ![1]⟩ 32) a + d.window j a < (⟨2, ![n0, n1]⟩ : Shape).size a := by
    intro a
    rw [hs, hwin]
    fin_cases a
    · show 0 ≤ (0 : Int) + ((j 0).val : Int) ∧ (0 : Int) + ((j 0).val : Int) < (n0 : Int)
      omega
    · show 0 ≤ (0 : Int) + ((j 1).val : Int) ∧ (0 : Int) + ((j 1).val : Int) < (n1 : Int)
      omega
  unfold ScatterDims.resultIdx?
  rw [dif_pos hcond]
  congr 1
  funext a
  apply Fin.ext
  fin_cases a
  · show (d.start j (fun _ => 0#32 : IVec ⟨1, ![1]⟩ 32) 0 + ((d.window j 0 : Nat) : Int)).toNat = (j 0).val
    rw [hs, hwin]; omega
  · show (d.start j (fun _ => 0#32 : IVec ⟨1, ![1]⟩ 32) 1 + ((d.window j 1 : Nat) : Int)).toNat = (j 1).val
    rw [hs, hwin]; omega

/-- A scatter that overwrites (its body returns the update), at the one start index `0` on the one scattered axis,
    of an update `[m0, m1]` into an operand `[n0, n1]` that contains it: inside the update's extent the update,
    outside it the operand. -/
theorem scatter_pad_apply {n0 n1 m0 m1 : Nat} (d : ScatterDims ⟨2, ![n0, n1]⟩ ⟨1, ![1]⟩ ⟨2, ![m0, m1]⟩)
    (hw : d.updateWindowDims = [0, 1]) (hi : d.insertedWindowDims = [])
    (hm0 : m0 ≤ n0) (hm1 : m1 ≤ n1)
    (x : (⟨2, ![n0, n1]⟩ : Shape).Idx → α) (upd : (⟨2, ![m0, m1]⟩ : Shape).Idx → α) (a : Fin n0) (b : Fin n1) :
    Host.scatter d (fun _ u => u) x (fun _ => 0#32 : IVec ⟨1, ![1]⟩ 32) upd (ix2 a b)
      = if h : a.val < m0 ∧ b.val < m1 then upd (ix2 ⟨a.val, h.1⟩ ⟨b.val, h.2⟩) else x (ix2 a b) := by
  by_cases h : a.val < m0 ∧ b.val < m1
  · rw [dif_pos h]
    refine scatter_apply_hit d x _ upd _ _ (ix2 ⟨a.val, h.1⟩ ⟨b.val, h.2⟩) ?_ ?_
    · exact (resultIdx_pad d hw hi hm0 hm1 _).trans rfl
    · intro j hj
      rw [resultIdx_pad d hw hi hm0 hm1] at hj
      have hj' := Option.some.inj hj
      have e0 : (j 0).val = a.val := congrArg (fun i : (⟨2, ![n0, n1]⟩ : Shape).Idx => (i 0).val) hj'
      have e1 : (j 1).val = b.val := congrArg (fun i : (⟨2, ![n0, n1]⟩ : Shape).Idx => (i 1).val) hj'
      congr 1
      rw [eq_ix2 j]
      congr 1 <;> exact Fin.ext (by assumption)
  · rw [dif_neg h]
    refine scatter_apply_miss d x _ upd _ ?_
    intro j hj
    rw [resultIdx_pad d hw hi hm0 hm1] at hj
    have hj' := Option.some.inj hj
    have e0 : (j 0).val = a.val := congrArg (fun i : (⟨2, ![n0, n1]⟩ : Shape).Idx => (i 0).val) hj'
    have e1 : (j 1).val = b.val := congrArg (fun i : (⟨2, ![n0, n1]⟩ : Shape).Idx => (i 1).val) hj'
    have h0 : (j 0).val < m0 := (j 0).isLt
    have h1 : (j 1).val < m1 := (j 1).isLt
    exact h ⟨by omega, by omega⟩

end Scatter

/-! ## Stretch 0 -/

section Generic
variable {F : FTy → Type} [FloatOps F] (V : Valuation τ sig (Elt F))

/-- The buffers stretch 0 writes. -/
def ops0_W : List (Ref sig .tc) :=
  [main_cst, main_v0, main_c, main_v1, main_v2, main_v3, main_v4, main_cst_0, main_v5, main_c_1, main_v6, main_v7, main_v8,
   main_cst_2, main_v9, main_c_3, main_v10, main_v11, main_v12, main_v13, main_v14, main_v15, main_v16, main_v17, main_v18, main_v19]

theorem ops0_writes : (ops0 (F := F)).Forall fun op => op.writes ⊆ (ops0_W.map (Proc.devRef (τ := τ) .tc)).toFinset := by
  simp only [ops0, List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer stretch 0 does not write keeps its contents. -/
theorem ops0_keep (r : Ref sig .tc) (h : r ∉ ops0_W) :
    StableHlo.after (ops0 (F := F)) V (Proc.devRef .tc r) = V (Proc.devRef .tc r) :=
  after_of_writes_sub ops0 V ops0_writes h

/-- The coordinates, padded to 128 columns with zeros. -/
theorem ops0_v2 (n : Fin 10000) (a : Fin 128) :
    StableHlo.after (ops0 (F := F)) V (Proc.devRef .tc main_v2) (ix2 n a)
      = if h : a.val < 3 then V (Proc.devRef .tc main_arg1) (ix2 n ⟨a.val, h⟩) else FloatOps.ofBits (F := F) .f32 0x00000000#32 := by
  have e : StableHlo.after (ops0 (F := F)) V (Proc.devRef .tc main_v2)
      = Host.scatter scatter_S10000x128_S1_S10000x3_01_n_1_0 (fun _ b => b)
          (fun _ => FloatOps.ofBits (F := F) .f32 0x00000000#32) (fun _ => 0#32) (V (Proc.devRef .tc main_arg1)) := by
    unfold ops0; after_results; rfl
  rw [e]
  refine (scatter_pad_apply scatter_S10000x128_S1_S10000x3_01_n_1_0 rfl rfl (by decide) (by decide) _ _ n a).trans ?_
  have hn : n.val < 10000 := n.isLt
  by_cases h : a.val < 3
  · rw [dif_pos h, dif_pos ⟨hn, h⟩]
  · rw [dif_neg h, dif_neg (fun hh => h hh.2)]

/-- The neighbour table, transposed and flattened: entry `10000 k + n` is neighbour `k` of point `n`. -/
theorem ops0_v4 (k : Fin 32) (n : Fin 10000) :
    StableHlo.after (ops0 (F := F)) V (Proc.devRef .tc main_v4) (ix1 ⟨k.val * 10000 + n.val, by have := k.isLt; have := n.isLt; omega⟩)
      = V (Proc.devRef .tc main_arg2) (ix2 n k) := by
  unfold ops0; after_results
  exact (shapeCast_flat_apply _ _ k n).trans (transpose_ix2_apply _ _ k n)

/-- The first weight matrix, padded to 8 rows with zeros. -/
theorem ops0_v7 (a : Fin 8) (j : Fin 64) :
    StableHlo.after (ops0 (F := F)) V (Proc.devRef .tc main_v7) (ix2 a j)
      = if h : a.val < 3 then V (Proc.devRef .tc main_arg3) (ix2 ⟨a.val, h⟩ j) else FloatOps.ofBits (F := F) .f32 0x00000000#32 := by
  have e : StableHlo.after (ops0 (F := F)) V (Proc.devRef .tc main_v7)
      = Host.scatter scatter_S8x64_S1_S3x64_01_n_0_0 (fun _ b => b)
          (fun _ => FloatOps.ofBits (F := F) .f32 0x00000000#32) (fun _ => 0#32) (V (Proc.devRef .tc main_arg3)) := by
    unfold ops0; after_results; rfl
  rw [e]
  refine (scatter_pad_apply scatter_S8x64_S1_S3x64_01_n_0_0 rfl rfl (by decide) (by decide) _ _ a j).trans ?_
  have hj : j.val < 64 := j.isLt
  by_cases h : a.val < 3
  · rw [dif_pos h, dif_pos ⟨h, hj⟩]
  · rw [dif_neg h, dif_neg (fun hh => h hh.1)]

/-- The first bias as one row. -/
theorem ops0_v8 (u : Fin 1) (j : Fin 64) :
    StableHlo.after (ops0 (F := F)) V (Proc.devRef .tc main_v8) (ix2 u j) = V (Proc.devRef .tc main_arg4) (ix1 j) := by
  unfold ops0; after_results
  exact shapeCast_a_1a_apply _ _ u j

/-- The second weight column, padded to 8 columns with zeros (before the format change). -/
theorem ops0_v11 (j : Fin 64) (c : Fin 8) :
    StableHlo.after (ops0 (F := F)) V (Proc.devRef .tc main_v11) (ix2 j c)
      = if h : c.val < 1 then V (Proc.devRef .tc main_arg5) (ix2 j ⟨c.val, h⟩) else FloatOps.ofBits (F := F) .f32 0x00000000#32 := by
  have e : StableHlo.after (ops0 (F := F)) V (Proc.devRef .tc main_v11)
      = Host.scatter scatter_S64x8_S1_S64x1_01_n_1_0 (fun _ b => b)
          (fun _ => FloatOps.ofBits (F := F) .f32 0x00000000#32) (fun _ => 0#32) (V (Proc.devRef .tc main_arg5)) := by
    unfold ops0; after_results; rfl
  rw [e]
  refine (scatter_pad_apply scatter_S64x8_S1_S64x1_01_n_1_0 rfl rfl (by decide) (by decide) _ _ j c).trans ?_
  have hj : j.val < 64 := j.isLt
  by_cases h : c.val < 1
  · rw [dif_pos h, dif_pos ⟨hj, h⟩]
  · rw [dif_neg h, dif_neg (fun hh => h hh.2)]

/-- Argument 8 with a unit axis put in the middle. -/
theorem ops0_v17 (t : Fin 5) (u : Fin 1) (d : Fin 128) :
    StableHlo.after (ops0 (F := F)) V (Proc.devRef .tc main_v17) (ix3 t u d) = V (Proc.devRef .tc main_arg8) (ix2 t d) := by
  unfold ops0; after_results
  exact shapeCast_5x1x128_apply _ _ t u d

/-- Argument 9 with a unit axis put in the middle. -/
theorem ops0_v18 (t : Fin 5) (u : Fin 1) (d : Fin 128) :
    StableHlo.after (ops0 (F := F)) V (Proc.devRef .tc main_v18) (ix3 t u d) = V (Proc.devRef .tc main_arg9) (ix2 t d) := by
  unfold ops0; after_results
  exact shapeCast_5x1x128_apply _ _ t u d

/-- Argument 10 with a unit axis put in the middle. -/
theorem ops0_v19 (t : Fin 5) (u : Fin 1) (d : Fin 128) :
    StableHlo.after (ops0 (F := F)) V (Proc.devRef .tc main_v19) (ix3 t u d) = V (Proc.devRef .tc main_arg10) (ix2 t d) := by
  unfold ops0; after_results
  exact shapeCast_5x1x128_apply _ _ t u d

/-! ## Stretch 1 -/

def ops1_W : List (Ref sig .tc) := [main_v21]

theorem ops1_writes : (ops1 (F := F)).Forall fun op => op.writes ⊆ (ops1_W.map (Proc.devRef (τ := τ) .tc)).toFinset := by
  simp only [ops1, List.Forall]
  repeat' apply And.intro
  all_goals
    simp only [nullary_writes, unary_writes, binary_writes, ternary_writes, quaternary_writes, reshape_writes,
      Finset.singleton_subset_iff, List.mem_toFinset]
    exact List.mem_map_of_mem (by decide)

theorem ops1_keep (r : Ref sig .tc) (h : r ∉ ops1_W) :
    StableHlo.after (ops1 (F := F)) V (Proc.devRef .tc r) = V (Proc.devRef .tc r) :=
  after_of_writes_sub ops1 V ops1_writes h

/-- The gathered rows, regrouped by neighbour slot. -/
theorem ops1_v21 (k : Fin 32) (n : Fin 10000) (c : Fin 128) :
    StableHlo.after (ops1 (F := F)) V (Proc.devRef .tc main_v21) (ix3 k n c)
      = V (Proc.devRef .tc main_v20) (ix2 ⟨k.val * 10000 + n.val, by have := k.isLt; have := n.isLt; omega⟩ c) := by
  unfold ops1; after_results
  exact shapeCast_rows_apply _ _ k n c

/-! ## Stretches 2 to 6: one per step `t = 0 … 4`, alike but for the names -/

def ops2_W : List (Ref sig .tc) :=
  [main_v24, main_v25, main_v26, main_v27, main_v28, main_v29, main_v30, main_v31, main_v32, main_v33, main_v34]

theorem ops2_writes : (ops2 (F := F)).Forall fun op => op.writes ⊆ (ops2_W.map (Proc.devRef (τ := τ) .tc)).toFinset := by
  simp only [ops2, List.Forall]
  repeat' apply And.intro
  all_goals
    simp only [nullary_writes, unary_writes, binary_writes, ternary_writes, quaternary_writes, reshape_writes,
      Finset.singleton_subset_iff, List.mem_toFinset]
    exact List.mem_map_of_mem (by decide)

theorem ops2_keep (r : Ref sig .tc) (h : r ∉ ops2_W) :
    StableHlo.after (ops2 (F := F)) V (Proc.devRef .tc r) = V (Proc.devRef .tc r) :=
  after_of_writes_sub ops2 V ops2_writes h

theorem ops2_v24 (k : Fin 32) (n : Fin 10000) (c : Fin 128) :
    StableHlo.after (ops2 (F := F)) V (Proc.devRef .tc main_v24) (ix3 k n c)
      = V (Proc.devRef .tc main_v23) (ix2 ⟨k.val * 10000 + n.val, by have := k.isLt; have := n.isLt; omega⟩ c) := by
  unfold ops2; after_results
  exact shapeCast_rows_apply _ _ k n c

theorem ops2_v26 (j d : Fin 128) :
    StableHlo.after (ops2 (F := F)) V (Proc.devRef .tc main_v26) (ix2 j d) = V (Proc.devRef .tc main_v14) (ix3 (0 : Fin 5) j d) := by
  unfold ops2; after_results
  exact slice_mat_apply 0 _ _ _ (by decide) j d

theorem ops2_v28 (j d : Fin 128) :
    StableHlo.after (ops2 (F := F)) V (Proc.devRef .tc main_v28) (ix2 j d) = V (Proc.devRef .tc main_v16) (ix3 (0 : Fin 5) j d) := by
  unfold ops2; after_results
  exact slice_mat_apply 0 _ _ _ (by decide) j d

theorem ops2_v30 (u : Fin 1) (d : Fin 128) :
    StableHlo.after (ops2 (F := F)) V (Proc.devRef .tc main_v30) (ix2 u d) = V (Proc.devRef .tc main_v17) (ix3 (0 : Fin 5) (0 : Fin 1) d) := by
  unfold ops2; after_results
  exact slice_row_apply 0 _ _ _ (by decide) u d

theorem ops2_v32 (u : Fin 1) (d : Fin 128) :
    StableHlo.after (ops2 (F := F)) V (Proc.devRef .tc main_v32) (ix2 u d) = V (Proc.devRef .tc main_v18) (ix3 (0 : Fin 5) (0 : Fin 1) d) := by
  unfold ops2; after_results
  exact slice_row_apply 0 _ _ _ (by decide) u d

theorem ops2_v34 (u : Fin 1) (d : Fin 128) :
    StableHlo.after (ops2 (F := F)) V (Proc.devRef .tc main_v34) (ix2 u d) = V (Proc.devRef .tc main_v19) (ix3 (0 : Fin 5) (0 : Fin 1) d) := by
  unfold ops2; after_results
  exact slice_row_apply 0 _ _ _ (by decide) u d

def ops3_W : List (Ref sig .tc) :=
  [main_v37, main_v38, main_v39, main_v40, main_v41, main_v42, main_v43, main_v44, main_v45, main_v46, main_v47]

theorem ops3_writes : (ops3 (F := F)).Forall fun op => op.writes ⊆ (ops3_W.map (Proc.devRef (τ := τ) .tc)).toFinset := by
  simp only [ops3, List.Forall]
  repeat' apply And.intro
  all_goals
    simp only [nullary_writes, unary_writes, binary_writes, ternary_writes, quaternary_writes, reshape_writes,
      Finset.singleton_subset_iff, List.mem_toFinset]
    exact List.mem_map_of_mem (by decide)

theorem ops3_keep (r : Ref sig .tc) (h : r ∉ ops3_W) :
    StableHlo.after (ops3 (F := F)) V (Proc.devRef .tc r) = V (Proc.devRef .tc r) :=
  after_of_writes_sub ops3 V ops3_writes h

theorem ops3_v37 (k : Fin 32) (n : Fin 10000) (c : Fin 128) :
    StableHlo.after (ops3 (F := F)) V (Proc.devRef .tc main_v37) (ix3 k n c)
      = V (Proc.devRef .tc main_v36) (ix2 ⟨k.val * 10000 + n.val, by have := k.isLt; have := n.isLt; omega⟩ c) := by
  unfold ops3; after_results
  exact shapeCast_rows_apply _ _ k n c

theorem ops3_v39 (j d : Fin 128) :
    StableHlo.after (ops3 (F := F)) V (Proc.devRef .tc main_v39) (ix2 j d) = V (Proc.devRef .tc main_v14) (ix3 (1 : Fin 5) j d) := by
  unfold ops3; after_results
  exact slice_mat_apply 1 _ _ _ (by decide) j d

theorem ops3_v41 (j d : Fin 128) :
    StableHlo.after (ops3 (F := F)) V (Proc.devRef .tc main_v41) (ix2 j d) = V (Proc.devRef .tc main_v16) (ix3 (1 : Fin 5) j d) := by
  unfold ops3; after_results
  exact slice_mat_apply 1 _ _ _ (by decide) j d

theorem ops3_v43 (u : Fin 1) (d : Fin 128) :
    StableHlo.after (ops3 (F := F)) V (Proc.devRef .tc main_v43) (ix2 u d) = V (Proc.devRef .tc main_v17) (ix3 (1 : Fin 5) (0 : Fin 1) d) := by
  unfold ops3; after_results
  exact slice_row_apply 1 _ _ _ (by decide) u d

theorem ops3_v45 (u : Fin 1) (d : Fin 128) :
    StableHlo.after (ops3 (F := F)) V (Proc.devRef .tc main_v45) (ix2 u d) = V (Proc.devRef .tc main_v18) (ix3 (1 : Fin 5) (0 : Fin 1) d) := by
  unfold ops3; after_results
  exact slice_row_apply 1 _ _ _ (by decide) u d

theorem ops3_v47 (u : Fin 1) (d : Fin 128) :
    StableHlo.after (ops3 (F := F)) V (Proc.devRef .tc main_v47) (ix2 u d) = V (Proc.devRef .tc main_v19) (ix3 (1 : Fin 5) (0 : Fin 1) d) := by
  unfold ops3; after_results
  exact slice_row_apply 1 _ _ _ (by decide) u d

def ops4_W : List (Ref sig .tc) :=
  [main_v50, main_v51, main_v52, main_v53, main_v54, main_v55, main_v56, main_v57, main_v58, main_v59, main_v60]

theorem ops4_writes : (ops4 (F := F)).Forall fun op => op.writes ⊆ (ops4_W.map (Proc.devRef (τ := τ) .tc)).toFinset := by
  simp only [ops4, List.Forall]
  repeat' apply And.intro
  all_goals
    simp only [nullary_writes, unary_writes, binary_writes, ternary_writes, quaternary_writes, reshape_writes,
      Finset.singleton_subset_iff, List.mem_toFinset]
    exact List.mem_map_of_mem (by decide)

theorem ops4_keep (r : Ref sig .tc) (h : r ∉ ops4_W) :
    StableHlo.after (ops4 (F := F)) V (Proc.devRef .tc r) = V (Proc.devRef .tc r) :=
  after_of_writes_sub ops4 V ops4_writes h

theorem ops4_v50 (k : Fin 32) (n : Fin 10000) (c : Fin 128) :
    StableHlo.after (ops4 (F := F)) V (Proc.devRef .tc main_v50) (ix3 k n c)
      = V (Proc.devRef .tc main_v49) (ix2 ⟨k.val * 10000 + n.val, by have := k.isLt; have := n.isLt; omega⟩ c) := by
  unfold ops4; after_results
  exact shapeCast_rows_apply _ _ k n c

theorem ops4_v52 (j d : Fin 128) :
    StableHlo.after (ops4 (F := F)) V (Proc.devRef .tc main_v52) (ix2 j d) = V (Proc.devRef .tc main_v14) (ix3 (2 : Fin 5) j d) := by
  unfold ops4; after_results
  exact slice_mat_apply 2 _ _ _ (by decide) j d

theorem ops4_v54 (j d : Fin 128) :
    StableHlo.after (ops4 (F := F)) V (Proc.devRef .tc main_v54) (ix2 j d) = V (Proc.devRef .tc main_v16) (ix3 (2 : Fin 5) j d) := by
  unfold ops4; after_results
  exact slice_mat_apply 2 _ _ _ (by decide) j d

theorem ops4_v56 (u : Fin 1) (d : Fin 128) :
    StableHlo.after (ops4 (F := F)) V (Proc.devRef .tc main_v56) (ix2 u d) = V (Proc.devRef .tc main_v17) (ix3 (2 : Fin 5) (0 : Fin 1) d) := by
  unfold ops4; after_results
  exact slice_row_apply 2 _ _ _ (by decide) u d

theorem ops4_v58 (u : Fin 1) (d : Fin 128) :
    StableHlo.after (ops4 (F := F)) V (Proc.devRef .tc main_v58) (ix2 u d) = V (Proc.devRef .tc main_v18) (ix3 (2 : Fin 5) (0 : Fin 1) d) := by
  unfold ops4; after_results
  exact slice_row_apply 2 _ _ _ (by decide) u d

theorem ops4_v60 (u : Fin 1) (d : Fin 128) :
    StableHlo.after (ops4 (F := F)) V (Proc.devRef .tc main_v60) (ix2 u d) = V (Proc.devRef .tc main_v19) (ix3 (2 : Fin 5) (0 : Fin 1) d) := by
  unfold ops4; after_results
  exact slice_row_apply 2 _ _ _ (by decide) u d

def ops5_W : List (Ref sig .tc) :=
  [main_v63, main_v64, main_v65, main_v66, main_v67, main_v68, main_v69, main_v70, main_v71, main_v72, main_v73]

theorem ops5_writes : (ops5 (F := F)).Forall fun op => op.writes ⊆ (ops5_W.map (Proc.devRef (τ := τ) .tc)).toFinset := by
  simp only [ops5, List.Forall]
  repeat' apply And.intro
  all_goals
    simp only [nullary_writes, unary_writes, binary_writes, ternary_writes, quaternary_writes, reshape_writes,
      Finset.singleton_subset_iff, List.mem_toFinset]
    exact List.mem_map_of_mem (by decide)

theorem ops5_keep (r : Ref sig .tc) (h : r ∉ ops5_W) :
    StableHlo.after (ops5 (F := F)) V (Proc.devRef .tc r) = V (Proc.devRef .tc r) :=
  after_of_writes_sub ops5 V ops5_writes h

theorem ops5_v63 (k : Fin 32) (n : Fin 10000) (c : Fin 128) :
    StableHlo.after (ops5 (F := F)) V (Proc.devRef .tc main_v63) (ix3 k n c)
      = V (Proc.devRef .tc main_v62) (ix2 ⟨k.val * 10000 + n.val, by have := k.isLt; have := n.isLt; omega⟩ c) := by
  unfold ops5; after_results
  exact shapeCast_rows_apply _ _ k n c

theorem ops5_v65 (j d : Fin 128) :
    StableHlo.after (ops5 (F := F)) V (Proc.devRef .tc main_v65) (ix2 j d) = V (Proc.devRef .tc main_v14) (ix3 (3 : Fin 5) j d) := by
  unfold ops5; after_results
  exact slice_mat_apply 3 _ _ _ (by decide) j d

theorem ops5_v67 (j d : Fin 128) :
    StableHlo.after (ops5 (F := F)) V (Proc.devRef .tc main_v67) (ix2 j d) = V (Proc.devRef .tc main_v16) (ix3 (3 : Fin 5) j d) := by
  unfold ops5; after_results
  exact slice_mat_apply 3 _ _ _ (by decide) j d

theorem ops5_v69 (u : Fin 1) (d : Fin 128) :
    StableHlo.after (ops5 (F := F)) V (Proc.devRef .tc main_v69) (ix2 u d) = V (Proc.devRef .tc main_v17) (ix3 (3 : Fin 5) (0 : Fin 1) d) := by
  unfold ops5; after_results
  exact slice_row_apply 3 _ _ _ (by decide) u d

theorem ops5_v71 (u : Fin 1) (d : Fin 128) :
    StableHlo.after (ops5 (F := F)) V (Proc.devRef .tc main_v71) (ix2 u d) = V (Proc.devRef .tc main_v18) (ix3 (3 : Fin 5) (0 : Fin 1) d) := by
  unfold ops5; after_results
  exact slice_row_apply 3 _ _ _ (by decide) u d

theorem ops5_v73 (u : Fin 1) (d : Fin 128) :
    StableHlo.after (ops5 (F := F)) V (Proc.devRef .tc main_v73) (ix2 u d) = V (Proc.devRef .tc main_v19) (ix3 (3 : Fin 5) (0 : Fin 1) d) := by
  unfold ops5; after_results
  exact slice_row_apply 3 _ _ _ (by decide) u d

def ops6_W : List (Ref sig .tc) :=
  [main_v76, main_v77, main_v78, main_v79, main_v80, main_v81, main_v82, main_v83, main_v84, main_v85, main_v86]

theorem ops6_writes : (ops6 (F := F)).Forall fun op => op.writes ⊆ (ops6_W.map (Proc.devRef (τ := τ) .tc)).toFinset := by
  simp only [ops6, List.Forall]
  repeat' apply And.intro
  all_goals
    simp only [nullary_writes, unary_writes, binary_writes, ternary_writes, quaternary_writes, reshape_writes,
      Finset.singleton_subset_iff, List.mem_toFinset]
    exact List.mem_map_of_mem (by decide)

theorem ops6_keep (r : Ref sig .tc) (h : r ∉ ops6_W) :
    StableHlo.after (ops6 (F := F)) V (Proc.devRef .tc r) = V (Proc.devRef .tc r) :=
  after_of_writes_sub ops6 V ops6_writes h

theorem ops6_v76 (k : Fin 32) (n : Fin 10000) (c : Fin 128) :
    StableHlo.after (ops6 (F := F)) V (Proc.devRef .tc main_v76) (ix3 k n c)
      = V (Proc.devRef .tc main_v75) (ix2 ⟨k.val * 10000 + n.val, by have := k.isLt; have := n.isLt; omega⟩ c) := by
  unfold ops6; after_results
  exact shapeCast_rows_apply _ _ k n c

theorem ops6_v78 (j d : Fin 128) :
    StableHlo.after (ops6 (F := F)) V (Proc.devRef .tc main_v78) (ix2 j d) = V (Proc.devRef .tc main_v14) (ix3 (4 : Fin 5) j d) := by
  unfold ops6; after_results
  exact slice_mat_apply 4 _ _ _ (by decide) j d

theorem ops6_v80 (j d : Fin 128) :
    StableHlo.after (ops6 (F := F)) V (Proc.devRef .tc main_v80) (ix2 j d) = V (Proc.devRef .tc main_v16) (ix3 (4 : Fin 5) j d) := by
  unfold ops6; after_results
  exact slice_mat_apply 4 _ _ _ (by decide) j d

theorem ops6_v82 (u : Fin 1) (d : Fin 128) :
    StableHlo.after (ops6 (F := F)) V (Proc.devRef .tc main_v82) (ix2 u d) = V (Proc.devRef .tc main_v17) (ix3 (4 : Fin 5) (0 : Fin 1) d) := by
  unfold ops6; after_results
  exact slice_row_apply 4 _ _ _ (by decide) u d

theorem ops6_v84 (u : Fin 1) (d : Fin 128) :
    StableHlo.after (ops6 (F := F)) V (Proc.devRef .tc main_v84) (ix2 u d) = V (Proc.devRef .tc main_v18) (ix3 (4 : Fin 5) (0 : Fin 1) d) := by
  unfold ops6; after_results
  exact slice_row_apply 4 _ _ _ (by decide) u d

theorem ops6_v86 (u : Fin 1) (d : Fin 128) :
    StableHlo.after (ops6 (F := F)) V (Proc.devRef .tc main_v86) (ix2 u d) = V (Proc.devRef .tc main_v19) (ix3 (4 : Fin 5) (0 : Fin 1) d) := by
  unfold ops6; after_results
  exact slice_row_apply 4 _ _ _ (by decide) u d

end Generic

/-! ## Stretch 0 at the extended-real instance: the format change is the identity, the zero pattern is `0` -/

section AtIdeal
variable (V : Valuation τ sig (Elt Ideal))

theorem ops0_v2_ideal (n : Fin 10000) (a : Fin 128) :
    StableHlo.after (ops0 (F := Ideal)) V (Proc.devRef .tc main_v2) (ix2 n a)
      = if h : a.val < 3 then V (Proc.devRef .tc main_arg1) (ix2 n ⟨a.val, h⟩) else (0 : EReal) := by
  rw [ops0_v2]
  split
  · rfl
  · exact Ideal.ofBits_zero_f32

theorem ops0_v7_ideal (a : Fin 8) (j : Fin 64) :
    StableHlo.after (ops0 (F := Ideal)) V (Proc.devRef .tc main_v7) (ix2 a j)
      = if h : a.val < 3 then V (Proc.devRef .tc main_arg3) (ix2 ⟨a.val, h⟩ j) else (0 : EReal) := by
  rw [ops0_v7]
  split
  · rfl
  · exact Ideal.ofBits_zero_f32

/-- The second weight column, padded to 8 columns with zeros, in the narrow format. -/
theorem ops0_v12_ideal (j : Fin 64) (c : Fin 8) :
    StableHlo.after (ops0 (F := Ideal)) V (Proc.devRef .tc main_v12) (ix2 j c)
      = if c.val = 0 then V (Proc.devRef .tc main_arg5) (ix2 j (0 : Fin 1)) else (0 : EReal) := by
  have e : StableHlo.after (ops0 (F := Ideal)) V (Proc.devRef .tc main_v12) (ix2 j c)
      = StableHlo.after (ops0 (F := Ideal)) V (Proc.devRef .tc main_v11) (ix2 j c) := by
    unfold ops0; after_results; rfl
  rw [e, ops0_v11]
  by_cases h : c.val = 0
  · rw [dif_pos (by omega), if_pos h]
    exact congrArg (V (Proc.devRef .tc main_arg5)) (congrArg (ix2 j) (Fin.ext h))
  · rw [dif_neg (by omega), if_neg h]
    exact Ideal.ofBits_zero_f32

/-- The upper halves of the five step matrices, in the narrow format. -/
theorem ops0_v14_ideal (t : Fin 5) (j d : Fin 128) :
    StableHlo.after (ops0 (F := Ideal)) V (Proc.devRef .tc main_v14) (ix3 t j d)
      = V (Proc.devRef .tc main_arg7) (ix3 t ⟨j.val, by have := j.isLt; omega⟩ d) := by
  unfold ops0; after_results
  show extractStridedSlice S5x128x128 ![0, 0, 0] (V (Proc.devRef .tc main_arg7)) slices_S5x256x128_S5x128x128_0_0_0 (ix3 t j d) = _
  exact slice_half_apply 0 _ slices_S5x256x128_S5x128x128_0_0_0 t j d _ (Nat.zero_add _).symm

/-- The lower halves of the five step matrices, in the narrow format. -/
theorem ops0_v16_ideal (t : Fin 5) (j d : Fin 128) :
    StableHlo.after (ops0 (F := Ideal)) V (Proc.devRef .tc main_v16) (ix3 t j d)
      = V (Proc.devRef .tc main_arg7) (ix3 t ⟨128 + j.val, by have := j.isLt; omega⟩ d) := by
  unfold ops0; after_results
  show extractStridedSlice S5x128x128 ![0, 128, 0] (V (Proc.devRef .tc main_arg7)) slices_S5x256x128_S5x128x128_0_128_0 (ix3 t j d) = _
  exact slice_half_apply 128 _ slices_S5x256x128_S5x128x128_0_128_0 t j d _ rfl

end AtIdeal

end Cert.Proof.HostGlueB

end
-- ==== Proof.KeepB.lean ====
/-
  What the items of @main leave alone. Between its items the arrays of @main are a chain of valuations: each
  stretch of host operations rewrites the buffers it writes, each call or region one result buffer. A buffer
  an item does not write keeps its contents through it; here that is said item by item, then along the chain
  for the argument arrays, the flattened neighbour table, the per-step weights and the edge weights.
-/
import proofs.«205547_g25623774888366_cont_9to1_713_27_alg».proof.Proof.ValsB
import proofs.«205547_g25623774888366_cont_9to1_713_27_alg».proof.Proof.HostGlueB

noncomputable section

namespace Cert.Proof.KeepB

open Idealize.ShloMosaic Idealize.SL.Sem Idealize.ShloMosaic.ValueIdx
open Cert.Kernel Cert.Kernel.Gen Cert.Kernel.MainChain Cert.Proof.ValsB Cert.Proof.HostGlueB

variable {F : FTy → Type} [FloatOps F]
variable (m : (ℓ : Loc nD τ sig) → Buf (Elt F) ℓ) (d : Dev nD)

/-! ## One item -/

/-- A buffer stretch 0 does not write is at `Va0` what it was at `V0`. -/
theorem Va0_step (r : Ref sig .tc) (h : r ∉ ops0_W) : Va0 m d (Proc.devRef .tc r) = V0 m d (Proc.devRef .tc r) :=
  ops0_keep (V0 m d) r h

/-- A buffer other than `main_v20` is at `Vb0` what it was at `Va0`. -/
theorem Vb0_step (r : Ref sig .tc) (h : r ≠ main_v20) : Vb0 m d (Proc.devRef .tc r) = Va0 m d (Proc.devRef .tc r) :=
  Function.update_of_ne (StableHlo.devRef_ne_of_ne h) _ _

/-- A buffer stretch 1 does not write is at `Va1` what it was at `Vb0`. -/
theorem Va1_step (r : Ref sig .tc) (h : r ∉ ops1_W) : Va1 m d (Proc.devRef .tc r) = Vb0 m d (Proc.devRef .tc r) :=
  ops1_keep (Vb0 m d) r h

/-- A buffer other than `main_v22` is at `Vr0` what it was at `Va1`. -/
theorem Vr0_step (r : Ref sig .tc) (h : r ≠ main_v22) : Vr0 m d (Proc.devRef .tc r) = Va1 m d (Proc.devRef .tc r) :=
  Function.update_of_ne (StableHlo.devRef_ne_of_ne h) _ _

/-- A buffer other than `main_v23` is at `Vb1` what it was at `Vr0`. -/
theorem Vb1_step (r : Ref sig .tc) (h : r ≠ main_v23) : Vb1 m d (Proc.devRef .tc r) = Vr0 m d (Proc.devRef .tc r) :=
  Function.update_of_ne (StableHlo.devRef_ne_of_ne h) _ _

/-- A buffer stretch 2 does not write is at `Va2` what it was at `Vb1`. -/
theorem Va2_step (r : Ref sig .tc) (h : r ∉ ops2_W) : Va2 m d (Proc.devRef .tc r) = Vb1 m d (Proc.devRef .tc r) :=
  ops2_keep (Vb1 m d) r h

/-- A buffer other than `main_v35` is at `Vr1` what it was at `Va2`. -/
theorem Vr1_step (r : Ref sig .tc) (h : r ≠ main_v35) : Vr1 m d (Proc.devRef .tc r) = Va2 m d (Proc.devRef .tc r) :=
  Function.update_of_ne (StableHlo.devRef_ne_of_ne h) _ _

/-- A buffer other than `main_v36` is at `Vb2` what it was at `Vr1`. -/
theorem Vb2_step (r : Ref sig .tc) (h : r ≠ main_v36) : Vb2 m d (Proc.devRef .tc r) = Vr1 m d (Proc.devRef .tc r) :=
  Function.update_of_ne (StableHlo.devRef_ne_of_ne h) _ _

/-- A buffer stretch 3 does not write is at `Va3` what it was at `Vb2`. -/
theorem Va3_step (r : Ref sig .tc) (h : r ∉ ops3_W) : Va3 m d (Proc.devRef .tc r) = Vb2 m d (Proc.devRef .tc r) :=
  ops3_keep (Vb2 m d) r h

/-- A buffer other than `main_v48` is at `Vr2` what it was at `Va3`. -/
theorem Vr2_step (r : Ref sig .tc) (h : r ≠ main_v48) : Vr2 m d (Proc.devRef .tc r) = Va3 m d (Proc.devRef .tc r) :=
  Function.update_of_ne (StableHlo.devRef_ne_of_ne h) _ _

/-- A buffer other than `main_v49` is at `Vb3` what it was at `Vr2`. -/
theorem Vb3_step (r : Ref sig .tc) (h : r ≠ main_v49) : Vb3 m d (Proc.devRef .tc r) = Vr2 m d (Proc.devRef .tc r) :=
  Function.update_of_ne (StableHlo.devRef_ne_of_ne h) _ _

/-- A buffer stretch 4 does not write is at `Va4` what it was at `Vb3`. -/
theorem Va4_step (r : Ref sig .tc) (h : r ∉ ops4_W) : Va4 m d (Proc.devRef .tc r) = Vb3 m d (Proc.devRef .tc r) :=
  ops4_keep (Vb3 m d) r h

/-- A buffer other than `main_v61` is at `Vr3` what it was at `Va4`. -/
theorem Vr3_step (r : Ref sig .tc) (h : r ≠ main_v61) : Vr3 m d (Proc.devRef .tc r) = Va4 m d (Proc.devRef .tc r) :=
  Function.update_of_ne (StableHlo.devRef_ne_of_ne h) _ _

/-- A buffer other than `main_v62` is at `Vb4` what it was at `Vr3`. -/
theorem Vb4_step (r : Ref sig .tc) (h : r ≠ main_v62) : Vb4 m d (Proc.devRef .tc r) = Vr3 m d (Proc.devRef .tc r) :=
  Function.update_of_ne (StableHlo.devRef_ne_of_ne h) _ _

/-- A buffer stretch 5 does not write is at `Va5` what it was at `Vb4`. -/
theorem Va5_step (r : Ref sig .tc) (h : r ∉ ops5_W) : Va5 m d (Proc.devRef .tc r) = Vb4 m d (Proc.devRef .tc r) :=
  ops5_keep (Vb4 m d) r h

/-- A buffer other than `main_v74` is at `Vr4` what it was at `Va5`. -/
theorem Vr4_step (r : Ref sig .tc) (h : r ≠ main_v74) : Vr4 m d (Proc.devRef .tc r) = Va5 m d (Proc.devRef .tc r) :=
  Function.update_of_ne (StableHlo.devRef_ne_of_ne h) _ _

/-- A buffer other than `main_v75` is at `Vb5` what it was at `Vr4`. -/
theorem Vb5_step (r : Ref sig .tc) (h : r ≠ main_v75) : Vb5 m d (Proc.devRef .tc r) = Vr4 m d (Proc.devRef .tc r) :=
  Function.update_of_ne (StableHlo.devRef_ne_of_ne h) _ _

/-- A buffer stretch 6 does not write is at `Va6` what it was at `Vb5`. -/
theorem Va6_step (r : Ref sig .tc) (h : r ∉ ops6_W) : Va6 m d (Proc.devRef .tc r) = Vb5 m d (Proc.devRef .tc r) :=
  ops6_keep (Vb5 m d) r h

/-- A buffer other than `main_v87` is at `Vr5` what it was at `Va6`. -/
theorem Vr5_step (r : Ref sig .tc) (h : r ≠ main_v87) : Vr5 m d (Proc.devRef .tc r) = Va6 m d (Proc.devRef .tc r) :=
  Function.update_of_ne (StableHlo.devRef_ne_of_ne h) _ _

/-! ## The argument arrays: no item writes one -/

theorem arg0_Va0 : Va0 m d (Proc.devRef .tc main_arg0) = m ((SparseCore.T d : Thread nD τ).loc main_arg0) :=
  (Va0_step m d main_arg0 (by decide)).trans rfl
theorem arg0_Vb0 : Vb0 m d (Proc.devRef .tc main_arg0) = m ((SparseCore.T d : Thread nD τ).loc main_arg0) :=
  (Vb0_step m d main_arg0 (by decide)).trans (arg0_Va0 m d)
theorem arg0_Va1 : Va1 m d (Proc.devRef .tc main_arg0) = m ((SparseCore.T d : Thread nD τ).loc main_arg0) :=
  (Va1_step m d main_arg0 (by decide)).trans (arg0_Vb0 m d)
theorem arg0_Vr0 : Vr0 m d (Proc.devRef .tc main_arg0) = m ((SparseCore.T d : Thread nD τ).loc main_arg0) :=
  (Vr0_step m d main_arg0 (by decide)).trans (arg0_Va1 m d)
theorem arg0_Vb1 : Vb1 m d (Proc.devRef .tc main_arg0) = m ((SparseCore.T d : Thread nD τ).loc main_arg0) :=
  (Vb1_step m d main_arg0 (by decide)).trans (arg0_Vr0 m d)
theorem arg0_Va2 : Va2 m d (Proc.devRef .tc main_arg0) = m ((SparseCore.T d : Thread nD τ).loc main_arg0) :=
  (Va2_step m d main_arg0 (by decide)).trans (arg0_Vb1 m d)
theorem arg0_Vr1 : Vr1 m d (Proc.devRef .tc main_arg0) = m ((SparseCore.T d : Thread nD τ).loc main_arg0) :=
  (Vr1_step m d main_arg0 (by decide)).trans (arg0_Va2 m d)
theorem arg0_Vb2 : Vb2 m d (Proc.devRef .tc main_arg0) = m ((SparseCore.T d : Thread nD τ).loc main_arg0) :=
  (Vb2_step m d main_arg0 (by decide)).trans (arg0_Vr1 m d)
theorem arg0_Va3 : Va3 m d (Proc.devRef .tc main_arg0) = m ((SparseCore.T d : Thread nD τ).loc main_arg0) :=
  (Va3_step m d main_arg0 (by decide)).trans (arg0_Vb2 m d)
theorem arg0_Vr2 : Vr2 m d (Proc.devRef .tc main_arg0) = m ((SparseCore.T d : Thread nD τ).loc main_arg0) :=
  (Vr2_step m d main_arg0 (by decide)).trans (arg0_Va3 m d)
theorem arg0_Vb3 : Vb3 m d (Proc.devRef .tc main_arg0) = m ((SparseCore.T d : Thread nD τ).loc main_arg0) :=
  (Vb3_step m d main_arg0 (by decide)).trans (arg0_Vr2 m d)
theorem arg0_Va4 : Va4 m d (Proc.devRef .tc main_arg0) = m ((SparseCore.T d : Thread nD τ).loc main_arg0) :=
  (Va4_step m d main_arg0 (by decide)).trans (arg0_Vb3 m d)
theorem arg0_Vr3 : Vr3 m d (Proc.devRef .tc main_arg0) = m ((SparseCore.T d : Thread nD τ).loc main_arg0) :=
  (Vr3_step m d main_arg0 (by decide)).trans (arg0_Va4 m d)
theorem arg0_Vb4 : Vb4 m d (Proc.devRef .tc main_arg0) = m ((SparseCore.T d : Thread nD τ).loc main_arg0) :=
  (Vb4_step m d main_arg0 (by decide)).trans (arg0_Vr3 m d)
theorem arg0_Va5 : Va5 m d (Proc.devRef .tc main_arg0) = m ((SparseCore.T d : Thread nD τ).loc main_arg0) :=
  (Va5_step m d main_arg0 (by decide)).trans (arg0_Vb4 m d)
theorem arg0_Vr4 : Vr4 m d (Proc.devRef .tc main_arg0) = m ((SparseCore.T d : Thread nD τ).loc main_arg0) :=
  (Vr4_step m d main_arg0 (by decide)).trans (arg0_Va5 m d)
theorem arg0_Vb5 : Vb5 m d (Proc.devRef .tc main_arg0) = m ((SparseCore.T d : Thread nD τ).loc main_arg0) :=
  (Vb5_step m d main_arg0 (by decide)).trans (arg0_Vr4 m d)
theorem arg0_Va6 : Va6 m d (Proc.devRef .tc main_arg0) = m ((SparseCore.T d : Thread nD τ).loc main_arg0) :=
  (Va6_step m d main_arg0 (by decide)).trans (arg0_Vb5 m d)
theorem arg0_Vr5 : Vr5 m d (Proc.devRef .tc main_arg0) = m ((SparseCore.T d : Thread nD τ).loc main_arg0) :=
  (Vr5_step m d main_arg0 (by decide)).trans (arg0_Va6 m d)

theorem arg1_Va0 : Va0 m d (Proc.devRef .tc main_arg1) = m ((SparseCore.T d : Thread nD τ).loc main_arg1) :=
  (Va0_step m d main_arg1 (by decide)).trans rfl
theorem arg1_Vb0 : Vb0 m d (Proc.devRef .tc main_arg1) = m ((SparseCore.T d : Thread nD τ).loc main_arg1) :=
  (Vb0_step m d main_arg1 (by decide)).trans (arg1_Va0 m d)
theorem arg1_Va1 : Va1 m d (Proc.devRef .tc main_arg1) = m ((SparseCore.T d : Thread nD τ).loc main_arg1) :=
  (Va1_step m d main_arg1 (by decide)).trans (arg1_Vb0 m d)
theorem arg1_Vr0 : Vr0 m d (Proc.devRef .tc main_arg1) = m ((SparseCore.T d : Thread nD τ).loc main_arg1) :=
  (Vr0_step m d main_arg1 (by decide)).trans (arg1_Va1 m d)
theorem arg1_Vb1 : Vb1 m d (Proc.devRef .tc main_arg1) = m ((SparseCore.T d : Thread nD τ).loc main_arg1) :=
  (Vb1_step m d main_arg1 (by decide)).trans (arg1_Vr0 m d)
theorem arg1_Va2 : Va2 m d (Proc.devRef .tc main_arg1) = m ((SparseCore.T d : Thread nD τ).loc main_arg1) :=
  (Va2_step m d main_arg1 (by decide)).trans (arg1_Vb1 m d)
theorem arg1_Vr1 : Vr1 m d (Proc.devRef .tc main_arg1) = m ((SparseCore.T d : Thread nD τ).loc main_arg1) :=
  (Vr1_step m d main_arg1 (by decide)).trans (arg1_Va2 m d)
theorem arg1_Vb2 : Vb2 m d (Proc.devRef .tc main_arg1) = m ((SparseCore.T d : Thread nD τ).loc main_arg1) :=
  (Vb2_step m d main_arg1 (by decide)).trans (arg1_Vr1 m d)
theorem arg1_Va3 : Va3 m d (Proc.devRef .tc main_arg1) = m ((SparseCore.T d : Thread nD τ).loc main_arg1) :=
  (Va3_step m d main_arg1 (by decide)).trans (arg1_Vb2 m d)
theorem arg1_Vr2 : Vr2 m d (Proc.devRef .tc main_arg1) = m ((SparseCore.T d : Thread nD τ).loc main_arg1) :=
  (Vr2_step m d main_arg1 (by decide)).trans (arg1_Va3 m d)
theorem arg1_Vb3 : Vb3 m d (Proc.devRef .tc main_arg1) = m ((SparseCore.T d : Thread nD τ).loc main_arg1) :=
  (Vb3_step m d main_arg1 (by decide)).trans (arg1_Vr2 m d)
theorem arg1_Va4 : Va4 m d (Proc.devRef .tc main_arg1) = m ((SparseCore.T d : Thread nD τ).loc main_arg1) :=
  (Va4_step m d main_arg1 (by decide)).trans (arg1_Vb3 m d)
theorem arg1_Vr3 : Vr3 m d (Proc.devRef .tc main_arg1) = m ((SparseCore.T d : Thread nD τ).loc main_arg1) :=
  (Vr3_step m d main_arg1 (by decide)).trans (arg1_Va4 m d)
theorem arg1_Vb4 : Vb4 m d (Proc.devRef .tc main_arg1) = m ((SparseCore.T d : Thread nD τ).loc main_arg1) :=
  (Vb4_step m d main_arg1 (by decide)).trans (arg1_Vr3 m d)
theorem arg1_Va5 : Va5 m d (Proc.devRef .tc main_arg1) = m ((SparseCore.T d : Thread nD τ).loc main_arg1) :=
  (Va5_step m d main_arg1 (by decide)).trans (arg1_Vb4 m d)
theorem arg1_Vr4 : Vr4 m d (Proc.devRef .tc main_arg1) = m ((SparseCore.T d : Thread nD τ).loc main_arg1) :=
  (Vr4_step m d main_arg1 (by decide)).trans (arg1_Va5 m d)
theorem arg1_Vb5 : Vb5 m d (Proc.devRef .tc main_arg1) = m ((SparseCore.T d : Thread nD τ).loc main_arg1) :=
  (Vb5_step m d main_arg1 (by decide)).trans (arg1_Vr4 m d)
theorem arg1_Va6 : Va6 m d (Proc.devRef .tc main_arg1) = m ((SparseCore.T d : Thread nD τ).loc main_arg1) :=
  (Va6_step m d main_arg1 (by decide)).trans (arg1_Vb5 m d)
theorem arg1_Vr5 : Vr5 m d (Proc.devRef .tc main_arg1) = m ((SparseCore.T d : Thread nD τ).loc main_arg1) :=
  (Vr5_step m d main_arg1 (by decide)).trans (arg1_Va6 m d)

theorem arg2_Va0 : Va0 m d (Proc.devRef .tc main_arg2) = m ((SparseCore.T d : Thread nD τ).loc main_arg2) :=
  (Va0_step m d main_arg2 (by decide)).trans rfl
theorem arg2_Vb0 : Vb0 m d (Proc.devRef .tc main_arg2) = m ((SparseCore.T d : Thread nD τ).loc main_arg2) :=
  (Vb0_step m d main_arg2 (by decide)).trans (arg2_Va0 m d)
theorem arg2_Va1 : Va1 m d (Proc.devRef .tc main_arg2) = m ((SparseCore.T d : Thread nD τ).loc main_arg2) :=
  (Va1_step m d main_arg2 (by decide)).trans (arg2_Vb0 m d)
theorem arg2_Vr0 : Vr0 m d (Proc.devRef .tc main_arg2) = m ((SparseCore.T d : Thread nD τ).loc main_arg2) :=
  (Vr0_step m d main_arg2 (by decide)).trans (arg2_Va1 m d)
theorem arg2_Vb1 : Vb1 m d (Proc.devRef .tc main_arg2) = m ((SparseCore.T d : Thread nD τ).loc main_arg2) :=
  (Vb1_step m d main_arg2 (by decide)).trans (arg2_Vr0 m d)
theorem arg2_Va2 : Va2 m d (Proc.devRef .tc main_arg2) = m ((SparseCore.T d : Thread nD τ).loc main_arg2) :=
  (Va2_step m d main_arg2 (by decide)).trans (arg2_Vb1 m d)
theorem arg2_Vr1 : Vr1 m d (Proc.devRef .tc main_arg2) = m ((SparseCore.T d : Thread nD τ).loc main_arg2) :=
  (Vr1_step m d main_arg2 (by decide)).trans (arg2_Va2 m d)
theorem arg2_Vb2 : Vb2 m d (Proc.devRef .tc main_arg2) = m ((SparseCore.T d : Thread nD τ).loc main_arg2) :=
  (Vb2_step m d main_arg2 (by decide)).trans (arg2_Vr1 m d)
theorem arg2_Va3 : Va3 m d (Proc.devRef .tc main_arg2) = m ((SparseCore.T d : Thread nD τ).loc main_arg2) :=
  (Va3_step m d main_arg2 (by decide)).trans (arg2_Vb2 m d)
theorem arg2_Vr2 : Vr2 m d (Proc.devRef .tc main_arg2) = m ((SparseCore.T d : Thread nD τ).loc main_arg2) :=
  (Vr2_step m d main_arg2 (by decide)).trans (arg2_Va3 m d)
theorem arg2_Vb3 : Vb3 m d (Proc.devRef .tc main_arg2) = m ((SparseCore.T d : Thread nD τ).loc main_arg2) :=
  (Vb3_step m d main_arg2 (by decide)).trans (arg2_Vr2 m d)
theorem arg2_Va4 : Va4 m d (Proc.devRef .tc main_arg2) = m ((SparseCore.T d : Thread nD τ).loc main_arg2) :=
  (Va4_step m d main_arg2 (by decide)).trans (arg2_Vb3 m d)
theorem arg2_Vr3 : Vr3 m d (Proc.devRef .tc main_arg2) = m ((SparseCore.T d : Thread nD τ).loc main_arg2) :=
  (Vr3_step m d main_arg2 (by decide)).trans (arg2_Va4 m d)
theorem arg2_Vb4 : Vb4 m d (Proc.devRef .tc main_arg2) = m ((SparseCore.T d : Thread nD τ).loc main_arg2) :=
  (Vb4_step m d main_arg2 (by decide)).trans (arg2_Vr3 m d)
theorem arg2_Va5 : Va5 m d (Proc.devRef .tc main_arg2) = m ((SparseCore.T d : Thread nD τ).loc main_arg2) :=
  (Va5_step m d main_arg2 (by decide)).trans (arg2_Vb4 m d)
theorem arg2_Vr4 : Vr4 m d (Proc.devRef .tc main_arg2) = m ((SparseCore.T d : Thread nD τ).loc main_arg2) :=
  (Vr4_step m d main_arg2 (by decide)).trans (arg2_Va5 m d)
theorem arg2_Vb5 : Vb5 m d (Proc.devRef .tc main_arg2) = m ((SparseCore.T d : Thread nD τ).loc main_arg2) :=
  (Vb5_step m d main_arg2 (by decide)).trans (arg2_Vr4 m d)
theorem arg2_Va6 : Va6 m d (Proc.devRef .tc main_arg2) = m ((SparseCore.T d : Thread nD τ).loc main_arg2) :=
  (Va6_step m d main_arg2 (by decide)).trans (arg2_Vb5 m d)
theorem arg2_Vr5 : Vr5 m d (Proc.devRef .tc main_arg2) = m ((SparseCore.T d : Thread nD τ).loc main_arg2) :=
  (Vr5_step m d main_arg2 (by decide)).trans (arg2_Va6 m d)

theorem arg3_Va0 : Va0 m d (Proc.devRef .tc main_arg3) = m ((SparseCore.T d : Thread nD τ).loc main_arg3) :=
  (Va0_step m d main_arg3 (by decide)).trans rfl
theorem arg3_Vb0 : Vb0 m d (Proc.devRef .tc main_arg3) = m ((SparseCore.T d : Thread nD τ).loc main_arg3) :=
  (Vb0_step m d main_arg3 (by decide)).trans (arg3_Va0 m d)
theorem arg3_Va1 : Va1 m d (Proc.devRef .tc main_arg3) = m ((SparseCore.T d : Thread nD τ).loc main_arg3) :=
  (Va1_step m d main_arg3 (by decide)).trans (arg3_Vb0 m d)
theorem arg3_Vr0 : Vr0 m d (Proc.devRef .tc main_arg3) = m ((SparseCore.T d : Thread nD τ).loc main_arg3) :=
  (Vr0_step m d main_arg3 (by decide)).trans (arg3_Va1 m d)
theorem arg3_Vb1 : Vb1 m d (Proc.devRef .tc main_arg3) = m ((SparseCore.T d : Thread nD τ).loc main_arg3) :=
  (Vb1_step m d main_arg3 (by decide)).trans (arg3_Vr0 m d)
theorem arg3_Va2 : Va2 m d (Proc.devRef .tc main_arg3) = m ((SparseCore.T d : Thread nD τ).loc main_arg3) :=
  (Va2_step m d main_arg3 (by decide)).trans (arg3_Vb1 m d)
theorem arg3_Vr1 : Vr1 m d (Proc.devRef .tc main_arg3) = m ((SparseCore.T d : Thread nD τ).loc main_arg3) :=
  (Vr1_step m d main_arg3 (by decide)).trans (arg3_Va2 m d)
theorem arg3_Vb2 : Vb2 m d (Proc.devRef .tc main_arg3) = m ((SparseCore.T d : Thread nD τ).loc main_arg3) :=
  (Vb2_step m d main_arg3 (by decide)).trans (arg3_Vr1 m d)
theorem arg3_Va3 : Va3 m d (Proc.devRef .tc main_arg3) = m ((SparseCore.T d : Thread nD τ).loc main_arg3) :=
  (Va3_step m d main_arg3 (by decide)).trans (arg3_Vb2 m d)
theorem arg3_Vr2 : Vr2 m d (Proc.devRef .tc main_arg3) = m ((SparseCore.T d : Thread nD τ).loc main_arg3) :=
  (Vr2_step m d main_arg3 (by decide)).trans (arg3_Va3 m d)
theorem arg3_Vb3 : Vb3 m d (Proc.devRef .tc main_arg3) = m ((SparseCore.T d : Thread nD τ).loc main_arg3) :=
  (Vb3_step m d main_arg3 (by decide)).trans (arg3_Vr2 m d)
theorem arg3_Va4 : Va4 m d (Proc.devRef .tc main_arg3) = m ((SparseCore.T d : Thread nD τ).loc main_arg3) :=
  (Va4_step m d main_arg3 (by decide)).trans (arg3_Vb3 m d)
theorem arg3_Vr3 : Vr3 m d (Proc.devRef .tc main_arg3) = m ((SparseCore.T d : Thread nD τ).loc main_arg3) :=
  (Vr3_step m d main_arg3 (by decide)).trans (arg3_Va4 m d)
theorem arg3_Vb4 : Vb4 m d (Proc.devRef .tc main_arg3) = m ((SparseCore.T d : Thread nD τ).loc main_arg3) :=
  (Vb4_step m d main_arg3 (by decide)).trans (arg3_Vr3 m d)
theorem arg3_Va5 : Va5 m d (Proc.devRef .tc main_arg3) = m ((SparseCore.T d : Thread nD τ).loc main_arg3) :=
  (Va5_step m d main_arg3 (by decide)).trans (arg3_Vb4 m d)
theorem arg3_Vr4 : Vr4 m d (Proc.devRef .tc main_arg3) = m ((SparseCore.T d : Thread nD τ).loc main_arg3) :=
  (Vr4_step m d main_arg3 (by decide)).trans (arg3_Va5 m d)
theorem arg3_Vb5 : Vb5 m d (Proc.devRef .tc main_arg3) = m ((SparseCore.T d : Thread nD τ).loc main_arg3) :=
  (Vb5_step m d main_arg3 (by decide)).trans (arg3_Vr4 m d)
theorem arg3_Va6 : Va6 m d (Proc.devRef .tc main_arg3) = m ((SparseCore.T d : Thread nD τ).loc main_arg3) :=
  (Va6_step m d main_arg3 (by decide)).trans (arg3_Vb5 m d)
theorem arg3_Vr5 : Vr5 m d (Proc.devRef .tc main_arg3) = m ((SparseCore.T d : Thread nD τ).loc main_arg3) :=
  (Vr5_step m d main_arg3 (by decide)).trans (arg3_Va6 m d)

theorem arg4_Va0 : Va0 m d (Proc.devRef .tc main_arg4) = m ((SparseCore.T d : Thread nD τ).loc main_arg4) :=
  (Va0_step m d main_arg4 (by decide)).trans rfl
theorem arg4_Vb0 : Vb0 m d (Proc.devRef .tc main_arg4) = m ((SparseCore.T d : Thread nD τ).loc main_arg4) :=
  (Vb0_step m d main_arg4 (by decide)).trans (arg4_Va0 m d)
theorem arg4_Va1 : Va1 m d (Proc.devRef .tc main_arg4) = m ((SparseCore.T d : Thread nD τ).loc main_arg4) :=
  (Va1_step m d main_arg4 (by decide)).trans (arg4_Vb0 m d)
theorem arg4_Vr0 : Vr0 m d (Proc.devRef .tc main_arg4) = m ((SparseCore.T d : Thread nD τ).loc main_arg4) :=
  (Vr0_step m d main_arg4 (by decide)).trans (arg4_Va1 m d)
theorem arg4_Vb1 : Vb1 m d (Proc.devRef .tc main_arg4) = m ((SparseCore.T d : Thread nD τ).loc main_arg4) :=
  (Vb1_step m d main_arg4 (by decide)).trans (arg4_Vr0 m d)
theorem arg4_Va2 : Va2 m d (Proc.devRef .tc main_arg4) = m ((SparseCore.T d : Thread nD τ).loc main_arg4) :=
  (Va2_step m d main_arg4 (by decide)).trans (arg4_Vb1 m d)
theorem arg4_Vr1 : Vr1 m d (Proc.devRef .tc main_arg4) = m ((SparseCore.T d : Thread nD τ).loc main_arg4) :=
  (Vr1_step m d main_arg4 (by decide)).trans (arg4_Va2 m d)
theorem arg4_Vb2 : Vb2 m d (Proc.devRef .tc main_arg4) = m ((SparseCore.T d : Thread nD τ).loc main_arg4) :=
  (Vb2_step m d main_arg4 (by decide)).trans (arg4_Vr1 m d)
theorem arg4_Va3 : Va3 m d (Proc.devRef .tc main_arg4) = m ((SparseCore.T d : Thread nD τ).loc main_arg4) :=
  (Va3_step m d main_arg4 (by decide)).trans (arg4_Vb2 m d)
theorem arg4_Vr2 : Vr2 m d (Proc.devRef .tc main_arg4) = m ((SparseCore.T d : Thread nD τ).loc main_arg4) :=
  (Vr2_step m d main_arg4 (by decide)).trans (arg4_Va3 m d)
theorem arg4_Vb3 : Vb3 m d (Proc.devRef .tc main_arg4) = m ((SparseCore.T d : Thread nD τ).loc main_arg4) :=
  (Vb3_step m d main_arg4 (by decide)).trans (arg4_Vr2 m d)
theorem arg4_Va4 : Va4 m d (Proc.devRef .tc main_arg4) = m ((SparseCore.T d : Thread nD τ).loc main_arg4) :=
  (Va4_step m d main_arg4 (by decide)).trans (arg4_Vb3 m d)
theorem arg4_Vr3 : Vr3 m d (Proc.devRef .tc main_arg4) = m ((SparseCore.T d : Thread nD τ).loc main_arg4) :=
  (Vr3_step m d main_arg4 (by decide)).trans (arg4_Va4 m d)
theorem arg4_Vb4 : Vb4 m d (Proc.devRef .tc main_arg4) = m ((SparseCore.T d : Thread nD τ).loc main_arg4) :=
  (Vb4_step m d main_arg4 (by decide)).trans (arg4_Vr3 m d)
theorem arg4_Va5 : Va5 m d (Proc.devRef .tc main_arg4) = m ((SparseCore.T d : Thread nD τ).loc main_arg4) :=
  (Va5_step m d main_arg4 (by decide)).trans (arg4_Vb4 m d)
theorem arg4_Vr4 : Vr4 m d (Proc.devRef .tc main_arg4) = m ((SparseCore.T d : Thread nD τ).loc main_arg4) :=
  (Vr4_step m d main_arg4 (by decide)).trans (arg4_Va5 m d)
theorem arg4_Vb5 : Vb5 m d (Proc.devRef .tc main_arg4) = m ((SparseCore.T d : Thread nD τ).loc main_arg4) :=
  (Vb5_step m d main_arg4 (by decide)).trans (arg4_Vr4 m d)
theorem arg4_Va6 : Va6 m d (Proc.devRef .tc main_arg4) = m ((SparseCore.T d : Thread nD τ).loc main_arg4) :=
  (Va6_step m d main_arg4 (by decide)).trans (arg4_Vb5 m d)
theorem arg4_Vr5 : Vr5 m d (Proc.devRef .tc main_arg4) = m ((SparseCore.T d : Thread nD τ).loc main_arg4) :=
  (Vr5_step m d main_arg4 (by decide)).trans (arg4_Va6 m d)

theorem arg5_Va0 : Va0 m d (Proc.devRef .tc main_arg5) = m ((SparseCore.T d : Thread nD τ).loc main_arg5) :=
  (Va0_step m d main_arg5 (by decide)).trans rfl
theorem arg5_Vb0 : Vb0 m d (Proc.devRef .tc main_arg5) = m ((SparseCore.T d : Thread nD τ).loc main_arg5) :=
  (Vb0_step m d main_arg5 (by decide)).trans (arg5_Va0 m d)
theorem arg5_Va1 : Va1 m d (Proc.devRef .tc main_arg5) = m ((SparseCore.T d : Thread nD τ).loc main_arg5) :=
  (Va1_step m d main_arg5 (by decide)).trans (arg5_Vb0 m d)
theorem arg5_Vr0 : Vr0 m d (Proc.devRef .tc main_arg5) = m ((SparseCore.T d : Thread nD τ).loc main_arg5) :=
  (Vr0_step m d main_arg5 (by decide)).trans (arg5_Va1 m d)
theorem arg5_Vb1 : Vb1 m d (Proc.devRef .tc main_arg5) = m ((SparseCore.T d : Thread nD τ).loc main_arg5) :=
  (Vb1_step m d main_arg5 (by decide)).trans (arg5_Vr0 m d)
theorem arg5_Va2 : Va2 m d (Proc.devRef .tc main_arg5) = m ((SparseCore.T d : Thread nD τ).loc main_arg5) :=
  (Va2_step m d main_arg5 (by decide)).trans (arg5_Vb1 m d)
theorem arg5_Vr1 : Vr1 m d (Proc.devRef .tc main_arg5) = m ((SparseCore.T d : Thread nD τ).loc main_arg5) :=
  (Vr1_step m d main_arg5 (by decide)).trans (arg5_Va2 m d)
theorem arg5_Vb2 : Vb2 m d (Proc.devRef .tc main_arg5) = m ((SparseCore.T d : Thread nD τ).loc main_arg5) :=
  (Vb2_step m d main_arg5 (by decide)).trans (arg5_Vr1 m d)
theorem arg5_Va3 : Va3 m d (Proc.devRef .tc main_arg5) = m ((SparseCore.T d : Thread nD τ).loc main_arg5) :=
  (Va3_step m d main_arg5 (by decide)).trans (arg5_Vb2 m d)
theorem arg5_Vr2 : Vr2 m d (Proc.devRef .tc main_arg5) = m ((SparseCore.T d : Thread nD τ).loc main_arg5) :=
  (Vr2_step m d main_arg5 (by decide)).trans (arg5_Va3 m d)
theorem arg5_Vb3 : Vb3 m d (Proc.devRef .tc main_arg5) = m ((SparseCore.T d : Thread nD τ).loc main_arg5) :=
  (Vb3_step m d main_arg5 (by decide)).trans (arg5_Vr2 m d)
theorem arg5_Va4 : Va4 m d (Proc.devRef .tc main_arg5) = m ((SparseCore.T d : Thread nD τ).loc main_arg5) :=
  (Va4_step m d main_arg5 (by decide)).trans (arg5_Vb3 m d)
theorem arg5_Vr3 : Vr3 m d (Proc.devRef .tc main_arg5) = m ((SparseCore.T d : Thread nD τ).loc main_arg5) :=
  (Vr3_step m d main_arg5 (by decide)).trans (arg5_Va4 m d)
theorem arg5_Vb4 : Vb4 m d (Proc.devRef .tc main_arg5) = m ((SparseCore.T d : Thread nD τ).loc main_arg5) :=
  (Vb4_step m d main_arg5 (by decide)).trans (arg5_Vr3 m d)
theorem arg5_Va5 : Va5 m d (Proc.devRef .tc main_arg5) = m ((SparseCore.T d : Thread nD τ).loc main_arg5) :=
  (Va5_step m d main_arg5 (by decide)).trans (arg5_Vb4 m d)
theorem arg5_Vr4 : Vr4 m d (Proc.devRef .tc main_arg5) = m ((SparseCore.T d : Thread nD τ).loc main_arg5) :=
  (Vr4_step m d main_arg5 (by decide)).trans (arg5_Va5 m d)
theorem arg5_Vb5 : Vb5 m d (Proc.devRef .tc main_arg5) = m ((SparseCore.T d : Thread nD τ).loc main_arg5) :=
  (Vb5_step m d main_arg5 (by decide)).trans (arg5_Vr4 m d)
theorem arg5_Va6 : Va6 m d (Proc.devRef .tc main_arg5) = m ((SparseCore.T d : Thread nD τ).loc main_arg5) :=
  (Va6_step m d main_arg5 (by decide)).trans (arg5_Vb5 m d)
theorem arg5_Vr5 : Vr5 m d (Proc.devRef .tc main_arg5) = m ((SparseCore.T d : Thread nD τ).loc main_arg5) :=
  (Vr5_step m d main_arg5 (by decide)).trans (arg5_Va6 m d)

theorem arg6_Va0 : Va0 m d (Proc.devRef .tc main_arg6) = m ((SparseCore.T d : Thread nD τ).loc main_arg6) :=
  (Va0_step m d main_arg6 (by decide)).trans rfl
theorem arg6_Vb0 : Vb0 m d (Proc.devRef .tc main_arg6) = m ((SparseCore.T d : Thread nD τ).loc main_arg6) :=
  (Vb0_step m d main_arg6 (by decide)).trans (arg6_Va0 m d)
theorem arg6_Va1 : Va1 m d (Proc.devRef .tc main_arg6) = m ((SparseCore.T d : Thread nD τ).loc main_arg6) :=
  (Va1_step m d main_arg6 (by decide)).trans (arg6_Vb0 m d)
theorem arg6_Vr0 : Vr0 m d (Proc.devRef .tc main_arg6) = m ((SparseCore.T d : Thread nD τ).loc main_arg6) :=
  (Vr0_step m d main_arg6 (by decide)).trans (arg6_Va1 m d)
theorem arg6_Vb1 : Vb1 m d (Proc.devRef .tc main_arg6) = m ((SparseCore.T d : Thread nD τ).loc main_arg6) :=
  (Vb1_step m d main_arg6 (by decide)).trans (arg6_Vr0 m d)
theorem arg6_Va2 : Va2 m d (Proc.devRef .tc main_arg6) = m ((SparseCore.T d : Thread nD τ).loc main_arg6) :=
  (Va2_step m d main_arg6 (by decide)).trans (arg6_Vb1 m d)
theorem arg6_Vr1 : Vr1 m d (Proc.devRef .tc main_arg6) = m ((SparseCore.T d : Thread nD τ).loc main_arg6) :=
  (Vr1_step m d main_arg6 (by decide)).trans (arg6_Va2 m d)
theorem arg6_Vb2 : Vb2 m d (Proc.devRef .tc main_arg6) = m ((SparseCore.T d : Thread nD τ).loc main_arg6) :=
  (Vb2_step m d main_arg6 (by decide)).trans (arg6_Vr1 m d)
theorem arg6_Va3 : Va3 m d (Proc.devRef .tc main_arg6) = m ((SparseCore.T d : Thread nD τ).loc main_arg6) :=
  (Va3_step m d main_arg6 (by decide)).trans (arg6_Vb2 m d)
theorem arg6_Vr2 : Vr2 m d (Proc.devRef .tc main_arg6) = m ((SparseCore.T d : Thread nD τ).loc main_arg6) :=
  (Vr2_step m d main_arg6 (by decide)).trans (arg6_Va3 m d)
theorem arg6_Vb3 : Vb3 m d (Proc.devRef .tc main_arg6) = m ((SparseCore.T d : Thread nD τ).loc main_arg6) :=
  (Vb3_step m d main_arg6 (by decide)).trans (arg6_Vr2 m d)
theorem arg6_Va4 : Va4 m d (Proc.devRef .tc main_arg6) = m ((SparseCore.T d : Thread nD τ).loc main_arg6) :=
  (Va4_step m d main_arg6 (by decide)).trans (arg6_Vb3 m d)
theorem arg6_Vr3 : Vr3 m d (Proc.devRef .tc main_arg6) = m ((SparseCore.T d : Thread nD τ).loc main_arg6) :=
  (Vr3_step m d main_arg6 (by decide)).trans (arg6_Va4 m d)
theorem arg6_Vb4 : Vb4 m d (Proc.devRef .tc main_arg6) = m ((SparseCore.T d : Thread nD τ).loc main_arg6) :=
  (Vb4_step m d main_arg6 (by decide)).trans (arg6_Vr3 m d)
theorem arg6_Va5 : Va5 m d (Proc.devRef .tc main_arg6) = m ((SparseCore.T d : Thread nD τ).loc main_arg6) :=
  (Va5_step m d main_arg6 (by decide)).trans (arg6_Vb4 m d)
theorem arg6_Vr4 : Vr4 m d (Proc.devRef .tc main_arg6) = m ((SparseCore.T d : Thread nD τ).loc main_arg6) :=
  (Vr4_step m d main_arg6 (by decide)).trans (arg6_Va5 m d)
theorem arg6_Vb5 : Vb5 m d (Proc.devRef .tc main_arg6) = m ((SparseCore.T d : Thread nD τ).loc main_arg6) :=
  (Vb5_step m d main_arg6 (by decide)).trans (arg6_Vr4 m d)
theorem arg6_Va6 : Va6 m d (Proc.devRef .tc main_arg6) = m ((SparseCore.T d : Thread nD τ).loc main_arg6) :=
  (Va6_step m d main_arg6 (by decide)).trans (arg6_Vb5 m d)
theorem arg6_Vr5 : Vr5 m d (Proc.devRef .tc main_arg6) = m ((SparseCore.T d : Thread nD τ).loc main_arg6) :=
  (Vr5_step m d main_arg6 (by decide)).trans (arg6_Va6 m d)

theorem arg7_Va0 : Va0 m d (Proc.devRef .tc main_arg7) = m ((SparseCore.T d : Thread nD τ).loc main_arg7) :=
  (Va0_step m d main_arg7 (by decide)).trans rfl
theorem arg7_Vb0 : Vb0 m d (Proc.devRef .tc main_arg7) = m ((SparseCore.T d : Thread nD τ).loc main_arg7) :=
  (Vb0_step m d main_arg7 (by decide)).trans (arg7_Va0 m d)
theorem arg7_Va1 : Va1 m d (Proc.devRef .tc main_arg7) = m ((SparseCore.T d : Thread nD τ).loc main_arg7) :=
  (Va1_step m d main_arg7 (by decide)).trans (arg7_Vb0 m d)
theorem arg7_Vr0 : Vr0 m d (Proc.devRef .tc main_arg7) = m ((SparseCore.T d : Thread nD τ).loc main_arg7) :=
  (Vr0_step m d main_arg7 (by decide)).trans (arg7_Va1 m d)
theorem arg7_Vb1 : Vb1 m d (Proc.devRef .tc main_arg7) = m ((SparseCore.T d : Thread nD τ).loc main_arg7) :=
  (Vb1_step m d main_arg7 (by decide)).trans (arg7_Vr0 m d)
theorem arg7_Va2 : Va2 m d (Proc.devRef .tc main_arg7) = m ((SparseCore.T d : Thread nD τ).loc main_arg7) :=
  (Va2_step m d main_arg7 (by decide)).trans (arg7_Vb1 m d)
theorem arg7_Vr1 : Vr1 m d (Proc.devRef .tc main_arg7) = m ((SparseCore.T d : Thread nD τ).loc main_arg7) :=
  (Vr1_step m d main_arg7 (by decide)).trans (arg7_Va2 m d)
theorem arg7_Vb2 : Vb2 m d (Proc.devRef .tc main_arg7) = m ((SparseCore.T d : Thread nD τ).loc main_arg7) :=
  (Vb2_step m d main_arg7 (by decide)).trans (arg7_Vr1 m d)
theorem arg7_Va3 : Va3 m d (Proc.devRef .tc main_arg7) = m ((SparseCore.T d : Thread nD τ).loc main_arg7) :=
  (Va3_step m d main_arg7 (by decide)).trans (arg7_Vb2 m d)
theorem arg7_Vr2 : Vr2 m d (Proc.devRef .tc main_arg7) = m ((SparseCore.T d : Thread nD τ).loc main_arg7) :=
  (Vr2_step m d main_arg7 (by decide)).trans (arg7_Va3 m d)
theorem arg7_Vb3 : Vb3 m d (Proc.devRef .tc main_arg7) = m ((SparseCore.T d : Thread nD τ).loc main_arg7) :=
  (Vb3_step m d main_arg7 (by decide)).trans (arg7_Vr2 m d)
theorem arg7_Va4 : Va4 m d (Proc.devRef .tc main_arg7) = m ((SparseCore.T d : Thread nD τ).loc main_arg7) :=
  (Va4_step m d main_arg7 (by decide)).trans (arg7_Vb3 m d)
theorem arg7_Vr3 : Vr3 m d (Proc.devRef .tc main_arg7) = m ((SparseCore.T d : Thread nD τ).loc main_arg7) :=
  (Vr3_step m d main_arg7 (by decide)).trans (arg7_Va4 m d)
theorem arg7_Vb4 : Vb4 m d (Proc.devRef .tc main_arg7) = m ((SparseCore.T d : Thread nD τ).loc main_arg7) :=
  (Vb4_step m d main_arg7 (by decide)).trans (arg7_Vr3 m d)
theorem arg7_Va5 : Va5 m d (Proc.devRef .tc main_arg7) = m ((SparseCore.T d : Thread nD τ).loc main_arg7) :=
  (Va5_step m d main_arg7 (by decide)).trans (arg7_Vb4 m d)
theorem arg7_Vr4 : Vr4 m d (Proc.devRef .tc main_arg7) = m ((SparseCore.T d : Thread nD τ).loc main_arg7) :=
  (Vr4_step m d main_arg7 (by decide)).trans (arg7_Va5 m d)
theorem arg7_Vb5 : Vb5 m d (Proc.devRef .tc main_arg7) = m ((SparseCore.T d : Thread nD τ).loc main_arg7) :=
  (Vb5_step m d main_arg7 (by decide)).trans (arg7_Vr4 m d)
theorem arg7_Va6 : Va6 m d (Proc.devRef .tc main_arg7) = m ((SparseCore.T d : Thread nD τ).loc main_arg7) :=
  (Va6_step m d main_arg7 (by decide)).trans (arg7_Vb5 m d)
theorem arg7_Vr5 : Vr5 m d (Proc.devRef .tc main_arg7) = m ((SparseCore.T d : Thread nD τ).loc main_arg7) :=
  (Vr5_step m d main_arg7 (by decide)).trans (arg7_Va6 m d)

theorem arg8_Va0 : Va0 m d (Proc.devRef .tc main_arg8) = m ((SparseCore.T d : Thread nD τ).loc main_arg8) :=
  (Va0_step m d main_arg8 (by decide)).trans rfl
theorem arg8_Vb0 : Vb0 m d (Proc.devRef .tc main_arg8) = m ((SparseCore.T d : Thread nD τ).loc main_arg8) :=
  (Vb0_step m d main_arg8 (by decide)).trans (arg8_Va0 m d)
theorem arg8_Va1 : Va1 m d (Proc.devRef .tc main_arg8) = m ((SparseCore.T d : Thread nD τ).loc main_arg8) :=
  (Va1_step m d main_arg8 (by decide)).trans (arg8_Vb0 m d)
theorem arg8_Vr0 : Vr0 m d (Proc.devRef .tc main_arg8) = m ((SparseCore.T d : Thread nD τ).loc main_arg8) :=
  (Vr0_step m d main_arg8 (by decide)).trans (arg8_Va1 m d)
theorem arg8_Vb1 : Vb1 m d (Proc.devRef .tc main_arg8) = m ((SparseCore.T d : Thread nD τ).loc main_arg8) :=
  (Vb1_step m d main_arg8 (by decide)).trans (arg8_Vr0 m d)
theorem arg8_Va2 : Va2 m d (Proc.devRef .tc main_arg8) = m ((SparseCore.T d : Thread nD τ).loc main_arg8) :=
  (Va2_step m d main_arg8 (by decide)).trans (arg8_Vb1 m d)
theorem arg8_Vr1 : Vr1 m d (Proc.devRef .tc main_arg8) = m ((SparseCore.T d : Thread nD τ).loc main_arg8) :=
  (Vr1_step m d main_arg8 (by decide)).trans (arg8_Va2 m d)
theorem arg8_Vb2 : Vb2 m d (Proc.devRef .tc main_arg8) = m ((SparseCore.T d : Thread nD τ).loc main_arg8) :=
  (Vb2_step m d main_arg8 (by decide)).trans (arg8_Vr1 m d)
theorem arg8_Va3 : Va3 m d (Proc.devRef .tc main_arg8) = m ((SparseCore.T d : Thread nD τ).loc main_arg8) :=
  (Va3_step m d main_arg8 (by decide)).trans (arg8_Vb2 m d)
theorem arg8_Vr2 : Vr2 m d (Proc.devRef .tc main_arg8) = m ((SparseCore.T d : Thread nD τ).loc main_arg8) :=
  (Vr2_step m d main_arg8 (by decide)).trans (arg8_Va3 m d)
theorem arg8_Vb3 : Vb3 m d (Proc.devRef .tc main_arg8) = m ((SparseCore.T d : Thread nD τ).loc main_arg8) :=
  (Vb3_step m d main_arg8 (by decide)).trans (arg8_Vr2 m d)
theorem arg8_Va4 : Va4 m d (Proc.devRef .tc main_arg8) = m ((SparseCore.T d : Thread nD τ).loc main_arg8) :=
  (Va4_step m d main_arg8 (by decide)).trans (arg8_Vb3 m d)
theorem arg8_Vr3 : Vr3 m d (Proc.devRef .tc main_arg8) = m ((SparseCore.T d : Thread nD τ).loc main_arg8) :=
  (Vr3_step m d main_arg8 (by decide)).trans (arg8_Va4 m d)
theorem arg8_Vb4 : Vb4 m d (Proc.devRef .tc main_arg8) = m ((SparseCore.T d : Thread nD τ).loc main_arg8) :=
  (Vb4_step m d main_arg8 (by decide)).trans (arg8_Vr3 m d)
theorem arg8_Va5 : Va5 m d (Proc.devRef .tc main_arg8) = m ((SparseCore.T d : Thread nD τ).loc main_arg8) :=
  (Va5_step m d main_arg8 (by decide)).trans (arg8_Vb4 m d)
theorem arg8_Vr4 : Vr4 m d (Proc.devRef .tc main_arg8) = m ((SparseCore.T d : Thread nD τ).loc main_arg8) :=
  (Vr4_step m d main_arg8 (by decide)).trans (arg8_Va5 m d)
theorem arg8_Vb5 : Vb5 m d (Proc.devRef .tc main_arg8) = m ((SparseCore.T d : Thread nD τ).loc main_arg8) :=
  (Vb5_step m d main_arg8 (by decide)).trans (arg8_Vr4 m d)
theorem arg8_Va6 : Va6 m d (Proc.devRef .tc main_arg8) = m ((SparseCore.T d : Thread nD τ).loc main_arg8) :=
  (Va6_step m d main_arg8 (by decide)).trans (arg8_Vb5 m d)
theorem arg8_Vr5 : Vr5 m d (Proc.devRef .tc main_arg8) = m ((SparseCore.T d : Thread nD τ).loc main_arg8) :=
  (Vr5_step m d main_arg8 (by decide)).trans (arg8_Va6 m d)

theorem arg9_Va0 : Va0 m d (Proc.devRef .tc main_arg9) = m ((SparseCore.T d : Thread nD τ).loc main_arg9) :=
  (Va0_step m d main_arg9 (by decide)).trans rfl
theorem arg9_Vb0 : Vb0 m d (Proc.devRef .tc main_arg9) = m ((SparseCore.T d : Thread nD τ).loc main_arg9) :=
  (Vb0_step m d main_arg9 (by decide)).trans (arg9_Va0 m d)
theorem arg9_Va1 : Va1 m d (Proc.devRef .tc main_arg9) = m ((SparseCore.T d : Thread nD τ).loc main_arg9) :=
  (Va1_step m d main_arg9 (by decide)).trans (arg9_Vb0 m d)
theorem arg9_Vr0 : Vr0 m d (Proc.devRef .tc main_arg9) = m ((SparseCore.T d : Thread nD τ).loc main_arg9) :=
  (Vr0_step m d main_arg9 (by decide)).trans (arg9_Va1 m d)
theorem arg9_Vb1 : Vb1 m d (Proc.devRef .tc main_arg9) = m ((SparseCore.T d : Thread nD τ).loc main_arg9) :=
  (Vb1_step m d main_arg9 (by decide)).trans (arg9_Vr0 m d)
theorem arg9_Va2 : Va2 m d (Proc.devRef .tc main_arg9) = m ((SparseCore.T d : Thread nD τ).loc main_arg9) :=
  (Va2_step m d main_arg9 (by decide)).trans (arg9_Vb1 m d)
theorem arg9_Vr1 : Vr1 m d (Proc.devRef .tc main_arg9) = m ((SparseCore.T d : Thread nD τ).loc main_arg9) :=
  (Vr1_step m d main_arg9 (by decide)).trans (arg9_Va2 m d)
theorem arg9_Vb2 : Vb2 m d (Proc.devRef .tc main_arg9) = m ((SparseCore.T d : Thread nD τ).loc main_arg9) :=
  (Vb2_step m d main_arg9 (by decide)).trans (arg9_Vr1 m d)
theorem arg9_Va3 : Va3 m d (Proc.devRef .tc main_arg9) = m ((SparseCore.T d : Thread nD τ).loc main_arg9) :=
  (Va3_step m d main_arg9 (by decide)).trans (arg9_Vb2 m d)
theorem arg9_Vr2 : Vr2 m d (Proc.devRef .tc main_arg9) = m ((SparseCore.T d : Thread nD τ).loc main_arg9) :=
  (Vr2_step m d main_arg9 (by decide)).trans (arg9_Va3 m d)
theorem arg9_Vb3 : Vb3 m d (Proc.devRef .tc main_arg9) = m ((SparseCore.T d : Thread nD τ).loc main_arg9) :=
  (Vb3_step m d main_arg9 (by decide)).trans (arg9_Vr2 m d)
theorem arg9_Va4 : Va4 m d (Proc.devRef .tc main_arg9) = m ((SparseCore.T d : Thread nD τ).loc main_arg9) :=
  (Va4_step m d main_arg9 (by decide)).trans (arg9_Vb3 m d)
theorem arg9_Vr3 : Vr3 m d (Proc.devRef .tc main_arg9) = m ((SparseCore.T d : Thread nD τ).loc main_arg9) :=
  (Vr3_step m d main_arg9 (by decide)).trans (arg9_Va4 m d)
theorem arg9_Vb4 : Vb4 m d (Proc.devRef .tc main_arg9) = m ((SparseCore.T d : Thread nD τ).loc main_arg9) :=
  (Vb4_step m d main_arg9 (by decide)).trans (arg9_Vr3 m d)
theorem arg9_Va5 : Va5 m d (Proc.devRef .tc main_arg9) = m ((SparseCore.T d : Thread nD τ).loc main_arg9) :=
  (Va5_step m d main_arg9 (by decide)).trans (arg9_Vb4 m d)
theorem arg9_Vr4 : Vr4 m d (Proc.devRef .tc main_arg9) = m ((SparseCore.T d : Thread nD τ).loc main_arg9) :=
  (Vr4_step m d main_arg9 (by decide)).trans (arg9_Va5 m d)
theorem arg9_Vb5 : Vb5 m d (Proc.devRef .tc main_arg9) = m ((SparseCore.T d : Thread nD τ).loc main_arg9) :=
  (Vb5_step m d main_arg9 (by decide)).trans (arg9_Vr4 m d)
theorem arg9_Va6 : Va6 m d (Proc.devRef .tc main_arg9) = m ((SparseCore.T d : Thread nD τ).loc main_arg9) :=
  (Va6_step m d main_arg9 (by decide)).trans (arg9_Vb5 m d)
theorem arg9_Vr5 : Vr5 m d (Proc.devRef .tc main_arg9) = m ((SparseCore.T d : Thread nD τ).loc main_arg9) :=
  (Vr5_step m d main_arg9 (by decide)).trans (arg9_Va6 m d)

theorem arg10_Va0 : Va0 m d (Proc.devRef .tc main_arg10) = m ((SparseCore.T d : Thread nD τ).loc main_arg10) :=
  (Va0_step m d main_arg10 (by decide)).trans rfl
theorem arg10_Vb0 : Vb0 m d (Proc.devRef .tc main_arg10) = m ((SparseCore.T d : Thread nD τ).loc main_arg10) :=
  (Vb0_step m d main_arg10 (by decide)).trans (arg10_Va0 m d)
theorem arg10_Va1 : Va1 m d (Proc.devRef .tc main_arg10) = m ((SparseCore.T d : Thread nD τ).loc main_arg10) :=
  (Va1_step m d main_arg10 (by decide)).trans (arg10_Vb0 m d)
theorem arg10_Vr0 : Vr0 m d (Proc.devRef .tc main_arg10) = m ((SparseCore.T d : Thread nD τ).loc main_arg10) :=
  (Vr0_step m d main_arg10 (by decide)).trans (arg10_Va1 m d)
theorem arg10_Vb1 : Vb1 m d (Proc.devRef .tc main_arg10) = m ((SparseCore.T d : Thread nD τ).loc main_arg10) :=
  (Vb1_step m d main_arg10 (by decide)).trans (arg10_Vr0 m d)
theorem arg10_Va2 : Va2 m d (Proc.devRef .tc main_arg10) = m ((SparseCore.T d : Thread nD τ).loc main_arg10) :=
  (Va2_step m d main_arg10 (by decide)).trans (arg10_Vb1 m d)
theorem arg10_Vr1 : Vr1 m d (Proc.devRef .tc main_arg10) = m ((SparseCore.T d : Thread nD τ).loc main_arg10) :=
  (Vr1_step m d main_arg10 (by decide)).trans (arg10_Va2 m d)
theorem arg10_Vb2 : Vb2 m d (Proc.devRef .tc main_arg10) = m ((SparseCore.T d : Thread nD τ).loc main_arg10) :=
  (Vb2_step m d main_arg10 (by decide)).trans (arg10_Vr1 m d)
theorem arg10_Va3 : Va3 m d (Proc.devRef .tc main_arg10) = m ((SparseCore.T d : Thread nD τ).loc main_arg10) :=
  (Va3_step m d main_arg10 (by decide)).trans (arg10_Vb2 m d)
theorem arg10_Vr2 : Vr2 m d (Proc.devRef .tc main_arg10) = m ((SparseCore.T d : Thread nD τ).loc main_arg10) :=
  (Vr2_step m d main_arg10 (by decide)).trans (arg10_Va3 m d)
theorem arg10_Vb3 : Vb3 m d (Proc.devRef .tc main_arg10) = m ((SparseCore.T d : Thread nD τ).loc main_arg10) :=
  (Vb3_step m d main_arg10 (by decide)).trans (arg10_Vr2 m d)
theorem arg10_Va4 : Va4 m d (Proc.devRef .tc main_arg10) = m ((SparseCore.T d : Thread nD τ).loc main_arg10) :=
  (Va4_step m d main_arg10 (by decide)).trans (arg10_Vb3 m d)
theorem arg10_Vr3 : Vr3 m d (Proc.devRef .tc main_arg10) = m ((SparseCore.T d : Thread nD τ).loc main_arg10) :=
  (Vr3_step m d main_arg10 (by decide)).trans (arg10_Va4 m d)
theorem arg10_Vb4 : Vb4 m d (Proc.devRef .tc main_arg10) = m ((SparseCore.T d : Thread nD τ).loc main_arg10) :=
  (Vb4_step m d main_arg10 (by decide)).trans (arg10_Vr3 m d)
theorem arg10_Va5 : Va5 m d (Proc.devRef .tc main_arg10) = m ((SparseCore.T d : Thread nD τ).loc main_arg10) :=
  (Va5_step m d main_arg10 (by decide)).trans (arg10_Vb4 m d)
theorem arg10_Vr4 : Vr4 m d (Proc.devRef .tc main_arg10) = m ((SparseCore.T d : Thread nD τ).loc main_arg10) :=
  (Vr4_step m d main_arg10 (by decide)).trans (arg10_Va5 m d)
theorem arg10_Vb5 : Vb5 m d (Proc.devRef .tc main_arg10) = m ((SparseCore.T d : Thread nD τ).loc main_arg10) :=
  (Vb5_step m d main_arg10 (by decide)).trans (arg10_Vr4 m d)
theorem arg10_Va6 : Va6 m d (Proc.devRef .tc main_arg10) = m ((SparseCore.T d : Thread nD τ).loc main_arg10) :=
  (Va6_step m d main_arg10 (by decide)).trans (arg10_Vb5 m d)
theorem arg10_Vr5 : Vr5 m d (Proc.devRef .tc main_arg10) = m ((SparseCore.T d : Thread nD τ).loc main_arg10) :=
  (Vr5_step m d main_arg10 (by decide)).trans (arg10_Va6 m d)

/-! ## The flattened neighbour table: written by stretch 0 only -/

theorem v4_Vb0 : Vb0 m d (Proc.devRef .tc main_v4) = Va0 m d (Proc.devRef .tc main_v4) :=
  Vb0_step m d main_v4 (by decide)
theorem v4_Va1 : Va1 m d (Proc.devRef .tc main_v4) = Va0 m d (Proc.devRef .tc main_v4) :=
  (Va1_step m d main_v4 (by decide)).trans (v4_Vb0 m d)
theorem v4_Vr0 : Vr0 m d (Proc.devRef .tc main_v4) = Va0 m d (Proc.devRef .tc main_v4) :=
  (Vr0_step m d main_v4 (by decide)).trans (v4_Va1 m d)
theorem v4_Vb1 : Vb1 m d (Proc.devRef .tc main_v4) = Va0 m d (Proc.devRef .tc main_v4) :=
  (Vb1_step m d main_v4 (by decide)).trans (v4_Vr0 m d)
theorem v4_Va2 : Va2 m d (Proc.devRef .tc main_v4) = Va0 m d (Proc.devRef .tc main_v4) :=
  (Va2_step m d main_v4 (by decide)).trans (v4_Vb1 m d)
theorem v4_Vr1 : Vr1 m d (Proc.devRef .tc main_v4) = Va0 m d (Proc.devRef .tc main_v4) :=
  (Vr1_step m d main_v4 (by decide)).trans (v4_Va2 m d)
theorem v4_Vb2 : Vb2 m d (Proc.devRef .tc main_v4) = Va0 m d (Proc.devRef .tc main_v4) :=
  (Vb2_step m d main_v4 (by decide)).trans (v4_Vr1 m d)
theorem v4_Va3 : Va3 m d (Proc.devRef .tc main_v4) = Va0 m d (Proc.devRef .tc main_v4) :=
  (Va3_step m d main_v4 (by decide)).trans (v4_Vb2 m d)
theorem v4_Vr2 : Vr2 m d (Proc.devRef .tc main_v4) = Va0 m d (Proc.devRef .tc main_v4) :=
  (Vr2_step m d main_v4 (by decide)).trans (v4_Va3 m d)
theorem v4_Vb3 : Vb3 m d (Proc.devRef .tc main_v4) = Va0 m d (Proc.devRef .tc main_v4) :=
  (Vb3_step m d main_v4 (by decide)).trans (v4_Vr2 m d)
theorem v4_Va4 : Va4 m d (Proc.devRef .tc main_v4) = Va0 m d (Proc.devRef .tc main_v4) :=
  (Va4_step m d main_v4 (by decide)).trans (v4_Vb3 m d)
theorem v4_Vr3 : Vr3 m d (Proc.devRef .tc main_v4) = Va0 m d (Proc.devRef .tc main_v4) :=
  (Vr3_step m d main_v4 (by decide)).trans (v4_Va4 m d)
theorem v4_Vb4 : Vb4 m d (Proc.devRef .tc main_v4) = Va0 m d (Proc.devRef .tc main_v4) :=
  (Vb4_step m d main_v4 (by decide)).trans (v4_Vr3 m d)
theorem v4_Va5 : Va5 m d (Proc.devRef .tc main_v4) = Va0 m d (Proc.devRef .tc main_v4) :=
  (Va5_step m d main_v4 (by decide)).trans (v4_Vb4 m d)
theorem v4_Vr4 : Vr4 m d (Proc.devRef .tc main_v4) = Va0 m d (Proc.devRef .tc main_v4) :=
  (Vr4_step m d main_v4 (by decide)).trans (v4_Va5 m d)
theorem v4_Vb5 : Vb5 m d (Proc.devRef .tc main_v4) = Va0 m d (Proc.devRef .tc main_v4) :=
  (Vb5_step m d main_v4 (by decide)).trans (v4_Vr4 m d)
theorem v4_Va6 : Va6 m d (Proc.devRef .tc main_v4) = Va0 m d (Proc.devRef .tc main_v4) :=
  (Va6_step m d main_v4 (by decide)).trans (v4_Vb5 m d)
theorem v4_Vr5 : Vr5 m d (Proc.devRef .tc main_v4) = Va0 m d (Proc.devRef .tc main_v4) :=
  (Vr5_step m d main_v4 (by decide)).trans (v4_Va6 m d)

/-- When call `q` starts the flattened neighbour table is what stretch 0 made it. -/
theorem idx_keep (q : Fin 6) : Vc m q d (Proc.devRef .tc main_v4) = Va0 m d (Proc.devRef .tc main_v4) := by
  fin_cases q
  · rfl
  · exact v4_Vr0 m d
  · exact v4_Vr1 m d
  · exact v4_Vr2 m d
  · exact v4_Vr3 m d
  · exact v4_Vr4 m d

/-- Every entry of the flattened neighbour table is an entry of the neighbour table: in range if those are. -/
theorem idx_range (h2 : ∀ j, (m ((SparseCore.T d : Thread nD τ).loc main_arg2) j).toNat < 10000) (q : Fin 6) (j : S320000.Idx) :
    (Vc m q d (Proc.devRef .tc main_v4) j).toNat < 10000 := by
  rw [idx_keep m d q]
  have hj : (j 0).val < 320000 := (j 0).isLt
  have ej : j = ix1 ⟨(j 0).val / 10000 * 10000 + (j 0).val % 10000, by omega⟩ := by
    refine (eq_ix1 j).trans ?_
    congr 1
    apply Fin.ext
    show (j 0).val = (j 0).val / 10000 * 10000 + (j 0).val % 10000
    omega
  rw [ej]
  have e := ops0_v4 (V0 m d) (⟨(j 0).val / 10000, by omega⟩ : Fin 32) (⟨(j 0).val % 10000, Nat.mod_lt _ (by decide)⟩ : Fin 10000)
  unfold Va0
  rw [e]
  exact h2 _

/-! ## The padded inputs of region 0: written by stretch 0 only -/

theorem v2_Vb0 : Vb0 m d (Proc.devRef .tc main_v2) = Va0 m d (Proc.devRef .tc main_v2) :=
  Vb0_step m d main_v2 (by decide)
theorem v2_Va1 : Va1 m d (Proc.devRef .tc main_v2) = Va0 m d (Proc.devRef .tc main_v2) :=
  (Va1_step m d main_v2 (by decide)).trans (v2_Vb0 m d)

theorem v7_Vb0 : Vb0 m d (Proc.devRef .tc main_v7) = Va0 m d (Proc.devRef .tc main_v7) :=
  Vb0_step m d main_v7 (by decide)
theorem v7_Va1 : Va1 m d (Proc.devRef .tc main_v7) = Va0 m d (Proc.devRef .tc main_v7) :=
  (Va1_step m d main_v7 (by decide)).trans (v7_Vb0 m d)

theorem v8_Vb0 : Vb0 m d (Proc.devRef .tc main_v8) = Va0 m d (Proc.devRef .tc main_v8) :=
  Vb0_step m d main_v8 (by decide)
theorem v8_Va1 : Va1 m d (Proc.devRef .tc main_v8) = Va0 m d (Proc.devRef .tc main_v8) :=
  (Va1_step m d main_v8 (by decide)).trans (v8_Vb0 m d)

theorem v12_Vb0 : Vb0 m d (Proc.devRef .tc main_v12) = Va0 m d (Proc.devRef .tc main_v12) :=
  Vb0_step m d main_v12 (by decide)
theorem v12_Va1 : Va1 m d (Proc.devRef .tc main_v12) = Va0 m d (Proc.devRef .tc main_v12) :=
  (Va1_step m d main_v12 (by decide)).trans (v12_Vb0 m d)

/-! ## The per-step weights: written by stretch 0 only -/

theorem v14_Vb0 : Vb0 m d (Proc.devRef .tc main_v14) = Va0 m d (Proc.devRef .tc main_v14) :=
  Vb0_step m d main_v14 (by decide)
theorem v14_Va1 : Va1 m d (Proc.devRef .tc main_v14) = Va0 m d (Proc.devRef .tc main_v14) :=
  (Va1_step m d main_v14 (by decide)).trans (v14_Vb0 m d)
theorem v14_Vr0 : Vr0 m d (Proc.devRef .tc main_v14) = Va0 m d (Proc.devRef .tc main_v14) :=
  (Vr0_step m d main_v14 (by decide)).trans (v14_Va1 m d)
theorem v14_Vb1 : Vb1 m d (Proc.devRef .tc main_v14) = Va0 m d (Proc.devRef .tc main_v14) :=
  (Vb1_step m d main_v14 (by decide)).trans (v14_Vr0 m d)
theorem v14_Va2 : Va2 m d (Proc.devRef .tc main_v14) = Va0 m d (Proc.devRef .tc main_v14) :=
  (Va2_step m d main_v14 (by decide)).trans (v14_Vb1 m d)
theorem v14_Vr1 : Vr1 m d (Proc.devRef .tc main_v14) = Va0 m d (Proc.devRef .tc main_v14) :=
  (Vr1_step m d main_v14 (by decide)).trans (v14_Va2 m d)
theorem v14_Vb2 : Vb2 m d (Proc.devRef .tc main_v14) = Va0 m d (Proc.devRef .tc main_v14) :=
  (Vb2_step m d main_v14 (by decide)).trans (v14_Vr1 m d)
theorem v14_Va3 : Va3 m d (Proc.devRef .tc main_v14) = Va0 m d (Proc.devRef .tc main_v14) :=
  (Va3_step m d main_v14 (by decide)).trans (v14_Vb2 m d)
theorem v14_Vr2 : Vr2 m d (Proc.devRef .tc main_v14) = Va0 m d (Proc.devRef .tc main_v14) :=
  (Vr2_step m d main_v14 (by decide)).trans (v14_Va3 m d)
theorem v14_Vb3 : Vb3 m d (Proc.devRef .tc main_v14) = Va0 m d (Proc.devRef .tc main_v14) :=
  (Vb3_step m d main_v14 (by decide)).trans (v14_Vr2 m d)
theorem v14_Va4 : Va4 m d (Proc.devRef .tc main_v14) = Va0 m d (Proc.devRef .tc main_v14) :=
  (Va4_step m d main_v14 (by decide)).trans (v14_Vb3 m d)
theorem v14_Vr3 : Vr3 m d (Proc.devRef .tc main_v14) = Va0 m d (Proc.devRef .tc main_v14) :=
  (Vr3_step m d main_v14 (by decide)).trans (v14_Va4 m d)
theorem v14_Vb4 : Vb4 m d (Proc.devRef .tc main_v14) = Va0 m d (Proc.devRef .tc main_v14) :=
  (Vb4_step m d main_v14 (by decide)).trans (v14_Vr3 m d)
theorem v14_Va5 : Va5 m d (Proc.devRef .tc main_v14) = Va0 m d (Proc.devRef .tc main_v14) :=
  (Va5_step m d main_v14 (by decide)).trans (v14_Vb4 m d)
theorem v14_Vr4 : Vr4 m d (Proc.devRef .tc main_v14) = Va0 m d (Proc.devRef .tc main_v14) :=
  (Vr4_step m d main_v14 (by decide)).trans (v14_Va5 m d)
theorem v14_Vb5 : Vb5 m d (Proc.devRef .tc main_v14) = Va0 m d (Proc.devRef .tc main_v14) :=
  (Vb5_step m d main_v14 (by decide)).trans (v14_Vr4 m d)
theorem v14_Va6 : Va6 m d (Proc.devRef .tc main_v14) = Va0 m d (Proc.devRef .tc main_v14) :=
  (Va6_step m d main_v14 (by decide)).trans (v14_Vb5 m d)

theorem v16_Vb0 : Vb0 m d (Proc.devRef .tc main_v16) = Va0 m d (Proc.devRef .tc main_v16) :=
  Vb0_step m d main_v16 (by decide)
theorem v16_Va1 : Va1 m d (Proc.devRef .tc main_v16) = Va0 m d (Proc.devRef .tc main_v16) :=
  (Va1_step m d main_v16 (by decide)).trans (v16_Vb0 m d)
theorem v16_Vr0 : Vr0 m d (Proc.devRef .tc main_v16) = Va0 m d (Proc.devRef .tc main_v16) :=
  (Vr0_step m d main_v16 (by decide)).trans (v16_Va1 m d)
theorem v16_Vb1 : Vb1 m d (Proc.devRef .tc main_v16) = Va0 m d (Proc.devRef .tc main_v16) :=
  (Vb1_step m d main_v16 (by decide)).trans (v16_Vr0 m d)
theorem v16_Va2 : Va2 m d (Proc.devRef .tc main_v16) = Va0 m d (Proc.devRef .tc main_v16) :=
  (Va2_step m d main_v16 (by decide)).trans (v16_Vb1 m d)
theorem v16_Vr1 : Vr1 m d (Proc.devRef .tc main_v16) = Va0 m d (Proc.devRef .tc main_v16) :=
  (Vr1_step m d main_v16 (by decide)).trans (v16_Va2 m d)
theorem v16_Vb2 : Vb2 m d (Proc.devRef .tc main_v16) = Va0 m d (Proc.devRef .tc main_v16) :=
  (Vb2_step m d main_v16 (by decide)).trans (v16_Vr1 m d)
theorem v16_Va3 : Va3 m d (Proc.devRef .tc main_v16) = Va0 m d (Proc.devRef .tc main_v16) :=
  (Va3_step m d main_v16 (by decide)).trans (v16_Vb2 m d)
theorem v16_Vr2 : Vr2 m d (Proc.devRef .tc main_v16) = Va0 m d (Proc.devRef .tc main_v16) :=
  (Vr2_step m d main_v16 (by decide)).trans (v16_Va3 m d)
theorem v16_Vb3 : Vb3 m d (Proc.devRef .tc main_v16) = Va0 m d (Proc.devRef .tc main_v16) :=
  (Vb3_step m d main_v16 (by decide)).trans (v16_Vr2 m d)
theorem v16_Va4 : Va4 m d (Proc.devRef .tc main_v16) = Va0 m d (Proc.devRef .tc main_v16) :=
  (Va4_step m d main_v16 (by decide)).trans (v16_Vb3 m d)
theorem v16_Vr3 : Vr3 m d (Proc.devRef .tc main_v16) = Va0 m d (Proc.devRef .tc main_v16) :=
  (Vr3_step m d main_v16 (by decide)).trans (v16_Va4 m d)
theorem v16_Vb4 : Vb4 m d (Proc.devRef .tc main_v16) = Va0 m d (Proc.devRef .tc main_v16) :=
  (Vb4_step m d main_v16 (by decide)).trans (v16_Vr3 m d)
theorem v16_Va5 : Va5 m d (Proc.devRef .tc main_v16) = Va0 m d (Proc.devRef .tc main_v16) :=
  (Va5_step m d main_v16 (by decide)).trans (v16_Vb4 m d)
theorem v16_Vr4 : Vr4 m d (Proc.devRef .tc main_v16) = Va0 m d (Proc.devRef .tc main_v16) :=
  (Vr4_step m d main_v16 (by decide)).trans (v16_Va5 m d)
theorem v16_Vb5 : Vb5 m d (Proc.devRef .tc main_v16) = Va0 m d (Proc.devRef .tc main_v16) :=
  (Vb5_step m d main_v16 (by decide)).trans (v16_Vr4 m d)
theorem v16_Va6 : Va6 m d (Proc.devRef .tc main_v16) = Va0 m d (Proc.devRef .tc main_v16) :=
  (Va6_step m d main_v16 (by decide)).trans (v16_Vb5 m d)

theorem v17_Vb0 : Vb0 m d (Proc.devRef .tc main_v17) = Va0 m d (Proc.devRef .tc main_v17) :=
  Vb0_step m d main_v17 (by decide)
theorem v17_Va1 : Va1 m d (Proc.devRef .tc main_v17) = Va0 m d (Proc.devRef .tc main_v17) :=
  (Va1_step m d main_v17 (by decide)).trans (v17_Vb0 m d)
theorem v17_Vr0 : Vr0 m d (Proc.devRef .tc main_v17) = Va0 m d (Proc.devRef .tc main_v17) :=
  (Vr0_step m d main_v17 (by decide)).trans (v17_Va1 m d)
theorem v17_Vb1 : Vb1 m d (Proc.devRef .tc main_v17) = Va0 m d (Proc.devRef .tc main_v17) :=
  (Vb1_step m d main_v17 (by decide)).trans (v17_Vr0 m d)
theorem v17_Va2 : Va2 m d (Proc.devRef .tc main_v17) = Va0 m d (Proc.devRef .tc main_v17) :=
  (Va2_step m d main_v17 (by decide)).trans (v17_Vb1 m d)
theorem v17_Vr1 : Vr1 m d (Proc.devRef .tc main_v17) = Va0 m d (Proc.devRef .tc main_v17) :=
  (Vr1_step m d main_v17 (by decide)).trans (v17_Va2 m d)
theorem v17_Vb2 : Vb2 m d (Proc.devRef .tc main_v17) = Va0 m d (Proc.devRef .tc main_v17) :=
  (Vb2_step m d main_v17 (by decide)).trans (v17_Vr1 m d)
theorem v17_Va3 : Va3 m d (Proc.devRef .tc main_v17) = Va0 m d (Proc.devRef .tc main_v17) :=
  (Va3_step m d main_v17 (by decide)).trans (v17_Vb2 m d)
theorem v17_Vr2 : Vr2 m d (Proc.devRef .tc main_v17) = Va0 m d (Proc.devRef .tc main_v17) :=
  (Vr2_step m d main_v17 (by decide)).trans (v17_Va3 m d)
theorem v17_Vb3 : Vb3 m d (Proc.devRef .tc main_v17) = Va0 m d (Proc.devRef .tc main_v17) :=
  (Vb3_step m d main_v17 (by decide)).trans (v17_Vr2 m d)
theorem v17_Va4 : Va4 m d (Proc.devRef .tc main_v17) = Va0 m d (Proc.devRef .tc main_v17) :=
  (Va4_step m d main_v17 (by decide)).trans (v17_Vb3 m d)
theorem v17_Vr3 : Vr3 m d (Proc.devRef .tc main_v17) = Va0 m d (Proc.devRef .tc main_v17) :=
  (Vr3_step m d main_v17 (by decide)).trans (v17_Va4 m d)
theorem v17_Vb4 : Vb4 m d (Proc.devRef .tc main_v17) = Va0 m d (Proc.devRef .tc main_v17) :=
  (Vb4_step m d main_v17 (by decide)).trans (v17_Vr3 m d)
theorem v17_Va5 : Va5 m d (Proc.devRef .tc main_v17) = Va0 m d (Proc.devRef .tc main_v17) :=
  (Va5_step m d main_v17 (by decide)).trans (v17_Vb4 m d)
theorem v17_Vr4 : Vr4 m d (Proc.devRef .tc main_v17) = Va0 m d (Proc.devRef .tc main_v17) :=
  (Vr4_step m d main_v17 (by decide)).trans (v17_Va5 m d)
theorem v17_Vb5 : Vb5 m d (Proc.devRef .tc main_v17) = Va0 m d (Proc.devRef .tc main_v17) :=
  (Vb5_step m d main_v17 (by decide)).trans (v17_Vr4 m d)
theorem v17_Va6 : Va6 m d (Proc.devRef .tc main_v17) = Va0 m d (Proc.devRef .tc main_v17) :=
  (Va6_step m d main_v17 (by decide)).trans (v17_Vb5 m d)

theorem v18_Vb0 : Vb0 m d (Proc.devRef .tc main_v18) = Va0 m d (Proc.devRef .tc main_v18) :=
  Vb0_step m d main_v18 (by decide)
theorem v18_Va1 : Va1 m d (Proc.devRef .tc main_v18) = Va0 m d (Proc.devRef .tc main_v18) :=
  (Va1_step m d main_v18 (by decide)).trans (v18_Vb0 m d)
theorem v18_Vr0 : Vr0 m d (Proc.devRef .tc main_v18) = Va0 m d (Proc.devRef .tc main_v18) :=
  (Vr0_step m d main_v18 (by decide)).trans (v18_Va1 m d)
theorem v18_Vb1 : Vb1 m d (Proc.devRef .tc main_v18) = Va0 m d (Proc.devRef .tc main_v18) :=
  (Vb1_step m d main_v18 (by decide)).trans (v18_Vr0 m d)
theorem v18_Va2 : Va2 m d (Proc.devRef .tc main_v18) = Va0 m d (Proc.devRef .tc main_v18) :=
  (Va2_step m d main_v18 (by decide)).trans (v18_Vb1 m d)
theorem v18_Vr1 : Vr1 m d (Proc.devRef .tc main_v18) = Va0 m d (Proc.devRef .tc main_v18) :=
  (Vr1_step m d main_v18 (by decide)).trans (v18_Va2 m d)
theorem v18_Vb2 : Vb2 m d (Proc.devRef .tc main_v18) = Va0 m d (Proc.devRef .tc main_v18) :=
  (Vb2_step m d main_v18 (by decide)).trans (v18_Vr1 m d)
theorem v18_Va3 : Va3 m d (Proc.devRef .tc main_v18) = Va0 m d (Proc.devRef .tc main_v18) :=
  (Va3_step m d main_v18 (by decide)).trans (v18_Vb2 m d)
theorem v18_Vr2 : Vr2 m d (Proc.devRef .tc main_v18) = Va0 m d (Proc.devRef .tc main_v18) :=
  (Vr2_step m d main_v18 (by decide)).trans (v18_Va3 m d)
theorem v18_Vb3 : Vb3 m d (Proc.devRef .tc main_v18) = Va0 m d (Proc.devRef .tc main_v18) :=
  (Vb3_step m d main_v18 (by decide)).trans (v18_Vr2 m d)
theorem v18_Va4 : Va4 m d (Proc.devRef .tc main_v18) = Va0 m d (Proc.devRef .tc main_v18) :=
  (Va4_step m d main_v18 (by decide)).trans (v18_Vb3 m d)
theorem v18_Vr3 : Vr3 m d (Proc.devRef .tc main_v18) = Va0 m d (Proc.devRef .tc main_v18) :=
  (Vr3_step m d main_v18 (by decide)).trans (v18_Va4 m d)
theorem v18_Vb4 : Vb4 m d (Proc.devRef .tc main_v18) = Va0 m d (Proc.devRef .tc main_v18) :=
  (Vb4_step m d main_v18 (by decide)).trans (v18_Vr3 m d)
theorem v18_Va5 : Va5 m d (Proc.devRef .tc main_v18) = Va0 m d (Proc.devRef .tc main_v18) :=
  (Va5_step m d main_v18 (by decide)).trans (v18_Vb4 m d)
theorem v18_Vr4 : Vr4 m d (Proc.devRef .tc main_v18) = Va0 m d (Proc.devRef .tc main_v18) :=
  (Vr4_step m d main_v18 (by decide)).trans (v18_Va5 m d)
theorem v18_Vb5 : Vb5 m d (Proc.devRef .tc main_v18) = Va0 m d (Proc.devRef .tc main_v18) :=
  (Vb5_step m d main_v18 (by decide)).trans (v18_Vr4 m d)
theorem v18_Va6 : Va6 m d (Proc.devRef .tc main_v18) = Va0 m d (Proc.devRef .tc main_v18) :=
  (Va6_step m d main_v18 (by decide)).trans (v18_Vb5 m d)

theorem v19_Vb0 : Vb0 m d (Proc.devRef .tc main_v19) = Va0 m d (Proc.devRef .tc main_v19) :=
  Vb0_step m d main_v19 (by decide)
theorem v19_Va1 : Va1 m d (Proc.devRef .tc main_v19) = Va0 m d (Proc.devRef .tc main_v19) :=
  (Va1_step m d main_v19 (by decide)).trans (v19_Vb0 m d)
theorem v19_Vr0 : Vr0 m d (Proc.devRef .tc main_v19) = Va0 m d (Proc.devRef .tc main_v19) :=
  (Vr0_step m d main_v19 (by decide)).trans (v19_Va1 m d)
theorem v19_Vb1 : Vb1 m d (Proc.devRef .tc main_v19) = Va0 m d (Proc.devRef .tc main_v19) :=
  (Vb1_step m d main_v19 (by decide)).trans (v19_Vr0 m d)
theorem v19_Va2 : Va2 m d (Proc.devRef .tc main_v19) = Va0 m d (Proc.devRef .tc main_v19) :=
  (Va2_step m d main_v19 (by decide)).trans (v19_Vb1 m d)
theorem v19_Vr1 : Vr1 m d (Proc.devRef .tc main_v19) = Va0 m d (Proc.devRef .tc main_v19) :=
  (Vr1_step m d main_v19 (by decide)).trans (v19_Va2 m d)
theorem v19_Vb2 : Vb2 m d (Proc.devRef .tc main_v19) = Va0 m d (Proc.devRef .tc main_v19) :=
  (Vb2_step m d main_v19 (by decide)).trans (v19_Vr1 m d)
theorem v19_Va3 : Va3 m d (Proc.devRef .tc main_v19) = Va0 m d (Proc.devRef .tc main_v19) :=
  (Va3_step m d main_v19 (by decide)).trans (v19_Vb2 m d)
theorem v19_Vr2 : Vr2 m d (Proc.devRef .tc main_v19) = Va0 m d (Proc.devRef .tc main_v19) :=
  (Vr2_step m d main_v19 (by decide)).trans (v19_Va3 m d)
theorem v19_Vb3 : Vb3 m d (Proc.devRef .tc main_v19) = Va0 m d (Proc.devRef .tc main_v19) :=
  (Vb3_step m d main_v19 (by decide)).trans (v19_Vr2 m d)
theorem v19_Va4 : Va4 m d (Proc.devRef .tc main_v19) = Va0 m d (Proc.devRef .tc main_v19) :=
  (Va4_step m d main_v19 (by decide)).trans (v19_Vb3 m d)
theorem v19_Vr3 : Vr3 m d (Proc.devRef .tc main_v19) = Va0 m d (Proc.devRef .tc main_v19) :=
  (Vr3_step m d main_v19 (by decide)).trans (v19_Va4 m d)
theorem v19_Vb4 : Vb4 m d (Proc.devRef .tc main_v19) = Va0 m d (Proc.devRef .tc main_v19) :=
  (Vb4_step m d main_v19 (by decide)).trans (v19_Vr3 m d)
theorem v19_Va5 : Va5 m d (Proc.devRef .tc main_v19) = Va0 m d (Proc.devRef .tc main_v19) :=
  (Va5_step m d main_v19 (by decide)).trans (v19_Vb4 m d)
theorem v19_Vr4 : Vr4 m d (Proc.devRef .tc main_v19) = Va0 m d (Proc.devRef .tc main_v19) :=
  (Vr4_step m d main_v19 (by decide)).trans (v19_Va5 m d)
theorem v19_Vb5 : Vb5 m d (Proc.devRef .tc main_v19) = Va0 m d (Proc.devRef .tc main_v19) :=
  (Vb5_step m d main_v19 (by decide)).trans (v19_Vr4 m d)
theorem v19_Va6 : Va6 m d (Proc.devRef .tc main_v19) = Va0 m d (Proc.devRef .tc main_v19) :=
  (Va6_step m d main_v19 (by decide)).trans (v19_Vb5 m d)

/-! ## The edge weights: written by region 0 only -/

theorem v22_Vb1 : Vb1 m d (Proc.devRef .tc main_v22) = Vr0 m d (Proc.devRef .tc main_v22) :=
  Vb1_step m d main_v22 (by decide)
theorem v22_Va2 : Va2 m d (Proc.devRef .tc main_v22) = Vr0 m d (Proc.devRef .tc main_v22) :=
  (Va2_step m d main_v22 (by decide)).trans (v22_Vb1 m d)
theorem v22_Vr1 : Vr1 m d (Proc.devRef .tc main_v22) = Vr0 m d (Proc.devRef .tc main_v22) :=
  (Vr1_step m d main_v22 (by decide)).trans (v22_Va2 m d)
theorem v22_Vb2 : Vb2 m d (Proc.devRef .tc main_v22) = Vr0 m d (Proc.devRef .tc main_v22) :=
  (Vb2_step m d main_v22 (by decide)).trans (v22_Vr1 m d)
theorem v22_Va3 : Va3 m d (Proc.devRef .tc main_v22) = Vr0 m d (Proc.devRef .tc main_v22) :=
  (Va3_step m d main_v22 (by decide)).trans (v22_Vb2 m d)
theorem v22_Vr2 : Vr2 m d (Proc.devRef .tc main_v22) = Vr0 m d (Proc.devRef .tc main_v22) :=
  (Vr2_step m d main_v22 (by decide)).trans (v22_Va3 m d)
theorem v22_Vb3 : Vb3 m d (Proc.devRef .tc main_v22) = Vr0 m d (Proc.devRef .tc main_v22) :=
  (Vb3_step m d main_v22 (by decide)).trans (v22_Vr2 m d)
theorem v22_Va4 : Va4 m d (Proc.devRef .tc main_v22) = Vr0 m d (Proc.devRef .tc main_v22) :=
  (Va4_step m d main_v22 (by decide)).trans (v22_Vb3 m d)
theorem v22_Vr3 : Vr3 m d (Proc.devRef .tc main_v22) = Vr0 m d (Proc.devRef .tc main_v22) :=
  (Vr3_step m d main_v22 (by decide)).trans (v22_Va4 m d)
theorem v22_Vb4 : Vb4 m d (Proc.devRef .tc main_v22) = Vr0 m d (Proc.devRef .tc main_v22) :=
  (Vb4_step m d main_v22 (by decide)).trans (v22_Vr3 m d)
theorem v22_Va5 : Va5 m d (Proc.devRef .tc main_v22) = Vr0 m d (Proc.devRef .tc main_v22) :=
  (Va5_step m d main_v22 (by decide)).trans (v22_Vb4 m d)
theorem v22_Vr4 : Vr4 m d (Proc.devRef .tc main_v22) = Vr0 m d (Proc.devRef .tc main_v22) :=
  (Vr4_step m d main_v22 (by decide)).trans (v22_Va5 m d)
theorem v22_Vb5 : Vb5 m d (Proc.devRef .tc main_v22) = Vr0 m d (Proc.devRef .tc main_v22) :=
  (Vb5_step m d main_v22 (by decide)).trans (v22_Vr4 m d)
theorem v22_Va6 : Va6 m d (Proc.devRef .tc main_v22) = Vr0 m d (Proc.devRef .tc main_v22) :=
  (Va6_step m d main_v22 (by decide)).trans (v22_Vb5 m d)

end Cert.Proof.KeepB

end
-- ==== Proof.EndsB.lean ====
/-
  The launch element of the ghost state, and how the TensorCore's final assertion reads the final memory.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.StepsB
import proofs.«205547_g25623774888366_cont_9to1_713_27_alg».proof.Proof.Steps2B

noncomputable section

namespace Cert.Proof.EndsB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Proof.StepsB Cert.Proof.Steps2B

variable {F : FTy → Type} [FloatOps F]

local notation "𝕄" => MT nD τ sig (HIx 6) (Elt F) ℕ UU ℕ

variable (Vc : Fin 6 → Dev nD → Valuation τ sig (Elt F))

/-- The launch element: the handshakes' rounds, the pipelines' staging cells' rounds, the transfers' counters at one. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem ghost_eq :
    (bigSep Finset.univ fun d : Dev nD => Ghost (F := F) Finset.univ d)
      = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) := by
  unfold Ghost
  rw [← bigSep_sep']
  exact bigSep_congr fun d _ => bigSep_sep' _ _ _

theorem hu₀ : (ownU (u₀ (F := F)) : sProp 𝕄)
    ⊢ |={Set.univ}=> iprop(BI.own (EH (initOf (K (F := F)).hsCells (K (F := F)).hsToks)) ∗ (bigSep Finset.univ fun d : Dev nD => Ghost (F := F) Finset.univ d)
        ∗ bigSep Finset.univ fun thr : Thread nD τ => bigSep Finset.univ fun q : Fin 6 => (P (F := F) Vc).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (show BI.own (((Emb.inl : Emb UP (UP × Counters)).trans (embR : Emb (UP × Counters) 𝕄)) (initOf (Pipeline.cells (Pipeline.pin (pcfgs (F := F)) adm) cellOf_inj) (Pipeline.launchToks (Pipeline.pin (pcfgs (F := F)) adm) cellOf_inj)))
      ⊢ (BI.own ((EP : Emb UP 𝕄) (initOf (Pipeline.cells (Pipeline.pin (pcfgs (F := F)) adm) cellOf_inj) (Pipeline.launchToks (Pipeline.pin (pcfgs (F := F)) adm) cellOf_inj))) : sProp 𝕄) from by unfold EP; exact .rfl) $$ HP
  imod (Pipeline.fund_ghost (Pipeline.pin (pcfgs (F := F)) adm) EP cellOf_inj) $$ HP' with ⟨Hg, Ht⟩
  imodintro
  isplitl [HH]; · iexact HH
  isplitl [Hg Ht]
  · rw [ghost_eq]
    isplitl [Hg] <;> iassumption
  rw [show (bigSep Finset.univ fun thr : Thread nD τ => bigSep Finset.univ fun q : Fin 6 => (P (F := F) Vc).x q thr) = bigSep Finset.univ fun _ : Thread nD τ => iprop(emp) from
    bigSep_congr fun _ _ => bigSep_emp' _, bigSep_emp']
  iempintro

/-- The TensorCore's arrays at the end, read off the final memory: each holds what the last valuation says. -/
theorem hfin (Vend : Dev nD → Valuation τ sig (Elt F)) (d : Dev nD) (s' : Phys nD τ sig (Elt F)) :
    iprop((held (SparseCore.T d) SS (Vend d) : sProp 𝕄) ∗ SI s')
      ⊢ (⌜∀ b : Ref sig .tc, b.isScoped = false → s'.mem.mem ((SparseCore.T d).loc b) = Vend d (Proc.devRef .tc b)⌝ : sProp 𝕄) := by
  unfold held
  iintro H
  ihave H' := (pointsTo_read_all SS (fun b => (((SparseCore.T d : Thread nD τ).1, b) : Loc nD τ sig)) (Vend d) s') $$ H
  icases H' with ⟨%h, -⟩
  ipureintro; intro b hb; exact h _ (mem_SS hb)

end Cert.Proof.EndsB

end
-- ==== Proof.GatherSplitB.lean ====
/-
  Sharing one gather call's arrays among the thirty-two workers, and gathering what they leave.

  The index array and the output are cut into the workers' blocks of rows (pairwise disjoint, covering the
  array); the table is read whole by every worker through one of the thirty-two leaves of the full share halved
  five times. Worker `2 i + c` is vector subcore `i` of SparseCore `c`, so a product over the workers is a
  product over the cores of products over the subcores. After the call every worker's block of the output agrees
  with ONE function of the index array and the table, so the blocks join to the whole output at that function.
-/
import proofs.«205547_g25623774888366_cont_9to1_713_27_alg».proof.Proof.LaunchBaseB
import Idealize.ShloMosaic.Lib.Tactic

noncomputable section

namespace Cert.Proof.GatherSplitB

open Cert.Kernel Cert.Kernel.Gen
open Cert.Proof.LaunchBaseB
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 6) (Elt F) ℕ UU ℕ

/-! ## Workers: thirty-two, two cores of sixteen subcores -/

/-- Worker `2 i + c` is subcore `i` of core `c`. -/
def wEquiv : Fin 2 × Fin 16 ≃ Fin 32 where
  toFun p := wOf p.1 p.2
  invFun w := (⟨w.val % 2, by omega⟩, ⟨w.val / 2, by omega⟩)
  left_inv p := by
    rcases p with ⟨c, i⟩
    refine Prod.ext (Fin.ext ?_) (Fin.ext ?_)
    · show (i.val * 2 + c.val) % 2 = c.val
      omega
    · show (i.val * 2 + c.val) / 2 = i.val
      omega
  right_inv w := by
    refine Fin.ext ?_
    show w.val / 2 * 2 + w.val % 2 = w.val
    omega

/-- A product over the workers, by core and subcore. -/
theorem bigSep_workers (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]
  rfl

/-! ## Shares: a points-to at a share is its leaves' at once -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A share halved `n` times: the points-to at the share is the product of the points-tos at its `2 ^ n` leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- A whole array held in full is the thirty-two workers' shares of it. -/
theorem pointsTo_shares {ℓ : Loc nD τ sig} (f : Buf (Elt F) ℓ) :
    (ℓ ↦{fullShare} f : sProp 𝕄) = bigSep Finset.univ fun w : Fin 32 => ℓ ↦{sh w} f :=
  pointsTo_leaves Finset.univ f 5 fullShare

/-- An array held at a share is its blocks held at that share, the blocks pairwise disjoint and covering it. -/
theorem pointsTo_blocks {ℓ : Loc nD τ sig} (R : Fin 32 → Finset (Idx ℓ))
    (hd : ∀ i ∈ (Finset.univ : Finset (Fin 32)), ∀ j ∈ (Finset.univ : Finset (Fin 32)), i ≠ j → Disjoint (R i) (R j))
    (hc : (Finset.univ : Finset (Fin 32)).biUnion R = Finset.univ) (q : PosShare TreeShare) (f : Buf (Elt F) ℓ) :
    (ℓ ↦{q} f : sProp 𝕄) = bigSep Finset.univ fun w : Fin 32 => ℓ ↦[R w]{q} f := by
  rw [← pointsTo_biUnion Finset.univ (ℓ := ℓ) R hd, hc]

/-! ## The three arrays of a call, at any three locations -/

section Generic

variable {ℓI ℓX ℓO : Loc nD τ sig}

/-- The three arrays of a call, whole, are the workers' triples: each one's block of the index array, its share of
    the table, its block of the output. -/
theorem split_gen (RI : Fin 32 → Finset (Idx ℓI)) (RO : Fin 32 → Finset (Idx ℓO))
    (hId : ∀ i ∈ (Finset.univ : Finset (Fin 32)), ∀ j ∈ (Finset.univ : Finset (Fin 32)), i ≠ j → Disjoint (RI i) (RI j))
    (hIc : (Finset.univ : Finset (Fin 32)).biUnion RI = Finset.univ)
    (hOd : ∀ i ∈ (Finset.univ : Finset (Fin 32)), ∀ j ∈ (Finset.univ : Finset (Fin 32)), i ≠ j → Disjoint (RO i) (RO j))
    (hOc : (Finset.univ : Finset (Fin 32)).biUnion RO = Finset.univ)
    (IDX : Buf (Elt F) ℓI) (TAB : Buf (Elt F) ℓX) (OUT₀ : Buf (Elt F) ℓO) :
    (iprop((ℓI ↦{fullShare} IDX) ∗ (ℓX ↦{fullShare} TAB) ∗ ℓO ↦{fullShare} OUT₀) : sProp 𝕄)
      = bigSep Finset.univ fun c : Fin 2 => bigSep Finset.univ fun i : Fin 16 =>
          iprop((ℓI ↦[RI (wOf c i)]{fullShare} IDX) ∗ (ℓX ↦{sh (wOf c i)} TAB) ∗ ℓO ↦[RO (wOf c i)]{fullShare} OUT₀) := by
  refine Eq.trans ?_ (bigSep_workers (fun w => iprop((ℓI ↦[RI w]{fullShare} IDX) ∗ (ℓX ↦{sh w} TAB) ∗ ℓO ↦[RO w]{fullShare} OUT₀)))
  rw [bigSep_sep', bigSep_sep', ← pointsTo_blocks RI hId hIc, ← pointsTo_blocks RO hOd hOc, ← pointsTo_shares]

/-- The workers' triples after the call — every block of the output at some valuation that agrees on the block
    with the one function `G` — are the three arrays whole, the output at `G`. -/
theorem join_gen (RI : Fin 32 → Finset (Idx ℓI)) (RO : Fin 32 → Finset (Idx ℓO))
    (hId : ∀ i ∈ (Finset.univ : Finset (Fin 32)), ∀ j ∈ (Finset.univ : Finset (Fin 32)), i ≠ j → Disjoint (RI i) (RI j))
    (hIc : (Finset.univ : Finset (Fin 32)).biUnion RI = Finset.univ)
    (hOd : ∀ i ∈ (Finset.univ : Finset (Fin 32)), ∀ j ∈ (Finset.univ : Finset (Fin 32)), i ≠ j → Disjoint (RO i) (RO j))
    (hOc : (Finset.univ : Finset (Fin 32)).biUnion RO = Finset.univ)
    (Spec : Fin 32 → Buf (Elt F) ℓO → Prop) (G : Buf (Elt F) ℓO)
    (hG : ∀ w OUT, Spec w OUT → ∀ x ∈ RO w, OUT x = G x)
    (IDX : Buf (Elt F) ℓI) (TAB : Buf (Elt F) ℓX) :
    (bigSep Finset.univ fun c : Fin 2 => bigSep Finset.univ fun i : Fin 16 =>
        iprop((ℓI ↦[RI (wOf c i)]{fullShare} IDX) ∗ (ℓX ↦{sh (wOf c i)} TAB) ∗ ∃ OUT, ⌜Spec (wOf c i) OUT⌝ ∗ ℓO ↦[RO (wOf c i)]{fullShare} OUT))
      ⊢ (iprop((ℓI ↦{fullShare} IDX) ∗ (ℓX ↦{fullShare} TAB) ∗ ℓO ↦{fullShare} G) : sProp 𝕄) := by
  have step : ∀ w : Fin 32, iprop(∃ OUT, ⌜Spec w OUT⌝ ∗ ℓO ↦[RO w]{fullShare} OUT) ⊢ (ℓO ↦[RO w]{fullShare} G : sProp 𝕄) := by
    intro w
    iintro ⟨%OUT, %h, H⟩
    rw [← pointsTo_congr (hG w OUT h)]
    iexact H
  refine (Entails.of_eq (bigSep_workers (fun w => iprop((ℓI ↦[RI w]{fullShare} IDX) ∗ (ℓX ↦{sh w} TAB) ∗ ∃ OUT, ⌜Spec w OUT⌝ ∗ ℓO ↦[RO w]{fullShare} OUT))).symm).trans ?_
  rw [bigSep_sep', bigSep_sep', ← pointsTo_blocks RI hId hIc, ← pointsTo_shares, pointsTo_blocks RO hOd hOc fullShare G]
  have hO : (bigSep Finset.univ fun w : Fin 32 => iprop(∃ OUT, ⌜Spec w OUT⌝ ∗ ℓO ↦[RO w]{fullShare} OUT))
      ⊢ (bigSep Finset.univ fun w : Fin 32 => ℓO ↦[RO w]{fullShare} G : sProp 𝕄) := bigSep_mono fun w _ => step w
  iintro ⟨Hi, Hx, Ho⟩
  isplitl [Hi]; · iexact Hi
  isplitl [Hx]; · iexact Hx
  iapply hO; iexact Ho

end Generic

/-! ## The rows -/

theorem irows_disjoint : ∀ i ∈ (Finset.univ : Finset (Fin 32)), ∀ j ∈ (Finset.univ : Finset (Fin 32)), i ≠ j → Disjoint (iRowSet i) (iRowSet j) :=
  fun i _ j _ h => Rect.part_disjoint idiv h
theorem orows_disjoint : ∀ i ∈ (Finset.univ : Finset (Fin 32)), ∀ j ∈ (Finset.univ : Finset (Fin 32)), i ≠ j → Disjoint (oRowSet i) (oRowSet j) :=
  fun i _ j _ h => Rect.part_disjoint odiv h
theorem irows_cover : (Finset.univ : Finset (Fin 32)).biUnion iRowSet = Finset.univ := Rect.biUnion_part idiv
theorem orows_cover : (Finset.univ : Finset (Fin 32)).biUnion oRowSet = Finset.univ := Rect.biUnion_part odiv

/-! ## What every worker leaves is one function's values -/

theorem gatherSpec_eq (IDX : S320000.Idx → Elt F .i32) (TAB : S10000x128.Idx → Elt F .f32)
    (hidx : ∀ j, (IDX j).toNat < 10000) (w : Fin 32) (OUT : S320000x128.Idx → Elt F .f32)
    (h : GatherSpec w IDX TAB OUT) : ∀ x ∈ oRowSet w, OUT x = gatherFn IDX TAB x := by
  intro x hx
  have hn := hidx (ValueIdx.ix1 (n := 320000) ⟨(x 0).val, (x 0).isLt⟩)
  unfold gatherFn
  dsimp only
  refine h x (ValueIdx.ix1 (n := 320000) ⟨(x 0).val, (x 0).isLt⟩) _ hx rfl ?_ rfl
  show (dite _ _ _ : Fin 10000).val = _
  rw [dif_pos hn]

/-! ## The six calls: the index array, call `q`'s table and output -/

theorem split0 (d : Dev nD) (IDX : S320000.Idx → Elt F .i32) (TAB : S10000x128.Idx → Elt F .f32) (OUT₀ : S320000x128.Idx → Elt F .f32) :
    (iprop((iLoc d ↦{fullShare} IDX) ∗ (xLoc0 d ↦{fullShare} TAB) ∗ oLoc0 d ↦{fullShare} OUT₀) : sProp 𝕄)
      ⊢ bigSep Finset.univ fun c : Fin 2 => bigSep Finset.univ fun i : Fin 16 =>
          iprop((iLoc d ↦[iRowSet (wOf c i)]{fullShare} IDX) ∗ (xLoc0 d ↦{sh (wOf c i)} TAB) ∗ oLoc0 d ↦[oRowSet (wOf c i)]{fullShare} OUT₀) :=
  Entails.of_eq (split_gen (ℓI := iLoc d) (ℓX := xLoc0 d) (ℓO := oLoc0 d) iRowSet oRowSet irows_disjoint irows_cover orows_disjoint orows_cover IDX TAB OUT₀)

theorem join0 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc0 d ↦{sh (wOf c i)} TAB) ∗ ∃ OUT, ⌜GatherSpec (wOf c i) IDX TAB OUT⌝ ∗ oLoc0 d ↦[oRowSet (wOf c i)]{fullShare} OUT))
      ⊢ (iprop((iLoc d ↦{fullShare} IDX) ∗ (xLoc0 d ↦{fullShare} TAB) ∗ oLoc0 d ↦{fullShare} gatherFn IDX TAB) : sProp 𝕄) :=
  join_gen (ℓI := iLoc d) (ℓX := xLoc0 d) (ℓO := oLoc0 d) iRowSet oRowSet irows_disjoint irows_cover orows_disjoint orows_cover
    (fun w OUT => GatherSpec w IDX TAB OUT) (gatherFn IDX TAB) (gatherSpec_eq IDX TAB hidx) IDX TAB

theorem split1 (d : Dev nD) (IDX : S320000.Idx → Elt F .i32) (TAB : S10000x128.Idx → Elt F .f32) (OUT₀ : S320000x128.Idx → Elt F .f32) :
    (iprop((iLoc d ↦{fullShare} IDX) ∗ (xLoc1 d ↦{fullShare} TAB) ∗ oLoc1 d ↦{fullShare} OUT₀) : sProp 𝕄)
      ⊢ bigSep Finset.univ fun c : Fin 2 => bigSep Finset.univ fun i : Fin 16 =>
          iprop((iLoc d ↦[iRowSet (wOf c i)]{fullShare} IDX) ∗ (xLoc1 d ↦{sh (wOf c i)} TAB) ∗ oLoc1 d ↦[oRowSet (wOf c i)]{fullShare} OUT₀) :=
  Entails.of_eq (split_gen (ℓI := iLoc d) (ℓX := xLoc1 d) (ℓO := oLoc1 d) iRowSet oRowSet irows_disjoint irows_cover orows_disjoint orows_cover IDX TAB OUT₀)

theorem join1 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc1 d ↦{sh (wOf c i)} TAB) ∗ ∃ OUT, ⌜GatherSpec (wOf c i) IDX TAB OUT⌝ ∗ oLoc1 d ↦[oRowSet (wOf c i)]{fullShare} OUT))
      ⊢ (iprop((iLoc d ↦{fullShare} IDX) ∗ (xLoc1 d ↦{fullShare} TAB) ∗ oLoc1 d ↦{fullShare} gatherFn IDX TAB) : sProp 𝕄) :=
  join_gen (ℓI := iLoc d) (ℓX := xLoc1 d) (ℓO := oLoc1 d) iRowSet oRowSet irows_disjoint irows_cover orows_disjoint orows_cover
    (fun w OUT => GatherSpec w IDX TAB OUT) (gatherFn IDX TAB) (gatherSpec_eq IDX TAB hidx) IDX TAB

theorem split2 (d : Dev nD) (IDX : S320000.Idx → Elt F .i32) (TAB : S10000x128.Idx → Elt F .f32) (OUT₀ : S320000x128.Idx → Elt F .f32) :
    (iprop((iLoc d ↦{fullShare} IDX) ∗ (xLoc2 d ↦{fullShare} TAB) ∗ oLoc2 d ↦{fullShare} OUT₀) : sProp 𝕄)
      ⊢ bigSep Finset.univ fun c : Fin 2 => bigSep Finset.univ fun i : Fin 16 =>
          iprop((iLoc d ↦[iRowSet (wOf c i)]{fullShare} IDX) ∗ (xLoc2 d ↦{sh (wOf c i)} TAB) ∗ oLoc2 d ↦[oRowSet (wOf c i)]{fullShare} OUT₀) :=
  Entails.of_eq (split_gen (ℓI := iLoc d) (ℓX := xLoc2 d) (ℓO := oLoc2 d) iRowSet oRowSet irows_disjoint irows_cover orows_disjoint orows_cover IDX TAB OUT₀)

theorem join2 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc2 d ↦{sh (wOf c i)} TAB) ∗ ∃ OUT, ⌜GatherSpec (wOf c i) IDX TAB OUT⌝ ∗ oLoc2 d ↦[oRowSet (wOf c i)]{fullShare} OUT))
      ⊢ (iprop((iLoc d ↦{fullShare} IDX) ∗ (xLoc2 d ↦{fullShare} TAB) ∗ oLoc2 d ↦{fullShare} gatherFn IDX TAB) : sProp 𝕄) :=
  join_gen (ℓI := iLoc d) (ℓX := xLoc2 d) (ℓO := oLoc2 d) iRowSet oRowSet irows_disjoint irows_cover orows_disjoint orows_cover
    (fun w OUT => GatherSpec w IDX TAB OUT) (gatherFn IDX TAB) (gatherSpec_eq IDX TAB hidx) IDX TAB

theorem split3 (d : Dev nD) (IDX : S320000.Idx → Elt F .i32) (TAB : S10000x128.Idx → Elt F .f32) (OUT₀ : S320000x128.Idx → Elt F .f32) :
    (iprop((iLoc d ↦{fullShare} IDX) ∗ (xLoc3 d ↦{fullShare} TAB) ∗ oLoc3 d ↦{fullShare} OUT₀) : sProp 𝕄)
      ⊢ bigSep Finset.univ fun c : Fin 2 => bigSep Finset.univ fun i : Fin 16 =>
          iprop((iLoc d ↦[iRowSet (wOf c i)]{fullShare} IDX) ∗ (xLoc3 d ↦{sh (wOf c i)} TAB) ∗ oLoc3 d ↦[oRowSet (wOf c i)]{fullShare} OUT₀) :=
  Entails.of_eq (split_gen (ℓI := iLoc d) (ℓX := xLoc3 d) (ℓO := oLoc3 d) iRowSet oRowSet irows_disjoint irows_cover orows_disjoint orows_cover IDX TAB OUT₀)

theorem join3 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc3 d ↦{sh (wOf c i)} TAB) ∗ ∃ OUT, ⌜GatherSpec (wOf c i) IDX TAB OUT⌝ ∗ oLoc3 d ↦[oRowSet (wOf c i)]{fullShare} OUT))
      ⊢ (iprop((iLoc d ↦{fullShare} IDX) ∗ (xLoc3 d ↦{fullShare} TAB) ∗ oLoc3 d ↦{fullShare} gatherFn IDX TAB) : sProp 𝕄) :=
  join_gen (ℓI := iLoc d) (ℓX := xLoc3 d) (ℓO := oLoc3 d) iRowSet oRowSet irows_disjoint irows_cover orows_disjoint orows_cover
    (fun w OUT => GatherSpec w IDX TAB OUT) (gatherFn IDX TAB) (gatherSpec_eq IDX TAB hidx) IDX TAB

theorem split4 (d : Dev nD) (IDX : S320000.Idx → Elt F .i32) (TAB : S10000x128.Idx → Elt F .f32) (OUT₀ : S320000x128.Idx → Elt F .f32) :
    (iprop((iLoc d ↦{fullShare} IDX) ∗ (xLoc4 d ↦{fullShare} TAB) ∗ oLoc4 d ↦{fullShare} OUT₀) : sProp 𝕄)
      ⊢ bigSep Finset.univ fun c : Fin 2 => bigSep Finset.univ fun i : Fin 16 =>
          iprop((iLoc d ↦[iRowSet (wOf c i)]{fullShare} IDX) ∗ (xLoc4 d ↦{sh (wOf c i)} TAB) ∗ oLoc4 d ↦[oRowSet (wOf c i)]{fullShare} OUT₀) :=
  Entails.of_eq (split_gen (ℓI := iLoc d) (ℓX := xLoc4 d) (ℓO := oLoc4 d) iRowSet oRowSet irows_disjoint irows_cover orows_disjoint orows_cover IDX TAB OUT₀)

theorem join4 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc4 d ↦{sh (wOf c i)} TAB) ∗ ∃ OUT, ⌜GatherSpec (wOf c i) IDX TAB OUT⌝ ∗ oLoc4 d ↦[oRowSet (wOf c i)]{fullShare} OUT))
      ⊢ (iprop((iLoc d ↦{fullShare} IDX) ∗ (xLoc4 d ↦{fullShare} TAB) ∗ oLoc4 d ↦{fullShare} gatherFn IDX TAB) : sProp 𝕄) :=
  join_gen (ℓI := iLoc d) (ℓX := xLoc4 d) (ℓO := oLoc4 d) iRowSet oRowSet irows_disjoint irows_cover orows_disjoint orows_cover
    (fun w OUT => GatherSpec w IDX TAB OUT) (gatherFn IDX TAB) (gatherSpec_eq IDX TAB hidx) IDX TAB

theorem split5 (d : Dev nD) (IDX : S320000.Idx → Elt F .i32) (TAB : S10000x128.Idx → Elt F .f32) (OUT₀ : S320000x128.Idx → Elt F .f32) :
    (iprop((iLoc d ↦{fullShare} IDX) ∗ (xLoc5 d ↦{fullShare} TAB) ∗ oLoc5 d ↦{fullShare} OUT₀) : sProp 𝕄)
      ⊢ bigSep Finset.univ fun c : Fin 2 => bigSep Finset.univ fun i : Fin 16 =>
          iprop((iLoc d ↦[iRowSet (wOf c i)]{fullShare} IDX) ∗ (xLoc5 d ↦{sh (wOf c i)} TAB) ∗ oLoc5 d ↦[oRowSet (wOf c i)]{fullShare} OUT₀) :=
  Entails.of_eq (split_gen (ℓI := iLoc d) (ℓX := xLoc5 d) (ℓO := oLoc5 d) iRowSet oRowSet irows_disjoint irows_cover orows_disjoint orows_cover IDX TAB OUT₀)

theorem join5 (d : Dev nD) (IDX : S320000.Idx → Elt F .i32) (TAB : S10000x128.Idx → Elt F .f32)
    (hidx : ∀ j, (IDX j).toNat < 10000) :
    (bigSep Finset.univ fun c : Fin 2 => bigSep Finset.univ fun i : Fin 16 =>
        iprop((iLoc d ↦[iRowSet (wOf c i)]{fullShare} IDX) ∗ (xLoc5 d ↦{sh (wOf c i)} TAB) ∗ ∃ OUT, ⌜GatherSpec (wOf c i) IDX TAB OUT⌝ ∗ oLoc5 d ↦[oRowSet (wOf c i)]{fullShare} OUT))
      ⊢ (iprop((iLoc d ↦{fullShare} IDX) ∗ (xLoc5 d ↦{fullShare} TAB) ∗ oLoc5 d ↦{fullShare} gatherFn IDX TAB) : sProp 𝕄) :=
  join_gen (ℓI := iLoc d) (ℓX := xLoc5 d) (ℓO := oLoc5 d) iRowSet oRowSet irows_disjoint irows_cover orows_disjoint orows_cover
    (fun w OUT => GatherSpec w IDX TAB OUT) (gatherFn IDX TAB) (gatherSpec_eq IDX TAB hidx) IDX TAB

end Cert.Proof.GatherSplitB

end
-- ==== Proof.RunStepB.lean ====
/-
  The TensorCore's side of one gather call: it hands the call's three arrays to the thirty-two workers, waits for
  them, and has the arrays back whole, the output holding the gathered rows.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.SparseCore.Threads
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.StepsB
import proofs.«205547_g25623774888366_cont_9to1_713_27_alg».proof.Proof.Steps2B
import proofs.«205547_g25623774888366_cont_9to1_713_27_alg».proof.Proof.GatherSplitB

noncomputable section

namespace Cert.Proof.RunStepB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr)
open Cert.Proof.PayB Cert.Proof.StepsB Cert.Proof.Steps2B Cert.Proof.GatherSplitB

variable {F : FTy → Type} [FloatOps F]

local notation "𝕄" => MT nD τ sig (HIx 6) (Elt F) ℕ UU ℕ

variable (Vc : Fin 6 → Dev nD → Valuation τ sig (Elt F))

/-! ## Call 0: the index array, the table `main_v2`, the output `main_v20` -/

/-- The call's three arrays. -/
def T3_0 : Finset (DevRef τ sig) := {Proc.devRef .tc main_v4, Proc.devRef .tc main_v2, Proc.devRef .tc main_v20}

theorem T3_0_sub : T3_0 ⊆ SS := by
  intro b hb
  simp only [T3_0, Finset.mem_insert, Finset.mem_singleton] at hb
  rcases hb with rfl | rfl | rfl
  · exact mem_SS (by decide)
  · exact mem_SS (by decide)
  · exact mem_SS (by decide)

/-- Held whole, the three arrays are three points-tos. -/
theorem held_T3_0 (d : Dev nD) (W : Valuation τ sig (Elt F)) :
    (held (T d) T3_0 W : sProp 𝕄)
      = iprop((iLoc d ↦{fullShare} W (Proc.devRef .tc main_v4)) ∗ (xLoc0 d ↦{fullShare} W (Proc.devRef .tc main_v2))
          ∗ oLoc0 d ↦{fullShare} W (Proc.devRef .tc main_v20)) := by
  unfold held T3_0
  rw [bigSep_insert (by decide), bigSep_insert (by decide), bigSep_singleton]
  rfl

/-- The arrays back, the output at a new valuation, are the TensorCore's arrays at the updated valuation. -/
theorem held_update_0 (d : Dev nD) (W : Valuation τ sig (Elt F)) (G : S320000x128.Idx → Elt F .f32) :
    iprop(((iLoc d ↦{fullShare} W (Proc.devRef .tc main_v4)) ∗ (xLoc0 d ↦{fullShare} W (Proc.devRef .tc main_v2)) ∗ oLoc0 d ↦{fullShare} G)
        ∗ held (T d) (SS \ T3_0) W)
      ⊢ (held (T d) SS (Function.update W (Proc.devRef .tc main_v20) G) : sProp 𝕄) := by
  rw [held_sub_split (T d) T3_0_sub (Function.update W (Proc.devRef .tc main_v20) G), held_T3_0,
    Function.update_self, Function.update_of_ne (by decide), Function.update_of_ne (by decide),
    held_congr (T d) (S := SS \ T3_0) (V := Function.update W (Proc.devRef .tc main_v20) G) (V' := W) fun b hb =>
      Function.update_of_ne (fun e => (Finset.mem_sdiff.mp hb).2 (by rw [e]; simp [T3_0])) _ _]

/-- What the TensorCore hands the two SparseCores is the thirty-two workers' parts, by core and subcore. -/
theorem st_eq_0 (d : Dev nD) :
    (bigSep Finset.univ fun c : Fin ((K (F := F)).nCore 0) => (P (F := F) Vc).st 0 d c)
      = bigSep Finset.univ fun c : Fin 2 => bigSep Finset.univ fun i : Fin 16 =>
          iprop((iLoc d ↦[iRowSet (wOf c i)]{fullShare} Vc 0 d (Proc.devRef .tc main_v4)) ∗ (xLoc0 d ↦{sh (wOf c i)} Vc 0 d (Proc.devRef .tc main_v2))
            ∗ oLoc0 d ↦[oRowSet (wOf c i)]{fullShare} Vc 0 d (Proc.devRef .tc main_v20)) := by
  refine bigSep_congr fun c _ => ?_
  show (bigSep Finset.univ fun i : Fin ((K (F := F)).nSub 0) => goOf Vc 0 d (wOf (Fin.cast (nCore_eq 0) c) (Fin.cast (nSub_eq 0) i))) = _
  exact bigSep_congr fun i _ => congrArg₂ (fun a b => go0 Vc d (wOf a b)) (Fin.ext rfl) (Fin.ext rfl)

/-- What comes back is the workers' parts after the call. -/
theorem dn_eq_0 (d : Dev nD) :
    (bigSep Finset.univ fun c : Fin ((K (F := F)).nCore 0) => (P (F := F) Vc).dn 0 d c)
      = bigSep Finset.univ fun c : Fin 2 => bigSep Finset.univ fun i : Fin 16 =>
          iprop((iLoc d ↦[iRowSet (wOf c i)]{fullShare} Vc 0 d (Proc.devRef .tc main_v4)) ∗ (xLoc0 d ↦{sh (wOf c i)} Vc 0 d (Proc.devRef .tc main_v2))
            ∗ ∃ OUT, ⌜GatherSpec (wOf c i) (Vc 0 d (Proc.devRef .tc main_v4)) (Vc 0 d (Proc.devRef .tc main_v2)) OUT⌝ ∗ oLoc0 d ↦[oRowSet (wOf c i)]{fullShare} OUT) := by
  refine bigSep_congr fun c _ => ?_
  show (bigSep Finset.univ fun i : Fin ((K (F := F)).nSub 0) => tdOf Vc 0 d (wOf (Fin.cast (nCore_eq 0) c) (Fin.cast (nSub_eq 0) i))) = _
  exact bigSep_congr fun i _ => congrArg₂ (fun a b => td0 Vc d (wOf a b)) (Fin.ext rfl) (Fin.ext rfl)

theorem run_step0 (κ : GSem nD τ sig → ℕ) (d : Dev nD) (V : Valuation τ sig (Elt F)) (Ps : Finset (Fin 6)) (hVc : Vc 0 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 0 V Ps
        ∗ (St (F := F) d 1 (Function.update V (Proc.devRef .tc main_v20) (gatherFn (V (Proc.devRef .tc main_v4)) (V (Proc.devRef .tc main_v2)))) Ps
            -∗ wp frame (wpE (DD (F := F)) 𝒱 (T d) none) Set.univ (k ⟨⟩) Q))
      ⊢ wp frame (wpE (DD (F := F)) 𝒱 (T d) none) Set.univ ((K (F := F)).run d 0 >>= k) Q := by
  subst hVc
  rw [wp_bind]
  unfold St
  rw [held_sub_split (T d) T3_0_sub (Vc 0 d), held_T3_0]
  iintro ⟨#Hctx, ⟨Hb, ⟨⟨Hi, Hx, Ho⟩, Hrest⟩, Hst, Hg⟩, Hk⟩
  iapply ((K (F := F)).wp_run (D (F := F)) 𝒱 (EH := EH) (P := P Vc) κ d 0) $$ [Hst Hi Hx Ho Hb Hrest Hg Hk]
  isplitr; · iexact Hctx
  isplitl [Hst]; · iexact Hst
  isplitl [Hi Hx Ho]
  · iapply (Entails.of_eq (st_eq_0 Vc d).symm)
    iapply (split0 d (Vc 0 d (Proc.devRef .tc main_v4)) (Vc 0 d (Proc.devRef .tc main_v2)) (Vc 0 d (Proc.devRef .tc main_v20)))
    isplitl [Hi]; · iexact Hi
    isplitl [Hx]; · iexact Hx
    iexact Ho
  iintro ⟨Hst, Hdn⟩
  ihave Hdn' := (Entails.of_eq (dn_eq_0 Vc d)) $$ Hdn
  ihave H := (join0 d (Vc 0 d (Proc.devRef .tc main_v4)) (Vc 0 d (Proc.devRef .tc main_v2)) hidx) $$ Hdn'
  iapply Hk
  isplitl [Hb]; · iexact Hb
  isplitl [H Hrest]
  · iapply (held_update_0 d (Vc 0 d) _)
    isplitl [H]; · iexact H
    iexact Hrest
  isplitl [Hst]; · iexact Hst
  iexact Hg

/-! ## Call 1: the index array, the table `main_arg0`, the output `main_v23` -/

/-- The call's three arrays. -/
def T3_1 : Finset (DevRef τ sig) := {Proc.devRef .tc main_v4, Proc.devRef .tc main_arg0, Proc.devRef .tc main_v23}

theorem T3_1_sub : T3_1 ⊆ SS := by
  intro b hb
  simp only [T3_1, Finset.mem_insert, Finset.mem_singleton] at hb
  rcases hb with rfl | rfl | rfl
  · exact mem_SS (by decide)
  · exact mem_SS (by decide)
  · exact mem_SS (by decide)

/-- Held whole, the three arrays are three points-tos. -/
theorem held_T3_1 (d : Dev nD) (W : Valuation τ sig (Elt F)) :
    (held (T d) T3_1 W : sProp 𝕄)
      = iprop((iLoc d ↦{fullShare} W (Proc.devRef .tc main_v4)) ∗ (xLoc1 d ↦{fullShare} W (Proc.devRef .tc main_arg0))
          ∗ oLoc1 d ↦{fullShare} W (Proc.devRef .tc main_v23)) := by
  unfold held T3_1
  rw [bigSep_insert (by decide), bigSep_insert (by decide), bigSep_singleton]
  rfl

/-- The arrays back, the output at a new valuation, are the TensorCore's arrays at the updated valuation. -/
theorem held_update_1 (d : Dev nD) (W : Valuation τ sig (Elt F)) (G : S320000x128.Idx → Elt F .f32) :
    iprop(((iLoc d ↦{fullShare} W (Proc.devRef .tc main_v4)) ∗ (xLoc1 d ↦{fullShare} W (Proc.devRef .tc main_arg0)) ∗ oLoc1 d ↦{fullShare} G)
        ∗ held (T d) (SS \ T3_1) W)
      ⊢ (held (T d) SS (Function.update W (Proc.devRef .tc main_v23) G) : sProp 𝕄) := by
  rw [held_sub_split (T d) T3_1_sub (Function.update W (Proc.devRef .tc main_v23) G), held_T3_1,
    Function.update_self, Function.update_of_ne (by decide), Function.update_of_ne (by decide),
    held_congr (T d) (S := SS \ T3_1) (V := Function.update W (Proc.devRef .tc main_v23) G) (V' := W) fun b hb =>
      Function.update_of_ne (fun e => (Finset.mem_sdiff.mp hb).2 (by rw [e]; simp [T3_1])) _ _]

/-- What the TensorCore hands the two SparseCores is the thirty-two workers' parts, by core and subcore. -/
theorem st_eq_1 (d : Dev nD) :
    (bigSep Finset.univ fun c : Fin ((K (F := F)).nCore 1) => (P (F := F) Vc).st 1 d c)
      = bigSep Finset.univ fun c : Fin 2 => bigSep Finset.univ fun i : Fin 16 =>
          iprop((iLoc d ↦[iRowSet (wOf c i)]{fullShare} Vc 1 d (Proc.devRef .tc main_v4)) ∗ (xLoc1 d ↦{sh (wOf c i)} Vc 1 d (Proc.devRef .tc main_arg0))
            ∗ oLoc1 d ↦[oRowSet (wOf c i)]{fullShare} Vc 1 d (Proc.devRef .tc main_v23)) := by
  refine bigSep_congr fun c _ => ?_
  show (bigSep Finset.univ fun i : Fin ((K (F := F)).nSub 1) => goOf Vc 1 d (wOf (Fin.cast (nCore_eq 1) c) (Fin.cast (nSub_eq 1) i))) = _
  exact bigSep_congr fun i _ => congrArg₂ (fun a b => go1 Vc d (wOf a b)) (Fin.ext rfl) (Fin.ext rfl)

/-- What comes back is the workers' parts after the call. -/
theorem dn_eq_1 (d : Dev nD) :
    (bigSep Finset.univ fun c : Fin ((K (F := F)).nCore 1) => (P (F := F) Vc).dn 1 d c)
      = bigSep Finset.univ fun c : Fin 2 => bigSep Finset.univ fun i : Fin 16 =>
          iprop((iLoc d ↦[iRowSet (wOf c i)]{fullShare} Vc 1 d (Proc.devRef .tc main_v4)) ∗ (xLoc1 d ↦{sh (wOf c i)} Vc 1 d (Proc.devRef .tc main_arg0))
            ∗ ∃ OUT, ⌜GatherSpec (wOf c i) (Vc 1 d (Proc.devRef .tc main_v4)) (Vc 1 d (Proc.devRef .tc main_arg0)) OUT⌝ ∗ oLoc1 d ↦[oRowSet (wOf c i)]{fullShare} OUT) := by
  refine bigSep_congr fun c _ => ?_
  show (bigSep Finset.univ fun i : Fin ((K (F := F)).nSub 1) => tdOf Vc 1 d (wOf (Fin.cast (nCore_eq 1) c) (Fin.cast (nSub_eq 1) i))) = _
  exact bigSep_congr fun i _ => congrArg₂ (fun a b => td1 Vc d (wOf a b)) (Fin.ext rfl) (Fin.ext rfl)

theorem run_step1 (κ : GSem nD τ sig → ℕ) (d : Dev nD) (V : Valuation τ sig (Elt F)) (Ps : Finset (Fin 6)) (hVc : Vc 1 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 1 V Ps
        ∗ (St (F := F) d 2 (Function.update V (Proc.devRef .tc main_v23) (gatherFn (V (Proc.devRef .tc main_v4)) (V (Proc.devRef .tc main_arg0)))) Ps
            -∗ wp frame (wpE (DD (F := F)) 𝒱 (T d) none) Set.univ (k ⟨⟩) Q))
      ⊢ wp frame (wpE (DD (F := F)) 𝒱 (T d) none) Set.univ ((K (F := F)).run d 1 >>= k) Q := by
  subst hVc
  rw [wp_bind]
  unfold St
  rw [held_sub_split (T d) T3_1_sub (Vc 1 d), held_T3_1]
  iintro ⟨#Hctx, ⟨Hb, ⟨⟨Hi, Hx, Ho⟩, Hrest⟩, Hst, Hg⟩, Hk⟩
  iapply ((K (F := F)).wp_run (D (F := F)) 𝒱 (EH := EH) (P := P Vc) κ d 1) $$ [Hst Hi Hx Ho Hb Hrest Hg Hk]
  isplitr; · iexact Hctx
  isplitl [Hst]; · iexact Hst
  isplitl [Hi Hx Ho]
  · iapply (Entails.of_eq (st_eq_1 Vc d).symm)
    iapply (split1 d (Vc 1 d (Proc.devRef .tc main_v4)) (Vc 1 d (Proc.devRef .tc main_arg0)) (Vc 1 d (Proc.devRef .tc main_v23)))
    isplitl [Hi]; · iexact Hi
    isplitl [Hx]; · iexact Hx
    iexact Ho
  iintro ⟨Hst, Hdn⟩
  ihave Hdn' := (Entails.of_eq (dn_eq_1 Vc d)) $$ Hdn
  ihave H := (join1 d (Vc 1 d (Proc.devRef .tc main_v4)) (Vc 1 d (Proc.devRef .tc main_arg0)) hidx) $$ Hdn'
  iapply Hk
  isplitl [Hb]; · iexact Hb
  isplitl [H Hrest]
  · iapply (held_update_1 d (Vc 1 d) _)
    isplitl [H]; · iexact H
    iexact Hrest
  isplitl [Hst]; · iexact Hst
  iexact Hg

/-! ## Call 2: the index array, the table `main_v35`, the output `main_v36` -/

/-- The call's three arrays. -/
def T3_2 : Finset (DevRef τ sig) := {Proc.devRef .tc main_v4, Proc.devRef .tc main_v35, Proc.devRef .tc main_v36}

theorem T3_2_sub : T3_2 ⊆ SS := by
  intro b hb
  simp only [T3_2, Finset.mem_insert, Finset.mem_singleton] at hb
  rcases hb with rfl | rfl | rfl
  · exact mem_SS (by decide)
  · exact mem_SS (by decide)
  · exact mem_SS (by decide)

/-- Held whole, the three arrays are three points-tos. -/
theorem held_T3_2 (d : Dev nD) (W : Valuation τ sig (Elt F)) :
    (held (T d) T3_2 W : sProp 𝕄)
      = iprop((iLoc d ↦{fullShare} W (Proc.devRef .tc main_v4)) ∗ (xLoc2 d ↦{fullShare} W (Proc.devRef .tc main_v35))
          ∗ oLoc2 d ↦{fullShare} W (Proc.devRef .tc main_v36)) := by
  unfold held T3_2
  rw [bigSep_insert (by decide), bigSep_insert (by decide), bigSep_singleton]
  rfl

/-- The arrays back, the output at a new valuation, are the TensorCore's arrays at the updated valuation. -/
theorem held_update_2 (d : Dev nD) (W : Valuation τ sig (Elt F)) (G : S320000x128.Idx → Elt F .f32) :
    iprop(((iLoc d ↦{fullShare} W (Proc.devRef .tc main_v4)) ∗ (xLoc2 d ↦{fullShare} W (Proc.devRef .tc main_v35)) ∗ oLoc2 d ↦{fullShare} G)
        ∗ held (T d) (SS \ T3_2) W)
      ⊢ (held (T d) SS (Function.update W (Proc.devRef .tc main_v36) G) : sProp 𝕄) := by
  rw [held_sub_split (T d) T3_2_sub (Function.update W (Proc.devRef .tc main_v36) G), held_T3_2,
    Function.update_self, Function.update_of_ne (by decide), Function.update_of_ne (by decide),
    held_congr (T d) (S := SS \ T3_2) (V := Function.update W (Proc.devRef .tc main_v36) G) (V' := W) fun b hb =>
      Function.update_of_ne (fun e => (Finset.mem_sdiff.mp hb).2 (by rw [e]; simp [T3_2])) _ _]

/-- What the TensorCore hands the two SparseCores is the thirty-two workers' parts, by core and subcore. -/
theorem st_eq_2 (d : Dev nD) :
    (bigSep Finset.univ fun c : Fin ((K (F := F)).nCore 2) => (P (F := F) Vc).st 2 d c)
      = bigSep Finset.univ fun c : Fin 2 => bigSep Finset.univ fun i : Fin 16 =>
          iprop((iLoc d ↦[iRowSet (wOf c i)]{fullShare} Vc 2 d (Proc.devRef .tc main_v4)) ∗ (xLoc2 d ↦{sh (wOf c i)} Vc 2 d (Proc.devRef .tc main_v35))
            ∗ oLoc2 d ↦[oRowSet (wOf c i)]{fullShare} Vc 2 d (Proc.devRef .tc main_v36)) := by
  refine bigSep_congr fun c _ => ?_
  show (bigSep Finset.univ fun i : Fin ((K (F := F)).nSub 2) => goOf Vc 2 d (wOf (Fin.cast (nCore_eq 2) c) (Fin.cast (nSub_eq 2) i))) = _
  exact bigSep_congr fun i _ => congrArg₂ (fun a b => go2 Vc d (wOf a b)) (Fin.ext rfl) (Fin.ext rfl)

/-- What comes back is the workers' parts after the call. -/
theorem dn_eq_2 (d : Dev nD) :
    (bigSep Finset.univ fun c : Fin ((K (F := F)).nCore 2) => (P (F := F) Vc).dn 2 d c)
      = bigSep Finset.univ fun c : Fin 2 => bigSep Finset.univ fun i : Fin 16 =>
          iprop((iLoc d ↦[iRowSet (wOf c i)]{fullShare} Vc 2 d (Proc.devRef .tc main_v4)) ∗ (xLoc2 d ↦{sh (wOf c i)} Vc 2 d (Proc.devRef .tc main_v35))
            ∗ ∃ OUT, ⌜GatherSpec (wOf c i) (Vc 2 d (Proc.devRef .tc main_v4)) (Vc 2 d (Proc.devRef .tc main_v35)) OUT⌝ ∗ oLoc2 d ↦[oRowSet (wOf c i)]{fullShare} OUT) := by
  refine bigSep_congr fun c _ => ?_
  show (bigSep Finset.univ fun i : Fin ((K (F := F)).nSub 2) => tdOf Vc 2 d (wOf (Fin.cast (nCore_eq 2) c) (Fin.cast (nSub_eq 2) i))) = _
  exact bigSep_congr fun i _ => congrArg₂ (fun a b => td2 Vc d (wOf a b)) (Fin.ext rfl) (Fin.ext rfl)

theorem run_step2 (κ : GSem nD τ sig → ℕ) (d : Dev nD) (V : Valuation τ sig (Elt F)) (Ps : Finset (Fin 6)) (hVc : Vc 2 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 2 V Ps
        ∗ (St (F := F) d 3 (Function.update V (Proc.devRef .tc main_v36) (gatherFn (V (Proc.devRef .tc main_v4)) (V (Proc.devRef .tc main_v35)))) Ps
            -∗ wp frame (wpE (DD (F := F)) 𝒱 (T d) none) Set.univ (k ⟨⟩) Q))
      ⊢ wp frame (wpE (DD (F := F)) 𝒱 (T d) none) Set.univ ((K (F := F)).run d 2 >>= k) Q := by
  subst hVc
  rw [wp_bind]
  unfold St
  rw [held_sub_split (T d) T3_2_sub (Vc 2 d), held_T3_2]
  iintro ⟨#Hctx, ⟨Hb, ⟨⟨Hi, Hx, Ho⟩, Hrest⟩, Hst, Hg⟩, Hk⟩
  iapply ((K (F := F)).wp_run (D (F := F)) 𝒱 (EH := EH) (P := P Vc) κ d 2) $$ [Hst Hi Hx Ho Hb Hrest Hg Hk]
  isplitr; · iexact Hctx
  isplitl [Hst]; · iexact Hst
  isplitl [Hi Hx Ho]
  · iapply (Entails.of_eq (st_eq_2 Vc d).symm)
    iapply (split2 d (Vc 2 d (Proc.devRef .tc main_v4)) (Vc 2 d (Proc.devRef .tc main_v35)) (Vc 2 d (Proc.devRef .tc main_v36)))
    isplitl [Hi]; · iexact Hi
    isplitl [Hx]; · iexact Hx
    iexact Ho
  iintro ⟨Hst, Hdn⟩
  ihave Hdn' := (Entails.of_eq (dn_eq_2 Vc d)) $$ Hdn
  ihave H := (join2 d (Vc 2 d (Proc.devRef .tc main_v4)) (Vc 2 d (Proc.devRef .tc main_v35)) hidx) $$ Hdn'
  iapply Hk
  isplitl [Hb]; · iexact Hb
  isplitl [H Hrest]
  · iapply (held_update_2 d (Vc 2 d) _)
    isplitl [H]; · iexact H
    iexact Hrest
  isplitl [Hst]; · iexact Hst
  iexact Hg

/-! ## Call 3: the index array, the table `main_v48`, the output `main_v49` -/

/-- The call's three arrays. -/
def T3_3 : Finset (DevRef τ sig) := {Proc.devRef .tc main_v4, Proc.devRef .tc main_v48, Proc.devRef .tc main_v49}

theorem T3_3_sub : T3_3 ⊆ SS := by
  intro b hb
  simp only [T3_3, Finset.mem_insert, Finset.mem_singleton] at hb
  rcases hb with rfl | rfl | rfl
  · exact mem_SS (by decide)
  · exact mem_SS (by decide)
  · exact mem_SS (by decide)

/-- Held whole, the three arrays are three points-tos. -/
theorem held_T3_3 (d : Dev nD) (W : Valuation τ sig (Elt F)) :
    (held (T d) T3_3 W : sProp 𝕄)
      = iprop((iLoc d ↦{fullShare} W (Proc.devRef .tc main_v4)) ∗ (xLoc3 d ↦{fullShare} W (Proc.devRef .tc main_v48))
          ∗ oLoc3 d ↦{fullShare} W (Proc.devRef .tc main_v49)) := by
  unfold held T3_3
  rw [bigSep_insert (by decide), bigSep_insert (by decide), bigSep_singleton]
  rfl

/-- The arrays back, the output at a new valuation, are the TensorCore's arrays at the updated valuation. -/
theorem held_update_3 (d : Dev nD) (W : Valuation τ sig (Elt F)) (G : S320000x128.Idx → Elt F .f32) :
    iprop(((iLoc d ↦{fullShare} W (Proc.devRef .tc main_v4)) ∗ (xLoc3 d ↦{fullShare} W (Proc.devRef .tc main_v48)) ∗ oLoc3 d ↦{fullShare} G)
        ∗ held (T d) (SS \ T3_3) W)
      ⊢ (held (T d) SS (Function.update W (Proc.devRef .tc main_v49) G) : sProp 𝕄) := by
  rw [held_sub_split (T d) T3_3_sub (Function.update W (Proc.devRef .tc main_v49) G), held_T3_3,
    Function.update_self, Function.update_of_ne (by decide), Function.update_of_ne (by decide),
    held_congr (T d) (S := SS \ T3_3) (V := Function.update W (Proc.devRef .tc main_v49) G) (V' := W) fun b hb =>
      Function.update_of_ne (fun e => (Finset.mem_sdiff.mp hb).2 (by rw [e]; simp [T3_3])) _ _]

/-- What the TensorCore hands the two SparseCores is the thirty-two workers' parts, by core and subcore. -/
theorem st_eq_3 (d : Dev nD) :
    (bigSep Finset.univ fun c : Fin ((K (F := F)).nCore 3) => (P (F := F) Vc).st 3 d c)
      = bigSep Finset.univ fun c : Fin 2 => bigSep Finset.univ fun i : Fin 16 =>
          iprop((iLoc d ↦[iRowSet (wOf c i)]{fullShare} Vc 3 d (Proc.devRef .tc main_v4)) ∗ (xLoc3 d ↦{sh (wOf c i)} Vc 3 d (Proc.devRef .tc main_v48))
            ∗ oLoc3 d ↦[oRowSet (wOf c i)]{fullShare} Vc 3 d (Proc.devRef .tc main_v49)) := by
  refine bigSep_congr fun c _ => ?_
  show (bigSep Finset.univ fun i : Fin ((K (F := F)).nSub 3) => goOf Vc 3 d (wOf (Fin.cast (nCore_eq 3) c) (Fin.cast (nSub_eq 3) i))) = _
  exact bigSep_congr fun i _ => congrArg₂ (fun a b => go3 Vc d (wOf a b)) (Fin.ext rfl) (Fin.ext rfl)

/-- What comes back is the workers' parts after the call. -/
theorem dn_eq_3 (d : Dev nD) :
    (bigSep Finset.univ fun c : Fin ((K (F := F)).nCore 3) => (P (F := F) Vc).dn 3 d c)
      = bigSep Finset.univ fun c : Fin 2 => bigSep Finset.univ fun i : Fin 16 =>
          iprop((iLoc d ↦[iRowSet (wOf c i)]{fullShare} Vc 3 d (Proc.devRef .tc main_v4)) ∗ (xLoc3 d ↦{sh (wOf c i)} Vc 3 d (Proc.devRef .tc main_v48))
            ∗ ∃ OUT, ⌜GatherSpec (wOf c i) (Vc 3 d (Proc.devRef .tc main_v4)) (Vc 3 d (Proc.devRef .tc main_v48)) OUT⌝ ∗ oLoc3 d ↦[oRowSet (wOf c i)]{fullShare} OUT) := by
  refine bigSep_congr fun c _ => ?_
  show (bigSep Finset.univ fun i : Fin ((K (F := F)).nSub 3) => tdOf Vc 3 d (wOf (Fin.cast (nCore_eq 3) c) (Fin.cast (nSub_eq 3) i))) = _
  exact bigSep_congr fun i _ => congrArg₂ (fun a b => td3 Vc d (wOf a b)) (Fin.ext rfl) (Fin.ext rfl)

theorem run_step3 (κ : GSem nD τ sig → ℕ) (d : Dev nD) (V : Valuation τ sig (Elt F)) (Ps : Finset (Fin 6)) (hVc : Vc 3 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 3 V Ps
        ∗ (St (F := F) d 4 (Function.update V (Proc.devRef .tc main_v49) (gatherFn (V (Proc.devRef .tc main_v4)) (V (Proc.devRef .tc main_v48)))) Ps
            -∗ wp frame (wpE (DD (F := F)) 𝒱 (T d) none) Set.univ (k ⟨⟩) Q))
      ⊢ wp frame (wpE (DD (F := F)) 𝒱 (T d) none) Set.univ ((K (F := F)).run d 3 >>= k) Q := by
  subst hVc
  rw [wp_bind]
  unfold St
  rw [held_sub_split (T d) T3_3_sub (Vc 3 d), held_T3_3]
  iintro ⟨#Hctx, ⟨Hb, ⟨⟨Hi, Hx, Ho⟩, Hrest⟩, Hst, Hg⟩, Hk⟩
  iapply ((K (F := F)).wp_run (D (F := F)) 𝒱 (EH := EH) (P := P Vc) κ d 3) $$ [Hst Hi Hx Ho Hb Hrest Hg Hk]
  isplitr; · iexact Hctx
  isplitl [Hst]; · iexact Hst
  isplitl [Hi Hx Ho]
  · iapply (Entails.of_eq (st_eq_3 Vc d).symm)
    iapply (split3 d (Vc 3 d (Proc.devRef .tc main_v4)) (Vc 3 d (Proc.devRef .tc main_v48)) (Vc 3 d (Proc.devRef .tc main_v49)))
    isplitl [Hi]; · iexact Hi
    isplitl [Hx]; · iexact Hx
    iexact Ho
  iintro ⟨Hst, Hdn⟩
  ihave Hdn' := (Entails.of_eq (dn_eq_3 Vc d)) $$ Hdn
  ihave H := (join3 d (Vc 3 d (Proc.devRef .tc main_v4)) (Vc 3 d (Proc.devRef .tc main_v48)) hidx) $$ Hdn'
  iapply Hk
  isplitl [Hb]; · iexact Hb
  isplitl [H Hrest]
  · iapply (held_update_3 d (Vc 3 d) _)
    isplitl [H]; · iexact H
    iexact Hrest
  isplitl [Hst]; · iexact Hst
  iexact Hg

/-! ## Call 4: the index array, the table `main_v61`, the output `main_v62` -/

/-- The call's three arrays. -/
def T3_4 : Finset (DevRef τ sig) := {Proc.devRef .tc main_v4, Proc.devRef .tc main_v61, Proc.devRef .tc main_v62}

theorem T3_4_sub : T3_4 ⊆ SS := by
  intro b hb
  simp only [T3_4, Finset.mem_insert, Finset.mem_singleton] at hb
  rcases hb with rfl | rfl | rfl
  · exact mem_SS (by decide)
  · exact mem_SS (by decide)
  · exact mem_SS (by decide)

/-- Held whole, the three arrays are three points-tos. -/
theorem held_T3_4 (d : Dev nD) (W : Valuation τ sig (Elt F)) :
    (held (T d) T3_4 W : sProp 𝕄)
      = iprop((iLoc d ↦{fullShare} W (Proc.devRef .tc main_v4)) ∗ (xLoc4 d ↦{fullShare} W (Proc.devRef .tc main_v61))
          ∗ oLoc4 d ↦{fullShare} W (Proc.devRef .tc main_v62)) := by
  unfold held T3_4
  rw [bigSep_insert (by decide), bigSep_insert (by decide), bigSep_singleton]
  rfl

/-- The arrays back, the output at a new valuation, are the TensorCore's arrays at the updated valuation. -/
theorem held_update_4 (d : Dev nD) (W : Valuation τ sig (Elt F)) (G : S320000x128.Idx → Elt F .f32) :
    iprop(((iLoc d ↦{fullShare} W (Proc.devRef .tc main_v4)) ∗ (xLoc4 d ↦{fullShare} W (Proc.devRef .tc main_v61)) ∗ oLoc4 d ↦{fullShare} G)
        ∗ held (T d) (SS \ T3_4) W)
      ⊢ (held (T d) SS (Function.update W (Proc.devRef .tc main_v62) G) : sProp 𝕄) := by
  rw [held_sub_split (T d) T3_4_sub (Function.update W (Proc.devRef .tc main_v62) G), held_T3_4,
    Function.update_self, Function.update_of_ne (by decide), Function.update_of_ne (by decide),
    held_congr (T d) (S := SS \ T3_4) (V := Function.update W (Proc.devRef .tc main_v62) G) (V' := W) fun b hb =>
      Function.update_of_ne (fun e => (Finset.mem_sdiff.mp hb).2 (by rw [e]; simp [T3_4])) _ _]

/-- What the TensorCore hands the two SparseCores is the thirty-two workers' parts, by core and subcore. -/
theorem st_eq_4 (d : Dev nD) :
    (bigSep Finset.univ fun c : Fin ((K (F := F)).nCore 4) => (P (F := F) Vc).st 4 d c)
      = bigSep Finset.univ fun c : Fin 2 => bigSep Finset.univ fun i : Fin 16 =>
          iprop((iLoc d ↦[iRowSet (wOf c i)]{fullShare} Vc 4 d (Proc.devRef .tc main_v4)) ∗ (xLoc4 d ↦{sh (wOf c i)} Vc 4 d (Proc.devRef .tc main_v61))
            ∗ oLoc4 d ↦[oRowSet (wOf c i)]{fullShare} Vc 4 d (Proc.devRef .tc main_v62)) := by
  refine bigSep_congr fun c _ => ?_
  show (bigSep Finset.univ fun i : Fin ((K (F := F)).nSub 4) => goOf Vc 4 d (wOf (Fin.cast (nCore_eq 4) c) (Fin.cast (nSub_eq 4) i))) = _
  exact bigSep_congr fun i _ => congrArg₂ (fun a b => go4 Vc d (wOf a b)) (Fin.ext rfl) (Fin.ext rfl)

/-- What comes back is the workers' parts after the call. -/
theorem dn_eq_4 (d : Dev nD) :
    (bigSep Finset.univ fun c : Fin ((K (F := F)).nCore 4) => (P (F := F) Vc).dn 4 d c)
      = bigSep Finset.univ fun c : Fin 2 => bigSep Finset.univ fun i : Fin 16 =>
          iprop((iLoc d ↦[iRowSet (wOf c i)]{fullShare} Vc 4 d (Proc.devRef .tc main_v4)) ∗ (xLoc4 d ↦{sh (wOf c i)} Vc 4 d (Proc.devRef .tc main_v61))
            ∗ ∃ OUT, ⌜GatherSpec (wOf c i) (Vc 4 d (Proc.devRef .tc main_v4)) (Vc 4 d (Proc.devRef .tc main_v61)) OUT⌝ ∗ oLoc4 d ↦[oRowSet (wOf c i)]{fullShare} OUT) := by
  refine bigSep_congr fun c _ => ?_
  show (bigSep Finset.univ fun i : Fin ((K (F := F)).nSub 4) => tdOf Vc 4 d (wOf (Fin.cast (nCore_eq 4) c) (Fin.cast (nSub_eq 4) i))) = _
  exact bigSep_congr fun i _ => congrArg₂ (fun a b => td4 Vc d (wOf a b)) (Fin.ext rfl) (Fin.ext rfl)

theorem run_step4 (κ : GSem nD τ sig → ℕ) (d : Dev nD) (V : Valuation τ sig (Elt F)) (Ps : Finset (Fin 6)) (hVc : Vc 4 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 4 V Ps
        ∗ (St (F := F) d 5 (Function.update V (Proc.devRef .tc main_v62) (gatherFn (V (Proc.devRef .tc main_v4)) (V (Proc.devRef .tc main_v61)))) Ps
            -∗ wp frame (wpE (DD (F := F)) 𝒱 (T d) none) Set.univ (k ⟨⟩) Q))
      ⊢ wp frame (wpE (DD (F := F)) 𝒱 (T d) none) Set.univ ((K (F := F)).run d 4 >>= k) Q := by
  subst hVc
  rw [wp_bind]
  unfold St
  rw [held_sub_split (T d) T3_4_sub (Vc 4 d), held_T3_4]
  iintro ⟨#Hctx, ⟨Hb, ⟨⟨Hi, Hx, Ho⟩, Hrest⟩, Hst, Hg⟩, Hk⟩
  iapply ((K (F := F)).wp_run (D (F := F)) 𝒱 (EH := EH) (P := P Vc) κ d 4) $$ [Hst Hi Hx Ho Hb Hrest Hg Hk]
  isplitr; · iexact Hctx
  isplitl [Hst]; · iexact Hst
  isplitl [Hi Hx Ho]
  · iapply (Entails.of_eq (st_eq_4 Vc d).symm)
    iapply (split4 d (Vc 4 d (Proc.devRef .tc main_v4)) (Vc 4 d (Proc.devRef .tc main_v61)) (Vc 4 d (Proc.devRef .tc main_v62)))
    isplitl [Hi]; · iexact Hi
    isplitl [Hx]; · iexact Hx
    iexact Ho
  iintro ⟨Hst, Hdn⟩
  ihave Hdn' := (Entails.of_eq (dn_eq_4 Vc d)) $$ Hdn
  ihave H := (join4 d (Vc 4 d (Proc.devRef .tc main_v4)) (Vc 4 d (Proc.devRef .tc main_v61)) hidx) $$ Hdn'
  iapply Hk
  isplitl [Hb]; · iexact Hb
  isplitl [H Hrest]
  · iapply (held_update_4 d (Vc 4 d) _)
    isplitl [H]; · iexact H
    iexact Hrest
  isplitl [Hst]; · iexact Hst
  iexact Hg

/-! ## Call 5: the index array, the table `main_v74`, the output `main_v75` -/

/-- The call's three arrays. -/
def T3_5 : Finset (DevRef τ sig) := {Proc.devRef .tc main_v4, Proc.devRef .tc main_v74, Proc.devRef .tc main_v75}

theorem T3_5_sub : T3_5 ⊆ SS := by
  intro b hb
  simp only [T3_5, Finset.mem_insert, Finset.mem_singleton] at hb
  rcases hb with rfl | rfl | rfl
  · exact mem_SS (by decide)
  · exact mem_SS (by decide)
  · exact mem_SS (by decide)

/-- Held whole, the three arrays are three points-tos. -/
theorem held_T3_5 (d : Dev nD) (W : Valuation τ sig (Elt F)) :
    (held (T d) T3_5 W : sProp 𝕄)
      = iprop((iLoc d ↦{fullShare} W (Proc.devRef .tc main_v4)) ∗ (xLoc5 d ↦{fullShare} W (Proc.devRef .tc main_v74))
          ∗ oLoc5 d ↦{fullShare} W (Proc.devRef .tc main_v75)) := by
  unfold held T3_5
  rw [bigSep_insert (by decide), bigSep_insert (by decide), bigSep_singleton]
  rfl

/-- The arrays back, the output at a new valuation, are the TensorCore's arrays at the updated valuation. -/
theorem held_update_5 (d : Dev nD) (W : Valuation τ sig (Elt F)) (G : S320000x128.Idx → Elt F .f32) :
    iprop(((iLoc d ↦{fullShare} W (Proc.devRef .tc main_v4)) ∗ (xLoc5 d ↦{fullShare} W (Proc.devRef .tc main_v74)) ∗ oLoc5 d ↦{fullShare} G)
        ∗ held (T d) (SS \ T3_5) W)
      ⊢ (held (T d) SS (Function.update W (Proc.devRef .tc main_v75) G) : sProp 𝕄) := by
  rw [held_sub_split (T d) T3_5_sub (Function.update W (Proc.devRef .tc main_v75) G), held_T3_5,
    Function.update_self, Function.update_of_ne (by decide), Function.update_of_ne (by decide),
    held_congr (T d) (S := SS \ T3_5) (V := Function.update W (Proc.devRef .tc main_v75) G) (V' := W) fun b hb =>
      Function.update_of_ne (fun e => (Finset.mem_sdiff.mp hb).2 (by rw [e]; simp [T3_5])) _ _]

/-- What the TensorCore hands the two SparseCores is the thirty-two workers' parts, by core and subcore. -/
theorem st_eq_5 (d : Dev nD) :
    (bigSep Finset.univ fun c : Fin ((K (F := F)).nCore 5) => (P (F := F) Vc).st 5 d c)
      = bigSep Finset.univ fun c : Fin 2 => bigSep Finset.univ fun i : Fin 16 =>
          iprop((iLoc d ↦[iRowSet (wOf c i)]{fullShare} Vc 5 d (Proc.devRef .tc main_v4)) ∗ (xLoc5 d ↦{sh (wOf c i)} Vc 5 d (Proc.devRef .tc main_v74))
            ∗ oLoc5 d ↦[oRowSet (wOf c i)]{fullShare} Vc 5 d (Proc.devRef .tc main_v75)) := by
  refine bigSep_congr fun c _ => ?_
  show (bigSep Finset.univ fun i : Fin ((K (F := F)).nSub 5) => goOf Vc 5 d (wOf (Fin.cast (nCore_eq 5) c) (Fin.cast (nSub_eq 5) i))) = _
  exact bigSep_congr fun i _ => congrArg₂ (fun a b => go5 Vc d (wOf a b)) (Fin.ext rfl) (Fin.ext rfl)

/-- What comes back is the workers' parts after the call. -/
theorem dn_eq_5 (d : Dev nD) :
    (bigSep Finset.univ fun c : Fin ((K (F := F)).nCore 5) => (P (F := F) Vc).dn 5 d c)
      = bigSep Finset.univ fun c : Fin 2 => bigSep Finset.univ fun i : Fin 16 =>
          iprop((iLoc d ↦[iRowSet (wOf c i)]{fullShare} Vc 5 d (Proc.devRef .tc main_v4)) ∗ (xLoc5 d ↦{sh (wOf c i)} Vc 5 d (Proc.devRef .tc main_v74))
            ∗ ∃ OUT, ⌜GatherSpec (wOf c i) (Vc 5 d (Proc.devRef .tc main_v4)) (Vc 5 d (Proc.devRef .tc main_v74)) OUT⌝ ∗ oLoc5 d ↦[oRowSet (wOf c i)]{fullShare} OUT) := by
  refine bigSep_congr fun c _ => ?_
  show (bigSep Finset.univ fun i : Fin ((K (F := F)).nSub 5) => tdOf Vc 5 d (wOf (Fin.cast (nCore_eq 5) c) (Fin.cast (nSub_eq 5) i))) = _
  exact bigSep_congr fun i _ => congrArg₂ (fun a b => td5 Vc d (wOf a b)) (Fin.ext rfl) (Fin.ext rfl)

theorem run_step5 (κ : GSem nD τ sig → ℕ) (d : Dev nD) (V : Valuation τ sig (Elt F)) (Ps : Finset (Fin 6)) (hVc : Vc 5 d = V)
    (hidx : ∀ j, (V (Proc.devRef .tc main_v4) j).toNat < 10000)
    {β : Type} (k : PUnit → Prog (TpuEff nD τ sig (Elt F) (SparseCore.Sig (ΛP (F := F)) 6) .tc) β) (Q : β → sProp 𝕄) :
    iprop((K (F := F)).ctx EH (P Vc) κ ∗ St (F := F) d 5 V Ps
        ∗ (St (F := F) d 6 (Function.update V (Proc.devRef .tc main_v75) (gatherFn (V (Proc.devRef .tc main_v4)) (V (Proc.devRef .tc main_v74)))) Ps
            -∗ wp frame (wpE (DD (F := F)) 𝒱 (T d) none) Set.univ (k ⟨⟩) Q))
      ⊢ wp frame (wpE (DD (F := F)) 𝒱 (T d) none) Set.univ ((K (F := F)).run d 5 >>= k) Q := by
  subst hVc
  rw [wp_bind]
  unfold St
  rw [held_sub_split (T d) T3_5_sub (Vc 5 d), held_T3_5]
  iintro ⟨#Hctx, ⟨Hb, ⟨⟨Hi, Hx, Ho⟩, Hrest⟩, Hst, Hg⟩, Hk⟩
  iapply ((K (F := F)).wp_run (D (F := F)) 𝒱 (EH := EH) (P := P Vc) κ d 5) $$ [Hst Hi Hx Ho Hb Hrest Hg Hk]
  isplitr; · iexact Hctx
  isplitl [Hst]; · iexact Hst
  isplitl [Hi Hx Ho]
  · iapply (Entails.of_eq (st_eq_5 Vc d).symm)
    iapply (split5 d (Vc 5 d (Proc.devRef .tc main_v4)) (Vc 5 d (Proc.devRef .tc main_v74)) (Vc 5 d (Proc.devRef .tc main_v75)))
    isplitl [Hi]; · iexact Hi
    isplitl [Hx]; · iexact Hx
    iexact Ho
  iintro ⟨Hst, Hdn⟩
  ihave Hdn' := (Entails.of_eq (dn_eq_5 Vc d)) $$ Hdn
  ihave H := (join5 d (Vc 5 d (Proc.devRef .tc main_v4)) (Vc 5 d (Proc.devRef .tc main_v74)) hidx) $$ Hdn'
  iapply Hk
  isplitl [Hb]; · iexact Hb
  isplitl [H Hrest]
  · iapply (held_update_5 d (Vc 5 d) _)
    isplitl [H]; · iexact H
    iexact Hrest
  isplitl [Hst]; · iexact Hst
  iexact Hg

end Cert.Proof.RunStepB

end
-- ==== Proof.MainRunB.lean ====
/-
  @main on the TensorCore, item by item, and the program's run.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.MainChainB
import proofs.«205547_g25623774888366_cont_9to1_713_27_alg».proof.Proof.StepsB
import proofs.«205547_g25623774888366_cont_9to1_713_27_alg».proof.Proof.Steps2B
import proofs.«205547_g25623774888366_cont_9to1_713_27_alg».proof.Proof.RegionB
import proofs.«205547_g25623774888366_cont_9to1_713_27_alg».proof.Proof.EndsB
import proofs.«205547_g25623774888366_cont_9to1_713_27_alg».proof.Proof.RunStepB
import proofs.«205547_g25623774888366_cont_9to1_713_27_alg».proof.Proof.SoftmaxBodyB
import proofs.«205547_g25623774888366_cont_9to1_713_27_alg».proof.Proof.StepBodyB
import proofs.«205547_g25623774888366_cont_9to1_713_27_alg».proof.Proof.ValsB

noncomputable section

namespace Cert.Proof.MainRunB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Proof.StepsB Cert.Proof.Steps2B Cert.Proof.RegionB Cert.Proof.EndsB Cert.Proof.RunStepB Cert.Kernel.MainChain Cert.Proof.SoftmaxBodyB Cert.Proof.StepBodyB Cert.Proof.ValsB

variable {F : FTy → Type} [FloatOps F]

local notation "𝕄" => MT nD τ sig (HIx 6) (Elt F) ℕ UU ℕ

variable (m : (ℓ : Loc nD τ sig) → Buf (Elt F) ℓ) (ρ : Dev nD → PrngReg)

/-! ## The six regions' records -/

set_option maxRecDepth 16384 in
set_option maxHeartbeats 2000000 in
theorem hyps0 : RegHyps (pdats m) 0 1 (Va1 m) (Vr0 m) where
  lf := launch1
  hA c w := A_eq1 _ _ _ c w
  hF c w := by
    match w with
    | ⟨0, _⟩ => exact (arrAt_in1 _ _ _ c 0 rfl _).trans (Function.update_of_ne (show Proc.devRef (τ := τ) .tc main_v21 ≠ Proc.devRef .tc main_v22 by decide) ((D0 m c).arrAt 5 cfg1.N) (Va1 m c)).symm
    | ⟨1, _⟩ => exact (arrAt_in1 _ _ _ c 1 rfl _).trans (Function.update_of_ne (show Proc.devRef (τ := τ) .tc main_v2 ≠ Proc.devRef .tc main_v22 by decide) ((D0 m c).arrAt 5 cfg1.N) (Va1 m c)).symm
    | ⟨2, _⟩ => exact (arrAt_in1 _ _ _ c 2 rfl _).trans (Function.update_of_ne (show Proc.devRef (τ := τ) .tc main_v7 ≠ Proc.devRef .tc main_v22 by decide) ((D0 m c).arrAt 5 cfg1.N) (Va1 m c)).symm
    | ⟨3, _⟩ => exact (arrAt_in1 _ _ _ c 3 rfl _).trans (Function.update_of_ne (show Proc.devRef (τ := τ) .tc main_v8 ≠ Proc.devRef .tc main_v22 by decide) ((D0 m c).arrAt 5 cfg1.N) (Va1 m c)).symm
    | ⟨4, _⟩ => exact (arrAt_in1 _ _ _ c 4 rfl _).trans (Function.update_of_ne (show Proc.devRef (τ := τ) .tc main_v12 ≠ Proc.devRef .tc main_v22 by decide) ((D0 m c).arrAt 5 cfg1.N) (Va1 m c)).symm
    | ⟨5, _⟩ => exact (Function.update_self (Proc.devRef (τ := τ) .tc main_v22) ((D0 m c).arrAt 5 cfg1.N) (Va1 m c)).symm
  hrest c b hb := Function.update_of_ne (fun e => hb (Finset.mem_image.mpr ⟨5, Finset.mem_univ _, (Proc.devRef_injective _ e).symm⟩)) _ _
  hΦ c t := congrArg (fun s => Pipeline.scopedRest (Ix := HIx 6) (Name := ℕ) (U := UU) (Lvl := ℕ) (Val := Elt F) s c) (rfl : spec1 = (pcfgs (F := F) 0).spec)
  hq c w := rfl
  howed c t := rfl
  hrec c t := rfl
  hbody c := body_obligation_loose1 𝒱₀ none _ _ _ c

set_option maxHeartbeats 1000000 in
theorem hyps1 : RegHyps (pdats m) 1 2 (Va2 m) (Vr1 m) where
  lf := launch3
  hA c w := A_eq3 _ _ _ c w
  hF c w := by
    match w with
    | ⟨0, _⟩ => exact (arrAt_in3 _ _ _ c 0 rfl _).trans (Function.update_of_ne (show Proc.devRef (τ := τ) .tc main_v24 ≠ Proc.devRef .tc main_v35 by decide) ((D1 m c).arrAt 8 cfg3.N) (Va2 m c)).symm
    | ⟨1, _⟩ => exact (arrAt_in3 _ _ _ c 1 rfl _).trans (Function.update_of_ne (show Proc.devRef (τ := τ) .tc main_v22 ≠ Proc.devRef .tc main_v35 by decide) ((D1 m c).arrAt 8 cfg3.N) (Va2 m c)).symm
    | ⟨2, _⟩ => exact (arrAt_in3 _ _ _ c 2 rfl _).trans (Function.update_of_ne (show Proc.devRef (τ := τ) .tc main_arg0 ≠ Proc.devRef .tc main_v35 by decide) ((D1 m c).arrAt 8 cfg3.N) (Va2 m c)).symm
    | ⟨3, _⟩ => exact (arrAt_in3 _ _ _ c 3 rfl _).trans (Function.update_of_ne (show Proc.devRef (τ := τ) .tc main_v26 ≠ Proc.devRef .tc main_v35 by decide) ((D1 m c).arrAt 8 cfg3.N) (Va2 m c)).symm
    | ⟨4, _⟩ => exact (arrAt_in3 _ _ _ c 4 rfl _).trans (Function.update_of_ne (show Proc.devRef (τ := τ) .tc main_v28 ≠ Proc.devRef .tc main_v35 by decide) ((D1 m c).arrAt 8 cfg3.N) (Va2 m c)).symm
    | ⟨5, _⟩ => exact (arrAt_in3 _ _ _ c 5 rfl _).trans (Function.update_of_ne (show Proc.devRef (τ := τ) .tc main_v30 ≠ Proc.devRef .tc main_v35 by decide) ((D1 m c).arrAt 8 cfg3.N) (Va2 m c)).symm
    | ⟨6, _⟩ => exact (arrAt_in3 _ _ _ c 6 rfl _).trans (Function.update_of_ne (show Proc.devRef (τ := τ) .tc main_v32 ≠ Proc.devRef .tc main_v35 by decide) ((D1 m c).arrAt 8 cfg3.N) (Va2 m c)).symm
    | ⟨7, _⟩ => exact (arrAt_in3 _ _ _ c 7 rfl _).trans (Function.update_of_ne (show Proc.devRef (τ := τ) .tc main_v34 ≠ Proc.devRef .tc main_v35 by decide) ((D1 m c).arrAt 8 cfg3.N) (Va2 m c)).symm
    | ⟨8, _⟩ => exact (Function.update_self (Proc.devRef (τ := τ) .tc main_v35) ((D1 m c).arrAt 8 cfg3.N) (Va2 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec3 = (pcfgs (F := F) 1).spec)
  hq c w := rfl
  howed c t := rfl
  hrec c t := rfl
  hbody c := (body_obligation3 _ _ _ 𝒱₀ none c).loose

set_option maxHeartbeats 1000000 in
theorem hyps2 : RegHyps (pdats m) 2 3 (Va3 m) (Vr2 m) where
  lf := launch5
  hA c w := A_eq5 _ _ _ c w
  hF c w := by
    match w with
    | ⟨0, _⟩ => exact (arrAt_in5 _ _ _ c 0 rfl _).trans (Function.update_of_ne (show Proc.devRef (τ := τ) .tc main_v37 ≠ Proc.devRef .tc main_v48 by decide) ((D2 m c).arrAt 8 cfg5.N) (Va3 m c)).symm
    | ⟨1, _⟩ => exact (arrAt_in5 _ _ _ c 1 rfl _).trans (Function.update_of_ne (show Proc.devRef (τ := τ) .tc main_v22 ≠ Proc.devRef .tc main_v48 by decide) ((D2 m c).arrAt 8 cfg5.N) (Va3 m c)).symm
    | ⟨2, _⟩ => exact (arrAt_in5 _ _ _ c 2 rfl _).trans (Function.update_of_ne (show Proc.devRef (τ := τ) .tc main_v35 ≠ Proc.devRef .tc main_v48 by decide) ((D2 m c).arrAt 8 cfg5.N) (Va3 m c)).symm
    | ⟨3, _⟩ => exact (arrAt_in5 _ _ _ c 3 rfl _).trans (Function.update_of_ne (show Proc.devRef (τ := τ) .tc main_v39 ≠ Proc.devRef .tc main_v48 by decide) ((D2 m c).arrAt 8 cfg5.N) (Va3 m c)).symm
    | ⟨4, _⟩ => exact (arrAt_in5 _ _ _ c 4 rfl _).trans (Function.update_of_ne (show Proc.devRef (τ := τ) .tc main_v41 ≠ Proc.devRef .tc main_v48 by decide) ((D2 m c).arrAt 8 cfg5.N) (Va3 m c)).symm
    | ⟨5, _⟩ => exact (arrAt_in5 _ _ _ c 5 rfl _).trans (Function.update_of_ne (show Proc.devRef (τ := τ) .tc main_v43 ≠ Proc.devRef .tc main_v48 by decide) ((D2 m c).arrAt 8 cfg5.N) (Va3 m c)).symm
    | ⟨6, _⟩ => exact (arrAt_in5 _ _ _ c 6 rfl _).trans (Function.update_of_ne (show Proc.devRef (τ := τ) .tc main_v45 ≠ Proc.devRef .tc main_v48 by decide) ((D2 m c).arrAt 8 cfg5.N) (Va3 m c)).symm
    | ⟨7, _⟩ => exact (arrAt_in5 _ _ _ c 7 rfl _).trans (Function.update_of_ne (show Proc.devRef (τ := τ) .tc main_v47 ≠ Proc.devRef .tc main_v48 by decide) ((D2 m c).arrAt 8 cfg5.N) (Va3 m c)).symm
    | ⟨8, _⟩ => exact (Function.update_self (Proc.devRef (τ := τ) .tc main_v48) ((D2 m c).arrAt 8 cfg5.N) (Va3 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec5 = (pcfgs (F := F) 2).spec)
  hq c w := rfl
  howed c t := rfl
  hrec c t := rfl
  hbody c := (body_obligation5 _ _ _ 𝒱₀ none c).loose

set_option maxHeartbeats 1000000 in
theorem hyps3 : RegHyps (pdats m) 3 4 (Va4 m) (Vr3 m) where
  lf := launch7
  hA c w := A_eq7 _ _ _ c w
  hF c w := by
    match w with
    | ⟨0, _⟩ => exact (arrAt_in7 _ _ _ c 0 rfl _).trans (Function.update_of_ne (show Proc.devRef (τ := τ) .tc main_v50 ≠ Proc.devRef .tc main_v61 by decide) ((D3 m c).arrAt 8 cfg7.N) (Va4 m c)).symm
    | ⟨1, _⟩ => exact (arrAt_in7 _ _ _ c 1 rfl _).trans (Function.update_of_ne (show Proc.devRef (τ := τ) .tc main_v22 ≠ Proc.devRef .tc main_v61 by decide) ((D3 m c).arrAt 8 cfg7.N) (Va4 m c)).symm
    | ⟨2, _⟩ => exact (arrAt_in7 _ _ _ c 2 rfl _).trans (Function.update_of_ne (show Proc.devRef (τ := τ) .tc main_v48 ≠ Proc.devRef .tc main_v61 by decide) ((D3 m c).arrAt 8 cfg7.N) (Va4 m c)).symm
    | ⟨3, _⟩ => exact (arrAt_in7 _ _ _ c 3 rfl _).trans (Function.update_of_ne (show Proc.devRef (τ := τ) .tc main_v52 ≠ Proc.devRef .tc main_v61 by decide) ((D3 m c).arrAt 8 cfg7.N) (Va4 m c)).symm
    | ⟨4, _⟩ => exact (arrAt_in7 _ _ _ c 4 rfl _).trans (Function.update_of_ne (show Proc.devRef (τ := τ) .tc main_v54 ≠ Proc.devRef .tc main_v61 by decide) ((D3 m c).arrAt 8 cfg7.N) (Va4 m c)).symm
    | ⟨5, _⟩ => exact (arrAt_in7 _ _ _ c 5 rfl _).trans (Function.update_of_ne (show Proc.devRef (τ := τ) .tc main_v56 ≠ Proc.devRef .tc main_v61 by decide) ((D3 m c).arrAt 8 cfg7.N) (Va4 m c)).symm
    | ⟨6, _⟩ => exact (arrAt_in7 _ _ _ c 6 rfl _).trans (Function.update_of_ne (show Proc.devRef (τ := τ) .tc main_v58 ≠ Proc.devRef .tc main_v61 by decide) ((D3 m c).arrAt 8 cfg7.N) (Va4 m c)).symm
    | ⟨7, _⟩ => exact (arrAt_in7 _ _ _ c 7 rfl _).trans (Function.update_of_ne (show Proc.devRef (τ := τ) .tc main_v60 ≠ Proc.devRef .tc main_v61 by decide) ((D3 m c).arrAt 8 cfg7.N) (Va4 m c)).symm
    | ⟨8, _⟩ => exact (Function.update_self (Proc.devRef (τ := τ) .tc main_v61) ((D3 m c).arrAt 8 cfg7.N) (Va4 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec7 = (pcfgs (F := F) 3).spec)
  hq c w := rfl
  howed c t := rfl
  hrec c t := rfl
  hbody c := (body_obligation7 _ _ _ 𝒱₀ none c).loose

set_option maxHeartbeats 1000000 in
theorem hyps4 : RegHyps (pdats m) 4 5 (Va5 m) (Vr4 m) where
  lf := launch9
  hA c w := A_eq9 _ _ _ c w
  hF c w := by
    match w with
    | ⟨0, _⟩ => exact (arrAt_in9 _ _ _ c 0 rfl _).trans (Function.update_of_ne (show Proc.devRef (τ := τ) .tc main_v63 ≠ Proc.devRef .tc main_v74 by decide) ((D4 m c).arrAt 8 cfg9.N) (Va5 m c)).symm
    | ⟨1, _⟩ => exact (arrAt_in9 _ _ _ c 1 rfl _).trans (Function.update_of_ne (show Proc.devRef (τ := τ) .tc main_v22 ≠ Proc.devRef .tc main_v74 by decide) ((D4 m c).arrAt 8 cfg9.N) (Va5 m c)).symm
    | ⟨2, _⟩ => exact (arrAt_in9 _ _ _ c 2 rfl _).trans (Function.update_of_ne (show Proc.devRef (τ := τ) .tc main_v61 ≠ Proc.devRef .tc main_v74 by decide) ((D4 m c).arrAt 8 cfg9.N) (Va5 m c)).symm
    | ⟨3, _⟩ => exact (arrAt_in9 _ _ _ c 3 rfl _).trans (Function.update_of_ne (show Proc.devRef (τ := τ) .tc main_v65 ≠ Proc.devRef .tc main_v74 by decide) ((D4 m c).arrAt 8 cfg9.N) (Va5 m c)).symm
    | ⟨4, _⟩ => exact (arrAt_in9 _ _ _ c 4 rfl _).trans (Function.update_of_ne (show Proc.devRef (τ := τ) .tc main_v67 ≠ Proc.devRef .tc main_v74 by decide) ((D4 m c).arrAt 8 cfg9.N) (Va5 m c)).symm
    | ⟨5, _⟩ => exact (arrAt_in9 _ _ _ c 5 rfl _).trans (Function.update_of_ne (show Proc.devRef (τ := τ) .tc main_v69 ≠ Proc.devRef .tc main_v74 by decide) ((D4 m c).arrAt 8 cfg9.N) (Va5 m c)).symm
    | ⟨6, _⟩ => exact (arrAt_in9 _ _ _ c 6 rfl _).trans (Function.update_of_ne (show Proc.devRef (τ := τ) .tc main_v71 ≠ Proc.devRef .tc main_v74 by decide) ((D4 m c).arrAt 8 cfg9.N) (Va5 m c)).symm
    | ⟨7, _⟩ => exact (arrAt_in9 _ _ _ c 7 rfl _).trans (Function.update_of_ne (show Proc.devRef (τ := τ) .tc main_v73 ≠ Proc.devRef .tc main_v74 by decide) ((D4 m c).arrAt 8 cfg9.N) (Va5 m c)).symm
    | ⟨8, _⟩ => exact (Function.update_self (Proc.devRef (τ := τ) .tc main_v74) ((D4 m c).arrAt 8 cfg9.N) (Va5 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec9 = (pcfgs (F := F) 4).spec)
  hq c w := rfl
  howed c t := rfl
  hrec c t := rfl
  hbody c := (body_obligation9 _ _ _ 𝒱₀ none c).loose

set_option maxHeartbeats 1000000 in
theorem hyps5 : RegHyps (pdats m) 5 6 (Va6 m) (Vr5 m) where
  lf := launch11
  hA c w := A_eq11 _ _ _ c w
  hF c w := by
    match w with
    | ⟨0, _⟩ => exact (arrAt_in11 _ _ _ c 0 rfl _).trans (Function.update_of_ne (show Proc.devRef (τ := τ) .tc main_v76 ≠ Proc.devRef .tc main_v87 by decide) ((D5 m c).arrAt 8 cfg11.N) (Va6 m c)).symm
    | ⟨1, _⟩ => exact (arrAt_in11 _ _ _ c 1 rfl _).trans (Function.update_of_ne (show Proc.devRef (τ := τ) .tc main_v22 ≠ Proc.devRef .tc main_v87 by decide) ((D5 m c).arrAt 8 cfg11.N) (Va6 m c)).symm
    | ⟨2, _⟩ => exact (arrAt_in11 _ _ _ c 2 rfl _).trans (Function.update_of_ne (show Proc.devRef (τ := τ) .tc main_v74 ≠ Proc.devRef .tc main_v87 by decide) ((D5 m c).arrAt 8 cfg11.N) (Va6 m c)).symm
    | ⟨3, _⟩ => exact (arrAt_in11 _ _ _ c 3 rfl _).trans (Function.update_of_ne (show Proc.devRef (τ := τ) .tc main_v78 ≠ Proc.devRef .tc main_v87 by decide) ((D5 m c).arrAt 8 cfg11.N) (Va6 m c)).symm
    | ⟨4, _⟩ => exact (arrAt_in11 _ _ _ c 4 rfl _).trans (Function.update_of_ne (show Proc.devRef (τ := τ) .tc main_v80 ≠ Proc.devRef .tc main_v87 by decide) ((D5 m c).arrAt 8 cfg11.N) (Va6 m c)).symm
    | ⟨5, _⟩ => exact (arrAt_in11 _ _ _ c 5 rfl _).trans (Function.update_of_ne (show Proc.devRef (τ := τ) .tc main_v82 ≠ Proc.devRef .tc main_v87 by decide) ((D5 m c).arrAt 8 cfg11.N) (Va6 m c)).symm
    | ⟨6, _⟩ => exact (arrAt_in11 _ _ _ c 6 rfl _).trans (Function.update_of_ne (show Proc.devRef (τ := τ) .tc main_v84 ≠ Proc.devRef .tc main_v87 by decide) ((D5 m c).arrAt 8 cfg11.N) (Va6 m c)).symm
    | ⟨7, _⟩ => exact (arrAt_in11 _ _ _ c 7 rfl _).trans (Function.update_of_ne (show Proc.devRef (τ := τ) .tc main_v86 ≠ Proc.devRef .tc main_v87 by decide) ((D5 m c).arrAt 8 cfg11.N) (Va6 m c)).symm
    | ⟨8, _⟩ => exact (Function.update_self (Proc.devRef (τ := τ) .tc main_v87) ((D5 m c).arrAt 8 cfg11.N) (Va6 m c)).symm
  hrest c b hb := Function.update_of_ne (fun e => hb (Finset.mem_image.mpr ⟨8, Finset.mem_univ _, (Proc.devRef_injective _ e).symm⟩)) _ _
  hΦ c t := congrArg (fun s => Pipeline.scopedRest (Ix := HIx 6) (Name := ℕ) (U := UU) (Lvl := ℕ) (Val := Elt F) s c) (rfl : spec11 = (pcfgs (F := F) 5).spec)
  hq c w := rfl
  howed c t := rfl
  hrec c t := rfl
  hbody c := (body_obligation11 _ _ _ 𝒱₀ none c).loose

/-! ## @main -/

variable (hidx : ∀ (q : Fin 6) (d : Dev nD) (j : S320000.Idx), (Vc m q d (Proc.devRef .tc main_v4) j).toNat < 10000)

include hidx in
set_option maxHeartbeats 4000000 in
/-- @main on device `d`'s TensorCore: seven stretches of host operations, six SparseCore calls, six regions; at the end
    its arrays stand at the last valuation. -/
theorem hmain (κ : GSem nD τ sig → ℕ) (d : Dev nD) :
    iprop((K (F := F)).ctx EH (P (Vc m)) κ ∗ (K (F := F)).tcSt EH d 0 ∗ (K (F := F)).tcRes m ρ d ∗ Ghost (F := F) Finset.univ d)
      ⊢ wp frame (wpE (DD (F := F)) 𝒱 (SparseCore.T d) none) Set.univ (main d)
          fun _ => iprop((K (F := F)).tcSt EH d 6 ∗ (held (SparseCore.T d) SS (Vr5 m d) : sProp 𝕄)) := by
  unfold SparseCore.Cfg.tcRes
  rw [main_chain, show (unscopedBufs d (fun b => m ((SparseCore.T d).loc b)) : sProp 𝕄) = held (SparseCore.T d) SS (V0 m d) from (held_unscoped d (V0 m d)).symm]
  simp only [mainItems, Pipeline.chain_cons, Pipeline.chain_nil]
  iintro ⟨#Hctx, Hst, ⟨Hb, Hh, -, -⟩, Hg⟩
  ihave #Hlev := (SparseCore.Cfg.ctx_levAts (K := K (F := F)) (EH := EH) (P := P (Vc m)) κ) $$ Hctx
  -- the host glue
  iapply (host_step d 0 (V0 m d) Finset.univ (ops0 (F := F)) ops0_sub ops0_fresh _ _)
  isplitl [Hb Hh Hst Hg]
  · unfold St
    isplitl [Hb]; · iexact Hb
    isplitl [Hh]; · iexact Hh
    isplitl [Hst] <;> iassumption
  iintro HS
  -- call 0
  iapply (run_step0 (Vc m) κ d (Va0 m d) (Finset.univ) rfl (hidx 0 d) _ _)
  isplitr; · iexact Hctx
  isplitl [HS]; · iexact HS
  iintro HS
  -- stretch 1
  iapply (host_step d 1 (Vb0 m d) (Finset.univ) (ops1 (F := F)) ops1_sub ops1_fresh _ _)
  isplitl [HS]; · iexact HS
  iintro HS
  -- region 0
  iapply (region_step (hyps0 m) d (Finset.univ) (by decide) _ _)
  isplitr; · iexact Hlev
  isplitl [HS]; · iexact HS
  iintro HS
  -- call 1
  iapply (run_step1 (Vc m) κ d (Vr0 m d) ((Finset.univ).erase 0) rfl (hidx 1 d) _ _)
  isplitr; · iexact Hctx
  isplitl [HS]; · iexact HS
  iintro HS
  -- stretch 2
  iapply (host_step d 2 (Vb1 m d) ((Finset.univ).erase 0) (ops2 (F := F)) ops2_sub ops2_fresh _ _)
  isplitl [HS]; · iexact HS
  iintro HS
  -- region 1
  iapply (region_step (hyps1 m) d ((Finset.univ).erase 0) (by decide) _ _)
  isplitr; · iexact Hlev
  isplitl [HS]; · iexact HS
  iintro HS
  -- call 2
  iapply (run_step2 (Vc m) κ d (Vr1 m d) (((Finset.univ).erase 0).erase 1) rfl (hidx 2 d) _ _)
  isplitr; · iexact Hctx
  isplitl [HS]; · iexact HS
  iintro HS
  -- stretch 3
  iapply (host_step d 3 (Vb2 m d) (((Finset.univ).erase 0).erase 1) (ops3 (F := F)) ops3_sub ops3_fresh _ _)
  isplitl [HS]; · iexact HS
  iintro HS
  -- region 2
  iapply (region_step (hyps2 m) d (((Finset.univ).erase 0).erase 1) (by decide) _ _)
  isplitr; · iexact Hlev
  isplitl [HS]; · iexact HS
  iintro HS
  -- call 3
  iapply (run_step3 (Vc m) κ d (Vr2 m d) ((((Finset.univ).erase 0).erase 1).erase 2) rfl (hidx 3 d) _ _)
  isplitr; · iexact Hctx
  isplitl [HS]; · iexact HS
  iintro HS
  -- stretch 4
  iapply (host_step d 4 (Vb3 m d) ((((Finset.univ).erase 0).erase 1).erase 2) (ops4 (F := F)) ops4_sub ops4_fresh _ _)
  isplitl [HS]; · iexact HS
  iintro HS
  -- region 3
  iapply (region_step (hyps3 m) d ((((Finset.univ).erase 0).erase 1).erase 2) (by decide) _ _)
  isplitr; · iexact Hlev
  isplitl [HS]; · iexact HS
  iintro HS
  -- call 4
  iapply (run_step4 (Vc m) κ d (Vr3 m d) (((((Finset.univ).erase 0).erase 1).erase 2).erase 3) rfl (hidx 4 d) _ _)
  isplitr; · iexact Hctx
  isplitl [HS]; · iexact HS
  iintro HS
  -- stretch 5
  iapply (host_step d 5 (Vb4 m d) (((((Finset.univ).erase 0).erase 1).erase 2).erase 3) (ops5 (F := F)) ops5_sub ops5_fresh _ _)
  isplitl [HS]; · iexact HS
  iintro HS
  -- region 4
  iapply (region_step (hyps4 m) d (((((Finset.univ).erase 0).erase 1).erase 2).erase 3) (by decide) _ _)
  isplitr; · iexact Hlev
  isplitl [HS]; · iexact HS
  iintro HS
  -- call 5
  iapply (run_step5 (Vc m) κ d (Vr4 m d) ((((((Finset.univ).erase 0).erase 1).erase 2).erase 3).erase 4) rfl (hidx 5 d) _ _)
  isplitr; · iexact Hctx
  isplitl [HS]; · iexact HS
  iintro HS
  -- stretch 6
  iapply (host_step d 6 (Vb5 m d) ((((((Finset.univ).erase 0).erase 1).erase 2).erase 3).erase 4) (ops6 (F := F)) ops6_sub ops6_fresh _ _)
  isplitl [HS]; · iexact HS
  iintro HS
  -- region 5
  iapply (region_step (hyps5 m) d ((((((Finset.univ).erase 0).erase 1).erase 2).erase 3).erase 4) (by decide) _ _)
  isplitr; · iexact Hlev
  isplitl [HS]; · iexact HS
  iintro HS
  rw [wp_pure]; imodintro
  unfold St
  icases HS with ⟨-, Hh, Hst, -⟩
  isplitl [Hst]; · iexact Hst
  iexact Hh

end Cert.Proof.MainRunB

end
-- ==== Proof.GatherBodyB.lean ====
/-
  One vector subcore's task of the first gather call: the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBaseB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.Kernel
import proofs.«205547_g25623774888366_cont_9to1_713_27_alg».proof.Proof.Gen.Kernel.Skeleton

noncomputable section

namespace Cert.Proof.GatherBodyB

open Cert.Kernel Cert.Kernel.Gen
open Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.Kernel.main_v2_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v20_scv : Memref Cert.Kernel.sig Kind.scVector Space.hbm Cert.Kernel.S320000x128 EltTy.f32)
local notation "sV" => (Memref.whole Cert.Kernel.cc0_scratch0 : Memref Cert.Kernel.sig Kind.scVector Space.vmem Cert.Kernel.S10000 EltTy.i32)
local notation "aV" => (Memref.whole Cert.Kernel.cc0_scratch1 : Memref Cert.Kernel.sig Kind.scVector Space.vmem Cert.Kernel.S400x128 EltTy.f32)
local notation "bV" => (Memref.whole Cert.Kernel.cc0_scratch2 : Memref Cert.Kernel.sig Kind.scVector Space.vmem Cert.Kernel.S400x128 EltTy.f32)

section Sets

variable (L : grid0.Coords)

theorem bound_zero : grid0.bound 0 = 2 := rfl
theorem bound_one : grid0.bound 1 = 16 := rfl
/-- The worker's number: twice the vector subcore's plus the SparseCore's. -/
abbrev wid (L : grid0.Coords) : Fin 32 := wOf (Fin.cast bound_zero (L 0)) (Fin.cast bound_one (L 1))
/-- The first row of the worker's block. -/
abbrev base (L : grid0.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid0.Coords) (c : Fin 25) : Rect S320000x128 :=
  Rect.unit (s := S320000x128) (k0_off2 L (BitVec.ofNat 32 (400 * c.val))) S400x128.size (k0_off2_inb L c)
abbrev chunkSet (L : grid0.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k0_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid0.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid0.Coords)

abbrev cV (L : grid0.Coords) : Fin τ.nSC := (L 0).castLE hcore0
abbrev jV (L : grid0.Coords) : Fin τ.nSub := (L 1).castLE hsub0

abbrev irowK (L : grid0.Coords) : Rect S320000 := Rect.unit (s := S320000) (k0_off1 L) S10000.size (k0_off1_inb L)
/-- The worker's block of the index array, as the task addresses it. -/
abbrev iRowK (L : grid0.Coords) : Memref sig .scVector .hbm S10000 .i32 := (iV).slice (irowK L) (fun _ => rfl)
/-- A block of 400 rows of the output at a row offset given by a word, as the task addresses it. -/
abbrev oChunkM (L : grid0.Coords) (n : BitVec 32) (h : ∀ a, (k0_off2 L n) a + S400x128.size a ≤ S320000x128.size a) : Memref sig .scVector .hbm S400x128 .f32 :=
  (oV).slice (Rect.unit (s := S320000x128) (k0_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k0_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k0_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k0_off2 L n) a + S400x128.size a ≤ S320000x128.size a) (f : Buf (Elt F) (oLoc0 d)) :
    ((oChunkM L n h).view.loc (V d (cV L) (jV L)) ↦[(oChunkM L n h).view.set]{fullShare} f : sProp 𝕄)
      = (oLoc0 d ↦[chunkSet L c]{fullShare} f) := by
  rw [set_oChunkM L c n hn h]
theorem pts_xV (q : PosShare TreeShare) (f : Buf (Elt F) (xLoc0 d)) :
    ((xV).view.loc (V d (cV L) (jV L)) ↦{q} f : sProp 𝕄) = xLoc0 d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_aV (f : Buf (Elt F) ((V d (cV L) (jV L)).loc cc0_scratch1)) :
    ((aV).view.loc (V d (cV L) (jV L)) ↦{fullShare} f : sProp 𝕄) = (V d (cV L) (jV L)).loc cc0_scratch1 ↦{fullShare} f := rfl
theorem pts_bV (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

/-- The rows from chunk `k` on are chunk `k` and the rows from chunk `k + 1` on. -/
theorem pts_tl_split (k : ℕ) (hk : k < 25) (f : Buf (Elt F) (oLoc0 d)) :
    (oLoc0 d ↦[tlSet L k (by omega)]{fullShare} f : sProp 𝕄)
      = iprop((oLoc0 d ↦[chunkSet L ⟨k, hk⟩]{fullShare} f) ∗ oLoc0 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc0 d)) :
    (oLoc0 d ↦[oRowSet (wid L)]{fullShare} f : sProp 𝕄) = oLoc0 d ↦[tlSet L 0 (by omega)]{fullShare} f := by
  rw [tl_zero]

theorem pts_tl_24 (f : Buf (Elt F) (oLoc0 d)) :
    (oLoc0 d ↦[tlSet L 24 (by omega)]{fullShare} f : sProp 𝕄) = oLoc0 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k0_off2 L n) a + S400x128.size a ≤ S320000x128.size a)
    (g : Buf (Elt F) (oLoc0 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc0 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k0_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k0_off1 L) 0 + 1 * (off 0 + 1 * ((S400.rowMajor.symm ((j gathers_S10000x128_S400x128.axis').cast hn'.symm)) 0).val)
      = (k0_off2 L (BitVec.ofNat 32 (400 * c.val))) 0 + 1 * (j 0).val
    rw [hz, k0_off1_eq L, k0_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k0_off2 L (BitVec.ofNat 32 (400 * c.val))) 1 + 1 * (j 1).val
    rw [k0_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc0 d)) (g : Buf (Elt F) (oLoc0 d)) (c : Fin 25)
    (n : BitVec 32) (hn : n = BitVec.ofNat 32 (400 * c.val)) (h : ∀ a, (k0_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc0_scratch3.sem)
abbrev cellG1 (d : Dev nD) (c : Fin τ.nSC) (i : Fin τ.nSub) : GSem nD τ sig := (V d c i, .dma cc0_scratch4.sem)
abbrev cellS0 (d : Dev nD) (c : Fin τ.nSC) (i : Fin τ.nSub) : GSem nD τ sig := (V d c i, .dma cc0_scratch5.sem)
abbrev cellS1 (d : Dev nD) (c : Fin τ.nSC) (i : Fin τ.nSub) : GSem nD τ sig := (V d c i, .dma cc0_scratch6.sem)
abbrev cellIX (d : Dev nD) (c : Fin τ.nSC) (i : Fin τ.nSub) : GSem nD τ sig := (V d c i, .dma cc0_scoped0.sem)

theorem cell_ne_G1_G0 : (cellG1 d (cV L) (jV L)) ≠ (cellG0 d (cV L) (jV L)) :=
  fun h => absurd (congrArg Prod.snd h) (show (SemLoc.dma cc0_scratch4.sem : SemLoc sig) ≠ SemLoc.dma cc0_scratch3.sem by decide)
theorem cell_ne_S0_G0 : (cellS0 d (cV L) (jV L)) ≠ (cellG0 d (cV L) (jV L)) :=
  fun h => absurd (congrArg Prod.snd h) (show (SemLoc.dma cc0_scratch5.sem : SemLoc sig) ≠ SemLoc.dma cc0_scratch3.sem by decide)
theorem cell_ne_S0_G1 : (cellS0 d (cV L) (jV L)) ≠ (cellG1 d (cV L) (jV L)) :=
  fun h => absurd (congrArg Prod.snd h) (show (SemLoc.dma cc0_scratch5.sem : SemLoc sig) ≠ SemLoc.dma cc0_scratch4.sem by decide)
theorem cell_ne_S1_G0 : (cellS1 d (cV L) (jV L)) ≠ (cellG0 d (cV L) (jV L)) :=
  fun h => absurd (congrArg Prod.snd h) (show (SemLoc.dma cc0_scratch6.sem : SemLoc sig) ≠ SemLoc.dma cc0_scratch3.sem by decide)
theorem cell_ne_S1_G1 : (cellS1 d (cV L) (jV L)) ≠ (cellG1 d (cV L) (jV L)) :=
  fun h => absurd (congrArg Prod.snd h) (show (SemLoc.dma cc0_scratch6.sem : SemLoc sig) ≠ SemLoc.dma cc0_scratch4.sem by decide)
theorem cell_ne_S1_S0 : (cellS1 d (cV L) (jV L)) ≠ (cellS0 d (cV L) (jV L)) :=
  fun h => absurd (congrArg Prod.snd h) (show (SemLoc.dma cc0_scratch6.sem : SemLoc sig) ≠ SemLoc.dma cc0_scratch5.sem by decide)
theorem cell_ne_IX_G0 : (cellIX d (cV L) (jV L)) ≠ (cellG0 d (cV L) (jV L)) :=
  fun h => absurd (congrArg Prod.snd h) (show (SemLoc.dma cc0_scoped0.sem : SemLoc sig) ≠ SemLoc.dma cc0_scratch3.sem by decide)
theorem cell_ne_IX_G1 : (cellIX d (cV L) (jV L)) ≠ (cellG1 d (cV L) (jV L)) :=
  fun h => absurd (congrArg Prod.snd h) (show (SemLoc.dma cc0_scoped0.sem : SemLoc sig) ≠ SemLoc.dma cc0_scratch4.sem by decide)
theorem cell_ne_IX_S0 : (cellIX d (cV L) (jV L)) ≠ (cellS0 d (cV L) (jV L)) :=
  fun h => absurd (congrArg Prod.snd h) (show (SemLoc.dma cc0_scoped0.sem : SemLoc sig) ≠ SemLoc.dma cc0_scratch5.sem by decide)
theorem cell_ne_IX_S1 : (cellIX d (cV L) (jV L)) ≠ (cellS1 d (cV L) (jV L)) :=
  fun h => absurd (congrArg Prod.snd h) (show (SemLoc.dma cc0_scoped0.sem : SemLoc sig) ≠ SemLoc.dma cc0_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc0_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc0_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc0_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc0_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc0_scoped0.sem : SemLoc sig).isScoped .scVector = true; decide⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc0 d)) (OUT₀ : Buf (Elt F) (oLoc0 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc0 d ↦{q} TAB) ∗ (oLoc0 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) aV (Memref.isWhole_whole _) bV (Memref.isWhole_whole _)
            cc0_scratch3 cc0_scratch4 cc0_scratch5 cc0_scratch6 cc0_scoped0)
          fun _ => iprop(((iLoc d ↦[iRowSet (wid L)]{fullShare} IDX : sProp 𝕄) ∗ (xLoc0 d ↦{q} TAB)
              ∗ ∃ OUT, ⌜GatherSpec (wid L) IDX TAB OUT⌝ ∗ (oLoc0 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k0_off2_inb L 0) _).symm) $$ Ho0
  ihave Ho1' := (Entails.of_eq (pts_oChunk (F := F) d L 1 400#32 rfl (k0_off2_inb L 1) _).symm) $$ Ho1
  ihave Ho2' := (Entails.of_eq (pts_oChunk (F := F) d L 2 800#32 rfl (k0_off2_inb L 2) _).symm) $$ Ho2
  ihave Ho3' := (Entails.of_eq (pts_oChunk (F := F) d L 3 1200#32 rfl (k0_off2_inb L 3) _).symm) $$ Ho3
  ihave Ho4' := (Entails.of_eq (pts_oChunk (F := F) d L 4 1600#32 rfl (k0_off2_inb L 4) _).symm) $$ Ho4
  ihave Ho5' := (Entails.of_eq (pts_oChunk (F := F) d L 5 2000#32 rfl (k0_off2_inb L 5) _).symm) $$ Ho5
  ihave Ho6' := (Entails.of_eq (pts_oChunk (F := F) d L 6 2400#32 rfl (k0_off2_inb L 6) _).symm) $$ Ho6
  ihave Ho7' := (Entails.of_eq (pts_oChunk (F := F) d L 7 2800#32 rfl (k0_off2_inb L 7) _).symm) $$ Ho7
  ihave Ho8' := (Entails.of_eq (pts_oChunk (F := F) d L 8 3200#32 rfl (k0_off2_inb L 8) _).symm) $$ Ho8
  ihave Ho9' := (Entails.of_eq (pts_oChunk (F := F) d L 9 3600#32 rfl (k0_off2_inb L 9) _).symm) $$ Ho9
  ihave Ho10' := (Entails.of_eq (pts_oChunk (F := F) d L 10 4000#32 rfl (k0_off2_inb L 10) _).symm) $$ Ho10
  ihave Ho11' := (Entails.of_eq (pts_oChunk (F := F) d L 11 4400#32 rfl (k0_off2_inb L 11) _).symm) $$ Ho11
  ihave Ho12' := (Entails.of_eq (pts_oChunk (F := F) d L 12 4800#32 rfl (k0_off2_inb L 12) _).symm) $$ Ho12
  ihave Ho13' := (Entails.of_eq (pts_oChunk (F := F) d L 13 5200#32 rfl (k0_off2_inb L 13) _).symm) $$ Ho13
  ihave Ho14' := (Entails.of_eq (pts_oChunk (F := F) d L 14 5600#32 rfl (k0_off2_inb L 14) _).symm) $$ Ho14
  ihave Ho15' := (Entails.of_eq (pts_oChunk (F := F) d L 15 6000#32 rfl (k0_off2_inb L 15) _).symm) $$ Ho15
  ihave Ho16' := (Entails.of_eq (pts_oChunk (F := F) d L 16 6400#32 rfl (k0_off2_inb L 16) _).symm) $$ Ho16
  ihave Ho17' := (Entails.of_eq (pts_oChunk (F := F) d L 17 6800#32 rfl (k0_off2_inb L 17) _).symm) $$ Ho17
  ihave Ho18' := (Entails.of_eq (pts_oChunk (F := F) d L 18 7200#32 rfl (k0_off2_inb L 18) _).symm) $$ Ho18
  ihave Ho19' := (Entails.of_eq (pts_oChunk (F := F) d L 19 7600#32 rfl (k0_off2_inb L 19) _).symm) $$ Ho19
  ihave Ho20' := (Entails.of_eq (pts_oChunk (F := F) d L 20 8000#32 rfl (k0_off2_inb L 20) _).symm) $$ Ho20
  ihave Ho21' := (Entails.of_eq (pts_oChunk (F := F) d L 21 8400#32 rfl (k0_off2_inb L 21) _).symm) $$ Ho21
  ihave Ho22' := (Entails.of_eq (pts_oChunk (F := F) d L 22 8800#32 rfl (k0_off2_inb L 22) _).symm) $$ Ho22
  ihave Ho23' := (Entails.of_eq (pts_oChunk (F := F) d L 23 9200#32 rfl (k0_off2_inb L 23) _).symm) $$ Ho23
  ihave Ho24' := (Entails.of_eq (pts_oChunk (F := F) d L 24 9600#32 rfl (k0_off2_inb L 24) _).symm) $$ Ho24
  have hin := idx_inb (F := F) d L IDX hidx
  sl_exec_parts
  sl_step
  have hv0 := chunk_val (F := F) d L IDX TAB OUT₀ 0 0#32 rfl (k0_off2_inb L 0) (tile_body.sl.dma0_1 d L IDX TAB fs fa hin)
    (fun j => (read_writes_whole _ _ _ _ j).trans (gather_val (F := F) d L IDX TAB hidx fs 0 ![0] rfl _ 0#32 rfl (k0_off2_inb L 0) _ _ j))
  ihave Hg0 := (Entails.of_eq ((pts_oChunk (F := F) d L 0 0#32 rfl (k0_off2_inb L 0) _).trans (pointsTo_congr hv0))) $$ Ho0'
  have hv1 := chunk_val (F := F) d L IDX TAB OUT₀ 1 400#32 rfl (k0_off2_inb L 1) (tile_body.sl.dma0_2 d L IDX TAB fs fb hin)
    (fun j => (read_writes_whole _ _ _ _ j).trans (gather_val (F := F) d L IDX TAB hidx fs 1 ![400] rfl _ 400#32 rfl (k0_off2_inb L 1) _ _ j))
  ihave Hg1 := (Entails.of_eq ((pts_oChunk (F := F) d L 1 400#32 rfl (k0_off2_inb L 1) _).trans (pointsTo_congr hv1))) $$ Ho1'
  have hv2 := chunk_val (F := F) d L IDX TAB OUT₀ 2 800#32 rfl (k0_off2_inb L 2) (tile_body.sl.dma0_3 d L IDX TAB fs fa hin)
    (fun j => (read_writes_whole _ _ _ _ j).trans (gather_val (F := F) d L IDX TAB hidx fs 2 ![800] rfl _ 800#32 rfl (k0_off2_inb L 2) _ _ j))
  ihave Hg2 := (Entails.of_eq ((pts_oChunk (F := F) d L 2 800#32 rfl (k0_off2_inb L 2) _).trans (pointsTo_congr hv2))) $$ Ho2'
  have hv3 := chunk_val (F := F) d L IDX TAB OUT₀ 3 1200#32 rfl (k0_off2_inb L 3) (tile_body.sl.dma0_4 d L IDX TAB fs fb hin)
    (fun j => (read_writes_whole _ _ _ _ j).trans (gather_val (F := F) d L IDX TAB hidx fs 3 ![1200] rfl _ 1200#32 rfl (k0_off2_inb L 3) _ _ j))
  ihave Hg3 := (Entails.of_eq ((pts_oChunk (F := F) d L 3 1200#32 rfl (k0_off2_inb L 3) _).trans (pointsTo_congr hv3))) $$ Ho3'
  have hv4 := chunk_val (F := F) d L IDX TAB OUT₀ 4 1600#32 rfl (k0_off2_inb L 4) (tile_body.sl.dma0_5 d L IDX TAB fs fa hin)
    (fun j => (read_writes_whole _ _ _ _ j).trans (gather_val (F := F) d L IDX TAB hidx fs 4 ![1600] rfl _ 1600#32 rfl (k0_off2_inb L 4) _ _ j))
  ihave Hg4 := (Entails.of_eq ((pts_oChunk (F := F) d L 4 1600#32 rfl (k0_off2_inb L 4) _).trans (pointsTo_congr hv4))) $$ Ho4'
  have hv5 := chunk_val (F := F) d L IDX TAB OUT₀ 5 2000#32 rfl (k0_off2_inb L 5) (tile_body.sl.dma0_6 d L IDX TAB fs fb hin)
    (fun j => (read_writes_whole _ _ _ _ j).trans (gather_val (F := F) d L IDX TAB hidx fs 5 ![2000] rfl _ 2000#32 rfl (k0_off2_inb L 5) _ _ j))
  ihave Hg5 := (Entails.of_eq ((pts_oChunk (F := F) d L 5 2000#32 rfl (k0_off2_inb L 5) _).trans (pointsTo_congr hv5))) $$ Ho5'
  have hv6 := chunk_val (F := F) d L IDX TAB OUT₀ 6 2400#32 rfl (k0_off2_inb L 6) (tile_body.sl.dma0_7 d L IDX TAB fs fa hin)
    (fun j => (read_writes_whole _ _ _ _ j).trans (gather_val (F := F) d L IDX TAB hidx fs 6 ![2400] rfl _ 2400#32 rfl (k0_off2_inb L 6) _ _ j))
  ihave Hg6 := (Entails.of_eq ((pts_oChunk (F := F) d L 6 2400#32 rfl (k0_off2_inb L 6) _).trans (pointsTo_congr hv6))) $$ Ho6'
  have hv7 := chunk_val (F := F) d L IDX TAB OUT₀ 7 2800#32 rfl (k0_off2_inb L 7) (tile_body.sl.dma0_8 d L IDX TAB fs fb hin)
    (fun j => (read_writes_whole _ _ _ _ j).trans (gather_val (F := F) d L IDX TAB hidx fs 7 ![2800] rfl _ 2800#32 rfl (k0_off2_inb L 7) _ _ j))
  ihave Hg7 := (Entails.of_eq ((pts_oChunk (F := F) d L 7 2800#32 rfl (k0_off2_inb L 7) _).trans (pointsTo_congr hv7))) $$ Ho7'
  have hv8 := chunk_val (F := F) d L IDX TAB OUT₀ 8 3200#32 rfl (k0_off2_inb L 8) (tile_body.sl.dma0_9 d L IDX TAB fs fa hin)
    (fun j => (read_writes_whole _ _ _ _ j).trans (gather_val (F := F) d L IDX TAB hidx fs 8 ![3200] rfl _ 3200#32 rfl (k0_off2_inb L 8) _ _ j))
  ihave Hg8 := (Entails.of_eq ((pts_oChunk (F := F) d L 8 3200#32 rfl (k0_off2_inb L 8) _).trans (pointsTo_congr hv8))) $$ Ho8'
  have hv9 := chunk_val (F := F) d L IDX TAB OUT₀ 9 3600#32 rfl (k0_off2_inb L 9) (tile_body.sl.dma0_10 d L IDX TAB fs fb hin)
    (fun j => (read_writes_whole _ _ _ _ j).trans (gather_val (F := F) d L IDX TAB hidx fs 9 ![3600] rfl _ 3600#32 rfl (k0_off2_inb L 9) _ _ j))
  ihave Hg9 := (Entails.of_eq ((pts_oChunk (F := F) d L 9 3600#32 rfl (k0_off2_inb L 9) _).trans (pointsTo_congr hv9))) $$ Ho9'
  have hv10 := chunk_val (F := F) d L IDX TAB OUT₀ 10 4000#32 rfl (k0_off2_inb L 10) (tile_body.sl.dma0_11 d L IDX TAB fs fa hin)
    (fun j => (read_writes_whole _ _ _ _ j).trans (gather_val (F := F) d L IDX TAB hidx fs 10 ![4000] rfl _ 4000#32 rfl (k0_off2_inb L 10) _ _ j))
  ihave Hg10 := (Entails.of_eq ((pts_oChunk (F := F) d L 10 4000#32 rfl (k0_off2_inb L 10) _).trans (pointsTo_congr hv10))) $$ Ho10'
  have hv11 := chunk_val (F := F) d L IDX TAB OUT₀ 11 4400#32 rfl (k0_off2_inb L 11) (tile_body.sl.dma0_12 d L IDX TAB fs fb hin)
    (fun j => (read_writes_whole _ _ _ _ j).trans (gather_val (F := F) d L IDX TAB hidx fs 11 ![4400] rfl _ 4400#32 rfl (k0_off2_inb L 11) _ _ j))
  ihave Hg11 := (Entails.of_eq ((pts_oChunk (F := F) d L 11 4400#32 rfl (k0_off2_inb L 11) _).trans (pointsTo_congr hv11))) $$ Ho11'
  have hv12 := chunk_val (F := F) d L IDX TAB OUT₀ 12 4800#32 rfl (k0_off2_inb L 12) (tile_body.sl.dma0_13 d L IDX TAB fs fa hin)
    (fun j => (read_writes_whole _ _ _ _ j).trans (gather_val (F := F) d L IDX TAB hidx fs 12 ![4800] rfl _ 4800#32 rfl (k0_off2_inb L 12) _ _ j))
  ihave Hg12 := (Entails.of_eq ((pts_oChunk (F := F) d L 12 4800#32 rfl (k0_off2_inb L 12) _).trans (pointsTo_congr hv12))) $$ Ho12'
  have hv13 := chunk_val (F := F) d L IDX TAB OUT₀ 13 5200#32 rfl (k0_off2_inb L 13) (tile_body.sl.dma0_14 d L IDX TAB fs fb hin)
    (fun j => (read_writes_whole _ _ _ _ j).trans (gather_val (F := F) d L IDX TAB hidx fs 13 ![5200] rfl _ 5200#32 rfl (k0_off2_inb L 13) _ _ j))
  ihave Hg13 := (Entails.of_eq ((pts_oChunk (F := F) d L 13 5200#32 rfl (k0_off2_inb L 13) _).trans (pointsTo_congr hv13))) $$ Ho13'
  have hv14 := chunk_val (F := F) d L IDX TAB OUT₀ 14 5600#32 rfl (k0_off2_inb L 14) (tile_body.sl.dma0_15 d L IDX TAB fs fa hin)
    (fun j => (read_writes_whole _ _ _ _ j).trans (gather_val (F := F) d L IDX TAB hidx fs 14 ![5600] rfl _ 5600#32 rfl (k0_off2_inb L 14) _ _ j))
  ihave Hg14 := (Entails.of_eq ((pts_oChunk (F := F) d L 14 5600#32 rfl (k0_off2_inb L 14) _).trans (pointsTo_congr hv14))) $$ Ho14'
  have hv15 := chunk_val (F := F) d L IDX TAB OUT₀ 15 6000#32 rfl (k0_off2_inb L 15) (tile_body.sl.dma0_16 d L IDX TAB fs fb hin)
    (fun j => (read_writes_whole _ _ _ _ j).trans (gather_val (F := F) d L IDX TAB hidx fs 15 ![6000] rfl _ 6000#32 rfl (k0_off2_inb L 15) _ _ j))
  ihave Hg15 := (Entails.of_eq ((pts_oChunk (F := F) d L 15 6000#32 rfl (k0_off2_inb L 15) _).trans (pointsTo_congr hv15))) $$ Ho15'
  have hv16 := chunk_val (F := F) d L IDX TAB OUT₀ 16 6400#32 rfl (k0_off2_inb L 16) (tile_body.sl.dma0_17 d L IDX TAB fs fa hin)
    (fun j => (read_writes_whole _ _ _ _ j).trans (gather_val (F := F) d L IDX TAB hidx fs 16 ![6400] rfl _ 6400#32 rfl (k0_off2_inb L 16) _ _ j))
  ihave Hg16 := (Entails.of_eq ((pts_oChunk (F := F) d L 16 6400#32 rfl (k0_off2_inb L 16) _).trans (pointsTo_congr hv16))) $$ Ho16'
  have hv17 := chunk_val (F := F) d L IDX TAB OUT₀ 17 6800#32 rfl (k0_off2_inb L 17) (tile_body.sl.dma0_18 d L IDX TAB fs fb hin)
    (fun j => (read_writes_whole _ _ _ _ j).trans (gather_val (F := F) d L IDX TAB hidx fs 17 ![6800] rfl _ 6800#32 rfl (k0_off2_inb L 17) _ _ j))
  ihave Hg17 := (Entails.of_eq ((pts_oChunk (F := F) d L 17 6800#32 rfl (k0_off2_inb L 17) _).trans (pointsTo_congr hv17))) $$ Ho17'
  have hv18 := chunk_val (F := F) d L IDX TAB OUT₀ 18 7200#32 rfl (k0_off2_inb L 18) (tile_body.sl.dma0_19 d L IDX TAB fs fa hin)
    (fun j => (read_writes_whole _ _ _ _ j).trans (gather_val (F := F) d L IDX TAB hidx fs 18 ![7200] rfl _ 7200#32 rfl (k0_off2_inb L 18) _ _ j))
  ihave Hg18 := (Entails.of_eq ((pts_oChunk (F := F) d L 18 7200#32 rfl (k0_off2_inb L 18) _).trans (pointsTo_congr hv18))) $$ Ho18'
  have hv19 := chunk_val (F := F) d L IDX TAB OUT₀ 19 7600#32 rfl (k0_off2_inb L 19) (tile_body.sl.dma0_20 d L IDX TAB fs fb hin)
    (fun j => (read_writes_whole _ _ _ _ j).trans (gather_val (F := F) d L IDX TAB hidx fs 19 ![7600] rfl _ 7600#32 rfl (k0_off2_inb L 19) _ _ j))
  ihave Hg19 := (Entails.of_eq ((pts_oChunk (F := F) d L 19 7600#32 rfl (k0_off2_inb L 19) _).trans (pointsTo_congr hv19))) $$ Ho19'
  have hv20 := chunk_val (F := F) d L IDX TAB OUT₀ 20 8000#32 rfl (k0_off2_inb L 20) (tile_body.sl.dma0_21 d L IDX TAB fs fa hin)
    (fun j => (read_writes_whole _ _ _ _ j).trans (gather_val (F := F) d L IDX TAB hidx fs 20 ![8000] rfl _ 8000#32 rfl (k0_off2_inb L 20) _ _ j))
  ihave Hg20 := (Entails.of_eq ((pts_oChunk (F := F) d L 20 8000#32 rfl (k0_off2_inb L 20) _).trans (pointsTo_congr hv20))) $$ Ho20'
  have hv21 := chunk_val (F := F) d L IDX TAB OUT₀ 21 8400#32 rfl (k0_off2_inb L 21) (tile_body.sl.dma0_22 d L IDX TAB fs fb hin)
    (fun j => (read_writes_whole _ _ _ _ j).trans (gather_val (F := F) d L IDX TAB hidx fs 21 ![8400] rfl _ 8400#32 rfl (k0_off2_inb L 21) _ _ j))
  ihave Hg21 := (Entails.of_eq ((pts_oChunk (F := F) d L 21 8400#32 rfl (k0_off2_inb L 21) _).trans (pointsTo_congr hv21))) $$ Ho21'
  have hv22 := chunk_val (F := F) d L IDX TAB OUT₀ 22 8800#32 rfl (k0_off2_inb L 22) (tile_body.sl.dma0_23 d L IDX TAB fs fa hin)
    (fun j => (read_writes_whole _ _ _ _ j).trans (gather_val (F := F) d L IDX TAB hidx fs 22 ![8800] rfl _ 8800#32 rfl (k0_off2_inb L 22) _ _ j))
  ihave Hg22 := (Entails.of_eq ((pts_oChunk (F := F) d L 22 8800#32 rfl (k0_off2_inb L 22) _).trans (pointsTo_congr hv22))) $$ Ho22'
  have hv23 := chunk_val (F := F) d L IDX TAB OUT₀ 23 9200#32 rfl (k0_off2_inb L 23) (tile_body.sl.dma0_24 d L IDX TAB fs fb hin)
    (fun j => (read_writes_whole _ _ _ _ j).trans (gather_val (F := F) d L IDX TAB hidx fs 23 ![9200] rfl _ 9200#32 rfl (k0_off2_inb L 23) _ _ j))
  ihave Hg23 := (Entails.of_eq ((pts_oChunk (F := F) d L 23 9200#32 rfl (k0_off2_inb L 23) _).trans (pointsTo_congr hv23))) $$ Ho23'
  have hv24 := chunk_val (F := F) d L IDX TAB OUT₀ 24 9600#32 rfl (k0_off2_inb L 24) (tile_body.sl.dma0_25 d L IDX TAB fs fa hin)
    (fun j => (read_writes_whole _ _ _ _ j).trans (gather_val (F := F) d L IDX TAB hidx fs 24 ![9600] rfl _ 9600#32 rfl (k0_off2_inb L 24) _ _ j))
  ihave Hg24 := (Entails.of_eq ((pts_oChunk (F := F) d L 24 9600#32 rfl (k0_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBodyB

end
-- ==== Proof.GatherBody2B.lean ====
/-
  One vector subcore's task of gather call 1 (the program's custom call 2): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBaseB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.Kernel
import proofs.«205547_g25623774888366_cont_9to1_713_27_alg».proof.Proof.Gen.Kernel.Skeleton

noncomputable section

namespace Cert.Proof.GatherBody2B

open Cert.Kernel Cert.Kernel.Gen
open Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.Kernel.main_arg0_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v23_scv : Memref Cert.Kernel.sig Kind.scVector Space.hbm Cert.Kernel.S320000x128 EltTy.f32)
local notation "sV" => (Memref.whole Cert.Kernel.cc2_scratch0 : Memref Cert.Kernel.sig Kind.scVector Space.vmem Cert.Kernel.S10000 EltTy.i32)
local notation "aV" => (Memref.whole Cert.Kernel.cc2_scratch1 : Memref Cert.Kernel.sig Kind.scVector Space.vmem Cert.Kernel.S400x128 EltTy.f32)
local notation "bV" => (Memref.whole Cert.Kernel.cc2_scratch2 : Memref Cert.Kernel.sig Kind.scVector Space.vmem Cert.Kernel.S400x128 EltTy.f32)

section Sets

variable (L : grid2.Coords)

theorem bound_zero : grid2.bound 0 = 2 := rfl
theorem bound_one : grid2.bound 1 = 16 := rfl
/-- The worker's number: twice the vector subcore's plus the SparseCore's. -/
abbrev wid (L : grid2.Coords) : Fin 32 := wOf (Fin.cast bound_zero (L 0)) (Fin.cast bound_one (L 1))
/-- The first row of the worker's block. -/
abbrev base (L : grid2.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid2.Coords) (c : Fin 25) : Rect S320000x128 :=
  Rect.unit (s := S320000x128) (k2_off2 L (BitVec.ofNat 32 (400 * c.val))) S400x128.size (k2_off2_inb L c)
abbrev chunkSet (L : grid2.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k2_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid2.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid2.Coords)

abbrev cV (L : grid2.Coords) : Fin τ.nSC := (L 0).castLE hcore2
abbrev jV (L : grid2.Coords) : Fin τ.nSub := (L 1).castLE hsub2

abbrev irowK (L : grid2.Coords) : Rect S320000 := Rect.unit (s := S320000) (k2_off1 L) S10000.size (k2_off1_inb L)
/-- The worker's block of the index array, as the task addresses it. -/
abbrev iRowK (L : grid2.Coords) : Memref sig .scVector .hbm S10000 .i32 := (iV).slice (irowK L) (fun _ => rfl)
/-- A block of 400 rows of the output at a row offset given by a word, as the task addresses it. -/
abbrev oChunkM (L : grid2.Coords) (n : BitVec 32) (h : ∀ a, (k2_off2 L n) a + S400x128.size a ≤ S320000x128.size a) : Memref sig .scVector .hbm S400x128 .f32 :=
  (oV).slice (Rect.unit (s := S320000x128) (k2_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k2_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k2_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k2_off2 L n) a + S400x128.size a ≤ S320000x128.size a) (f : Buf (Elt F) (oLoc1 d)) :
    ((oChunkM L n h).view.loc (V d (cV L) (jV L)) ↦[(oChunkM L n h).view.set]{fullShare} f : sProp 𝕄)
      = (oLoc1 d ↦[chunkSet L c]{fullShare} f) := by
  rw [set_oChunkM L c n hn h]
theorem pts_xV (q : PosShare TreeShare) (f : Buf (Elt F) (xLoc1 d)) :
    ((xV).view.loc (V d (cV L) (jV L)) ↦{q} f : sProp 𝕄) = xLoc1 d ↦{q} f := rfl
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
theorem pts_aV (f : Buf (Elt F) ((V d (cV L) (jV L)).loc cc2_scratch1)) :
    ((aV).view.loc (V d (cV L) (jV L)) ↦{fullShare} f : sProp 𝕄) = (V d (cV L) (jV L)).loc cc2_scratch1 ↦{fullShare} f := rfl
theorem pts_bV (f : Buf (Elt F) ((V d (cV L) (jV L)).loc cc2_scratch2)) :
    ((bV).view.loc (V d (cV L) (jV L)) ↦{fullShare} f : sProp 𝕄) = (V d (cV L) (jV L)).loc cc2_scratch2 ↦{fullShare} f := rfl

/-- The rows from chunk `k` on are chunk `k` and the rows from chunk `k + 1` on. -/
theorem pts_tl_split (k : ℕ) (hk : k < 25) (f : Buf (Elt F) (oLoc1 d)) :
    (oLoc1 d ↦[tlSet L k (by omega)]{fullShare} f : sProp 𝕄)
      = iprop((oLoc1 d ↦[chunkSet L ⟨k, hk⟩]{fullShare} f) ∗ oLoc1 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc1 d)) :
    (oLoc1 d ↦[oRowSet (wid L)]{fullShare} f : sProp 𝕄) = oLoc1 d ↦[tlSet L 0 (by omega)]{fullShare} f := by
  rw [tl_zero]

theorem pts_tl_24 (f : Buf (Elt F) (oLoc1 d)) :
    (oLoc1 d ↦[tlSet L 24 (by omega)]{fullShare} f : sProp 𝕄) = oLoc1 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k2_off2 L n) a + S400x128.size a ≤ S320000x128.size a)
    (g : Buf (Elt F) (oLoc1 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc1 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k2_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k2_off1 L) 0 + 1 * (off 0 + 1 * ((S400.rowMajor.symm ((j gathers_S10000x128_S400x128.axis').cast hn'.symm)) 0).val)
      = (k2_off2 L (BitVec.ofNat 32 (400 * c.val))) 0 + 1 * (j 0).val
    rw [hz, k2_off1_eq L, k2_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k2_off2 L (BitVec.ofNat 32 (400 * c.val))) 1 + 1 * (j 1).val
    rw [k2_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc1 d)) (g : Buf (Elt F) (oLoc1 d)) (c : Fin 25)
    (n : BitVec 32) (hn : n = BitVec.ofNat 32 (400 * c.val)) (h : ∀ a, (k2_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc2_scratch3.sem)
abbrev cellG1 (d : Dev nD) (c : Fin τ.nSC) (i : Fin τ.nSub) : GSem nD τ sig := (V d c i, .dma cc2_scratch4.sem)
abbrev cellS0 (d : Dev nD) (c : Fin τ.nSC) (i : Fin τ.nSub) : GSem nD τ sig := (V d c i, .dma cc2_scratch5.sem)
abbrev cellS1 (d : Dev nD) (c : Fin τ.nSC) (i : Fin τ.nSub) : GSem nD τ sig := (V d c i, .dma cc2_scratch6.sem)
abbrev cellIX (d : Dev nD) (c : Fin τ.nSC) (i : Fin τ.nSub) : GSem nD τ sig := (V d c i, .dma cc2_scoped0.sem)

theorem cell_ne_G1_G0 : (cellG1 d (cV L) (jV L)) ≠ (cellG0 d (cV L) (jV L)) :=
  fun h => absurd (congrArg Prod.snd h) (show (SemLoc.dma cc2_scratch4.sem : SemLoc sig) ≠ SemLoc.dma cc2_scratch3.sem by decide)
theorem cell_ne_S0_G0 : (cellS0 d (cV L) (jV L)) ≠ (cellG0 d (cV L) (jV L)) :=
  fun h => absurd (congrArg Prod.snd h) (show (SemLoc.dma cc2_scratch5.sem : SemLoc sig) ≠ SemLoc.dma cc2_scratch3.sem by decide)
theorem cell_ne_S0_G1 : (cellS0 d (cV L) (jV L)) ≠ (cellG1 d (cV L) (jV L)) :=
  fun h => absurd (congrArg Prod.snd h) (show (SemLoc.dma cc2_scratch5.sem : SemLoc sig) ≠ SemLoc.dma cc2_scratch4.sem by decide)
theorem cell_ne_S1_G0 : (cellS1 d (cV L) (jV L)) ≠ (cellG0 d (cV L) (jV L)) :=
  fun h => absurd (congrArg Prod.snd h) (show (SemLoc.dma cc2_scratch6.sem : SemLoc sig) ≠ SemLoc.dma cc2_scratch3.sem by decide)
theorem cell_ne_S1_G1 : (cellS1 d (cV L) (jV L)) ≠ (cellG1 d (cV L) (jV L)) :=
  fun h => absurd (congrArg Prod.snd h) (show (SemLoc.dma cc2_scratch6.sem : SemLoc sig) ≠ SemLoc.dma cc2_scratch4.sem by decide)
theorem cell_ne_S1_S0 : (cellS1 d (cV L) (jV L)) ≠ (cellS0 d (cV L) (jV L)) :=
  fun h => absurd (congrArg Prod.snd h) (show (SemLoc.dma cc2_scratch6.sem : SemLoc sig) ≠ SemLoc.dma cc2_scratch5.sem by decide)
theorem cell_ne_IX_G0 : (cellIX d (cV L) (jV L)) ≠ (cellG0 d (cV L) (jV L)) :=
  fun h => absurd (congrArg Prod.snd h) (show (SemLoc.dma cc2_scoped0.sem : SemLoc sig) ≠ SemLoc.dma cc2_scratch3.sem by decide)
theorem cell_ne_IX_G1 : (cellIX d (cV L) (jV L)) ≠ (cellG1 d (cV L) (jV L)) :=
  fun h => absurd (congrArg Prod.snd h) (show (SemLoc.dma cc2_scoped0.sem : SemLoc sig) ≠ SemLoc.dma cc2_scratch4.sem by decide)
theorem cell_ne_IX_S0 : (cellIX d (cV L) (jV L)) ≠ (cellS0 d (cV L) (jV L)) :=
  fun h => absurd (congrArg Prod.snd h) (show (SemLoc.dma cc2_scoped0.sem : SemLoc sig) ≠ SemLoc.dma cc2_scratch5.sem by decide)
theorem cell_ne_IX_S1 : (cellIX d (cV L) (jV L)) ≠ (cellS1 d (cV L) (jV L)) :=
  fun h => absurd (congrArg Prod.snd h) (show (SemLoc.dma cc2_scoped0.sem : SemLoc sig) ≠ SemLoc.dma cc2_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc2_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc2_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc2_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc2_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc2_scoped0.sem : SemLoc sig).isScoped .scVector = true; decide⟩⟩⟩⟩⟩)]

theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f)
          ∗ bigSep ((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := (Proc.scVector (cV L) (jV L))) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := (Proc.scVector (cV L) (jV L))) (b := (Proc.scVector (cV L) (jV L)).devRef cc2_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc1 d)) (OUT₀ : Buf (Elt F) (oLoc1 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc1 d ↦{q} TAB) ∗ (oLoc1 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L xV (Memref.isWhole_whole _) iV (Memref.isWhole_whole _) oV (Memref.isWhole_whole _)
            sV (Memref.isWhole_whole _) aV (Memref.isWhole_whole _) bV (Memref.isWhole_whole _)
            cc2_scratch3 cc2_scratch4 cc2_scratch5 cc2_scratch6 cc2_scoped0)
          fun _ => iprop(((iLoc d ↦[iRowSet (wid L)]{fullShare} IDX : sProp 𝕄) ∗ (xLoc1 d ↦{q} TAB)
              ∗ ∃ OUT, ⌜GatherSpec (wid L) IDX TAB OUT⌝ ∗ (oLoc1 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k2_off2_inb L 0) _).symm) $$ Ho0
  ihave Ho1' := (Entails.of_eq (pts_oChunk (F := F) d L 1 400#32 rfl (k2_off2_inb L 1) _).symm) $$ Ho1
  ihave Ho2' := (Entails.of_eq (pts_oChunk (F := F) d L 2 800#32 rfl (k2_off2_inb L 2) _).symm) $$ Ho2
  ihave Ho3' := (Entails.of_eq (pts_oChunk (F := F) d L 3 1200#32 rfl (k2_off2_inb L 3) _).symm) $$ Ho3
  ihave Ho4' := (Entails.of_eq (pts_oChunk (F := F) d L 4 1600#32 rfl (k2_off2_inb L 4) _).symm) $$ Ho4
  ihave Ho5' := (Entails.of_eq (pts_oChunk (F := F) d L 5 2000#32 rfl (k2_off2_inb L 5) _).symm) $$ Ho5
  ihave Ho6' := (Entails.of_eq (pts_oChunk (F := F) d L 6 2400#32 rfl (k2_off2_inb L 6) _).symm) $$ Ho6
  ihave Ho7' := (Entails.of_eq (pts_oChunk (F := F) d L 7 2800#32 rfl (k2_off2_inb L 7) _).symm) $$ Ho7
  ihave Ho8' := (Entails.of_eq (pts_oChunk (F := F) d L 8 3200#32 rfl (k2_off2_inb L 8) _).symm) $$ Ho8
  ihave Ho9' := (Entails.of_eq (pts_oChunk (F := F) d L 9 3600#32 rfl (k2_off2_inb L 9) _).symm) $$ Ho9
  ihave Ho10' := (Entails.of_eq (pts_oChunk (F := F) d L 10 4000#32 rfl (k2_off2_inb L 10) _).symm) $$ Ho10
  ihave Ho11' := (Entails.of_eq (pts_oChunk (F := F) d L 11 4400#32 rfl (k2_off2_inb L 11) _).symm) $$ Ho11
  ihave Ho12' := (Entails.of_eq (pts_oChunk (F := F) d L 12 4800#32 rfl (k2_off2_inb L 12) _).symm) $$ Ho12
  ihave Ho13' := (Entails.of_eq (pts_oChunk (F := F) d L 13 5200#32 rfl (k2_off2_inb L 13) _).symm) $$ Ho13
  ihave Ho14' := (Entails.of_eq (pts_oChunk (F := F) d L 14 5600#32 rfl (k2_off2_inb L 14) _).symm) $$ Ho14
  ihave Ho15' := (Entails.of_eq (pts_oChunk (F := F) d L 15 6000#32 rfl (k2_off2_inb L 15) _).symm) $$ Ho15
  ihave Ho16' := (Entails.of_eq (pts_oChunk (F := F) d L 16 6400#32 rfl (k2_off2_inb L 16) _).symm) $$ Ho16
  ihave Ho17' := (Entails.of_eq (pts_oChunk (F := F) d L 17 6800#32 rfl (k2_off2_inb L 17) _).symm) $$ Ho17
  ihave Ho18' := (Entails.of_eq (pts_oChunk (F := F) d L 18 7200#32 rfl (k2_off2_inb L 18) _).symm) $$ Ho18
  ihave Ho19' := (Entails.of_eq (pts_oChunk (F := F) d L 19 7600#32 rfl (k2_off2_inb L 19) _).symm) $$ Ho19
  ihave Ho20' := (Entails.of_eq (pts_oChunk (F := F) d L 20 8000#32 rfl (k2_off2_inb L 20) _).symm) $$ Ho20
  ihave Ho21' := (Entails.of_eq (pts_oChunk (F := F) d L 21 8400#32 rfl (k2_off2_inb L 21) _).symm) $$ Ho21
  ihave Ho22' := (Entails.of_eq (pts_oChunk (F := F) d L 22 8800#32 rfl (k2_off2_inb L 22) _).symm) $$ Ho22
  ihave Ho23' := (Entails.of_eq (pts_oChunk (F := F) d L 23 9200#32 rfl (k2_off2_inb L 23) _).symm) $$ Ho23
  ihave Ho24' := (Entails.of_eq (pts_oChunk (F := F) d L 24 9600#32 rfl (k2_off2_inb L 24) _).symm) $$ Ho24
  have hin := idx_inb (F := F) d L IDX hidx
  sl_exec_parts
  sl_step
  have hv0 := chunk_val (F := F) d L IDX TAB OUT₀ 0 0#32 rfl (k2_off2_inb L 0) (tile_body.sl.dma0_1 d L IDX TAB fs fa hin)
    (fun j => (read_writes_whole _ _ _ _ j).trans (gather_val (F := F) d L IDX TAB hidx fs 0 ![0] rfl _ 0#32 rfl (k2_off2_inb L 0) _ _ j))
  ihave Hg0 := (Entails.of_eq ((pts_oChunk (F := F) d L 0 0#32 rfl (k2_off2_inb L 0) _).trans (pointsTo_congr hv0))) $$ Ho0'
  have hv1 := chunk_val (F := F) d L IDX TAB OUT₀ 1 400#32 rfl (k2_off2_inb L 1) (tile_body.sl.dma0_2 d L IDX TAB fs fb hin)
    (fun j => (read_writes_whole _ _ _ _ j).trans (gather_val (F := F) d L IDX TAB hidx fs 1 ![400] rfl _ 400#32 rfl (k2_off2_inb L 1) _ _ j))
  ihave Hg1 := (Entails.of_eq ((pts_oChunk (F := F) d L 1 400#32 rfl (k2_off2_inb L 1) _).trans (pointsTo_congr hv1))) $$ Ho1'
  have hv2 := chunk_val (F := F) d L IDX TAB OUT₀ 2 800#32 rfl (k2_off2_inb L 2) (tile_body.sl.dma0_3 d L IDX TAB fs fa hin)
    (fun j => (read_writes_whole _ _ _ _ j).trans (gather_val (F := F) d L IDX TAB hidx fs 2 ![800] rfl _ 800#32 rfl (k2_off2_inb L 2) _ _ j))
  ihave Hg2 := (Entails.of_eq ((pts_oChunk (F := F) d L 2 800#32 rfl (k2_off2_inb L 2) _).trans (pointsTo_congr hv2))) $$ Ho2'
  have hv3 := chunk_val (F := F) d L IDX TAB OUT₀ 3 1200#32 rfl (k2_off2_inb L 3) (tile_body.sl.dma0_4 d L IDX TAB fs fb hin)
    (fun j => (read_writes_whole _ _ _ _ j).trans (gather_val (F := F) d L IDX TAB hidx fs 3 ![1200] rfl _ 1200#32 rfl (k2_off2_inb L 3) _ _ j))
  ihave Hg3 := (Entails.of_eq ((pts_oChunk (F := F) d L 3 1200#32 rfl (k2_off2_inb L 3) _).trans (pointsTo_congr hv3))) $$ Ho3'
  have hv4 := chunk_val (F := F) d L IDX TAB OUT₀ 4 1600#32 rfl (k2_off2_inb L 4) (tile_body.sl.dma0_5 d L IDX TAB fs fa hin)
    (fun j => (read_writes_whole _ _ _ _ j).trans (gather_val (F := F) d L IDX TAB hidx fs 4 ![1600] rfl _ 1600#32 rfl (k2_off2_inb L 4) _ _ j))
  ihave Hg4 := (Entails.of_eq ((pts_oChunk (F := F) d L 4 1600#32 rfl (k2_off2_inb L 4) _).trans (pointsTo_congr hv4))) $$ Ho4'
  have hv5 := chunk_val (F := F) d L IDX TAB OUT₀ 5 2000#32 rfl (k2_off2_inb L 5) (tile_body.sl.dma0_6 d L IDX TAB fs fb hin)
    (fun j => (read_writes_whole _ _ _ _ j).trans (gather_val (F := F) d L IDX TAB hidx fs 5 ![2000] rfl _ 2000#32 rfl (k2_off2_inb L 5) _ _ j))
  ihave Hg5 := (Entails.of_eq ((pts_oChunk (F := F) d L 5 2000#32 rfl (k2_off2_inb L 5) _).trans (pointsTo_congr hv5))) $$ Ho5'
  have hv6 := chunk_val (F := F) d L IDX TAB OUT₀ 6 2400#32 rfl (k2_off2_inb L 6) (tile_body.sl.dma0_7 d L IDX TAB fs fa hin)
    (fun j => (read_writes_whole _ _ _ _ j).trans (gather_val (F := F) d L IDX TAB hidx fs 6 ![2400] rfl _ 2400#32 rfl (k2_off2_inb L 6) _ _ j))
  ihave Hg6 := (Entails.of_eq ((pts_oChunk (F := F) d L 6 2400#32 rfl (k2_off2_inb L 6) _).trans (pointsTo_congr hv6))) $$ Ho6'
  have hv7 := chunk_val (F := F) d L IDX TAB OUT₀ 7 2800#32 rfl (k2_off2_inb L 7) (tile_body.sl.dma0_8 d L IDX TAB fs fb hin)
    (fun j => (read_writes_whole _ _ _ _ j).trans (gather_val (F := F) d L IDX TAB hidx fs 7 ![2800] rfl _ 2800#32 rfl (k2_off2_inb L 7) _ _ j))
  ihave Hg7 := (Entails.of_eq ((pts_oChunk (F := F) d L 7 2800#32 rfl (k2_off2_inb L 7) _).trans (pointsTo_congr hv7))) $$ Ho7'
  have hv8 := chunk_val (F := F) d L IDX TAB OUT₀ 8 3200#32 rfl (k2_off2_inb L 8) (tile_body.sl.dma0_9 d L IDX TAB fs fa hin)
    (fun j => (read_writes_whole _ _ _ _ j).trans (gather_val (F := F) d L IDX TAB hidx fs 8 ![3200] rfl _ 3200#32 rfl (k2_off2_inb L 8) _ _ j))
  ihave Hg8 := (Entails.of_eq ((pts_oChunk (F := F) d L 8 3200#32 rfl (k2_off2_inb L 8) _).trans (pointsTo_congr hv8))) $$ Ho8'
  have hv9 := chunk_val (F := F) d L IDX TAB OUT₀ 9 3600#32 rfl (k2_off2_inb L 9) (tile_body.sl.dma0_10 d L IDX TAB fs fb hin)
    (fun j => (read_writes_whole _ _ _ _ j).trans (gather_val (F := F) d L IDX TAB hidx fs 9 ![3600] rfl _ 3600#32 rfl (k2_off2_inb L 9) _ _ j))
  ihave Hg9 := (Entails.of_eq ((pts_oChunk (F := F) d L 9 3600#32 rfl (k2_off2_inb L 9) _).trans (pointsTo_congr hv9))) $$ Ho9'
  have hv10 := chunk_val (F := F) d L IDX TAB OUT₀ 10 4000#32 rfl (k2_off2_inb L 10) (tile_body.sl.dma0_11 d L IDX TAB fs fa hin)
    (fun j => (read_writes_whole _ _ _ _ j).trans (gather_val (F := F) d L IDX TAB hidx fs 10 ![4000] rfl _ 4000#32 rfl (k2_off2_inb L 10) _ _ j))
  ihave Hg10 := (Entails.of_eq ((pts_oChunk (F := F) d L 10 4000#32 rfl (k2_off2_inb L 10) _).trans (pointsTo_congr hv10))) $$ Ho10'
  have hv11 := chunk_val (F := F) d L IDX TAB OUT₀ 11 4400#32 rfl (k2_off2_inb L 11) (tile_body.sl.dma0_12 d L IDX TAB fs fb hin)
    (fun j => (read_writes_whole _ _ _ _ j).trans (gather_val (F := F) d L IDX TAB hidx fs 11 ![4400] rfl _ 4400#32 rfl (k2_off2_inb L 11) _ _ j))
  ihave Hg11 := (Entails.of_eq ((pts_oChunk (F := F) d L 11 4400#32 rfl (k2_off2_inb L 11) _).trans (pointsTo_congr hv11))) $$ Ho11'
  have hv12 := chunk_val (F := F) d L IDX TAB OUT₀ 12 4800#32 rfl (k2_off2_inb L 12) (tile_body.sl.dma0_13 d L IDX TAB fs fa hin)
    (fun j => (read_writes_whole _ _ _ _ j).trans (gather_val (F := F) d L IDX TAB hidx fs 12 ![4800] rfl _ 4800#32 rfl (k2_off2_inb L 12) _ _ j))
  ihave Hg12 := (Entails.of_eq ((pts_oChunk (F := F) d L 12 4800#32 rfl (k2_off2_inb L 12) _).trans (pointsTo_congr hv12))) $$ Ho12'
  have hv13 := chunk_val (F := F) d L IDX TAB OUT₀ 13 5200#32 rfl (k2_off2_inb L 13) (tile_body.sl.dma0_14 d L IDX TAB fs fb hin)
    (fun j => (read_writes_whole _ _ _ _ j).trans (gather_val (F := F) d L IDX TAB hidx fs 13 ![5200] rfl _ 5200#32 rfl (k2_off2_inb L 13) _ _ j))
  ihave Hg13 := (Entails.of_eq ((pts_oChunk (F := F) d L 13 5200#32 rfl (k2_off2_inb L 13) _).trans (pointsTo_congr hv13))) $$ Ho13'
  have hv14 := chunk_val (F := F) d L IDX TAB OUT₀ 14 5600#32 rfl (k2_off2_inb L 14) (tile_body.sl.dma0_15 d L IDX TAB fs fa hin)
    (fun j => (read_writes_whole _ _ _ _ j).trans (gather_val (F := F) d L IDX TAB hidx fs 14 ![5600] rfl _ 5600#32 rfl (k2_off2_inb L 14) _ _ j))
  ihave Hg14 := (Entails.of_eq ((pts_oChunk (F := F) d L 14 5600#32 rfl (k2_off2_inb L 14) _).trans (pointsTo_congr hv14))) $$ Ho14'
  have hv15 := chunk_val (F := F) d L IDX TAB OUT₀ 15 6000#32 rfl (k2_off2_inb L 15) (tile_body.sl.dma0_16 d L IDX TAB fs fb hin)
    (fun j => (read_writes_whole _ _ _ _ j).trans (gather_val (F := F) d L IDX TAB hidx fs 15 ![6000] rfl _ 6000#32 rfl (k2_off2_inb L 15) _ _ j))
  ihave Hg15 := (Entails.of_eq ((pts_oChunk (F := F) d L 15 6000#32 rfl (k2_off2_inb L 15) _).trans (pointsTo_congr hv15))) $$ Ho15'
  have hv16 := chunk_val (F := F) d L IDX TAB OUT₀ 16 6400#32 rfl (k2_off2_inb L 16) (tile_body.sl.dma0_17 d L IDX TAB fs fa hin)
    (fun j => (read_writes_whole _ _ _ _ j).trans (gather_val (F := F) d L IDX TAB hidx fs 16 ![6400] rfl _ 6400#32 rfl (k2_off2_inb L 16) _ _ j))
  ihave Hg16 := (Entails.of_eq ((pts_oChunk (F := F) d L 16 6400#32 rfl (k2_off2_inb L 16) _).trans (pointsTo_congr hv16))) $$ Ho16'
  have hv17 := chunk_val (F := F) d L IDX TAB OUT₀ 17 6800#32 rfl (k2_off2_inb L 17) (tile_body.sl.dma0_18 d L IDX TAB fs fb hin)
    (fun j => (read_writes_whole _ _ _ _ j).trans (gather_val (F := F) d L IDX TAB hidx fs 17 ![6800] rfl _ 6800#32 rfl (k2_off2_inb L 17) _ _ j))
  ihave Hg17 := (Entails.of_eq ((pts_oChunk (F := F) d L 17 6800#32 rfl (k2_off2_inb L 17) _).trans (pointsTo_congr hv17))) $$ Ho17'
  have hv18 := chunk_val (F := F) d L IDX TAB OUT₀ 18 7200#32 rfl (k2_off2_inb L 18) (tile_body.sl.dma0_19 d L IDX TAB fs fa hin)
    (fun j => (read_writes_whole _ _ _ _ j).trans (gather_val (F := F) d L IDX TAB hidx fs 18 ![7200] rfl _ 7200#32 rfl (k2_off2_inb L 18) _ _ j))
  ihave Hg18 := (Entails.of_eq ((pts_oChunk (F := F) d L 18 7200#32 rfl (k2_off2_inb L 18) _).trans (pointsTo_congr hv18))) $$ Ho18'
  have hv19 := chunk_val (F := F) d L IDX TAB OUT₀ 19 7600#32 rfl (k2_off2_inb L 19) (tile_body.sl.dma0_20 d L IDX TAB fs fb hin)
    (fun j => (read_writes_whole _ _ _ _ j).trans (gather_val (F := F) d L IDX TAB hidx fs 19 ![7600] rfl _ 7600#32 rfl (k2_off2_inb L 19) _ _ j))
  ihave Hg19 := (Entails.of_eq ((pts_oChunk (F := F) d L 19 7600#32 rfl (k2_off2_inb L 19) _).trans (pointsTo_congr hv19))) $$ Ho19'
  have hv20 := chunk_val (F := F) d L IDX TAB OUT₀ 20 8000#32 rfl (k2_off2_inb L 20) (tile_body.sl.dma0_21 d L IDX TAB fs fa hin)
    (fun j => (read_writes_whole _ _ _ _ j).trans (gather_val (F := F) d L IDX TAB hidx fs 20 ![8000] rfl _ 8000#32 rfl (k2_off2_inb L 20) _ _ j))
  ihave Hg20 := (Entails.of_eq ((pts_oChunk (F := F) d L 20 8000#32 rfl (k2_off2_inb L 20) _).trans (pointsTo_congr hv20))) $$ Ho20'
  have hv21 := chunk_val (F := F) d L IDX TAB OUT₀ 21 8400#32 rfl (k2_off2_inb L 21) (tile_body.sl.dma0_22 d L IDX TAB fs fb hin)
    (fun j => (read_writes_whole _ _ _ _ j).trans (gather_val (F := F) d L IDX TAB hidx fs 21 ![8400] rfl _ 8400#32 rfl (k2_off2_inb L 21) _ _ j))
  ihave Hg21 := (Entails.of_eq ((pts_oChunk (F := F) d L 21 8400#32 rfl (k2_off2_inb L 21) _).trans (pointsTo_congr hv21))) $$ Ho21'
  have hv22 := chunk_val (F := F) d L IDX TAB OUT₀ 22 8800#32 rfl (k2_off2_inb L 22) (tile_body.sl.dma0_23 d L IDX TAB fs fa hin)
    (fun j => (read_writes_whole _ _ _ _ j).trans (gather_val (F := F) d L IDX TAB hidx fs 22 ![8800] rfl _ 8800#32 rfl (k2_off2_inb L 22) _ _ j))
  ihave Hg22 := (Entails.of_eq ((pts_oChunk (F := F) d L 22 8800#32 rfl (k2_off2_inb L 22) _).trans (pointsTo_congr hv22))) $$ Ho22'
  have hv23 := chunk_val (F := F) d L IDX TAB OUT₀ 23 9200#32 rfl (k2_off2_inb L 23) (tile_body.sl.dma0_24 d L IDX TAB fs fb hin)
    (fun j => (read_writes_whole _ _ _ _ j).trans (gather_val (F := F) d L IDX TAB hidx fs 23 ![9200] rfl _ 9200#32 rfl (k2_off2_inb L 23) _ _ j))
  ihave Hg23 := (Entails.of_eq ((pts_oChunk (F := F) d L 23 9200#32 rfl (k2_off2_inb L 23) _).trans (pointsTo_congr hv23))) $$ Ho23'
  have hv24 := chunk_val (F := F) d L IDX TAB OUT₀ 24 9600#32 rfl (k2_off2_inb L 24) (tile_body.sl.dma0_25 d L IDX TAB fs fa hin)
    (fun j => (read_writes_whole _ _ _ _ j).trans (gather_val (F := F) d L IDX TAB hidx fs 24 ![9600] rfl _ 9600#32 rfl (k2_off2_inb L 24) _ _ j))
  ihave Hg24 := (Entails.of_eq ((pts_oChunk (F := F) d L 24 9600#32 rfl (k2_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody2B

end
-- ==== Proof.GatherBody4B.lean ====
/-
  One vector subcore's task of gather call 2 (the program's custom call 4): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBaseB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.Kernel
import proofs.«205547_g25623774888366_cont_9to1_713_27_alg».proof.Proof.Gen.Kernel.Skeleton

noncomputable section

namespace Cert.Proof.GatherBody4B

open Cert.Kernel Cert.Kernel.Gen
open Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.Kernel.main_v35_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v36_scv : Memref Cert.Kernel.sig Kind.scVector Space.hbm Cert.Kernel.S320000x128 EltTy.f32)
local notation "sV" => (Memref.whole Cert.Kernel.cc4_scratch0 : Memref Cert.Kernel.sig Kind.scVector Space.vmem Cert.Kernel.S10000 EltTy.i32)
local notation "aV" => (Memref.whole Cert.Kernel.cc4_scratch1 : Memref Cert.Kernel.sig Kind.scVector Space.vmem Cert.Kernel.S400x128 EltTy.f32)
local notation "bV" => (Memref.whole Cert.Kernel.cc4_scratch2 : Memref Cert.Kernel.sig Kind.scVector Space.vmem Cert.Kernel.S400x128 EltTy.f32)

section Sets

variable (L : grid4.Coords)

theorem bound_zero : grid4.bound 0 = 2 := rfl
theorem bound_one : grid4.bound 1 = 16 := rfl
/-- The worker's number: twice the vector subcore's plus the SparseCore's. -/
abbrev wid (L : grid4.Coords) : Fin 32 := wOf (Fin.cast bound_zero (L 0)) (Fin.cast bound_one (L 1))
/-- The first row of the worker's block. -/
abbrev base (L : grid4.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid4.Coords) (c : Fin 25) : Rect S320000x128 :=
  Rect.unit (s := S320000x128) (k4_off2 L (BitVec.ofNat 32 (400 * c.val))) S400x128.size (k4_off2_inb L c)
abbrev chunkSet (L : grid4.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k4_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid4.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid4.Coords)

abbrev cV (L : grid4.Coords) : Fin τ.nSC := (L 0).castLE hcore4
abbrev jV (L : grid4.Coords) : Fin τ.nSub := (L 1).castLE hsub4

abbrev irowK (L : grid4.Coords) : Rect S320000 := Rect.unit (s := S320000) (k4_off1 L) S10000.size (k4_off1_inb L)
/-- The worker's block of the index array, as the task addresses it. -/
abbrev iRowK (L : grid4.Coords) : Memref sig .scVector .hbm S10000 .i32 := (iV).slice (irowK L) (fun _ => rfl)
/-- A block of 400 rows of the output at a row offset given by a word, as the task addresses it. -/
abbrev oChunkM (L : grid4.Coords) (n : BitVec 32) (h : ∀ a, (k4_off2 L n) a + S400x128.size a ≤ S320000x128.size a) : Memref sig .scVector .hbm S400x128 .f32 :=
  (oV).slice (Rect.unit (s := S320000x128) (k4_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k4_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k4_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k4_off2 L n) a + S400x128.size a ≤ S320000x128.size a) (f : Buf (Elt F) (oLoc2 d)) :
    ((oChunkM L n h).view.loc (V d (cV L) (jV L)) ↦[(oChunkM L n h).view.set]{fullShare} f : sProp 𝕄)
      = (oLoc2 d ↦[chunkSet L c]{fullShare} f) := by
  rw [set_oChunkM L c n hn h]
theorem pts_xV (q : PosShare TreeShare) (f : Buf (Elt F) (xLoc2 d)) :
    ((xV).view.loc (V d (cV L) (jV L)) ↦{q} f : sProp 𝕄) = xLoc2 d ↦{q} f := rfl
theorem pts_sV (f : Buf (Elt F) ((V d (cV L) (jV L)).loc cc4_scratch0)) :
    ((sV).view.loc (V d (cV L) (jV L)) ↦{fullShare} f : sProp 𝕄) = (V d (cV L) (jV L)).loc cc4_scratch0 ↦{fullShare} f := rfl
theorem pts_aV (f : Buf (Elt F) ((V d (cV L) (jV L)).loc cc4_scratch1)) :
    ((aV).view.loc (V d (cV L) (jV L)) ↦{fullShare} f : sProp 𝕄) = (V d (cV L) (jV L)).loc cc4_scratch1 ↦{fullShare} f := rfl
theorem pts_bV (f : Buf (Elt F) ((V d (cV L) (jV L)).loc cc4_scratch2)) :
    ((bV).view.loc (V d (cV L) (jV L)) ↦{fullShare} f : sProp 𝕄) = (V d (cV L) (jV L)).loc cc4_scratch2 ↦{fullShare} f := rfl

/-- The rows from chunk `k` on are chunk `k` and the rows from chunk `k + 1` on. -/
theorem pts_tl_split (k : ℕ) (hk : k < 25) (f : Buf (Elt F) (oLoc2 d)) :
    (oLoc2 d ↦[tlSet L k (by omega)]{fullShare} f : sProp 𝕄)
      = iprop((oLoc2 d ↦[chunkSet L ⟨k, hk⟩]{fullShare} f) ∗ oLoc2 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc2 d)) :
    (oLoc2 d ↦[oRowSet (wid L)]{fullShare} f : sProp 𝕄) = oLoc2 d ↦[tlSet L 0 (by omega)]{fullShare} f := by
  rw [tl_zero]

theorem pts_tl_24 (f : Buf (Elt F) (oLoc2 d)) :
    (oLoc2 d ↦[tlSet L 24 (by omega)]{fullShare} f : sProp 𝕄) = oLoc2 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k4_off2 L n) a + S400x128.size a ≤ S320000x128.size a)
    (g : Buf (Elt F) (oLoc2 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc2 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k4_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k4_off1 L) 0 + 1 * (off 0 + 1 * ((S400.rowMajor.symm ((j gathers_S10000x128_S400x128.axis').cast hn'.symm)) 0).val)
      = (k4_off2 L (BitVec.ofNat 32 (400 * c.val))) 0 + 1 * (j 0).val
    rw [hz, k4_off1_eq L, k4_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k4_off2 L (BitVec.ofNat 32 (400 * c.val))) 1 + 1 * (j 1).val
    rw [k4_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc2 d)) (g : Buf (Elt F) (oLoc2 d)) (c : Fin 25)
    (n : BitVec 32) (hn : n = BitVec.ofNat 32 (400 * c.val)) (h : ∀ a, (k4_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc4_scratch3.sem)
abbrev cellG1 (d : Dev nD) (c : Fin τ.nSC) (i : Fin τ.nSub) : GSem nD τ sig := (V d c i, .dma cc4_scratch4.sem)
abbrev cellS0 (d : Dev nD) (c : Fin τ.nSC) (i : Fin τ.nSub) : GSem nD τ sig := (V d c i, .dma cc4_scratch5.sem)
abbrev cellS1 (d : Dev nD) (c : Fin τ.nSC) (i : Fin τ.nSub) : GSem nD τ sig := (V d c i, .dma cc4_scratch6.sem)
abbrev cellIX (d : Dev nD) (c : Fin τ.nSC) (i : Fin τ.nSub) : GSem nD τ sig := (V d c i, .dma cc4_scoped0.sem)

theorem cell_ne_G1_G0 : (cellG1 d (cV L) (jV L)) ≠ (cellG0 d (cV L) (jV L)) :=
  fun h => absurd (congrArg Prod.snd h) (show (SemLoc.dma cc4_scratch4.sem : SemLoc sig) ≠ SemLoc.dma cc4_scratch3.sem by decide)
theorem cell_ne_S0_G0 : (cellS0 d (cV L) (jV L)) ≠ (cellG0 d (cV L) (jV L)) :=
  fun h => absurd (congrArg Prod.snd h) (show (SemLoc.dma cc4_scratch5.sem : SemLoc sig) ≠ SemLoc.dma cc4_scratch3.sem by decide)
theorem cell_ne_S0_G1 : (cellS0 d (cV L) (jV L)) ≠ (cellG1 d (cV L) (jV L)) :=
  fun h => absurd (congrArg Prod.snd h) (show (SemLoc.dma cc4_scratch5.sem : SemLoc sig) ≠ SemLoc.dma cc4_scratch4.sem by decide)
theorem cell_ne_S1_G0 : (cellS1 d (cV L) (jV L)) ≠ (cellG0 d (cV L) (jV L)) :=
  fun h => absurd (congrArg Prod.snd h) (show (SemLoc.dma cc4_scratch6.sem : SemLoc sig) ≠ SemLoc.dma cc4_scratch3.sem by decide)
theorem cell_ne_S1_G1 : (cellS1 d (cV L) (jV L)) ≠ (cellG1 d (cV L) (jV L)) :=
  fun h => absurd (congrArg Prod.snd h) (show (SemLoc.dma cc4_scratch6.sem : SemLoc sig) ≠ SemLoc.dma cc4_scratch4.sem by decide)
theorem cell_ne_S1_S0 : (cellS1 d (cV L) (jV L)) ≠ (cellS0 d (cV L) (jV L)) :=
  fun h => absurd (congrArg Prod.snd h) (show (SemLoc.dma cc4_scratch6.sem : SemLoc sig) ≠ SemLoc.dma cc4_scratch5.sem by decide)
theorem cell_ne_IX_G0 : (cellIX d (cV L) (jV L)) ≠ (cellG0 d (cV L) (jV L)) :=
  fun h => absurd (congrArg Prod.snd h) (show (SemLoc.dma cc4_scoped0.sem : SemLoc sig) ≠ SemLoc.dma cc4_scratch3.sem by decide)
theorem cell_ne_IX_G1 : (cellIX d (cV L) (jV L)) ≠ (cellG1 d (cV L) (jV L)) :=
  fun h => absurd (congrArg Prod.snd h) (show (SemLoc.dma cc4_scoped0.sem : SemLoc sig) ≠ SemLoc.dma cc4_scratch4.sem by decide)
theorem cell_ne_IX_S0 : (cellIX d (cV L) (jV L)) ≠ (cellS0 d (cV L) (jV L)) :=
  fun h => absurd (congrArg Prod.snd h) (show (SemLoc.dma cc4_scoped0.sem : SemLoc sig) ≠ SemLoc.dma cc4_scratch5.sem by decide)
theorem cell_ne_IX_S1 : (cellIX d (cV L) (jV L)) ≠ (cellS1 d (cV L) (jV L)) :=
  fun h => absurd (congrArg Prod.snd h) (show (SemLoc.dma cc4_scoped0.sem : SemLoc sig) ≠ SemLoc.dma cc4_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc4_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc4_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc4_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc4_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc4_scoped0.sem : SemLoc sig).isScoped .scVector = true; decide⟩⟩⟩⟩⟩)]

theorem ownBufs_V :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f) ∗ (∃ f, (V d (cV L) (jV L)).loc cc4_scratch2 ↦{fullShare} f)
          ∗ bigSep ((((ownRefs (τ := τ) (.scVector (cV L) (jV L))).erase ((Proc.scVector (cV L) (jV L)).devRef cc4_scratch0)).erase ((Proc.scVector (cV L) (jV L)).devRef cc4_scratch1)).erase ((Proc.scVector (cV L) (jV L)).devRef cc4_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide), SparseCore.Cfg.mem_ownRefs_of_owner (p := (Proc.scVector (cV L) (jV L))) (b := (Proc.scVector (cV L) (jV L)).devRef cc4_scratch1) rfl⟩),
    SparseCore.bigSep_erase' (Finset.mem_erase.mpr ⟨fun e => absurd (Proc.devRef_injective _ e) (show (cc4_scratch2 : Ref sig .scVector) ≠ cc4_scratch1 by decide), Finset.mem_erase.mpr ⟨fun e => absurd (Proc.devRef_injective _ e) (show (cc4_scratch2 : Ref sig .scVector) ≠ cc4_scratch0 by decide), SparseCore.Cfg.mem_ownRefs_of_owner (p := (Proc.scVector (cV L) (jV L))) (b := (Proc.scVector (cV L) (jV L)).devRef cc4_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc2 d)) (OUT₀ : Buf (Elt F) (oLoc2 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc2 d ↦{q} TAB) ∗ (oLoc2 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_gather_kernel L xV (Memref.isWhole_whole _) iV (Memref.isWhole_whole _) oV (Memref.isWhole_whole _)
            sV (Memref.isWhole_whole _) aV (Memref.isWhole_whole _) bV (Memref.isWhole_whole _)
            cc4_scratch3 cc4_scratch4 cc4_scratch5 cc4_scratch6 cc4_scoped0)
          fun _ => iprop(((iLoc d ↦[iRowSet (wid L)]{fullShare} IDX : sProp 𝕄) ∗ (xLoc2 d ↦{q} TAB)
              ∗ ∃ OUT, ⌜GatherSpec (wid L) IDX TAB OUT⌝ ∗ (oLoc2 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_gather_kernel_eq_skeleton]; unfold cc4_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k4_off2_inb L 0) _).symm) $$ Ho0
  ihave Ho1' := (Entails.of_eq (pts_oChunk (F := F) d L 1 400#32 rfl (k4_off2_inb L 1) _).symm) $$ Ho1
  ihave Ho2' := (Entails.of_eq (pts_oChunk (F := F) d L 2 800#32 rfl (k4_off2_inb L 2) _).symm) $$ Ho2
  ihave Ho3' := (Entails.of_eq (pts_oChunk (F := F) d L 3 1200#32 rfl (k4_off2_inb L 3) _).symm) $$ Ho3
  ihave Ho4' := (Entails.of_eq (pts_oChunk (F := F) d L 4 1600#32 rfl (k4_off2_inb L 4) _).symm) $$ Ho4
  ihave Ho5' := (Entails.of_eq (pts_oChunk (F := F) d L 5 2000#32 rfl (k4_off2_inb L 5) _).symm) $$ Ho5
  ihave Ho6' := (Entails.of_eq (pts_oChunk (F := F) d L 6 2400#32 rfl (k4_off2_inb L 6) _).symm) $$ Ho6
  ihave Ho7' := (Entails.of_eq (pts_oChunk (F := F) d L 7 2800#32 rfl (k4_off2_inb L 7) _).symm) $$ Ho7
  ihave Ho8' := (Entails.of_eq (pts_oChunk (F := F) d L 8 3200#32 rfl (k4_off2_inb L 8) _).symm) $$ Ho8
  ihave Ho9' := (Entails.of_eq (pts_oChunk (F := F) d L 9 3600#32 rfl (k4_off2_inb L 9) _).symm) $$ Ho9
  ihave Ho10' := (Entails.of_eq (pts_oChunk (F := F) d L 10 4000#32 rfl (k4_off2_inb L 10) _).symm) $$ Ho10
  ihave Ho11' := (Entails.of_eq (pts_oChunk (F := F) d L 11 4400#32 rfl (k4_off2_inb L 11) _).symm) $$ Ho11
  ihave Ho12' := (Entails.of_eq (pts_oChunk (F := F) d L 12 4800#32 rfl (k4_off2_inb L 12) _).symm) $$ Ho12
  ihave Ho13' := (Entails.of_eq (pts_oChunk (F := F) d L 13 5200#32 rfl (k4_off2_inb L 13) _).symm) $$ Ho13
  ihave Ho14' := (Entails.of_eq (pts_oChunk (F := F) d L 14 5600#32 rfl (k4_off2_inb L 14) _).symm) $$ Ho14
  ihave Ho15' := (Entails.of_eq (pts_oChunk (F := F) d L 15 6000#32 rfl (k4_off2_inb L 15) _).symm) $$ Ho15
  ihave Ho16' := (Entails.of_eq (pts_oChunk (F := F) d L 16 6400#32 rfl (k4_off2_inb L 16) _).symm) $$ Ho16
  ihave Ho17' := (Entails.of_eq (pts_oChunk (F := F) d L 17 6800#32 rfl (k4_off2_inb L 17) _).symm) $$ Ho17
  ihave Ho18' := (Entails.of_eq (pts_oChunk (F := F) d L 18 7200#32 rfl (k4_off2_inb L 18) _).symm) $$ Ho18
  ihave Ho19' := (Entails.of_eq (pts_oChunk (F := F) d L 19 7600#32 rfl (k4_off2_inb L 19) _).symm) $$ Ho19
  ihave Ho20' := (Entails.of_eq (pts_oChunk (F := F) d L 20 8000#32 rfl (k4_off2_inb L 20) _).symm) $$ Ho20
  ihave Ho21' := (Entails.of_eq (pts_oChunk (F := F) d L 21 8400#32 rfl (k4_off2_inb L 21) _).symm) $$ Ho21
  ihave Ho22' := (Entails.of_eq (pts_oChunk (F := F) d L 22 8800#32 rfl (k4_off2_inb L 22) _).symm) $$ Ho22
  ihave Ho23' := (Entails.of_eq (pts_oChunk (F := F) d L 23 9200#32 rfl (k4_off2_inb L 23) _).symm) $$ Ho23
  ihave Ho24' := (Entails.of_eq (pts_oChunk (F := F) d L 24 9600#32 rfl (k4_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k4_off2_inb L 0) (tile_body.sl.dma0_1 d L IDX TAB fs fa hin)
    (fun j => (read_writes_whole _ _ _ _ j).trans (gather_val (F := F) d L IDX TAB hidx fs 0 ![0] rfl _ 0#32 rfl (k4_off2_inb L 0) _ _ j))
  ihave Hg0 := (Entails.of_eq ((pts_oChunk (F := F) d L 0 0#32 rfl (k4_off2_inb L 0) _).trans (pointsTo_congr hv0))) $$ Ho0'
  have hv1 := chunk_val (F := F) d L IDX TAB OUT₀ 1 400#32 rfl (k4_off2_inb L 1) (tile_body.sl.dma0_2 d L IDX TAB fs fb hin)
    (fun j => (read_writes_whole _ _ _ _ j).trans (gather_val (F := F) d L IDX TAB hidx fs 1 ![400] rfl _ 400#32 rfl (k4_off2_inb L 1) _ _ j))
  ihave Hg1 := (Entails.of_eq ((pts_oChunk (F := F) d L 1 400#32 rfl (k4_off2_inb L 1) _).trans (pointsTo_congr hv1))) $$ Ho1'
  have hv2 := chunk_val (F := F) d L IDX TAB OUT₀ 2 800#32 rfl (k4_off2_inb L 2) (tile_body.sl.dma0_3 d L IDX TAB fs fa hin)
    (fun j => (read_writes_whole _ _ _ _ j).trans (gather_val (F := F) d L IDX TAB hidx fs 2 ![800] rfl _ 800#32 rfl (k4_off2_inb L 2) _ _ j))
  ihave Hg2 := (Entails.of_eq ((pts_oChunk (F := F) d L 2 800#32 rfl (k4_off2_inb L 2) _).trans (pointsTo_congr hv2))) $$ Ho2'
  have hv3 := chunk_val (F := F) d L IDX TAB OUT₀ 3 1200#32 rfl (k4_off2_inb L 3) (tile_body.sl.dma0_4 d L IDX TAB fs fb hin)
    (fun j => (read_writes_whole _ _ _ _ j).trans (gather_val (F := F) d L IDX TAB hidx fs 3 ![1200] rfl _ 1200#32 rfl (k4_off2_inb L 3) _ _ j))
  ihave Hg3 := (Entails.of_eq ((pts_oChunk (F := F) d L 3 1200#32 rfl (k4_off2_inb L 3) _).trans (pointsTo_congr hv3))) $$ Ho3'
  have hv4 := chunk_val (F := F) d L IDX TAB OUT₀ 4 1600#32 rfl (k4_off2_inb L 4) (tile_body.sl.dma0_5 d L IDX TAB fs fa hin)
    (fun j => (read_writes_whole _ _ _ _ j).trans (gather_val (F := F) d L IDX TAB hidx fs 4 ![1600] rfl _ 1600#32 rfl (k4_off2_inb L 4) _ _ j))
  ihave Hg4 := (Entails.of_eq ((pts_oChunk (F := F) d L 4 1600#32 rfl (k4_off2_inb L 4) _).trans (pointsTo_congr hv4))) $$ Ho4'
  have hv5 := chunk_val (F := F) d L IDX TAB OUT₀ 5 2000#32 rfl (k4_off2_inb L 5) (tile_body.sl.dma0_6 d L IDX TAB fs fb hin)
    (fun j => (read_writes_whole _ _ _ _ j).trans (gather_val (F := F) d L IDX TAB hidx fs 5 ![2000] rfl _ 2000#32 rfl (k4_off2_inb L 5) _ _ j))
  ihave Hg5 := (Entails.of_eq ((pts_oChunk (F := F) d L 5 2000#32 rfl (k4_off2_inb L 5) _).trans (pointsTo_congr hv5))) $$ Ho5'
  have hv6 := chunk_val (F := F) d L IDX TAB OUT₀ 6 2400#32 rfl (k4_off2_inb L 6) (tile_body.sl.dma0_7 d L IDX TAB fs fa hin)
    (fun j => (read_writes_whole _ _ _ _ j).trans (gather_val (F := F) d L IDX TAB hidx fs 6 ![2400] rfl _ 2400#32 rfl (k4_off2_inb L 6) _ _ j))
  ihave Hg6 := (Entails.of_eq ((pts_oChunk (F := F) d L 6 2400#32 rfl (k4_off2_inb L 6) _).trans (pointsTo_congr hv6))) $$ Ho6'
  have hv7 := chunk_val (F := F) d L IDX TAB OUT₀ 7 2800#32 rfl (k4_off2_inb L 7) (tile_body.sl.dma0_8 d L IDX TAB fs fb hin)
    (fun j => (read_writes_whole _ _ _ _ j).trans (gather_val (F := F) d L IDX TAB hidx fs 7 ![2800] rfl _ 2800#32 rfl (k4_off2_inb L 7) _ _ j))
  ihave Hg7 := (Entails.of_eq ((pts_oChunk (F := F) d L 7 2800#32 rfl (k4_off2_inb L 7) _).trans (pointsTo_congr hv7))) $$ Ho7'
  have hv8 := chunk_val (F := F) d L IDX TAB OUT₀ 8 3200#32 rfl (k4_off2_inb L 8) (tile_body.sl.dma0_9 d L IDX TAB fs fa hin)
    (fun j => (read_writes_whole _ _ _ _ j).trans (gather_val (F := F) d L IDX TAB hidx fs 8 ![3200] rfl _ 3200#32 rfl (k4_off2_inb L 8) _ _ j))
  ihave Hg8 := (Entails.of_eq ((pts_oChunk (F := F) d L 8 3200#32 rfl (k4_off2_inb L 8) _).trans (pointsTo_congr hv8))) $$ Ho8'
  have hv9 := chunk_val (F := F) d L IDX TAB OUT₀ 9 3600#32 rfl (k4_off2_inb L 9) (tile_body.sl.dma0_10 d L IDX TAB fs fb hin)
    (fun j => (read_writes_whole _ _ _ _ j).trans (gather_val (F := F) d L IDX TAB hidx fs 9 ![3600] rfl _ 3600#32 rfl (k4_off2_inb L 9) _ _ j))
  ihave Hg9 := (Entails.of_eq ((pts_oChunk (F := F) d L 9 3600#32 rfl (k4_off2_inb L 9) _).trans (pointsTo_congr hv9))) $$ Ho9'
  have hv10 := chunk_val (F := F) d L IDX TAB OUT₀ 10 4000#32 rfl (k4_off2_inb L 10) (tile_body.sl.dma0_11 d L IDX TAB fs fa hin)
    (fun j => (read_writes_whole _ _ _ _ j).trans (gather_val (F := F) d L IDX TAB hidx fs 10 ![4000] rfl _ 4000#32 rfl (k4_off2_inb L 10) _ _ j))
  ihave Hg10 := (Entails.of_eq ((pts_oChunk (F := F) d L 10 4000#32 rfl (k4_off2_inb L 10) _).trans (pointsTo_congr hv10))) $$ Ho10'
  have hv11 := chunk_val (F := F) d L IDX TAB OUT₀ 11 4400#32 rfl (k4_off2_inb L 11) (tile_body.sl.dma0_12 d L IDX TAB fs fb hin)
    (fun j => (read_writes_whole _ _ _ _ j).trans (gather_val (F := F) d L IDX TAB hidx fs 11 ![4400] rfl _ 4400#32 rfl (k4_off2_inb L 11) _ _ j))
  ihave Hg11 := (Entails.of_eq ((pts_oChunk (F := F) d L 11 4400#32 rfl (k4_off2_inb L 11) _).trans (pointsTo_congr hv11))) $$ Ho11'
  have hv12 := chunk_val (F := F) d L IDX TAB OUT₀ 12 4800#32 rfl (k4_off2_inb L 12) (tile_body.sl.dma0_13 d L IDX TAB fs fa hin)
    (fun j => (read_writes_whole _ _ _ _ j).trans (gather_val (F := F) d L IDX TAB hidx fs 12 ![4800] rfl _ 4800#32 rfl (k4_off2_inb L 12) _ _ j))
  ihave Hg12 := (Entails.of_eq ((pts_oChunk (F := F) d L 12 4800#32 rfl (k4_off2_inb L 12) _).trans (pointsTo_congr hv12))) $$ Ho12'
  have hv13 := chunk_val (F := F) d L IDX TAB OUT₀ 13 5200#32 rfl (k4_off2_inb L 13) (tile_body.sl.dma0_14 d L IDX TAB fs fb hin)
    (fun j => (read_writes_whole _ _ _ _ j).trans (gather_val (F := F) d L IDX TAB hidx fs 13 ![5200] rfl _ 5200#32 rfl (k4_off2_inb L 13) _ _ j))
  ihave Hg13 := (Entails.of_eq ((pts_oChunk (F := F) d L 13 5200#32 rfl (k4_off2_inb L 13) _).trans (pointsTo_congr hv13))) $$ Ho13'
  have hv14 := chunk_val (F := F) d L IDX TAB OUT₀ 14 5600#32 rfl (k4_off2_inb L 14) (tile_body.sl.dma0_15 d L IDX TAB fs fa hin)
    (fun j => (read_writes_whole _ _ _ _ j).trans (gather_val (F := F) d L IDX TAB hidx fs 14 ![5600] rfl _ 5600#32 rfl (k4_off2_inb L 14) _ _ j))
  ihave Hg14 := (Entails.of_eq ((pts_oChunk (F := F) d L 14 5600#32 rfl (k4_off2_inb L 14) _).trans (pointsTo_congr hv14))) $$ Ho14'
  have hv15 := chunk_val (F := F) d L IDX TAB OUT₀ 15 6000#32 rfl (k4_off2_inb L 15) (tile_body.sl.dma0_16 d L IDX TAB fs fb hin)
    (fun j => (read_writes_whole _ _ _ _ j).trans (gather_val (F := F) d L IDX TAB hidx fs 15 ![6000] rfl _ 6000#32 rfl (k4_off2_inb L 15) _ _ j))
  ihave Hg15 := (Entails.of_eq ((pts_oChunk (F := F) d L 15 6000#32 rfl (k4_off2_inb L 15) _).trans (pointsTo_congr hv15))) $$ Ho15'
  have hv16 := chunk_val (F := F) d L IDX TAB OUT₀ 16 6400#32 rfl (k4_off2_inb L 16) (tile_body.sl.dma0_17 d L IDX TAB fs fa hin)
    (fun j => (read_writes_whole _ _ _ _ j).trans (gather_val (F := F) d L IDX TAB hidx fs 16 ![6400] rfl _ 6400#32 rfl (k4_off2_inb L 16) _ _ j))
  ihave Hg16 := (Entails.of_eq ((pts_oChunk (F := F) d L 16 6400#32 rfl (k4_off2_inb L 16) _).trans (pointsTo_congr hv16))) $$ Ho16'
  have hv17 := chunk_val (F := F) d L IDX TAB OUT₀ 17 6800#32 rfl (k4_off2_inb L 17) (tile_body.sl.dma0_18 d L IDX TAB fs fb hin)
    (fun j => (read_writes_whole _ _ _ _ j).trans (gather_val (F := F) d L IDX TAB hidx fs 17 ![6800] rfl _ 6800#32 rfl (k4_off2_inb L 17) _ _ j))
  ihave Hg17 := (Entails.of_eq ((pts_oChunk (F := F) d L 17 6800#32 rfl (k4_off2_inb L 17) _).trans (pointsTo_congr hv17))) $$ Ho17'
  have hv18 := chunk_val (F := F) d L IDX TAB OUT₀ 18 7200#32 rfl (k4_off2_inb L 18) (tile_body.sl.dma0_19 d L IDX TAB fs fa hin)
    (fun j => (read_writes_whole _ _ _ _ j).trans (gather_val (F := F) d L IDX TAB hidx fs 18 ![7200] rfl _ 7200#32 rfl (k4_off2_inb L 18) _ _ j))
  ihave Hg18 := (Entails.of_eq ((pts_oChunk (F := F) d L 18 7200#32 rfl (k4_off2_inb L 18) _).trans (pointsTo_congr hv18))) $$ Ho18'
  have hv19 := chunk_val (F := F) d L IDX TAB OUT₀ 19 7600#32 rfl (k4_off2_inb L 19) (tile_body.sl.dma0_20 d L IDX TAB fs fb hin)
    (fun j => (read_writes_whole _ _ _ _ j).trans (gather_val (F := F) d L IDX TAB hidx fs 19 ![7600] rfl _ 7600#32 rfl (k4_off2_inb L 19) _ _ j))
  ihave Hg19 := (Entails.of_eq ((pts_oChunk (F := F) d L 19 7600#32 rfl (k4_off2_inb L 19) _).trans (pointsTo_congr hv19))) $$ Ho19'
  have hv20 := chunk_val (F := F) d L IDX TAB OUT₀ 20 8000#32 rfl (k4_off2_inb L 20) (tile_body.sl.dma0_21 d L IDX TAB fs fa hin)
    (fun j => (read_writes_whole _ _ _ _ j).trans (gather_val (F := F) d L IDX TAB hidx fs 20 ![8000] rfl _ 8000#32 rfl (k4_off2_inb L 20) _ _ j))
  ihave Hg20 := (Entails.of_eq ((pts_oChunk (F := F) d L 20 8000#32 rfl (k4_off2_inb L 20) _).trans (pointsTo_congr hv20))) $$ Ho20'
  have hv21 := chunk_val (F := F) d L IDX TAB OUT₀ 21 8400#32 rfl (k4_off2_inb L 21) (tile_body.sl.dma0_22 d L IDX TAB fs fb hin)
    (fun j => (read_writes_whole _ _ _ _ j).trans (gather_val (F := F) d L IDX TAB hidx fs 21 ![8400] rfl _ 8400#32 rfl (k4_off2_inb L 21) _ _ j))
  ihave Hg21 := (Entails.of_eq ((pts_oChunk (F := F) d L 21 8400#32 rfl (k4_off2_inb L 21) _).trans (pointsTo_congr hv21))) $$ Ho21'
  have hv22 := chunk_val (F := F) d L IDX TAB OUT₀ 22 8800#32 rfl (k4_off2_inb L 22) (tile_body.sl.dma0_23 d L IDX TAB fs fa hin)
    (fun j => (read_writes_whole _ _ _ _ j).trans (gather_val (F := F) d L IDX TAB hidx fs 22 ![8800] rfl _ 8800#32 rfl (k4_off2_inb L 22) _ _ j))
  ihave Hg22 := (Entails.of_eq ((pts_oChunk (F := F) d L 22 8800#32 rfl (k4_off2_inb L 22) _).trans (pointsTo_congr hv22))) $$ Ho22'
  have hv23 := chunk_val (F := F) d L IDX TAB OUT₀ 23 9200#32 rfl (k4_off2_inb L 23) (tile_body.sl.dma0_24 d L IDX TAB fs fb hin)
    (fun j => (read_writes_whole _ _ _ _ j).trans (gather_val (F := F) d L IDX TAB hidx fs 23 ![9200] rfl _ 9200#32 rfl (k4_off2_inb L 23) _ _ j))
  ihave Hg23 := (Entails.of_eq ((pts_oChunk (F := F) d L 23 9200#32 rfl (k4_off2_inb L 23) _).trans (pointsTo_congr hv23))) $$ Ho23'
  have hv24 := chunk_val (F := F) d L IDX TAB OUT₀ 24 9600#32 rfl (k4_off2_inb L 24) (tile_body.sl.dma0_25 d L IDX TAB fs fa hin)
    (fun j => (read_writes_whole _ _ _ _ j).trans (gather_val (F := F) d L IDX TAB hidx fs 24 ![9600] rfl _ 9600#32 rfl (k4_off2_inb L 24) _ _ j))
  ihave Hg24 := (Entails.of_eq ((pts_oChunk (F := F) d L 24 9600#32 rfl (k4_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody4B

end
-- ==== Proof.GatherBody6B.lean ====
/-
  One vector subcore's task of gather call 3 (the program's custom call 6): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBaseB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.Kernel
import proofs.«205547_g25623774888366_cont_9to1_713_27_alg».proof.Proof.Gen.Kernel.Skeleton

noncomputable section

namespace Cert.Proof.GatherBody6B

open Cert.Kernel Cert.Kernel.Gen
open Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.Kernel.main_v48_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v49_scv : Memref Cert.Kernel.sig Kind.scVector Space.hbm Cert.Kernel.S320000x128 EltTy.f32)
local notation "sV" => (Memref.whole Cert.Kernel.cc6_scratch0 : Memref Cert.Kernel.sig Kind.scVector Space.vmem Cert.Kernel.S10000 EltTy.i32)
local notation "aV" => (Memref.whole Cert.Kernel.cc6_scratch1 : Memref Cert.Kernel.sig Kind.scVector Space.vmem Cert.Kernel.S400x128 EltTy.f32)
local notation "bV" => (Memref.whole Cert.Kernel.cc6_scratch2 : Memref Cert.Kernel.sig Kind.scVector Space.vmem Cert.Kernel.S400x128 EltTy.f32)

section Sets

variable (L : grid6.Coords)

theorem bound_zero : grid6.bound 0 = 2 := rfl
theorem bound_one : grid6.bound 1 = 16 := rfl
/-- The worker's number: twice the vector subcore's plus the SparseCore's. -/
abbrev wid (L : grid6.Coords) : Fin 32 := wOf (Fin.cast bound_zero (L 0)) (Fin.cast bound_one (L 1))
/-- The first row of the worker's block. -/
abbrev base (L : grid6.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid6.Coords) (c : Fin 25) : Rect S320000x128 :=
  Rect.unit (s := S320000x128) (k6_off2 L (BitVec.ofNat 32 (400 * c.val))) S400x128.size (k6_off2_inb L c)
abbrev chunkSet (L : grid6.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k6_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid6.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid6.Coords)

abbrev cV (L : grid6.Coords) : Fin τ.nSC := (L 0).castLE hcore6
abbrev jV (L : grid6.Coords) : Fin τ.nSub := (L 1).castLE hsub6

abbrev irowK (L : grid6.Coords) : Rect S320000 := Rect.unit (s := S320000) (k6_off1 L) S10000.size (k6_off1_inb L)
/-- The worker's block of the index array, as the task addresses it. -/
abbrev iRowK (L : grid6.Coords) : Memref sig .scVector .hbm S10000 .i32 := (iV).slice (irowK L) (fun _ => rfl)
/-- A block of 400 rows of the output at a row offset given by a word, as the task addresses it. -/
abbrev oChunkM (L : grid6.Coords) (n : BitVec 32) (h : ∀ a, (k6_off2 L n) a + S400x128.size a ≤ S320000x128.size a) : Memref sig .scVector .hbm S400x128 .f32 :=
  (oV).slice (Rect.unit (s := S320000x128) (k6_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k6_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k6_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k6_off2 L n) a + S400x128.size a ≤ S320000x128.size a) (f : Buf (Elt F) (oLoc3 d)) :
    ((oChunkM L n h).view.loc (V d (cV L) (jV L)) ↦[(oChunkM L n h).view.set]{fullShare} f : sProp 𝕄)
      = (oLoc3 d ↦[chunkSet L c]{fullShare} f) := by
  rw [set_oChunkM L c n hn h]
theorem pts_xV (q : PosShare TreeShare) (f : Buf (Elt F) (xLoc3 d)) :
    ((xV).view.loc (V d (cV L) (jV L)) ↦{q} f : sProp 𝕄) = xLoc3 d ↦{q} f := rfl
theorem pts_sV (f : Buf (Elt F) ((V d (cV L) (jV L)).loc cc6_scratch0)) :
    ((sV).view.loc (V d (cV L) (jV L)) ↦{fullShare} f : sProp 𝕄) = (V d (cV L) (jV L)).loc cc6_scratch0 ↦{fullShare} f := rfl
theorem pts_aV (f : Buf (Elt F) ((V d (cV L) (jV L)).loc cc6_scratch1)) :
    ((aV).view.loc (V d (cV L) (jV L)) ↦{fullShare} f : sProp 𝕄) = (V d (cV L) (jV L)).loc cc6_scratch1 ↦{fullShare} f := rfl
theorem pts_bV (f : Buf (Elt F) ((V d (cV L) (jV L)).loc cc6_scratch2)) :
    ((bV).view.loc (V d (cV L) (jV L)) ↦{fullShare} f : sProp 𝕄) = (V d (cV L) (jV L)).loc cc6_scratch2 ↦{fullShare} f := rfl

/-- The rows from chunk `k` on are chunk `k` and the rows from chunk `k + 1` on. -/
theorem pts_tl_split (k : ℕ) (hk : k < 25) (f : Buf (Elt F) (oLoc3 d)) :
    (oLoc3 d ↦[tlSet L k (by omega)]{fullShare} f : sProp 𝕄)
      = iprop((oLoc3 d ↦[chunkSet L ⟨k, hk⟩]{fullShare} f) ∗ oLoc3 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc3 d)) :
    (oLoc3 d ↦[oRowSet (wid L)]{fullShare} f : sProp 𝕄) = oLoc3 d ↦[tlSet L 0 (by omega)]{fullShare} f := by
  rw [tl_zero]

theorem pts_tl_24 (f : Buf (Elt F) (oLoc3 d)) :
    (oLoc3 d ↦[tlSet L 24 (by omega)]{fullShare} f : sProp 𝕄) = oLoc3 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k6_off2 L n) a + S400x128.size a ≤ S320000x128.size a)
    (g : Buf (Elt F) (oLoc3 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc3 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k6_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k6_off1 L) 0 + 1 * (off 0 + 1 * ((S400.rowMajor.symm ((j gathers_S10000x128_S400x128.axis').cast hn'.symm)) 0).val)
      = (k6_off2 L (BitVec.ofNat 32 (400 * c.val))) 0 + 1 * (j 0).val
    rw [hz, k6_off1_eq L, k6_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k6_off2 L (BitVec.ofNat 32 (400 * c.val))) 1 + 1 * (j 1).val
    rw [k6_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc3 d)) (g : Buf (Elt F) (oLoc3 d)) (c : Fin 25)
    (n : BitVec 32) (hn : n = BitVec.ofNat 32 (400 * c.val)) (h : ∀ a, (k6_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc6_scratch3.sem)
abbrev cellG1 (d : Dev nD) (c : Fin τ.nSC) (i : Fin τ.nSub) : GSem nD τ sig := (V d c i, .dma cc6_scratch4.sem)
abbrev cellS0 (d : Dev nD) (c : Fin τ.nSC) (i : Fin τ.nSub) : GSem nD τ sig := (V d c i, .dma cc6_scratch5.sem)
abbrev cellS1 (d : Dev nD) (c : Fin τ.nSC) (i : Fin τ.nSub) : GSem nD τ sig := (V d c i, .dma cc6_scratch6.sem)
abbrev cellIX (d : Dev nD) (c : Fin τ.nSC) (i : Fin τ.nSub) : GSem nD τ sig := (V d c i, .dma cc6_scoped0.sem)

theorem cell_ne_G1_G0 : (cellG1 d (cV L) (jV L)) ≠ (cellG0 d (cV L) (jV L)) :=
  fun h => absurd (congrArg Prod.snd h) (show (SemLoc.dma cc6_scratch4.sem : SemLoc sig) ≠ SemLoc.dma cc6_scratch3.sem by decide)
theorem cell_ne_S0_G0 : (cellS0 d (cV L) (jV L)) ≠ (cellG0 d (cV L) (jV L)) :=
  fun h => absurd (congrArg Prod.snd h) (show (SemLoc.dma cc6_scratch5.sem : SemLoc sig) ≠ SemLoc.dma cc6_scratch3.sem by decide)
theorem cell_ne_S0_G1 : (cellS0 d (cV L) (jV L)) ≠ (cellG1 d (cV L) (jV L)) :=
  fun h => absurd (congrArg Prod.snd h) (show (SemLoc.dma cc6_scratch5.sem : SemLoc sig) ≠ SemLoc.dma cc6_scratch4.sem by decide)
theorem cell_ne_S1_G0 : (cellS1 d (cV L) (jV L)) ≠ (cellG0 d (cV L) (jV L)) :=
  fun h => absurd (congrArg Prod.snd h) (show (SemLoc.dma cc6_scratch6.sem : SemLoc sig) ≠ SemLoc.dma cc6_scratch3.sem by decide)
theorem cell_ne_S1_G1 : (cellS1 d (cV L) (jV L)) ≠ (cellG1 d (cV L) (jV L)) :=
  fun h => absurd (congrArg Prod.snd h) (show (SemLoc.dma cc6_scratch6.sem : SemLoc sig) ≠ SemLoc.dma cc6_scratch4.sem by decide)
theorem cell_ne_S1_S0 : (cellS1 d (cV L) (jV L)) ≠ (cellS0 d (cV L) (jV L)) :=
  fun h => absurd (congrArg Prod.snd h) (show (SemLoc.dma cc6_scratch6.sem : SemLoc sig) ≠ SemLoc.dma cc6_scratch5.sem by decide)
theorem cell_ne_IX_G0 : (cellIX d (cV L) (jV L)) ≠ (cellG0 d (cV L) (jV L)) :=
  fun h => absurd (congrArg Prod.snd h) (show (SemLoc.dma cc6_scoped0.sem : SemLoc sig) ≠ SemLoc.dma cc6_scratch3.sem by decide)
theorem cell_ne_IX_G1 : (cellIX d (cV L) (jV L)) ≠ (cellG1 d (cV L) (jV L)) :=
  fun h => absurd (congrArg Prod.snd h) (show (SemLoc.dma cc6_scoped0.sem : SemLoc sig) ≠ SemLoc.dma cc6_scratch4.sem by decide)
theorem cell_ne_IX_S0 : (cellIX d (cV L) (jV L)) ≠ (cellS0 d (cV L) (jV L)) :=
  fun h => absurd (congrArg Prod.snd h) (show (SemLoc.dma cc6_scoped0.sem : SemLoc sig) ≠ SemLoc.dma cc6_scratch5.sem by decide)
theorem cell_ne_IX_S1 : (cellIX d (cV L) (jV L)) ≠ (cellS1 d (cV L) (jV L)) :=
  fun h => absurd (congrArg Prod.snd h) (show (SemLoc.dma cc6_scoped0.sem : SemLoc sig) ≠ SemLoc.dma cc6_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc6_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc6_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc6_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc6_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc6_scoped0.sem : SemLoc sig).isScoped .scVector = true; decide⟩⟩⟩⟩⟩)]

theorem ownBufs_V :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f) ∗ (∃ f, (V d (cV L) (jV L)).loc cc6_scratch2 ↦{fullShare} f)
          ∗ bigSep ((((ownRefs (τ := τ) (.scVector (cV L) (jV L))).erase ((Proc.scVector (cV L) (jV L)).devRef cc6_scratch0)).erase ((Proc.scVector (cV L) (jV L)).devRef cc6_scratch1)).erase ((Proc.scVector (cV L) (jV L)).devRef cc6_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc6_scratch0) rfl)).trans ?_
  rw [SparseCore.bigSep_erase' (Finset.mem_erase.mpr ⟨fun e => absurd (Proc.devRef_injective _ e) (show (cc6_scratch1 : Ref sig .scVector) ≠ cc6_scratch0 by decide), SparseCore.Cfg.mem_ownRefs_of_owner (p := (Proc.scVector (cV L) (jV L))) (b := (Proc.scVector (cV L) (jV L)).devRef cc6_scratch1) rfl⟩),
    SparseCore.bigSep_erase' (Finset.mem_erase.mpr ⟨fun e => absurd (Proc.devRef_injective _ e) (show (cc6_scratch2 : Ref sig .scVector) ≠ cc6_scratch1 by decide), Finset.mem_erase.mpr ⟨fun e => absurd (Proc.devRef_injective _ e) (show (cc6_scratch2 : Ref sig .scVector) ≠ cc6_scratch0 by decide), SparseCore.Cfg.mem_ownRefs_of_owner (p := (Proc.scVector (cV L) (jV L))) (b := (Proc.scVector (cV L) (jV L)).devRef cc6_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc3 d)) (OUT₀ : Buf (Elt F) (oLoc3 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc3 d ↦{q} TAB) ∗ (oLoc3 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_gather_kernel L xV (Memref.isWhole_whole _) iV (Memref.isWhole_whole _) oV (Memref.isWhole_whole _)
            sV (Memref.isWhole_whole _) aV (Memref.isWhole_whole _) bV (Memref.isWhole_whole _)
            cc6_scratch3 cc6_scratch4 cc6_scratch5 cc6_scratch6 cc6_scoped0)
          fun _ => iprop(((iLoc d ↦[iRowSet (wid L)]{fullShare} IDX : sProp 𝕄) ∗ (xLoc3 d ↦{q} TAB)
              ∗ ∃ OUT, ⌜GatherSpec (wid L) IDX TAB OUT⌝ ∗ (oLoc3 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc6_gather_kernel_eq_skeleton]; unfold cc6_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k6_off2_inb L 0) _).symm) $$ Ho0
  ihave Ho1' := (Entails.of_eq (pts_oChunk (F := F) d L 1 400#32 rfl (k6_off2_inb L 1) _).symm) $$ Ho1
  ihave Ho2' := (Entails.of_eq (pts_oChunk (F := F) d L 2 800#32 rfl (k6_off2_inb L 2) _).symm) $$ Ho2
  ihave Ho3' := (Entails.of_eq (pts_oChunk (F := F) d L 3 1200#32 rfl (k6_off2_inb L 3) _).symm) $$ Ho3
  ihave Ho4' := (Entails.of_eq (pts_oChunk (F := F) d L 4 1600#32 rfl (k6_off2_inb L 4) _).symm) $$ Ho4
  ihave Ho5' := (Entails.of_eq (pts_oChunk (F := F) d L 5 2000#32 rfl (k6_off2_inb L 5) _).symm) $$ Ho5
  ihave Ho6' := (Entails.of_eq (pts_oChunk (F := F) d L 6 2400#32 rfl (k6_off2_inb L 6) _).symm) $$ Ho6
  ihave Ho7' := (Entails.of_eq (pts_oChunk (F := F) d L 7 2800#32 rfl (k6_off2_inb L 7) _).symm) $$ Ho7
  ihave Ho8' := (Entails.of_eq (pts_oChunk (F := F) d L 8 3200#32 rfl (k6_off2_inb L 8) _).symm) $$ Ho8
  ihave Ho9' := (Entails.of_eq (pts_oChunk (F := F) d L 9 3600#32 rfl (k6_off2_inb L 9) _).symm) $$ Ho9
  ihave Ho10' := (Entails.of_eq (pts_oChunk (F := F) d L 10 4000#32 rfl (k6_off2_inb L 10) _).symm) $$ Ho10
  ihave Ho11' := (Entails.of_eq (pts_oChunk (F := F) d L 11 4400#32 rfl (k6_off2_inb L 11) _).symm) $$ Ho11
  ihave Ho12' := (Entails.of_eq (pts_oChunk (F := F) d L 12 4800#32 rfl (k6_off2_inb L 12) _).symm) $$ Ho12
  ihave Ho13' := (Entails.of_eq (pts_oChunk (F := F) d L 13 5200#32 rfl (k6_off2_inb L 13) _).symm) $$ Ho13
  ihave Ho14' := (Entails.of_eq (pts_oChunk (F := F) d L 14 5600#32 rfl (k6_off2_inb L 14) _).symm) $$ Ho14
  ihave Ho15' := (Entails.of_eq (pts_oChunk (F := F) d L 15 6000#32 rfl (k6_off2_inb L 15) _).symm) $$ Ho15
  ihave Ho16' := (Entails.of_eq (pts_oChunk (F := F) d L 16 6400#32 rfl (k6_off2_inb L 16) _).symm) $$ Ho16
  ihave Ho17' := (Entails.of_eq (pts_oChunk (F := F) d L 17 6800#32 rfl (k6_off2_inb L 17) _).symm) $$ Ho17
  ihave Ho18' := (Entails.of_eq (pts_oChunk (F := F) d L 18 7200#32 rfl (k6_off2_inb L 18) _).symm) $$ Ho18
  ihave Ho19' := (Entails.of_eq (pts_oChunk (F := F) d L 19 7600#32 rfl (k6_off2_inb L 19) _).symm) $$ Ho19
  ihave Ho20' := (Entails.of_eq (pts_oChunk (F := F) d L 20 8000#32 rfl (k6_off2_inb L 20) _).symm) $$ Ho20
  ihave Ho21' := (Entails.of_eq (pts_oChunk (F := F) d L 21 8400#32 rfl (k6_off2_inb L 21) _).symm) $$ Ho21
  ihave Ho22' := (Entails.of_eq (pts_oChunk (F := F) d L 22 8800#32 rfl (k6_off2_inb L 22) _).symm) $$ Ho22
  ihave Ho23' := (Entails.of_eq (pts_oChunk (F := F) d L 23 9200#32 rfl (k6_off2_inb L 23) _).symm) $$ Ho23
  ihave Ho24' := (Entails.of_eq (pts_oChunk (F := F) d L 24 9600#32 rfl (k6_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k6_off2_inb L 0) (tile_body.sl.dma0_1 d L IDX TAB fs fa hin)
    (fun j => (read_writes_whole _ _ _ _ j).trans (gather_val (F := F) d L IDX TAB hidx fs 0 ![0] rfl _ 0#32 rfl (k6_off2_inb L 0) _ _ j))
  ihave Hg0 := (Entails.of_eq ((pts_oChunk (F := F) d L 0 0#32 rfl (k6_off2_inb L 0) _).trans (pointsTo_congr hv0))) $$ Ho0'
  have hv1 := chunk_val (F := F) d L IDX TAB OUT₀ 1 400#32 rfl (k6_off2_inb L 1) (tile_body.sl.dma0_2 d L IDX TAB fs fb hin)
    (fun j => (read_writes_whole _ _ _ _ j).trans (gather_val (F := F) d L IDX TAB hidx fs 1 ![400] rfl _ 400#32 rfl (k6_off2_inb L 1) _ _ j))
  ihave Hg1 := (Entails.of_eq ((pts_oChunk (F := F) d L 1 400#32 rfl (k6_off2_inb L 1) _).trans (pointsTo_congr hv1))) $$ Ho1'
  have hv2 := chunk_val (F := F) d L IDX TAB OUT₀ 2 800#32 rfl (k6_off2_inb L 2) (tile_body.sl.dma0_3 d L IDX TAB fs fa hin)
    (fun j => (read_writes_whole _ _ _ _ j).trans (gather_val (F := F) d L IDX TAB hidx fs 2 ![800] rfl _ 800#32 rfl (k6_off2_inb L 2) _ _ j))
  ihave Hg2 := (Entails.of_eq ((pts_oChunk (F := F) d L 2 800#32 rfl (k6_off2_inb L 2) _).trans (pointsTo_congr hv2))) $$ Ho2'
  have hv3 := chunk_val (F := F) d L IDX TAB OUT₀ 3 1200#32 rfl (k6_off2_inb L 3) (tile_body.sl.dma0_4 d L IDX TAB fs fb hin)
    (fun j => (read_writes_whole _ _ _ _ j).trans (gather_val (F := F) d L IDX TAB hidx fs 3 ![1200] rfl _ 1200#32 rfl (k6_off2_inb L 3) _ _ j))
  ihave Hg3 := (Entails.of_eq ((pts_oChunk (F := F) d L 3 1200#32 rfl (k6_off2_inb L 3) _).trans (pointsTo_congr hv3))) $$ Ho3'
  have hv4 := chunk_val (F := F) d L IDX TAB OUT₀ 4 1600#32 rfl (k6_off2_inb L 4) (tile_body.sl.dma0_5 d L IDX TAB fs fa hin)
    (fun j => (read_writes_whole _ _ _ _ j).trans (gather_val (F := F) d L IDX TAB hidx fs 4 ![1600] rfl _ 1600#32 rfl (k6_off2_inb L 4) _ _ j))
  ihave Hg4 := (Entails.of_eq ((pts_oChunk (F := F) d L 4 1600#32 rfl (k6_off2_inb L 4) _).trans (pointsTo_congr hv4))) $$ Ho4'
  have hv5 := chunk_val (F := F) d L IDX TAB OUT₀ 5 2000#32 rfl (k6_off2_inb L 5) (tile_body.sl.dma0_6 d L IDX TAB fs fb hin)
    (fun j => (read_writes_whole _ _ _ _ j).trans (gather_val (F := F) d L IDX TAB hidx fs 5 ![2000] rfl _ 2000#32 rfl (k6_off2_inb L 5) _ _ j))
  ihave Hg5 := (Entails.of_eq ((pts_oChunk (F := F) d L 5 2000#32 rfl (k6_off2_inb L 5) _).trans (pointsTo_congr hv5))) $$ Ho5'
  have hv6 := chunk_val (F := F) d L IDX TAB OUT₀ 6 2400#32 rfl (k6_off2_inb L 6) (tile_body.sl.dma0_7 d L IDX TAB fs fa hin)
    (fun j => (read_writes_whole _ _ _ _ j).trans (gather_val (F := F) d L IDX TAB hidx fs 6 ![2400] rfl _ 2400#32 rfl (k6_off2_inb L 6) _ _ j))
  ihave Hg6 := (Entails.of_eq ((pts_oChunk (F := F) d L 6 2400#32 rfl (k6_off2_inb L 6) _).trans (pointsTo_congr hv6))) $$ Ho6'
  have hv7 := chunk_val (F := F) d L IDX TAB OUT₀ 7 2800#32 rfl (k6_off2_inb L 7) (tile_body.sl.dma0_8 d L IDX TAB fs fb hin)
    (fun j => (read_writes_whole _ _ _ _ j).trans (gather_val (F := F) d L IDX TAB hidx fs 7 ![2800] rfl _ 2800#32 rfl (k6_off2_inb L 7) _ _ j))
  ihave Hg7 := (Entails.of_eq ((pts_oChunk (F := F) d L 7 2800#32 rfl (k6_off2_inb L 7) _).trans (pointsTo_congr hv7))) $$ Ho7'
  have hv8 := chunk_val (F := F) d L IDX TAB OUT₀ 8 3200#32 rfl (k6_off2_inb L 8) (tile_body.sl.dma0_9 d L IDX TAB fs fa hin)
    (fun j => (read_writes_whole _ _ _ _ j).trans (gather_val (F := F) d L IDX TAB hidx fs 8 ![3200] rfl _ 3200#32 rfl (k6_off2_inb L 8) _ _ j))
  ihave Hg8 := (Entails.of_eq ((pts_oChunk (F := F) d L 8 3200#32 rfl (k6_off2_inb L 8) _).trans (pointsTo_congr hv8))) $$ Ho8'
  have hv9 := chunk_val (F := F) d L IDX TAB OUT₀ 9 3600#32 rfl (k6_off2_inb L 9) (tile_body.sl.dma0_10 d L IDX TAB fs fb hin)
    (fun j => (read_writes_whole _ _ _ _ j).trans (gather_val (F := F) d L IDX TAB hidx fs 9 ![3600] rfl _ 3600#32 rfl (k6_off2_inb L 9) _ _ j))
  ihave Hg9 := (Entails.of_eq ((pts_oChunk (F := F) d L 9 3600#32 rfl (k6_off2_inb L 9) _).trans (pointsTo_congr hv9))) $$ Ho9'
  have hv10 := chunk_val (F := F) d L IDX TAB OUT₀ 10 4000#32 rfl (k6_off2_inb L 10) (tile_body.sl.dma0_11 d L IDX TAB fs fa hin)
    (fun j => (read_writes_whole _ _ _ _ j).trans (gather_val (F := F) d L IDX TAB hidx fs 10 ![4000] rfl _ 4000#32 rfl (k6_off2_inb L 10) _ _ j))
  ihave Hg10 := (Entails.of_eq ((pts_oChunk (F := F) d L 10 4000#32 rfl (k6_off2_inb L 10) _).trans (pointsTo_congr hv10))) $$ Ho10'
  have hv11 := chunk_val (F := F) d L IDX TAB OUT₀ 11 4400#32 rfl (k6_off2_inb L 11) (tile_body.sl.dma0_12 d L IDX TAB fs fb hin)
    (fun j => (read_writes_whole _ _ _ _ j).trans (gather_val (F := F) d L IDX TAB hidx fs 11 ![4400] rfl _ 4400#32 rfl (k6_off2_inb L 11) _ _ j))
  ihave Hg11 := (Entails.of_eq ((pts_oChunk (F := F) d L 11 4400#32 rfl (k6_off2_inb L 11) _).trans (pointsTo_congr hv11))) $$ Ho11'
  have hv12 := chunk_val (F := F) d L IDX TAB OUT₀ 12 4800#32 rfl (k6_off2_inb L 12) (tile_body.sl.dma0_13 d L IDX TAB fs fa hin)
    (fun j => (read_writes_whole _ _ _ _ j).trans (gather_val (F := F) d L IDX TAB hidx fs 12 ![4800] rfl _ 4800#32 rfl (k6_off2_inb L 12) _ _ j))
  ihave Hg12 := (Entails.of_eq ((pts_oChunk (F := F) d L 12 4800#32 rfl (k6_off2_inb L 12) _).trans (pointsTo_congr hv12))) $$ Ho12'
  have hv13 := chunk_val (F := F) d L IDX TAB OUT₀ 13 5200#32 rfl (k6_off2_inb L 13) (tile_body.sl.dma0_14 d L IDX TAB fs fb hin)
    (fun j => (read_writes_whole _ _ _ _ j).trans (gather_val (F := F) d L IDX TAB hidx fs 13 ![5200] rfl _ 5200#32 rfl (k6_off2_inb L 13) _ _ j))
  ihave Hg13 := (Entails.of_eq ((pts_oChunk (F := F) d L 13 5200#32 rfl (k6_off2_inb L 13) _).trans (pointsTo_congr hv13))) $$ Ho13'
  have hv14 := chunk_val (F := F) d L IDX TAB OUT₀ 14 5600#32 rfl (k6_off2_inb L 14) (tile_body.sl.dma0_15 d L IDX TAB fs fa hin)
    (fun j => (read_writes_whole _ _ _ _ j).trans (gather_val (F := F) d L IDX TAB hidx fs 14 ![5600] rfl _ 5600#32 rfl (k6_off2_inb L 14) _ _ j))
  ihave Hg14 := (Entails.of_eq ((pts_oChunk (F := F) d L 14 5600#32 rfl (k6_off2_inb L 14) _).trans (pointsTo_congr hv14))) $$ Ho14'
  have hv15 := chunk_val (F := F) d L IDX TAB OUT₀ 15 6000#32 rfl (k6_off2_inb L 15) (tile_body.sl.dma0_16 d L IDX TAB fs fb hin)
    (fun j => (read_writes_whole _ _ _ _ j).trans (gather_val (F := F) d L IDX TAB hidx fs 15 ![6000] rfl _ 6000#32 rfl (k6_off2_inb L 15) _ _ j))
  ihave Hg15 := (Entails.of_eq ((pts_oChunk (F := F) d L 15 6000#32 rfl (k6_off2_inb L 15) _).trans (pointsTo_congr hv15))) $$ Ho15'
  have hv16 := chunk_val (F := F) d L IDX TAB OUT₀ 16 6400#32 rfl (k6_off2_inb L 16) (tile_body.sl.dma0_17 d L IDX TAB fs fa hin)
    (fun j => (read_writes_whole _ _ _ _ j).trans (gather_val (F := F) d L IDX TAB hidx fs 16 ![6400] rfl _ 6400#32 rfl (k6_off2_inb L 16) _ _ j))
  ihave Hg16 := (Entails.of_eq ((pts_oChunk (F := F) d L 16 6400#32 rfl (k6_off2_inb L 16) _).trans (pointsTo_congr hv16))) $$ Ho16'
  have hv17 := chunk_val (F := F) d L IDX TAB OUT₀ 17 6800#32 rfl (k6_off2_inb L 17) (tile_body.sl.dma0_18 d L IDX TAB fs fb hin)
    (fun j => (read_writes_whole _ _ _ _ j).trans (gather_val (F := F) d L IDX TAB hidx fs 17 ![6800] rfl _ 6800#32 rfl (k6_off2_inb L 17) _ _ j))
  ihave Hg17 := (Entails.of_eq ((pts_oChunk (F := F) d L 17 6800#32 rfl (k6_off2_inb L 17) _).trans (pointsTo_congr hv17))) $$ Ho17'
  have hv18 := chunk_val (F := F) d L IDX TAB OUT₀ 18 7200#32 rfl (k6_off2_inb L 18) (tile_body.sl.dma0_19 d L IDX TAB fs fa hin)
    (fun j => (read_writes_whole _ _ _ _ j).trans (gather_val (F := F) d L IDX TAB hidx fs 18 ![7200] rfl _ 7200#32 rfl (k6_off2_inb L 18) _ _ j))
  ihave Hg18 := (Entails.of_eq ((pts_oChunk (F := F) d L 18 7200#32 rfl (k6_off2_inb L 18) _).trans (pointsTo_congr hv18))) $$ Ho18'
  have hv19 := chunk_val (F := F) d L IDX TAB OUT₀ 19 7600#32 rfl (k6_off2_inb L 19) (tile_body.sl.dma0_20 d L IDX TAB fs fb hin)
    (fun j => (read_writes_whole _ _ _ _ j).trans (gather_val (F := F) d L IDX TAB hidx fs 19 ![7600] rfl _ 7600#32 rfl (k6_off2_inb L 19) _ _ j))
  ihave Hg19 := (Entails.of_eq ((pts_oChunk (F := F) d L 19 7600#32 rfl (k6_off2_inb L 19) _).trans (pointsTo_congr hv19))) $$ Ho19'
  have hv20 := chunk_val (F := F) d L IDX TAB OUT₀ 20 8000#32 rfl (k6_off2_inb L 20) (tile_body.sl.dma0_21 d L IDX TAB fs fa hin)
    (fun j => (read_writes_whole _ _ _ _ j).trans (gather_val (F := F) d L IDX TAB hidx fs 20 ![8000] rfl _ 8000#32 rfl (k6_off2_inb L 20) _ _ j))
  ihave Hg20 := (Entails.of_eq ((pts_oChunk (F := F) d L 20 8000#32 rfl (k6_off2_inb L 20) _).trans (pointsTo_congr hv20))) $$ Ho20'
  have hv21 := chunk_val (F := F) d L IDX TAB OUT₀ 21 8400#32 rfl (k6_off2_inb L 21) (tile_body.sl.dma0_22 d L IDX TAB fs fb hin)
    (fun j => (read_writes_whole _ _ _ _ j).trans (gather_val (F := F) d L IDX TAB hidx fs 21 ![8400] rfl _ 8400#32 rfl (k6_off2_inb L 21) _ _ j))
  ihave Hg21 := (Entails.of_eq ((pts_oChunk (F := F) d L 21 8400#32 rfl (k6_off2_inb L 21) _).trans (pointsTo_congr hv21))) $$ Ho21'
  have hv22 := chunk_val (F := F) d L IDX TAB OUT₀ 22 8800#32 rfl (k6_off2_inb L 22) (tile_body.sl.dma0_23 d L IDX TAB fs fa hin)
    (fun j => (read_writes_whole _ _ _ _ j).trans (gather_val (F := F) d L IDX TAB hidx fs 22 ![8800] rfl _ 8800#32 rfl (k6_off2_inb L 22) _ _ j))
  ihave Hg22 := (Entails.of_eq ((pts_oChunk (F := F) d L 22 8800#32 rfl (k6_off2_inb L 22) _).trans (pointsTo_congr hv22))) $$ Ho22'
  have hv23 := chunk_val (F := F) d L IDX TAB OUT₀ 23 9200#32 rfl (k6_off2_inb L 23) (tile_body.sl.dma0_24 d L IDX TAB fs fb hin)
    (fun j => (read_writes_whole _ _ _ _ j).trans (gather_val (F := F) d L IDX TAB hidx fs 23 ![9200] rfl _ 9200#32 rfl (k6_off2_inb L 23) _ _ j))
  ihave Hg23 := (Entails.of_eq ((pts_oChunk (F := F) d L 23 9200#32 rfl (k6_off2_inb L 23) _).trans (pointsTo_congr hv23))) $$ Ho23'
  have hv24 := chunk_val (F := F) d L IDX TAB OUT₀ 24 9600#32 rfl (k6_off2_inb L 24) (tile_body.sl.dma0_25 d L IDX TAB fs fa hin)
    (fun j => (read_writes_whole _ _ _ _ j).trans (gather_val (F := F) d L IDX TAB hidx fs 24 ![9600] rfl _ 9600#32 rfl (k6_off2_inb L 24) _ _ j))
  ihave Hg24 := (Entails.of_eq ((pts_oChunk (F := F) d L 24 9600#32 rfl (k6_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody6B

end
-- ==== Proof.GatherBody8B.lean ====
/-
  One vector subcore's task of gather call 4 (the program's custom call 8): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBaseB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.Kernel
import proofs.«205547_g25623774888366_cont_9to1_713_27_alg».proof.Proof.Gen.Kernel.Skeleton

noncomputable section

namespace Cert.Proof.GatherBody8B

open Cert.Kernel Cert.Kernel.Gen
open Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.Kernel.main_v61_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v62_scv : Memref Cert.Kernel.sig Kind.scVector Space.hbm Cert.Kernel.S320000x128 EltTy.f32)
local notation "sV" => (Memref.whole Cert.Kernel.cc8_scratch0 : Memref Cert.Kernel.sig Kind.scVector Space.vmem Cert.Kernel.S10000 EltTy.i32)
local notation "aV" => (Memref.whole Cert.Kernel.cc8_scratch1 : Memref Cert.Kernel.sig Kind.scVector Space.vmem Cert.Kernel.S400x128 EltTy.f32)
local notation "bV" => (Memref.whole Cert.Kernel.cc8_scratch2 : Memref Cert.Kernel.sig Kind.scVector Space.vmem Cert.Kernel.S400x128 EltTy.f32)

section Sets

variable (L : grid8.Coords)

theorem bound_zero : grid8.bound 0 = 2 := rfl
theorem bound_one : grid8.bound 1 = 16 := rfl
/-- The worker's number: twice the vector subcore's plus the SparseCore's. -/
abbrev wid (L : grid8.Coords) : Fin 32 := wOf (Fin.cast bound_zero (L 0)) (Fin.cast bound_one (L 1))
/-- The first row of the worker's block. -/
abbrev base (L : grid8.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid8.Coords) (c : Fin 25) : Rect S320000x128 :=
  Rect.unit (s := S320000x128) (k8_off2 L (BitVec.ofNat 32 (400 * c.val))) S400x128.size (k8_off2_inb L c)
abbrev chunkSet (L : grid8.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k8_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid8.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid8.Coords)

abbrev cV (L : grid8.Coords) : Fin τ.nSC := (L 0).castLE hcore8
abbrev jV (L : grid8.Coords) : Fin τ.nSub := (L 1).castLE hsub8

abbrev irowK (L : grid8.Coords) : Rect S320000 := Rect.unit (s := S320000) (k8_off1 L) S10000.size (k8_off1_inb L)
/-- The worker's block of the index array, as the task addresses it. -/
abbrev iRowK (L : grid8.Coords) : Memref sig .scVector .hbm S10000 .i32 := (iV).slice (irowK L) (fun _ => rfl)
/-- A block of 400 rows of the output at a row offset given by a word, as the task addresses it. -/
abbrev oChunkM (L : grid8.Coords) (n : BitVec 32) (h : ∀ a, (k8_off2 L n) a + S400x128.size a ≤ S320000x128.size a) : Memref sig .scVector .hbm S400x128 .f32 :=
  (oV).slice (Rect.unit (s := S320000x128) (k8_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k8_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k8_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k8_off2 L n) a + S400x128.size a ≤ S320000x128.size a) (f : Buf (Elt F) (oLoc4 d)) :
    ((oChunkM L n h).view.loc (V d (cV L) (jV L)) ↦[(oChunkM L n h).view.set]{fullShare} f : sProp 𝕄)
      = (oLoc4 d ↦[chunkSet L c]{fullShare} f) := by
  rw [set_oChunkM L c n hn h]
theorem pts_xV (q : PosShare TreeShare) (f : Buf (Elt F) (xLoc4 d)) :
    ((xV).view.loc (V d (cV L) (jV L)) ↦{q} f : sProp 𝕄) = xLoc4 d ↦{q} f := rfl
theorem pts_sV (f : Buf (Elt F) ((V d (cV L) (jV L)).loc cc8_scratch0)) :
    ((sV).view.loc (V d (cV L) (jV L)) ↦{fullShare} f : sProp 𝕄) = (V d (cV L) (jV L)).loc cc8_scratch0 ↦{fullShare} f := rfl
theorem pts_aV (f : Buf (Elt F) ((V d (cV L) (jV L)).loc cc8_scratch1)) :
    ((aV).view.loc (V d (cV L) (jV L)) ↦{fullShare} f : sProp 𝕄) = (V d (cV L) (jV L)).loc cc8_scratch1 ↦{fullShare} f := rfl
theorem pts_bV (f : Buf (Elt F) ((V d (cV L) (jV L)).loc cc8_scratch2)) :
    ((bV).view.loc (V d (cV L) (jV L)) ↦{fullShare} f : sProp 𝕄) = (V d (cV L) (jV L)).loc cc8_scratch2 ↦{fullShare} f := rfl

/-- The rows from chunk `k` on are chunk `k` and the rows from chunk `k + 1` on. -/
theorem pts_tl_split (k : ℕ) (hk : k < 25) (f : Buf (Elt F) (oLoc4 d)) :
    (oLoc4 d ↦[tlSet L k (by omega)]{fullShare} f : sProp 𝕄)
      = iprop((oLoc4 d ↦[chunkSet L ⟨k, hk⟩]{fullShare} f) ∗ oLoc4 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc4 d)) :
    (oLoc4 d ↦[oRowSet (wid L)]{fullShare} f : sProp 𝕄) = oLoc4 d ↦[tlSet L 0 (by omega)]{fullShare} f := by
  rw [tl_zero]

theorem pts_tl_24 (f : Buf (Elt F) (oLoc4 d)) :
    (oLoc4 d ↦[tlSet L 24 (by omega)]{fullShare} f : sProp 𝕄) = oLoc4 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k8_off2 L n) a + S400x128.size a ≤ S320000x128.size a)
    (g : Buf (Elt F) (oLoc4 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc4 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k8_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k8_off1 L) 0 + 1 * (off 0 + 1 * ((S400.rowMajor.symm ((j gathers_S10000x128_S400x128.axis').cast hn'.symm)) 0).val)
      = (k8_off2 L (BitVec.ofNat 32 (400 * c.val))) 0 + 1 * (j 0).val
    rw [hz, k8_off1_eq L, k8_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k8_off2 L (BitVec.ofNat 32 (400 * c.val))) 1 + 1 * (j 1).val
    rw [k8_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc4 d)) (g : Buf (Elt F) (oLoc4 d)) (c : Fin 25)
    (n : BitVec 32) (hn : n = BitVec.ofNat 32 (400 * c.val)) (h : ∀ a, (k8_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc8_scratch3.sem)
abbrev cellG1 (d : Dev nD) (c : Fin τ.nSC) (i : Fin τ.nSub) : GSem nD τ sig := (V d c i, .dma cc8_scratch4.sem)
abbrev cellS0 (d : Dev nD) (c : Fin τ.nSC) (i : Fin τ.nSub) : GSem nD τ sig := (V d c i, .dma cc8_scratch5.sem)
abbrev cellS1 (d : Dev nD) (c : Fin τ.nSC) (i : Fin τ.nSub) : GSem nD τ sig := (V d c i, .dma cc8_scratch6.sem)
abbrev cellIX (d : Dev nD) (c : Fin τ.nSC) (i : Fin τ.nSub) : GSem nD τ sig := (V d c i, .dma cc8_scoped0.sem)

theorem cell_ne_G1_G0 : (cellG1 d (cV L) (jV L)) ≠ (cellG0 d (cV L) (jV L)) :=
  fun h => absurd (congrArg Prod.snd h) (show (SemLoc.dma cc8_scratch4.sem : SemLoc sig) ≠ SemLoc.dma cc8_scratch3.sem by decide)
theorem cell_ne_S0_G0 : (cellS0 d (cV L) (jV L)) ≠ (cellG0 d (cV L) (jV L)) :=
  fun h => absurd (congrArg Prod.snd h) (show (SemLoc.dma cc8_scratch5.sem : SemLoc sig) ≠ SemLoc.dma cc8_scratch3.sem by decide)
theorem cell_ne_S0_G1 : (cellS0 d (cV L) (jV L)) ≠ (cellG1 d (cV L) (jV L)) :=
  fun h => absurd (congrArg Prod.snd h) (show (SemLoc.dma cc8_scratch5.sem : SemLoc sig) ≠ SemLoc.dma cc8_scratch4.sem by decide)
theorem cell_ne_S1_G0 : (cellS1 d (cV L) (jV L)) ≠ (cellG0 d (cV L) (jV L)) :=
  fun h => absurd (congrArg Prod.snd h) (show (SemLoc.dma cc8_scratch6.sem : SemLoc sig) ≠ SemLoc.dma cc8_scratch3.sem by decide)
theorem cell_ne_S1_G1 : (cellS1 d (cV L) (jV L)) ≠ (cellG1 d (cV L) (jV L)) :=
  fun h => absurd (congrArg Prod.snd h) (show (SemLoc.dma cc8_scratch6.sem : SemLoc sig) ≠ SemLoc.dma cc8_scratch4.sem by decide)
theorem cell_ne_S1_S0 : (cellS1 d (cV L) (jV L)) ≠ (cellS0 d (cV L) (jV L)) :=
  fun h => absurd (congrArg Prod.snd h) (show (SemLoc.dma cc8_scratch6.sem : SemLoc sig) ≠ SemLoc.dma cc8_scratch5.sem by decide)
theorem cell_ne_IX_G0 : (cellIX d (cV L) (jV L)) ≠ (cellG0 d (cV L) (jV L)) :=
  fun h => absurd (congrArg Prod.snd h) (show (SemLoc.dma cc8_scoped0.sem : SemLoc sig) ≠ SemLoc.dma cc8_scratch3.sem by decide)
theorem cell_ne_IX_G1 : (cellIX d (cV L) (jV L)) ≠ (cellG1 d (cV L) (jV L)) :=
  fun h => absurd (congrArg Prod.snd h) (show (SemLoc.dma cc8_scoped0.sem : SemLoc sig) ≠ SemLoc.dma cc8_scratch4.sem by decide)
theorem cell_ne_IX_S0 : (cellIX d (cV L) (jV L)) ≠ (cellS0 d (cV L) (jV L)) :=
  fun h => absurd (congrArg Prod.snd h) (show (SemLoc.dma cc8_scoped0.sem : SemLoc sig) ≠ SemLoc.dma cc8_scratch5.sem by decide)
theorem cell_ne_IX_S1 : (cellIX d (cV L) (jV L)) ≠ (cellS1 d (cV L) (jV L)) :=
  fun h => absurd (congrArg Prod.snd h) (show (SemLoc.dma cc8_scoped0.sem : SemLoc sig) ≠ SemLoc.dma cc8_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc8_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc8_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc8_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc8_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc8_scoped0.sem : SemLoc sig).isScoped .scVector = true; decide⟩⟩⟩⟩⟩)]

theorem ownBufs_V :
    (ownBufs (V d (cV L) (jV L)) : sProp 𝕄)
      = iprop((∃ f, (V d (cV L) (jV L)).loc cc8_scratch0 ↦{fullShare} f) ∗ (∃ f, (V d (cV L) (jV L)).loc cc8_scratch1 ↦{fullShare} f) ∗ (∃ f, (V d (cV L) (jV L)).loc cc8_scratch2 ↦{fullShare} f)
          ∗ bigSep ((((ownRefs (τ := τ) (.scVector (cV L) (jV L))).erase ((Proc.scVector (cV L) (jV L)).devRef cc8_scratch0)).erase ((Proc.scVector (cV L) (jV L)).devRef cc8_scratch1)).erase ((Proc.scVector (cV L) (jV L)).devRef cc8_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc8_scratch0) rfl)).trans ?_
  rw [SparseCore.bigSep_erase' (Finset.mem_erase.mpr ⟨fun e => absurd (Proc.devRef_injective _ e) (show (cc8_scratch1 : Ref sig .scVector) ≠ cc8_scratch0 by decide), SparseCore.Cfg.mem_ownRefs_of_owner (p := (Proc.scVector (cV L) (jV L))) (b := (Proc.scVector (cV L) (jV L)).devRef cc8_scratch1) rfl⟩),
    SparseCore.bigSep_erase' (Finset.mem_erase.mpr ⟨fun e => absurd (Proc.devRef_injective _ e) (show (cc8_scratch2 : Ref sig .scVector) ≠ cc8_scratch1 by decide), Finset.mem_erase.mpr ⟨fun e => absurd (Proc.devRef_injective _ e) (show (cc8_scratch2 : Ref sig .scVector) ≠ cc8_scratch0 by decide), SparseCore.Cfg.mem_ownRefs_of_owner (p := (Proc.scVector (cV L) (jV L))) (b := (Proc.scVector (cV L) (jV L)).devRef cc8_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc4 d)) (OUT₀ : Buf (Elt F) (oLoc4 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc4 d ↦{q} TAB) ∗ (oLoc4 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc8_gather_kernel L xV (Memref.isWhole_whole _) iV (Memref.isWhole_whole _) oV (Memref.isWhole_whole _)
            sV (Memref.isWhole_whole _) aV (Memref.isWhole_whole _) bV (Memref.isWhole_whole _)
            cc8_scratch3 cc8_scratch4 cc8_scratch5 cc8_scratch6 cc8_scoped0)
          fun _ => iprop(((iLoc d ↦[iRowSet (wid L)]{fullShare} IDX : sProp 𝕄) ∗ (xLoc4 d ↦{q} TAB)
              ∗ ∃ OUT, ⌜GatherSpec (wid L) IDX TAB OUT⌝ ∗ (oLoc4 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc8_gather_kernel_eq_skeleton]; unfold cc8_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k8_off2_inb L 0) _).symm) $$ Ho0
  ihave Ho1' := (Entails.of_eq (pts_oChunk (F := F) d L 1 400#32 rfl (k8_off2_inb L 1) _).symm) $$ Ho1
  ihave Ho2' := (Entails.of_eq (pts_oChunk (F := F) d L 2 800#32 rfl (k8_off2_inb L 2) _).symm) $$ Ho2
  ihave Ho3' := (Entails.of_eq (pts_oChunk (F := F) d L 3 1200#32 rfl (k8_off2_inb L 3) _).symm) $$ Ho3
  ihave Ho4' := (Entails.of_eq (pts_oChunk (F := F) d L 4 1600#32 rfl (k8_off2_inb L 4) _).symm) $$ Ho4
  ihave Ho5' := (Entails.of_eq (pts_oChunk (F := F) d L 5 2000#32 rfl (k8_off2_inb L 5) _).symm) $$ Ho5
  ihave Ho6' := (Entails.of_eq (pts_oChunk (F := F) d L 6 2400#32 rfl (k8_off2_inb L 6) _).symm) $$ Ho6
  ihave Ho7' := (Entails.of_eq (pts_oChunk (F := F) d L 7 2800#32 rfl (k8_off2_inb L 7) _).symm) $$ Ho7
  ihave Ho8' := (Entails.of_eq (pts_oChunk (F := F) d L 8 3200#32 rfl (k8_off2_inb L 8) _).symm) $$ Ho8
  ihave Ho9' := (Entails.of_eq (pts_oChunk (F := F) d L 9 3600#32 rfl (k8_off2_inb L 9) _).symm) $$ Ho9
  ihave Ho10' := (Entails.of_eq (pts_oChunk (F := F) d L 10 4000#32 rfl (k8_off2_inb L 10) _).symm) $$ Ho10
  ihave Ho11' := (Entails.of_eq (pts_oChunk (F := F) d L 11 4400#32 rfl (k8_off2_inb L 11) _).symm) $$ Ho11
  ihave Ho12' := (Entails.of_eq (pts_oChunk (F := F) d L 12 4800#32 rfl (k8_off2_inb L 12) _).symm) $$ Ho12
  ihave Ho13' := (Entails.of_eq (pts_oChunk (F := F) d L 13 5200#32 rfl (k8_off2_inb L 13) _).symm) $$ Ho13
  ihave Ho14' := (Entails.of_eq (pts_oChunk (F := F) d L 14 5600#32 rfl (k8_off2_inb L 14) _).symm) $$ Ho14
  ihave Ho15' := (Entails.of_eq (pts_oChunk (F := F) d L 15 6000#32 rfl (k8_off2_inb L 15) _).symm) $$ Ho15
  ihave Ho16' := (Entails.of_eq (pts_oChunk (F := F) d L 16 6400#32 rfl (k8_off2_inb L 16) _).symm) $$ Ho16
  ihave Ho17' := (Entails.of_eq (pts_oChunk (F := F) d L 17 6800#32 rfl (k8_off2_inb L 17) _).symm) $$ Ho17
  ihave Ho18' := (Entails.of_eq (pts_oChunk (F := F) d L 18 7200#32 rfl (k8_off2_inb L 18) _).symm) $$ Ho18
  ihave Ho19' := (Entails.of_eq (pts_oChunk (F := F) d L 19 7600#32 rfl (k8_off2_inb L 19) _).symm) $$ Ho19
  ihave Ho20' := (Entails.of_eq (pts_oChunk (F := F) d L 20 8000#32 rfl (k8_off2_inb L 20) _).symm) $$ Ho20
  ihave Ho21' := (Entails.of_eq (pts_oChunk (F := F) d L 21 8400#32 rfl (k8_off2_inb L 21) _).symm) $$ Ho21
  ihave Ho22' := (Entails.of_eq (pts_oChunk (F := F) d L 22 8800#32 rfl (k8_off2_inb L 22) _).symm) $$ Ho22
  ihave Ho23' := (Entails.of_eq (pts_oChunk (F := F) d L 23 9200#32 rfl (k8_off2_inb L 23) _).symm) $$ Ho23
  ihave Ho24' := (Entails.of_eq (pts_oChunk (F := F) d L 24 9600#32 rfl (k8_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k8_off2_inb L 0) (tile_body.sl.dma0_1 d L IDX TAB fs fa hin)
    (fun j => (read_writes_whole _ _ _ _ j).trans (gather_val (F := F) d L IDX TAB hidx fs 0 ![0] rfl _ 0#32 rfl (k8_off2_inb L 0) _ _ j))
  ihave Hg0 := (Entails.of_eq ((pts_oChunk (F := F) d L 0 0#32 rfl (k8_off2_inb L 0) _).trans (pointsTo_congr hv0))) $$ Ho0'
  have hv1 := chunk_val (F := F) d L IDX TAB OUT₀ 1 400#32 rfl (k8_off2_inb L 1) (tile_body.sl.dma0_2 d L IDX TAB fs fb hin)
    (fun j => (read_writes_whole _ _ _ _ j).trans (gather_val (F := F) d L IDX TAB hidx fs 1 ![400] rfl _ 400#32 rfl (k8_off2_inb L 1) _ _ j))
  ihave Hg1 := (Entails.of_eq ((pts_oChunk (F := F) d L 1 400#32 rfl (k8_off2_inb L 1) _).trans (pointsTo_congr hv1))) $$ Ho1'
  have hv2 := chunk_val (F := F) d L IDX TAB OUT₀ 2 800#32 rfl (k8_off2_inb L 2) (tile_body.sl.dma0_3 d L IDX TAB fs fa hin)
    (fun j => (read_writes_whole _ _ _ _ j).trans (gather_val (F := F) d L IDX TAB hidx fs 2 ![800] rfl _ 800#32 rfl (k8_off2_inb L 2) _ _ j))
  ihave Hg2 := (Entails.of_eq ((pts_oChunk (F := F) d L 2 800#32 rfl (k8_off2_inb L 2) _).trans (pointsTo_congr hv2))) $$ Ho2'
  have hv3 := chunk_val (F := F) d L IDX TAB OUT₀ 3 1200#32 rfl (k8_off2_inb L 3) (tile_body.sl.dma0_4 d L IDX TAB fs fb hin)
    (fun j => (read_writes_whole _ _ _ _ j).trans (gather_val (F := F) d L IDX TAB hidx fs 3 ![1200] rfl _ 1200#32 rfl (k8_off2_inb L 3) _ _ j))
  ihave Hg3 := (Entails.of_eq ((pts_oChunk (F := F) d L 3 1200#32 rfl (k8_off2_inb L 3) _).trans (pointsTo_congr hv3))) $$ Ho3'
  have hv4 := chunk_val (F := F) d L IDX TAB OUT₀ 4 1600#32 rfl (k8_off2_inb L 4) (tile_body.sl.dma0_5 d L IDX TAB fs fa hin)
    (fun j => (read_writes_whole _ _ _ _ j).trans (gather_val (F := F) d L IDX TAB hidx fs 4 ![1600] rfl _ 1600#32 rfl (k8_off2_inb L 4) _ _ j))
  ihave Hg4 := (Entails.of_eq ((pts_oChunk (F := F) d L 4 1600#32 rfl (k8_off2_inb L 4) _).trans (pointsTo_congr hv4))) $$ Ho4'
  have hv5 := chunk_val (F := F) d L IDX TAB OUT₀ 5 2000#32 rfl (k8_off2_inb L 5) (tile_body.sl.dma0_6 d L IDX TAB fs fb hin)
    (fun j => (read_writes_whole _ _ _ _ j).trans (gather_val (F := F) d L IDX TAB hidx fs 5 ![2000] rfl _ 2000#32 rfl (k8_off2_inb L 5) _ _ j))
  ihave Hg5 := (Entails.of_eq ((pts_oChunk (F := F) d L 5 2000#32 rfl (k8_off2_inb L 5) _).trans (pointsTo_congr hv5))) $$ Ho5'
  have hv6 := chunk_val (F := F) d L IDX TAB OUT₀ 6 2400#32 rfl (k8_off2_inb L 6) (tile_body.sl.dma0_7 d L IDX TAB fs fa hin)
    (fun j => (read_writes_whole _ _ _ _ j).trans (gather_val (F := F) d L IDX TAB hidx fs 6 ![2400] rfl _ 2400#32 rfl (k8_off2_inb L 6) _ _ j))
  ihave Hg6 := (Entails.of_eq ((pts_oChunk (F := F) d L 6 2400#32 rfl (k8_off2_inb L 6) _).trans (pointsTo_congr hv6))) $$ Ho6'
  have hv7 := chunk_val (F := F) d L IDX TAB OUT₀ 7 2800#32 rfl (k8_off2_inb L 7) (tile_body.sl.dma0_8 d L IDX TAB fs fb hin)
    (fun j => (read_writes_whole _ _ _ _ j).trans (gather_val (F := F) d L IDX TAB hidx fs 7 ![2800] rfl _ 2800#32 rfl (k8_off2_inb L 7) _ _ j))
  ihave Hg7 := (Entails.of_eq ((pts_oChunk (F := F) d L 7 2800#32 rfl (k8_off2_inb L 7) _).trans (pointsTo_congr hv7))) $$ Ho7'
  have hv8 := chunk_val (F := F) d L IDX TAB OUT₀ 8 3200#32 rfl (k8_off2_inb L 8) (tile_body.sl.dma0_9 d L IDX TAB fs fa hin)
    (fun j => (read_writes_whole _ _ _ _ j).trans (gather_val (F := F) d L IDX TAB hidx fs 8 ![3200] rfl _ 3200#32 rfl (k8_off2_inb L 8) _ _ j))
  ihave Hg8 := (Entails.of_eq ((pts_oChunk (F := F) d L 8 3200#32 rfl (k8_off2_inb L 8) _).trans (pointsTo_congr hv8))) $$ Ho8'
  have hv9 := chunk_val (F := F) d L IDX TAB OUT₀ 9 3600#32 rfl (k8_off2_inb L 9) (tile_body.sl.dma0_10 d L IDX TAB fs fb hin)
    (fun j => (read_writes_whole _ _ _ _ j).trans (gather_val (F := F) d L IDX TAB hidx fs 9 ![3600] rfl _ 3600#32 rfl (k8_off2_inb L 9) _ _ j))
  ihave Hg9 := (Entails.of_eq ((pts_oChunk (F := F) d L 9 3600#32 rfl (k8_off2_inb L 9) _).trans (pointsTo_congr hv9))) $$ Ho9'
  have hv10 := chunk_val (F := F) d L IDX TAB OUT₀ 10 4000#32 rfl (k8_off2_inb L 10) (tile_body.sl.dma0_11 d L IDX TAB fs fa hin)
    (fun j => (read_writes_whole _ _ _ _ j).trans (gather_val (F := F) d L IDX TAB hidx fs 10 ![4000] rfl _ 4000#32 rfl (k8_off2_inb L 10) _ _ j))
  ihave Hg10 := (Entails.of_eq ((pts_oChunk (F := F) d L 10 4000#32 rfl (k8_off2_inb L 10) _).trans (pointsTo_congr hv10))) $$ Ho10'
  have hv11 := chunk_val (F := F) d L IDX TAB OUT₀ 11 4400#32 rfl (k8_off2_inb L 11) (tile_body.sl.dma0_12 d L IDX TAB fs fb hin)
    (fun j => (read_writes_whole _ _ _ _ j).trans (gather_val (F := F) d L IDX TAB hidx fs 11 ![4400] rfl _ 4400#32 rfl (k8_off2_inb L 11) _ _ j))
  ihave Hg11 := (Entails.of_eq ((pts_oChunk (F := F) d L 11 4400#32 rfl (k8_off2_inb L 11) _).trans (pointsTo_congr hv11))) $$ Ho11'
  have hv12 := chunk_val (F := F) d L IDX TAB OUT₀ 12 4800#32 rfl (k8_off2_inb L 12) (tile_body.sl.dma0_13 d L IDX TAB fs fa hin)
    (fun j => (read_writes_whole _ _ _ _ j).trans (gather_val (F := F) d L IDX TAB hidx fs 12 ![4800] rfl _ 4800#32 rfl (k8_off2_inb L 12) _ _ j))
  ihave Hg12 := (Entails.of_eq ((pts_oChunk (F := F) d L 12 4800#32 rfl (k8_off2_inb L 12) _).trans (pointsTo_congr hv12))) $$ Ho12'
  have hv13 := chunk_val (F := F) d L IDX TAB OUT₀ 13 5200#32 rfl (k8_off2_inb L 13) (tile_body.sl.dma0_14 d L IDX TAB fs fb hin)
    (fun j => (read_writes_whole _ _ _ _ j).trans (gather_val (F := F) d L IDX TAB hidx fs 13 ![5200] rfl _ 5200#32 rfl (k8_off2_inb L 13) _ _ j))
  ihave Hg13 := (Entails.of_eq ((pts_oChunk (F := F) d L 13 5200#32 rfl (k8_off2_inb L 13) _).trans (pointsTo_congr hv13))) $$ Ho13'
  have hv14 := chunk_val (F := F) d L IDX TAB OUT₀ 14 5600#32 rfl (k8_off2_inb L 14) (tile_body.sl.dma0_15 d L IDX TAB fs fa hin)
    (fun j => (read_writes_whole _ _ _ _ j).trans (gather_val (F := F) d L IDX TAB hidx fs 14 ![5600] rfl _ 5600#32 rfl (k8_off2_inb L 14) _ _ j))
  ihave Hg14 := (Entails.of_eq ((pts_oChunk (F := F) d L 14 5600#32 rfl (k8_off2_inb L 14) _).trans (pointsTo_congr hv14))) $$ Ho14'
  have hv15 := chunk_val (F := F) d L IDX TAB OUT₀ 15 6000#32 rfl (k8_off2_inb L 15) (tile_body.sl.dma0_16 d L IDX TAB fs fb hin)
    (fun j => (read_writes_whole _ _ _ _ j).trans (gather_val (F := F) d L IDX TAB hidx fs 15 ![6000] rfl _ 6000#32 rfl (k8_off2_inb L 15) _ _ j))
  ihave Hg15 := (Entails.of_eq ((pts_oChunk (F := F) d L 15 6000#32 rfl (k8_off2_inb L 15) _).trans (pointsTo_congr hv15))) $$ Ho15'
  have hv16 := chunk_val (F := F) d L IDX TAB OUT₀ 16 6400#32 rfl (k8_off2_inb L 16) (tile_body.sl.dma0_17 d L IDX TAB fs fa hin)
    (fun j => (read_writes_whole _ _ _ _ j).trans (gather_val (F := F) d L IDX TAB hidx fs 16 ![6400] rfl _ 6400#32 rfl (k8_off2_inb L 16) _ _ j))
  ihave Hg16 := (Entails.of_eq ((pts_oChunk (F := F) d L 16 6400#32 rfl (k8_off2_inb L 16) _).trans (pointsTo_congr hv16))) $$ Ho16'
  have hv17 := chunk_val (F := F) d L IDX TAB OUT₀ 17 6800#32 rfl (k8_off2_inb L 17) (tile_body.sl.dma0_18 d L IDX TAB fs fb hin)
    (fun j => (read_writes_whole _ _ _ _ j).trans (gather_val (F := F) d L IDX TAB hidx fs 17 ![6800] rfl _ 6800#32 rfl (k8_off2_inb L 17) _ _ j))
  ihave Hg17 := (Entails.of_eq ((pts_oChunk (F := F) d L 17 6800#32 rfl (k8_off2_inb L 17) _).trans (pointsTo_congr hv17))) $$ Ho17'
  have hv18 := chunk_val (F := F) d L IDX TAB OUT₀ 18 7200#32 rfl (k8_off2_inb L 18) (tile_body.sl.dma0_19 d L IDX TAB fs fa hin)
    (fun j => (read_writes_whole _ _ _ _ j).trans (gather_val (F := F) d L IDX TAB hidx fs 18 ![7200] rfl _ 7200#32 rfl (k8_off2_inb L 18) _ _ j))
  ihave Hg18 := (Entails.of_eq ((pts_oChunk (F := F) d L 18 7200#32 rfl (k8_off2_inb L 18) _).trans (pointsTo_congr hv18))) $$ Ho18'
  have hv19 := chunk_val (F := F) d L IDX TAB OUT₀ 19 7600#32 rfl (k8_off2_inb L 19) (tile_body.sl.dma0_20 d L IDX TAB fs fb hin)
    (fun j => (read_writes_whole _ _ _ _ j).trans (gather_val (F := F) d L IDX TAB hidx fs 19 ![7600] rfl _ 7600#32 rfl (k8_off2_inb L 19) _ _ j))
  ihave Hg19 := (Entails.of_eq ((pts_oChunk (F := F) d L 19 7600#32 rfl (k8_off2_inb L 19) _).trans (pointsTo_congr hv19))) $$ Ho19'
  have hv20 := chunk_val (F := F) d L IDX TAB OUT₀ 20 8000#32 rfl (k8_off2_inb L 20) (tile_body.sl.dma0_21 d L IDX TAB fs fa hin)
    (fun j => (read_writes_whole _ _ _ _ j).trans (gather_val (F := F) d L IDX TAB hidx fs 20 ![8000] rfl _ 8000#32 rfl (k8_off2_inb L 20) _ _ j))
  ihave Hg20 := (Entails.of_eq ((pts_oChunk (F := F) d L 20 8000#32 rfl (k8_off2_inb L 20) _).trans (pointsTo_congr hv20))) $$ Ho20'
  have hv21 := chunk_val (F := F) d L IDX TAB OUT₀ 21 8400#32 rfl (k8_off2_inb L 21) (tile_body.sl.dma0_22 d L IDX TAB fs fb hin)
    (fun j => (read_writes_whole _ _ _ _ j).trans (gather_val (F := F) d L IDX TAB hidx fs 21 ![8400] rfl _ 8400#32 rfl (k8_off2_inb L 21) _ _ j))
  ihave Hg21 := (Entails.of_eq ((pts_oChunk (F := F) d L 21 8400#32 rfl (k8_off2_inb L 21) _).trans (pointsTo_congr hv21))) $$ Ho21'
  have hv22 := chunk_val (F := F) d L IDX TAB OUT₀ 22 8800#32 rfl (k8_off2_inb L 22) (tile_body.sl.dma0_23 d L IDX TAB fs fa hin)
    (fun j => (read_writes_whole _ _ _ _ j).trans (gather_val (F := F) d L IDX TAB hidx fs 22 ![8800] rfl _ 8800#32 rfl (k8_off2_inb L 22) _ _ j))
  ihave Hg22 := (Entails.of_eq ((pts_oChunk (F := F) d L 22 8800#32 rfl (k8_off2_inb L 22) _).trans (pointsTo_congr hv22))) $$ Ho22'
  have hv23 := chunk_val (F := F) d L IDX TAB OUT₀ 23 9200#32 rfl (k8_off2_inb L 23) (tile_body.sl.dma0_24 d L IDX TAB fs fb hin)
    (fun j => (read_writes_whole _ _ _ _ j).trans (gather_val (F := F) d L IDX TAB hidx fs 23 ![9200] rfl _ 9200#32 rfl (k8_off2_inb L 23) _ _ j))
  ihave Hg23 := (Entails.of_eq ((pts_oChunk (F := F) d L 23 9200#32 rfl (k8_off2_inb L 23) _).trans (pointsTo_congr hv23))) $$ Ho23'
  have hv24 := chunk_val (F := F) d L IDX TAB OUT₀ 24 9600#32 rfl (k8_off2_inb L 24) (tile_body.sl.dma0_25 d L IDX TAB fs fa hin)
    (fun j => (read_writes_whole _ _ _ _ j).trans (gather_val (F := F) d L IDX TAB hidx fs 24 ![9600] rfl _ 9600#32 rfl (k8_off2_inb L 24) _ _ j))
  ihave Hg24 := (Entails.of_eq ((pts_oChunk (F := F) d L 24 9600#32 rfl (k8_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody8B

end
-- ==== Proof.GatherBody10B.lean ====
/-
  One vector subcore's task of gather call 5 (the program's custom call 10): the worker copies its 10000 entries of the index array into its
  own memory, then, chunk by chunk of 400 entries, gathers the table's rows the chunk names into one of two row buffers
  and copies that buffer out to the chunk's 400 rows of the output, the two buffers alternating; a buffer's copy-out is
  awaited before the buffer is gathered into again, and the last two copy-outs at the end. Every semaphore carries one
  transfer at a time. Afterwards row `r` of the worker's block of the output is the table's row that entry `r` of the
  worker's block of the index array names.
-/
import proofs.«205547_g25623774888366_cont_9to1_713_27_alg».proof.Proof.LaunchBaseB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205547_g25623774888366_cont_9to1_713_27_alg».proof.Proof.Gen.Kernel
import proofs.«205547_g25623774888366_cont_9to1_713_27_alg».proof.Proof.Gen.Kernel.Skeleton

noncomputable section

namespace Cert.Proof.GatherBody10B

open Cert.Kernel Cert.Kernel.Gen
open Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 6 := sc (F := F)
abbrev 𝒱₀ : Variants := Variants.none

local notation "𝕄" => MT nD τ sig (HIx 6) (Elt F) ℕ UU ℕ

/-! ## The buffers -/

local notation "xV" => (Memref.whole Cert.Kernel.main_v74_scv : Memref Cert.Kernel.sig Kind.scVector Space.hbm Cert.Kernel.S10000x128 EltTy.f32)
local notation "iV" => (Memref.whole Cert.Kernel.main_v4_scv : Memref Cert.Kernel.sig Kind.scVector Space.hbm Cert.Kernel.S320000 EltTy.i32)
local notation "oV" => (Memref.whole Cert.Kernel.main_v75_scv : Memref Cert.Kernel.sig Kind.scVector Space.hbm Cert.Kernel.S320000x128 EltTy.f32)
local notation "sV" => (Memref.whole Cert.Kernel.cc10_scratch0 : Memref Cert.Kernel.sig Kind.scVector Space.vmem Cert.Kernel.S10000 EltTy.i32)
local notation "aV" => (Memref.whole Cert.Kernel.cc10_scratch1 : Memref Cert.Kernel.sig Kind.scVector Space.vmem Cert.Kernel.S400x128 EltTy.f32)
local notation "bV" => (Memref.whole Cert.Kernel.cc10_scratch2 : Memref Cert.Kernel.sig Kind.scVector Space.vmem Cert.Kernel.S400x128 EltTy.f32)

section Sets

variable (L : grid10.Coords)

theorem bound_zero : grid10.bound 0 = 2 := rfl
theorem bound_one : grid10.bound 1 = 16 := rfl
/-- The worker's number: twice the vector subcore's plus the SparseCore's. -/
abbrev wid (L : grid10.Coords) : Fin 32 := wOf (Fin.cast bound_zero (L 0)) (Fin.cast bound_one (L 1))
/-- The first row of the worker's block. -/
abbrev base (L : grid10.Coords) : ℕ := 20000 * (L 1).val + 10000 * (L 0).val

theorem L0_lt : (L 0).val < 2 := (L 0).isLt
theorem L1_lt : (L 1).val < 16 := (L 1).isLt
theorem wid_val : (wid L).val = (L 1).val * 2 + (L 0).val := rfl

/-- Membership in a unit-stride rectangle of a rank-2 array, by coordinates. -/
theorem mem_unit2 {n0 n1 : ℕ} (off size : Fin 2 → ℕ) (inb : ∀ a, off a + size a ≤ (⟨2, ![n0, n1]⟩ : Shape).size a)
    (x : (⟨2, ![n0, n1]⟩ : Shape).Idx) :
    x ∈ (Rect.unit (s := ⟨2, ![n0, n1]⟩) off size inb).set
      ↔ (off 0 ≤ (x 0).val ∧ (x 0).val < off 0 + size 0) ∧ (off 1 ≤ (x 1).val ∧ (x 1).val < off 1 + size 1) :=
  Rect.mem_set_unit.trans (by rw [Fin.forall_fin_two])

theorem mem_oRowSet (w : Fin 32) (x : S320000x128.Idx) :
    x ∈ oRowSet w ↔ 10000 * w.val ≤ (x 0).val ∧ (x 0).val < 10000 * w.val + 10000 := by
  have h1 : (x 1).val < 128 := (x 1).isLt
  refine (mem_unit2 (n0 := 320000) (n1 := 128) _ _ _ x).trans ?_
  simp [Shape.partIx, Shape.partSize]
  omega

/-- Chunk `c` of the worker's 25 chunks of 400 rows of the output. -/
abbrev ochunk (L : grid10.Coords) (c : Fin 25) : Rect S320000x128 :=
  Rect.unit (s := S320000x128) (k10_off2 L (BitVec.ofNat 32 (400 * c.val))) S400x128.size (k10_off2_inb L c)
abbrev chunkSet (L : grid10.Coords) (c : Fin 25) : Finset S320000x128.Idx := (ochunk L c).set

theorem mem_chunkSet (c : Fin 25) (x : S320000x128.Idx) :
    x ∈ chunkSet L c ↔ base L + 400 * c.val ≤ (x 0).val ∧ (x 0).val < base L + 400 * c.val + 400 := by
  have h1 : (x 1).val < 128 := (x 1).isLt
  refine (mem_unit2 (n0 := 320000) (n1 := 128) _ _ _ x).trans ?_
  rw [k10_off2_eq L c]
  simp
  omega

theorem tl_inb (k : ℕ) (hk : k ≤ 25) :
    ∀ a, (![base L + 400 * k, 0] : Fin 2 → ℕ) a + (![10000 - 400 * k, 128] : Fin 2 → ℕ) a ≤ S320000x128.size a := by
  have h0 := L0_lt L; have h1 := L1_lt L
  rw [Fin.forall_fin_two]; constructor
  · show 20000 * (L 1).val + 10000 * (L 0).val + 400 * k + (10000 - 400 * k) ≤ 320000; omega
  · show 0 + 128 ≤ 128; omega
/-- Rows `400 k` and on of the worker's block. -/
abbrev tlSet (L : grid10.Coords) (k : ℕ) (hk : k ≤ 25) : Finset S320000x128.Idx :=
  (Rect.unit (s := S320000x128) ![base L + 400 * k, 0] ![10000 - 400 * k, 128] (tl_inb L k hk)).set

theorem mem_tlSet (k : ℕ) (hk : k ≤ 25) (x : S320000x128.Idx) :
    x ∈ tlSet L k hk ↔ base L + 400 * k ≤ (x 0).val ∧ (x 0).val < base L + 10000 := by
  have h1 : (x 1).val < 128 := (x 1).isLt
  refine (mem_unit2 (n0 := 320000) (n1 := 128) _ _ _ x).trans ?_
  simp
  omega

theorem tl_zero : tlSet L 0 (by omega) = oRowSet (wid L) := by
  ext x; rw [mem_tlSet, mem_oRowSet, wid_val]; simp only [base]; omega
theorem tl_split (k : ℕ) (hk : k < 25) : tlSet L k (by omega) = chunkSet L ⟨k, hk⟩ ∪ tlSet L (k + 1) (by omega) := by
  ext x; rw [Finset.mem_union, mem_tlSet, mem_tlSet, mem_chunkSet]; simp only []; omega
theorem tl_disj (k : ℕ) (hk : k < 25) : Disjoint (chunkSet L ⟨k, hk⟩) (tlSet L (k + 1) (by omega)) := by
  rw [Finset.disjoint_left]; intro x hx hx'; rw [mem_chunkSet] at hx; rw [mem_tlSet] at hx'; simp only [] at hx; omega
theorem tl_last : tlSet L 25 (by omega) = ∅ := by
  ext x; rw [mem_tlSet]; simp only [Finset.notMem_empty, iff_false]; omega

theorem mem_unit1 {n0 : ℕ} (off size : Fin 1 → ℕ) (inb : ∀ a, off a + size a ≤ (⟨1, ![n0]⟩ : Shape).size a)
    (x : (⟨1, ![n0]⟩ : Shape).Idx) :
    x ∈ (Rect.unit (s := ⟨1, ![n0]⟩) off size inb).set ↔ off 0 ≤ (x 0).val ∧ (x 0).val < off 0 + size 0 :=
  Rect.mem_set_unit.trans (by rw [Fin.forall_fin_one])

theorem tl_24 : tlSet L 24 (by omega) = chunkSet L 24 := by
  ext x; rw [mem_tlSet, mem_chunkSet]; simp only [Fin.val_ofNat]; omega

end Sets

section Tile

variable (d : Dev nD) (L : grid10.Coords)

abbrev cV (L : grid10.Coords) : Fin τ.nSC := (L 0).castLE hcore10
abbrev jV (L : grid10.Coords) : Fin τ.nSub := (L 1).castLE hsub10

abbrev irowK (L : grid10.Coords) : Rect S320000 := Rect.unit (s := S320000) (k10_off1 L) S10000.size (k10_off1_inb L)
/-- The worker's block of the index array, as the task addresses it. -/
abbrev iRowK (L : grid10.Coords) : Memref sig .scVector .hbm S10000 .i32 := (iV).slice (irowK L) (fun _ => rfl)
/-- A block of 400 rows of the output at a row offset given by a word, as the task addresses it. -/
abbrev oChunkM (L : grid10.Coords) (n : BitVec 32) (h : ∀ a, (k10_off2 L n) a + S400x128.size a ≤ S320000x128.size a) : Memref sig .scVector .hbm S400x128 .f32 :=
  (oV).slice (Rect.unit (s := S320000x128) (k10_off2 L n) S400x128.size h) (fun _ => rfl)

theorem set_iRowK : (iRowK L).view.set = iRowSet (wid L) := by
  show ((View.whole (main_v4_scv : Ref sig .scVector)).slice (irowK L)).set = (irow (wid L)).set
  rw [View.set_slice_whole]
  ext x
  refine (mem_unit1 (n0 := 320000) _ _ _ x).trans (Iff.trans ?_ (mem_unit1 (n0 := 320000) _ _ _ x).symm)
  rw [k10_off1_eq L]
  have h0 := L0_lt L; have h1 := L1_lt L
  have hw := wid_val L
  simp [Shape.partIx, Shape.partSize]
  omega

theorem set_oChunkM (c : Fin 25) (n : BitVec 32) (hn : n = BitVec.ofNat 32 (400 * c.val))
    (h : ∀ a, (k10_off2 L n) a + S400x128.size a ≤ S320000x128.size a) : (oChunkM L n h).view.set = chunkSet L c := by
  subst hn; exact View.set_slice_whole _ _

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
theorem pts_oChunk (c : Fin 25) (n : BitVec 32) (hn : n = BitVec.ofNat 32 (400 * c.val))
    (h : ∀ a, (k10_off2 L n) a + S400x128.size a ≤ S320000x128.size a) (f : Buf (Elt F) (oLoc5 d)) :
    ((oChunkM L n h).view.loc (V d (cV L) (jV L)) ↦[(oChunkM L n h).view.set]{fullShare} f : sProp 𝕄)
      = (oLoc5 d ↦[chunkSet L c]{fullShare} f) := by
  rw [set_oChunkM L c n hn h]
theorem pts_xV (q : PosShare TreeShare) (f : Buf (Elt F) (xLoc5 d)) :
    ((xV).view.loc (V d (cV L) (jV L)) ↦{q} f : sProp 𝕄) = xLoc5 d ↦{q} f := rfl
theorem pts_sV (f : Buf (Elt F) ((V d (cV L) (jV L)).loc cc10_scratch0)) :
    ((sV).view.loc (V d (cV L) (jV L)) ↦{fullShare} f : sProp 𝕄) = (V d (cV L) (jV L)).loc cc10_scratch0 ↦{fullShare} f := rfl
theorem pts_aV (f : Buf (Elt F) ((V d (cV L) (jV L)).loc cc10_scratch1)) :
    ((aV).view.loc (V d (cV L) (jV L)) ↦{fullShare} f : sProp 𝕄) = (V d (cV L) (jV L)).loc cc10_scratch1 ↦{fullShare} f := rfl
theorem pts_bV (f : Buf (Elt F) ((V d (cV L) (jV L)).loc cc10_scratch2)) :
    ((bV).view.loc (V d (cV L) (jV L)) ↦{fullShare} f : sProp 𝕄) = (V d (cV L) (jV L)).loc cc10_scratch2 ↦{fullShare} f := rfl

/-- The rows from chunk `k` on are chunk `k` and the rows from chunk `k + 1` on. -/
theorem pts_tl_split (k : ℕ) (hk : k < 25) (f : Buf (Elt F) (oLoc5 d)) :
    (oLoc5 d ↦[tlSet L k (by omega)]{fullShare} f : sProp 𝕄)
      = iprop((oLoc5 d ↦[chunkSet L ⟨k, hk⟩]{fullShare} f) ∗ oLoc5 d ↦[tlSet L (k + 1) (by omega)]{fullShare} f) := by
  rw [tl_split L k hk]
  exact BI.equiv_iff.mp ⟨(pointsTo_union (tl_disj L k hk)).1, (pointsTo_union (tl_disj L k hk)).2⟩
theorem pts_tl_zero (f : Buf (Elt F) (oLoc5 d)) :
    (oLoc5 d ↦[oRowSet (wid L)]{fullShare} f : sProp 𝕄) = oLoc5 d ↦[tlSet L 0 (by omega)]{fullShare} f := by
  rw [tl_zero]

theorem pts_tl_24 (f : Buf (Elt F) (oLoc5 d)) :
    (oLoc5 d ↦[tlSet L 24 (by omega)]{fullShare} f : sProp 𝕄) = oLoc5 d ↦[chunkSet L 24]{fullShare} f := by
  rw [tl_24]

/-! ## What the transfers leave -/

/-- A buffer read under a last write of the whole of it reads that write's payload. -/
theorem read_writes_whole {sig' : RefSig} {κ : Kind} {sp : Space} {s : Shape} {e : EltTy} {Val : EltTy → Type}
    (v : View sig' κ sp s e) (f : v.ty.Contents Val) (w : s.Idx → Val e) (Lw : List (View.Piece Val s e)) (x : s.Idx) :
    v.read Val (v.writes Val f (⟨Rect.whole s, w⟩ :: Lw)) x = w x := by
  have h := View.read_writes_cons_emb v f (Rect.whole s) w Lw x
  rwa [Rect.emb_whole_apply] at h

/-- The chunk's rows after a copy of the whole chunk: the copy's payload, row by row. -/
theorem store_val (n : BitVec 32) (h : ∀ a, (k10_off2 L n) a + S400x128.size a ≤ S320000x128.size a)
    (g : Buf (Elt F) (oLoc5 d)) (D : S400x128.Idx → Elt F .f32) (j : S400x128.Idx) :
    ((oChunkM L n h).view.writes (Elt F) g [⟨Rect.whole S400x128, D⟩]) ((oChunkM L n h).view.emb j) = D j := by
  have h1 := read_writes_whole (oChunkM L n h).view g D [] j
  rw [View.read_apply] at h1
  exact h1

/-- The gathered array at an index, from the index's coordinates. -/
theorem gatherFn_eq (IDX : S320000.Idx → Elt F .i32) (TAB : S10000x128.Idx → Elt F .f32) (hidx : ∀ j, (IDX j).toNat < 10000)
    (x : S320000x128.Idx) (j : S320000.Idx) (y : S10000x128.Idx)
    (hj : (j 0).val = (x 0).val) (hy0 : (y 0).val = (IDX j).toNat) (hy1 : (y 1).val = (x 1).val) :
    gatherFn IDX TAB x = TAB y := by
  unfold gatherFn
  have hjx : ValueIdx.ix1 (n := 320000) ⟨(x 0).val, (x 0).isLt⟩ = j := by
    funext a; match a with | ⟨0, _⟩ => exact Fin.ext hj.symm
  simp only [hjx]
  rw [dif_pos (hidx j)]
  congr 1
  funext a
  match a with
  | ⟨0, _⟩ => exact Fin.ext hy0.symm
  | ⟨1, _⟩ => exact Fin.ext hy1.symm

theorem gatherSpec_gatherFn (w : Fin 32) (IDX : S320000.Idx → Elt F .i32) (TAB : S10000x128.Idx → Elt F .f32)
    (hidx : ∀ j, (IDX j).toNat < 10000) : GatherSpec w IDX TAB (gatherFn IDX TAB) :=
  fun x j y _ hj hy0 hy1 => gatherFn_eq IDX TAB hidx x j y hj hy0 hy1

/-- The index list's words are in range whenever the gather reads them: the worker's index buffer holds its block of
    the index array, every entry of which names a row of the table. -/
theorem idx_inb (IDX : Buf (Elt F) (iLoc d)) (hidx : ∀ j, (IDX j).toNat < 10000)
    (fs : Buf (Elt F) ((sV).view.loc (V d (cV L) (jV L)))) (off : Fin 1 → ℕ) (inb : ∀ a, off a + S400.size a ≤ S10000.size a) :
    ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis := by
  intro x
  have hw : View.write (Elt F) (sV).view fs (ReadAs.same.apply ((iRowK L).view.read (Elt F) IDX)) Finset.univ
      = (iRowK L).view.read (Elt F) IDX := View.write_whole_univ _ _ _
  rw [hw, View.read_apply, View.read_apply]
  exact hidx _

/-- One gather's payload, entry by entry: row `j 0` of chunk `c` is the table's row that entry `400 c + j 0` of the
    worker's block of the index array names. -/
theorem gather_val (IDX : Buf (Elt F) (iLoc d)) (TAB : Buf (Elt F) (xLoc5 d)) (hidx : ∀ j, (IDX j).toNat < 10000)
    (fs : Buf (Elt F) ((sV).view.loc (V d (cV L) (jV L)))) (c : Fin 25)
    (off : Fin 1 → ℕ) (hoff : off 0 = 400 * c.val) (inb : ∀ a, off a + S400.size a ≤ S10000.size a)
    (n : BitVec 32) (hn : n = BitVec.ofNat 32 (400 * c.val)) (h : ∀ a, (k10_off2 L n) a + S400x128.size a ≤ S320000x128.size a)
    (hn' : S400.numel = S400x128.size gathers_S10000x128_S400x128.axis')
    (hin' : ∀ x, (((sV).slice (Rect.unit (s := S10000) off S400.size inb) (fun _ => rfl)).view.read (Elt F)
        (View.write (Elt F) (sV).view fs (ReadAs.same.apply ((iRowK L).view.read (Elt F) IDX)) Finset.univ) x).toNat
      < S10000x128.size gathers_S10000x128_S400x128.axis)
    (j : S400x128.Idx) :
    SparseCore.gatherPayload gathers_S10000x128_S400x128
        (View.read (Elt F) ((xV).slice (Rect.unit (s := S10000x128) ![0, 0] S10000x128.size inb_S10000x128_S10000x128_0_0) (fun _ => rfl)).view TAB)
        (SparseCore.rows (View.read (Elt F) ((sV).slice (Rect.unit (s := S10000) off S400.size inb) (fun _ => rfl)).view
            (View.write (Elt F) (sV).view fs (ReadAs.same.apply ((iRowK L).view.read (Elt F) IDX)) Finset.univ)) hn' hin') j
      = gatherFn IDX TAB ((oChunkM L n h).view.emb j) := by
  subst hn
  have hw : View.write (Elt F) (sV).view fs (ReadAs.same.apply ((iRowK L).view.read (Elt F) IDX)) Finset.univ
      = (iRowK L).view.read (Elt F) IDX := View.write_whole_univ _ _ _
  have hs : ∀ z, View.read (Elt F) ((sV).slice (Rect.unit (s := S10000) off S400.size inb) (fun _ => rfl)).view
      (View.write (Elt F) (sV).view fs (ReadAs.same.apply ((iRowK L).view.read (Elt F) IDX)) Finset.univ) z
      = IDX ((iRowK L).view.emb (((sV).slice (Rect.unit (s := S10000) off S400.size inb) (fun _ => rfl)).view.emb z)) := by
    intro z; rw [hw, View.read_apply, View.read_apply]; rfl
  have hz : ∀ k : Fin S400.numel, ((S400.rowMajor.symm k) 0).val = k.val := by
    intro k
    have h1 := Shape.rowMajor_val_one (d := ![400]) (S400.rowMajor.symm k)
    rw [Equiv.apply_symm_apply] at h1; exact h1.symm
  unfold SparseCore.gatherPayload
  rw [View.read_apply]
  refine Eq.trans (cast_eq _ _) (gatherFn_eq IDX TAB hidx _
    ((iRowK L).view.emb (((sV).slice (Rect.unit (s := S10000) off S400.size inb) (fun _ => rfl)).view.emb
      (S400.rowMajor.symm ((j gathers_S10000x128_S400x128.axis').cast hn'.symm)))) _ ?_ ?_ ?_).symm
  · -- the entry's position in the index array is the row's position in the output
    show (k10_off1 L) 0 + 1 * (off 0 + 1 * ((S400.rowMajor.symm ((j gathers_S10000x128_S400x128.axis').cast hn'.symm)) 0).val)
      = (k10_off2 L (BitVec.ofNat 32 (400 * c.val))) 0 + 1 * (j 0).val
    rw [hz, k10_off1_eq L, k10_off2_eq L c, hoff]
    show 20000 * (L 1).val + 10000 * (L 0).val + 1 * (400 * c.val + 1 * (j 0).val) = 20000 * (L 1).val + 10000 * (L 0).val + 400 * c.val + 1 * (j 0).val
    omega
  · -- the table row read is the one the entry names
    show 0 + 1 * ((gathers_S10000x128_S400x128.idx _ j) 0).val = _
    rw [← hs]
    have ha := Shape.Gathers.idx_axis gathers_S10000x128_S400x128
      (SparseCore.rows (View.read (Elt F) ((sV).slice (Rect.unit (s := S10000) off S400.size inb) (fun _ => rfl)).view
        (View.write (Elt F) (sV).view fs (ReadAs.same.apply ((iRowK L).view.read (Elt F) IDX)) Finset.univ)) hn' hin') j
    have ha' := congrArg Fin.val ha
    simp only [Nat.zero_add, Nat.one_mul]
    exact ha'
  · -- the column is the output's
    show 0 + 1 * ((gathers_S10000x128_S400x128.idx _ j) 1).val = (k10_off2 L (BitVec.ofNat 32 (400 * c.val))) 1 + 1 * (j 1).val
    rw [k10_off2_eq L c, Shape.Gathers.idx_of_ne gathers_S10000x128_S400x128 _ j 1 (by decide)]
    show 0 + 1 * (j 1).val = 0 + 1 * (j 1).val
    rfl

/-- A chunk's rows after the task: wherever the chunk was copied to from a buffer holding the gathered rows, it agrees with
    the gathered array. -/
theorem chunk_val (IDX : Buf (Elt F) (iLoc d)) (TAB : Buf (Elt F) (xLoc5 d)) (g : Buf (Elt F) (oLoc5 d)) (c : Fin 25)
    (n : BitVec 32) (hn : n = BitVec.ofNat 32 (400 * c.val)) (h : ∀ a, (k10_off2 L n) a + S400x128.size a ≤ S320000x128.size a)
    (D : S400x128.Idx → Elt F .f32) (hD : ∀ j, D j = gatherFn IDX TAB ((oChunkM L n h).view.emb j)) :
    ∀ i ∈ chunkSet L c, ((oChunkM L n h).view.writes (Elt F) g [⟨Rect.whole S400x128, D⟩]) i = gatherFn IDX TAB i := by
  intro i hi
  rw [← set_oChunkM L c n hn h] at hi
  obtain ⟨j, -, rfl⟩ := Finset.mem_map.mp hi
  rw [store_val, hD]

abbrev cellG0 (d : Dev nD) (c : Fin τ.nSC) (i : Fin τ.nSub) : GSem nD τ sig := (V d c i, .dma cc10_scratch3.sem)
abbrev cellG1 (d : Dev nD) (c : Fin τ.nSC) (i : Fin τ.nSub) : GSem nD τ sig := (V d c i, .dma cc10_scratch4.sem)
abbrev cellS0 (d : Dev nD) (c : Fin τ.nSC) (i : Fin τ.nSub) : GSem nD τ sig := (V d c i, .dma cc10_scratch5.sem)
abbrev cellS1 (d : Dev nD) (c : Fin τ.nSC) (i : Fin τ.nSub) : GSem nD τ sig := (V d c i, .dma cc10_scratch6.sem)
abbrev cellIX (d : Dev nD) (c : Fin τ.nSC) (i : Fin τ.nSub) : GSem nD τ sig := (V d c i, .dma cc10_scoped0.sem)

theorem cell_ne_G1_G0 : (cellG1 d (cV L) (jV L)) ≠ (cellG0 d (cV L) (jV L)) :=
  fun h => absurd (congrArg Prod.snd h) (show (SemLoc.dma cc10_scratch4.sem : SemLoc sig) ≠ SemLoc.dma cc10_scratch3.sem by decide)
theorem cell_ne_S0_G0 : (cellS0 d (cV L) (jV L)) ≠ (cellG0 d (cV L) (jV L)) :=
  fun h => absurd (congrArg Prod.snd h) (show (SemLoc.dma cc10_scratch5.sem : SemLoc sig) ≠ SemLoc.dma cc10_scratch3.sem by decide)
theorem cell_ne_S0_G1 : (cellS0 d (cV L) (jV L)) ≠ (cellG1 d (cV L) (jV L)) :=
  fun h => absurd (congrArg Prod.snd h) (show (SemLoc.dma cc10_scratch5.sem : SemLoc sig) ≠ SemLoc.dma cc10_scratch4.sem by decide)
theorem cell_ne_S1_G0 : (cellS1 d (cV L) (jV L)) ≠ (cellG0 d (cV L) (jV L)) :=
  fun h => absurd (congrArg Prod.snd h) (show (SemLoc.dma cc10_scratch6.sem : SemLoc sig) ≠ SemLoc.dma cc10_scratch3.sem by decide)
theorem cell_ne_S1_G1 : (cellS1 d (cV L) (jV L)) ≠ (cellG1 d (cV L) (jV L)) :=
  fun h => absurd (congrArg Prod.snd h) (show (SemLoc.dma cc10_scratch6.sem : SemLoc sig) ≠ SemLoc.dma cc10_scratch4.sem by decide)
theorem cell_ne_S1_S0 : (cellS1 d (cV L) (jV L)) ≠ (cellS0 d (cV L) (jV L)) :=
  fun h => absurd (congrArg Prod.snd h) (show (SemLoc.dma cc10_scratch6.sem : SemLoc sig) ≠ SemLoc.dma cc10_scratch5.sem by decide)
theorem cell_ne_IX_G0 : (cellIX d (cV L) (jV L)) ≠ (cellG0 d (cV L) (jV L)) :=
  fun h => absurd (congrArg Prod.snd h) (show (SemLoc.dma cc10_scoped0.sem : SemLoc sig) ≠ SemLoc.dma cc10_scratch3.sem by decide)
theorem cell_ne_IX_G1 : (cellIX d (cV L) (jV L)) ≠ (cellG1 d (cV L) (jV L)) :=
  fun h => absurd (congrArg Prod.snd h) (show (SemLoc.dma cc10_scoped0.sem : SemLoc sig) ≠ SemLoc.dma cc10_scratch4.sem by decide)
theorem cell_ne_IX_S0 : (cellIX d (cV L) (jV L)) ≠ (cellS0 d (cV L) (jV L)) :=
  fun h => absurd (congrArg Prod.snd h) (show (SemLoc.dma cc10_scoped0.sem : SemLoc sig) ≠ SemLoc.dma cc10_scratch5.sem by decide)
theorem cell_ne_IX_S1 : (cellIX d (cV L) (jV L)) ≠ (cellS1 d (cV L) (jV L)) :=
  fun h => absurd (congrArg Prod.snd h) (show (SemLoc.dma cc10_scoped0.sem : SemLoc sig) ≠ SemLoc.dma cc10_scratch6.sem by decide)

theorem ownSems0_V :
    (ownSems0 (V d (cV L) (jV L)) : sProp 𝕄)
      = iprop(semVal (cellG0 d (cV L) (jV L)) 0 ∗ semVal (cellG1 d (cV L) (jV L)) 0 ∗ semVal (cellS0 d (cV L) (jV L)) 0 ∗ semVal (cellS1 d (cV L) (jV L)) 0 ∗ semVal (cellIX d (cV L) (jV L)) 0
          ∗ bigSep ((((((ownCells (V d (cV L) (jV L))).erase (cellG0 d (cV L) (jV L))).erase (cellG1 d (cV L) (jV L))).erase (cellS0 d (cV L) (jV L))).erase (cellS1 d (cV L) (jV L))).erase (cellIX d (cV L) (jV L))) fun g => semVal g 0) := by
  unfold SparseCore.Cfg.ownSems0
  rw [SparseCore.bigSep_erase' ((mem_ownCells (g := (cellG0 d (cV L) (jV L)))).mpr ⟨rfl, by show (SemLoc.dma cc10_scratch3.sem : SemLoc sig).isScoped .scVector = true; decide⟩),
    SparseCore.bigSep_erase' (Finset.mem_erase.mpr ⟨cell_ne_G1_G0 d L, (mem_ownCells (g := (cellG1 d (cV L) (jV L)))).mpr ⟨rfl, by show (SemLoc.dma cc10_scratch4.sem : SemLoc sig).isScoped .scVector = true; decide⟩⟩),
    SparseCore.bigSep_erase' (Finset.mem_erase.mpr ⟨cell_ne_S0_G1 d L, Finset.mem_erase.mpr ⟨cell_ne_S0_G0 d L, (mem_ownCells (g := (cellS0 d (cV L) (jV L)))).mpr ⟨rfl, by show (SemLoc.dma cc10_scratch5.sem : SemLoc sig).isScoped .scVector = true; decide⟩⟩⟩),
    SparseCore.bigSep_erase' (Finset.mem_erase.mpr ⟨cell_ne_S1_S0 d L, Finset.mem_erase.mpr ⟨cell_ne_S1_G1 d L, Finset.mem_erase.mpr ⟨cell_ne_S1_G0 d L, (mem_ownCells (g := (cellS1 d (cV L) (jV L)))).mpr ⟨rfl, by show (SemLoc.dma cc10_scratch6.sem : SemLoc sig).isScoped .scVector = true; decide⟩⟩⟩⟩),
    SparseCore.bigSep_erase' (Finset.mem_erase.mpr ⟨cell_ne_IX_S1 d L, Finset.mem_erase.mpr ⟨cell_ne_IX_S0 d L, Finset.mem_erase.mpr ⟨cell_ne_IX_G1 d L, Finset.mem_erase.mpr ⟨cell_ne_IX_G0 d L, (mem_ownCells (g := (cellIX d (cV L) (jV L)))).mpr ⟨rfl, by show (SemLoc.dma cc10_scoped0.sem : SemLoc sig).isScoped .scVector = true; decide⟩⟩⟩⟩⟩)]

theorem ownBufs_V :
    (ownBufs (V d (cV L) (jV L)) : sProp 𝕄)
      = iprop((∃ f, (V d (cV L) (jV L)).loc cc10_scratch0 ↦{fullShare} f) ∗ (∃ f, (V d (cV L) (jV L)).loc cc10_scratch1 ↦{fullShare} f) ∗ (∃ f, (V d (cV L) (jV L)).loc cc10_scratch2 ↦{fullShare} f)
          ∗ bigSep ((((ownRefs (τ := τ) (.scVector (cV L) (jV L))).erase ((Proc.scVector (cV L) (jV L)).devRef cc10_scratch0)).erase ((Proc.scVector (cV L) (jV L)).devRef cc10_scratch1)).erase ((Proc.scVector (cV L) (jV L)).devRef cc10_scratch2))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc10_scratch0) rfl)).trans ?_
  rw [SparseCore.bigSep_erase' (Finset.mem_erase.mpr ⟨fun e => absurd (Proc.devRef_injective _ e) (show (cc10_scratch1 : Ref sig .scVector) ≠ cc10_scratch0 by decide), SparseCore.Cfg.mem_ownRefs_of_owner (p := (Proc.scVector (cV L) (jV L))) (b := (Proc.scVector (cV L) (jV L)).devRef cc10_scratch1) rfl⟩),
    SparseCore.bigSep_erase' (Finset.mem_erase.mpr ⟨fun e => absurd (Proc.devRef_injective _ e) (show (cc10_scratch2 : Ref sig .scVector) ≠ cc10_scratch1 by decide), Finset.mem_erase.mpr ⟨fun e => absurd (Proc.devRef_injective _ e) (show (cc10_scratch2 : Ref sig .scVector) ≠ cc10_scratch0 by decide), SparseCore.Cfg.mem_ownRefs_of_owner (p := (Proc.scVector (cV L) (jV L))) (b := (Proc.scVector (cV L) (jV L)).devRef cc10_scratch2) rfl⟩⟩)]

theorem insert_ok {W W' : Waits sig (HIx 6)} (s : SemLoc sig) (h : ∀ p ∈ W', p ∈ W ∨ p.2 = none) :
    ∀ p ∈ insert (s, (default : HIx 6)) W', p ∈ W ∨ p.2 = none := by
  intro p hp
  rcases Finset.mem_insert.mp hp with hp | hp
  · exact .inr (hp ▸ rfl)
  · exact h p hp

set_option maxHeartbeats 4000000 in
theorem tile_body (hF : (K (F := F)).Facts) (q : PosShare TreeShare)
    (IDX : Buf (Elt F) (iLoc d)) (TAB : Buf (Elt F) (xLoc5 d)) (OUT₀ : Buf (Elt F) (oLoc5 d))
    (hidx : ∀ j, (IDX j).toNat < 10000)
    (O : CellTallies nD τ sig (HIx 6)) (W : Waits sig (HIx 6)) (hO : ∀ g, O g none = 0) :
    iprop(levAts (K (F := F)).L (K (F := F)).lev ∗ emp
        ∗ ((iLoc d ↦[iRowSet (wid L)]{fullShare} IDX : sProp 𝕄) ∗ (xLoc5 d ↦{q} TAB) ∗ (oLoc5 d ↦[oRowSet (wid L)]{fullShare} OUT₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc10_gather_kernel L xV (Memref.isWhole_whole _) iV (Memref.isWhole_whole _) oV (Memref.isWhole_whole _)
            sV (Memref.isWhole_whole _) aV (Memref.isWhole_whole _) bV (Memref.isWhole_whole _)
            cc10_scratch3 cc10_scratch4 cc10_scratch5 cc10_scratch6 cc10_scoped0)
          fun _ => iprop(((iLoc d ↦[iRowSet (wid L)]{fullShare} IDX : sProp 𝕄) ∗ (xLoc5 d ↦{q} TAB)
              ∗ ∃ OUT, ⌜GatherSpec (wid L) IDX TAB OUT⌝ ∗ (oLoc5 d ↦[oRowSet (wid L)]{fullShare} OUT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc10_gather_kernel_eq_skeleton]; unfold cc10_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fa, Ha⟩, ⟨%fb, Hb⟩, Hbufs⟩, ⟨HsemG0, HsemG1, HsemS0, HsemS1, HsemIX, Hsems⟩, HO⟩
  ihave Hmw := (show levAts (K (F := F)).L (K (F := F)).lev ⊢ Transfers.MayWaits (V d (cV L) (jV L)) (default : HIx 6) O from
    (K (F := F)).mayWaits_none (thr := (V d (cV L) (jV L))) hO) $$ Hlv
  ihave Hi' := (Entails.of_eq (pts_iRowK (F := F) d L _).symm) $$ Hi
  ihave Hx' := (Entails.of_eq (pts_xV (F := F) d L _ _).symm) $$ Hx
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  ihave Ht0 := (Entails.of_eq (pts_tl_zero (F := F) d L _)) $$ Ho
  ihave Hsp := (Entails.of_eq (pts_tl_split (F := F) d L 0 (by omega) _)) $$ Ht0
  icases Hsp with ⟨Ho0, Ht1⟩
  ihave Hsp := (Entails.of_eq (pts_tl_split (F := F) d L 1 (by omega) _)) $$ Ht1
  icases Hsp with ⟨Ho1, Ht2⟩
  ihave Hsp := (Entails.of_eq (pts_tl_split (F := F) d L 2 (by omega) _)) $$ Ht2
  icases Hsp with ⟨Ho2, Ht3⟩
  ihave Hsp := (Entails.of_eq (pts_tl_split (F := F) d L 3 (by omega) _)) $$ Ht3
  icases Hsp with ⟨Ho3, Ht4⟩
  ihave Hsp := (Entails.of_eq (pts_tl_split (F := F) d L 4 (by omega) _)) $$ Ht4
  icases Hsp with ⟨Ho4, Ht5⟩
  ihave Hsp := (Entails.of_eq (pts_tl_split (F := F) d L 5 (by omega) _)) $$ Ht5
  icases Hsp with ⟨Ho5, Ht6⟩
  ihave Hsp := (Entails.of_eq (pts_tl_split (F := F) d L 6 (by omega) _)) $$ Ht6
  icases Hsp with ⟨Ho6, Ht7⟩
  ihave Hsp := (Entails.of_eq (pts_tl_split (F := F) d L 7 (by omega) _)) $$ Ht7
  icases Hsp with ⟨Ho7, Ht8⟩
  ihave Hsp := (Entails.of_eq (pts_tl_split (F := F) d L 8 (by omega) _)) $$ Ht8
  icases Hsp with ⟨Ho8, Ht9⟩
  ihave Hsp := (Entails.of_eq (pts_tl_split (F := F) d L 9 (by omega) _)) $$ Ht9
  icases Hsp with ⟨Ho9, Ht10⟩
  ihave Hsp := (Entails.of_eq (pts_tl_split (F := F) d L 10 (by omega) _)) $$ Ht10
  icases Hsp with ⟨Ho10, Ht11⟩
  ihave Hsp := (Entails.of_eq (pts_tl_split (F := F) d L 11 (by omega) _)) $$ Ht11
  icases Hsp with ⟨Ho11, Ht12⟩
  ihave Hsp := (Entails.of_eq (pts_tl_split (F := F) d L 12 (by omega) _)) $$ Ht12
  icases Hsp with ⟨Ho12, Ht13⟩
  ihave Hsp := (Entails.of_eq (pts_tl_split (F := F) d L 13 (by omega) _)) $$ Ht13
  icases Hsp with ⟨Ho13, Ht14⟩
  ihave Hsp := (Entails.of_eq (pts_tl_split (F := F) d L 14 (by omega) _)) $$ Ht14
  icases Hsp with ⟨Ho14, Ht15⟩
  ihave Hsp := (Entails.of_eq (pts_tl_split (F := F) d L 15 (by omega) _)) $$ Ht15
  icases Hsp with ⟨Ho15, Ht16⟩
  ihave Hsp := (Entails.of_eq (pts_tl_split (F := F) d L 16 (by omega) _)) $$ Ht16
  icases Hsp with ⟨Ho16, Ht17⟩
  ihave Hsp := (Entails.of_eq (pts_tl_split (F := F) d L 17 (by omega) _)) $$ Ht17
  icases Hsp with ⟨Ho17, Ht18⟩
  ihave Hsp := (Entails.of_eq (pts_tl_split (F := F) d L 18 (by omega) _)) $$ Ht18
  icases Hsp with ⟨Ho18, Ht19⟩
  ihave Hsp := (Entails.of_eq (pts_tl_split (F := F) d L 19 (by omega) _)) $$ Ht19
  icases Hsp with ⟨Ho19, Ht20⟩
  ihave Hsp := (Entails.of_eq (pts_tl_split (F := F) d L 20 (by omega) _)) $$ Ht20
  icases Hsp with ⟨Ho20, Ht21⟩
  ihave Hsp := (Entails.of_eq (pts_tl_split (F := F) d L 21 (by omega) _)) $$ Ht21
  icases Hsp with ⟨Ho21, Ht22⟩
  ihave Hsp := (Entails.of_eq (pts_tl_split (F := F) d L 22 (by omega) _)) $$ Ht22
  icases Hsp with ⟨Ho22, Ht23⟩
  ihave Hsp := (Entails.of_eq (pts_tl_split (F := F) d L 23 (by omega) _)) $$ Ht23
  icases Hsp with ⟨Ho23, Ht24⟩
  ihave Ho24 := (Entails.of_eq (pts_tl_24 (F := F) d L _)) $$ Ht24
  ihave Ho0' := (Entails.of_eq (pts_oChunk (F := F) d L 0 0#32 rfl (k10_off2_inb L 0) _).symm) $$ Ho0
  ihave Ho1' := (Entails.of_eq (pts_oChunk (F := F) d L 1 400#32 rfl (k10_off2_inb L 1) _).symm) $$ Ho1
  ihave Ho2' := (Entails.of_eq (pts_oChunk (F := F) d L 2 800#32 rfl (k10_off2_inb L 2) _).symm) $$ Ho2
  ihave Ho3' := (Entails.of_eq (pts_oChunk (F := F) d L 3 1200#32 rfl (k10_off2_inb L 3) _).symm) $$ Ho3
  ihave Ho4' := (Entails.of_eq (pts_oChunk (F := F) d L 4 1600#32 rfl (k10_off2_inb L 4) _).symm) $$ Ho4
  ihave Ho5' := (Entails.of_eq (pts_oChunk (F := F) d L 5 2000#32 rfl (k10_off2_inb L 5) _).symm) $$ Ho5
  ihave Ho6' := (Entails.of_eq (pts_oChunk (F := F) d L 6 2400#32 rfl (k10_off2_inb L 6) _).symm) $$ Ho6
  ihave Ho7' := (Entails.of_eq (pts_oChunk (F := F) d L 7 2800#32 rfl (k10_off2_inb L 7) _).symm) $$ Ho7
  ihave Ho8' := (Entails.of_eq (pts_oChunk (F := F) d L 8 3200#32 rfl (k10_off2_inb L 8) _).symm) $$ Ho8
  ihave Ho9' := (Entails.of_eq (pts_oChunk (F := F) d L 9 3600#32 rfl (k10_off2_inb L 9) _).symm) $$ Ho9
  ihave Ho10' := (Entails.of_eq (pts_oChunk (F := F) d L 10 4000#32 rfl (k10_off2_inb L 10) _).symm) $$ Ho10
  ihave Ho11' := (Entails.of_eq (pts_oChunk (F := F) d L 11 4400#32 rfl (k10_off2_inb L 11) _).symm) $$ Ho11
  ihave Ho12' := (Entails.of_eq (pts_oChunk (F := F) d L 12 4800#32 rfl (k10_off2_inb L 12) _).symm) $$ Ho12
  ihave Ho13' := (Entails.of_eq (pts_oChunk (F := F) d L 13 5200#32 rfl (k10_off2_inb L 13) _).symm) $$ Ho13
  ihave Ho14' := (Entails.of_eq (pts_oChunk (F := F) d L 14 5600#32 rfl (k10_off2_inb L 14) _).symm) $$ Ho14
  ihave Ho15' := (Entails.of_eq (pts_oChunk (F := F) d L 15 6000#32 rfl (k10_off2_inb L 15) _).symm) $$ Ho15
  ihave Ho16' := (Entails.of_eq (pts_oChunk (F := F) d L 16 6400#32 rfl (k10_off2_inb L 16) _).symm) $$ Ho16
  ihave Ho17' := (Entails.of_eq (pts_oChunk (F := F) d L 17 6800#32 rfl (k10_off2_inb L 17) _).symm) $$ Ho17
  ihave Ho18' := (Entails.of_eq (pts_oChunk (F := F) d L 18 7200#32 rfl (k10_off2_inb L 18) _).symm) $$ Ho18
  ihave Ho19' := (Entails.of_eq (pts_oChunk (F := F) d L 19 7600#32 rfl (k10_off2_inb L 19) _).symm) $$ Ho19
  ihave Ho20' := (Entails.of_eq (pts_oChunk (F := F) d L 20 8000#32 rfl (k10_off2_inb L 20) _).symm) $$ Ho20
  ihave Ho21' := (Entails.of_eq (pts_oChunk (F := F) d L 21 8400#32 rfl (k10_off2_inb L 21) _).symm) $$ Ho21
  ihave Ho22' := (Entails.of_eq (pts_oChunk (F := F) d L 22 8800#32 rfl (k10_off2_inb L 22) _).symm) $$ Ho22
  ihave Ho23' := (Entails.of_eq (pts_oChunk (F := F) d L 23 9200#32 rfl (k10_off2_inb L 23) _).symm) $$ Ho23
  ihave Ho24' := (Entails.of_eq (pts_oChunk (F := F) d L 24 9600#32 rfl (k10_off2_inb L 24) _).symm) $$ Ho24
  have hin := idx_inb (F := F) d L IDX hidx
  set_option sl_exec.hypHeartbeats 40000 in
  sl_exec_parts
  sl_step
  have hv0 := chunk_val (F := F) d L IDX TAB OUT₀ 0 0#32 rfl (k10_off2_inb L 0) (tile_body.sl.dma0_1 d L IDX TAB fs fa hin)
    (fun j => (read_writes_whole _ _ _ _ j).trans (gather_val (F := F) d L IDX TAB hidx fs 0 ![0] rfl _ 0#32 rfl (k10_off2_inb L 0) _ _ j))
  ihave Hg0 := (Entails.of_eq ((pts_oChunk (F := F) d L 0 0#32 rfl (k10_off2_inb L 0) _).trans (pointsTo_congr hv0))) $$ Ho0'
  have hv1 := chunk_val (F := F) d L IDX TAB OUT₀ 1 400#32 rfl (k10_off2_inb L 1) (tile_body.sl.dma0_2 d L IDX TAB fs fb hin)
    (fun j => (read_writes_whole _ _ _ _ j).trans (gather_val (F := F) d L IDX TAB hidx fs 1 ![400] rfl _ 400#32 rfl (k10_off2_inb L 1) _ _ j))
  ihave Hg1 := (Entails.of_eq ((pts_oChunk (F := F) d L 1 400#32 rfl (k10_off2_inb L 1) _).trans (pointsTo_congr hv1))) $$ Ho1'
  have hv2 := chunk_val (F := F) d L IDX TAB OUT₀ 2 800#32 rfl (k10_off2_inb L 2) (tile_body.sl.dma0_3 d L IDX TAB fs fa hin)
    (fun j => (read_writes_whole _ _ _ _ j).trans (gather_val (F := F) d L IDX TAB hidx fs 2 ![800] rfl _ 800#32 rfl (k10_off2_inb L 2) _ _ j))
  ihave Hg2 := (Entails.of_eq ((pts_oChunk (F := F) d L 2 800#32 rfl (k10_off2_inb L 2) _).trans (pointsTo_congr hv2))) $$ Ho2'
  have hv3 := chunk_val (F := F) d L IDX TAB OUT₀ 3 1200#32 rfl (k10_off2_inb L 3) (tile_body.sl.dma0_4 d L IDX TAB fs fb hin)
    (fun j => (read_writes_whole _ _ _ _ j).trans (gather_val (F := F) d L IDX TAB hidx fs 3 ![1200] rfl _ 1200#32 rfl (k10_off2_inb L 3) _ _ j))
  ihave Hg3 := (Entails.of_eq ((pts_oChunk (F := F) d L 3 1200#32 rfl (k10_off2_inb L 3) _).trans (pointsTo_congr hv3))) $$ Ho3'
  have hv4 := chunk_val (F := F) d L IDX TAB OUT₀ 4 1600#32 rfl (k10_off2_inb L 4) (tile_body.sl.dma0_5 d L IDX TAB fs fa hin)
    (fun j => (read_writes_whole _ _ _ _ j).trans (gather_val (F := F) d L IDX TAB hidx fs 4 ![1600] rfl _ 1600#32 rfl (k10_off2_inb L 4) _ _ j))
  ihave Hg4 := (Entails.of_eq ((pts_oChunk (F := F) d L 4 1600#32 rfl (k10_off2_inb L 4) _).trans (pointsTo_congr hv4))) $$ Ho4'
  have hv5 := chunk_val (F := F) d L IDX TAB OUT₀ 5 2000#32 rfl (k10_off2_inb L 5) (tile_body.sl.dma0_6 d L IDX TAB fs fb hin)
    (fun j => (read_writes_whole _ _ _ _ j).trans (gather_val (F := F) d L IDX TAB hidx fs 5 ![2000] rfl _ 2000#32 rfl (k10_off2_inb L 5) _ _ j))
  ihave Hg5 := (Entails.of_eq ((pts_oChunk (F := F) d L 5 2000#32 rfl (k10_off2_inb L 5) _).trans (pointsTo_congr hv5))) $$ Ho5'
  have hv6 := chunk_val (F := F) d L IDX TAB OUT₀ 6 2400#32 rfl (k10_off2_inb L 6) (tile_body.sl.dma0_7 d L IDX TAB fs fa hin)
    (fun j => (read_writes_whole _ _ _ _ j).trans (gather_val (F := F) d L IDX TAB hidx fs 6 ![2400] rfl _ 2400#32 rfl (k10_off2_inb L 6) _ _ j))
  ihave Hg6 := (Entails.of_eq ((pts_oChunk (F := F) d L 6 2400#32 rfl (k10_off2_inb L 6) _).trans (pointsTo_congr hv6))) $$ Ho6'
  have hv7 := chunk_val (F := F) d L IDX TAB OUT₀ 7 2800#32 rfl (k10_off2_inb L 7) (tile_body.sl.dma0_8 d L IDX TAB fs fb hin)
    (fun j => (read_writes_whole _ _ _ _ j).trans (gather_val (F := F) d L IDX TAB hidx fs 7 ![2800] rfl _ 2800#32 rfl (k10_off2_inb L 7) _ _ j))
  ihave Hg7 := (Entails.of_eq ((pts_oChunk (F := F) d L 7 2800#32 rfl (k10_off2_inb L 7) _).trans (pointsTo_congr hv7))) $$ Ho7'
  have hv8 := chunk_val (F := F) d L IDX TAB OUT₀ 8 3200#32 rfl (k10_off2_inb L 8) (tile_body.sl.dma0_9 d L IDX TAB fs fa hin)
    (fun j => (read_writes_whole _ _ _ _ j).trans (gather_val (F := F) d L IDX TAB hidx fs 8 ![3200] rfl _ 3200#32 rfl (k10_off2_inb L 8) _ _ j))
  ihave Hg8 := (Entails.of_eq ((pts_oChunk (F := F) d L 8 3200#32 rfl (k10_off2_inb L 8) _).trans (pointsTo_congr hv8))) $$ Ho8'
  have hv9 := chunk_val (F := F) d L IDX TAB OUT₀ 9 3600#32 rfl (k10_off2_inb L 9) (tile_body.sl.dma0_10 d L IDX TAB fs fb hin)
    (fun j => (read_writes_whole _ _ _ _ j).trans (gather_val (F := F) d L IDX TAB hidx fs 9 ![3600] rfl _ 3600#32 rfl (k10_off2_inb L 9) _ _ j))
  ihave Hg9 := (Entails.of_eq ((pts_oChunk (F := F) d L 9 3600#32 rfl (k10_off2_inb L 9) _).trans (pointsTo_congr hv9))) $$ Ho9'
  have hv10 := chunk_val (F := F) d L IDX TAB OUT₀ 10 4000#32 rfl (k10_off2_inb L 10) (tile_body.sl.dma0_11 d L IDX TAB fs fa hin)
    (fun j => (read_writes_whole _ _ _ _ j).trans (gather_val (F := F) d L IDX TAB hidx fs 10 ![4000] rfl _ 4000#32 rfl (k10_off2_inb L 10) _ _ j))
  ihave Hg10 := (Entails.of_eq ((pts_oChunk (F := F) d L 10 4000#32 rfl (k10_off2_inb L 10) _).trans (pointsTo_congr hv10))) $$ Ho10'
  have hv11 := chunk_val (F := F) d L IDX TAB OUT₀ 11 4400#32 rfl (k10_off2_inb L 11) (tile_body.sl.dma0_12 d L IDX TAB fs fb hin)
    (fun j => (read_writes_whole _ _ _ _ j).trans (gather_val (F := F) d L IDX TAB hidx fs 11 ![4400] rfl _ 4400#32 rfl (k10_off2_inb L 11) _ _ j))
  ihave Hg11 := (Entails.of_eq ((pts_oChunk (F := F) d L 11 4400#32 rfl (k10_off2_inb L 11) _).trans (pointsTo_congr hv11))) $$ Ho11'
  have hv12 := chunk_val (F := F) d L IDX TAB OUT₀ 12 4800#32 rfl (k10_off2_inb L 12) (tile_body.sl.dma0_13 d L IDX TAB fs fa hin)
    (fun j => (read_writes_whole _ _ _ _ j).trans (gather_val (F := F) d L IDX TAB hidx fs 12 ![4800] rfl _ 4800#32 rfl (k10_off2_inb L 12) _ _ j))
  ihave Hg12 := (Entails.of_eq ((pts_oChunk (F := F) d L 12 4800#32 rfl (k10_off2_inb L 12) _).trans (pointsTo_congr hv12))) $$ Ho12'
  have hv13 := chunk_val (F := F) d L IDX TAB OUT₀ 13 5200#32 rfl (k10_off2_inb L 13) (tile_body.sl.dma0_14 d L IDX TAB fs fb hin)
    (fun j => (read_writes_whole _ _ _ _ j).trans (gather_val (F := F) d L IDX TAB hidx fs 13 ![5200] rfl _ 5200#32 rfl (k10_off2_inb L 13) _ _ j))
  ihave Hg13 := (Entails.of_eq ((pts_oChunk (F := F) d L 13 5200#32 rfl (k10_off2_inb L 13) _).trans (pointsTo_congr hv13))) $$ Ho13'
  have hv14 := chunk_val (F := F) d L IDX TAB OUT₀ 14 5600#32 rfl (k10_off2_inb L 14) (tile_body.sl.dma0_15 d L IDX TAB fs fa hin)
    (fun j => (read_writes_whole _ _ _ _ j).trans (gather_val (F := F) d L IDX TAB hidx fs 14 ![5600] rfl _ 5600#32 rfl (k10_off2_inb L 14) _ _ j))
  ihave Hg14 := (Entails.of_eq ((pts_oChunk (F := F) d L 14 5600#32 rfl (k10_off2_inb L 14) _).trans (pointsTo_congr hv14))) $$ Ho14'
  have hv15 := chunk_val (F := F) d L IDX TAB OUT₀ 15 6000#32 rfl (k10_off2_inb L 15) (tile_body.sl.dma0_16 d L IDX TAB fs fb hin)
    (fun j => (read_writes_whole _ _ _ _ j).trans (gather_val (F := F) d L IDX TAB hidx fs 15 ![6000] rfl _ 6000#32 rfl (k10_off2_inb L 15) _ _ j))
  ihave Hg15 := (Entails.of_eq ((pts_oChunk (F := F) d L 15 6000#32 rfl (k10_off2_inb L 15) _).trans (pointsTo_congr hv15))) $$ Ho15'
  have hv16 := chunk_val (F := F) d L IDX TAB OUT₀ 16 6400#32 rfl (k10_off2_inb L 16) (tile_body.sl.dma0_17 d L IDX TAB fs fa hin)
    (fun j => (read_writes_whole _ _ _ _ j).trans (gather_val (F := F) d L IDX TAB hidx fs 16 ![6400] rfl _ 6400#32 rfl (k10_off2_inb L 16) _ _ j))
  ihave Hg16 := (Entails.of_eq ((pts_oChunk (F := F) d L 16 6400#32 rfl (k10_off2_inb L 16) _).trans (pointsTo_congr hv16))) $$ Ho16'
  have hv17 := chunk_val (F := F) d L IDX TAB OUT₀ 17 6800#32 rfl (k10_off2_inb L 17) (tile_body.sl.dma0_18 d L IDX TAB fs fb hin)
    (fun j => (read_writes_whole _ _ _ _ j).trans (gather_val (F := F) d L IDX TAB hidx fs 17 ![6800] rfl _ 6800#32 rfl (k10_off2_inb L 17) _ _ j))
  ihave Hg17 := (Entails.of_eq ((pts_oChunk (F := F) d L 17 6800#32 rfl (k10_off2_inb L 17) _).trans (pointsTo_congr hv17))) $$ Ho17'
  have hv18 := chunk_val (F := F) d L IDX TAB OUT₀ 18 7200#32 rfl (k10_off2_inb L 18) (tile_body.sl.dma0_19 d L IDX TAB fs fa hin)
    (fun j => (read_writes_whole _ _ _ _ j).trans (gather_val (F := F) d L IDX TAB hidx fs 18 ![7200] rfl _ 7200#32 rfl (k10_off2_inb L 18) _ _ j))
  ihave Hg18 := (Entails.of_eq ((pts_oChunk (F := F) d L 18 7200#32 rfl (k10_off2_inb L 18) _).trans (pointsTo_congr hv18))) $$ Ho18'
  have hv19 := chunk_val (F := F) d L IDX TAB OUT₀ 19 7600#32 rfl (k10_off2_inb L 19) (tile_body.sl.dma0_20 d L IDX TAB fs fb hin)
    (fun j => (read_writes_whole _ _ _ _ j).trans (gather_val (F := F) d L IDX TAB hidx fs 19 ![7600] rfl _ 7600#32 rfl (k10_off2_inb L 19) _ _ j))
  ihave Hg19 := (Entails.of_eq ((pts_oChunk (F := F) d L 19 7600#32 rfl (k10_off2_inb L 19) _).trans (pointsTo_congr hv19))) $$ Ho19'
  have hv20 := chunk_val (F := F) d L IDX TAB OUT₀ 20 8000#32 rfl (k10_off2_inb L 20) (tile_body.sl.dma0_21 d L IDX TAB fs fa hin)
    (fun j => (read_writes_whole _ _ _ _ j).trans (gather_val (F := F) d L IDX TAB hidx fs 20 ![8000] rfl _ 8000#32 rfl (k10_off2_inb L 20) _ _ j))
  ihave Hg20 := (Entails.of_eq ((pts_oChunk (F := F) d L 20 8000#32 rfl (k10_off2_inb L 20) _).trans (pointsTo_congr hv20))) $$ Ho20'
  have hv21 := chunk_val (F := F) d L IDX TAB OUT₀ 21 8400#32 rfl (k10_off2_inb L 21) (tile_body.sl.dma0_22 d L IDX TAB fs fb hin)
    (fun j => (read_writes_whole _ _ _ _ j).trans (gather_val (F := F) d L IDX TAB hidx fs 21 ![8400] rfl _ 8400#32 rfl (k10_off2_inb L 21) _ _ j))
  ihave Hg21 := (Entails.of_eq ((pts_oChunk (F := F) d L 21 8400#32 rfl (k10_off2_inb L 21) _).trans (pointsTo_congr hv21))) $$ Ho21'
  have hv22 := chunk_val (F := F) d L IDX TAB OUT₀ 22 8800#32 rfl (k10_off2_inb L 22) (tile_body.sl.dma0_23 d L IDX TAB fs fa hin)
    (fun j => (read_writes_whole _ _ _ _ j).trans (gather_val (F := F) d L IDX TAB hidx fs 22 ![8800] rfl _ 8800#32 rfl (k10_off2_inb L 22) _ _ j))
  ihave Hg22 := (Entails.of_eq ((pts_oChunk (F := F) d L 22 8800#32 rfl (k10_off2_inb L 22) _).trans (pointsTo_congr hv22))) $$ Ho22'
  have hv23 := chunk_val (F := F) d L IDX TAB OUT₀ 23 9200#32 rfl (k10_off2_inb L 23) (tile_body.sl.dma0_24 d L IDX TAB fs fb hin)
    (fun j => (read_writes_whole _ _ _ _ j).trans (gather_val (F := F) d L IDX TAB hidx fs 23 ![9200] rfl _ 9200#32 rfl (k10_off2_inb L 23) _ _ j))
  ihave Hg23 := (Entails.of_eq ((pts_oChunk (F := F) d L 23 9200#32 rfl (k10_off2_inb L 23) _).trans (pointsTo_congr hv23))) $$ Ho23'
  have hv24 := chunk_val (F := F) d L IDX TAB OUT₀ 24 9600#32 rfl (k10_off2_inb L 24) (tile_body.sl.dma0_25 d L IDX TAB fs fa hin)
    (fun j => (read_writes_whole _ _ _ _ j).trans (gather_val (F := F) d L IDX TAB hidx fs 24 ![9600] rfl _ 9600#32 rfl (k10_off2_inb L 24) _ _ j))
  ihave Hg24 := (Entails.of_eq ((pts_oChunk (F := F) d L 24 9600#32 rfl (k10_off2_inb L 24) _).trans (pointsTo_congr hv24))) $$ Ho24'
  ihave Ht24 := (Entails.of_eq (pts_tl_24 (F := F) d L _).symm) $$ Hg24
  ihave Ht23 := (Entails.of_eq (pts_tl_split (F := F) d L 23 (by omega) _).symm) $$ [Hg23 Ht24]; · isplitl [Hg23] <;> iassumption
  ihave Ht22 := (Entails.of_eq (pts_tl_split (F := F) d L 22 (by omega) _).symm) $$ [Hg22 Ht23]; · isplitl [Hg22] <;> iassumption
  ihave Ht21 := (Entails.of_eq (pts_tl_split (F := F) d L 21 (by omega) _).symm) $$ [Hg21 Ht22]; · isplitl [Hg21] <;> iassumption
  ihave Ht20 := (Entails.of_eq (pts_tl_split (F := F) d L 20 (by omega) _).symm) $$ [Hg20 Ht21]; · isplitl [Hg20] <;> iassumption
  ihave Ht19 := (Entails.of_eq (pts_tl_split (F := F) d L 19 (by omega) _).symm) $$ [Hg19 Ht20]; · isplitl [Hg19] <;> iassumption
  ihave Ht18 := (Entails.of_eq (pts_tl_split (F := F) d L 18 (by omega) _).symm) $$ [Hg18 Ht19]; · isplitl [Hg18] <;> iassumption
  ihave Ht17 := (Entails.of_eq (pts_tl_split (F := F) d L 17 (by omega) _).symm) $$ [Hg17 Ht18]; · isplitl [Hg17] <;> iassumption
  ihave Ht16 := (Entails.of_eq (pts_tl_split (F := F) d L 16 (by omega) _).symm) $$ [Hg16 Ht17]; · isplitl [Hg16] <;> iassumption
  ihave Ht15 := (Entails.of_eq (pts_tl_split (F := F) d L 15 (by omega) _).symm) $$ [Hg15 Ht16]; · isplitl [Hg15] <;> iassumption
  ihave Ht14 := (Entails.of_eq (pts_tl_split (F := F) d L 14 (by omega) _).symm) $$ [Hg14 Ht15]; · isplitl [Hg14] <;> iassumption
  ihave Ht13 := (Entails.of_eq (pts_tl_split (F := F) d L 13 (by omega) _).symm) $$ [Hg13 Ht14]; · isplitl [Hg13] <;> iassumption
  ihave Ht12 := (Entails.of_eq (pts_tl_split (F := F) d L 12 (by omega) _).symm) $$ [Hg12 Ht13]; · isplitl [Hg12] <;> iassumption
  ihave Ht11 := (Entails.of_eq (pts_tl_split (F := F) d L 11 (by omega) _).symm) $$ [Hg11 Ht12]; · isplitl [Hg11] <;> iassumption
  ihave Ht10 := (Entails.of_eq (pts_tl_split (F := F) d L 10 (by omega) _).symm) $$ [Hg10 Ht11]; · isplitl [Hg10] <;> iassumption
  ihave Ht9 := (Entails.of_eq (pts_tl_split (F := F) d L 9 (by omega) _).symm) $$ [Hg9 Ht10]; · isplitl [Hg9] <;> iassumption
  ihave Ht8 := (Entails.of_eq (pts_tl_split (F := F) d L 8 (by omega) _).symm) $$ [Hg8 Ht9]; · isplitl [Hg8] <;> iassumption
  ihave Ht7 := (Entails.of_eq (pts_tl_split (F := F) d L 7 (by omega) _).symm) $$ [Hg7 Ht8]; · isplitl [Hg7] <;> iassumption
  ihave Ht6 := (Entails.of_eq (pts_tl_split (F := F) d L 6 (by omega) _).symm) $$ [Hg6 Ht7]; · isplitl [Hg6] <;> iassumption
  ihave Ht5 := (Entails.of_eq (pts_tl_split (F := F) d L 5 (by omega) _).symm) $$ [Hg5 Ht6]; · isplitl [Hg5] <;> iassumption
  ihave Ht4 := (Entails.of_eq (pts_tl_split (F := F) d L 4 (by omega) _).symm) $$ [Hg4 Ht5]; · isplitl [Hg4] <;> iassumption
  ihave Ht3 := (Entails.of_eq (pts_tl_split (F := F) d L 3 (by omega) _).symm) $$ [Hg3 Ht4]; · isplitl [Hg3] <;> iassumption
  ihave Ht2 := (Entails.of_eq (pts_tl_split (F := F) d L 2 (by omega) _).symm) $$ [Hg2 Ht3]; · isplitl [Hg2] <;> iassumption
  ihave Ht1 := (Entails.of_eq (pts_tl_split (F := F) d L 1 (by omega) _).symm) $$ [Hg1 Ht2]; · isplitl [Hg1] <;> iassumption
  ihave Ht0 := (Entails.of_eq (pts_tl_split (F := F) d L 0 (by omega) _).symm) $$ [Hg0 Ht1]; · isplitl [Hg0] <;> iassumption
  ihave Ho := (Entails.of_eq (pts_tl_zero (F := F) d L _).symm) $$ Ht0
  isplitl [Hi' Hx' Ho]
  · isplitl [Hi']; · iapply (Entails.of_eq (pts_iRowK (F := F) d L _)); iexact Hi'
    isplitl [Hx']; · iexact Hx'
    iexists (gatherFn IDX TAB); isplitr
    · ipureintro; exact gatherSpec_gatherFn (wid L) IDX TAB hidx
    · iexact Ho
  isplitl [Hs' Ha' Hb' Hbufs]
  · isplitl [Hs']; · iexists _; iexact Hs'
    isplitl [Ha']; · iexists _; iexact Ha'
    isplitl [Hb']; · iexists _; iexact Hb'
    iexact Hbufs
  isplitl [HsemG0 HsemG1 HsemS0 HsemS1 HsemIX Hsems]
  · isplitl [HsemG0]; · iexact HsemG0
    isplitl [HsemG1]; · iexact HsemG1
    isplitl [HsemS0]; · iexact HsemS0
    isplitl [HsemS1]; · iexact HsemS1
    isplitl [HsemIX]; · iexact HsemIX
    iexact Hsems
  iexists _; isplitr
  swap; · iexact HO
  ipureintro
  repeat (apply insert_ok)
  exact fun p hp => .inl hp

end Tile

end Cert.Proof.GatherBody10B

end
-- ==== Proof.GatherOblB.lean ====
/-
  The six gather calls' tile obligations: one vector subcore's task of a call, from what the sequencer hands the worker
  (its block of the index array, a share of the table, its rows of the output) to what the worker hands back (the same,
  the rows gathered).
-/
import proofs.«205547_g25623774888366_cont_9to1_713_27_alg».proof.Proof.PayB
import proofs.«205547_g25623774888366_cont_9to1_713_27_alg».proof.Proof.GatherBodyB
import proofs.«205547_g25623774888366_cont_9to1_713_27_alg».proof.Proof.GatherBody2B
import proofs.«205547_g25623774888366_cont_9to1_713_27_alg».proof.Proof.GatherBody4B
import proofs.«205547_g25623774888366_cont_9to1_713_27_alg».proof.Proof.GatherBody6B
import proofs.«205547_g25623774888366_cont_9to1_713_27_alg».proof.Proof.GatherBody8B
import proofs.«205547_g25623774888366_cont_9to1_713_27_alg».proof.Proof.GatherBody10B

noncomputable section

namespace Cert.Proof.GatherOblB

open Cert.Kernel Cert.Kernel.Gen
open Cert.Proof.LaunchBaseB Cert.Proof.PayB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 6) (Elt F) ℕ UU ℕ

/-- The grid coordinates of vector subcore `s` of SparseCore `c`, as the body table passes them. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 6)} {W : Waits sig (HIx 6)} {q : Fin 6} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0 -/

theorem defs₀_vector0 (c : Fin τ.nSC) (s : Fin τ.nSub) :
    defs₀ (F := F) (.scVector c s) 0 ()
      = SparseCore.onTile hcore0 hsub0 (fun c s => cc0_gather_kernel (coordsV c s)
          (Memref.whole main_v2_scv) (Memref.isWhole_whole _) (Memref.whole main_v4_scv) (Memref.isWhole_whole _) (Memref.whole main_v20_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scoped0) ⟨⟩ c s := rfl

set_option maxRecDepth 16384 in
theorem tileObl0 (Vc : Fin 6 → Dev nD → Valuation τ sig (Elt F))
    (hidx : ∀ (d : Dev nD) (j : S320000.Idx), (Vc 0 d (Proc.devRef .tc main_v4) j).toNat < 10000) :
    (K (F := F)).TileObl (D (F := F)) 𝒱 (P Vc) v₀ 0 := by
  intro d c i O W hO _ _
  simp only [show (P (F := F) Vc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (Cert.Proof.GatherBodyB.tile_body (F := F) d (coordsV ⟨_, hci.1⟩ ⟨_, hci.2⟩) facts (sh _) _ _ _ (hidx d) O W hO).trans (wp_mono frame _ _ fun _ => obl_post)

/-! ## Call 1 -/

theorem defs₀_vector1 (c : Fin τ.nSC) (s : Fin τ.nSub) :
    defs₀ (F := F) (.scVector c s) 2 ()
      = SparseCore.onTile hcore2 hsub2 (fun c s => cc2_gather_kernel (coordsV c s)
          (Memref.whole main_arg0_scv) (Memref.isWhole_whole _) (Memref.whole main_v4_scv) (Memref.isWhole_whole _) (Memref.whole main_v23_scv) (Memref.isWhole_whole _)
          (Memref.whole cc2_scratch0) (Memref.isWhole_whole _) (Memref.whole cc2_scratch1) (Memref.isWhole_whole _) (Memref.whole cc2_scratch2) (Memref.isWhole_whole _)
          cc2_scratch3 cc2_scratch4 cc2_scratch5 cc2_scratch6 cc2_scoped0) ⟨⟩ c s := rfl

set_option maxRecDepth 16384 in
theorem tileObl1 (Vc : Fin 6 → Dev nD → Valuation τ sig (Elt F))
    (hidx : ∀ (d : Dev nD) (j : S320000.Idx), (Vc 1 d (Proc.devRef .tc main_v4) j).toNat < 10000) :
    (K (F := F)).TileObl (D (F := F)) 𝒱 (P Vc) v₀ 1 := by
  intro d c i O W hO _ _
  simp only [show (P (F := F) Vc).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (Cert.Proof.GatherBody2B.tile_body (F := F) d (coordsV ⟨_, hci.1⟩ ⟨_, hci.2⟩) facts (sh _) _ _ _ (hidx d) O W hO).trans (wp_mono frame _ _ fun _ => obl_post)

/-! ## Call 2 -/

theorem defs₀_vector2 (c : Fin τ.nSC) (s : Fin τ.nSub) :
    defs₀ (F := F) (.scVector c s) 4 ()
      = SparseCore.onTile hcore4 hsub4 (fun c s => cc4_gather_kernel (coordsV c s)
          (Memref.whole main_v35_scv) (Memref.isWhole_whole _) (Memref.whole main_v4_scv) (Memref.isWhole_whole _) (Memref.whole main_v36_scv) (Memref.isWhole_whole _)
          (Memref.whole cc4_scratch0) (Memref.isWhole_whole _) (Memref.whole cc4_scratch1) (Memref.isWhole_whole _) (Memref.whole cc4_scratch2) (Memref.isWhole_whole _)
          cc4_scratch3 cc4_scratch4 cc4_scratch5 cc4_scratch6 cc4_scoped0) ⟨⟩ c s := rfl

set_option maxRecDepth 16384 in
theorem tileObl2 (Vc : Fin 6 → Dev nD → Valuation τ sig (Elt F))
    (hidx : ∀ (d : Dev nD) (j : S320000.Idx), (Vc 2 d (Proc.devRef .tc main_v4) j).toNat < 10000) :
    (K (F := F)).TileObl (D (F := F)) 𝒱 (P Vc) v₀ 2 := by
  intro d c i O W hO _ _
  simp only [show (P (F := F) Vc).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (Cert.Proof.GatherBody4B.tile_body (F := F) d (coordsV ⟨_, hci.1⟩ ⟨_, hci.2⟩) facts (sh _) _ _ _ (hidx d) O W hO).trans (wp_mono frame _ _ fun _ => obl_post)

/-! ## Call 3 -/

theorem defs₀_vector3 (c : Fin τ.nSC) (s : Fin τ.nSub) :
    defs₀ (F := F) (.scVector c s) 6 ()
      = SparseCore.onTile hcore6 hsub6 (fun c s => cc6_gather_kernel (coordsV c s)
          (Memref.whole main_v48_scv) (Memref.isWhole_whole _) (Memref.whole main_v4_scv) (Memref.isWhole_whole _) (Memref.whole main_v49_scv) (Memref.isWhole_whole _)
          (Memref.whole cc6_scratch0) (Memref.isWhole_whole _) (Memref.whole cc6_scratch1) (Memref.isWhole_whole _) (Memref.whole cc6_scratch2) (Memref.isWhole_whole _)
          cc6_scratch3 cc6_scratch4 cc6_scratch5 cc6_scratch6 cc6_scoped0) ⟨⟩ c s := rfl

set_option maxRecDepth 16384 in
theorem tileObl3 (Vc : Fin 6 → Dev nD → Valuation τ sig (Elt F))
    (hidx : ∀ (d : Dev nD) (j : S320000.Idx), (Vc 3 d (Proc.devRef .tc main_v4) j).toNat < 10000) :
    (K (F := F)).TileObl (D (F := F)) 𝒱 (P Vc) v₀ 3 := by
  intro d c i O W hO _ _
  simp only [show (P (F := F) Vc).ox = fun _ _ => 0 from rfl, add_zero]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (Cert.Proof.GatherBody6B.tile_body (F := F) d (coordsV ⟨_, hci.1⟩ ⟨_, hci.2⟩) facts (sh _) _ _ _ (hidx d) O W hO).trans (wp_mono frame _ _ fun _ => obl_post)

/-! ## Call 4 -/

theorem defs₀_vector4 (c : Fin τ.nSC) (s : Fin τ.nSub) :
    defs₀ (F := F) (.scVector c s) 8 ()
      = SparseCore.onTile hcore8 hsub8 (fun c s => cc8_gather_kernel (coordsV c s)
          (Memref.whole main_v61_scv) (Memref.isWhole_whole _) (Memref.whole main_v4_scv) (Memref.isWhole_whole _) (Memref.whole main_v62_scv) (Memref.isWhole_whole _)
          (Memref.whole cc8_scratch0) (Memref.isWhole_whole _) (Memref.whole cc8_scratch1) (Memref.isWhole_whole _) (Memref.whole cc8_scratch2) (Memref.isWhole_whole _)
          cc8_scratch3 cc8_scratch4 cc8_scratch5 cc8_scratch6 cc8_scoped0) ⟨⟩ c s := rfl

set_option maxRecDepth 16384 in
theorem tileObl4 (Vc : Fin 6 → Dev nD → Valuation τ sig (Elt F))
    (hidx : ∀ (d : Dev nD) (j : S320000.Idx), (Vc 4 d (Proc.devRef .tc main_v4) j).toNat < 10000) :
    (K (F := F)).TileObl (D (F := F)) 𝒱 (P Vc) v₀ 4 := by
  intro d c i O W hO _ _
  simp only [show (P (F := F) Vc).ox = fun _ _ => 0 from rfl, add_zero]
  have hci : ((K (F := F)).core 4 c).val < grid8.bound 0 ∧ ((K (F := F)).sub 4 i).val < grid8.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (Cert.Proof.GatherBody8B.tile_body (F := F) d (coordsV ⟨_, hci.1⟩ ⟨_, hci.2⟩) facts (sh _) _ _ _ (hidx d) O W hO).trans (wp_mono frame _ _ fun _ => obl_post)

/-! ## Call 5 -/

theorem defs₀_vector5 (c : Fin τ.nSC) (s : Fin τ.nSub) :
    defs₀ (F := F) (.scVector c s) 10 ()
      = SparseCore.onTile hcore10 hsub10 (fun c s => cc10_gather_kernel (coordsV c s)
          (Memref.whole main_v74_scv) (Memref.isWhole_whole _) (Memref.whole main_v4_scv) (Memref.isWhole_whole _) (Memref.whole main_v75_scv) (Memref.isWhole_whole _)
          (Memref.whole cc10_scratch0) (Memref.isWhole_whole _) (Memref.whole cc10_scratch1) (Memref.isWhole_whole _) (Memref.whole cc10_scratch2) (Memref.isWhole_whole _)
          cc10_scratch3 cc10_scratch4 cc10_scratch5 cc10_scratch6 cc10_scoped0) ⟨⟩ c s := rfl

set_option maxRecDepth 16384 in
theorem tileObl5 (Vc : Fin 6 → Dev nD → Valuation τ sig (Elt F))
    (hidx : ∀ (d : Dev nD) (j : S320000.Idx), (Vc 5 d (Proc.devRef .tc main_v4) j).toNat < 10000) :
    (K (F := F)).TileObl (D (F := F)) 𝒱 (P Vc) v₀ 5 := by
  intro d c i O W hO _ _
  simp only [show (P (F := F) Vc).ox = fun _ _ => 0 from rfl, add_zero]
  have hci : ((K (F := F)).core 5 c).val < grid10.bound 0 ∧ ((K (F := F)).sub 5 i).val < grid10.bound 1 := ⟨c.isLt, i.isLt⟩
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  rw [defs₀_vector5]; simp only [SparseCore.onTile, hci, and_self, ↓reduceDIte]
  exact (Cert.Proof.GatherBody10B.tile_body (F := F) d (coordsV ⟨_, hci.1⟩ ⟨_, hci.2⟩) facts (sh _) _ _ _ (hidx d) O W hO).trans (wp_mono frame _ _ fun _ => obl_post)

end Cert.Proof.GatherOblB

end
-- ==== Proof.RunB.lean ====
/-
  The kernel program's run: every weakly fair execution of all its threads terminates, and the TensorCore's arrays end at the last valuation.
-/
import proofs.«205547_g25623774888366_cont_9to1_713_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205547_g25623774888366_cont_9to1_713_27_alg».proof.Proof.Gen.Kernel
import proofs.«205547_g25623774888366_cont_9to1_713_27_alg».proof.Proof.Gen.Kernel.Launch
import proofs.«205547_g25623774888366_cont_9to1_713_27_alg».proof.Proof.LaunchBaseB
import proofs.«205547_g25623774888366_cont_9to1_713_27_alg».proof.Proof.PayB
import proofs.«205547_g25623774888366_cont_9to1_713_27_alg».proof.Proof.MainChainB
import proofs.«205547_g25623774888366_cont_9to1_713_27_alg».proof.Proof.StepsB
import proofs.«205547_g25623774888366_cont_9to1_713_27_alg».proof.Proof.Steps2B
import proofs.«205547_g25623774888366_cont_9to1_713_27_alg».proof.Proof.RegionB
import proofs.«205547_g25623774888366_cont_9to1_713_27_alg».proof.Proof.EndsB
import proofs.«205547_g25623774888366_cont_9to1_713_27_alg».proof.Proof.ValsB
import proofs.«205547_g25623774888366_cont_9to1_713_27_alg».proof.Proof.MainRunB
import proofs.«205547_g25623774888366_cont_9to1_713_27_alg».proof.Proof.KeepB
import proofs.«205547_g25623774888366_cont_9to1_713_27_alg».proof.Proof.GatherOblB

noncomputable section

namespace Cert.Proof.RunB

open Cert.Kernel Cert.Kernel.Gen Cert.Proof.LaunchBaseB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq after seq)
open Cert.Proof.PayB Cert.Proof.StepsB Cert.Proof.Steps2B Cert.Proof.RegionB Cert.Proof.EndsB Cert.Proof.ValsB Cert.Proof.MainRunB

variable {F : FTy → Type} [FloatOps F]

local notation "𝕄" => MT nD τ sig (HIx 6) (Elt F) ℕ UU ℕ

variable (m : (ℓ : Loc nD τ sig) → Buf (Elt F) ℓ) (ρ : Dev nD → PrngReg)

theorem kind_eq (q : Fin 6) : (K (F := F)).kind q = .scVector := by
  match q with
  | 0 => rfl | 1 => rfl | 2 => rfl | 3 => rfl | 4 => rfl | 5 => rfl

/-- What the run leaves: every unscoped array of the TensorCore at the last valuation. -/
def QC : PUnit × MemSt nD τ sig (Elt F) → Prop :=
  fun r => ∀ (c : Dev nD) (b : Ref sig .tc), b.isScoped = false → r.2.mem ((SparseCore.T c).loc b) = Vr5 m c (Proc.devRef .tc b)

theorem run_main' [∀ e, Nonempty (Elt F e)]
    (hidx : ∀ (q : Fin 6) (d : Dev nD) (j : S320000.Idx), (Vc m q d (Proc.devRef .tc main_v4) j).toNat < 10000)
    (htile : ∀ q, (K (F := F)).TileObl (D (F := F)) 𝒱 (P (Vc m)) v₀ q) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Vc m)) facts v₀
    (fun q hq => absurd ((kind_eq (F := F) q).symm.trans hq) (by decide))
    (fun q _ => htile q)
    (fun q _ => SparseCore.Cfg.VecSplit.of_plain (vecSplit (Vc m) q))
    m ρ main (fun d => Ghost (F := F) Finset.univ d) (fun d => (held (SparseCore.T d) SS (Vr5 m d) : sProp 𝕄)) (u₀ (F := F))
    (sep_elim_left.trans (hu₀ (Vc m))) (hmain m ρ hidx)
    (fun d s' => ∀ b : Ref sig .tc, b.isScoped = false → s'.mem.mem ((SparseCore.T d).loc b) = Vr5 m d (Proc.devRef .tc b))
    (hfin (Vr5 m)) (QC m) (fun _ h => h)

/-- The run from the range fact of the index input alone: the index array is a re-layout of it at every call, and each
    worker's task is the gather body's. -/
theorem run_main [∀ e, Nonempty (Elt F e)]
    (h2 : ∀ (d : Dev nD) (j : S10000x32.Idx), (m ((SparseCore.T d : Thread nD τ).loc main_arg2) j).toNat < 10000) :
    θ_run (Cert.Kernel.defs (F := F)) (Cert.Kernel.threads (F := F)) ⟨m, fun _ => 0, ρ⟩ (QC m) :=
  run_main' m ρ (fun q d j => Cert.Proof.KeepB.idx_range m d (h2 d) q j) (fun q => match q with
    | 0 => Cert.Proof.GatherOblB.tileObl0 (Vc m) (fun d j => Cert.Proof.KeepB.idx_range m d (h2 d) 0 j)
    | 1 => Cert.Proof.GatherOblB.tileObl1 (Vc m) (fun d j => Cert.Proof.KeepB.idx_range m d (h2 d) 1 j)
    | 2 => Cert.Proof.GatherOblB.tileObl2 (Vc m) (fun d j => Cert.Proof.KeepB.idx_range m d (h2 d) 2 j)
    | 3 => Cert.Proof.GatherOblB.tileObl3 (Vc m) (fun d j => Cert.Proof.KeepB.idx_range m d (h2 d) 3 j)
    | 4 => Cert.Proof.GatherOblB.tileObl4 (Vc m) (fun d j => Cert.Proof.KeepB.idx_range m d (h2 d) 4 j)
    | 5 => Cert.Proof.GatherOblB.tileObl5 (Vc m) (fun d j => Cert.Proof.KeepB.idx_range m d (h2 d) 5 j))

end Cert.Proof.RunB

end
-- ==== Proof.SpecLaws.lean ====
/-
  The real-number content of the claim. At the extended-real reading every float is an extended real and
  every operation is exact, so on FINITE inputs each intermediate of the two programs is (the coercion of) a
  real number. This module states, over abstract finite index types and real witnesses, each place where
  the two computations are written differently, and shows that both ways denote one real-valued function:
  the exact GELU (erf / erfc), the shifted softmax, the split contraction, the logistic, the layer norm
  (rsqrt / sqrt), the weighted neighbour sum and the gate update. Every lemma concludes an equation in the
  extended reals whose right side is the coercion of a real, so the lemmas chain.
-/
import Mathlib
import Idealize.ShloMosaic.PureOps.Ideal
import Idealize.ShloMosaic.PureOps.Ideal.Laws
import Idealize.ShloMosaic.Lib.ValueIdx

open Idealize.ShloMosaic
open scoped BigOperators

namespace Cert.Proof.Spec

/-! ### Coercions: each operation on coerced reals is the coerced real operation -/

/-- The coercion of a finite real sum is the sum of the coercions. -/
theorem coe_sum {ι : Type*} (s : Finset ι) (g : ι → ℝ) :
    ((∑ k ∈ s, g k : ℝ) : EReal) = ∑ k ∈ s, ((g k : ℝ) : EReal) := by
  classical
  induction s using Finset.induction_on with
  | empty => simp
  | insert a s ha ih => rw [Finset.sum_insert ha, Finset.sum_insert ha, EReal.coe_add, ih]

/-- The same from the other side, with a leading zero (a host sum starts from its initial value 0). -/
theorem zero_add_sum_coe {ι : Type*} (s : Finset ι) (g : ι → ℝ) :
    (0 : EReal) + ∑ k ∈ s, ((g k : ℝ) : EReal) = ((∑ k ∈ s, g k : ℝ) : EReal) := by
  rw [zero_add, coe_sum]

/-- The quotient of two reals, the divisor not zero. -/
theorem div_coe_coe (x : ℝ) {y : ℝ} (hy : y ≠ 0) :
    Ideal.div (x : EReal) (y : EReal) = ((x / y : ℝ) : EReal) := by
  rw [Ideal.div_coe hy, ← EReal.coe_mul, mul_one_div]

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem sqrt_coe_pos {r : ℝ} (h : 0 < r) : Ideal.sqrt (r : EReal) = ((Real.sqrt r : ℝ) : EReal) := by
  rw [Ideal.sqrt_coe, if_neg (not_lt.mpr h.le)]

/-! ### (1) The exact GELU -/

/-- The error function on the reals, by its integral. -/
noncomputable def erfR (r : ℝ) : ℝ := 2 / Real.sqrt Real.pi * ∫ t in (0 : ℝ)..r, Real.exp (-(t ^ 2))

theorem erf_coe' (r : ℝ) : Ideal.erf (r : EReal) = ((erfR r : ℝ) : EReal) := rfl

/-- c * h * (1 + erf (h * s)): the exact GELU when c = 1/2 and s = 1/sqrt 2 (both kept abstract). -/
noncomputable def geluR (c s h : ℝ) : ℝ := (c * h) * (1 + erfR (h * s))

/-- The form written with erf. -/
theorem gelu_erf (c s h : ℝ) :
    ((c : EReal) * (h : EReal)) * ((1 : EReal) + Ideal.erf ((h : EReal) * (s : EReal))) = ((geluR c s h : ℝ) : EReal) := by
  rw [← EReal.coe_mul h s, erf_coe', ← EReal.coe_mul c h, ← EReal.coe_one, ← EReal.coe_add, ← EReal.coe_mul]
  rfl

/-- The form written with erfc of the negated argument: the sign leaves the product, and erfc (-y) = 1 + erf y
    because erf is odd. -/
theorem gelu_erfc (c s h : ℝ) :
    ((c : EReal) * (h : EReal)) * Ideal.erfc ((-(h : EReal)) * (s : EReal)) = ((geluR c s h : ℝ) : EReal) := by
  rw [neg_mul, Ideal.erfc_neg, gelu_erf]

/-! ### (2) The softmax, with a shift -/

/-- The softmax of a finite real family. -/
noncomputable def softmaxR {ι : Type*} [Fintype ι] (x : ι → ℝ) (k : ι) : ℝ := Real.exp (x k) / ∑ j, Real.exp (x j)

theorem sum_exp_pos {ι : Type*} [Fintype ι] (x : ι → ℝ) (k : ι) : 0 < ∑ j, Real.exp (x j) :=
  Finset.sum_pos (fun j _ => Real.exp_pos _) ⟨k, Finset.mem_univ k⟩

theorem softmaxR_pos {ι : Type*} [Fintype ι] (x : ι → ℝ) (k : ι) : 0 < softmaxR x k :=
  div_pos (Real.exp_pos _) (sum_exp_pos x k)

theorem softmaxR_le_one {ι : Type*} [Fintype ι] (x : ι → ℝ) (k : ι) : softmaxR x k ≤ 1 :=
  (div_le_one (sum_exp_pos x k)).mpr
    (Finset.single_le_sum (f := fun j => Real.exp (x j)) (fun j _ => (Real.exp_pos _).le) (Finset.mem_univ k))

/-- Adding one constant to every entry does not change the softmax. -/
theorem softmaxR_add_const {ι : Type*} [Fintype ι] (x : ι → ℝ) (b : ℝ) :
    softmaxR (fun j => x j + b) = softmaxR x := by
  funext k
  unfold softmaxR
  simp only [Real.exp_add]
  rw [← Finset.sum_mul, mul_div_mul_right _ _ (Real.exp_ne_zero b)]

/-- The fold of max from bottom over a nonempty finite family of reals is a real. -/
theorem fold_max_bot_coe {ι : Type*} (s : Finset ι) (hs : s.Nonempty) (x : ι → ℝ) :
    ∃ m : ℝ, s.fold max (⊥ : EReal) (fun k => ((x k : ℝ) : EReal)) = ((m : ℝ) : EReal) := by
  classical
  induction s using Finset.induction_on with
  | empty => exact absurd hs Finset.not_nonempty_empty
  | insert a s ha ih =>
    rw [Finset.fold_insert ha]
    rcases s.eq_empty_or_nonempty with rfl | hne
    · exact ⟨x a, by rw [Finset.fold_empty]; exact max_eq_left bot_le⟩
    · obtain ⟨m, hm⟩ := ih hne
      exact ⟨max (x a) m, by rw [hm]; exact (EReal.coe_strictMono.monotone.map_max).symm⟩

/-- Softmax computed after subtracting ANY real m from every entry. -/
theorem softmax_shift {ι : Type*} [Fintype ι] (x : ι → ℝ) (m : ℝ) (k : ι) :
    Ideal.div (Ideal.exp ((x k : EReal) - (m : EReal))) (∑ j, Ideal.exp ((x j : EReal) - (m : EReal)))
      = ((softmaxR x k : ℝ) : EReal) := by
  simp only [← EReal.coe_sub, Ideal.exp_coe]
  have hpos : 0 < ∑ j, Real.exp (x j - m) := sum_exp_pos (fun j => x j - m) k
  rw [← coe_sum, div_coe_coe _ hpos.ne']
  congr 1
  unfold softmaxR
  simp only [Real.exp_sub]
  rw [← Finset.sum_div, div_div_div_cancel_right₀ (Real.exp_ne_zero m)]

/-- The first way: subtract the running maximum (the fold of max from bottom), exponentiate, divide by the sum. -/
theorem softmax_fold {ι : Type*} [Fintype ι] [Nonempty ι] (x : ι → ℝ) (k : ι) :
    Ideal.div (Ideal.exp ((x k : EReal) - Finset.univ.fold max (⊥ : EReal) (fun j => ((x j : ℝ) : EReal))))
        (∑ j, Ideal.exp ((x j : EReal) - Finset.univ.fold max (⊥ : EReal) (fun i => ((x i : ℝ) : EReal))))
      = ((softmaxR x k : ℝ) : EReal) := by
  obtain ⟨m, hm⟩ := fold_max_bot_coe Finset.univ Finset.univ_nonempty x
  rw [hm]
  exact softmax_shift x m k

/-- The second way: every entry carries one more summand b; the maximum is taken once more against bottom;
    the sum starts from 0. -/
theorem softmax_fold_add {ι : Type*} [Fintype ι] [Nonempty ι] (x : ι → ℝ) (b : ℝ) (k : ι) :
    Ideal.div
        (Ideal.exp (((x k : EReal) + (b : EReal))
          - max (⊥ : EReal) (Finset.univ.fold max (⊥ : EReal) (fun j => (x j : EReal) + (b : EReal)))))
        ((0 : EReal) + ∑ j, Ideal.exp (((x j : EReal) + (b : EReal))
          - max (⊥ : EReal) (Finset.univ.fold max (⊥ : EReal) (fun i => (x i : EReal) + (b : EReal)))))
      = ((softmaxR x k : ℝ) : EReal) := by
  obtain ⟨m, hm⟩ := fold_max_bot_coe Finset.univ Finset.univ_nonempty (fun j => x j + b)
  simp only [EReal.coe_add] at hm
  rw [hm, max_eq_right bot_le, zero_add]
  simp only [← EReal.coe_add]
  rw [softmax_shift (fun j => x j + b) m k, softmaxR_add_const]

/-! ### (3) The split contraction -/

/-- sum f*wf + sum a*wa + bias. -/
noncomputable def gateLinR {ι : Type*} [Fintype ι] (f a wf wa : ι → ℝ) (bias : ℝ) : ℝ :=
  (∑ k, f k * wf k) + (∑ k, a k * wa k) + bias

/-- Four partial products (the operand, then its vanishing remainder x - x, for each half), then the bias. -/
theorem gateLin_split {ι : Type*} [Fintype ι] (f a wf wa : ι → ℝ) (bias : ℝ) :
    (∑ k, (f k : EReal) * (wf k : EReal)) + (∑ k, ((f k : EReal) - (f k : EReal)) * (wf k : EReal))
        + (∑ k, (a k : EReal) * (wa k : EReal)) + (∑ k, ((a k : EReal) - (a k : EReal)) * (wa k : EReal)) + (bias : EReal)
      = ((gateLinR f a wf wa bias : ℝ) : EReal) := by
  simp only [← EReal.coe_sub, sub_self, EReal.coe_zero, zero_mul, Finset.sum_const_zero, add_zero, ← EReal.coe_mul]
  rw [← coe_sum, ← coe_sum, ← EReal.coe_add, ← EReal.coe_add]
  rfl

/-- One contraction over the concatenated index (the sum type, carried to a second index type by an equivalence),
    from 0, then the bias: the sum over the concatenated index splits into the two halves. -/
theorem gateLin_concat {ι ι₂ : Type*} [Fintype ι] [Fintype ι₂] (e : ι ⊕ ι ≃ ι₂) (f a : ι → ℝ) (W : ι₂ → ℝ) (bias : ℝ) :
    ((0 : EReal) + ∑ k : ι₂, ((Sum.elim f a (e.symm k) : ℝ) : EReal) * ((W k : ℝ) : EReal)) + (bias : EReal)
      = ((gateLinR f a (fun j => W (e (Sum.inl j))) (fun j => W (e (Sum.inr j))) bias : ℝ) : EReal) := by
  rw [zero_add]
  simp only [← EReal.coe_mul]
  rw [← coe_sum, ← EReal.coe_add]
  congr 1
  unfold gateLinR
  rw [← Equiv.sum_comp e (fun k => Sum.elim f a (e.symm k) * W k), Fintype.sum_sum_type]
  simp only [Equiv.symm_apply_apply, Sum.elim_inl, Sum.elim_inr]

/-! ### (4) The logistic -/

noncomputable def sigR (z : ℝ) : ℝ := (1 + Real.exp (-z))⁻¹

theorem logistic_eq_div (z : EReal) : Ideal.logistic z = Ideal.div 1 (1 + Ideal.exp (-z)) := rfl

theorem logistic_coe' (z : ℝ) : Ideal.logistic (z : EReal) = ((sigR z : ℝ) : EReal) :=
  Ideal.logistic_coe z

theorem div_one_add_exp_neg_coe (z : ℝ) :
    Ideal.div (1 : EReal) ((1 : EReal) + Ideal.exp (-(z : EReal))) = ((sigR z : ℝ) : EReal) :=
  logistic_coe' z

theorem sigR_pos (z : ℝ) : 0 < sigR z :=
  inv_pos.mpr (by have := Real.exp_pos (-z); linarith)

theorem sigR_lt_one (z : ℝ) : sigR z < 1 :=
  inv_lt_one_of_one_lt₀ (by have := Real.exp_pos (-z); linarith)

/-! ### (5) The layer norm -/

noncomputable def meanR {ι : Type*} [Fintype ι] (N : ℝ) (u : ι → ℝ) : ℝ := (∑ k, u k) / N

noncomputable def varR {ι : Type*} [Fintype ι] (N : ℝ) (u : ι → ℝ) : ℝ :=
  (∑ k, (u k - meanR N u) * (u k - meanR N u)) / N

noncomputable def lnR {ι : Type*} [Fintype ι] (N ε : ℝ) (u γ β : ι → ℝ) (k : ι) : ℝ :=
  (u k - meanR N u) * (Real.sqrt (varR N u + ε))⁻¹ * γ k + β k

theorem varR_nonneg {ι : Type*} [Fintype ι] {N : ℝ} (hN : 0 < N) (u : ι → ℝ) : 0 ≤ varR N u :=
  div_nonneg (Finset.sum_nonneg fun _ _ => mul_self_nonneg _) hN.le

theorem mean_coe {ι : Type*} [Fintype ι] {N : ℝ} (hN : 0 < N) (u : ι → ℝ) :
    Ideal.div (∑ j, (u j : EReal)) (N : EReal) = ((meanR N u : ℝ) : EReal) := by
  rw [← coe_sum, div_coe_coe _ hN.ne']
  rfl

theorem var_coe {ι : Type*} [Fintype ι] {N : ℝ} (hN : 0 < N) (u : ι → ℝ) :
    Ideal.div (∑ j, ((u j : EReal) - ((meanR N u : ℝ) : EReal)) * ((u j : EReal) - ((meanR N u : ℝ) : EReal))) (N : EReal)
      = ((varR N u : ℝ) : EReal) := by
  simp only [← EReal.coe_sub, ← EReal.coe_mul]
  rw [← coe_sum, div_coe_coe _ hN.ne']
  rfl

/-- Written with the reciprocal square root, the sums taken directly. -/
theorem ln_rsqrt {ι : Type*} [Fintype ι] {N ε : ℝ} (hN : 0 < N) (hε : 0 < ε) (u γ β : ι → ℝ) (k : ι) :
    ((u k : EReal) - Ideal.div (∑ j, (u j : EReal)) (N : EReal))
        * Ideal.rsqrt
            (Ideal.div (∑ j, ((u j : EReal) - Ideal.div (∑ i, (u i : EReal)) (N : EReal))
                * ((u j : EReal) - Ideal.div (∑ i, (u i : EReal)) (N : EReal))) (N : EReal) + (ε : EReal))
        * (γ k : EReal) + (β k : EReal)
      = ((lnR N ε u γ β k : ℝ) : EReal) := by
  have hpos : 0 < varR N u + ε := by have := varR_nonneg hN u; linarith
  rw [mean_coe hN, var_coe hN, ← EReal.coe_add, rsqrt_coe_pos hpos, ← EReal.coe_sub, ← EReal.coe_mul, ← EReal.coe_mul,
    ← EReal.coe_add]
  rfl

/-- Written as a quotient by the square root, each sum started from 0. -/
theorem ln_sqrt {ι : Type*} [Fintype ι] {N ε : ℝ} (hN : 0 < N) (hε : 0 < ε) (u γ β : ι → ℝ) (k : ι) :
    Ideal.div ((u k : EReal) - Ideal.div ((0 : EReal) + ∑ j, (u j : EReal)) (N : EReal))
          (Ideal.sqrt
            (Ideal.div ((0 : EReal) + ∑ j, ((u j : EReal) - Ideal.div ((0 : EReal) + ∑ i, (u i : EReal)) (N : EReal))
                * ((u j : EReal) - Ideal.div ((0 : EReal) + ∑ i, (u i : EReal)) (N : EReal))) (N : EReal) + (ε : EReal)))
        * (γ k : EReal) + (β k : EReal)
      = ((lnR N ε u γ β k : ℝ) : EReal) := by
  have hpos : 0 < varR N u + ε := by have := varR_nonneg hN u; linarith
  have hs : Real.sqrt (varR N u + ε) ≠ 0 := (Real.sqrt_pos.mpr hpos).ne'
  simp only [zero_add]
  rw [mean_coe hN, var_coe hN, ← EReal.coe_add, sqrt_coe_pos hpos, ← EReal.coe_sub, div_coe_coe _ hs, ← EReal.coe_mul,
    ← EReal.coe_add]
  congr 1

/-! ### (6) The weighted neighbour sum and the gate update -/

noncomputable def aggR {κ : Type*} [Fintype κ] (g w : κ → ℝ) : ℝ := ∑ k, g k * w k

/-- Product order g * w, summed directly. -/
theorem agg_gw {κ : Type*} [Fintype κ] (g w : κ → ℝ) :
    ∑ k, (g k : EReal) * (w k : EReal) = ((aggR g w : ℝ) : EReal) := by
  simp only [← EReal.coe_mul]
  rw [← coe_sum]
  rfl

/-- Product order w * g, summed from 0. -/
theorem agg_wg {κ : Type*} [Fintype κ] (g w : κ → ℝ) :
    (0 : EReal) + ∑ k, (w k : EReal) * (g k : EReal) = ((aggR g w : ℝ) : EReal) := by
  rw [zero_add]
  simp only [← EReal.coe_mul]
  rw [← coe_sum]
  congr 1
  exact Finset.sum_congr rfl fun k _ => mul_comm _ _

/-- A sum over Fin 32 written out as the left-nested chain t 0 + t 1 + ... + t 31. -/
theorem sum32_left {M : Type*} [AddCommMonoid M] (t : Fin 32 → M) :
    t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29 + t 30 + t 31
      = ∑ k, t k := by
  simp only [Fin.sum_univ_castSucc, Fin.sum_univ_zero, zero_add]
  rfl

noncomputable def updR (f σ agg : ℝ) : ℝ := f + σ * (agg - f)

theorem upd_coe (f σ agg : ℝ) :
    (f : EReal) + (σ : EReal) * ((agg : EReal) - (f : EReal)) = ((updR f σ agg : ℝ) : EReal) := by
  rw [← EReal.coe_sub, ← EReal.coe_mul, ← EReal.coe_add]
  rfl

/-! ### One layer, both ways, and the real function they denote -/

section Layer

variable {ι κ ι₂ : Type*} [Fintype ι] [Fintype κ] [Fintype ι₂]

/-- One row of one update step, on reals: weighted neighbour sum, gate, update, layer norm. -/
noncomputable def stepReal (N ε : ℝ) (f : ι → ℝ) (g : κ → ι → ℝ) (w : κ → ℝ) (Wf Wa : ι → ι → ℝ)
    (bg γ β : ι → ℝ) : ι → ℝ :=
  lnR N ε
    (fun d => updR (f d)
      (sigR (gateLinR f (fun j => aggR (fun k => g k j) w) (fun j => Wf j d) (fun j => Wa j d) (bg d)))
      (aggR (fun k => g k d) w))
    γ β

/-- The first way of writing the step, on extended reals: products g * w summed directly; the gate's
    argument as four partial contractions (each half and its remainder x - x); the logistic as one
    operation; the normalisation by the reciprocal square root. -/
noncomputable def stepK (N ε : EReal) (f : ι → EReal) (g : κ → ι → EReal) (w : κ → EReal) (Wf Wa : ι → ι → EReal)
    (bg γ β : ι → EReal) : ι → EReal :=
  let agg : ι → EReal := fun d => ∑ k, g k d * w k
  let z : ι → EReal := fun d =>
    (∑ j, f j * Wf j d) + (∑ j, (f j - f j) * Wf j d) + (∑ j, agg j * Wa j d) + (∑ j, (agg j - agg j) * Wa j d) + bg d
  let upd : ι → EReal := fun d => f d + Ideal.logistic (z d) * (agg d - f d)
  let mean : EReal := Ideal.div (∑ d, upd d) N
  let var : EReal := Ideal.div (∑ d, (upd d - mean) * (upd d - mean)) N
  fun d => (upd d - mean) * Ideal.rsqrt (var + ε) * γ d + β d

/-- The second way: products w * g summed from 0; one contraction over the concatenated index from 0;
    the logistic as 1 / (1 + exp (-z)); the normalisation as a quotient by the square root; every sum from 0. -/
noncomputable def stepH (e : ι ⊕ ι ≃ ι₂) (N ε : EReal) (f : ι → EReal) (g : κ → ι → EReal) (w : κ → EReal)
    (W : ι₂ → ι → EReal) (bg γ β : ι → EReal) : ι → EReal :=
  let agg : ι → EReal := fun d => 0 + ∑ k, w k * g k d
  let z : ι → EReal := fun d => (0 + ∑ k : ι₂, Sum.elim f agg (e.symm k) * W k d) + bg d
  let upd : ι → EReal := fun d => f d + Ideal.div 1 (1 + Ideal.exp (-(z d))) * (agg d - f d)
  let mean : EReal := Ideal.div (0 + ∑ d, upd d) N
  let var : EReal := Ideal.div (0 + ∑ d, (upd d - mean) * (upd d - mean)) N
  fun d => Ideal.div (upd d - mean) (Ideal.sqrt (var + ε)) * γ d + β d

theorem stepK_coe {N ε : ℝ} (hN : 0 < N) (hε : 0 < ε) (f : ι → ℝ) (g : κ → ι → ℝ) (w : κ → ℝ) (Wf Wa : ι → ι → ℝ)
    (bg γ β : ι → ℝ) :
    stepK (N : EReal) (ε : EReal) (fun d => (f d : EReal)) (fun k d => (g k d : EReal)) (fun k => (w k : EReal))
        (fun j d => (Wf j d : EReal)) (fun j d => (Wa j d : EReal)) (fun d => (bg d : EReal)) (fun d => (γ d : EReal))
        (fun d => (β d : EReal))
      = fun d => ((stepReal N ε f g w Wf Wa bg γ β d : ℝ) : EReal) := by
  funext d
  have hagg : ∀ j, (∑ k, (g k j : EReal) * (w k : EReal)) = ((aggR (fun k => g k j) w : ℝ) : EReal) :=
    fun j => agg_gw (fun k => g k j) w
  have hz : ∀ d',
      (∑ j, (f j : EReal) * (Wf j d' : EReal)) + (∑ j, ((f j : EReal) - (f j : EReal)) * (Wf j d' : EReal))
        + (∑ j, ((aggR (fun k => g k j) w : ℝ) : EReal) * (Wa j d' : EReal))
        + (∑ j, (((aggR (fun k => g k j) w : ℝ) : EReal) - ((aggR (fun k => g k j) w : ℝ) : EReal)) * (Wa j d' : EReal))
        + (bg d' : EReal)
      = ((gateLinR f (fun j => aggR (fun k => g k j) w) (fun j => Wf j d') (fun j => Wa j d') (bg d') : ℝ) : EReal) :=
    fun d' => gateLin_split f (fun j => aggR (fun k => g k j) w) (fun j => Wf j d') (fun j => Wa j d') (bg d')
  simp only [stepK, hagg, hz, logistic_coe', upd_coe]
  exact ln_rsqrt hN hε _ γ β d

/-- Coercion commutes with the case split on the concatenated index. -/
theorem elim_coe {α β : Type*} (f : α → ℝ) (a : β → ℝ) (s : α ⊕ β) :
    Sum.elim (fun d => ((f d : ℝ) : EReal)) (fun d => ((a d : ℝ) : EReal)) s = ((Sum.elim f a s : ℝ) : EReal) := by
  cases s <;> rfl

theorem stepH_coe (e : ι ⊕ ι ≃ ι₂) {N ε : ℝ} (hN : 0 < N) (hε : 0 < ε) (f : ι → ℝ) (g : κ → ι → ℝ) (w : κ → ℝ)
    (W : ι₂ → ι → ℝ) (bg γ β : ι → ℝ) :
    stepH e (N : EReal) (ε : EReal) (fun d => (f d : EReal)) (fun k d => (g k d : EReal)) (fun k => (w k : EReal))
        (fun k d => (W k d : EReal)) (fun d => (bg d : EReal)) (fun d => (γ d : EReal)) (fun d => (β d : EReal))
      = fun d => ((stepReal N ε f g w (fun j d => W (e (Sum.inl j)) d) (fun j d => W (e (Sum.inr j)) d) bg γ β d : ℝ) : EReal) := by
  funext d
  have hagg : ∀ j, (0 : EReal) + (∑ k, (w k : EReal) * (g k j : EReal)) = ((aggR (fun k => g k j) w : ℝ) : EReal) :=
    fun j => agg_wg (fun k => g k j) w
  have hz : ∀ d',
      ((0 : EReal) + ∑ k : ι₂, ((Sum.elim f (fun j => aggR (fun k => g k j) w) (e.symm k) : ℝ) : EReal) * ((W k d' : ℝ) : EReal))
        + (bg d' : EReal)
      = ((gateLinR f (fun j => aggR (fun k => g k j) w) (fun j => W (e (Sum.inl j)) d') (fun j => W (e (Sum.inr j)) d')
            (bg d') : ℝ) : EReal) :=
    fun d' => gateLin_concat e f (fun j => aggR (fun k => g k j) w) (fun k => W k d') (bg d')
  simp only [stepH, hagg, elim_coe, hz, div_one_add_exp_neg_coe, upd_coe]
  exact ln_sqrt hN hε _ γ β d

/-- The two ways of writing one step agree on real inputs, and the common value is real. -/
theorem stepK_eq_stepH (e : ι ⊕ ι ≃ ι₂) {N ε : ℝ} (hN : 0 < N) (hε : 0 < ε) (f : ι → ℝ) (g : κ → ι → ℝ) (w : κ → ℝ)
    (W : ι₂ → ι → ℝ) (bg γ β : ι → ℝ) :
    stepK (N : EReal) (ε : EReal) (fun d => (f d : EReal)) (fun k d => (g k d : EReal)) (fun k => (w k : EReal))
        (fun j d => (W (e (Sum.inl j)) d : EReal)) (fun j d => (W (e (Sum.inr j)) d : EReal)) (fun d => (bg d : EReal))
        (fun d => (γ d : EReal)) (fun d => (β d : EReal))
      = stepH e (N : EReal) (ε : EReal) (fun d => (f d : EReal)) (fun k d => (g k d : EReal)) (fun k => (w k : EReal))
        (fun k d => (W k d : EReal)) (fun d => (bg d : EReal)) (fun d => (γ d : EReal)) (fun d => (β d : EReal)) := by
  rw [stepK_coe hN hε, stepH_coe e hN hε]

end Layer

/-! ### The edge weights, both ways -/

section Edge

variable {κ η : Type*} [Fintype κ] [Fintype η]

/-- The affine map of the relative position, on reals. -/
noncomputable def hidR (nb : κ → Fin 3 → ℝ) (ce : Fin 3 → ℝ) (W1 : Fin 3 → η → ℝ) (b1 : η → ℝ) (k : κ) (j : η) : ℝ :=
  (nb k 0 - ce 0) * W1 0 j + (nb k 1 - ce 1) * W1 1 j + (nb k 2 - ce 2) * W1 2 j + b1 j

/-- The logit of one neighbour, on reals (without the second bias). -/
noncomputable def logitR (c s : ℝ) (nb : κ → Fin 3 → ℝ) (ce : Fin 3 → ℝ) (W1 : Fin 3 → η → ℝ) (b1 W2 : η → ℝ) (k : κ) : ℝ :=
  ∑ j, geluR c s (hidR nb ce W1 b1 k j) * W2 j

/-- The edge weights of one row on reals: a three-term affine map of the relative position, the exact GELU,
    a contraction with the second weight, and the softmax over the neighbours. -/
noncomputable def edgeReal (c s : ℝ) (nb : κ → Fin 3 → ℝ) (ce : Fin 3 → ℝ) (W1 : Fin 3 → η → ℝ) (b1 W2 : η → ℝ) : κ → ℝ :=
  softmaxR (logitR c s nb ce W1 b1 W2)

/-- The first way: three products added in order, GELU by erf, the contraction summed directly, the
    maximum folded from bottom. -/
noncomputable def edgeK (c s : EReal) (nb : κ → Fin 3 → EReal) (ce : Fin 3 → EReal) (W1 : Fin 3 → η → EReal)
    (b1 W2 : η → EReal) : κ → EReal :=
  let h : κ → η → EReal := fun k j =>
    (nb k 0 - ce 0) * W1 0 j + (nb k 1 - ce 1) * W1 1 j + (nb k 2 - ce 2) * W1 2 j + b1 j
  let x : κ → EReal := fun k => ∑ j, ((c * h k j) * (1 + Ideal.erf (h k j * s))) * W2 j
  let M : EReal := Finset.univ.fold max ⊥ x
  fun k => Ideal.div (Ideal.exp (x k - M)) (∑ k', Ideal.exp (x k' - M))

/-- The second way: the affine map as a contraction from 0, GELU by erfc of the negated argument, a bias b2
    on every logit, the maximum taken once more against bottom, the sums from 0. -/
noncomputable def edgeH (c s : EReal) (nb : κ → Fin 3 → EReal) (ce : Fin 3 → EReal) (W1 : Fin 3 → η → EReal)
    (b1 W2 : η → EReal) (b2 : EReal) : κ → EReal :=
  let h : κ → η → EReal := fun k j => (0 + ∑ a : Fin 3, (nb k a - ce a) * W1 a j) + b1 j
  let x : κ → EReal := fun k => (0 + ∑ j, ((c * h k j) * Ideal.erfc ((-(h k j)) * s)) * W2 j) + b2
  let M : EReal := max ⊥ (Finset.univ.fold max ⊥ x)
  fun k => Ideal.div (Ideal.exp (x k - M)) (0 + ∑ k', Ideal.exp (x k' - M))

theorem hid_coe (nb : κ → Fin 3 → ℝ) (ce : Fin 3 → ℝ) (W1 : Fin 3 → η → ℝ) (b1 : η → ℝ) (k : κ) (j : η) :
    ((nb k 0 : EReal) - (ce 0 : EReal)) * (W1 0 j : EReal) + ((nb k 1 : EReal) - (ce 1 : EReal)) * (W1 1 j : EReal)
        + ((nb k 2 : EReal) - (ce 2 : EReal)) * (W1 2 j : EReal) + (b1 j : EReal)
      = ((hidR nb ce W1 b1 k j : ℝ) : EReal) := by
  simp only [← EReal.coe_sub, ← EReal.coe_mul, ← EReal.coe_add]
  rfl

theorem logit_coe (c s : ℝ) (nb : κ → Fin 3 → ℝ) (ce : Fin 3 → ℝ) (W1 : Fin 3 → η → ℝ) (b1 W2 : η → ℝ) (k : κ) :
    (∑ j, ((geluR c s (hidR nb ce W1 b1 k j) : ℝ) : EReal) * ((W2 j : ℝ) : EReal))
      = ((logitR c s nb ce W1 b1 W2 k : ℝ) : EReal) := by
  simp only [← EReal.coe_mul]
  rw [← coe_sum]
  rfl

theorem edgeK_coe [Nonempty κ] (c s : ℝ) (nb : κ → Fin 3 → ℝ) (ce : Fin 3 → ℝ) (W1 : Fin 3 → η → ℝ) (b1 W2 : η → ℝ) :
    edgeK (c : EReal) (s : EReal) (fun k a => (nb k a : EReal)) (fun a => (ce a : EReal)) (fun a j => (W1 a j : EReal))
        (fun j => (b1 j : EReal)) (fun j => (W2 j : EReal))
      = fun k => ((edgeReal c s nb ce W1 b1 W2 k : ℝ) : EReal) := by
  funext k
  simp only [edgeK, hid_coe, gelu_erf, logit_coe]
  exact softmax_fold (logitR c s nb ce W1 b1 W2) k

theorem edgeH_coe [Nonempty κ] (c s : ℝ) (nb : κ → Fin 3 → ℝ) (ce : Fin 3 → ℝ) (W1 : Fin 3 → η → ℝ) (b1 W2 : η → ℝ)
    (b2 : ℝ) :
    edgeH (c : EReal) (s : EReal) (fun k a => (nb k a : EReal)) (fun a => (ce a : EReal)) (fun a j => (W1 a j : EReal))
        (fun j => (b1 j : EReal)) (fun j => (W2 j : EReal)) (b2 : EReal)
      = fun k => ((edgeReal c s nb ce W1 b1 W2 k : ℝ) : EReal) := by
  funext k
  simp only [edgeH, Fin.sum_univ_three, zero_add]
  simp only [hid_coe, gelu_erfc, logit_coe]
  have h := softmax_fold_add (logitR c s nb ce W1 b1 W2) b2 k
  rw [zero_add] at h
  exact h

theorem edgeReal_pos (c s : ℝ) (nb : κ → Fin 3 → ℝ) (ce : Fin 3 → ℝ) (W1 : Fin 3 → η → ℝ) (b1 W2 : η → ℝ) (k : κ) :
    0 < edgeReal c s nb ce W1 b1 W2 k := softmaxR_pos _ k

theorem edgeReal_le_one (c s : ℝ) (nb : κ → Fin 3 → ℝ) (ce : Fin 3 → ℝ) (W1 : Fin 3 → η → ℝ) (b1 W2 : η → ℝ) (k : κ) :
    edgeReal c s nb ce W1 b1 W2 k ≤ 1 := softmaxR_le_one _ k

end Edge

end Cert.Proof.Spec
-- ==== Proof.RefRead.lean ====
import proofs.«205547_g25623774888366_cont_9to1_713_27_alg».proof.Proof.Gen.ReferenceIdeal.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.Lib.DynamicIndex
import Idealize.ShloMosaic.Lib.Affine
import Idealize.ShloMosaic.Lib.StackMember
import proofs.«205547_g25623774888366_cont_9to1_713_27_alg».proof.Proof.SpecLaws

noncomputable section

open Cert.ReferenceIdeal Cert.ReferenceIdeal.Gen Cert.ReferenceIdeal.Value Idealize.ShloMosaic Idealize.ShloMosaic.ValueIdx Idealize.ShloMosaic.TcCoe Idealize.SL.Sem Idealize.ShloMosaic.StableHlo
open scoped BigOperators

namespace Cert.Proof.RefRead

/-! The reference's value read index by index: the edge weights of one row and one update layer, as the
    host-form functions of the specification module. -/

abbrev Cf (s : Shape) := FVec Ideal s .f32
abbrev Ci (s : Shape) := IVec s 32
abbrev Val := Valuation τ sig (Elt Ideal)

/-- The neighbour index with a negative value wrapped (the reference's spelling of `x[idx]`). -/
def selT (I : Ci S10000x32) : Ci S10000x32 :=
  select (cmpi .slt I (broadcastInDim S10000x32 ![] bcast_S_S10000x32 (constantI S_ 32 0#32))) (addi I (broadcastInDim S10000x32 ![] bcast_S_S10000x32 (constantI S_ 32 10000#32))) I

/-- The weighted neighbour sum of a feature array. -/
def aggT (w : Cf S10000x32) (I : Ci S10000x32) (x : Cf S10000x128) : Cf S10000x128 :=
  Host.reduceAdd (mulf (broadcastInDim S10000x32x128 ![0, 1, 2] bcast_S10000x32x1_S10000x32x128_0_1_2 (broadcastInDim S10000x32x1 ![0, 1] bcast_S10000x32_S10000x32x1_0_1 w)) (Host.gather gather_S10000x128_S10000x32x1_S10000x32x128_2_0_n_n_0_2_1128 x (broadcastInDim S10000x32x1 ![0, 1] bcast_S10000x32_S10000x32x1_0_1 (selT I)))) (constant S_ .f32 0x00000000#32) reducesTo_S10000x32x128_S10000x128_d1 h_S_

/-- The gated update of a feature array by its neighbour sum. -/
def updT (x a : Cf S10000x128) (Wm : Cf S256x128) (bv : Cf S128) : Cf S10000x128 :=
  addf x (mulf (Host.divf (broadcastInDim S10000x128 ![] bcast_S_S10000x128 (constant S_ .f32 0x3F800000#32)) (addf (broadcastInDim S10000x128 ![] bcast_S_S10000x128 (constant S_ .f32 0x3F800000#32)) (Host.exp (Host.negf (addf (Host.dotGeneral dot_S10000x256_S256x128_S10000x128_1_0_0_1_n_n none (concatenate S10000x256 1 [⟨S10000x128, x⟩, ⟨S10000x128, a⟩] concatenates_S10000x128_S10000x128_S10000x256_d1) Wm) (broadcastInDim S10000x128 ![0, 1] bcast_S1x128_S10000x128_0_1 (broadcastInDim S1x128 ![1] bcast_S128_S1x128_1 bv))))))) (subf a x))

/-- The row means. -/
def meanT (u : Cf S10000x128) : Cf S10000x1 :=
  Host.divf (broadcastInDim S10000x1 ![0] bcast_S10000_S10000x1_0 (Host.reduceAdd u (constant S_ .f32 0x00000000#32) reducesTo_S10000x128_S10000_d1 h_S_)) (broadcastInDim S10000x1 ![] bcast_S_S10000x1 (constant S_ .f32 0x43000000#32))

/-- The rows centred. -/
def cenT (u : Cf S10000x128) : Cf S10000x128 := subf u (broadcastInDim S10000x128 ![0, 1] bcast_S10000x1_S10000x128_0_1 (meanT u))

/-- The layer norm of the rows. -/
def lnT (u : Cf S10000x128) (gv be : Cf S128) : Cf S10000x128 :=
  addf (mulf (Host.divf (subf u (broadcastInDim S10000x128 ![0, 1] bcast_S10000x1_S10000x128_0_1 (meanT u))) (broadcastInDim S10000x128 ![0, 1] bcast_S10000x1_S10000x128_0_1 (Host.sqrt (addf (Host.divf (broadcastInDim S10000x1 ![0] bcast_S10000_S10000x1_0 (Host.reduceAdd (mulf (cenT u) (cenT u)) (constant S_ .f32 0x00000000#32) reducesTo_S10000x128_S10000_d1 h_S_)) (broadcastInDim S10000x1 ![] bcast_S_S10000x1 (constant S_ .f32 0x43000000#32))) (broadcastInDim S10000x1 ![] bcast_S_S10000x1 (constant S_ .f32 0x3727C5AC#32)))))) (broadcastInDim S10000x128 ![0, 1] bcast_S1x128_S10000x128_0_1 (broadcastInDim S1x128 ![1] bcast_S128_S1x128_1 gv))) (broadcastInDim S10000x128 ![0, 1] bcast_S1x128_S10000x128_0_1 (broadcastInDim S1x128 ![1] bcast_S128_S1x128_1 be))

/-- One update layer on whole arrays. -/
def layerT (w : Cf S10000x32) (I : Ci S10000x32) (x : Cf S10000x128) (Wm : Cf S256x128) (bv gv be : Cf S128) : Cf S10000x128 :=
  lnT (updT x (aggT w I x) Wm bv) gv be

/-- The result's composed term (the generated run names it only inside its statement). -/
def res321 (V0 : Val) : Cf S10000x128 :=
  addf (mulf (Host.divf (subf (res_main_v293 V0) (broadcastInDim S10000x128 ![0, 1] bcast_S10000x1_S10000x128_0_1 (res_main_v301 V0))) (broadcastInDim S10000x128 ![0, 1] bcast_S10000x1_S10000x128_0_1 (Host.sqrt (addf (Host.divf (broadcastInDim S10000x1 ![0] bcast_S10000_S10000x1_0 (Host.reduceAdd (mulf (res_main_v303 V0) (res_main_v303 V0)) (constant S_ .f32 0x00000000#32) reducesTo_S10000x128_S10000_d1 h_S_)) (broadcastInDim S10000x1 ![] bcast_S_S10000x1 (constant S_ .f32 0x43000000#32))) (broadcastInDim S10000x1 ![] bcast_S_S10000x1 (constant S_ .f32 0x3727C5AC#32)))))) (broadcastInDim S10000x128 ![0, 1] bcast_S1x128_S10000x128_0_1 (broadcastInDim S1x128 ![1] bcast_S128_S1x128_1 (shapeCast _ (extractStridedSlice S1x128 ![4, 0] (V0 (Proc.devRef .tc main_arg9)) slices_S5x128_S1x128_4_0) shapeCasts_S1x128_S128)))) (broadcastInDim S10000x128 ![0, 1] bcast_S1x128_S10000x128_0_1 (broadcastInDim S1x128 ![1] bcast_S128_S1x128_1 (shapeCast _ (extractStridedSlice S1x128 ![4, 0] (V0 (Proc.devRef .tc main_arg10)) slices_S5x128_S1x128_4_0) shapeCasts_S1x128_S128)))

set_option maxRecDepth 8192 in
theorem res93_eq (V0 : Val) : res_main_v93 V0 = layerT (res_main_v36 V0) (V0 (Proc.devRef .tc main_arg2)) (V0 (Proc.devRef .tc main_arg0)) (shapeCast S256x128 (extractStridedSlice S1x256x128 ![0, 0, 0] (V0 (Proc.devRef .tc main_arg7)) slices_S5x256x128_S1x256x128_0_0_0) shapeCasts_S1x256x128_S256x128) (shapeCast S128 (extractStridedSlice S1x128 ![0, 0] (V0 (Proc.devRef .tc main_arg8)) slices_S5x128_S1x128_0_0) shapeCasts_S1x128_S128) (shapeCast S128 (extractStridedSlice S1x128 ![0, 0] (V0 (Proc.devRef .tc main_arg9)) slices_S5x128_S1x128_0_0) shapeCasts_S1x128_S128) (shapeCast S128 (extractStridedSlice S1x128 ![0, 0] (V0 (Proc.devRef .tc main_arg10)) slices_S5x128_S1x128_0_0) shapeCasts_S1x128_S128) := rfl
set_option maxRecDepth 8192 in
theorem res150_eq (V0 : Val) : res_main_v150 V0 = layerT (res_main_v36 V0) (V0 (Proc.devRef .tc main_arg2)) (res_main_v93 V0) (shapeCast S256x128 (extractStridedSlice S1x256x128 ![1, 0, 0] (V0 (Proc.devRef .tc main_arg7)) slices_S5x256x128_S1x256x128_1_0_0) shapeCasts_S1x256x128_S256x128) (shapeCast S128 (extractStridedSlice S1x128 ![1, 0] (V0 (Proc.devRef .tc main_arg8)) slices_S5x128_S1x128_1_0) shapeCasts_S1x128_S128) (shapeCast S128 (extractStridedSlice S1x128 ![1, 0] (V0 (Proc.devRef .tc main_arg9)) slices_S5x128_S1x128_1_0) shapeCasts_S1x128_S128) (shapeCast S128 (extractStridedSlice S1x128 ![1, 0] (V0 (Proc.devRef .tc main_arg10)) slices_S5x128_S1x128_1_0) shapeCasts_S1x128_S128) := rfl
set_option maxRecDepth 8192 in
theorem res207_eq (V0 : Val) : res_main_v207 V0 = layerT (res_main_v36 V0) (V0 (Proc.devRef .tc main_arg2)) (res_main_v150 V0) (shapeCast S256x128 (extractStridedSlice S1x256x128 ![2, 0, 0] (V0 (Proc.devRef .tc main_arg7)) slices_S5x256x128_S1x256x128_2_0_0) shapeCasts_S1x256x128_S256x128) (shapeCast S128 (extractStridedSlice S1x128 ![2, 0] (V0 (Proc.devRef .tc main_arg8)) slices_S5x128_S1x128_2_0) shapeCasts_S1x128_S128) (shapeCast S128 (extractStridedSlice S1x128 ![2, 0] (V0 (Proc.devRef .tc main_arg9)) slices_S5x128_S1x128_2_0) shapeCasts_S1x128_S128) (shapeCast S128 (extractStridedSlice S1x128 ![2, 0] (V0 (Proc.devRef .tc main_arg10)) slices_S5x128_S1x128_2_0) shapeCasts_S1x128_S128) := rfl
set_option maxRecDepth 8192 in
theorem res264_eq (V0 : Val) : res_main_v264 V0 = layerT (res_main_v36 V0) (V0 (Proc.devRef .tc main_arg2)) (res_main_v207 V0) (shapeCast S256x128 (extractStridedSlice S1x256x128 ![3, 0, 0] (V0 (Proc.devRef .tc main_arg7)) slices_S5x256x128_S1x256x128_3_0_0) shapeCasts_S1x256x128_S256x128) (shapeCast S128 (extractStridedSlice S1x128 ![3, 0] (V0 (Proc.devRef .tc main_arg8)) slices_S5x128_S1x128_3_0) shapeCasts_S1x128_S128) (shapeCast S128 (extractStridedSlice S1x128 ![3, 0] (V0 (Proc.devRef .tc main_arg9)) slices_S5x128_S1x128_3_0) shapeCasts_S1x128_S128) (shapeCast S128 (extractStridedSlice S1x128 ![3, 0] (V0 (Proc.devRef .tc main_arg10)) slices_S5x128_S1x128_3_0) shapeCasts_S1x128_S128) := rfl
set_option maxRecDepth 8192 in
theorem res321_eq (V0 : Val) : res321 V0 = layerT (res_main_v36 V0) (V0 (Proc.devRef .tc main_arg2)) (res_main_v264 V0) (shapeCast S256x128 (extractStridedSlice S1x256x128 ![4, 0, 0] (V0 (Proc.devRef .tc main_arg7)) slices_S5x256x128_S1x256x128_4_0_0) shapeCasts_S1x256x128_S256x128) (shapeCast S128 (extractStridedSlice S1x128 ![4, 0] (V0 (Proc.devRef .tc main_arg8)) slices_S5x128_S1x128_4_0) shapeCasts_S1x128_S128) (shapeCast S128 (extractStridedSlice S1x128 ![4, 0] (V0 (Proc.devRef .tc main_arg9)) slices_S5x128_S1x128_4_0) shapeCasts_S1x128_S128) (shapeCast S128 (extractStridedSlice S1x128 ![4, 0] (V0 (Proc.devRef .tc main_arg10)) slices_S5x128_S1x128_4_0) shapeCasts_S1x128_S128) := rfl

/-- The concatenation's index map: first the 128 own features, then the 128 aggregated ones. -/
def catE : Fin 128 ⊕ Fin 128 ≃ Fin 256 := finSumFinEquiv

theorem catE_inl_val (j : Fin 128) : (catE (Sum.inl j)).val = j.val := rfl
theorem catE_inr_val (j : Fin 128) : (catE (Sum.inr j)).val = 128 + j.val := rfl

/-- The neighbour of row `n` in position `k`, as a row number. -/
def nbr (I : Ci S10000x32) (hI : ∀ j, (I j).toNat < 10000) (n : Fin 10000) (k : Fin 32) : Fin 10000 :=
  ⟨(I (ix2 n k)).toNat, hI _⟩

/-! ### Indices of a one-axis reduction, by coordinates -/

theorem lift_mid {a b c : Nat} (h : Shape.Reduces ⟨3, ![a, b, c]⟩ [1] ⟨2, ![a, c]⟩) (n : Fin a) (d : Fin c) (k : Fin b) :
    h.lift (ix2 n d) k = ix3 n k d := by
  funext ax
  match ax with
  | ⟨0, _⟩ => exact Fin.ext rfl
  | ⟨1, _⟩ => exact Fin.ext rfl
  | ⟨2, _⟩ => exact Fin.ext rfl

theorem lift_last {a b : Nat} (h : Shape.Reduces ⟨2, ![a, b]⟩ [1] ⟨1, ![a]⟩) (n : Fin a) (k : Fin b) :
    h.lift (ix1 n) k = ix2 n k := by
  funext ax
  match ax with
  | ⟨0, _⟩ => exact Fin.ext rfl
  | ⟨1, _⟩ => exact Fin.ext rfl

/-! ### The row gather read at an index -/

theorem gather_rows_apply {α : Type} {N R C D w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (⟨[2], [0], [], [], [0], 2, ![1, D], wf⟩ : GatherDims _ _ _) x idx (ix3 r c e)
      = x (ix2 ⟨min (idx (ix3 r c (0 : Fin 1))).toInt.toNat (N - 1), by omega⟩ e) := by
  unfold Host.gather
  congr 1
  funext a
  refine Fin.ext ?_
  match a with
  | ⟨0, _⟩ =>
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    split
    · next ha =>
      refine congrArg₂ min (congrArg (fun z => (idx z).toInt.toNat) ?_) rfl
      funext b; refine Fin.ext ?_
      match b with
      | ⟨0, _⟩ => rfl
      | ⟨1, _⟩ => rfl
      | ⟨2, _⟩ => rfl
    · next ha => exact absurd (List.mem_singleton.mpr rfl) ha
  | ⟨1, _⟩ =>
    show GatherDims.start _ _ idx _ + GatherDims.batchCoord _ _ _ + GatherDims.offCoord _ _ _ = _
    rw [GatherDims.batchCoord_eq_zero _ _ _ List.not_mem_nil]
    have hs : GatherDims.start (⟨[2], [0], [], [], [0], 2, ![1, D], wf⟩ : GatherDims ⟨2, ![N, D]⟩ ⟨3, ![R, C, 1]⟩ ⟨3, ![R, C, D]⟩) (ix3 r c e) idx ⟨1, Nat.one_lt_two⟩ = 0 := by
      unfold GatherDims.start
      split
      · next ha => exact absurd (congrArg Fin.val (List.mem_singleton.mp ha)) (by simp)
      · rfl
    rw [hs]
    simp only [Nat.add_zero, Nat.zero_add]
    unfold GatherDims.offCoord
    split
    · next ha => rfl
    · next ha => exact absurd ((GatherDims.mem_sKept _ _).mpr ⟨fun h => absurd (congrArg Fin.val (List.mem_singleton.mp h)) (by simp), List.not_mem_nil⟩) ha

/-! ### The reference's broadcasts read at an index -/

section Bcast
variable {α : Type}

theorem bc_w1 (w : S10000x32.Idx → α) (n : Fin 10000) (k : Fin 32) (u : Fin 1) :
    broadcastInDim S10000x32x1 ![0, 1] bcast_S10000x32_S10000x32x1_0_1 w (ix3 n k u) = w (ix2 n k) :=
  broadcastInDim_apply _ _ _ _ _ fun a => match a with | ⟨0, _⟩ => rfl | ⟨1, _⟩ => rfl
theorem bc_w2 (y : S10000x32x1.Idx → α) (n : Fin 10000) (k : Fin 32) (d : Fin 128) :
    broadcastInDim S10000x32x128 ![0, 1, 2] bcast_S10000x32x1_S10000x32x128_0_1_2 y (ix3 n k d) = y (ix3 n k (0 : Fin 1)) :=
  broadcastInDim_apply _ _ _ _ _ fun a => match a with | ⟨0, _⟩ => rfl | ⟨1, _⟩ => rfl | ⟨2, _⟩ => rfl
theorem bc_v1 (v : S128.Idx → α) (u : Fin 1) (d : Fin 128) :
    broadcastInDim S1x128 ![1] bcast_S128_S1x128_1 v (ix2 u d) = v (ix1 d) :=
  broadcastInDim_apply _ _ _ _ _ fun a => match a with | ⟨0, _⟩ => rfl
theorem bc_v2 (y : S1x128.Idx → α) (n : Fin 10000) (d : Fin 128) :
    broadcastInDim S10000x128 ![0, 1] bcast_S1x128_S10000x128_0_1 y (ix2 n d) = y (ix2 (0 : Fin 1) d) :=
  broadcastInDim_apply _ _ _ _ _ fun a => match a with | ⟨0, _⟩ => rfl | ⟨1, _⟩ => rfl
theorem bc_m1 (m : S10000.Idx → α) (n : Fin 10000) (u : Fin 1) :
    broadcastInDim S10000x1 ![0] bcast_S10000_S10000x1_0 m (ix2 n u) = m (ix1 n) :=
  broadcastInDim_apply _ _ _ _ _ fun a => match a with | ⟨0, _⟩ => rfl
theorem bc_m2 (y : S10000x1.Idx → α) (n : Fin 10000) (d : Fin 128) :
    broadcastInDim S10000x128 ![0, 1] bcast_S10000x1_S10000x128_0_1 y (ix2 n d) = y (ix2 n (0 : Fin 1)) :=
  broadcastInDim_apply _ _ _ _ _ fun a => match a with | ⟨0, _⟩ => rfl | ⟨1, _⟩ => rfl
theorem bc_m2' (y : S10000x1.Idx → α) (n : Fin 10000) (k : Fin 32) :
    broadcastInDim S10000x32 ![0, 1] bcast_S10000x1_S10000x32_0_1 y (ix2 n k) = y (ix2 n (0 : Fin 1)) :=
  broadcastInDim_apply _ _ _ _ _ fun a => match a with | ⟨0, _⟩ => rfl | ⟨1, _⟩ => rfl
theorem bc_c1 (c : S10000x3.Idx → α) (n : Fin 10000) (u : Fin 1) (a : Fin 3) :
    broadcastInDim S10000x1x3 ![0, 2] bcast_S10000x3_S10000x1x3_0_2 c (ix3 n u a) = c (ix2 n a) :=
  broadcastInDim_apply _ _ _ _ _ fun b => match b with | ⟨0, _⟩ => rfl | ⟨1, _⟩ => rfl
theorem bc_c2 (y : S10000x1x3.Idx → α) (n : Fin 10000) (k : Fin 32) (a : Fin 3) :
    broadcastInDim S10000x32x3 ![0, 1, 2] bcast_S10000x1x3_S10000x32x3_0_1_2 y (ix3 n k a) = y (ix3 n (0 : Fin 1) a) :=
  broadcastInDim_apply _ _ _ _ _ fun b => match b with | ⟨0, _⟩ => rfl | ⟨1, _⟩ => rfl | ⟨2, _⟩ => rfl
theorem bc_b1 (b : S64.Idx → α) (u v : Fin 1) (j : Fin 64) :
    broadcastInDim S1x1x64 ![2] bcast_S64_S1x1x64_2 b (ix3 u v j) = b (ix1 j) :=
  broadcastInDim_apply _ _ _ _ _ fun a => match a with | ⟨0, _⟩ => rfl
theorem bc_b2 (y : S1x1x64.Idx → α) (n : Fin 10000) (k : Fin 32) (j : Fin 64) :
    broadcastInDim S10000x32x64 ![0, 1, 2] bcast_S1x1x64_S10000x32x64_0_1_2 y (ix3 n k j) = y (ix3 (0 : Fin 1) (0 : Fin 1) j) :=
  broadcastInDim_apply _ _ _ _ _ fun a => match a with | ⟨0, _⟩ => rfl | ⟨1, _⟩ => rfl | ⟨2, _⟩ => rfl
theorem bc_e1 (b : S1.Idx → α) (u v z : Fin 1) :
    broadcastInDim S1x1x1 ![2] bcast_S1_S1x1x1_2 b (ix3 u v z) = b (ix1 (0 : Fin 1)) :=
  broadcastInDim_apply _ _ _ _ _ fun a => match a with | ⟨0, _⟩ => rfl
theorem bc_e2 (y : S1x1x1.Idx → α) (n : Fin 10000) (k : Fin 32) (z : Fin 1) :
    broadcastInDim S10000x32x1 ![0, 1, 2] bcast_S1x1x1_S10000x32x1_0_1_2 y (ix3 n k z) = y (ix3 (0 : Fin 1) (0 : Fin 1) (0 : Fin 1)) :=
  broadcastInDim_apply _ _ _ _ _ fun a => match a with | ⟨0, _⟩ => rfl | ⟨1, _⟩ => rfl | ⟨2, _⟩ => rfl

end Bcast

/-! ### The reference's reductions, contraction and concatenation read at an index -/

theorem ofBits_negInf_f32 : Ideal.ofBits .f32 0xFF800000#32 = (⊥ : EReal) := by
  simp [Ideal.ofBits, Ideal.ieee]

theorem red_mid (y : Cf S10000x32x128) (n : Fin 10000) (d : Fin 128) :
    Host.reduceAdd y (constant S_ .f32 0x00000000#32) reducesTo_S10000x32x128_S10000x128_d1 h_S_ (ix2 n d)
      = 0 + ∑ k : Fin 32, y (ix3 n k d) := by
  have hR : Shape.Reduces S10000x32x128 [1] S10000x128 := by decide
  rw [hostReduceAdd_apply, Ideal.hostReduceAdd_single _ hR]
  exact congrArg₂ (· + ·) Ideal.ofBits_zero_f32 (Finset.sum_congr rfl fun k _ => congrArg y (lift_mid hR n d k))

theorem red_last128 (y : Cf S10000x128) (n : Fin 10000) :
    Host.reduceAdd y (constant S_ .f32 0x00000000#32) reducesTo_S10000x128_S10000_d1 h_S_ (ix1 n)
      = 0 + ∑ d : Fin 128, y (ix2 n d) := by
  have hR : Shape.Reduces S10000x128 [1] S10000 := by decide
  rw [hostReduceAdd_apply, Ideal.hostReduceAdd_single _ hR]
  exact congrArg₂ (· + ·) Ideal.ofBits_zero_f32 (Finset.sum_congr rfl fun k _ => congrArg y (lift_last hR n k))

theorem red_last32 (y : Cf S10000x32) (n : Fin 10000) :
    Host.reduceAdd y (constant S_ .f32 0x00000000#32) reducesTo_S10000x32_S10000_d1 h_S_ (ix1 n)
      = 0 + ∑ k : Fin 32, y (ix2 n k) := by
  have hR : Shape.Reduces S10000x32 [1] S10000 := by decide
  rw [hostReduceAdd_apply, Ideal.hostReduceAdd_single _ hR]
  exact congrArg₂ (· + ·) Ideal.ofBits_zero_f32 (Finset.sum_congr rfl fun k _ => congrArg y (lift_last hR n k))

theorem max_last32 (y : Cf S10000x32) (n : Fin 10000) :
    Host.reduce FloatOps.maximumf y (constant S_ .f32 0xFF800000#32) reducesTo_S10000x32_S10000_d1 h_S_ (ix1 n)
      = Finset.univ.fold max (⊥ : EReal) (fun k : Fin 32 => y (ix2 n k)) := by
  have hR : Shape.Reduces S10000x32 [1] S10000 := by decide
  rw [Host.reduce_eq_fold_single _ _ _ _ hR]
  have h0 : (constant (F := Ideal) S_ .f32 0xFF800000#32) (Shape.Idx.first h_S_) = (⊥ : EReal) := ofBits_negInf_f32
  rw [h0]
  have hf : (y ∘ hR.lift (ix1 n)) = fun k : Fin 32 => y (ix2 n k) := by
    funext k; exact congrArg y (lift_last hR n k)
  rw [hf]
  rfl

theorem dot_gate (A : Cf S10000x256) (B : Cf S256x128) (n : Fin 10000) (d : Fin 128) :
    Host.dotGeneral dot_S10000x256_S256x128_S10000x128_1_0_0_1_n_n none A B (ix2 n d)
      = ∑ c : Fin 256, A (ix2 n c) * B (ix2 c d) :=
  StackMember.dotGeneral_plain_apply (m := 10000) (n := 128) (k := 256) none A B n d

theorem cat_apply (x a : Cf S10000x128) (n : Fin 10000) (c : Fin 256) :
    concatenate S10000x256 1 [⟨S10000x128, x⟩, ⟨S10000x128, a⟩] concatenates_S10000x128_S10000x128_S10000x256_d1 (ix2 n c)
      = Sum.elim (fun j => x (ix2 n j)) (fun j => a (ix2 n j)) (catE.symm c) := by
  obtain ⟨s, rfl⟩ := catE.surjective c
  rw [Equiv.symm_apply_apply]
  cases s with
  | inl j =>
    exact concatenate_pair_apply_left (1 : Fin 2) x a _ (ix2 n (catE (Sum.inl j))) rfl (ix2 n j) (fun b => match b with | ⟨0, _⟩ => rfl | ⟨1, _⟩ => rfl)
  | inr j =>
    refine concatenate_pair_apply_right (1 : Fin 2) x a _ (ix2 n (catE (Sum.inr j))) rfl rfl (ix2 n j) (fun b hb => match b, hb with | ⟨0, _⟩, _ => rfl | ⟨1, _⟩, hb => (hb (Fin.ext rfl)).elim) ?_
    show j.val + 128 = 128 + j.val
    omega

/-! ### One layer read at an index -/

theorem selT_apply (I : Ci S10000x32) (hI : ∀ j, (I j).toNat < 10000) (j : S10000x32.Idx) : selT I j = I j := by
  have hb : broadcastInDim S10000x32 ![] bcast_S_S10000x32 (constantI S_ 32 0#32) j = 0#32 := by
    rw [broadcastInDim_scalar_apply]; rfl
  have hnn : 0 ≤ (I j).toInt := by
    have := hI j
    rw [BitVec.toInt_eq_toNat_cond]; split <;> omega
  have hc : IntOp.cmpi .slt (I j) (0#32) = 0#1 := by
    apply eq_zero_of_ne_one
    intro h1
    have := (IntOp.cmpi_slt).mp h1
    simp at this; omega
  show Scalar.select (IntOp.cmpi .slt (I j) (broadcastInDim S10000x32 ![] bcast_S_S10000x32 (constantI S_ 32 0#32) j)) _ (I j) = I j
  rw [hb, hc, select_zero]

theorem idx_clamp (I : Ci S10000x32) (hI : ∀ j, (I j).toNat < 10000) (n : Fin 10000) (k : Fin 32) :
    min ((broadcastInDim S10000x32x1 ![0, 1] bcast_S10000x32_S10000x32x1_0_1 (selT I)) (ix3 n k (0 : Fin 1))).toInt.toNat (10000 - 1)
      = (I (ix2 n k)).toNat := by
  rw [bc_w1, selT_apply I hI]
  have h := hI (ix2 n k)
  have e : (I (ix2 n k)).toInt = ((I (ix2 n k)).toNat : Int) := by
    rw [BitVec.toInt_eq_toNat_cond]; split <;> omega
  rw [e, Int.toNat_natCast]
  omega

theorem gather128_apply (x : Cf S10000x128) (I : Ci S10000x32) (hI : ∀ j, (I j).toNat < 10000) (n : Fin 10000) (k : Fin 32) (d : Fin 128) :
    Host.gather gather_S10000x128_S10000x32x1_S10000x32x128_2_0_n_n_0_2_1128 x
        (broadcastInDim S10000x32x1 ![0, 1] bcast_S10000x32_S10000x32x1_0_1 (selT I)) (ix3 n k d)
      = x (ix2 (nbr I hI n k) d) := by
  refine (gather_rows_apply (N := 10000) (R := 10000) (C := 32) (D := 128) (by decide)
    gather_S10000x128_S10000x32x1_S10000x32x128_2_0_n_n_0_2_1128_wf x _ n k d).trans ?_
  exact congrArg (fun m => x (ix2 m d)) (Fin.ext (idx_clamp I hI n k))

theorem aggT_apply (w : Cf S10000x32) (I : Ci S10000x32) (hI : ∀ j, (I j).toNat < 10000) (x : Cf S10000x128) (n : Fin 10000) (d : Fin 128) :
    aggT w I x (ix2 n d) = 0 + ∑ k : Fin 32, w (ix2 n k) * x (ix2 (nbr I hI n k) d) := by
  unfold aggT
  rw [red_mid]
  refine congrArg (fun z => 0 + z) (Finset.sum_congr rfl fun k _ => ?_)
  rw [mulf_apply, bc_w2, bc_w1, gather128_apply x I hI]

theorem updT_apply (x a : Cf S10000x128) (Wm : Cf S256x128) (bv : Cf S128) (n : Fin 10000) (d : Fin 128) :
    updT x a Wm bv (ix2 n d)
      = x (ix2 n d) + Ideal.div 1 (1 + Ideal.exp (-((0 + ∑ c : Fin 256,
          Sum.elim (fun j => x (ix2 n j)) (fun j => a (ix2 n j)) (catE.symm c) * Wm (ix2 c d)) + bv (ix1 d))))
            * (a (ix2 n d) - x (ix2 n d)) := by
  unfold updT
  show x (ix2 n d) + Ideal.div (broadcastInDim S10000x128 ![] bcast_S_S10000x128 (constant (F := Ideal) S_ .f32 0x3F800000#32) (ix2 n d))
      (broadcastInDim S10000x128 ![] bcast_S_S10000x128 (constant (F := Ideal) S_ .f32 0x3F800000#32) (ix2 n d)
        + Ideal.exp (-(Host.dotGeneral dot_S10000x256_S256x128_S10000x128_1_0_0_1_n_n none
            (concatenate S10000x256 1 [⟨S10000x128, x⟩, ⟨S10000x128, a⟩] concatenates_S10000x128_S10000x128_S10000x256_d1) Wm (ix2 n d)
          + broadcastInDim S10000x128 ![0, 1] bcast_S1x128_S10000x128_0_1 (broadcastInDim S1x128 ![1] bcast_S128_S1x128_1 bv) (ix2 n d))))
      * (a (ix2 n d) - x (ix2 n d)) = _
  rw [broadcastInDim_scalar_apply, constant_apply, Ideal.ofBits_one_f32, dot_gate, bc_v2, bc_v1, zero_add]
  simp only [cat_apply]

theorem meanT_apply (u : Cf S10000x128) (n : Fin 10000) (z : Fin 1) :
    meanT u (ix2 n z) = Ideal.div (0 + ∑ d : Fin 128, u (ix2 n d)) (Ideal.ofBits .f32 0x43000000#32) := by
  unfold meanT
  show Ideal.div (broadcastInDim S10000x1 ![0] bcast_S10000_S10000x1_0 (Host.reduceAdd u (constant S_ .f32 0x00000000#32) reducesTo_S10000x128_S10000_d1 h_S_) (ix2 n z))
      (broadcastInDim S10000x1 ![] bcast_S_S10000x1 (constant (F := Ideal) S_ .f32 0x43000000#32) (ix2 n z)) = _
  rw [bc_m1, red_last128, broadcastInDim_scalar_apply, constant_apply]

theorem cenT_apply (u : Cf S10000x128) (n : Fin 10000) (d : Fin 128) :
    cenT u (ix2 n d) = u (ix2 n d) - Ideal.div (0 + ∑ d' : Fin 128, u (ix2 n d')) (Ideal.ofBits .f32 0x43000000#32) := by
  unfold cenT
  show u (ix2 n d) - broadcastInDim S10000x128 ![0, 1] bcast_S10000x1_S10000x128_0_1 (meanT u) (ix2 n d) = _
  rw [bc_m2, meanT_apply]

theorem lnT_apply (u : Cf S10000x128) (gv be : Cf S128) (n : Fin 10000) (d : Fin 128) :
    lnT u gv be (ix2 n d)
      = Ideal.div (u (ix2 n d) - Ideal.div (0 + ∑ d' : Fin 128, u (ix2 n d')) (Ideal.ofBits .f32 0x43000000#32))
          (Ideal.sqrt (Ideal.div (0 + ∑ e : Fin 128,
              (u (ix2 n e) - Ideal.div (0 + ∑ d' : Fin 128, u (ix2 n d')) (Ideal.ofBits .f32 0x43000000#32))
                * (u (ix2 n e) - Ideal.div (0 + ∑ d' : Fin 128, u (ix2 n d')) (Ideal.ofBits .f32 0x43000000#32)))
              (Ideal.ofBits .f32 0x43000000#32) + Ideal.ofBits .f32 0x3727C5AC#32))
          * gv (ix1 d) + be (ix1 d) := by
  unfold lnT
  show Ideal.div (u (ix2 n d) - broadcastInDim S10000x128 ![0, 1] bcast_S10000x1_S10000x128_0_1 (meanT u) (ix2 n d))
        (broadcastInDim S10000x128 ![0, 1] bcast_S10000x1_S10000x128_0_1 (Host.sqrt (addf (Host.divf (broadcastInDim S10000x1 ![0] bcast_S10000_S10000x1_0 (Host.reduceAdd (mulf (cenT u) (cenT u)) (constant S_ .f32 0x00000000#32) reducesTo_S10000x128_S10000_d1 h_S_)) (broadcastInDim S10000x1 ![] bcast_S_S10000x1 (constant S_ .f32 0x43000000#32))) (broadcastInDim S10000x1 ![] bcast_S_S10000x1 (constant S_ .f32 0x3727C5AC#32)))) (ix2 n d))
      * broadcastInDim S10000x128 ![0, 1] bcast_S1x128_S10000x128_0_1 (broadcastInDim S1x128 ![1] bcast_S128_S1x128_1 gv) (ix2 n d)
      + broadcastInDim S10000x128 ![0, 1] bcast_S1x128_S10000x128_0_1 (broadcastInDim S1x128 ![1] bcast_S128_S1x128_1 be) (ix2 n d) = _
  rw [bc_m2, meanT_apply, bc_m2, bc_v2, bc_v1, bc_v2, bc_v1]
  show Ideal.div _ (Ideal.sqrt (Ideal.div (broadcastInDim S10000x1 ![0] bcast_S10000_S10000x1_0 (Host.reduceAdd (mulf (cenT u) (cenT u)) (constant S_ .f32 0x00000000#32) reducesTo_S10000x128_S10000_d1 h_S_) (ix2 n (0 : Fin 1)))
        (broadcastInDim S10000x1 ![] bcast_S_S10000x1 (constant (F := Ideal) S_ .f32 0x43000000#32) (ix2 n (0 : Fin 1)))
      + broadcastInDim S10000x1 ![] bcast_S_S10000x1 (constant (F := Ideal) S_ .f32 0x3727C5AC#32) (ix2 n (0 : Fin 1)))) * _ + _ = _
  rw [bc_m1, red_last128, broadcastInDim_scalar_apply, broadcastInDim_scalar_apply, constant_apply, constant_apply]
  simp only [mulf_apply, cenT_apply]

/-- ONE LAYER read at an index, over the layer's inputs as variables. -/
theorem layerT_apply (w : Cf S10000x32) (I : Ci S10000x32) (hI : ∀ j, (I j).toNat < 10000) (x : Cf S10000x128)
    (Wm : Cf S256x128) (bv gv be : Cf S128) (n : Fin 10000) (d : Fin 128) :
    layerT w I x Wm bv gv be (ix2 n d)
      = Spec.stepH catE (Ideal.ofBits .f32 0x43000000#32) (Ideal.ofBits .f32 0x3727C5AC#32)
          (fun d => x (ix2 n d)) (fun k d => x (ix2 (nbr I hI n k) d)) (fun k => w (ix2 n k))
          (fun j d => Wm (ix2 j d)) (fun d => bv (ix1 d)) (fun d => gv (ix1 d)) (fun d => be (ix1 d)) d := by
  unfold layerT Spec.stepH
  rw [lnT_apply]
  simp only [updT_apply, aggT_apply w I hI]

/-! ### The layers' parameters: a slice of the stacked argument, its leading unit axis dropped -/

theorem wslice_apply (A : Cf S5x256x128) (off : Fin 3 → Nat) (h : S5x256x128.Slices off S1x256x128) (t : Fin 5)
    (h0 : off 0 = t.val) (h1 : off 1 = 0) (h2 : off 2 = 0) (j : Fin 256) (d : Fin 128) :
    shapeCast S256x128 (extractStridedSlice S1x256x128 off A h) shapeCasts_S1x256x128_S256x128 (ix2 j d) = A (ix3 t j d) := by
  refine (shapeCast_1ab_ab_apply _ _ j d).trans ?_
  exact extractStridedSlice_apply off A h _ _ fun a => match a with
    | ⟨0, _⟩ => by show t.val = off 0 + 0; omega
    | ⟨1, _⟩ => by show j.val = off 1 + j.val; omega
    | ⟨2, _⟩ => by show d.val = off 2 + d.val; omega

theorem vslice_apply (A : Cf S5x128) (off : Fin 2 → Nat) (h : S5x128.Slices off S1x128) (t : Fin 5)
    (h0 : off 0 = t.val) (h1 : off 1 = 0) (d : Fin 128) :
    shapeCast S128 (extractStridedSlice S1x128 off A h) shapeCasts_S1x128_S128 (ix1 d) = A (ix2 t d) := by
  refine (shapeCast_1a_a_apply _ _ d).trans ?_
  exact extractStridedSlice_apply off A h _ _ fun a => match a with
    | ⟨0, _⟩ => by show t.val = off 0 + 0; omega
    | ⟨1, _⟩ => by show d.val = off 1 + d.val; omega

/-- One layer on rows: the specification's host-form step at every row, the neighbours' rows gathered through `idx`. -/
def layerS (I : Ci S10000x32) (hI : ∀ j, (I j).toNat < 10000) (w : Fin 10000 → Fin 32 → EReal)
    (W : Fin 256 → Fin 128 → EReal) (bg γ β : Fin 128 → EReal) (X : Fin 10000 → Fin 128 → EReal) :
    Fin 10000 → Fin 128 → EReal :=
  fun n => Spec.stepH catE (Ideal.ofBits .f32 0x43000000#32) (Ideal.ofBits .f32 0x3727C5AC#32)
    (X n) (fun k => X (nbr I hI n k)) (w n) W bg γ β

/-- Layer `t`'s parameters read off the stacked arguments. -/
def Wg (V0 : Val) (t : Fin 5) : Fin 256 → Fin 128 → EReal := fun j d => V0 (Proc.devRef .tc main_arg7) (ix3 t j d)
def bgv (V0 : Val) (t : Fin 5) : Fin 128 → EReal := fun d => V0 (Proc.devRef .tc main_arg8) (ix2 t d)
def gam (V0 : Val) (t : Fin 5) : Fin 128 → EReal := fun d => V0 (Proc.devRef .tc main_arg9) (ix2 t d)
def bet (V0 : Val) (t : Fin 5) : Fin 128 → EReal := fun d => V0 (Proc.devRef .tc main_arg10) (ix2 t d)

/-- Layer `t` of the reference on rows. -/
def layerV (V0 : Val) (hidx : ∀ j, (V0 (Proc.devRef .tc main_arg2) j).toNat < 10000) (t : Fin 5)
    (X : Fin 10000 → Fin 128 → EReal) : Fin 10000 → Fin 128 → EReal :=
  layerS (V0 (Proc.devRef .tc main_arg2)) hidx (fun n k => res_main_v36 V0 (ix2 n k)) (Wg V0 t) (bgv V0 t) (gam V0 t) (bet V0 t) X

theorem layer_inst (V0 : Val) (hidx : ∀ j, (V0 (Proc.devRef .tc main_arg2) j).toNat < 10000) (t : Fin 5) (x : Cf S10000x128)
    (o7 : Fin 3 → Nat) (h7 : S5x256x128.Slices o7 S1x256x128) (o8 : Fin 2 → Nat) (h8 : S5x128.Slices o8 S1x128)
    (e0 : o7 0 = t.val) (e1 : o7 1 = 0) (e2 : o7 2 = 0) (f0 : o8 0 = t.val) (f1 : o8 1 = 0) (n : Fin 10000) (d : Fin 128) :
    layerT (res_main_v36 V0) (V0 (Proc.devRef .tc main_arg2)) x
        (shapeCast S256x128 (extractStridedSlice S1x256x128 o7 (V0 (Proc.devRef .tc main_arg7)) h7) shapeCasts_S1x256x128_S256x128)
        (shapeCast S128 (extractStridedSlice S1x128 o8 (V0 (Proc.devRef .tc main_arg8)) h8) shapeCasts_S1x128_S128)
        (shapeCast S128 (extractStridedSlice S1x128 o8 (V0 (Proc.devRef .tc main_arg9)) h8) shapeCasts_S1x128_S128)
        (shapeCast S128 (extractStridedSlice S1x128 o8 (V0 (Proc.devRef .tc main_arg10)) h8) shapeCasts_S1x128_S128) (ix2 n d)
      = layerV V0 hidx t (fun n d => x (ix2 n d)) n d := by
  rw [layerT_apply _ _ hidx]
  unfold layerV layerS Wg bgv gam bet
  simp only [wslice_apply _ o7 h7 t e0 e1 e2, vslice_apply _ o8 h8 t f0 f1]

/-- (2) THE FIVE LAYERS read at an index, each over the previous one's array. -/
theorem res93_apply (V0 : Val) (hidx : ∀ j, (V0 (Proc.devRef .tc main_arg2) j).toNat < 10000) (n : Fin 10000) (d : Fin 128) :
    res_main_v93 V0 (ix2 n d) = layerV V0 hidx 0 (fun n d => V0 (Proc.devRef .tc main_arg0) (ix2 n d)) n d := by
  rw [res93_eq]; exact layer_inst V0 hidx 0 _ _ _ _ _ rfl rfl rfl rfl rfl n d
theorem res150_apply (V0 : Val) (hidx : ∀ j, (V0 (Proc.devRef .tc main_arg2) j).toNat < 10000) (n : Fin 10000) (d : Fin 128) :
    res_main_v150 V0 (ix2 n d) = layerV V0 hidx 1 (fun n d => res_main_v93 V0 (ix2 n d)) n d := by
  rw [res150_eq]; exact layer_inst V0 hidx 1 _ _ _ _ _ rfl rfl rfl rfl rfl n d
theorem res207_apply (V0 : Val) (hidx : ∀ j, (V0 (Proc.devRef .tc main_arg2) j).toNat < 10000) (n : Fin 10000) (d : Fin 128) :
    res_main_v207 V0 (ix2 n d) = layerV V0 hidx 2 (fun n d => res_main_v150 V0 (ix2 n d)) n d := by
  rw [res207_eq]; exact layer_inst V0 hidx 2 _ _ _ _ _ rfl rfl rfl rfl rfl n d
theorem res264_apply (V0 : Val) (hidx : ∀ j, (V0 (Proc.devRef .tc main_arg2) j).toNat < 10000) (n : Fin 10000) (d : Fin 128) :
    res_main_v264 V0 (ix2 n d) = layerV V0 hidx 3 (fun n d => res_main_v207 V0 (ix2 n d)) n d := by
  rw [res264_eq]; exact layer_inst V0 hidx 3 _ _ _ _ _ rfl rfl rfl rfl rfl n d
theorem res321_apply (V0 : Val) (hidx : ∀ j, (V0 (Proc.devRef .tc main_arg2) j).toNat < 10000) (n : Fin 10000) (d : Fin 128) :
    res321 V0 (ix2 n d) = layerV V0 hidx 4 (fun n d => res_main_v264 V0 (ix2 n d)) n d := by
  rw [res321_eq]; exact layer_inst V0 hidx 4 _ _ _ _ _ rfl rfl rfl rfl rfl n d

/-- (3) THE COMPOSITION: the result's term is five layers over the features. -/
theorem res321_comp (V0 : Val) (hidx : ∀ j, (V0 (Proc.devRef .tc main_arg2) j).toNat < 10000) (n : Fin 10000) (d : Fin 128) :
    res321 V0 (ix2 n d)
      = layerV V0 hidx 4 (layerV V0 hidx 3 (layerV V0 hidx 2 (layerV V0 hidx 1 (layerV V0 hidx 0
          (fun n d => V0 (Proc.devRef .tc main_arg0) (ix2 n d)))))) n d := by
  rw [res321_apply V0 hidx]
  have h1 : (fun n d => res_main_v93 V0 (ix2 n d)) = layerV V0 hidx 0 (fun n d => V0 (Proc.devRef .tc main_arg0) (ix2 n d)) := by
    funext n d; exact res93_apply V0 hidx n d
  have h2 : (fun n d => res_main_v150 V0 (ix2 n d)) = layerV V0 hidx 1 (fun n d => res_main_v93 V0 (ix2 n d)) := by
    funext n d; exact res150_apply V0 hidx n d
  have h3 : (fun n d => res_main_v207 V0 (ix2 n d)) = layerV V0 hidx 2 (fun n d => res_main_v150 V0 (ix2 n d)) := by
    funext n d; exact res207_apply V0 hidx n d
  have h4 : (fun n d => res_main_v264 V0 (ix2 n d)) = layerV V0 hidx 3 (fun n d => res_main_v207 V0 (ix2 n d)) := by
    funext n d; exact res264_apply V0 hidx n d
  rw [h4, h3, h2, h1]

/-- The generated run's statement is about this term. -/
theorem res321_def (V0 : Val) : res321 V0 = addf (mulf (Host.divf (subf (res_main_v293 V0) (broadcastInDim S10000x128 ![0, 1] bcast_S10000x1_S10000x128_0_1 (res_main_v301 V0))) (broadcastInDim S10000x128 ![0, 1] bcast_S10000x1_S10000x128_0_1 (Host.sqrt (addf (Host.divf (broadcastInDim S10000x1 ![0] bcast_S10000_S10000x1_0 (Host.reduceAdd (mulf (res_main_v303 V0) (res_main_v303 V0)) (constant S_ .f32 0x00000000#32) reducesTo_S10000x128_S10000_d1 h_S_)) (broadcastInDim S10000x1 ![] bcast_S_S10000x1 (constant S_ .f32 0x43000000#32))) (broadcastInDim S10000x1 ![] bcast_S_S10000x1 (constant S_ .f32 0x3727C5AC#32)))))) (broadcastInDim S10000x128 ![0, 1] bcast_S1x128_S10000x128_0_1 (broadcastInDim S1x128 ![1] bcast_S128_S1x128_1 (shapeCast _ (extractStridedSlice S1x128 ![4, 0] (V0 (Proc.devRef .tc main_arg9)) slices_S5x128_S1x128_4_0) shapeCasts_S1x128_S128)))) (broadcastInDim S10000x128 ![0, 1] bcast_S1x128_S10000x128_0_1 (broadcastInDim S1x128 ![1] bcast_S128_S1x128_1 (shapeCast _ (extractStridedSlice S1x128 ![4, 0] (V0 (Proc.devRef .tc main_arg10)) slices_S5x128_S1x128_4_0) shapeCasts_S1x128_S128))) := rfl

/-! ### The edge weights read at an index -/

theorem dotGeneral_rows_apply {G m n k : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx] <;> rfl
    | ⟨1, _⟩ => simp [DotDims.lhsIdx] <;> rfl
    | ⟨2, _⟩ => simp [DotDims.lhsIdx] <;> exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx] <;> exact c3
    | ⟨1, _⟩ => simp [DotDims.rhsIdx] <;> rfl
  rw [l3, r3]

theorem dot_e1 (A : Cf S10000x32x3) (B : Cf S3x64) (n : Fin 10000) (k : Fin 32) (j : Fin 64) :
    Host.dotGeneral dot_S10000x32x3_S3x64_S10000x32x64_2_0_01_1_n_n none A B (ix3 n k j)
      = ∑ a : Fin 3, A (ix3 n k a) * B (ix2 a j) :=
  dotGeneral_rows_apply dot_S10000x32x3_S3x64_S10000x32x64_2_0_01_1_n_n_wf none A B n k j

theorem dot_e2 (A : Cf S10000x32x64) (B : Cf S64x1) (n : Fin 10000) (k : Fin 32) (z : Fin 1) :
    Host.dotGeneral dot_S10000x32x64_S64x1_S10000x32x1_2_0_01_1_n_n none A B (ix3 n k z)
      = ∑ j : Fin 64, A (ix3 n k j) * B (ix2 j z) :=
  dotGeneral_rows_apply dot_S10000x32x64_S64x1_S10000x32x1_2_0_01_1_n_n_wf none A B n k z

theorem gather3_apply (x : Cf S10000x3) (I : Ci S10000x32) (hI : ∀ j, (I j).toNat < 10000) (n : Fin 10000) (k : Fin 32) (a : Fin 3) :
    Host.gather gather_S10000x3_S10000x32x1_S10000x32x3_2_0_n_n_0_2_13 x
        (broadcastInDim S10000x32x1 ![0, 1] bcast_S10000x32_S10000x32x1_0_1 (selT I)) (ix3 n k a)
      = x (ix2 (nbr I hI n k) a) := by
  refine (gather_rows_apply (N := 10000) (R := 10000) (C := 32) (D := 3) (by decide)
    gather_S10000x3_S10000x32x1_S10000x32x3_2_0_n_n_0_2_13_wf x _ n k a).trans ?_
  exact congrArg (fun m => x (ix2 m a)) (Fin.ext (idx_clamp I hI n k))

theorem cast_e (y : Cf S10000x32x1) (n : Fin 10000) (k : Fin 32) :
    shapeCast S10000x32 y shapeCasts_S10000x32x1_S10000x32 (ix2 n k) = y (ix3 n k (0 : Fin 1)) :=
  shapeCast_apply y _ _ _ (by
    rw [Shape.rowMajor_val_three, Shape.rowMajor_val_two]
    show (n.val * 32 + k.val) * 1 + 0 = n.val * 32 + k.val
    omega)

/-- The arguments at their array types. -/
abbrev aCoords (V0 : Val) : Cf S10000x3 := V0 (Proc.devRef .tc main_arg1)
abbrev aIdx (V0 : Val) : Ci S10000x32 := V0 (Proc.devRef .tc main_arg2)
abbrev aW1 (V0 : Val) : Cf S3x64 := V0 (Proc.devRef .tc main_arg3)
abbrev aB1 (V0 : Val) : Cf S64 := V0 (Proc.devRef .tc main_arg4)
abbrev aW2 (V0 : Val) : Cf S64x1 := V0 (Proc.devRef .tc main_arg5)
abbrev aB2 (V0 : Val) : Cf S1 := V0 (Proc.devRef .tc main_arg6)
abbrev r13 (V0 : Val) : Cf S10000x32x64 := res_main_v13 V0
abbrev r25 (V0 : Val) : Cf S10000x32 := res_main_v25 V0
abbrev r32 (V0 : Val) : Cf S10000x32 := res_main_v32 V0

theorem hostErfc_apply {s : Shape} (y : Cf s) (i : s.Idx) : Host.erfc y i = Ideal.erfc (y i) := rfl
theorem hostNegf_apply {s : Shape} (y : Cf s) (i : s.Idx) : Host.negf y i = -(y i) := rfl
theorem hostExp_apply {s : Shape} (y : Cf s) (i : s.Idx) : Host.exp y i = Ideal.exp (y i) := rfl

/-- The hidden layer of the edge network before the activation. -/
theorem v13_apply (V0 : Val) (hidx : ∀ j, (V0 (Proc.devRef .tc main_arg2) j).toNat < 10000) (n : Fin 10000) (k : Fin 32) (j : Fin 64) :
    r13 V0 (ix3 n k j)
      = (0 + ∑ a : Fin 3, (aCoords V0 (ix2 (nbr (aIdx V0) hidx n k) a) - aCoords V0 (ix2 n a)) * aW1 V0 (ix2 a j))
          + aB1 V0 (ix1 j) := by
  unfold r13 res_main_v13
  rw [addf_apply, dot_e1, bc_b2, bc_b1, zero_add]
  refine congrArg (fun z => z + _) (Finset.sum_congr rfl fun a _ => ?_)
  rw [subf_apply, bc_c2, bc_c1]
  exact congrArg (fun z => (z - _) * _) (gather3_apply (aCoords V0) (aIdx V0) hidx n k a)

/-- The logits. -/
theorem v25_apply (V0 : Val) (n : Fin 10000) (k : Fin 32) :
    r25 V0 (ix2 n k)
      = (0 + ∑ j : Fin 64, ((Ideal.ofBits .f32 0x3F000000#32 * r13 V0 (ix3 n k j))
            * Ideal.erfc ((-(r13 V0 (ix3 n k j))) * Ideal.ofBits .f32 0x3F3504F3#32)) * aW2 V0 (ix2 j (0 : Fin 1)))
          + aB2 V0 (ix1 (0 : Fin 1)) := by
  unfold r25 res_main_v25
  refine (cast_e _ n k).trans ?_
  rw [addf_apply, dot_e2, bc_e2, bc_e1, zero_add]
  refine congrArg (fun z => z + _) (Finset.sum_congr rfl fun j _ => ?_)
  rw [mulf_apply, mulf_apply, hostErfc_apply, mulf_apply, hostNegf_apply, broadcastInDim_scalar_apply,
    broadcastInDim_scalar_apply, constant_apply, constant_apply]

/-- The shifted exponentials. -/
theorem v32_apply (V0 : Val) (n : Fin 10000) (k : Fin 32) :
    r32 V0 (ix2 n k)
      = Ideal.exp (r25 V0 (ix2 n k) - max (⊥ : EReal) (Finset.univ.fold max (⊥ : EReal) (fun k' : Fin 32 => r25 V0 (ix2 n k')))) := by
  unfold r32 res_main_v32
  rw [hostExp_apply, subf_apply, bc_m2', bc_m1, maximumf_apply, broadcastInDim_scalar_apply, constant_apply,
    ofBits_negInf_f32, max_last32]

/-- The edge weights as the quotient. -/
theorem v36_apply (V0 : Val) (n : Fin 10000) (k : Fin 32) :
    res_main_v36 V0 (ix2 n k) = Ideal.div (r32 V0 (ix2 n k)) (0 + ∑ k' : Fin 32, r32 V0 (ix2 n k')) := by
  unfold res_main_v36
  rw [hostDivf_apply, bc_m2', bc_m1, red_last32]

/-- (1) THE EDGE WEIGHTS read at an index. -/
theorem edge_apply (V0 : Val) (hidx : ∀ j, (V0 (Proc.devRef .tc main_arg2) j).toNat < 10000) (n : Fin 10000) (k : Fin 32) :
    res_main_v36 V0 (ix2 n k)
      = Spec.edgeH (Ideal.ofBits .f32 0x3F000000#32) (Ideal.ofBits .f32 0x3F3504F3#32)
          (fun k a => V0 (Proc.devRef .tc main_arg1) (ix2 (nbr (V0 (Proc.devRef .tc main_arg2)) hidx n k) a))
          (fun a => V0 (Proc.devRef .tc main_arg1) (ix2 n a))
          (fun a j => V0 (Proc.devRef .tc main_arg3) (ix2 a j)) (fun j => V0 (Proc.devRef .tc main_arg4) (ix1 j))
          (fun j => V0 (Proc.devRef .tc main_arg5) (ix2 j (0 : Fin 1))) (V0 (Proc.devRef .tc main_arg6) (ix1 (0 : Fin 1))) k := by
  unfold Spec.edgeH
  rw [v36_apply]
  simp only [v32_apply, v25_apply, v13_apply V0 hidx]

end Cert.Proof.RefRead

end
-- ==== Proof.RefSide.lean ====
import proofs.«205547_g25623774888366_cont_9to1_713_27_alg».proof.Proof.RefRead

noncomputable section

open Cert.ReferenceIdeal Cert.ReferenceIdeal.Gen Cert.ReferenceIdeal.Value Idealize.ShloMosaic Idealize.ShloMosaic.ValueIdx Idealize.ShloMosaic.TcCoe Idealize.SL.Sem Idealize.ShloMosaic.StableHlo
open Cert.Proof.RefRead

namespace Cert.Proof.RefSide

/-- The reference's run: every fair execution ends with the result buffer at any array equal to the
    composed term of the launch contents, and the eleven arguments unchanged. -/
theorem ref_run (m' : (ℓ : Loc nD τ sig) → Buf (Elt Ideal) ℓ) (g' : Dev nD → PrngReg)
    (KOUT : (c : Dev nD) → Cf S10000x128) (hK : ∀ c, KOUT c = res321 (launchContents m' c)) :
    θ_run (Cert.ReferenceIdeal.defs (F := Ideal)) (onTc (τ := Cert.ReferenceIdeal.τ) (Cert.ReferenceIdeal.main (F := Ideal))) ⟨m', fun _ => 0, g'⟩ (fun r => ∀ c : Dev nD,
      r.2.mem ((c.tc : Thread nD τ).loc main_v321) = KOUT c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run _ _ _).mono (fun _ h c => ⟨((h c).1.trans (res321_def (launchContents m' c)).symm).trans (hK c).symm, (h c).2⟩)
    (Cert.ReferenceIdeal.Value.run (F := Ideal) m' g')

end Cert.Proof.RefSide

end
-- ==== Proof.Bridge.lean ====
import proofs.«205547_g25623774888366_cont_9to1_713_27_alg».proof.Proof.RefRead
import proofs.«205547_g25623774888366_cont_9to1_713_27_alg».proof.Proof.PreFacts

noncomputable section

open Cert.ReferenceIdeal Cert.ReferenceIdeal.Gen Cert.ReferenceIdeal.Value Idealize.ShloMosaic Idealize.ShloMosaic.ValueIdx Idealize.ShloMosaic.TcCoe Idealize.SL.Sem Idealize.ShloMosaic.StableHlo
open Cert.Proof.RefRead
open scoped BigOperators

namespace Cert.Proof.Bridge

/-! The kernel's value against the reference's: on real inputs both are the coercion of one real-valued
    recursion — the edge weights of every row, then five update layers. -/

/-! ### The four literal words as reals -/

theorem ofBits_128_f32 : Ideal.ofBits .f32 0x43000000#32 = ((128 : ℝ) : EReal) := by
  simp [Ideal.ofBits, Ideal.ieee, -EReal.coe_mul]; norm_num

theorem ofBits_half_f32 : Ideal.ofBits .f32 0x3F000000#32 = (((1 : ℝ) / 2 : ℝ) : EReal) := by
  simp [Ideal.ofBits, Ideal.ieee, -EReal.coe_mul]; norm_num

theorem ofBits_eps_f32 : Ideal.ofBits .f32 0x3727C5AC#32 = (((10995116 : ℝ) / 2 ^ 40 : ℝ) : EReal) := by
  simp [Ideal.ofBits, Ideal.ieee, -EReal.coe_mul]; norm_num

theorem ofBits_rsqrt2_f32 : Ideal.ofBits .f32 0x3F3504F3#32 = (((11863283 : ℝ) / 2 ^ 24 : ℝ) : EReal) := by
  simp [Ideal.ofBits, Ideal.ieee, -EReal.coe_mul]; norm_num

theorem n128_pos : (0 : ℝ) < 128 := by norm_num
theorem eps_pos : (0 : ℝ) < (10995116 : ℝ) / 2 ^ 40 := by norm_num

/-! ### The arguments, and that their float entries are reals -/

abbrev aX0 (V0 : Val) : Cf S10000x128 := V0 (Proc.devRef .tc main_arg0)
abbrev aWg (V0 : Val) : Cf S5x256x128 := V0 (Proc.devRef .tc main_arg7)
abbrev aBg (V0 : Val) : Cf S5x128 := V0 (Proc.devRef .tc main_arg8)
abbrev aGam (V0 : Val) : Cf S5x128 := V0 (Proc.devRef .tc main_arg9)
abbrev aBet (V0 : Val) : Cf S5x128 := V0 (Proc.devRef .tc main_arg10)

/-- Every entry of every float argument is a real. -/
structure ArgsReal (V0 : Val) : Prop where
  r0 : ∀ i, ∃ r : ℝ, aX0 V0 i = (r : EReal)
  r1 : ∀ i, ∃ r : ℝ, aCoords V0 i = (r : EReal)
  r3 : ∀ i, ∃ r : ℝ, aW1 V0 i = (r : EReal)
  r4 : ∀ i, ∃ r : ℝ, aB1 V0 i = (r : EReal)
  r5 : ∀ i, ∃ r : ℝ, aW2 V0 i = (r : EReal)
  r6 : ∀ i, ∃ r : ℝ, aB2 V0 i = (r : EReal)
  r7 : ∀ i, ∃ r : ℝ, aWg V0 i = (r : EReal)
  r8 : ∀ i, ∃ r : ℝ, aBg V0 i = (r : EReal)
  r9 : ∀ i, ∃ r : ℝ, aGam V0 i = (r : EReal)
  r10 : ∀ i, ∃ r : ℝ, aBet V0 i = (r : EReal)

/-- The precondition's reading gives both facts. -/
theorem argsReal_of_idealOK (V0 : Val)
    (hok : Cert.Proof.PreFacts.IdealOK (aX0 V0) (aCoords V0) (aIdx V0) (aW1 V0) (aB1 V0) (aW2 V0) (aB2 V0) (aWg V0) (aBg V0) (aGam V0) (aBet V0)) :
    ArgsReal V0 :=
  ⟨hok.r0, hok.r1, hok.r3, hok.r4, hok.r5, hok.r6, hok.r7, hok.r8, hok.r9, hok.r10⟩

theorem hidx_of_idealOK (V0 : Val)
    (hok : Cert.Proof.PreFacts.IdealOK (aX0 V0) (aCoords V0) (aIdx V0) (aW1 V0) (aB1 V0) (aW2 V0) (aB2 V0) (aWg V0) (aBg V0) (aGam V0) (aBet V0)) :
    ∀ j, (V0 (Proc.devRef .tc main_arg2) j).toNat < 10000 :=
  fun j => (hok.idx j).lt

/-- The kernel's edge weights, read at an index (no bias on the logits). -/
def KEdge (V0 : Val) (hidx : ∀ j, (V0 (Proc.devRef .tc main_arg2) j).toNat < 10000) (EW : Cf S10000x32) : Prop :=
  ∀ (n : Fin 10000) (k : Fin 32), EW (ix2 n k)
    = Spec.edgeK (Ideal.ofBits .f32 0x3F000000#32) (Ideal.ofBits .f32 0x3F3504F3#32)
        (fun k a => aCoords V0 (ix2 (nbr (aIdx V0) hidx n k) a)) (fun a => aCoords V0 (ix2 n a))
        (fun a j => aW1 V0 (ix2 a j)) (fun j => aB1 V0 (ix1 j)) (fun j => aW2 V0 (ix2 j (0 : Fin 1))) k

/-- The kernel's update step `t`, read at an index: the array after it from the array before it. -/
def KStep (V0 : Val) (hidx : ∀ j, (V0 (Proc.devRef .tc main_arg2) j).toNat < 10000) (t : Fin 5) (EW : Cf S10000x32)
    (X X' : Cf S10000x128) : Prop :=
  ∀ (n : Fin 10000) (d : Fin 128), X' (ix2 n d)
    = Spec.stepK (Ideal.ofBits .f32 0x43000000#32) (Ideal.ofBits .f32 0x3727C5AC#32)
        (fun d => X (ix2 n d)) (fun k d => X (ix2 (nbr (aIdx V0) hidx n k) d)) (fun k => EW (ix2 n k))
        (fun j d => aWg V0 (ix3 t (⟨j.val, by have := j.isLt; omega⟩ : Fin 256) d))
        (fun j d => aWg V0 (ix3 t (⟨128 + j.val, by have := j.isLt; omega⟩ : Fin 256) d))
        (fun d => aBg V0 (ix2 t d)) (fun d => aGam V0 (ix2 t d)) (fun d => aBet V0 (ix2 t d)) d

/-! ### The real recursion -/

theorem coe_toReal_of_real {x : EReal} (h : ∃ r : ℝ, x = (r : EReal)) : x = ((x.toReal : ℝ) : EReal) := by
  obtain ⟨r, rfl⟩ := h
  rw [EReal.toReal_coe]

def x0R (V0 : Val) (n : Fin 10000) (d : Fin 128) : ℝ := (aX0 V0 (ix2 n d)).toReal
def c1R (V0 : Val) (n : Fin 10000) (a : Fin 3) : ℝ := (aCoords V0 (ix2 n a)).toReal
def w3R (V0 : Val) (a : Fin 3) (j : Fin 64) : ℝ := (aW1 V0 (ix2 a j)).toReal
def b4R (V0 : Val) (j : Fin 64) : ℝ := (aB1 V0 (ix1 j)).toReal
def w5R (V0 : Val) (j : Fin 64) : ℝ := (aW2 V0 (ix2 j (0 : Fin 1))).toReal
def b6R (V0 : Val) : ℝ := (aB2 V0 (ix1 (0 : Fin 1))).toReal
def w7R (V0 : Val) (t : Fin 5) (k : Fin 256) (d : Fin 128) : ℝ := (aWg V0 (ix3 t k d)).toReal
def b8R (V0 : Val) (t : Fin 5) (d : Fin 128) : ℝ := (aBg V0 (ix2 t d)).toReal
def g9R (V0 : Val) (t : Fin 5) (d : Fin 128) : ℝ := (aGam V0 (ix2 t d)).toReal
def b10R (V0 : Val) (t : Fin 5) (d : Fin 128) : ℝ := (aBet V0 (ix2 t d)).toReal

/-- The edge weights of row `n`, on reals. -/
def ewR (V0 : Val) (hidx : ∀ j, (V0 (Proc.devRef .tc main_arg2) j).toNat < 10000) (n : Fin 10000) : Fin 32 → ℝ :=
  Spec.edgeReal ((1 : ℝ) / 2) ((11863283 : ℝ) / 2 ^ 24) (fun k a => c1R V0 (nbr (aIdx V0) hidx n k) a) (fun a => c1R V0 n a)
    (w3R V0) (b4R V0) (w5R V0)

/-- Update layer `t` on rows, on reals. -/
def stepRe (V0 : Val) (hidx : ∀ j, (V0 (Proc.devRef .tc main_arg2) j).toNat < 10000) (t : Fin 5)
    (X : Fin 10000 → Fin 128 → ℝ) (n : Fin 10000) : Fin 128 → ℝ :=
  Spec.stepReal 128 ((10995116 : ℝ) / 2 ^ 40) (X n) (fun k => X (nbr (aIdx V0) hidx n k)) (ewR V0 hidx n)
    (fun j d => w7R V0 t (catE (Sum.inl j)) d) (fun j d => w7R V0 t (catE (Sum.inr j)) d) (b8R V0 t) (g9R V0 t) (b10R V0 t)

/-! ### The edge weights, both sides -/

theorem kEdge_real (V0 : Val) (hidx : ∀ j, (V0 (Proc.devRef .tc main_arg2) j).toNat < 10000) (hreal : ArgsReal V0)
    (EW : Cf S10000x32) (h : KEdge V0 hidx EW) (n : Fin 10000) (k : Fin 32) :
    EW (ix2 n k) = ((ewR V0 hidx n k : ℝ) : EReal) := by
  rw [h n k, ofBits_half_f32, ofBits_rsqrt2_f32]
  have e1 : (fun (k : Fin 32) (a : Fin 3) => aCoords V0 (ix2 (nbr (aIdx V0) hidx n k) a))
      = fun k a => ((c1R V0 (nbr (aIdx V0) hidx n k) a : ℝ) : EReal) :=
    funext fun k => funext fun a => coe_toReal_of_real (hreal.r1 _)
  have e2 : (fun (a : Fin 3) => aCoords V0 (ix2 n a)) = fun a => ((c1R V0 n a : ℝ) : EReal) :=
    funext fun a => coe_toReal_of_real (hreal.r1 _)
  have e3 : (fun (a : Fin 3) (j : Fin 64) => aW1 V0 (ix2 a j)) = fun a j => ((w3R V0 a j : ℝ) : EReal) :=
    funext fun a => funext fun j => coe_toReal_of_real (hreal.r3 _)
  have e4 : (fun (j : Fin 64) => aB1 V0 (ix1 j)) = fun j => ((b4R V0 j : ℝ) : EReal) :=
    funext fun j => coe_toReal_of_real (hreal.r4 _)
  have e5 : (fun (j : Fin 64) => aW2 V0 (ix2 j (0 : Fin 1))) = fun j => ((w5R V0 j : ℝ) : EReal) :=
    funext fun j => coe_toReal_of_real (hreal.r5 _)
  rw [e1, e2, e3, e4, e5]
  exact congrFun (Spec.edgeK_coe ((1 : ℝ) / 2) ((11863283 : ℝ) / 2 ^ 24) _ _ _ _ _) k

theorem refEdge_real (V0 : Val) (hidx : ∀ j, (V0 (Proc.devRef .tc main_arg2) j).toNat < 10000) (hreal : ArgsReal V0)
    (n : Fin 10000) (k : Fin 32) :
    res_main_v36 V0 (ix2 n k) = ((ewR V0 hidx n k : ℝ) : EReal) := by
  rw [edge_apply V0 hidx n k, ofBits_half_f32, ofBits_rsqrt2_f32]
  have e1 : (fun (k : Fin 32) (a : Fin 3) => V0 (Proc.devRef .tc main_arg1) (ix2 (nbr (V0 (Proc.devRef .tc main_arg2)) hidx n k) a))
      = fun k a => ((c1R V0 (nbr (aIdx V0) hidx n k) a : ℝ) : EReal) :=
    funext fun k => funext fun a => coe_toReal_of_real (hreal.r1 _)
  have e2 : (fun (a : Fin 3) => V0 (Proc.devRef .tc main_arg1) (ix2 n a)) = fun a => ((c1R V0 n a : ℝ) : EReal) :=
    funext fun a => coe_toReal_of_real (hreal.r1 _)
  have e3 : (fun (a : Fin 3) (j : Fin 64) => V0 (Proc.devRef .tc main_arg3) (ix2 a j)) = fun a j => ((w3R V0 a j : ℝ) : EReal) :=
    funext fun a => funext fun j => coe_toReal_of_real (hreal.r3 _)
  have e4 : (fun (j : Fin 64) => V0 (Proc.devRef .tc main_arg4) (ix1 j)) = fun j => ((b4R V0 j : ℝ) : EReal) :=
    funext fun j => coe_toReal_of_real (hreal.r4 _)
  have e5 : (fun (j : Fin 64) => V0 (Proc.devRef .tc main_arg5) (ix2 j (0 : Fin 1))) = fun j => ((w5R V0 j : ℝ) : EReal) :=
    funext fun j => coe_toReal_of_real (hreal.r5 _)
  have e6 : V0 (Proc.devRef .tc main_arg6) (ix1 (0 : Fin 1)) = ((b6R V0 : ℝ) : EReal) := coe_toReal_of_real (hreal.r6 _)
  rw [e1, e2, e3, e4, e5, e6]
  exact congrFun (Spec.edgeH_coe ((1 : ℝ) / 2) ((11863283 : ℝ) / 2 ^ 24) _ _ _ _ _ _) k

/-! ### One layer, both sides -/

theorem kStep_real (V0 : Val) (hidx : ∀ j, (V0 (Proc.devRef .tc main_arg2) j).toNat < 10000) (hreal : ArgsReal V0)
    (t : Fin 5) (EW : Cf S10000x32) (hEWr : ∀ n k, EW (ix2 n k) = ((ewR V0 hidx n k : ℝ) : EReal))
    (XR : Fin 10000 → Fin 128 → ℝ) (X X' : Cf S10000x128) (hXr : ∀ n d, X (ix2 n d) = ((XR n d : ℝ) : EReal))
    (hstep : KStep V0 hidx t EW X X') (n : Fin 10000) (d : Fin 128) :
    X' (ix2 n d) = ((stepRe V0 hidx t XR n d : ℝ) : EReal) := by
  rw [hstep n d, ofBits_128_f32, ofBits_eps_f32]
  have e1 : (fun (d : Fin 128) => X (ix2 n d)) = fun d => ((XR n d : ℝ) : EReal) := funext fun d => hXr n d
  have e2 : (fun (k : Fin 32) (d : Fin 128) => X (ix2 (nbr (aIdx V0) hidx n k) d))
      = fun k d => ((XR (nbr (aIdx V0) hidx n k) d : ℝ) : EReal) := funext fun k => funext fun d => hXr _ d
  have e3 : (fun (k : Fin 32) => EW (ix2 n k)) = fun k => ((ewR V0 hidx n k : ℝ) : EReal) := funext fun k => hEWr n k
  have e4 : (fun (j : Fin 128) (d : Fin 128) => aWg V0 (ix3 t (⟨j.val, by have := j.isLt; omega⟩ : Fin 256) d))
      = fun j d => ((w7R V0 t (catE (Sum.inl j)) d : ℝ) : EReal) := funext fun j => funext fun d => by
    have hj : (⟨j.val, by have := j.isLt; omega⟩ : Fin 256) = catE (Sum.inl j) := Fin.ext rfl
    rw [hj]; exact coe_toReal_of_real (hreal.r7 _)
  have e5 : (fun (j : Fin 128) (d : Fin 128) => aWg V0 (ix3 t (⟨128 + j.val, by have := j.isLt; omega⟩ : Fin 256) d))
      = fun j d => ((w7R V0 t (catE (Sum.inr j)) d : ℝ) : EReal) := funext fun j => funext fun d => by
    have hj : (⟨128 + j.val, by have := j.isLt; omega⟩ : Fin 256) = catE (Sum.inr j) := Fin.ext rfl
    rw [hj]; exact coe_toReal_of_real (hreal.r7 _)
  have e6 : (fun (d : Fin 128) => aBg V0 (ix2 t d)) = fun d => ((b8R V0 t d : ℝ) : EReal) :=
    funext fun d => coe_toReal_of_real (hreal.r8 _)
  have e7 : (fun (d : Fin 128) => aGam V0 (ix2 t d)) = fun d => ((g9R V0 t d : ℝ) : EReal) :=
    funext fun d => coe_toReal_of_real (hreal.r9 _)
  have e8 : (fun (d : Fin 128) => aBet V0 (ix2 t d)) = fun d => ((b10R V0 t d : ℝ) : EReal) :=
    funext fun d => coe_toReal_of_real (hreal.r10 _)
  rw [e1, e2, e3, e4, e5, e6, e7, e8]
  exact congrFun (Spec.stepK_coe n128_pos eps_pos (XR n) (fun k => XR (nbr (aIdx V0) hidx n k)) (ewR V0 hidx n) _ _ _ _ _) d

theorem refStep_real (V0 : Val) (hidx : ∀ j, (V0 (Proc.devRef .tc main_arg2) j).toNat < 10000) (hreal : ArgsReal V0)
    (t : Fin 5) (XR : Fin 10000 → Fin 128 → ℝ) (X : Fin 10000 → Fin 128 → EReal)
    (hXr : ∀ n d, X n d = ((XR n d : ℝ) : EReal)) (n : Fin 10000) (d : Fin 128) :
    layerV V0 hidx t X n d = ((stepRe V0 hidx t XR n d : ℝ) : EReal) := by
  have e1 : X n = fun d => ((XR n d : ℝ) : EReal) := funext fun d => hXr n d
  have e2 : (fun (k : Fin 32) => X (nbr (V0 (Proc.devRef .tc main_arg2)) hidx n k))
      = fun k d => ((XR (nbr (aIdx V0) hidx n k) d : ℝ) : EReal) := funext fun k => funext fun d => hXr _ d
  have e3 : (fun (k : Fin 32) => res_main_v36 V0 (ix2 n k)) = fun k => ((ewR V0 hidx n k : ℝ) : EReal) :=
    funext fun k => refEdge_real V0 hidx hreal n k
  have e4 : Wg V0 t = fun k d => ((w7R V0 t k d : ℝ) : EReal) :=
    funext fun k => funext fun d => coe_toReal_of_real (hreal.r7 _)
  have e5 : bgv V0 t = fun d => ((b8R V0 t d : ℝ) : EReal) := funext fun d => coe_toReal_of_real (hreal.r8 _)
  have e6 : gam V0 t = fun d => ((g9R V0 t d : ℝ) : EReal) := funext fun d => coe_toReal_of_real (hreal.r9 _)
  have e7 : bet V0 t = fun d => ((b10R V0 t d : ℝ) : EReal) := funext fun d => coe_toReal_of_real (hreal.r10 _)
  simp only [layerV, layerS]
  rw [ofBits_128_f32, ofBits_eps_f32, e1, e2, e3, e4, e5, e6, e7]
  exact congrFun (Spec.stepH_coe catE n128_pos eps_pos (XR n) (fun k => XR (nbr (aIdx V0) hidx n k)) (ewR V0 hidx n)
    (w7R V0 t) (b8R V0 t) (g9R V0 t) (b10R V0 t)) d

/-- THE BRIDGE: five kernel steps over the kernel's edge weights give the reference's result. -/
theorem bridge (V0 : Val) (hidx : ∀ j, (V0 (Proc.devRef .tc main_arg2) j).toNat < 10000) (hreal : ArgsReal V0)
    (EW : Cf S10000x32) (X1 X2 X3 X4 X5 : Cf S10000x128)
    (hEW : KEdge V0 hidx EW)
    (hX0 : KStep V0 hidx 0 EW (aX0 V0) X1) (hX1 : KStep V0 hidx 1 EW X1 X2) (hX2 : KStep V0 hidx 2 EW X2 X3)
    (hX3 : KStep V0 hidx 3 EW X3 X4) (hX4 : KStep V0 hidx 4 EW X4 X5) :
    X5 = res321 V0 := by
  have hE := kEdge_real V0 hidx hreal EW hEW
  have h0 : ∀ n d, aX0 V0 (ix2 n d) = ((x0R V0 n d : ℝ) : EReal) := fun n d => coe_toReal_of_real (hreal.r0 _)
  have k1 := kStep_real V0 hidx hreal 0 EW hE (x0R V0) (aX0 V0) X1 h0 hX0
  have k2 := kStep_real V0 hidx hreal 1 EW hE _ X1 X2 k1 hX1
  have k3 := kStep_real V0 hidx hreal 2 EW hE _ X2 X3 k2 hX2
  have k4 := kStep_real V0 hidx hreal 3 EW hE _ X3 X4 k3 hX3
  have k5 := kStep_real V0 hidx hreal 4 EW hE _ X4 X5 k4 hX4
  have r1 := refStep_real V0 hidx hreal 0 (x0R V0) (fun n d => V0 (Proc.devRef .tc main_arg0) (ix2 n d)) h0
  have r2 := refStep_real V0 hidx hreal 1 _ _ r1
  have r3 := refStep_real V0 hidx hreal 2 _ _ r2
  have r4 := refStep_real V0 hidx hreal 3 _ _ r3
  have r5 := refStep_real V0 hidx hreal 4 _ _ r4
  funext i
  obtain ⟨n, d, rfl⟩ : ∃ (n : Fin 10000) (d : Fin 128), i = ix2 n d := ⟨i 0, i 1, eq_ix2 i⟩
  rw [k5 n d, res321_comp V0 hidx n d]
  exact (r5 n d).symm

/-- The same from the precondition's reading. -/
theorem bridge_of_idealOK (V0 : Val)
    (hok : Cert.Proof.PreFacts.IdealOK (aX0 V0) (aCoords V0) (aIdx V0) (aW1 V0) (aB1 V0) (aW2 V0) (aB2 V0) (aWg V0) (aBg V0) (aGam V0) (aBet V0))
    (EW : Cf S10000x32) (X1 X2 X3 X4 X5 : Cf S10000x128)
    (hEW : KEdge V0 (hidx_of_idealOK V0 hok) EW)
    (hX0 : KStep V0 (hidx_of_idealOK V0 hok) 0 EW (aX0 V0) X1) (hX1 : KStep V0 (hidx_of_idealOK V0 hok) 1 EW X1 X2)
    (hX2 : KStep V0 (hidx_of_idealOK V0 hok) 2 EW X2 X3) (hX3 : KStep V0 (hidx_of_idealOK V0 hok) 3 EW X3 X4)
    (hX4 : KStep V0 (hidx_of_idealOK V0 hok) 4 EW X4 X5) :
    X5 = res321 V0 :=
  bridge V0 (hidx_of_idealOK V0 hok) (argsReal_of_idealOK V0 hok) EW X1 X2 X3 X4 X5 hEW hX0 hX1 hX2 hX3 hX4

/-! ### The same hypotheses over plain arrays -/

/-- The kernel's edge weights read at an index, the arrays as variables. -/
def KEdgeA (A1 : FVec Ideal ⟨2, ![10000, 3]⟩ .f32) (I : IVec ⟨2, ![10000, 32]⟩ 32) (hI : ∀ j, (I j).toNat < 10000)
    (A3 : FVec Ideal ⟨2, ![3, 64]⟩ .f32) (A4 : FVec Ideal ⟨1, ![64]⟩ .f32) (A5 : FVec Ideal ⟨2, ![64, 1]⟩ .f32)
    (EW : FVec Ideal ⟨2, ![10000, 32]⟩ .f32) : Prop :=
  ∀ (n : Fin 10000) (k : Fin 32), EW (ix2 n k)
    = Spec.edgeK (Ideal.ofBits .f32 0x3F000000#32) (Ideal.ofBits .f32 0x3F3504F3#32)
        (fun k a => A1 (ix2 (nbr I hI n k) a)) (fun a => A1 (ix2 n a))
        (fun a j => A3 (ix2 a j)) (fun j => A4 (ix1 j)) (fun j => A5 (ix2 j (0 : Fin 1))) k

/-- The kernel's update step `t` read at an index, the arrays as variables. -/
def KStepA (I : IVec ⟨2, ![10000, 32]⟩ 32) (hI : ∀ j, (I j).toNat < 10000) (A7 : FVec Ideal ⟨3, ![5, 256, 128]⟩ .f32)
    (A8 A9 A10 : FVec Ideal ⟨2, ![5, 128]⟩ .f32) (t : Fin 5) (EW : FVec Ideal ⟨2, ![10000, 32]⟩ .f32)
    (X X' : FVec Ideal ⟨2, ![10000, 128]⟩ .f32) : Prop :=
  ∀ (n : Fin 10000) (d : Fin 128), X' (ix2 n d)
    = Spec.stepK (Ideal.ofBits .f32 0x43000000#32) (Ideal.ofBits .f32 0x3727C5AC#32)
        (fun d => X (ix2 n d)) (fun k d => X (ix2 (nbr I hI n k) d)) (fun k => EW (ix2 n k))
        (fun j d => A7 (ix3 t (⟨j.val, by have := j.isLt; omega⟩ : Fin 256) d))
        (fun j d => A7 (ix3 t (⟨128 + j.val, by have := j.isLt; omega⟩ : Fin 256) d))
        (fun d => A8 (ix2 t d)) (fun d => A9 (ix2 t d)) (fun d => A10 (ix2 t d)) d

theorem KEdge_eq (V0 : Val) (hidx : ∀ j, (V0 (Proc.devRef .tc main_arg2) j).toNat < 10000) (EW : Cf S10000x32) :
    KEdge V0 hidx EW = KEdgeA (aCoords V0) (aIdx V0) hidx (aW1 V0) (aB1 V0) (aW2 V0) EW := rfl

theorem KStep_eq (V0 : Val) (hidx : ∀ j, (V0 (Proc.devRef .tc main_arg2) j).toNat < 10000) (t : Fin 5) (EW : Cf S10000x32)
    (X X' : Cf S10000x128) :
    KStep V0 hidx t EW X X' = KStepA (aIdx V0) hidx (aWg V0) (aBg V0) (aGam V0) (aBet V0) t EW X X' := rfl

/-- THE BRIDGE over plain arrays equal to the reference's arguments. -/
theorem bridgeA (V0 : Val)
    (hok : Cert.Proof.PreFacts.IdealOK (aX0 V0) (aCoords V0) (aIdx V0) (aW1 V0) (aB1 V0) (aW2 V0) (aB2 V0) (aWg V0) (aBg V0) (aGam V0) (aBet V0))
    (A0 : FVec Ideal ⟨2, ![10000, 128]⟩ .f32) (A1 : FVec Ideal ⟨2, ![10000, 3]⟩ .f32) (A2 : IVec ⟨2, ![10000, 32]⟩ 32)
    (A3 : FVec Ideal ⟨2, ![3, 64]⟩ .f32) (A4 : FVec Ideal ⟨1, ![64]⟩ .f32) (A5 : FVec Ideal ⟨2, ![64, 1]⟩ .f32)
    (A6 : FVec Ideal ⟨1, ![1]⟩ .f32) (A7 : FVec Ideal ⟨3, ![5, 256, 128]⟩ .f32) (A8 A9 A10 : FVec Ideal ⟨2, ![5, 128]⟩ .f32)
    (h0 : aX0 V0 = A0) (h1 : aCoords V0 = A1) (h2 : aIdx V0 = A2) (h3 : aW1 V0 = A3) (h4 : aB1 V0 = A4) (h5 : aW2 V0 = A5)
    (h6 : aB2 V0 = A6) (h7 : aWg V0 = A7) (h8 : aBg V0 = A8) (h9 : aGam V0 = A9) (h10 : aBet V0 = A10)
    (hI' : ∀ j, (A2 j).toNat < 10000)
    (EW : FVec Ideal ⟨2, ![10000, 32]⟩ .f32) (X1 X2 X3 X4 X5 : FVec Ideal ⟨2, ![10000, 128]⟩ .f32)
    (hEW : KEdgeA A1 A2 hI' A3 A4 A5 EW)
    (hX0 : KStepA A2 hI' A7 A8 A9 A10 0 EW A0 X1) (hX1 : KStepA A2 hI' A7 A8 A9 A10 1 EW X1 X2)
    (hX2 : KStepA A2 hI' A7 A8 A9 A10 2 EW X2 X3) (hX3 : KStepA A2 hI' A7 A8 A9 A10 3 EW X3 X4)
    (hX4 : KStepA A2 hI' A7 A8 A9 A10 4 EW X4 X5) :
    X5 = res321 V0 := by
  subst h0 h1 h2 h3 h4 h5 h6 h7 h8 h9 h10
  exact bridge_of_idealOK V0 hok EW X1 X2 X3 X4 X5 hEW hX0 hX1 hX2 hX3 hX4

end Cert.Proof.Bridge

end
-- ==== Proof.PayloadSoftmax.lean ====
/-
  The edge-softmax body's output block read at one element: row r, neighbour k of the block is the softmax over the
  32 neighbours of the logits, and neighbour k's logit is the second layer applied to the exact GELU of the first
  layer at the coordinate differences of neighbour k and the centre. The value is stated as the first way of
  writing the edge weights (Spec.edgeK), on the extended reals, of the five input blocks' elements.
-/
import proofs.«205547_g25623774888366_cont_9to1_713_27_alg».proof.Proof.SoftmaxBody
import proofs.«205547_g25623774888366_cont_9to1_713_27_alg».proof.Proof.SpecLaws
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Proof.PayloadSoftmax

open Cert.KernelIdeal Cert.KernelIdeal.Gen
open Idealize.ShloMosaic Idealize.ShloMosaic.ValueIdx
open Cert.Proof.SoftmaxBody
open scoped BigOperators

variable {F : FTy → Type} [FloatOps F]

/-- One neighbour's column of logits, from the centre block, the neighbour's block, the three weight rows, the bias
    row and the second layer's block. -/
def colTerm (v1 : FVec F S400x128 .f32) (nb : Vec F S1x400x128 .f32) (w0 w1 w2 b : Vec F S1x64 .f32)
    (w2r : Vec F S64x8 .bf16) : FVec F S400x1 .f32 :=
  k1_pay10 (k1_pay8 v1 nb w0 w1 w2 b) (k1_pay9 v1 nb w0 w1 w2 b) w2r

theorem inbNb (n : Fin 32) : ∀ a, (![n.val, 0, 0] : Fin 3 → Nat) a + S1x400x128.size a ≤ S32x400x128.size a := by
  intro a
  fin_cases a
  · show n.val + 1 ≤ 32; omega
  · show 0 + 400 ≤ 400; omega
  · show 0 + 128 ≤ 128; omega

/-- Neighbour n's block of the gathered coordinates. -/
def ldNb (x0 : Vec F S32x400x128 .f32) (n : Fin 32) : Vec F S1x400x128 .f32 :=
  View.ld x0 (Rect.unit (s := S32x400x128) ![n.val, 0, 0] S1x400x128.size (inbNb n))

def colOf (x0 : Vec F S32x400x128 .f32) (x1 : Vec F S400x128 .f32) (x2 : Vec F S8x64 .f32) (x3 : Vec F S1x64 .f32)
    (x4 : Vec F S64x8 .bf16) (n : Fin 32) : FVec F S400x1 .f32 :=
  colTerm (k1_pay4 (View.ld x1 (Rect.unit (s := S400x128) ![0, 0] S400x128.size inb_S400x128_S400x128_0_0)))
    (ldNb x0 n)
    (View.ld x2 (Rect.unit (s := S8x64) ![0, 0] S1x64.size inb_S8x64_S1x64_0_0))
    (View.ld x2 (Rect.unit (s := S8x64) ![1, 0] S1x64.size inb_S8x64_S1x64_1_0))
    (View.ld x2 (Rect.unit (s := S8x64) ![2, 0] S1x64.size inb_S8x64_S1x64_2_0))
    (View.ld x3 (Rect.unit (s := S1x64) ![0, 0] S1x64.size inb_S1x64_S1x64_0_0))
    (View.ld x4 (Rect.unit (s := S64x8) ![0, 0] S64x8.size inb_S64x8_S64x8_0_0))

theorem logits1_eq (x0 : Vec F S32x400x128 .f32) (x1 : Vec F S400x128 .f32) (x2 : Vec F S8x64 .f32) (x3 : Vec F S1x64 .f32)
    (x4 : Vec F S64x8 .bf16) :
    logits1 x0 x1 x2 x3 x4
      = concatenate S400x32 1 (List.ofFn fun n : Fin 32 => (⟨S400x1, colOf x0 x1 x2 x3 x4 n⟩ : (s : Shape) × (s.Idx → F .f32)))
          concatenates_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x32_d1 := rfl

/-! ### Loads through unit rectangles, at an element -/

theorem ldNb_apply (x0 : Vec F S32x400x128 .f32) (n : Fin 32) (p : Fin 400) (q : Fin 128) :
    ldNb x0 n (ix3 (0 : Fin 1) p q) = x0 (ix3 n p q) := by
  refine congrArg x0 (funext fun ax => Fin.ext ?_)
  match ax with
  | ⟨0, _⟩ => show n.val + 1 * 0 = n.val; omega
  | ⟨1, _⟩ => show 0 + 1 * p.val = p.val; omega
  | ⟨2, _⟩ => show 0 + 1 * q.val = q.val; omega

theorem ldRow_apply (x2 : Vec F S8x64 .f32) (o : Nat) (inb : ∀ ax, (![o, 0] : Fin 2 → Nat) ax + S1x64.size ax ≤ S8x64.size ax)
    (a : Fin 8) (ha : a.val = o) (j : Fin 64) :
    View.ld x2 (Rect.unit (s := S8x64) ![o, 0] S1x64.size inb) (ix2 (0 : Fin 1) j) = x2 (ix2 a j) := by
  refine congrArg x2 (funext fun ax => Fin.ext ?_)
  match ax with
  | ⟨0, _⟩ => show o + 1 * 0 = a.val; omega
  | ⟨1, _⟩ => show 0 + 1 * j.val = j.val; omega

theorem zero2 : (![0, 0] : Fin 2 → Nat) = fun _ => 0 := by
  funext a; fin_cases a <;> rfl

theorem ld_x1 {F : FTy → Type} (x1 : Vec F S400x128 .f32) (i : S400x128.Idx) :
    View.ld x1 (Rect.unit (s := S400x128) ![0, 0] S400x128.size inb_S400x128_S400x128_0_0) i = x1 i :=
  congrFun (View.ld_unit_zero (S := S400x128) zero2 inb_S400x128_S400x128_0_0 x1) i

theorem ld_x3 {F : FTy → Type} (x3 : Vec F S1x64 .f32) (i : S1x64.Idx) :
    View.ld x3 (Rect.unit (s := S1x64) ![0, 0] S1x64.size inb_S1x64_S1x64_0_0) i = x3 i :=
  congrFun (View.ld_unit_zero (S := S1x64) zero2 inb_S1x64_S1x64_0_0 x3) i

theorem ld_x4 {F : FTy → Type} (x4 : Vec F S64x8 .bf16) (i : S64x8.Idx) :
    View.ld x4 (Rect.unit (s := S64x8) ![0, 0] S64x8.size inb_S64x8_S64x8_0_0) i = x4 i :=
  congrFun (View.ld_unit_zero (S := S64x8) zero2 inb_S64x8_S64x8_0_0 x4) i

/-! ### Layout operations of the body, at an element -/

section Layout
variable {α : Type}

/-- A column [a, 1] broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector [a] cast to a column [a, 1] reads, at (p, 0), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

theorem bcol64 {α : Type} (v : S400x1.Idx → α) (p : Fin 400) (j : Fin 64) :
    broadcastTo S400x64 v broadcasts_S400x1_S400x64 (ix2 p j) = v (ix2 p (0 : Fin 1)) :=
  broadcastTo_a1_ab_apply v _ p j

theorem brow64 {α : Type} (v : S1x64.Idx → α) (p : Fin 400) (j : Fin 64) :
    broadcastTo S400x64 v broadcasts_S1x64_S400x64 (ix2 p j) = v (ix2 (0 : Fin 1) j) :=
  broadcastTo_1b_ab_apply v _ p j

theorem bcol32 {α : Type} (v : S400x1.Idx → α) (p : Fin 400) (k : Fin 32) :
    broadcastTo S400x32 v broadcasts_S400x1_S400x32 (ix2 p k) = v (ix2 p (0 : Fin 1)) :=
  broadcastTo_a1_ab_apply v _ p k

theorem col_of_vec {α : Type} (v : S400.Idx → α) (p : Fin 400) :
    shapeCast S400x1 v shapeCasts_S400_S400x1 (ix2 p (0 : Fin 1)) = v (ix1 p) :=
  shapeCast_a_a1_apply v _ p 0

theorem slc0 {α : Type} (X : S400x128.Idx → α) (p : Fin 400) :
    extractStridedSlice S400x1 ![0, 0] X slices_S400x128_o0_0_S400x1 (ix2 p (0 : Fin 1)) = X (ix2 p (0 : Fin 128)) :=
  slice2_axis1_apply 0 X _ p 0 0 rfl

theorem slc1 {α : Type} (X : S400x128.Idx → α) (p : Fin 400) :
    extractStridedSlice S400x1 ![0, 1] X slices_S400x128_o0_1_S400x1 (ix2 p (0 : Fin 1)) = X (ix2 p (1 : Fin 128)) :=
  slice2_axis1_apply 1 X _ p 0 1 rfl

theorem slc2 {α : Type} (X : S400x128.Idx → α) (p : Fin 400) :
    extractStridedSlice S400x1 ![0, 2] X slices_S400x128_o0_2_S400x1 (ix2 p (0 : Fin 1)) = X (ix2 p (2 : Fin 128)) :=
  slice2_axis1_apply 2 X _ p 0 2 rfl

theorem slc8 {α : Type} (X : S400x8.Idx → α) (p : Fin 400) :
    extractStridedSlice S400x1 ![0, 0] X slices_S400x8_o0_0_S400x1 (ix2 p (0 : Fin 1)) = X (ix2 p (0 : Fin 8)) :=
  slice2_axis1_apply 0 X _ p 0 0 rfl

theorem sc3 {α : Type} (x : S1x400x128.Idx → α) (p : Fin 400) (q : Fin 128) :
    shapeCast S400x128 x shapeCasts_S1x400x128_S400x128 (ix2 p q) = x (ix3 (0 : Fin 1) p q) :=
  shapeCast_1ab_ab_apply x _ p q

/-! ### The contraction with the second layer's block -/

theorem matmul_col (A : FVec Ideal S400x64 .bf16) (B : FVec Ideal S64x8 .bf16) (p : Fin 400) (c : Fin 8) :
    matmul dot_S400x64_S64x8_S400x8_1_0_0_1_n_n none A B (constant (F := Ideal) S400x8 .f32 0x00000000#32) (ix2 p c)
      = ∑ j : Fin 64, A (ix2 p j) * B (ix2 j c) := by
  show FloatOps.matmul _ none A B _ (ix2 p c) = _
  rw [Ideal.matmul_constant_zero_apply,
    ← Equiv.sum_comp (contrEquiv1 dot_S400x64_S64x8_S400x8_1_0_0_1_n_n 64 rfl rfl).symm]
  refine Finset.sum_congr rfl fun j _ => ?_
  have c2 := contrEquiv1_symm_val dot_S400x64_S64x8_S400x8_1_0_0_1_n_n 64 rfl rfl j
  have l2 : dot_S400x64_S64x8_S400x8_1_0_0_1_n_n.lhsIdx (ix2 p c) ((contrEquiv1 _ 64 rfl rfl).symm j) = ix2 p j := by
    funext ax; apply Fin.ext
    match ax with
    | ⟨0, _⟩ => simp [DotDims.lhsIdx, dot_S400x64_S64x8_S400x8_1_0_0_1_n_n]; rfl
    | ⟨1, _⟩ => simp [DotDims.lhsIdx, dot_S400x64_S64x8_S400x8_1_0_0_1_n_n]; exact c2
  have r2 : dot_S400x64_S64x8_S400x8_1_0_0_1_n_n.rhsIdx (ix2 p c) ((contrEquiv1 _ 64 rfl rfl).symm j) = ix2 j c := by
    funext ax; apply Fin.ext
    match ax with
    | ⟨0, _⟩ => simp [DotDims.rhsIdx, dot_S400x64_S64x8_S400x8_1_0_0_1_n_n]; exact c2
    | ⟨1, _⟩ => simp [DotDims.rhsIdx, dot_S400x64_S64x8_S400x8_1_0_0_1_n_n]; rfl
  rw [l2, r2]

/-! ### The row reductions -/

theorem rowsum_apply (v : FVec Ideal S400x32 .f32) (hφ : FKind.Formats .f32)
    (hacc : (0x00000000#32 : BitVec 32) = 0x00000000#32) (r : Fin 400) :
    multiReduction (F := Ideal) .add [1] S400 v 0x00000000#32 reduces_S400x32_S400 hφ hacc (ix1 r)
      = ∑ k : Fin 32, v (ix2 r k) := by
  refine (Ideal.multiReduction_add_single v 0x00000000#32 reduces_S400x32_S400 hφ hacc (ix1 r)).trans ?_
  refine Finset.sum_congr rfl fun k _ => congrArg v ?_
  funext ax; apply Fin.ext
  match ax with
  | ⟨0, _⟩ => rfl
  | ⟨1, _⟩ => rfl

theorem rowmax_apply (v : FVec Ideal S400x32 .f32) (hφ : FKind.Formats .f32)
    (hacc : (0xFF800000#32 : BitVec 32) = 0xFF800000#32) (r : Fin 400) :
    multiReduction (F := Ideal) .maximumf [1] S400 v 0xFF800000#32 reduces_S400x32_S400 hφ hacc (ix1 r)
      = (Finset.univ : Finset (Fin 32)).fold max (⊥ : EReal) (fun k => v (ix2 r k)) := by
  refine (Ideal.multiReduction_maximumf_single v 0xFF800000#32 reduces_S400x32_S400 hφ hacc (ix1 r)).trans ?_
  have hb : FloatOps.ofBits (F := Ideal) .f32 0xFF800000#32 = (⊥ : EReal) := by
    show Ideal.ofBits .f32 0xFF800000#32 = ⊥
    simp [Ideal.ofBits, Ideal.ieee]
  have hf : (v ∘ reduces_S400x32_S400.lift (ix1 r)) = fun k : Fin 32 => v (ix2 r k) := by
    funext k
    refine congrArg v ?_
    funext ax; apply Fin.ext
    match ax with
    | ⟨0, _⟩ => rfl
    | ⟨1, _⟩ => rfl
  rw [hb, hf]
  rfl

theorem one_f32 : Ideal.ofBits .f32 0x3F800000#32 = 1 := by
  simp [Ideal.ofBits, Ideal.ieee, -EReal.coe_mul]; norm_num

/-! ### Pointwise operations read at an index, in forms the library does not state -/

theorem exp_apply' {s : Shape} {φ : FTy} (a : FVec Ideal s φ) (i : s.Idx) :
    Idealize.ShloMosaic.exp a i = Ideal.exp (a i) := rfl

theorem erf_apply' {s : Shape} {φ : FTy} (a : FVec Ideal s φ) (i : s.Idx) :
    Idealize.ShloMosaic.erf a i = Ideal.erf (a i) := rfl

/-! ### One neighbour's column of logits, at a row -/

/-- The first layer at (p, j): the three coordinate differences against the three weight rows, plus the bias. -/
theorem pay7_apply (v1 : FVec Ideal S400x128 .f32) (nb : Vec Ideal S1x400x128 .f32) (w0 w1 w2 b : Vec Ideal S1x64 .f32)
    (p : Fin 400) (j : Fin 64) :
    k1_pay7 v1 nb w0 w1 w2 b (ix2 p j)
      = (nb (ix3 (0 : Fin 1) p (0 : Fin 128)) - v1 (ix2 p (0 : Fin 128))) * w0 (ix2 (0 : Fin 1) j)
        + (nb (ix3 (0 : Fin 1) p (1 : Fin 128)) - v1 (ix2 p (1 : Fin 128))) * w1 (ix2 (0 : Fin 1) j)
        + (nb (ix3 (0 : Fin 1) p (2 : Fin 128)) - v1 (ix2 p (2 : Fin 128))) * w2 (ix2 (0 : Fin 1) j)
        + b (ix2 (0 : Fin 1) j) := by
  unfold k1_pay7
  simp only [addf_apply, mulf_apply, subf_apply, bcol64, brow64, slc0, slc1, slc2, sc3, shapeCast_self]

theorem pay8_apply (v1 : FVec Ideal S400x128 .f32) (nb : Vec Ideal S1x400x128 .f32) (w0 w1 w2 b : Vec Ideal S1x64 .f32)
    (p : Fin 400) (j : Fin 64) :
    k1_pay8 v1 nb w0 w1 w2 b (ix2 p j) = Ideal.ofBits .f32 0x3F000000#32 * k1_pay7 v1 nb w0 w1 w2 b (ix2 p j) := rfl

theorem pay9_apply (v1 : FVec Ideal S400x128 .f32) (nb : Vec Ideal S1x400x128 .f32) (w0 w1 w2 b : Vec Ideal S1x64 .f32)
    (p : Fin 400) (j : Fin 64) :
    k1_pay9 v1 nb w0 w1 w2 b (ix2 p j)
      = Ideal.ofBits .f32 0x3F800000#32 + Ideal.erf (k1_pay7 v1 nb w0 w1 w2 b (ix2 p j) * Ideal.ofBits .f32 0x3F3504F3#32) := rfl

theorem pay10_apply (A B : FVec Ideal S400x64 .f32) (w2r : Vec Ideal S64x8 .bf16) (p : Fin 400) :
    k1_pay10 A B w2r (ix2 p (0 : Fin 1)) = ∑ j : Fin 64, (A (ix2 p j) * B (ix2 p j)) * w2r (ix2 j (0 : Fin 8)) := by
  unfold k1_pay10
  simp only [slc8, matmul_col, truncf_apply, mulf_apply, shapeCast_self]

/-- The first layer of neighbour n at row p, hidden unit j, from the blocks' elements. -/
def hidE (x0 : Vec Ideal S32x400x128 .f32) (x1 : Vec Ideal S400x128 .f32) (x2 : Vec Ideal S8x64 .f32)
    (x3 : Vec Ideal S1x64 .f32) (n : Fin 32) (p : Fin 400) (j : Fin 64) : EReal :=
  (x0 (ix3 n p (0 : Fin 128)) - x1 (ix2 p (0 : Fin 128))) * x2 (ix2 (0 : Fin 8) j)
    + (x0 (ix3 n p (1 : Fin 128)) - x1 (ix2 p (1 : Fin 128))) * x2 (ix2 (1 : Fin 8) j)
    + (x0 (ix3 n p (2 : Fin 128)) - x1 (ix2 p (2 : Fin 128))) * x2 (ix2 (2 : Fin 8) j)
    + x3 (ix2 (0 : Fin 1) j)

theorem colOf_apply (x0 : Vec Ideal S32x400x128 .f32) (x1 : Vec Ideal S400x128 .f32) (x2 : Vec Ideal S8x64 .f32)
    (x3 : Vec Ideal S1x64 .f32) (x4 : Vec Ideal S64x8 .bf16) (n : Fin 32) (p : Fin 400) :
    colOf x0 x1 x2 x3 x4 n (ix2 p (0 : Fin 1))
      = ∑ j : Fin 64, ((Ideal.ofBits .f32 0x3F000000#32 * hidE x0 x1 x2 x3 n p j)
          * (1 + Ideal.erf (hidE x0 x1 x2 x3 n p j * Ideal.ofBits .f32 0x3F3504F3#32))) * x4 (ix2 j (0 : Fin 8)) := by
  unfold colOf colTerm
  rw [pay10_apply]
  refine Finset.sum_congr rfl fun j _ => ?_
  rw [pay8_apply, pay9_apply, pay7_apply, one_f32]
  simp only [k1_pay4, shapeCast_self, ld_x1 x1, ld_x3 x3, ld_x4 x4, ldNb_apply,
    ldRow_apply x2 0 inb_S8x64_S1x64_0_0 (0 : Fin 8) rfl, ldRow_apply x2 1 inb_S8x64_S1x64_1_0 (1 : Fin 8) rfl,
    ldRow_apply x2 2 inb_S8x64_S1x64_2_0 (2 : Fin 8) rfl]
  rfl

/-! ### The row softmax of the logits -/

theorem pay3_apply (Lg : FVec Ideal S400x32 .f32) (r : Fin 400) (k : Fin 32) :
    k1_pay3 Lg (ix2 r k)
      = Ideal.div (Ideal.exp (Lg (ix2 r k) - (Finset.univ : Finset (Fin 32)).fold max (⊥ : EReal) (fun k' => Lg (ix2 r k'))))
          (∑ k' : Fin 32, Ideal.exp (Lg (ix2 r k')
            - (Finset.univ : Finset (Fin 32)).fold max (⊥ : EReal) (fun k'' => Lg (ix2 r k'')))) := by
  unfold k1_pay3
  simp only [divf_apply, subf_apply, exp_apply', bcol32, col_of_vec]
  rw [rowsum_apply]
  simp only [subf_apply, exp_apply', bcol32, col_of_vec]
  rw [rowmax_apply]

/-! ### The block's element -/

theorem logit_apply (x0 : Vec Ideal S32x400x128 .f32) (x1 : Vec Ideal S400x128 .f32) (x2 : Vec Ideal S8x64 .f32)
    (x3 : Vec Ideal S1x64 .f32) (x4 : Vec Ideal S64x8 .bf16) (r : Fin 400) (k : Fin 32) :
    logits1 (F := Ideal) x0 x1 x2 x3 x4 (ix2 r k) = colOf x0 x1 x2 x3 x4 k (ix2 r (0 : Fin 1)) := by
  rw [logits1_eq]
  refine concatenate_ofFn_unit_apply (t := S400x32) (s₁ := S400x1) 1 (fun n => colOf x0 x1 x2 x3 x4 n) _ rfl rfl
    (ix2 r k) k rfl (ix2 r (0 : Fin 1)) ?_
  intro b hb
  match b with
  | ⟨0, _⟩ => rfl
  | ⟨1, _⟩ => exact absurd (Fin.ext rfl) hb

/-- The first three columns (or rows) of a wider block. -/
abbrev lo3 {n : Nat} (h : 3 ≤ n) (a : Fin 3) : Fin n := Fin.castLE h a

theorem out1_apply (x0 : Vec Ideal S32x400x128 .f32) (x1 : Vec Ideal S400x128 .f32) (x2 : Vec Ideal S8x64 .f32)
    (x3 : Vec Ideal S1x64 .f32) (x4 : Vec Ideal S64x8 .bf16) (r : Fin 400) (k : Fin 32) :
    out1 (F := Ideal) x0 x1 x2 x3 x4 (ix2 r k)
      = Spec.edgeK (κ := Fin 32) (η := Fin 64) (Ideal.ofBits .f32 0x3F000000#32) (Ideal.ofBits .f32 0x3F3504F3#32)
          (fun k' a => x0 (ix3 k' r (lo3 (n := 128) (by decide) a)))
          (fun a => x1 (ix2 r (lo3 (n := 128) (by decide) a)))
          (fun a j => x2 (ix2 (lo3 (n := 8) (by decide) a) j))
          (fun j => x3 (ix2 (0 : Fin 1) j))
          (fun j => x4 (ix2 j (0 : Fin 8)))
          k := by
  unfold out1
  rw [View.canon_unit_zero (S := S400x32) zero2 inb_S400x32_S400x32_0_0, pay3_apply]
  simp only [logit_apply, colOf_apply]
  rfl

end Cert.Proof.PayloadSoftmax

end
-- ==== Proof.KernelReadEdge.lean ====
/-
  The kernel's edge weights read off its run: the array the first TensorCore region leaves is, element by element,
  the first way of writing the edge weights (Spec.edgeK) of the ARGUMENT arrays — the padded coordinates, the
  transposed and flattened neighbour indices, the gathered rows and the padded weights read back through the host
  operations, the gather call and the region's blocks.
-/
import proofs.«205547_g25623774888366_cont_9to1_713_27_alg».proof.Proof.HostGlue
import proofs.«205547_g25623774888366_cont_9to1_713_27_alg».proof.Proof.SoftmaxBody
import proofs.«205547_g25623774888366_cont_9to1_713_27_alg».proof.Proof.RefRead
import proofs.«205547_g25623774888366_cont_9to1_713_27_alg».proof.Proof.SpecLaws
import proofs.«205547_g25623774888366_cont_9to1_713_27_alg».proof.Proof.LaunchBase
import proofs.«205547_g25623774888366_cont_9to1_713_27_alg».proof.Proof.PayloadSoftmax
import proofs.«205547_g25623774888366_cont_9to1_713_27_alg».proof.Proof.ValsI
import proofs.«205547_g25623774888366_cont_9to1_713_27_alg».proof.Proof.Bridge

set_option maxRecDepth 16384

noncomputable section

namespace Cert.Proof.KernelReadEdge

open Cert.KernelIdeal Cert.KernelIdeal.Gen Cert.KernelIdeal.MainChain
open Idealize.ShloMosaic Idealize.ShloMosaic.ValueIdx Idealize.SL.Sem Idealize.ShloMosaic.StableHlo
open Cert.Proof.SoftmaxBody Cert.Proof.LaunchBase Cert.Proof.HostGlue
open Cert.Proof.RefRead (nbr Cf Ci)
open scoped BigOperators

variable (V : Valuation τ sig (Elt Ideal))

/-! ### The arrays between the launch and the first region -/

/-- After the host operations before the first gather call. -/
def Wa0 : Valuation τ sig (Elt Ideal) := after (ops0 (F := Ideal)) V
/-- After the first gather call: the padded coordinates' rows gathered. -/
def Wb0 : Valuation τ sig (Elt Ideal) :=
  Function.update (Wa0 V) (Proc.devRef .tc main_v20)
    (gatherFn (Wa0 V (Proc.devRef .tc main_v4)) (Wa0 V (Proc.devRef .tc main_v2)))
/-- As the first region finds them. -/
def Wa1 : Valuation τ sig (Elt Ideal) := after (ops1 (F := Ideal)) (Wb0 V)

/-- A gather call's output at row 10000 k + n, column c, is the table's row that the neighbour index names, when the
    flattened index array holds the (n, k) entry of a neighbour array I at position 10000 k + n. -/
theorem gatherFn_apply (IDX : S320000.Idx → Elt Ideal .i32) (TAB : S10000x128.Idx → Elt Ideal .f32)
    (I : Ci S10000x32) (hI : ∀ j, (I j).toNat < 10000)
    (hIDX : ∀ (k : Fin 32) (n : Fin 10000),
      IDX (ix1 ⟨k.val * 10000 + n.val, by have := k.isLt; have := n.isLt; omega⟩) = I (ix2 n k))
    (k : Fin 32) (n : Fin 10000) (c : Fin 128) :
    gatherFn IDX TAB (ix2 ⟨k.val * 10000 + n.val, by have := k.isLt; have := n.isLt; omega⟩ c)
      = TAB (ix2 (nbr I hI n k) c) := by
  have hN := congrArg BitVec.toNat (hIDX k n)
  have hlt := hI (ix2 n k)
  unfold gatherFn
  refine congrArg TAB (funext fun a => Fin.ext ?_)
  match a with
  | ⟨0, _⟩ =>
    split
    · exact hN
    · rename_i h; exact absurd (hN.le.trans_lt hlt) h
  | ⟨1, _⟩ => rfl

/-- The gathered row (k, n) is the padded coordinates' row of neighbour k of n. -/
theorem wb0_v20 (hidx : ∀ j, (V (Proc.devRef .tc main_arg2) j).toNat < 10000) (k : Fin 32) (n : Fin 10000) (c : Fin 128) :
    Wb0 V (Proc.devRef .tc main_v20) (ix2 ⟨k.val * 10000 + n.val, by have := k.isLt; have := n.isLt; omega⟩ c)
      = Wa0 V (Proc.devRef .tc main_v2) (ix2 (nbr (V (Proc.devRef .tc main_arg2)) hidx n k) c) := by
  unfold Wb0
  rw [Function.update_self]
  exact gatherFn_apply _ _ (V (Proc.devRef .tc main_arg2)) hidx (ops0_v4 V) k n c

theorem wa1_v21 (k : Fin 32) (n : Fin 10000) (c : Fin 128) :
    Wa1 V (Proc.devRef .tc main_v21) (ix3 k n c)
      = Wb0 V (Proc.devRef .tc main_v20) (ix2 ⟨k.val * 10000 + n.val, by have := k.isLt; have := n.isLt; omega⟩ c) :=
  ops1_v21 (Wb0 V) k n c

theorem wa1_keep (r : Ref sig .tc) (h1 : r ∉ ops1_W) (h2 : Proc.devRef (τ := τ) .tc r ≠ Proc.devRef .tc main_v20) :
    Wa1 V (Proc.devRef .tc r) = Wa0 V (Proc.devRef .tc r) := by
  unfold Wa1
  rw [ops1_keep (Wb0 V) r h1]
  unfold Wb0
  rw [Function.update_of_ne h2]

theorem wa1_v2 : Wa1 V (Proc.devRef .tc main_v2) = Wa0 V (Proc.devRef .tc main_v2) :=
  wa1_keep V main_v2 (by decide) (by decide)
theorem wa1_v7 : Wa1 V (Proc.devRef .tc main_v7) = Wa0 V (Proc.devRef .tc main_v7) :=
  wa1_keep V main_v7 (by decide) (by decide)
theorem wa1_v8 : Wa1 V (Proc.devRef .tc main_v8) = Wa0 V (Proc.devRef .tc main_v8) :=
  wa1_keep V main_v8 (by decide) (by decide)
theorem wa1_v12 : Wa1 V (Proc.devRef .tc main_v12) = Wa0 V (Proc.devRef .tc main_v12) :=
  wa1_keep V main_v12 (by decide) (by decide)

/-! ### The region's blocks read at an element -/

theorem idx_facts1_0 : ∀ t : Fin cfg1.N, win1_0.index t (0 : Fin 3) = 0 ∧ win1_0.index t (1 : Fin 3) = t.val ∧ win1_0.index t (2 : Fin 3) = 0 :=
  (by decide +kernel : ∀ t : Fin grid1.N, win1_0.index t (0 : Fin 3) = 0 ∧ win1_0.index t (1 : Fin 3) = t.val ∧ win1_0.index t (2 : Fin 3) = 0)

theorem idx_facts1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

theorem idx_facts1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem idx_facts1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem idx_facts1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem rd0 (X0 : Vec Ideal S32x10000x128 .f32) (t : Fin cfg1.N) (k : Fin 32) (r : Fin 400) (c : Fin 128) (n : Fin 10000)
    (hn : n.val = t.val * 400 + r.val) :
    ((cfg1.win 0).blk t).view.read (Elt Ideal) X0 (ix3 k r c) = X0 (ix3 k n c) := by
  obtain ⟨e0, e1, e2⟩ := idx_facts1_0 t
  show X0 (((cfg1.win 0).blk t).view.emb (ix3 k r c)) = _
  refine congrArg X0 (funext fun a => Fin.ext ?_)
  match a with
  | ⟨0, _⟩ => show win1_0.index t (0 : Fin 3) * 32 + 1 * k.val = k.val; omega
  | ⟨1, _⟩ => show win1_0.index t (1 : Fin 3) * 400 + 1 * r.val = n.val; omega
  | ⟨2, _⟩ => show win1_0.index t (2 : Fin 3) * 128 + 1 * c.val = c.val; omega

theorem rd1 (X1 : Vec Ideal S10000x128 .f32) (t : Fin cfg1.N) (r : Fin 400) (c : Fin 128) (n : Fin 10000)
    (hn : n.val = t.val * 400 + r.val) :
    ((cfg1.win 1).blk t).view.read (Elt Ideal) X1 (ix2 r c) = X1 (ix2 n c) := by
  obtain ⟨e0, e1⟩ := idx_facts1_1 t
  show X1 (((cfg1.win 1).blk t).view.emb (ix2 r c)) = _
  refine congrArg X1 (funext fun a => Fin.ext ?_)
  match a with
  | ⟨0, _⟩ => show win1_1.index t (0 : Fin 2) * 400 + 1 * r.val = n.val; omega
  | ⟨1, _⟩ => show win1_1.index t (1 : Fin 2) * 128 + 1 * c.val = c.val; omega

theorem rd2 (X2 : Vec Ideal S8x64 .f32) (t : Fin cfg1.N) (i : S8x64.Idx) :
    ((cfg1.win 2).blk t).view.read (Elt Ideal) X2 i = X2 i := by
  obtain ⟨e0, e1⟩ := idx_facts1_2 t
  show X2 (((cfg1.win 2).blk t).view.emb i) = _
  refine congrArg X2 (funext fun a => Fin.ext ?_)
  match a with
  | ⟨0, _⟩ => show win1_2.index t (0 : Fin 2) * 8 + 1 * (i 0).val = (i 0).val; omega
  | ⟨1, _⟩ => show win1_2.index t (1 : Fin 2) * 64 + 1 * (i 1).val = (i 1).val; omega

theorem rd3 (X3 : Vec Ideal S1x64 .f32) (t : Fin cfg1.N) (i : S1x64.Idx) :
    ((cfg1.win 3).blk t).view.read (Elt Ideal) X3 i = X3 i := by
  obtain ⟨e0, e1⟩ := idx_facts1_3 t
  show X3 (((cfg1.win 3).blk t).view.emb i) = _
  refine congrArg X3 (funext fun a => Fin.ext ?_)
  match a with
  | ⟨0, _⟩ => show win1_3.index t (0 : Fin 2) * 1 + 1 * (i 0).val = (i 0).val; omega
  | ⟨1, _⟩ => show win1_3.index t (1 : Fin 2) * 64 + 1 * (i 1).val = (i 1).val; omega

theorem rd4 (X4 : Vec Ideal S64x8 .bf16) (t : Fin cfg1.N) (i : S64x8.Idx) :
    ((cfg1.win 4).blk t).view.read (Elt Ideal) X4 i = X4 i := by
  obtain ⟨e0, e1⟩ := idx_facts1_4 t
  show X4 (((cfg1.win 4).blk t).view.emb i) = _
  refine congrArg X4 (funext fun a => Fin.ext ?_)
  match a with
  | ⟨0, _⟩ => show win1_4.index t (0 : Fin 2) * 64 + 1 * (i 0).val = (i 0).val; omega
  | ⟨1, _⟩ => show win1_4.index t (1 : Fin 2) * 8 + 1 * (i 1).val = (i 1).val; omega

/-! ### The first region's output array at an element -/

/-- The padded coordinates at one of the first three columns. -/
theorem wa0_v2_lo (n : Fin 10000) (a : Fin 3) :
    Wa0 V (Proc.devRef .tc main_v2) (ix2 n (PayloadSoftmax.lo3 (n := 128) (by decide) a)) = V (Proc.devRef .tc main_arg1) (ix2 n a) := by
  have h := ops0_v2_ideal V n (PayloadSoftmax.lo3 (n := 128) (by decide) a)
  have ha : (PayloadSoftmax.lo3 (n := 128) (by decide) a).val < 3 := a.isLt
  rw [dif_pos ha] at h
  exact h

/-- The padded first-layer weights at one of the first three rows. -/
theorem wa0_v7_lo (a : Fin 3) (j : Fin 64) :
    Wa0 V (Proc.devRef .tc main_v7) (ix2 (PayloadSoftmax.lo3 (n := 8) (by decide) a) j) = V (Proc.devRef .tc main_arg3) (ix2 a j) := by
  have h := ops0_v7_ideal V (PayloadSoftmax.lo3 (n := 8) (by decide) a) j
  have ha : (PayloadSoftmax.lo3 (n := 8) (by decide) a).val < 3 := a.isLt
  rw [dif_pos ha] at h
  exact h

theorem wa0_v8 (j : Fin 64) :
    Wa0 V (Proc.devRef .tc main_v8) (ix2 (0 : Fin 1) j) = V (Proc.devRef .tc main_arg4) (ix1 j) :=
  ops0_v8 V 0 j

theorem wa0_v12 (j : Fin 64) :
    Wa0 V (Proc.devRef .tc main_v12) (ix2 j (0 : Fin 8)) = V (Proc.devRef .tc main_arg5) (ix2 j (0 : Fin 1)) := by
  have h := ops0_v12_ideal V j (0 : Fin 8)
  rw [if_pos (show ((0 : Fin 8) : ℕ) = 0 from rfl)] at h
  exact h

/-- THE EDGE WEIGHTS the first region leaves, at row n and neighbour k, from the argument arrays. -/
theorem edge_core (hidx : ∀ j, (V (Proc.devRef .tc main_arg2) j).toNat < 10000) (n : Fin 10000) (k : Fin 32) :
    outArr1 (Wa1 V (Proc.devRef .tc main_v21)) (Wa1 V (Proc.devRef .tc main_v2)) (Wa1 V (Proc.devRef .tc main_v7))
        (Wa1 V (Proc.devRef .tc main_v8)) (Wa1 V (Proc.devRef .tc main_v12)) (ix2 n k)
      = Spec.edgeK (κ := Fin 32) (η := Fin 64) (Ideal.ofBits .f32 0x3F000000#32) (Ideal.ofBits .f32 0x3F3504F3#32)
          (fun k a => V (Proc.devRef .tc main_arg1) (ix2 (nbr (V (Proc.devRef .tc main_arg2)) hidx n k) a))
          (fun a => V (Proc.devRef .tc main_arg1) (ix2 n a))
          (fun a j => V (Proc.devRef .tc main_arg3) (ix2 a j))
          (fun j => V (Proc.devRef .tc main_arg4) (ix1 j))
          (fun j => V (Proc.devRef .tc main_arg5) (ix2 j (0 : Fin 1))) k := by
  have ht : (tOf1 (ix2 n k)).val = n.val / 400 := rfl
  have hj : jOf1 (ix2 n k) = ix2 (⟨n.val % 400, Nat.mod_lt _ (by decide)⟩ : Fin 400) k := by
    funext a
    match a with
    | ⟨0, _⟩ => rfl
    | ⟨1, _⟩ => rfl
  have hn : n.val = (tOf1 (ix2 n k)).val * 400 + (⟨n.val % 400, Nat.mod_lt _ (by decide)⟩ : Fin 400).val := by
    rw [ht]; show n.val = n.val / 400 * 400 + n.val % 400; omega
  unfold outArr1
  rw [hj, PayloadSoftmax.out1_apply]
  have e1 : (fun (k' : Fin 32) (a : Fin 3) =>
        ((cfg1.win 0).blk (tOf1 (ix2 n k))).view.read (Elt Ideal) (Wa1 V (Proc.devRef .tc main_v21))
          (ix3 k' (⟨n.val % 400, Nat.mod_lt _ (by decide)⟩ : Fin 400) (PayloadSoftmax.lo3 (n := 128) (by decide) a)))
      = fun k' a => V (Proc.devRef .tc main_arg1) (ix2 (nbr (V (Proc.devRef .tc main_arg2)) hidx n k') a) := by
    funext k' a
    rw [rd0 _ _ k' _ _ n hn, wa1_v21, wb0_v20 V hidx, wa0_v2_lo]
  have e2 : (fun (a : Fin 3) =>
        ((cfg1.win 1).blk (tOf1 (ix2 n k))).view.read (Elt Ideal) (Wa1 V (Proc.devRef .tc main_v2))
          (ix2 (⟨n.val % 400, Nat.mod_lt _ (by decide)⟩ : Fin 400) (PayloadSoftmax.lo3 (n := 128) (by decide) a)))
      = fun a => V (Proc.devRef .tc main_arg1) (ix2 n a) := by
    funext a
    rw [rd1 _ _ _ _ n hn, wa1_v2, wa0_v2_lo]
  have e3 : (fun (a : Fin 3) (j : Fin 64) =>
        ((cfg1.win 2).blk (tOf1 (ix2 n k))).view.read (Elt Ideal) (Wa1 V (Proc.devRef .tc main_v7))
          (ix2 (PayloadSoftmax.lo3 (n := 8) (by decide) a) j))
      = fun a j => V (Proc.devRef .tc main_arg3) (ix2 a j) := by
    funext a j
    rw [rd2, wa1_v7, wa0_v7_lo]
  have e4 : (fun (j : Fin 64) =>
        ((cfg1.win 3).blk (tOf1 (ix2 n k))).view.read (Elt Ideal) (Wa1 V (Proc.devRef .tc main_v8)) (ix2 (0 : Fin 1) j))
      = fun j => V (Proc.devRef .tc main_arg4) (ix1 j) := by
    funext j
    rw [rd3, wa1_v8, wa0_v8]
  have e5 : (fun (j : Fin 64) =>
        ((cfg1.win 4).blk (tOf1 (ix2 n k))).view.read (Elt Ideal) (Wa1 V (Proc.devRef .tc main_v12)) (ix2 j (0 : Fin 8)))
      = fun j => V (Proc.devRef .tc main_arg5) (ix2 j (0 : Fin 1)) := by
    funext j
    rw [rd4, wa1_v12, wa0_v12]
  rw [e1, e2, e3, e4, e5]

/-! ### The run's valuations: the edge weights, and what later items leave alone -/

section Run

variable (m : (ℓ : Loc nD τ sig) → Buf (Elt Ideal) ℓ) (d : Dev nD)

/-- THE EDGE WEIGHTS after the first region, element by element, from the launch's argument arrays. -/
theorem kedge (hidx : ∀ j, (ValsI.V0 m d (Proc.devRef .tc main_arg2) j).toNat < 10000) :
    Bridge.KEdgeA (ValsI.V0 m d (Proc.devRef .tc main_arg1)) (ValsI.V0 m d (Proc.devRef .tc main_arg2)) hidx
      (ValsI.V0 m d (Proc.devRef .tc main_arg3)) (ValsI.V0 m d (Proc.devRef .tc main_arg4))
      (ValsI.V0 m d (Proc.devRef .tc main_arg5)) (ValsI.Vr0 m d (Proc.devRef .tc main_v22)) := by
  intro n k
  have h : ValsI.Vr0 m d (Proc.devRef .tc main_v22)
      = outArr1 (Wa1 (ValsI.V0 m d) (Proc.devRef .tc main_v21)) (Wa1 (ValsI.V0 m d) (Proc.devRef .tc main_v2))
          (Wa1 (ValsI.V0 m d) (Proc.devRef .tc main_v7)) (Wa1 (ValsI.V0 m d) (Proc.devRef .tc main_v8))
          (Wa1 (ValsI.V0 m d) (Proc.devRef .tc main_v12)) := by
    unfold ValsI.Vr0
    rw [Function.update_self]
    exact final1 _ _ (ValsI.Va1 m d) d
  rw [h]
  exact edge_core (ValsI.V0 m d) hidx n k

/-- The flattened, transposed neighbour indices: entry 10000 k + n is the argument's entry (n, k). -/
theorem va0_v4 (k : Fin 32) (n : Fin 10000) :
    ValsI.Va0 m d (Proc.devRef .tc main_v4) (ix1 ⟨k.val * 10000 + n.val, by have := k.isLt; have := n.isLt; omega⟩)
      = ValsI.V0 m d (Proc.devRef .tc main_arg2) (ix2 n k) :=
  ops0_v4 (ValsI.V0 m d) k n

/-- Nothing is written between Va0 and itself. -/
def WA_Va0 : List (Ref sig .tc) := []

theorem keepA_Va0 (r : Ref sig .tc) (h : r ∉ WA_Va0) :
    ValsI.Va0 m d (Proc.devRef .tc r) = ValsI.Va0 m d (Proc.devRef .tc r) := rfl

/-- The buffers written between Va0 and Vb0. -/
def WA_Vb0 : List (Ref sig .tc) := main_v20 :: WA_Va0

theorem keepA_Vb0 (r : Ref sig .tc) (h : r ∉ WA_Vb0) :
    ValsI.Vb0 m d (Proc.devRef .tc r) = ValsI.Va0 m d (Proc.devRef .tc r) := by
  have hne : r ≠ main_v20 := fun e => h (by subst e; simp [WA_Vb0])
  have hp : r ∉ WA_Va0 := fun hm => h (by simp [WA_Vb0, hm])
  unfold ValsI.Vb0
  exact (Function.update_of_ne (devRef_ne_of_ne hne) _ _).trans (keepA_Va0 m d r hp)

/-- The buffers written between Va0 and Va1. -/
def WA_Va1 : List (Ref sig .tc) := ops1_W ++ WA_Vb0

theorem keepA_Va1 (r : Ref sig .tc) (h : r ∉ WA_Va1) :
    ValsI.Va1 m d (Proc.devRef .tc r) = ValsI.Va0 m d (Proc.devRef .tc r) := by
  have ho : r ∉ ops1_W := fun hm => h (by simp [WA_Va1, hm])
  have hp : r ∉ WA_Vb0 := fun hm => h (by simp [WA_Va1, hm])
  unfold ValsI.Va1
  exact (ops1_keep _ r ho).trans (keepA_Vb0 m d r hp)

/-- The buffers written between Va0 and Vr0. -/
def WA_Vr0 : List (Ref sig .tc) := main_v22 :: WA_Va1

theorem keepA_Vr0 (r : Ref sig .tc) (h : r ∉ WA_Vr0) :
    ValsI.Vr0 m d (Proc.devRef .tc r) = ValsI.Va0 m d (Proc.devRef .tc r) := by
  have hne : r ≠ main_v22 := fun e => h (by subst e; simp [WA_Vr0])
  have hp : r ∉ WA_Va1 := fun hm => h (by simp [WA_Vr0, hm])
  unfold ValsI.Vr0
  exact (Function.update_of_ne (devRef_ne_of_ne hne) _ _).trans (keepA_Va1 m d r hp)

/-- The buffers written between Va0 and Vb1. -/
def WA_Vb1 : List (Ref sig .tc) := main_v23 :: WA_Vr0

theorem keepA_Vb1 (r : Ref sig .tc) (h : r ∉ WA_Vb1) :
    ValsI.Vb1 m d (Proc.devRef .tc r) = ValsI.Va0 m d (Proc.devRef .tc r) := by
  have hne : r ≠ main_v23 := fun e => h (by subst e; simp [WA_Vb1])
  have hp : r ∉ WA_Vr0 := fun hm => h (by simp [WA_Vb1, hm])
  unfold ValsI.Vb1
  exact (Function.update_of_ne (devRef_ne_of_ne hne) _ _).trans (keepA_Vr0 m d r hp)

/-- The buffers written between Va0 and Va2. -/
def WA_Va2 : List (Ref sig .tc) := ops2_W ++ WA_Vb1

theorem keepA_Va2 (r : Ref sig .tc) (h : r ∉ WA_Va2) :
    ValsI.Va2 m d (Proc.devRef .tc r) = ValsI.Va0 m d (Proc.devRef .tc r) := by
  have ho : r ∉ ops2_W := fun hm => h (by simp [WA_Va2, hm])
  have hp : r ∉ WA_Vb1 := fun hm => h (by simp [WA_Va2, hm])
  unfold ValsI.Va2
  exact (ops2_keep _ r ho).trans (keepA_Vb1 m d r hp)

/-- The buffers written between Va0 and Vr1. -/
def WA_Vr1 : List (Ref sig .tc) := main_v35 :: WA_Va2

theorem keepA_Vr1 (r : Ref sig .tc) (h : r ∉ WA_Vr1) :
    ValsI.Vr1 m d (Proc.devRef .tc r) = ValsI.Va0 m d (Proc.devRef .tc r) := by
  have hne : r ≠ main_v35 := fun e => h (by subst e; simp [WA_Vr1])
  have hp : r ∉ WA_Va2 := fun hm => h (by simp [WA_Vr1, hm])
  unfold ValsI.Vr1
  exact (Function.update_of_ne (devRef_ne_of_ne hne) _ _).trans (keepA_Va2 m d r hp)

/-- The buffers written between Va0 and Vb2. -/
def WA_Vb2 : List (Ref sig .tc) := main_v36 :: WA_Vr1

theorem keepA_Vb2 (r : Ref sig .tc) (h : r ∉ WA_Vb2) :
    ValsI.Vb2 m d (Proc.devRef .tc r) = ValsI.Va0 m d (Proc.devRef .tc r) := by
  have hne : r ≠ main_v36 := fun e => h (by subst e; simp [WA_Vb2])
  have hp : r ∉ WA_Vr1 := fun hm => h (by simp [WA_Vb2, hm])
  unfold ValsI.Vb2
  exact (Function.update_of_ne (devRef_ne_of_ne hne) _ _).trans (keepA_Vr1 m d r hp)

/-- The buffers written between Va0 and Va3. -/
def WA_Va3 : List (Ref sig .tc) := ops3_W ++ WA_Vb2

theorem keepA_Va3 (r : Ref sig .tc) (h : r ∉ WA_Va3) :
    ValsI.Va3 m d (Proc.devRef .tc r) = ValsI.Va0 m d (Proc.devRef .tc r) := by
  have ho : r ∉ ops3_W := fun hm => h (by simp [WA_Va3, hm])
  have hp : r ∉ WA_Vb2 := fun hm => h (by simp [WA_Va3, hm])
  unfold ValsI.Va3
  exact (ops3_keep _ r ho).trans (keepA_Vb2 m d r hp)

/-- The buffers written between Va0 and Vr2. -/
def WA_Vr2 : List (Ref sig .tc) := main_v48 :: WA_Va3

theorem keepA_Vr2 (r : Ref sig .tc) (h : r ∉ WA_Vr2) :
    ValsI.Vr2 m d (Proc.devRef .tc r) = ValsI.Va0 m d (Proc.devRef .tc r) := by
  have hne : r ≠ main_v48 := fun e => h (by subst e; simp [WA_Vr2])
  have hp : r ∉ WA_Va3 := fun hm => h (by simp [WA_Vr2, hm])
  unfold ValsI.Vr2
  exact (Function.update_of_ne (devRef_ne_of_ne hne) _ _).trans (keepA_Va3 m d r hp)

/-- The buffers written between Va0 and Vb3. -/
def WA_Vb3 : List (Ref sig .tc) := main_v49 :: WA_Vr2

theorem keepA_Vb3 (r : Ref sig .tc) (h : r ∉ WA_Vb3) :
    ValsI.Vb3 m d (Proc.devRef .tc r) = ValsI.Va0 m d (Proc.devRef .tc r) := by
  have hne : r ≠ main_v49 := fun e => h (by subst e; simp [WA_Vb3])
  have hp : r ∉ WA_Vr2 := fun hm => h (by simp [WA_Vb3, hm])
  unfold ValsI.Vb3
  exact (Function.update_of_ne (devRef_ne_of_ne hne) _ _).trans (keepA_Vr2 m d r hp)

/-- The buffers written between Va0 and Va4. -/
def WA_Va4 : List (Ref sig .tc) := ops4_W ++ WA_Vb3

theorem keepA_Va4 (r : Ref sig .tc) (h : r ∉ WA_Va4) :
    ValsI.Va4 m d (Proc.devRef .tc r) = ValsI.Va0 m d (Proc.devRef .tc r) := by
  have ho : r ∉ ops4_W := fun hm => h (by simp [WA_Va4, hm])
  have hp : r ∉ WA_Vb3 := fun hm => h (by simp [WA_Va4, hm])
  unfold ValsI.Va4
  exact (ops4_keep _ r ho).trans (keepA_Vb3 m d r hp)

/-- The buffers written between Va0 and Vr3. -/
def WA_Vr3 : List (Ref sig .tc) := main_v61 :: WA_Va4

theorem keepA_Vr3 (r : Ref sig .tc) (h : r ∉ WA_Vr3) :
    ValsI.Vr3 m d (Proc.devRef .tc r) = ValsI.Va0 m d (Proc.devRef .tc r) := by
  have hne : r ≠ main_v61 := fun e => h (by subst e; simp [WA_Vr3])
  have hp : r ∉ WA_Va4 := fun hm => h (by simp [WA_Vr3, hm])
  unfold ValsI.Vr3
  exact (Function.update_of_ne (devRef_ne_of_ne hne) _ _).trans (keepA_Va4 m d r hp)

/-- The buffers written between Va0 and Vb4. -/
def WA_Vb4 : List (Ref sig .tc) := main_v62 :: WA_Vr3

theorem keepA_Vb4 (r : Ref sig .tc) (h : r ∉ WA_Vb4) :
    ValsI.Vb4 m d (Proc.devRef .tc r) = ValsI.Va0 m d (Proc.devRef .tc r) := by
  have hne : r ≠ main_v62 := fun e => h (by subst e; simp [WA_Vb4])
  have hp : r ∉ WA_Vr3 := fun hm => h (by simp [WA_Vb4, hm])
  unfold ValsI.Vb4
  exact (Function.update_of_ne (devRef_ne_of_ne hne) _ _).trans (keepA_Vr3 m d r hp)

/-- The buffers written between Va0 and Va5. -/
def WA_Va5 : List (Ref sig .tc) := ops5_W ++ WA_Vb4

theorem keepA_Va5 (r : Ref sig .tc) (h : r ∉ WA_Va5) :
    ValsI.Va5 m d (Proc.devRef .tc r) = ValsI.Va0 m d (Proc.devRef .tc r) := by
  have ho : r ∉ ops5_W := fun hm => h (by simp [WA_Va5, hm])
  have hp : r ∉ WA_Vb4 := fun hm => h (by simp [WA_Va5, hm])
  unfold ValsI.Va5
  exact (ops5_keep _ r ho).trans (keepA_Vb4 m d r hp)

/-- The buffers written between Va0 and Vr4. -/
def WA_Vr4 : List (Ref sig .tc) := main_v74 :: WA_Va5

theorem keepA_Vr4 (r : Ref sig .tc) (h : r ∉ WA_Vr4) :
    ValsI.Vr4 m d (Proc.devRef .tc r) = ValsI.Va0 m d (Proc.devRef .tc r) := by
  have hne : r ≠ main_v74 := fun e => h (by subst e; simp [WA_Vr4])
  have hp : r ∉ WA_Va5 := fun hm => h (by simp [WA_Vr4, hm])
  unfold ValsI.Vr4
  exact (Function.update_of_ne (devRef_ne_of_ne hne) _ _).trans (keepA_Va5 m d r hp)

/-- The buffers written between Va0 and Vb5. -/
def WA_Vb5 : List (Ref sig .tc) := main_v75 :: WA_Vr4

theorem keepA_Vb5 (r : Ref sig .tc) (h : r ∉ WA_Vb5) :
    ValsI.Vb5 m d (Proc.devRef .tc r) = ValsI.Va0 m d (Proc.devRef .tc r) := by
  have hne : r ≠ main_v75 := fun e => h (by subst e; simp [WA_Vb5])
  have hp : r ∉ WA_Vr4 := fun hm => h (by simp [WA_Vb5, hm])
  unfold ValsI.Vb5
  exact (Function.update_of_ne (devRef_ne_of_ne hne) _ _).trans (keepA_Vr4 m d r hp)

/-- The buffers written between Va0 and Va6. -/
def WA_Va6 : List (Ref sig .tc) := ops6_W ++ WA_Vb5

theorem keepA_Va6 (r : Ref sig .tc) (h : r ∉ WA_Va6) :
    ValsI.Va6 m d (Proc.devRef .tc r) = ValsI.Va0 m d (Proc.devRef .tc r) := by
  have ho : r ∉ ops6_W := fun hm => h (by simp [WA_Va6, hm])
  have hp : r ∉ WA_Vb5 := fun hm => h (by simp [WA_Va6, hm])
  unfold ValsI.Va6
  exact (ops6_keep _ r ho).trans (keepA_Vb5 m d r hp)

/-- The buffers written between Va0 and Vr5. -/
def WA_Vr5 : List (Ref sig .tc) := main_v87 :: WA_Va6

theorem keepA_Vr5 (r : Ref sig .tc) (h : r ∉ WA_Vr5) :
    ValsI.Vr5 m d (Proc.devRef .tc r) = ValsI.Va0 m d (Proc.devRef .tc r) := by
  have hne : r ≠ main_v87 := fun e => h (by subst e; simp [WA_Vr5])
  have hp : r ∉ WA_Va6 := fun hm => h (by simp [WA_Vr5, hm])
  unfold ValsI.Vr5
  exact (Function.update_of_ne (devRef_ne_of_ne hne) _ _).trans (keepA_Va6 m d r hp)

/-- Nothing is written between Vr0 and itself. -/
def WR_Vr0 : List (Ref sig .tc) := []

theorem keepR_Vr0 (r : Ref sig .tc) (h : r ∉ WR_Vr0) :
    ValsI.Vr0 m d (Proc.devRef .tc r) = ValsI.Vr0 m d (Proc.devRef .tc r) := rfl

/-- The buffers written between Vr0 and Vb1. -/
def WR_Vb1 : List (Ref sig .tc) := main_v23 :: WR_Vr0

theorem keepR_Vb1 (r : Ref sig .tc) (h : r ∉ WR_Vb1) :
    ValsI.Vb1 m d (Proc.devRef .tc r) = ValsI.Vr0 m d (Proc.devRef .tc r) := by
  have hne : r ≠ main_v23 := fun e => h (by subst e; simp [WR_Vb1])
  have hp : r ∉ WR_Vr0 := fun hm => h (by simp [WR_Vb1, hm])
  unfold ValsI.Vb1
  exact (Function.update_of_ne (devRef_ne_of_ne hne) _ _).trans (keepR_Vr0 m d r hp)

/-- The buffers written between Vr0 and Va2. -/
def WR_Va2 : List (Ref sig .tc) := ops2_W ++ WR_Vb1

theorem keepR_Va2 (r : Ref sig .tc) (h : r ∉ WR_Va2) :
    ValsI.Va2 m d (Proc.devRef .tc r) = ValsI.Vr0 m d (Proc.devRef .tc r) := by
  have ho : r ∉ ops2_W := fun hm => h (by simp [WR_Va2, hm])
  have hp : r ∉ WR_Vb1 := fun hm => h (by simp [WR_Va2, hm])
  unfold ValsI.Va2
  exact (ops2_keep _ r ho).trans (keepR_Vb1 m d r hp)

/-- The buffers written between Vr0 and Vr1. -/
def WR_Vr1 : List (Ref sig .tc) := main_v35 :: WR_Va2

theorem keepR_Vr1 (r : Ref sig .tc) (h : r ∉ WR_Vr1) :
    ValsI.Vr1 m d (Proc.devRef .tc r) = ValsI.Vr0 m d (Proc.devRef .tc r) := by
  have hne : r ≠ main_v35 := fun e => h (by subst e; simp [WR_Vr1])
  have hp : r ∉ WR_Va2 := fun hm => h (by simp [WR_Vr1, hm])
  unfold ValsI.Vr1
  exact (Function.update_of_ne (devRef_ne_of_ne hne) _ _).trans (keepR_Va2 m d r hp)

/-- The buffers written between Vr0 and Vb2. -/
def WR_Vb2 : List (Ref sig .tc) := main_v36 :: WR_Vr1

theorem keepR_Vb2 (r : Ref sig .tc) (h : r ∉ WR_Vb2) :
    ValsI.Vb2 m d (Proc.devRef .tc r) = ValsI.Vr0 m d (Proc.devRef .tc r) := by
  have hne : r ≠ main_v36 := fun e => h (by subst e; simp [WR_Vb2])
  have hp : r ∉ WR_Vr1 := fun hm => h (by simp [WR_Vb2, hm])
  unfold ValsI.Vb2
  exact (Function.update_of_ne (devRef_ne_of_ne hne) _ _).trans (keepR_Vr1 m d r hp)

/-- The buffers written between Vr0 and Va3. -/
def WR_Va3 : List (Ref sig .tc) := ops3_W ++ WR_Vb2

theorem keepR_Va3 (r : Ref sig .tc) (h : r ∉ WR_Va3) :
    ValsI.Va3 m d (Proc.devRef .tc r) = ValsI.Vr0 m d (Proc.devRef .tc r) := by
  have ho : r ∉ ops3_W := fun hm => h (by simp [WR_Va3, hm])
  have hp : r ∉ WR_Vb2 := fun hm => h (by simp [WR_Va3, hm])
  unfold ValsI.Va3
  exact (ops3_keep _ r ho).trans (keepR_Vb2 m d r hp)

/-- The buffers written between Vr0 and Vr2. -/
def WR_Vr2 : List (Ref sig .tc) := main_v48 :: WR_Va3

theorem keepR_Vr2 (r : Ref sig .tc) (h : r ∉ WR_Vr2) :
    ValsI.Vr2 m d (Proc.devRef .tc r) = ValsI.Vr0 m d (Proc.devRef .tc r) := by
  have hne : r ≠ main_v48 := fun e => h (by subst e; simp [WR_Vr2])
  have hp : r ∉ WR_Va3 := fun hm => h (by simp [WR_Vr2, hm])
  unfold ValsI.Vr2
  exact (Function.update_of_ne (devRef_ne_of_ne hne) _ _).trans (keepR_Va3 m d r hp)

/-- The buffers written between Vr0 and Vb3. -/
def WR_Vb3 : List (Ref sig .tc) := main_v49 :: WR_Vr2

theorem keepR_Vb3 (r : Ref sig .tc) (h : r ∉ WR_Vb3) :
    ValsI.Vb3 m d (Proc.devRef .tc r) = ValsI.Vr0 m d (Proc.devRef .tc r) := by
  have hne : r ≠ main_v49 := fun e => h (by subst e; simp [WR_Vb3])
  have hp : r ∉ WR_Vr2 := fun hm => h (by simp [WR_Vb3, hm])
  unfold ValsI.Vb3
  exact (Function.update_of_ne (devRef_ne_of_ne hne) _ _).trans (keepR_Vr2 m d r hp)

/-- The buffers written between Vr0 and Va4. -/
def WR_Va4 : List (Ref sig .tc) := ops4_W ++ WR_Vb3

theorem keepR_Va4 (r : Ref sig .tc) (h : r ∉ WR_Va4) :
    ValsI.Va4 m d (Proc.devRef .tc r) = ValsI.Vr0 m d (Proc.devRef .tc r) := by
  have ho : r ∉ ops4_W := fun hm => h (by simp [WR_Va4, hm])
  have hp : r ∉ WR_Vb3 := fun hm => h (by simp [WR_Va4, hm])
  unfold ValsI.Va4
  exact (ops4_keep _ r ho).trans (keepR_Vb3 m d r hp)

/-- The buffers written between Vr0 and Vr3. -/
def WR_Vr3 : List (Ref sig .tc) := main_v61 :: WR_Va4

theorem keepR_Vr3 (r : Ref sig .tc) (h : r ∉ WR_Vr3) :
    ValsI.Vr3 m d (Proc.devRef .tc r) = ValsI.Vr0 m d (Proc.devRef .tc r) := by
  have hne : r ≠ main_v61 := fun e => h (by subst e; simp [WR_Vr3])
  have hp : r ∉ WR_Va4 := fun hm => h (by simp [WR_Vr3, hm])
  unfold ValsI.Vr3
  exact (Function.update_of_ne (devRef_ne_of_ne hne) _ _).trans (keepR_Va4 m d r hp)

/-- The buffers written between Vr0 and Vb4. -/
def WR_Vb4 : List (Ref sig .tc) := main_v62 :: WR_Vr3

theorem keepR_Vb4 (r : Ref sig .tc) (h : r ∉ WR_Vb4) :
    ValsI.Vb4 m d (Proc.devRef .tc r) = ValsI.Vr0 m d (Proc.devRef .tc r) := by
  have hne : r ≠ main_v62 := fun e => h (by subst e; simp [WR_Vb4])
  have hp : r ∉ WR_Vr3 := fun hm => h (by simp [WR_Vb4, hm])
  unfold ValsI.Vb4
  exact (Function.update_of_ne (devRef_ne_of_ne hne) _ _).trans (keepR_Vr3 m d r hp)

/-- The buffers written between Vr0 and Va5. -/
def WR_Va5 : List (Ref sig .tc) := ops5_W ++ WR_Vb4

theorem keepR_Va5 (r : Ref sig .tc) (h : r ∉ WR_Va5) :
    ValsI.Va5 m d (Proc.devRef .tc r) = ValsI.Vr0 m d (Proc.devRef .tc r) := by
  have ho : r ∉ ops5_W := fun hm => h (by simp [WR_Va5, hm])
  have hp : r ∉ WR_Vb4 := fun hm => h (by simp [WR_Va5, hm])
  unfold ValsI.Va5
  exact (ops5_keep _ r ho).trans (keepR_Vb4 m d r hp)

/-- The buffers written between Vr0 and Vr4. -/
def WR_Vr4 : List (Ref sig .tc) := main_v74 :: WR_Va5

theorem keepR_Vr4 (r : Ref sig .tc) (h : r ∉ WR_Vr4) :
    ValsI.Vr4 m d (Proc.devRef .tc r) = ValsI.Vr0 m d (Proc.devRef .tc r) := by
  have hne : r ≠ main_v74 := fun e => h (by subst e; simp [WR_Vr4])
  have hp : r ∉ WR_Va5 := fun hm => h (by simp [WR_Vr4, hm])
  unfold ValsI.Vr4
  exact (Function.update_of_ne (devRef_ne_of_ne hne) _ _).trans (keepR_Va5 m d r hp)

/-- The buffers written between Vr0 and Vb5. -/
def WR_Vb5 : List (Ref sig .tc) := main_v75 :: WR_Vr4

theorem keepR_Vb5 (r : Ref sig .tc) (h : r ∉ WR_Vb5) :
    ValsI.Vb5 m d (Proc.devRef .tc r) = ValsI.Vr0 m d (Proc.devRef .tc r) := by
  have hne : r ≠ main_v75 := fun e => h (by subst e; simp [WR_Vb5])
  have hp : r ∉ WR_Vr4 := fun hm => h (by simp [WR_Vb5, hm])
  unfold ValsI.Vb5
  exact (Function.update_of_ne (devRef_ne_of_ne hne) _ _).trans (keepR_Vr4 m d r hp)

/-- The buffers written between Vr0 and Va6. -/
def WR_Va6 : List (Ref sig .tc) := ops6_W ++ WR_Vb5

theorem keepR_Va6 (r : Ref sig .tc) (h : r ∉ WR_Va6) :
    ValsI.Va6 m d (Proc.devRef .tc r) = ValsI.Vr0 m d (Proc.devRef .tc r) := by
  have ho : r ∉ ops6_W := fun hm => h (by simp [WR_Va6, hm])
  have hp : r ∉ WR_Vb5 := fun hm => h (by simp [WR_Va6, hm])
  unfold ValsI.Va6
  exact (ops6_keep _ r ho).trans (keepR_Vb5 m d r hp)

/-- The buffers written between Vr0 and Vr5. -/
def WR_Vr5 : List (Ref sig .tc) := main_v87 :: WR_Va6

theorem keepR_Vr5 (r : Ref sig .tc) (h : r ∉ WR_Vr5) :
    ValsI.Vr5 m d (Proc.devRef .tc r) = ValsI.Vr0 m d (Proc.devRef .tc r) := by
  have hne : r ≠ main_v87 := fun e => h (by subst e; simp [WR_Vr5])
  have hp : r ∉ WR_Va6 := fun hm => h (by simp [WR_Vr5, hm])
  unfold ValsI.Vr5
  exact (Function.update_of_ne (devRef_ne_of_ne hne) _ _).trans (keepR_Va6 m d r hp)

end Run

end Cert.Proof.KernelReadEdge

end
-- ==== Proof.PayloadStep.lean ====
/-
  The step body's output block read at one element: row r, lane d of the block is one row of the update step — the
  weighted sum of the 32 gathered neighbour rows, the gate through the logistic of the four partial contractions, the
  gated update, and the normalisation over the 128 lanes — written the first way (Spec.stepK), on the extended reals, of
  the eight input blocks' elements.
-/
import proofs.«205547_g25623774888366_cont_9to1_713_27_alg».proof.Proof.StepBody
import proofs.«205547_g25623774888366_cont_9to1_713_27_alg».proof.Proof.SpecLaws
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Proof.PayloadStep

open Cert.KernelIdeal Cert.KernelIdeal.Gen
open Idealize.ShloMosaic Idealize.ShloMosaic.ValueIdx
open Cert.Proof.StepBody
open scoped BigOperators

/-! ## Layout operations at an index, in the forms this body meets -/

section Layout
variable {α : Type}

theorem hz2 : (![0, 0] : Fin 2 → Nat) = fun _ => 0 := funext fun a => by fin_cases a <;> rfl

/-- An `[a]` vector cast to `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    have := u.isLt; omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of a `[400, 32]` block, broadcast over the 128 lanes, reads at `(r, d)` the block at `(r, o)`. -/
theorem wcol_apply (X : (⟨2, ![400, 32]⟩ : Shape).Idx → α) (o : Nat) (ho : o < 32) (hs : S400x32.Slices ![0, o] S400x1)
    (hb : S400x1.Broadcasts S400x128) (r : Fin 400) (d : Fin 128) :
    broadcastTo S400x128 (extractStridedSlice S400x1 ![0, o] X hs) hb (ix2 r d) = X (ix2 r (⟨o, ho⟩ : Fin 32)) :=
  (broadcastTo_a1_ab_apply _ hb r d).trans (slice2_axis1_apply o X hs r (0 : Fin 1) ⟨o, ho⟩ rfl)

/-- Slab `o` of the `[32, 400, 128]` block, viewed `[400, 128]`, reads at `(r, d)` the block at `(o, r, d)`. -/
theorem nbr_apply {Val : EltTy → Type} {e : EltTy} (X : (⟨3, ![32, 400, 128]⟩ : Shape).Idx → Val e) (o : Nat) (ho : o < 32)
    (inb : ∀ a, (![o, 0, 0] : Fin 3 → Nat) a + S1x400x128.size a ≤ S32x400x128.size a)
    (hc : S1x400x128.ShapeCasts S400x128) (r : Fin 400) (d : Fin 128) :
    shapeCast S400x128 (View.ld X (Rect.unit (s := S32x400x128) ![o, 0, 0] S1x400x128.size inb)) hc (ix2 r d)
      = X (ix3 (⟨o, ho⟩ : Fin 32) r d) := by
  refine (shapeCast_1ab_ab_apply _ hc r d).trans ?_
  show X ((Rect.unit (s := S32x400x128) ![o, 0, 0] S1x400x128.size inb).emb (ix3 (0 : Fin 1) r d)) = _
  refine congrArg X (funext fun a => Fin.ext ?_)
  rw [Rect.emb_apply]
  match a with
  | ⟨0, _⟩ => show o + 1 * 0 = o; omega
  | ⟨1, _⟩ => show 0 + 1 * r.val = r.val; omega
  | ⟨2, _⟩ => show 0 + 1 * d.val = d.val; omega

end Layout

/-! ## The weighted neighbour sum -/

set_option maxHeartbeats 1000000 in
/-- The aggregate at `(r, d)`: the 32 products neighbour slab × edge weight, summed. -/
theorem agg_apply (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    s3_5_0 (F := Ideal) x0 x1 x2 x3 x4 x5 x6 x7 (ix2 r d) = ∑ k : Fin 32, x0 (ix3 k r d) * x1 (ix2 r k) := by
  rw [← Spec.sum32_left]
  unfold s3_5_0 s3_4_0 s3_3_0 s3_3_1 s3_2_0 s3_2_1 s3_1_1 s3_1_0 k3_pay9 k3_pay8 k3_pay7 k3_pay6 k3_pay5 k3_pay4 k3_pay3 k3_pay2
  simp (disch := decide) only [addf_apply, mulf_apply, shapeCast_self, nbr_apply, wcol_apply, r3_0, View.ld_unit_zero (S := S400x32) hz2]
  rfl

/-! ## The non-pointwise operations at an index -/

section AtIdeal
variable {s : Shape} {φ : FTy}

/-- A logistic at an index is the logistic of the element … -/
theorem logistic_apply (a : FVec Ideal s φ) (i : s.Idx) : logistic a i = Ideal.logistic (a i) := rfl
/-- … and a reciprocal square root the reciprocal square root of the element. -/
theorem rsqrt_apply (a : FVec Ideal s φ) (i : s.Idx) : rsqrt a i = Ideal.rsqrt (a i) := rfl

end AtIdeal

/-- A lane sum of a `[400, 128]` block, at row `r`: the sum over the 128 lanes of that row. -/
theorem rowsum_apply (src : FVec Ideal S400x128 .f32) (h : S400x128.Reduces [1] S400) (hφ : FTy.f32 = FTy.f32 ∨ FTy.f32 = FTy.bf16)
    (hacc : (0x00000000#32 : BitVec 32) = 0x00000000#32) (r : Fin 400) :
    multiReduction .add [1] S400 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a; apply Fin.ext
  match a with
  | ⟨0, _⟩ => rfl
  | ⟨1, _⟩ => rfl

/-- The body's matrix product from a zero accumulator, at `(r, d)`: the sum over the contracted lane. -/
theorem mm_apply {φ₁ φ₂ : FTy} (A : FVec Ideal S400x128 φ₁) (B : FVec Ideal S128x128 φ₂) (r : Fin 400) (d : Fin 128) :
    matmul dot_S400x128_S128x128_S400x128_1_0_0_1_n_n none A B (constant S400x128 .f32 0x00000000#32) (ix2 r d)
      = ∑ j : Fin 128, A (ix2 r j) * B (ix2 j d) := by
  show FloatOps.matmul dot_S400x128_S128x128_S400x128_1_0_0_1_n_n none A B (constant S400x128 .f32 0x00000000#32) (ix2 r d) = _
  rw [Ideal.matmul_constant_zero_apply, ← Equiv.sum_comp (contrEquiv1 dot_S400x128_S128x128_S400x128_1_0_0_1_n_n 128 rfl rfl).symm]
  refine Finset.sum_congr rfl fun c _ => ?_
  have c2 := contrEquiv1_symm_val dot_S400x128_S128x128_S400x128_1_0_0_1_n_n 128 rfl rfl c
  have l2 : (dot_S400x128_S128x128_S400x128_1_0_0_1_n_n).lhsIdx (ix2 r d) ((contrEquiv1 _ 128 rfl rfl).symm c) = ix2 r c := by
    funext ax; apply Fin.ext
    match ax with
    | ⟨0, _⟩ => simp [DotDims.lhsIdx, dot_S400x128_S128x128_S400x128_1_0_0_1_n_n]; rfl
    | ⟨1, _⟩ => simp [DotDims.lhsIdx, dot_S400x128_S128x128_S400x128_1_0_0_1_n_n]; exact c2
  have r2 : (dot_S400x128_S128x128_S400x128_1_0_0_1_n_n).rhsIdx (ix2 r d) ((contrEquiv1 _ 128 rfl rfl).symm c) = ix2 c d := by
    funext ax; apply Fin.ext
    match ax with
    | ⟨0, _⟩ => simp [DotDims.rhsIdx, dot_S400x128_S128x128_S400x128_1_0_0_1_n_n]; exact c2
    | ⟨1, _⟩ => simp [DotDims.rhsIdx, dot_S400x128_S128x128_S400x128_1_0_0_1_n_n]; rfl
  rw [l2, r2]

/-- The last part's aggregate, rounded to the narrow format, is the aggregate. -/
theorem s3_5_4_eq (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) :
    s3_5_4 (F := Ideal) x0 x1 x2 x3 x4 x5 x6 x7 = truncf .bf16 (s3_5_0 (F := Ideal) x0 x1 x2 x3 x4 x5 x6 x7) bitsLt_bf16_f32 := rfl

set_option maxHeartbeats 2000000 in
/-- Element (r, d) of the step body's output block is lane d of one update step of row r. -/
theorem out3_8_apply (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    out3_8 (F := Ideal) x0 x1 x2 x3 x4 x5 x6 x7 (ix2 r d)
      = Spec.stepK (ι := Fin 128) (κ := Fin 32) (Ideal.ofBits .f32 0x43000000#32) (Ideal.ofBits .f32 0x3727C5AC#32)
          (fun d => x2 (ix2 r d)) (fun k d => x0 (ix3 k r d)) (fun k => x1 (ix2 r k))
          (fun j d => x3 (ix2 j d)) (fun j d => x4 (ix2 j d))
          (fun d => x5 (ix2 (0 : Fin 1) d)) (fun d => x6 (ix2 (0 : Fin 1) d)) (fun d => x7 (ix2 (0 : Fin 1) d)) d := by
  unfold out3_8
  rw [View.canon_unit_zero hz2]
  unfold k3_pay1 s3_6_0 k3_pay13
  rw [s3_5_4_eq]
  unfold s3_5_1 s3_5_2 s3_5_3 k3_pay10 k3_pay11
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply]
  try rw [rowsum_apply]
  try simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply]
  rfl

/-! ## custom_call 5: the weighted neighbour sum and the block at an element -/

set_option maxHeartbeats 1000000 in
/-- The aggregate at `(r, d)`: the 32 products neighbour slab × edge weight, summed. -/
theorem agg_apply5 (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    s5_5_0 (F := Ideal) x0 x1 x2 x3 x4 x5 x6 x7 (ix2 r d) = ∑ k : Fin 32, x0 (ix3 k r d) * x1 (ix2 r k) := by
  rw [← Spec.sum32_left]
  unfold s5_5_0 s5_4_0 s5_3_0 s5_3_1 s5_2_0 s5_2_1 s5_1_1 s5_1_0 k5_pay9 k5_pay8 k5_pay7 k5_pay6 k5_pay5 k5_pay4 k5_pay3 k5_pay2
  simp (disch := decide) only [addf_apply, mulf_apply, shapeCast_self, nbr_apply, wcol_apply, r5_0, View.ld_unit_zero (S := S400x32) hz2]
  rfl

set_option maxHeartbeats 2000000 in
/-- Element (r, d) of step body 5's output block is lane d of one update step of row r. -/
theorem out5_8_apply (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    out5_8 (F := Ideal) x0 x1 x2 x3 x4 x5 x6 x7 (ix2 r d)
      = Spec.stepK (ι := Fin 128) (κ := Fin 32) (Ideal.ofBits .f32 0x43000000#32) (Ideal.ofBits .f32 0x3727C5AC#32)
          (fun d => x2 (ix2 r d)) (fun k d => x0 (ix3 k r d)) (fun k => x1 (ix2 r k))
          (fun j d => x3 (ix2 j d)) (fun j d => x4 (ix2 j d))
          (fun d => x5 (ix2 (0 : Fin 1) d)) (fun d => x6 (ix2 (0 : Fin 1) d)) (fun d => x7 (ix2 (0 : Fin 1) d)) d := by
  unfold out5_8
  rw [View.canon_unit_zero hz2]
  unfold k5_pay1 s5_6_0 k5_pay13 s5_5_1 s5_5_2 s5_5_3 k5_pay11 k5_pay12 k5_pay10
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply5]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply5]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply5]
  try rw [rowsum_apply]
  try simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply5]
  rfl

/-! ## custom_call 7: the weighted neighbour sum and the block at an element -/

set_option maxHeartbeats 1000000 in
/-- The aggregate at `(r, d)`: the 32 products neighbour slab × edge weight, summed. -/
theorem agg_apply7 (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    s7_5_0 (F := Ideal) x0 x1 x2 x3 x4 x5 x6 x7 (ix2 r d) = ∑ k : Fin 32, x0 (ix3 k r d) * x1 (ix2 r k) := by
  rw [← Spec.sum32_left]
  unfold s7_5_0 s7_4_0 s7_3_0 s7_3_1 s7_2_0 s7_2_1 s7_1_1 s7_1_0 k7_pay9 k7_pay8 k7_pay7 k7_pay6 k7_pay5 k7_pay4 k7_pay3 k7_pay2
  simp (disch := decide) only [addf_apply, mulf_apply, shapeCast_self, nbr_apply, wcol_apply, r7_0, View.ld_unit_zero (S := S400x32) hz2]
  rfl

set_option maxHeartbeats 2000000 in
/-- Element (r, d) of step body 7's output block is lane d of one update step of row r. -/
theorem out7_8_apply (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    out7_8 (F := Ideal) x0 x1 x2 x3 x4 x5 x6 x7 (ix2 r d)
      = Spec.stepK (ι := Fin 128) (κ := Fin 32) (Ideal.ofBits .f32 0x43000000#32) (Ideal.ofBits .f32 0x3727C5AC#32)
          (fun d => x2 (ix2 r d)) (fun k d => x0 (ix3 k r d)) (fun k => x1 (ix2 r k))
          (fun j d => x3 (ix2 j d)) (fun j d => x4 (ix2 j d))
          (fun d => x5 (ix2 (0 : Fin 1) d)) (fun d => x6 (ix2 (0 : Fin 1) d)) (fun d => x7 (ix2 (0 : Fin 1) d)) d := by
  unfold out7_8
  rw [View.canon_unit_zero hz2]
  unfold k7_pay1 s7_6_0 k7_pay13 s7_5_1 s7_5_2 s7_5_3 k7_pay11 k7_pay12 k7_pay10
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply7]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply7]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply7]
  try rw [rowsum_apply]
  try simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply7]
  rfl

/-! ## custom_call 9: the weighted neighbour sum and the block at an element -/

set_option maxHeartbeats 1000000 in
/-- The aggregate at `(r, d)`: the 32 products neighbour slab × edge weight, summed. -/
theorem agg_apply9 (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    s9_5_0 (F := Ideal) x0 x1 x2 x3 x4 x5 x6 x7 (ix2 r d) = ∑ k : Fin 32, x0 (ix3 k r d) * x1 (ix2 r k) := by
  rw [← Spec.sum32_left]
  unfold s9_5_0 s9_4_0 s9_3_0 s9_3_1 s9_2_0 s9_2_1 s9_1_1 s9_1_0 k9_pay9 k9_pay8 k9_pay7 k9_pay6 k9_pay5 k9_pay4 k9_pay3 k9_pay2
  simp (disch := decide) only [addf_apply, mulf_apply, shapeCast_self, nbr_apply, wcol_apply, r9_0, View.ld_unit_zero (S := S400x32) hz2]
  rfl

set_option maxHeartbeats 2000000 in
/-- Element (r, d) of step body 9's output block is lane d of one update step of row r. -/
theorem out9_8_apply (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    out9_8 (F := Ideal) x0 x1 x2 x3 x4 x5 x6 x7 (ix2 r d)
      = Spec.stepK (ι := Fin 128) (κ := Fin 32) (Ideal.ofBits .f32 0x43000000#32) (Ideal.ofBits .f32 0x3727C5AC#32)
          (fun d => x2 (ix2 r d)) (fun k d => x0 (ix3 k r d)) (fun k => x1 (ix2 r k))
          (fun j d => x3 (ix2 j d)) (fun j d => x4 (ix2 j d))
          (fun d => x5 (ix2 (0 : Fin 1) d)) (fun d => x6 (ix2 (0 : Fin 1) d)) (fun d => x7 (ix2 (0 : Fin 1) d)) d := by
  unfold out9_8
  rw [View.canon_unit_zero hz2]
  unfold k9_pay1 s9_6_0 k9_pay13 s9_5_1 s9_5_2 s9_5_3 k9_pay11 k9_pay12 k9_pay10
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply9]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply9]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply9]
  try rw [rowsum_apply]
  try simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply9]
  rfl

/-! ## custom_call 11: the weighted neighbour sum and the block at an element -/

set_option maxHeartbeats 1000000 in
/-- The aggregate at `(r, d)`: the 32 products neighbour slab × edge weight, summed. -/
theorem agg_apply11 (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    s11_5_0 (F := Ideal) x0 x1 x2 x3 x4 x5 x6 x7 (ix2 r d) = ∑ k : Fin 32, x0 (ix3 k r d) * x1 (ix2 r k) := by
  rw [← Spec.sum32_left]
  unfold s11_5_0 s11_4_0 s11_3_0 s11_3_1 s11_2_0 s11_2_1 s11_1_1 s11_1_0 k11_pay9 k11_pay8 k11_pay7 k11_pay6 k11_pay5 k11_pay4 k11_pay3 k11_pay2
  simp (disch := decide) only [addf_apply, mulf_apply, shapeCast_self, nbr_apply, wcol_apply, r11_0, View.ld_unit_zero (S := S400x32) hz2]
  rfl

set_option maxHeartbeats 2000000 in
/-- Element (r, d) of step body 11's output block is lane d of one update step of row r. -/
theorem out11_8_apply (x0 : Vec Ideal S32x400x128 .f32) (x1 : Vec Ideal S400x32 .f32) (x2 : Vec Ideal S400x128 .f32) (x3 : Vec Ideal S128x128 .bf16) (x4 : Vec Ideal S128x128 .bf16) (x5 : Vec Ideal S1x128 .f32) (x6 : Vec Ideal S1x128 .f32) (x7 : Vec Ideal S1x128 .f32) (r : Fin 400) (d : Fin 128) :
    out11_8 (F := Ideal) x0 x1 x2 x3 x4 x5 x6 x7 (ix2 r d)
      = Spec.stepK (ι := Fin 128) (κ := Fin 32) (Ideal.ofBits .f32 0x43000000#32) (Ideal.ofBits .f32 0x3727C5AC#32)
          (fun d => x2 (ix2 r d)) (fun k d => x0 (ix3 k r d)) (fun k => x1 (ix2 r k))
          (fun j d => x3 (ix2 j d)) (fun j d => x4 (ix2 j d))
          (fun d => x5 (ix2 (0 : Fin 1) d)) (fun d => x6 (ix2 (0 : Fin 1) d)) (fun d => x7 (ix2 (0 : Fin 1) d)) d := by
  unfold out11_8
  rw [View.canon_unit_zero hz2]
  unfold k11_pay1 s11_6_0 k11_pay13 s11_5_1 s11_5_2 s11_5_3 k11_pay11 k11_pay12 k11_pay10
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply11]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply11]
  rw [rowsum_apply]
  simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply11]
  try rw [rowsum_apply]
  try simp only [addf_apply, mulf_apply, subf_apply, divf_apply, broadcast_apply, truncf_apply, logistic_apply, rsqrt_apply,
    shapeCast_self, broadcastTo_1b_ab_apply, broadcastTo_a1_ab_apply, shapeCast_a_a1_apply, mm_apply,
    View.ld_unit_zero (S := S400x128) hz2, View.ld_unit_zero (S := S128x128) hz2, View.ld_unit_zero (S := S1x128) hz2, agg_apply11]
  rfl

end Cert.Proof.PayloadStep

end
-- ==== Proof.KernelReadStep.lean ====
/-
  The update steps read off the run at an element: each step call's output array, at row n and lane e, is lane e of one
  update step of row n — over the array before it, its rows at the 32 neighbours of n, row n of the edge weights and the
  step's parameters read off the argument arrays.
-/
import proofs.«205547_g25623774888366_cont_9to1_713_27_alg».proof.Proof.ValsI
import proofs.«205547_g25623774888366_cont_9to1_713_27_alg».proof.Proof.HostGlue
import proofs.«205547_g25623774888366_cont_9to1_713_27_alg».proof.Proof.PayloadStep
import proofs.«205547_g25623774888366_cont_9to1_713_27_alg».proof.Proof.RefRead
import Idealize.ShloMosaic.Lib.ValueIdx
import Idealize.ShloMosaic.Lib.Pipeline.Value

set_option maxRecDepth 16384

noncomputable section

namespace Cert.Proof.KernelReadStep

open Cert.KernelIdeal Cert.KernelIdeal.Gen
open Idealize.ShloMosaic Idealize.ShloMosaic.ValueIdx Idealize.ShloMosaic.StableHlo Idealize.SL.Sem
open Idealize.ShloMosaic.SparseCore.Cfg (HIx)
open Cert.Proof.StepBody
open Cert.Proof.HostGlue Cert.Proof.ValsI Cert.Proof.PayloadStep
open scoped BigOperators

/-- The row within its block of 400. -/
def rOf (n : Fin 10000) : Fin 400 := ⟨n.val % 400, Nat.mod_lt _ (by decide)⟩

/-! ## custom_call 3: the output array at an element, from the input arrays at elements -/

section Read3

/-- The grid point whose blocks hold row `n`. -/
def tOf3 (n : Fin 10000) : Fin cfg3.N :=
  ⟨n.val / 400, by rw [show cfg3.N = 25 from N_3]; have := n.isLt; omega⟩

/-- The windows' block indices at point `t`: the row blocks follow the point, every other axis is whole. -/
theorem idx3_0 : ∀ t : Fin cfg3.N, win3_0.index t (0 : Fin 3) = 0 ∧ win3_0.index t (1 : Fin 3) = t.val ∧ win3_0.index t (2 : Fin 3) = 0 :=
  (by decide +kernel : ∀ t : Fin grid3.N, win3_0.index t (0 : Fin 3) = 0 ∧ win3_0.index t (1 : Fin 3) = t.val ∧ win3_0.index t (2 : Fin 3) = 0)
theorem idx3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem idx3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem idx3_8 : ∀ t : Fin cfg3.N, win3_8.index t (0 : Fin 2) = t.val ∧ win3_8.index t (1 : Fin 2) = 0 :=
  (by decide +kernel : ∀ t : Fin grid3.N, win3_8.index t (0 : Fin 2) = t.val ∧ win3_8.index t (1 : Fin 2) = 0)
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem idx3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx3_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)
theorem idx3_7 : ∀ t : Fin cfg3.N, win3_7.index t (0 : Fin 2) = 0 ∧ win3_7.index t (1 : Fin 2) = 0 :=
  (by decide +kernel : ∀ t : Fin grid3.N, win3_7.index t (0 : Fin 2) = 0 ∧ win3_7.index t (1 : Fin 2) = 0)

variable (O : CellTallies nD τ sig (HIx 6)) (R : Set (SemLoc sig × HIx 6)) (V : Valuation τ sig (Elt Ideal)) (c : Dev nD)

/-- Row `n % 400` of the blocks at point `n / 400` is row `n` of the arrays. -/
theorem iblk3_0_apply (n : Fin 10000) (k : Fin 32) (e : Fin 128) :
    iblk3 V c 0 (tOf3 n) (ix3 k (rOf n) e) = V (Proc.devRef .tc main_v24) (ix3 k n e) := by
  obtain ⟨e0, e1, e2⟩ := idx3_0 (tOf3 n)
  have ht : (tOf3 n).val = n.val / 400 := rfl
  show V (Proc.devRef .tc main_v24) (((cfg3.win 0).blk (tOf3 n)).view.emb (ix3 k (rOf n) e)) = _
  refine congrArg _ ?_
  funext a; apply Fin.ext
  match a with
  | ⟨0, _⟩ => show win3_0.index (tOf3 n) (0 : Fin 3) * 32 + 1 * k.val = k.val; omega
  | ⟨1, _⟩ => show win3_0.index (tOf3 n) (1 : Fin 3) * 400 + 1 * (n.val % 400) = n.val; omega
  | ⟨2, _⟩ => show win3_0.index (tOf3 n) (2 : Fin 3) * 128 + 1 * e.val = e.val; omega
theorem iblk3_1_apply (n : Fin 10000) (e : Fin 32) :
    iblk3 V c 1 (tOf3 n) (ix2 (rOf n) e) = V (Proc.devRef .tc main_v22) (ix2 n e) := by
  obtain ⟨e0, e1⟩ := idx3_1 (tOf3 n)
  have ht : (tOf3 n).val = n.val / 400 := rfl
  show V (Proc.devRef .tc main_v22) (((cfg3.win 1).blk (tOf3 n)).view.emb (ix2 (rOf n) e)) = _
  refine congrArg _ ?_
  funext a; apply Fin.ext
  match a with
  | ⟨0, _⟩ => show win3_1.index (tOf3 n) (0 : Fin 2) * 400 + 1 * (n.val % 400) = n.val; omega
  | ⟨1, _⟩ => show win3_1.index (tOf3 n) (1 : Fin 2) * 32 + 1 * e.val = e.val; omega
theorem iblk3_2_apply (n : Fin 10000) (e : Fin 128) :
    iblk3 V c 2 (tOf3 n) (ix2 (rOf n) e) = V (Proc.devRef .tc main_arg0) (ix2 n e) := by
  obtain ⟨e0, e1⟩ := idx3_2 (tOf3 n)
  have ht : (tOf3 n).val = n.val / 400 := rfl
  show V (Proc.devRef .tc main_arg0) (((cfg3.win 2).blk (tOf3 n)).view.emb (ix2 (rOf n) e)) = _
  refine congrArg _ ?_
  funext a; apply Fin.ext
  match a with
  | ⟨0, _⟩ => show win3_2.index (tOf3 n) (0 : Fin 2) * 400 + 1 * (n.val % 400) = n.val; omega
  | ⟨1, _⟩ => show win3_2.index (tOf3 n) (1 : Fin 2) * 128 + 1 * e.val = e.val; omega
theorem iblk3_3_apply (t : Fin cfg3.N) (j : Fin 128) (e : Fin 128) :
    iblk3 V c 3 t (ix2 j e) = V (Proc.devRef .tc main_v26) (ix2 j e) := by
  obtain ⟨e0, e1⟩ := idx3_3 t
  show V (Proc.devRef .tc main_v26) (((cfg3.win 3).blk t).view.emb (ix2 j e)) = _
  refine congrArg _ ?_
  funext a; apply Fin.ext
  match a with
  | ⟨0, _⟩ => show win3_3.index t (0 : Fin 2) * 128 + 1 * j.val = j.val; omega
  | ⟨1, _⟩ => show win3_3.index t (1 : Fin 2) * 128 + 1 * e.val = e.val; omega
theorem iblk3_4_apply (t : Fin cfg3.N) (j : Fin 128) (e : Fin 128) :
    iblk3 V c 4 t (ix2 j e) = V (Proc.devRef .tc main_v28) (ix2 j e) := by
  obtain ⟨e0, e1⟩ := idx3_4 t
  show V (Proc.devRef .tc main_v28) (((cfg3.win 4).blk t).view.emb (ix2 j e)) = _
  refine congrArg _ ?_
  funext a; apply Fin.ext
  match a with
  | ⟨0, _⟩ => show win3_4.index t (0 : Fin 2) * 128 + 1 * j.val = j.val; omega
  | ⟨1, _⟩ => show win3_4.index t (1 : Fin 2) * 128 + 1 * e.val = e.val; omega
theorem iblk3_5_apply (t : Fin cfg3.N) (j : Fin 1) (e : Fin 128) :
    iblk3 V c 5 t (ix2 j e) = V (Proc.devRef .tc main_v30) (ix2 j e) := by
  obtain ⟨e0, e1⟩ := idx3_5 t
  show V (Proc.devRef .tc main_v30) (((cfg3.win 5).blk t).view.emb (ix2 j e)) = _
  refine congrArg _ ?_
  funext a; apply Fin.ext
  match a with
  | ⟨0, _⟩ => show win3_5.index t (0 : Fin 2) * 1 + 1 * j.val = j.val; omega
  | ⟨1, _⟩ => show win3_5.index t (1 : Fin 2) * 128 + 1 * e.val = e.val; omega
theorem iblk3_6_apply (t : Fin cfg3.N) (j : Fin 1) (e : Fin 128) :
    iblk3 V c 6 t (ix2 j e) = V (Proc.devRef .tc main_v32) (ix2 j e) := by
  obtain ⟨e0, e1⟩ := idx3_6 t
  show V (Proc.devRef .tc main_v32) (((cfg3.win 6).blk t).view.emb (ix2 j e)) = _
  refine congrArg _ ?_
  funext a; apply Fin.ext
  match a with
  | ⟨0, _⟩ => show win3_6.index t (0 : Fin 2) * 1 + 1 * j.val = j.val; omega
  | ⟨1, _⟩ => show win3_6.index t (1 : Fin 2) * 128 + 1 * e.val = e.val; omega
theorem iblk3_7_apply (t : Fin cfg3.N) (j : Fin 1) (e : Fin 128) :
    iblk3 V c 7 t (ix2 j e) = V (Proc.devRef .tc main_v34) (ix2 j e) := by
  obtain ⟨e0, e1⟩ := idx3_7 t
  show V (Proc.devRef .tc main_v34) (((cfg3.win 7).blk t).view.emb (ix2 j e)) = _
  refine congrArg _ ?_
  funext a; apply Fin.ext
  match a with
  | ⟨0, _⟩ => show win3_7.index t (0 : Fin 2) * 1 + 1 * j.val = j.val; omega
  | ⟨1, _⟩ => show win3_7.index t (1 : Fin 2) * 128 + 1 * e.val = e.val; omega

/-- Element `(n, e)` of the output array after the last point is element `(n % 400, e)` of what point `n / 400` wrote back. -/
theorem arrAt3_apply (n : Fin 10000) (e : Fin 128) :
    (dat3 (F := Ideal) O R V c).arrAt 8 cfg3.N (ix2 n e) = out3_8 (iblk3 V c 0 (tOf3 n)) (iblk3 V c 1 (tOf3 n)) (iblk3 V c 2 (tOf3 n)) (iblk3 V c 3 (tOf3 n)) (iblk3 V c 4 (tOf3 n)) (iblk3 V c 5 (tOf3 n)) (iblk3 V c 6 (tOf3 n)) (iblk3 V c 7 (tOf3 n)) (ix2 (rOf n) e) := by
  obtain ⟨e0, e1⟩ := idx3_8 (tOf3 n)
  have ht : (tOf3 n).val = n.val / 400 := rfl
  rw [← out_blk3 O R V c (tOf3 n)]
  show (dat3 (F := Ideal) O R V c).arrAt 8 cfg3.N (ix2 n e) = (dat3 (F := Ideal) O R V c).arrAt 8 cfg3.N (((cfg3.win 8).blk (tOf3 n)).view.emb (ix2 (rOf n) e))
  refine congrArg _ ?_
  funext a; apply Fin.ext
  match a with
  | ⟨0, _⟩ => show n.val = win3_8.index (tOf3 n) (0 : Fin 2) * 400 + 1 * (n.val % 400); omega
  | ⟨1, _⟩ => show e.val = win3_8.index (tOf3 n) (1 : Fin 2) * 128 + 1 * e.val; omega

/-- THE OUTPUT ARRAY AT AN ELEMENT: lane `e` of one update step of row `n`, over the input arrays as the region found them:
    the feature row, the 32 gathered rows, the 32 edge weights, the two matrices and the three rows. -/
theorem read3 (n : Fin 10000) (e : Fin 128) :
    (dat3 (F := Ideal) O R V c).arrAt 8 cfg3.N (ix2 n e)
      = Spec.stepK (ι := Fin 128) (κ := Fin 32) (Ideal.ofBits .f32 0x43000000#32) (Ideal.ofBits .f32 0x3727C5AC#32)
          (fun e => V (Proc.devRef .tc main_arg0) (ix2 n e)) (fun k e => V (Proc.devRef .tc main_v24) (ix3 k n e)) (fun k => V (Proc.devRef .tc main_v22) (ix2 n k))
          (fun j e => V (Proc.devRef .tc main_v26) (ix2 j e)) (fun j e => V (Proc.devRef .tc main_v28) (ix2 j e))
          (fun e => V (Proc.devRef .tc main_v30) (ix2 (0 : Fin 1) e)) (fun e => V (Proc.devRef .tc main_v32) (ix2 (0 : Fin 1) e)) (fun e => V (Proc.devRef .tc main_v34) (ix2 (0 : Fin 1) e)) e := by
  rw [arrAt3_apply, out3_8_apply]
  simp only [iblk3_0_apply, iblk3_1_apply, iblk3_2_apply, iblk3_3_apply, iblk3_4_apply, iblk3_5_apply, iblk3_6_apply, iblk3_7_apply]

end Read3

/-! ## custom_call 5: the output array at an element, from the input arrays at elements -/

section Read5

/-- The grid point whose blocks hold row `n`. -/
def tOf5 (n : Fin 10000) : Fin cfg5.N :=
  ⟨n.val / 400, by rw [show cfg5.N = 25 from N_5]; have := n.isLt; omega⟩

/-- The windows' block indices at point `t`: the row blocks follow the point, every other axis is whole. -/
theorem idx5_0 : ∀ t : Fin cfg5.N, win5_0.index t (0 : Fin 3) = 0 ∧ win5_0.index t (1 : Fin 3) = t.val ∧ win5_0.index t (2 : Fin 3) = 0 :=
  (by decide +kernel : ∀ t : Fin grid5.N, win5_0.index t (0 : Fin 3) = 0 ∧ win5_0.index t (1 : Fin 3) = t.val ∧ win5_0.index t (2 : Fin 3) = 0)
theorem idx5_1 : ∀ t : Fin cfg5.N, win5_1.index t (0 : Fin 2) = t.val ∧ win5_1.index t (1 : Fin 2) = 0 :=
  (by decide +kernel : ∀ t : Fin grid5.N, win5_1.index t (0 : Fin 2) = t.val ∧ win5_1.index t (1 : Fin 2) = 0)
theorem idx5_2 : ∀ t : Fin cfg5.N, win5_2.index t (0 : Fin 2) = t.val ∧ win5_2.index t (1 : Fin 2) = 0 :=
  (by decide +kernel : ∀ t : Fin grid5.N, win5_2.index t (0 : Fin 2) = t.val ∧ win5_2.index t (1 : Fin 2) = 0)
theorem idx5_8 : ∀ t : Fin cfg5.N, win5_8.index t (0 : Fin 2) = t.val ∧ win5_8.index t (1 : Fin 2) = 0 :=
  (by decide +kernel : ∀ t : Fin grid5.N, win5_8.index t (0 : Fin 2) = t.val ∧ win5_8.index t (1 : Fin 2) = 0)
theorem idx5_3 : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)
theorem idx5_4 : ∀ t : Fin cfg5.N, win5_4.index t (0 : Fin 2) = 0 ∧ win5_4.index t (1 : Fin 2) = 0 :=
  (by decide +kernel : ∀ t : Fin grid5.N, win5_4.index t (0 : Fin 2) = 0 ∧ win5_4.index t (1 : Fin 2) = 0)
theorem idx5_5 : ∀ t : Fin cfg5.N, win5_5.index t (0 : Fin 2) = 0 ∧ win5_5.index t (1 : Fin 2) = 0 :=
  (by decide +kernel : ∀ t : Fin grid5.N, win5_5.index t (0 : Fin 2) = 0 ∧ win5_5.index t (1 : Fin 2) = 0)
theorem idx5_6 : ∀ t : Fin cfg5.N, win5_6.index t (0 : Fin 2) = 0 ∧ win5_6.index t (1 : Fin 2) = 0 :=
  (by decide +kernel : ∀ t : Fin grid5.N, win5_6.index t (0 : Fin 2) = 0 ∧ win5_6.index t (1 : Fin 2) = 0)
theorem idx5_7 : ∀ t : Fin cfg5.N, win5_7.index t (0 : Fin 2) = 0 ∧ win5_7.index t (1 : Fin 2) = 0 :=
  (by decide +kernel : ∀ t : Fin grid5.N, win5_7.index t (0 : Fin 2) = 0 ∧ win5_7.index t (1 : Fin 2) = 0)

variable (O : CellTallies nD τ sig (HIx 6)) (R : Set (SemLoc sig × HIx 6)) (V : Valuation τ sig (Elt Ideal)) (c : Dev nD)

/-- Row `n % 400` of the blocks at point `n / 400` is row `n` of the arrays. -/
theorem iblk5_0_apply (n : Fin 10000) (k : Fin 32) (e : Fin 128) :
    iblk5 V c 0 (tOf5 n) (ix3 k (rOf n) e) = V (Proc.devRef .tc main_v37) (ix3 k n e) := by
  obtain ⟨e0, e1, e2⟩ := idx5_0 (tOf5 n)
  have ht : (tOf5 n).val = n.val / 400 := rfl
  show V (Proc.devRef .tc main_v37) (((cfg5.win 0).blk (tOf5 n)).view.emb (ix3 k (rOf n) e)) = _
  refine congrArg _ ?_
  funext a; apply Fin.ext
  match a with
  | ⟨0, _⟩ => show win5_0.index (tOf5 n) (0 : Fin 3) * 32 + 1 * k.val = k.val; omega
  | ⟨1, _⟩ => show win5_0.index (tOf5 n) (1 : Fin 3) * 400 + 1 * (n.val % 400) = n.val; omega
  | ⟨2, _⟩ => show win5_0.index (tOf5 n) (2 : Fin 3) * 128 + 1 * e.val = e.val; omega
theorem iblk5_1_apply (n : Fin 10000) (e : Fin 32) :
    iblk5 V c 1 (tOf5 n) (ix2 (rOf n) e) = V (Proc.devRef .tc main_v22) (ix2 n e) := by
  obtain ⟨e0, e1⟩ := idx5_1 (tOf5 n)
  have ht : (tOf5 n).val = n.val / 400 := rfl
  show V (Proc.devRef .tc main_v22) (((cfg5.win 1).blk (tOf5 n)).view.emb (ix2 (rOf n) e)) = _
  refine congrArg _ ?_
  funext a; apply Fin.ext
  match a with
  | ⟨0, _⟩ => show win5_1.index (tOf5 n) (0 : Fin 2) * 400 + 1 * (n.val % 400) = n.val; omega
  | ⟨1, _⟩ => show win5_1.index (tOf5 n) (1 : Fin 2) * 32 + 1 * e.val = e.val; omega
theorem iblk5_2_apply (n : Fin 10000) (e : Fin 128) :
    iblk5 V c 2 (tOf5 n) (ix2 (rOf n) e) = V (Proc.devRef .tc main_v35) (ix2 n e) := by
  obtain ⟨e0, e1⟩ := idx5_2 (tOf5 n)
  have ht : (tOf5 n).val = n.val / 400 := rfl
  show V (Proc.devRef .tc main_v35) (((cfg5.win 2).blk (tOf5 n)).view.emb (ix2 (rOf n) e)) = _
  refine congrArg _ ?_
  funext a; apply Fin.ext
  match a with
  | ⟨0, _⟩ => show win5_2.index (tOf5 n) (0 : Fin 2) * 400 + 1 * (n.val % 400) = n.val; omega
  | ⟨1, _⟩ => show win5_2.index (tOf5 n) (1 : Fin 2) * 128 + 1 * e.val = e.val; omega
theorem iblk5_3_apply (t : Fin cfg5.N) (j : Fin 128) (e : Fin 128) :
    iblk5 V c 3 t (ix2 j e) = V (Proc.devRef .tc main_v39) (ix2 j e) := by
  obtain ⟨e0, e1⟩ := idx5_3 t
  show V (Proc.devRef .tc main_v39) (((cfg5.win 3).blk t).view.emb (ix2 j e)) = _
  refine congrArg _ ?_
  funext a; apply Fin.ext
  match a with
  | ⟨0, _⟩ => show win5_3.index t (0 : Fin 2) * 128 + 1 * j.val = j.val; omega
  | ⟨1, _⟩ => show win5_3.index t (1 : Fin 2) * 128 + 1 * e.val = e.val; omega
theorem iblk5_4_apply (t : Fin cfg5.N) (j : Fin 128) (e : Fin 128) :
    iblk5 V c 4 t (ix2 j e) = V (Proc.devRef .tc main_v41) (ix2 j e) := by
  obtain ⟨e0, e1⟩ := idx5_4 t
  show V (Proc.devRef .tc main_v41) (((cfg5.win 4).blk t).view.emb (ix2 j e)) = _
  refine congrArg _ ?_
  funext a; apply Fin.ext
  match a with
  | ⟨0, _⟩ => show win5_4.index t (0 : Fin 2) * 128 + 1 * j.val = j.val; omega
  | ⟨1, _⟩ => show win5_4.index t (1 : Fin 2) * 128 + 1 * e.val = e.val; omega
theorem iblk5_5_apply (t : Fin cfg5.N) (j : Fin 1) (e : Fin 128) :
    iblk5 V c 5 t (ix2 j e) = V (Proc.devRef .tc main_v43) (ix2 j e) := by
  obtain ⟨e0, e1⟩ := idx5_5 t
  show V (Proc.devRef .tc main_v43) (((cfg5.win 5).blk t).view.emb (ix2 j e)) = _
  refine congrArg _ ?_
  funext a; apply Fin.ext
  match a with
  | ⟨0, _⟩ => show win5_5.index t (0 : Fin 2) * 1 + 1 * j.val = j.val; omega
  | ⟨1, _⟩ => show win5_5.index t (1 : Fin 2) * 128 + 1 * e.val = e.val; omega
theorem iblk5_6_apply (t : Fin cfg5.N) (j : Fin 1) (e : Fin 128) :
    iblk5 V c 6 t (ix2 j e) = V (Proc.devRef .tc main_v45) (ix2 j e) := by
  obtain ⟨e0, e1⟩ := idx5_6 t
  show V (Proc.devRef .tc main_v45) (((cfg5.win 6).blk t).view.emb (ix2 j e)) = _
  refine congrArg _ ?_
  funext a; apply Fin.ext
  match a with
  | ⟨0, _⟩ => show win5_6.index t (0 : Fin 2) * 1 + 1 * j.val = j.val; omega
  | ⟨1, _⟩ => show win5_6.index t (1 : Fin 2) * 128 + 1 * e.val = e.val; omega
theorem iblk5_7_apply (t : Fin cfg5.N) (j : Fin 1) (e : Fin 128) :
    iblk5 V c 7 t (ix2 j e) = V (Proc.devRef .tc main_v47) (ix2 j e) := by
  obtain ⟨e0, e1⟩ := idx5_7 t
  show V (Proc.devRef .tc main_v47) (((cfg5.win 7).blk t).view.emb (ix2 j e)) = _
  refine congrArg _ ?_
  funext a; apply Fin.ext
  match a with
  | ⟨0, _⟩ => show win5_7.index t (0 : Fin 2) * 1 + 1 * j.val = j.val; omega
  | ⟨1, _⟩ => show win5_7.index t (1 : Fin 2) * 128 + 1 * e.val = e.val; omega

/-- Element `(n, e)` of the output array after the last point is element `(n % 400, e)` of what point `n / 400` wrote back. -/
theorem arrAt5_apply (n : Fin 10000) (e : Fin 128) :
    (dat5 (F := Ideal) O R V c).arrAt 8 cfg5.N (ix2 n e) = out5_8 (iblk5 V c 0 (tOf5 n)) (iblk5 V c 1 (tOf5 n)) (iblk5 V c 2 (tOf5 n)) (iblk5 V c 3 (tOf5 n)) (iblk5 V c 4 (tOf5 n)) (iblk5 V c 5 (tOf5 n)) (iblk5 V c 6 (tOf5 n)) (iblk5 V c 7 (tOf5 n)) (ix2 (rOf n) e) := by
  obtain ⟨e0, e1⟩ := idx5_8 (tOf5 n)
  have ht : (tOf5 n).val = n.val / 400 := rfl
  rw [← out_blk5 O R V c (tOf5 n)]
  show (dat5 (F := Ideal) O R V c).arrAt 8 cfg5.N (ix2 n e) = (dat5 (F := Ideal) O R V c).arrAt 8 cfg5.N (((cfg5.win 8).blk (tOf5 n)).view.emb (ix2 (rOf n) e))
  refine congrArg _ ?_
  funext a; apply Fin.ext
  match a with
  | ⟨0, _⟩ => show n.val = win5_8.index (tOf5 n) (0 : Fin 2) * 400 + 1 * (n.val % 400); omega
  | ⟨1, _⟩ => show e.val = win5_8.index (tOf5 n) (1 : Fin 2) * 128 + 1 * e.val; omega

/-- THE OUTPUT ARRAY AT AN ELEMENT: lane `e` of one update step of row `n`, over the input arrays as the region found them:
    the feature row, the 32 gathered rows, the 32 edge weights, the two matrices and the three rows. -/
theorem read5 (n : Fin 10000) (e : Fin 128) :
    (dat5 (F := Ideal) O R V c).arrAt 8 cfg5.N (ix2 n e)
      = Spec.stepK (ι := Fin 128) (κ := Fin 32) (Ideal.ofBits .f32 0x43000000#32) (Ideal.ofBits .f32 0x3727C5AC#32)
          (fun e => V (Proc.devRef .tc main_v35) (ix2 n e)) (fun k e => V (Proc.devRef .tc main_v37) (ix3 k n e)) (fun k => V (Proc.devRef .tc main_v22) (ix2 n k))
          (fun j e => V (Proc.devRef .tc main_v39) (ix2 j e)) (fun j e => V (Proc.devRef .tc main_v41) (ix2 j e))
          (fun e => V (Proc.devRef .tc main_v43) (ix2 (0 : Fin 1) e)) (fun e => V (Proc.devRef .tc main_v45) (ix2 (0 : Fin 1) e)) (fun e => V (Proc.devRef .tc main_v47) (ix2 (0 : Fin 1) e)) e := by
  rw [arrAt5_apply, out5_8_apply]
  simp only [iblk5_0_apply, iblk5_1_apply, iblk5_2_apply, iblk5_3_apply, iblk5_4_apply, iblk5_5_apply, iblk5_6_apply, iblk5_7_apply]

end Read5

/-! ## custom_call 7: the output array at an element, from the input arrays at elements -/

section Read7

/-- The grid point whose blocks hold row `n`. -/
def tOf7 (n : Fin 10000) : Fin cfg7.N :=
  ⟨n.val / 400, by rw [show cfg7.N = 25 from N_7]; have := n.isLt; omega⟩

/-- The windows' block indices at point `t`: the row blocks follow the point, every other axis is whole. -/
theorem idx7_0 : ∀ t : Fin cfg7.N, win7_0.index t (0 : Fin 3) = 0 ∧ win7_0.index t (1 : Fin 3) = t.val ∧ win7_0.index t (2 : Fin 3) = 0 :=
  (by decide +kernel : ∀ t : Fin grid7.N, win7_0.index t (0 : Fin 3) = 0 ∧ win7_0.index t (1 : Fin 3) = t.val ∧ win7_0.index t (2 : Fin 3) = 0)
theorem idx7_1 : ∀ t : Fin cfg7.N, win7_1.index t (0 : Fin 2) = t.val ∧ win7_1.index t (1 : Fin 2) = 0 :=
  (by decide +kernel : ∀ t : Fin grid7.N, win7_1.index t (0 : Fin 2) = t.val ∧ win7_1.index t (1 : Fin 2) = 0)
theorem idx7_2 : ∀ t : Fin cfg7.N, win7_2.index t (0 : Fin 2) = t.val ∧ win7_2.index t (1 : Fin 2) = 0 :=
  (by decide +kernel : ∀ t : Fin grid7.N, win7_2.index t (0 : Fin 2) = t.val ∧ win7_2.index t (1 : Fin 2) = 0)
theorem idx7_8 : ∀ t : Fin cfg7.N, win7_8.index t (0 : Fin 2) = t.val ∧ win7_8.index t (1 : Fin 2) = 0 :=
  (by decide +kernel : ∀ t : Fin grid7.N, win7_8.index t (0 : Fin 2) = t.val ∧ win7_8.index t (1 : Fin 2) = 0)
theorem idx7_3 : ∀ t : Fin cfg7.N, win7_3.index t (0 : Fin 2) = 0 ∧ win7_3.index t (1 : Fin 2) = 0 :=
  (by decide +kernel : ∀ t : Fin grid7.N, win7_3.index t (0 : Fin 2) = 0 ∧ win7_3.index t (1 : Fin 2) = 0)
theorem idx7_4 : ∀ t : Fin cfg7.N, win7_4.index t (0 : Fin 2) = 0 ∧ win7_4.index t (1 : Fin 2) = 0 :=
  (by decide +kernel : ∀ t : Fin grid7.N, win7_4.index t (0 : Fin 2) = 0 ∧ win7_4.index t (1 : Fin 2) = 0)
theorem idx7_5 : ∀ t : Fin cfg7.N, win7_5.index t (0 : Fin 2) = 0 ∧ win7_5.index t (1 : Fin 2) = 0 :=
  (by decide +kernel : ∀ t : Fin grid7.N, win7_5.index t (0 : Fin 2) = 0 ∧ win7_5.index t (1 : Fin 2) = 0)
theorem idx7_6 : ∀ t : Fin cfg7.N, win7_6.index t (0 : Fin 2) = 0 ∧ win7_6.index t (1 : Fin 2) = 0 :=
  (by decide +kernel : ∀ t : Fin grid7.N, win7_6.index t (0 : Fin 2) = 0 ∧ win7_6.index t (1 : Fin 2) = 0)
theorem idx7_7 : ∀ t : Fin cfg7.N, win7_7.index t (0 : Fin 2) = 0 ∧ win7_7.index t (1 : Fin 2) = 0 :=
  (by decide +kernel : ∀ t : Fin grid7.N, win7_7.index t (0 : Fin 2) = 0 ∧ win7_7.index t (1 : Fin 2) = 0)

variable (O : CellTallies nD τ sig (HIx 6)) (R : Set (SemLoc sig × HIx 6)) (V : Valuation τ sig (Elt Ideal)) (c : Dev nD)

/-- Row `n % 400` of the blocks at point `n / 400` is row `n` of the arrays. -/
theorem iblk7_0_apply (n : Fin 10000) (k : Fin 32) (e : Fin 128) :
    iblk7 V c 0 (tOf7 n) (ix3 k (rOf n) e) = V (Proc.devRef .tc main_v50) (ix3 k n e) := by
  obtain ⟨e0, e1, e2⟩ := idx7_0 (tOf7 n)
  have ht : (tOf7 n).val = n.val / 400 := rfl
  show V (Proc.devRef .tc main_v50) (((cfg7.win 0).blk (tOf7 n)).view.emb (ix3 k (rOf n) e)) = _
  refine congrArg _ ?_
  funext a; apply Fin.ext
  match a with
  | ⟨0, _⟩ => show win7_0.index (tOf7 n) (0 : Fin 3) * 32 + 1 * k.val = k.val; omega
  | ⟨1, _⟩ => show win7_0.index (tOf7 n) (1 : Fin 3) * 400 + 1 * (n.val % 400) = n.val; omega
  | ⟨2, _⟩ => show win7_0.index (tOf7 n) (2 : Fin 3) * 128 + 1 * e.val = e.val; omega
theorem iblk7_1_apply (n : Fin 10000) (e : Fin 32) :
    iblk7 V c 1 (tOf7 n) (ix2 (rOf n) e) = V (Proc.devRef .tc main_v22) (ix2 n e) := by
  obtain ⟨e0, e1⟩ := idx7_1 (tOf7 n)
  have ht : (tOf7 n).val = n.val / 400 := rfl
  show V (Proc.devRef .tc main_v22) (((cfg7.win 1).blk (tOf7 n)).view.emb (ix2 (rOf n) e)) = _
  refine congrArg _ ?_
  funext a; apply Fin.ext
  match a with
  | ⟨0, _⟩ => show win7_1.index (tOf7 n) (0 : Fin 2) * 400 + 1 * (n.val % 400) = n.val; omega
  | ⟨1, _⟩ => show win7_1.index (tOf7 n) (1 : Fin 2) * 32 + 1 * e.val = e.val; omega
theorem iblk7_2_apply (n : Fin 10000) (e : Fin 128) :
    iblk7 V c 2 (tOf7 n) (ix2 (rOf n) e) = V (Proc.devRef .tc main_v48) (ix2 n e) := by
  obtain ⟨e0, e1⟩ := idx7_2 (tOf7 n)
  have ht : (tOf7 n).val = n.val / 400 := rfl
  show V (Proc.devRef .tc main_v48) (((cfg7.win 2).blk (tOf7 n)).view.emb (ix2 (rOf n) e)) = _
  refine congrArg _ ?_
  funext a; apply Fin.ext
  match a with
  | ⟨0, _⟩ => show win7_2.index (tOf7 n) (0 : Fin 2) * 400 + 1 * (n.val % 400) = n.val; omega
  | ⟨1, _⟩ => show win7_2.index (tOf7 n) (1 : Fin 2) * 128 + 1 * e.val = e.val; omega
theorem iblk7_3_apply (t : Fin cfg7.N) (j : Fin 128) (e : Fin 128) :
    iblk7 V c 3 t (ix2 j e) = V (Proc.devRef .tc main_v52) (ix2 j e) := by
  obtain ⟨e0, e1⟩ := idx7_3 t
  show V (Proc.devRef .tc main_v52) (((cfg7.win 3).blk t).view.emb (ix2 j e)) = _
  refine congrArg _ ?_
  funext a; apply Fin.ext
  match a with
  | ⟨0, _⟩ => show win7_3.index t (0 : Fin 2) * 128 + 1 * j.val = j.val; omega
  | ⟨1, _⟩ => show win7_3.index t (1 : Fin 2) * 128 + 1 * e.val = e.val; omega
theorem iblk7_4_apply (t : Fin cfg7.N) (j : Fin 128) (e : Fin 128) :
    iblk7 V c 4 t (ix2 j e) = V (Proc.devRef .tc main_v54) (ix2 j e) := by
  obtain ⟨e0, e1⟩ := idx7_4 t
  show V (Proc.devRef .tc main_v54) (((cfg7.win 4).blk t).view.emb (ix2 j e)) = _
  refine congrArg _ ?_
  funext a; apply Fin.ext
  match a with
  | ⟨0, _⟩ => show win7_4.index t (0 : Fin 2) * 128 + 1 * j.val = j.val; omega
  | ⟨1, _⟩ => show win7_4.index t (1 : Fin 2) * 128 + 1 * e.val = e.val; omega
theorem iblk7_5_apply (t : Fin cfg7.N) (j : Fin 1) (e : Fin 128) :
    iblk7 V c 5 t (ix2 j e) = V (Proc.devRef .tc main_v56) (ix2 j e) := by
  obtain ⟨e0, e1⟩ := idx7_5 t
  show V (Proc.devRef .tc main_v56) (((cfg7.win 5).blk t).view.emb (ix2 j e)) = _
  refine congrArg _ ?_
  funext a; apply Fin.ext
  match a with
  | ⟨0, _⟩ => show win7_5.index t (0 : Fin 2) * 1 + 1 * j.val = j.val; omega
  | ⟨1, _⟩ => show win7_5.index t (1 : Fin 2) * 128 + 1 * e.val = e.val; omega
theorem iblk7_6_apply (t : Fin cfg7.N) (j : Fin 1) (e : Fin 128) :
    iblk7 V c 6 t (ix2 j e) = V (Proc.devRef .tc main_v58) (ix2 j e) := by
  obtain ⟨e0, e1⟩ := idx7_6 t
  show V (Proc.devRef .tc main_v58) (((cfg7.win 6).blk t).view.emb (ix2 j e)) = _
  refine congrArg _ ?_
  funext a; apply Fin.ext
  match a with
  | ⟨0, _⟩ => show win7_6.index t (0 : Fin 2) * 1 + 1 * j.val = j.val; omega
  | ⟨1, _⟩ => show win7_6.index t (1 : Fin 2) * 128 + 1 * e.val = e.val; omega
theorem iblk7_7_apply (t : Fin cfg7.N) (j : Fin 1) (e : Fin 128) :
    iblk7 V c 7 t (ix2 j e) = V (Proc.devRef .tc main_v60) (ix2 j e) := by
  obtain ⟨e0, e1⟩ := idx7_7 t
  show V (Proc.devRef .tc main_v60) (((cfg7.win 7).blk t).view.emb (ix2 j e)) = _
  refine congrArg _ ?_
  funext a; apply Fin.ext
  match a with
  | ⟨0, _⟩ => show win7_7.index t (0 : Fin 2) * 1 + 1 * j.val = j.val; omega
  | ⟨1, _⟩ => show win7_7.index t (1 : Fin 2) * 128 + 1 * e.val = e.val; omega

/-- Element `(n, e)` of the output array after the last point is element `(n % 400, e)` of what point `n / 400` wrote back. -/
theorem arrAt7_apply (n : Fin 10000) (e : Fin 128) :
    (dat7 (F := Ideal) O R V c).arrAt 8 cfg7.N (ix2 n e) = out7_8 (iblk7 V c 0 (tOf7 n)) (iblk7 V c 1 (tOf7 n)) (iblk7 V c 2 (tOf7 n)) (iblk7 V c 3 (tOf7 n)) (iblk7 V c 4 (tOf7 n)) (iblk7 V c 5 (tOf7 n)) (iblk7 V c 6 (tOf7 n)) (iblk7 V c 7 (tOf7 n)) (ix2 (rOf n) e) := by
  obtain ⟨e0, e1⟩ := idx7_8 (tOf7 n)
  have ht : (tOf7 n).val = n.val / 400 := rfl
  rw [← out_blk7 O R V c (tOf7 n)]
  show (dat7 (F := Ideal) O R V c).arrAt 8 cfg7.N (ix2 n e) = (dat7 (F := Ideal) O R V c).arrAt 8 cfg7.N (((cfg7.win 8).blk (tOf7 n)).view.emb (ix2 (rOf n) e))
  refine congrArg _ ?_
  funext a; apply Fin.ext
  match a with
  | ⟨0, _⟩ => show n.val = win7_8.index (tOf7 n) (0 : Fin 2) * 400 + 1 * (n.val % 400); omega
  | ⟨1, _⟩ => show e.val = win7_8.index (tOf7 n) (1 : Fin 2) * 128 + 1 * e.val; omega

/-- THE OUTPUT ARRAY AT AN ELEMENT: lane `e` of one update step of row `n`, over the input arrays as the region found them:
    the feature row, the 32 gathered rows, the 32 edge weights, the two matrices and the three rows. -/
theorem read7 (n : Fin 10000) (e : Fin 128) :
    (dat7 (F := Ideal) O R V c).arrAt 8 cfg7.N (ix2 n e)
      = Spec.stepK (ι := Fin 128) (κ := Fin 32) (Ideal.ofBits .f32 0x43000000#32) (Ideal.ofBits .f32 0x3727C5AC#32)
          (fun e => V (Proc.devRef .tc main_v48) (ix2 n e)) (fun k e => V (Proc.devRef .tc main_v50) (ix3 k n e)) (fun k => V (Proc.devRef .tc main_v22) (ix2 n k))
          (fun j e => V (Proc.devRef .tc main_v52) (ix2 j e)) (fun j e => V (Proc.devRef .tc main_v54) (ix2 j e))
          (fun e => V (Proc.devRef .tc main_v56) (ix2 (0 : Fin 1) e)) (fun e => V (Proc.devRef .tc main_v58) (ix2 (0 : Fin 1) e)) (fun e => V (Proc.devRef .tc main_v60) (ix2 (0 : Fin 1) e)) e := by
  rw [arrAt7_apply, out7_8_apply]
  simp only [iblk7_0_apply, iblk7_1_apply, iblk7_2_apply, iblk7_3_apply, iblk7_4_apply, iblk7_5_apply, iblk7_6_apply, iblk7_7_apply]

end Read7

/-! ## custom_call 9: the output array at an element, from the input arrays at elements -/

section Read9

/-- The grid point whose blocks hold row `n`. -/
def tOf9 (n : Fin 10000) : Fin cfg9.N :=
  ⟨n.val / 400, by rw [show cfg9.N = 25 from N_9]; have := n.isLt; omega⟩

/-- The windows' block indices at point `t`: the row blocks follow the point, every other axis is whole. -/
theorem idx9_0 : ∀ t : Fin cfg9.N, win9_0.index t (0 : Fin 3) = 0 ∧ win9_0.index t (1 : Fin 3) = t.val ∧ win9_0.index t (2 : Fin 3) = 0 :=
  (by decide +kernel : ∀ t : Fin grid9.N, win9_0.index t (0 : Fin 3) = 0 ∧ win9_0.index t (1 : Fin 3) = t.val ∧ win9_0.index t (2 : Fin 3) = 0)
theorem idx9_1 : ∀ t : Fin cfg9.N, win9_1.index t (0 : Fin 2) = t.val ∧ win9_1.index t (1 : Fin 2) = 0 :=
  (by decide +kernel : ∀ t : Fin grid9.N, win9_1.index t (0 : Fin 2) = t.val ∧ win9_1.index t (1 : Fin 2) = 0)
theorem idx9_2 : ∀ t : Fin cfg9.N, win9_2.index t (0 : Fin 2) = t.val ∧ win9_2.index t (1 : Fin 2) = 0 :=
  (by decide +kernel : ∀ t : Fin grid9.N, win9_2.index t (0 : Fin 2) = t.val ∧ win9_2.index t (1 : Fin 2) = 0)
theorem idx9_8 : ∀ t : Fin cfg9.N, win9_8.index t (0 : Fin 2) = t.val ∧ win9_8.index t (1 : Fin 2) = 0 :=
  (by decide +kernel : ∀ t : Fin grid9.N, win9_8.index t (0 : Fin 2) = t.val ∧ win9_8.index t (1 : Fin 2) = 0)
theorem idx9_3 : ∀ t : Fin cfg9.N, win9_3.index t (0 : Fin 2) = 0 ∧ win9_3.index t (1 : Fin 2) = 0 :=
  (by decide +kernel : ∀ t : Fin grid9.N, win9_3.index t (0 : Fin 2) = 0 ∧ win9_3.index t (1 : Fin 2) = 0)
theorem idx9_4 : ∀ t : Fin cfg9.N, win9_4.index t (0 : Fin 2) = 0 ∧ win9_4.index t (1 : Fin 2) = 0 :=
  (by decide +kernel : ∀ t : Fin grid9.N, win9_4.index t (0 : Fin 2) = 0 ∧ win9_4.index t (1 : Fin 2) = 0)
theorem idx9_5 : ∀ t : Fin cfg9.N, win9_5.index t (0 : Fin 2) = 0 ∧ win9_5.index t (1 : Fin 2) = 0 :=
  (by decide +kernel : ∀ t : Fin grid9.N, win9_5.index t (0 : Fin 2) = 0 ∧ win9_5.index t (1 : Fin 2) = 0)
theorem idx9_6 : ∀ t : Fin cfg9.N, win9_6.index t (0 : Fin 2) = 0 ∧ win9_6.index t (1 : Fin 2) = 0 :=
  (by decide +kernel : ∀ t : Fin grid9.N, win9_6.index t (0 : Fin 2) = 0 ∧ win9_6.index t (1 : Fin 2) = 0)
theorem idx9_7 : ∀ t : Fin cfg9.N, win9_7.index t (0 : Fin 2) = 0 ∧ win9_7.index t (1 : Fin 2) = 0 :=
  (by decide +kernel : ∀ t : Fin grid9.N, win9_7.index t (0 : Fin 2) = 0 ∧ win9_7.index t (1 : Fin 2) = 0)

variable (O : CellTallies nD τ sig (HIx 6)) (R : Set (SemLoc sig × HIx 6)) (V : Valuation τ sig (Elt Ideal)) (c : Dev nD)

/-- Row `n % 400` of the blocks at point `n / 400` is row `n` of the arrays. -/
theorem iblk9_0_apply (n : Fin 10000) (k : Fin 32) (e : Fin 128) :
    iblk9 V c 0 (tOf9 n) (ix3 k (rOf n) e) = V (Proc.devRef .tc main_v63) (ix3 k n e) := by
  obtain ⟨e0, e1, e2⟩ := idx9_0 (tOf9 n)
  have ht : (tOf9 n).val = n.val / 400 := rfl
  show V (Proc.devRef .tc main_v63) (((cfg9.win 0).blk (tOf9 n)).view.emb (ix3 k (rOf n) e)) = _
  refine congrArg _ ?_
  funext a; apply Fin.ext
  match a with
  | ⟨0, _⟩ => show win9_0.index (tOf9 n) (0 : Fin 3) * 32 + 1 * k.val = k.val; omega
  | ⟨1, _⟩ => show win9_0.index (tOf9 n) (1 : Fin 3) * 400 + 1 * (n.val % 400) = n.val; omega
  | ⟨2, _⟩ => show win9_0.index (tOf9 n) (2 : Fin 3) * 128 + 1 * e.val = e.val; omega
theorem iblk9_1_apply (n : Fin 10000) (e : Fin 32) :
    iblk9 V c 1 (tOf9 n) (ix2 (rOf n) e) = V (Proc.devRef .tc main_v22) (ix2 n e) := by
  obtain ⟨e0, e1⟩ := idx9_1 (tOf9 n)
  have ht : (tOf9 n).val = n.val / 400 := rfl
  show V (Proc.devRef .tc main_v22) (((cfg9.win 1).blk (tOf9 n)).view.emb (ix2 (rOf n) e)) = _
  refine congrArg _ ?_
  funext a; apply Fin.ext
  match a with
  | ⟨0, _⟩ => show win9_1.index (tOf9 n) (0 : Fin 2) * 400 + 1 * (n.val % 400) = n.val; omega
  | ⟨1, _⟩ => show win9_1.index (tOf9 n) (1 : Fin 2) * 32 + 1 * e.val = e.val; omega
theorem iblk9_2_apply (n : Fin 10000) (e : Fin 128) :
    iblk9 V c 2 (tOf9 n) (ix2 (rOf n) e) = V (Proc.devRef .tc main_v61) (ix2 n e) := by
  obtain ⟨e0, e1⟩ := idx9_2 (tOf9 n)
  have ht : (tOf9 n).val = n.val / 400 := rfl
  show V (Proc.devRef .tc main_v61) (((cfg9.win 2).blk (tOf9 n)).view.emb (ix2 (rOf n) e)) = _
  refine congrArg _ ?_
  funext a; apply Fin.ext
  match a with
  | ⟨0, _⟩ => show win9_2.index (tOf9 n) (0 : Fin 2) * 400 + 1 * (n.val % 400) = n.val; omega
  | ⟨1, _⟩ => show win9_2.index (tOf9 n) (1 : Fin 2) * 128 + 1 * e.val = e.val; omega
theorem iblk9_3_apply (t : Fin cfg9.N) (j : Fin 128) (e : Fin 128) :
    iblk9 V c 3 t (ix2 j e) = V (Proc.devRef .tc main_v65) (ix2 j e) := by
  obtain ⟨e0, e1⟩ := idx9_3 t
  show V (Proc.devRef .tc main_v65) (((cfg9.win 3).blk t).view.emb (ix2 j e)) = _
  refine congrArg _ ?_
  funext a; apply Fin.ext
  match a with
  | ⟨0, _⟩ => show win9_3.index t (0 : Fin 2) * 128 + 1 * j.val = j.val; omega
  | ⟨1, _⟩ => show win9_3.index t (1 : Fin 2) * 128 + 1 * e.val = e.val; omega
theorem iblk9_4_apply (t : Fin cfg9.N) (j : Fin 128) (e : Fin 128) :
    iblk9 V c 4 t (ix2 j e) = V (Proc.devRef .tc main_v67) (ix2 j e) := by
  obtain ⟨e0, e1⟩ := idx9_4 t
  show V (Proc.devRef .tc main_v67) (((cfg9.win 4).blk t).view.emb (ix2 j e)) = _
  refine congrArg _ ?_
  funext a; apply Fin.ext
  match a with
  | ⟨0, _⟩ => show win9_4.index t (0 : Fin 2) * 128 + 1 * j.val = j.val; omega
  | ⟨1, _⟩ => show win9_4.index t (1 : Fin 2) * 128 + 1 * e.val = e.val; omega
theorem iblk9_5_apply (t : Fin cfg9.N) (j : Fin 1) (e : Fin 128) :
    iblk9 V c 5 t (ix2 j e) = V (Proc.devRef .tc main_v69) (ix2 j e) := by
  obtain ⟨e0, e1⟩ := idx9_5 t
  show V (Proc.devRef .tc main_v69) (((cfg9.win 5).blk t).view.emb (ix2 j e)) = _
  refine congrArg _ ?_
  funext a; apply Fin.ext
  match a with
  | ⟨0, _⟩ => show win9_5.index t (0 : Fin 2) * 1 + 1 * j.val = j.val; omega
  | ⟨1, _⟩ => show win9_5.index t (1 : Fin 2) * 128 + 1 * e.val = e.val; omega
theorem iblk9_6_apply (t : Fin cfg9.N) (j : Fin 1) (e : Fin 128) :
    iblk9 V c 6 t (ix2 j e) = V (Proc.devRef .tc main_v71) (ix2 j e) := by
  obtain ⟨e0, e1⟩ := idx9_6 t
  show V (Proc.devRef .tc main_v71) (((cfg9.win 6).blk t).view.emb (ix2 j e)) = _
  refine congrArg _ ?_
  funext a; apply Fin.ext
  match a with
  | ⟨0, _⟩ => show win9_6.index t (0 : Fin 2) * 1 + 1 * j.val = j.val; omega
  | ⟨1, _⟩ => show win9_6.index t (1 : Fin 2) * 128 + 1 * e.val = e.val; omega
theorem iblk9_7_apply (t : Fin cfg9.N) (j : Fin 1) (e : Fin 128) :
    iblk9 V c 7 t (ix2 j e) = V (Proc.devRef .tc main_v73) (ix2 j e) := by
  obtain ⟨e0, e1⟩ := idx9_7 t
  show V (Proc.devRef .tc main_v73) (((cfg9.win 7).blk t).view.emb (ix2 j e)) = _
  refine congrArg _ ?_
  funext a; apply Fin.ext
  match a with
  | ⟨0, _⟩ => show win9_7.index t (0 : Fin 2) * 1 + 1 * j.val = j.val; omega
  | ⟨1, _⟩ => show win9_7.index t (1 : Fin 2) * 128 + 1 * e.val = e.val; omega

/-- Element `(n, e)` of the output array after the last point is element `(n % 400, e)` of what point `n / 400` wrote back. -/
theorem arrAt9_apply (n : Fin 10000) (e : Fin 128) :
    (dat9 (F := Ideal) O R V c).arrAt 8 cfg9.N (ix2 n e) = out9_8 (iblk9 V c 0 (tOf9 n)) (iblk9 V c 1 (tOf9 n)) (iblk9 V c 2 (tOf9 n)) (iblk9 V c 3 (tOf9 n)) (iblk9 V c 4 (tOf9 n)) (iblk9 V c 5 (tOf9 n)) (iblk9 V c 6 (tOf9 n)) (iblk9 V c 7 (tOf9 n)) (ix2 (rOf n) e) := by
  obtain ⟨e0, e1⟩ := idx9_8 (tOf9 n)
  have ht : (tOf9 n).val = n.val / 400 := rfl
  rw [← out_blk9 O R V c (tOf9 n)]
  show (dat9 (F := Ideal) O R V c).arrAt 8 cfg9.N (ix2 n e) = (dat9 (F := Ideal) O R V c).arrAt 8 cfg9.N (((cfg9.win 8).blk (tOf9 n)).view.emb (ix2 (rOf n) e))
  refine congrArg _ ?_
  funext a; apply Fin.ext
  match a with
  | ⟨0, _⟩ => show n.val = win9_8.index (tOf9 n) (0 : Fin 2) * 400 + 1 * (n.val % 400); omega
  | ⟨1, _⟩ => show e.val = win9_8.index (tOf9 n) (1 : Fin 2) * 128 + 1 * e.val; omega

/-- THE OUTPUT ARRAY AT AN ELEMENT: lane `e` of one update step of row `n`, over the input arrays as the region found them:
    the feature row, the 32 gathered rows, the 32 edge weights, the two matrices and the three rows. -/
theorem read9 (n : Fin 10000) (e : Fin 128) :
    (dat9 (F := Ideal) O R V c).arrAt 8 cfg9.N (ix2 n e)
      = Spec.stepK (ι := Fin 128) (κ := Fin 32) (Ideal.ofBits .f32 0x43000000#32) (Ideal.ofBits .f32 0x3727C5AC#32)
          (fun e => V (Proc.devRef .tc main_v61) (ix2 n e)) (fun k e => V (Proc.devRef .tc main_v63) (ix3 k n e)) (fun k => V (Proc.devRef .tc main_v22) (ix2 n k))
          (fun j e => V (Proc.devRef .tc main_v65) (ix2 j e)) (fun j e => V (Proc.devRef .tc main_v67) (ix2 j e))
          (fun e => V (Proc.devRef .tc main_v69) (ix2 (0 : Fin 1) e)) (fun e => V (Proc.devRef .tc main_v71) (ix2 (0 : Fin 1) e)) (fun e => V (Proc.devRef .tc main_v73) (ix2 (0 : Fin 1) e)) e := by
  rw [arrAt9_apply, out9_8_apply]
  simp only [iblk9_0_apply, iblk9_1_apply, iblk9_2_apply, iblk9_3_apply, iblk9_4_apply, iblk9_5_apply, iblk9_6_apply, iblk9_7_apply]

end Read9

/-! ## custom_call 11: the output array at an element, from the input arrays at elements -/

section Read11

/-- The grid point whose blocks hold row `n`. -/
def tOf11 (n : Fin 10000) : Fin cfg11.N :=
  ⟨n.val / 400, by rw [show cfg11.N = 25 from N_11]; have := n.isLt; omega⟩

/-- The windows' block indices at point `t`: the row blocks follow the point, every other axis is whole. -/
theorem idx11_0 : ∀ t : Fin cfg11.N, win11_0.index t (0 : Fin 3) = 0 ∧ win11_0.index t (1 : Fin 3) = t.val ∧ win11_0.index t (2 : Fin 3) = 0 :=
  (by decide +kernel : ∀ t : Fin grid11.N, win11_0.index t (0 : Fin 3) = 0 ∧ win11_0.index t (1 : Fin 3) = t.val ∧ win11_0.index t (2 : Fin 3) = 0)
theorem idx11_1 : ∀ t : Fin cfg11.N, win11_1.index t (0 : Fin 2) = t.val ∧ win11_1.index t (1 : Fin 2) = 0 :=
  (by decide +kernel : ∀ t : Fin grid11.N, win11_1.index t (0 : Fin 2) = t.val ∧ win11_1.index t (1 : Fin 2) = 0)
theorem idx11_2 : ∀ t : Fin cfg11.N, win11_2.index t (0 : Fin 2) = t.val ∧ win11_2.index t (1 : Fin 2) = 0 :=
  (by decide +kernel : ∀ t : Fin grid11.N, win11_2.index t (0 : Fin 2) = t.val ∧ win11_2.index t (1 : Fin 2) = 0)
theorem idx11_8 : ∀ t : Fin cfg11.N, win11_8.index t (0 : Fin 2) = t.val ∧ win11_8.index t (1 : Fin 2) = 0 :=
  (by decide +kernel : ∀ t : Fin grid11.N, win11_8.index t (0 : Fin 2) = t.val ∧ win11_8.index t (1 : Fin 2) = 0)
theorem idx11_3 : ∀ t : Fin cfg11.N, win11_3.index t (0 : Fin 2) = 0 ∧ win11_3.index t (1 : Fin 2) = 0 :=
  (by decide +kernel : ∀ t : Fin grid11.N, win11_3.index t (0 : Fin 2) = 0 ∧ win11_3.index t (1 : Fin 2) = 0)
theorem idx11_4 : ∀ t : Fin cfg11.N, win11_4.index t (0 : Fin 2) = 0 ∧ win11_4.index t (1 : Fin 2) = 0 :=
  (by decide +kernel : ∀ t : Fin grid11.N, win11_4.index t (0 : Fin 2) = 0 ∧ win11_4.index t (1 : Fin 2) = 0)
theorem idx11_5 : ∀ t : Fin cfg11.N, win11_5.index t (0 : Fin 2) = 0 ∧ win11_5.index t (1 : Fin 2) = 0 :=
  (by decide +kernel : ∀ t : Fin grid11.N, win11_5.index t (0 : Fin 2) = 0 ∧ win11_5.index t (1 : Fin 2) = 0)
theorem idx11_6 : ∀ t : Fin cfg11.N, win11_6.index t (0 : Fin 2) = 0 ∧ win11_6.index t (1 : Fin 2) = 0 :=
  (by decide +kernel : ∀ t : Fin grid11.N, win11_6.index t (0 : Fin 2) = 0 ∧ win11_6.index t (1 : Fin 2) = 0)
theorem idx11_7 : ∀ t : Fin cfg11.N, win11_7.index t (0 : Fin 2) = 0 ∧ win11_7.index t (1 : Fin 2) = 0 :=
  (by decide +kernel : ∀ t : Fin grid11.N, win11_7.index t (0 : Fin 2) = 0 ∧ win11_7.index t (1 : Fin 2) = 0)

variable (O : CellTallies nD τ sig (HIx 6)) (R : Set (SemLoc sig × HIx 6)) (V : Valuation τ sig (Elt Ideal)) (c : Dev nD)

/-- Row `n % 400` of the blocks at point `n / 400` is row `n` of the arrays. -/
theorem iblk11_0_apply (n : Fin 10000) (k : Fin 32) (e : Fin 128) :
    iblk11 V c 0 (tOf11 n) (ix3 k (rOf n) e) = V (Proc.devRef .tc main_v76) (ix3 k n e) := by
  obtain ⟨e0, e1, e2⟩ := idx11_0 (tOf11 n)
  have ht : (tOf11 n).val = n.val / 400 := rfl
  show V (Proc.devRef .tc main_v76) (((cfg11.win 0).blk (tOf11 n)).view.emb (ix3 k (rOf n) e)) = _
  refine congrArg _ ?_
  funext a; apply Fin.ext
  match a with
  | ⟨0, _⟩ => show win11_0.index (tOf11 n) (0 : Fin 3) * 32 + 1 * k.val = k.val; omega
  | ⟨1, _⟩ => show win11_0.index (tOf11 n) (1 : Fin 3) * 400 + 1 * (n.val % 400) = n.val; omega
  | ⟨2, _⟩ => show win11_0.index (tOf11 n) (2 : Fin 3) * 128 + 1 * e.val = e.val; omega
theorem iblk11_1_apply (n : Fin 10000) (e : Fin 32) :
    iblk11 V c 1 (tOf11 n) (ix2 (rOf n) e) = V (Proc.devRef .tc main_v22) (ix2 n e) := by
  obtain ⟨e0, e1⟩ := idx11_1 (tOf11 n)
  have ht : (tOf11 n).val = n.val / 400 := rfl
  show V (Proc.devRef .tc main_v22) (((cfg11.win 1).blk (tOf11 n)).view.emb (ix2 (rOf n) e)) = _
  refine congrArg _ ?_
  funext a; apply Fin.ext
  match a with
  | ⟨0, _⟩ => show win11_1.index (tOf11 n) (0 : Fin 2) * 400 + 1 * (n.val % 400) = n.val; omega
  | ⟨1, _⟩ => show win11_1.index (tOf11 n) (1 : Fin 2) * 32 + 1 * e.val = e.val; omega
theorem iblk11_2_apply (n : Fin 10000) (e : Fin 128) :
    iblk11 V c 2 (tOf11 n) (ix2 (rOf n) e) = V (Proc.devRef .tc main_v74) (ix2 n e) := by
  obtain ⟨e0, e1⟩ := idx11_2 (tOf11 n)
  have ht : (tOf11 n).val = n.val / 400 := rfl
  show V (Proc.devRef .tc main_v74) (((cfg11.win 2).blk (tOf11 n)).view.emb (ix2 (rOf n) e)) = _
  refine congrArg _ ?_
  funext a; apply Fin.ext
  match a with
  | ⟨0, _⟩ => show win11_2.index (tOf11 n) (0 : Fin 2) * 400 + 1 * (n.val % 400) = n.val; omega
  | ⟨1, _⟩ => show win11_2.index (tOf11 n) (1 : Fin 2) * 128 + 1 * e.val = e.val; omega
theorem iblk11_3_apply (t : Fin cfg11.N) (j : Fin 128) (e : Fin 128) :
    iblk11 V c 3 t (ix2 j e) = V (Proc.devRef .tc main_v78) (ix2 j e) := by
  obtain ⟨e0, e1⟩ := idx11_3 t
  show V (Proc.devRef .tc main_v78) (((cfg11.win 3).blk t).view.emb (ix2 j e)) = _
  refine congrArg _ ?_
  funext a; apply Fin.ext
  match a with
  | ⟨0, _⟩ => show win11_3.index t (0 : Fin 2) * 128 + 1 * j.val = j.val; omega
  | ⟨1, _⟩ => show win11_3.index t (1 : Fin 2) * 128 + 1 * e.val = e.val; omega
theorem iblk11_4_apply (t : Fin cfg11.N) (j : Fin 128) (e : Fin 128) :
    iblk11 V c 4 t (ix2 j e) = V (Proc.devRef .tc main_v80) (ix2 j e) := by
  obtain ⟨e0, e1⟩ := idx11_4 t
  show V (Proc.devRef .tc main_v80) (((cfg11.win 4).blk t).view.emb (ix2 j e)) = _
  refine congrArg _ ?_
  funext a; apply Fin.ext
  match a with
  | ⟨0, _⟩ => show win11_4.index t (0 : Fin 2) * 128 + 1 * j.val = j.val; omega
  | ⟨1, _⟩ => show win11_4.index t (1 : Fin 2) * 128 + 1 * e.val = e.val; omega
theorem iblk11_5_apply (t : Fin cfg11.N) (j : Fin 1) (e : Fin 128) :
    iblk11 V c 5 t (ix2 j e) = V (Proc.devRef .tc main_v82) (ix2 j e) := by
  obtain ⟨e0, e1⟩ := idx11_5 t
  show V (Proc.devRef .tc main_v82) (((cfg11.win 5).blk t).view.emb (ix2 j e)) = _
  refine congrArg _ ?_
  funext a; apply Fin.ext
  match a with
  | ⟨0, _⟩ => show win11_5.index t (0 : Fin 2) * 1 + 1 * j.val = j.val; omega
  | ⟨1, _⟩ => show win11_5.index t (1 : Fin 2) * 128 + 1 * e.val = e.val; omega
theorem iblk11_6_apply (t : Fin cfg11.N) (j : Fin 1) (e : Fin 128) :
    iblk11 V c 6 t (ix2 j e) = V (Proc.devRef .tc main_v84) (ix2 j e) := by
  obtain ⟨e0, e1⟩ := idx11_6 t
  show V (Proc.devRef .tc main_v84) (((cfg11.win 6).blk t).view.emb (ix2 j e)) = _
  refine congrArg _ ?_
  funext a; apply Fin.ext
  match a with
  | ⟨0, _⟩ => show win11_6.index t (0 : Fin 2) * 1 + 1 * j.val = j.val; omega
  | ⟨1, _⟩ => show win11_6.index t (1 : Fin 2) * 128 + 1 * e.val = e.val; omega
theorem iblk11_7_apply (t : Fin cfg11.N) (j : Fin 1) (e : Fin 128) :
    iblk11 V c 7 t (ix2 j e) = V (Proc.devRef .tc main_v86) (ix2 j e) := by
  obtain ⟨e0, e1⟩ := idx11_7 t
  show V (Proc.devRef .tc main_v86) (((cfg11.win 7).blk t).view.emb (ix2 j e)) = _
  refine congrArg _ ?_
  funext a; apply Fin.ext
  match a with
  | ⟨0, _⟩ => show win11_7.index t (0 : Fin 2) * 1 + 1 * j.val = j.val; omega
  | ⟨1, _⟩ => show win11_7.index t (1 : Fin 2) * 128 + 1 * e.val = e.val; omega

/-- Element `(n, e)` of the output array after the last point is element `(n % 400, e)` of what point `n / 400` wrote back. -/
theorem arrAt11_apply (n : Fin 10000) (e : Fin 128) :
    (dat11 (F := Ideal) O R V c).arrAt 8 cfg11.N (ix2 n e) = out11_8 (iblk11 V c 0 (tOf11 n)) (iblk11 V c 1 (tOf11 n)) (iblk11 V c 2 (tOf11 n)) (iblk11 V c 3 (tOf11 n)) (iblk11 V c 4 (tOf11 n)) (iblk11 V c 5 (tOf11 n)) (iblk11 V c 6 (tOf11 n)) (iblk11 V c 7 (tOf11 n)) (ix2 (rOf n) e) := by
  obtain ⟨e0, e1⟩ := idx11_8 (tOf11 n)
  have ht : (tOf11 n).val = n.val / 400 := rfl
  rw [← out_blk11 O R V c (tOf11 n)]
  show (dat11 (F := Ideal) O R V c).arrAt 8 cfg11.N (ix2 n e) = (dat11 (F := Ideal) O R V c).arrAt 8 cfg11.N (((cfg11.win 8).blk (tOf11 n)).view.emb (ix2 (rOf n) e))
  refine congrArg _ ?_
  funext a; apply Fin.ext
  match a with
  | ⟨0, _⟩ => show n.val = win11_8.index (tOf11 n) (0 : Fin 2) * 400 + 1 * (n.val % 400); omega
  | ⟨1, _⟩ => show e.val = win11_8.index (tOf11 n) (1 : Fin 2) * 128 + 1 * e.val; omega

/-- THE OUTPUT ARRAY AT AN ELEMENT: lane `e` of one update step of row `n`, over the input arrays as the region found them:
    the feature row, the 32 gathered rows, the 32 edge weights, the two matrices and the three rows. -/
theorem read11 (n : Fin 10000) (e : Fin 128) :
    (dat11 (F := Ideal) O R V c).arrAt 8 cfg11.N (ix2 n e)
      = Spec.stepK (ι := Fin 128) (κ := Fin 32) (Ideal.ofBits .f32 0x43000000#32) (Ideal.ofBits .f32 0x3727C5AC#32)
          (fun e => V (Proc.devRef .tc main_v74) (ix2 n e)) (fun k e => V (Proc.devRef .tc main_v76) (ix3 k n e)) (fun k => V (Proc.devRef .tc main_v22) (ix2 n k))
          (fun j e => V (Proc.devRef .tc main_v78) (ix2 j e)) (fun j e => V (Proc.devRef .tc main_v80) (ix2 j e))
          (fun e => V (Proc.devRef .tc main_v82) (ix2 (0 : Fin 1) e)) (fun e => V (Proc.devRef .tc main_v84) (ix2 (0 : Fin 1) e)) (fun e => V (Proc.devRef .tc main_v86) (ix2 (0 : Fin 1) e)) e := by
  rw [arrAt11_apply, out11_8_apply]
  simp only [iblk11_0_apply, iblk11_1_apply, iblk11_2_apply, iblk11_3_apply, iblk11_4_apply, iblk11_5_apply, iblk11_6_apply, iblk11_7_apply]

end Read11

/-! ## A buffer an item of @main does not write keeps its contents through it -/

section Keeps
variable (m : (ℓ : Loc nD τ sig) → Buf (Elt Ideal) ℓ) (d : Dev nD)

theorem kVa0 (r : Ref sig .tc) (h : r ∉ ops0_W) : Va0 m d (Proc.devRef .tc r) = V0 m d (Proc.devRef .tc r) :=
  ops0_keep (V0 m d) r h
theorem kVb0 (r : Ref sig .tc) (h : r ≠ main_v20) : Vb0 m d (Proc.devRef .tc r) = Va0 m d (Proc.devRef .tc r) :=
  Function.update_of_ne (devRef_ne_of_ne h) _ _
theorem kVa1 (r : Ref sig .tc) (h : r ∉ ops1_W) : Va1 m d (Proc.devRef .tc r) = Vb0 m d (Proc.devRef .tc r) :=
  ops1_keep (Vb0 m d) r h
theorem kVr0 (r : Ref sig .tc) (h : r ≠ main_v22) : Vr0 m d (Proc.devRef .tc r) = Va1 m d (Proc.devRef .tc r) :=
  Function.update_of_ne (devRef_ne_of_ne h) _ _
theorem kVb1 (r : Ref sig .tc) (h : r ≠ main_v23) : Vb1 m d (Proc.devRef .tc r) = Vr0 m d (Proc.devRef .tc r) :=
  Function.update_of_ne (devRef_ne_of_ne h) _ _
theorem kVa2 (r : Ref sig .tc) (h : r ∉ ops2_W) : Va2 m d (Proc.devRef .tc r) = Vb1 m d (Proc.devRef .tc r) :=
  ops2_keep (Vb1 m d) r h
theorem kVr1 (r : Ref sig .tc) (h : r ≠ main_v35) : Vr1 m d (Proc.devRef .tc r) = Va2 m d (Proc.devRef .tc r) :=
  Function.update_of_ne (devRef_ne_of_ne h) _ _
theorem kVb2 (r : Ref sig .tc) (h : r ≠ main_v36) : Vb2 m d (Proc.devRef .tc r) = Vr1 m d (Proc.devRef .tc r) :=
  Function.update_of_ne (devRef_ne_of_ne h) _ _
theorem kVa3 (r : Ref sig .tc) (h : r ∉ ops3_W) : Va3 m d (Proc.devRef .tc r) = Vb2 m d (Proc.devRef .tc r) :=
  ops3_keep (Vb2 m d) r h
theorem kVr2 (r : Ref sig .tc) (h : r ≠ main_v48) : Vr2 m d (Proc.devRef .tc r) = Va3 m d (Proc.devRef .tc r) :=
  Function.update_of_ne (devRef_ne_of_ne h) _ _
theorem kVb3 (r : Ref sig .tc) (h : r ≠ main_v49) : Vb3 m d (Proc.devRef .tc r) = Vr2 m d (Proc.devRef .tc r) :=
  Function.update_of_ne (devRef_ne_of_ne h) _ _
theorem kVa4 (r : Ref sig .tc) (h : r ∉ ops4_W) : Va4 m d (Proc.devRef .tc r) = Vb3 m d (Proc.devRef .tc r) :=
  ops4_keep (Vb3 m d) r h
theorem kVr3 (r : Ref sig .tc) (h : r ≠ main_v61) : Vr3 m d (Proc.devRef .tc r) = Va4 m d (Proc.devRef .tc r) :=
  Function.update_of_ne (devRef_ne_of_ne h) _ _
theorem kVb4 (r : Ref sig .tc) (h : r ≠ main_v62) : Vb4 m d (Proc.devRef .tc r) = Vr3 m d (Proc.devRef .tc r) :=
  Function.update_of_ne (devRef_ne_of_ne h) _ _
theorem kVa5 (r : Ref sig .tc) (h : r ∉ ops5_W) : Va5 m d (Proc.devRef .tc r) = Vb4 m d (Proc.devRef .tc r) :=
  ops5_keep (Vb4 m d) r h
theorem kVr4 (r : Ref sig .tc) (h : r ≠ main_v74) : Vr4 m d (Proc.devRef .tc r) = Va5 m d (Proc.devRef .tc r) :=
  Function.update_of_ne (devRef_ne_of_ne h) _ _
theorem kVb5 (r : Ref sig .tc) (h : r ≠ main_v75) : Vb5 m d (Proc.devRef .tc r) = Vr4 m d (Proc.devRef .tc r) :=
  Function.update_of_ne (devRef_ne_of_ne h) _ _
theorem kVa6 (r : Ref sig .tc) (h : r ∉ ops6_W) : Va6 m d (Proc.devRef .tc r) = Vb5 m d (Proc.devRef .tc r) :=
  ops6_keep (Vb5 m d) r h
theorem kVr5 (r : Ref sig .tc) (h : r ≠ main_v87) : Vr5 m d (Proc.devRef .tc r) = Va6 m d (Proc.devRef .tc r) :=
  Function.update_of_ne (devRef_ne_of_ne h) _ _

end Keeps

section Steps
variable (m : (ℓ : Loc nD τ sig) → Buf (Elt Ideal) ℓ) (d : Dev nD)

/-! ## Update step 0 (custom_call 3) -/

/-- UPDATE STEP 0, read at an element: the array after it from the array before it, the edge weights and the step's
    parameters. -/
theorem kstep0 (hidx : ∀ j, ((V0 m d (Proc.devRef .tc main_arg2)) j).toNat < 10000) (n : Fin 10000) (e : Fin 128) :
    Vr1 m d (Proc.devRef .tc main_v35) (ix2 n e)
      = Spec.stepK (ι := Fin 128) (κ := Fin 32) (Ideal.ofBits .f32 0x43000000#32) (Ideal.ofBits .f32 0x3727C5AC#32)
          (fun e => (V0 m d (Proc.devRef .tc main_arg0)) (ix2 n e)) (fun k e => (V0 m d (Proc.devRef .tc main_arg0)) (ix2 (Cert.Proof.RefRead.nbr (V0 m d (Proc.devRef .tc main_arg2)) hidx n k) e)) (fun k => (Vr0 m d (Proc.devRef .tc main_v22)) (ix2 n k))
          (fun j e => (V0 m d (Proc.devRef .tc main_arg7)) (ix3 (0 : Fin 5) (⟨j.val, by have := j.isLt; omega⟩ : Fin 256) e)) (fun j e => (V0 m d (Proc.devRef .tc main_arg7)) (ix3 (0 : Fin 5) (⟨128 + j.val, by have := j.isLt; omega⟩ : Fin 256) e))
          (fun e => (V0 m d (Proc.devRef .tc main_arg8)) (ix2 (0 : Fin 5) e)) (fun e => (V0 m d (Proc.devRef .tc main_arg9)) (ix2 (0 : Fin 5) e)) (fun e => (V0 m d (Proc.devRef .tc main_arg10)) (ix2 (0 : Fin 5) e)) e := by
  have hX : Va2 m d (Proc.devRef .tc main_arg0) = (V0 m d (Proc.devRef .tc main_arg0)) :=
    ((kVa2 m d main_arg0 (by decide)).trans ((kVb1 m d main_arg0 (by decide)).trans ((kVr0 m d main_arg0 (by decide)).trans ((kVa1 m d main_arg0 (by decide)).trans ((kVb0 m d main_arg0 (by decide)).trans (kVa0 m d main_arg0 (by decide)))))))
  have hEW : Va2 m d (Proc.devRef .tc main_v22) = (Vr0 m d (Proc.devRef .tc main_v22)) :=
    ((kVa2 m d main_v22 (by decide)).trans (kVb1 m d main_v22 (by decide)))
  have hTab : Vr0 m d (Proc.devRef .tc main_arg0) = (V0 m d (Proc.devRef .tc main_arg0)) :=
    ((kVr0 m d main_arg0 (by decide)).trans ((kVa1 m d main_arg0 (by decide)).trans ((kVb0 m d main_arg0 (by decide)).trans (kVa0 m d main_arg0 (by decide)))))
  have hG : ∀ (k : Fin 32) (n : Fin 10000) (e : Fin 128), Va2 m d (Proc.devRef .tc main_v24) (ix3 k n e)
      = (V0 m d (Proc.devRef .tc main_arg0)) (ix2 (Cert.Proof.RefRead.nbr (V0 m d (Proc.devRef .tc main_arg2)) hidx n k) e) := fun k n e => by
    have h4 : Vr0 m d (Proc.devRef .tc main_v4) (ix1 ⟨k.val * 10000 + n.val, by have := k.isLt; have := n.isLt; omega⟩)
        = (V0 m d (Proc.devRef .tc main_arg2)) (ix2 n k) :=
      (congrFun ((kVr0 m d main_v4 (by decide)).trans ((kVa1 m d main_v4 (by decide)).trans (kVb0 m d main_v4 (by decide)))) _).trans (ops0_v4 (V0 m d) k n)
    refine (ops2_v24 (Vb1 m d) k n e).trans ?_
    rw [show Vb1 m d (Proc.devRef .tc main_v23) = Cert.Proof.LaunchBase.gatherFn (Vr0 m d (Proc.devRef .tc main_v4)) (Vr0 m d (Proc.devRef .tc main_arg0)) from Function.update_self _ _ _, hTab]
    unfold Cert.Proof.LaunchBase.gatherFn Cert.Proof.RefRead.nbr
    show (V0 m d (Proc.devRef .tc main_arg0)) (ix2 (if h : (Vr0 m d (Proc.devRef .tc main_v4) (ix1 ⟨k.val * 10000 + n.val, by have := k.isLt; have := n.isLt; omega⟩)).toNat < 10000 then ⟨_, h⟩ else ⟨0, by omega⟩) e) = _
    rw [h4, dif_pos (hidx (ix2 n k))]
  have h3 : ∀ (j e : Fin 128), Va2 m d (Proc.devRef .tc main_v26) (ix2 j e) = (V0 m d (Proc.devRef .tc main_arg7)) (ix3 (0 : Fin 5) (⟨j.val, by have := j.isLt; omega⟩ : Fin 256) e) := fun j e =>
    (ops2_v26 (Vb1 m d) j e).trans ((congrFun ((kVb1 m d main_v14 (by decide)).trans ((kVr0 m d main_v14 (by decide)).trans ((kVa1 m d main_v14 (by decide)).trans (kVb0 m d main_v14 (by decide))))) _).trans (ops0_v14_ideal (V0 m d) (0 : Fin 5) j e))
  have h4 : ∀ (j e : Fin 128), Va2 m d (Proc.devRef .tc main_v28) (ix2 j e) = (V0 m d (Proc.devRef .tc main_arg7)) (ix3 (0 : Fin 5) (⟨128 + j.val, by have := j.isLt; omega⟩ : Fin 256) e) := fun j e =>
    (ops2_v28 (Vb1 m d) j e).trans ((congrFun ((kVb1 m d main_v16 (by decide)).trans ((kVr0 m d main_v16 (by decide)).trans ((kVa1 m d main_v16 (by decide)).trans (kVb0 m d main_v16 (by decide))))) _).trans (ops0_v16_ideal (V0 m d) (0 : Fin 5) j e))
  have h5 : ∀ (e : Fin 128), Va2 m d (Proc.devRef .tc main_v30) (ix2 (0 : Fin 1) e) = (V0 m d (Proc.devRef .tc main_arg8)) (ix2 (0 : Fin 5) e) := fun e =>
    (ops2_v30 (Vb1 m d) (0 : Fin 1) e).trans ((congrFun ((kVb1 m d main_v17 (by decide)).trans ((kVr0 m d main_v17 (by decide)).trans ((kVa1 m d main_v17 (by decide)).trans (kVb0 m d main_v17 (by decide))))) _).trans (ops0_v17 (V0 m d) (0 : Fin 5) (0 : Fin 1) e))
  have h6 : ∀ (e : Fin 128), Va2 m d (Proc.devRef .tc main_v32) (ix2 (0 : Fin 1) e) = (V0 m d (Proc.devRef .tc main_arg9)) (ix2 (0 : Fin 5) e) := fun e =>
    (ops2_v32 (Vb1 m d) (0 : Fin 1) e).trans ((congrFun ((kVb1 m d main_v18 (by decide)).trans ((kVr0 m d main_v18 (by decide)).trans ((kVa1 m d main_v18 (by decide)).trans (kVb0 m d main_v18 (by decide))))) _).trans (ops0_v18 (V0 m d) (0 : Fin 5) (0 : Fin 1) e))
  have h7 : ∀ (e : Fin 128), Va2 m d (Proc.devRef .tc main_v34) (ix2 (0 : Fin 1) e) = (V0 m d (Proc.devRef .tc main_arg10)) (ix2 (0 : Fin 5) e) := fun e =>
    (ops2_v34 (Vb1 m d) (0 : Fin 1) e).trans ((congrFun ((kVb1 m d main_v19 (by decide)).trans ((kVr0 m d main_v19 (by decide)).trans ((kVa1 m d main_v19 (by decide)).trans (kVb0 m d main_v19 (by decide))))) _).trans (ops0_v19 (V0 m d) (0 : Fin 5) (0 : Fin 1) e))
  rw [show Vr1 m d (Proc.devRef .tc main_v35) = (D1 m d).arrAt 8 cfg3.N from Function.update_self _ _ _]
  unfold D1
  rw [read3]
  simp only [hX, hEW, hG, h3, h4, h5, h6, h7]

/-! ## Update step 1 (custom_call 5) -/

/-- UPDATE STEP 1, read at an element: the array after it from the array before it, the edge weights and the step's
    parameters. -/
theorem kstep1 (hidx : ∀ j, ((V0 m d (Proc.devRef .tc main_arg2)) j).toNat < 10000) (n : Fin 10000) (e : Fin 128) :
    Vr2 m d (Proc.devRef .tc main_v48) (ix2 n e)
      = Spec.stepK (ι := Fin 128) (κ := Fin 32) (Ideal.ofBits .f32 0x43000000#32) (Ideal.ofBits .f32 0x3727C5AC#32)
          (fun e => (Vr1 m d (Proc.devRef .tc main_v35)) (ix2 n e)) (fun k e => (Vr1 m d (Proc.devRef .tc main_v35)) (ix2 (Cert.Proof.RefRead.nbr (V0 m d (Proc.devRef .tc main_arg2)) hidx n k) e)) (fun k => (Vr0 m d (Proc.devRef .tc main_v22)) (ix2 n k))
          (fun j e => (V0 m d (Proc.devRef .tc main_arg7)) (ix3 (1 : Fin 5) (⟨j.val, by have := j.isLt; omega⟩ : Fin 256) e)) (fun j e => (V0 m d (Proc.devRef .tc main_arg7)) (ix3 (1 : Fin 5) (⟨128 + j.val, by have := j.isLt; omega⟩ : Fin 256) e))
          (fun e => (V0 m d (Proc.devRef .tc main_arg8)) (ix2 (1 : Fin 5) e)) (fun e => (V0 m d (Proc.devRef .tc main_arg9)) (ix2 (1 : Fin 5) e)) (fun e => (V0 m d (Proc.devRef .tc main_arg10)) (ix2 (1 : Fin 5) e)) e := by
  have hX : Va3 m d (Proc.devRef .tc main_v35) = (Vr1 m d (Proc.devRef .tc main_v35)) :=
    ((kVa3 m d main_v35 (by decide)).trans (kVb2 m d main_v35 (by decide)))
  have hEW : Va3 m d (Proc.devRef .tc main_v22) = (Vr0 m d (Proc.devRef .tc main_v22)) :=
    ((kVa3 m d main_v22 (by decide)).trans ((kVb2 m d main_v22 (by decide)).trans ((kVr1 m d main_v22 (by decide)).trans ((kVa2 m d main_v22 (by decide)).trans (kVb1 m d main_v22 (by decide))))))
  have hTab : Vr1 m d (Proc.devRef .tc main_v35) = (Vr1 m d (Proc.devRef .tc main_v35)) :=
    rfl
  have hG : ∀ (k : Fin 32) (n : Fin 10000) (e : Fin 128), Va3 m d (Proc.devRef .tc main_v37) (ix3 k n e)
      = (Vr1 m d (Proc.devRef .tc main_v35)) (ix2 (Cert.Proof.RefRead.nbr (V0 m d (Proc.devRef .tc main_arg2)) hidx n k) e) := fun k n e => by
    have h4 : Vr1 m d (Proc.devRef .tc main_v4) (ix1 ⟨k.val * 10000 + n.val, by have := k.isLt; have := n.isLt; omega⟩)
        = (V0 m d (Proc.devRef .tc main_arg2)) (ix2 n k) :=
      (congrFun ((kVr1 m d main_v4 (by decide)).trans ((kVa2 m d main_v4 (by decide)).trans ((kVb1 m d main_v4 (by decide)).trans ((kVr0 m d main_v4 (by decide)).trans ((kVa1 m d main_v4 (by decide)).trans (kVb0 m d main_v4 (by decide))))))) _).trans (ops0_v4 (V0 m d) k n)
    refine (ops3_v37 (Vb2 m d) k n e).trans ?_
    rw [show Vb2 m d (Proc.devRef .tc main_v36) = Cert.Proof.LaunchBase.gatherFn (Vr1 m d (Proc.devRef .tc main_v4)) (Vr1 m d (Proc.devRef .tc main_v35)) from Function.update_self _ _ _, hTab]
    unfold Cert.Proof.LaunchBase.gatherFn Cert.Proof.RefRead.nbr
    show (Vr1 m d (Proc.devRef .tc main_v35)) (ix2 (if h : (Vr1 m d (Proc.devRef .tc main_v4) (ix1 ⟨k.val * 10000 + n.val, by have := k.isLt; have := n.isLt; omega⟩)).toNat < 10000 then ⟨_, h⟩ else ⟨0, by omega⟩) e) = _
    rw [h4, dif_pos (hidx (ix2 n k))]
  have h3 : ∀ (j e : Fin 128), Va3 m d (Proc.devRef .tc main_v39) (ix2 j e) = (V0 m d (Proc.devRef .tc main_arg7)) (ix3 (1 : Fin 5) (⟨j.val, by have := j.isLt; omega⟩ : Fin 256) e) := fun j e =>
    (ops3_v39 (Vb2 m d) j e).trans ((congrFun ((kVb2 m d main_v14 (by decide)).trans ((kVr1 m d main_v14 (by decide)).trans ((kVa2 m d main_v14 (by decide)).trans ((kVb1 m d main_v14 (by decide)).trans ((kVr0 m d main_v14 (by decide)).trans ((kVa1 m d main_v14 (by decide)).trans (kVb0 m d main_v14 (by decide)))))))) _).trans (ops0_v14_ideal (V0 m d) (1 : Fin 5) j e))
  have h4 : ∀ (j e : Fin 128), Va3 m d (Proc.devRef .tc main_v41) (ix2 j e) = (V0 m d (Proc.devRef .tc main_arg7)) (ix3 (1 : Fin 5) (⟨128 + j.val, by have := j.isLt; omega⟩ : Fin 256) e) := fun j e =>
    (ops3_v41 (Vb2 m d) j e).trans ((congrFun ((kVb2 m d main_v16 (by decide)).trans ((kVr1 m d main_v16 (by decide)).trans ((kVa2 m d main_v16 (by decide)).trans ((kVb1 m d main_v16 (by decide)).trans ((kVr0 m d main_v16 (by decide)).trans ((kVa1 m d main_v16 (by decide)).trans (kVb0 m d main_v16 (by decide)))))))) _).trans (ops0_v16_ideal (V0 m d) (1 : Fin 5) j e))
  have h5 : ∀ (e : Fin 128), Va3 m d (Proc.devRef .tc main_v43) (ix2 (0 : Fin 1) e) = (V0 m d (Proc.devRef .tc main_arg8)) (ix2 (1 : Fin 5) e) := fun e =>
    (ops3_v43 (Vb2 m d) (0 : Fin 1) e).trans ((congrFun ((kVb2 m d main_v17 (by decide)).trans ((kVr1 m d main_v17 (by decide)).trans ((kVa2 m d main_v17 (by decide)).trans ((kVb1 m d main_v17 (by decide)).trans ((kVr0 m d main_v17 (by decide)).trans ((kVa1 m d main_v17 (by decide)).trans (kVb0 m d main_v17 (by decide)))))))) _).trans (ops0_v17 (V0 m d) (1 : Fin 5) (0 : Fin 1) e))
  have h6 : ∀ (e : Fin 128), Va3 m d (Proc.devRef .tc main_v45) (ix2 (0 : Fin 1) e) = (V0 m d (Proc.devRef .tc main_arg9)) (ix2 (1 : Fin 5) e) := fun e =>
    (ops3_v45 (Vb2 m d) (0 : Fin 1) e).trans ((congrFun ((kVb2 m d main_v18 (by decide)).trans ((kVr1 m d main_v18 (by decide)).trans ((kVa2 m d main_v18 (by decide)).trans ((kVb1 m d main_v18 (by decide)).trans ((kVr0 m d main_v18 (by decide)).trans ((kVa1 m d main_v18 (by decide)).trans (kVb0 m d main_v18 (by decide)))))))) _).trans (ops0_v18 (V0 m d) (1 : Fin 5) (0 : Fin 1) e))
  have h7 : ∀ (e : Fin 128), Va3 m d (Proc.devRef .tc main_v47) (ix2 (0 : Fin 1) e) = (V0 m d (Proc.devRef .tc main_arg10)) (ix2 (1 : Fin 5) e) := fun e =>
    (ops3_v47 (Vb2 m d) (0 : Fin 1) e).trans ((congrFun ((kVb2 m d main_v19 (by decide)).trans ((kVr1 m d main_v19 (by decide)).trans ((kVa2 m d main_v19 (by decide)).trans ((kVb1 m d main_v19 (by decide)).trans ((kVr0 m d main_v19 (by decide)).trans ((kVa1 m d main_v19 (by decide)).trans (kVb0 m d main_v19 (by decide)))))))) _).trans (ops0_v19 (V0 m d) (1 : Fin 5) (0 : Fin 1) e))
  rw [show Vr2 m d (Proc.devRef .tc main_v48) = (D2 m d).arrAt 8 cfg5.N from Function.update_self _ _ _]
  unfold D2
  rw [read5]
  simp only [hX, hEW, hG, h3, h4, h5, h6, h7]

/-! ## Update step 2 (custom_call 7) -/

/-- UPDATE STEP 2, read at an element: the array after it from the array before it, the edge weights and the step's
    parameters. -/
theorem kstep2 (hidx : ∀ j, ((V0 m d (Proc.devRef .tc main_arg2)) j).toNat < 10000) (n : Fin 10000) (e : Fin 128) :
    Vr3 m d (Proc.devRef .tc main_v61) (ix2 n e)
      = Spec.stepK (ι := Fin 128) (κ := Fin 32) (Ideal.ofBits .f32 0x43000000#32) (Ideal.ofBits .f32 0x3727C5AC#32)
          (fun e => (Vr2 m d (Proc.devRef .tc main_v48)) (ix2 n e)) (fun k e => (Vr2 m d (Proc.devRef .tc main_v48)) (ix2 (Cert.Proof.RefRead.nbr (V0 m d (Proc.devRef .tc main_arg2)) hidx n k) e)) (fun k => (Vr0 m d (Proc.devRef .tc main_v22)) (ix2 n k))
          (fun j e => (V0 m d (Proc.devRef .tc main_arg7)) (ix3 (2 : Fin 5) (⟨j.val, by have := j.isLt; omega⟩ : Fin 256) e)) (fun j e => (V0 m d (Proc.devRef .tc main_arg7)) (ix3 (2 : Fin 5) (⟨128 + j.val, by have := j.isLt; omega⟩ : Fin 256) e))
          (fun e => (V0 m d (Proc.devRef .tc main_arg8)) (ix2 (2 : Fin 5) e)) (fun e => (V0 m d (Proc.devRef .tc main_arg9)) (ix2 (2 : Fin 5) e)) (fun e => (V0 m d (Proc.devRef .tc main_arg10)) (ix2 (2 : Fin 5) e)) e := by
  have hX : Va4 m d (Proc.devRef .tc main_v48) = (Vr2 m d (Proc.devRef .tc main_v48)) :=
    ((kVa4 m d main_v48 (by decide)).trans (kVb3 m d main_v48 (by decide)))
  have hEW : Va4 m d (Proc.devRef .tc main_v22) = (Vr0 m d (Proc.devRef .tc main_v22)) :=
    ((kVa4 m d main_v22 (by decide)).trans ((kVb3 m d main_v22 (by decide)).trans ((kVr2 m d main_v22 (by decide)).trans ((kVa3 m d main_v22 (by decide)).trans ((kVb2 m d main_v22 (by decide)).trans ((kVr1 m d main_v22 (by decide)).trans ((kVa2 m d main_v22 (by decide)).trans (kVb1 m d main_v22 (by decide)))))))))
  have hTab : Vr2 m d (Proc.devRef .tc main_v48) = (Vr2 m d (Proc.devRef .tc main_v48)) :=
    rfl
  have hG : ∀ (k : Fin 32) (n : Fin 10000) (e : Fin 128), Va4 m d (Proc.devRef .tc main_v50) (ix3 k n e)
      = (Vr2 m d (Proc.devRef .tc main_v48)) (ix2 (Cert.Proof.RefRead.nbr (V0 m d (Proc.devRef .tc main_arg2)) hidx n k) e) := fun k n e => by
    have h4 : Vr2 m d (Proc.devRef .tc main_v4) (ix1 ⟨k.val * 10000 + n.val, by have := k.isLt; have := n.isLt; omega⟩)
        = (V0 m d (Proc.devRef .tc main_arg2)) (ix2 n k) :=
      (congrFun ((kVr2 m d main_v4 (by decide)).trans ((kVa3 m d main_v4 (by decide)).trans ((kVb2 m d main_v4 (by decide)).trans ((kVr1 m d main_v4 (by decide)).trans ((kVa2 m d main_v4 (by decide)).trans ((kVb1 m d main_v4 (by decide)).trans ((kVr0 m d main_v4 (by decide)).trans ((kVa1 m d main_v4 (by decide)).trans (kVb0 m d main_v4 (by decide)))))))))) _).trans (ops0_v4 (V0 m d) k n)
    refine (ops4_v50 (Vb3 m d) k n e).trans ?_
    rw [show Vb3 m d (Proc.devRef .tc main_v49) = Cert.Proof.LaunchBase.gatherFn (Vr2 m d (Proc.devRef .tc main_v4)) (Vr2 m d (Proc.devRef .tc main_v48)) from Function.update_self _ _ _, hTab]
    unfold Cert.Proof.LaunchBase.gatherFn Cert.Proof.RefRead.nbr
    show (Vr2 m d (Proc.devRef .tc main_v48)) (ix2 (if h : (Vr2 m d (Proc.devRef .tc main_v4) (ix1 ⟨k.val * 10000 + n.val, by have := k.isLt; have := n.isLt; omega⟩)).toNat < 10000 then ⟨_, h⟩ else ⟨0, by omega⟩) e) = _
    rw [h4, dif_pos (hidx (ix2 n k))]
  have h3 : ∀ (j e : Fin 128), Va4 m d (Proc.devRef .tc main_v52) (ix2 j e) = (V0 m d (Proc.devRef .tc main_arg7)) (ix3 (2 : Fin 5) (⟨j.val, by have := j.isLt; omega⟩ : Fin 256) e) := fun j e =>
    (ops4_v52 (Vb3 m d) j e).trans ((congrFun ((kVb3 m d main_v14 (by decide)).trans ((kVr2 m d main_v14 (by decide)).trans ((kVa3 m d main_v14 (by decide)).trans ((kVb2 m d main_v14 (by decide)).trans ((kVr1 m d main_v14 (by decide)).trans ((kVa2 m d main_v14 (by decide)).trans ((kVb1 m d main_v14 (by decide)).trans ((kVr0 m d main_v14 (by decide)).trans ((kVa1 m d main_v14 (by decide)).trans (kVb0 m d main_v14 (by decide))))))))))) _).trans (ops0_v14_ideal (V0 m d) (2 : Fin 5) j e))
  have h4 : ∀ (j e : Fin 128), Va4 m d (Proc.devRef .tc main_v54) (ix2 j e) = (V0 m d (Proc.devRef .tc main_arg7)) (ix3 (2 : Fin 5) (⟨128 + j.val, by have := j.isLt; omega⟩ : Fin 256) e) := fun j e =>
    (ops4_v54 (Vb3 m d) j e).trans ((congrFun ((kVb3 m d main_v16 (by decide)).trans ((kVr2 m d main_v16 (by decide)).trans ((kVa3 m d main_v16 (by decide)).trans ((kVb2 m d main_v16 (by decide)).trans ((kVr1 m d main_v16 (by decide)).trans ((kVa2 m d main_v16 (by decide)).trans ((kVb1 m d main_v16 (by decide)).trans ((kVr0 m d main_v16 (by decide)).trans ((kVa1 m d main_v16 (by decide)).trans (kVb0 m d main_v16 (by decide))))))))))) _).trans (ops0_v16_ideal (V0 m d) (2 : Fin 5) j e))
  have h5 : ∀ (e : Fin 128), Va4 m d (Proc.devRef .tc main_v56) (ix2 (0 : Fin 1) e) = (V0 m d (Proc.devRef .tc main_arg8)) (ix2 (2 : Fin 5) e) := fun e =>
    (ops4_v56 (Vb3 m d) (0 : Fin 1) e).trans ((congrFun ((kVb3 m d main_v17 (by decide)).trans ((kVr2 m d main_v17 (by decide)).trans ((kVa3 m d main_v17 (by decide)).trans ((kVb2 m d main_v17 (by decide)).trans ((kVr1 m d main_v17 (by decide)).trans ((kVa2 m d main_v17 (by decide)).trans ((kVb1 m d main_v17 (by decide)).trans ((kVr0 m d main_v17 (by decide)).trans ((kVa1 m d main_v17 (by decide)).trans (kVb0 m d main_v17 (by decide))))))))))) _).trans (ops0_v17 (V0 m d) (2 : Fin 5) (0 : Fin 1) e))
  have h6 : ∀ (e : Fin 128), Va4 m d (Proc.devRef .tc main_v58) (ix2 (0 : Fin 1) e) = (V0 m d (Proc.devRef .tc main_arg9)) (ix2 (2 : Fin 5) e) := fun e =>
    (ops4_v58 (Vb3 m d) (0 : Fin 1) e).trans ((congrFun ((kVb3 m d main_v18 (by decide)).trans ((kVr2 m d main_v18 (by decide)).trans ((kVa3 m d main_v18 (by decide)).trans ((kVb2 m d main_v18 (by decide)).trans ((kVr1 m d main_v18 (by decide)).trans ((kVa2 m d main_v18 (by decide)).trans ((kVb1 m d main_v18 (by decide)).trans ((kVr0 m d main_v18 (by decide)).trans ((kVa1 m d main_v18 (by decide)).trans (kVb0 m d main_v18 (by decide))))))))))) _).trans (ops0_v18 (V0 m d) (2 : Fin 5) (0 : Fin 1) e))
  have h7 : ∀ (e : Fin 128), Va4 m d (Proc.devRef .tc main_v60) (ix2 (0 : Fin 1) e) = (V0 m d (Proc.devRef .tc main_arg10)) (ix2 (2 : Fin 5) e) := fun e =>
    (ops4_v60 (Vb3 m d) (0 : Fin 1) e).trans ((congrFun ((kVb3 m d main_v19 (by decide)).trans ((kVr2 m d main_v19 (by decide)).trans ((kVa3 m d main_v19 (by decide)).trans ((kVb2 m d main_v19 (by decide)).trans ((kVr1 m d main_v19 (by decide)).trans ((kVa2 m d main_v19 (by decide)).trans ((kVb1 m d main_v19 (by decide)).trans ((kVr0 m d main_v19 (by decide)).trans ((kVa1 m d main_v19 (by decide)).trans (kVb0 m d main_v19 (by decide))))))))))) _).trans (ops0_v19 (V0 m d) (2 : Fin 5) (0 : Fin 1) e))
  rw [show Vr3 m d (Proc.devRef .tc main_v61) = (D3 m d).arrAt 8 cfg7.N from Function.update_self _ _ _]
  unfold D3
  rw [read7]
  simp only [hX, hEW, hG, h3, h4, h5, h6, h7]

/-! ## Update step 3 (custom_call 9) -/

/-- UPDATE STEP 3, read at an element: the array after it from the array before it, the edge weights and the step's
    parameters. -/
theorem kstep3 (hidx : ∀ j, ((V0 m d (Proc.devRef .tc main_arg2)) j).toNat < 10000) (n : Fin 10000) (e : Fin 128) :
    Vr4 m d (Proc.devRef .tc main_v74) (ix2 n e)
      = Spec.stepK (ι := Fin 128) (κ := Fin 32) (Ideal.ofBits .f32 0x43000000#32) (Ideal.ofBits .f32 0x3727C5AC#32)
          (fun e => (Vr3 m d (Proc.devRef .tc main_v61)) (ix2 n e)) (fun k e => (Vr3 m d (Proc.devRef .tc main_v61)) (ix2 (Cert.Proof.RefRead.nbr (V0 m d (Proc.devRef .tc main_arg2)) hidx n k) e)) (fun k => (Vr0 m d (Proc.devRef .tc main_v22)) (ix2 n k))
          (fun j e => (V0 m d (Proc.devRef .tc main_arg7)) (ix3 (3 : Fin 5) (⟨j.val, by have := j.isLt; omega⟩ : Fin 256) e)) (fun j e => (V0 m d (Proc.devRef .tc main_arg7)) (ix3 (3 : Fin 5) (⟨128 + j.val, by have := j.isLt; omega⟩ : Fin 256) e))
          (fun e => (V0 m d (Proc.devRef .tc main_arg8)) (ix2 (3 : Fin 5) e)) (fun e => (V0 m d (Proc.devRef .tc main_arg9)) (ix2 (3 : Fin 5) e)) (fun e => (V0 m d (Proc.devRef .tc main_arg10)) (ix2 (3 : Fin 5) e)) e := by
  have hX : Va5 m d (Proc.devRef .tc main_v61) = (Vr3 m d (Proc.devRef .tc main_v61)) :=
    ((kVa5 m d main_v61 (by decide)).trans (kVb4 m d main_v61 (by decide)))
  have hEW : Va5 m d (Proc.devRef .tc main_v22) = (Vr0 m d (Proc.devRef .tc main_v22)) :=
    ((kVa5 m d main_v22 (by decide)).trans ((kVb4 m d main_v22 (by decide)).trans ((kVr3 m d main_v22 (by decide)).trans ((kVa4 m d main_v22 (by decide)).trans ((kVb3 m d main_v22 (by decide)).trans ((kVr2 m d main_v22 (by decide)).trans ((kVa3 m d main_v22 (by decide)).trans ((kVb2 m d main_v22 (by decide)).trans ((kVr1 m d main_v22 (by decide)).trans ((kVa2 m d main_v22 (by decide)).trans (kVb1 m d main_v22 (by decide))))))))))))
  have hTab : Vr3 m d (Proc.devRef .tc main_v61) = (Vr3 m d (Proc.devRef .tc main_v61)) :=
    rfl
  have hG : ∀ (k : Fin 32) (n : Fin 10000) (e : Fin 128), Va5 m d (Proc.devRef .tc main_v63) (ix3 k n e)
      = (Vr3 m d (Proc.devRef .tc main_v61)) (ix2 (Cert.Proof.RefRead.nbr (V0 m d (Proc.devRef .tc main_arg2)) hidx n k) e) := fun k n e => by
    have h4 : Vr3 m d (Proc.devRef .tc main_v4) (ix1 ⟨k.val * 10000 + n.val, by have := k.isLt; have := n.isLt; omega⟩)
        = (V0 m d (Proc.devRef .tc main_arg2)) (ix2 n k) :=
      (congrFun ((kVr3 m d main_v4 (by decide)).trans ((kVa4 m d main_v4 (by decide)).trans ((kVb3 m d main_v4 (by decide)).trans ((kVr2 m d main_v4 (by decide)).trans ((kVa3 m d main_v4 (by decide)).trans ((kVb2 m d main_v4 (by decide)).trans ((kVr1 m d main_v4 (by decide)).trans ((kVa2 m d main_v4 (by decide)).trans ((kVb1 m d main_v4 (by decide)).trans ((kVr0 m d main_v4 (by decide)).trans ((kVa1 m d main_v4 (by decide)).trans (kVb0 m d main_v4 (by decide))))))))))))) _).trans (ops0_v4 (V0 m d) k n)
    refine (ops5_v63 (Vb4 m d) k n e).trans ?_
    rw [show Vb4 m d (Proc.devRef .tc main_v62) = Cert.Proof.LaunchBase.gatherFn (Vr3 m d (Proc.devRef .tc main_v4)) (Vr3 m d (Proc.devRef .tc main_v61)) from Function.update_self _ _ _, hTab]
    unfold Cert.Proof.LaunchBase.gatherFn Cert.Proof.RefRead.nbr
    show (Vr3 m d (Proc.devRef .tc main_v61)) (ix2 (if h : (Vr3 m d (Proc.devRef .tc main_v4) (ix1 ⟨k.val * 10000 + n.val, by have := k.isLt; have := n.isLt; omega⟩)).toNat < 10000 then ⟨_, h⟩ else ⟨0, by omega⟩) e) = _
    rw [h4, dif_pos (hidx (ix2 n k))]
  have h3 : ∀ (j e : Fin 128), Va5 m d (Proc.devRef .tc main_v65) (ix2 j e) = (V0 m d (Proc.devRef .tc main_arg7)) (ix3 (3 : Fin 5) (⟨j.val, by have := j.isLt; omega⟩ : Fin 256) e) := fun j e =>
    (ops5_v65 (Vb4 m d) j e).trans ((congrFun ((kVb4 m d main_v14 (by decide)).trans ((kVr3 m d main_v14 (by decide)).trans ((kVa4 m d main_v14 (by decide)).trans ((kVb3 m d main_v14 (by decide)).trans ((kVr2 m d main_v14 (by decide)).trans ((kVa3 m d main_v14 (by decide)).trans ((kVb2 m d main_v14 (by decide)).trans ((kVr1 m d main_v14 (by decide)).trans ((kVa2 m d main_v14 (by decide)).trans ((kVb1 m d main_v14 (by decide)).trans ((kVr0 m d main_v14 (by decide)).trans ((kVa1 m d main_v14 (by decide)).trans (kVb0 m d main_v14 (by decide)))))))))))))) _).trans (ops0_v14_ideal (V0 m d) (3 : Fin 5) j e))
  have h4 : ∀ (j e : Fin 128), Va5 m d (Proc.devRef .tc main_v67) (ix2 j e) = (V0 m d (Proc.devRef .tc main_arg7)) (ix3 (3 : Fin 5) (⟨128 + j.val, by have := j.isLt; omega⟩ : Fin 256) e) := fun j e =>
    (ops5_v67 (Vb4 m d) j e).trans ((congrFun ((kVb4 m d main_v16 (by decide)).trans ((kVr3 m d main_v16 (by decide)).trans ((kVa4 m d main_v16 (by decide)).trans ((kVb3 m d main_v16 (by decide)).trans ((kVr2 m d main_v16 (by decide)).trans ((kVa3 m d main_v16 (by decide)).trans ((kVb2 m d main_v16 (by decide)).trans ((kVr1 m d main_v16 (by decide)).trans ((kVa2 m d main_v16 (by decide)).trans ((kVb1 m d main_v16 (by decide)).trans ((kVr0 m d main_v16 (by decide)).trans ((kVa1 m d main_v16 (by decide)).trans (kVb0 m d main_v16 (by decide)))))))))))))) _).trans (ops0_v16_ideal (V0 m d) (3 : Fin 5) j e))
  have h5 : ∀ (e : Fin 128), Va5 m d (Proc.devRef .tc main_v69) (ix2 (0 : Fin 1) e) = (V0 m d (Proc.devRef .tc main_arg8)) (ix2 (3 : Fin 5) e) := fun e =>
    (ops5_v69 (Vb4 m d) (0 : Fin 1) e).trans ((congrFun ((kVb4 m d main_v17 (by decide)).trans ((kVr3 m d main_v17 (by decide)).trans ((kVa4 m d main_v17 (by decide)).trans ((kVb3 m d main_v17 (by decide)).trans ((kVr2 m d main_v17 (by decide)).trans ((kVa3 m d main_v17 (by decide)).trans ((kVb2 m d main_v17 (by decide)).trans ((kVr1 m d main_v17 (by decide)).trans ((kVa2 m d main_v17 (by decide)).trans ((kVb1 m d main_v17 (by decide)).trans ((kVr0 m d main_v17 (by decide)).trans ((kVa1 m d main_v17 (by decide)).trans (kVb0 m d main_v17 (by decide)))))))))))))) _).trans (ops0_v17 (V0 m d) (3 : Fin 5) (0 : Fin 1) e))
  have h6 : ∀ (e : Fin 128), Va5 m d (Proc.devRef .tc main_v71) (ix2 (0 : Fin 1) e) = (V0 m d (Proc.devRef .tc main_arg9)) (ix2 (3 : Fin 5) e) := fun e =>
    (ops5_v71 (Vb4 m d) (0 : Fin 1) e).trans ((congrFun ((kVb4 m d main_v18 (by decide)).trans ((kVr3 m d main_v18 (by decide)).trans ((kVa4 m d main_v18 (by decide)).trans ((kVb3 m d main_v18 (by decide)).trans ((kVr2 m d main_v18 (by decide)).trans ((kVa3 m d main_v18 (by decide)).trans ((kVb2 m d main_v18 (by decide)).trans ((kVr1 m d main_v18 (by decide)).trans ((kVa2 m d main_v18 (by decide)).trans ((kVb1 m d main_v18 (by decide)).trans ((kVr0 m d main_v18 (by decide)).trans ((kVa1 m d main_v18 (by decide)).trans (kVb0 m d main_v18 (by decide)))))))))))))) _).trans (ops0_v18 (V0 m d) (3 : Fin 5) (0 : Fin 1) e))
  have h7 : ∀ (e : Fin 128), Va5 m d (Proc.devRef .tc main_v73) (ix2 (0 : Fin 1) e) = (V0 m d (Proc.devRef .tc main_arg10)) (ix2 (3 : Fin 5) e) := fun e =>
    (ops5_v73 (Vb4 m d) (0 : Fin 1) e).trans ((congrFun ((kVb4 m d main_v19 (by decide)).trans ((kVr3 m d main_v19 (by decide)).trans ((kVa4 m d main_v19 (by decide)).trans ((kVb3 m d main_v19 (by decide)).trans ((kVr2 m d main_v19 (by decide)).trans ((kVa3 m d main_v19 (by decide)).trans ((kVb2 m d main_v19 (by decide)).trans ((kVr1 m d main_v19 (by decide)).trans ((kVa2 m d main_v19 (by decide)).trans ((kVb1 m d main_v19 (by decide)).trans ((kVr0 m d main_v19 (by decide)).trans ((kVa1 m d main_v19 (by decide)).trans (kVb0 m d main_v19 (by decide)))))))))))))) _).trans (ops0_v19 (V0 m d) (3 : Fin 5) (0 : Fin 1) e))
  rw [show Vr4 m d (Proc.devRef .tc main_v74) = (D4 m d).arrAt 8 cfg9.N from Function.update_self _ _ _]
  unfold D4
  rw [read9]
  simp only [hX, hEW, hG, h3, h4, h5, h6, h7]

/-! ## Update step 4 (custom_call 11) -/

/-- UPDATE STEP 4, read at an element: the array after it from the array before it, the edge weights and the step's
    parameters. -/
theorem kstep4 (hidx : ∀ j, ((V0 m d (Proc.devRef .tc main_arg2)) j).toNat < 10000) (n : Fin 10000) (e : Fin 128) :
    Vr5 m d (Proc.devRef .tc main_v87) (ix2 n e)
      = Spec.stepK (ι := Fin 128) (κ := Fin 32) (Ideal.ofBits .f32 0x43000000#32) (Ideal.ofBits .f32 0x3727C5AC#32)
          (fun e => (Vr4 m d (Proc.devRef .tc main_v74)) (ix2 n e)) (fun k e => (Vr4 m d (Proc.devRef .tc main_v74)) (ix2 (Cert.Proof.RefRead.nbr (V0 m d (Proc.devRef .tc main_arg2)) hidx n k) e)) (fun k => (Vr0 m d (Proc.devRef .tc main_v22)) (ix2 n k))
          (fun j e => (V0 m d (Proc.devRef .tc main_arg7)) (ix3 (4 : Fin 5) (⟨j.val, by have := j.isLt; omega⟩ : Fin 256) e)) (fun j e => (V0 m d (Proc.devRef .tc main_arg7)) (ix3 (4 : Fin 5) (⟨128 + j.val, by have := j.isLt; omega⟩ : Fin 256) e))
          (fun e => (V0 m d (Proc.devRef .tc main_arg8)) (ix2 (4 : Fin 5) e)) (fun e => (V0 m d (Proc.devRef .tc main_arg9)) (ix2 (4 : Fin 5) e)) (fun e => (V0 m d (Proc.devRef .tc main_arg10)) (ix2 (4 : Fin 5) e)) e := by
  have hX : Va6 m d (Proc.devRef .tc main_v74) = (Vr4 m d (Proc.devRef .tc main_v74)) :=
    ((kVa6 m d main_v74 (by decide)).trans (kVb5 m d main_v74 (by decide)))
  have hEW : Va6 m d (Proc.devRef .tc main_v22) = (Vr0 m d (Proc.devRef .tc main_v22)) :=
    ((kVa6 m d main_v22 (by decide)).trans ((kVb5 m d main_v22 (by decide)).trans ((kVr4 m d main_v22 (by decide)).trans ((kVa5 m d main_v22 (by decide)).trans ((kVb4 m d main_v22 (by decide)).trans ((kVr3 m d main_v22 (by decide)).trans ((kVa4 m d main_v22 (by decide)).trans ((kVb3 m d main_v22 (by decide)).trans ((kVr2 m d main_v22 (by decide)).trans ((kVa3 m d main_v22 (by decide)).trans ((kVb2 m d main_v22 (by decide)).trans ((kVr1 m d main_v22 (by decide)).trans ((kVa2 m d main_v22 (by decide)).trans (kVb1 m d main_v22 (by decide)))))))))))))))
  have hTab : Vr4 m d (Proc.devRef .tc main_v74) = (Vr4 m d (Proc.devRef .tc main_v74)) :=
    rfl
  have hG : ∀ (k : Fin 32) (n : Fin 10000) (e : Fin 128), Va6 m d (Proc.devRef .tc main_v76) (ix3 k n e)
      = (Vr4 m d (Proc.devRef .tc main_v74)) (ix2 (Cert.Proof.RefRead.nbr (V0 m d (Proc.devRef .tc main_arg2)) hidx n k) e) := fun k n e => by
    have h4 : Vr4 m d (Proc.devRef .tc main_v4) (ix1 ⟨k.val * 10000 + n.val, by have := k.isLt; have := n.isLt; omega⟩)
        = (V0 m d (Proc.devRef .tc main_arg2)) (ix2 n k) :=
      (congrFun ((kVr4 m d main_v4 (by decide)).trans ((kVa5 m d main_v4 (by decide)).trans ((kVb4 m d main_v4 (by decide)).trans ((kVr3 m d main_v4 (by decide)).trans ((kVa4 m d main_v4 (by decide)).trans ((kVb3 m d main_v4 (by decide)).trans ((kVr2 m d main_v4 (by decide)).trans ((kVa3 m d main_v4 (by decide)).trans ((kVb2 m d main_v4 (by decide)).trans ((kVr1 m d main_v4 (by decide)).trans ((kVa2 m d main_v4 (by decide)).trans ((kVb1 m d main_v4 (by decide)).trans ((kVr0 m d main_v4 (by decide)).trans ((kVa1 m d main_v4 (by decide)).trans (kVb0 m d main_v4 (by decide)))))))))))))))) _).trans (ops0_v4 (V0 m d) k n)
    refine (ops6_v76 (Vb5 m d) k n e).trans ?_
    rw [show Vb5 m d (Proc.devRef .tc main_v75) = Cert.Proof.LaunchBase.gatherFn (Vr4 m d (Proc.devRef .tc main_v4)) (Vr4 m d (Proc.devRef .tc main_v74)) from Function.update_self _ _ _, hTab]
    unfold Cert.Proof.LaunchBase.gatherFn Cert.Proof.RefRead.nbr
    show (Vr4 m d (Proc.devRef .tc main_v74)) (ix2 (if h : (Vr4 m d (Proc.devRef .tc main_v4) (ix1 ⟨k.val * 10000 + n.val, by have := k.isLt; have := n.isLt; omega⟩)).toNat < 10000 then ⟨_, h⟩ else ⟨0, by omega⟩) e) = _
    rw [h4, dif_pos (hidx (ix2 n k))]
  have h3 : ∀ (j e : Fin 128), Va6 m d (Proc.devRef .tc main_v78) (ix2 j e) = (V0 m d (Proc.devRef .tc main_arg7)) (ix3 (4 : Fin 5) (⟨j.val, by have := j.isLt; omega⟩ : Fin 256) e) := fun j e =>
    (ops6_v78 (Vb5 m d) j e).trans ((congrFun ((kVb5 m d main_v14 (by decide)).trans ((kVr4 m d main_v14 (by decide)).trans ((kVa5 m d main_v14 (by decide)).trans ((kVb4 m d main_v14 (by decide)).trans ((kVr3 m d main_v14 (by decide)).trans ((kVa4 m d main_v14 (by decide)).trans ((kVb3 m d main_v14 (by decide)).trans ((kVr2 m d main_v14 (by decide)).trans ((kVa3 m d main_v14 (by decide)).trans ((kVb2 m d main_v14 (by decide)).trans ((kVr1 m d main_v14 (by decide)).trans ((kVa2 m d main_v14 (by decide)).trans ((kVb1 m d main_v14 (by decide)).trans ((kVr0 m d main_v14 (by decide)).trans ((kVa1 m d main_v14 (by decide)).trans (kVb0 m d main_v14 (by decide))))))))))))))))) _).trans (ops0_v14_ideal (V0 m d) (4 : Fin 5) j e))
  have h4 : ∀ (j e : Fin 128), Va6 m d (Proc.devRef .tc main_v80) (ix2 j e) = (V0 m d (Proc.devRef .tc main_arg7)) (ix3 (4 : Fin 5) (⟨128 + j.val, by have := j.isLt; omega⟩ : Fin 256) e) := fun j e =>
    (ops6_v80 (Vb5 m d) j e).trans ((congrFun ((kVb5 m d main_v16 (by decide)).trans ((kVr4 m d main_v16 (by decide)).trans ((kVa5 m d main_v16 (by decide)).trans ((kVb4 m d main_v16 (by decide)).trans ((kVr3 m d main_v16 (by decide)).trans ((kVa4 m d main_v16 (by decide)).trans ((kVb3 m d main_v16 (by decide)).trans ((kVr2 m d main_v16 (by decide)).trans ((kVa3 m d main_v16 (by decide)).trans ((kVb2 m d main_v16 (by decide)).trans ((kVr1 m d main_v16 (by decide)).trans ((kVa2 m d main_v16 (by decide)).trans ((kVb1 m d main_v16 (by decide)).trans ((kVr0 m d main_v16 (by decide)).trans ((kVa1 m d main_v16 (by decide)).trans (kVb0 m d main_v16 (by decide))))))))))))))))) _).trans (ops0_v16_ideal (V0 m d) (4 : Fin 5) j e))
  have h5 : ∀ (e : Fin 128), Va6 m d (Proc.devRef .tc main_v82) (ix2 (0 : Fin 1) e) = (V0 m d (Proc.devRef .tc main_arg8)) (ix2 (4 : Fin 5) e) := fun e =>
    (ops6_v82 (Vb5 m d) (0 : Fin 1) e).trans ((congrFun ((kVb5 m d main_v17 (by decide)).trans ((kVr4 m d main_v17 (by decide)).trans ((kVa5 m d main_v17 (by decide)).trans ((kVb4 m d main_v17 (by decide)).trans ((kVr3 m d main_v17 (by decide)).trans ((kVa4 m d main_v17 (by decide)).trans ((kVb3 m d main_v17 (by decide)).trans ((kVr2 m d main_v17 (by decide)).trans ((kVa3 m d main_v17 (by decide)).trans ((kVb2 m d main_v17 (by decide)).trans ((kVr1 m d main_v17 (by decide)).trans ((kVa2 m d main_v17 (by decide)).trans ((kVb1 m d main_v17 (by decide)).trans ((kVr0 m d main_v17 (by decide)).trans ((kVa1 m d main_v17 (by decide)).trans (kVb0 m d main_v17 (by decide))))))))))))))))) _).trans (ops0_v17 (V0 m d) (4 : Fin 5) (0 : Fin 1) e))
  have h6 : ∀ (e : Fin 128), Va6 m d (Proc.devRef .tc main_v84) (ix2 (0 : Fin 1) e) = (V0 m d (Proc.devRef .tc main_arg9)) (ix2 (4 : Fin 5) e) := fun e =>
    (ops6_v84 (Vb5 m d) (0 : Fin 1) e).trans ((congrFun ((kVb5 m d main_v18 (by decide)).trans ((kVr4 m d main_v18 (by decide)).trans ((kVa5 m d main_v18 (by decide)).trans ((kVb4 m d main_v18 (by decide)).trans ((kVr3 m d main_v18 (by decide)).trans ((kVa4 m d main_v18 (by decide)).trans ((kVb3 m d main_v18 (by decide)).trans ((kVr2 m d main_v18 (by decide)).trans ((kVa3 m d main_v18 (by decide)).trans ((kVb2 m d main_v18 (by decide)).trans ((kVr1 m d main_v18 (by decide)).trans ((kVa2 m d main_v18 (by decide)).trans ((kVb1 m d main_v18 (by decide)).trans ((kVr0 m d main_v18 (by decide)).trans ((kVa1 m d main_v18 (by decide)).trans (kVb0 m d main_v18 (by decide))))))))))))))))) _).trans (ops0_v18 (V0 m d) (4 : Fin 5) (0 : Fin 1) e))
  have h7 : ∀ (e : Fin 128), Va6 m d (Proc.devRef .tc main_v86) (ix2 (0 : Fin 1) e) = (V0 m d (Proc.devRef .tc main_arg10)) (ix2 (4 : Fin 5) e) := fun e =>
    (ops6_v86 (Vb5 m d) (0 : Fin 1) e).trans ((congrFun ((kVb5 m d main_v19 (by decide)).trans ((kVr4 m d main_v19 (by decide)).trans ((kVa5 m d main_v19 (by decide)).trans ((kVb4 m d main_v19 (by decide)).trans ((kVr3 m d main_v19 (by decide)).trans ((kVa4 m d main_v19 (by decide)).trans ((kVb3 m d main_v19 (by decide)).trans ((kVr2 m d main_v19 (by decide)).trans ((kVa3 m d main_v19 (by decide)).trans ((kVb2 m d main_v19 (by decide)).trans ((kVr1 m d main_v19 (by decide)).trans ((kVa2 m d main_v19 (by decide)).trans ((kVb1 m d main_v19 (by decide)).trans ((kVr0 m d main_v19 (by decide)).trans ((kVa1 m d main_v19 (by decide)).trans (kVb0 m d main_v19 (by decide))))))))))))))))) _).trans (ops0_v19 (V0 m d) (4 : Fin 5) (0 : Fin 1) e))
  rw [show Vr5 m d (Proc.devRef .tc main_v87) = (D5 m d).arrAt 8 cfg11.N from Function.update_self _ _ _]
  unfold D5
  rw [read11]
  simp only [hX, hEW, hG, h3, h4, h5, h6, h7]

end Steps

end Cert.Proof.KernelReadStep

end
-- ==== Proof.KernelEqRef.lean ====
import proofs.«205547_g25623774888366_cont_9to1_713_27_alg».proof.Proof.Bridge
import proofs.«205547_g25623774888366_cont_9to1_713_27_alg».proof.Proof.RefSide
import proofs.«205547_g25623774888366_cont_9to1_713_27_alg».proof.Proof.PreFacts
import proofs.«205547_g25623774888366_cont_9to1_713_27_alg».proof.Proof.ValsI
import proofs.«205547_g25623774888366_cont_9to1_713_27_alg».proof.Proof.KernelReadEdge
import proofs.«205547_g25623774888366_cont_9to1_713_27_alg».proof.Proof.KernelReadStep
import proofs.«205547_g25623774888366_cont_9to1_713_27_alg».proof.Proof.Assembly

noncomputable section

open Idealize.ShloMosaic Idealize.ShloMosaic.ValueIdx Idealize.SL.Sem Idealize.ShloMosaic.StableHlo

namespace Cert.Proof.KernelEqRef

/-- THE VALUE EQUATION: under the precondition and on agreeing arguments, the array the kernel's last update
    step leaves is the reference's result term of its own launch contents. -/
theorem kernel_eq_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hag : Cert.Proof.Assembly.Agree m m') (c : Dev Cert.KernelIdeal.nD) :
    (Cert.Proof.ValsI.Vr5 m c (Proc.devRef .tc Cert.KernelIdeal.main_v87) : FVec Ideal ⟨2, ![10000, 128]⟩ .f32)
      = Cert.Proof.RefRead.res321 (launchContents m' c) := by
  have hk := Cert.Proof.PreFacts.of_Pre_KernelIdeal m hpre c
  have hI' : ∀ j, ((Cert.Proof.ValsI.V0 m c (Proc.devRef .tc Cert.KernelIdeal.main_arg2)) j).toNat < 10000 := fun j => (hk.idx j).lt
  obtain ⟨g0, g1, g2, g3, g4, g5, g6, g7, g8, g9, g10⟩ := hag c
  rw [← g0, ← g1, ← g2, ← g3, ← g4, ← g5, ← g6, ← g7, ← g8, ← g9, ← g10] at hk
  exact Cert.Proof.Bridge.bridgeA (launchContents m' c) hk
    (Cert.Proof.ValsI.V0 m c (Proc.devRef .tc Cert.KernelIdeal.main_arg0)) (Cert.Proof.ValsI.V0 m c (Proc.devRef .tc Cert.KernelIdeal.main_arg1)) (Cert.Proof.ValsI.V0 m c (Proc.devRef .tc Cert.KernelIdeal.main_arg2)) (Cert.Proof.ValsI.V0 m c (Proc.devRef .tc Cert.KernelIdeal.main_arg3)) (Cert.Proof.ValsI.V0 m c (Proc.devRef .tc Cert.KernelIdeal.main_arg4)) (Cert.Proof.ValsI.V0 m c (Proc.devRef .tc Cert.KernelIdeal.main_arg5))
    (Cert.Proof.ValsI.V0 m c (Proc.devRef .tc Cert.KernelIdeal.main_arg6)) (Cert.Proof.ValsI.V0 m c (Proc.devRef .tc Cert.KernelIdeal.main_arg7)) (Cert.Proof.ValsI.V0 m c (Proc.devRef .tc Cert.KernelIdeal.main_arg8)) (Cert.Proof.ValsI.V0 m c (Proc.devRef .tc Cert.KernelIdeal.main_arg9)) (Cert.Proof.ValsI.V0 m c (Proc.devRef .tc Cert.KernelIdeal.main_arg10))
    g0 g1 g2 g3 g4 g5 g6 g7 g8 g9 g10 hI'
    (Cert.Proof.ValsI.Vr0 m c (Proc.devRef .tc Cert.KernelIdeal.main_v22))
    (Cert.Proof.ValsI.Vr1 m c (Proc.devRef .tc Cert.KernelIdeal.main_v35)) (Cert.Proof.ValsI.Vr2 m c (Proc.devRef .tc Cert.KernelIdeal.main_v48))
    (Cert.Proof.ValsI.Vr3 m c (Proc.devRef .tc Cert.KernelIdeal.main_v61)) (Cert.Proof.ValsI.Vr4 m c (Proc.devRef .tc Cert.KernelIdeal.main_v74))
    (Cert.Proof.ValsI.Vr5 m c (Proc.devRef .tc Cert.KernelIdeal.main_v87))
    (Cert.Proof.KernelReadEdge.kedge m c hI')
    (fun n e => Cert.Proof.KernelReadStep.kstep0 m c hI' n e) (fun n e => Cert.Proof.KernelReadStep.kstep1 m c hI' n e)
    (fun n e => Cert.Proof.KernelReadStep.kstep2 m c hI' n e) (fun n e => Cert.Proof.KernelReadStep.kstep3 m c hI' n e)
    (fun n e => Cert.Proof.KernelReadStep.kstep4 m c hI' n e)

end Cert.Proof.KernelEqRef

end
-- ==== Proof.lean ====
/- Every weakly fair execution of either program ends with its arguments unchanged, and on inputs that satisfy the
   precondition the idealized kernel's result — edge softmax weights, then five gated neighbour updates each followed by
   a layer normalisation — is the reference's result: both are one real-valued function of the arguments. -/
import proofs.«205547_g25623774888366_cont_9to1_713_27_alg».proof.Defs
import proofs.«205547_g25623774888366_cont_9to1_713_27_alg».proof.Proof.Gen.Kernel
import proofs.«205547_g25623774888366_cont_9to1_713_27_alg».proof.Proof.Gen.Kernel.Skeleton
import proofs.«205547_g25623774888366_cont_9to1_713_27_alg».proof.Proof.Gen.Kernel.Launch
import proofs.«205547_g25623774888366_cont_9to1_713_27_alg».proof.Proof.Gen.Kernel.Regions
import proofs.«205547_g25623774888366_cont_9to1_713_27_alg».proof.Proof.Gen.Kernel.Points
import proofs.«205547_g25623774888366_cont_9to1_713_27_alg».proof.Proof.Gen.KernelIdeal
import proofs.«205547_g25623774888366_cont_9to1_713_27_alg».proof.Proof.Gen.KernelIdeal.Skeleton
import proofs.«205547_g25623774888366_cont_9to1_713_27_alg».proof.Proof.Gen.KernelIdeal.Launch
import proofs.«205547_g25623774888366_cont_9to1_713_27_alg».proof.Proof.Gen.KernelIdeal.Regions
import proofs.«205547_g25623774888366_cont_9to1_713_27_alg».proof.Proof.Gen.KernelIdeal.Points
import proofs.«205547_g25623774888366_cont_9to1_713_27_alg».proof.Proof.Gen.ReferenceIdeal
import proofs.«205547_g25623774888366_cont_9to1_713_27_alg».proof.Proof.Gen.Pre_input_domain
import proofs.«205547_g25623774888366_cont_9to1_713_27_alg».proof.Proof.Gen.ReferenceIdeal.Run
import Idealize.ShloMosaic.Adequacy
import Idealize.ShloMosaic.Init
import proofs.«205547_g25623774888366_cont_9to1_713_27_alg».proof.Proof.Assembly
import proofs.«205547_g25623774888366_cont_9to1_713_27_alg».proof.Proof.RefFrame
import proofs.«205547_g25623774888366_cont_9to1_713_27_alg».proof.Proof.ValsI
import proofs.«205547_g25623774888366_cont_9to1_713_27_alg».proof.Proof.KeepI
import proofs.«205547_g25623774888366_cont_9to1_713_27_alg».proof.Proof.RunI
import proofs.«205547_g25623774888366_cont_9to1_713_27_alg».proof.Proof.ValsB
import proofs.«205547_g25623774888366_cont_9to1_713_27_alg».proof.Proof.KeepB
import proofs.«205547_g25623774888366_cont_9to1_713_27_alg».proof.Proof.RunB
import proofs.«205547_g25623774888366_cont_9to1_713_27_alg».proof.Proof.RefSide
import proofs.«205547_g25623774888366_cont_9to1_713_27_alg».proof.Proof.KernelEqRef

noncomputable section

namespace Cert.Proof

open Idealize.ShloMosaic Idealize.SL.Sem

/-- The word-level kernel's frame: its run to the valuation after @main, which keeps the eleven arguments. -/
theorem frame_k : Cert.frame_Kernel :=
  Cert.Proof.Assembly.frame_k_of (fun m d => Cert.Proof.ValsB.Vr5 m d) (fun m ρ h2 => Cert.Proof.RunB.run_main m ρ h2)
    (fun m d => ⟨Cert.Proof.KeepB.arg0_Vr5 m d, Cert.Proof.KeepB.arg1_Vr5 m d, Cert.Proof.KeepB.arg2_Vr5 m d, Cert.Proof.KeepB.arg3_Vr5 m d, Cert.Proof.KeepB.arg4_Vr5 m d, Cert.Proof.KeepB.arg5_Vr5 m d, Cert.Proof.KeepB.arg6_Vr5 m d, Cert.Proof.KeepB.arg7_Vr5 m d, Cert.Proof.KeepB.arg8_Vr5 m d, Cert.Proof.KeepB.arg9_Vr5 m d, Cert.Proof.KeepB.arg10_Vr5 m d⟩)

/-- The idealized kernel's frame, the same way. -/
theorem frame_ki : Cert.frame_KernelIdeal :=
  Cert.Proof.Assembly.frame_ki_of (fun m d => Cert.Proof.ValsI.Vr5 m d) (fun m ρ h2 => Cert.Proof.RunI.run_main m ρ h2)
    (fun m d => ⟨Cert.Proof.KeepI.arg0_Vr5 m d, Cert.Proof.KeepI.arg1_Vr5 m d, Cert.Proof.KeepI.arg2_Vr5 m d, Cert.Proof.KeepI.arg3_Vr5 m d, Cert.Proof.KeepI.arg4_Vr5 m d, Cert.Proof.KeepI.arg5_Vr5 m d, Cert.Proof.KeepI.arg6_Vr5 m d, Cert.Proof.KeepI.arg7_Vr5 m d, Cert.Proof.KeepI.arg8_Vr5 m d, Cert.Proof.KeepI.arg9_Vr5 m d, Cert.Proof.KeepI.arg10_Vr5 m d⟩)

/-- The idealized kernel's result is the reference's: the kernel's run read at its result array, the reference's run to
    its result term, and the equation between the two under the precondition. -/
theorem algebraic : Cert.algebraic_KernelIdeal_ReferenceIdeal :=
  Cert.Proof.Assembly.algebraic_of (fun m d => Cert.Proof.ValsI.Vr5 m d)
    (fun m' c => Cert.Proof.RefRead.res321 (Idealize.ShloMosaic.StableHlo.launchContents m' c)) (fun m ρ h2 => Cert.Proof.RunI.run_main m ρ h2)
    (fun m d => ⟨Cert.Proof.KeepI.arg0_Vr5 m d, Cert.Proof.KeepI.arg1_Vr5 m d, Cert.Proof.KeepI.arg2_Vr5 m d, Cert.Proof.KeepI.arg3_Vr5 m d, Cert.Proof.KeepI.arg4_Vr5 m d, Cert.Proof.KeepI.arg5_Vr5 m d, Cert.Proof.KeepI.arg6_Vr5 m d, Cert.Proof.KeepI.arg7_Vr5 m d, Cert.Proof.KeepI.arg8_Vr5 m d, Cert.Proof.KeepI.arg9_Vr5 m d, Cert.Proof.KeepI.arg10_Vr5 m d⟩)
    (fun m' g' KOUT hK => Cert.Proof.RefSide.ref_run m' g' KOUT hK)
    (fun m m' hpre hag c => Cert.Proof.KernelEqRef.kernel_eq_ref m m' hpre hag c)

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, Cert.Proof.RefFrame.preserves, algebraic⟩

end Cert.Proof

end
